-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S32x32 : Shape := ⟨2, ![32, 32]⟩
abbrev S_ : Shape := ⟨0, ![]⟩

class Facts : Prop where
  bcast_S_S32x32 : S_.BroadcastsInDim S32x32 (![] : Fin 0 → Fin S32x32.rank)
  reducesTo_S32x32_S_d0_1 : S32x32.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part5 {F : FTy → Type} [FloatOps F] (main_arg6 : IVec S16384 32) (main_arg7 : IVec S16384 32) (main_v80 : IVec S_ 1) (main_v82 : IVec S16384 1) (main_v83 : IVec S16384 32) : IVec S_ 1 :=
  let main_v84 : IVec S16384 1 := cmpi .sle main_arg6 main_v83
  let main_v85 : IVec S16384 1 := andi main_v82 main_v84
  let main_c_34 : IVec S_ 1 := constantI S_ 1 1#1
  let main_v86 : IVec S_ 1 := (fun x v => Host.reduce IntOp.andi x v reducesTo_S16384_S_d0 h_S_) main_v85 main_c_34
  let main_v87 : IVec S_ 1 := andi main_v80 main_v86
  let main_c_35 : IVec S_ 32 := constantI S_ 32 0#32
  let main_v88 : IVec S16384 32 := broadcastInDim S16384 ![] bcast_S_S16384 main_c_35
  let main_v89 : IVec S16384 1 := cmpi .sge main_arg7 main_v88
  let main_c_36 : IVec S_ 32 := constantI S_ 32 31#32
  let main_v90 : IVec S16384 32 := broadcastInDim S16384 ![] bcast_S_S16384 main_c_36
  let main_v91 : IVec S16384 1 := cmpi .sle main_arg7 main_v90
  let main_v92 : IVec S16384 1 := andi main_v89 main_v91
  let main_c_37 : IVec S_ 1 := constantI S_ 1 1#1
  let main_v93 : IVec S_ 1 := (fun x v => Host.reduce IntOp.andi x v reducesTo_S16384_S_d0 h_S_) main_v92 main_c_37
  let main_v94 : IVec S_ 1 := andi main_v87 main_v93
  main_v94

def fn_part4 {F : FTy → Type} [FloatOps F] (main_arg4 : IVec S16384 32) (main_arg5 : IVec S16384 32) (main_arg6 : IVec S16384 32) (main_arg7 : IVec S16384 32) (main_v66 : IVec S_ 1) (main_c_26 : IVec S_ 32) : IVec S_ 1 :=
  let main_v67 : IVec S16384 32 := broadcastInDim S16384 ![] bcast_S_S16384 main_c_26
  let main_v68 : IVec S16384 1 := cmpi .sge main_arg4 main_v67
  let main_c_27 : IVec S_ 32 := constantI S_ 32 31#32
  let main_v69 : IVec S16384 32 := broadcastInDim S16384 ![] bcast_S_S16384 main_c_27
  let main_v70 : IVec S16384 1 := cmpi .sle main_arg4 main_v69
  let main_v71 : IVec S16384 1 := andi main_v68 main_v70
  let main_c_28 : IVec S_ 1 := constantI S_ 1 1#1
  let main_v72 : IVec S_ 1 := (fun x v => Host.reduce IntOp.andi x v reducesTo_S16384_S_d0 h_S_) main_v71 main_c_28
  let main_v73 : IVec S_ 1 := andi main_v66 main_v72
  let main_c_29 : IVec S_ 32 := constantI S_ 32 0#32
  let main_v74 : IVec S16384 32 := broadcastInDim S16384 ![] bcast_S_S16384 main_c_29
  let main_v75 : IVec S16384 1 := cmpi .sge main_arg5 main_v74
  let main_c_30 : IVec S_ 32 := constantI S_ 32 31#32
  let main_v76 : IVec S16384 32 := broadcastInDim S16384 ![] bcast_S_S16384 main_c_30
  let main_v77 : IVec S16384 1 := cmpi .sle main_arg5 main_v76
  let main_v78 : IVec S16384 1 := andi main_v75 main_v77
  let main_c_31 : IVec S_ 1 := constantI S_ 1 1#1
  let main_v79 : IVec S_ 1 := (fun x v => Host.reduce IntOp.andi x v reducesTo_S16384_S_d0 h_S_) main_v78 main_c_31
  let main_v80 : IVec S_ 1 := andi main_v73 main_v79
  let main_c_32 : IVec S_ 32 := constantI S_ 32 0#32
  let main_v81 : IVec S16384 32 := broadcastInDim S16384 ![] bcast_S_S16384 main_c_32
  let main_v82 : IVec S16384 1 := cmpi .sge main_arg6 main_v81
  let main_c_33 : IVec S_ 32 := constantI S_ 32 31#32
  let main_v83 : IVec S16384 32 := broadcastInDim S16384 ![] bcast_S_S16384 main_c_33
  fn_part5 (F := F) main_arg6 main_arg7 main_v80 main_v82 main_v83

def fn_part3 {F : FTy → Type} [FloatOps F] (main_arg2 : IVec S16384 32) (main_arg3 : IVec S16384 32) (main_arg4 : IVec S16384 32) (main_arg5 : IVec S16384 32) (main_arg6 : IVec S16384 32) (main_arg7 : IVec S16384 32) (main_v45 : IVec S_ 1) (main_v50 : IVec S16384 1) : IVec S_ 1 :=
  let main_c_19 : IVec S_ 1 := constantI S_ 1 1#1
  let main_v51 : IVec S_ 1 := (fun x v => Host.reduce IntOp.andi x v reducesTo_S16384_S_d0 h_S_) main_v50 main_c_19
  let main_v52 : IVec S_ 1 := andi main_v45 main_v51
  let main_c_20 : IVec S_ 32 := constantI S_ 32 0#32
  let main_v53 : IVec S16384 32 := broadcastInDim S16384 ![] bcast_S_S16384 main_c_20
  let main_v54 : IVec S16384 1 := cmpi .sge main_arg2 main_v53
  let main_c_21 : IVec S_ 32 := constantI S_ 32 31#32
  let main_v55 : IVec S16384 32 := broadcastInDim S16384 ![] bcast_S_S16384 main_c_21
  let main_v56 : IVec S16384 1 := cmpi .sle main_arg2 main_v55
  let main_v57 : IVec S16384 1 := andi main_v54 main_v56
  let main_c_22 : IVec S_ 1 := constantI S_ 1 1#1
  let main_v58 : IVec S_ 1 := (fun x v => Host.reduce IntOp.andi x v reducesTo_S16384_S_d0 h_S_) main_v57 main_c_22
  let main_v59 : IVec S_ 1 := andi main_v52 main_v58
  let main_c_23 : IVec S_ 32 := constantI S_ 32 0#32
  let main_v60 : IVec S16384 32 := broadcastInDim S16384 ![] bcast_S_S16384 main_c_23
  let main_v61 : IVec S16384 1 := cmpi .sge main_arg3 main_v60
  let main_c_24 : IVec S_ 32 := constantI S_ 32 31#32
  let main_v62 : IVec S16384 32 := broadcastInDim S16384 ![] bcast_S_S16384 main_c_24
  let main_v63 : IVec S16384 1 := cmpi .sle main_arg3 main_v62
  let main_v64 : IVec S16384 1 := andi main_v61 main_v63
  let main_c_25 : IVec S_ 1 := constantI S_ 1 1#1
  let main_v65 : IVec S_ 1 := (fun x v => Host.reduce IntOp.andi x v reducesTo_S16384_S_d0 h_S_) main_v64 main_c_25
  let main_v66 : IVec S_ 1 := andi main_v59 main_v65
  let main_c_26 : IVec S_ 32 := constantI S_ 32 0#32
  fn_part4 (F := F) main_arg4 main_arg5 main_arg6 main_arg7 main_v66 main_c_26

def fn_part2 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg15 : FVec F S32x32 .f32) (main_v33 : IVec S_ 1) : IVec S_ 1 :=
  let main_v34 : FVec F S32x32 .f32 := Host.absf main_arg15
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_c_14 : IVec S_ 32 := constantI S_ 32 0#32
  let main_v39 : IVec S16384 32 := broadcastInDim S16384 ![] bcast_S_S16384 main_c_14
  let main_v40 : IVec S16384 1 := cmpi .sge main_arg0 main_v39
  let main_c_15 : IVec S_ 32 := constantI S_ 32 31#32
  let main_v41 : IVec S16384 32 := broadcastInDim S16384 ![] bcast_S_S16384 main_c_15
  let main_v42 : IVec S16384 1 := cmpi .sle main_arg0 main_v41
  let main_v43 : IVec S16384 1 := andi main_v40 main_v42
  let main_c_16 : IVec S_ 1 := constantI S_ 1 1#1
  let main_v44 : IVec S_ 1 := (fun x v => Host.reduce IntOp.andi x v reducesTo_S16384_S_d0 h_S_) main_v43 main_c_16
  let main_v45 : IVec S_ 1 := andi main_v38 main_v44
  let main_c_17 : IVec S_ 32 := constantI S_ 32 0#32
  let main_v46 : IVec S16384 32 := broadcastInDim S16384 ![] bcast_S_S16384 main_c_17
  let main_v47 : IVec S16384 1 := cmpi .sge main_arg1 main_v46
  let main_c_18 : IVec S_ 32 := constantI S_ 32 31#32
  let main_v48 : IVec S16384 32 := broadcastInDim S16384 ![] bcast_S_S16384 main_c_18
  let main_v49 : IVec S16384 1 := cmpi .sle main_arg1 main_v48
  let main_v50 : IVec S16384 1 := andi main_v47 main_v49
  fn_part3 (F := F) main_arg2 main_arg3 main_arg4 main_arg5 main_arg6 main_arg7 main_v45 main_v50

def fn_part1 {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg12 : FVec F S32x32 .f32) (main_arg13 : FVec F S32x32 .f32) (main_arg14 : FVec F S32x32 .f32) (main_arg15 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x32 .f32 := Host.absf main_arg12
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg13
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg14
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg0 main_arg1 main_arg2 main_arg3 main_arg4 main_arg5 main_arg6 main_arg7 main_arg15 main_v33

def fn {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : FVec F S32x32 .f32) (main_arg9 : FVec F S32x32 .f32) (main_arg10 : FVec F S32x32 .f32) (main_arg11 : FVec F S32x32 .f32) (main_arg12 : FVec F S32x32 .f32) (main_arg13 : FVec F S32x32 .f32) (main_arg14 : FVec F S32x32 .f32) (main_arg15 : FVec F S32x32 .f32) : IVec S_ 1 :=
  let main_v0 : FVec F S32x32 .f32 := Host.absf main_arg8
  let main_cst : FVec F S_ .f32 := constant S_ .f32 0x7F800000#32
  let main_v1 : FVec F S32x32 .f32 := broadcastInDim S32x32 ![] bcast_S_S32x32 main_cst
  let main_v2 : IVec S32x32 1 := cmpf .olt main_v0 main_v1
  let main_c : IVec S_ 1 := constantI S_ 1 1#1
  let main_v3 : IVec S_ 1 := (fun x v => Host.reduce IntOp.andi x v reducesTo_S32x32_S_d0_1 h_S_) main_v2 main_c
  let main_v4 : FVec F S32x32 .f32 := Host.absf main_arg9
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32 .f32 := Host.absf main_arg10
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x32 .f32 := Host.absf main_arg11
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg0 main_arg1 main_arg2 main_arg3 main_arg4 main_arg5 main_arg6 main_arg7 main_arg12 main_arg13 main_arg14 main_arg15 main_v13 main_v16
-- ==== Kernel.lean ====
abbrev S16384 : Shape := ⟨1, ![16384]⟩
abbrev S32x32 : Shape := ⟨2, ![32, 32]⟩
abbrev S256x32 : Shape := ⟨2, ![256, 32]⟩
abbrev S8192 : Shape := ⟨1, ![8192]⟩
abbrev S4194304 : Shape := ⟨1, ![4194304]⟩
abbrev S16x4096 : Shape := ⟨2, ![16, 4096]⟩
abbrev S512 : Shape := ⟨1, ![512]⟩
abbrev S_ : Shape := ⟨0, ![]⟩
abbrev S1x512 : Shape := ⟨2, ![1, 512]⟩
abbrev S64 : Shape := ⟨1, ![64]⟩
abbrev S1x64 : Shape := ⟨2, ![1, 64]⟩
abbrev S1 : Shape := ⟨1, ![1]⟩
abbrev S16 : Shape := ⟨1, ![16]⟩
abbrev S16384x256 : Shape := ⟨2, ![16384, 256]⟩

abbrev nBuf : Table → Nat
  | .hbm => 20
  | .shared => 1
  | .local .scVector .smem => 2
  | .local .scVector .vmem => 3
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S32x32, .f32⟩
  | .hbm, ⟨14, _⟩ => ⟨S32x32, .f32⟩
  | .hbm, ⟨15, _⟩ => ⟨S32x32, .f32⟩
  | .hbm, ⟨16, _⟩ => ⟨S256x32, .f32⟩
  | .hbm, ⟨17, _⟩ => ⟨S8192, .f32⟩
  | .hbm, ⟨18, _⟩ => ⟨S4194304, .f32⟩
  | .hbm, ⟨19, _⟩ => ⟨S16384x256, .f32⟩
  | .shared, ⟨0, _⟩ => ⟨S16x4096, .i32⟩
  | .local .scVector .smem, ⟨0, _⟩ => ⟨S512, .i32⟩
  | .local .scVector .smem, ⟨1, _⟩ => ⟨S512, .i32⟩
  | .local .scVector .vmem, ⟨0, _⟩ => ⟨S8192, .f32⟩
  | .local .scVector .vmem, ⟨1, _⟩ => ⟨S16384, .f32⟩
  | .local .scVector .vmem, ⟨2, _⟩ => ⟨S16384, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_arg7_scv : Ref sig .scVector := ⟨.hbm, 7, rfl⟩
abbrev main_v1_scv : Ref sig .scVector := ⟨.hbm, 17, rfl⟩
abbrev main_v2_scv : Ref sig .scVector := ⟨.hbm, 18, rfl⟩
abbrev cc0_scratch1 : Ref sig .scVector := ⟨.shared, 0, rfl⟩
abbrev cc0_scratch2 : Ref sig .scVector := ⟨.smem, 0, rfl⟩
abbrev cc0_scratch3 : Ref sig .scVector := ⟨.smem, 1, rfl⟩
abbrev cc0_scratch0 : Ref sig .scVector := ⟨.vmem, 0, rfl⟩
abbrev cc0_scratch4 : Ref sig .scVector := ⟨.vmem, 1, rfl⟩
abbrev cc0_scratch5 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c0_i32 : BitVec 32 := 0#32
  ![arg1.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off3 (i : grid0.Coords) : Fin 2 → Nat :=
  let arg1 : BitVec 32 := BitVec.ofNat 32 (i 1).val
  let c512_i32_0 : BitVec 32 := 512#32
  ![arg1.toNat, 512]
def k0_off4 (i : grid0.Coords) : Fin 2 → Nat :=
  let arg1 : BitVec 32 := BitVec.ofNat 32 (i 1).val
  let c1024_i32 : BitVec 32 := 1024#32
  ![arg1.toNat, 1024]
def k0_off5 (i : grid0.Coords) : Fin 2 → Nat :=
  let arg1 : BitVec 32 := BitVec.ofNat 32 (i 1).val
  let c1536_i32 : BitVec 32 := 1536#32
  ![arg1.toNat, 1536]
def k0_off6 (i : grid0.Coords) : Fin 2 → Nat :=
  let arg1 : BitVec 32 := BitVec.ofNat 32 (i 1).val
  let c2048_i32 : BitVec 32 := 2048#32
  ![arg1.toNat, 2048]
def k0_off7 (i : grid0.Coords) : Fin 2 → Nat :=
  let arg1 : BitVec 32 := BitVec.ofNat 32 (i 1).val
  let c2560_i32 : BitVec 32 := 2560#32
  ![arg1.toNat, 2560]
def k0_off8 (i : grid0.Coords) : Fin 2 → Nat :=
  let arg1 : BitVec 32 := BitVec.ofNat 32 (i 1).val
  let c3072_i32 : BitVec 32 := 3072#32
  ![arg1.toNat, 3072]
def k0_off9 (i : grid0.Coords) : Fin 2 → Nat :=
  let arg1 : BitVec 32 := BitVec.ofNat 32 (i 1).val
  let c3584_i32 : BitVec 32 := 3584#32
  ![arg1.toNat, 3584]
def k0_off10 (i : grid0.Coords) : Fin 2 → Nat :=
  let arg1 : BitVec 32 := BitVec.ofNat 32 (i 1).val
  let c0_i32_10 : BitVec 32 := 0#32
  ![arg1.toNat, 0]
def k0_off11 (i : grid0.Coords) : Fin 2 → Nat :=
  let arg1 : BitVec 32 := BitVec.ofNat 32 (i 1).val
  let c512_i32_11 : BitVec 32 := 512#32
  ![arg1.toNat, 512]
def k0_off12 (i : grid0.Coords) : Fin 2 → Nat :=
  let arg1 : BitVec 32 := BitVec.ofNat 32 (i 1).val
  let c1024_i32_12 : BitVec 32 := 1024#32
  ![arg1.toNat, 1024]
def k0_off13 (i : grid0.Coords) : Fin 2 → Nat :=
  let arg1 : BitVec 32 := BitVec.ofNat 32 (i 1).val
  let c1536_i32_13 : BitVec 32 := 1536#32
  ![arg1.toNat, 1536]
def k0_off14 (i : grid0.Coords) : Fin 2 → Nat :=
  let arg1 : BitVec 32 := BitVec.ofNat 32 (i 1).val
  let c2048_i32_14 : BitVec 32 := 2048#32
  ![arg1.toNat, 2048]
def k0_off15 (i : grid0.Coords) : Fin 2 → Nat :=
  let arg1 : BitVec 32 := BitVec.ofNat 32 (i 1).val
  let c2560_i32_15 : BitVec 32 := 2560#32
  ![arg1.toNat, 2560]
def k0_off16 (i : grid0.Coords) : Fin 2 → Nat :=
  let arg1 : BitVec 32 := BitVec.ofNat 32 (i 1).val
  let c3072_i32_16 : BitVec 32 := 3072#32
  ![arg1.toNat, 3072]
def k0_off17 (i : grid0.Coords) : Fin 2 → Nat :=
  let arg1 : BitVec 32 := BitVec.ofNat 32 (i 1).val
  let c3584_i32_17 : BitVec 32 := 3584#32
  ![arg1.toNat, 3584]
def k0_off18 (i : grid0.Coords) : Fin 2 → Nat :=
  let arg1 : BitVec 32 := BitVec.ofNat 32 (i 1).val
  let c64_i32_19 : BitVec 32 := 64#32
  ![arg1.toNat, 64]
def k0_off19 (i : grid0.Coords) : Fin 2 → Nat :=
  let arg1 : BitVec 32 := BitVec.ofNat 32 (i 1).val
  let c576_i32 : BitVec 32 := 576#32
  ![arg1.toNat, 576]
def k0_off20 (i : grid0.Coords) : Fin 2 → Nat :=
  let arg1 : BitVec 32 := BitVec.ofNat 32 (i 1).val
  let c1088_i32 : BitVec 32 := 1088#32
  ![arg1.toNat, 1088]
def k0_off21 (i : grid0.Coords) : Fin 2 → Nat :=
  let arg1 : BitVec 32 := BitVec.ofNat 32 (i 1).val
  let c1600_i32 : BitVec 32 := 1600#32
  ![arg1.toNat, 1600]
def k0_off22 (i : grid0.Coords) : Fin 2 → Nat :=
  let arg1 : BitVec 32 := BitVec.ofNat 32 (i 1).val
  let c2112_i32 : BitVec 32 := 2112#32
  ![arg1.toNat, 2112]
def k0_off23 (i : grid0.Coords) : Fin 2 → Nat :=
  let arg1 : BitVec 32 := BitVec.ofNat 32 (i 1).val
  let c2624_i32 : BitVec 32 := 2624#32
  ![arg1.toNat, 2624]
def k0_off24 (i : grid0.Coords) : Fin 2 → Nat :=
  let arg1 : BitVec 32 := BitVec.ofNat 32 (i 1).val
  let c3136_i32 : BitVec 32 := 3136#32
  ![arg1.toNat, 3136]
def k0_off25 (i : grid0.Coords) : Fin 2 → Nat :=
  let arg1 : BitVec 32 := BitVec.ofNat 32 (i 1).val
  let c3648_i32 : BitVec 32 := 3648#32
  ![arg1.toNat, 3648]
@[reducible] def k0_t1_loop : Scf.Loop 32 :=
  let c0_i32_44 : BitVec 32 := 0#32
  let c64_i32_45 : BitVec 32 := 64#32
  let v123 : BitVec 32 := Scalar.addi c0_i32_44 c64_i32_45
  let c1_i32 : BitVec 32 := 1#32
  ⟨c0_i32_44, v123, c1_i32⟩
def k0_mult1 (k0_t1 : Fin k0_t1_loop.trips) : BitVec 32 :=
  let c0_i32_44 : BitVec 32 := 0#32
  let c1_i32 : BitVec 32 := 1#32
  let arg24 : BitVec 32 := Scf.iv c0_i32_44 c1_i32 k0_t1
  let c256_i32_264 : BitVec 32 := 256#32
  let v491 : BitVec 32 := Scalar.muli arg24 c256_i32_264
  v491
def k0_off26 (k0_t1 : Fin k0_t1_loop.trips) : Fin 1 → Nat :=
  let c0_i32_265 : BitVec 32 := 0#32
  let c0_i32_44 : BitVec 32 := 0#32
  let c1_i32 : BitVec 32 := 1#32
  let arg24 : BitVec 32 := Scf.iv c0_i32_44 c1_i32 k0_t1
  let v493 : BitVec 32 := Scalar.addi c0_i32_265 arg24
  let v494 : Index := Scalar.indexCast v493
  ![v494.toNat]
def k0_mult2 (v495 : BitVec 32) : BitVec 32 :=
  let c32_i32 : BitVec 32 := 32#32
  let v496 : BitVec 32 := Scalar.muli v495 c32_i32
  let c0_i32_266 : BitVec 32 := 0#32
  let v497 : BitVec 32 := Scalar.addi v496 c0_i32_266
  v497

def k0_off27 (v495 : BitVec 32) (c0_i32_267 : BitVec 32) : Fin 1 → Nat :=
  let c32_i32 : BitVec 32 := 32#32
  let v496 : BitVec 32 := Scalar.muli v495 c32_i32
  let c0_i32_266 : BitVec 32 := 0#32
  let v497 : BitVec 32 := Scalar.addi v496 c0_i32_266
  let v498 : BitVec 32 := v497
  let v499 : BitVec 32 := Scalar.addi v498 c0_i32_267
  let v500 : Index := Scalar.indexCast v499
  ![v500.toNat]

def k0_chk1 (v495 : BitVec 32) : Prop :=
  (32 ∣ (k0_mult2 v495).toNat) ∧
  (∀ (r : Fin 2), ∀ a, (k0_off27 v495 (BitVec.ofNat 32 (16 * r.val))) a + S16.size a ≤ S8192.size a)
instance k0_chk1.dec : ∀ (v495 : BitVec 32), Decidable (k0_chk1 v495) := fun v495 => decidable_of_iff' _ (Iff.of_eq (k0_chk1.eq_1 v495))
theorem k0_mult2_dvd : ∀ (v495 : BitVec 32) (k0_hw1 : k0_chk1 v495), 32 ∣ (k0_mult2 v495).toNat := fun v495 k0_hw1 => k0_hw1.1
theorem k0_off27_inb : ∀ (v495 : BitVec 32) (k0_hw1 : k0_chk1 v495), ∀ (r : Fin 2), ∀ a, (k0_off27 v495 (BitVec.ofNat 32 (16 * r.val))) a + S16.size a ≤ S8192.size a := fun v495 k0_hw1 r => k0_hw1.2 r

def k0_off28 (k0_t1 : Fin k0_t1_loop.trips) (c0_i32_269 : BitVec 32) : Fin 1 → Nat :=
  let c0_i32_44 : BitVec 32 := 0#32
  let c1_i32 : BitVec 32 := 1#32
  let arg24 : BitVec 32 := Scf.iv c0_i32_44 c1_i32 k0_t1
  let c256_i32_264 : BitVec 32 := 256#32
  let v491 : BitVec 32 := Scalar.muli arg24 c256_i32_264
  let v492 : BitVec 32 := v491
  let c0_i32_268 : BitVec 32 := 0#32
  let v502 : BitVec 32 := Scalar.addi v492 c0_i32_268
  let v503 : BitVec 32 := Scalar.addi v502 c0_i32_269
  let v504 : Index := Scalar.indexCast v503
  ![v504.toNat]
def k0_off29 (k0_t1 : Fin k0_t1_loop.trips) : Fin 1 → Nat :=
  let c64_i32_272 : BitVec 32 := 64#32
  let c0_i32_44 : BitVec 32 := 0#32
  let c1_i32 : BitVec 32 := 1#32
  let arg24 : BitVec 32 := Scf.iv c0_i32_44 c1_i32 k0_t1
  let v513 : BitVec 32 := Scalar.addi c64_i32_272 arg24
  let v514 : Index := Scalar.indexCast v513
  ![v514.toNat]
def k0_mult3 (v515 : BitVec 32) : BitVec 32 :=
  let c32_i32_273 : BitVec 32 := 32#32
  let v516 : BitVec 32 := Scalar.muli v515 c32_i32_273
  let c1024_i32_274 : BitVec 32 := 1024#32
  let v517 : BitVec 32 := Scalar.addi v516 c1024_i32_274
  v517

def k0_off30 (v515 : BitVec 32) (c0_i32_275 : BitVec 32) : Fin 1 → Nat :=
  let c32_i32_273 : BitVec 32 := 32#32
  let v516 : BitVec 32 := Scalar.muli v515 c32_i32_273
  let c1024_i32_274 : BitVec 32 := 1024#32
  let v517 : BitVec 32 := Scalar.addi v516 c1024_i32_274
  let v518 : BitVec 32 := v517
  let v519 : BitVec 32 := Scalar.addi v518 c0_i32_275
  let v520 : Index := Scalar.indexCast v519
  ![v520.toNat]

def k0_chk2 (v515 : BitVec 32) : Prop :=
  (32 ∣ (k0_mult3 v515).toNat) ∧
  (∀ (r : Fin 2), ∀ a, (k0_off30 v515 (BitVec.ofNat 32 (16 * r.val))) a + S16.size a ≤ S8192.size a)
instance k0_chk2.dec : ∀ (v515 : BitVec 32), Decidable (k0_chk2 v515) := fun v515 => decidable_of_iff' _ (Iff.of_eq (k0_chk2.eq_1 v515))
theorem k0_mult3_dvd : ∀ (v515 : BitVec 32) (k0_hw2 : k0_chk2 v515), 32 ∣ (k0_mult3 v515).toNat := fun v515 k0_hw2 => k0_hw2.1
theorem k0_off30_inb : ∀ (v515 : BitVec 32) (k0_hw2 : k0_chk2 v515), ∀ (r : Fin 2), ∀ a, (k0_off30 v515 (BitVec.ofNat 32 (16 * r.val))) a + S16.size a ≤ S8192.size a := fun v515 k0_hw2 r => k0_hw2.2 r

def k0_off31 (k0_t1 : Fin k0_t1_loop.trips) (c0_i32_277 : BitVec 32) : Fin 1 → Nat :=
  let c0_i32_44 : BitVec 32 := 0#32
  let c1_i32 : BitVec 32 := 1#32
  let arg24 : BitVec 32 := Scf.iv c0_i32_44 c1_i32 k0_t1
  let c256_i32_264 : BitVec 32 := 256#32
  let v491 : BitVec 32 := Scalar.muli arg24 c256_i32_264
  let v492 : BitVec 32 := v491
  let c32_i32_276 : BitVec 32 := 32#32
  let v522 : BitVec 32 := Scalar.addi v492 c32_i32_276
  let v523 : BitVec 32 := Scalar.addi v522 c0_i32_277
  let v524 : Index := Scalar.indexCast v523
  ![v524.toNat]
def k0_off32 (k0_t1 : Fin k0_t1_loop.trips) : Fin 1 → Nat :=
  let c128_i32_281 : BitVec 32 := 128#32
  let c0_i32_44 : BitVec 32 := 0#32
  let c1_i32 : BitVec 32 := 1#32
  let arg24 : BitVec 32 := Scf.iv c0_i32_44 c1_i32 k0_t1
  let v533 : BitVec 32 := Scalar.addi c128_i32_281 arg24
  let v534 : Index := Scalar.indexCast v533
  ![v534.toNat]
def k0_mult4 (v535 : BitVec 32) : BitVec 32 :=
  let c32_i32_282 : BitVec 32 := 32#32
  let v536 : BitVec 32 := Scalar.muli v535 c32_i32_282
  let c2048_i32_283 : BitVec 32 := 2048#32
  let v537 : BitVec 32 := Scalar.addi v536 c2048_i32_283
  v537

def k0_off33 (v535 : BitVec 32) (c0_i32_284 : BitVec 32) : Fin 1 → Nat :=
  let c32_i32_282 : BitVec 32 := 32#32
  let v536 : BitVec 32 := Scalar.muli v535 c32_i32_282
  let c2048_i32_283 : BitVec 32 := 2048#32
  let v537 : BitVec 32 := Scalar.addi v536 c2048_i32_283
  let v538 : BitVec 32 := v537
  let v539 : BitVec 32 := Scalar.addi v538 c0_i32_284
  let v540 : Index := Scalar.indexCast v539
  ![v540.toNat]

def k0_chk3 (v535 : BitVec 32) : Prop :=
  (32 ∣ (k0_mult4 v535).toNat) ∧
  (∀ (r : Fin 2), ∀ a, (k0_off33 v535 (BitVec.ofNat 32 (16 * r.val))) a + S16.size a ≤ S8192.size a)
instance k0_chk3.dec : ∀ (v535 : BitVec 32), Decidable (k0_chk3 v535) := fun v535 => decidable_of_iff' _ (Iff.of_eq (k0_chk3.eq_1 v535))
theorem k0_mult4_dvd : ∀ (v535 : BitVec 32) (k0_hw3 : k0_chk3 v535), 32 ∣ (k0_mult4 v535).toNat := fun v535 k0_hw3 => k0_hw3.1
theorem k0_off33_inb : ∀ (v535 : BitVec 32) (k0_hw3 : k0_chk3 v535), ∀ (r : Fin 2), ∀ a, (k0_off33 v535 (BitVec.ofNat 32 (16 * r.val))) a + S16.size a ≤ S8192.size a := fun v535 k0_hw3 r => k0_hw3.2 r

def k0_off34 (k0_t1 : Fin k0_t1_loop.trips) (c0_i32_286 : BitVec 32) : Fin 1 → Nat :=
  let c0_i32_44 : BitVec 32 := 0#32
  let c1_i32 : BitVec 32 := 1#32
  let arg24 : BitVec 32 := Scf.iv c0_i32_44 c1_i32 k0_t1
  let c256_i32_264 : BitVec 32 := 256#32
  let v491 : BitVec 32 := Scalar.muli arg24 c256_i32_264
  let v492 : BitVec 32 := v491
  let c64_i32_285 : BitVec 32 := 64#32
  let v542 : BitVec 32 := Scalar.addi v492 c64_i32_285
  let v543 : BitVec 32 := Scalar.addi v542 c0_i32_286
  let v544 : Index := Scalar.indexCast v543
  ![v544.toNat]
def k0_off35 (k0_t1 : Fin k0_t1_loop.trips) : Fin 1 → Nat :=
  let c192_i32_290 : BitVec 32 := 192#32
  let c0_i32_44 : BitVec 32 := 0#32
  let c1_i32 : BitVec 32 := 1#32
  let arg24 : BitVec 32 := Scf.iv c0_i32_44 c1_i32 k0_t1
  let v553 : BitVec 32 := Scalar.addi c192_i32_290 arg24
  let v554 : Index := Scalar.indexCast v553
  ![v554.toNat]
def k0_mult5 (v555 : BitVec 32) : BitVec 32 :=
  let c32_i32_291 : BitVec 32 := 32#32
  let v556 : BitVec 32 := Scalar.muli v555 c32_i32_291
  let c3072_i32_292 : BitVec 32 := 3072#32
  let v557 : BitVec 32 := Scalar.addi v556 c3072_i32_292
  v557

def k0_off36 (v555 : BitVec 32) (c0_i32_293 : BitVec 32) : Fin 1 → Nat :=
  let c32_i32_291 : BitVec 32 := 32#32
  let v556 : BitVec 32 := Scalar.muli v555 c32_i32_291
  let c3072_i32_292 : BitVec 32 := 3072#32
  let v557 : BitVec 32 := Scalar.addi v556 c3072_i32_292
  let v558 : BitVec 32 := v557
  let v559 : BitVec 32 := Scalar.addi v558 c0_i32_293
  let v560 : Index := Scalar.indexCast v559
  ![v560.toNat]

def k0_chk4 (v555 : BitVec 32) : Prop :=
  (32 ∣ (k0_mult5 v555).toNat) ∧
  (∀ (r : Fin 2), ∀ a, (k0_off36 v555 (BitVec.ofNat 32 (16 * r.val))) a + S16.size a ≤ S8192.size a)
instance k0_chk4.dec : ∀ (v555 : BitVec 32), Decidable (k0_chk4 v555) := fun v555 => decidable_of_iff' _ (Iff.of_eq (k0_chk4.eq_1 v555))
theorem k0_mult5_dvd : ∀ (v555 : BitVec 32) (k0_hw4 : k0_chk4 v555), 32 ∣ (k0_mult5 v555).toNat := fun v555 k0_hw4 => k0_hw4.1
theorem k0_off36_inb : ∀ (v555 : BitVec 32) (k0_hw4 : k0_chk4 v555), ∀ (r : Fin 2), ∀ a, (k0_off36 v555 (BitVec.ofNat 32 (16 * r.val))) a + S16.size a ≤ S8192.size a := fun v555 k0_hw4 r => k0_hw4.2 r

def k0_off37 (k0_t1 : Fin k0_t1_loop.trips) (c0_i32_294 : BitVec 32) : Fin 1 → Nat :=
  let c0_i32_44 : BitVec 32 := 0#32
  let c1_i32 : BitVec 32 := 1#32
  let arg24 : BitVec 32 := Scf.iv c0_i32_44 c1_i32 k0_t1
  let c256_i32_264 : BitVec 32 := 256#32
  let v491 : BitVec 32 := Scalar.muli arg24 c256_i32_264
  let v492 : BitVec 32 := v491
  let c96_i32 : BitVec 32 := 96#32
  let v562 : BitVec 32 := Scalar.addi v492 c96_i32
  let v563 : BitVec 32 := Scalar.addi v562 c0_i32_294
  let v564 : Index := Scalar.indexCast v563
  ![v564.toNat]
def k0_off38 (k0_t1 : Fin k0_t1_loop.trips) : Fin 1 → Nat :=
  let c256_i32_298 : BitVec 32 := 256#32
  let c0_i32_44 : BitVec 32 := 0#32
  let c1_i32 : BitVec 32 := 1#32
  let arg24 : BitVec 32 := Scf.iv c0_i32_44 c1_i32 k0_t1
  let v573 : BitVec 32 := Scalar.addi c256_i32_298 arg24
  let v574 : Index := Scalar.indexCast v573
  ![v574.toNat]
def k0_mult6 (v575 : BitVec 32) : BitVec 32 :=
  let c32_i32_299 : BitVec 32 := 32#32
  let v576 : BitVec 32 := Scalar.muli v575 c32_i32_299
  let c4096_i32 : BitVec 32 := 4096#32
  let v577 : BitVec 32 := Scalar.addi v576 c4096_i32
  v577

def k0_off39 (v575 : BitVec 32) (c0_i32_300 : BitVec 32) : Fin 1 → Nat :=
  let c32_i32_299 : BitVec 32 := 32#32
  let v576 : BitVec 32 := Scalar.muli v575 c32_i32_299
  let c4096_i32 : BitVec 32 := 4096#32
  let v577 : BitVec 32 := Scalar.addi v576 c4096_i32
  let v578 : BitVec 32 := v577
  let v579 : BitVec 32 := Scalar.addi v578 c0_i32_300
  let v580 : Index := Scalar.indexCast v579
  ![v580.toNat]

def k0_chk5 (v575 : BitVec 32) : Prop :=
  (32 ∣ (k0_mult6 v575).toNat) ∧
  (∀ (r : Fin 2), ∀ a, (k0_off39 v575 (BitVec.ofNat 32 (16 * r.val))) a + S16.size a ≤ S8192.size a)
instance k0_chk5.dec : ∀ (v575 : BitVec 32), Decidable (k0_chk5 v575) := fun v575 => decidable_of_iff' _ (Iff.of_eq (k0_chk5.eq_1 v575))
theorem k0_mult6_dvd : ∀ (v575 : BitVec 32) (k0_hw5 : k0_chk5 v575), 32 ∣ (k0_mult6 v575).toNat := fun v575 k0_hw5 => k0_hw5.1
theorem k0_off39_inb : ∀ (v575 : BitVec 32) (k0_hw5 : k0_chk5 v575), ∀ (r : Fin 2), ∀ a, (k0_off39 v575 (BitVec.ofNat 32 (16 * r.val))) a + S16.size a ≤ S8192.size a := fun v575 k0_hw5 r => k0_hw5.2 r

def k0_off40 (k0_t1 : Fin k0_t1_loop.trips) (c0_i32_302 : BitVec 32) : Fin 1 → Nat :=
  let c0_i32_44 : BitVec 32 := 0#32
  let c1_i32 : BitVec 32 := 1#32
  let arg24 : BitVec 32 := Scf.iv c0_i32_44 c1_i32 k0_t1
  let c256_i32_264 : BitVec 32 := 256#32
  let v491 : BitVec 32 := Scalar.muli arg24 c256_i32_264
  let v492 : BitVec 32 := v491
  let c128_i32_301 : BitVec 32 := 128#32
  let v582 : BitVec 32 := Scalar.addi v492 c128_i32_301
  let v583 : BitVec 32 := Scalar.addi v582 c0_i32_302
  let v584 : Index := Scalar.indexCast v583
  ![v584.toNat]
def k0_off41 (k0_t1 : Fin k0_t1_loop.trips) : Fin 1 → Nat :=
  let c320_i32_306 : BitVec 32 := 320#32
  let c0_i32_44 : BitVec 32 := 0#32
  let c1_i32 : BitVec 32 := 1#32
  let arg24 : BitVec 32 := Scf.iv c0_i32_44 c1_i32 k0_t1
  let v593 : BitVec 32 := Scalar.addi c320_i32_306 arg24
  let v594 : Index := Scalar.indexCast v593
  ![v594.toNat]
def k0_mult7 (v595 : BitVec 32) : BitVec 32 :=
  let c32_i32_307 : BitVec 32 := 32#32
  let v596 : BitVec 32 := Scalar.muli v595 c32_i32_307
  let c5120_i32 : BitVec 32 := 5120#32
  let v597 : BitVec 32 := Scalar.addi v596 c5120_i32
  v597

def k0_off42 (v595 : BitVec 32) (c0_i32_308 : BitVec 32) : Fin 1 → Nat :=
  let c32_i32_307 : BitVec 32 := 32#32
  let v596 : BitVec 32 := Scalar.muli v595 c32_i32_307
  let c5120_i32 : BitVec 32 := 5120#32
  let v597 : BitVec 32 := Scalar.addi v596 c5120_i32
  let v598 : BitVec 32 := v597
  let v599 : BitVec 32 := Scalar.addi v598 c0_i32_308
  let v600 : Index := Scalar.indexCast v599
  ![v600.toNat]

def k0_chk6 (v595 : BitVec 32) : Prop :=
  (32 ∣ (k0_mult7 v595).toNat) ∧
  (∀ (r : Fin 2), ∀ a, (k0_off42 v595 (BitVec.ofNat 32 (16 * r.val))) a + S16.size a ≤ S8192.size a)
instance k0_chk6.dec : ∀ (v595 : BitVec 32), Decidable (k0_chk6 v595) := fun v595 => decidable_of_iff' _ (Iff.of_eq (k0_chk6.eq_1 v595))
theorem k0_mult7_dvd : ∀ (v595 : BitVec 32) (k0_hw6 : k0_chk6 v595), 32 ∣ (k0_mult7 v595).toNat := fun v595 k0_hw6 => k0_hw6.1
theorem k0_off42_inb : ∀ (v595 : BitVec 32) (k0_hw6 : k0_chk6 v595), ∀ (r : Fin 2), ∀ a, (k0_off42 v595 (BitVec.ofNat 32 (16 * r.val))) a + S16.size a ≤ S8192.size a := fun v595 k0_hw6 r => k0_hw6.2 r

def k0_off43 (k0_t1 : Fin k0_t1_loop.trips) (c0_i32_309 : BitVec 32) : Fin 1 → Nat :=
  let c0_i32_44 : BitVec 32 := 0#32
  let c1_i32 : BitVec 32 := 1#32
  let arg24 : BitVec 32 := Scf.iv c0_i32_44 c1_i32 k0_t1
  let c256_i32_264 : BitVec 32 := 256#32
  let v491 : BitVec 32 := Scalar.muli arg24 c256_i32_264
  let v492 : BitVec 32 := v491
  let c160_i32 : BitVec 32 := 160#32
  let v602 : BitVec 32 := Scalar.addi v492 c160_i32
  let v603 : BitVec 32 := Scalar.addi v602 c0_i32_309
  let v604 : Index := Scalar.indexCast v603
  ![v604.toNat]
def k0_off44 (k0_t1 : Fin k0_t1_loop.trips) : Fin 1 → Nat :=
  let c384_i32_313 : BitVec 32 := 384#32
  let c0_i32_44 : BitVec 32 := 0#32
  let c1_i32 : BitVec 32 := 1#32
  let arg24 : BitVec 32 := Scf.iv c0_i32_44 c1_i32 k0_t1
  let v613 : BitVec 32 := Scalar.addi c384_i32_313 arg24
  let v614 : Index := Scalar.indexCast v613
  ![v614.toNat]
def k0_mult8 (v615 : BitVec 32) : BitVec 32 :=
  let c32_i32_314 : BitVec 32 := 32#32
  let v616 : BitVec 32 := Scalar.muli v615 c32_i32_314
  let c6144_i32 : BitVec 32 := 6144#32
  let v617 : BitVec 32 := Scalar.addi v616 c6144_i32
  v617

def k0_off45 (v615 : BitVec 32) (c0_i32_315 : BitVec 32) : Fin 1 → Nat :=
  let c32_i32_314 : BitVec 32 := 32#32
  let v616 : BitVec 32 := Scalar.muli v615 c32_i32_314
  let c6144_i32 : BitVec 32 := 6144#32
  let v617 : BitVec 32 := Scalar.addi v616 c6144_i32
  let v618 : BitVec 32 := v617
  let v619 : BitVec 32 := Scalar.addi v618 c0_i32_315
  let v620 : Index := Scalar.indexCast v619
  ![v620.toNat]

def k0_chk7 (v615 : BitVec 32) : Prop :=
  (32 ∣ (k0_mult8 v615).toNat) ∧
  (∀ (r : Fin 2), ∀ a, (k0_off45 v615 (BitVec.ofNat 32 (16 * r.val))) a + S16.size a ≤ S8192.size a)
instance k0_chk7.dec : ∀ (v615 : BitVec 32), Decidable (k0_chk7 v615) := fun v615 => decidable_of_iff' _ (Iff.of_eq (k0_chk7.eq_1 v615))
theorem k0_mult8_dvd : ∀ (v615 : BitVec 32) (k0_hw7 : k0_chk7 v615), 32 ∣ (k0_mult8 v615).toNat := fun v615 k0_hw7 => k0_hw7.1
theorem k0_off45_inb : ∀ (v615 : BitVec 32) (k0_hw7 : k0_chk7 v615), ∀ (r : Fin 2), ∀ a, (k0_off45 v615 (BitVec.ofNat 32 (16 * r.val))) a + S16.size a ≤ S8192.size a := fun v615 k0_hw7 r => k0_hw7.2 r

def k0_off46 (k0_t1 : Fin k0_t1_loop.trips) (c0_i32_317 : BitVec 32) : Fin 1 → Nat :=
  let c0_i32_44 : BitVec 32 := 0#32
  let c1_i32 : BitVec 32 := 1#32
  let arg24 : BitVec 32 := Scf.iv c0_i32_44 c1_i32 k0_t1
  let c256_i32_264 : BitVec 32 := 256#32
  let v491 : BitVec 32 := Scalar.muli arg24 c256_i32_264
  let v492 : BitVec 32 := v491
  let c192_i32_316 : BitVec 32 := 192#32
  let v622 : BitVec 32 := Scalar.addi v492 c192_i32_316
  let v623 : BitVec 32 := Scalar.addi v622 c0_i32_317
  let v624 : Index := Scalar.indexCast v623
  ![v624.toNat]
def k0_off47 (k0_t1 : Fin k0_t1_loop.trips) : Fin 1 → Nat :=
  let c448_i32_321 : BitVec 32 := 448#32
  let c0_i32_44 : BitVec 32 := 0#32
  let c1_i32 : BitVec 32 := 1#32
  let arg24 : BitVec 32 := Scf.iv c0_i32_44 c1_i32 k0_t1
  let v633 : BitVec 32 := Scalar.addi c448_i32_321 arg24
  let v634 : Index := Scalar.indexCast v633
  ![v634.toNat]
def k0_mult9 (v635 : BitVec 32) : BitVec 32 :=
  let c32_i32_322 : BitVec 32 := 32#32
  let v636 : BitVec 32 := Scalar.muli v635 c32_i32_322
  let c7168_i32 : BitVec 32 := 7168#32
  let v637 : BitVec 32 := Scalar.addi v636 c7168_i32
  v637

def k0_off48 (v635 : BitVec 32) (c0_i32_323 : BitVec 32) : Fin 1 → Nat :=
  let c32_i32_322 : BitVec 32 := 32#32
  let v636 : BitVec 32 := Scalar.muli v635 c32_i32_322
  let c7168_i32 : BitVec 32 := 7168#32
  let v637 : BitVec 32 := Scalar.addi v636 c7168_i32
  let v638 : BitVec 32 := v637
  let v639 : BitVec 32 := Scalar.addi v638 c0_i32_323
  let v640 : Index := Scalar.indexCast v639
  ![v640.toNat]

def k0_chk8 (v635 : BitVec 32) : Prop :=
  (32 ∣ (k0_mult9 v635).toNat) ∧
  (∀ (r : Fin 2), ∀ a, (k0_off48 v635 (BitVec.ofNat 32 (16 * r.val))) a + S16.size a ≤ S8192.size a)
instance k0_chk8.dec : ∀ (v635 : BitVec 32), Decidable (k0_chk8 v635) := fun v635 => decidable_of_iff' _ (Iff.of_eq (k0_chk8.eq_1 v635))
theorem k0_mult9_dvd : ∀ (v635 : BitVec 32) (k0_hw8 : k0_chk8 v635), 32 ∣ (k0_mult9 v635).toNat := fun v635 k0_hw8 => k0_hw8.1
theorem k0_off48_inb : ∀ (v635 : BitVec 32) (k0_hw8 : k0_chk8 v635), ∀ (r : Fin 2), ∀ a, (k0_off48 v635 (BitVec.ofNat 32 (16 * r.val))) a + S16.size a ≤ S8192.size a := fun v635 k0_hw8 r => k0_hw8.2 r

def k0_off49 (k0_t1 : Fin k0_t1_loop.trips) (c0_i32_324 : BitVec 32) : Fin 1 → Nat :=
  let c0_i32_44 : BitVec 32 := 0#32
  let c1_i32 : BitVec 32 := 1#32
  let arg24 : BitVec 32 := Scf.iv c0_i32_44 c1_i32 k0_t1
  let c256_i32_264 : BitVec 32 := 256#32
  let v491 : BitVec 32 := Scalar.muli arg24 c256_i32_264
  let v492 : BitVec 32 := v491
  let c224_i32 : BitVec 32 := 224#32
  let v642 : BitVec 32 := Scalar.addi v492 c224_i32
  let v643 : BitVec 32 := Scalar.addi v642 c0_i32_324
  let v644 : Index := Scalar.indexCast v643
  ![v644.toNat]
def k0_off50 (i : grid0.Coords) (c0_i32_47 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v124 : BitVec 32 := Scalar.addi v2 c0_i32_47
  let c256_i32_48 : BitVec 32 := 256#32
  let v125 : BitVec 32 := Scalar.muli v124 c256_i32_48
  ![v125.toNat]
def k0_off51 (i : grid0.Coords) : Fin 2 → Nat :=
  let arg1 : BitVec 32 := BitVec.ofNat 32 (i 1).val
  let c128_i32_50 : BitVec 32 := 128#32
  ![arg1.toNat, 128]
def k0_off52 (i : grid0.Coords) : Fin 2 → Nat :=
  let arg1 : BitVec 32 := BitVec.ofNat 32 (i 1).val
  let c640_i32 : BitVec 32 := 640#32
  ![arg1.toNat, 640]
def k0_off53 (i : grid0.Coords) : Fin 2 → Nat :=
  let arg1 : BitVec 32 := BitVec.ofNat 32 (i 1).val
  let c1152_i32 : BitVec 32 := 1152#32
  ![arg1.toNat, 1152]
def k0_off54 (i : grid0.Coords) : Fin 2 → Nat :=
  let arg1 : BitVec 32 := BitVec.ofNat 32 (i 1).val
  let c1664_i32 : BitVec 32 := 1664#32
  ![arg1.toNat, 1664]
def k0_off55 (i : grid0.Coords) : Fin 2 → Nat :=
  let arg1 : BitVec 32 := BitVec.ofNat 32 (i 1).val
  let c2176_i32 : BitVec 32 := 2176#32
  ![arg1.toNat, 2176]
def k0_off56 (i : grid0.Coords) : Fin 2 → Nat :=
  let arg1 : BitVec 32 := BitVec.ofNat 32 (i 1).val
  let c2688_i32 : BitVec 32 := 2688#32
  ![arg1.toNat, 2688]
def k0_off57 (i : grid0.Coords) : Fin 2 → Nat :=
  let arg1 : BitVec 32 := BitVec.ofNat 32 (i 1).val
  let c3200_i32 : BitVec 32 := 3200#32
  ![arg1.toNat, 3200]
def k0_off58 (i : grid0.Coords) : Fin 2 → Nat :=
  let arg1 : BitVec 32 := BitVec.ofNat 32 (i 1).val
  let c3712_i32 : BitVec 32 := 3712#32
  ![arg1.toNat, 3712]
@[reducible] def k0_t2_loop : Scf.Loop 32 :=
  let c0_i32_75 : BitVec 32 := 0#32
  let c64_i32_76 : BitVec 32 := 64#32
  let v176 : BitVec 32 := Scalar.addi c0_i32_75 c64_i32_76
  let c1_i32_77 : BitVec 32 := 1#32
  ⟨c0_i32_75, v176, c1_i32_77⟩
def k0_mult10 (k0_t2 : Fin k0_t2_loop.trips) : BitVec 32 :=
  let c0_i32_75 : BitVec 32 := 0#32
  let c1_i32_77 : BitVec 32 := 1#32
  let arg24 : BitVec 32 := Scf.iv c0_i32_75 c1_i32_77 k0_t2
  let c256_i32_264 : BitVec 32 := 256#32
  let v491 : BitVec 32 := Scalar.muli arg24 c256_i32_264
  v491
def k0_off59 (k0_t2 : Fin k0_t2_loop.trips) : Fin 1 → Nat :=
  let c0_i32_265 : BitVec 32 := 0#32
  let c0_i32_75 : BitVec 32 := 0#32
  let c1_i32_77 : BitVec 32 := 1#32
  let arg24 : BitVec 32 := Scf.iv c0_i32_75 c1_i32_77 k0_t2
  let v493 : BitVec 32 := Scalar.addi c0_i32_265 arg24
  let v494 : Index := Scalar.indexCast v493
  ![v494.toNat]
def k0_mult11 (v495 : BitVec 32) : BitVec 32 :=
  let c32_i32 : BitVec 32 := 32#32
  let v496 : BitVec 32 := Scalar.muli v495 c32_i32
  let c0_i32_266 : BitVec 32 := 0#32
  let v497 : BitVec 32 := Scalar.addi v496 c0_i32_266
  v497

def k0_off60 (v495 : BitVec 32) (c0_i32_267 : BitVec 32) : Fin 1 → Nat :=
  let c32_i32 : BitVec 32 := 32#32
  let v496 : BitVec 32 := Scalar.muli v495 c32_i32
  let c0_i32_266 : BitVec 32 := 0#32
  let v497 : BitVec 32 := Scalar.addi v496 c0_i32_266
  let v498 : BitVec 32 := v497
  let v499 : BitVec 32 := Scalar.addi v498 c0_i32_267
  let v500 : Index := Scalar.indexCast v499
  ![v500.toNat]

def k0_chk9 (v495 : BitVec 32) : Prop :=
  (32 ∣ (k0_mult11 v495).toNat) ∧
  (∀ (r : Fin 2), ∀ a, (k0_off60 v495 (BitVec.ofNat 32 (16 * r.val))) a + S16.size a ≤ S8192.size a)
instance k0_chk9.dec : ∀ (v495 : BitVec 32), Decidable (k0_chk9 v495) := fun v495 => decidable_of_iff' _ (Iff.of_eq (k0_chk9.eq_1 v495))
theorem k0_mult11_dvd : ∀ (v495 : BitVec 32) (k0_hw9 : k0_chk9 v495), 32 ∣ (k0_mult11 v495).toNat := fun v495 k0_hw9 => k0_hw9.1
theorem k0_off60_inb : ∀ (v495 : BitVec 32) (k0_hw9 : k0_chk9 v495), ∀ (r : Fin 2), ∀ a, (k0_off60 v495 (BitVec.ofNat 32 (16 * r.val))) a + S16.size a ≤ S8192.size a := fun v495 k0_hw9 r => k0_hw9.2 r

def k0_off61 (k0_t2 : Fin k0_t2_loop.trips) (c0_i32_269 : BitVec 32) : Fin 1 → Nat :=
  let c0_i32_75 : BitVec 32 := 0#32
  let c1_i32_77 : BitVec 32 := 1#32
  let arg24 : BitVec 32 := Scf.iv c0_i32_75 c1_i32_77 k0_t2
  let c256_i32_264 : BitVec 32 := 256#32
  let v491 : BitVec 32 := Scalar.muli arg24 c256_i32_264
  let v492 : BitVec 32 := v491
  let c0_i32_268 : BitVec 32 := 0#32
  let v502 : BitVec 32 := Scalar.addi v492 c0_i32_268
  let v503 : BitVec 32 := Scalar.addi v502 c0_i32_269
  let v504 : Index := Scalar.indexCast v503
  ![v504.toNat]
def k0_off62 (k0_t2 : Fin k0_t2_loop.trips) : Fin 1 → Nat :=
  let c64_i32_272 : BitVec 32 := 64#32
  let c0_i32_75 : BitVec 32 := 0#32
  let c1_i32_77 : BitVec 32 := 1#32
  let arg24 : BitVec 32 := Scf.iv c0_i32_75 c1_i32_77 k0_t2
  let v513 : BitVec 32 := Scalar.addi c64_i32_272 arg24
  let v514 : Index := Scalar.indexCast v513
  ![v514.toNat]
def k0_mult12 (v515 : BitVec 32) : BitVec 32 :=
  let c32_i32_273 : BitVec 32 := 32#32
  let v516 : BitVec 32 := Scalar.muli v515 c32_i32_273
  let c1024_i32_274 : BitVec 32 := 1024#32
  let v517 : BitVec 32 := Scalar.addi v516 c1024_i32_274
  v517

def k0_off63 (v515 : BitVec 32) (c0_i32_275 : BitVec 32) : Fin 1 → Nat :=
  let c32_i32_273 : BitVec 32 := 32#32
  let v516 : BitVec 32 := Scalar.muli v515 c32_i32_273
  let c1024_i32_274 : BitVec 32 := 1024#32
  let v517 : BitVec 32 := Scalar.addi v516 c1024_i32_274
  let v518 : BitVec 32 := v517
  let v519 : BitVec 32 := Scalar.addi v518 c0_i32_275
  let v520 : Index := Scalar.indexCast v519
  ![v520.toNat]

def k0_chk10 (v515 : BitVec 32) : Prop :=
  (32 ∣ (k0_mult12 v515).toNat) ∧
  (∀ (r : Fin 2), ∀ a, (k0_off63 v515 (BitVec.ofNat 32 (16 * r.val))) a + S16.size a ≤ S8192.size a)
instance k0_chk10.dec : ∀ (v515 : BitVec 32), Decidable (k0_chk10 v515) := fun v515 => decidable_of_iff' _ (Iff.of_eq (k0_chk10.eq_1 v515))
theorem k0_mult12_dvd : ∀ (v515 : BitVec 32) (k0_hw10 : k0_chk10 v515), 32 ∣ (k0_mult12 v515).toNat := fun v515 k0_hw10 => k0_hw10.1
theorem k0_off63_inb : ∀ (v515 : BitVec 32) (k0_hw10 : k0_chk10 v515), ∀ (r : Fin 2), ∀ a, (k0_off63 v515 (BitVec.ofNat 32 (16 * r.val))) a + S16.size a ≤ S8192.size a := fun v515 k0_hw10 r => k0_hw10.2 r

def k0_off64 (k0_t2 : Fin k0_t2_loop.trips) (c0_i32_277 : BitVec 32) : Fin 1 → Nat :=
  let c0_i32_75 : BitVec 32 := 0#32
  let c1_i32_77 : BitVec 32 := 1#32
  let arg24 : BitVec 32 := Scf.iv c0_i32_75 c1_i32_77 k0_t2
  let c256_i32_264 : BitVec 32 := 256#32
  let v491 : BitVec 32 := Scalar.muli arg24 c256_i32_264
  let v492 : BitVec 32 := v491
  let c32_i32_276 : BitVec 32 := 32#32
  let v522 : BitVec 32 := Scalar.addi v492 c32_i32_276
  let v523 : BitVec 32 := Scalar.addi v522 c0_i32_277
  let v524 : Index := Scalar.indexCast v523
  ![v524.toNat]
def k0_off65 (k0_t2 : Fin k0_t2_loop.trips) : Fin 1 → Nat :=
  let c128_i32_281 : BitVec 32 := 128#32
  let c0_i32_75 : BitVec 32 := 0#32
  let c1_i32_77 : BitVec 32 := 1#32
  let arg24 : BitVec 32 := Scf.iv c0_i32_75 c1_i32_77 k0_t2
  let v533 : BitVec 32 := Scalar.addi c128_i32_281 arg24
  let v534 : Index := Scalar.indexCast v533
  ![v534.toNat]
def k0_mult13 (v535 : BitVec 32) : BitVec 32 :=
  let c32_i32_282 : BitVec 32 := 32#32
  let v536 : BitVec 32 := Scalar.muli v535 c32_i32_282
  let c2048_i32_283 : BitVec 32 := 2048#32
  let v537 : BitVec 32 := Scalar.addi v536 c2048_i32_283
  v537

def k0_off66 (v535 : BitVec 32) (c0_i32_284 : BitVec 32) : Fin 1 → Nat :=
  let c32_i32_282 : BitVec 32 := 32#32
  let v536 : BitVec 32 := Scalar.muli v535 c32_i32_282
  let c2048_i32_283 : BitVec 32 := 2048#32
  let v537 : BitVec 32 := Scalar.addi v536 c2048_i32_283
  let v538 : BitVec 32 := v537
  let v539 : BitVec 32 := Scalar.addi v538 c0_i32_284
  let v540 : Index := Scalar.indexCast v539
  ![v540.toNat]

def k0_chk11 (v535 : BitVec 32) : Prop :=
  (32 ∣ (k0_mult13 v535).toNat) ∧
  (∀ (r : Fin 2), ∀ a, (k0_off66 v535 (BitVec.ofNat 32 (16 * r.val))) a + S16.size a ≤ S8192.size a)
instance k0_chk11.dec : ∀ (v535 : BitVec 32), Decidable (k0_chk11 v535) := fun v535 => decidable_of_iff' _ (Iff.of_eq (k0_chk11.eq_1 v535))
theorem k0_mult13_dvd : ∀ (v535 : BitVec 32) (k0_hw11 : k0_chk11 v535), 32 ∣ (k0_mult13 v535).toNat := fun v535 k0_hw11 => k0_hw11.1
theorem k0_off66_inb : ∀ (v535 : BitVec 32) (k0_hw11 : k0_chk11 v535), ∀ (r : Fin 2), ∀ a, (k0_off66 v535 (BitVec.ofNat 32 (16 * r.val))) a + S16.size a ≤ S8192.size a := fun v535 k0_hw11 r => k0_hw11.2 r

def k0_off67 (k0_t2 : Fin k0_t2_loop.trips) (c0_i32_286 : BitVec 32) : Fin 1 → Nat :=
  let c0_i32_75 : BitVec 32 := 0#32
  let c1_i32_77 : BitVec 32 := 1#32
  let arg24 : BitVec 32 := Scf.iv c0_i32_75 c1_i32_77 k0_t2
  let c256_i32_264 : BitVec 32 := 256#32
  let v491 : BitVec 32 := Scalar.muli arg24 c256_i32_264
  let v492 : BitVec 32 := v491
  let c64_i32_285 : BitVec 32 := 64#32
  let v542 : BitVec 32 := Scalar.addi v492 c64_i32_285
  let v543 : BitVec 32 := Scalar.addi v542 c0_i32_286
  let v544 : Index := Scalar.indexCast v543
  ![v544.toNat]
def k0_off68 (k0_t2 : Fin k0_t2_loop.trips) : Fin 1 → Nat :=
  let c192_i32_290 : BitVec 32 := 192#32
  let c0_i32_75 : BitVec 32 := 0#32
  let c1_i32_77 : BitVec 32 := 1#32
  let arg24 : BitVec 32 := Scf.iv c0_i32_75 c1_i32_77 k0_t2
  let v553 : BitVec 32 := Scalar.addi c192_i32_290 arg24
  let v554 : Index := Scalar.indexCast v553
  ![v554.toNat]
def k0_mult14 (v555 : BitVec 32) : BitVec 32 :=
  let c32_i32_291 : BitVec 32 := 32#32
  let v556 : BitVec 32 := Scalar.muli v555 c32_i32_291
  let c3072_i32_292 : BitVec 32 := 3072#32
  let v557 : BitVec 32 := Scalar.addi v556 c3072_i32_292
  v557

def k0_off69 (v555 : BitVec 32) (c0_i32_293 : BitVec 32) : Fin 1 → Nat :=
  let c32_i32_291 : BitVec 32 := 32#32
  let v556 : BitVec 32 := Scalar.muli v555 c32_i32_291
  let c3072_i32_292 : BitVec 32 := 3072#32
  let v557 : BitVec 32 := Scalar.addi v556 c3072_i32_292
  let v558 : BitVec 32 := v557
  let v559 : BitVec 32 := Scalar.addi v558 c0_i32_293
  let v560 : Index := Scalar.indexCast v559
  ![v560.toNat]

def k0_chk12 (v555 : BitVec 32) : Prop :=
  (32 ∣ (k0_mult14 v555).toNat) ∧
  (∀ (r : Fin 2), ∀ a, (k0_off69 v555 (BitVec.ofNat 32 (16 * r.val))) a + S16.size a ≤ S8192.size a)
instance k0_chk12.dec : ∀ (v555 : BitVec 32), Decidable (k0_chk12 v555) := fun v555 => decidable_of_iff' _ (Iff.of_eq (k0_chk12.eq_1 v555))
theorem k0_mult14_dvd : ∀ (v555 : BitVec 32) (k0_hw12 : k0_chk12 v555), 32 ∣ (k0_mult14 v555).toNat := fun v555 k0_hw12 => k0_hw12.1
theorem k0_off69_inb : ∀ (v555 : BitVec 32) (k0_hw12 : k0_chk12 v555), ∀ (r : Fin 2), ∀ a, (k0_off69 v555 (BitVec.ofNat 32 (16 * r.val))) a + S16.size a ≤ S8192.size a := fun v555 k0_hw12 r => k0_hw12.2 r

def k0_off70 (k0_t2 : Fin k0_t2_loop.trips) (c0_i32_294 : BitVec 32) : Fin 1 → Nat :=
  let c0_i32_75 : BitVec 32 := 0#32
  let c1_i32_77 : BitVec 32 := 1#32
  let arg24 : BitVec 32 := Scf.iv c0_i32_75 c1_i32_77 k0_t2
  let c256_i32_264 : BitVec 32 := 256#32
  let v491 : BitVec 32 := Scalar.muli arg24 c256_i32_264
  let v492 : BitVec 32 := v491
  let c96_i32 : BitVec 32 := 96#32
  let v562 : BitVec 32 := Scalar.addi v492 c96_i32
  let v563 : BitVec 32 := Scalar.addi v562 c0_i32_294
  let v564 : Index := Scalar.indexCast v563
  ![v564.toNat]
def k0_off71 (k0_t2 : Fin k0_t2_loop.trips) : Fin 1 → Nat :=
  let c256_i32_298 : BitVec 32 := 256#32
  let c0_i32_75 : BitVec 32 := 0#32
  let c1_i32_77 : BitVec 32 := 1#32
  let arg24 : BitVec 32 := Scf.iv c0_i32_75 c1_i32_77 k0_t2
  let v573 : BitVec 32 := Scalar.addi c256_i32_298 arg24
  let v574 : Index := Scalar.indexCast v573
  ![v574.toNat]
def k0_mult15 (v575 : BitVec 32) : BitVec 32 :=
  let c32_i32_299 : BitVec 32 := 32#32
  let v576 : BitVec 32 := Scalar.muli v575 c32_i32_299
  let c4096_i32 : BitVec 32 := 4096#32
  let v577 : BitVec 32 := Scalar.addi v576 c4096_i32
  v577

def k0_off72 (v575 : BitVec 32) (c0_i32_300 : BitVec 32) : Fin 1 → Nat :=
  let c32_i32_299 : BitVec 32 := 32#32
  let v576 : BitVec 32 := Scalar.muli v575 c32_i32_299
  let c4096_i32 : BitVec 32 := 4096#32
  let v577 : BitVec 32 := Scalar.addi v576 c4096_i32
  let v578 : BitVec 32 := v577
  let v579 : BitVec 32 := Scalar.addi v578 c0_i32_300
  let v580 : Index := Scalar.indexCast v579
  ![v580.toNat]

def k0_chk13 (v575 : BitVec 32) : Prop :=
  (32 ∣ (k0_mult15 v575).toNat) ∧
  (∀ (r : Fin 2), ∀ a, (k0_off72 v575 (BitVec.ofNat 32 (16 * r.val))) a + S16.size a ≤ S8192.size a)
instance k0_chk13.dec : ∀ (v575 : BitVec 32), Decidable (k0_chk13 v575) := fun v575 => decidable_of_iff' _ (Iff.of_eq (k0_chk13.eq_1 v575))
theorem k0_mult15_dvd : ∀ (v575 : BitVec 32) (k0_hw13 : k0_chk13 v575), 32 ∣ (k0_mult15 v575).toNat := fun v575 k0_hw13 => k0_hw13.1
theorem k0_off72_inb : ∀ (v575 : BitVec 32) (k0_hw13 : k0_chk13 v575), ∀ (r : Fin 2), ∀ a, (k0_off72 v575 (BitVec.ofNat 32 (16 * r.val))) a + S16.size a ≤ S8192.size a := fun v575 k0_hw13 r => k0_hw13.2 r

def k0_off73 (k0_t2 : Fin k0_t2_loop.trips) (c0_i32_302 : BitVec 32) : Fin 1 → Nat :=
  let c0_i32_75 : BitVec 32 := 0#32
  let c1_i32_77 : BitVec 32 := 1#32
  let arg24 : BitVec 32 := Scf.iv c0_i32_75 c1_i32_77 k0_t2
  let c256_i32_264 : BitVec 32 := 256#32
  let v491 : BitVec 32 := Scalar.muli arg24 c256_i32_264
  let v492 : BitVec 32 := v491
  let c128_i32_301 : BitVec 32 := 128#32
  let v582 : BitVec 32 := Scalar.addi v492 c128_i32_301
  let v583 : BitVec 32 := Scalar.addi v582 c0_i32_302
  let v584 : Index := Scalar.indexCast v583
  ![v584.toNat]
def k0_off74 (k0_t2 : Fin k0_t2_loop.trips) : Fin 1 → Nat :=
  let c320_i32_306 : BitVec 32 := 320#32
  let c0_i32_75 : BitVec 32 := 0#32
  let c1_i32_77 : BitVec 32 := 1#32
  let arg24 : BitVec 32 := Scf.iv c0_i32_75 c1_i32_77 k0_t2
  let v593 : BitVec 32 := Scalar.addi c320_i32_306 arg24
  let v594 : Index := Scalar.indexCast v593
  ![v594.toNat]
def k0_mult16 (v595 : BitVec 32) : BitVec 32 :=
  let c32_i32_307 : BitVec 32 := 32#32
  let v596 : BitVec 32 := Scalar.muli v595 c32_i32_307
  let c5120_i32 : BitVec 32 := 5120#32
  let v597 : BitVec 32 := Scalar.addi v596 c5120_i32
  v597

def k0_off75 (v595 : BitVec 32) (c0_i32_308 : BitVec 32) : Fin 1 → Nat :=
  let c32_i32_307 : BitVec 32 := 32#32
  let v596 : BitVec 32 := Scalar.muli v595 c32_i32_307
  let c5120_i32 : BitVec 32 := 5120#32
  let v597 : BitVec 32 := Scalar.addi v596 c5120_i32
  let v598 : BitVec 32 := v597
  let v599 : BitVec 32 := Scalar.addi v598 c0_i32_308
  let v600 : Index := Scalar.indexCast v599
  ![v600.toNat]

def k0_chk14 (v595 : BitVec 32) : Prop :=
  (32 ∣ (k0_mult16 v595).toNat) ∧
  (∀ (r : Fin 2), ∀ a, (k0_off75 v595 (BitVec.ofNat 32 (16 * r.val))) a + S16.size a ≤ S8192.size a)
instance k0_chk14.dec : ∀ (v595 : BitVec 32), Decidable (k0_chk14 v595) := fun v595 => decidable_of_iff' _ (Iff.of_eq (k0_chk14.eq_1 v595))
theorem k0_mult16_dvd : ∀ (v595 : BitVec 32) (k0_hw14 : k0_chk14 v595), 32 ∣ (k0_mult16 v595).toNat := fun v595 k0_hw14 => k0_hw14.1
theorem k0_off75_inb : ∀ (v595 : BitVec 32) (k0_hw14 : k0_chk14 v595), ∀ (r : Fin 2), ∀ a, (k0_off75 v595 (BitVec.ofNat 32 (16 * r.val))) a + S16.size a ≤ S8192.size a := fun v595 k0_hw14 r => k0_hw14.2 r

def k0_off76 (k0_t2 : Fin k0_t2_loop.trips) (c0_i32_309 : BitVec 32) : Fin 1 → Nat :=
  let c0_i32_75 : BitVec 32 := 0#32
  let c1_i32_77 : BitVec 32 := 1#32
  let arg24 : BitVec 32 := Scf.iv c0_i32_75 c1_i32_77 k0_t2
  let c256_i32_264 : BitVec 32 := 256#32
  let v491 : BitVec 32 := Scalar.muli arg24 c256_i32_264
  let v492 : BitVec 32 := v491
  let c160_i32 : BitVec 32 := 160#32
  let v602 : BitVec 32 := Scalar.addi v492 c160_i32
  let v603 : BitVec 32 := Scalar.addi v602 c0_i32_309
  let v604 : Index := Scalar.indexCast v603
  ![v604.toNat]
def k0_off77 (k0_t2 : Fin k0_t2_loop.trips) : Fin 1 → Nat :=
  let c384_i32_313 : BitVec 32 := 384#32
  let c0_i32_75 : BitVec 32 := 0#32
  let c1_i32_77 : BitVec 32 := 1#32
  let arg24 : BitVec 32 := Scf.iv c0_i32_75 c1_i32_77 k0_t2
  let v613 : BitVec 32 := Scalar.addi c384_i32_313 arg24
  let v614 : Index := Scalar.indexCast v613
  ![v614.toNat]
def k0_mult17 (v615 : BitVec 32) : BitVec 32 :=
  let c32_i32_314 : BitVec 32 := 32#32
  let v616 : BitVec 32 := Scalar.muli v615 c32_i32_314
  let c6144_i32 : BitVec 32 := 6144#32
  let v617 : BitVec 32 := Scalar.addi v616 c6144_i32
  v617

def k0_off78 (v615 : BitVec 32) (c0_i32_315 : BitVec 32) : Fin 1 → Nat :=
  let c32_i32_314 : BitVec 32 := 32#32
  let v616 : BitVec 32 := Scalar.muli v615 c32_i32_314
  let c6144_i32 : BitVec 32 := 6144#32
  let v617 : BitVec 32 := Scalar.addi v616 c6144_i32
  let v618 : BitVec 32 := v617
  let v619 : BitVec 32 := Scalar.addi v618 c0_i32_315
  let v620 : Index := Scalar.indexCast v619
  ![v620.toNat]

def k0_chk15 (v615 : BitVec 32) : Prop :=
  (32 ∣ (k0_mult17 v615).toNat) ∧
  (∀ (r : Fin 2), ∀ a, (k0_off78 v615 (BitVec.ofNat 32 (16 * r.val))) a + S16.size a ≤ S8192.size a)
instance k0_chk15.dec : ∀ (v615 : BitVec 32), Decidable (k0_chk15 v615) := fun v615 => decidable_of_iff' _ (Iff.of_eq (k0_chk15.eq_1 v615))
theorem k0_mult17_dvd : ∀ (v615 : BitVec 32) (k0_hw15 : k0_chk15 v615), 32 ∣ (k0_mult17 v615).toNat := fun v615 k0_hw15 => k0_hw15.1
theorem k0_off78_inb : ∀ (v615 : BitVec 32) (k0_hw15 : k0_chk15 v615), ∀ (r : Fin 2), ∀ a, (k0_off78 v615 (BitVec.ofNat 32 (16 * r.val))) a + S16.size a ≤ S8192.size a := fun v615 k0_hw15 r => k0_hw15.2 r

def k0_off79 (k0_t2 : Fin k0_t2_loop.trips) (c0_i32_317 : BitVec 32) : Fin 1 → Nat :=
  let c0_i32_75 : BitVec 32 := 0#32
  let c1_i32_77 : BitVec 32 := 1#32
  let arg24 : BitVec 32 := Scf.iv c0_i32_75 c1_i32_77 k0_t2
  let c256_i32_264 : BitVec 32 := 256#32
  let v491 : BitVec 32 := Scalar.muli arg24 c256_i32_264
  let v492 : BitVec 32 := v491
  let c192_i32_316 : BitVec 32 := 192#32
  let v622 : BitVec 32 := Scalar.addi v492 c192_i32_316
  let v623 : BitVec 32 := Scalar.addi v622 c0_i32_317
  let v624 : Index := Scalar.indexCast v623
  ![v624.toNat]
def k0_off80 (k0_t2 : Fin k0_t2_loop.trips) : Fin 1 → Nat :=
  let c448_i32_321 : BitVec 32 := 448#32
  let c0_i32_75 : BitVec 32 := 0#32
  let c1_i32_77 : BitVec 32 := 1#32
  let arg24 : BitVec 32 := Scf.iv c0_i32_75 c1_i32_77 k0_t2
  let v633 : BitVec 32 := Scalar.addi c448_i32_321 arg24
  let v634 : Index := Scalar.indexCast v633
  ![v634.toNat]
def k0_mult18 (v635 : BitVec 32) : BitVec 32 :=
  let c32_i32_322 : BitVec 32 := 32#32
  let v636 : BitVec 32 := Scalar.muli v635 c32_i32_322
  let c7168_i32 : BitVec 32 := 7168#32
  let v637 : BitVec 32 := Scalar.addi v636 c7168_i32
  v637

def k0_off81 (v635 : BitVec 32) (c0_i32_323 : BitVec 32) : Fin 1 → Nat :=
  let c32_i32_322 : BitVec 32 := 32#32
  let v636 : BitVec 32 := Scalar.muli v635 c32_i32_322
  let c7168_i32 : BitVec 32 := 7168#32
  let v637 : BitVec 32 := Scalar.addi v636 c7168_i32
  let v638 : BitVec 32 := v637
  let v639 : BitVec 32 := Scalar.addi v638 c0_i32_323
  let v640 : Index := Scalar.indexCast v639
  ![v640.toNat]

def k0_chk16 (v635 : BitVec 32) : Prop :=
  (32 ∣ (k0_mult18 v635).toNat) ∧
  (∀ (r : Fin 2), ∀ a, (k0_off81 v635 (BitVec.ofNat 32 (16 * r.val))) a + S16.size a ≤ S8192.size a)
instance k0_chk16.dec : ∀ (v635 : BitVec 32), Decidable (k0_chk16 v635) := fun v635 => decidable_of_iff' _ (Iff.of_eq (k0_chk16.eq_1 v635))
theorem k0_mult18_dvd : ∀ (v635 : BitVec 32) (k0_hw16 : k0_chk16 v635), 32 ∣ (k0_mult18 v635).toNat := fun v635 k0_hw16 => k0_hw16.1
theorem k0_off81_inb : ∀ (v635 : BitVec 32) (k0_hw16 : k0_chk16 v635), ∀ (r : Fin 2), ∀ a, (k0_off81 v635 (BitVec.ofNat 32 (16 * r.val))) a + S16.size a ≤ S8192.size a := fun v635 k0_hw16 r => k0_hw16.2 r

def k0_off82 (k0_t2 : Fin k0_t2_loop.trips) (c0_i32_324 : BitVec 32) : Fin 1 → Nat :=
  let c0_i32_75 : BitVec 32 := 0#32
  let c1_i32_77 : BitVec 32 := 1#32
  let arg24 : BitVec 32 := Scf.iv c0_i32_75 c1_i32_77 k0_t2
  let c256_i32_264 : BitVec 32 := 256#32
  let v491 : BitVec 32 := Scalar.muli arg24 c256_i32_264
  let v492 : BitVec 32 := v491
  let c224_i32 : BitVec 32 := 224#32
  let v642 : BitVec 32 := Scalar.addi v492 c224_i32
  let v643 : BitVec 32 := Scalar.addi v642 c0_i32_324
  let v644 : Index := Scalar.indexCast v643
  ![v644.toNat]
def k0_off83 (i : grid0.Coords) : Fin 2 → Nat :=
  let arg1 : BitVec 32 := BitVec.ofNat 32 (i 1).val
  let c192_i32_82 : BitVec 32 := 192#32
  ![arg1.toNat, 192]
def k0_off84 (i : grid0.Coords) : Fin 2 → Nat :=
  let arg1 : BitVec 32 := BitVec.ofNat 32 (i 1).val
  let c704_i32 : BitVec 32 := 704#32
  ![arg1.toNat, 704]
def k0_off85 (i : grid0.Coords) : Fin 2 → Nat :=
  let arg1 : BitVec 32 := BitVec.ofNat 32 (i 1).val
  let c1216_i32 : BitVec 32 := 1216#32
  ![arg1.toNat, 1216]
def k0_off86 (i : grid0.Coords) : Fin 2 → Nat :=
  let arg1 : BitVec 32 := BitVec.ofNat 32 (i 1).val
  let c1728_i32 : BitVec 32 := 1728#32
  ![arg1.toNat, 1728]
def k0_off87 (i : grid0.Coords) : Fin 2 → Nat :=
  let arg1 : BitVec 32 := BitVec.ofNat 32 (i 1).val
  let c2240_i32 : BitVec 32 := 2240#32
  ![arg1.toNat, 2240]
def k0_off88 (i : grid0.Coords) : Fin 2 → Nat :=
  let arg1 : BitVec 32 := BitVec.ofNat 32 (i 1).val
  let c2752_i32 : BitVec 32 := 2752#32
  ![arg1.toNat, 2752]
def k0_off89 (i : grid0.Coords) : Fin 2 → Nat :=
  let arg1 : BitVec 32 := BitVec.ofNat 32 (i 1).val
  let c3264_i32 : BitVec 32 := 3264#32
  ![arg1.toNat, 3264]
def k0_off90 (i : grid0.Coords) : Fin 2 → Nat :=
  let arg1 : BitVec 32 := BitVec.ofNat 32 (i 1).val
  let c3776_i32 : BitVec 32 := 3776#32
  ![arg1.toNat, 3776]
@[reducible] def k0_t3_loop : Scf.Loop 32 :=
  let c0_i32_107 : BitVec 32 := 0#32
  let c64_i32_108 : BitVec 32 := 64#32
  let v231 : BitVec 32 := Scalar.addi c0_i32_107 c64_i32_108
  let c1_i32_109 : BitVec 32 := 1#32
  ⟨c0_i32_107, v231, c1_i32_109⟩
def k0_mult19 (k0_t3 : Fin k0_t3_loop.trips) : BitVec 32 :=
  let c0_i32_107 : BitVec 32 := 0#32
  let c1_i32_109 : BitVec 32 := 1#32
  let arg24 : BitVec 32 := Scf.iv c0_i32_107 c1_i32_109 k0_t3
  let c256_i32_264 : BitVec 32 := 256#32
  let v491 : BitVec 32 := Scalar.muli arg24 c256_i32_264
  v491
def k0_off91 (k0_t3 : Fin k0_t3_loop.trips) : Fin 1 → Nat :=
  let c0_i32_265 : BitVec 32 := 0#32
  let c0_i32_107 : BitVec 32 := 0#32
  let c1_i32_109 : BitVec 32 := 1#32
  let arg24 : BitVec 32 := Scf.iv c0_i32_107 c1_i32_109 k0_t3
  let v493 : BitVec 32 := Scalar.addi c0_i32_265 arg24
  let v494 : Index := Scalar.indexCast v493
  ![v494.toNat]
def k0_mult20 (v495 : BitVec 32) : BitVec 32 :=
  let c32_i32 : BitVec 32 := 32#32
  let v496 : BitVec 32 := Scalar.muli v495 c32_i32
  let c0_i32_266 : BitVec 32 := 0#32
  let v497 : BitVec 32 := Scalar.addi v496 c0_i32_266
  v497

def k0_off92 (v495 : BitVec 32) (c0_i32_267 : BitVec 32) : Fin 1 → Nat :=
  let c32_i32 : BitVec 32 := 32#32
  let v496 : BitVec 32 := Scalar.muli v495 c32_i32
  let c0_i32_266 : BitVec 32 := 0#32
  let v497 : BitVec 32 := Scalar.addi v496 c0_i32_266
  let v498 : BitVec 32 := v497
  let v499 : BitVec 32 := Scalar.addi v498 c0_i32_267
  let v500 : Index := Scalar.indexCast v499
  ![v500.toNat]

def k0_chk17 (v495 : BitVec 32) : Prop :=
  (32 ∣ (k0_mult20 v495).toNat) ∧
  (∀ (r : Fin 2), ∀ a, (k0_off92 v495 (BitVec.ofNat 32 (16 * r.val))) a + S16.size a ≤ S8192.size a)
instance k0_chk17.dec : ∀ (v495 : BitVec 32), Decidable (k0_chk17 v495) := fun v495 => decidable_of_iff' _ (Iff.of_eq (k0_chk17.eq_1 v495))
theorem k0_mult20_dvd : ∀ (v495 : BitVec 32) (k0_hw17 : k0_chk17 v495), 32 ∣ (k0_mult20 v495).toNat := fun v495 k0_hw17 => k0_hw17.1
theorem k0_off92_inb : ∀ (v495 : BitVec 32) (k0_hw17 : k0_chk17 v495), ∀ (r : Fin 2), ∀ a, (k0_off92 v495 (BitVec.ofNat 32 (16 * r.val))) a + S16.size a ≤ S8192.size a := fun v495 k0_hw17 r => k0_hw17.2 r

def k0_off93 (k0_t3 : Fin k0_t3_loop.trips) (c0_i32_269 : BitVec 32) : Fin 1 → Nat :=
  let c0_i32_107 : BitVec 32 := 0#32
  let c1_i32_109 : BitVec 32 := 1#32
  let arg24 : BitVec 32 := Scf.iv c0_i32_107 c1_i32_109 k0_t3
  let c256_i32_264 : BitVec 32 := 256#32
  let v491 : BitVec 32 := Scalar.muli arg24 c256_i32_264
  let v492 : BitVec 32 := v491
  let c0_i32_268 : BitVec 32 := 0#32
  let v502 : BitVec 32 := Scalar.addi v492 c0_i32_268
  let v503 : BitVec 32 := Scalar.addi v502 c0_i32_269
  let v504 : Index := Scalar.indexCast v503
  ![v504.toNat]
def k0_off94 (k0_t3 : Fin k0_t3_loop.trips) : Fin 1 → Nat :=
  let c64_i32_272 : BitVec 32 := 64#32
  let c0_i32_107 : BitVec 32 := 0#32
  let c1_i32_109 : BitVec 32 := 1#32
  let arg24 : BitVec 32 := Scf.iv c0_i32_107 c1_i32_109 k0_t3
  let v513 : BitVec 32 := Scalar.addi c64_i32_272 arg24
  let v514 : Index := Scalar.indexCast v513
  ![v514.toNat]
def k0_mult21 (v515 : BitVec 32) : BitVec 32 :=
  let c32_i32_273 : BitVec 32 := 32#32
  let v516 : BitVec 32 := Scalar.muli v515 c32_i32_273
  let c1024_i32_274 : BitVec 32 := 1024#32
  let v517 : BitVec 32 := Scalar.addi v516 c1024_i32_274
  v517

def k0_off95 (v515 : BitVec 32) (c0_i32_275 : BitVec 32) : Fin 1 → Nat :=
  let c32_i32_273 : BitVec 32 := 32#32
  let v516 : BitVec 32 := Scalar.muli v515 c32_i32_273
  let c1024_i32_274 : BitVec 32 := 1024#32
  let v517 : BitVec 32 := Scalar.addi v516 c1024_i32_274
  let v518 : BitVec 32 := v517
  let v519 : BitVec 32 := Scalar.addi v518 c0_i32_275
  let v520 : Index := Scalar.indexCast v519
  ![v520.toNat]

def k0_chk18 (v515 : BitVec 32) : Prop :=
  (32 ∣ (k0_mult21 v515).toNat) ∧
  (∀ (r : Fin 2), ∀ a, (k0_off95 v515 (BitVec.ofNat 32 (16 * r.val))) a + S16.size a ≤ S8192.size a)
instance k0_chk18.dec : ∀ (v515 : BitVec 32), Decidable (k0_chk18 v515) := fun v515 => decidable_of_iff' _ (Iff.of_eq (k0_chk18.eq_1 v515))
theorem k0_mult21_dvd : ∀ (v515 : BitVec 32) (k0_hw18 : k0_chk18 v515), 32 ∣ (k0_mult21 v515).toNat := fun v515 k0_hw18 => k0_hw18.1
theorem k0_off95_inb : ∀ (v515 : BitVec 32) (k0_hw18 : k0_chk18 v515), ∀ (r : Fin 2), ∀ a, (k0_off95 v515 (BitVec.ofNat 32 (16 * r.val))) a + S16.size a ≤ S8192.size a := fun v515 k0_hw18 r => k0_hw18.2 r

def k0_off96 (k0_t3 : Fin k0_t3_loop.trips) (c0_i32_277 : BitVec 32) : Fin 1 → Nat :=
  let c0_i32_107 : BitVec 32 := 0#32
  let c1_i32_109 : BitVec 32 := 1#32
  let arg24 : BitVec 32 := Scf.iv c0_i32_107 c1_i32_109 k0_t3
  let c256_i32_264 : BitVec 32 := 256#32
  let v491 : BitVec 32 := Scalar.muli arg24 c256_i32_264
  let v492 : BitVec 32 := v491
  let c32_i32_276 : BitVec 32 := 32#32
  let v522 : BitVec 32 := Scalar.addi v492 c32_i32_276
  let v523 : BitVec 32 := Scalar.addi v522 c0_i32_277
  let v524 : Index := Scalar.indexCast v523
  ![v524.toNat]
def k0_off97 (k0_t3 : Fin k0_t3_loop.trips) : Fin 1 → Nat :=
  let c128_i32_281 : BitVec 32 := 128#32
  let c0_i32_107 : BitVec 32 := 0#32
  let c1_i32_109 : BitVec 32 := 1#32
  let arg24 : BitVec 32 := Scf.iv c0_i32_107 c1_i32_109 k0_t3
  let v533 : BitVec 32 := Scalar.addi c128_i32_281 arg24
  let v534 : Index := Scalar.indexCast v533
  ![v534.toNat]
def k0_mult22 (v535 : BitVec 32) : BitVec 32 :=
  let c32_i32_282 : BitVec 32 := 32#32
  let v536 : BitVec 32 := Scalar.muli v535 c32_i32_282
  let c2048_i32_283 : BitVec 32 := 2048#32
  let v537 : BitVec 32 := Scalar.addi v536 c2048_i32_283
  v537

def k0_off98 (v535 : BitVec 32) (c0_i32_284 : BitVec 32) : Fin 1 → Nat :=
  let c32_i32_282 : BitVec 32 := 32#32
  let v536 : BitVec 32 := Scalar.muli v535 c32_i32_282
  let c2048_i32_283 : BitVec 32 := 2048#32
  let v537 : BitVec 32 := Scalar.addi v536 c2048_i32_283
  let v538 : BitVec 32 := v537
  let v539 : BitVec 32 := Scalar.addi v538 c0_i32_284
  let v540 : Index := Scalar.indexCast v539
  ![v540.toNat]

def k0_chk19 (v535 : BitVec 32) : Prop :=
  (32 ∣ (k0_mult22 v535).toNat) ∧
  (∀ (r : Fin 2), ∀ a, (k0_off98 v535 (BitVec.ofNat 32 (16 * r.val))) a + S16.size a ≤ S8192.size a)
instance k0_chk19.dec : ∀ (v535 : BitVec 32), Decidable (k0_chk19 v535) := fun v535 => decidable_of_iff' _ (Iff.of_eq (k0_chk19.eq_1 v535))
theorem k0_mult22_dvd : ∀ (v535 : BitVec 32) (k0_hw19 : k0_chk19 v535), 32 ∣ (k0_mult22 v535).toNat := fun v535 k0_hw19 => k0_hw19.1
theorem k0_off98_inb : ∀ (v535 : BitVec 32) (k0_hw19 : k0_chk19 v535), ∀ (r : Fin 2), ∀ a, (k0_off98 v535 (BitVec.ofNat 32 (16 * r.val))) a + S16.size a ≤ S8192.size a := fun v535 k0_hw19 r => k0_hw19.2 r

def k0_off99 (k0_t3 : Fin k0_t3_loop.trips) (c0_i32_286 : BitVec 32) : Fin 1 → Nat :=
  let c0_i32_107 : BitVec 32 := 0#32
  let c1_i32_109 : BitVec 32 := 1#32
  let arg24 : BitVec 32 := Scf.iv c0_i32_107 c1_i32_109 k0_t3
  let c256_i32_264 : BitVec 32 := 256#32
  let v491 : BitVec 32 := Scalar.muli arg24 c256_i32_264
  let v492 : BitVec 32 := v491
  let c64_i32_285 : BitVec 32 := 64#32
  let v542 : BitVec 32 := Scalar.addi v492 c64_i32_285
  let v543 : BitVec 32 := Scalar.addi v542 c0_i32_286
  let v544 : Index := Scalar.indexCast v543
  ![v544.toNat]
def k0_off100 (k0_t3 : Fin k0_t3_loop.trips) : Fin 1 → Nat :=
  let c192_i32_290 : BitVec 32 := 192#32
  let c0_i32_107 : BitVec 32 := 0#32
  let c1_i32_109 : BitVec 32 := 1#32
  let arg24 : BitVec 32 := Scf.iv c0_i32_107 c1_i32_109 k0_t3
  let v553 : BitVec 32 := Scalar.addi c192_i32_290 arg24
  let v554 : Index := Scalar.indexCast v553
  ![v554.toNat]
def k0_mult23 (v555 : BitVec 32) : BitVec 32 :=
  let c32_i32_291 : BitVec 32 := 32#32
  let v556 : BitVec 32 := Scalar.muli v555 c32_i32_291
  let c3072_i32_292 : BitVec 32 := 3072#32
  let v557 : BitVec 32 := Scalar.addi v556 c3072_i32_292
  v557

def k0_off101 (v555 : BitVec 32) (c0_i32_293 : BitVec 32) : Fin 1 → Nat :=
  let c32_i32_291 : BitVec 32 := 32#32
  let v556 : BitVec 32 := Scalar.muli v555 c32_i32_291
  let c3072_i32_292 : BitVec 32 := 3072#32
  let v557 : BitVec 32 := Scalar.addi v556 c3072_i32_292
  let v558 : BitVec 32 := v557
  let v559 : BitVec 32 := Scalar.addi v558 c0_i32_293
  let v560 : Index := Scalar.indexCast v559
  ![v560.toNat]

def k0_chk20 (v555 : BitVec 32) : Prop :=
  (32 ∣ (k0_mult23 v555).toNat) ∧
  (∀ (r : Fin 2), ∀ a, (k0_off101 v555 (BitVec.ofNat 32 (16 * r.val))) a + S16.size a ≤ S8192.size a)
instance k0_chk20.dec : ∀ (v555 : BitVec 32), Decidable (k0_chk20 v555) := fun v555 => decidable_of_iff' _ (Iff.of_eq (k0_chk20.eq_1 v555))
theorem k0_mult23_dvd : ∀ (v555 : BitVec 32) (k0_hw20 : k0_chk20 v555), 32 ∣ (k0_mult23 v555).toNat := fun v555 k0_hw20 => k0_hw20.1
theorem k0_off101_inb : ∀ (v555 : BitVec 32) (k0_hw20 : k0_chk20 v555), ∀ (r : Fin 2), ∀ a, (k0_off101 v555 (BitVec.ofNat 32 (16 * r.val))) a + S16.size a ≤ S8192.size a := fun v555 k0_hw20 r => k0_hw20.2 r

def k0_off102 (k0_t3 : Fin k0_t3_loop.trips) (c0_i32_294 : BitVec 32) : Fin 1 → Nat :=
  let c0_i32_107 : BitVec 32 := 0#32
  let c1_i32_109 : BitVec 32 := 1#32
  let arg24 : BitVec 32 := Scf.iv c0_i32_107 c1_i32_109 k0_t3
  let c256_i32_264 : BitVec 32 := 256#32
  let v491 : BitVec 32 := Scalar.muli arg24 c256_i32_264
  let v492 : BitVec 32 := v491
  let c96_i32 : BitVec 32 := 96#32
  let v562 : BitVec 32 := Scalar.addi v492 c96_i32
  let v563 : BitVec 32 := Scalar.addi v562 c0_i32_294
  let v564 : Index := Scalar.indexCast v563
  ![v564.toNat]
def k0_off103 (k0_t3 : Fin k0_t3_loop.trips) : Fin 1 → Nat :=
  let c256_i32_298 : BitVec 32 := 256#32
  let c0_i32_107 : BitVec 32 := 0#32
  let c1_i32_109 : BitVec 32 := 1#32
  let arg24 : BitVec 32 := Scf.iv c0_i32_107 c1_i32_109 k0_t3
  let v573 : BitVec 32 := Scalar.addi c256_i32_298 arg24
  let v574 : Index := Scalar.indexCast v573
  ![v574.toNat]
def k0_mult24 (v575 : BitVec 32) : BitVec 32 :=
  let c32_i32_299 : BitVec 32 := 32#32
  let v576 : BitVec 32 := Scalar.muli v575 c32_i32_299
  let c4096_i32 : BitVec 32 := 4096#32
  let v577 : BitVec 32 := Scalar.addi v576 c4096_i32
  v577

def k0_off104 (v575 : BitVec 32) (c0_i32_300 : BitVec 32) : Fin 1 → Nat :=
  let c32_i32_299 : BitVec 32 := 32#32
  let v576 : BitVec 32 := Scalar.muli v575 c32_i32_299
  let c4096_i32 : BitVec 32 := 4096#32
  let v577 : BitVec 32 := Scalar.addi v576 c4096_i32
  let v578 : BitVec 32 := v577
  let v579 : BitVec 32 := Scalar.addi v578 c0_i32_300
  let v580 : Index := Scalar.indexCast v579
  ![v580.toNat]

def k0_chk21 (v575 : BitVec 32) : Prop :=
  (32 ∣ (k0_mult24 v575).toNat) ∧
  (∀ (r : Fin 2), ∀ a, (k0_off104 v575 (BitVec.ofNat 32 (16 * r.val))) a + S16.size a ≤ S8192.size a)
instance k0_chk21.dec : ∀ (v575 : BitVec 32), Decidable (k0_chk21 v575) := fun v575 => decidable_of_iff' _ (Iff.of_eq (k0_chk21.eq_1 v575))
theorem k0_mult24_dvd : ∀ (v575 : BitVec 32) (k0_hw21 : k0_chk21 v575), 32 ∣ (k0_mult24 v575).toNat := fun v575 k0_hw21 => k0_hw21.1
theorem k0_off104_inb : ∀ (v575 : BitVec 32) (k0_hw21 : k0_chk21 v575), ∀ (r : Fin 2), ∀ a, (k0_off104 v575 (BitVec.ofNat 32 (16 * r.val))) a + S16.size a ≤ S8192.size a := fun v575 k0_hw21 r => k0_hw21.2 r

def k0_off105 (k0_t3 : Fin k0_t3_loop.trips) (c0_i32_302 : BitVec 32) : Fin 1 → Nat :=
  let c0_i32_107 : BitVec 32 := 0#32
  let c1_i32_109 : BitVec 32 := 1#32
  let arg24 : BitVec 32 := Scf.iv c0_i32_107 c1_i32_109 k0_t3
  let c256_i32_264 : BitVec 32 := 256#32
  let v491 : BitVec 32 := Scalar.muli arg24 c256_i32_264
  let v492 : BitVec 32 := v491
  let c128_i32_301 : BitVec 32 := 128#32
  let v582 : BitVec 32 := Scalar.addi v492 c128_i32_301
  let v583 : BitVec 32 := Scalar.addi v582 c0_i32_302
  let v584 : Index := Scalar.indexCast v583
  ![v584.toNat]
def k0_off106 (k0_t3 : Fin k0_t3_loop.trips) : Fin 1 → Nat :=
  let c320_i32_306 : BitVec 32 := 320#32
  let c0_i32_107 : BitVec 32 := 0#32
  let c1_i32_109 : BitVec 32 := 1#32
  let arg24 : BitVec 32 := Scf.iv c0_i32_107 c1_i32_109 k0_t3
  let v593 : BitVec 32 := Scalar.addi c320_i32_306 arg24
  let v594 : Index := Scalar.indexCast v593
  ![v594.toNat]
def k0_mult25 (v595 : BitVec 32) : BitVec 32 :=
  let c32_i32_307 : BitVec 32 := 32#32
  let v596 : BitVec 32 := Scalar.muli v595 c32_i32_307
  let c5120_i32 : BitVec 32 := 5120#32
  let v597 : BitVec 32 := Scalar.addi v596 c5120_i32
  v597

def k0_off107 (v595 : BitVec 32) (c0_i32_308 : BitVec 32) : Fin 1 → Nat :=
  let c32_i32_307 : BitVec 32 := 32#32
  let v596 : BitVec 32 := Scalar.muli v595 c32_i32_307
  let c5120_i32 : BitVec 32 := 5120#32
  let v597 : BitVec 32 := Scalar.addi v596 c5120_i32
  let v598 : BitVec 32 := v597
  let v599 : BitVec 32 := Scalar.addi v598 c0_i32_308
  let v600 : Index := Scalar.indexCast v599
  ![v600.toNat]

def k0_chk22 (v595 : BitVec 32) : Prop :=
  (32 ∣ (k0_mult25 v595).toNat) ∧
  (∀ (r : Fin 2), ∀ a, (k0_off107 v595 (BitVec.ofNat 32 (16 * r.val))) a + S16.size a ≤ S8192.size a)
instance k0_chk22.dec : ∀ (v595 : BitVec 32), Decidable (k0_chk22 v595) := fun v595 => decidable_of_iff' _ (Iff.of_eq (k0_chk22.eq_1 v595))
theorem k0_mult25_dvd : ∀ (v595 : BitVec 32) (k0_hw22 : k0_chk22 v595), 32 ∣ (k0_mult25 v595).toNat := fun v595 k0_hw22 => k0_hw22.1
theorem k0_off107_inb : ∀ (v595 : BitVec 32) (k0_hw22 : k0_chk22 v595), ∀ (r : Fin 2), ∀ a, (k0_off107 v595 (BitVec.ofNat 32 (16 * r.val))) a + S16.size a ≤ S8192.size a := fun v595 k0_hw22 r => k0_hw22.2 r

def k0_off108 (k0_t3 : Fin k0_t3_loop.trips) (c0_i32_309 : BitVec 32) : Fin 1 → Nat :=
  let c0_i32_107 : BitVec 32 := 0#32
  let c1_i32_109 : BitVec 32 := 1#32
  let arg24 : BitVec 32 := Scf.iv c0_i32_107 c1_i32_109 k0_t3
  let c256_i32_264 : BitVec 32 := 256#32
  let v491 : BitVec 32 := Scalar.muli arg24 c256_i32_264
  let v492 : BitVec 32 := v491
  let c160_i32 : BitVec 32 := 160#32
  let v602 : BitVec 32 := Scalar.addi v492 c160_i32
  let v603 : BitVec 32 := Scalar.addi v602 c0_i32_309
  let v604 : Index := Scalar.indexCast v603
  ![v604.toNat]
def k0_off109 (k0_t3 : Fin k0_t3_loop.trips) : Fin 1 → Nat :=
  let c384_i32_313 : BitVec 32 := 384#32
  let c0_i32_107 : BitVec 32 := 0#32
  let c1_i32_109 : BitVec 32 := 1#32
  let arg24 : BitVec 32 := Scf.iv c0_i32_107 c1_i32_109 k0_t3
  let v613 : BitVec 32 := Scalar.addi c384_i32_313 arg24
  let v614 : Index := Scalar.indexCast v613
  ![v614.toNat]
def k0_mult26 (v615 : BitVec 32) : BitVec 32 :=
  let c32_i32_314 : BitVec 32 := 32#32
  let v616 : BitVec 32 := Scalar.muli v615 c32_i32_314
  let c6144_i32 : BitVec 32 := 6144#32
  let v617 : BitVec 32 := Scalar.addi v616 c6144_i32
  v617

def k0_off110 (v615 : BitVec 32) (c0_i32_315 : BitVec 32) : Fin 1 → Nat :=
  let c32_i32_314 : BitVec 32 := 32#32
  let v616 : BitVec 32 := Scalar.muli v615 c32_i32_314
  let c6144_i32 : BitVec 32 := 6144#32
  let v617 : BitVec 32 := Scalar.addi v616 c6144_i32
  let v618 : BitVec 32 := v617
  let v619 : BitVec 32 := Scalar.addi v618 c0_i32_315
  let v620 : Index := Scalar.indexCast v619
  ![v620.toNat]

def k0_chk23 (v615 : BitVec 32) : Prop :=
  (32 ∣ (k0_mult26 v615).toNat) ∧
  (∀ (r : Fin 2), ∀ a, (k0_off110 v615 (BitVec.ofNat 32 (16 * r.val))) a + S16.size a ≤ S8192.size a)
instance k0_chk23.dec : ∀ (v615 : BitVec 32), Decidable (k0_chk23 v615) := fun v615 => decidable_of_iff' _ (Iff.of_eq (k0_chk23.eq_1 v615))
theorem k0_mult26_dvd : ∀ (v615 : BitVec 32) (k0_hw23 : k0_chk23 v615), 32 ∣ (k0_mult26 v615).toNat := fun v615 k0_hw23 => k0_hw23.1
theorem k0_off110_inb : ∀ (v615 : BitVec 32) (k0_hw23 : k0_chk23 v615), ∀ (r : Fin 2), ∀ a, (k0_off110 v615 (BitVec.ofNat 32 (16 * r.val))) a + S16.size a ≤ S8192.size a := fun v615 k0_hw23 r => k0_hw23.2 r

def k0_off111 (k0_t3 : Fin k0_t3_loop.trips) (c0_i32_317 : BitVec 32) : Fin 1 → Nat :=
  let c0_i32_107 : BitVec 32 := 0#32
  let c1_i32_109 : BitVec 32 := 1#32
  let arg24 : BitVec 32 := Scf.iv c0_i32_107 c1_i32_109 k0_t3
  let c256_i32_264 : BitVec 32 := 256#32
  let v491 : BitVec 32 := Scalar.muli arg24 c256_i32_264
  let v492 : BitVec 32 := v491
  let c192_i32_316 : BitVec 32 := 192#32
  let v622 : BitVec 32 := Scalar.addi v492 c192_i32_316
  let v623 : BitVec 32 := Scalar.addi v622 c0_i32_317
  let v624 : Index := Scalar.indexCast v623
  ![v624.toNat]
def k0_off112 (k0_t3 : Fin k0_t3_loop.trips) : Fin 1 → Nat :=
  let c448_i32_321 : BitVec 32 := 448#32
  let c0_i32_107 : BitVec 32 := 0#32
  let c1_i32_109 : BitVec 32 := 1#32
  let arg24 : BitVec 32 := Scf.iv c0_i32_107 c1_i32_109 k0_t3
  let v633 : BitVec 32 := Scalar.addi c448_i32_321 arg24
  let v634 : Index := Scalar.indexCast v633
  ![v634.toNat]
def k0_mult27 (v635 : BitVec 32) : BitVec 32 :=
  let c32_i32_322 : BitVec 32 := 32#32
  let v636 : BitVec 32 := Scalar.muli v635 c32_i32_322
  let c7168_i32 : BitVec 32 := 7168#32
  let v637 : BitVec 32 := Scalar.addi v636 c7168_i32
  v637

def k0_off113 (v635 : BitVec 32) (c0_i32_323 : BitVec 32) : Fin 1 → Nat :=
  let c32_i32_322 : BitVec 32 := 32#32
  let v636 : BitVec 32 := Scalar.muli v635 c32_i32_322
  let c7168_i32 : BitVec 32 := 7168#32
  let v637 : BitVec 32 := Scalar.addi v636 c7168_i32
  let v638 : BitVec 32 := v637
  let v639 : BitVec 32 := Scalar.addi v638 c0_i32_323
  let v640 : Index := Scalar.indexCast v639
  ![v640.toNat]

def k0_chk24 (v635 : BitVec 32) : Prop :=
  (32 ∣ (k0_mult27 v635).toNat) ∧
  (∀ (r : Fin 2), ∀ a, (k0_off113 v635 (BitVec.ofNat 32 (16 * r.val))) a + S16.size a ≤ S8192.size a)
instance k0_chk24.dec : ∀ (v635 : BitVec 32), Decidable (k0_chk24 v635) := fun v635 => decidable_of_iff' _ (Iff.of_eq (k0_chk24.eq_1 v635))
theorem k0_mult27_dvd : ∀ (v635 : BitVec 32) (k0_hw24 : k0_chk24 v635), 32 ∣ (k0_mult27 v635).toNat := fun v635 k0_hw24 => k0_hw24.1
theorem k0_off113_inb : ∀ (v635 : BitVec 32) (k0_hw24 : k0_chk24 v635), ∀ (r : Fin 2), ∀ a, (k0_off113 v635 (BitVec.ofNat 32 (16 * r.val))) a + S16.size a ≤ S8192.size a := fun v635 k0_hw24 r => k0_hw24.2 r

def k0_off114 (k0_t3 : Fin k0_t3_loop.trips) (c0_i32_324 : BitVec 32) : Fin 1 → Nat :=
  let c0_i32_107 : BitVec 32 := 0#32
  let c1_i32_109 : BitVec 32 := 1#32
  let arg24 : BitVec 32 := Scf.iv c0_i32_107 c1_i32_109 k0_t3
  let c256_i32_264 : BitVec 32 := 256#32
  let v491 : BitVec 32 := Scalar.muli arg24 c256_i32_264
  let v492 : BitVec 32 := v491
  let c224_i32 : BitVec 32 := 224#32
  let v642 : BitVec 32 := Scalar.addi v492 c224_i32
  let v643 : BitVec 32 := Scalar.addi v642 c0_i32_324
  let v644 : Index := Scalar.indexCast v643
  ![v644.toNat]
def k0_off115 (i : grid0.Coords) : Fin 2 → Nat :=
  let arg1 : BitVec 32 := BitVec.ofNat 32 (i 1).val
  let c256_i32_114 : BitVec 32 := 256#32
  ![arg1.toNat, 256]
def k0_off116 (i : grid0.Coords) : Fin 2 → Nat :=
  let arg1 : BitVec 32 := BitVec.ofNat 32 (i 1).val
  let c768_i32 : BitVec 32 := 768#32
  ![arg1.toNat, 768]
def k0_off117 (i : grid0.Coords) : Fin 2 → Nat :=
  let arg1 : BitVec 32 := BitVec.ofNat 32 (i 1).val
  let c1280_i32 : BitVec 32 := 1280#32
  ![arg1.toNat, 1280]
def k0_off118 (i : grid0.Coords) : Fin 2 → Nat :=
  let arg1 : BitVec 32 := BitVec.ofNat 32 (i 1).val
  let c1792_i32 : BitVec 32 := 1792#32
  ![arg1.toNat, 1792]
def k0_off119 (i : grid0.Coords) : Fin 2 → Nat :=
  let arg1 : BitVec 32 := BitVec.ofNat 32 (i 1).val
  let c2304_i32 : BitVec 32 := 2304#32
  ![arg1.toNat, 2304]
def k0_off120 (i : grid0.Coords) : Fin 2 → Nat :=
  let arg1 : BitVec 32 := BitVec.ofNat 32 (i 1).val
  let c2816_i32 : BitVec 32 := 2816#32
  ![arg1.toNat, 2816]
def k0_off121 (i : grid0.Coords) : Fin 2 → Nat :=
  let arg1 : BitVec 32 := BitVec.ofNat 32 (i 1).val
  let c3328_i32 : BitVec 32 := 3328#32
  ![arg1.toNat, 3328]
def k0_off122 (i : grid0.Coords) : Fin 2 → Nat :=
  let arg1 : BitVec 32 := BitVec.ofNat 32 (i 1).val
  let c3840_i32 : BitVec 32 := 3840#32
  ![arg1.toNat, 3840]
@[reducible] def k0_t4_loop : Scf.Loop 32 :=
  let c0_i32_139 : BitVec 32 := 0#32
  let c64_i32_140 : BitVec 32 := 64#32
  let v286 : BitVec 32 := Scalar.addi c0_i32_139 c64_i32_140
  let c1_i32_141 : BitVec 32 := 1#32
  ⟨c0_i32_139, v286, c1_i32_141⟩
def k0_mult28 (k0_t4 : Fin k0_t4_loop.trips) : BitVec 32 :=
  let c0_i32_139 : BitVec 32 := 0#32
  let c1_i32_141 : BitVec 32 := 1#32
  let arg24 : BitVec 32 := Scf.iv c0_i32_139 c1_i32_141 k0_t4
  let c256_i32_264 : BitVec 32 := 256#32
  let v491 : BitVec 32 := Scalar.muli arg24 c256_i32_264
  v491
def k0_off123 (k0_t4 : Fin k0_t4_loop.trips) : Fin 1 → Nat :=
  let c0_i32_265 : BitVec 32 := 0#32
  let c0_i32_139 : BitVec 32 := 0#32
  let c1_i32_141 : BitVec 32 := 1#32
  let arg24 : BitVec 32 := Scf.iv c0_i32_139 c1_i32_141 k0_t4
  let v493 : BitVec 32 := Scalar.addi c0_i32_265 arg24
  let v494 : Index := Scalar.indexCast v493
  ![v494.toNat]
def k0_mult29 (v495 : BitVec 32) : BitVec 32 :=
  let c32_i32 : BitVec 32 := 32#32
  let v496 : BitVec 32 := Scalar.muli v495 c32_i32
  let c0_i32_266 : BitVec 32 := 0#32
  let v497 : BitVec 32 := Scalar.addi v496 c0_i32_266
  v497

def k0_off124 (v495 : BitVec 32) (c0_i32_267 : BitVec 32) : Fin 1 → Nat :=
  let c32_i32 : BitVec 32 := 32#32
  let v496 : BitVec 32 := Scalar.muli v495 c32_i32
  let c0_i32_266 : BitVec 32 := 0#32
  let v497 : BitVec 32 := Scalar.addi v496 c0_i32_266
  let v498 : BitVec 32 := v497
  let v499 : BitVec 32 := Scalar.addi v498 c0_i32_267
  let v500 : Index := Scalar.indexCast v499
  ![v500.toNat]

def k0_chk25 (v495 : BitVec 32) : Prop :=
  (32 ∣ (k0_mult29 v495).toNat) ∧
  (∀ (r : Fin 2), ∀ a, (k0_off124 v495 (BitVec.ofNat 32 (16 * r.val))) a + S16.size a ≤ S8192.size a)
instance k0_chk25.dec : ∀ (v495 : BitVec 32), Decidable (k0_chk25 v495) := fun v495 => decidable_of_iff' _ (Iff.of_eq (k0_chk25.eq_1 v495))
theorem k0_mult29_dvd : ∀ (v495 : BitVec 32) (k0_hw25 : k0_chk25 v495), 32 ∣ (k0_mult29 v495).toNat := fun v495 k0_hw25 => k0_hw25.1
theorem k0_off124_inb : ∀ (v495 : BitVec 32) (k0_hw25 : k0_chk25 v495), ∀ (r : Fin 2), ∀ a, (k0_off124 v495 (BitVec.ofNat 32 (16 * r.val))) a + S16.size a ≤ S8192.size a := fun v495 k0_hw25 r => k0_hw25.2 r

def k0_off125 (k0_t4 : Fin k0_t4_loop.trips) (c0_i32_269 : BitVec 32) : Fin 1 → Nat :=
  let c0_i32_139 : BitVec 32 := 0#32
  let c1_i32_141 : BitVec 32 := 1#32
  let arg24 : BitVec 32 := Scf.iv c0_i32_139 c1_i32_141 k0_t4
  let c256_i32_264 : BitVec 32 := 256#32
  let v491 : BitVec 32 := Scalar.muli arg24 c256_i32_264
  let v492 : BitVec 32 := v491
  let c0_i32_268 : BitVec 32 := 0#32
  let v502 : BitVec 32 := Scalar.addi v492 c0_i32_268
  let v503 : BitVec 32 := Scalar.addi v502 c0_i32_269
  let v504 : Index := Scalar.indexCast v503
  ![v504.toNat]
def k0_off126 (k0_t4 : Fin k0_t4_loop.trips) : Fin 1 → Nat :=
  let c64_i32_272 : BitVec 32 := 64#32
  let c0_i32_139 : BitVec 32 := 0#32
  let c1_i32_141 : BitVec 32 := 1#32
  let arg24 : BitVec 32 := Scf.iv c0_i32_139 c1_i32_141 k0_t4
  let v513 : BitVec 32 := Scalar.addi c64_i32_272 arg24
  let v514 : Index := Scalar.indexCast v513
  ![v514.toNat]
def k0_mult30 (v515 : BitVec 32) : BitVec 32 :=
  let c32_i32_273 : BitVec 32 := 32#32
  let v516 : BitVec 32 := Scalar.muli v515 c32_i32_273
  let c1024_i32_274 : BitVec 32 := 1024#32
  let v517 : BitVec 32 := Scalar.addi v516 c1024_i32_274
  v517

def k0_off127 (v515 : BitVec 32) (c0_i32_275 : BitVec 32) : Fin 1 → Nat :=
  let c32_i32_273 : BitVec 32 := 32#32
  let v516 : BitVec 32 := Scalar.muli v515 c32_i32_273
  let c1024_i32_274 : BitVec 32 := 1024#32
  let v517 : BitVec 32 := Scalar.addi v516 c1024_i32_274
  let v518 : BitVec 32 := v517
  let v519 : BitVec 32 := Scalar.addi v518 c0_i32_275
  let v520 : Index := Scalar.indexCast v519
  ![v520.toNat]

def k0_chk26 (v515 : BitVec 32) : Prop :=
  (32 ∣ (k0_mult30 v515).toNat) ∧
  (∀ (r : Fin 2), ∀ a, (k0_off127 v515 (BitVec.ofNat 32 (16 * r.val))) a + S16.size a ≤ S8192.size a)
instance k0_chk26.dec : ∀ (v515 : BitVec 32), Decidable (k0_chk26 v515) := fun v515 => decidable_of_iff' _ (Iff.of_eq (k0_chk26.eq_1 v515))
theorem k0_mult30_dvd : ∀ (v515 : BitVec 32) (k0_hw26 : k0_chk26 v515), 32 ∣ (k0_mult30 v515).toNat := fun v515 k0_hw26 => k0_hw26.1
theorem k0_off127_inb : ∀ (v515 : BitVec 32) (k0_hw26 : k0_chk26 v515), ∀ (r : Fin 2), ∀ a, (k0_off127 v515 (BitVec.ofNat 32 (16 * r.val))) a + S16.size a ≤ S8192.size a := fun v515 k0_hw26 r => k0_hw26.2 r

def k0_off128 (k0_t4 : Fin k0_t4_loop.trips) (c0_i32_277 : BitVec 32) : Fin 1 → Nat :=
  let c0_i32_139 : BitVec 32 := 0#32
  let c1_i32_141 : BitVec 32 := 1#32
  let arg24 : BitVec 32 := Scf.iv c0_i32_139 c1_i32_141 k0_t4
  let c256_i32_264 : BitVec 32 := 256#32
  let v491 : BitVec 32 := Scalar.muli arg24 c256_i32_264
  let v492 : BitVec 32 := v491
  let c32_i32_276 : BitVec 32 := 32#32
  let v522 : BitVec 32 := Scalar.addi v492 c32_i32_276
  let v523 : BitVec 32 := Scalar.addi v522 c0_i32_277
  let v524 : Index := Scalar.indexCast v523
  ![v524.toNat]
def k0_off129 (k0_t4 : Fin k0_t4_loop.trips) : Fin 1 → Nat :=
  let c128_i32_281 : BitVec 32 := 128#32
  let c0_i32_139 : BitVec 32 := 0#32
  let c1_i32_141 : BitVec 32 := 1#32
  let arg24 : BitVec 32 := Scf.iv c0_i32_139 c1_i32_141 k0_t4
  let v533 : BitVec 32 := Scalar.addi c128_i32_281 arg24
  let v534 : Index := Scalar.indexCast v533
  ![v534.toNat]
def k0_mult31 (v535 : BitVec 32) : BitVec 32 :=
  let c32_i32_282 : BitVec 32 := 32#32
  let v536 : BitVec 32 := Scalar.muli v535 c32_i32_282
  let c2048_i32_283 : BitVec 32 := 2048#32
  let v537 : BitVec 32 := Scalar.addi v536 c2048_i32_283
  v537

def k0_off130 (v535 : BitVec 32) (c0_i32_284 : BitVec 32) : Fin 1 → Nat :=
  let c32_i32_282 : BitVec 32 := 32#32
  let v536 : BitVec 32 := Scalar.muli v535 c32_i32_282
  let c2048_i32_283 : BitVec 32 := 2048#32
  let v537 : BitVec 32 := Scalar.addi v536 c2048_i32_283
  let v538 : BitVec 32 := v537
  let v539 : BitVec 32 := Scalar.addi v538 c0_i32_284
  let v540 : Index := Scalar.indexCast v539
  ![v540.toNat]

def k0_chk27 (v535 : BitVec 32) : Prop :=
  (32 ∣ (k0_mult31 v535).toNat) ∧
  (∀ (r : Fin 2), ∀ a, (k0_off130 v535 (BitVec.ofNat 32 (16 * r.val))) a + S16.size a ≤ S8192.size a)
instance k0_chk27.dec : ∀ (v535 : BitVec 32), Decidable (k0_chk27 v535) := fun v535 => decidable_of_iff' _ (Iff.of_eq (k0_chk27.eq_1 v535))
theorem k0_mult31_dvd : ∀ (v535 : BitVec 32) (k0_hw27 : k0_chk27 v535), 32 ∣ (k0_mult31 v535).toNat := fun v535 k0_hw27 => k0_hw27.1
theorem k0_off130_inb : ∀ (v535 : BitVec 32) (k0_hw27 : k0_chk27 v535), ∀ (r : Fin 2), ∀ a, (k0_off130 v535 (BitVec.ofNat 32 (16 * r.val))) a + S16.size a ≤ S8192.size a := fun v535 k0_hw27 r => k0_hw27.2 r

def k0_off131 (k0_t4 : Fin k0_t4_loop.trips) (c0_i32_286 : BitVec 32) : Fin 1 → Nat :=
  let c0_i32_139 : BitVec 32 := 0#32
  let c1_i32_141 : BitVec 32 := 1#32
  let arg24 : BitVec 32 := Scf.iv c0_i32_139 c1_i32_141 k0_t4
  let c256_i32_264 : BitVec 32 := 256#32
  let v491 : BitVec 32 := Scalar.muli arg24 c256_i32_264
  let v492 : BitVec 32 := v491
  let c64_i32_285 : BitVec 32 := 64#32
  let v542 : BitVec 32 := Scalar.addi v492 c64_i32_285
  let v543 : BitVec 32 := Scalar.addi v542 c0_i32_286
  let v544 : Index := Scalar.indexCast v543
  ![v544.toNat]
def k0_off132 (k0_t4 : Fin k0_t4_loop.trips) : Fin 1 → Nat :=
  let c192_i32_290 : BitVec 32 := 192#32
  let c0_i32_139 : BitVec 32 := 0#32
  let c1_i32_141 : BitVec 32 := 1#32
  let arg24 : BitVec 32 := Scf.iv c0_i32_139 c1_i32_141 k0_t4
  let v553 : BitVec 32 := Scalar.addi c192_i32_290 arg24
  let v554 : Index := Scalar.indexCast v553
  ![v554.toNat]
def k0_mult32 (v555 : BitVec 32) : BitVec 32 :=
  let c32_i32_291 : BitVec 32 := 32#32
  let v556 : BitVec 32 := Scalar.muli v555 c32_i32_291
  let c3072_i32_292 : BitVec 32 := 3072#32
  let v557 : BitVec 32 := Scalar.addi v556 c3072_i32_292
  v557

def k0_off133 (v555 : BitVec 32) (c0_i32_293 : BitVec 32) : Fin 1 → Nat :=
  let c32_i32_291 : BitVec 32 := 32#32
  let v556 : BitVec 32 := Scalar.muli v555 c32_i32_291
  let c3072_i32_292 : BitVec 32 := 3072#32
  let v557 : BitVec 32 := Scalar.addi v556 c3072_i32_292
  let v558 : BitVec 32 := v557
  let v559 : BitVec 32 := Scalar.addi v558 c0_i32_293
  let v560 : Index := Scalar.indexCast v559
  ![v560.toNat]

def k0_chk28 (v555 : BitVec 32) : Prop :=
  (32 ∣ (k0_mult32 v555).toNat) ∧
  (∀ (r : Fin 2), ∀ a, (k0_off133 v555 (BitVec.ofNat 32 (16 * r.val))) a + S16.size a ≤ S8192.size a)
instance k0_chk28.dec : ∀ (v555 : BitVec 32), Decidable (k0_chk28 v555) := fun v555 => decidable_of_iff' _ (Iff.of_eq (k0_chk28.eq_1 v555))
theorem k0_mult32_dvd : ∀ (v555 : BitVec 32) (k0_hw28 : k0_chk28 v555), 32 ∣ (k0_mult32 v555).toNat := fun v555 k0_hw28 => k0_hw28.1
theorem k0_off133_inb : ∀ (v555 : BitVec 32) (k0_hw28 : k0_chk28 v555), ∀ (r : Fin 2), ∀ a, (k0_off133 v555 (BitVec.ofNat 32 (16 * r.val))) a + S16.size a ≤ S8192.size a := fun v555 k0_hw28 r => k0_hw28.2 r

def k0_off134 (k0_t4 : Fin k0_t4_loop.trips) (c0_i32_294 : BitVec 32) : Fin 1 → Nat :=
  let c0_i32_139 : BitVec 32 := 0#32
  let c1_i32_141 : BitVec 32 := 1#32
  let arg24 : BitVec 32 := Scf.iv c0_i32_139 c1_i32_141 k0_t4
  let c256_i32_264 : BitVec 32 := 256#32
  let v491 : BitVec 32 := Scalar.muli arg24 c256_i32_264
  let v492 : BitVec 32 := v491
  let c96_i32 : BitVec 32 := 96#32
  let v562 : BitVec 32 := Scalar.addi v492 c96_i32
  let v563 : BitVec 32 := Scalar.addi v562 c0_i32_294
  let v564 : Index := Scalar.indexCast v563
  ![v564.toNat]
def k0_off135 (k0_t4 : Fin k0_t4_loop.trips) : Fin 1 → Nat :=
  let c256_i32_298 : BitVec 32 := 256#32
  let c0_i32_139 : BitVec 32 := 0#32
  let c1_i32_141 : BitVec 32 := 1#32
  let arg24 : BitVec 32 := Scf.iv c0_i32_139 c1_i32_141 k0_t4
  let v573 : BitVec 32 := Scalar.addi c256_i32_298 arg24
  let v574 : Index := Scalar.indexCast v573
  ![v574.toNat]
def k0_mult33 (v575 : BitVec 32) : BitVec 32 :=
  let c32_i32_299 : BitVec 32 := 32#32
  let v576 : BitVec 32 := Scalar.muli v575 c32_i32_299
  let c4096_i32 : BitVec 32 := 4096#32
  let v577 : BitVec 32 := Scalar.addi v576 c4096_i32
  v577

def k0_off136 (v575 : BitVec 32) (c0_i32_300 : BitVec 32) : Fin 1 → Nat :=
  let c32_i32_299 : BitVec 32 := 32#32
  let v576 : BitVec 32 := Scalar.muli v575 c32_i32_299
  let c4096_i32 : BitVec 32 := 4096#32
  let v577 : BitVec 32 := Scalar.addi v576 c4096_i32
  let v578 : BitVec 32 := v577
  let v579 : BitVec 32 := Scalar.addi v578 c0_i32_300
  let v580 : Index := Scalar.indexCast v579
  ![v580.toNat]

def k0_chk29 (v575 : BitVec 32) : Prop :=
  (32 ∣ (k0_mult33 v575).toNat) ∧
  (∀ (r : Fin 2), ∀ a, (k0_off136 v575 (BitVec.ofNat 32 (16 * r.val))) a + S16.size a ≤ S8192.size a)
instance k0_chk29.dec : ∀ (v575 : BitVec 32), Decidable (k0_chk29 v575) := fun v575 => decidable_of_iff' _ (Iff.of_eq (k0_chk29.eq_1 v575))
theorem k0_mult33_dvd : ∀ (v575 : BitVec 32) (k0_hw29 : k0_chk29 v575), 32 ∣ (k0_mult33 v575).toNat := fun v575 k0_hw29 => k0_hw29.1
theorem k0_off136_inb : ∀ (v575 : BitVec 32) (k0_hw29 : k0_chk29 v575), ∀ (r : Fin 2), ∀ a, (k0_off136 v575 (BitVec.ofNat 32 (16 * r.val))) a + S16.size a ≤ S8192.size a := fun v575 k0_hw29 r => k0_hw29.2 r

def k0_off137 (k0_t4 : Fin k0_t4_loop.trips) (c0_i32_302 : BitVec 32) : Fin 1 → Nat :=
  let c0_i32_139 : BitVec 32 := 0#32
  let c1_i32_141 : BitVec 32 := 1#32
  let arg24 : BitVec 32 := Scf.iv c0_i32_139 c1_i32_141 k0_t4
  let c256_i32_264 : BitVec 32 := 256#32
  let v491 : BitVec 32 := Scalar.muli arg24 c256_i32_264
  let v492 : BitVec 32 := v491
  let c128_i32_301 : BitVec 32 := 128#32
  let v582 : BitVec 32 := Scalar.addi v492 c128_i32_301
  let v583 : BitVec 32 := Scalar.addi v582 c0_i32_302
  let v584 : Index := Scalar.indexCast v583
  ![v584.toNat]
def k0_off138 (k0_t4 : Fin k0_t4_loop.trips) : Fin 1 → Nat :=
  let c320_i32_306 : BitVec 32 := 320#32
  let c0_i32_139 : BitVec 32 := 0#32
  let c1_i32_141 : BitVec 32 := 1#32
  let arg24 : BitVec 32 := Scf.iv c0_i32_139 c1_i32_141 k0_t4
  let v593 : BitVec 32 := Scalar.addi c320_i32_306 arg24
  let v594 : Index := Scalar.indexCast v593
  ![v594.toNat]
def k0_mult34 (v595 : BitVec 32) : BitVec 32 :=
  let c32_i32_307 : BitVec 32 := 32#32
  let v596 : BitVec 32 := Scalar.muli v595 c32_i32_307
  let c5120_i32 : BitVec 32 := 5120#32
  let v597 : BitVec 32 := Scalar.addi v596 c5120_i32
  v597

def k0_off139 (v595 : BitVec 32) (c0_i32_308 : BitVec 32) : Fin 1 → Nat :=
  let c32_i32_307 : BitVec 32 := 32#32
  let v596 : BitVec 32 := Scalar.muli v595 c32_i32_307
  let c5120_i32 : BitVec 32 := 5120#32
  let v597 : BitVec 32 := Scalar.addi v596 c5120_i32
  let v598 : BitVec 32 := v597
  let v599 : BitVec 32 := Scalar.addi v598 c0_i32_308
  let v600 : Index := Scalar.indexCast v599
  ![v600.toNat]

def k0_chk30 (v595 : BitVec 32) : Prop :=
  (32 ∣ (k0_mult34 v595).toNat) ∧
  (∀ (r : Fin 2), ∀ a, (k0_off139 v595 (BitVec.ofNat 32 (16 * r.val))) a + S16.size a ≤ S8192.size a)
instance k0_chk30.dec : ∀ (v595 : BitVec 32), Decidable (k0_chk30 v595) := fun v595 => decidable_of_iff' _ (Iff.of_eq (k0_chk30.eq_1 v595))
theorem k0_mult34_dvd : ∀ (v595 : BitVec 32) (k0_hw30 : k0_chk30 v595), 32 ∣ (k0_mult34 v595).toNat := fun v595 k0_hw30 => k0_hw30.1
theorem k0_off139_inb : ∀ (v595 : BitVec 32) (k0_hw30 : k0_chk30 v595), ∀ (r : Fin 2), ∀ a, (k0_off139 v595 (BitVec.ofNat 32 (16 * r.val))) a + S16.size a ≤ S8192.size a := fun v595 k0_hw30 r => k0_hw30.2 r

def k0_off140 (k0_t4 : Fin k0_t4_loop.trips) (c0_i32_309 : BitVec 32) : Fin 1 → Nat :=
  let c0_i32_139 : BitVec 32 := 0#32
  let c1_i32_141 : BitVec 32 := 1#32
  let arg24 : BitVec 32 := Scf.iv c0_i32_139 c1_i32_141 k0_t4
  let c256_i32_264 : BitVec 32 := 256#32
  let v491 : BitVec 32 := Scalar.muli arg24 c256_i32_264
  let v492 : BitVec 32 := v491
  let c160_i32 : BitVec 32 := 160#32
  let v602 : BitVec 32 := Scalar.addi v492 c160_i32
  let v603 : BitVec 32 := Scalar.addi v602 c0_i32_309
  let v604 : Index := Scalar.indexCast v603
  ![v604.toNat]
def k0_off141 (k0_t4 : Fin k0_t4_loop.trips) : Fin 1 → Nat :=
  let c384_i32_313 : BitVec 32 := 384#32
  let c0_i32_139 : BitVec 32 := 0#32
  let c1_i32_141 : BitVec 32 := 1#32
  let arg24 : BitVec 32 := Scf.iv c0_i32_139 c1_i32_141 k0_t4
  let v613 : BitVec 32 := Scalar.addi c384_i32_313 arg24
  let v614 : Index := Scalar.indexCast v613
  ![v614.toNat]
def k0_mult35 (v615 : BitVec 32) : BitVec 32 :=
  let c32_i32_314 : BitVec 32 := 32#32
  let v616 : BitVec 32 := Scalar.muli v615 c32_i32_314
  let c6144_i32 : BitVec 32 := 6144#32
  let v617 : BitVec 32 := Scalar.addi v616 c6144_i32
  v617

def k0_off142 (v615 : BitVec 32) (c0_i32_315 : BitVec 32) : Fin 1 → Nat :=
  let c32_i32_314 : BitVec 32 := 32#32
  let v616 : BitVec 32 := Scalar.muli v615 c32_i32_314
  let c6144_i32 : BitVec 32 := 6144#32
  let v617 : BitVec 32 := Scalar.addi v616 c6144_i32
  let v618 : BitVec 32 := v617
  let v619 : BitVec 32 := Scalar.addi v618 c0_i32_315
  let v620 : Index := Scalar.indexCast v619
  ![v620.toNat]

def k0_chk31 (v615 : BitVec 32) : Prop :=
  (32 ∣ (k0_mult35 v615).toNat) ∧
  (∀ (r : Fin 2), ∀ a, (k0_off142 v615 (BitVec.ofNat 32 (16 * r.val))) a + S16.size a ≤ S8192.size a)
instance k0_chk31.dec : ∀ (v615 : BitVec 32), Decidable (k0_chk31 v615) := fun v615 => decidable_of_iff' _ (Iff.of_eq (k0_chk31.eq_1 v615))
theorem k0_mult35_dvd : ∀ (v615 : BitVec 32) (k0_hw31 : k0_chk31 v615), 32 ∣ (k0_mult35 v615).toNat := fun v615 k0_hw31 => k0_hw31.1
theorem k0_off142_inb : ∀ (v615 : BitVec 32) (k0_hw31 : k0_chk31 v615), ∀ (r : Fin 2), ∀ a, (k0_off142 v615 (BitVec.ofNat 32 (16 * r.val))) a + S16.size a ≤ S8192.size a := fun v615 k0_hw31 r => k0_hw31.2 r

def k0_off143 (k0_t4 : Fin k0_t4_loop.trips) (c0_i32_317 : BitVec 32) : Fin 1 → Nat :=
  let c0_i32_139 : BitVec 32 := 0#32
  let c1_i32_141 : BitVec 32 := 1#32
  let arg24 : BitVec 32 := Scf.iv c0_i32_139 c1_i32_141 k0_t4
  let c256_i32_264 : BitVec 32 := 256#32
  let v491 : BitVec 32 := Scalar.muli arg24 c256_i32_264
  let v492 : BitVec 32 := v491
  let c192_i32_316 : BitVec 32 := 192#32
  let v622 : BitVec 32 := Scalar.addi v492 c192_i32_316
  let v623 : BitVec 32 := Scalar.addi v622 c0_i32_317
  let v624 : Index := Scalar.indexCast v623
  ![v624.toNat]
def k0_off144 (k0_t4 : Fin k0_t4_loop.trips) : Fin 1 → Nat :=
  let c448_i32_321 : BitVec 32 := 448#32
  let c0_i32_139 : BitVec 32 := 0#32
  let c1_i32_141 : BitVec 32 := 1#32
  let arg24 : BitVec 32 := Scf.iv c0_i32_139 c1_i32_141 k0_t4
  let v633 : BitVec 32 := Scalar.addi c448_i32_321 arg24
  let v634 : Index := Scalar.indexCast v633
  ![v634.toNat]
def k0_mult36 (v635 : BitVec 32) : BitVec 32 :=
  let c32_i32_322 : BitVec 32 := 32#32
  let v636 : BitVec 32 := Scalar.muli v635 c32_i32_322
  let c7168_i32 : BitVec 32 := 7168#32
  let v637 : BitVec 32 := Scalar.addi v636 c7168_i32
  v637

def k0_off145 (v635 : BitVec 32) (c0_i32_323 : BitVec 32) : Fin 1 → Nat :=
  let c32_i32_322 : BitVec 32 := 32#32
  let v636 : BitVec 32 := Scalar.muli v635 c32_i32_322
  let c7168_i32 : BitVec 32 := 7168#32
  let v637 : BitVec 32 := Scalar.addi v636 c7168_i32
  let v638 : BitVec 32 := v637
  let v639 : BitVec 32 := Scalar.addi v638 c0_i32_323
  let v640 : Index := Scalar.indexCast v639
  ![v640.toNat]

def k0_chk32 (v635 : BitVec 32) : Prop :=
  (32 ∣ (k0_mult36 v635).toNat) ∧
  (∀ (r : Fin 2), ∀ a, (k0_off145 v635 (BitVec.ofNat 32 (16 * r.val))) a + S16.size a ≤ S8192.size a)
instance k0_chk32.dec : ∀ (v635 : BitVec 32), Decidable (k0_chk32 v635) := fun v635 => decidable_of_iff' _ (Iff.of_eq (k0_chk32.eq_1 v635))
theorem k0_mult36_dvd : ∀ (v635 : BitVec 32) (k0_hw32 : k0_chk32 v635), 32 ∣ (k0_mult36 v635).toNat := fun v635 k0_hw32 => k0_hw32.1
theorem k0_off145_inb : ∀ (v635 : BitVec 32) (k0_hw32 : k0_chk32 v635), ∀ (r : Fin 2), ∀ a, (k0_off145 v635 (BitVec.ofNat 32 (16 * r.val))) a + S16.size a ≤ S8192.size a := fun v635 k0_hw32 r => k0_hw32.2 r

def k0_off146 (k0_t4 : Fin k0_t4_loop.trips) (c0_i32_324 : BitVec 32) : Fin 1 → Nat :=
  let c0_i32_139 : BitVec 32 := 0#32
  let c1_i32_141 : BitVec 32 := 1#32
  let arg24 : BitVec 32 := Scf.iv c0_i32_139 c1_i32_141 k0_t4
  let c256_i32_264 : BitVec 32 := 256#32
  let v491 : BitVec 32 := Scalar.muli arg24 c256_i32_264
  let v492 : BitVec 32 := v491
  let c224_i32 : BitVec 32 := 224#32
  let v642 : BitVec 32 := Scalar.addi v492 c224_i32
  let v643 : BitVec 32 := Scalar.addi v642 c0_i32_324
  let v644 : Index := Scalar.indexCast v643
  ![v644.toNat]
def k0_off147 (i : grid0.Coords) : Fin 2 → Nat :=
  let arg1 : BitVec 32 := BitVec.ofNat 32 (i 1).val
  let c320_i32_146 : BitVec 32 := 320#32
  ![arg1.toNat, 320]
def k0_off148 (i : grid0.Coords) : Fin 2 → Nat :=
  let arg1 : BitVec 32 := BitVec.ofNat 32 (i 1).val
  let c832_i32 : BitVec 32 := 832#32
  ![arg1.toNat, 832]
def k0_off149 (i : grid0.Coords) : Fin 2 → Nat :=
  let arg1 : BitVec 32 := BitVec.ofNat 32 (i 1).val
  let c1344_i32 : BitVec 32 := 1344#32
  ![arg1.toNat, 1344]
def k0_off150 (i : grid0.Coords) : Fin 2 → Nat :=
  let arg1 : BitVec 32 := BitVec.ofNat 32 (i 1).val
  let c1856_i32 : BitVec 32 := 1856#32
  ![arg1.toNat, 1856]
def k0_off151 (i : grid0.Coords) : Fin 2 → Nat :=
  let arg1 : BitVec 32 := BitVec.ofNat 32 (i 1).val
  let c2368_i32 : BitVec 32 := 2368#32
  ![arg1.toNat, 2368]
def k0_off152 (i : grid0.Coords) : Fin 2 → Nat :=
  let arg1 : BitVec 32 := BitVec.ofNat 32 (i 1).val
  let c2880_i32 : BitVec 32 := 2880#32
  ![arg1.toNat, 2880]
def k0_off153 (i : grid0.Coords) : Fin 2 → Nat :=
  let arg1 : BitVec 32 := BitVec.ofNat 32 (i 1).val
  let c3392_i32 : BitVec 32 := 3392#32
  ![arg1.toNat, 3392]
def k0_off154 (i : grid0.Coords) : Fin 2 → Nat :=
  let arg1 : BitVec 32 := BitVec.ofNat 32 (i 1).val
  let c3904_i32 : BitVec 32 := 3904#32
  ![arg1.toNat, 3904]
@[reducible] def k0_t5_loop : Scf.Loop 32 :=
  let c0_i32_171 : BitVec 32 := 0#32
  let c64_i32_172 : BitVec 32 := 64#32
  let v341 : BitVec 32 := Scalar.addi c0_i32_171 c64_i32_172
  let c1_i32_173 : BitVec 32 := 1#32
  ⟨c0_i32_171, v341, c1_i32_173⟩
def k0_mult37 (k0_t5 : Fin k0_t5_loop.trips) : BitVec 32 :=
  let c0_i32_171 : BitVec 32 := 0#32
  let c1_i32_173 : BitVec 32 := 1#32
  let arg24 : BitVec 32 := Scf.iv c0_i32_171 c1_i32_173 k0_t5
  let c256_i32_264 : BitVec 32 := 256#32
  let v491 : BitVec 32 := Scalar.muli arg24 c256_i32_264
  v491
def k0_off155 (k0_t5 : Fin k0_t5_loop.trips) : Fin 1 → Nat :=
  let c0_i32_265 : BitVec 32 := 0#32
  let c0_i32_171 : BitVec 32 := 0#32
  let c1_i32_173 : BitVec 32 := 1#32
  let arg24 : BitVec 32 := Scf.iv c0_i32_171 c1_i32_173 k0_t5
  let v493 : BitVec 32 := Scalar.addi c0_i32_265 arg24
  let v494 : Index := Scalar.indexCast v493
  ![v494.toNat]
def k0_mult38 (v495 : BitVec 32) : BitVec 32 :=
  let c32_i32 : BitVec 32 := 32#32
  let v496 : BitVec 32 := Scalar.muli v495 c32_i32
  let c0_i32_266 : BitVec 32 := 0#32
  let v497 : BitVec 32 := Scalar.addi v496 c0_i32_266
  v497

def k0_off156 (v495 : BitVec 32) (c0_i32_267 : BitVec 32) : Fin 1 → Nat :=
  let c32_i32 : BitVec 32 := 32#32
  let v496 : BitVec 32 := Scalar.muli v495 c32_i32
  let c0_i32_266 : BitVec 32 := 0#32
  let v497 : BitVec 32 := Scalar.addi v496 c0_i32_266
  let v498 : BitVec 32 := v497
  let v499 : BitVec 32 := Scalar.addi v498 c0_i32_267
  let v500 : Index := Scalar.indexCast v499
  ![v500.toNat]

def k0_chk33 (v495 : BitVec 32) : Prop :=
  (32 ∣ (k0_mult38 v495).toNat) ∧
  (∀ (r : Fin 2), ∀ a, (k0_off156 v495 (BitVec.ofNat 32 (16 * r.val))) a + S16.size a ≤ S8192.size a)
instance k0_chk33.dec : ∀ (v495 : BitVec 32), Decidable (k0_chk33 v495) := fun v495 => decidable_of_iff' _ (Iff.of_eq (k0_chk33.eq_1 v495))
theorem k0_mult38_dvd : ∀ (v495 : BitVec 32) (k0_hw33 : k0_chk33 v495), 32 ∣ (k0_mult38 v495).toNat := fun v495 k0_hw33 => k0_hw33.1
theorem k0_off156_inb : ∀ (v495 : BitVec 32) (k0_hw33 : k0_chk33 v495), ∀ (r : Fin 2), ∀ a, (k0_off156 v495 (BitVec.ofNat 32 (16 * r.val))) a + S16.size a ≤ S8192.size a := fun v495 k0_hw33 r => k0_hw33.2 r

def k0_off157 (k0_t5 : Fin k0_t5_loop.trips) (c0_i32_269 : BitVec 32) : Fin 1 → Nat :=
  let c0_i32_171 : BitVec 32 := 0#32
  let c1_i32_173 : BitVec 32 := 1#32
  let arg24 : BitVec 32 := Scf.iv c0_i32_171 c1_i32_173 k0_t5
  let c256_i32_264 : BitVec 32 := 256#32
  let v491 : BitVec 32 := Scalar.muli arg24 c256_i32_264
  let v492 : BitVec 32 := v491
  let c0_i32_268 : BitVec 32 := 0#32
  let v502 : BitVec 32 := Scalar.addi v492 c0_i32_268
  let v503 : BitVec 32 := Scalar.addi v502 c0_i32_269
  let v504 : Index := Scalar.indexCast v503
  ![v504.toNat]
def k0_off158 (k0_t5 : Fin k0_t5_loop.trips) : Fin 1 → Nat :=
  let c64_i32_272 : BitVec 32 := 64#32
  let c0_i32_171 : BitVec 32 := 0#32
  let c1_i32_173 : BitVec 32 := 1#32
  let arg24 : BitVec 32 := Scf.iv c0_i32_171 c1_i32_173 k0_t5
  let v513 : BitVec 32 := Scalar.addi c64_i32_272 arg24
  let v514 : Index := Scalar.indexCast v513
  ![v514.toNat]
def k0_mult39 (v515 : BitVec 32) : BitVec 32 :=
  let c32_i32_273 : BitVec 32 := 32#32
  let v516 : BitVec 32 := Scalar.muli v515 c32_i32_273
  let c1024_i32_274 : BitVec 32 := 1024#32
  let v517 : BitVec 32 := Scalar.addi v516 c1024_i32_274
  v517

def k0_off159 (v515 : BitVec 32) (c0_i32_275 : BitVec 32) : Fin 1 → Nat :=
  let c32_i32_273 : BitVec 32 := 32#32
  let v516 : BitVec 32 := Scalar.muli v515 c32_i32_273
  let c1024_i32_274 : BitVec 32 := 1024#32
  let v517 : BitVec 32 := Scalar.addi v516 c1024_i32_274
  let v518 : BitVec 32 := v517
  let v519 : BitVec 32 := Scalar.addi v518 c0_i32_275
  let v520 : Index := Scalar.indexCast v519
  ![v520.toNat]

def k0_chk34 (v515 : BitVec 32) : Prop :=
  (32 ∣ (k0_mult39 v515).toNat) ∧
  (∀ (r : Fin 2), ∀ a, (k0_off159 v515 (BitVec.ofNat 32 (16 * r.val))) a + S16.size a ≤ S8192.size a)
instance k0_chk34.dec : ∀ (v515 : BitVec 32), Decidable (k0_chk34 v515) := fun v515 => decidable_of_iff' _ (Iff.of_eq (k0_chk34.eq_1 v515))
theorem k0_mult39_dvd : ∀ (v515 : BitVec 32) (k0_hw34 : k0_chk34 v515), 32 ∣ (k0_mult39 v515).toNat := fun v515 k0_hw34 => k0_hw34.1
theorem k0_off159_inb : ∀ (v515 : BitVec 32) (k0_hw34 : k0_chk34 v515), ∀ (r : Fin 2), ∀ a, (k0_off159 v515 (BitVec.ofNat 32 (16 * r.val))) a + S16.size a ≤ S8192.size a := fun v515 k0_hw34 r => k0_hw34.2 r

def k0_off160 (k0_t5 : Fin k0_t5_loop.trips) (c0_i32_277 : BitVec 32) : Fin 1 → Nat :=
  let c0_i32_171 : BitVec 32 := 0#32
  let c1_i32_173 : BitVec 32 := 1#32
  let arg24 : BitVec 32 := Scf.iv c0_i32_171 c1_i32_173 k0_t5
  let c256_i32_264 : BitVec 32 := 256#32
  let v491 : BitVec 32 := Scalar.muli arg24 c256_i32_264
  let v492 : BitVec 32 := v491
  let c32_i32_276 : BitVec 32 := 32#32
  let v522 : BitVec 32 := Scalar.addi v492 c32_i32_276
  let v523 : BitVec 32 := Scalar.addi v522 c0_i32_277
  let v524 : Index := Scalar.indexCast v523
  ![v524.toNat]
def k0_off161 (k0_t5 : Fin k0_t5_loop.trips) : Fin 1 → Nat :=
  let c128_i32_281 : BitVec 32 := 128#32
  let c0_i32_171 : BitVec 32 := 0#32
  let c1_i32_173 : BitVec 32 := 1#32
  let arg24 : BitVec 32 := Scf.iv c0_i32_171 c1_i32_173 k0_t5
  let v533 : BitVec 32 := Scalar.addi c128_i32_281 arg24
  let v534 : Index := Scalar.indexCast v533
  ![v534.toNat]
def k0_mult40 (v535 : BitVec 32) : BitVec 32 :=
  let c32_i32_282 : BitVec 32 := 32#32
  let v536 : BitVec 32 := Scalar.muli v535 c32_i32_282
  let c2048_i32_283 : BitVec 32 := 2048#32
  let v537 : BitVec 32 := Scalar.addi v536 c2048_i32_283
  v537

def k0_off162 (v535 : BitVec 32) (c0_i32_284 : BitVec 32) : Fin 1 → Nat :=
  let c32_i32_282 : BitVec 32 := 32#32
  let v536 : BitVec 32 := Scalar.muli v535 c32_i32_282
  let c2048_i32_283 : BitVec 32 := 2048#32
  let v537 : BitVec 32 := Scalar.addi v536 c2048_i32_283
  let v538 : BitVec 32 := v537
  let v539 : BitVec 32 := Scalar.addi v538 c0_i32_284
  let v540 : Index := Scalar.indexCast v539
  ![v540.toNat]

def k0_chk35 (v535 : BitVec 32) : Prop :=
  (32 ∣ (k0_mult40 v535).toNat) ∧
  (∀ (r : Fin 2), ∀ a, (k0_off162 v535 (BitVec.ofNat 32 (16 * r.val))) a + S16.size a ≤ S8192.size a)
instance k0_chk35.dec : ∀ (v535 : BitVec 32), Decidable (k0_chk35 v535) := fun v535 => decidable_of_iff' _ (Iff.of_eq (k0_chk35.eq_1 v535))
theorem k0_mult40_dvd : ∀ (v535 : BitVec 32) (k0_hw35 : k0_chk35 v535), 32 ∣ (k0_mult40 v535).toNat := fun v535 k0_hw35 => k0_hw35.1
theorem k0_off162_inb : ∀ (v535 : BitVec 32) (k0_hw35 : k0_chk35 v535), ∀ (r : Fin 2), ∀ a, (k0_off162 v535 (BitVec.ofNat 32 (16 * r.val))) a + S16.size a ≤ S8192.size a := fun v535 k0_hw35 r => k0_hw35.2 r

def k0_off163 (k0_t5 : Fin k0_t5_loop.trips) (c0_i32_286 : BitVec 32) : Fin 1 → Nat :=
  let c0_i32_171 : BitVec 32 := 0#32
  let c1_i32_173 : BitVec 32 := 1#32
  let arg24 : BitVec 32 := Scf.iv c0_i32_171 c1_i32_173 k0_t5
  let c256_i32_264 : BitVec 32 := 256#32
  let v491 : BitVec 32 := Scalar.muli arg24 c256_i32_264
  let v492 : BitVec 32 := v491
  let c64_i32_285 : BitVec 32 := 64#32
  let v542 : BitVec 32 := Scalar.addi v492 c64_i32_285
  let v543 : BitVec 32 := Scalar.addi v542 c0_i32_286
  let v544 : Index := Scalar.indexCast v543
  ![v544.toNat]
def k0_off164 (k0_t5 : Fin k0_t5_loop.trips) : Fin 1 → Nat :=
  let c192_i32_290 : BitVec 32 := 192#32
  let c0_i32_171 : BitVec 32 := 0#32
  let c1_i32_173 : BitVec 32 := 1#32
  let arg24 : BitVec 32 := Scf.iv c0_i32_171 c1_i32_173 k0_t5
  let v553 : BitVec 32 := Scalar.addi c192_i32_290 arg24
  let v554 : Index := Scalar.indexCast v553
  ![v554.toNat]
def k0_mult41 (v555 : BitVec 32) : BitVec 32 :=
  let c32_i32_291 : BitVec 32 := 32#32
  let v556 : BitVec 32 := Scalar.muli v555 c32_i32_291
  let c3072_i32_292 : BitVec 32 := 3072#32
  let v557 : BitVec 32 := Scalar.addi v556 c3072_i32_292
  v557

def k0_off165 (v555 : BitVec 32) (c0_i32_293 : BitVec 32) : Fin 1 → Nat :=
  let c32_i32_291 : BitVec 32 := 32#32
  let v556 : BitVec 32 := Scalar.muli v555 c32_i32_291
  let c3072_i32_292 : BitVec 32 := 3072#32
  let v557 : BitVec 32 := Scalar.addi v556 c3072_i32_292
  let v558 : BitVec 32 := v557
  let v559 : BitVec 32 := Scalar.addi v558 c0_i32_293
  let v560 : Index := Scalar.indexCast v559
  ![v560.toNat]

def k0_chk36 (v555 : BitVec 32) : Prop :=
  (32 ∣ (k0_mult41 v555).toNat) ∧
  (∀ (r : Fin 2), ∀ a, (k0_off165 v555 (BitVec.ofNat 32 (16 * r.val))) a + S16.size a ≤ S8192.size a)
instance k0_chk36.dec : ∀ (v555 : BitVec 32), Decidable (k0_chk36 v555) := fun v555 => decidable_of_iff' _ (Iff.of_eq (k0_chk36.eq_1 v555))
theorem k0_mult41_dvd : ∀ (v555 : BitVec 32) (k0_hw36 : k0_chk36 v555), 32 ∣ (k0_mult41 v555).toNat := fun v555 k0_hw36 => k0_hw36.1
theorem k0_off165_inb : ∀ (v555 : BitVec 32) (k0_hw36 : k0_chk36 v555), ∀ (r : Fin 2), ∀ a, (k0_off165 v555 (BitVec.ofNat 32 (16 * r.val))) a + S16.size a ≤ S8192.size a := fun v555 k0_hw36 r => k0_hw36.2 r

def k0_off166 (k0_t5 : Fin k0_t5_loop.trips) (c0_i32_294 : BitVec 32) : Fin 1 → Nat :=
  let c0_i32_171 : BitVec 32 := 0#32
  let c1_i32_173 : BitVec 32 := 1#32
  let arg24 : BitVec 32 := Scf.iv c0_i32_171 c1_i32_173 k0_t5
  let c256_i32_264 : BitVec 32 := 256#32
  let v491 : BitVec 32 := Scalar.muli arg24 c256_i32_264
  let v492 : BitVec 32 := v491
  let c96_i32 : BitVec 32 := 96#32
  let v562 : BitVec 32 := Scalar.addi v492 c96_i32
  let v563 : BitVec 32 := Scalar.addi v562 c0_i32_294
  let v564 : Index := Scalar.indexCast v563
  ![v564.toNat]
def k0_off167 (k0_t5 : Fin k0_t5_loop.trips) : Fin 1 → Nat :=
  let c256_i32_298 : BitVec 32 := 256#32
  let c0_i32_171 : BitVec 32 := 0#32
  let c1_i32_173 : BitVec 32 := 1#32
  let arg24 : BitVec 32 := Scf.iv c0_i32_171 c1_i32_173 k0_t5
  let v573 : BitVec 32 := Scalar.addi c256_i32_298 arg24
  let v574 : Index := Scalar.indexCast v573
  ![v574.toNat]
def k0_mult42 (v575 : BitVec 32) : BitVec 32 :=
  let c32_i32_299 : BitVec 32 := 32#32
  let v576 : BitVec 32 := Scalar.muli v575 c32_i32_299
  let c4096_i32 : BitVec 32 := 4096#32
  let v577 : BitVec 32 := Scalar.addi v576 c4096_i32
  v577

def k0_off168 (v575 : BitVec 32) (c0_i32_300 : BitVec 32) : Fin 1 → Nat :=
  let c32_i32_299 : BitVec 32 := 32#32
  let v576 : BitVec 32 := Scalar.muli v575 c32_i32_299
  let c4096_i32 : BitVec 32 := 4096#32
  let v577 : BitVec 32 := Scalar.addi v576 c4096_i32
  let v578 : BitVec 32 := v577
  let v579 : BitVec 32 := Scalar.addi v578 c0_i32_300
  let v580 : Index := Scalar.indexCast v579
  ![v580.toNat]

def k0_chk37 (v575 : BitVec 32) : Prop :=
  (32 ∣ (k0_mult42 v575).toNat) ∧
  (∀ (r : Fin 2), ∀ a, (k0_off168 v575 (BitVec.ofNat 32 (16 * r.val))) a + S16.size a ≤ S8192.size a)
instance k0_chk37.dec : ∀ (v575 : BitVec 32), Decidable (k0_chk37 v575) := fun v575 => decidable_of_iff' _ (Iff.of_eq (k0_chk37.eq_1 v575))
theorem k0_mult42_dvd : ∀ (v575 : BitVec 32) (k0_hw37 : k0_chk37 v575), 32 ∣ (k0_mult42 v575).toNat := fun v575 k0_hw37 => k0_hw37.1
theorem k0_off168_inb : ∀ (v575 : BitVec 32) (k0_hw37 : k0_chk37 v575), ∀ (r : Fin 2), ∀ a, (k0_off168 v575 (BitVec.ofNat 32 (16 * r.val))) a + S16.size a ≤ S8192.size a := fun v575 k0_hw37 r => k0_hw37.2 r

def k0_off169 (k0_t5 : Fin k0_t5_loop.trips) (c0_i32_302 : BitVec 32) : Fin 1 → Nat :=
  let c0_i32_171 : BitVec 32 := 0#32
  let c1_i32_173 : BitVec 32 := 1#32
  let arg24 : BitVec 32 := Scf.iv c0_i32_171 c1_i32_173 k0_t5
  let c256_i32_264 : BitVec 32 := 256#32
  let v491 : BitVec 32 := Scalar.muli arg24 c256_i32_264
  let v492 : BitVec 32 := v491
  let c128_i32_301 : BitVec 32 := 128#32
  let v582 : BitVec 32 := Scalar.addi v492 c128_i32_301
  let v583 : BitVec 32 := Scalar.addi v582 c0_i32_302
  let v584 : Index := Scalar.indexCast v583
  ![v584.toNat]
def k0_off170 (k0_t5 : Fin k0_t5_loop.trips) : Fin 1 → Nat :=
  let c320_i32_306 : BitVec 32 := 320#32
  let c0_i32_171 : BitVec 32 := 0#32
  let c1_i32_173 : BitVec 32 := 1#32
  let arg24 : BitVec 32 := Scf.iv c0_i32_171 c1_i32_173 k0_t5
  let v593 : BitVec 32 := Scalar.addi c320_i32_306 arg24
  let v594 : Index := Scalar.indexCast v593
  ![v594.toNat]
def k0_mult43 (v595 : BitVec 32) : BitVec 32 :=
  let c32_i32_307 : BitVec 32 := 32#32
  let v596 : BitVec 32 := Scalar.muli v595 c32_i32_307
  let c5120_i32 : BitVec 32 := 5120#32
  let v597 : BitVec 32 := Scalar.addi v596 c5120_i32
  v597

def k0_off171 (v595 : BitVec 32) (c0_i32_308 : BitVec 32) : Fin 1 → Nat :=
  let c32_i32_307 : BitVec 32 := 32#32
  let v596 : BitVec 32 := Scalar.muli v595 c32_i32_307
  let c5120_i32 : BitVec 32 := 5120#32
  let v597 : BitVec 32 := Scalar.addi v596 c5120_i32
  let v598 : BitVec 32 := v597
  let v599 : BitVec 32 := Scalar.addi v598 c0_i32_308
  let v600 : Index := Scalar.indexCast v599
  ![v600.toNat]

def k0_chk38 (v595 : BitVec 32) : Prop :=
  (32 ∣ (k0_mult43 v595).toNat) ∧
  (∀ (r : Fin 2), ∀ a, (k0_off171 v595 (BitVec.ofNat 32 (16 * r.val))) a + S16.size a ≤ S8192.size a)
instance k0_chk38.dec : ∀ (v595 : BitVec 32), Decidable (k0_chk38 v595) := fun v595 => decidable_of_iff' _ (Iff.of_eq (k0_chk38.eq_1 v595))
theorem k0_mult43_dvd : ∀ (v595 : BitVec 32) (k0_hw38 : k0_chk38 v595), 32 ∣ (k0_mult43 v595).toNat := fun v595 k0_hw38 => k0_hw38.1
theorem k0_off171_inb : ∀ (v595 : BitVec 32) (k0_hw38 : k0_chk38 v595), ∀ (r : Fin 2), ∀ a, (k0_off171 v595 (BitVec.ofNat 32 (16 * r.val))) a + S16.size a ≤ S8192.size a := fun v595 k0_hw38 r => k0_hw38.2 r

def k0_off172 (k0_t5 : Fin k0_t5_loop.trips) (c0_i32_309 : BitVec 32) : Fin 1 → Nat :=
  let c0_i32_171 : BitVec 32 := 0#32
  let c1_i32_173 : BitVec 32 := 1#32
  let arg24 : BitVec 32 := Scf.iv c0_i32_171 c1_i32_173 k0_t5
  let c256_i32_264 : BitVec 32 := 256#32
  let v491 : BitVec 32 := Scalar.muli arg24 c256_i32_264
  let v492 : BitVec 32 := v491
  let c160_i32 : BitVec 32 := 160#32
  let v602 : BitVec 32 := Scalar.addi v492 c160_i32
  let v603 : BitVec 32 := Scalar.addi v602 c0_i32_309
  let v604 : Index := Scalar.indexCast v603
  ![v604.toNat]
def k0_off173 (k0_t5 : Fin k0_t5_loop.trips) : Fin 1 → Nat :=
  let c384_i32_313 : BitVec 32 := 384#32
  let c0_i32_171 : BitVec 32 := 0#32
  let c1_i32_173 : BitVec 32 := 1#32
  let arg24 : BitVec 32 := Scf.iv c0_i32_171 c1_i32_173 k0_t5
  let v613 : BitVec 32 := Scalar.addi c384_i32_313 arg24
  let v614 : Index := Scalar.indexCast v613
  ![v614.toNat]
def k0_mult44 (v615 : BitVec 32) : BitVec 32 :=
  let c32_i32_314 : BitVec 32 := 32#32
  let v616 : BitVec 32 := Scalar.muli v615 c32_i32_314
  let c6144_i32 : BitVec 32 := 6144#32
  let v617 : BitVec 32 := Scalar.addi v616 c6144_i32
  v617

def k0_off174 (v615 : BitVec 32) (c0_i32_315 : BitVec 32) : Fin 1 → Nat :=
  let c32_i32_314 : BitVec 32 := 32#32
  let v616 : BitVec 32 := Scalar.muli v615 c32_i32_314
  let c6144_i32 : BitVec 32 := 6144#32
  let v617 : BitVec 32 := Scalar.addi v616 c6144_i32
  let v618 : BitVec 32 := v617
  let v619 : BitVec 32 := Scalar.addi v618 c0_i32_315
  let v620 : Index := Scalar.indexCast v619
  ![v620.toNat]

def k0_chk39 (v615 : BitVec 32) : Prop :=
  (32 ∣ (k0_mult44 v615).toNat) ∧
  (∀ (r : Fin 2), ∀ a, (k0_off174 v615 (BitVec.ofNat 32 (16 * r.val))) a + S16.size a ≤ S8192.size a)
instance k0_chk39.dec : ∀ (v615 : BitVec 32), Decidable (k0_chk39 v615) := fun v615 => decidable_of_iff' _ (Iff.of_eq (k0_chk39.eq_1 v615))
theorem k0_mult44_dvd : ∀ (v615 : BitVec 32) (k0_hw39 : k0_chk39 v615), 32 ∣ (k0_mult44 v615).toNat := fun v615 k0_hw39 => k0_hw39.1
theorem k0_off174_inb : ∀ (v615 : BitVec 32) (k0_hw39 : k0_chk39 v615), ∀ (r : Fin 2), ∀ a, (k0_off174 v615 (BitVec.ofNat 32 (16 * r.val))) a + S16.size a ≤ S8192.size a := fun v615 k0_hw39 r => k0_hw39.2 r

def k0_off175 (k0_t5 : Fin k0_t5_loop.trips) (c0_i32_317 : BitVec 32) : Fin 1 → Nat :=
  let c0_i32_171 : BitVec 32 := 0#32
  let c1_i32_173 : BitVec 32 := 1#32
  let arg24 : BitVec 32 := Scf.iv c0_i32_171 c1_i32_173 k0_t5
  let c256_i32_264 : BitVec 32 := 256#32
  let v491 : BitVec 32 := Scalar.muli arg24 c256_i32_264
  let v492 : BitVec 32 := v491
  let c192_i32_316 : BitVec 32 := 192#32
  let v622 : BitVec 32 := Scalar.addi v492 c192_i32_316
  let v623 : BitVec 32 := Scalar.addi v622 c0_i32_317
  let v624 : Index := Scalar.indexCast v623
  ![v624.toNat]
def k0_off176 (k0_t5 : Fin k0_t5_loop.trips) : Fin 1 → Nat :=
  let c448_i32_321 : BitVec 32 := 448#32
  let c0_i32_171 : BitVec 32 := 0#32
  let c1_i32_173 : BitVec 32 := 1#32
  let arg24 : BitVec 32 := Scf.iv c0_i32_171 c1_i32_173 k0_t5
  let v633 : BitVec 32 := Scalar.addi c448_i32_321 arg24
  let v634 : Index := Scalar.indexCast v633
  ![v634.toNat]
def k0_mult45 (v635 : BitVec 32) : BitVec 32 :=
  let c32_i32_322 : BitVec 32 := 32#32
  let v636 : BitVec 32 := Scalar.muli v635 c32_i32_322
  let c7168_i32 : BitVec 32 := 7168#32
  let v637 : BitVec 32 := Scalar.addi v636 c7168_i32
  v637

def k0_off177 (v635 : BitVec 32) (c0_i32_323 : BitVec 32) : Fin 1 → Nat :=
  let c32_i32_322 : BitVec 32 := 32#32
  let v636 : BitVec 32 := Scalar.muli v635 c32_i32_322
  let c7168_i32 : BitVec 32 := 7168#32
  let v637 : BitVec 32 := Scalar.addi v636 c7168_i32
  let v638 : BitVec 32 := v637
  let v639 : BitVec 32 := Scalar.addi v638 c0_i32_323
  let v640 : Index := Scalar.indexCast v639
  ![v640.toNat]

def k0_chk40 (v635 : BitVec 32) : Prop :=
  (32 ∣ (k0_mult45 v635).toNat) ∧
  (∀ (r : Fin 2), ∀ a, (k0_off177 v635 (BitVec.ofNat 32 (16 * r.val))) a + S16.size a ≤ S8192.size a)
instance k0_chk40.dec : ∀ (v635 : BitVec 32), Decidable (k0_chk40 v635) := fun v635 => decidable_of_iff' _ (Iff.of_eq (k0_chk40.eq_1 v635))
theorem k0_mult45_dvd : ∀ (v635 : BitVec 32) (k0_hw40 : k0_chk40 v635), 32 ∣ (k0_mult45 v635).toNat := fun v635 k0_hw40 => k0_hw40.1
theorem k0_off177_inb : ∀ (v635 : BitVec 32) (k0_hw40 : k0_chk40 v635), ∀ (r : Fin 2), ∀ a, (k0_off177 v635 (BitVec.ofNat 32 (16 * r.val))) a + S16.size a ≤ S8192.size a := fun v635 k0_hw40 r => k0_hw40.2 r

def k0_off178 (k0_t5 : Fin k0_t5_loop.trips) (c0_i32_324 : BitVec 32) : Fin 1 → Nat :=
  let c0_i32_171 : BitVec 32 := 0#32
  let c1_i32_173 : BitVec 32 := 1#32
  let arg24 : BitVec 32 := Scf.iv c0_i32_171 c1_i32_173 k0_t5
  let c256_i32_264 : BitVec 32 := 256#32
  let v491 : BitVec 32 := Scalar.muli arg24 c256_i32_264
  let v492 : BitVec 32 := v491
  let c224_i32 : BitVec 32 := 224#32
  let v642 : BitVec 32 := Scalar.addi v492 c224_i32
  let v643 : BitVec 32 := Scalar.addi v642 c0_i32_324
  let v644 : Index := Scalar.indexCast v643
  ![v644.toNat]
def k0_off179 (i : grid0.Coords) : Fin 2 → Nat :=
  let arg1 : BitVec 32 := BitVec.ofNat 32 (i 1).val
  let c384_i32_178 : BitVec 32 := 384#32
  ![arg1.toNat, 384]
def k0_off180 (i : grid0.Coords) : Fin 2 → Nat :=
  let arg1 : BitVec 32 := BitVec.ofNat 32 (i 1).val
  let c896_i32 : BitVec 32 := 896#32
  ![arg1.toNat, 896]
def k0_off181 (i : grid0.Coords) : Fin 2 → Nat :=
  let arg1 : BitVec 32 := BitVec.ofNat 32 (i 1).val
  let c1408_i32 : BitVec 32 := 1408#32
  ![arg1.toNat, 1408]
def k0_off182 (i : grid0.Coords) : Fin 2 → Nat :=
  let arg1 : BitVec 32 := BitVec.ofNat 32 (i 1).val
  let c1920_i32 : BitVec 32 := 1920#32
  ![arg1.toNat, 1920]
def k0_off183 (i : grid0.Coords) : Fin 2 → Nat :=
  let arg1 : BitVec 32 := BitVec.ofNat 32 (i 1).val
  let c2432_i32 : BitVec 32 := 2432#32
  ![arg1.toNat, 2432]
def k0_off184 (i : grid0.Coords) : Fin 2 → Nat :=
  let arg1 : BitVec 32 := BitVec.ofNat 32 (i 1).val
  let c2944_i32 : BitVec 32 := 2944#32
  ![arg1.toNat, 2944]
def k0_off185 (i : grid0.Coords) : Fin 2 → Nat :=
  let arg1 : BitVec 32 := BitVec.ofNat 32 (i 1).val
  let c3456_i32 : BitVec 32 := 3456#32
  ![arg1.toNat, 3456]
def k0_off186 (i : grid0.Coords) : Fin 2 → Nat :=
  let arg1 : BitVec 32 := BitVec.ofNat 32 (i 1).val
  let c3968_i32 : BitVec 32 := 3968#32
  ![arg1.toNat, 3968]
@[reducible] def k0_t6_loop : Scf.Loop 32 :=
  let c0_i32_203 : BitVec 32 := 0#32
  let c64_i32_204 : BitVec 32 := 64#32
  let v396 : BitVec 32 := Scalar.addi c0_i32_203 c64_i32_204
  let c1_i32_205 : BitVec 32 := 1#32
  ⟨c0_i32_203, v396, c1_i32_205⟩
def k0_mult46 (k0_t6 : Fin k0_t6_loop.trips) : BitVec 32 :=
  let c0_i32_203 : BitVec 32 := 0#32
  let c1_i32_205 : BitVec 32 := 1#32
  let arg24 : BitVec 32 := Scf.iv c0_i32_203 c1_i32_205 k0_t6
  let c256_i32_264 : BitVec 32 := 256#32
  let v491 : BitVec 32 := Scalar.muli arg24 c256_i32_264
  v491
def k0_off187 (k0_t6 : Fin k0_t6_loop.trips) : Fin 1 → Nat :=
  let c0_i32_265 : BitVec 32 := 0#32
  let c0_i32_203 : BitVec 32 := 0#32
  let c1_i32_205 : BitVec 32 := 1#32
  let arg24 : BitVec 32 := Scf.iv c0_i32_203 c1_i32_205 k0_t6
  let v493 : BitVec 32 := Scalar.addi c0_i32_265 arg24
  let v494 : Index := Scalar.indexCast v493
  ![v494.toNat]
def k0_mult47 (v495 : BitVec 32) : BitVec 32 :=
  let c32_i32 : BitVec 32 := 32#32
  let v496 : BitVec 32 := Scalar.muli v495 c32_i32
  let c0_i32_266 : BitVec 32 := 0#32
  let v497 : BitVec 32 := Scalar.addi v496 c0_i32_266
  v497

def k0_off188 (v495 : BitVec 32) (c0_i32_267 : BitVec 32) : Fin 1 → Nat :=
  let c32_i32 : BitVec 32 := 32#32
  let v496 : BitVec 32 := Scalar.muli v495 c32_i32
  let c0_i32_266 : BitVec 32 := 0#32
  let v497 : BitVec 32 := Scalar.addi v496 c0_i32_266
  let v498 : BitVec 32 := v497
  let v499 : BitVec 32 := Scalar.addi v498 c0_i32_267
  let v500 : Index := Scalar.indexCast v499
  ![v500.toNat]

def k0_chk41 (v495 : BitVec 32) : Prop :=
  (32 ∣ (k0_mult47 v495).toNat) ∧
  (∀ (r : Fin 2), ∀ a, (k0_off188 v495 (BitVec.ofNat 32 (16 * r.val))) a + S16.size a ≤ S8192.size a)
instance k0_chk41.dec : ∀ (v495 : BitVec 32), Decidable (k0_chk41 v495) := fun v495 => decidable_of_iff' _ (Iff.of_eq (k0_chk41.eq_1 v495))
theorem k0_mult47_dvd : ∀ (v495 : BitVec 32) (k0_hw41 : k0_chk41 v495), 32 ∣ (k0_mult47 v495).toNat := fun v495 k0_hw41 => k0_hw41.1
theorem k0_off188_inb : ∀ (v495 : BitVec 32) (k0_hw41 : k0_chk41 v495), ∀ (r : Fin 2), ∀ a, (k0_off188 v495 (BitVec.ofNat 32 (16 * r.val))) a + S16.size a ≤ S8192.size a := fun v495 k0_hw41 r => k0_hw41.2 r

def k0_off189 (k0_t6 : Fin k0_t6_loop.trips) (c0_i32_269 : BitVec 32) : Fin 1 → Nat :=
  let c0_i32_203 : BitVec 32 := 0#32
  let c1_i32_205 : BitVec 32 := 1#32
  let arg24 : BitVec 32 := Scf.iv c0_i32_203 c1_i32_205 k0_t6
  let c256_i32_264 : BitVec 32 := 256#32
  let v491 : BitVec 32 := Scalar.muli arg24 c256_i32_264
  let v492 : BitVec 32 := v491
  let c0_i32_268 : BitVec 32 := 0#32
  let v502 : BitVec 32 := Scalar.addi v492 c0_i32_268
  let v503 : BitVec 32 := Scalar.addi v502 c0_i32_269
  let v504 : Index := Scalar.indexCast v503
  ![v504.toNat]
def k0_off190 (k0_t6 : Fin k0_t6_loop.trips) : Fin 1 → Nat :=
  let c64_i32_272 : BitVec 32 := 64#32
  let c0_i32_203 : BitVec 32 := 0#32
  let c1_i32_205 : BitVec 32 := 1#32
  let arg24 : BitVec 32 := Scf.iv c0_i32_203 c1_i32_205 k0_t6
  let v513 : BitVec 32 := Scalar.addi c64_i32_272 arg24
  let v514 : Index := Scalar.indexCast v513
  ![v514.toNat]
def k0_mult48 (v515 : BitVec 32) : BitVec 32 :=
  let c32_i32_273 : BitVec 32 := 32#32
  let v516 : BitVec 32 := Scalar.muli v515 c32_i32_273
  let c1024_i32_274 : BitVec 32 := 1024#32
  let v517 : BitVec 32 := Scalar.addi v516 c1024_i32_274
  v517

def k0_off191 (v515 : BitVec 32) (c0_i32_275 : BitVec 32) : Fin 1 → Nat :=
  let c32_i32_273 : BitVec 32 := 32#32
  let v516 : BitVec 32 := Scalar.muli v515 c32_i32_273
  let c1024_i32_274 : BitVec 32 := 1024#32
  let v517 : BitVec 32 := Scalar.addi v516 c1024_i32_274
  let v518 : BitVec 32 := v517
  let v519 : BitVec 32 := Scalar.addi v518 c0_i32_275
  let v520 : Index := Scalar.indexCast v519
  ![v520.toNat]

def k0_chk42 (v515 : BitVec 32) : Prop :=
  (32 ∣ (k0_mult48 v515).toNat) ∧
  (∀ (r : Fin 2), ∀ a, (k0_off191 v515 (BitVec.ofNat 32 (16 * r.val))) a + S16.size a ≤ S8192.size a)
instance k0_chk42.dec : ∀ (v515 : BitVec 32), Decidable (k0_chk42 v515) := fun v515 => decidable_of_iff' _ (Iff.of_eq (k0_chk42.eq_1 v515))
theorem k0_mult48_dvd : ∀ (v515 : BitVec 32) (k0_hw42 : k0_chk42 v515), 32 ∣ (k0_mult48 v515).toNat := fun v515 k0_hw42 => k0_hw42.1
theorem k0_off191_inb : ∀ (v515 : BitVec 32) (k0_hw42 : k0_chk42 v515), ∀ (r : Fin 2), ∀ a, (k0_off191 v515 (BitVec.ofNat 32 (16 * r.val))) a + S16.size a ≤ S8192.size a := fun v515 k0_hw42 r => k0_hw42.2 r

def k0_off192 (k0_t6 : Fin k0_t6_loop.trips) (c0_i32_277 : BitVec 32) : Fin 1 → Nat :=
  let c0_i32_203 : BitVec 32 := 0#32
  let c1_i32_205 : BitVec 32 := 1#32
  let arg24 : BitVec 32 := Scf.iv c0_i32_203 c1_i32_205 k0_t6
  let c256_i32_264 : BitVec 32 := 256#32
  let v491 : BitVec 32 := Scalar.muli arg24 c256_i32_264
  let v492 : BitVec 32 := v491
  let c32_i32_276 : BitVec 32 := 32#32
  let v522 : BitVec 32 := Scalar.addi v492 c32_i32_276
  let v523 : BitVec 32 := Scalar.addi v522 c0_i32_277
  let v524 : Index := Scalar.indexCast v523
  ![v524.toNat]
def k0_off193 (k0_t6 : Fin k0_t6_loop.trips) : Fin 1 → Nat :=
  let c128_i32_281 : BitVec 32 := 128#32
  let c0_i32_203 : BitVec 32 := 0#32
  let c1_i32_205 : BitVec 32 := 1#32
  let arg24 : BitVec 32 := Scf.iv c0_i32_203 c1_i32_205 k0_t6
  let v533 : BitVec 32 := Scalar.addi c128_i32_281 arg24
  let v534 : Index := Scalar.indexCast v533
  ![v534.toNat]
def k0_mult49 (v535 : BitVec 32) : BitVec 32 :=
  let c32_i32_282 : BitVec 32 := 32#32
  let v536 : BitVec 32 := Scalar.muli v535 c32_i32_282
  let c2048_i32_283 : BitVec 32 := 2048#32
  let v537 : BitVec 32 := Scalar.addi v536 c2048_i32_283
  v537

def k0_off194 (v535 : BitVec 32) (c0_i32_284 : BitVec 32) : Fin 1 → Nat :=
  let c32_i32_282 : BitVec 32 := 32#32
  let v536 : BitVec 32 := Scalar.muli v535 c32_i32_282
  let c2048_i32_283 : BitVec 32 := 2048#32
  let v537 : BitVec 32 := Scalar.addi v536 c2048_i32_283
  let v538 : BitVec 32 := v537
  let v539 : BitVec 32 := Scalar.addi v538 c0_i32_284
  let v540 : Index := Scalar.indexCast v539
  ![v540.toNat]

def k0_chk43 (v535 : BitVec 32) : Prop :=
  (32 ∣ (k0_mult49 v535).toNat) ∧
  (∀ (r : Fin 2), ∀ a, (k0_off194 v535 (BitVec.ofNat 32 (16 * r.val))) a + S16.size a ≤ S8192.size a)
instance k0_chk43.dec : ∀ (v535 : BitVec 32), Decidable (k0_chk43 v535) := fun v535 => decidable_of_iff' _ (Iff.of_eq (k0_chk43.eq_1 v535))
theorem k0_mult49_dvd : ∀ (v535 : BitVec 32) (k0_hw43 : k0_chk43 v535), 32 ∣ (k0_mult49 v535).toNat := fun v535 k0_hw43 => k0_hw43.1
theorem k0_off194_inb : ∀ (v535 : BitVec 32) (k0_hw43 : k0_chk43 v535), ∀ (r : Fin 2), ∀ a, (k0_off194 v535 (BitVec.ofNat 32 (16 * r.val))) a + S16.size a ≤ S8192.size a := fun v535 k0_hw43 r => k0_hw43.2 r

def k0_off195 (k0_t6 : Fin k0_t6_loop.trips) (c0_i32_286 : BitVec 32) : Fin 1 → Nat :=
  let c0_i32_203 : BitVec 32 := 0#32
  let c1_i32_205 : BitVec 32 := 1#32
  let arg24 : BitVec 32 := Scf.iv c0_i32_203 c1_i32_205 k0_t6
  let c256_i32_264 : BitVec 32 := 256#32
  let v491 : BitVec 32 := Scalar.muli arg24 c256_i32_264
  let v492 : BitVec 32 := v491
  let c64_i32_285 : BitVec 32 := 64#32
  let v542 : BitVec 32 := Scalar.addi v492 c64_i32_285
  let v543 : BitVec 32 := Scalar.addi v542 c0_i32_286
  let v544 : Index := Scalar.indexCast v543
  ![v544.toNat]
def k0_off196 (k0_t6 : Fin k0_t6_loop.trips) : Fin 1 → Nat :=
  let c192_i32_290 : BitVec 32 := 192#32
  let c0_i32_203 : BitVec 32 := 0#32
  let c1_i32_205 : BitVec 32 := 1#32
  let arg24 : BitVec 32 := Scf.iv c0_i32_203 c1_i32_205 k0_t6
  let v553 : BitVec 32 := Scalar.addi c192_i32_290 arg24
  let v554 : Index := Scalar.indexCast v553
  ![v554.toNat]
def k0_mult50 (v555 : BitVec 32) : BitVec 32 :=
  let c32_i32_291 : BitVec 32 := 32#32
  let v556 : BitVec 32 := Scalar.muli v555 c32_i32_291
  let c3072_i32_292 : BitVec 32 := 3072#32
  let v557 : BitVec 32 := Scalar.addi v556 c3072_i32_292
  v557

def k0_off197 (v555 : BitVec 32) (c0_i32_293 : BitVec 32) : Fin 1 → Nat :=
  let c32_i32_291 : BitVec 32 := 32#32
  let v556 : BitVec 32 := Scalar.muli v555 c32_i32_291
  let c3072_i32_292 : BitVec 32 := 3072#32
  let v557 : BitVec 32 := Scalar.addi v556 c3072_i32_292
  let v558 : BitVec 32 := v557
  let v559 : BitVec 32 := Scalar.addi v558 c0_i32_293
  let v560 : Index := Scalar.indexCast v559
  ![v560.toNat]

def k0_chk44 (v555 : BitVec 32) : Prop :=
  (32 ∣ (k0_mult50 v555).toNat) ∧
  (∀ (r : Fin 2), ∀ a, (k0_off197 v555 (BitVec.ofNat 32 (16 * r.val))) a + S16.size a ≤ S8192.size a)
instance k0_chk44.dec : ∀ (v555 : BitVec 32), Decidable (k0_chk44 v555) := fun v555 => decidable_of_iff' _ (Iff.of_eq (k0_chk44.eq_1 v555))
theorem k0_mult50_dvd : ∀ (v555 : BitVec 32) (k0_hw44 : k0_chk44 v555), 32 ∣ (k0_mult50 v555).toNat := fun v555 k0_hw44 => k0_hw44.1
theorem k0_off197_inb : ∀ (v555 : BitVec 32) (k0_hw44 : k0_chk44 v555), ∀ (r : Fin 2), ∀ a, (k0_off197 v555 (BitVec.ofNat 32 (16 * r.val))) a + S16.size a ≤ S8192.size a := fun v555 k0_hw44 r => k0_hw44.2 r

def k0_off198 (k0_t6 : Fin k0_t6_loop.trips) (c0_i32_294 : BitVec 32) : Fin 1 → Nat :=
  let c0_i32_203 : BitVec 32 := 0#32
  let c1_i32_205 : BitVec 32 := 1#32
  let arg24 : BitVec 32 := Scf.iv c0_i32_203 c1_i32_205 k0_t6
  let c256_i32_264 : BitVec 32 := 256#32
  let v491 : BitVec 32 := Scalar.muli arg24 c256_i32_264
  let v492 : BitVec 32 := v491
  let c96_i32 : BitVec 32 := 96#32
  let v562 : BitVec 32 := Scalar.addi v492 c96_i32
  let v563 : BitVec 32 := Scalar.addi v562 c0_i32_294
  let v564 : Index := Scalar.indexCast v563
  ![v564.toNat]
def k0_off199 (k0_t6 : Fin k0_t6_loop.trips) : Fin 1 → Nat :=
  let c256_i32_298 : BitVec 32 := 256#32
  let c0_i32_203 : BitVec 32 := 0#32
  let c1_i32_205 : BitVec 32 := 1#32
  let arg24 : BitVec 32 := Scf.iv c0_i32_203 c1_i32_205 k0_t6
  let v573 : BitVec 32 := Scalar.addi c256_i32_298 arg24
  let v574 : Index := Scalar.indexCast v573
  ![v574.toNat]
def k0_mult51 (v575 : BitVec 32) : BitVec 32 :=
  let c32_i32_299 : BitVec 32 := 32#32
  let v576 : BitVec 32 := Scalar.muli v575 c32_i32_299
  let c4096_i32 : BitVec 32 := 4096#32
  let v577 : BitVec 32 := Scalar.addi v576 c4096_i32
  v577

def k0_off200 (v575 : BitVec 32) (c0_i32_300 : BitVec 32) : Fin 1 → Nat :=
  let c32_i32_299 : BitVec 32 := 32#32
  let v576 : BitVec 32 := Scalar.muli v575 c32_i32_299
  let c4096_i32 : BitVec 32 := 4096#32
  let v577 : BitVec 32 := Scalar.addi v576 c4096_i32
  let v578 : BitVec 32 := v577
  let v579 : BitVec 32 := Scalar.addi v578 c0_i32_300
  let v580 : Index := Scalar.indexCast v579
  ![v580.toNat]

def k0_chk45 (v575 : BitVec 32) : Prop :=
  (32 ∣ (k0_mult51 v575).toNat) ∧
  (∀ (r : Fin 2), ∀ a, (k0_off200 v575 (BitVec.ofNat 32 (16 * r.val))) a + S16.size a ≤ S8192.size a)
instance k0_chk45.dec : ∀ (v575 : BitVec 32), Decidable (k0_chk45 v575) := fun v575 => decidable_of_iff' _ (Iff.of_eq (k0_chk45.eq_1 v575))
theorem k0_mult51_dvd : ∀ (v575 : BitVec 32) (k0_hw45 : k0_chk45 v575), 32 ∣ (k0_mult51 v575).toNat := fun v575 k0_hw45 => k0_hw45.1
theorem k0_off200_inb : ∀ (v575 : BitVec 32) (k0_hw45 : k0_chk45 v575), ∀ (r : Fin 2), ∀ a, (k0_off200 v575 (BitVec.ofNat 32 (16 * r.val))) a + S16.size a ≤ S8192.size a := fun v575 k0_hw45 r => k0_hw45.2 r

def k0_off201 (k0_t6 : Fin k0_t6_loop.trips) (c0_i32_302 : BitVec 32) : Fin 1 → Nat :=
  let c0_i32_203 : BitVec 32 := 0#32
  let c1_i32_205 : BitVec 32 := 1#32
  let arg24 : BitVec 32 := Scf.iv c0_i32_203 c1_i32_205 k0_t6
  let c256_i32_264 : BitVec 32 := 256#32
  let v491 : BitVec 32 := Scalar.muli arg24 c256_i32_264
  let v492 : BitVec 32 := v491
  let c128_i32_301 : BitVec 32 := 128#32
  let v582 : BitVec 32 := Scalar.addi v492 c128_i32_301
  let v583 : BitVec 32 := Scalar.addi v582 c0_i32_302
  let v584 : Index := Scalar.indexCast v583
  ![v584.toNat]
def k0_off202 (k0_t6 : Fin k0_t6_loop.trips) : Fin 1 → Nat :=
  let c320_i32_306 : BitVec 32 := 320#32
  let c0_i32_203 : BitVec 32 := 0#32
  let c1_i32_205 : BitVec 32 := 1#32
  let arg24 : BitVec 32 := Scf.iv c0_i32_203 c1_i32_205 k0_t6
  let v593 : BitVec 32 := Scalar.addi c320_i32_306 arg24
  let v594 : Index := Scalar.indexCast v593
  ![v594.toNat]
def k0_mult52 (v595 : BitVec 32) : BitVec 32 :=
  let c32_i32_307 : BitVec 32 := 32#32
  let v596 : BitVec 32 := Scalar.muli v595 c32_i32_307
  let c5120_i32 : BitVec 32 := 5120#32
  let v597 : BitVec 32 := Scalar.addi v596 c5120_i32
  v597

def k0_off203 (v595 : BitVec 32) (c0_i32_308 : BitVec 32) : Fin 1 → Nat :=
  let c32_i32_307 : BitVec 32 := 32#32
  let v596 : BitVec 32 := Scalar.muli v595 c32_i32_307
  let c5120_i32 : BitVec 32 := 5120#32
  let v597 : BitVec 32 := Scalar.addi v596 c5120_i32
  let v598 : BitVec 32 := v597
  let v599 : BitVec 32 := Scalar.addi v598 c0_i32_308
  let v600 : Index := Scalar.indexCast v599
  ![v600.toNat]

def k0_chk46 (v595 : BitVec 32) : Prop :=
  (32 ∣ (k0_mult52 v595).toNat) ∧
  (∀ (r : Fin 2), ∀ a, (k0_off203 v595 (BitVec.ofNat 32 (16 * r.val))) a + S16.size a ≤ S8192.size a)
instance k0_chk46.dec : ∀ (v595 : BitVec 32), Decidable (k0_chk46 v595) := fun v595 => decidable_of_iff' _ (Iff.of_eq (k0_chk46.eq_1 v595))
theorem k0_mult52_dvd : ∀ (v595 : BitVec 32) (k0_hw46 : k0_chk46 v595), 32 ∣ (k0_mult52 v595).toNat := fun v595 k0_hw46 => k0_hw46.1
theorem k0_off203_inb : ∀ (v595 : BitVec 32) (k0_hw46 : k0_chk46 v595), ∀ (r : Fin 2), ∀ a, (k0_off203 v595 (BitVec.ofNat 32 (16 * r.val))) a + S16.size a ≤ S8192.size a := fun v595 k0_hw46 r => k0_hw46.2 r

def k0_off204 (k0_t6 : Fin k0_t6_loop.trips) (c0_i32_309 : BitVec 32) : Fin 1 → Nat :=
  let c0_i32_203 : BitVec 32 := 0#32
  let c1_i32_205 : BitVec 32 := 1#32
  let arg24 : BitVec 32 := Scf.iv c0_i32_203 c1_i32_205 k0_t6
  let c256_i32_264 : BitVec 32 := 256#32
  let v491 : BitVec 32 := Scalar.muli arg24 c256_i32_264
  let v492 : BitVec 32 := v491
  let c160_i32 : BitVec 32 := 160#32
  let v602 : BitVec 32 := Scalar.addi v492 c160_i32
  let v603 : BitVec 32 := Scalar.addi v602 c0_i32_309
  let v604 : Index := Scalar.indexCast v603
  ![v604.toNat]
def k0_off205 (k0_t6 : Fin k0_t6_loop.trips) : Fin 1 → Nat :=
  let c384_i32_313 : BitVec 32 := 384#32
  let c0_i32_203 : BitVec 32 := 0#32
  let c1_i32_205 : BitVec 32 := 1#32
  let arg24 : BitVec 32 := Scf.iv c0_i32_203 c1_i32_205 k0_t6
  let v613 : BitVec 32 := Scalar.addi c384_i32_313 arg24
  let v614 : Index := Scalar.indexCast v613
  ![v614.toNat]
def k0_mult53 (v615 : BitVec 32) : BitVec 32 :=
  let c32_i32_314 : BitVec 32 := 32#32
  let v616 : BitVec 32 := Scalar.muli v615 c32_i32_314
  let c6144_i32 : BitVec 32 := 6144#32
  let v617 : BitVec 32 := Scalar.addi v616 c6144_i32
  v617

def k0_off206 (v615 : BitVec 32) (c0_i32_315 : BitVec 32) : Fin 1 → Nat :=
  let c32_i32_314 : BitVec 32 := 32#32
  let v616 : BitVec 32 := Scalar.muli v615 c32_i32_314
  let c6144_i32 : BitVec 32 := 6144#32
  let v617 : BitVec 32 := Scalar.addi v616 c6144_i32
  let v618 : BitVec 32 := v617
  let v619 : BitVec 32 := Scalar.addi v618 c0_i32_315
  let v620 : Index := Scalar.indexCast v619
  ![v620.toNat]

def k0_chk47 (v615 : BitVec 32) : Prop :=
  (32 ∣ (k0_mult53 v615).toNat) ∧
  (∀ (r : Fin 2), ∀ a, (k0_off206 v615 (BitVec.ofNat 32 (16 * r.val))) a + S16.size a ≤ S8192.size a)
instance k0_chk47.dec : ∀ (v615 : BitVec 32), Decidable (k0_chk47 v615) := fun v615 => decidable_of_iff' _ (Iff.of_eq (k0_chk47.eq_1 v615))
theorem k0_mult53_dvd : ∀ (v615 : BitVec 32) (k0_hw47 : k0_chk47 v615), 32 ∣ (k0_mult53 v615).toNat := fun v615 k0_hw47 => k0_hw47.1
theorem k0_off206_inb : ∀ (v615 : BitVec 32) (k0_hw47 : k0_chk47 v615), ∀ (r : Fin 2), ∀ a, (k0_off206 v615 (BitVec.ofNat 32 (16 * r.val))) a + S16.size a ≤ S8192.size a := fun v615 k0_hw47 r => k0_hw47.2 r

def k0_off207 (k0_t6 : Fin k0_t6_loop.trips) (c0_i32_317 : BitVec 32) : Fin 1 → Nat :=
  let c0_i32_203 : BitVec 32 := 0#32
  let c1_i32_205 : BitVec 32 := 1#32
  let arg24 : BitVec 32 := Scf.iv c0_i32_203 c1_i32_205 k0_t6
  let c256_i32_264 : BitVec 32 := 256#32
  let v491 : BitVec 32 := Scalar.muli arg24 c256_i32_264
  let v492 : BitVec 32 := v491
  let c192_i32_316 : BitVec 32 := 192#32
  let v622 : BitVec 32 := Scalar.addi v492 c192_i32_316
  let v623 : BitVec 32 := Scalar.addi v622 c0_i32_317
  let v624 : Index := Scalar.indexCast v623
  ![v624.toNat]
def k0_off208 (k0_t6 : Fin k0_t6_loop.trips) : Fin 1 → Nat :=
  let c448_i32_321 : BitVec 32 := 448#32
  let c0_i32_203 : BitVec 32 := 0#32
  let c1_i32_205 : BitVec 32 := 1#32
  let arg24 : BitVec 32 := Scf.iv c0_i32_203 c1_i32_205 k0_t6
  let v633 : BitVec 32 := Scalar.addi c448_i32_321 arg24
  let v634 : Index := Scalar.indexCast v633
  ![v634.toNat]
def k0_mult54 (v635 : BitVec 32) : BitVec 32 :=
  let c32_i32_322 : BitVec 32 := 32#32
  let v636 : BitVec 32 := Scalar.muli v635 c32_i32_322
  let c7168_i32 : BitVec 32 := 7168#32
  let v637 : BitVec 32 := Scalar.addi v636 c7168_i32
  v637

def k0_off209 (v635 : BitVec 32) (c0_i32_323 : BitVec 32) : Fin 1 → Nat :=
  let c32_i32_322 : BitVec 32 := 32#32
  let v636 : BitVec 32 := Scalar.muli v635 c32_i32_322
  let c7168_i32 : BitVec 32 := 7168#32
  let v637 : BitVec 32 := Scalar.addi v636 c7168_i32
  let v638 : BitVec 32 := v637
  let v639 : BitVec 32 := Scalar.addi v638 c0_i32_323
  let v640 : Index := Scalar.indexCast v639
  ![v640.toNat]

def k0_chk48 (v635 : BitVec 32) : Prop :=
  (32 ∣ (k0_mult54 v635).toNat) ∧
  (∀ (r : Fin 2), ∀ a, (k0_off209 v635 (BitVec.ofNat 32 (16 * r.val))) a + S16.size a ≤ S8192.size a)
instance k0_chk48.dec : ∀ (v635 : BitVec 32), Decidable (k0_chk48 v635) := fun v635 => decidable_of_iff' _ (Iff.of_eq (k0_chk48.eq_1 v635))
theorem k0_mult54_dvd : ∀ (v635 : BitVec 32) (k0_hw48 : k0_chk48 v635), 32 ∣ (k0_mult54 v635).toNat := fun v635 k0_hw48 => k0_hw48.1
theorem k0_off209_inb : ∀ (v635 : BitVec 32) (k0_hw48 : k0_chk48 v635), ∀ (r : Fin 2), ∀ a, (k0_off209 v635 (BitVec.ofNat 32 (16 * r.val))) a + S16.size a ≤ S8192.size a := fun v635 k0_hw48 r => k0_hw48.2 r

def k0_off210 (k0_t6 : Fin k0_t6_loop.trips) (c0_i32_324 : BitVec 32) : Fin 1 → Nat :=
  let c0_i32_203 : BitVec 32 := 0#32
  let c1_i32_205 : BitVec 32 := 1#32
  let arg24 : BitVec 32 := Scf.iv c0_i32_203 c1_i32_205 k0_t6
  let c256_i32_264 : BitVec 32 := 256#32
  let v491 : BitVec 32 := Scalar.muli arg24 c256_i32_264
  let v492 : BitVec 32 := v491
  let c224_i32 : BitVec 32 := 224#32
  let v642 : BitVec 32 := Scalar.addi v492 c224_i32
  let v643 : BitVec 32 := Scalar.addi v642 c0_i32_324
  let v644 : Index := Scalar.indexCast v643
  ![v644.toNat]
def k0_off211 (i : grid0.Coords) : Fin 2 → Nat :=
  let arg1 : BitVec 32 := BitVec.ofNat 32 (i 1).val
  let c448_i32_210 : BitVec 32 := 448#32
  ![arg1.toNat, 448]
def k0_off212 (i : grid0.Coords) : Fin 2 → Nat :=
  let arg1 : BitVec 32 := BitVec.ofNat 32 (i 1).val
  let c960_i32 : BitVec 32 := 960#32
  ![arg1.toNat, 960]
def k0_off213 (i : grid0.Coords) : Fin 2 → Nat :=
  let arg1 : BitVec 32 := BitVec.ofNat 32 (i 1).val
  let c1472_i32 : BitVec 32 := 1472#32
  ![arg1.toNat, 1472]
def k0_off214 (i : grid0.Coords) : Fin 2 → Nat :=
  let arg1 : BitVec 32 := BitVec.ofNat 32 (i 1).val
  let c1984_i32 : BitVec 32 := 1984#32
  ![arg1.toNat, 1984]
def k0_off215 (i : grid0.Coords) : Fin 2 → Nat :=
  let arg1 : BitVec 32 := BitVec.ofNat 32 (i 1).val
  let c2496_i32 : BitVec 32 := 2496#32
  ![arg1.toNat, 2496]
def k0_off216 (i : grid0.Coords) : Fin 2 → Nat :=
  let arg1 : BitVec 32 := BitVec.ofNat 32 (i 1).val
  let c3008_i32 : BitVec 32 := 3008#32
  ![arg1.toNat, 3008]
def k0_off217 (i : grid0.Coords) : Fin 2 → Nat :=
  let arg1 : BitVec 32 := BitVec.ofNat 32 (i 1).val
  let c3520_i32 : BitVec 32 := 3520#32
  ![arg1.toNat, 3520]
def k0_off218 (i : grid0.Coords) : Fin 2 → Nat :=
  let arg1 : BitVec 32 := BitVec.ofNat 32 (i 1).val
  let c4032_i32 : BitVec 32 := 4032#32
  ![arg1.toNat, 4032]
@[reducible] def k0_t7_loop : Scf.Loop 32 :=
  let c0_i32_235 : BitVec 32 := 0#32
  let c64_i32_236 : BitVec 32 := 64#32
  let v451 : BitVec 32 := Scalar.addi c0_i32_235 c64_i32_236
  let c1_i32_237 : BitVec 32 := 1#32
  ⟨c0_i32_235, v451, c1_i32_237⟩
def k0_mult55 (k0_t7 : Fin k0_t7_loop.trips) : BitVec 32 :=
  let c0_i32_235 : BitVec 32 := 0#32
  let c1_i32_237 : BitVec 32 := 1#32
  let arg24 : BitVec 32 := Scf.iv c0_i32_235 c1_i32_237 k0_t7
  let c256_i32_264 : BitVec 32 := 256#32
  let v491 : BitVec 32 := Scalar.muli arg24 c256_i32_264
  v491
def k0_off219 (k0_t7 : Fin k0_t7_loop.trips) : Fin 1 → Nat :=
  let c0_i32_265 : BitVec 32 := 0#32
  let c0_i32_235 : BitVec 32 := 0#32
  let c1_i32_237 : BitVec 32 := 1#32
  let arg24 : BitVec 32 := Scf.iv c0_i32_235 c1_i32_237 k0_t7
  let v493 : BitVec 32 := Scalar.addi c0_i32_265 arg24
  let v494 : Index := Scalar.indexCast v493
  ![v494.toNat]
def k0_mult56 (v495 : BitVec 32) : BitVec 32 :=
  let c32_i32 : BitVec 32 := 32#32
  let v496 : BitVec 32 := Scalar.muli v495 c32_i32
  let c0_i32_266 : BitVec 32 := 0#32
  let v497 : BitVec 32 := Scalar.addi v496 c0_i32_266
  v497

def k0_off220 (v495 : BitVec 32) (c0_i32_267 : BitVec 32) : Fin 1 → Nat :=
  let c32_i32 : BitVec 32 := 32#32
  let v496 : BitVec 32 := Scalar.muli v495 c32_i32
  let c0_i32_266 : BitVec 32 := 0#32
  let v497 : BitVec 32 := Scalar.addi v496 c0_i32_266
  let v498 : BitVec 32 := v497
  let v499 : BitVec 32 := Scalar.addi v498 c0_i32_267
  let v500 : Index := Scalar.indexCast v499
  ![v500.toNat]

def k0_chk49 (v495 : BitVec 32) : Prop :=
  (32 ∣ (k0_mult56 v495).toNat) ∧
  (∀ (r : Fin 2), ∀ a, (k0_off220 v495 (BitVec.ofNat 32 (16 * r.val))) a + S16.size a ≤ S8192.size a)
instance k0_chk49.dec : ∀ (v495 : BitVec 32), Decidable (k0_chk49 v495) := fun v495 => decidable_of_iff' _ (Iff.of_eq (k0_chk49.eq_1 v495))
theorem k0_mult56_dvd : ∀ (v495 : BitVec 32) (k0_hw49 : k0_chk49 v495), 32 ∣ (k0_mult56 v495).toNat := fun v495 k0_hw49 => k0_hw49.1
theorem k0_off220_inb : ∀ (v495 : BitVec 32) (k0_hw49 : k0_chk49 v495), ∀ (r : Fin 2), ∀ a, (k0_off220 v495 (BitVec.ofNat 32 (16 * r.val))) a + S16.size a ≤ S8192.size a := fun v495 k0_hw49 r => k0_hw49.2 r

def k0_off221 (k0_t7 : Fin k0_t7_loop.trips) (c0_i32_269 : BitVec 32) : Fin 1 → Nat :=
  let c0_i32_235 : BitVec 32 := 0#32
  let c1_i32_237 : BitVec 32 := 1#32
  let arg24 : BitVec 32 := Scf.iv c0_i32_235 c1_i32_237 k0_t7
  let c256_i32_264 : BitVec 32 := 256#32
  let v491 : BitVec 32 := Scalar.muli arg24 c256_i32_264
  let v492 : BitVec 32 := v491
  let c0_i32_268 : BitVec 32 := 0#32
  let v502 : BitVec 32 := Scalar.addi v492 c0_i32_268
  let v503 : BitVec 32 := Scalar.addi v502 c0_i32_269
  let v504 : Index := Scalar.indexCast v503
  ![v504.toNat]
def k0_off222 (k0_t7 : Fin k0_t7_loop.trips) : Fin 1 → Nat :=
  let c64_i32_272 : BitVec 32 := 64#32
  let c0_i32_235 : BitVec 32 := 0#32
  let c1_i32_237 : BitVec 32 := 1#32
  let arg24 : BitVec 32 := Scf.iv c0_i32_235 c1_i32_237 k0_t7
  let v513 : BitVec 32 := Scalar.addi c64_i32_272 arg24
  let v514 : Index := Scalar.indexCast v513
  ![v514.toNat]
def k0_mult57 (v515 : BitVec 32) : BitVec 32 :=
  let c32_i32_273 : BitVec 32 := 32#32
  let v516 : BitVec 32 := Scalar.muli v515 c32_i32_273
  let c1024_i32_274 : BitVec 32 := 1024#32
  let v517 : BitVec 32 := Scalar.addi v516 c1024_i32_274
  v517

def k0_off223 (v515 : BitVec 32) (c0_i32_275 : BitVec 32) : Fin 1 → Nat :=
  let c32_i32_273 : BitVec 32 := 32#32
  let v516 : BitVec 32 := Scalar.muli v515 c32_i32_273
  let c1024_i32_274 : BitVec 32 := 1024#32
  let v517 : BitVec 32 := Scalar.addi v516 c1024_i32_274
  let v518 : BitVec 32 := v517
  let v519 : BitVec 32 := Scalar.addi v518 c0_i32_275
  let v520 : Index := Scalar.indexCast v519
  ![v520.toNat]

def k0_chk50 (v515 : BitVec 32) : Prop :=
  (32 ∣ (k0_mult57 v515).toNat) ∧
  (∀ (r : Fin 2), ∀ a, (k0_off223 v515 (BitVec.ofNat 32 (16 * r.val))) a + S16.size a ≤ S8192.size a)
instance k0_chk50.dec : ∀ (v515 : BitVec 32), Decidable (k0_chk50 v515) := fun v515 => decidable_of_iff' _ (Iff.of_eq (k0_chk50.eq_1 v515))
theorem k0_mult57_dvd : ∀ (v515 : BitVec 32) (k0_hw50 : k0_chk50 v515), 32 ∣ (k0_mult57 v515).toNat := fun v515 k0_hw50 => k0_hw50.1
theorem k0_off223_inb : ∀ (v515 : BitVec 32) (k0_hw50 : k0_chk50 v515), ∀ (r : Fin 2), ∀ a, (k0_off223 v515 (BitVec.ofNat 32 (16 * r.val))) a + S16.size a ≤ S8192.size a := fun v515 k0_hw50 r => k0_hw50.2 r

def k0_off224 (k0_t7 : Fin k0_t7_loop.trips) (c0_i32_277 : BitVec 32) : Fin 1 → Nat :=
  let c0_i32_235 : BitVec 32 := 0#32
  let c1_i32_237 : BitVec 32 := 1#32
  let arg24 : BitVec 32 := Scf.iv c0_i32_235 c1_i32_237 k0_t7
  let c256_i32_264 : BitVec 32 := 256#32
  let v491 : BitVec 32 := Scalar.muli arg24 c256_i32_264
  let v492 : BitVec 32 := v491
  let c32_i32_276 : BitVec 32 := 32#32
  let v522 : BitVec 32 := Scalar.addi v492 c32_i32_276
  let v523 : BitVec 32 := Scalar.addi v522 c0_i32_277
  let v524 : Index := Scalar.indexCast v523
  ![v524.toNat]
def k0_off225 (k0_t7 : Fin k0_t7_loop.trips) : Fin 1 → Nat :=
  let c128_i32_281 : BitVec 32 := 128#32
  let c0_i32_235 : BitVec 32 := 0#32
  let c1_i32_237 : BitVec 32 := 1#32
  let arg24 : BitVec 32 := Scf.iv c0_i32_235 c1_i32_237 k0_t7
  let v533 : BitVec 32 := Scalar.addi c128_i32_281 arg24
  let v534 : Index := Scalar.indexCast v533
  ![v534.toNat]
def k0_mult58 (v535 : BitVec 32) : BitVec 32 :=
  let c32_i32_282 : BitVec 32 := 32#32
  let v536 : BitVec 32 := Scalar.muli v535 c32_i32_282
  let c2048_i32_283 : BitVec 32 := 2048#32
  let v537 : BitVec 32 := Scalar.addi v536 c2048_i32_283
  v537

def k0_off226 (v535 : BitVec 32) (c0_i32_284 : BitVec 32) : Fin 1 → Nat :=
  let c32_i32_282 : BitVec 32 := 32#32
  let v536 : BitVec 32 := Scalar.muli v535 c32_i32_282
  let c2048_i32_283 : BitVec 32 := 2048#32
  let v537 : BitVec 32 := Scalar.addi v536 c2048_i32_283
  let v538 : BitVec 32 := v537
  let v539 : BitVec 32 := Scalar.addi v538 c0_i32_284
  let v540 : Index := Scalar.indexCast v539
  ![v540.toNat]

def k0_chk51 (v535 : BitVec 32) : Prop :=
  (32 ∣ (k0_mult58 v535).toNat) ∧
  (∀ (r : Fin 2), ∀ a, (k0_off226 v535 (BitVec.ofNat 32 (16 * r.val))) a + S16.size a ≤ S8192.size a)
instance k0_chk51.dec : ∀ (v535 : BitVec 32), Decidable (k0_chk51 v535) := fun v535 => decidable_of_iff' _ (Iff.of_eq (k0_chk51.eq_1 v535))
theorem k0_mult58_dvd : ∀ (v535 : BitVec 32) (k0_hw51 : k0_chk51 v535), 32 ∣ (k0_mult58 v535).toNat := fun v535 k0_hw51 => k0_hw51.1
theorem k0_off226_inb : ∀ (v535 : BitVec 32) (k0_hw51 : k0_chk51 v535), ∀ (r : Fin 2), ∀ a, (k0_off226 v535 (BitVec.ofNat 32 (16 * r.val))) a + S16.size a ≤ S8192.size a := fun v535 k0_hw51 r => k0_hw51.2 r

def k0_off227 (k0_t7 : Fin k0_t7_loop.trips) (c0_i32_286 : BitVec 32) : Fin 1 → Nat :=
  let c0_i32_235 : BitVec 32 := 0#32
  let c1_i32_237 : BitVec 32 := 1#32
  let arg24 : BitVec 32 := Scf.iv c0_i32_235 c1_i32_237 k0_t7
  let c256_i32_264 : BitVec 32 := 256#32
  let v491 : BitVec 32 := Scalar.muli arg24 c256_i32_264
  let v492 : BitVec 32 := v491
  let c64_i32_285 : BitVec 32 := 64#32
  let v542 : BitVec 32 := Scalar.addi v492 c64_i32_285
  let v543 : BitVec 32 := Scalar.addi v542 c0_i32_286
  let v544 : Index := Scalar.indexCast v543
  ![v544.toNat]
def k0_off228 (k0_t7 : Fin k0_t7_loop.trips) : Fin 1 → Nat :=
  let c192_i32_290 : BitVec 32 := 192#32
  let c0_i32_235 : BitVec 32 := 0#32
  let c1_i32_237 : BitVec 32 := 1#32
  let arg24 : BitVec 32 := Scf.iv c0_i32_235 c1_i32_237 k0_t7
  let v553 : BitVec 32 := Scalar.addi c192_i32_290 arg24
  let v554 : Index := Scalar.indexCast v553
  ![v554.toNat]
def k0_mult59 (v555 : BitVec 32) : BitVec 32 :=
  let c32_i32_291 : BitVec 32 := 32#32
  let v556 : BitVec 32 := Scalar.muli v555 c32_i32_291
  let c3072_i32_292 : BitVec 32 := 3072#32
  let v557 : BitVec 32 := Scalar.addi v556 c3072_i32_292
  v557

def k0_off229 (v555 : BitVec 32) (c0_i32_293 : BitVec 32) : Fin 1 → Nat :=
  let c32_i32_291 : BitVec 32 := 32#32
  let v556 : BitVec 32 := Scalar.muli v555 c32_i32_291
  let c3072_i32_292 : BitVec 32 := 3072#32
  let v557 : BitVec 32 := Scalar.addi v556 c3072_i32_292
  let v558 : BitVec 32 := v557
  let v559 : BitVec 32 := Scalar.addi v558 c0_i32_293
  let v560 : Index := Scalar.indexCast v559
  ![v560.toNat]

def k0_chk52 (v555 : BitVec 32) : Prop :=
  (32 ∣ (k0_mult59 v555).toNat) ∧
  (∀ (r : Fin 2), ∀ a, (k0_off229 v555 (BitVec.ofNat 32 (16 * r.val))) a + S16.size a ≤ S8192.size a)
instance k0_chk52.dec : ∀ (v555 : BitVec 32), Decidable (k0_chk52 v555) := fun v555 => decidable_of_iff' _ (Iff.of_eq (k0_chk52.eq_1 v555))
theorem k0_mult59_dvd : ∀ (v555 : BitVec 32) (k0_hw52 : k0_chk52 v555), 32 ∣ (k0_mult59 v555).toNat := fun v555 k0_hw52 => k0_hw52.1
theorem k0_off229_inb : ∀ (v555 : BitVec 32) (k0_hw52 : k0_chk52 v555), ∀ (r : Fin 2), ∀ a, (k0_off229 v555 (BitVec.ofNat 32 (16 * r.val))) a + S16.size a ≤ S8192.size a := fun v555 k0_hw52 r => k0_hw52.2 r

def k0_off230 (k0_t7 : Fin k0_t7_loop.trips) (c0_i32_294 : BitVec 32) : Fin 1 → Nat :=
  let c0_i32_235 : BitVec 32 := 0#32
  let c1_i32_237 : BitVec 32 := 1#32
  let arg24 : BitVec 32 := Scf.iv c0_i32_235 c1_i32_237 k0_t7
  let c256_i32_264 : BitVec 32 := 256#32
  let v491 : BitVec 32 := Scalar.muli arg24 c256_i32_264
  let v492 : BitVec 32 := v491
  let c96_i32 : BitVec 32 := 96#32
  let v562 : BitVec 32 := Scalar.addi v492 c96_i32
  let v563 : BitVec 32 := Scalar.addi v562 c0_i32_294
  let v564 : Index := Scalar.indexCast v563
  ![v564.toNat]
def k0_off231 (k0_t7 : Fin k0_t7_loop.trips) : Fin 1 → Nat :=
  let c256_i32_298 : BitVec 32 := 256#32
  let c0_i32_235 : BitVec 32 := 0#32
  let c1_i32_237 : BitVec 32 := 1#32
  let arg24 : BitVec 32 := Scf.iv c0_i32_235 c1_i32_237 k0_t7
  let v573 : BitVec 32 := Scalar.addi c256_i32_298 arg24
  let v574 : Index := Scalar.indexCast v573
  ![v574.toNat]
def k0_mult60 (v575 : BitVec 32) : BitVec 32 :=
  let c32_i32_299 : BitVec 32 := 32#32
  let v576 : BitVec 32 := Scalar.muli v575 c32_i32_299
  let c4096_i32 : BitVec 32 := 4096#32
  let v577 : BitVec 32 := Scalar.addi v576 c4096_i32
  v577

def k0_off232 (v575 : BitVec 32) (c0_i32_300 : BitVec 32) : Fin 1 → Nat :=
  let c32_i32_299 : BitVec 32 := 32#32
  let v576 : BitVec 32 := Scalar.muli v575 c32_i32_299
  let c4096_i32 : BitVec 32 := 4096#32
  let v577 : BitVec 32 := Scalar.addi v576 c4096_i32
  let v578 : BitVec 32 := v577
  let v579 : BitVec 32 := Scalar.addi v578 c0_i32_300
  let v580 : Index := Scalar.indexCast v579
  ![v580.toNat]

def k0_chk53 (v575 : BitVec 32) : Prop :=
  (32 ∣ (k0_mult60 v575).toNat) ∧
  (∀ (r : Fin 2), ∀ a, (k0_off232 v575 (BitVec.ofNat 32 (16 * r.val))) a + S16.size a ≤ S8192.size a)
instance k0_chk53.dec : ∀ (v575 : BitVec 32), Decidable (k0_chk53 v575) := fun v575 => decidable_of_iff' _ (Iff.of_eq (k0_chk53.eq_1 v575))
theorem k0_mult60_dvd : ∀ (v575 : BitVec 32) (k0_hw53 : k0_chk53 v575), 32 ∣ (k0_mult60 v575).toNat := fun v575 k0_hw53 => k0_hw53.1
theorem k0_off232_inb : ∀ (v575 : BitVec 32) (k0_hw53 : k0_chk53 v575), ∀ (r : Fin 2), ∀ a, (k0_off232 v575 (BitVec.ofNat 32 (16 * r.val))) a + S16.size a ≤ S8192.size a := fun v575 k0_hw53 r => k0_hw53.2 r

def k0_off233 (k0_t7 : Fin k0_t7_loop.trips) (c0_i32_302 : BitVec 32) : Fin 1 → Nat :=
  let c0_i32_235 : BitVec 32 := 0#32
  let c1_i32_237 : BitVec 32 := 1#32
  let arg24 : BitVec 32 := Scf.iv c0_i32_235 c1_i32_237 k0_t7
  let c256_i32_264 : BitVec 32 := 256#32
  let v491 : BitVec 32 := Scalar.muli arg24 c256_i32_264
  let v492 : BitVec 32 := v491
  let c128_i32_301 : BitVec 32 := 128#32
  let v582 : BitVec 32 := Scalar.addi v492 c128_i32_301
  let v583 : BitVec 32 := Scalar.addi v582 c0_i32_302
  let v584 : Index := Scalar.indexCast v583
  ![v584.toNat]
def k0_off234 (k0_t7 : Fin k0_t7_loop.trips) : Fin 1 → Nat :=
  let c320_i32_306 : BitVec 32 := 320#32
  let c0_i32_235 : BitVec 32 := 0#32
  let c1_i32_237 : BitVec 32 := 1#32
  let arg24 : BitVec 32 := Scf.iv c0_i32_235 c1_i32_237 k0_t7
  let v593 : BitVec 32 := Scalar.addi c320_i32_306 arg24
  let v594 : Index := Scalar.indexCast v593
  ![v594.toNat]
def k0_mult61 (v595 : BitVec 32) : BitVec 32 :=
  let c32_i32_307 : BitVec 32 := 32#32
  let v596 : BitVec 32 := Scalar.muli v595 c32_i32_307
  let c5120_i32 : BitVec 32 := 5120#32
  let v597 : BitVec 32 := Scalar.addi v596 c5120_i32
  v597

def k0_off235 (v595 : BitVec 32) (c0_i32_308 : BitVec 32) : Fin 1 → Nat :=
  let c32_i32_307 : BitVec 32 := 32#32
  let v596 : BitVec 32 := Scalar.muli v595 c32_i32_307
  let c5120_i32 : BitVec 32 := 5120#32
  let v597 : BitVec 32 := Scalar.addi v596 c5120_i32
  let v598 : BitVec 32 := v597
  let v599 : BitVec 32 := Scalar.addi v598 c0_i32_308
  let v600 : Index := Scalar.indexCast v599
  ![v600.toNat]

def k0_chk54 (v595 : BitVec 32) : Prop :=
  (32 ∣ (k0_mult61 v595).toNat) ∧
  (∀ (r : Fin 2), ∀ a, (k0_off235 v595 (BitVec.ofNat 32 (16 * r.val))) a + S16.size a ≤ S8192.size a)
instance k0_chk54.dec : ∀ (v595 : BitVec 32), Decidable (k0_chk54 v595) := fun v595 => decidable_of_iff' _ (Iff.of_eq (k0_chk54.eq_1 v595))
theorem k0_mult61_dvd : ∀ (v595 : BitVec 32) (k0_hw54 : k0_chk54 v595), 32 ∣ (k0_mult61 v595).toNat := fun v595 k0_hw54 => k0_hw54.1
theorem k0_off235_inb : ∀ (v595 : BitVec 32) (k0_hw54 : k0_chk54 v595), ∀ (r : Fin 2), ∀ a, (k0_off235 v595 (BitVec.ofNat 32 (16 * r.val))) a + S16.size a ≤ S8192.size a := fun v595 k0_hw54 r => k0_hw54.2 r

def k0_off236 (k0_t7 : Fin k0_t7_loop.trips) (c0_i32_309 : BitVec 32) : Fin 1 → Nat :=
  let c0_i32_235 : BitVec 32 := 0#32
  let c1_i32_237 : BitVec 32 := 1#32
  let arg24 : BitVec 32 := Scf.iv c0_i32_235 c1_i32_237 k0_t7
  let c256_i32_264 : BitVec 32 := 256#32
  let v491 : BitVec 32 := Scalar.muli arg24 c256_i32_264
  let v492 : BitVec 32 := v491
  let c160_i32 : BitVec 32 := 160#32
  let v602 : BitVec 32 := Scalar.addi v492 c160_i32
  let v603 : BitVec 32 := Scalar.addi v602 c0_i32_309
  let v604 : Index := Scalar.indexCast v603
  ![v604.toNat]
def k0_off237 (k0_t7 : Fin k0_t7_loop.trips) : Fin 1 → Nat :=
  let c384_i32_313 : BitVec 32 := 384#32
  let c0_i32_235 : BitVec 32 := 0#32
  let c1_i32_237 : BitVec 32 := 1#32
  let arg24 : BitVec 32 := Scf.iv c0_i32_235 c1_i32_237 k0_t7
  let v613 : BitVec 32 := Scalar.addi c384_i32_313 arg24
  let v614 : Index := Scalar.indexCast v613
  ![v614.toNat]
def k0_mult62 (v615 : BitVec 32) : BitVec 32 :=
  let c32_i32_314 : BitVec 32 := 32#32
  let v616 : BitVec 32 := Scalar.muli v615 c32_i32_314
  let c6144_i32 : BitVec 32 := 6144#32
  let v617 : BitVec 32 := Scalar.addi v616 c6144_i32
  v617

def k0_off238 (v615 : BitVec 32) (c0_i32_315 : BitVec 32) : Fin 1 → Nat :=
  let c32_i32_314 : BitVec 32 := 32#32
  let v616 : BitVec 32 := Scalar.muli v615 c32_i32_314
  let c6144_i32 : BitVec 32 := 6144#32
  let v617 : BitVec 32 := Scalar.addi v616 c6144_i32
  let v618 : BitVec 32 := v617
  let v619 : BitVec 32 := Scalar.addi v618 c0_i32_315
  let v620 : Index := Scalar.indexCast v619
  ![v620.toNat]

def k0_chk55 (v615 : BitVec 32) : Prop :=
  (32 ∣ (k0_mult62 v615).toNat) ∧
  (∀ (r : Fin 2), ∀ a, (k0_off238 v615 (BitVec.ofNat 32 (16 * r.val))) a + S16.size a ≤ S8192.size a)
instance k0_chk55.dec : ∀ (v615 : BitVec 32), Decidable (k0_chk55 v615) := fun v615 => decidable_of_iff' _ (Iff.of_eq (k0_chk55.eq_1 v615))
theorem k0_mult62_dvd : ∀ (v615 : BitVec 32) (k0_hw55 : k0_chk55 v615), 32 ∣ (k0_mult62 v615).toNat := fun v615 k0_hw55 => k0_hw55.1
theorem k0_off238_inb : ∀ (v615 : BitVec 32) (k0_hw55 : k0_chk55 v615), ∀ (r : Fin 2), ∀ a, (k0_off238 v615 (BitVec.ofNat 32 (16 * r.val))) a + S16.size a ≤ S8192.size a := fun v615 k0_hw55 r => k0_hw55.2 r

def k0_off239 (k0_t7 : Fin k0_t7_loop.trips) (c0_i32_317 : BitVec 32) : Fin 1 → Nat :=
  let c0_i32_235 : BitVec 32 := 0#32
  let c1_i32_237 : BitVec 32 := 1#32
  let arg24 : BitVec 32 := Scf.iv c0_i32_235 c1_i32_237 k0_t7
  let c256_i32_264 : BitVec 32 := 256#32
  let v491 : BitVec 32 := Scalar.muli arg24 c256_i32_264
  let v492 : BitVec 32 := v491
  let c192_i32_316 : BitVec 32 := 192#32
  let v622 : BitVec 32 := Scalar.addi v492 c192_i32_316
  let v623 : BitVec 32 := Scalar.addi v622 c0_i32_317
  let v624 : Index := Scalar.indexCast v623
  ![v624.toNat]
def k0_off240 (k0_t7 : Fin k0_t7_loop.trips) : Fin 1 → Nat :=
  let c448_i32_321 : BitVec 32 := 448#32
  let c0_i32_235 : BitVec 32 := 0#32
  let c1_i32_237 : BitVec 32 := 1#32
  let arg24 : BitVec 32 := Scf.iv c0_i32_235 c1_i32_237 k0_t7
  let v633 : BitVec 32 := Scalar.addi c448_i32_321 arg24
  let v634 : Index := Scalar.indexCast v633
  ![v634.toNat]
def k0_mult63 (v635 : BitVec 32) : BitVec 32 :=
  let c32_i32_322 : BitVec 32 := 32#32
  let v636 : BitVec 32 := Scalar.muli v635 c32_i32_322
  let c7168_i32 : BitVec 32 := 7168#32
  let v637 : BitVec 32 := Scalar.addi v636 c7168_i32
  v637

def k0_off241 (v635 : BitVec 32) (c0_i32_323 : BitVec 32) : Fin 1 → Nat :=
  let c32_i32_322 : BitVec 32 := 32#32
  let v636 : BitVec 32 := Scalar.muli v635 c32_i32_322
  let c7168_i32 : BitVec 32 := 7168#32
  let v637 : BitVec 32 := Scalar.addi v636 c7168_i32
  let v638 : BitVec 32 := v637
  let v639 : BitVec 32 := Scalar.addi v638 c0_i32_323
  let v640 : Index := Scalar.indexCast v639
  ![v640.toNat]

def k0_chk56 (v635 : BitVec 32) : Prop :=
  (32 ∣ (k0_mult63 v635).toNat) ∧
  (∀ (r : Fin 2), ∀ a, (k0_off241 v635 (BitVec.ofNat 32 (16 * r.val))) a + S16.size a ≤ S8192.size a)
instance k0_chk56.dec : ∀ (v635 : BitVec 32), Decidable (k0_chk56 v635) := fun v635 => decidable_of_iff' _ (Iff.of_eq (k0_chk56.eq_1 v635))
theorem k0_mult63_dvd : ∀ (v635 : BitVec 32) (k0_hw56 : k0_chk56 v635), 32 ∣ (k0_mult63 v635).toNat := fun v635 k0_hw56 => k0_hw56.1
theorem k0_off241_inb : ∀ (v635 : BitVec 32) (k0_hw56 : k0_chk56 v635), ∀ (r : Fin 2), ∀ a, (k0_off241 v635 (BitVec.ofNat 32 (16 * r.val))) a + S16.size a ≤ S8192.size a := fun v635 k0_hw56 r => k0_hw56.2 r

def k0_off242 (k0_t7 : Fin k0_t7_loop.trips) (c0_i32_324 : BitVec 32) : Fin 1 → Nat :=
  let c0_i32_235 : BitVec 32 := 0#32
  let c1_i32_237 : BitVec 32 := 1#32
  let arg24 : BitVec 32 := Scf.iv c0_i32_235 c1_i32_237 k0_t7
  let c256_i32_264 : BitVec 32 := 256#32
  let v491 : BitVec 32 := Scalar.muli arg24 c256_i32_264
  let v492 : BitVec 32 := v491
  let c224_i32 : BitVec 32 := 224#32
  let v642 : BitVec 32 := Scalar.addi v492 c224_i32
  let v643 : BitVec 32 := Scalar.addi v642 c0_i32_324
  let v644 : Index := Scalar.indexCast v643
  ![v644.toNat]
@[reducible] def k0_t8_loop : Scf.Loop 32 :=
  let c0_i32_258 : BitVec 32 := 0#32
  let c64_i32_259 : BitVec 32 := 64#32
  let v482 : BitVec 32 := Scalar.addi c0_i32_258 c64_i32_259
  let c1_i32_260 : BitVec 32 := 1#32
  ⟨c0_i32_258, v482, c1_i32_260⟩
def k0_mult64 (k0_t8 : Fin k0_t8_loop.trips) : BitVec 32 :=
  let c0_i32_258 : BitVec 32 := 0#32
  let c1_i32_260 : BitVec 32 := 1#32
  let arg24 : BitVec 32 := Scf.iv c0_i32_258 c1_i32_260 k0_t8
  let c256_i32_264 : BitVec 32 := 256#32
  let v491 : BitVec 32 := Scalar.muli arg24 c256_i32_264
  v491
def k0_off243 (k0_t8 : Fin k0_t8_loop.trips) : Fin 1 → Nat :=
  let c0_i32_265 : BitVec 32 := 0#32
  let c0_i32_258 : BitVec 32 := 0#32
  let c1_i32_260 : BitVec 32 := 1#32
  let arg24 : BitVec 32 := Scf.iv c0_i32_258 c1_i32_260 k0_t8
  let v493 : BitVec 32 := Scalar.addi c0_i32_265 arg24
  let v494 : Index := Scalar.indexCast v493
  ![v494.toNat]
def k0_mult65 (v495 : BitVec 32) : BitVec 32 :=
  let c32_i32 : BitVec 32 := 32#32
  let v496 : BitVec 32 := Scalar.muli v495 c32_i32
  let c0_i32_266 : BitVec 32 := 0#32
  let v497 : BitVec 32 := Scalar.addi v496 c0_i32_266
  v497

def k0_off244 (v495 : BitVec 32) (c0_i32_267 : BitVec 32) : Fin 1 → Nat :=
  let c32_i32 : BitVec 32 := 32#32
  let v496 : BitVec 32 := Scalar.muli v495 c32_i32
  let c0_i32_266 : BitVec 32 := 0#32
  let v497 : BitVec 32 := Scalar.addi v496 c0_i32_266
  let v498 : BitVec 32 := v497
  let v499 : BitVec 32 := Scalar.addi v498 c0_i32_267
  let v500 : Index := Scalar.indexCast v499
  ![v500.toNat]

def k0_chk57 (v495 : BitVec 32) : Prop :=
  (32 ∣ (k0_mult65 v495).toNat) ∧
  (∀ (r : Fin 2), ∀ a, (k0_off244 v495 (BitVec.ofNat 32 (16 * r.val))) a + S16.size a ≤ S8192.size a)
instance k0_chk57.dec : ∀ (v495 : BitVec 32), Decidable (k0_chk57 v495) := fun v495 => decidable_of_iff' _ (Iff.of_eq (k0_chk57.eq_1 v495))
theorem k0_mult65_dvd : ∀ (v495 : BitVec 32) (k0_hw57 : k0_chk57 v495), 32 ∣ (k0_mult65 v495).toNat := fun v495 k0_hw57 => k0_hw57.1
theorem k0_off244_inb : ∀ (v495 : BitVec 32) (k0_hw57 : k0_chk57 v495), ∀ (r : Fin 2), ∀ a, (k0_off244 v495 (BitVec.ofNat 32 (16 * r.val))) a + S16.size a ≤ S8192.size a := fun v495 k0_hw57 r => k0_hw57.2 r

def k0_off245 (k0_t8 : Fin k0_t8_loop.trips) (c0_i32_269 : BitVec 32) : Fin 1 → Nat :=
  let c0_i32_258 : BitVec 32 := 0#32
  let c1_i32_260 : BitVec 32 := 1#32
  let arg24 : BitVec 32 := Scf.iv c0_i32_258 c1_i32_260 k0_t8
  let c256_i32_264 : BitVec 32 := 256#32
  let v491 : BitVec 32 := Scalar.muli arg24 c256_i32_264
  let v492 : BitVec 32 := v491
  let c0_i32_268 : BitVec 32 := 0#32
  let v502 : BitVec 32 := Scalar.addi v492 c0_i32_268
  let v503 : BitVec 32 := Scalar.addi v502 c0_i32_269
  let v504 : Index := Scalar.indexCast v503
  ![v504.toNat]
def k0_off246 (k0_t8 : Fin k0_t8_loop.trips) : Fin 1 → Nat :=
  let c64_i32_272 : BitVec 32 := 64#32
  let c0_i32_258 : BitVec 32 := 0#32
  let c1_i32_260 : BitVec 32 := 1#32
  let arg24 : BitVec 32 := Scf.iv c0_i32_258 c1_i32_260 k0_t8
  let v513 : BitVec 32 := Scalar.addi c64_i32_272 arg24
  let v514 : Index := Scalar.indexCast v513
  ![v514.toNat]
def k0_mult66 (v515 : BitVec 32) : BitVec 32 :=
  let c32_i32_273 : BitVec 32 := 32#32
  let v516 : BitVec 32 := Scalar.muli v515 c32_i32_273
  let c1024_i32_274 : BitVec 32 := 1024#32
  let v517 : BitVec 32 := Scalar.addi v516 c1024_i32_274
  v517

def k0_off247 (v515 : BitVec 32) (c0_i32_275 : BitVec 32) : Fin 1 → Nat :=
  let c32_i32_273 : BitVec 32 := 32#32
  let v516 : BitVec 32 := Scalar.muli v515 c32_i32_273
  let c1024_i32_274 : BitVec 32 := 1024#32
  let v517 : BitVec 32 := Scalar.addi v516 c1024_i32_274
  let v518 : BitVec 32 := v517
  let v519 : BitVec 32 := Scalar.addi v518 c0_i32_275
  let v520 : Index := Scalar.indexCast v519
  ![v520.toNat]

def k0_chk58 (v515 : BitVec 32) : Prop :=
  (32 ∣ (k0_mult66 v515).toNat) ∧
  (∀ (r : Fin 2), ∀ a, (k0_off247 v515 (BitVec.ofNat 32 (16 * r.val))) a + S16.size a ≤ S8192.size a)
instance k0_chk58.dec : ∀ (v515 : BitVec 32), Decidable (k0_chk58 v515) := fun v515 => decidable_of_iff' _ (Iff.of_eq (k0_chk58.eq_1 v515))
theorem k0_mult66_dvd : ∀ (v515 : BitVec 32) (k0_hw58 : k0_chk58 v515), 32 ∣ (k0_mult66 v515).toNat := fun v515 k0_hw58 => k0_hw58.1
theorem k0_off247_inb : ∀ (v515 : BitVec 32) (k0_hw58 : k0_chk58 v515), ∀ (r : Fin 2), ∀ a, (k0_off247 v515 (BitVec.ofNat 32 (16 * r.val))) a + S16.size a ≤ S8192.size a := fun v515 k0_hw58 r => k0_hw58.2 r

def k0_off248 (k0_t8 : Fin k0_t8_loop.trips) (c0_i32_277 : BitVec 32) : Fin 1 → Nat :=
  let c0_i32_258 : BitVec 32 := 0#32
  let c1_i32_260 : BitVec 32 := 1#32
  let arg24 : BitVec 32 := Scf.iv c0_i32_258 c1_i32_260 k0_t8
  let c256_i32_264 : BitVec 32 := 256#32
  let v491 : BitVec 32 := Scalar.muli arg24 c256_i32_264
  let v492 : BitVec 32 := v491
  let c32_i32_276 : BitVec 32 := 32#32
  let v522 : BitVec 32 := Scalar.addi v492 c32_i32_276
  let v523 : BitVec 32 := Scalar.addi v522 c0_i32_277
  let v524 : Index := Scalar.indexCast v523
  ![v524.toNat]
def k0_off249 (k0_t8 : Fin k0_t8_loop.trips) : Fin 1 → Nat :=
  let c128_i32_281 : BitVec 32 := 128#32
  let c0_i32_258 : BitVec 32 := 0#32
  let c1_i32_260 : BitVec 32 := 1#32
  let arg24 : BitVec 32 := Scf.iv c0_i32_258 c1_i32_260 k0_t8
  let v533 : BitVec 32 := Scalar.addi c128_i32_281 arg24
  let v534 : Index := Scalar.indexCast v533
  ![v534.toNat]
def k0_mult67 (v535 : BitVec 32) : BitVec 32 :=
  let c32_i32_282 : BitVec 32 := 32#32
  let v536 : BitVec 32 := Scalar.muli v535 c32_i32_282
  let c2048_i32_283 : BitVec 32 := 2048#32
  let v537 : BitVec 32 := Scalar.addi v536 c2048_i32_283
  v537

def k0_off250 (v535 : BitVec 32) (c0_i32_284 : BitVec 32) : Fin 1 → Nat :=
  let c32_i32_282 : BitVec 32 := 32#32
  let v536 : BitVec 32 := Scalar.muli v535 c32_i32_282
  let c2048_i32_283 : BitVec 32 := 2048#32
  let v537 : BitVec 32 := Scalar.addi v536 c2048_i32_283
  let v538 : BitVec 32 := v537
  let v539 : BitVec 32 := Scalar.addi v538 c0_i32_284
  let v540 : Index := Scalar.indexCast v539
  ![v540.toNat]

def k0_chk59 (v535 : BitVec 32) : Prop :=
  (32 ∣ (k0_mult67 v535).toNat) ∧
  (∀ (r : Fin 2), ∀ a, (k0_off250 v535 (BitVec.ofNat 32 (16 * r.val))) a + S16.size a ≤ S8192.size a)
instance k0_chk59.dec : ∀ (v535 : BitVec 32), Decidable (k0_chk59 v535) := fun v535 => decidable_of_iff' _ (Iff.of_eq (k0_chk59.eq_1 v535))
theorem k0_mult67_dvd : ∀ (v535 : BitVec 32) (k0_hw59 : k0_chk59 v535), 32 ∣ (k0_mult67 v535).toNat := fun v535 k0_hw59 => k0_hw59.1
theorem k0_off250_inb : ∀ (v535 : BitVec 32) (k0_hw59 : k0_chk59 v535), ∀ (r : Fin 2), ∀ a, (k0_off250 v535 (BitVec.ofNat 32 (16 * r.val))) a + S16.size a ≤ S8192.size a := fun v535 k0_hw59 r => k0_hw59.2 r

def k0_off251 (k0_t8 : Fin k0_t8_loop.trips) (c0_i32_286 : BitVec 32) : Fin 1 → Nat :=
  let c0_i32_258 : BitVec 32 := 0#32
  let c1_i32_260 : BitVec 32 := 1#32
  let arg24 : BitVec 32 := Scf.iv c0_i32_258 c1_i32_260 k0_t8
  let c256_i32_264 : BitVec 32 := 256#32
  let v491 : BitVec 32 := Scalar.muli arg24 c256_i32_264
  let v492 : BitVec 32 := v491
  let c64_i32_285 : BitVec 32 := 64#32
  let v542 : BitVec 32 := Scalar.addi v492 c64_i32_285
  let v543 : BitVec 32 := Scalar.addi v542 c0_i32_286
  let v544 : Index := Scalar.indexCast v543
  ![v544.toNat]
def k0_off252 (k0_t8 : Fin k0_t8_loop.trips) : Fin 1 → Nat :=
  let c192_i32_290 : BitVec 32 := 192#32
  let c0_i32_258 : BitVec 32 := 0#32
  let c1_i32_260 : BitVec 32 := 1#32
  let arg24 : BitVec 32 := Scf.iv c0_i32_258 c1_i32_260 k0_t8
  let v553 : BitVec 32 := Scalar.addi c192_i32_290 arg24
  let v554 : Index := Scalar.indexCast v553
  ![v554.toNat]
def k0_mult68 (v555 : BitVec 32) : BitVec 32 :=
  let c32_i32_291 : BitVec 32 := 32#32
  let v556 : BitVec 32 := Scalar.muli v555 c32_i32_291
  let c3072_i32_292 : BitVec 32 := 3072#32
  let v557 : BitVec 32 := Scalar.addi v556 c3072_i32_292
  v557

def k0_off253 (v555 : BitVec 32) (c0_i32_293 : BitVec 32) : Fin 1 → Nat :=
  let c32_i32_291 : BitVec 32 := 32#32
  let v556 : BitVec 32 := Scalar.muli v555 c32_i32_291
  let c3072_i32_292 : BitVec 32 := 3072#32
  let v557 : BitVec 32 := Scalar.addi v556 c3072_i32_292
  let v558 : BitVec 32 := v557
  let v559 : BitVec 32 := Scalar.addi v558 c0_i32_293
  let v560 : Index := Scalar.indexCast v559
  ![v560.toNat]

def k0_chk60 (v555 : BitVec 32) : Prop :=
  (32 ∣ (k0_mult68 v555).toNat) ∧
  (∀ (r : Fin 2), ∀ a, (k0_off253 v555 (BitVec.ofNat 32 (16 * r.val))) a + S16.size a ≤ S8192.size a)
instance k0_chk60.dec : ∀ (v555 : BitVec 32), Decidable (k0_chk60 v555) := fun v555 => decidable_of_iff' _ (Iff.of_eq (k0_chk60.eq_1 v555))
theorem k0_mult68_dvd : ∀ (v555 : BitVec 32) (k0_hw60 : k0_chk60 v555), 32 ∣ (k0_mult68 v555).toNat := fun v555 k0_hw60 => k0_hw60.1
theorem k0_off253_inb : ∀ (v555 : BitVec 32) (k0_hw60 : k0_chk60 v555), ∀ (r : Fin 2), ∀ a, (k0_off253 v555 (BitVec.ofNat 32 (16 * r.val))) a + S16.size a ≤ S8192.size a := fun v555 k0_hw60 r => k0_hw60.2 r

def k0_off254 (k0_t8 : Fin k0_t8_loop.trips) (c0_i32_294 : BitVec 32) : Fin 1 → Nat :=
  let c0_i32_258 : BitVec 32 := 0#32
  let c1_i32_260 : BitVec 32 := 1#32
  let arg24 : BitVec 32 := Scf.iv c0_i32_258 c1_i32_260 k0_t8
  let c256_i32_264 : BitVec 32 := 256#32
  let v491 : BitVec 32 := Scalar.muli arg24 c256_i32_264
  let v492 : BitVec 32 := v491
  let c96_i32 : BitVec 32 := 96#32
  let v562 : BitVec 32 := Scalar.addi v492 c96_i32
  let v563 : BitVec 32 := Scalar.addi v562 c0_i32_294
  let v564 : Index := Scalar.indexCast v563
  ![v564.toNat]
def k0_off255 (k0_t8 : Fin k0_t8_loop.trips) : Fin 1 → Nat :=
  let c256_i32_298 : BitVec 32 := 256#32
  let c0_i32_258 : BitVec 32 := 0#32
  let c1_i32_260 : BitVec 32 := 1#32
  let arg24 : BitVec 32 := Scf.iv c0_i32_258 c1_i32_260 k0_t8
  let v573 : BitVec 32 := Scalar.addi c256_i32_298 arg24
  let v574 : Index := Scalar.indexCast v573
  ![v574.toNat]
def k0_mult69 (v575 : BitVec 32) : BitVec 32 :=
  let c32_i32_299 : BitVec 32 := 32#32
  let v576 : BitVec 32 := Scalar.muli v575 c32_i32_299
  let c4096_i32 : BitVec 32 := 4096#32
  let v577 : BitVec 32 := Scalar.addi v576 c4096_i32
  v577

def k0_off256 (v575 : BitVec 32) (c0_i32_300 : BitVec 32) : Fin 1 → Nat :=
  let c32_i32_299 : BitVec 32 := 32#32
  let v576 : BitVec 32 := Scalar.muli v575 c32_i32_299
  let c4096_i32 : BitVec 32 := 4096#32
  let v577 : BitVec 32 := Scalar.addi v576 c4096_i32
  let v578 : BitVec 32 := v577
  let v579 : BitVec 32 := Scalar.addi v578 c0_i32_300
  let v580 : Index := Scalar.indexCast v579
  ![v580.toNat]

def k0_chk61 (v575 : BitVec 32) : Prop :=
  (32 ∣ (k0_mult69 v575).toNat) ∧
  (∀ (r : Fin 2), ∀ a, (k0_off256 v575 (BitVec.ofNat 32 (16 * r.val))) a + S16.size a ≤ S8192.size a)
instance k0_chk61.dec : ∀ (v575 : BitVec 32), Decidable (k0_chk61 v575) := fun v575 => decidable_of_iff' _ (Iff.of_eq (k0_chk61.eq_1 v575))
theorem k0_mult69_dvd : ∀ (v575 : BitVec 32) (k0_hw61 : k0_chk61 v575), 32 ∣ (k0_mult69 v575).toNat := fun v575 k0_hw61 => k0_hw61.1
theorem k0_off256_inb : ∀ (v575 : BitVec 32) (k0_hw61 : k0_chk61 v575), ∀ (r : Fin 2), ∀ a, (k0_off256 v575 (BitVec.ofNat 32 (16 * r.val))) a + S16.size a ≤ S8192.size a := fun v575 k0_hw61 r => k0_hw61.2 r

def k0_off257 (k0_t8 : Fin k0_t8_loop.trips) (c0_i32_302 : BitVec 32) : Fin 1 → Nat :=
  let c0_i32_258 : BitVec 32 := 0#32
  let c1_i32_260 : BitVec 32 := 1#32
  let arg24 : BitVec 32 := Scf.iv c0_i32_258 c1_i32_260 k0_t8
  let c256_i32_264 : BitVec 32 := 256#32
  let v491 : BitVec 32 := Scalar.muli arg24 c256_i32_264
  let v492 : BitVec 32 := v491
  let c128_i32_301 : BitVec 32 := 128#32
  let v582 : BitVec 32 := Scalar.addi v492 c128_i32_301
  let v583 : BitVec 32 := Scalar.addi v582 c0_i32_302
  let v584 : Index := Scalar.indexCast v583
  ![v584.toNat]
def k0_off258 (k0_t8 : Fin k0_t8_loop.trips) : Fin 1 → Nat :=
  let c320_i32_306 : BitVec 32 := 320#32
  let c0_i32_258 : BitVec 32 := 0#32
  let c1_i32_260 : BitVec 32 := 1#32
  let arg24 : BitVec 32 := Scf.iv c0_i32_258 c1_i32_260 k0_t8
  let v593 : BitVec 32 := Scalar.addi c320_i32_306 arg24
  let v594 : Index := Scalar.indexCast v593
  ![v594.toNat]
def k0_mult70 (v595 : BitVec 32) : BitVec 32 :=
  let c32_i32_307 : BitVec 32 := 32#32
  let v596 : BitVec 32 := Scalar.muli v595 c32_i32_307
  let c5120_i32 : BitVec 32 := 5120#32
  let v597 : BitVec 32 := Scalar.addi v596 c5120_i32
  v597

def k0_off259 (v595 : BitVec 32) (c0_i32_308 : BitVec 32) : Fin 1 → Nat :=
  let c32_i32_307 : BitVec 32 := 32#32
  let v596 : BitVec 32 := Scalar.muli v595 c32_i32_307
  let c5120_i32 : BitVec 32 := 5120#32
  let v597 : BitVec 32 := Scalar.addi v596 c5120_i32
  let v598 : BitVec 32 := v597
  let v599 : BitVec 32 := Scalar.addi v598 c0_i32_308
  let v600 : Index := Scalar.indexCast v599
  ![v600.toNat]

def k0_chk62 (v595 : BitVec 32) : Prop :=
  (32 ∣ (k0_mult70 v595).toNat) ∧
  (∀ (r : Fin 2), ∀ a, (k0_off259 v595 (BitVec.ofNat 32 (16 * r.val))) a + S16.size a ≤ S8192.size a)
instance k0_chk62.dec : ∀ (v595 : BitVec 32), Decidable (k0_chk62 v595) := fun v595 => decidable_of_iff' _ (Iff.of_eq (k0_chk62.eq_1 v595))
theorem k0_mult70_dvd : ∀ (v595 : BitVec 32) (k0_hw62 : k0_chk62 v595), 32 ∣ (k0_mult70 v595).toNat := fun v595 k0_hw62 => k0_hw62.1
theorem k0_off259_inb : ∀ (v595 : BitVec 32) (k0_hw62 : k0_chk62 v595), ∀ (r : Fin 2), ∀ a, (k0_off259 v595 (BitVec.ofNat 32 (16 * r.val))) a + S16.size a ≤ S8192.size a := fun v595 k0_hw62 r => k0_hw62.2 r

def k0_off260 (k0_t8 : Fin k0_t8_loop.trips) (c0_i32_309 : BitVec 32) : Fin 1 → Nat :=
  let c0_i32_258 : BitVec 32 := 0#32
  let c1_i32_260 : BitVec 32 := 1#32
  let arg24 : BitVec 32 := Scf.iv c0_i32_258 c1_i32_260 k0_t8
  let c256_i32_264 : BitVec 32 := 256#32
  let v491 : BitVec 32 := Scalar.muli arg24 c256_i32_264
  let v492 : BitVec 32 := v491
  let c160_i32 : BitVec 32 := 160#32
  let v602 : BitVec 32 := Scalar.addi v492 c160_i32
  let v603 : BitVec 32 := Scalar.addi v602 c0_i32_309
  let v604 : Index := Scalar.indexCast v603
  ![v604.toNat]
def k0_off261 (k0_t8 : Fin k0_t8_loop.trips) : Fin 1 → Nat :=
  let c384_i32_313 : BitVec 32 := 384#32
  let c0_i32_258 : BitVec 32 := 0#32
  let c1_i32_260 : BitVec 32 := 1#32
  let arg24 : BitVec 32 := Scf.iv c0_i32_258 c1_i32_260 k0_t8
  let v613 : BitVec 32 := Scalar.addi c384_i32_313 arg24
  let v614 : Index := Scalar.indexCast v613
  ![v614.toNat]
def k0_mult71 (v615 : BitVec 32) : BitVec 32 :=
  let c32_i32_314 : BitVec 32 := 32#32
  let v616 : BitVec 32 := Scalar.muli v615 c32_i32_314
  let c6144_i32 : BitVec 32 := 6144#32
  let v617 : BitVec 32 := Scalar.addi v616 c6144_i32
  v617

def k0_off262 (v615 : BitVec 32) (c0_i32_315 : BitVec 32) : Fin 1 → Nat :=
  let c32_i32_314 : BitVec 32 := 32#32
  let v616 : BitVec 32 := Scalar.muli v615 c32_i32_314
  let c6144_i32 : BitVec 32 := 6144#32
  let v617 : BitVec 32 := Scalar.addi v616 c6144_i32
  let v618 : BitVec 32 := v617
  let v619 : BitVec 32 := Scalar.addi v618 c0_i32_315
  let v620 : Index := Scalar.indexCast v619
  ![v620.toNat]

def k0_chk63 (v615 : BitVec 32) : Prop :=
  (32 ∣ (k0_mult71 v615).toNat) ∧
  (∀ (r : Fin 2), ∀ a, (k0_off262 v615 (BitVec.ofNat 32 (16 * r.val))) a + S16.size a ≤ S8192.size a)
instance k0_chk63.dec : ∀ (v615 : BitVec 32), Decidable (k0_chk63 v615) := fun v615 => decidable_of_iff' _ (Iff.of_eq (k0_chk63.eq_1 v615))
theorem k0_mult71_dvd : ∀ (v615 : BitVec 32) (k0_hw63 : k0_chk63 v615), 32 ∣ (k0_mult71 v615).toNat := fun v615 k0_hw63 => k0_hw63.1
theorem k0_off262_inb : ∀ (v615 : BitVec 32) (k0_hw63 : k0_chk63 v615), ∀ (r : Fin 2), ∀ a, (k0_off262 v615 (BitVec.ofNat 32 (16 * r.val))) a + S16.size a ≤ S8192.size a := fun v615 k0_hw63 r => k0_hw63.2 r

def k0_off263 (k0_t8 : Fin k0_t8_loop.trips) (c0_i32_317 : BitVec 32) : Fin 1 → Nat :=
  let c0_i32_258 : BitVec 32 := 0#32
  let c1_i32_260 : BitVec 32 := 1#32
  let arg24 : BitVec 32 := Scf.iv c0_i32_258 c1_i32_260 k0_t8
  let c256_i32_264 : BitVec 32 := 256#32
  let v491 : BitVec 32 := Scalar.muli arg24 c256_i32_264
  let v492 : BitVec 32 := v491
  let c192_i32_316 : BitVec 32 := 192#32
  let v622 : BitVec 32 := Scalar.addi v492 c192_i32_316
  let v623 : BitVec 32 := Scalar.addi v622 c0_i32_317
  let v624 : Index := Scalar.indexCast v623
  ![v624.toNat]
def k0_off264 (k0_t8 : Fin k0_t8_loop.trips) : Fin 1 → Nat :=
  let c448_i32_321 : BitVec 32 := 448#32
  let c0_i32_258 : BitVec 32 := 0#32
  let c1_i32_260 : BitVec 32 := 1#32
  let arg24 : BitVec 32 := Scf.iv c0_i32_258 c1_i32_260 k0_t8
  let v633 : BitVec 32 := Scalar.addi c448_i32_321 arg24
  let v634 : Index := Scalar.indexCast v633
  ![v634.toNat]
def k0_mult72 (v635 : BitVec 32) : BitVec 32 :=
  let c32_i32_322 : BitVec 32 := 32#32
  let v636 : BitVec 32 := Scalar.muli v635 c32_i32_322
  let c7168_i32 : BitVec 32 := 7168#32
  let v637 : BitVec 32 := Scalar.addi v636 c7168_i32
  v637

def k0_off265 (v635 : BitVec 32) (c0_i32_323 : BitVec 32) : Fin 1 → Nat :=
  let c32_i32_322 : BitVec 32 := 32#32
  let v636 : BitVec 32 := Scalar.muli v635 c32_i32_322
  let c7168_i32 : BitVec 32 := 7168#32
  let v637 : BitVec 32 := Scalar.addi v636 c7168_i32
  let v638 : BitVec 32 := v637
  let v639 : BitVec 32 := Scalar.addi v638 c0_i32_323
  let v640 : Index := Scalar.indexCast v639
  ![v640.toNat]

def k0_chk64 (v635 : BitVec 32) : Prop :=
  (32 ∣ (k0_mult72 v635).toNat) ∧
  (∀ (r : Fin 2), ∀ a, (k0_off265 v635 (BitVec.ofNat 32 (16 * r.val))) a + S16.size a ≤ S8192.size a)
instance k0_chk64.dec : ∀ (v635 : BitVec 32), Decidable (k0_chk64 v635) := fun v635 => decidable_of_iff' _ (Iff.of_eq (k0_chk64.eq_1 v635))
theorem k0_mult72_dvd : ∀ (v635 : BitVec 32) (k0_hw64 : k0_chk64 v635), 32 ∣ (k0_mult72 v635).toNat := fun v635 k0_hw64 => k0_hw64.1
theorem k0_off265_inb : ∀ (v635 : BitVec 32) (k0_hw64 : k0_chk64 v635), ∀ (r : Fin 2), ∀ a, (k0_off265 v635 (BitVec.ofNat 32 (16 * r.val))) a + S16.size a ≤ S8192.size a := fun v635 k0_hw64 r => k0_hw64.2 r

def k0_off266 (k0_t8 : Fin k0_t8_loop.trips) (c0_i32_324 : BitVec 32) : Fin 1 → Nat :=
  let c0_i32_258 : BitVec 32 := 0#32
  let c1_i32_260 : BitVec 32 := 1#32
  let arg24 : BitVec 32 := Scf.iv c0_i32_258 c1_i32_260 k0_t8
  let c256_i32_264 : BitVec 32 := 256#32
  let v491 : BitVec 32 := Scalar.muli arg24 c256_i32_264
  let v492 : BitVec 32 := v491
  let c224_i32 : BitVec 32 := 224#32
  let v642 : BitVec 32 := Scalar.addi v492 c224_i32
  let v643 : BitVec 32 := Scalar.addi v642 c0_i32_324
  let v644 : Index := Scalar.indexCast v643
  ![v644.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  concatenates_S32x32_S32x32_S32x32_S32x32_S32x32_S32x32_S32x32_S32x32_S256x32_d0 : Shape.Concatenates [S32x32, S32x32, S32x32, S32x32, S32x32, S32x32, S32x32, S32x32] S256x32 0
  shapeCasts_S256x32_S8192 : S256x32.ShapeCasts S8192
  squeezes_S1x512_S512 : S1x512.Squeezes S512
  inb_S512_S64_0 : ∀ a, (![0] : Fin 1 → Nat) a + S64.size a ≤ S512.size a
  squeezes_S1x64_S64 : S1x64.Squeezes S64
  inb_S512_S64_64 : ∀ a, (![64] : Fin 1 → Nat) a + S64.size a ≤ S512.size a
  inb_S512_S64_128 : ∀ a, (![128] : Fin 1 → Nat) a + S64.size a ≤ S512.size a
  inb_S512_S64_192 : ∀ a, (![192] : Fin 1 → Nat) a + S64.size a ≤ S512.size a
  inb_S512_S64_256 : ∀ a, (![256] : Fin 1 → Nat) a + S64.size a ≤ S512.size a
  inb_S512_S64_320 : ∀ a, (![320] : Fin 1 → Nat) a + S64.size a ≤ S512.size a
  inb_S512_S64_384 : ∀ a, (![384] : Fin 1 → Nat) a + S64.size a ≤ S512.size a
  inb_S512_S64_448 : ∀ a, (![448] : Fin 1 → Nat) a + S64.size a ≤ S512.size a
  numel1_S1 : S1.numel = 1
  h_S16 : 0 < S16.numel
  shapeCasts_S4194304_S16384x256 : S4194304.ShapeCasts S16384x256
  hcc0_scratch6 : 0 + S_.numel ≤ 6
  hcc0_scratch7 : 1 + S_.numel ≤ 6
  hcc0_scratch8 : 2 + S_.numel ≤ 6
  hcc0_scratch9 : 3 + S_.numel ≤ 6
  hcc0_scratch10 : 4 + S_.numel ≤ 6
  hcc0_scratch11 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x512.size a ≤ S16x4096.size a
  k0_off2_inb : ∀ i : grid0.Coords, ∀ a, (k0_off2 i) a + S512.size a ≤ S16384.size a
  k0_off3_inb : ∀ i : grid0.Coords, ∀ a, (k0_off3 i) a + S1x512.size a ≤ S16x4096.size a
  k0_off4_inb : ∀ i : grid0.Coords, ∀ a, (k0_off4 i) a + S1x512.size a ≤ S16x4096.size a
  k0_off5_inb : ∀ i : grid0.Coords, ∀ a, (k0_off5 i) a + S1x512.size a ≤ S16x4096.size a
  k0_off6_inb : ∀ i : grid0.Coords, ∀ a, (k0_off6 i) a + S1x512.size a ≤ S16x4096.size a
  k0_off7_inb : ∀ i : grid0.Coords, ∀ a, (k0_off7 i) a + S1x512.size a ≤ S16x4096.size a
  k0_off8_inb : ∀ i : grid0.Coords, ∀ a, (k0_off8 i) a + S1x512.size a ≤ S16x4096.size a
  k0_off9_inb : ∀ i : grid0.Coords, ∀ a, (k0_off9 i) a + S1x512.size a ≤ S16x4096.size a
  k0_off10_inb : ∀ i : grid0.Coords, ∀ a, (k0_off10 i) a + S1x64.size a ≤ S16x4096.size a
  k0_off11_inb : ∀ i : grid0.Coords, ∀ a, (k0_off11 i) a + S1x64.size a ≤ S16x4096.size a
  k0_off12_inb : ∀ i : grid0.Coords, ∀ a, (k0_off12 i) a + S1x64.size a ≤ S16x4096.size a
  k0_off13_inb : ∀ i : grid0.Coords, ∀ a, (k0_off13 i) a + S1x64.size a ≤ S16x4096.size a
  k0_off14_inb : ∀ i : grid0.Coords, ∀ a, (k0_off14 i) a + S1x64.size a ≤ S16x4096.size a
  k0_off15_inb : ∀ i : grid0.Coords, ∀ a, (k0_off15 i) a + S1x64.size a ≤ S16x4096.size a
  k0_off16_inb : ∀ i : grid0.Coords, ∀ a, (k0_off16 i) a + S1x64.size a ≤ S16x4096.size a
  k0_off17_inb : ∀ i : grid0.Coords, ∀ a, (k0_off17 i) a + S1x64.size a ≤ S16x4096.size a
  k0_off18_inb : ∀ i : grid0.Coords, ∀ a, (k0_off18 i) a + S1x64.size a ≤ S16x4096.size a
  k0_off19_inb : ∀ i : grid0.Coords, ∀ a, (k0_off19 i) a + S1x64.size a ≤ S16x4096.size a
  k0_off20_inb : ∀ i : grid0.Coords, ∀ a, (k0_off20 i) a + S1x64.size a ≤ S16x4096.size a
  k0_off21_inb : ∀ i : grid0.Coords, ∀ a, (k0_off21 i) a + S1x64.size a ≤ S16x4096.size a
  k0_off22_inb : ∀ i : grid0.Coords, ∀ a, (k0_off22 i) a + S1x64.size a ≤ S16x4096.size a
  k0_off23_inb : ∀ i : grid0.Coords, ∀ a, (k0_off23 i) a + S1x64.size a ≤ S16x4096.size a
  k0_off24_inb : ∀ i : grid0.Coords, ∀ a, (k0_off24 i) a + S1x64.size a ≤ S16x4096.size a
  k0_off25_inb : ∀ i : grid0.Coords, ∀ a, (k0_off25 i) a + S1x64.size a ≤ S16x4096.size a
  k0_t1_ok : k0_t1_loop.OK
  k0_mult1_dvd : ∀ k0_t1 : Fin k0_t1_loop.trips, 256 ∣ (k0_mult1 k0_t1).toNat
  k0_off26_inb : ∀ k0_t1 : Fin k0_t1_loop.trips, ∀ a, (k0_off26 k0_t1) a + S1.size a ≤ S512.size a
  k0_off28_inb : ∀ k0_t1 : Fin k0_t1_loop.trips, ∀ (r : Fin 2), ∀ a, (k0_off28 k0_t1 (BitVec.ofNat 32 (16 * r.val))) a + S16.size a ≤ S16384.size a
  k0_off29_inb : ∀ k0_t1 : Fin k0_t1_loop.trips, ∀ a, (k0_off29 k0_t1) a + S1.size a ≤ S512.size a
  k0_off31_inb : ∀ k0_t1 : Fin k0_t1_loop.trips, ∀ (r : Fin 2), ∀ a, (k0_off31 k0_t1 (BitVec.ofNat 32 (16 * r.val))) a + S16.size a ≤ S16384.size a
  k0_off32_inb : ∀ k0_t1 : Fin k0_t1_loop.trips, ∀ a, (k0_off32 k0_t1) a + S1.size a ≤ S512.size a
  k0_off34_inb : ∀ k0_t1 : Fin k0_t1_loop.trips, ∀ (r : Fin 2), ∀ a, (k0_off34 k0_t1 (BitVec.ofNat 32 (16 * r.val))) a + S16.size a ≤ S16384.size a
  k0_off35_inb : ∀ k0_t1 : Fin k0_t1_loop.trips, ∀ a, (k0_off35 k0_t1) a + S1.size a ≤ S512.size a
  k0_off37_inb : ∀ k0_t1 : Fin k0_t1_loop.trips, ∀ (r : Fin 2), ∀ a, (k0_off37 k0_t1 (BitVec.ofNat 32 (16 * r.val))) a + S16.size a ≤ S16384.size a
  k0_off38_inb : ∀ k0_t1 : Fin k0_t1_loop.trips, ∀ a, (k0_off38 k0_t1) a + S1.size a ≤ S512.size a
  k0_off40_inb : ∀ k0_t1 : Fin k0_t1_loop.trips, ∀ (r : Fin 2), ∀ a, (k0_off40 k0_t1 (BitVec.ofNat 32 (16 * r.val))) a + S16.size a ≤ S16384.size a
  k0_off41_inb : ∀ k0_t1 : Fin k0_t1_loop.trips, ∀ a, (k0_off41 k0_t1) a + S1.size a ≤ S512.size a
  k0_off43_inb : ∀ k0_t1 : Fin k0_t1_loop.trips, ∀ (r : Fin 2), ∀ a, (k0_off43 k0_t1 (BitVec.ofNat 32 (16 * r.val))) a + S16.size a ≤ S16384.size a
  k0_off44_inb : ∀ k0_t1 : Fin k0_t1_loop.trips, ∀ a, (k0_off44 k0_t1) a + S1.size a ≤ S512.size a
  k0_off46_inb : ∀ k0_t1 : Fin k0_t1_loop.trips, ∀ (r : Fin 2), ∀ a, (k0_off46 k0_t1 (BitVec.ofNat 32 (16 * r.val))) a + S16.size a ≤ S16384.size a
  k0_off47_inb : ∀ k0_t1 : Fin k0_t1_loop.trips, ∀ a, (k0_off47 k0_t1) a + S1.size a ≤ S512.size a
  k0_off49_inb : ∀ k0_t1 : Fin k0_t1_loop.trips, ∀ (r : Fin 2), ∀ a, (k0_off49 k0_t1 (BitVec.ofNat 32 (16 * r.val))) a + S16.size a ≤ S16384.size a
  k0_off50_inb : ∀ i : grid0.Coords, ∀ (r : Fin 8), ∀ a, (k0_off50 i (BitVec.ofNat 32 (64 * r.val))) a + S16384.size a ≤ S4194304.size a
  k0_off51_inb : ∀ i : grid0.Coords, ∀ a, (k0_off51 i) a + S1x64.size a ≤ S16x4096.size a
  k0_off52_inb : ∀ i : grid0.Coords, ∀ a, (k0_off52 i) a + S1x64.size a ≤ S16x4096.size a
  k0_off53_inb : ∀ i : grid0.Coords, ∀ a, (k0_off53 i) a + S1x64.size a ≤ S16x4096.size a
  k0_off54_inb : ∀ i : grid0.Coords, ∀ a, (k0_off54 i) a + S1x64.size a ≤ S16x4096.size a
  k0_off55_inb : ∀ i : grid0.Coords, ∀ a, (k0_off55 i) a + S1x64.size a ≤ S16x4096.size a
  k0_off56_inb : ∀ i : grid0.Coords, ∀ a, (k0_off56 i) a + S1x64.size a ≤ S16x4096.size a
  k0_off57_inb : ∀ i : grid0.Coords, ∀ a, (k0_off57 i) a + S1x64.size a ≤ S16x4096.size a
  k0_off58_inb : ∀ i : grid0.Coords, ∀ a, (k0_off58 i) a + S1x64.size a ≤ S16x4096.size a
  k0_t2_ok : k0_t2_loop.OK
  k0_mult10_dvd : ∀ k0_t2 : Fin k0_t2_loop.trips, 256 ∣ (k0_mult10 k0_t2).toNat
  k0_off59_inb : ∀ k0_t2 : Fin k0_t2_loop.trips, ∀ a, (k0_off59 k0_t2) a + S1.size a ≤ S512.size a
  k0_off61_inb : ∀ k0_t2 : Fin k0_t2_loop.trips, ∀ (r : Fin 2), ∀ a, (k0_off61 k0_t2 (BitVec.ofNat 32 (16 * r.val))) a + S16.size a ≤ S16384.size a
  k0_off62_inb : ∀ k0_t2 : Fin k0_t2_loop.trips, ∀ a, (k0_off62 k0_t2) a + S1.size a ≤ S512.size a
  k0_off64_inb : ∀ k0_t2 : Fin k0_t2_loop.trips, ∀ (r : Fin 2), ∀ a, (k0_off64 k0_t2 (BitVec.ofNat 32 (16 * r.val))) a + S16.size a ≤ S16384.size a
  k0_off65_inb : ∀ k0_t2 : Fin k0_t2_loop.trips, ∀ a, (k0_off65 k0_t2) a + S1.size a ≤ S512.size a
  k0_off67_inb : ∀ k0_t2 : Fin k0_t2_loop.trips, ∀ (r : Fin 2), ∀ a, (k0_off67 k0_t2 (BitVec.ofNat 32 (16 * r.val))) a + S16.size a ≤ S16384.size a
  k0_off68_inb : ∀ k0_t2 : Fin k0_t2_loop.trips, ∀ a, (k0_off68 k0_t2) a + S1.size a ≤ S512.size a
  k0_off70_inb : ∀ k0_t2 : Fin k0_t2_loop.trips, ∀ (r : Fin 2), ∀ a, (k0_off70 k0_t2 (BitVec.ofNat 32 (16 * r.val))) a + S16.size a ≤ S16384.size a
  k0_off71_inb : ∀ k0_t2 : Fin k0_t2_loop.trips, ∀ a, (k0_off71 k0_t2) a + S1.size a ≤ S512.size a
  k0_off73_inb : ∀ k0_t2 : Fin k0_t2_loop.trips, ∀ (r : Fin 2), ∀ a, (k0_off73 k0_t2 (BitVec.ofNat 32 (16 * r.val))) a + S16.size a ≤ S16384.size a
  k0_off74_inb : ∀ k0_t2 : Fin k0_t2_loop.trips, ∀ a, (k0_off74 k0_t2) a + S1.size a ≤ S512.size a
  k0_off76_inb : ∀ k0_t2 : Fin k0_t2_loop.trips, ∀ (r : Fin 2), ∀ a, (k0_off76 k0_t2 (BitVec.ofNat 32 (16 * r.val))) a + S16.size a ≤ S16384.size a
  k0_off77_inb : ∀ k0_t2 : Fin k0_t2_loop.trips, ∀ a, (k0_off77 k0_t2) a + S1.size a ≤ S512.size a
  k0_off79_inb : ∀ k0_t2 : Fin k0_t2_loop.trips, ∀ (r : Fin 2), ∀ a, (k0_off79 k0_t2 (BitVec.ofNat 32 (16 * r.val))) a + S16.size a ≤ S16384.size a
  k0_off80_inb : ∀ k0_t2 : Fin k0_t2_loop.trips, ∀ a, (k0_off80 k0_t2) a + S1.size a ≤ S512.size a
  k0_off82_inb : ∀ k0_t2 : Fin k0_t2_loop.trips, ∀ (r : Fin 2), ∀ a, (k0_off82 k0_t2 (BitVec.ofNat 32 (16 * r.val))) a + S16.size a ≤ S16384.size a
  k0_off83_inb : ∀ i : grid0.Coords, ∀ a, (k0_off83 i) a + S1x64.size a ≤ S16x4096.size a
  k0_off84_inb : ∀ i : grid0.Coords, ∀ a, (k0_off84 i) a + S1x64.size a ≤ S16x4096.size a
  k0_off85_inb : ∀ i : grid0.Coords, ∀ a, (k0_off85 i) a + S1x64.size a ≤ S16x4096.size a
  k0_off86_inb : ∀ i : grid0.Coords, ∀ a, (k0_off86 i) a + S1x64.size a ≤ S16x4096.size a
  k0_off87_inb : ∀ i : grid0.Coords, ∀ a, (k0_off87 i) a + S1x64.size a ≤ S16x4096.size a
  k0_off88_inb : ∀ i : grid0.Coords, ∀ a, (k0_off88 i) a + S1x64.size a ≤ S16x4096.size a
  k0_off89_inb : ∀ i : grid0.Coords, ∀ a, (k0_off89 i) a + S1x64.size a ≤ S16x4096.size a
  k0_off90_inb : ∀ i : grid0.Coords, ∀ a, (k0_off90 i) a + S1x64.size a ≤ S16x4096.size a
  k0_t3_ok : k0_t3_loop.OK
  k0_mult19_dvd : ∀ k0_t3 : Fin k0_t3_loop.trips, 256 ∣ (k0_mult19 k0_t3).toNat
  k0_off91_inb : ∀ k0_t3 : Fin k0_t3_loop.trips, ∀ a, (k0_off91 k0_t3) a + S1.size a ≤ S512.size a
  k0_off93_inb : ∀ k0_t3 : Fin k0_t3_loop.trips, ∀ (r : Fin 2), ∀ a, (k0_off93 k0_t3 (BitVec.ofNat 32 (16 * r.val))) a + S16.size a ≤ S16384.size a
  k0_off94_inb : ∀ k0_t3 : Fin k0_t3_loop.trips, ∀ a, (k0_off94 k0_t3) a + S1.size a ≤ S512.size a
  k0_off96_inb : ∀ k0_t3 : Fin k0_t3_loop.trips, ∀ (r : Fin 2), ∀ a, (k0_off96 k0_t3 (BitVec.ofNat 32 (16 * r.val))) a + S16.size a ≤ S16384.size a
  k0_off97_inb : ∀ k0_t3 : Fin k0_t3_loop.trips, ∀ a, (k0_off97 k0_t3) a + S1.size a ≤ S512.size a
  k0_off99_inb : ∀ k0_t3 : Fin k0_t3_loop.trips, ∀ (r : Fin 2), ∀ a, (k0_off99 k0_t3 (BitVec.ofNat 32 (16 * r.val))) a + S16.size a ≤ S16384.size a
  k0_off100_inb : ∀ k0_t3 : Fin k0_t3_loop.trips, ∀ a, (k0_off100 k0_t3) a + S1.size a ≤ S512.size a
  k0_off102_inb : ∀ k0_t3 : Fin k0_t3_loop.trips, ∀ (r : Fin 2), ∀ a, (k0_off102 k0_t3 (BitVec.ofNat 32 (16 * r.val))) a + S16.size a ≤ S16384.size a
  k0_off103_inb : ∀ k0_t3 : Fin k0_t3_loop.trips, ∀ a, (k0_off103 k0_t3) a + S1.size a ≤ S512.size a
  k0_off105_inb : ∀ k0_t3 : Fin k0_t3_loop.trips, ∀ (r : Fin 2), ∀ a, (k0_off105 k0_t3 (BitVec.ofNat 32 (16 * r.val))) a + S16.size a ≤ S16384.size a
  k0_off106_inb : ∀ k0_t3 : Fin k0_t3_loop.trips, ∀ a, (k0_off106 k0_t3) a + S1.size a ≤ S512.size a
  k0_off108_inb : ∀ k0_t3 : Fin k0_t3_loop.trips, ∀ (r : Fin 2), ∀ a, (k0_off108 k0_t3 (BitVec.ofNat 32 (16 * r.val))) a + S16.size a ≤ S16384.size a
  k0_off109_inb : ∀ k0_t3 : Fin k0_t3_loop.trips, ∀ a, (k0_off109 k0_t3) a + S1.size a ≤ S512.size a
  k0_off111_inb : ∀ k0_t3 : Fin k0_t3_loop.trips, ∀ (r : Fin 2), ∀ a, (k0_off111 k0_t3 (BitVec.ofNat 32 (16 * r.val))) a + S16.size a ≤ S16384.size a
  k0_off112_inb : ∀ k0_t3 : Fin k0_t3_loop.trips, ∀ a, (k0_off112 k0_t3) a + S1.size a ≤ S512.size a
  k0_off114_inb : ∀ k0_t3 : Fin k0_t3_loop.trips, ∀ (r : Fin 2), ∀ a, (k0_off114 k0_t3 (BitVec.ofNat 32 (16 * r.val))) a + S16.size a ≤ S16384.size a
  k0_off115_inb : ∀ i : grid0.Coords, ∀ a, (k0_off115 i) a + S1x64.size a ≤ S16x4096.size a
  k0_off116_inb : ∀ i : grid0.Coords, ∀ a, (k0_off116 i) a + S1x64.size a ≤ S16x4096.size a
  k0_off117_inb : ∀ i : grid0.Coords, ∀ a, (k0_off117 i) a + S1x64.size a ≤ S16x4096.size a
  k0_off118_inb : ∀ i : grid0.Coords, ∀ a, (k0_off118 i) a + S1x64.size a ≤ S16x4096.size a
  k0_off119_inb : ∀ i : grid0.Coords, ∀ a, (k0_off119 i) a + S1x64.size a ≤ S16x4096.size a
  k0_off120_inb : ∀ i : grid0.Coords, ∀ a, (k0_off120 i) a + S1x64.size a ≤ S16x4096.size a
  k0_off121_inb : ∀ i : grid0.Coords, ∀ a, (k0_off121 i) a + S1x64.size a ≤ S16x4096.size a
  k0_off122_inb : ∀ i : grid0.Coords, ∀ a, (k0_off122 i) a + S1x64.size a ≤ S16x4096.size a
  k0_t4_ok : k0_t4_loop.OK
  k0_mult28_dvd : ∀ k0_t4 : Fin k0_t4_loop.trips, 256 ∣ (k0_mult28 k0_t4).toNat
  k0_off123_inb : ∀ k0_t4 : Fin k0_t4_loop.trips, ∀ a, (k0_off123 k0_t4) a + S1.size a ≤ S512.size a
  k0_off125_inb : ∀ k0_t4 : Fin k0_t4_loop.trips, ∀ (r : Fin 2), ∀ a, (k0_off125 k0_t4 (BitVec.ofNat 32 (16 * r.val))) a + S16.size a ≤ S16384.size a
  k0_off126_inb : ∀ k0_t4 : Fin k0_t4_loop.trips, ∀ a, (k0_off126 k0_t4) a + S1.size a ≤ S512.size a
  k0_off128_inb : ∀ k0_t4 : Fin k0_t4_loop.trips, ∀ (r : Fin 2), ∀ a, (k0_off128 k0_t4 (BitVec.ofNat 32 (16 * r.val))) a + S16.size a ≤ S16384.size a
  k0_off129_inb : ∀ k0_t4 : Fin k0_t4_loop.trips, ∀ a, (k0_off129 k0_t4) a + S1.size a ≤ S512.size a
  k0_off131_inb : ∀ k0_t4 : Fin k0_t4_loop.trips, ∀ (r : Fin 2), ∀ a, (k0_off131 k0_t4 (BitVec.ofNat 32 (16 * r.val))) a + S16.size a ≤ S16384.size a
  k0_off132_inb : ∀ k0_t4 : Fin k0_t4_loop.trips, ∀ a, (k0_off132 k0_t4) a + S1.size a ≤ S512.size a
  k0_off134_inb : ∀ k0_t4 : Fin k0_t4_loop.trips, ∀ (r : Fin 2), ∀ a, (k0_off134 k0_t4 (BitVec.ofNat 32 (16 * r.val))) a + S16.size a ≤ S16384.size a
  k0_off135_inb : ∀ k0_t4 : Fin k0_t4_loop.trips, ∀ a, (k0_off135 k0_t4) a + S1.size a ≤ S512.size a
  k0_off137_inb : ∀ k0_t4 : Fin k0_t4_loop.trips, ∀ (r : Fin 2), ∀ a, (k0_off137 k0_t4 (BitVec.ofNat 32 (16 * r.val))) a + S16.size a ≤ S16384.size a
  k0_off138_inb : ∀ k0_t4 : Fin k0_t4_loop.trips, ∀ a, (k0_off138 k0_t4) a + S1.size a ≤ S512.size a
  k0_off140_inb : ∀ k0_t4 : Fin k0_t4_loop.trips, ∀ (r : Fin 2), ∀ a, (k0_off140 k0_t4 (BitVec.ofNat 32 (16 * r.val))) a + S16.size a ≤ S16384.size a
  k0_off141_inb : ∀ k0_t4 : Fin k0_t4_loop.trips, ∀ a, (k0_off141 k0_t4) a + S1.size a ≤ S512.size a
  k0_off143_inb : ∀ k0_t4 : Fin k0_t4_loop.trips, ∀ (r : Fin 2), ∀ a, (k0_off143 k0_t4 (BitVec.ofNat 32 (16 * r.val))) a + S16.size a ≤ S16384.size a
  k0_off144_inb : ∀ k0_t4 : Fin k0_t4_loop.trips, ∀ a, (k0_off144 k0_t4) a + S1.size a ≤ S512.size a
  k0_off146_inb : ∀ k0_t4 : Fin k0_t4_loop.trips, ∀ (r : Fin 2), ∀ a, (k0_off146 k0_t4 (BitVec.ofNat 32 (16 * r.val))) a + S16.size a ≤ S16384.size a
  k0_off147_inb : ∀ i : grid0.Coords, ∀ a, (k0_off147 i) a + S1x64.size a ≤ S16x4096.size a
  k0_off148_inb : ∀ i : grid0.Coords, ∀ a, (k0_off148 i) a + S1x64.size a ≤ S16x4096.size a
  k0_off149_inb : ∀ i : grid0.Coords, ∀ a, (k0_off149 i) a + S1x64.size a ≤ S16x4096.size a
  k0_off150_inb : ∀ i : grid0.Coords, ∀ a, (k0_off150 i) a + S1x64.size a ≤ S16x4096.size a
  k0_off151_inb : ∀ i : grid0.Coords, ∀ a, (k0_off151 i) a + S1x64.size a ≤ S16x4096.size a
  k0_off152_inb : ∀ i : grid0.Coords, ∀ a, (k0_off152 i) a + S1x64.size a ≤ S16x4096.size a
  k0_off153_inb : ∀ i : grid0.Coords, ∀ a, (k0_off153 i) a + S1x64.size a ≤ S16x4096.size a
  k0_off154_inb : ∀ i : grid0.Coords, ∀ a, (k0_off154 i) a + S1x64.size a ≤ S16x4096.size a
  k0_t5_ok : k0_t5_loop.OK
  k0_mult37_dvd : ∀ k0_t5 : Fin k0_t5_loop.trips, 256 ∣ (k0_mult37 k0_t5).toNat
  k0_off155_inb : ∀ k0_t5 : Fin k0_t5_loop.trips, ∀ a, (k0_off155 k0_t5) a + S1.size a ≤ S512.size a
  k0_off157_inb : ∀ k0_t5 : Fin k0_t5_loop.trips, ∀ (r : Fin 2), ∀ a, (k0_off157 k0_t5 (BitVec.ofNat 32 (16 * r.val))) a + S16.size a ≤ S16384.size a
  k0_off158_inb : ∀ k0_t5 : Fin k0_t5_loop.trips, ∀ a, (k0_off158 k0_t5) a + S1.size a ≤ S512.size a
  k0_off160_inb : ∀ k0_t5 : Fin k0_t5_loop.trips, ∀ (r : Fin 2), ∀ a, (k0_off160 k0_t5 (BitVec.ofNat 32 (16 * r.val))) a + S16.size a ≤ S16384.size a
  k0_off161_inb : ∀ k0_t5 : Fin k0_t5_loop.trips, ∀ a, (k0_off161 k0_t5) a + S1.size a ≤ S512.size a
  k0_off163_inb : ∀ k0_t5 : Fin k0_t5_loop.trips, ∀ (r : Fin 2), ∀ a, (k0_off163 k0_t5 (BitVec.ofNat 32 (16 * r.val))) a + S16.size a ≤ S16384.size a
  k0_off164_inb : ∀ k0_t5 : Fin k0_t5_loop.trips, ∀ a, (k0_off164 k0_t5) a + S1.size a ≤ S512.size a
  k0_off166_inb : ∀ k0_t5 : Fin k0_t5_loop.trips, ∀ (r : Fin 2), ∀ a, (k0_off166 k0_t5 (BitVec.ofNat 32 (16 * r.val))) a + S16.size a ≤ S16384.size a
  k0_off167_inb : ∀ k0_t5 : Fin k0_t5_loop.trips, ∀ a, (k0_off167 k0_t5) a + S1.size a ≤ S512.size a
  k0_off169_inb : ∀ k0_t5 : Fin k0_t5_loop.trips, ∀ (r : Fin 2), ∀ a, (k0_off169 k0_t5 (BitVec.ofNat 32 (16 * r.val))) a + S16.size a ≤ S16384.size a
  k0_off170_inb : ∀ k0_t5 : Fin k0_t5_loop.trips, ∀ a, (k0_off170 k0_t5) a + S1.size a ≤ S512.size a
  k0_off172_inb : ∀ k0_t5 : Fin k0_t5_loop.trips, ∀ (r : Fin 2), ∀ a, (k0_off172 k0_t5 (BitVec.ofNat 32 (16 * r.val))) a + S16.size a ≤ S16384.size a
  k0_off173_inb : ∀ k0_t5 : Fin k0_t5_loop.trips, ∀ a, (k0_off173 k0_t5) a + S1.size a ≤ S512.size a
  k0_off175_inb : ∀ k0_t5 : Fin k0_t5_loop.trips, ∀ (r : Fin 2), ∀ a, (k0_off175 k0_t5 (BitVec.ofNat 32 (16 * r.val))) a + S16.size a ≤ S16384.size a
  k0_off176_inb : ∀ k0_t5 : Fin k0_t5_loop.trips, ∀ a, (k0_off176 k0_t5) a + S1.size a ≤ S512.size a
  k0_off178_inb : ∀ k0_t5 : Fin k0_t5_loop.trips, ∀ (r : Fin 2), ∀ a, (k0_off178 k0_t5 (BitVec.ofNat 32 (16 * r.val))) a + S16.size a ≤ S16384.size a
  k0_off179_inb : ∀ i : grid0.Coords, ∀ a, (k0_off179 i) a + S1x64.size a ≤ S16x4096.size a
  k0_off180_inb : ∀ i : grid0.Coords, ∀ a, (k0_off180 i) a + S1x64.size a ≤ S16x4096.size a
  k0_off181_inb : ∀ i : grid0.Coords, ∀ a, (k0_off181 i) a + S1x64.size a ≤ S16x4096.size a
  k0_off182_inb : ∀ i : grid0.Coords, ∀ a, (k0_off182 i) a + S1x64.size a ≤ S16x4096.size a
  k0_off183_inb : ∀ i : grid0.Coords, ∀ a, (k0_off183 i) a + S1x64.size a ≤ S16x4096.size a
  k0_off184_inb : ∀ i : grid0.Coords, ∀ a, (k0_off184 i) a + S1x64.size a ≤ S16x4096.size a
  k0_off185_inb : ∀ i : grid0.Coords, ∀ a, (k0_off185 i) a + S1x64.size a ≤ S16x4096.size a
  k0_off186_inb : ∀ i : grid0.Coords, ∀ a, (k0_off186 i) a + S1x64.size a ≤ S16x4096.size a
  k0_t6_ok : k0_t6_loop.OK
  k0_mult46_dvd : ∀ k0_t6 : Fin k0_t6_loop.trips, 256 ∣ (k0_mult46 k0_t6).toNat
  k0_off187_inb : ∀ k0_t6 : Fin k0_t6_loop.trips, ∀ a, (k0_off187 k0_t6) a + S1.size a ≤ S512.size a
  k0_off189_inb : ∀ k0_t6 : Fin k0_t6_loop.trips, ∀ (r : Fin 2), ∀ a, (k0_off189 k0_t6 (BitVec.ofNat 32 (16 * r.val))) a + S16.size a ≤ S16384.size a
  k0_off190_inb : ∀ k0_t6 : Fin k0_t6_loop.trips, ∀ a, (k0_off190 k0_t6) a + S1.size a ≤ S512.size a
  k0_off192_inb : ∀ k0_t6 : Fin k0_t6_loop.trips, ∀ (r : Fin 2), ∀ a, (k0_off192 k0_t6 (BitVec.ofNat 32 (16 * r.val))) a + S16.size a ≤ S16384.size a
  k0_off193_inb : ∀ k0_t6 : Fin k0_t6_loop.trips, ∀ a, (k0_off193 k0_t6) a + S1.size a ≤ S512.size a
  k0_off195_inb : ∀ k0_t6 : Fin k0_t6_loop.trips, ∀ (r : Fin 2), ∀ a, (k0_off195 k0_t6 (BitVec.ofNat 32 (16 * r.val))) a + S16.size a ≤ S16384.size a
  k0_off196_inb : ∀ k0_t6 : Fin k0_t6_loop.trips, ∀ a, (k0_off196 k0_t6) a + S1.size a ≤ S512.size a
  k0_off198_inb : ∀ k0_t6 : Fin k0_t6_loop.trips, ∀ (r : Fin 2), ∀ a, (k0_off198 k0_t6 (BitVec.ofNat 32 (16 * r.val))) a + S16.size a ≤ S16384.size a
  k0_off199_inb : ∀ k0_t6 : Fin k0_t6_loop.trips, ∀ a, (k0_off199 k0_t6) a + S1.size a ≤ S512.size a
  k0_off201_inb : ∀ k0_t6 : Fin k0_t6_loop.trips, ∀ (r : Fin 2), ∀ a, (k0_off201 k0_t6 (BitVec.ofNat 32 (16 * r.val))) a + S16.size a ≤ S16384.size a
  k0_off202_inb : ∀ k0_t6 : Fin k0_t6_loop.trips, ∀ a, (k0_off202 k0_t6) a + S1.size a ≤ S512.size a
  k0_off204_inb : ∀ k0_t6 : Fin k0_t6_loop.trips, ∀ (r : Fin 2), ∀ a, (k0_off204 k0_t6 (BitVec.ofNat 32 (16 * r.val))) a + S16.size a ≤ S16384.size a
  k0_off205_inb : ∀ k0_t6 : Fin k0_t6_loop.trips, ∀ a, (k0_off205 k0_t6) a + S1.size a ≤ S512.size a
  k0_off207_inb : ∀ k0_t6 : Fin k0_t6_loop.trips, ∀ (r : Fin 2), ∀ a, (k0_off207 k0_t6 (BitVec.ofNat 32 (16 * r.val))) a + S16.size a ≤ S16384.size a
  k0_off208_inb : ∀ k0_t6 : Fin k0_t6_loop.trips, ∀ a, (k0_off208 k0_t6) a + S1.size a ≤ S512.size a
  k0_off210_inb : ∀ k0_t6 : Fin k0_t6_loop.trips, ∀ (r : Fin 2), ∀ a, (k0_off210 k0_t6 (BitVec.ofNat 32 (16 * r.val))) a + S16.size a ≤ S16384.size a
  k0_off211_inb : ∀ i : grid0.Coords, ∀ a, (k0_off211 i) a + S1x64.size a ≤ S16x4096.size a
  k0_off212_inb : ∀ i : grid0.Coords, ∀ a, (k0_off212 i) a + S1x64.size a ≤ S16x4096.size a
  k0_off213_inb : ∀ i : grid0.Coords, ∀ a, (k0_off213 i) a + S1x64.size a ≤ S16x4096.size a
  k0_off214_inb : ∀ i : grid0.Coords, ∀ a, (k0_off214 i) a + S1x64.size a ≤ S16x4096.size a
  k0_off215_inb : ∀ i : grid0.Coords, ∀ a, (k0_off215 i) a + S1x64.size a ≤ S16x4096.size a
  k0_off216_inb : ∀ i : grid0.Coords, ∀ a, (k0_off216 i) a + S1x64.size a ≤ S16x4096.size a
  k0_off217_inb : ∀ i : grid0.Coords, ∀ a, (k0_off217 i) a + S1x64.size a ≤ S16x4096.size a
  k0_off218_inb : ∀ i : grid0.Coords, ∀ a, (k0_off218 i) a + S1x64.size a ≤ S16x4096.size a
  k0_t7_ok : k0_t7_loop.OK
  k0_mult55_dvd : ∀ k0_t7 : Fin k0_t7_loop.trips, 256 ∣ (k0_mult55 k0_t7).toNat
  k0_off219_inb : ∀ k0_t7 : Fin k0_t7_loop.trips, ∀ a, (k0_off219 k0_t7) a + S1.size a ≤ S512.size a
  k0_off221_inb : ∀ k0_t7 : Fin k0_t7_loop.trips, ∀ (r : Fin 2), ∀ a, (k0_off221 k0_t7 (BitVec.ofNat 32 (16 * r.val))) a + S16.size a ≤ S16384.size a
  k0_off222_inb : ∀ k0_t7 : Fin k0_t7_loop.trips, ∀ a, (k0_off222 k0_t7) a + S1.size a ≤ S512.size a
  k0_off224_inb : ∀ k0_t7 : Fin k0_t7_loop.trips, ∀ (r : Fin 2), ∀ a, (k0_off224 k0_t7 (BitVec.ofNat 32 (16 * r.val))) a + S16.size a ≤ S16384.size a
  k0_off225_inb : ∀ k0_t7 : Fin k0_t7_loop.trips, ∀ a, (k0_off225 k0_t7) a + S1.size a ≤ S512.size a
  k0_off227_inb : ∀ k0_t7 : Fin k0_t7_loop.trips, ∀ (r : Fin 2), ∀ a, (k0_off227 k0_t7 (BitVec.ofNat 32 (16 * r.val))) a + S16.size a ≤ S16384.size a
  k0_off228_inb : ∀ k0_t7 : Fin k0_t7_loop.trips, ∀ a, (k0_off228 k0_t7) a + S1.size a ≤ S512.size a
  k0_off230_inb : ∀ k0_t7 : Fin k0_t7_loop.trips, ∀ (r : Fin 2), ∀ a, (k0_off230 k0_t7 (BitVec.ofNat 32 (16 * r.val))) a + S16.size a ≤ S16384.size a
  k0_off231_inb : ∀ k0_t7 : Fin k0_t7_loop.trips, ∀ a, (k0_off231 k0_t7) a + S1.size a ≤ S512.size a
  k0_off233_inb : ∀ k0_t7 : Fin k0_t7_loop.trips, ∀ (r : Fin 2), ∀ a, (k0_off233 k0_t7 (BitVec.ofNat 32 (16 * r.val))) a + S16.size a ≤ S16384.size a
  k0_off234_inb : ∀ k0_t7 : Fin k0_t7_loop.trips, ∀ a, (k0_off234 k0_t7) a + S1.size a ≤ S512.size a
  k0_off236_inb : ∀ k0_t7 : Fin k0_t7_loop.trips, ∀ (r : Fin 2), ∀ a, (k0_off236 k0_t7 (BitVec.ofNat 32 (16 * r.val))) a + S16.size a ≤ S16384.size a
  k0_off237_inb : ∀ k0_t7 : Fin k0_t7_loop.trips, ∀ a, (k0_off237 k0_t7) a + S1.size a ≤ S512.size a
  k0_off239_inb : ∀ k0_t7 : Fin k0_t7_loop.trips, ∀ (r : Fin 2), ∀ a, (k0_off239 k0_t7 (BitVec.ofNat 32 (16 * r.val))) a + S16.size a ≤ S16384.size a
  k0_off240_inb : ∀ k0_t7 : Fin k0_t7_loop.trips, ∀ a, (k0_off240 k0_t7) a + S1.size a ≤ S512.size a
  k0_off242_inb : ∀ k0_t7 : Fin k0_t7_loop.trips, ∀ (r : Fin 2), ∀ a, (k0_off242 k0_t7 (BitVec.ofNat 32 (16 * r.val))) a + S16.size a ≤ S16384.size a
  k0_t8_ok : k0_t8_loop.OK
  k0_mult64_dvd : ∀ k0_t8 : Fin k0_t8_loop.trips, 256 ∣ (k0_mult64 k0_t8).toNat
  k0_off243_inb : ∀ k0_t8 : Fin k0_t8_loop.trips, ∀ a, (k0_off243 k0_t8) a + S1.size a ≤ S512.size a
  k0_off245_inb : ∀ k0_t8 : Fin k0_t8_loop.trips, ∀ (r : Fin 2), ∀ a, (k0_off245 k0_t8 (BitVec.ofNat 32 (16 * r.val))) a + S16.size a ≤ S16384.size a
  k0_off246_inb : ∀ k0_t8 : Fin k0_t8_loop.trips, ∀ a, (k0_off246 k0_t8) a + S1.size a ≤ S512.size a
  k0_off248_inb : ∀ k0_t8 : Fin k0_t8_loop.trips, ∀ (r : Fin 2), ∀ a, (k0_off248 k0_t8 (BitVec.ofNat 32 (16 * r.val))) a + S16.size a ≤ S16384.size a
  k0_off249_inb : ∀ k0_t8 : Fin k0_t8_loop.trips, ∀ a, (k0_off249 k0_t8) a + S1.size a ≤ S512.size a
  k0_off251_inb : ∀ k0_t8 : Fin k0_t8_loop.trips, ∀ (r : Fin 2), ∀ a, (k0_off251 k0_t8 (BitVec.ofNat 32 (16 * r.val))) a + S16.size a ≤ S16384.size a
  k0_off252_inb : ∀ k0_t8 : Fin k0_t8_loop.trips, ∀ a, (k0_off252 k0_t8) a + S1.size a ≤ S512.size a
  k0_off254_inb : ∀ k0_t8 : Fin k0_t8_loop.trips, ∀ (r : Fin 2), ∀ a, (k0_off254 k0_t8 (BitVec.ofNat 32 (16 * r.val))) a + S16.size a ≤ S16384.size a
  k0_off255_inb : ∀ k0_t8 : Fin k0_t8_loop.trips, ∀ a, (k0_off255 k0_t8) a + S1.size a ≤ S512.size a
  k0_off257_inb : ∀ k0_t8 : Fin k0_t8_loop.trips, ∀ (r : Fin 2), ∀ a, (k0_off257 k0_t8 (BitVec.ofNat 32 (16 * r.val))) a + S16.size a ≤ S16384.size a
  k0_off258_inb : ∀ k0_t8 : Fin k0_t8_loop.trips, ∀ a, (k0_off258 k0_t8) a + S1.size a ≤ S512.size a
  k0_off260_inb : ∀ k0_t8 : Fin k0_t8_loop.trips, ∀ (r : Fin 2), ∀ a, (k0_off260 k0_t8 (BitVec.ofNat 32 (16 * r.val))) a + S16.size a ≤ S16384.size a
  k0_off261_inb : ∀ k0_t8 : Fin k0_t8_loop.trips, ∀ a, (k0_off261 k0_t8) a + S1.size a ≤ S512.size a
  k0_off263_inb : ∀ k0_t8 : Fin k0_t8_loop.trips, ∀ (r : Fin 2), ∀ a, (k0_off263 k0_t8 (BitVec.ofNat 32 (16 * r.val))) a + S16.size a ≤ S16384.size a
  k0_off264_inb : ∀ k0_t8 : Fin k0_t8_loop.trips, ∀ a, (k0_off264 k0_t8) a + S1.size a ≤ S512.size a
  k0_off266_inb : ∀ k0_t8 : Fin k0_t8_loop.trips, ∀ (r : Fin 2), ∀ a, (k0_off266 k0_t8 (BitVec.ofNat 32 (16 * r.val))) a + S16.size a ≤ S16384.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11

class Facts : Prop extends Facts₀ where

variable [Facts]
-- ==== ReferenceIdeal.lean ====
abbrev S16384 : Shape := ⟨1, ![16384]⟩
abbrev S32x32 : Shape := ⟨2, ![32, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S16384x256 : Shape := ⟨2, ![16384, 256]⟩

abbrev nBuf : Space → Nat
  | .hbm => 201
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384, .i32⟩
  | 6 => ⟨S16384, .i32⟩
  | 7 => ⟨S16384, .i32⟩
  | 8 => ⟨S32x32, .f32⟩
  | 9 => ⟨S32x32, .f32⟩
  | 10 => ⟨S32x32, .f32⟩
  | 11 => ⟨S32x32, .f32⟩
  | 12 => ⟨S32x32, .f32⟩
  | 13 => ⟨S32x32, .f32⟩
  | 14 => ⟨S32x32, .f32⟩
  | 15 => ⟨S32x32, .f32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S1, .i32⟩
  | 25 => ⟨S_, .i32⟩
  | 26 => ⟨S16384x1, .i32⟩
  | 27 => ⟨S16384x1, .i1⟩
  | 28 => ⟨S1x1, .i32⟩
  | 29 => ⟨S16384x1, .i32⟩
  | 30 => ⟨S16384x1, .i1⟩
  | 31 => ⟨S16384x1, .i1⟩
  | 32 => ⟨S_, .i1⟩
  | 33 => ⟨S16384, .i1⟩
  | 34 => ⟨S16384x32, .f32⟩
  | 35 => ⟨S16384x32, .i1⟩
  | 36 => ⟨S_, .f32⟩
  | 37 => ⟨S16384x32, .f32⟩
  | 38 => ⟨S16384x32, .f32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x32, .f32⟩
  | 58 => ⟨S16384x32, .i1⟩
  | 59 => ⟨S_, .f32⟩
  | 60 => ⟨S16384x32, .f32⟩
  | 61 => ⟨S16384x32, .f32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S1, .i32⟩
  | 71 => ⟨S_, .i32⟩
  | 72 => ⟨S16384x1, .i32⟩
  | 73 => ⟨S16384x1, .i1⟩
  | 74 => ⟨S1x1, .i32⟩
  | 75 => ⟨S16384x1, .i32⟩
  | 76 => ⟨S16384x1, .i1⟩
  | 77 => ⟨S16384x1, .i1⟩
  | 78 => ⟨S_, .i1⟩
  | 79 => ⟨S16384, .i1⟩
  | 80 => ⟨S16384x32, .f32⟩
  | 81 => ⟨S16384x32, .i1⟩
  | 82 => ⟨S_, .f32⟩
  | 83 => ⟨S16384x32, .f32⟩
  | 84 => ⟨S16384x32, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S1, .i32⟩
  | 94 => ⟨S_, .i32⟩
  | 95 => ⟨S16384x1, .i32⟩
  | 96 => ⟨S16384x1, .i1⟩
  | 97 => ⟨S1x1, .i32⟩
  | 98 => ⟨S16384x1, .i32⟩
  | 99 => ⟨S16384x1, .i1⟩
  | 100 => ⟨S16384x1, .i1⟩
  | 101 => ⟨S_, .i1⟩
  | 102 => ⟨S16384, .i1⟩
  | 103 => ⟨S16384x32, .f32⟩
  | 104 => ⟨S16384x32, .i1⟩
  | 105 => ⟨S_, .f32⟩
  | 106 => ⟨S16384x32, .f32⟩
  | 107 => ⟨S16384x32, .f32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S1, .i32⟩
  | 117 => ⟨S_, .i32⟩
  | 118 => ⟨S16384x1, .i32⟩
  | 119 => ⟨S16384x1, .i1⟩
  | 120 => ⟨S1x1, .i32⟩
  | 121 => ⟨S16384x1, .i32⟩
  | 122 => ⟨S16384x1, .i1⟩
  | 123 => ⟨S16384x1, .i1⟩
  | 124 => ⟨S_, .i1⟩
  | 125 => ⟨S16384, .i1⟩
  | 126 => ⟨S16384x32, .f32⟩
  | 127 => ⟨S16384x32, .i1⟩
  | _ => ⟨S16384, .i32⟩

abbrev hbmTy0_1 (i : Nat) : BufTy := match i % 128 with
  | 0 => ⟨S_, .f32⟩
  | 1 => ⟨S16384x32, .f32⟩
  | 2 => ⟨S16384x32, .f32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S1, .i32⟩
  | 12 => ⟨S_, .i32⟩
  | 13 => ⟨S16384x1, .i32⟩
  | 14 => ⟨S16384x1, .i1⟩
  | 15 => ⟨S1x1, .i32⟩
  | 16 => ⟨S16384x1, .i32⟩
  | 17 => ⟨S16384x1, .i1⟩
  | 18 => ⟨S16384x1, .i1⟩
  | 19 => ⟨S_, .i1⟩
  | 20 => ⟨S16384, .i1⟩
  | 21 => ⟨S16384x32, .f32⟩
  | 22 => ⟨S16384x32, .i1⟩
  | 23 => ⟨S_, .f32⟩
  | 24 => ⟨S16384x32, .f32⟩
  | 25 => ⟨S16384x32, .f32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S1, .i32⟩
  | 35 => ⟨S_, .i32⟩
  | 36 => ⟨S16384x1, .i32⟩
  | 37 => ⟨S16384x1, .i1⟩
  | 38 => ⟨S1x1, .i32⟩
  | 39 => ⟨S16384x1, .i32⟩
  | 40 => ⟨S16384x1, .i1⟩
  | 41 => ⟨S16384x1, .i1⟩
  | 42 => ⟨S_, .i1⟩
  | 43 => ⟨S16384, .i1⟩
  | 44 => ⟨S16384x32, .f32⟩
  | 45 => ⟨S16384x32, .i1⟩
  | 46 => ⟨S_, .f32⟩
  | 47 => ⟨S16384x32, .f32⟩
  | 48 => ⟨S16384x32, .f32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S1, .i32⟩
  | 58 => ⟨S_, .i32⟩
  | 59 => ⟨S16384x1, .i32⟩
  | 60 => ⟨S16384x1, .i1⟩
  | 61 => ⟨S1x1, .i32⟩
  | 62 => ⟨S16384x1, .i32⟩
  | 63 => ⟨S16384x1, .i1⟩
  | 64 => ⟨S16384x1, .i1⟩
  | 65 => ⟨S_, .i1⟩
  | 66 => ⟨S16384, .i1⟩
  | 67 => ⟨S16384x32, .f32⟩
  | 68 => ⟨S16384x32, .i1⟩
  | 69 => ⟨S_, .f32⟩
  | 70 => ⟨S16384x32, .f32⟩
  | 71 => ⟨S16384x32, .f32⟩
  | 72 => ⟨S16384x256, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v2 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v3 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_call4_cst : Ref sig .tc := ⟨.hbm, 128, rfl⟩
abbrev main_call4_v15 : Ref sig .tc := ⟨.hbm, 129, rfl⟩
abbrev main_v4 : Ref sig .tc := ⟨.hbm, 130, rfl⟩
abbrev main_call5_c : Ref sig .tc := ⟨.hbm, 131, rfl⟩
abbrev main_call5_v0 : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_c_1 : Ref sig .tc := ⟨.hbm, 139, rfl⟩
abbrev main_call5_c_2 : Ref sig .tc := ⟨.hbm, 140, rfl⟩
abbrev main_call5_v6 : Ref sig .tc := ⟨.hbm, 141, rfl⟩
abbrev main_call5_v7 : Ref sig .tc := ⟨.hbm, 142, rfl⟩
abbrev main_call5_v8 : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_c_3 : Ref sig .tc := ⟨.hbm, 147, rfl⟩
abbrev main_call5_v12 : Ref sig .tc := ⟨.hbm, 148, rfl⟩
abbrev main_call5_v13 : Ref sig .tc := ⟨.hbm, 149, rfl⟩
abbrev main_call5_v14 : Ref sig .tc := ⟨.hbm, 150, rfl⟩
abbrev main_call5_cst : Ref sig .tc := ⟨.hbm, 151, rfl⟩
abbrev main_call5_v15 : Ref sig .tc := ⟨.hbm, 152, rfl⟩
abbrev main_v5 : Ref sig .tc := ⟨.hbm, 153, rfl⟩
abbrev main_call6_c : Ref sig .tc := ⟨.hbm, 154, rfl⟩
abbrev main_call6_v0 : Ref sig .tc := ⟨.hbm, 155, rfl⟩
abbrev main_call6_v1 : Ref sig .tc := ⟨.hbm, 156, rfl⟩
abbrev main_call6_c_0 : Ref sig .tc := ⟨.hbm, 157, rfl⟩
abbrev main_call6_v2 : Ref sig .tc := ⟨.hbm, 158, rfl⟩
abbrev main_call6_v3 : Ref sig .tc := ⟨.hbm, 159, rfl⟩
abbrev main_call6_v4 : Ref sig .tc := ⟨.hbm, 160, rfl⟩
abbrev main_call6_v5 : Ref sig .tc := ⟨.hbm, 161, rfl⟩
abbrev main_call6_c_1 : Ref sig .tc := ⟨.hbm, 162, rfl⟩
abbrev main_call6_c_2 : Ref sig .tc := ⟨.hbm, 163, rfl⟩
abbrev main_call6_v6 : Ref sig .tc := ⟨.hbm, 164, rfl⟩
abbrev main_call6_v7 : Ref sig .tc := ⟨.hbm, 165, rfl⟩
abbrev main_call6_v8 : Ref sig .tc := ⟨.hbm, 166, rfl⟩
abbrev main_call6_v9 : Ref sig .tc := ⟨.hbm, 167, rfl⟩
abbrev main_call6_v10 : Ref sig .tc := ⟨.hbm, 168, rfl⟩
abbrev main_call6_v11 : Ref sig .tc := ⟨.hbm, 169, rfl⟩
abbrev main_call6_c_3 : Ref sig .tc := ⟨.hbm, 170, rfl⟩
abbrev main_call6_v12 : Ref sig .tc := ⟨.hbm, 171, rfl⟩
abbrev main_call6_v13 : Ref sig .tc := ⟨.hbm, 172, rfl⟩
abbrev main_call6_v14 : Ref sig .tc := ⟨.hbm, 173, rfl⟩
abbrev main_call6_cst : Ref sig .tc := ⟨.hbm, 174, rfl⟩
abbrev main_call6_v15 : Ref sig .tc := ⟨.hbm, 175, rfl⟩
abbrev main_v6 : Ref sig .tc := ⟨.hbm, 176, rfl⟩
abbrev main_call7_c : Ref sig .tc := ⟨.hbm, 177, rfl⟩
abbrev main_call7_v0 : Ref sig .tc := ⟨.hbm, 178, rfl⟩
abbrev main_call7_v1 : Ref sig .tc := ⟨.hbm, 179, rfl⟩
abbrev main_call7_c_0 : Ref sig .tc := ⟨.hbm, 180, rfl⟩
abbrev main_call7_v2 : Ref sig .tc := ⟨.hbm, 181, rfl⟩
abbrev main_call7_v3 : Ref sig .tc := ⟨.hbm, 182, rfl⟩
abbrev main_call7_v4 : Ref sig .tc := ⟨.hbm, 183, rfl⟩
abbrev main_call7_v5 : Ref sig .tc := ⟨.hbm, 184, rfl⟩
abbrev main_call7_c_1 : Ref sig .tc := ⟨.hbm, 185, rfl⟩
abbrev main_call7_c_2 : Ref sig .tc := ⟨.hbm, 186, rfl⟩
abbrev main_call7_v6 : Ref sig .tc := ⟨.hbm, 187, rfl⟩
abbrev main_call7_v7 : Ref sig .tc := ⟨.hbm, 188, rfl⟩
abbrev main_call7_v8 : Ref sig .tc := ⟨.hbm, 189, rfl⟩
abbrev main_call7_v9 : Ref sig .tc := ⟨.hbm, 190, rfl⟩
abbrev main_call7_v10 : Ref sig .tc := ⟨.hbm, 191, rfl⟩
abbrev main_call7_v11 : Ref sig .tc := ⟨.hbm, 192, rfl⟩
abbrev main_call7_c_3 : Ref sig .tc := ⟨.hbm, 193, rfl⟩
abbrev main_call7_v12 : Ref sig .tc := ⟨.hbm, 194, rfl⟩
abbrev main_call7_v13 : Ref sig .tc := ⟨.hbm, 195, rfl⟩
abbrev main_call7_v14 : Ref sig .tc := ⟨.hbm, 196, rfl⟩
abbrev main_call7_cst : Ref sig .tc := ⟨.hbm, 197, rfl⟩
abbrev main_call7_v15 : Ref sig .tc := ⟨.hbm, 198, rfl⟩
abbrev main_v7 : Ref sig .tc := ⟨.hbm, 199, rfl⟩
abbrev main_v8 : Ref sig .tc := ⟨.hbm, 200, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  concatenates_S16384x32_S16384x32_S16384x32_S16384x32_S16384x32_S16384x32_S16384x32_S16384x32_S16384x256_d1 : Shape.Concatenates [S16384x32, S16384x32, S16384x32, S16384x32, S16384x32, S16384x32, S16384x32, S16384x32] S16384x256 1
  gather_S32x32_S16384x1_S16384x32_1_0_n_n_0_1_132_wf : GatherDims.WF S32x32 S16384x1 S16384x32 [1] [0] [] [0] [] 1 ![1, 32]

variable [Facts₀]

def gather_S32x32_S16384x1_S16384x32_1_0_n_n_0_1_132 : GatherDims S32x32 S16384x1 S16384x32 where
  offsetDims := [1]
  collapsedSliceDims := [0]
  operandBatchingDims := []
  startIndicesBatchingDims := []
  startIndexMap := [0]
  indexVectorDim := 1
  sliceSizes := ![1, 32]
  wf := gather_S32x32_S16384x1_S16384x32_1_0_n_n_0_1_132_wf

class Facts : Prop extends Facts₀ where

variable [Facts]
-- ==== Proof.Spec.lean ====
/-
  What the looked-up result holds, stated once for both programs.

  Eight index columns `c_0 … c_7` (16384 words each) and eight tables `W_0 … W_7` (32 rows of 32 entries).
  Row `b` of the result is the eight rows `W_j[c_j[b]]` laid side by side: entry `(b, 32 j + e)` is
  `W_j[c_j[b]][e]`. A word is reduced modulo 32 so that the row it names always exists; for a word already
  below 32 (the only words the precondition admits) the reduction changes nothing.
-/
import Idealize.ShloMosaic.PureOps
import Idealize.ShloMosaic.Lib.ValueIdx

namespace Cert.Spec

open Idealize.ShloMosaic Idealize.ShloMosaic.ValueIdx

/-- Entry `(b, col)` over curried coordinates: table and index column `col / 32`, row the column's word at `b`
    (mod 32), entry `col % 32` of that row. -/
def out {α : Type} (idx : Fin 8 → Fin 16384 → ℕ) (tab : Fin 8 → Fin 32 → Fin 32 → α) (b : Fin 16384) (col : Fin 256) : α :=
  tab ⟨col.val / 32, by omega⟩ ⟨idx ⟨col.val / 32, by omega⟩ b % 32, Nat.mod_lt _ (by decide)⟩ ⟨col.val % 32, Nat.mod_lt _ (by decide)⟩

/-- The same as an array of shape [16384, 256] over the eight index arrays and the eight table arrays. -/
def outArr {α : Type} (c : Fin 8 → (⟨1, ![16384]⟩ : Shape).Idx → BitVec 32) (W : Fin 8 → (⟨2, ![32, 32]⟩ : Shape).Idx → α) :
    (⟨2, ![16384, 256]⟩ : Shape).Idx → α :=
  fun i => out (fun j b => (c j (ix1 b)).toNat) (fun j r e => W j (ix2 r e)) ⟨(i 0).val, idx2_lt0 i⟩ ⟨(i 1).val, idx2_lt1 i⟩

theorem outArr_apply {α : Type} (c : Fin 8 → (⟨1, ![16384]⟩ : Shape).Idx → BitVec 32) (W : Fin 8 → (⟨2, ![32, 32]⟩ : Shape).Idx → α)
    (b : Fin 16384) (col : Fin 256) :
    outArr c W (ix2 b col) = out (fun j b => (c j (ix1 b)).toNat) (fun j r e => W j (ix2 r e)) b col := rfl

end Cert.Spec
-- ==== Proof.RefPre.lean ====
/-
  The integer part of the precondition, read back.

  The precondition is one bit: the conjunction, over the eight tables, of "every entry is finite" and, over the eight
  index columns, of "every word w satisfies 0 ≤ w and w ≤ 31, read signed". The bit being 1 gives each conjunct; a
  conjunct over a column is a reduction by "and" from 1, so it gives the two comparisons at every position; a word
  between 0 and 31 read signed has the same value read unsigned, below 32. Nothing here looks at the float entries, so
  the statement holds for any float instance.
-/
import proofs.«204821_g30846455120635_fold_wed_m_1292_33_alg».proof.Pre_input_domain
import Idealize.ShloMosaic.Lib.ReduceAll
import Idealize.ShloMosaic.Lib.ValueIdx

namespace Cert.RefSide

open Idealize.ShloMosaic Idealize.ShloMosaic.ValueIdx Cert.Pre_input_domain

/-- The scalar shape has one index. -/
instance subsingletonScalarIdx : Subsingleton (⟨0, ![]⟩ : Shape).Idx := ⟨fun _ _ => funext fun d => d.elim0⟩

/-- A 32-bit word between 0 and 31, read signed, is below 32 read unsigned. -/
theorem toNat_lt_of_signed_range (x : BitVec 32) (h0 : (0#32 : BitVec 32).toInt ≤ x.toInt)
    (h1 : x.toInt ≤ (31#32 : BitVec 32).toInt) : x.toNat < 32 := by
  have e0 : (0#32 : BitVec 32).toInt = 0 := by decide
  have e1 : (31#32 : BitVec 32).toInt = 31 := by decide
  rw [e0] at h0
  rw [e1] at h1
  rw [BitVec.toInt_eq_toNat_cond] at h0 h1
  have := x.isLt
  split_ifs at h0 h1 <;> omega

open Cert.Pre_input_domain.Facts

/-- One column's conjunct: the reduction by "and" of the two comparisons being 1 puts every word of the column below 32. -/
theorem column_lt [Facts] (a : IVec S16384 32)
    (e : Host.reduce IntOp.andi
        (andi (cmpi .sge a (broadcastInDim S16384 ![] bcast_S_S16384 (constantI S_ 32 0#32)))
          (cmpi .sle a (broadcastInDim S16384 ![] bcast_S_S16384 (constantI S_ 32 31#32))))
        (constantI S_ 1 1#1) reducesTo_S16384_S_d0 h_S_ ix0 = 1#1)
    (b : Fin 16384) : (a (ix1 b)).toNat < 32 := by
  have hb := Host.reduce_andi_all _ _ _ _ ix0 e (ix1 b)
  have hb' : IntOp.andi (IntOp.cmpi .sge (a (ix1 b)) 0#32) (IntOp.cmpi .sle (a (ix1 b)) 31#32) = 1#1 := hb
  obtain ⟨h0, h1⟩ := IntOp.andi_eq_one.1 hb'
  exact toNat_lt_of_signed_range _ (IntOp.cmpi_sge.1 h0) (IntOp.cmpi_sle.1 h1)

/-- Under the precondition every word of every index column is below 32. -/
theorem idx_lt_of_pre {F : FTy → Type} [FloatOps F] [Facts]
    (a0 a1 a2 a3 a4 a5 a6 a7 : IVec S16384 32) (a8 a9 a10 a11 a12 a13 a14 a15 : FVec F S32x32 .f32)
    (h : fn (F := F) a0 a1 a2 a3 a4 a5 a6 a7 a8 a9 a10 a11 a12 a13 a14 a15 = fun _ => 1#1) :
    ∀ (j : Fin 8) (b : Fin 16384), ((![a0, a1, a2, a3, a4, a5, a6, a7] j) (ix1 b)).toNat < 32 := by
  have e := congrFun h ix0
  dsimp only [fn, fn_part1, fn_part2, fn_part3, fn_part4, fn_part5] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  intro j b
  match j with
  | ⟨0, _⟩ => exact column_lt a0 e0 b
  | ⟨1, _⟩ => exact column_lt a1 e1 b
  | ⟨2, _⟩ => exact column_lt a2 e2 b
  | ⟨3, _⟩ => exact column_lt a3 e3 b
  | ⟨4, _⟩ => exact column_lt a4 e4 b
  | ⟨5, _⟩ => exact column_lt a5 e5 b
  | ⟨6, _⟩ => exact column_lt a6 e6 b
  | ⟨7, _⟩ => exact column_lt a7 e7 b

end Cert.RefSide
-- ==== Proof.RefRun.lean ====
/-
  The reference's run.

  The reference looks up each of eight index columns in its own table by the same outlined function, then lays the
  eight results side by side. Run on the device it is a straight line of operations: the function's twenty-three, once
  per column over that call's own buffers (the nested selection of the index normalisation in its place), then the
  concatenation. Here the line is written as that list, the program is shown to be the list run in order, and so every
  weakly fair execution ends with each buffer at the list's fold over the launch contents.
-/
import proofs.«204821_g30846455120635_fold_wed_m_1292_33_alg».proof.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- One lookup's operations, in order, over its table's and its column's buffers and the call's own: the index
    normalisation (a negative word moved up by the table's height, chosen by a selection), the range test of the
    normalised word (0 ≤ w and w ≤ 31, reduced over the unit axis), the row gather, and the selection between the
    gathered row and the fill value by the range test. -/
abbrev takeOps (a0 : TRef sig ⟨S32x32, .f32⟩) (a1 : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary a1 φ.v0 φ.v1 (cmpi .slt),
    TRef.nullary φ.c_0 (constantI S_ 32 32#32),
    TRef.unary φ.c_0 φ.v2 (broadcastInDim S16384 ![] bcast_S_S16384),
    TRef.binary a1 φ.v2 φ.v3 addi,
    TRef.ternary φ.v1 φ.v3 a1 φ.call0.v0 select,
    TRef.unary φ.call0.v0 φ.v5 (broadcastInDim S16384x1 ![0] bcast_S16384_S16384x1_0),
    TRef.nullary φ.c_1 (constantI S1 32 31#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary a0 φ.v5 φ.v13 (fun x i => Host.gather gather_S32x32_S16384x1_S16384x32_1_0_n_n_0_1_132 x i),
    TRef.unary φ.v12 φ.v14 (broadcastInDim S16384x32 ![0] bcast_S16384_S16384x32_0),
    TRef.nullary φ.cst (constant S_ .f32 0x7FC00000#32),
    TRef.unary φ.cst φ.v15 (broadcastInDim S16384x32 ![] bcast_S_S16384x32),
    TRef.ternary φ.v14 φ.v13 φ.v15 φ.v16 select ]

/-- The outlined function's body is its operations run in order (the nested call's one selection in its place). -/
theorem take_body_eq (a0 : TRef sig ⟨S32x32, .f32⟩) (a1 : TRef sig ⟨S16384, .i32⟩) (φ : fn_take.Bufs) :
    fn_take.body (F := F) a0 a1 φ = seq (takeOps a0 a1 φ) := by
  simp only [fn_take.body, fn_where.body, seq, bind_assoc, pure_bind]

/-- Every buffer one lookup touches is a buffer of the device. -/
theorem take_ops_sub (a0 : TRef sig ⟨S32x32, .f32⟩) (a1 : TRef sig ⟨S16384, .i32⟩) (φ : fn_take.Bufs) :
    (takeOps (F := F) a0 a1 φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every operation of a lookup determines what it writes. -/
theorem take_ops_fresh (a0 : TRef sig ⟨S32x32, .f32⟩) (a1 : TRef sig ⟨S16384, .i32⟩) (φ : fn_take.Bufs) :
    ∀ op ∈ takeOps (F := F) a0 a1 φ, op.fresh = ∅ := by
  intro _ h
  (repeat (cases h with | head => rfl | tail _ h => ?_))
  exact nomatch h

/-- The eight looked-up blocks laid side by side along the second axis. -/
abbrev concatOp : HloOp τ sig (Elt F) :=
  nary ![main_v0, main_v1, main_v2, main_v3, main_v4, main_v5, main_v6, main_v7] main_v8 (fun u => concatenate S16384x256 1 [⟨S16384x32, u 0⟩, ⟨S16384x32, u 1⟩, ⟨S16384x32, u 2⟩, ⟨S16384x32, u 3⟩, ⟨S16384x32, u 4⟩, ⟨S16384x32, u 5⟩, ⟨S16384x32, u 6⟩, ⟨S16384x32, u 7⟩] concatenates_S16384x32_S16384x32_S16384x32_S16384x32_S16384x32_S16384x32_S16384x32_S16384x32_S16384x256_d1)

/-- Lookup 0: column 0 in table 0. -/
abbrev ops0 : List (HloOp τ sig (Elt F)) := takeOps (.of main_arg8) (.of main_arg0) main_call0
/-- Lookup 1: column 1 in table 1. -/
abbrev ops1 : List (HloOp τ sig (Elt F)) := takeOps (.of main_arg9) (.of main_arg1) main_call1
/-- Lookup 2: column 2 in table 2. -/
abbrev ops2 : List (HloOp τ sig (Elt F)) := takeOps (.of main_arg10) (.of main_arg2) main_call2
/-- Lookup 3: column 3 in table 3. -/
abbrev ops3 : List (HloOp τ sig (Elt F)) := takeOps (.of main_arg11) (.of main_arg3) main_call3
/-- Lookup 4: column 4 in table 4. -/
abbrev ops4 : List (HloOp τ sig (Elt F)) := takeOps (.of main_arg12) (.of main_arg4) main_call4
/-- Lookup 5: column 5 in table 5. -/
abbrev ops5 : List (HloOp τ sig (Elt F)) := takeOps (.of main_arg13) (.of main_arg5) main_call5
/-- Lookup 6: column 6 in table 6. -/
abbrev ops6 : List (HloOp τ sig (Elt F)) := takeOps (.of main_arg14) (.of main_arg6) main_call6
/-- Lookup 7: column 7 in table 7. -/
abbrev ops7 : List (HloOp τ sig (Elt F)) := takeOps (.of main_arg15) (.of main_arg7) main_call7

/-- The whole line: the eight lookups, then the concatenation. -/
abbrev ops : List (HloOp τ sig (Elt F)) :=
  ops0 ++ (ops1 ++ (ops2 ++ (ops3 ++ (ops4 ++ (ops5 ++ (ops6 ++ (ops7 ++ [concatOp])))))))

/-- The program is that line run in order. -/
theorem main_eq (c : Dev nD) : main (F := F) c = seq ops := by
  unfold main
  simp only [take_body_eq, seq_append]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.2 fun op h => ?_
  simp only [List.mem_append, List.mem_singleton] at h
  rcases h with h | h | h | h | h | h | h | h | h
  · exact List.forall_iff_forall_mem.1 (take_ops_sub ..) op h
  · exact List.forall_iff_forall_mem.1 (take_ops_sub ..) op h
  · exact List.forall_iff_forall_mem.1 (take_ops_sub ..) op h
  · exact List.forall_iff_forall_mem.1 (take_ops_sub ..) op h
  · exact List.forall_iff_forall_mem.1 (take_ops_sub ..) op h
  · exact List.forall_iff_forall_mem.1 (take_ops_sub ..) op h
  · exact List.forall_iff_forall_mem.1 (take_ops_sub ..) op h
  · exact List.forall_iff_forall_mem.1 (take_ops_sub ..) op h
  · subst h; exact nary_bufs_sub ..

theorem ops_fresh : ∀ op ∈ (ops : List (HloOp τ sig (Elt F))), op.fresh = ∅ := by
  intro op h
  simp only [List.mem_append, List.mem_singleton] at h
  rcases h with h | h | h | h | h | h | h | h | h
  · exact take_ops_fresh _ _ _ op h
  · exact take_ops_fresh _ _ _ op h
  · exact take_ops_fresh _ _ _ op h
  · exact take_ops_fresh _ _ _ op h
  · exact take_ops_fresh _ _ _ op h
  · exact take_ops_fresh _ _ _ op h
  · exact take_ops_fresh _ _ _ op h
  · exact take_ops_fresh _ _ _ op h
  · subst h; rfl

/-- On the device, for any float values, from any memory with zero counters: every weakly fair execution of the
    reference terminates, and every buffer ends at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RefSide

end
-- ==== Proof.RefTake.lean ====
/-
  One lookup as a pure function, and what it holds at an entry.

  A lookup of the index column c in the table W first normalises each word (a negative word is moved up by the
  table's height), then reads row "word" of the table for every position, and finally keeps that row where the
  normalised word lies between 0 and 31 and puts a fill value elsewhere. When every word of the column is already
  between 0 and 31 — as the precondition says — the normalisation changes nothing, the range test holds everywhere,
  the clamp inside the row gather is the identity, and entry (b, e) of the result is W[c[b]][e]. The fill value is
  never read. This holds for every float instance: no arithmetic is done on the entries.
-/
import proofs.«204821_g30846455120635_fold_wed_m_1292_33_alg».proof.ReferenceIdeal
import Idealize.ShloMosaic.Lib.ValueIdx
import Idealize.ShloMosaic.Lib.Affine
import Idealize.ShloMosaic.PureOps.Reduce

noncomputable section

namespace Cert.RefSide

open Cert.ReferenceIdeal Idealize.ShloMosaic Idealize.ShloMosaic.ValueIdx
open Cert.ReferenceIdeal.Facts₀

variable {F : FTy → Type} [FloatOps F] [Cert.ReferenceIdeal.Facts]

/-- The normalised index column, with a trailing unit axis: a word below zero is moved up by 32. -/
def normIdx (c : IVec S16384 32) : IVec S16384x1 32 :=
  broadcastInDim S16384x1 ![0] bcast_S16384_S16384x1_0
    (select (cmpi .slt c (broadcastInDim S16384 ![] bcast_S_S16384 (constantI S_ 32 0#32)))
      (addi c (broadcastInDim S16384 ![] bcast_S_S16384 (constantI S_ 32 32#32))) c)

/-- Per position, whether the normalised word lies between 0 and 31 (read signed): the conjunction over the unit axis. -/
def inRange (c : IVec S16384 32) : IVec S16384 1 :=
  Host.reduce IntOp.andi
    (andi (cmpi .sge (normIdx c) (broadcastInDim S16384x1 ![] bcast_S_S16384x1 (constantI S_ 32 0#32)))
      (cmpi .sle (normIdx c) (broadcastInDim S16384x1 ![0, 1] bcast_S1x1_S16384x1_0_1
        (broadcastInDim S1x1 ![1] bcast_S1_S1x1_1 (constantI S1 32 31#32)))))
    (constantI S_ 1 1#1) reducesTo_S16384x1_S16384_d1 h_S_

/-- The lookup: the gathered rows where the word is in range, the fill value elsewhere. -/
def takeVal (W : FVec F S32x32 .f32) (c : IVec S16384 32) : FVec F S16384x32 .f32 :=
  select (broadcastInDim S16384x32 ![0] bcast_S16384_S16384x32_0 (inRange c))
    (Host.gather gather_S32x32_S16384x1_S16384x32_1_0_n_n_0_1_132 W (normIdx c))
    (broadcastInDim S16384x32 ![] bcast_S_S16384x32 (constant S_ .f32 0x7FC00000#32))

/-! ## Words -/

/-- A word below 32 read unsigned is not negative read signed … -/
theorem toInt_of_lt {w : BitVec 32} (h : w.toNat < 32) : w.toInt = (w.toNat : Int) :=
  BitVec.toInt_eq_toNat_of_lt (by omega)

/-- … so it does not test below zero, -/
theorem not_slt_zero {w : BitVec 32} (h : w.toNat < 32) : ¬ IntOp.cmpi .slt w 0#32 = 1#1 := by
  rw [IntOp.cmpi_slt, toInt_of_lt h, show (0#32 : BitVec 32).toInt = 0 from by decide]
  omega

/-- it tests at least zero, -/
theorem sge_zero {w : BitVec 32} (h : w.toNat < 32) : IntOp.cmpi .sge w 0#32 = 1#1 := by
  rw [IntOp.cmpi_sge, toInt_of_lt h, show (0#32 : BitVec 32).toInt = 0 from by decide]
  omega

/-- and at most thirty-one. -/
theorem sle_31 {w : BitVec 32} (h : w.toNat < 32) : IntOp.cmpi .sle w 31#32 = 1#1 := by
  rw [IntOp.cmpi_sle, toInt_of_lt h, show (31#32 : BitVec 32).toInt = 31 from by decide]
  omega

/-- Read signed and clamped into 0 … 31 it is itself. -/
theorem clamp_of_lt {w : BitVec 32} (h : w.toNat < 32) : min w.toInt.toNat 31 = w.toNat := by
  rw [toInt_of_lt h, Int.toNat_natCast]
  omega

/-! ## The index column -/

/-- At a position whose word is below 32 the normalised word is the word. -/
theorem normIdx_apply (c : IVec S16384 32) (b : Fin 16384) (z : Fin 1) (hb : (c (ix1 b)).toNat < 32) :
    normIdx c (ix2 b z) = c (ix1 b) := by
  have e : normIdx c (ix2 b z)
      = Scalar.select (IntOp.cmpi .slt (c (ix1 b)) 0#32) (IntOp.addi (c (ix1 b)) 32#32) (c (ix1 b)) := by
    unfold normIdx broadcastInDim
    show select _ _ _ _ = _
    rw [select_apply]
    have hi : (fun a : Fin S16384.rank =>
        if h1 : S16384.size a = 1 then (⟨0, by omega⟩ : Fin (S16384.size a))
        else ⟨((ix2 b z : S16384x1.Idx) ((![0] : Fin 1 → Fin 2) a)).val, by
          rcases (bcast_S16384_S16384x1_0 : S16384.BroadcastsInDim S16384x1 ![0]).2 a with h2 | h2
          · exact absurd h2 h1
          · rw [h2]; exact ((ix2 b z : S16384x1.Idx) ((![0] : Fin 1 → Fin 2) a)).isLt⟩) = ix1 b := by
      funext a; match a with | ⟨0, _⟩ => rfl
    rw [hi]
    rfl
  rw [e]
  exact if_neg (not_slt_zero hb)

/-- Where every word is below 32 the range test holds at every position. -/
theorem inRange_apply (c : IVec S16384 32) (hc : ∀ b : Fin 16384, (c (ix1 b)).toNat < 32) (j : S16384.Idx) :
    inRange c j = 1#1 := by
  unfold inRange
  rw [Host.reduce_eq_foldl]
  have hall : ∀ i : S16384x1.Idx,
      andi (cmpi .sge (normIdx c) (broadcastInDim S16384x1 ![] bcast_S_S16384x1 (constantI S_ 32 0#32)))
        (cmpi .sle (normIdx c) (broadcastInDim S16384x1 ![0, 1] bcast_S1x1_S16384x1_0_1
          (broadcastInDim S1x1 ![1] bcast_S1_S1x1_1 (constantI S1 32 31#32)))) i = 1#1 := by
    intro i
    obtain ⟨b, z, rfl⟩ : ∃ (b : Fin 16384) (z : Fin 1), i = ix2 b z := ⟨i 0, i 1, eq_ix2 i⟩
    show IntOp.andi (IntOp.cmpi .sge (normIdx c (ix2 b z)) 0#32) (IntOp.cmpi .sle (normIdx c (ix2 b z)) 31#32) = 1#1
    rw [normIdx_apply c b z (hc b)]
    exact IntOp.andi_eq_one.2 ⟨sge_zero (hc b), sle_31 (hc b)⟩
  generalize (((List.finRange S16384x1.numel).map S16384x1.rowMajor.symm).filter fun i =>
    (reducesTo_S16384x1_S16384_d1 : S16384x1.ReducesTo [1] S16384).drop i = j) = l
  show l.foldl _ 1#1 = 1#1
  induction l with
  | nil => rfl
  | cons i l ih =>
    rw [List.foldl_cons, hall i]
    exact ih

/-! ## The row gather -/

/-- The row gather at entry (b, e): the table at the row the start word names — read signed, clamped into 0 … 31 — and
    column e (axis 0 of the table is the collapsed axis the start index addresses, axis 1 the offset axis). The row is
    named by the caller. -/
theorem gather_rows_apply {α : Type} (x : S32x32.Idx → α) (idx : IVec S16384x1 32) (b : Fin 16384) (e : Fin 32)
    (r : Fin 32) (hr : r.val = min (idx (ix2 b (0 : Fin 1))).toInt.toNat 31) :
    Host.gather gather_S32x32_S16384x1_S16384x32_1_0_n_n_0_1_132 x idx (ix2 b e) = x (ix2 r e) := by
  have h0 : gather_S32x32_S16384x1_S16384x32_1_0_n_n_0_1_132.start (ix2 b e) idx (0 : Fin 2) + gather_S32x32_S16384x1_S16384x32_1_0_n_n_0_1_132.batchCoord (ix2 b e) (0 : Fin 2)
      + gather_S32x32_S16384x1_S16384x32_1_0_n_n_0_1_132.offCoord (ix2 b e) (0 : Fin 2) = r.val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero, hr]
    unfold GatherDims.start
    rw [dif_pos (show (0 : Fin 2) ∈ gather_S32x32_S16384x1_S16384x32_1_0_n_n_0_1_132.startIndexMap from List.mem_singleton.mpr rfl)]
    have hsi : gather_S32x32_S16384x1_S16384x32_1_0_n_n_0_1_132.siIdx (ix2 b e)
        ⟨List.idxOf (0 : Fin 2) gather_S32x32_S16384x1_S16384x32_1_0_n_n_0_1_132.startIndexMap,
          List.idxOf_lt_length_iff.2 (List.mem_singleton.mpr rfl)⟩ = ix2 b (0 : Fin 1) := by
      funext k; refine Fin.ext ?_
      match k with
      | ⟨0, _⟩ => rfl
      | ⟨1, _⟩ => rfl
    rw [hsi]
    rfl
  have h1 : gather_S32x32_S16384x1_S16384x32_1_0_n_n_0_1_132.start (ix2 b e) idx (1 : Fin 2) + gather_S32x32_S16384x1_S16384x32_1_0_n_n_0_1_132.batchCoord (ix2 b e) (1 : Fin 2)
      + gather_S32x32_S16384x1_S16384x32_1_0_n_n_0_1_132.offCoord (ix2 b e) (1 : Fin 2) = e.val := by
    have hs : gather_S32x32_S16384x1_S16384x32_1_0_n_n_0_1_132.start (ix2 b e) idx (1 : Fin 2) = 0 := by
      unfold GatherDims.start
      rw [dif_neg (show ¬ (1 : Fin 2) ∈ gather_S32x32_S16384x1_S16384x32_1_0_n_n_0_1_132.startIndexMap from
        fun h => absurd (List.mem_singleton.1 h) (by decide))]
    have ho : gather_S32x32_S16384x1_S16384x32_1_0_n_n_0_1_132.offCoord (ix2 b e) (1 : Fin 2) = e.val := by
      unfold GatherDims.offCoord
      rw [dif_pos (show (1 : Fin 2) ∈ gather_S32x32_S16384x1_S16384x32_1_0_n_n_0_1_132.sKept from
        (GatherDims.mem_sKept _ _).2 ⟨fun h => absurd (List.mem_singleton.1 h) (by decide), List.not_mem_nil⟩)]
      rfl
    rw [GatherDims.batchCoord_eq_zero _ _ _ List.not_mem_nil, Nat.add_zero, hs, ho, Nat.zero_add]
  unfold Host.gather
  refine congrArg x (funext fun a => Fin.ext ?_)
  match a with
  | ⟨0, _⟩ => exact h0
  | ⟨1, _⟩ => exact h1

/-! ## The lookup at an entry -/

/-- Where every word of the column is below 32, entry (b, e) of the lookup is entry e of the table's row c[b]. -/
theorem takeVal_apply (W : FVec F S32x32 .f32) (c : IVec S16384 32) (hc : ∀ b : Fin 16384, (c (ix1 b)).toNat < 32)
    (b : Fin 16384) (e : Fin 32) :
    takeVal W c (ix2 b e) = W (ix2 (⟨(c (ix1 b)).toNat, hc b⟩ : Fin 32) e) := by
  unfold takeVal
  rw [select_apply]
  have hm : broadcastInDim S16384x32 ![0] bcast_S16384_S16384x32_0 (inRange c) (ix2 b e) = 1#1 := by
    unfold broadcastInDim
    exact inRange_apply c hc _
  rw [hm, select_one]
  exact gather_rows_apply W (normIdx c) b e ⟨(c (ix1 b)).toNat, hc b⟩
    (by rw [normIdx_apply c b 0 (hc b), clamp_of_lt (hc b)])

end Cert.RefSide

end
-- ==== Proof.RefLook01.lean ====
/-
  What a lookup leaves in its result buffer: the lookup function of its table's and its column's contents. The line's
  fold is computed at the result buffer: each operation's result is read where it was written, and what is read is the
  lookup function's own term (the reduction and the gather are carried whole, never opened).
-/
import proofs.«204821_g30846455120635_fold_wed_m_1292_33_alg».proof.Proof.RefRun
import proofs.«204821_g30846455120635_fold_wed_m_1292_33_alg».proof.Proof.RefTake

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

attribute [local irreducible] Host.reduce Host.gather in
set_option maxRecDepth 8192 in
set_option maxHeartbeats 400000 in
/-- Lookup 0 leaves in its result the lookup of column 0 in table 0. -/
theorem take_val0 (V : Valuation τ sig (Elt F)) :
    after (ops0 (F := F)) V (main_v0 : DevRef τ sig)
      = takeVal (V (main_arg8 : DevRef τ sig)) (V (main_arg0 : DevRef τ sig)) := by
  simp only [after_cons, after_nil]
  rfl

attribute [local irreducible] Host.reduce Host.gather in
set_option maxRecDepth 8192 in
set_option maxHeartbeats 400000 in
/-- Lookup 1 leaves in its result the lookup of column 1 in table 1. -/
theorem take_val1 (V : Valuation τ sig (Elt F)) :
    after (ops1 (F := F)) V (main_v1 : DevRef τ sig)
      = takeVal (V (main_arg9 : DevRef τ sig)) (V (main_arg1 : DevRef τ sig)) := by
  simp only [after_cons, after_nil]
  rfl

end Cert.RefSide

end
-- ==== Proof.RefLook23.lean ====
/-
  What a lookup leaves in its result buffer: the lookup function of its table's and its column's contents. The line's
  fold is computed at the result buffer: each operation's result is read where it was written, and what is read is the
  lookup function's own term (the reduction and the gather are carried whole, never opened).
-/
import proofs.«204821_g30846455120635_fold_wed_m_1292_33_alg».proof.Proof.RefRun
import proofs.«204821_g30846455120635_fold_wed_m_1292_33_alg».proof.Proof.RefTake

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

attribute [local irreducible] Host.reduce Host.gather in
set_option maxRecDepth 8192 in
set_option maxHeartbeats 400000 in
/-- Lookup 2 leaves in its result the lookup of column 2 in table 2. -/
theorem take_val2 (V : Valuation τ sig (Elt F)) :
    after (ops2 (F := F)) V (main_v2 : DevRef τ sig)
      = takeVal (V (main_arg10 : DevRef τ sig)) (V (main_arg2 : DevRef τ sig)) := by
  simp only [after_cons, after_nil]
  rfl

attribute [local irreducible] Host.reduce Host.gather in
set_option maxRecDepth 8192 in
set_option maxHeartbeats 400000 in
/-- Lookup 3 leaves in its result the lookup of column 3 in table 3. -/
theorem take_val3 (V : Valuation τ sig (Elt F)) :
    after (ops3 (F := F)) V (main_v3 : DevRef τ sig)
      = takeVal (V (main_arg11 : DevRef τ sig)) (V (main_arg3 : DevRef τ sig)) := by
  simp only [after_cons, after_nil]
  rfl

end Cert.RefSide

end
-- ==== Proof.RefLook45.lean ====
/-
  What a lookup leaves in its result buffer: the lookup function of its table's and its column's contents. The line's
  fold is computed at the result buffer: each operation's result is read where it was written, and what is read is the
  lookup function's own term (the reduction and the gather are carried whole, never opened).
-/
import proofs.«204821_g30846455120635_fold_wed_m_1292_33_alg».proof.Proof.RefRun
import proofs.«204821_g30846455120635_fold_wed_m_1292_33_alg».proof.Proof.RefTake

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

attribute [local irreducible] Host.reduce Host.gather in
set_option maxRecDepth 8192 in
set_option maxHeartbeats 400000 in
/-- Lookup 4 leaves in its result the lookup of column 4 in table 4. -/
theorem take_val4 (V : Valuation τ sig (Elt F)) :
    after (ops4 (F := F)) V (main_v4 : DevRef τ sig)
      = takeVal (V (main_arg12 : DevRef τ sig)) (V (main_arg4 : DevRef τ sig)) := by
  simp only [after_cons, after_nil]
  rfl

attribute [local irreducible] Host.reduce Host.gather in
set_option maxRecDepth 8192 in
set_option maxHeartbeats 400000 in
/-- Lookup 5 leaves in its result the lookup of column 5 in table 5. -/
theorem take_val5 (V : Valuation τ sig (Elt F)) :
    after (ops5 (F := F)) V (main_v5 : DevRef τ sig)
      = takeVal (V (main_arg13 : DevRef τ sig)) (V (main_arg5 : DevRef τ sig)) := by
  simp only [after_cons, after_nil]
  rfl

end Cert.RefSide

end
-- ==== Proof.RefLook67.lean ====
/-
  What a lookup leaves in its result buffer: the lookup function of its table's and its column's contents. The line's
  fold is computed at the result buffer: each operation's result is read where it was written, and what is read is the
  lookup function's own term (the reduction and the gather are carried whole, never opened).
-/
import proofs.«204821_g30846455120635_fold_wed_m_1292_33_alg».proof.Proof.RefRun
import proofs.«204821_g30846455120635_fold_wed_m_1292_33_alg».proof.Proof.RefTake

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

attribute [local irreducible] Host.reduce Host.gather in
set_option maxRecDepth 8192 in
set_option maxHeartbeats 400000 in
/-- Lookup 6 leaves in its result the lookup of column 6 in table 6. -/
theorem take_val6 (V : Valuation τ sig (Elt F)) :
    after (ops6 (F := F)) V (main_v6 : DevRef τ sig)
      = takeVal (V (main_arg14 : DevRef τ sig)) (V (main_arg6 : DevRef τ sig)) := by
  simp only [after_cons, after_nil]
  rfl

attribute [local irreducible] Host.reduce Host.gather in
set_option maxRecDepth 8192 in
set_option maxHeartbeats 400000 in
/-- Lookup 7 leaves in its result the lookup of column 7 in table 7. -/
theorem take_val7 (V : Valuation τ sig (Elt F)) :
    after (ops7 (F := F)) V (main_v7 : DevRef τ sig)
      = takeVal (V (main_arg15 : DevRef τ sig)) (V (main_arg7 : DevRef τ sig)) := by
  simp only [after_cons, after_nil]
  rfl

end Cert.RefSide

end
-- ==== Proof.RefValue.lean ====
/-
  What the reference's line leaves in each buffer.

  A lookup writes twenty-three buffers of its own and nothing else, so it leaves every other buffer — the arguments,
  the other lookups' results — as it found it; in its result buffer it leaves the lookup function of its table's and
  its column's contents. Folding the eight lookups and the concatenation: the result holds the eight lookups of the
  launch contents side by side, and every buffer the line does not write holds what it held at launch.
-/
import proofs.«204821_g30846455120635_fold_wed_m_1292_33_alg».proof.Proof.RefRun
import proofs.«204821_g30846455120635_fold_wed_m_1292_33_alg».proof.Proof.RefTake
import proofs.«204821_g30846455120635_fold_wed_m_1292_33_alg».proof.Proof.RefLook01
import proofs.«204821_g30846455120635_fold_wed_m_1292_33_alg».proof.Proof.RefLook23
import proofs.«204821_g30846455120635_fold_wed_m_1292_33_alg».proof.Proof.RefLook45
import proofs.«204821_g30846455120635_fold_wed_m_1292_33_alg».proof.Proof.RefLook67

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Two lines one after the other fold as the second over the first's fold. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The whole line folds lookup by lookup, the concatenation last. -/
theorem after_ops (V : Valuation τ sig (Elt F)) :
    after (ops (F := F)) V = after [concatOp] (after ops7 (after ops6 (after ops5 (after ops4 (after ops3 (after ops2 (after ops1 (after ops0 (V))))))))) := by
  show after (ops0 ++ (ops1 ++ (ops2 ++ (ops3 ++ (ops4 ++ (ops5 ++ (ops6 ++ (ops7 ++ [concatOp])))))))) V = _
  rw [after_append, after_append, after_append, after_append, after_append, after_append, after_append, after_append]

/-- The buffers one lookup writes. -/
abbrev takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref]

/-- A buffer's singleton lies in a list's set of buffers when the buffer is in the list. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- A lookup leaves every buffer it does not write as it found it. -/
theorem take_frame (a0 : TRef sig ⟨S32x32, .f32⟩) (a1 : TRef sig ⟨S16384, .i32⟩) (φ : fn_take.Bufs)
    (V : Valuation τ sig (Elt F)) (r : Ref sig .tc) (hr : r ∉ takeW φ) :
    after (takeOps a0 a1 φ) V (Proc.devRef .tc r) = V (Proc.devRef .tc r) :=
  after_of_writes_sub (W := takeW φ) (takeOps a0 a1 φ) V
    ⟨single_sub_of_mem (List.mem_cons_self),
      single_sub_of_mem (List.mem_cons_of_mem _ (List.mem_cons_self)),
      single_sub_of_mem (List.mem_cons_of_mem _ (List.mem_cons_of_mem _ (List.mem_cons_self))),
      single_sub_of_mem (List.mem_cons_of_mem _ (List.mem_cons_of_mem _ (List.mem_cons_of_mem _ (List.mem_cons_self)))),
      single_sub_of_mem (List.mem_cons_of_mem _ (List.mem_cons_of_mem _ (List.mem_cons_of_mem _ (List.mem_cons_of_mem _ (List.mem_cons_self))))),
      single_sub_of_mem (List.mem_cons_of_mem _ (List.mem_cons_of_mem _ (List.mem_cons_of_mem _ (List.mem_cons_of_mem _ (List.mem_cons_of_mem _ (List.mem_cons_self)))))),
      single_sub_of_mem (List.mem_cons_of_mem _ (List.mem_cons_of_mem _ (List.mem_cons_of_mem _ (List.mem_cons_of_mem _ (List.mem_cons_of_mem _ (List.mem_cons_of_mem _ (List.mem_cons_self))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_self)))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))),
      single_sub_of_mem (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))⟩ hr

theorem take_frame0 (V : Valuation τ sig (Elt F)) (r : Ref sig .tc) (hr : r ∉ takeW main_call0) :
    after (ops0 (F := F)) V (Proc.devRef .tc r) = V (Proc.devRef .tc r) := take_frame _ _ _ V r hr
theorem take_frame1 (V : Valuation τ sig (Elt F)) (r : Ref sig .tc) (hr : r ∉ takeW main_call1) :
    after (ops1 (F := F)) V (Proc.devRef .tc r) = V (Proc.devRef .tc r) := take_frame _ _ _ V r hr
theorem take_frame2 (V : Valuation τ sig (Elt F)) (r : Ref sig .tc) (hr : r ∉ takeW main_call2) :
    after (ops2 (F := F)) V (Proc.devRef .tc r) = V (Proc.devRef .tc r) := take_frame _ _ _ V r hr
theorem take_frame3 (V : Valuation τ sig (Elt F)) (r : Ref sig .tc) (hr : r ∉ takeW main_call3) :
    after (ops3 (F := F)) V (Proc.devRef .tc r) = V (Proc.devRef .tc r) := take_frame _ _ _ V r hr
theorem take_frame4 (V : Valuation τ sig (Elt F)) (r : Ref sig .tc) (hr : r ∉ takeW main_call4) :
    after (ops4 (F := F)) V (Proc.devRef .tc r) = V (Proc.devRef .tc r) := take_frame _ _ _ V r hr
theorem take_frame5 (V : Valuation τ sig (Elt F)) (r : Ref sig .tc) (hr : r ∉ takeW main_call5) :
    after (ops5 (F := F)) V (Proc.devRef .tc r) = V (Proc.devRef .tc r) := take_frame _ _ _ V r hr
theorem take_frame6 (V : Valuation τ sig (Elt F)) (r : Ref sig .tc) (hr : r ∉ takeW main_call6) :
    after (ops6 (F := F)) V (Proc.devRef .tc r) = V (Proc.devRef .tc r) := take_frame _ _ _ V r hr
theorem take_frame7 (V : Valuation τ sig (Elt F)) (r : Ref sig .tc) (hr : r ∉ takeW main_call7) :
    after (ops7 (F := F)) V (Proc.devRef .tc r) = V (Proc.devRef .tc r) := take_frame _ _ _ V r hr

/-- After the eight lookups, result 0 holds the lookup of the launch contents of column 0 in table 0: the later
    lookups do not write it, and the earlier ones do not write its table or its column. -/
theorem look0 (V : Valuation τ sig (Elt F)) :
    after ops7 (after ops6 (after ops5 (after ops4 (after ops3 (after ops2 (after ops1 (after ops0 (V)))))))) (main_v0 : DevRef τ sig)
      = takeVal (V (main_arg8 : DevRef τ sig)) (V (main_arg0 : DevRef τ sig)) :=
  (take_frame7 _ main_v0 (by decide)).trans ((take_frame6 _ main_v0 (by decide)).trans ((take_frame5 _ main_v0 (by decide)).trans ((take_frame4 _ main_v0 (by decide)).trans ((take_frame3 _ main_v0 (by decide)).trans ((take_frame2 _ main_v0 (by decide)).trans ((take_frame1 _ main_v0 (by decide)).trans ((take_val0 _).trans (congrArg₂ takeVal (rfl) (rfl)))))))))

/-- After the eight lookups, result 1 holds the lookup of the launch contents of column 1 in table 1: the later
    lookups do not write it, and the earlier ones do not write its table or its column. -/
theorem look1 (V : Valuation τ sig (Elt F)) :
    after ops7 (after ops6 (after ops5 (after ops4 (after ops3 (after ops2 (after ops1 (after ops0 (V)))))))) (main_v1 : DevRef τ sig)
      = takeVal (V (main_arg9 : DevRef τ sig)) (V (main_arg1 : DevRef τ sig)) :=
  (take_frame7 _ main_v1 (by decide)).trans ((take_frame6 _ main_v1 (by decide)).trans ((take_frame5 _ main_v1 (by decide)).trans ((take_frame4 _ main_v1 (by decide)).trans ((take_frame3 _ main_v1 (by decide)).trans ((take_frame2 _ main_v1 (by decide)).trans ((take_val1 _).trans (congrArg₂ takeVal (take_frame0 _ main_arg9 (by decide)) (take_frame0 _ main_arg1 (by decide)))))))))

/-- After the eight lookups, result 2 holds the lookup of the launch contents of column 2 in table 2: the later
    lookups do not write it, and the earlier ones do not write its table or its column. -/
theorem look2 (V : Valuation τ sig (Elt F)) :
    after ops7 (after ops6 (after ops5 (after ops4 (after ops3 (after ops2 (after ops1 (after ops0 (V)))))))) (main_v2 : DevRef τ sig)
      = takeVal (V (main_arg10 : DevRef τ sig)) (V (main_arg2 : DevRef τ sig)) :=
  (take_frame7 _ main_v2 (by decide)).trans ((take_frame6 _ main_v2 (by decide)).trans ((take_frame5 _ main_v2 (by decide)).trans ((take_frame4 _ main_v2 (by decide)).trans ((take_frame3 _ main_v2 (by decide)).trans ((take_val2 _).trans (congrArg₂ takeVal ((take_frame1 _ main_arg10 (by decide)).trans (take_frame0 _ main_arg10 (by decide))) ((take_frame1 _ main_arg2 (by decide)).trans (take_frame0 _ main_arg2 (by decide)))))))))

/-- After the eight lookups, result 3 holds the lookup of the launch contents of column 3 in table 3: the later
    lookups do not write it, and the earlier ones do not write its table or its column. -/
theorem look3 (V : Valuation τ sig (Elt F)) :
    after ops7 (after ops6 (after ops5 (after ops4 (after ops3 (after ops2 (after ops1 (after ops0 (V)))))))) (main_v3 : DevRef τ sig)
      = takeVal (V (main_arg11 : DevRef τ sig)) (V (main_arg3 : DevRef τ sig)) :=
  (take_frame7 _ main_v3 (by decide)).trans ((take_frame6 _ main_v3 (by decide)).trans ((take_frame5 _ main_v3 (by decide)).trans ((take_frame4 _ main_v3 (by decide)).trans ((take_val3 _).trans (congrArg₂ takeVal ((take_frame2 _ main_arg11 (by decide)).trans ((take_frame1 _ main_arg11 (by decide)).trans (take_frame0 _ main_arg11 (by decide)))) ((take_frame2 _ main_arg3 (by decide)).trans ((take_frame1 _ main_arg3 (by decide)).trans (take_frame0 _ main_arg3 (by decide)))))))))

/-- After the eight lookups, result 4 holds the lookup of the launch contents of column 4 in table 4: the later
    lookups do not write it, and the earlier ones do not write its table or its column. -/
theorem look4 (V : Valuation τ sig (Elt F)) :
    after ops7 (after ops6 (after ops5 (after ops4 (after ops3 (after ops2 (after ops1 (after ops0 (V)))))))) (main_v4 : DevRef τ sig)
      = takeVal (V (main_arg12 : DevRef τ sig)) (V (main_arg4 : DevRef τ sig)) :=
  (take_frame7 _ main_v4 (by decide)).trans ((take_frame6 _ main_v4 (by decide)).trans ((take_frame5 _ main_v4 (by decide)).trans ((take_val4 _).trans (congrArg₂ takeVal ((take_frame3 _ main_arg12 (by decide)).trans ((take_frame2 _ main_arg12 (by decide)).trans ((take_frame1 _ main_arg12 (by decide)).trans (take_frame0 _ main_arg12 (by decide))))) ((take_frame3 _ main_arg4 (by decide)).trans ((take_frame2 _ main_arg4 (by decide)).trans ((take_frame1 _ main_arg4 (by decide)).trans (take_frame0 _ main_arg4 (by decide)))))))))

/-- After the eight lookups, result 5 holds the lookup of the launch contents of column 5 in table 5: the later
    lookups do not write it, and the earlier ones do not write its table or its column. -/
theorem look5 (V : Valuation τ sig (Elt F)) :
    after ops7 (after ops6 (after ops5 (after ops4 (after ops3 (after ops2 (after ops1 (after ops0 (V)))))))) (main_v5 : DevRef τ sig)
      = takeVal (V (main_arg13 : DevRef τ sig)) (V (main_arg5 : DevRef τ sig)) :=
  (take_frame7 _ main_v5 (by decide)).trans ((take_frame6 _ main_v5 (by decide)).trans ((take_val5 _).trans (congrArg₂ takeVal ((take_frame4 _ main_arg13 (by decide)).trans ((take_frame3 _ main_arg13 (by decide)).trans ((take_frame2 _ main_arg13 (by decide)).trans ((take_frame1 _ main_arg13 (by decide)).trans (take_frame0 _ main_arg13 (by decide)))))) ((take_frame4 _ main_arg5 (by decide)).trans ((take_frame3 _ main_arg5 (by decide)).trans ((take_frame2 _ main_arg5 (by decide)).trans ((take_frame1 _ main_arg5 (by decide)).trans (take_frame0 _ main_arg5 (by decide)))))))))

/-- After the eight lookups, result 6 holds the lookup of the launch contents of column 6 in table 6: the later
    lookups do not write it, and the earlier ones do not write its table or its column. -/
theorem look6 (V : Valuation τ sig (Elt F)) :
    after ops7 (after ops6 (after ops5 (after ops4 (after ops3 (after ops2 (after ops1 (after ops0 (V)))))))) (main_v6 : DevRef τ sig)
      = takeVal (V (main_arg14 : DevRef τ sig)) (V (main_arg6 : DevRef τ sig)) :=
  (take_frame7 _ main_v6 (by decide)).trans ((take_val6 _).trans (congrArg₂ takeVal ((take_frame5 _ main_arg14 (by decide)).trans ((take_frame4 _ main_arg14 (by decide)).trans ((take_frame3 _ main_arg14 (by decide)).trans ((take_frame2 _ main_arg14 (by decide)).trans ((take_frame1 _ main_arg14 (by decide)).trans (take_frame0 _ main_arg14 (by decide))))))) ((take_frame5 _ main_arg6 (by decide)).trans ((take_frame4 _ main_arg6 (by decide)).trans ((take_frame3 _ main_arg6 (by decide)).trans ((take_frame2 _ main_arg6 (by decide)).trans ((take_frame1 _ main_arg6 (by decide)).trans (take_frame0 _ main_arg6 (by decide)))))))))

/-- After the eight lookups, result 7 holds the lookup of the launch contents of column 7 in table 7: the later
    lookups do not write it, and the earlier ones do not write its table or its column. -/
theorem look7 (V : Valuation τ sig (Elt F)) :
    after ops7 (after ops6 (after ops5 (after ops4 (after ops3 (after ops2 (after ops1 (after ops0 (V)))))))) (main_v7 : DevRef τ sig)
      = takeVal (V (main_arg15 : DevRef τ sig)) (V (main_arg7 : DevRef τ sig)) :=
  (take_val7 _).trans (congrArg₂ takeVal ((take_frame6 _ main_arg15 (by decide)).trans ((take_frame5 _ main_arg15 (by decide)).trans ((take_frame4 _ main_arg15 (by decide)).trans ((take_frame3 _ main_arg15 (by decide)).trans ((take_frame2 _ main_arg15 (by decide)).trans ((take_frame1 _ main_arg15 (by decide)).trans (take_frame0 _ main_arg15 (by decide)))))))) ((take_frame6 _ main_arg7 (by decide)).trans ((take_frame5 _ main_arg7 (by decide)).trans ((take_frame4 _ main_arg7 (by decide)).trans ((take_frame3 _ main_arg7 (by decide)).trans ((take_frame2 _ main_arg7 (by decide)).trans ((take_frame1 _ main_arg7 (by decide)).trans (take_frame0 _ main_arg7 (by decide)))))))))

/-- The concatenation leaves in the result the eight results side by side. -/
theorem concat_result (X : Valuation τ sig (Elt F)) (y0 y1 y2 y3 y4 y5 y6 y7 : FVec F S16384x32 .f32)
    (h0 : X (main_v0 : DevRef τ sig) = y0) (h1 : X (main_v1 : DevRef τ sig) = y1) (h2 : X (main_v2 : DevRef τ sig) = y2) (h3 : X (main_v3 : DevRef τ sig) = y3) (h4 : X (main_v4 : DevRef τ sig) = y4) (h5 : X (main_v5 : DevRef τ sig) = y5) (h6 : X (main_v6 : DevRef τ sig) = y6) (h7 : X (main_v7 : DevRef τ sig) = y7) :
    after [concatOp (F := F)] X (main_v8 : DevRef τ sig)
      = concatenate S16384x256 1 [⟨S16384x32, y0⟩, ⟨S16384x32, y1⟩, ⟨S16384x32, y2⟩, ⟨S16384x32, y3⟩, ⟨S16384x32, y4⟩, ⟨S16384x32, y5⟩, ⟨S16384x32, y6⟩, ⟨S16384x32, y7⟩] concatenates_S16384x32_S16384x32_S16384x32_S16384x32_S16384x32_S16384x32_S16384x32_S16384x32_S16384x256_d1 := by
  subst h0 h1 h2 h3 h4 h5 h6 h7
  rw [after_cons, after_nil, nary_result]
  rfl

/-- After the whole line the result holds the eight lookups of the launch contents side by side. -/
theorem ops_result (V : Valuation τ sig (Elt F)) :
    after (ops (F := F)) V (main_v8 : DevRef τ sig)
      = concatenate S16384x256 1 [⟨S16384x32, takeVal (V (main_arg8 : DevRef τ sig)) (V (main_arg0 : DevRef τ sig))⟩,
          ⟨S16384x32, takeVal (V (main_arg9 : DevRef τ sig)) (V (main_arg1 : DevRef τ sig))⟩,
          ⟨S16384x32, takeVal (V (main_arg10 : DevRef τ sig)) (V (main_arg2 : DevRef τ sig))⟩,
          ⟨S16384x32, takeVal (V (main_arg11 : DevRef τ sig)) (V (main_arg3 : DevRef τ sig))⟩,
          ⟨S16384x32, takeVal (V (main_arg12 : DevRef τ sig)) (V (main_arg4 : DevRef τ sig))⟩,
          ⟨S16384x32, takeVal (V (main_arg13 : DevRef τ sig)) (V (main_arg5 : DevRef τ sig))⟩,
          ⟨S16384x32, takeVal (V (main_arg14 : DevRef τ sig)) (V (main_arg6 : DevRef τ sig))⟩,
          ⟨S16384x32, takeVal (V (main_arg15 : DevRef τ sig)) (V (main_arg7 : DevRef τ sig))⟩] concatenates_S16384x32_S16384x32_S16384x32_S16384x32_S16384x32_S16384x32_S16384x32_S16384x32_S16384x256_d1 := by
  rw [after_ops]
  exact concat_result _ _ _ _ _ _ _ _ _ (look0 V) (look1 V) (look2 V) (look3 V) (look4 V) (look5 V) (look6 V) (look7 V)

/-- After the whole line a buffer no operation writes holds its launch contents. -/
theorem ops_frame (V : Valuation τ sig (Elt F)) (r : Ref sig .tc)
    (h0 : r ∉ takeW main_call0) (h1 : r ∉ takeW main_call1) (h2 : r ∉ takeW main_call2) (h3 : r ∉ takeW main_call3) (h4 : r ∉ takeW main_call4) (h5 : r ∉ takeW main_call5) (h6 : r ∉ takeW main_call6) (h7 : r ∉ takeW main_call7) (h8 : r ≠ main_v8) :
    after (ops (F := F)) V (Proc.devRef .tc r) = V (Proc.devRef .tc r) := by
  rw [after_ops, after_cons, after_nil]
  exact (nary_result_ne _ _ _ _ _ _ h8).trans ((take_frame7 _ r h7).trans ((take_frame6 _ r h6).trans ((take_frame5 _ r h5).trans
    ((take_frame4 _ r h4).trans ((take_frame3 _ r h3).trans ((take_frame2 _ r h2).trans ((take_frame1 _ r h1).trans
      (take_frame0 _ r h0))))))))

end Cert.RefSide

end
-- ==== Proof.RefConcat.lean ====
/-
  The eight lookups side by side are the specified result.

  Column "col" of the concatenation lies in piece col / 32 at that piece's column col % 32, the row unchanged. Piece j
  is the lookup of column j in table j, whose entry (b, e) is W_j[c_j[b]][e] when every word is below 32. That is the
  specification's entry (b, col): table col / 32, row the word (its reduction modulo 32 changes nothing below 32),
  entry col % 32.
-/
import proofs.«204821_g30846455120635_fold_wed_m_1292_33_alg».proof.Proof.RefTake
import proofs.«204821_g30846455120635_fold_wed_m_1292_33_alg».proof.Proof.Spec
import Idealize.ShloMosaic.Lib.Pipeline.Value

noncomputable section

namespace Cert.RefSide

open Cert.ReferenceIdeal Idealize.ShloMosaic Idealize.ShloMosaic.ValueIdx
open Cert.ReferenceIdeal.Facts₀

variable {F : FTy → Type} [FloatOps F] [Cert.ReferenceIdeal.Facts]

/-- The eight lookups laid along the second axis, as a family over the column's number. -/
def lookups (cs : Fin 8 → IVec S16384 32) (Ws : Fin 8 → FVec F S32x32 .f32) : FVec F S16384x256 .f32 :=
  concatenate S16384x256 1
    (List.ofFn fun n : Fin 8 => (⟨S16384x32, takeVal (Ws n) (cs n)⟩ : (s : Shape) × (s.Idx → F .f32)))
    concatenates_S16384x32_S16384x32_S16384x32_S16384x32_S16384x32_S16384x32_S16384x32_S16384x32_S16384x256_d1

/-- The family at the literal list of eight pieces. -/
theorem lookups_literal (c0 c1 c2 c3 c4 c5 c6 c7 : IVec S16384 32) (W0 W1 W2 W3 W4 W5 W6 W7 : FVec F S32x32 .f32) :
    concatenate S16384x256 1 [⟨S16384x32, takeVal W0 c0⟩, ⟨S16384x32, takeVal W1 c1⟩, ⟨S16384x32, takeVal W2 c2⟩, ⟨S16384x32, takeVal W3 c3⟩, ⟨S16384x32, takeVal W4 c4⟩, ⟨S16384x32, takeVal W5 c5⟩, ⟨S16384x32, takeVal W6 c6⟩, ⟨S16384x32, takeVal W7 c7⟩]
        concatenates_S16384x32_S16384x32_S16384x32_S16384x32_S16384x32_S16384x32_S16384x32_S16384x32_S16384x256_d1
      = lookups ![c0, c1, c2, c3, c4, c5, c6, c7] ![W0, W1, W2, W3, W4, W5, W6, W7] := by
  unfold lookups
  rfl

/-- Where every word of every column is below 32, the eight lookups side by side are the specified array. -/
theorem lookups_eq_spec (cs : Fin 8 → IVec S16384 32) (Ws : Fin 8 → FVec F S32x32 .f32)
    (hc : ∀ (j : Fin 8) (b : Fin 16384), (cs j (ix1 b)).toNat < 32) :
    lookups cs Ws = Cert.Spec.outArr cs Ws := by
  funext i
  obtain ⟨b, col, rfl⟩ : ∃ (b : Fin 16384) (col : Fin 256), i = ix2 b col := ⟨i 0, i 1, eq_ix2 i⟩
  have hlt : col.val / 32 < 8 := by omega
  have hn := hc ⟨col.val / 32, hlt⟩ b
  rw [Cert.Spec.outArr_apply]
  unfold lookups
  rw [concatenate_ofFn_apply (t := S16384x256) (s₁ := S16384x32) (1 : Fin 2) (fun n : Fin 8 => takeVal (Ws n) (cs n)) concatenates_S16384x32_S16384x32_S16384x32_S16384x32_S16384x32_S16384x32_S16384x32_S16384x32_S16384x256_d1
    rfl 32 rfl (ix2 b col) ⟨col.val / 32, hlt⟩ rfl (ix2 b (⟨col.val % 32, Nat.mod_lt _ (by decide)⟩ : Fin 32)) rfl
    (fun a ha => by
      match a with
      | ⟨0, _⟩ => rfl
      | ⟨1, _⟩ => exact absurd rfl ha)]
  rw [takeVal_apply (Ws ⟨col.val / 32, hlt⟩) (cs ⟨col.val / 32, hlt⟩) (hc ⟨col.val / 32, hlt⟩) b ⟨col.val % 32, Nat.mod_lt _ (by decide)⟩]
  unfold Cert.Spec.out
  exact congrArg (Ws ⟨col.val / 32, hlt⟩)
    (congrArg (fun r : Fin 32 => (ix2 r (⟨col.val % 32, Nat.mod_lt _ (by decide)⟩ : Fin 32) : S32x32.Idx))
      (Fin.ext (Nat.mod_eq_of_lt hn).symm))

end Cert.RefSide

end
-- ==== Proof.RefSide.lean ====
/-
  The reference's side of the certificate.

  Under the precondition every index word lies between 0 and 31, so the reference's run — eight lookups, each the
  table's row named by the word, laid side by side — ends with its result equal to the specified array of the launch
  contents and its sixteen arguments unchanged. The run without the value is the reference's frame.
-/
import proofs.«204821_g30846455120635_fold_wed_m_1292_33_alg».proof.Defs
import proofs.«204821_g30846455120635_fold_wed_m_1292_33_alg».proof.Proof.Gen.ReferenceIdeal
import proofs.«204821_g30846455120635_fold_wed_m_1292_33_alg».proof.Proof.Gen.Pre_input_domain
import proofs.«204821_g30846455120635_fold_wed_m_1292_33_alg».proof.Proof.Spec
import proofs.«204821_g30846455120635_fold_wed_m_1292_33_alg».proof.Proof.RefPre
import proofs.«204821_g30846455120635_fold_wed_m_1292_33_alg».proof.Proof.RefValue
import proofs.«204821_g30846455120635_fold_wed_m_1292_33_alg».proof.Proof.RefConcat

noncomputable section

namespace Cert.RefSide

open Idealize.ShloMosaic Idealize.ShloMosaic.TcCoe Idealize.SL.Sem Idealize.ShloMosaic.StableHlo
open Idealize.ShloMosaic.ValueIdx

/-- The memory location of a buffer of the reference on device c's TensorCore. -/
abbrev Rloc (c : Dev Cert.ReferenceIdeal.nD) (b : Ref Cert.ReferenceIdeal.sig .tc) : Loc Cert.ReferenceIdeal.nD Cert.ReferenceIdeal.τ Cert.ReferenceIdeal.sig :=
  ((c.tc : Thread Cert.ReferenceIdeal.nD Cert.ReferenceIdeal.τ).loc b)

/-- The reference's run, its result named: under the precondition every weakly fair execution terminates with the
    result buffer at the specified array of the launch contents and the sixteen arguments unchanged. -/
theorem ref_run [Cert.ReferenceIdeal.Facts] [Cert.Pre_input_domain.Facts]
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem (Rloc c Cert.ReferenceIdeal.main_v8)
            = Cert.Spec.outArr
                (![m' (Rloc c Cert.ReferenceIdeal.main_arg0), m' (Rloc c Cert.ReferenceIdeal.main_arg1), m' (Rloc c Cert.ReferenceIdeal.main_arg2), m' (Rloc c Cert.ReferenceIdeal.main_arg3), m' (Rloc c Cert.ReferenceIdeal.main_arg4), m' (Rloc c Cert.ReferenceIdeal.main_arg5), m' (Rloc c Cert.ReferenceIdeal.main_arg6), m' (Rloc c Cert.ReferenceIdeal.main_arg7)] : Fin 8 → (⟨1, ![16384]⟩ : Shape).Idx → BitVec 32)
                (![m' (Rloc c Cert.ReferenceIdeal.main_arg8), m' (Rloc c Cert.ReferenceIdeal.main_arg9), m' (Rloc c Cert.ReferenceIdeal.main_arg10), m' (Rloc c Cert.ReferenceIdeal.main_arg11), m' (Rloc c Cert.ReferenceIdeal.main_arg12), m' (Rloc c Cert.ReferenceIdeal.main_arg13), m' (Rloc c Cert.ReferenceIdeal.main_arg14), m' (Rloc c Cert.ReferenceIdeal.main_arg15)] : Fin 8 → (⟨2, ![32, 32]⟩ : Shape).Idx → EReal)
        ∧ r.2.mem (Rloc c Cert.ReferenceIdeal.main_arg0) = m' (Rloc c Cert.ReferenceIdeal.main_arg0)
        ∧ r.2.mem (Rloc c Cert.ReferenceIdeal.main_arg1) = m' (Rloc c Cert.ReferenceIdeal.main_arg1)
        ∧ r.2.mem (Rloc c Cert.ReferenceIdeal.main_arg2) = m' (Rloc c Cert.ReferenceIdeal.main_arg2)
        ∧ r.2.mem (Rloc c Cert.ReferenceIdeal.main_arg3) = m' (Rloc c Cert.ReferenceIdeal.main_arg3)
        ∧ r.2.mem (Rloc c Cert.ReferenceIdeal.main_arg4) = m' (Rloc c Cert.ReferenceIdeal.main_arg4)
        ∧ r.2.mem (Rloc c Cert.ReferenceIdeal.main_arg5) = m' (Rloc c Cert.ReferenceIdeal.main_arg5)
        ∧ r.2.mem (Rloc c Cert.ReferenceIdeal.main_arg6) = m' (Rloc c Cert.ReferenceIdeal.main_arg6)
        ∧ r.2.mem (Rloc c Cert.ReferenceIdeal.main_arg7) = m' (Rloc c Cert.ReferenceIdeal.main_arg7)
        ∧ r.2.mem (Rloc c Cert.ReferenceIdeal.main_arg8) = m' (Rloc c Cert.ReferenceIdeal.main_arg8)
        ∧ r.2.mem (Rloc c Cert.ReferenceIdeal.main_arg9) = m' (Rloc c Cert.ReferenceIdeal.main_arg9)
        ∧ r.2.mem (Rloc c Cert.ReferenceIdeal.main_arg10) = m' (Rloc c Cert.ReferenceIdeal.main_arg10)
        ∧ r.2.mem (Rloc c Cert.ReferenceIdeal.main_arg11) = m' (Rloc c Cert.ReferenceIdeal.main_arg11)
        ∧ r.2.mem (Rloc c Cert.ReferenceIdeal.main_arg12) = m' (Rloc c Cert.ReferenceIdeal.main_arg12)
        ∧ r.2.mem (Rloc c Cert.ReferenceIdeal.main_arg13) = m' (Rloc c Cert.ReferenceIdeal.main_arg13)
        ∧ r.2.mem (Rloc c Cert.ReferenceIdeal.main_arg14) = m' (Rloc c Cert.ReferenceIdeal.main_arg14)
        ∧ r.2.mem (Rloc c Cert.ReferenceIdeal.main_arg15) = m' (Rloc c Cert.ReferenceIdeal.main_arg15)) := by
  refine (θ_run (Cert.ReferenceIdeal.defs (F := Ideal)) _ _).mono (fun r h c => ?_) (run_main (F := Ideal) m' g')
  have hlt := idx_lt_of_pre (F := Ideal) _ _ _ _ _ _ _ _ _ _ _ _ _ _ _ _ (hpre c)
  refine ⟨?_, (h c Cert.ReferenceIdeal.main_arg0).trans (ops_frame _ Cert.ReferenceIdeal.main_arg0 (by decide) (by decide) (by decide) (by decide) (by decide) (by decide) (by decide) (by decide) (by decide)),
    (h c Cert.ReferenceIdeal.main_arg1).trans (ops_frame _ Cert.ReferenceIdeal.main_arg1 (by decide) (by decide) (by decide) (by decide) (by decide) (by decide) (by decide) (by decide) (by decide)),
    (h c Cert.ReferenceIdeal.main_arg2).trans (ops_frame _ Cert.ReferenceIdeal.main_arg2 (by decide) (by decide) (by decide) (by decide) (by decide) (by decide) (by decide) (by decide) (by decide)),
    (h c Cert.ReferenceIdeal.main_arg3).trans (ops_frame _ Cert.ReferenceIdeal.main_arg3 (by decide) (by decide) (by decide) (by decide) (by decide) (by decide) (by decide) (by decide) (by decide)),
    (h c Cert.ReferenceIdeal.main_arg4).trans (ops_frame _ Cert.ReferenceIdeal.main_arg4 (by decide) (by decide) (by decide) (by decide) (by decide) (by decide) (by decide) (by decide) (by decide)),
    (h c Cert.ReferenceIdeal.main_arg5).trans (ops_frame _ Cert.ReferenceIdeal.main_arg5 (by decide) (by decide) (by decide) (by decide) (by decide) (by decide) (by decide) (by decide) (by decide)),
    (h c Cert.ReferenceIdeal.main_arg6).trans (ops_frame _ Cert.ReferenceIdeal.main_arg6 (by decide) (by decide) (by decide) (by decide) (by decide) (by decide) (by decide) (by decide) (by decide)),
    (h c Cert.ReferenceIdeal.main_arg7).trans (ops_frame _ Cert.ReferenceIdeal.main_arg7 (by decide) (by decide) (by decide) (by decide) (by decide) (by decide) (by decide) (by decide) (by decide)),
    (h c Cert.ReferenceIdeal.main_arg8).trans (ops_frame _ Cert.ReferenceIdeal.main_arg8 (by decide) (by decide) (by decide) (by decide) (by decide) (by decide) (by decide) (by decide) (by decide)),
    (h c Cert.ReferenceIdeal.main_arg9).trans (ops_frame _ Cert.ReferenceIdeal.main_arg9 (by decide) (by decide) (by decide) (by decide) (by decide) (by decide) (by decide) (by decide) (by decide)),
    (h c Cert.ReferenceIdeal.main_arg10).trans (ops_frame _ Cert.ReferenceIdeal.main_arg10 (by decide) (by decide) (by decide) (by decide) (by decide) (by decide) (by decide) (by decide) (by decide)),
    (h c Cert.ReferenceIdeal.main_arg11).trans (ops_frame _ Cert.ReferenceIdeal.main_arg11 (by decide) (by decide) (by decide) (by decide) (by decide) (by decide) (by decide) (by decide) (by decide)),
    (h c Cert.ReferenceIdeal.main_arg12).trans (ops_frame _ Cert.ReferenceIdeal.main_arg12 (by decide) (by decide) (by decide) (by decide) (by decide) (by decide) (by decide) (by decide) (by decide)),
    (h c Cert.ReferenceIdeal.main_arg13).trans (ops_frame _ Cert.ReferenceIdeal.main_arg13 (by decide) (by decide) (by decide) (by decide) (by decide) (by decide) (by decide) (by decide) (by decide)),
    (h c Cert.ReferenceIdeal.main_arg14).trans (ops_frame _ Cert.ReferenceIdeal.main_arg14 (by decide) (by decide) (by decide) (by decide) (by decide) (by decide) (by decide) (by decide) (by decide)),
    (h c Cert.ReferenceIdeal.main_arg15).trans (ops_frame _ Cert.ReferenceIdeal.main_arg15 (by decide) (by decide) (by decide) (by decide) (by decide) (by decide) (by decide) (by decide) (by decide))⟩
  refine (h c Cert.ReferenceIdeal.main_v8).trans ((ops_result _).trans ?_)
  refine (lookups_literal (F := Ideal) (m' (Rloc c Cert.ReferenceIdeal.main_arg0)) (m' (Rloc c Cert.ReferenceIdeal.main_arg1)) (m' (Rloc c Cert.ReferenceIdeal.main_arg2)) (m' (Rloc c Cert.ReferenceIdeal.main_arg3)) (m' (Rloc c Cert.ReferenceIdeal.main_arg4)) (m' (Rloc c Cert.ReferenceIdeal.main_arg5)) (m' (Rloc c Cert.ReferenceIdeal.main_arg6)) (m' (Rloc c Cert.ReferenceIdeal.main_arg7))
    (m' (Rloc c Cert.ReferenceIdeal.main_arg8)) (m' (Rloc c Cert.ReferenceIdeal.main_arg9)) (m' (Rloc c Cert.ReferenceIdeal.main_arg10)) (m' (Rloc c Cert.ReferenceIdeal.main_arg11)) (m' (Rloc c Cert.ReferenceIdeal.main_arg12)) (m' (Rloc c Cert.ReferenceIdeal.main_arg13)) (m' (Rloc c Cert.ReferenceIdeal.main_arg14)) (m' (Rloc c Cert.ReferenceIdeal.main_arg15))).trans ?_
  exact lookups_eq_spec (F := Ideal) _ _ hlt

/-- The reference's frame: the run with the value dropped. -/
theorem frame_ri [Cert.ReferenceIdeal.Facts] [Cert.Pre_input_domain.Facts] : Cert.frame_ReferenceIdeal :=
  fun m g hpre => (θ_run (Cert.ReferenceIdeal.defs (F := Ideal)) _ _).mono (fun _ h c => (h c).2) (ref_run m g hpre)

end Cert.RefSide

end
-- ==== Proof.KI.Setup.lean ====
/-
  The lookup kernel as the SparseCore launch theorem sees it: the configuration, the ghost state (the handshakes'
  rounds beside the transfers' counters), the arrays' locations and the memrefs a vector subcore's task names.
-/
import proofs.«204821_g30846455120635_fold_wed_m_1292_33_alg».proof.Proof.Gen.KernelIdeal
import proofs.«204821_g30846455120635_fold_wed_m_1292_33_alg».proof.Proof.Gen.KernelIdeal.Skeleton
import proofs.«204821_g30846455120635_fold_wed_m_1292_33_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

end Cert.Proof.KI

end
-- ==== Proof.KI.Tile.lean ====
import proofs.«204821_g30846455120635_fold_wed_m_1292_33_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable [FloatOps F]

section Tile
variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The 512 words of an index column this task reads: words 512·(2·subcore + core) onwards. -/
abbrev cRect (L : grid0.Coords) : Rect S16384 := Rect.unit (s := S16384) (k0_off2 L) S512.size (k0_off2_inb L)
abbrev c0S (L : grid0.Coords) : Memref sig .scVector .hbm S512 .i32 := (a0W).slice (cRect L) (fun _ => rfl)
abbrev c1S (L : grid0.Coords) : Memref sig .scVector .hbm S512 .i32 := (a1W).slice (cRect L) (fun _ => rfl)
abbrev c2S (L : grid0.Coords) : Memref sig .scVector .hbm S512 .i32 := (a2W).slice (cRect L) (fun _ => rfl)
abbrev c3S (L : grid0.Coords) : Memref sig .scVector .hbm S512 .i32 := (a3W).slice (cRect L) (fun _ => rfl)
abbrev c4S (L : grid0.Coords) : Memref sig .scVector .hbm S512 .i32 := (a4W).slice (cRect L) (fun _ => rfl)
abbrev c5S (L : grid0.Coords) : Memref sig .scVector .hbm S512 .i32 := (a5W).slice (cRect L) (fun _ => rfl)
abbrev c6S (L : grid0.Coords) : Memref sig .scVector .hbm S512 .i32 := (a6W).slice (cRect L) (fun _ => rfl)
abbrev c7S (L : grid0.Coords) : Memref sig .scVector .hbm S512 .i32 := (a7W).slice (cRect L) (fun _ => rfl)

/-- Piece j of the task's row of the shared scratch: columns 512·j onwards, where index column j is staged. -/
abbrev sh0P (L : grid0.Coords) : Memref sig .scVector .shared S512 .i32 :=
  ((shW).slice (Rect.unit (s := S16x4096) (k0_off1 L) S1x512.size (k0_off1_inb L)) (fun _ => rfl)).squeeze S512 squeezes_S1x512_S512
abbrev sh1P (L : grid0.Coords) : Memref sig .scVector .shared S512 .i32 :=
  ((shW).slice (Rect.unit (s := S16x4096) (k0_off3 L) S1x512.size (k0_off3_inb L)) (fun _ => rfl)).squeeze S512 squeezes_S1x512_S512
abbrev sh2P (L : grid0.Coords) : Memref sig .scVector .shared S512 .i32 :=
  ((shW).slice (Rect.unit (s := S16x4096) (k0_off4 L) S1x512.size (k0_off4_inb L)) (fun _ => rfl)).squeeze S512 squeezes_S1x512_S512
abbrev sh3P (L : grid0.Coords) : Memref sig .scVector .shared S512 .i32 :=
  ((shW).slice (Rect.unit (s := S16x4096) (k0_off5 L) S1x512.size (k0_off5_inb L)) (fun _ => rfl)).squeeze S512 squeezes_S1x512_S512
abbrev sh4P (L : grid0.Coords) : Memref sig .scVector .shared S512 .i32 :=
  ((shW).slice (Rect.unit (s := S16x4096) (k0_off6 L) S1x512.size (k0_off6_inb L)) (fun _ => rfl)).squeeze S512 squeezes_S1x512_S512
abbrev sh5P (L : grid0.Coords) : Memref sig .scVector .shared S512 .i32 :=
  ((shW).slice (Rect.unit (s := S16x4096) (k0_off7 L) S1x512.size (k0_off7_inb L)) (fun _ => rfl)).squeeze S512 squeezes_S1x512_S512
abbrev sh6P (L : grid0.Coords) : Memref sig .scVector .shared S512 .i32 :=
  ((shW).slice (Rect.unit (s := S16x4096) (k0_off8 L) S1x512.size (k0_off8_inb L)) (fun _ => rfl)).squeeze S512 squeezes_S1x512_S512
abbrev sh7P (L : grid0.Coords) : Memref sig .scVector .shared S512 .i32 :=
  ((shW).slice (Rect.unit (s := S16x4096) (k0_off9 L) S1x512.size (k0_off9_inb L)) (fun _ => rfl)).squeeze S512 squeezes_S1x512_S512

/-- Chunk k of the task's slab of the result: 64 rows of 256 entries. -/
abbrev ou0S (L : grid0.Coords) : Memref sig .scVector .hbm S16384 .f32 :=
  (ouW).slice (Rect.unit (s := S4194304) (k0_off50 L 0#32) S16384.size (k0_off50_inb L 0)) (fun _ => rfl)
abbrev ou1S (L : grid0.Coords) : Memref sig .scVector .hbm S16384 .f32 :=
  (ouW).slice (Rect.unit (s := S4194304) (k0_off50 L 64#32) S16384.size (k0_off50_inb L 1)) (fun _ => rfl)
abbrev ou2S (L : grid0.Coords) : Memref sig .scVector .hbm S16384 .f32 :=
  (ouW).slice (Rect.unit (s := S4194304) (k0_off50 L 128#32) S16384.size (k0_off50_inb L 2)) (fun _ => rfl)
abbrev ou3S (L : grid0.Coords) : Memref sig .scVector .hbm S16384 .f32 :=
  (ouW).slice (Rect.unit (s := S4194304) (k0_off50 L 192#32) S16384.size (k0_off50_inb L 3)) (fun _ => rfl)
abbrev ou4S (L : grid0.Coords) : Memref sig .scVector .hbm S16384 .f32 :=
  (ouW).slice (Rect.unit (s := S4194304) (k0_off50 L 256#32) S16384.size (k0_off50_inb L 4)) (fun _ => rfl)
abbrev ou5S (L : grid0.Coords) : Memref sig .scVector .hbm S16384 .f32 :=
  (ouW).slice (Rect.unit (s := S4194304) (k0_off50 L 320#32) S16384.size (k0_off50_inb L 5)) (fun _ => rfl)
abbrev ou6S (L : grid0.Coords) : Memref sig .scVector .hbm S16384 .f32 :=
  (ouW).slice (Rect.unit (s := S4194304) (k0_off50 L 384#32) S16384.size (k0_off50_inb L 6)) (fun _ => rfl)
abbrev ou7S (L : grid0.Coords) : Memref sig .scVector .hbm S16384 .f32 :=
  (ouW).slice (Rect.unit (s := S4194304) (k0_off50 L 448#32) S16384.size (k0_off50_inb L 7)) (fun _ => rfl)
/-- Run k of piece j of the row: the 64 words of index column j that chunk k looks up. -/
abbrev q0_0 (L : grid0.Coords) : Memref sig .scVector .shared S64 .i32 :=
  ((shW).slice (Rect.unit (s := S16x4096) (k0_off10 L) S1x64.size (k0_off10_inb L)) (fun _ => rfl)).squeeze S64 squeezes_S1x64_S64
abbrev q0_1 (L : grid0.Coords) : Memref sig .scVector .shared S64 .i32 :=
  ((shW).slice (Rect.unit (s := S16x4096) (k0_off11 L) S1x64.size (k0_off11_inb L)) (fun _ => rfl)).squeeze S64 squeezes_S1x64_S64
abbrev q0_2 (L : grid0.Coords) : Memref sig .scVector .shared S64 .i32 :=
  ((shW).slice (Rect.unit (s := S16x4096) (k0_off12 L) S1x64.size (k0_off12_inb L)) (fun _ => rfl)).squeeze S64 squeezes_S1x64_S64
abbrev q0_3 (L : grid0.Coords) : Memref sig .scVector .shared S64 .i32 :=
  ((shW).slice (Rect.unit (s := S16x4096) (k0_off13 L) S1x64.size (k0_off13_inb L)) (fun _ => rfl)).squeeze S64 squeezes_S1x64_S64
abbrev q0_4 (L : grid0.Coords) : Memref sig .scVector .shared S64 .i32 :=
  ((shW).slice (Rect.unit (s := S16x4096) (k0_off14 L) S1x64.size (k0_off14_inb L)) (fun _ => rfl)).squeeze S64 squeezes_S1x64_S64
abbrev q0_5 (L : grid0.Coords) : Memref sig .scVector .shared S64 .i32 :=
  ((shW).slice (Rect.unit (s := S16x4096) (k0_off15 L) S1x64.size (k0_off15_inb L)) (fun _ => rfl)).squeeze S64 squeezes_S1x64_S64
abbrev q0_6 (L : grid0.Coords) : Memref sig .scVector .shared S64 .i32 :=
  ((shW).slice (Rect.unit (s := S16x4096) (k0_off16 L) S1x64.size (k0_off16_inb L)) (fun _ => rfl)).squeeze S64 squeezes_S1x64_S64
abbrev q0_7 (L : grid0.Coords) : Memref sig .scVector .shared S64 .i32 :=
  ((shW).slice (Rect.unit (s := S16x4096) (k0_off17 L) S1x64.size (k0_off17_inb L)) (fun _ => rfl)).squeeze S64 squeezes_S1x64_S64
abbrev q1_0 (L : grid0.Coords) : Memref sig .scVector .shared S64 .i32 :=
  ((shW).slice (Rect.unit (s := S16x4096) (k0_off18 L) S1x64.size (k0_off18_inb L)) (fun _ => rfl)).squeeze S64 squeezes_S1x64_S64
abbrev q1_1 (L : grid0.Coords) : Memref sig .scVector .shared S64 .i32 :=
  ((shW).slice (Rect.unit (s := S16x4096) (k0_off19 L) S1x64.size (k0_off19_inb L)) (fun _ => rfl)).squeeze S64 squeezes_S1x64_S64
abbrev q1_2 (L : grid0.Coords) : Memref sig .scVector .shared S64 .i32 :=
  ((shW).slice (Rect.unit (s := S16x4096) (k0_off20 L) S1x64.size (k0_off20_inb L)) (fun _ => rfl)).squeeze S64 squeezes_S1x64_S64
abbrev q1_3 (L : grid0.Coords) : Memref sig .scVector .shared S64 .i32 :=
  ((shW).slice (Rect.unit (s := S16x4096) (k0_off21 L) S1x64.size (k0_off21_inb L)) (fun _ => rfl)).squeeze S64 squeezes_S1x64_S64
abbrev q1_4 (L : grid0.Coords) : Memref sig .scVector .shared S64 .i32 :=
  ((shW).slice (Rect.unit (s := S16x4096) (k0_off22 L) S1x64.size (k0_off22_inb L)) (fun _ => rfl)).squeeze S64 squeezes_S1x64_S64
abbrev q1_5 (L : grid0.Coords) : Memref sig .scVector .shared S64 .i32 :=
  ((shW).slice (Rect.unit (s := S16x4096) (k0_off23 L) S1x64.size (k0_off23_inb L)) (fun _ => rfl)).squeeze S64 squeezes_S1x64_S64
abbrev q1_6 (L : grid0.Coords) : Memref sig .scVector .shared S64 .i32 :=
  ((shW).slice (Rect.unit (s := S16x4096) (k0_off24 L) S1x64.size (k0_off24_inb L)) (fun _ => rfl)).squeeze S64 squeezes_S1x64_S64
abbrev q1_7 (L : grid0.Coords) : Memref sig .scVector .shared S64 .i32 :=
  ((shW).slice (Rect.unit (s := S16x4096) (k0_off25 L) S1x64.size (k0_off25_inb L)) (fun _ => rfl)).squeeze S64 squeezes_S1x64_S64
abbrev q2_0 (L : grid0.Coords) : Memref sig .scVector .shared S64 .i32 :=
  ((shW).slice (Rect.unit (s := S16x4096) (k0_off51 L) S1x64.size (k0_off51_inb L)) (fun _ => rfl)).squeeze S64 squeezes_S1x64_S64
abbrev q2_1 (L : grid0.Coords) : Memref sig .scVector .shared S64 .i32 :=
  ((shW).slice (Rect.unit (s := S16x4096) (k0_off52 L) S1x64.size (k0_off52_inb L)) (fun _ => rfl)).squeeze S64 squeezes_S1x64_S64
abbrev q2_2 (L : grid0.Coords) : Memref sig .scVector .shared S64 .i32 :=
  ((shW).slice (Rect.unit (s := S16x4096) (k0_off53 L) S1x64.size (k0_off53_inb L)) (fun _ => rfl)).squeeze S64 squeezes_S1x64_S64
abbrev q2_3 (L : grid0.Coords) : Memref sig .scVector .shared S64 .i32 :=
  ((shW).slice (Rect.unit (s := S16x4096) (k0_off54 L) S1x64.size (k0_off54_inb L)) (fun _ => rfl)).squeeze S64 squeezes_S1x64_S64
abbrev q2_4 (L : grid0.Coords) : Memref sig .scVector .shared S64 .i32 :=
  ((shW).slice (Rect.unit (s := S16x4096) (k0_off55 L) S1x64.size (k0_off55_inb L)) (fun _ => rfl)).squeeze S64 squeezes_S1x64_S64
abbrev q2_5 (L : grid0.Coords) : Memref sig .scVector .shared S64 .i32 :=
  ((shW).slice (Rect.unit (s := S16x4096) (k0_off56 L) S1x64.size (k0_off56_inb L)) (fun _ => rfl)).squeeze S64 squeezes_S1x64_S64
abbrev q2_6 (L : grid0.Coords) : Memref sig .scVector .shared S64 .i32 :=
  ((shW).slice (Rect.unit (s := S16x4096) (k0_off57 L) S1x64.size (k0_off57_inb L)) (fun _ => rfl)).squeeze S64 squeezes_S1x64_S64
abbrev q2_7 (L : grid0.Coords) : Memref sig .scVector .shared S64 .i32 :=
  ((shW).slice (Rect.unit (s := S16x4096) (k0_off58 L) S1x64.size (k0_off58_inb L)) (fun _ => rfl)).squeeze S64 squeezes_S1x64_S64
abbrev q3_0 (L : grid0.Coords) : Memref sig .scVector .shared S64 .i32 :=
  ((shW).slice (Rect.unit (s := S16x4096) (k0_off83 L) S1x64.size (k0_off83_inb L)) (fun _ => rfl)).squeeze S64 squeezes_S1x64_S64
abbrev q3_1 (L : grid0.Coords) : Memref sig .scVector .shared S64 .i32 :=
  ((shW).slice (Rect.unit (s := S16x4096) (k0_off84 L) S1x64.size (k0_off84_inb L)) (fun _ => rfl)).squeeze S64 squeezes_S1x64_S64
abbrev q3_2 (L : grid0.Coords) : Memref sig .scVector .shared S64 .i32 :=
  ((shW).slice (Rect.unit (s := S16x4096) (k0_off85 L) S1x64.size (k0_off85_inb L)) (fun _ => rfl)).squeeze S64 squeezes_S1x64_S64
abbrev q3_3 (L : grid0.Coords) : Memref sig .scVector .shared S64 .i32 :=
  ((shW).slice (Rect.unit (s := S16x4096) (k0_off86 L) S1x64.size (k0_off86_inb L)) (fun _ => rfl)).squeeze S64 squeezes_S1x64_S64
abbrev q3_4 (L : grid0.Coords) : Memref sig .scVector .shared S64 .i32 :=
  ((shW).slice (Rect.unit (s := S16x4096) (k0_off87 L) S1x64.size (k0_off87_inb L)) (fun _ => rfl)).squeeze S64 squeezes_S1x64_S64
abbrev q3_5 (L : grid0.Coords) : Memref sig .scVector .shared S64 .i32 :=
  ((shW).slice (Rect.unit (s := S16x4096) (k0_off88 L) S1x64.size (k0_off88_inb L)) (fun _ => rfl)).squeeze S64 squeezes_S1x64_S64
abbrev q3_6 (L : grid0.Coords) : Memref sig .scVector .shared S64 .i32 :=
  ((shW).slice (Rect.unit (s := S16x4096) (k0_off89 L) S1x64.size (k0_off89_inb L)) (fun _ => rfl)).squeeze S64 squeezes_S1x64_S64
abbrev q3_7 (L : grid0.Coords) : Memref sig .scVector .shared S64 .i32 :=
  ((shW).slice (Rect.unit (s := S16x4096) (k0_off90 L) S1x64.size (k0_off90_inb L)) (fun _ => rfl)).squeeze S64 squeezes_S1x64_S64
abbrev q4_0 (L : grid0.Coords) : Memref sig .scVector .shared S64 .i32 :=
  ((shW).slice (Rect.unit (s := S16x4096) (k0_off115 L) S1x64.size (k0_off115_inb L)) (fun _ => rfl)).squeeze S64 squeezes_S1x64_S64
abbrev q4_1 (L : grid0.Coords) : Memref sig .scVector .shared S64 .i32 :=
  ((shW).slice (Rect.unit (s := S16x4096) (k0_off116 L) S1x64.size (k0_off116_inb L)) (fun _ => rfl)).squeeze S64 squeezes_S1x64_S64
abbrev q4_2 (L : grid0.Coords) : Memref sig .scVector .shared S64 .i32 :=
  ((shW).slice (Rect.unit (s := S16x4096) (k0_off117 L) S1x64.size (k0_off117_inb L)) (fun _ => rfl)).squeeze S64 squeezes_S1x64_S64
abbrev q4_3 (L : grid0.Coords) : Memref sig .scVector .shared S64 .i32 :=
  ((shW).slice (Rect.unit (s := S16x4096) (k0_off118 L) S1x64.size (k0_off118_inb L)) (fun _ => rfl)).squeeze S64 squeezes_S1x64_S64
abbrev q4_4 (L : grid0.Coords) : Memref sig .scVector .shared S64 .i32 :=
  ((shW).slice (Rect.unit (s := S16x4096) (k0_off119 L) S1x64.size (k0_off119_inb L)) (fun _ => rfl)).squeeze S64 squeezes_S1x64_S64
abbrev q4_5 (L : grid0.Coords) : Memref sig .scVector .shared S64 .i32 :=
  ((shW).slice (Rect.unit (s := S16x4096) (k0_off120 L) S1x64.size (k0_off120_inb L)) (fun _ => rfl)).squeeze S64 squeezes_S1x64_S64
abbrev q4_6 (L : grid0.Coords) : Memref sig .scVector .shared S64 .i32 :=
  ((shW).slice (Rect.unit (s := S16x4096) (k0_off121 L) S1x64.size (k0_off121_inb L)) (fun _ => rfl)).squeeze S64 squeezes_S1x64_S64
abbrev q4_7 (L : grid0.Coords) : Memref sig .scVector .shared S64 .i32 :=
  ((shW).slice (Rect.unit (s := S16x4096) (k0_off122 L) S1x64.size (k0_off122_inb L)) (fun _ => rfl)).squeeze S64 squeezes_S1x64_S64
abbrev q5_0 (L : grid0.Coords) : Memref sig .scVector .shared S64 .i32 :=
  ((shW).slice (Rect.unit (s := S16x4096) (k0_off147 L) S1x64.size (k0_off147_inb L)) (fun _ => rfl)).squeeze S64 squeezes_S1x64_S64
abbrev q5_1 (L : grid0.Coords) : Memref sig .scVector .shared S64 .i32 :=
  ((shW).slice (Rect.unit (s := S16x4096) (k0_off148 L) S1x64.size (k0_off148_inb L)) (fun _ => rfl)).squeeze S64 squeezes_S1x64_S64
abbrev q5_2 (L : grid0.Coords) : Memref sig .scVector .shared S64 .i32 :=
  ((shW).slice (Rect.unit (s := S16x4096) (k0_off149 L) S1x64.size (k0_off149_inb L)) (fun _ => rfl)).squeeze S64 squeezes_S1x64_S64
abbrev q5_3 (L : grid0.Coords) : Memref sig .scVector .shared S64 .i32 :=
  ((shW).slice (Rect.unit (s := S16x4096) (k0_off150 L) S1x64.size (k0_off150_inb L)) (fun _ => rfl)).squeeze S64 squeezes_S1x64_S64
abbrev q5_4 (L : grid0.Coords) : Memref sig .scVector .shared S64 .i32 :=
  ((shW).slice (Rect.unit (s := S16x4096) (k0_off151 L) S1x64.size (k0_off151_inb L)) (fun _ => rfl)).squeeze S64 squeezes_S1x64_S64
abbrev q5_5 (L : grid0.Coords) : Memref sig .scVector .shared S64 .i32 :=
  ((shW).slice (Rect.unit (s := S16x4096) (k0_off152 L) S1x64.size (k0_off152_inb L)) (fun _ => rfl)).squeeze S64 squeezes_S1x64_S64
abbrev q5_6 (L : grid0.Coords) : Memref sig .scVector .shared S64 .i32 :=
  ((shW).slice (Rect.unit (s := S16x4096) (k0_off153 L) S1x64.size (k0_off153_inb L)) (fun _ => rfl)).squeeze S64 squeezes_S1x64_S64
abbrev q5_7 (L : grid0.Coords) : Memref sig .scVector .shared S64 .i32 :=
  ((shW).slice (Rect.unit (s := S16x4096) (k0_off154 L) S1x64.size (k0_off154_inb L)) (fun _ => rfl)).squeeze S64 squeezes_S1x64_S64
abbrev q6_0 (L : grid0.Coords) : Memref sig .scVector .shared S64 .i32 :=
  ((shW).slice (Rect.unit (s := S16x4096) (k0_off179 L) S1x64.size (k0_off179_inb L)) (fun _ => rfl)).squeeze S64 squeezes_S1x64_S64
abbrev q6_1 (L : grid0.Coords) : Memref sig .scVector .shared S64 .i32 :=
  ((shW).slice (Rect.unit (s := S16x4096) (k0_off180 L) S1x64.size (k0_off180_inb L)) (fun _ => rfl)).squeeze S64 squeezes_S1x64_S64
abbrev q6_2 (L : grid0.Coords) : Memref sig .scVector .shared S64 .i32 :=
  ((shW).slice (Rect.unit (s := S16x4096) (k0_off181 L) S1x64.size (k0_off181_inb L)) (fun _ => rfl)).squeeze S64 squeezes_S1x64_S64
abbrev q6_3 (L : grid0.Coords) : Memref sig .scVector .shared S64 .i32 :=
  ((shW).slice (Rect.unit (s := S16x4096) (k0_off182 L) S1x64.size (k0_off182_inb L)) (fun _ => rfl)).squeeze S64 squeezes_S1x64_S64
abbrev q6_4 (L : grid0.Coords) : Memref sig .scVector .shared S64 .i32 :=
  ((shW).slice (Rect.unit (s := S16x4096) (k0_off183 L) S1x64.size (k0_off183_inb L)) (fun _ => rfl)).squeeze S64 squeezes_S1x64_S64
abbrev q6_5 (L : grid0.Coords) : Memref sig .scVector .shared S64 .i32 :=
  ((shW).slice (Rect.unit (s := S16x4096) (k0_off184 L) S1x64.size (k0_off184_inb L)) (fun _ => rfl)).squeeze S64 squeezes_S1x64_S64
abbrev q6_6 (L : grid0.Coords) : Memref sig .scVector .shared S64 .i32 :=
  ((shW).slice (Rect.unit (s := S16x4096) (k0_off185 L) S1x64.size (k0_off185_inb L)) (fun _ => rfl)).squeeze S64 squeezes_S1x64_S64
abbrev q6_7 (L : grid0.Coords) : Memref sig .scVector .shared S64 .i32 :=
  ((shW).slice (Rect.unit (s := S16x4096) (k0_off186 L) S1x64.size (k0_off186_inb L)) (fun _ => rfl)).squeeze S64 squeezes_S1x64_S64
abbrev q7_0 (L : grid0.Coords) : Memref sig .scVector .shared S64 .i32 :=
  ((shW).slice (Rect.unit (s := S16x4096) (k0_off211 L) S1x64.size (k0_off211_inb L)) (fun _ => rfl)).squeeze S64 squeezes_S1x64_S64
abbrev q7_1 (L : grid0.Coords) : Memref sig .scVector .shared S64 .i32 :=
  ((shW).slice (Rect.unit (s := S16x4096) (k0_off212 L) S1x64.size (k0_off212_inb L)) (fun _ => rfl)).squeeze S64 squeezes_S1x64_S64
abbrev q7_2 (L : grid0.Coords) : Memref sig .scVector .shared S64 .i32 :=
  ((shW).slice (Rect.unit (s := S16x4096) (k0_off213 L) S1x64.size (k0_off213_inb L)) (fun _ => rfl)).squeeze S64 squeezes_S1x64_S64
abbrev q7_3 (L : grid0.Coords) : Memref sig .scVector .shared S64 .i32 :=
  ((shW).slice (Rect.unit (s := S16x4096) (k0_off214 L) S1x64.size (k0_off214_inb L)) (fun _ => rfl)).squeeze S64 squeezes_S1x64_S64
abbrev q7_4 (L : grid0.Coords) : Memref sig .scVector .shared S64 .i32 :=
  ((shW).slice (Rect.unit (s := S16x4096) (k0_off215 L) S1x64.size (k0_off215_inb L)) (fun _ => rfl)).squeeze S64 squeezes_S1x64_S64
abbrev q7_5 (L : grid0.Coords) : Memref sig .scVector .shared S64 .i32 :=
  ((shW).slice (Rect.unit (s := S16x4096) (k0_off216 L) S1x64.size (k0_off216_inb L)) (fun _ => rfl)).squeeze S64 squeezes_S1x64_S64
abbrev q7_6 (L : grid0.Coords) : Memref sig .scVector .shared S64 .i32 :=
  ((shW).slice (Rect.unit (s := S16x4096) (k0_off217 L) S1x64.size (k0_off217_inb L)) (fun _ => rfl)).squeeze S64 squeezes_S1x64_S64
abbrev q7_7 (L : grid0.Coords) : Memref sig .scVector .shared S64 .i32 :=
  ((shW).slice (Rect.unit (s := S16x4096) (k0_off218 L) S1x64.size (k0_off218_inb L)) (fun _ => rfl)).squeeze S64 squeezes_S1x64_S64
end Tile

end Cert.Proof.KI

end
-- ==== Proof.KI.Pay.lean ====
import proofs.«204821_g30846455120635_fold_wed_m_1292_33_alg».proof.Proof.KI.Setup
import proofs.«204821_g30846455120635_fold_wed_m_1292_33_alg».proof.Proof.KI.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

/-! ## The arrays' locations -/

abbrev c0Loc (d : Dev nD) : Loc nD τ sig := (SparseCore.T d).loc main_arg0
abbrev c1Loc (d : Dev nD) : Loc nD τ sig := (SparseCore.T d).loc main_arg1
abbrev c2Loc (d : Dev nD) : Loc nD τ sig := (SparseCore.T d).loc main_arg2
abbrev c3Loc (d : Dev nD) : Loc nD τ sig := (SparseCore.T d).loc main_arg3
abbrev c4Loc (d : Dev nD) : Loc nD τ sig := (SparseCore.T d).loc main_arg4
abbrev c5Loc (d : Dev nD) : Loc nD τ sig := (SparseCore.T d).loc main_arg5
abbrev c6Loc (d : Dev nD) : Loc nD τ sig := (SparseCore.T d).loc main_arg6
abbrev c7Loc (d : Dev nD) : Loc nD τ sig := (SparseCore.T d).loc main_arg7
abbrev w0Loc (d : Dev nD) : Loc nD τ sig := (SparseCore.T d).loc main_arg8
abbrev w1Loc (d : Dev nD) : Loc nD τ sig := (SparseCore.T d).loc main_arg9
abbrev w2Loc (d : Dev nD) : Loc nD τ sig := (SparseCore.T d).loc main_arg10
abbrev w3Loc (d : Dev nD) : Loc nD τ sig := (SparseCore.T d).loc main_arg11
abbrev w4Loc (d : Dev nD) : Loc nD τ sig := (SparseCore.T d).loc main_arg12
abbrev w5Loc (d : Dev nD) : Loc nD τ sig := (SparseCore.T d).loc main_arg13
abbrev w6Loc (d : Dev nD) : Loc nD τ sig := (SparseCore.T d).loc main_arg14
abbrev w7Loc (d : Dev nD) : Loc nD τ sig := (SparseCore.T d).loc main_arg15
/-- The eight tables stacked ([256, 32]), the same flattened ([8192]), the kernel's flat result ([4194304]), the result ([16384, 256]). -/
abbrev catLoc (d : Dev nD) : Loc nD τ sig := (SparseCore.T d).loc main_v0
abbrev tabLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

/-- The eight index columns of device `d`. -/
def cols (d : Dev nD) : Fin 8 → S16384.Idx → BitVec 32 :=
  ![m (c0Loc d), m (c1Loc d), m (c2Loc d), m (c3Loc d), m (c4Loc d), m (c5Loc d), m (c6Loc d), m (c7Loc d)]

/-- What the proof asks of the launch memory: every index word is below 32 (it names a row of its table). -/
def PreOK : Prop := ∀ (d : Dev nD) (j : Fin 8) (b : Fin 16384), (cols m d j (ValueIdx.ix1 b)).toNat < 32

/-- What the kernel leaves in the flat result, from the flat table and the index columns: entry 256·b + 32·j + e is
    entry 32·(c_j[b] mod 32) + 1024·j + e of the table. -/
def OUTof (TAB : S8192.Idx → Elt F .f32) (c : Fin 8 → S16384.Idx → BitVec 32) : S4194304.Idx → Elt F .f32 :=
  fun x => TAB (ValueIdx.ix1 ⟨32 * ((c ⟨(x 0).val % 256 / 32, by omega⟩ (ValueIdx.ix1 ⟨(x 0).val / 256, by have h : (x 0).val < 4194304 := (x 0).isLt; omega⟩)).toNat % 32)
      + 1024 * ((x 0).val % 256 / 32) + (x 0).val % 32, by omega⟩)

section Tile
variable (d : Dev nD) (L : grid0.Coords)

/-- What a task is handed: its 512 words of each index column, a read share of the flat table, its eight chunks of the
    flat result, and the eight pieces of its row of the shared scratch. -/
def tileGo (qt : PosShare TreeShare) (TAB : Buf (Elt F) (tabLoc d)) : sProp 𝕄 :=
  iprop(((c0S L).view.loc (thr d L) ↦[(c0S L).view.set]{fullShare} m (c0Loc d))
      ∗ ((c1S L).view.loc (thr d L) ↦[(c1S L).view.set]{fullShare} m (c1Loc d))
      ∗ ((c2S L).view.loc (thr d L) ↦[(c2S L).view.set]{fullShare} m (c2Loc d))
      ∗ ((c3S L).view.loc (thr d L) ↦[(c3S L).view.set]{fullShare} m (c3Loc d))
      ∗ ((c4S L).view.loc (thr d L) ↦[(c4S L).view.set]{fullShare} m (c4Loc d))
      ∗ ((c5S L).view.loc (thr d L) ↦[(c5S L).view.set]{fullShare} m (c5Loc d))
      ∗ ((c6S L).view.loc (thr d L) ↦[(c6S L).view.set]{fullShare} m (c6Loc d))
      ∗ ((c7S L).view.loc (thr d L) ↦[(c7S L).view.set]{fullShare} m (c7Loc d))
      ∗ ((tbW).view.loc (thr d L) ↦{qt} TAB)
      ∗ ((ou0S L).view.loc (thr d L) ↦[(ou0S L).view.set]{fullShare} m (outLoc d))
      ∗ ((ou1S L).view.loc (thr d L) ↦[(ou1S L).view.set]{fullShare} m (outLoc d))
      ∗ ((ou2S L).view.loc (thr d L) ↦[(ou2S L).view.set]{fullShare} m (outLoc d))
      ∗ ((ou3S L).view.loc (thr d L) ↦[(ou3S L).view.set]{fullShare} m (outLoc d))
      ∗ ((ou4S L).view.loc (thr d L) ↦[(ou4S L).view.set]{fullShare} m (outLoc d))
      ∗ ((ou5S L).view.loc (thr d L) ↦[(ou5S L).view.set]{fullShare} m (outLoc d))
      ∗ ((ou6S L).view.loc (thr d L) ↦[(ou6S L).view.set]{fullShare} m (outLoc d))
      ∗ ((ou7S L).view.loc (thr d L) ↦[(ou7S L).view.set]{fullShare} m (outLoc d))
      ∗ ∃ fsh, ((sh0P L).view.loc (thr d L) ↦[(sh0P L).view.set]{fullShare} fsh)
        ∗ ((sh1P L).view.loc (thr d L) ↦[(sh1P L).view.set]{fullShare} fsh)
        ∗ ((sh2P L).view.loc (thr d L) ↦[(sh2P L).view.set]{fullShare} fsh)
        ∗ ((sh3P L).view.loc (thr d L) ↦[(sh3P L).view.set]{fullShare} fsh)
        ∗ ((sh4P L).view.loc (thr d L) ↦[(sh4P L).view.set]{fullShare} fsh)
        ∗ ((sh5P L).view.loc (thr d L) ↦[(sh5P L).view.set]{fullShare} fsh)
        ∗ ((sh6P L).view.loc (thr d L) ↦[(sh6P L).view.set]{fullShare} fsh)
        ∗ ((sh7P L).view.loc (thr d L) ↦[(sh7P L).view.set]{fullShare} fsh))

/-- What it hands back: the same, its chunks of the flat result at what the lookup gives. -/
def tileTd (qt : PosShare TreeShare) (TAB : Buf (Elt F) (tabLoc d)) : sProp 𝕄 :=
  iprop(((c0S L).view.loc (thr d L) ↦[(c0S L).view.set]{fullShare} m (c0Loc d))
      ∗ ((c1S L).view.loc (thr d L) ↦[(c1S L).view.set]{fullShare} m (c1Loc d))
      ∗ ((c2S L).view.loc (thr d L) ↦[(c2S L).view.set]{fullShare} m (c2Loc d))
      ∗ ((c3S L).view.loc (thr d L) ↦[(c3S L).view.set]{fullShare} m (c3Loc d))
      ∗ ((c4S L).view.loc (thr d L) ↦[(c4S L).view.set]{fullShare} m (c4Loc d))
      ∗ ((c5S L).view.loc (thr d L) ↦[(c5S L).view.set]{fullShare} m (c5Loc d))
      ∗ ((c6S L).view.loc (thr d L) ↦[(c6S L).view.set]{fullShare} m (c6Loc d))
      ∗ ((c7S L).view.loc (thr d L) ↦[(c7S L).view.set]{fullShare} m (c7Loc d))
      ∗ ((tbW).view.loc (thr d L) ↦{qt} TAB)
      ∗ ((ou0S L).view.loc (thr d L) ↦[(ou0S L).view.set]{fullShare} OUTof TAB (cols m d))
      ∗ ((ou1S L).view.loc (thr d L) ↦[(ou1S L).view.set]{fullShare} OUTof TAB (cols m d))
      ∗ ((ou2S L).view.loc (thr d L) ↦[(ou2S L).view.set]{fullShare} OUTof TAB (cols m d))
      ∗ ((ou3S L).view.loc (thr d L) ↦[(ou3S L).view.set]{fullShare} OUTof TAB (cols m d))
      ∗ ((ou4S L).view.loc (thr d L) ↦[(ou4S L).view.set]{fullShare} OUTof TAB (cols m d))
      ∗ ((ou5S L).view.loc (thr d L) ↦[(ou5S L).view.set]{fullShare} OUTof TAB (cols m d))
      ∗ ((ou6S L).view.loc (thr d L) ↦[(ou6S L).view.set]{fullShare} OUTof TAB (cols m d))
      ∗ ((ou7S L).view.loc (thr d L) ↦[(ou7S L).view.set]{fullShare} OUTof TAB (cols m d))
      ∗ (∃ f, (sh0P L).view.loc (thr d L) ↦[(sh0P L).view.set]{fullShare} f)
      ∗ (∃ f, (sh1P L).view.loc (thr d L) ↦[(sh1P L).view.set]{fullShare} f)
      ∗ (∃ f, (sh2P L).view.loc (thr d L) ↦[(sh2P L).view.set]{fullShare} f)
      ∗ (∃ f, (sh3P L).view.loc (thr d L) ↦[(sh3P L).view.set]{fullShare} f)
      ∗ (∃ f, (sh4P L).view.loc (thr d L) ↦[(sh4P L).view.set]{fullShare} f)
      ∗ (∃ f, (sh5P L).view.loc (thr d L) ↦[(sh5P L).view.set]{fullShare} f)
      ∗ (∃ f, (sh6P L).view.loc (thr d L) ↦[(sh6P L).view.set]{fullShare} f)
      ∗ (∃ f, (sh7P L).view.loc (thr d L) ↦[(sh7P L).view.set]{fullShare} f))

end Tile

/-- The task's proof, as the launch uses it: from what it is handed and its own scratch and semaphores to what it hands back. -/
def TileBodyStmt : Prop :=
  PreOK m → ∀ (d : Dev nD) (L : grid0.Coords) (O : CellTallies nD τ sig (HIx 1)) (W : Waits sig (HIx 1)), (∀ g, O g none = 0) →
    ∀ (qt : PosShare TreeShare) (TAB : Buf (Elt F) (tabLoc d)),
    iprop(levAts (K (F := F)).L (K (F := F)).lev ∗ emp ∗ tileGo m d L qt TAB
        ∗ scopedBufs (thr d L) ∗ scopedSems0 (thr d L) ∗ owes (thr d L) O W)
      ⊢ wp frame (wpE (defs₀ (F := F)) 𝒱₀ (thr d L) none) Set.univ
          (cc0__body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11)
          fun _ => iprop(tileTd m d L qt TAB ∗ scopedBufs (thr d L) ∗ scopedSems0 (thr d L)
            ∗ ∃ W', ⌜∀ p ∈ W', p ∈ W ∨ p.2 = none⌝ ∗ owes (thr d L) O W')

end Cert.Proof.KI

end
-- ==== Proof.KI.HostVal.lean ====
/-
  The host side of the lookup kernel's program, as values.

  Before the kernel runs the host stacks the eight tables on top of one another (a [256, 32] array: table j is rows
  32 j … 32 j + 31) and flattens the stack row by row (8192 entries: entry 1024 j + 32 r + e is table j's entry (r, e)).
  After it, the host folds the kernel's flat result back into rows of 256. Folded, entry (b, col) is the flat result's
  entry 256 b + col, which the kernel took from the flat table at 1024 (col / 32) + 32 (word mod 32) + col mod 32 with
  the word that of column col / 32 at position b: the specified array's entry (b, col).
-/
import proofs.«204821_g30846455120635_fold_wed_m_1292_33_alg».proof.Proof.KI.Pay
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.ValueIdx

variable {F : FTy → Type}
variable (m : (ℓ : Loc nD τ sig) → Buf (Elt F) ℓ)
variable [FloatOps F]

/-- The eight tables of device `d`. -/
def tabs (d : Dev nD) : Fin 8 → S32x32.Idx → Elt F .f32 :=
  ![m (w0Loc d), m (w1Loc d), m (w2Loc d), m (w3Loc d), m (w4Loc d), m (w5Loc d), m (w6Loc d), m (w7Loc d)]

/-- The flat table the kernel reads: the eight tables stacked along the rows, then flattened row by row. -/
def TABof (d : Dev nD) : Buf (Elt F) (tabLoc d) :=
  shapeCast S8192
    (concatenate S256x32 0
      [⟨S32x32, m (w0Loc d)⟩, ⟨S32x32, m (w1Loc d)⟩, ⟨S32x32, m (w2Loc d)⟩, ⟨S32x32, m (w3Loc d)⟩, ⟨S32x32, m (w4Loc d)⟩, ⟨S32x32, m (w5Loc d)⟩, ⟨S32x32, m (w6Loc d)⟩, ⟨S32x32, m (w7Loc d)⟩]
      concatenates_S32x32_S32x32_S32x32_S32x32_S32x32_S32x32_S32x32_S32x32_S256x32_d0)
    shapeCasts_S256x32_S8192

/-- Entry 1024 j + 32 r + e of the flat table is entry (r, e) of table j. -/
theorem TABof_apply (d : Dev nD) (j : Fin 8) (r e : Fin 32) :
    TABof m d (ix1 (⟨1024 * j.val + 32 * r.val + e.val, by omega⟩ : Fin 8192))
      = ((![m (w0Loc d), m (w1Loc d), m (w2Loc d), m (w3Loc d), m (w4Loc d), m (w5Loc d), m (w6Loc d), m (w7Loc d)] : Fin 8 → S32x32.Idx → Elt F .f32) j) (ix2 r e) := by
  unfold TABof
  rw [shapeCast_apply _ _ _ (ix2 (⟨32 * j.val + r.val, by omega⟩ : Fin 256) e) (by
    rw [Shape.rowMajor_val_two, Shape.rowMajor_val_one]
    show (32 * j.val + r.val) * 32 + e.val = 1024 * j.val + 32 * r.val + e.val
    omega)]
  show concatenate S256x32 0 (List.ofFn fun n : Fin 8 =>
      (⟨S32x32, (![m (w0Loc d), m (w1Loc d), m (w2Loc d), m (w3Loc d), m (w4Loc d), m (w5Loc d), m (w6Loc d), m (w7Loc d)] : Fin 8 → S32x32.Idx → Elt F .f32) n⟩ : (s : Shape) × (s.Idx → Elt F .f32)))
    concatenates_S32x32_S32x32_S32x32_S32x32_S32x32_S32x32_S32x32_S32x32_S256x32_d0 _ = _
  exact concatenate_ofFn_apply (t := S256x32) (s₁ := S32x32) (0 : Fin 2)
    (![m (w0Loc d), m (w1Loc d), m (w2Loc d), m (w3Loc d), m (w4Loc d), m (w5Loc d), m (w6Loc d), m (w7Loc d)] : Fin 8 → S32x32.Idx → Elt F .f32)
    concatenates_S32x32_S32x32_S32x32_S32x32_S32x32_S32x32_S32x32_S32x32_S256x32_d0 rfl 32 rfl
    (ix2 (⟨32 * j.val + r.val, by omega⟩ : Fin 256) e) j
    (by show (32 * j.val + r.val) / 32 = j.val; omega) (ix2 r e)
    (by show r.val = (32 * j.val + r.val) % 32; omega)
    (fun a ha => by
      match a with
      | ⟨0, _⟩ => exact absurd rfl ha
      | ⟨1, _⟩ => rfl)

/-- The result: the kernel's flat result, from the flat table and the index columns, folded into rows of 256. -/
def RESof (d : Dev nD) : Buf (Elt F) (resLoc d) :=
  shapeCast S16384x256 (OUTof (TABof m d) (cols m d)) shapeCasts_S4194304_S16384x256

/-- The kernel's flat result at 256 b + col: the flat table at table col / 32, row the word of that column at b
    (mod 32), entry col mod 32. -/
theorem OUTof_apply (TAB : S8192.Idx → Elt F .f32) (c : Fin 8 → S16384.Idx → BitVec 32) (b : Fin 16384) (col : Fin 256) :
    OUTof TAB c (ix1 (⟨256 * b.val + col.val, by omega⟩ : Fin 4194304))
      = TAB (ix1 (⟨1024 * (col.val / 32) + 32 * ((c ⟨col.val / 32, by omega⟩ (ix1 b)).toNat % 32) + col.val % 32, by omega⟩ : Fin 8192)) := by
  unfold OUTof
  have h1 : (256 * b.val + col.val) % 256 / 32 = col.val / 32 := by omega
  have h2 : (256 * b.val + col.val) / 256 = b.val := by omega
  have h3 : (256 * b.val + col.val) % 32 = col.val % 32 := by omega
  have hj : (⟨(256 * b.val + col.val) % 256 / 32, by omega⟩ : Fin 8) = ⟨col.val / 32, by omega⟩ := Fin.ext h1
  have hb : (⟨(256 * b.val + col.val) / 256, by omega⟩ : Fin 16384) = b := Fin.ext h2
  refine congrArg TAB (congrArg (fun k : Fin 8192 => (ix1 k : S8192.Idx)) (Fin.ext ?_))
  show 32 * ((c ⟨(256 * b.val + col.val) % 256 / 32, _⟩ (ix1 ⟨(256 * b.val + col.val) / 256, _⟩)).toNat % 32)
      + 1024 * ((256 * b.val + col.val) % 256 / 32) + (256 * b.val + col.val) % 32 = _
  rw [hj, hb, h1, h3]
  show 32 * ((c ⟨col.val / 32, _⟩ (ix1 b)).toNat % 32) + 1024 * (col.val / 32) + col.val % 32
    = 1024 * (col.val / 32) + 32 * ((c ⟨col.val / 32, _⟩ (ix1 b)).toNat % 32) + col.val % 32
  omega

/-- Folded, the result is the specified array of the index columns and the tables. -/
theorem RESof_eq (hpre : PreOK m) (d : Dev nD) :
    RESof m d = Cert.Spec.outArr
      (![m (c0Loc d), m (c1Loc d), m (c2Loc d), m (c3Loc d), m (c4Loc d), m (c5Loc d), m (c6Loc d), m (c7Loc d)] : Fin 8 → (⟨1, ![16384]⟩ : Shape).Idx → BitVec 32)
      (![m (w0Loc d), m (w1Loc d), m (w2Loc d), m (w3Loc d), m (w4Loc d), m (w5Loc d), m (w6Loc d), m (w7Loc d)] : Fin 8 → (⟨2, ![32, 32]⟩ : Shape).Idx → Elt F .f32) := by
  funext i
  obtain ⟨b, col, rfl⟩ : ∃ (b : Fin 16384) (col : Fin 256), i = ix2 b col := ⟨i 0, i 1, eq_ix2 i⟩
  rw [Cert.Spec.outArr_apply]
  unfold RESof
  rw [shapeCast_apply _ _ _ (ix1 (⟨256 * b.val + col.val, by omega⟩ : Fin 4194304)) (by
    rw [Shape.rowMajor_val_two, Shape.rowMajor_val_one]
    show 256 * b.val + col.val = b.val * 256 + col.val
    omega)]
  rw [OUTof_apply]
  have hlt : col.val / 32 < 8 := by omega
  have e := TABof_apply m d ⟨col.val / 32, hlt⟩
    ⟨(cols m d ⟨col.val / 32, hlt⟩ (ix1 b)).toNat % 32, Nat.mod_lt _ (by decide)⟩ ⟨col.val % 32, Nat.mod_lt _ (by decide)⟩
  exact e

end Cert.Proof.KI

end
-- ==== Proof.LibRowChunks.lean ====
/-
  Runs of consecutive entries as unions of shorter runs, for unit-stride rectangles.

  * a rectangle depends on its offsets only through their values (`set_unit_congr`);
  * in a [16, 4096] matrix, 512 consecutive columns of one row are eight runs of 64 (`row_chunks`), pairwise
    disjoint (`row_chunks_disjoint`);
  * membership in a run of a vector (`mem_run1`) and of a matrix row (`mem_run2`).
-/
import Idealize.ShloMosaic.Shape
import Idealize.ShloMosaic.Lib.ValueIdx

namespace Cert.LibRowChunks

open Idealize.ShloMosaic

/-- Equal offsets give the same rectangle's elements. -/
theorem set_unit_congr {s : Shape} {off off' size : Fin s.rank → Nat} (h : off = off') (inb : ∀ a, off a + size a ≤ s.size a)
    (inb' : ∀ a, off' a + size a ≤ s.size a) : (Rect.unit off size inb).set = (Rect.unit off' size inb').set := by
  subst h; rfl

/-- An entry of a vector lies in the run of `w` entries from `B` exactly when its position does. -/
theorem mem_run1 {n B w : Nat} (inb : ∀ a, (![B] : Fin 1 → Nat) a + (![w] : Fin 1 → Nat) a ≤ (⟨1, ![n]⟩ : Shape).size a)
    (i : (⟨1, ![n]⟩ : Shape).Idx) : i ∈ (Rect.unit (s := ⟨1, ![n]⟩) ![B] ![w] inb).set ↔ B ≤ (i 0).val ∧ (i 0).val < B + w := by
  rw [Rect.mem_set_unit]
  constructor
  · intro h; exact h 0
  · intro h a; obtain rfl : a = 0 := Subsingleton.elim _ _; exact h

/-- An entry of a matrix lies in the run of `w` columns from `B` of row `r` exactly when it is in that row and its
    column is in the run. -/
theorem mem_run2 {R C r B w : Nat} (inb : ∀ a, (![r, B] : Fin 2 → Nat) a + (![1, w] : Fin 2 → Nat) a ≤ (⟨2, ![R, C]⟩ : Shape).size a)
    (i : (⟨2, ![R, C]⟩ : Shape).Idx) :
    i ∈ (Rect.unit (s := ⟨2, ![R, C]⟩) ![r, B] ![1, w] inb).set ↔ (i 0).val = r ∧ B ≤ (i 1).val ∧ (i 1).val < B + w := by
  rw [Rect.mem_set_unit]
  constructor
  · intro h
    have h0 : r ≤ (i 0).val ∧ (i 0).val < r + 1 := h 0
    have h1 : B ≤ (i 1).val ∧ (i 1).val < B + w := h 1
    exact ⟨by omega, h1.1, h1.2⟩
  · rintro ⟨h0, h1, h2⟩ a
    match a with
    | ⟨0, _⟩ => show r ≤ (i 0).val ∧ (i 0).val < r + 1; omega
    | ⟨1, _⟩ => show B ≤ (i 1).val ∧ (i 1).val < B + w; exact ⟨h1, h2⟩

/-- 512 consecutive columns of a row are the eight runs of 64 columns. -/
theorem row_chunks {R C r B : Nat} (inb : ∀ a, (![r, B] : Fin 2 → Nat) a + (![1, 512] : Fin 2 → Nat) a ≤ (⟨2, ![R, C]⟩ : Shape).size a)
    (inbk : ∀ k : Fin 8, ∀ a, (![r, B + 64 * k.val] : Fin 2 → Nat) a + (![1, 64] : Fin 2 → Nat) a ≤ (⟨2, ![R, C]⟩ : Shape).size a) :
    (Rect.unit (s := ⟨2, ![R, C]⟩) ![r, B] ![1, 512] inb).set
      = (Finset.univ : Finset (Fin 8)).biUnion fun k => (Rect.unit (s := ⟨2, ![R, C]⟩) ![r, B + 64 * k.val] ![1, 64] (inbk k)).set := by
  ext i
  simp only [Finset.mem_biUnion, Finset.mem_univ, true_and, mem_run2]
  constructor
  · rintro ⟨h0, h1, h2⟩
    exact ⟨⟨((i 1).val - B) / 64, by omega⟩, h0, by show B + 64 * (((i 1).val - B) / 64) ≤ _; omega,
      by show _ < B + 64 * (((i 1).val - B) / 64) + 64; omega⟩
  · rintro ⟨k, h0, h1, h2⟩
    have := k.isLt
    exact ⟨h0, by omega, by omega⟩

/-- The eight runs are pairwise disjoint. -/
theorem row_chunks_disjoint {R C r B : Nat}
    (inbk : ∀ k : Fin 8, ∀ a, (![r, B + 64 * k.val] : Fin 2 → Nat) a + (![1, 64] : Fin 2 → Nat) a ≤ (⟨2, ![R, C]⟩ : Shape).size a) :
    ∀ k ∈ (Finset.univ : Finset (Fin 8)), ∀ k' ∈ (Finset.univ : Finset (Fin 8)), k ≠ k' →
      Disjoint (Rect.unit (s := ⟨2, ![R, C]⟩) ![r, B + 64 * k.val] ![1, 64] (inbk k)).set
        (Rect.unit (s := ⟨2, ![R, C]⟩) ![r, B + 64 * k'.val] ![1, 64] (inbk k')).set := by
  intro k _ k' _ hne
  refine Rect.unit_disjoint (1 : Fin 2) ?_
  have : k.val ≠ k'.val := fun e => hne (Fin.ext e)
  show B + 64 * k.val + 64 ≤ B + 64 * k'.val ∨ B + 64 * k'.val + 64 ≤ B + 64 * k.val
  omega

/-- A vector of 512 entries is its eight runs of 64. -/
theorem vec_chunks (inbk : ∀ k : Fin 8, ∀ a, (![64 * k.val] : Fin 1 → Nat) a + (![64] : Fin 1 → Nat) a ≤ (⟨1, ![512]⟩ : Shape).size a) :
    (Finset.univ : Finset (⟨1, ![512]⟩ : Shape).Idx)
      = (Finset.univ : Finset (Fin 8)).biUnion fun k => (Rect.unit (s := ⟨1, ![512]⟩) ![64 * k.val] ![64] (inbk k)).set := by
  ext i
  simp only [Finset.mem_biUnion, Finset.mem_univ, true_and, mem_run1, true_iff]
  have hi : (i 0).val < 512 := (i 0).isLt
  exact ⟨⟨(i 0).val / 64, by omega⟩, by show 64 * ((i 0).val / 64) ≤ _; omega, by show _ < 64 * ((i 0).val / 64) + 64; omega⟩

/-- The eight runs of a vector are pairwise disjoint. -/
theorem vec_chunks_disjoint {n : Nat}
    (inbk : ∀ k : Fin 8, ∀ a, (![64 * k.val] : Fin 1 → Nat) a + (![64] : Fin 1 → Nat) a ≤ (⟨1, ![n]⟩ : Shape).size a) :
    ∀ k ∈ (Finset.univ : Finset (Fin 8)), ∀ k' ∈ (Finset.univ : Finset (Fin 8)), k ≠ k' →
      Disjoint (Rect.unit (s := ⟨1, ![n]⟩) ![64 * k.val] ![64] (inbk k)).set
        (Rect.unit (s := ⟨1, ![n]⟩) ![64 * k'.val] ![64] (inbk k')).set := by
  intro k _ k' _ hne
  refine Rect.unit_disjoint (0 : Fin 1) ?_
  have : k.val ≠ k'.val := fun e => hne (Fin.ext e)
  show 64 * k.val + 64 ≤ 64 * k'.val ∨ 64 * k'.val + 64 ≤ 64 * k.val
  omega

end Cert.LibRowChunks
-- ==== Proof.KI.TileSets.lean ====
import proofs.«204821_g30846455120635_fold_wed_m_1292_33_alg».proof.Proof.KI.Setup
import proofs.«204821_g30846455120635_fold_wed_m_1292_33_alg».proof.Proof.KI.Tile
import proofs.«204821_g30846455120635_fold_wed_m_1292_33_alg».proof.Proof.LibRowChunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable [FloatOps F]

section Sets
variable (d : Dev nD) (L : grid0.Coords)

open Cert.LibRowChunks

/-- A run of `w` columns from column `c` of the task's row lies inside the shared scratch. -/
theorem inb_row (L : grid0.Coords) (c w : Nat) (hc : c + w ≤ 4096) :
    ∀ a, (![(L 1).val, c] : Fin 2 → Nat) a + (![1, w] : Fin 2 → Nat) a ≤ S16x4096.size a :=
  Rect.inb₂ (d := ![16, 4096]) (show (L 1).val + 1 ≤ 16 from (L 1).isLt) (show c + w ≤ 4096 from hc)

/-- The run of `w` columns from column `c` of the task's row, as a set of elements of the shared scratch. -/
abbrev runSet (L : grid0.Coords) (c w : Nat) (hc : c + w ≤ 4096) : Finset S16x4096.Idx :=
  (Rect.unit (s := S16x4096) ![(L 1).val, c] ![1, w] (inb_row L c w hc)).set

omit [FloatOps F] in
theorem set_sh0P : (sh0P L).view.set = runSet L 0 512 (by omega) := by
  show (((shW).view.slice (Rect.unit (s := S16x4096) (k0_off1 L) S1x512.size (k0_off1_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off1_eq L) _ _)
omit [FloatOps F] in
theorem set_sh1P : (sh1P L).view.set = runSet L 512 512 (by omega) := by
  show (((shW).view.slice (Rect.unit (s := S16x4096) (k0_off3 L) S1x512.size (k0_off3_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off3_eq L) _ _)
omit [FloatOps F] in
theorem set_sh2P : (sh2P L).view.set = runSet L 1024 512 (by omega) := by
  show (((shW).view.slice (Rect.unit (s := S16x4096) (k0_off4 L) S1x512.size (k0_off4_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off4_eq L) _ _)
omit [FloatOps F] in
theorem set_sh3P : (sh3P L).view.set = runSet L 1536 512 (by omega) := by
  show (((shW).view.slice (Rect.unit (s := S16x4096) (k0_off5 L) S1x512.size (k0_off5_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off5_eq L) _ _)
omit [FloatOps F] in
theorem set_sh4P : (sh4P L).view.set = runSet L 2048 512 (by omega) := by
  show (((shW).view.slice (Rect.unit (s := S16x4096) (k0_off6 L) S1x512.size (k0_off6_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off6_eq L) _ _)
omit [FloatOps F] in
theorem set_sh5P : (sh5P L).view.set = runSet L 2560 512 (by omega) := by
  show (((shW).view.slice (Rect.unit (s := S16x4096) (k0_off7 L) S1x512.size (k0_off7_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off7_eq L) _ _)
omit [FloatOps F] in
theorem set_sh6P : (sh6P L).view.set = runSet L 3072 512 (by omega) := by
  show (((shW).view.slice (Rect.unit (s := S16x4096) (k0_off8 L) S1x512.size (k0_off8_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off8_eq L) _ _)
omit [FloatOps F] in
theorem set_sh7P : (sh7P L).view.set = runSet L 3584 512 (by omega) := by
  show (((shW).view.slice (Rect.unit (s := S16x4096) (k0_off9 L) S1x512.size (k0_off9_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off9_eq L) _ _)

omit [FloatOps F] in
theorem set_q0_0 : (q0_0 L).view.set = runSet L 0 64 (by omega) := by
  show (((shW).view.slice (Rect.unit (s := S16x4096) (k0_off10 L) S1x64.size (k0_off10_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off10_eq L) _ _)
omit [FloatOps F] in
theorem set_q0_1 : (q0_1 L).view.set = runSet L 512 64 (by omega) := by
  show (((shW).view.slice (Rect.unit (s := S16x4096) (k0_off11 L) S1x64.size (k0_off11_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off11_eq L) _ _)
omit [FloatOps F] in
theorem set_q0_2 : (q0_2 L).view.set = runSet L 1024 64 (by omega) := by
  show (((shW).view.slice (Rect.unit (s := S16x4096) (k0_off12 L) S1x64.size (k0_off12_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off12_eq L) _ _)
omit [FloatOps F] in
theorem set_q0_3 : (q0_3 L).view.set = runSet L 1536 64 (by omega) := by
  show (((shW).view.slice (Rect.unit (s := S16x4096) (k0_off13 L) S1x64.size (k0_off13_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off13_eq L) _ _)
omit [FloatOps F] in
theorem set_q0_4 : (q0_4 L).view.set = runSet L 2048 64 (by omega) := by
  show (((shW).view.slice (Rect.unit (s := S16x4096) (k0_off14 L) S1x64.size (k0_off14_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off14_eq L) _ _)
omit [FloatOps F] in
theorem set_q0_5 : (q0_5 L).view.set = runSet L 2560 64 (by omega) := by
  show (((shW).view.slice (Rect.unit (s := S16x4096) (k0_off15 L) S1x64.size (k0_off15_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off15_eq L) _ _)
omit [FloatOps F] in
theorem set_q0_6 : (q0_6 L).view.set = runSet L 3072 64 (by omega) := by
  show (((shW).view.slice (Rect.unit (s := S16x4096) (k0_off16 L) S1x64.size (k0_off16_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off16_eq L) _ _)
omit [FloatOps F] in
theorem set_q0_7 : (q0_7 L).view.set = runSet L 3584 64 (by omega) := by
  show (((shW).view.slice (Rect.unit (s := S16x4096) (k0_off17 L) S1x64.size (k0_off17_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off17_eq L) _ _)
omit [FloatOps F] in
theorem set_q1_0 : (q1_0 L).view.set = runSet L 64 64 (by omega) := by
  show (((shW).view.slice (Rect.unit (s := S16x4096) (k0_off18 L) S1x64.size (k0_off18_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off18_eq L) _ _)
omit [FloatOps F] in
theorem set_q1_1 : (q1_1 L).view.set = runSet L 576 64 (by omega) := by
  show (((shW).view.slice (Rect.unit (s := S16x4096) (k0_off19 L) S1x64.size (k0_off19_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off19_eq L) _ _)
omit [FloatOps F] in
theorem set_q1_2 : (q1_2 L).view.set = runSet L 1088 64 (by omega) := by
  show (((shW).view.slice (Rect.unit (s := S16x4096) (k0_off20 L) S1x64.size (k0_off20_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off20_eq L) _ _)
omit [FloatOps F] in
theorem set_q1_3 : (q1_3 L).view.set = runSet L 1600 64 (by omega) := by
  show (((shW).view.slice (Rect.unit (s := S16x4096) (k0_off21 L) S1x64.size (k0_off21_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off21_eq L) _ _)
omit [FloatOps F] in
theorem set_q1_4 : (q1_4 L).view.set = runSet L 2112 64 (by omega) := by
  show (((shW).view.slice (Rect.unit (s := S16x4096) (k0_off22 L) S1x64.size (k0_off22_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off22_eq L) _ _)
omit [FloatOps F] in
theorem set_q1_5 : (q1_5 L).view.set = runSet L 2624 64 (by omega) := by
  show (((shW).view.slice (Rect.unit (s := S16x4096) (k0_off23 L) S1x64.size (k0_off23_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off23_eq L) _ _)
omit [FloatOps F] in
theorem set_q1_6 : (q1_6 L).view.set = runSet L 3136 64 (by omega) := by
  show (((shW).view.slice (Rect.unit (s := S16x4096) (k0_off24 L) S1x64.size (k0_off24_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off24_eq L) _ _)
omit [FloatOps F] in
theorem set_q1_7 : (q1_7 L).view.set = runSet L 3648 64 (by omega) := by
  show (((shW).view.slice (Rect.unit (s := S16x4096) (k0_off25 L) S1x64.size (k0_off25_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off25_eq L) _ _)
omit [FloatOps F] in
theorem set_q2_0 : (q2_0 L).view.set = runSet L 128 64 (by omega) := by
  show (((shW).view.slice (Rect.unit (s := S16x4096) (k0_off51 L) S1x64.size (k0_off51_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off51_eq L) _ _)
omit [FloatOps F] in
theorem set_q2_1 : (q2_1 L).view.set = runSet L 640 64 (by omega) := by
  show (((shW).view.slice (Rect.unit (s := S16x4096) (k0_off52 L) S1x64.size (k0_off52_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off52_eq L) _ _)
omit [FloatOps F] in
theorem set_q2_2 : (q2_2 L).view.set = runSet L 1152 64 (by omega) := by
  show (((shW).view.slice (Rect.unit (s := S16x4096) (k0_off53 L) S1x64.size (k0_off53_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off53_eq L) _ _)
omit [FloatOps F] in
theorem set_q2_3 : (q2_3 L).view.set = runSet L 1664 64 (by omega) := by
  show (((shW).view.slice (Rect.unit (s := S16x4096) (k0_off54 L) S1x64.size (k0_off54_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off54_eq L) _ _)
omit [FloatOps F] in
theorem set_q2_4 : (q2_4 L).view.set = runSet L 2176 64 (by omega) := by
  show (((shW).view.slice (Rect.unit (s := S16x4096) (k0_off55 L) S1x64.size (k0_off55_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off55_eq L) _ _)
omit [FloatOps F] in
theorem set_q2_5 : (q2_5 L).view.set = runSet L 2688 64 (by omega) := by
  show (((shW).view.slice (Rect.unit (s := S16x4096) (k0_off56 L) S1x64.size (k0_off56_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off56_eq L) _ _)
omit [FloatOps F] in
theorem set_q2_6 : (q2_6 L).view.set = runSet L 3200 64 (by omega) := by
  show (((shW).view.slice (Rect.unit (s := S16x4096) (k0_off57 L) S1x64.size (k0_off57_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off57_eq L) _ _)
omit [FloatOps F] in
theorem set_q2_7 : (q2_7 L).view.set = runSet L 3712 64 (by omega) := by
  show (((shW).view.slice (Rect.unit (s := S16x4096) (k0_off58 L) S1x64.size (k0_off58_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off58_eq L) _ _)
omit [FloatOps F] in
theorem set_q3_0 : (q3_0 L).view.set = runSet L 192 64 (by omega) := by
  show (((shW).view.slice (Rect.unit (s := S16x4096) (k0_off83 L) S1x64.size (k0_off83_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off83_eq L) _ _)
omit [FloatOps F] in
theorem set_q3_1 : (q3_1 L).view.set = runSet L 704 64 (by omega) := by
  show (((shW).view.slice (Rect.unit (s := S16x4096) (k0_off84 L) S1x64.size (k0_off84_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off84_eq L) _ _)
omit [FloatOps F] in
theorem set_q3_2 : (q3_2 L).view.set = runSet L 1216 64 (by omega) := by
  show (((shW).view.slice (Rect.unit (s := S16x4096) (k0_off85 L) S1x64.size (k0_off85_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off85_eq L) _ _)
omit [FloatOps F] in
theorem set_q3_3 : (q3_3 L).view.set = runSet L 1728 64 (by omega) := by
  show (((shW).view.slice (Rect.unit (s := S16x4096) (k0_off86 L) S1x64.size (k0_off86_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off86_eq L) _ _)
omit [FloatOps F] in
theorem set_q3_4 : (q3_4 L).view.set = runSet L 2240 64 (by omega) := by
  show (((shW).view.slice (Rect.unit (s := S16x4096) (k0_off87 L) S1x64.size (k0_off87_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off87_eq L) _ _)
omit [FloatOps F] in
theorem set_q3_5 : (q3_5 L).view.set = runSet L 2752 64 (by omega) := by
  show (((shW).view.slice (Rect.unit (s := S16x4096) (k0_off88 L) S1x64.size (k0_off88_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off88_eq L) _ _)
omit [FloatOps F] in
theorem set_q3_6 : (q3_6 L).view.set = runSet L 3264 64 (by omega) := by
  show (((shW).view.slice (Rect.unit (s := S16x4096) (k0_off89 L) S1x64.size (k0_off89_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off89_eq L) _ _)
omit [FloatOps F] in
theorem set_q3_7 : (q3_7 L).view.set = runSet L 3776 64 (by omega) := by
  show (((shW).view.slice (Rect.unit (s := S16x4096) (k0_off90 L) S1x64.size (k0_off90_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off90_eq L) _ _)
omit [FloatOps F] in
theorem set_q4_0 : (q4_0 L).view.set = runSet L 256 64 (by omega) := by
  show (((shW).view.slice (Rect.unit (s := S16x4096) (k0_off115 L) S1x64.size (k0_off115_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off115_eq L) _ _)
omit [FloatOps F] in
theorem set_q4_1 : (q4_1 L).view.set = runSet L 768 64 (by omega) := by
  show (((shW).view.slice (Rect.unit (s := S16x4096) (k0_off116 L) S1x64.size (k0_off116_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off116_eq L) _ _)
omit [FloatOps F] in
theorem set_q4_2 : (q4_2 L).view.set = runSet L 1280 64 (by omega) := by
  show (((shW).view.slice (Rect.unit (s := S16x4096) (k0_off117 L) S1x64.size (k0_off117_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off117_eq L) _ _)
omit [FloatOps F] in
theorem set_q4_3 : (q4_3 L).view.set = runSet L 1792 64 (by omega) := by
  show (((shW).view.slice (Rect.unit (s := S16x4096) (k0_off118 L) S1x64.size (k0_off118_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off118_eq L) _ _)
omit [FloatOps F] in
theorem set_q4_4 : (q4_4 L).view.set = runSet L 2304 64 (by omega) := by
  show (((shW).view.slice (Rect.unit (s := S16x4096) (k0_off119 L) S1x64.size (k0_off119_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off119_eq L) _ _)
omit [FloatOps F] in
theorem set_q4_5 : (q4_5 L).view.set = runSet L 2816 64 (by omega) := by
  show (((shW).view.slice (Rect.unit (s := S16x4096) (k0_off120 L) S1x64.size (k0_off120_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off120_eq L) _ _)
omit [FloatOps F] in
theorem set_q4_6 : (q4_6 L).view.set = runSet L 3328 64 (by omega) := by
  show (((shW).view.slice (Rect.unit (s := S16x4096) (k0_off121 L) S1x64.size (k0_off121_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off121_eq L) _ _)
omit [FloatOps F] in
theorem set_q4_7 : (q4_7 L).view.set = runSet L 3840 64 (by omega) := by
  show (((shW).view.slice (Rect.unit (s := S16x4096) (k0_off122 L) S1x64.size (k0_off122_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off122_eq L) _ _)
omit [FloatOps F] in
theorem set_q5_0 : (q5_0 L).view.set = runSet L 320 64 (by omega) := by
  show (((shW).view.slice (Rect.unit (s := S16x4096) (k0_off147 L) S1x64.size (k0_off147_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off147_eq L) _ _)
omit [FloatOps F] in
theorem set_q5_1 : (q5_1 L).view.set = runSet L 832 64 (by omega) := by
  show (((shW).view.slice (Rect.unit (s := S16x4096) (k0_off148 L) S1x64.size (k0_off148_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off148_eq L) _ _)
omit [FloatOps F] in
theorem set_q5_2 : (q5_2 L).view.set = runSet L 1344 64 (by omega) := by
  show (((shW).view.slice (Rect.unit (s := S16x4096) (k0_off149 L) S1x64.size (k0_off149_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off149_eq L) _ _)
omit [FloatOps F] in
theorem set_q5_3 : (q5_3 L).view.set = runSet L 1856 64 (by omega) := by
  show (((shW).view.slice (Rect.unit (s := S16x4096) (k0_off150 L) S1x64.size (k0_off150_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off150_eq L) _ _)
omit [FloatOps F] in
theorem set_q5_4 : (q5_4 L).view.set = runSet L 2368 64 (by omega) := by
  show (((shW).view.slice (Rect.unit (s := S16x4096) (k0_off151 L) S1x64.size (k0_off151_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off151_eq L) _ _)
omit [FloatOps F] in
theorem set_q5_5 : (q5_5 L).view.set = runSet L 2880 64 (by omega) := by
  show (((shW).view.slice (Rect.unit (s := S16x4096) (k0_off152 L) S1x64.size (k0_off152_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off152_eq L) _ _)
omit [FloatOps F] in
theorem set_q5_6 : (q5_6 L).view.set = runSet L 3392 64 (by omega) := by
  show (((shW).view.slice (Rect.unit (s := S16x4096) (k0_off153 L) S1x64.size (k0_off153_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off153_eq L) _ _)
omit [FloatOps F] in
theorem set_q5_7 : (q5_7 L).view.set = runSet L 3904 64 (by omega) := by
  show (((shW).view.slice (Rect.unit (s := S16x4096) (k0_off154 L) S1x64.size (k0_off154_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off154_eq L) _ _)
omit [FloatOps F] in
theorem set_q6_0 : (q6_0 L).view.set = runSet L 384 64 (by omega) := by
  show (((shW).view.slice (Rect.unit (s := S16x4096) (k0_off179 L) S1x64.size (k0_off179_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off179_eq L) _ _)
omit [FloatOps F] in
theorem set_q6_1 : (q6_1 L).view.set = runSet L 896 64 (by omega) := by
  show (((shW).view.slice (Rect.unit (s := S16x4096) (k0_off180 L) S1x64.size (k0_off180_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off180_eq L) _ _)
omit [FloatOps F] in
theorem set_q6_2 : (q6_2 L).view.set = runSet L 1408 64 (by omega) := by
  show (((shW).view.slice (Rect.unit (s := S16x4096) (k0_off181 L) S1x64.size (k0_off181_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off181_eq L) _ _)
omit [FloatOps F] in
theorem set_q6_3 : (q6_3 L).view.set = runSet L 1920 64 (by omega) := by
  show (((shW).view.slice (Rect.unit (s := S16x4096) (k0_off182 L) S1x64.size (k0_off182_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off182_eq L) _ _)
omit [FloatOps F] in
theorem set_q6_4 : (q6_4 L).view.set = runSet L 2432 64 (by omega) := by
  show (((shW).view.slice (Rect.unit (s := S16x4096) (k0_off183 L) S1x64.size (k0_off183_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off183_eq L) _ _)
omit [FloatOps F] in
theorem set_q6_5 : (q6_5 L).view.set = runSet L 2944 64 (by omega) := by
  show (((shW).view.slice (Rect.unit (s := S16x4096) (k0_off184 L) S1x64.size (k0_off184_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off184_eq L) _ _)
omit [FloatOps F] in
theorem set_q6_6 : (q6_6 L).view.set = runSet L 3456 64 (by omega) := by
  show (((shW).view.slice (Rect.unit (s := S16x4096) (k0_off185 L) S1x64.size (k0_off185_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off185_eq L) _ _)
omit [FloatOps F] in
theorem set_q6_7 : (q6_7 L).view.set = runSet L 3968 64 (by omega) := by
  show (((shW).view.slice (Rect.unit (s := S16x4096) (k0_off186 L) S1x64.size (k0_off186_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off186_eq L) _ _)
omit [FloatOps F] in
theorem set_q7_0 : (q7_0 L).view.set = runSet L 448 64 (by omega) := by
  show (((shW).view.slice (Rect.unit (s := S16x4096) (k0_off211 L) S1x64.size (k0_off211_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off211_eq L) _ _)
omit [FloatOps F] in
theorem set_q7_1 : (q7_1 L).view.set = runSet L 960 64 (by omega) := by
  show (((shW).view.slice (Rect.unit (s := S16x4096) (k0_off212 L) S1x64.size (k0_off212_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off212_eq L) _ _)
omit [FloatOps F] in
theorem set_q7_2 : (q7_2 L).view.set = runSet L 1472 64 (by omega) := by
  show (((shW).view.slice (Rect.unit (s := S16x4096) (k0_off213 L) S1x64.size (k0_off213_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off213_eq L) _ _)
omit [FloatOps F] in
theorem set_q7_3 : (q7_3 L).view.set = runSet L 1984 64 (by omega) := by
  show (((shW).view.slice (Rect.unit (s := S16x4096) (k0_off214 L) S1x64.size (k0_off214_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off214_eq L) _ _)
omit [FloatOps F] in
theorem set_q7_4 : (q7_4 L).view.set = runSet L 2496 64 (by omega) := by
  show (((shW).view.slice (Rect.unit (s := S16x4096) (k0_off215 L) S1x64.size (k0_off215_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off215_eq L) _ _)
omit [FloatOps F] in
theorem set_q7_5 : (q7_5 L).view.set = runSet L 3008 64 (by omega) := by
  show (((shW).view.slice (Rect.unit (s := S16x4096) (k0_off216 L) S1x64.size (k0_off216_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off216_eq L) _ _)
omit [FloatOps F] in
theorem set_q7_6 : (q7_6 L).view.set = runSet L 3520 64 (by omega) := by
  show (((shW).view.slice (Rect.unit (s := S16x4096) (k0_off217 L) S1x64.size (k0_off217_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off217_eq L) _ _)
omit [FloatOps F] in
theorem set_q7_7 : (q7_7 L).view.set = runSet L 4032 64 (by omega) := by
  show (((shW).view.slice (Rect.unit (s := S16x4096) (k0_off218 L) S1x64.size (k0_off218_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off218_eq L) _ _)

omit [FloatOps F] in
theorem univ8 : (Finset.univ : Finset (Fin 8)) = {0, 1, 2, 3, 4, 5, 6, 7} := by decide

omit [FloatOps F] in
/-- Piece 0 of the row is its eight runs of 64 words, at the same contents. -/
theorem split_sh0 (f : Buf (Elt F) ((sh0P L).view.loc (thr d L))) :
    ((sh0P L).view.loc (thr d L) ↦[(sh0P L).view.set]{fullShare} f : sProp 𝕄)
      = iprop(((q0_0 L).view.loc (thr d L) ↦[(q0_0 L).view.set]{fullShare} f)
          ∗ ((q1_0 L).view.loc (thr d L) ↦[(q1_0 L).view.set]{fullShare} f)
          ∗ ((q2_0 L).view.loc (thr d L) ↦[(q2_0 L).view.set]{fullShare} f)
          ∗ ((q3_0 L).view.loc (thr d L) ↦[(q3_0 L).view.set]{fullShare} f)
          ∗ ((q4_0 L).view.loc (thr d L) ↦[(q4_0 L).view.set]{fullShare} f)
          ∗ ((q5_0 L).view.loc (thr d L) ↦[(q5_0 L).view.set]{fullShare} f)
          ∗ ((q6_0 L).view.loc (thr d L) ↦[(q6_0 L).view.set]{fullShare} f)
          ∗ ((q7_0 L).view.loc (thr d L) ↦[(q7_0 L).view.set]{fullShare} f)) := by
  rw [set_sh0P, set_q0_0, set_q1_0, set_q2_0, set_q3_0, set_q4_0, set_q5_0, set_q6_0, set_q7_0]
  unfold runSet
  rw [row_chunks (inb_row L 0 512 (by omega)) (fun k => inb_row L (0 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 1 of the row is its eight runs of 64 words, at the same contents. -/
theorem split_sh1 (f : Buf (Elt F) ((sh1P L).view.loc (thr d L))) :
    ((sh1P L).view.loc (thr d L) ↦[(sh1P L).view.set]{fullShare} f : sProp 𝕄)
      = iprop(((q0_1 L).view.loc (thr d L) ↦[(q0_1 L).view.set]{fullShare} f)
          ∗ ((q1_1 L).view.loc (thr d L) ↦[(q1_1 L).view.set]{fullShare} f)
          ∗ ((q2_1 L).view.loc (thr d L) ↦[(q2_1 L).view.set]{fullShare} f)
          ∗ ((q3_1 L).view.loc (thr d L) ↦[(q3_1 L).view.set]{fullShare} f)
          ∗ ((q4_1 L).view.loc (thr d L) ↦[(q4_1 L).view.set]{fullShare} f)
          ∗ ((q5_1 L).view.loc (thr d L) ↦[(q5_1 L).view.set]{fullShare} f)
          ∗ ((q6_1 L).view.loc (thr d L) ↦[(q6_1 L).view.set]{fullShare} f)
          ∗ ((q7_1 L).view.loc (thr d L) ↦[(q7_1 L).view.set]{fullShare} f)) := by
  rw [set_sh1P, set_q0_1, set_q1_1, set_q2_1, set_q3_1, set_q4_1, set_q5_1, set_q6_1, set_q7_1]
  unfold runSet
  rw [row_chunks (inb_row L 512 512 (by omega)) (fun k => inb_row L (512 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 2 of the row is its eight runs of 64 words, at the same contents. -/
theorem split_sh2 (f : Buf (Elt F) ((sh2P L).view.loc (thr d L))) :
    ((sh2P L).view.loc (thr d L) ↦[(sh2P L).view.set]{fullShare} f : sProp 𝕄)
      = iprop(((q0_2 L).view.loc (thr d L) ↦[(q0_2 L).view.set]{fullShare} f)
          ∗ ((q1_2 L).view.loc (thr d L) ↦[(q1_2 L).view.set]{fullShare} f)
          ∗ ((q2_2 L).view.loc (thr d L) ↦[(q2_2 L).view.set]{fullShare} f)
          ∗ ((q3_2 L).view.loc (thr d L) ↦[(q3_2 L).view.set]{fullShare} f)
          ∗ ((q4_2 L).view.loc (thr d L) ↦[(q4_2 L).view.set]{fullShare} f)
          ∗ ((q5_2 L).view.loc (thr d L) ↦[(q5_2 L).view.set]{fullShare} f)
          ∗ ((q6_2 L).view.loc (thr d L) ↦[(q6_2 L).view.set]{fullShare} f)
          ∗ ((q7_2 L).view.loc (thr d L) ↦[(q7_2 L).view.set]{fullShare} f)) := by
  rw [set_sh2P, set_q0_2, set_q1_2, set_q2_2, set_q3_2, set_q4_2, set_q5_2, set_q6_2, set_q7_2]
  unfold runSet
  rw [row_chunks (inb_row L 1024 512 (by omega)) (fun k => inb_row L (1024 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 3 of the row is its eight runs of 64 words, at the same contents. -/
theorem split_sh3 (f : Buf (Elt F) ((sh3P L).view.loc (thr d L))) :
    ((sh3P L).view.loc (thr d L) ↦[(sh3P L).view.set]{fullShare} f : sProp 𝕄)
      = iprop(((q0_3 L).view.loc (thr d L) ↦[(q0_3 L).view.set]{fullShare} f)
          ∗ ((q1_3 L).view.loc (thr d L) ↦[(q1_3 L).view.set]{fullShare} f)
          ∗ ((q2_3 L).view.loc (thr d L) ↦[(q2_3 L).view.set]{fullShare} f)
          ∗ ((q3_3 L).view.loc (thr d L) ↦[(q3_3 L).view.set]{fullShare} f)
          ∗ ((q4_3 L).view.loc (thr d L) ↦[(q4_3 L).view.set]{fullShare} f)
          ∗ ((q5_3 L).view.loc (thr d L) ↦[(q5_3 L).view.set]{fullShare} f)
          ∗ ((q6_3 L).view.loc (thr d L) ↦[(q6_3 L).view.set]{fullShare} f)
          ∗ ((q7_3 L).view.loc (thr d L) ↦[(q7_3 L).view.set]{fullShare} f)) := by
  rw [set_sh3P, set_q0_3, set_q1_3, set_q2_3, set_q3_3, set_q4_3, set_q5_3, set_q6_3, set_q7_3]
  unfold runSet
  rw [row_chunks (inb_row L 1536 512 (by omega)) (fun k => inb_row L (1536 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 4 of the row is its eight runs of 64 words, at the same contents. -/
theorem split_sh4 (f : Buf (Elt F) ((sh4P L).view.loc (thr d L))) :
    ((sh4P L).view.loc (thr d L) ↦[(sh4P L).view.set]{fullShare} f : sProp 𝕄)
      = iprop(((q0_4 L).view.loc (thr d L) ↦[(q0_4 L).view.set]{fullShare} f)
          ∗ ((q1_4 L).view.loc (thr d L) ↦[(q1_4 L).view.set]{fullShare} f)
          ∗ ((q2_4 L).view.loc (thr d L) ↦[(q2_4 L).view.set]{fullShare} f)
          ∗ ((q3_4 L).view.loc (thr d L) ↦[(q3_4 L).view.set]{fullShare} f)
          ∗ ((q4_4 L).view.loc (thr d L) ↦[(q4_4 L).view.set]{fullShare} f)
          ∗ ((q5_4 L).view.loc (thr d L) ↦[(q5_4 L).view.set]{fullShare} f)
          ∗ ((q6_4 L).view.loc (thr d L) ↦[(q6_4 L).view.set]{fullShare} f)
          ∗ ((q7_4 L).view.loc (thr d L) ↦[(q7_4 L).view.set]{fullShare} f)) := by
  rw [set_sh4P, set_q0_4, set_q1_4, set_q2_4, set_q3_4, set_q4_4, set_q5_4, set_q6_4, set_q7_4]
  unfold runSet
  rw [row_chunks (inb_row L 2048 512 (by omega)) (fun k => inb_row L (2048 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 5 of the row is its eight runs of 64 words, at the same contents. -/
theorem split_sh5 (f : Buf (Elt F) ((sh5P L).view.loc (thr d L))) :
    ((sh5P L).view.loc (thr d L) ↦[(sh5P L).view.set]{fullShare} f : sProp 𝕄)
      = iprop(((q0_5 L).view.loc (thr d L) ↦[(q0_5 L).view.set]{fullShare} f)
          ∗ ((q1_5 L).view.loc (thr d L) ↦[(q1_5 L).view.set]{fullShare} f)
          ∗ ((q2_5 L).view.loc (thr d L) ↦[(q2_5 L).view.set]{fullShare} f)
          ∗ ((q3_5 L).view.loc (thr d L) ↦[(q3_5 L).view.set]{fullShare} f)
          ∗ ((q4_5 L).view.loc (thr d L) ↦[(q4_5 L).view.set]{fullShare} f)
          ∗ ((q5_5 L).view.loc (thr d L) ↦[(q5_5 L).view.set]{fullShare} f)
          ∗ ((q6_5 L).view.loc (thr d L) ↦[(q6_5 L).view.set]{fullShare} f)
          ∗ ((q7_5 L).view.loc (thr d L) ↦[(q7_5 L).view.set]{fullShare} f)) := by
  rw [set_sh5P, set_q0_5, set_q1_5, set_q2_5, set_q3_5, set_q4_5, set_q5_5, set_q6_5, set_q7_5]
  unfold runSet
  rw [row_chunks (inb_row L 2560 512 (by omega)) (fun k => inb_row L (2560 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 6 of the row is its eight runs of 64 words, at the same contents. -/
theorem split_sh6 (f : Buf (Elt F) ((sh6P L).view.loc (thr d L))) :
    ((sh6P L).view.loc (thr d L) ↦[(sh6P L).view.set]{fullShare} f : sProp 𝕄)
      = iprop(((q0_6 L).view.loc (thr d L) ↦[(q0_6 L).view.set]{fullShare} f)
          ∗ ((q1_6 L).view.loc (thr d L) ↦[(q1_6 L).view.set]{fullShare} f)
          ∗ ((q2_6 L).view.loc (thr d L) ↦[(q2_6 L).view.set]{fullShare} f)
          ∗ ((q3_6 L).view.loc (thr d L) ↦[(q3_6 L).view.set]{fullShare} f)
          ∗ ((q4_6 L).view.loc (thr d L) ↦[(q4_6 L).view.set]{fullShare} f)
          ∗ ((q5_6 L).view.loc (thr d L) ↦[(q5_6 L).view.set]{fullShare} f)
          ∗ ((q6_6 L).view.loc (thr d L) ↦[(q6_6 L).view.set]{fullShare} f)
          ∗ ((q7_6 L).view.loc (thr d L) ↦[(q7_6 L).view.set]{fullShare} f)) := by
  rw [set_sh6P, set_q0_6, set_q1_6, set_q2_6, set_q3_6, set_q4_6, set_q5_6, set_q6_6, set_q7_6]
  unfold runSet
  rw [row_chunks (inb_row L 3072 512 (by omega)) (fun k => inb_row L (3072 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 7 of the row is its eight runs of 64 words, at the same contents. -/
theorem split_sh7 (f : Buf (Elt F) ((sh7P L).view.loc (thr d L))) :
    ((sh7P L).view.loc (thr d L) ↦[(sh7P L).view.set]{fullShare} f : sProp 𝕄)
      = iprop(((q0_7 L).view.loc (thr d L) ↦[(q0_7 L).view.set]{fullShare} f)
          ∗ ((q1_7 L).view.loc (thr d L) ↦[(q1_7 L).view.set]{fullShare} f)
          ∗ ((q2_7 L).view.loc (thr d L) ↦[(q2_7 L).view.set]{fullShare} f)
          ∗ ((q3_7 L).view.loc (thr d L) ↦[(q3_7 L).view.set]{fullShare} f)
          ∗ ((q4_7 L).view.loc (thr d L) ↦[(q4_7 L).view.set]{fullShare} f)
          ∗ ((q5_7 L).view.loc (thr d L) ↦[(q5_7 L).view.set]{fullShare} f)
          ∗ ((q6_7 L).view.loc (thr d L) ↦[(q6_7 L).view.set]{fullShare} f)
          ∗ ((q7_7 L).view.loc (thr d L) ↦[(q7_7 L).view.set]{fullShare} f)) := by
  rw [set_sh7P, set_q0_7, set_q1_7, set_q2_7, set_q3_7, set_q4_7, set_q5_7, set_q6_7, set_q7_7]
  unfold runSet
  rw [row_chunks (inb_row L 3584 512 (by omega)) (fun k => inb_row L (3584 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

end Sets

end Cert.Proof.KI

end
-- ==== Proof.KI.LaunchSets.lean ====
/-
  The element sets of the lookup kernel's operands, in closed form, and how the tasks' sets tile each array.

  Task (core c, subcore i) has number w = 2 i + c. Of an index column (16384 words) it reads the 512 words from
  512 w = 1024 i + 512 c; of the flat result (4194304 entries) it writes the 131072 entries from
  131072 w = 262144 i + 131072 c, as eight chunks of 16384; of its SparseCore's shared scratch (16 rows of 4096
  words) it is handed row i, as eight pieces of 512 words. The thirty-two runs of a column, the thirty-two slabs of
  the result and the 16 x 8 pieces of a shared scratch are pairwise disjoint and cover their arrays.
-/
import proofs.«204821_g30846455120635_fold_wed_m_1292_33_alg».proof.Proof.KI.Setup
import proofs.«204821_g30846455120635_fold_wed_m_1292_33_alg».proof.Proof.KI.Tile
import proofs.«204821_g30846455120635_fold_wed_m_1292_33_alg».proof.Proof.KI.TileSets
import proofs.«204821_g30846455120635_fold_wed_m_1292_33_alg».proof.Proof.LibRowChunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

open Cert.LibRowChunks

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_zero (c : Fin (grid0.bound 0)) (s : Fin (grid0.bound 1)) : (coordsV c s 0).val = c.val := rfl
theorem coordsV_one (c : Fin (grid0.bound 0)) (s : Fin (grid0.bound 1)) : (coordsV c s 1).val = s.val := rfl

theorem L0_lt (L : grid0.Coords) : (L 0).val < 2 := (L 0).isLt
theorem L1_lt (L : grid0.Coords) : (L 1).val < 16 := (L 1).isLt

/-! ## The closed forms -/

theorem inb_col (L : grid0.Coords) :
    ∀ a, (![1024 * (L 1).val + 512 * (L 0).val] : Fin 1 → Nat) a + (![512] : Fin 1 → Nat) a ≤ S16384.size a :=
  Rect.inb₁ (d := ![16384]) (show 1024 * (L 1).val + 512 * (L 0).val + 512 ≤ 16384 by have := L0_lt L; have := L1_lt L; omega)

/-- The task's 512 words of an index column. -/
abbrev colSet (L : grid0.Coords) : Finset S16384.Idx :=
  (Rect.unit (s := S16384) ![1024 * (L 1).val + 512 * (L 0).val] ![512] (inb_col L)).set

theorem inb_slab (L : grid0.Coords) :
    ∀ a, (![262144 * (L 1).val + 131072 * (L 0).val] : Fin 1 → Nat) a + (![131072] : Fin 1 → Nat) a ≤ S4194304.size a :=
  Rect.inb₁ (d := ![4194304]) (show 262144 * (L 1).val + 131072 * (L 0).val + 131072 ≤ 4194304 by have := L0_lt L; have := L1_lt L; omega)

/-- The task's slab of the flat result: 512 rows of 256 entries. -/
abbrev slabSet (L : grid0.Coords) : Finset S4194304.Idx :=
  (Rect.unit (s := S4194304) ![262144 * (L 1).val + 131072 * (L 0).val] ![131072] (inb_slab L)).set

theorem inb_chunk (L : grid0.Coords) (k : Fin 8) :
    ∀ a, (![262144 * (L 1).val + 131072 * (L 0).val + 16384 * k.val] : Fin 1 → Nat) a + (![16384] : Fin 1 → Nat) a ≤ S4194304.size a :=
  Rect.inb₁ (d := ![4194304]) (show 262144 * (L 1).val + 131072 * (L 0).val + 16384 * k.val + 16384 ≤ 4194304 by
    have := L0_lt L; have := L1_lt L; have := k.isLt; omega)

/-- Chunk `k` of the slab: 64 rows of 256 entries. -/
abbrev chunkSet (L : grid0.Coords) (k : Fin 8) : Finset S4194304.Idx :=
  (Rect.unit (s := S4194304) ![262144 * (L 1).val + 131072 * (L 0).val + 16384 * k.val] ![16384] (inb_chunk L k)).set

section Closed
variable (L : grid0.Coords)

theorem set_c0S : (c0S L).view.set = colSet L := by
  show ((View.whole (main_arg0_scv : Ref sig .scVector)).slice _).set = _
  rw [View.set_slice]
  exact Finset.map_refl.trans (set_unit_congr (k0_off2_eq L) _ _)
theorem set_c1S : (c1S L).view.set = colSet L := by
  show ((View.whole (main_arg1_scv : Ref sig .scVector)).slice _).set = _
  rw [View.set_slice]
  exact Finset.map_refl.trans (set_unit_congr (k0_off2_eq L) _ _)
theorem set_c2S : (c2S L).view.set = colSet L := by
  show ((View.whole (main_arg2_scv : Ref sig .scVector)).slice _).set = _
  rw [View.set_slice]
  exact Finset.map_refl.trans (set_unit_congr (k0_off2_eq L) _ _)
theorem set_c3S : (c3S L).view.set = colSet L := by
  show ((View.whole (main_arg3_scv : Ref sig .scVector)).slice _).set = _
  rw [View.set_slice]
  exact Finset.map_refl.trans (set_unit_congr (k0_off2_eq L) _ _)
theorem set_c4S : (c4S L).view.set = colSet L := by
  show ((View.whole (main_arg4_scv : Ref sig .scVector)).slice _).set = _
  rw [View.set_slice]
  exact Finset.map_refl.trans (set_unit_congr (k0_off2_eq L) _ _)
theorem set_c5S : (c5S L).view.set = colSet L := by
  show ((View.whole (main_arg5_scv : Ref sig .scVector)).slice _).set = _
  rw [View.set_slice]
  exact Finset.map_refl.trans (set_unit_congr (k0_off2_eq L) _ _)
theorem set_c6S : (c6S L).view.set = colSet L := by
  show ((View.whole (main_arg6_scv : Ref sig .scVector)).slice _).set = _
  rw [View.set_slice]
  exact Finset.map_refl.trans (set_unit_congr (k0_off2_eq L) _ _)
theorem set_c7S : (c7S L).view.set = colSet L := by
  show ((View.whole (main_arg7_scv : Ref sig .scVector)).slice _).set = _
  rw [View.set_slice]
  exact Finset.map_refl.trans (set_unit_congr (k0_off2_eq L) _ _)

theorem set_ou0S : (ou0S L).view.set = chunkSet L 0 := by
  show ((View.whole (main_v2_scv : Ref sig .scVector)).slice _).set = _
  rw [View.set_slice]
  exact Finset.map_refl.trans (set_unit_congr (k0_off50_eq L 0) _ _)
theorem set_ou1S : (ou1S L).view.set = chunkSet L 1 := by
  show ((View.whole (main_v2_scv : Ref sig .scVector)).slice _).set = _
  rw [View.set_slice]
  exact Finset.map_refl.trans (set_unit_congr (k0_off50_eq L 1) _ _)
theorem set_ou2S : (ou2S L).view.set = chunkSet L 2 := by
  show ((View.whole (main_v2_scv : Ref sig .scVector)).slice _).set = _
  rw [View.set_slice]
  exact Finset.map_refl.trans (set_unit_congr (k0_off50_eq L 2) _ _)
theorem set_ou3S : (ou3S L).view.set = chunkSet L 3 := by
  show ((View.whole (main_v2_scv : Ref sig .scVector)).slice _).set = _
  rw [View.set_slice]
  exact Finset.map_refl.trans (set_unit_congr (k0_off50_eq L 3) _ _)
theorem set_ou4S : (ou4S L).view.set = chunkSet L 4 := by
  show ((View.whole (main_v2_scv : Ref sig .scVector)).slice _).set = _
  rw [View.set_slice]
  exact Finset.map_refl.trans (set_unit_congr (k0_off50_eq L 4) _ _)
theorem set_ou5S : (ou5S L).view.set = chunkSet L 5 := by
  show ((View.whole (main_v2_scv : Ref sig .scVector)).slice _).set = _
  rw [View.set_slice]
  exact Finset.map_refl.trans (set_unit_congr (k0_off50_eq L 5) _ _)
theorem set_ou6S : (ou6S L).view.set = chunkSet L 6 := by
  show ((View.whole (main_v2_scv : Ref sig .scVector)).slice _).set = _
  rw [View.set_slice]
  exact Finset.map_refl.trans (set_unit_congr (k0_off50_eq L 6) _ _)
theorem set_ou7S : (ou7S L).view.set = chunkSet L 7 := by
  show ((View.whole (main_v2_scv : Ref sig .scVector)).slice _).set = _
  rw [View.set_slice]
  exact Finset.map_refl.trans (set_unit_congr (k0_off50_eq L 7) _ _)

/-- The slab is its eight chunks, -/
theorem slab_chunks : slabSet L = (Finset.univ : Finset (Fin 8)).biUnion fun k => chunkSet L k := by
  ext x
  simp only [Finset.mem_biUnion, Finset.mem_univ, true_and, mem_run1]
  constructor
  · rintro ⟨h1, h2⟩
    exact ⟨⟨((x 0).val - (262144 * (L 1).val + 131072 * (L 0).val)) / 16384, by omega⟩,
      by show 262144 * (L 1).val + 131072 * (L 0).val + 16384 * (((x 0).val - (262144 * (L 1).val + 131072 * (L 0).val)) / 16384) ≤ _; omega,
      by show _ < 262144 * (L 1).val + 131072 * (L 0).val + 16384 * (((x 0).val - (262144 * (L 1).val + 131072 * (L 0).val)) / 16384) + 16384; omega⟩
  · rintro ⟨k, h1, h2⟩
    have := k.isLt
    exact ⟨by omega, by omega⟩

/-- which are pairwise disjoint. -/
theorem slab_chunks_disjoint : ∀ k ∈ (Finset.univ : Finset (Fin 8)), ∀ k' ∈ (Finset.univ : Finset (Fin 8)), k ≠ k' →
    Disjoint (chunkSet L k) (chunkSet L k') := by
  intro k _ k' _ hne
  refine Rect.unit_disjoint (0 : Fin 1) ?_
  have : k.val ≠ k'.val := fun e => hne (Fin.ext e)
  show 262144 * (L 1).val + 131072 * (L 0).val + 16384 * k.val + 16384 ≤ 262144 * (L 1).val + 131072 * (L 0).val + 16384 * k'.val
    ∨ 262144 * (L 1).val + 131072 * (L 0).val + 16384 * k'.val + 16384 ≤ 262144 * (L 1).val + 131072 * (L 0).val + 16384 * k.val
  omega

end Closed

/-! ## The tasks' sets tile the arrays -/

/-- The thirty-two tasks, as (core, subcore). -/
abbrev Tsk : Type := Fin 2 × Fin 16
/-- A task's grid point. -/
abbrev LT (p : Tsk) : grid0.Coords := coordsV p.1 p.2

theorem LT_zero (p : Tsk) : ((LT p) 0).val = p.1.val := rfl
theorem LT_one (p : Tsk) : ((LT p) 1).val = p.2.val := rfl

theorem tsk_ne {p p' : Tsk} (h : p ≠ p') : p.1.val ≠ p'.1.val ∨ p.2.val ≠ p'.2.val := by
  by_contra hc
  have h1 : p.1.val = p'.1.val := by by_contra h1; exact hc (Or.inl h1)
  have h2 : p.2.val = p'.2.val := by by_contra h2; exact hc (Or.inr h2)
  exact h (Prod.ext (Fin.ext h1) (Fin.ext h2))

theorem cols_disjoint : ∀ p ∈ (Finset.univ : Finset Tsk), ∀ p' ∈ (Finset.univ : Finset Tsk), p ≠ p' →
    Disjoint (colSet (LT p)) (colSet (LT p')) := by
  intro p _ p' _ hne
  refine Rect.unit_disjoint (0 : Fin 1) ?_
  have h := tsk_ne hne
  have := p.1.isLt; have := p'.1.isLt; have := p.2.isLt; have := p'.2.isLt
  show 1024 * p.2.val + 512 * p.1.val + 512 ≤ 1024 * p'.2.val + 512 * p'.1.val
    ∨ 1024 * p'.2.val + 512 * p'.1.val + 512 ≤ 1024 * p.2.val + 512 * p.1.val
  omega

theorem cols_cover : (Finset.univ : Finset Tsk).biUnion (fun p => colSet (LT p)) = Finset.univ := by
  ext x
  simp only [Finset.mem_biUnion, Finset.mem_univ, true_and, mem_run1, iff_true]
  have hx : (x 0).val < 16384 := (x 0).isLt
  exact ⟨(⟨(x 0).val / 512 % 2, by omega⟩, ⟨(x 0).val / 1024, by omega⟩),
    by show 1024 * ((x 0).val / 1024) + 512 * ((x 0).val / 512 % 2) ≤ _; omega,
    by show _ < 1024 * ((x 0).val / 1024) + 512 * ((x 0).val / 512 % 2) + 512; omega⟩

theorem slabs_disjoint : ∀ p ∈ (Finset.univ : Finset Tsk), ∀ p' ∈ (Finset.univ : Finset Tsk), p ≠ p' →
    Disjoint (slabSet (LT p)) (slabSet (LT p')) := by
  intro p _ p' _ hne
  refine Rect.unit_disjoint (0 : Fin 1) ?_
  have h := tsk_ne hne
  have := p.1.isLt; have := p'.1.isLt; have := p.2.isLt; have := p'.2.isLt
  show 262144 * p.2.val + 131072 * p.1.val + 131072 ≤ 262144 * p'.2.val + 131072 * p'.1.val
    ∨ 262144 * p'.2.val + 131072 * p'.1.val + 131072 ≤ 262144 * p.2.val + 131072 * p.1.val
  omega

theorem slabs_cover : (Finset.univ : Finset Tsk).biUnion (fun p => slabSet (LT p)) = Finset.univ := by
  ext x
  simp only [Finset.mem_biUnion, Finset.mem_univ, true_and, mem_run1, iff_true]
  have hx : (x 0).val < 4194304 := (x 0).isLt
  exact ⟨(⟨(x 0).val / 131072 % 2, by omega⟩, ⟨(x 0).val / 262144, by omega⟩),
    by show 262144 * ((x 0).val / 262144) + 131072 * ((x 0).val / 131072 % 2) ≤ _; omega,
    by show _ < 262144 * ((x 0).val / 262144) + 131072 * ((x 0).val / 131072 % 2) + 131072; omega⟩

/-! ## The shared scratch: sixteen rows of eight pieces -/

/-- The pieces of a shared scratch, as (row, piece). -/
abbrev Pc : Type := Fin 16 × Fin 8

theorem inb_piece (p : Pc) :
    ∀ a, (![p.1.val, 512 * p.2.val] : Fin 2 → Nat) a + (![1, 512] : Fin 2 → Nat) a ≤ S16x4096.size a :=
  Rect.inb₂ (d := ![16, 4096]) (show p.1.val + 1 ≤ 16 from p.1.isLt) (show 512 * p.2.val + 512 ≤ 4096 by have := p.2.isLt; omega)

/-- Piece `j` of row `i`: 512 words from column 512 j. -/
abbrev pieceSet (p : Pc) : Finset S16x4096.Idx :=
  (Rect.unit (s := S16x4096) ![p.1.val, 512 * p.2.val] ![1, 512] (inb_piece p)).set

theorem pc_ne {p p' : Pc} (h : p ≠ p') : p.1.val ≠ p'.1.val ∨ p.2.val ≠ p'.2.val := by
  by_contra hc
  have h1 : p.1.val = p'.1.val := by by_contra h1; exact hc (Or.inl h1)
  have h2 : p.2.val = p'.2.val := by by_contra h2; exact hc (Or.inr h2)
  exact h (Prod.ext (Fin.ext h1) (Fin.ext h2))

theorem pieces_disjoint : ∀ p ∈ (Finset.univ : Finset Pc), ∀ p' ∈ (Finset.univ : Finset Pc), p ≠ p' →
    Disjoint (pieceSet p) (pieceSet p') := by
  intro p _ p' _ hne
  rw [Finset.disjoint_left]
  intro x hx hx'
  rw [mem_run2] at hx hx'
  rcases pc_ne hne with h | h
  · omega
  · omega

theorem pieces_cover : (Finset.univ : Finset Pc).biUnion pieceSet = Finset.univ := by
  ext x
  simp only [Finset.mem_biUnion, Finset.mem_univ, true_and, mem_run2, iff_true]
  have h0 : (x 0).val < 16 := (x 0).isLt
  have h1 : (x 1).val < 4096 := (x 1).isLt
  exact ⟨(⟨(x 0).val, h0⟩, ⟨(x 1).val / 512, by omega⟩), rfl,
    by show 512 * ((x 1).val / 512) ≤ _; omega, by show _ < 512 * ((x 1).val / 512) + 512; omega⟩

/-- A task's piece `j` of its row is piece `j` of row `L 1`. -/
theorem runSet_piece (L : grid0.Coords) (j : Fin 8) (hc : 512 * j.val + 512 ≤ 4096) :
    runSet L (512 * j.val) 512 hc = pieceSet (⟨(L 1).val, L1_lt L⟩, j) := rfl

end Cert.Proof.KI

end
-- ==== Proof.KI.LaunchPay.lean ====
/-
  What the lookup kernel's one SparseCore call carries, and the task's proof as the launch theorem takes it.

  The call hands each SparseCore, for each of its sixteen tasks, the task's 512 words of each index column, a read
  share of the flat table and the task's slab of the flat result; the sequencer adds row i of its shared scratch
  for task i. A task hands the same back with its slab at what the lookup gives.
-/
import proofs.«204821_g30846455120635_fold_wed_m_1292_33_alg».proof.Proof.KI.Pay
import proofs.«204821_g30846455120635_fold_wed_m_1292_33_alg».proof.Proof.KI.HostVal
import proofs.«204821_g30846455120635_fold_wed_m_1292_33_alg».proof.Proof.KI.LaunchSets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)

variable [FloatOps F]

open Idealize.ShloMosaic.Transfers (shareTokN shareDrop shareTok)

/-- Task (core c, subcore i)'s read share of the flat table: a token of SparseCore c's token of the whole. -/
def qtOf (c i : ℕ) : PosShare TreeShare := shareTokN (shareTokN fullShare c) i

/-- The grid point of task (c, i) of the call. -/
abbrev coordsQ (c : Fin ((K (F := F)).nCore 0)) (i : Fin ((K (F := F)).nSub 0)) : grid0.Coords :=
  coordsV ⟨c.val, c.isLt⟩ ⟨i.val, i.isLt⟩

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [univ8, SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

section Parts
variable (d : Dev nD) (L : grid0.Coords)

/-- A task's operands from the call: its words of the columns, its share of the table, its slab of the result. -/
def goB (qt : PosShare TreeShare) (TAB : Buf (Elt F) (tabLoc d)) : sProp 𝕄 :=
  iprop((c0Loc d ↦[colSet L]{fullShare} m (c0Loc d))
      ∗ (c1Loc d ↦[colSet L]{fullShare} m (c1Loc d))
      ∗ (c2Loc d ↦[colSet L]{fullShare} m (c2Loc d))
      ∗ (c3Loc d ↦[colSet L]{fullShare} m (c3Loc d))
      ∗ (c4Loc d ↦[colSet L]{fullShare} m (c4Loc d))
      ∗ (c5Loc d ↦[colSet L]{fullShare} m (c5Loc d))
      ∗ (c6Loc d ↦[colSet L]{fullShare} m (c6Loc d))
      ∗ (c7Loc d ↦[colSet L]{fullShare} m (c7Loc d))
      ∗ (tabLoc d ↦{qt} TAB)
      ∗ (outLoc d ↦[slabSet L]{fullShare} m (outLoc d)))

/-- What it hands back: the same, the slab at what the lookup gives. -/
def tdB (qt : PosShare TreeShare) (TAB : Buf (Elt F) (tabLoc d)) : sProp 𝕄 :=
  iprop((c0Loc d ↦[colSet L]{fullShare} m (c0Loc d))
      ∗ (c1Loc d ↦[colSet L]{fullShare} m (c1Loc d))
      ∗ (c2Loc d ↦[colSet L]{fullShare} m (c2Loc d))
      ∗ (c3Loc d ↦[colSet L]{fullShare} m (c3Loc d))
      ∗ (c4Loc d ↦[colSet L]{fullShare} m (c4Loc d))
      ∗ (c5Loc d ↦[colSet L]{fullShare} m (c5Loc d))
      ∗ (c6Loc d ↦[colSet L]{fullShare} m (c6Loc d))
      ∗ (c7Loc d ↦[colSet L]{fullShare} m (c7Loc d))
      ∗ (tabLoc d ↦{qt} TAB)
      ∗ (outLoc d ↦[slabSet L]{fullShare} OUTof TAB (cols m d)))

/-- The task's row of the shared scratch, as its sequencer hands it over: eight pieces at the same contents. -/
def shGo : sProp 𝕄 :=
  iprop(∃ fsh, ((sh0P L).view.loc (thr d L) ↦[(sh0P L).view.set]{fullShare} fsh)
        ∗ ((sh1P L).view.loc (thr d L) ↦[(sh1P L).view.set]{fullShare} fsh)
        ∗ ((sh2P L).view.loc (thr d L) ↦[(sh2P L).view.set]{fullShare} fsh)
        ∗ ((sh3P L).view.loc (thr d L) ↦[(sh3P L).view.set]{fullShare} fsh)
        ∗ ((sh4P L).view.loc (thr d L) ↦[(sh4P L).view.set]{fullShare} fsh)
        ∗ ((sh5P L).view.loc (thr d L) ↦[(sh5P L).view.set]{fullShare} fsh)
        ∗ ((sh6P L).view.loc (thr d L) ↦[(sh6P L).view.set]{fullShare} fsh)
        ∗ ((sh7P L).view.loc (thr d L) ↦[(sh7P L).view.set]{fullShare} fsh))

/-- The row as the task hands it back: each piece at some contents. -/
def shTd : sProp 𝕄 :=
  iprop((∃ f, (sh0P L).view.loc (thr d L) ↦[(sh0P L).view.set]{fullShare} f)
      ∗ (∃ f, (sh1P L).view.loc (thr d L) ↦[(sh1P L).view.set]{fullShare} f)
      ∗ (∃ f, (sh2P L).view.loc (thr d L) ↦[(sh2P L).view.set]{fullShare} f)
      ∗ (∃ f, (sh3P L).view.loc (thr d L) ↦[(sh3P L).view.set]{fullShare} f)
      ∗ (∃ f, (sh4P L).view.loc (thr d L) ↦[(sh4P L).view.set]{fullShare} f)
      ∗ (∃ f, (sh5P L).view.loc (thr d L) ↦[(sh5P L).view.set]{fullShare} f)
      ∗ (∃ f, (sh6P L).view.loc (thr d L) ↦[(sh6P L).view.set]{fullShare} f)
      ∗ (∃ f, (sh7P L).view.loc (thr d L) ↦[(sh7P L).view.set]{fullShare} f))

omit [FloatOps F] in
theorem pts_c0 (f : Buf (Elt F) (c0Loc d)) :
    ((c0S L).view.loc (thr d L) ↦[(c0S L).view.set]{fullShare} f : sProp 𝕄) = c0Loc d ↦[colSet L]{fullShare} f := by
  rw [set_c0S]
omit [FloatOps F] in
theorem pts_c1 (f : Buf (Elt F) (c1Loc d)) :
    ((c1S L).view.loc (thr d L) ↦[(c1S L).view.set]{fullShare} f : sProp 𝕄) = c1Loc d ↦[colSet L]{fullShare} f := by
  rw [set_c1S]
omit [FloatOps F] in
theorem pts_c2 (f : Buf (Elt F) (c2Loc d)) :
    ((c2S L).view.loc (thr d L) ↦[(c2S L).view.set]{fullShare} f : sProp 𝕄) = c2Loc d ↦[colSet L]{fullShare} f := by
  rw [set_c2S]
omit [FloatOps F] in
theorem pts_c3 (f : Buf (Elt F) (c3Loc d)) :
    ((c3S L).view.loc (thr d L) ↦[(c3S L).view.set]{fullShare} f : sProp 𝕄) = c3Loc d ↦[colSet L]{fullShare} f := by
  rw [set_c3S]
omit [FloatOps F] in
theorem pts_c4 (f : Buf (Elt F) (c4Loc d)) :
    ((c4S L).view.loc (thr d L) ↦[(c4S L).view.set]{fullShare} f : sProp 𝕄) = c4Loc d ↦[colSet L]{fullShare} f := by
  rw [set_c4S]
omit [FloatOps F] in
theorem pts_c5 (f : Buf (Elt F) (c5Loc d)) :
    ((c5S L).view.loc (thr d L) ↦[(c5S L).view.set]{fullShare} f : sProp 𝕄) = c5Loc d ↦[colSet L]{fullShare} f := by
  rw [set_c5S]
omit [FloatOps F] in
theorem pts_c6 (f : Buf (Elt F) (c6Loc d)) :
    ((c6S L).view.loc (thr d L) ↦[(c6S L).view.set]{fullShare} f : sProp 𝕄) = c6Loc d ↦[colSet L]{fullShare} f := by
  rw [set_c6S]
omit [FloatOps F] in
theorem pts_c7 (f : Buf (Elt F) (c7Loc d)) :
    ((c7S L).view.loc (thr d L) ↦[(c7S L).view.set]{fullShare} f : sProp 𝕄) = c7Loc d ↦[colSet L]{fullShare} f := by
  rw [set_c7S]
omit [FloatOps F] in
theorem pts_ou0 (f : Buf (Elt F) (outLoc d)) :
    ((ou0S L).view.loc (thr d L) ↦[(ou0S L).view.set]{fullShare} f : sProp 𝕄) = outLoc d ↦[chunkSet L 0]{fullShare} f := by
  rw [set_ou0S]
omit [FloatOps F] in
theorem pts_ou1 (f : Buf (Elt F) (outLoc d)) :
    ((ou1S L).view.loc (thr d L) ↦[(ou1S L).view.set]{fullShare} f : sProp 𝕄) = outLoc d ↦[chunkSet L 1]{fullShare} f := by
  rw [set_ou1S]
omit [FloatOps F] in
theorem pts_ou2 (f : Buf (Elt F) (outLoc d)) :
    ((ou2S L).view.loc (thr d L) ↦[(ou2S L).view.set]{fullShare} f : sProp 𝕄) = outLoc d ↦[chunkSet L 2]{fullShare} f := by
  rw [set_ou2S]
omit [FloatOps F] in
theorem pts_ou3 (f : Buf (Elt F) (outLoc d)) :
    ((ou3S L).view.loc (thr d L) ↦[(ou3S L).view.set]{fullShare} f : sProp 𝕄) = outLoc d ↦[chunkSet L 3]{fullShare} f := by
  rw [set_ou3S]
omit [FloatOps F] in
theorem pts_ou4 (f : Buf (Elt F) (outLoc d)) :
    ((ou4S L).view.loc (thr d L) ↦[(ou4S L).view.set]{fullShare} f : sProp 𝕄) = outLoc d ↦[chunkSet L 4]{fullShare} f := by
  rw [set_ou4S]
omit [FloatOps F] in
theorem pts_ou5 (f : Buf (Elt F) (outLoc d)) :
    ((ou5S L).view.loc (thr d L) ↦[(ou5S L).view.set]{fullShare} f : sProp 𝕄) = outLoc d ↦[chunkSet L 5]{fullShare} f := by
  rw [set_ou5S]
omit [FloatOps F] in
theorem pts_ou6 (f : Buf (Elt F) (outLoc d)) :
    ((ou6S L).view.loc (thr d L) ↦[(ou6S L).view.set]{fullShare} f : sProp 𝕄) = outLoc d ↦[chunkSet L 6]{fullShare} f := by
  rw [set_ou6S]
omit [FloatOps F] in
theorem pts_ou7 (f : Buf (Elt F) (outLoc d)) :
    ((ou7S L).view.loc (thr d L) ↦[(ou7S L).view.set]{fullShare} f : sProp 𝕄) = outLoc d ↦[chunkSet L 7]{fullShare} f := by
  rw [set_ou7S]

omit [FloatOps F] in
/-- The slab at contents `f` is its eight chunks at `f`. -/
theorem slab_split (f : Buf (Elt F) (outLoc d)) :
    (outLoc d ↦[slabSet L]{fullShare} f : sProp 𝕄)
      = iprop((outLoc d ↦[chunkSet L 0]{fullShare} f)
          ∗ (outLoc d ↦[chunkSet L 1]{fullShare} f)
          ∗ (outLoc d ↦[chunkSet L 2]{fullShare} f)
          ∗ (outLoc d ↦[chunkSet L 3]{fullShare} f)
          ∗ (outLoc d ↦[chunkSet L 4]{fullShare} f)
          ∗ (outLoc d ↦[chunkSet L 5]{fullShare} f)
          ∗ (outLoc d ↦[chunkSet L 6]{fullShare} f)
          ∗ (outLoc d ↦[chunkSet L 7]{fullShare} f)) := by
  rw [slab_chunks L, pointsTo_biUnion Finset.univ _ (slab_chunks_disjoint L), bigSep_fin8]

/-- What the call carries for a task and its row of the shared scratch are what the task is handed. -/
theorem tileGo_intro (qt : PosShare TreeShare) (TAB : Buf (Elt F) (tabLoc d)) :
    iprop(goB m d L qt TAB ∗ shGo (F := F) d L) ⊢ tileGo m d L qt TAB := by
  unfold tileGo goB shGo
  iintro ⟨⟨H0, H1, H2, H3, H4, H5, H6, H7, Ht, Ho⟩, Hsh⟩
  ihave Ho' := (Entails.of_eq (slab_split d L (m (outLoc d)))) $$ Ho
  icases Ho' with ⟨Ho0, Ho1, Ho2, Ho3, Ho4, Ho5, Ho6, Ho7⟩
  isplitl [H0]; · iapply (Entails.of_eq (pts_c0 d L _).symm); iexact H0
  isplitl [H1]; · iapply (Entails.of_eq (pts_c1 d L _).symm); iexact H1
  isplitl [H2]; · iapply (Entails.of_eq (pts_c2 d L _).symm); iexact H2
  isplitl [H3]; · iapply (Entails.of_eq (pts_c3 d L _).symm); iexact H3
  isplitl [H4]; · iapply (Entails.of_eq (pts_c4 d L _).symm); iexact H4
  isplitl [H5]; · iapply (Entails.of_eq (pts_c5 d L _).symm); iexact H5
  isplitl [H6]; · iapply (Entails.of_eq (pts_c6 d L _).symm); iexact H6
  isplitl [H7]; · iapply (Entails.of_eq (pts_c7 d L _).symm); iexact H7
  isplitl [Ht]; · iexact Ht
  isplitl [Ho0]; · iapply (Entails.of_eq (pts_ou0 d L _).symm); iexact Ho0
  isplitl [Ho1]; · iapply (Entails.of_eq (pts_ou1 d L _).symm); iexact Ho1
  isplitl [Ho2]; · iapply (Entails.of_eq (pts_ou2 d L _).symm); iexact Ho2
  isplitl [Ho3]; · iapply (Entails.of_eq (pts_ou3 d L _).symm); iexact Ho3
  isplitl [Ho4]; · iapply (Entails.of_eq (pts_ou4 d L _).symm); iexact Ho4
  isplitl [Ho5]; · iapply (Entails.of_eq (pts_ou5 d L _).symm); iexact Ho5
  isplitl [Ho6]; · iapply (Entails.of_eq (pts_ou6 d L _).symm); iexact Ho6
  isplitl [Ho7]; · iapply (Entails.of_eq (pts_ou7 d L _).symm); iexact Ho7
  iexact Hsh

/-- What a task hands back is what the call brings back for it and its row of the shared scratch. -/
theorem tileTd_elim (qt : PosShare TreeShare) (TAB : Buf (Elt F) (tabLoc d)) :
    tileTd m d L qt TAB ⊢ iprop(tdB m d L qt TAB ∗ shTd (F := F) d L) := by
  unfold tileTd tdB shTd
  iintro ⟨H0, H1, H2, H3, H4, H5, H6, H7, Ht, Ho0, Ho1, Ho2, Ho3, Ho4, Ho5, Ho6, Ho7, Hs0, Hs1, Hs2, Hs3, Hs4, Hs5, Hs6, Hs7⟩
  isplitl [H0 H1 H2 H3 H4 H5 H6 H7 Ht Ho0 Ho1 Ho2 Ho3 Ho4 Ho5 Ho6 Ho7]
  · isplitl [H0]; · iapply (Entails.of_eq (pts_c0 d L _)); iexact H0
    isplitl [H1]; · iapply (Entails.of_eq (pts_c1 d L _)); iexact H1
    isplitl [H2]; · iapply (Entails.of_eq (pts_c2 d L _)); iexact H2
    isplitl [H3]; · iapply (Entails.of_eq (pts_c3 d L _)); iexact H3
    isplitl [H4]; · iapply (Entails.of_eq (pts_c4 d L _)); iexact H4
    isplitl [H5]; · iapply (Entails.of_eq (pts_c5 d L _)); iexact H5
    isplitl [H6]; · iapply (Entails.of_eq (pts_c6 d L _)); iexact H6
    isplitl [H7]; · iapply (Entails.of_eq (pts_c7 d L _)); iexact H7
    isplitl [Ht]; · iexact Ht
    iapply (Entails.of_eq (slab_split d L (OUTof TAB (cols m d))).symm)
    isplitl [Ho0]; · iapply (Entails.of_eq (pts_ou0 d L _)); iexact Ho0
    isplitl [Ho1]; · iapply (Entails.of_eq (pts_ou1 d L _)); iexact Ho1
    isplitl [Ho2]; · iapply (Entails.of_eq (pts_ou2 d L _)); iexact Ho2
    isplitl [Ho3]; · iapply (Entails.of_eq (pts_ou3 d L _)); iexact Ho3
    isplitl [Ho4]; · iapply (Entails.of_eq (pts_ou4 d L _)); iexact Ho4
    isplitl [Ho5]; · iapply (Entails.of_eq (pts_ou5 d L _)); iexact Ho5
    isplitl [Ho6]; · iapply (Entails.of_eq (pts_ou6 d L _)); iexact Ho6
    iapply (Entails.of_eq (pts_ou7 d L _)); iexact Ho7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  iexact Hs7

end Parts

/-! ## What the handshakes carry -/

/-- The one call: per SparseCore the sixteen tasks' operands; per task those and its row of the shared scratch. -/
def P : (K (F := F)).Pay (nD := nD) (Val := Elt F) (Name := ℕ) (U := UU) where
  st := fun q d c => match q with
    | 0 => bigSep Finset.univ fun i : Fin ((K (F := F)).nSub 0) => goB m d (coordsQ c i) (qtOf c.val i.val) (TABof m d)
  dn := fun q d c => match q with
    | 0 => bigSep Finset.univ fun i : Fin ((K (F := F)).nSub 0) => tdB m d (coordsQ c i) (qtOf c.val i.val) (TABof m d)
  go := fun q d c i => match q with
    | 0 => tileGo m d (coordsQ c i) (qtOf c.val i.val) (TABof m d)
  td := fun q d c i => match q with
    | 0 => tileTd m d (coordsQ c i) (qtOf c.val i.val) (TABof m d)
  x := fun _ _ => iprop(emp)

theorem P_st (d : Dev nD) (c : Fin ((K (F := F)).nCore 0)) :
    (P m).st 0 d c = bigSep Finset.univ fun i : Fin ((K (F := F)).nSub 0) => goB m d (coordsQ c i) (qtOf c.val i.val) (TABof m d) := rfl
theorem P_dn (d : Dev nD) (c : Fin ((K (F := F)).nCore 0)) :
    (P m).dn 0 d c = bigSep Finset.univ fun i : Fin ((K (F := F)).nSub 0) => tdB m d (coordsQ c i) (qtOf c.val i.val) (TABof m d) := rfl
theorem P_go (d : Dev nD) (c : Fin ((K (F := F)).nCore 0)) (i : Fin ((K (F := F)).nSub 0)) :
    (P m).go 0 d c i = tileGo m d (coordsQ c i) (qtOf c.val i.val) (TABof m d) := rfl
theorem P_td (d : Dev nD) (c : Fin ((K (F := F)).nCore 0)) (i : Fin ((K (F := F)).nSub 0)) :
    (P m).td 0 d c i = tileTd m d (coordsQ c i) (qtOf c.val i.val) (TABof m d) := rfl
theorem P_x (q : Fin 1) (thr : Thread nD τ) : (P (F := F) m).x q thr = iprop(emp) := rfl
theorem P_ox : (P (F := F) m).ox = fun _ _ => 0 := rfl

set_option synthInstance.maxHeartbeats 4000000 in
set_option synthInstance.maxSize 8192 in
set_option maxHeartbeats 8000000 in
instance P_storable : (P (F := F) m).IsStorable where
  st q d c := match q with
    | 0 => (show BI.Storable (upEmb : UEmb _ 𝕄)
        (bigSep Finset.univ fun i : Fin ((K (F := F)).nSub 0) => goB m d (coordsQ c i) (qtOf c.val i.val) (TABof m d)) from by
          unfold goB; infer_instance)
  dn q d c := match q with
    | 0 => (show BI.Storable (upEmb : UEmb _ 𝕄)
        (bigSep Finset.univ fun i : Fin ((K (F := F)).nSub 0) => tdB m d (coordsQ c i) (qtOf c.val i.val) (TABof m d)) from by
          unfold tdB; infer_instance)
  go q d c i := match q with
    | 0 => (show BI.Storable (upEmb : UEmb _ 𝕄) (tileGo m d (coordsQ c i) (qtOf c.val i.val) (TABof m d)) from by
          unfold tileGo; infer_instance)
  td q d c i := match q with
    | 0 => (show BI.Storable (upEmb : UEmb _ 𝕄) (tileTd m d (coordsQ c i) (qtOf c.val i.val) (TABof m d)) from by
          unfold tileTd; infer_instance)

/-! ## The task's proof, as the launch theorem takes it -/

theorem defs₀_vector (c : Fin τ.nSC) (s : Fin τ.nSub) :
    defs₀ (F := F) (.scVector c s) 0 ()
      = SparseCore.onTile hcore0 hsub0 (fun c s => cc0__body (coordsV c s)
          a0W (Memref.isWhole_whole _) a1W (Memref.isWhole_whole _) a2W (Memref.isWhole_whole _) a3W (Memref.isWhole_whole _)
          a4W (Memref.isWhole_whole _) a5W (Memref.isWhole_whole _) a6W (Memref.isWhole_whole _) a7W (Memref.isWhole_whole _)
          tbW (Memref.isWhole_whole _) ouW (Memref.isWhole_whole _) tvW (Memref.isWhole_whole _) shW (Memref.isWhole_whole _)
          saW (Memref.isWhole_whole _) sbW (Memref.isWhole_whole _) baW (Memref.isWhole_whole _) bbW (Memref.isWhole_whole _)
          cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBodyStmt m) (hpre : PreOK m) : (K (F := F)).TileObl (D (F := F)) 𝒱 (P m) v₀ 0 := by
  intro d c i O W hO _ _
  -- this kernel owes nothing for a protocol of its own
  simp only [P_ox, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody hpre d (coordsV ⟨_, hc.1⟩ ⟨_, hc.2⟩) O W hO (qtOf c.val i.val) (TABof m d)).trans (wp_mono frame _ _ fun _ => obl_post)

end Cert.Proof.KI

end
-- ==== Proof.KI.LaunchSplit.lean ====
/-
  How a SparseCore's operands split among its sixteen tasks: the call's part is already per task; the sequencer adds,
  from its own shared scratch (16 rows of 4096 words), row i for task i as eight pieces of 512 words, and gets the
  scratch back whole from the pieces the tasks return.
-/
import proofs.«204821_g30846455120635_fold_wed_m_1292_33_alg».proof.Proof.KI.LaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)

variable [FloatOps F]

/-- SparseCore `c`'s shared scratch, as every task of it addresses it. -/
abbrev shRef (c : Fin τ.nSC) : DevRef τ sig := ⟨.shared, ⟨0, by decide⟩, c⟩
abbrev shLoc (d : Dev nD) (c : Fin τ.nSC) : Loc nD τ sig := (d, shRef c)

/-- One piece of it, at contents `f`. -/
abbrev pcPts (d : Dev nD) (c : Fin τ.nSC) (p : Pc) (f : Buf (Elt F) (shLoc d c)) : sProp 𝕄 := shLoc d c ↦[pieceSet p]{fullShare} f

omit [FloatOps F] in
/-- The shared scratch is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The scratch whole is its 16 x 8 pieces. -/
theorem shPts_pieces (d : Dev nD) (c : Fin τ.nSC) (f : Buf (Elt F) (shLoc d c)) :
    (shLoc d c ↦{fullShare} f : sProp 𝕄) = bigSep Finset.univ fun p : Pc => pcPts d c p f := by
  unfold pcPts
  rw [← pointsTo_biUnion Finset.univ (ℓ := shLoc d c) pieceSet pieces_disjoint, pieces_cover]

section Rows
variable (d : Dev nD) (L : grid0.Coords)

/-- The row of the shared scratch a task is handed: its subcore's number. -/
abbrev rowOf (L : grid0.Coords) : Fin 16 := ⟨(L 1).val, L1_lt L⟩

omit [FloatOps F] in
/-- The eight pieces of a task's row at one contents are what the sequencer hands it. -/
theorem row_split (f : Buf (Elt F) (shLoc d (cV L))) :
    (bigSep Finset.univ fun j : Fin 8 => pcPts (F := F) d (cV L) (rowOf L, j) f) ⊢ shGo (F := F) d L := by
  rw [bigSep_fin8]
  unfold shGo
  rw [set_sh0P, set_sh1P, set_sh2P, set_sh3P, set_sh4P, set_sh5P, set_sh6P, set_sh7P]
  iintro ⟨H0, H1, H2, H3, H4, H5, H6, H7⟩
  iexists f
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit [FloatOps F] in
/-- What a task hands back of its row is the eight pieces, each at some contents. -/
theorem row_join :
    shTd (F := F) d L ⊢ bigSep Finset.univ fun j : Fin 8 => iprop(∃ f, pcPts (F := F) d (cV L) (rowOf L, j) f) := by
  rw [bigSep_fin8]
  unfold shTd
  rw [set_sh0P, set_sh1P, set_sh2P, set_sh3P, set_sh4P, set_sh5P, set_sh6P, set_sh7P]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  isplitl [H6]; · iexists f6; iexact H6
  iexists f7; iexact H7

end Rows

omit [FloatOps F] in
/-- The scratch whole at `f` gives each task its row. -/
theorem sh_rows_split (d : Dev nD) (c : Fin ((K (F := F)).nCore 0)) (f : Buf (Elt F) (shLoc d ((K (F := F)).core 0 c))) :
    (shLoc d ((K (F := F)).core 0 c) ↦{fullShare} f : sProp 𝕄)
      ⊢ bigSep Finset.univ fun i : Fin ((K (F := F)).nSub 0) => shGo (F := F) d (coordsQ c i) := by
  rw [shPts_pieces, bigSep_univ_prod]
  exact bigSep_mono fun i _ => row_split d (coordsQ c i) f

/-- The rows the tasks hand back are the scratch whole, at some contents. -/
theorem sh_rows_join (d : Dev nD) (c : Fin ((K (F := F)).nCore 0)) :
    (bigSep Finset.univ fun i : Fin ((K (F := F)).nSub 0) => shTd (F := F) d (coordsQ c i))
      ⊢ (iprop(∃ f, shLoc d ((K (F := F)).core 0 c) ↦{fullShare} f) : sProp 𝕄) := by
  refine (bigSep_mono (Ψ := fun i : Fin 16 => bigSep Finset.univ fun j : Fin 8 => iprop(∃ f, pcPts (F := F) d ((K (F := F)).core 0 c) (i, j) f))
    fun i _ => row_join d (coordsQ c i)).trans ?_
  refine (Entails.of_eq (bigSep_univ_prod (fun p : Pc => iprop(∃ f, pcPts (F := F) d ((K (F := F)).core 0 c) p f))).symm).trans ?_
  refine (bigSep_exists_pi Finset.univ (fun (p : Pc) (f : Buf (Elt F) (shLoc d ((K (F := F)).core 0 c))) => pcPts d ((K (F := F)).core 0 c) p f)).trans ?_
  iintro ⟨%fs, H⟩
  ihave H' := (pointsTo_biUnion_join (ℓ := shLoc d ((K (F := F)).core 0 c)) Finset.univ pieceSet fs (fs (0, 0)) pieces_disjoint) $$ H
  icases H' with ⟨%g, -, Hg⟩
  rw [pieces_cover]
  iexists g; iexact Hg

/-- The call's part and the rows are what the tasks are handed; -/
theorem gos_intro (d : Dev nD) (c : Fin ((K (F := F)).nCore 0)) :
    iprop((bigSep Finset.univ fun i : Fin ((K (F := F)).nSub 0) => goB m d (coordsQ c i) (qtOf c.val i.val) (TABof m d))
        ∗ (bigSep Finset.univ fun i : Fin ((K (F := F)).nSub 0) => shGo (F := F) d (coordsQ c i)))
      ⊢ bigSep Finset.univ fun i : Fin ((K (F := F)).nSub 0) => (P m).go 0 d c i := by
  rw [← bigSep_sep']
  exact bigSep_mono fun i _ => tileGo_intro m d (coordsQ c i) _ _

/-- what they hand back is the call's part and the rows. -/
theorem tds_elim (d : Dev nD) (c : Fin ((K (F := F)).nCore 0)) :
    (bigSep Finset.univ fun i : Fin ((K (F := F)).nSub 0) => (P m).td 0 d c i)
      ⊢ iprop((bigSep Finset.univ fun i : Fin ((K (F := F)).nSub 0) => tdB m d (coordsQ c i) (qtOf c.val i.val) (TABof m d))
        ∗ (bigSep Finset.univ fun i : Fin ((K (F := F)).nSub 0) => shTd (F := F) d (coordsQ c i))) := by
  rw [← bigSep_sep']
  exact bigSep_mono fun i _ => tileTd_elim m d (coordsQ c i) _ _

/-- The split of the call's operands for a SparseCore among its tasks, over the sequencer's own buffers. -/
theorem vecSplit : (K (F := F)).VecSplit (P m) 0 := by
  intro d c
  rw [P_st, P_dn, ownBufs_S]
  iintro ⟨Hst, ⟨%fsh, Hsh⟩, Hrest⟩; imodintro
  isplitl [Hst Hsh]
  · iapply (gos_intro m d c)
    isplitl [Hst]; · iexact Hst
    iapply (sh_rows_split d c fsh); iexact Hsh
  iintro Htd
  ihave Htd' := (tds_elim m d c) $$ Htd
  icases Htd' with ⟨Hdn, Hsh⟩
  isplitl [Hdn]; · iexact Hdn
  isplitl [Hsh]; · iapply (sh_rows_join d c); iexact Hsh
  iexact Hrest

end Cert.Proof.KI

end
-- ==== Proof.KI.LaunchHost.lean ====
/-
  The host side of the lookup kernel's program, as operations on the TensorCore's buffers: the three operations as
  @main spells them, what each leaves in the buffers the proof follows, and the buffers as separate points-to.
-/
import proofs.«204821_g30846455120635_fold_wed_m_1292_33_alg».proof.Proof.KI.Pay
import proofs.«204821_g30846455120635_fold_wed_m_1292_33_alg».proof.Proof.KI.HostVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ) (ρ : Dev nD → PrngReg)

variable [FloatOps F]

open Idealize.ShloMosaic.StableHlo (held wp_hlo_within)

/-! ## The host operations -/

abbrev c0R : DevRef τ sig := Proc.devRef .tc (main_arg0 : Ref sig .tc)
abbrev c1R : DevRef τ sig := Proc.devRef .tc (main_arg1 : Ref sig .tc)
abbrev c2R : DevRef τ sig := Proc.devRef .tc (main_arg2 : Ref sig .tc)
abbrev c3R : DevRef τ sig := Proc.devRef .tc (main_arg3 : Ref sig .tc)
abbrev c4R : DevRef τ sig := Proc.devRef .tc (main_arg4 : Ref sig .tc)
abbrev c5R : DevRef τ sig := Proc.devRef .tc (main_arg5 : Ref sig .tc)
abbrev c6R : DevRef τ sig := Proc.devRef .tc (main_arg6 : Ref sig .tc)
abbrev c7R : DevRef τ sig := Proc.devRef .tc (main_arg7 : Ref sig .tc)
abbrev w0R : DevRef τ sig := Proc.devRef .tc (main_arg8 : Ref sig .tc)
abbrev w1R : DevRef τ sig := Proc.devRef .tc (main_arg9 : Ref sig .tc)
abbrev w2R : DevRef τ sig := Proc.devRef .tc (main_arg10 : Ref sig .tc)
abbrev w3R : DevRef τ sig := Proc.devRef .tc (main_arg11 : Ref sig .tc)
abbrev w4R : DevRef τ sig := Proc.devRef .tc (main_arg12 : Ref sig .tc)
abbrev w5R : DevRef τ sig := Proc.devRef .tc (main_arg13 : Ref sig .tc)
abbrev w6R : DevRef τ sig := Proc.devRef .tc (main_arg14 : Ref sig .tc)
abbrev w7R : DevRef τ sig := Proc.devRef .tc (main_arg15 : Ref sig .tc)
abbrev v0R : DevRef τ sig := Proc.devRef .tc (main_v0 : Ref sig .tc)
abbrev v1R : DevRef τ sig := Proc.devRef .tc (main_v1 : Ref sig .tc)
abbrev v2R : DevRef τ sig := Proc.devRef .tc (main_v2 : Ref sig .tc)
abbrev v3R : DevRef τ sig := Proc.devRef .tc (main_v3 : Ref sig .tc)

/-- The three host operations, as @main spells them. -/
abbrev op1 : HloOp τ sig (Elt F) :=
  StableHlo.nary ![main_arg8, main_arg9, main_arg10, main_arg11, main_arg12, main_arg13, main_arg14, main_arg15] main_v0
    (fun u => concatenate S256x32 0 [⟨S32x32, u 0⟩, ⟨S32x32, u 1⟩, ⟨S32x32, u 2⟩, ⟨S32x32, u 3⟩, ⟨S32x32, u 4⟩, ⟨S32x32, u 5⟩, ⟨S32x32, u 6⟩, ⟨S32x32, u 7⟩]
      concatenates_S32x32_S32x32_S32x32_S32x32_S32x32_S32x32_S32x32_S32x32_S256x32_d0)
abbrev op2 : HloOp τ sig (Elt F) := StableHlo.reshape main_v0 main_v1 rfl shapeCasts_S256x32_S8192
abbrev op3 : HloOp τ sig (Elt F) := StableHlo.reshape main_v2 main_v3 rfl shapeCasts_S4194304_S16384x256

/-- The launch valuation; after the two operations before the call; after the call; the claim's. -/
abbrev V0 (d : Dev nD) : Valuation τ sig (Elt F) := fun b => m (d, b)
abbrev V2 (d : Dev nD) : Valuation τ sig (Elt F) := (op2 (F := F)).result ((op1 (F := F)).result (V0 m d))
abbrev V3 (d : Dev nD) : Valuation τ sig (Elt F) := Function.update (V0 m d) v2R (OUTof (TABof m d) (cols m d))
def VF (d : Dev nD) : Valuation τ sig (Elt F) := Function.update (V0 m d) v3R (RESof m d)

/-- The stacked tables, the flat table and the eight tables; the flat result and the result; what the claim reads. -/
abbrev SA : Finset (DevRef τ sig) := {v0R, v1R, w0R, w1R, w2R, w3R, w4R, w5R, w6R, w7R}
abbrev SB : Finset (DevRef τ sig) := {v2R, v3R}
abbrev SF : Finset (DevRef τ sig) := {c0R, c1R, c2R, c3R, c4R, c5R, c6R, c7R, w0R, w1R, w2R, w3R, w4R, w5R, w6R, w7R, v3R}

omit [FloatOps F] in
theorem heldA (d : Dev nD) (W : Valuation τ sig (Elt F)) :
    (held (T d) SA W : sProp 𝕄) = iprop((catLoc d ↦{fullShare} W v0R)
      ∗ (tabLoc d ↦{fullShare} W v1R)
      ∗ (w0Loc d ↦{fullShare} W w0R)
      ∗ (w1Loc d ↦{fullShare} W w1R)
      ∗ (w2Loc d ↦{fullShare} W w2R)
      ∗ (w3Loc d ↦{fullShare} W w3R)
      ∗ (w4Loc d ↦{fullShare} W w4R)
      ∗ (w5Loc d ↦{fullShare} W w5R)
      ∗ (w6Loc d ↦{fullShare} W w6R)
      ∗ (w7Loc d ↦{fullShare} W w7R)) := by
  unfold held SA
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem heldB (d : Dev nD) (W : Valuation τ sig (Elt F)) :
    (held (T d) SB W : sProp 𝕄) = iprop((outLoc d ↦{fullShare} W v2R) ∗ (resLoc d ↦{fullShare} W v3R)) := by
  unfold held SB
  rw [SparseCore.bigSep_insert' (by decide), bigSep_singleton]
omit [FloatOps F] in
theorem heldF (d : Dev nD) (W : Valuation τ sig (Elt F)) :
    (held (T d) SF W : sProp 𝕄) = iprop((c0Loc d ↦{fullShare} W c0R)
      ∗ (c1Loc d ↦{fullShare} W c1R)
      ∗ (c2Loc d ↦{fullShare} W c2R)
      ∗ (c3Loc d ↦{fullShare} W c3R)
      ∗ (c4Loc d ↦{fullShare} W c4R)
      ∗ (c5Loc d ↦{fullShare} W c5R)
      ∗ (c6Loc d ↦{fullShare} W c6R)
      ∗ (c7Loc d ↦{fullShare} W c7R)
      ∗ (w0Loc d ↦{fullShare} W w0R)
      ∗ (w1Loc d ↦{fullShare} W w1R)
      ∗ (w2Loc d ↦{fullShare} W w2R)
      ∗ (w3Loc d ↦{fullShare} W w3R)
      ∗ (w4Loc d ↦{fullShare} W w4R)
      ∗ (w5Loc d ↦{fullShare} W w5R)
      ∗ (w6Loc d ↦{fullShare} W w6R)
      ∗ (w7Loc d ↦{fullShare} W w7R)
      ∗ (resLoc d ↦{fullShare} W v3R)) := by
  unfold held SF
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

set_option maxRecDepth 16384 in
omit [FloatOps F] in
theorem unscopedBufs_eq (d : Dev nD) (W : (b : Ref sig .tc) → Buf (Elt F) ((d.tc : Thread nD τ).loc b)) :
    (unscopedBufs d W : sProp 𝕄) = iprop((c0Loc d ↦{fullShare} W main_arg0)
      ∗ (c1Loc d ↦{fullShare} W main_arg1)
      ∗ (c2Loc d ↦{fullShare} W main_arg2)
      ∗ (c3Loc d ↦{fullShare} W main_arg3)
      ∗ (c4Loc d ↦{fullShare} W main_arg4)
      ∗ (c5Loc d ↦{fullShare} W main_arg5)
      ∗ (c6Loc d ↦{fullShare} W main_arg6)
      ∗ (c7Loc d ↦{fullShare} W main_arg7)
      ∗ (w0Loc d ↦{fullShare} W main_arg8)
      ∗ (w1Loc d ↦{fullShare} W main_arg9)
      ∗ (w2Loc d ↦{fullShare} W main_arg10)
      ∗ (w3Loc d ↦{fullShare} W main_arg11)
      ∗ (w4Loc d ↦{fullShare} W main_arg12)
      ∗ (w5Loc d ↦{fullShare} W main_arg13)
      ∗ (w6Loc d ↦{fullShare} W main_arg14)
      ∗ (w7Loc d ↦{fullShare} W main_arg15)
      ∗ (catLoc d ↦{fullShare} W main_v0)
      ∗ (tabLoc d ↦{fullShare} W main_v1)
      ∗ (outLoc d ↦{fullShare} W main_v2)
      ∗ (resLoc d ↦{fullShare} W main_v3)) := by
  unfold unscopedBufs
  rw [show (Finset.univ.filter fun b : Ref sig .tc => ¬ b.isScoped) = {main_arg0, main_arg1, main_arg2, main_arg3, main_arg4, main_arg5, main_arg6, main_arg7, main_arg8, main_arg9, main_arg10, main_arg11, main_arg12, main_arg13, main_arg14, main_arg15, main_v0, main_v1, main_v2, main_v3} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem hop1 : (op1 (F := F)).bufs ⊆ SA :=
  show (insert v0R (Finset.univ.image fun k : Fin 8 => (Proc.devRef .tc ((![main_arg8, main_arg9, main_arg10, main_arg11, main_arg12, main_arg13, main_arg14, main_arg15] : Fin 8 → Ref sig .tc) k) : DevRef τ sig))
    : Finset (DevRef τ sig)) ⊆ SA by decide
theorem hop2 : (op2 (F := F)).bufs ⊆ SA := show ({v0R, v1R} : Finset (DevRef τ sig)) ⊆ SA by decide
theorem hop3 : (op3 (F := F)).bufs ⊆ SB := show ({v2R, v3R} : Finset (DevRef τ sig)) ⊆ SB by decide

/-- A buffer the two operations do not write holds what it held at launch. -/
theorem V2_ne (d : Dev nD) (b : DevRef τ sig) (h0 : b ≠ v0R) (h1 : b ≠ v1R) : V2 m d b = V0 m d b := by
  show (op2 (F := F)).result ((op1 (F := F)).result (V0 m d)) b = V0 m d b
  rw [HloOp.result_of_not_mem _ _ (show b ∉ (op2 (F := F)).writes from fun h => h1 (Finset.mem_singleton.mp h)),
    HloOp.result_of_not_mem _ _ (show b ∉ (op1 (F := F)).writes from fun h => h0 (Finset.mem_singleton.mp h))]

/-- The flat table after them is the eight tables stacked and flattened. -/
theorem V2_v1 (d : Dev nD) : V2 m d v1R = TABof m d := by
  show (op2 (F := F)).result ((op1 (F := F)).result (V0 m d)) v1R = TABof m d
  rw [StableHlo.reshape_result, StableHlo.nary_result]
  rfl

theorem heldA_V2 (d : Dev nD) :
    (held (T d) SA (V2 m d) : sProp 𝕄) = iprop((catLoc d ↦{fullShare} V2 m d v0R) ∗ (tabLoc d ↦{fullShare} TABof m d)
      ∗ (w0Loc d ↦{fullShare} m (w0Loc d))
      ∗ (w1Loc d ↦{fullShare} m (w1Loc d))
      ∗ (w2Loc d ↦{fullShare} m (w2Loc d))
      ∗ (w3Loc d ↦{fullShare} m (w3Loc d))
      ∗ (w4Loc d ↦{fullShare} m (w4Loc d))
      ∗ (w5Loc d ↦{fullShare} m (w5Loc d))
      ∗ (w6Loc d ↦{fullShare} m (w6Loc d))
      ∗ (w7Loc d ↦{fullShare} m (w7Loc d))) := by
  rw [heldA, V2_v1, V2_ne m d w0R (by decide) (by decide), V2_ne m d w1R (by decide) (by decide), V2_ne m d w2R (by decide) (by decide), V2_ne m d w3R (by decide) (by decide), V2_ne m d w4R (by decide) (by decide), V2_ne m d w5R (by decide) (by decide), V2_ne m d w6R (by decide) (by decide), V2_ne m d w7R (by decide) (by decide)]

theorem heldB_V3 (d : Dev nD) :
    (held (T d) SB (V3 m d) : sProp 𝕄) = iprop((outLoc d ↦{fullShare} OUTof (TABof m d) (cols m d)) ∗ (resLoc d ↦{fullShare} m (resLoc d))) := by
  rw [heldB, show V3 m d v2R = OUTof (TABof m d) (cols m d) from Function.update_self _ _ _,
    show V3 m d v3R = m (resLoc d) from Function.update_of_ne (show v3R ≠ v2R by decide) _ _]

/-- The result after the last operation is the flat result folded. -/
theorem V4_v3 (d : Dev nD) : (op3 (F := F)).result (V3 m d) v3R = RESof m d := by
  rw [StableHlo.reshape_result, show V3 m d v2R = OUTof (TABof m d) (cols m d) from Function.update_self _ _ _]
  rfl

theorem heldB_V4 (d : Dev nD) :
    (held (T d) SB ((op3 (F := F)).result (V3 m d)) : sProp 𝕄)
      = iprop((outLoc d ↦{fullShare} (op3 (F := F)).result (V3 m d) v2R) ∗ (resLoc d ↦{fullShare} RESof m d)) := by
  rw [heldB, V4_v3]

theorem VF_v3 (d : Dev nD) : VF m d v3R = RESof m d := Function.update_self _ _ _
theorem VF_c0 (d : Dev nD) : VF m d c0R = m (c0Loc d) := Function.update_of_ne (show c0R ≠ v3R by decide) _ _
theorem VF_c1 (d : Dev nD) : VF m d c1R = m (c1Loc d) := Function.update_of_ne (show c1R ≠ v3R by decide) _ _
theorem VF_c2 (d : Dev nD) : VF m d c2R = m (c2Loc d) := Function.update_of_ne (show c2R ≠ v3R by decide) _ _
theorem VF_c3 (d : Dev nD) : VF m d c3R = m (c3Loc d) := Function.update_of_ne (show c3R ≠ v3R by decide) _ _
theorem VF_c4 (d : Dev nD) : VF m d c4R = m (c4Loc d) := Function.update_of_ne (show c4R ≠ v3R by decide) _ _
theorem VF_c5 (d : Dev nD) : VF m d c5R = m (c5Loc d) := Function.update_of_ne (show c5R ≠ v3R by decide) _ _
theorem VF_c6 (d : Dev nD) : VF m d c6R = m (c6Loc d) := Function.update_of_ne (show c6R ≠ v3R by decide) _ _
theorem VF_c7 (d : Dev nD) : VF m d c7R = m (c7Loc d) := Function.update_of_ne (show c7R ≠ v3R by decide) _ _
theorem VF_w0 (d : Dev nD) : VF m d w0R = m (w0Loc d) := Function.update_of_ne (show w0R ≠ v3R by decide) _ _
theorem VF_w1 (d : Dev nD) : VF m d w1R = m (w1Loc d) := Function.update_of_ne (show w1R ≠ v3R by decide) _ _
theorem VF_w2 (d : Dev nD) : VF m d w2R = m (w2Loc d) := Function.update_of_ne (show w2R ≠ v3R by decide) _ _
theorem VF_w3 (d : Dev nD) : VF m d w3R = m (w3Loc d) := Function.update_of_ne (show w3R ≠ v3R by decide) _ _
theorem VF_w4 (d : Dev nD) : VF m d w4R = m (w4Loc d) := Function.update_of_ne (show w4R ≠ v3R by decide) _ _
theorem VF_w5 (d : Dev nD) : VF m d w5R = m (w5Loc d) := Function.update_of_ne (show w5R ≠ v3R by decide) _ _
theorem VF_w6 (d : Dev nD) : VF m d w6R = m (w6Loc d) := Function.update_of_ne (show w6R ≠ v3R by decide) _ _
theorem VF_w7 (d : Dev nD) : VF m d w7R = m (w7Loc d) := Function.update_of_ne (show w7R ≠ v3R by decide) _ _

theorem heldF_VF (d : Dev nD) :
    (held (T d) SF (VF m d) : sProp 𝕄) = iprop((c0Loc d ↦{fullShare} m (c0Loc d))
      ∗ (c1Loc d ↦{fullShare} m (c1Loc d))
      ∗ (c2Loc d ↦{fullShare} m (c2Loc d))
      ∗ (c3Loc d ↦{fullShare} m (c3Loc d))
      ∗ (c4Loc d ↦{fullShare} m (c4Loc d))
      ∗ (c5Loc d ↦{fullShare} m (c5Loc d))
      ∗ (c6Loc d ↦{fullShare} m (c6Loc d))
      ∗ (c7Loc d ↦{fullShare} m (c7Loc d))
      ∗ (w0Loc d ↦{fullShare} m (w0Loc d))
      ∗ (w1Loc d ↦{fullShare} m (w1Loc d))
      ∗ (w2Loc d ↦{fullShare} m (w2Loc d))
      ∗ (w3Loc d ↦{fullShare} m (w3Loc d))
      ∗ (w4Loc d ↦{fullShare} m (w4Loc d))
      ∗ (w5Loc d ↦{fullShare} m (w5Loc d))
      ∗ (w6Loc d ↦{fullShare} m (w6Loc d))
      ∗ (w7Loc d ↦{fullShare} m (w7Loc d))
      ∗ (resLoc d ↦{fullShare} RESof m d)) := by
  rw [heldF, VF_c0, VF_c1, VF_c2, VF_c3, VF_c4, VF_c5, VF_c6, VF_c7, VF_w0, VF_w1, VF_w2, VF_w3, VF_w4, VF_w5, VF_w6, VF_w7, VF_v3]

end Cert.Proof.KI

end
-- ==== Proof.KI.LaunchMain.lean ====
/-
  The lookup kernel's program on the TensorCore: the host stacks and flattens the eight tables, calls the kernel on
  the two SparseCores, and folds the flat result into rows of 256.

  The call takes the eight index columns, the flat table and the flat result whole and deals them to the thirty-two
  tasks: a column as its thirty-two runs of 512 words, the result as its thirty-two slabs, the table as read shares.
  The columns come back as they were and the result at what the lookup gives.
-/
import proofs.«204821_g30846455120635_fold_wed_m_1292_33_alg».proof.Proof.KI.LaunchPay
import proofs.«204821_g30846455120635_fold_wed_m_1292_33_alg».proof.Proof.KI.LaunchHost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ) (ρ : Dev nD → PrngReg)

variable [FloatOps F]

open Idealize.ShloMosaic.Transfers (shareTokN shareDrop shareTok)
open Idealize.ShloMosaic.StableHlo (held wp_hlo_within)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The call's operands, whole and dealt -/

/-- What the call takes of device `d`: the index columns, the flat table, the flat result, whole. -/
def callGo (d : Dev nD) : sProp 𝕄 :=
  iprop((c0Loc d ↦{fullShare} m (c0Loc d))
      ∗ (c1Loc d ↦{fullShare} m (c1Loc d))
      ∗ (c2Loc d ↦{fullShare} m (c2Loc d))
      ∗ (c3Loc d ↦{fullShare} m (c3Loc d))
      ∗ (c4Loc d ↦{fullShare} m (c4Loc d))
      ∗ (c5Loc d ↦{fullShare} m (c5Loc d))
      ∗ (c6Loc d ↦{fullShare} m (c6Loc d))
      ∗ (c7Loc d ↦{fullShare} m (c7Loc d))
      ∗ (tabLoc d ↦{fullShare} TABof m d)
      ∗ (outLoc d ↦{fullShare} m (outLoc d)))

/-- What it brings back: the columns, and the flat result at what the lookup gives. -/
def callTd (d : Dev nD) : sProp 𝕄 :=
  iprop((c0Loc d ↦{fullShare} m (c0Loc d))
      ∗ (c1Loc d ↦{fullShare} m (c1Loc d))
      ∗ (c2Loc d ↦{fullShare} m (c2Loc d))
      ∗ (c3Loc d ↦{fullShare} m (c3Loc d))
      ∗ (c4Loc d ↦{fullShare} m (c4Loc d))
      ∗ (c5Loc d ↦{fullShare} m (c5Loc d))
      ∗ (c6Loc d ↦{fullShare} m (c6Loc d))
      ∗ (c7Loc d ↦{fullShare} m (c7Loc d))
      ∗ (outLoc d ↦{fullShare} OUTof (TABof m d) (cols m d)))

omit [FloatOps F] in
/-- The table whole gives every task its read share. -/
theorem tab_split (d : Dev nD) (TAB : Buf (Elt F) (tabLoc d)) :
    (tabLoc d ↦{fullShare} TAB : sProp 𝕄) ⊢ bigSep Finset.univ fun p : Tsk => tabLoc d ↦{qtOf p.1.val p.2.val} TAB := by
  rw [bigSep_univ_prod]
  refine (Transfers.pointsTo_toks_split fullShare 2).trans (sep_elim_right.trans (bigSep_mono fun c _ => ?_))
  exact (Transfers.pointsTo_toks_split (shareTokN fullShare c.val) 16).trans sep_elim_right

theorem st_plain (d : Dev nD) :
    callGo m d ⊢ bigSep Finset.univ fun p : Tsk => goB m d (LT p) (qtOf p.1.val p.2.val) (TABof m d) := by
  unfold callGo goB
  simp only [bigSep_sep']
  rw [← pointsTo_biUnion Finset.univ (ℓ := c0Loc d) (fun p : Tsk => colSet (LT p)) cols_disjoint,
    ← pointsTo_biUnion Finset.univ (ℓ := c1Loc d) (fun p : Tsk => colSet (LT p)) cols_disjoint,
    ← pointsTo_biUnion Finset.univ (ℓ := c2Loc d) (fun p : Tsk => colSet (LT p)) cols_disjoint,
    ← pointsTo_biUnion Finset.univ (ℓ := c3Loc d) (fun p : Tsk => colSet (LT p)) cols_disjoint,
    ← pointsTo_biUnion Finset.univ (ℓ := c4Loc d) (fun p : Tsk => colSet (LT p)) cols_disjoint,
    ← pointsTo_biUnion Finset.univ (ℓ := c5Loc d) (fun p : Tsk => colSet (LT p)) cols_disjoint,
    ← pointsTo_biUnion Finset.univ (ℓ := c6Loc d) (fun p : Tsk => colSet (LT p)) cols_disjoint,
    ← pointsTo_biUnion Finset.univ (ℓ := c7Loc d) (fun p : Tsk => colSet (LT p)) cols_disjoint,
    ← pointsTo_biUnion Finset.univ (ℓ := outLoc d) (fun p : Tsk => slabSet (LT p)) slabs_disjoint, cols_cover, slabs_cover]
  iintro ⟨H0, H1, H2, H3, H4, H5, H6, H7, Ht, Ho⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ht]; · iapply (tab_split d (TABof m d)); iexact Ht
  iexact Ho

theorem dn_plain (d : Dev nD) :
    (bigSep Finset.univ fun p : Tsk => tdB m d (LT p) (qtOf p.1.val p.2.val) (TABof m d)) ⊢ callTd m d := by
  unfold callTd tdB
  simp only [bigSep_sep']
  rw [← pointsTo_biUnion Finset.univ (ℓ := c0Loc d) (fun p : Tsk => colSet (LT p)) cols_disjoint,
    ← pointsTo_biUnion Finset.univ (ℓ := c1Loc d) (fun p : Tsk => colSet (LT p)) cols_disjoint,
    ← pointsTo_biUnion Finset.univ (ℓ := c2Loc d) (fun p : Tsk => colSet (LT p)) cols_disjoint,
    ← pointsTo_biUnion Finset.univ (ℓ := c3Loc d) (fun p : Tsk => colSet (LT p)) cols_disjoint,
    ← pointsTo_biUnion Finset.univ (ℓ := c4Loc d) (fun p : Tsk => colSet (LT p)) cols_disjoint,
    ← pointsTo_biUnion Finset.univ (ℓ := c5Loc d) (fun p : Tsk => colSet (LT p)) cols_disjoint,
    ← pointsTo_biUnion Finset.univ (ℓ := c6Loc d) (fun p : Tsk => colSet (LT p)) cols_disjoint,
    ← pointsTo_biUnion Finset.univ (ℓ := c7Loc d) (fun p : Tsk => colSet (LT p)) cols_disjoint,
    ← pointsTo_biUnion Finset.univ (ℓ := outLoc d) (fun p : Tsk => slabSet (LT p)) slabs_disjoint, cols_cover, slabs_cover]
  iintro ⟨H0, H1, H2, H3, H4, H5, H6, H7, -, Ho⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Ho

theorem st_eq (d : Dev nD) :
    (bigSep Finset.univ fun c : Fin ((K (F := F)).nCore 0) => (P m).st 0 d c)
      = bigSep Finset.univ fun p : Tsk => goB m d (LT p) (qtOf p.1.val p.2.val) (TABof m d) :=
  (bigSep_univ_prod (fun p : Tsk => goB m d (LT p) (qtOf p.1.val p.2.val) (TABof m d))).symm
theorem dn_eq (d : Dev nD) :
    (bigSep Finset.univ fun c : Fin ((K (F := F)).nCore 0) => (P m).dn 0 d c)
      = bigSep Finset.univ fun p : Tsk => tdB m d (LT p) (qtOf p.1.val p.2.val) (TABof m d) :=
  (bigSep_univ_prod (fun p : Tsk => tdB m d (LT p) (qtOf p.1.val p.2.val) (TABof m d))).symm

theorem st_intro (d : Dev nD) : callGo m d ⊢ bigSep Finset.univ fun c : Fin ((K (F := F)).nCore 0) => (P m).st 0 d c :=
  (st_plain m d).trans (Entails.of_eq (st_eq m d).symm)
theorem dn_elim (d : Dev nD) : (bigSep Finset.univ fun c : Fin ((K (F := F)).nCore 0) => (P m).dn 0 d c) ⊢ callTd m d :=
  (Entails.of_eq (dn_eq m d)).trans (dn_plain m d)

/-! ## @main on the TensorCore -/

/-- What @main leaves the claim: the arguments at their launch contents, the result at the lookup's. -/
abbrev FIN (d : Dev nD) : sProp 𝕄 := held (T d) SF (VF m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hc0, Hc1, Hc2, Hc3, Hc4, Hc5, Hc6, Hc7, Hw0, Hw1, Hw2, Hw3, Hw4, Hw5, Hw6, Hw7, Hv0, Hv1, Hv2, Hv3⟩, -, -⟩, -⟩
  -- the eight tables stacked
  iapply (wp_hlo_within 𝒱 (SparseCore.T d) none Set.univ (op := op1) (S := SA) hop1 (V := V0 m d)) $$ [Hb Hv0 Hv1 Hw0 Hw1 Hw2 Hw3 Hw4 Hw5 Hw6 Hw7]
  · isplitl [Hb]; · iexact Hb
    rw [heldA]
    isplitl [Hv0]; · iexact Hv0
    isplitl [Hv1]; · iexact Hv1
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  iintro ⟨Hb, Hheld⟩
  rw [wp_ret]; imodintro
  -- and flattened
  iapply (wp_hlo_within 𝒱 (SparseCore.T d) none Set.univ (op := op2) (S := SA) hop2 (V := (op1 (F := F)).result (V0 m d))) $$ [Hb Hheld]
  · isplitl [Hb]; · iexact Hb
    iexact Hheld
  iintro ⟨Hb, Hheld⟩
  rw [wp_ret]; imodintro
  ihave Hh := (Entails.of_eq (heldA_V2 m d)) $$ Hheld
  icases Hh with ⟨-, Ht, Hw0, Hw1, Hw2, Hw3, Hw4, Hw5, Hw6, Hw7⟩
  -- the call: the columns, the flat table and the flat result to the two SparseCores and back
  iapply ((K (F := F)).wp_run (D (F := F)) 𝒱 (EH := EH) (P := P m) κ d 0) $$ [Hst Hb Ht Hv2 Hv3 Hc0 Hc1 Hc2 Hc3 Hc4 Hc5 Hc6 Hc7 Hw0 Hw1 Hw2 Hw3 Hw4 Hw5 Hw6 Hw7]
  isplitr; · iexact Hctx
  isplitl [Hst]; · iexact Hst
  isplitl [Ht Hv2 Hc0 Hc1 Hc2 Hc3 Hc4 Hc5 Hc6 Hc7]
  · iapply (st_intro m d)
    unfold callGo
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Ht]; · iexact Ht
    iexact Hv2
  iintro ⟨Hst, Hdn⟩
  ihave Hdn' := (dn_elim m d) $$ Hdn
  unfold callTd
  icases Hdn' with ⟨Hc0, Hc1, Hc2, Hc3, Hc4, Hc5, Hc6, Hc7, Hv2⟩
  -- the flat result folded
  iapply (wp_hlo_within 𝒱 (SparseCore.T d) none Set.univ (op := op3) (S := SB) hop3 (V := V3 m d)) $$ [Hb Hv2 Hv3]
  · isplitl [Hb]; · iexact Hb
    rw [heldB_V3]
    isplitl [Hv2]; · iexact Hv2
    iexact Hv3
  iintro ⟨Hb, Hheld⟩
  ihave Hh := (Entails.of_eq (heldB_V4 m d)) $$ Hheld
  icases Hh with ⟨-, Hres⟩
  rw [wp_ret]; imodintro; imodintro
  isplitl [Hst]; · iexact Hst
  iapply (Entails.of_eq (heldF_VF m d).symm)
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  iexact Hres

/-! ## The final memory reads the claim -/

def fq (d : Dev nD) (s' : Phys nD τ sig (Elt F)) : Prop := ∀ b ∈ SF, s'.mem.mem (d, b) = VF m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) SF) $$ [HSI H]
  · isplitl [HSI]; · iexact HSI
    iexact H
  ipureintro
  exact h

end Cert.Proof.KI

end
-- ==== Proof.KI.LaunchRun.lean ====
/-
  The lookup kernel's program, run: from the task's proof, every weakly fair execution of the device's threads
  terminates with the result at the flat lookup folded into rows of 256 and every argument as it was.
-/
import proofs.«204821_g30846455120635_fold_wed_m_1292_33_alg».proof.Proof.KI.LaunchSplit
import proofs.«204821_g30846455120635_fold_wed_m_1292_33_alg».proof.Proof.KI.LaunchMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ) (ρ : Dev nD → PrngReg)

variable [FloatOps F]

/-- The program's run: the result is `RESof`, the sixteen arguments keep their launch contents. -/
theorem run_main [∀ e, Nonempty (Elt F e)] (hbody : TileBodyStmt m) (hpre : PreOK m) :
    θ_run (Cert.KernelIdeal.defs (F := F)) (Cert.KernelIdeal.threads (F := F)) ⟨m, fun _ => 0, ρ⟩
      (fun r => ∀ c : Dev nD, r.2.mem (resLoc c) = RESof m c ∧ r.2.mem (c0Loc c) = m (c0Loc c) ∧ r.2.mem (c1Loc c) = m (c1Loc c) ∧ r.2.mem (c2Loc c) = m (c2Loc c) ∧ r.2.mem (c3Loc c) = m (c3Loc c) ∧ r.2.mem (c4Loc c) = m (c4Loc c) ∧ r.2.mem (c5Loc c) = m (c5Loc c) ∧ r.2.mem (c6Loc c) = m (c6Loc c) ∧ r.2.mem (c7Loc c) = m (c7Loc c) ∧ r.2.mem (w0Loc c) = m (w0Loc c) ∧ r.2.mem (w1Loc c) = m (w1Loc c) ∧ r.2.mem (w2Loc c) = m (w2Loc c) ∧ r.2.mem (w3Loc c) = m (w3Loc c) ∧ r.2.mem (w4Loc c) = m (w4Loc c) ∧ r.2.mem (w5Loc c) = m (w5Loc c) ∧ r.2.mem (w6Loc c) = m (w6Loc c) ∧ r.2.mem (w7Loc c) = m (w7Loc c)) :=
  SparseCore.Cfg.θ_run_sc (K := K (F := F)) (D := D (F := F)) (𝒱 := 𝒱) (EH := EH) (P := P m) facts v₀
    (fun q hq => match q with | 0 => nomatch hq)
    (fun q _ => match q with | 0 => tileObl m hbody hpre)
    (fun q _ => match q with | 0 => vecSplit m)
    m ρ main (fun _ => iprop(emp)) (FIN m) (u₀ (F := F)) (sep_elim_left.trans (hu₀ m)) (hmain m ρ) (fq m) (hfin m) _
    (fun s' h c => ⟨(h c v3R (by decide)).trans (VF_v3 m c),
      (h c c0R (by decide)).trans (VF_c0 m c),
      (h c c1R (by decide)).trans (VF_c1 m c),
      (h c c2R (by decide)).trans (VF_c2 m c),
      (h c c3R (by decide)).trans (VF_c3 m c),
      (h c c4R (by decide)).trans (VF_c4 m c),
      (h c c5R (by decide)).trans (VF_c5 m c),
      (h c c6R (by decide)).trans (VF_c6 m c),
      (h c c7R (by decide)).trans (VF_c7 m c),
      (h c w0R (by decide)).trans (VF_w0 m c),
      (h c w1R (by decide)).trans (VF_w1 m c),
      (h c w2R (by decide)).trans (VF_w2 m c),
      (h c w3R (by decide)).trans (VF_w3 m c),
      (h c w4R (by decide)).trans (VF_w4 m c),
      (h c w5R (by decide)).trans (VF_w5 m c),
      (h c w6R (by decide)).trans (VF_w6 m c),
      (h c w7R (by decide)).trans (VF_w7 m c)⟩)

end Cert.Proof.KI

end
-- ==== Proof.KI.SmSets.lean ====
import proofs.«204821_g30846455120635_fold_wed_m_1292_33_alg».proof.Proof.KI.Setup
import proofs.«204821_g30846455120635_fold_wed_m_1292_33_alg».proof.Proof.KI.Tile
import proofs.«204821_g30846455120635_fold_wed_m_1292_33_alg».proof.Proof.LibRowChunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable [FloatOps F]

section Sm
variable (d : Dev nD) (L : grid0.Coords)

open Cert.LibRowChunks

/-- Run j of a scalar-memory index buffer: its words 64·j onwards, where the words of index column j land. -/
abbrev sa0P : Memref sig .scVector .smem S64 .i32 := (saW).slice (Rect.unit (s := S512) ![0] S64.size inb_S512_S64_0) (fun _ => rfl)
abbrev sb0P : Memref sig .scVector .smem S64 .i32 := (sbW).slice (Rect.unit (s := S512) ![0] S64.size inb_S512_S64_0) (fun _ => rfl)
abbrev sa1P : Memref sig .scVector .smem S64 .i32 := (saW).slice (Rect.unit (s := S512) ![64] S64.size inb_S512_S64_64) (fun _ => rfl)
abbrev sb1P : Memref sig .scVector .smem S64 .i32 := (sbW).slice (Rect.unit (s := S512) ![64] S64.size inb_S512_S64_64) (fun _ => rfl)
abbrev sa2P : Memref sig .scVector .smem S64 .i32 := (saW).slice (Rect.unit (s := S512) ![128] S64.size inb_S512_S64_128) (fun _ => rfl)
abbrev sb2P : Memref sig .scVector .smem S64 .i32 := (sbW).slice (Rect.unit (s := S512) ![128] S64.size inb_S512_S64_128) (fun _ => rfl)
abbrev sa3P : Memref sig .scVector .smem S64 .i32 := (saW).slice (Rect.unit (s := S512) ![192] S64.size inb_S512_S64_192) (fun _ => rfl)
abbrev sb3P : Memref sig .scVector .smem S64 .i32 := (sbW).slice (Rect.unit (s := S512) ![192] S64.size inb_S512_S64_192) (fun _ => rfl)
abbrev sa4P : Memref sig .scVector .smem S64 .i32 := (saW).slice (Rect.unit (s := S512) ![256] S64.size inb_S512_S64_256) (fun _ => rfl)
abbrev sb4P : Memref sig .scVector .smem S64 .i32 := (sbW).slice (Rect.unit (s := S512) ![256] S64.size inb_S512_S64_256) (fun _ => rfl)
abbrev sa5P : Memref sig .scVector .smem S64 .i32 := (saW).slice (Rect.unit (s := S512) ![320] S64.size inb_S512_S64_320) (fun _ => rfl)
abbrev sb5P : Memref sig .scVector .smem S64 .i32 := (sbW).slice (Rect.unit (s := S512) ![320] S64.size inb_S512_S64_320) (fun _ => rfl)
abbrev sa6P : Memref sig .scVector .smem S64 .i32 := (saW).slice (Rect.unit (s := S512) ![384] S64.size inb_S512_S64_384) (fun _ => rfl)
abbrev sb6P : Memref sig .scVector .smem S64 .i32 := (sbW).slice (Rect.unit (s := S512) ![384] S64.size inb_S512_S64_384) (fun _ => rfl)
abbrev sa7P : Memref sig .scVector .smem S64 .i32 := (saW).slice (Rect.unit (s := S512) ![448] S64.size inb_S512_S64_448) (fun _ => rfl)
abbrev sb7P : Memref sig .scVector .smem S64 .i32 := (sbW).slice (Rect.unit (s := S512) ![448] S64.size inb_S512_S64_448) (fun _ => rfl)

theorem inb_run (k : Fin 8) : ∀ a, (![64 * k.val] : Fin 1 → Nat) a + (![64] : Fin 1 → Nat) a ≤ S512.size a :=
  Rect.inb₁ (d := ![512]) (show 64 * k.val + 64 ≤ 512 by have := k.isLt; omega)

abbrev runS (k : Fin 8) : Finset S512.Idx := (Rect.unit (s := S512) ![64 * k.val] ![64] (inb_run k)).set

omit [FloatOps F] in
theorem set_sa0P : (sa0P).view.set = runS 0 := by
  show ((View.whole (cc0_scratch2 : Ref sig .scVector)).slice _).set = _
  rw [View.set_slice]
  exact Finset.map_refl.trans (set_unit_congr rfl _ _)
omit [FloatOps F] in
theorem set_sb0P : (sb0P).view.set = runS 0 := by
  show ((View.whole (cc0_scratch3 : Ref sig .scVector)).slice _).set = _
  rw [View.set_slice]
  exact Finset.map_refl.trans (set_unit_congr rfl _ _)
omit [FloatOps F] in
theorem set_sa1P : (sa1P).view.set = runS 1 := by
  show ((View.whole (cc0_scratch2 : Ref sig .scVector)).slice _).set = _
  rw [View.set_slice]
  exact Finset.map_refl.trans (set_unit_congr rfl _ _)
omit [FloatOps F] in
theorem set_sb1P : (sb1P).view.set = runS 1 := by
  show ((View.whole (cc0_scratch3 : Ref sig .scVector)).slice _).set = _
  rw [View.set_slice]
  exact Finset.map_refl.trans (set_unit_congr rfl _ _)
omit [FloatOps F] in
theorem set_sa2P : (sa2P).view.set = runS 2 := by
  show ((View.whole (cc0_scratch2 : Ref sig .scVector)).slice _).set = _
  rw [View.set_slice]
  exact Finset.map_refl.trans (set_unit_congr rfl _ _)
omit [FloatOps F] in
theorem set_sb2P : (sb2P).view.set = runS 2 := by
  show ((View.whole (cc0_scratch3 : Ref sig .scVector)).slice _).set = _
  rw [View.set_slice]
  exact Finset.map_refl.trans (set_unit_congr rfl _ _)
omit [FloatOps F] in
theorem set_sa3P : (sa3P).view.set = runS 3 := by
  show ((View.whole (cc0_scratch2 : Ref sig .scVector)).slice _).set = _
  rw [View.set_slice]
  exact Finset.map_refl.trans (set_unit_congr rfl _ _)
omit [FloatOps F] in
theorem set_sb3P : (sb3P).view.set = runS 3 := by
  show ((View.whole (cc0_scratch3 : Ref sig .scVector)).slice _).set = _
  rw [View.set_slice]
  exact Finset.map_refl.trans (set_unit_congr rfl _ _)
omit [FloatOps F] in
theorem set_sa4P : (sa4P).view.set = runS 4 := by
  show ((View.whole (cc0_scratch2 : Ref sig .scVector)).slice _).set = _
  rw [View.set_slice]
  exact Finset.map_refl.trans (set_unit_congr rfl _ _)
omit [FloatOps F] in
theorem set_sb4P : (sb4P).view.set = runS 4 := by
  show ((View.whole (cc0_scratch3 : Ref sig .scVector)).slice _).set = _
  rw [View.set_slice]
  exact Finset.map_refl.trans (set_unit_congr rfl _ _)
omit [FloatOps F] in
theorem set_sa5P : (sa5P).view.set = runS 5 := by
  show ((View.whole (cc0_scratch2 : Ref sig .scVector)).slice _).set = _
  rw [View.set_slice]
  exact Finset.map_refl.trans (set_unit_congr rfl _ _)
omit [FloatOps F] in
theorem set_sb5P : (sb5P).view.set = runS 5 := by
  show ((View.whole (cc0_scratch3 : Ref sig .scVector)).slice _).set = _
  rw [View.set_slice]
  exact Finset.map_refl.trans (set_unit_congr rfl _ _)
omit [FloatOps F] in
theorem set_sa6P : (sa6P).view.set = runS 6 := by
  show ((View.whole (cc0_scratch2 : Ref sig .scVector)).slice _).set = _
  rw [View.set_slice]
  exact Finset.map_refl.trans (set_unit_congr rfl _ _)
omit [FloatOps F] in
theorem set_sb6P : (sb6P).view.set = runS 6 := by
  show ((View.whole (cc0_scratch3 : Ref sig .scVector)).slice _).set = _
  rw [View.set_slice]
  exact Finset.map_refl.trans (set_unit_congr rfl _ _)
omit [FloatOps F] in
theorem set_sa7P : (sa7P).view.set = runS 7 := by
  show ((View.whole (cc0_scratch2 : Ref sig .scVector)).slice _).set = _
  rw [View.set_slice]
  exact Finset.map_refl.trans (set_unit_congr rfl _ _)
omit [FloatOps F] in
theorem set_sb7P : (sb7P).view.set = runS 7 := by
  show ((View.whole (cc0_scratch3 : Ref sig .scVector)).slice _).set = _
  rw [View.set_slice]
  exact Finset.map_refl.trans (set_unit_congr rfl _ _)

omit [FloatOps F] in
theorem univ8' : (Finset.univ : Finset (Fin 8)) = {0, 1, 2, 3, 4, 5, 6, 7} := by decide

set_option maxHeartbeats 2000000 in
omit [FloatOps F] in
/-- The index buffer is its eight runs, at the same contents. -/
theorem split_sa (f : Buf (Elt F) ((saW).view.loc (thr d L))) :
    ((saW).view.loc (thr d L) ↦{fullShare} f : sProp 𝕄)
      = iprop(((sa0P).view.loc (thr d L) ↦[(sa0P).view.set]{fullShare} f)
          ∗ ((sa1P).view.loc (thr d L) ↦[(sa1P).view.set]{fullShare} f)
          ∗ ((sa2P).view.loc (thr d L) ↦[(sa2P).view.set]{fullShare} f)
          ∗ ((sa3P).view.loc (thr d L) ↦[(sa3P).view.set]{fullShare} f)
          ∗ ((sa4P).view.loc (thr d L) ↦[(sa4P).view.set]{fullShare} f)
          ∗ ((sa5P).view.loc (thr d L) ↦[(sa5P).view.set]{fullShare} f)
          ∗ ((sa6P).view.loc (thr d L) ↦[(sa6P).view.set]{fullShare} f)
          ∗ ((sa7P).view.loc (thr d L) ↦[(sa7P).view.set]{fullShare} f)) := by
  rw [set_sa0P, set_sa1P, set_sa2P, set_sa3P, set_sa4P, set_sa5P, set_sa6P, set_sa7P]
  have h : ((saW).view.loc (thr d L) ↦{fullShare} f : sProp 𝕄)
      = bigSep Finset.univ fun k : Fin 8 => (saW).view.loc (thr d L) ↦[runS k]{fullShare} f := by
    rw [← pointsTo_biUnion Finset.univ (ℓ := (saW).view.loc (thr d L)) runS (vec_chunks_disjoint (fun k => inb_run k)),
      ← vec_chunks (fun k => inb_run k)]; try rfl
  refine h.trans ((congrArg (fun s => bigSep s _) univ8').trans ?_)
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
set_option maxHeartbeats 2000000 in
omit [FloatOps F] in
/-- The index buffer is its eight runs, at the same contents. -/
theorem split_sb (f : Buf (Elt F) ((sbW).view.loc (thr d L))) :
    ((sbW).view.loc (thr d L) ↦{fullShare} f : sProp 𝕄)
      = iprop(((sb0P).view.loc (thr d L) ↦[(sb0P).view.set]{fullShare} f)
          ∗ ((sb1P).view.loc (thr d L) ↦[(sb1P).view.set]{fullShare} f)
          ∗ ((sb2P).view.loc (thr d L) ↦[(sb2P).view.set]{fullShare} f)
          ∗ ((sb3P).view.loc (thr d L) ↦[(sb3P).view.set]{fullShare} f)
          ∗ ((sb4P).view.loc (thr d L) ↦[(sb4P).view.set]{fullShare} f)
          ∗ ((sb5P).view.loc (thr d L) ↦[(sb5P).view.set]{fullShare} f)
          ∗ ((sb6P).view.loc (thr d L) ↦[(sb6P).view.set]{fullShare} f)
          ∗ ((sb7P).view.loc (thr d L) ↦[(sb7P).view.set]{fullShare} f)) := by
  rw [set_sb0P, set_sb1P, set_sb2P, set_sb3P, set_sb4P, set_sb5P, set_sb6P, set_sb7P]
  have h : ((sbW).view.loc (thr d L) ↦{fullShare} f : sProp 𝕄)
      = bigSep Finset.univ fun k : Fin 8 => (sbW).view.loc (thr d L) ↦[runS k]{fullShare} f := by
    rw [← pointsTo_biUnion Finset.univ (ℓ := (sbW).view.loc (thr d L)) runS (vec_chunks_disjoint (fun k => inb_run k)),
      ← vec_chunks (fun k => inb_run k)]; try rfl
  refine h.trans ((congrArg (fun s => bigSep s _) univ8').trans ?_)
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end Sm

end Cert.Proof.KI

end
-- ==== Proof.KI.Stage.lean ====
import proofs.«204821_g30846455120635_fold_wed_m_1292_33_alg».proof.Proof.KI.Setup
import proofs.«204821_g30846455120635_fold_wed_m_1292_33_alg».proof.Proof.KI.SmSets
import proofs.«204821_g30846455120635_fold_wed_m_1292_33_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

section Stage
variable (d : Dev nD) (L : grid0.Coords)

/-! ## The index batch: eight copies of 512 words into the row of the shared scratch -/

/-- The row of the shared scratch once index column j has landed in its piece. -/
def ISH0 (fc : Buf (Elt F) ((c0S L).view.loc (thr d L))) (fsh : Buf (Elt F) ((sh0P L).view.loc (thr d L))) : Buf (Elt F) ((sh0P L).view.loc (thr d L)) :=
  (sh0P L).view.writes (Elt F) fsh [⟨Rect.whole S512, ReadAs.same.apply ((c0S L).view.read (Elt F) fc)⟩]
def ISH1 (fc : Buf (Elt F) ((c1S L).view.loc (thr d L))) (fsh : Buf (Elt F) ((sh0P L).view.loc (thr d L))) : Buf (Elt F) ((sh0P L).view.loc (thr d L)) :=
  (sh1P L).view.writes (Elt F) fsh [⟨Rect.whole S512, ReadAs.same.apply ((c1S L).view.read (Elt F) fc)⟩]
def ISH2 (fc : Buf (Elt F) ((c2S L).view.loc (thr d L))) (fsh : Buf (Elt F) ((sh0P L).view.loc (thr d L))) : Buf (Elt F) ((sh0P L).view.loc (thr d L)) :=
  (sh2P L).view.writes (Elt F) fsh [⟨Rect.whole S512, ReadAs.same.apply ((c2S L).view.read (Elt F) fc)⟩]
def ISH3 (fc : Buf (Elt F) ((c3S L).view.loc (thr d L))) (fsh : Buf (Elt F) ((sh0P L).view.loc (thr d L))) : Buf (Elt F) ((sh0P L).view.loc (thr d L)) :=
  (sh3P L).view.writes (Elt F) fsh [⟨Rect.whole S512, ReadAs.same.apply ((c3S L).view.read (Elt F) fc)⟩]
def ISH4 (fc : Buf (Elt F) ((c4S L).view.loc (thr d L))) (fsh : Buf (Elt F) ((sh0P L).view.loc (thr d L))) : Buf (Elt F) ((sh0P L).view.loc (thr d L)) :=
  (sh4P L).view.writes (Elt F) fsh [⟨Rect.whole S512, ReadAs.same.apply ((c4S L).view.read (Elt F) fc)⟩]
def ISH5 (fc : Buf (Elt F) ((c5S L).view.loc (thr d L))) (fsh : Buf (Elt F) ((sh0P L).view.loc (thr d L))) : Buf (Elt F) ((sh0P L).view.loc (thr d L)) :=
  (sh5P L).view.writes (Elt F) fsh [⟨Rect.whole S512, ReadAs.same.apply ((c5S L).view.read (Elt F) fc)⟩]
def ISH6 (fc : Buf (Elt F) ((c6S L).view.loc (thr d L))) (fsh : Buf (Elt F) ((sh0P L).view.loc (thr d L))) : Buf (Elt F) ((sh0P L).view.loc (thr d L)) :=
  (sh6P L).view.writes (Elt F) fsh [⟨Rect.whole S512, ReadAs.same.apply ((c6S L).view.read (Elt F) fc)⟩]
def ISH7 (fc : Buf (Elt F) ((c7S L).view.loc (thr d L))) (fsh : Buf (Elt F) ((sh0P L).view.loc (thr d L))) : Buf (Elt F) ((sh0P L).view.loc (thr d L)) :=
  (sh7P L).view.writes (Elt F) fsh [⟨Rect.whole S512, ReadAs.same.apply ((c7S L).view.read (Elt F) fc)⟩]

/-- What copy t of the index batch delivers: piece t of the row holding the column's 512 words, and the words back. -/
def dlvI (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) : Fin 8 → sProp 𝕄
  | 0 => iprop(((sh0P L).view.loc (thr d L) ↦[(sh0P L).view.set]{fullShare} ISH0 d L fc0 fsh)
      ∗ ((c0S L).view.loc (thr d L) ↦[(c0S L).view.set]{fullShare} fc0))
  | 1 => iprop(((sh1P L).view.loc (thr d L) ↦[(sh1P L).view.set]{fullShare} ISH1 d L fc1 fsh)
      ∗ ((c1S L).view.loc (thr d L) ↦[(c1S L).view.set]{fullShare} fc1))
  | 2 => iprop(((sh2P L).view.loc (thr d L) ↦[(sh2P L).view.set]{fullShare} ISH2 d L fc2 fsh)
      ∗ ((c2S L).view.loc (thr d L) ↦[(c2S L).view.set]{fullShare} fc2))
  | 3 => iprop(((sh3P L).view.loc (thr d L) ↦[(sh3P L).view.set]{fullShare} ISH3 d L fc3 fsh)
      ∗ ((c3S L).view.loc (thr d L) ↦[(c3S L).view.set]{fullShare} fc3))
  | 4 => iprop(((sh4P L).view.loc (thr d L) ↦[(sh4P L).view.set]{fullShare} ISH4 d L fc4 fsh)
      ∗ ((c4S L).view.loc (thr d L) ↦[(c4S L).view.set]{fullShare} fc4))
  | 5 => iprop(((sh5P L).view.loc (thr d L) ↦[(sh5P L).view.set]{fullShare} ISH5 d L fc5 fsh)
      ∗ ((c5S L).view.loc (thr d L) ↦[(c5S L).view.set]{fullShare} fc5))
  | 6 => iprop(((sh6P L).view.loc (thr d L) ↦[(sh6P L).view.set]{fullShare} ISH6 d L fc6 fsh)
      ∗ ((c6S L).view.loc (thr d L) ↦[(c6S L).view.set]{fullShare} fc6))
  | 7 => iprop(((sh7P L).view.loc (thr d L) ↦[(sh7P L).view.set]{fullShare} ISH7 d L fc7 fsh)
      ∗ ((c7S L).view.loc (thr d L) ↦[(c7S L).view.set]{fullShare} fc7))

instance dlvI_storable (fc0 fc1 fc2 fc3 fc4 fc5 fc6 fc7 fsh) (t : Fin 8) : BI.Storable (upEmb : UEmb _ 𝕄) (dlvI (F := F) d L fc0 fc1 fc2 fc3 fc4 fc5 fc6 fc7 fsh t) := by
  fin_cases t <;> (unfold dlvI; infer_instance)

/-- One index copy's credit. -/
abbrev NI : ℕ := (sh0P L).view.amount (SemLoc.dma (sig := sig) cc0_scratch7.sem)

/-! ## The stage batches: eight copies of 64 words from the row into an index buffer -/

/-- Run j of the index buffer once stage 0's copy j has landed. -/
def Cp0 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → Buf (Elt F) ((saW).view.loc (thr d L))
  | 0 => (sa0P).view.writes (Elt F) prev [⟨Rect.whole S64, ReadAs.same.apply ((q0_0 L).view.read (Elt F) (ISH0 d L fc0 fsh))⟩]
  | 1 => (sa1P).view.writes (Elt F) prev [⟨Rect.whole S64, ReadAs.same.apply ((q0_1 L).view.read (Elt F) (ISH1 d L fc1 fsh))⟩]
  | 2 => (sa2P).view.writes (Elt F) prev [⟨Rect.whole S64, ReadAs.same.apply ((q0_2 L).view.read (Elt F) (ISH2 d L fc2 fsh))⟩]
  | 3 => (sa3P).view.writes (Elt F) prev [⟨Rect.whole S64, ReadAs.same.apply ((q0_3 L).view.read (Elt F) (ISH3 d L fc3 fsh))⟩]
  | 4 => (sa4P).view.writes (Elt F) prev [⟨Rect.whole S64, ReadAs.same.apply ((q0_4 L).view.read (Elt F) (ISH4 d L fc4 fsh))⟩]
  | 5 => (sa5P).view.writes (Elt F) prev [⟨Rect.whole S64, ReadAs.same.apply ((q0_5 L).view.read (Elt F) (ISH5 d L fc5 fsh))⟩]
  | 6 => (sa6P).view.writes (Elt F) prev [⟨Rect.whole S64, ReadAs.same.apply ((q0_6 L).view.read (Elt F) (ISH6 d L fc6 fsh))⟩]
  | 7 => (sa7P).view.writes (Elt F) prev [⟨Rect.whole S64, ReadAs.same.apply ((q0_7 L).view.read (Elt F) (ISH7 d L fc7 fsh))⟩]

/-- What copy t of stage 0 delivers: run t of the index buffer holding the 64 words, and the words' run of the row back. -/
def dlvS0 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → sProp 𝕄
  | 0 => iprop(((sa0P).view.loc (thr d L) ↦[(sa0P).view.set]{fullShare} Cp0 d L fc0 fc1 fc2 fc3 fc4 fc5 fc6 fc7 fsh prev 0)
      ∗ ((q0_0 L).view.loc (thr d L) ↦[(q0_0 L).view.set]{fullShare} ISH0 d L fc0 fsh))
  | 1 => iprop(((sa1P).view.loc (thr d L) ↦[(sa1P).view.set]{fullShare} Cp0 d L fc0 fc1 fc2 fc3 fc4 fc5 fc6 fc7 fsh prev 1)
      ∗ ((q0_1 L).view.loc (thr d L) ↦[(q0_1 L).view.set]{fullShare} ISH1 d L fc1 fsh))
  | 2 => iprop(((sa2P).view.loc (thr d L) ↦[(sa2P).view.set]{fullShare} Cp0 d L fc0 fc1 fc2 fc3 fc4 fc5 fc6 fc7 fsh prev 2)
      ∗ ((q0_2 L).view.loc (thr d L) ↦[(q0_2 L).view.set]{fullShare} ISH2 d L fc2 fsh))
  | 3 => iprop(((sa3P).view.loc (thr d L) ↦[(sa3P).view.set]{fullShare} Cp0 d L fc0 fc1 fc2 fc3 fc4 fc5 fc6 fc7 fsh prev 3)
      ∗ ((q0_3 L).view.loc (thr d L) ↦[(q0_3 L).view.set]{fullShare} ISH3 d L fc3 fsh))
  | 4 => iprop(((sa4P).view.loc (thr d L) ↦[(sa4P).view.set]{fullShare} Cp0 d L fc0 fc1 fc2 fc3 fc4 fc5 fc6 fc7 fsh prev 4)
      ∗ ((q0_4 L).view.loc (thr d L) ↦[(q0_4 L).view.set]{fullShare} ISH4 d L fc4 fsh))
  | 5 => iprop(((sa5P).view.loc (thr d L) ↦[(sa5P).view.set]{fullShare} Cp0 d L fc0 fc1 fc2 fc3 fc4 fc5 fc6 fc7 fsh prev 5)
      ∗ ((q0_5 L).view.loc (thr d L) ↦[(q0_5 L).view.set]{fullShare} ISH5 d L fc5 fsh))
  | 6 => iprop(((sa6P).view.loc (thr d L) ↦[(sa6P).view.set]{fullShare} Cp0 d L fc0 fc1 fc2 fc3 fc4 fc5 fc6 fc7 fsh prev 6)
      ∗ ((q0_6 L).view.loc (thr d L) ↦[(q0_6 L).view.set]{fullShare} ISH6 d L fc6 fsh))
  | 7 => iprop(((sa7P).view.loc (thr d L) ↦[(sa7P).view.set]{fullShare} Cp0 d L fc0 fc1 fc2 fc3 fc4 fc5 fc6 fc7 fsh prev 7)
      ∗ ((q0_7 L).view.loc (thr d L) ↦[(q0_7 L).view.set]{fullShare} ISH7 d L fc7 fsh))

instance dlvS0_storable (fc0 fc1 fc2 fc3 fc4 fc5 fc6 fc7 fsh prev) (t : Fin 8) : BI.Storable (upEmb : UEmb _ 𝕄) (dlvS0 (F := F) d L fc0 fc1 fc2 fc3 fc4 fc5 fc6 fc7 fsh prev t) := by
  fin_cases t <;> (unfold dlvS0; infer_instance)

/-- Run j of the index buffer once stage 1's copy j has landed. -/
def Cp1 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → Buf (Elt F) ((sbW).view.loc (thr d L))
  | 0 => (sb0P).view.writes (Elt F) prev [⟨Rect.whole S64, ReadAs.same.apply ((q1_0 L).view.read (Elt F) (ISH0 d L fc0 fsh))⟩]
  | 1 => (sb1P).view.writes (Elt F) prev [⟨Rect.whole S64, ReadAs.same.apply ((q1_1 L).view.read (Elt F) (ISH1 d L fc1 fsh))⟩]
  | 2 => (sb2P).view.writes (Elt F) prev [⟨Rect.whole S64, ReadAs.same.apply ((q1_2 L).view.read (Elt F) (ISH2 d L fc2 fsh))⟩]
  | 3 => (sb3P).view.writes (Elt F) prev [⟨Rect.whole S64, ReadAs.same.apply ((q1_3 L).view.read (Elt F) (ISH3 d L fc3 fsh))⟩]
  | 4 => (sb4P).view.writes (Elt F) prev [⟨Rect.whole S64, ReadAs.same.apply ((q1_4 L).view.read (Elt F) (ISH4 d L fc4 fsh))⟩]
  | 5 => (sb5P).view.writes (Elt F) prev [⟨Rect.whole S64, ReadAs.same.apply ((q1_5 L).view.read (Elt F) (ISH5 d L fc5 fsh))⟩]
  | 6 => (sb6P).view.writes (Elt F) prev [⟨Rect.whole S64, ReadAs.same.apply ((q1_6 L).view.read (Elt F) (ISH6 d L fc6 fsh))⟩]
  | 7 => (sb7P).view.writes (Elt F) prev [⟨Rect.whole S64, ReadAs.same.apply ((q1_7 L).view.read (Elt F) (ISH7 d L fc7 fsh))⟩]

/-- What copy t of stage 1 delivers: run t of the index buffer holding the 64 words, and the words' run of the row back. -/
def dlvS1 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → sProp 𝕄
  | 0 => iprop(((sb0P).view.loc (thr d L) ↦[(sb0P).view.set]{fullShare} Cp1 d L fc0 fc1 fc2 fc3 fc4 fc5 fc6 fc7 fsh prev 0)
      ∗ ((q1_0 L).view.loc (thr d L) ↦[(q1_0 L).view.set]{fullShare} ISH0 d L fc0 fsh))
  | 1 => iprop(((sb1P).view.loc (thr d L) ↦[(sb1P).view.set]{fullShare} Cp1 d L fc0 fc1 fc2 fc3 fc4 fc5 fc6 fc7 fsh prev 1)
      ∗ ((q1_1 L).view.loc (thr d L) ↦[(q1_1 L).view.set]{fullShare} ISH1 d L fc1 fsh))
  | 2 => iprop(((sb2P).view.loc (thr d L) ↦[(sb2P).view.set]{fullShare} Cp1 d L fc0 fc1 fc2 fc3 fc4 fc5 fc6 fc7 fsh prev 2)
      ∗ ((q1_2 L).view.loc (thr d L) ↦[(q1_2 L).view.set]{fullShare} ISH2 d L fc2 fsh))
  | 3 => iprop(((sb3P).view.loc (thr d L) ↦[(sb3P).view.set]{fullShare} Cp1 d L fc0 fc1 fc2 fc3 fc4 fc5 fc6 fc7 fsh prev 3)
      ∗ ((q1_3 L).view.loc (thr d L) ↦[(q1_3 L).view.set]{fullShare} ISH3 d L fc3 fsh))
  | 4 => iprop(((sb4P).view.loc (thr d L) ↦[(sb4P).view.set]{fullShare} Cp1 d L fc0 fc1 fc2 fc3 fc4 fc5 fc6 fc7 fsh prev 4)
      ∗ ((q1_4 L).view.loc (thr d L) ↦[(q1_4 L).view.set]{fullShare} ISH4 d L fc4 fsh))
  | 5 => iprop(((sb5P).view.loc (thr d L) ↦[(sb5P).view.set]{fullShare} Cp1 d L fc0 fc1 fc2 fc3 fc4 fc5 fc6 fc7 fsh prev 5)
      ∗ ((q1_5 L).view.loc (thr d L) ↦[(q1_5 L).view.set]{fullShare} ISH5 d L fc5 fsh))
  | 6 => iprop(((sb6P).view.loc (thr d L) ↦[(sb6P).view.set]{fullShare} Cp1 d L fc0 fc1 fc2 fc3 fc4 fc5 fc6 fc7 fsh prev 6)
      ∗ ((q1_6 L).view.loc (thr d L) ↦[(q1_6 L).view.set]{fullShare} ISH6 d L fc6 fsh))
  | 7 => iprop(((sb7P).view.loc (thr d L) ↦[(sb7P).view.set]{fullShare} Cp1 d L fc0 fc1 fc2 fc3 fc4 fc5 fc6 fc7 fsh prev 7)
      ∗ ((q1_7 L).view.loc (thr d L) ↦[(q1_7 L).view.set]{fullShare} ISH7 d L fc7 fsh))

instance dlvS1_storable (fc0 fc1 fc2 fc3 fc4 fc5 fc6 fc7 fsh prev) (t : Fin 8) : BI.Storable (upEmb : UEmb _ 𝕄) (dlvS1 (F := F) d L fc0 fc1 fc2 fc3 fc4 fc5 fc6 fc7 fsh prev t) := by
  fin_cases t <;> (unfold dlvS1; infer_instance)

/-- Run j of the index buffer once stage 2's copy j has landed. -/
def Cp2 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → Buf (Elt F) ((saW).view.loc (thr d L))
  | 0 => (sa0P).view.writes (Elt F) prev [⟨Rect.whole S64, ReadAs.same.apply ((q2_0 L).view.read (Elt F) (ISH0 d L fc0 fsh))⟩]
  | 1 => (sa1P).view.writes (Elt F) prev [⟨Rect.whole S64, ReadAs.same.apply ((q2_1 L).view.read (Elt F) (ISH1 d L fc1 fsh))⟩]
  | 2 => (sa2P).view.writes (Elt F) prev [⟨Rect.whole S64, ReadAs.same.apply ((q2_2 L).view.read (Elt F) (ISH2 d L fc2 fsh))⟩]
  | 3 => (sa3P).view.writes (Elt F) prev [⟨Rect.whole S64, ReadAs.same.apply ((q2_3 L).view.read (Elt F) (ISH3 d L fc3 fsh))⟩]
  | 4 => (sa4P).view.writes (Elt F) prev [⟨Rect.whole S64, ReadAs.same.apply ((q2_4 L).view.read (Elt F) (ISH4 d L fc4 fsh))⟩]
  | 5 => (sa5P).view.writes (Elt F) prev [⟨Rect.whole S64, ReadAs.same.apply ((q2_5 L).view.read (Elt F) (ISH5 d L fc5 fsh))⟩]
  | 6 => (sa6P).view.writes (Elt F) prev [⟨Rect.whole S64, ReadAs.same.apply ((q2_6 L).view.read (Elt F) (ISH6 d L fc6 fsh))⟩]
  | 7 => (sa7P).view.writes (Elt F) prev [⟨Rect.whole S64, ReadAs.same.apply ((q2_7 L).view.read (Elt F) (ISH7 d L fc7 fsh))⟩]

/-- What copy t of stage 2 delivers: run t of the index buffer holding the 64 words, and the words' run of the row back. -/
def dlvS2 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → sProp 𝕄
  | 0 => iprop(((sa0P).view.loc (thr d L) ↦[(sa0P).view.set]{fullShare} Cp2 d L fc0 fc1 fc2 fc3 fc4 fc5 fc6 fc7 fsh prev 0)
      ∗ ((q2_0 L).view.loc (thr d L) ↦[(q2_0 L).view.set]{fullShare} ISH0 d L fc0 fsh))
  | 1 => iprop(((sa1P).view.loc (thr d L) ↦[(sa1P).view.set]{fullShare} Cp2 d L fc0 fc1 fc2 fc3 fc4 fc5 fc6 fc7 fsh prev 1)
      ∗ ((q2_1 L).view.loc (thr d L) ↦[(q2_1 L).view.set]{fullShare} ISH1 d L fc1 fsh))
  | 2 => iprop(((sa2P).view.loc (thr d L) ↦[(sa2P).view.set]{fullShare} Cp2 d L fc0 fc1 fc2 fc3 fc4 fc5 fc6 fc7 fsh prev 2)
      ∗ ((q2_2 L).view.loc (thr d L) ↦[(q2_2 L).view.set]{fullShare} ISH2 d L fc2 fsh))
  | 3 => iprop(((sa3P).view.loc (thr d L) ↦[(sa3P).view.set]{fullShare} Cp2 d L fc0 fc1 fc2 fc3 fc4 fc5 fc6 fc7 fsh prev 3)
      ∗ ((q2_3 L).view.loc (thr d L) ↦[(q2_3 L).view.set]{fullShare} ISH3 d L fc3 fsh))
  | 4 => iprop(((sa4P).view.loc (thr d L) ↦[(sa4P).view.set]{fullShare} Cp2 d L fc0 fc1 fc2 fc3 fc4 fc5 fc6 fc7 fsh prev 4)
      ∗ ((q2_4 L).view.loc (thr d L) ↦[(q2_4 L).view.set]{fullShare} ISH4 d L fc4 fsh))
  | 5 => iprop(((sa5P).view.loc (thr d L) ↦[(sa5P).view.set]{fullShare} Cp2 d L fc0 fc1 fc2 fc3 fc4 fc5 fc6 fc7 fsh prev 5)
      ∗ ((q2_5 L).view.loc (thr d L) ↦[(q2_5 L).view.set]{fullShare} ISH5 d L fc5 fsh))
  | 6 => iprop(((sa6P).view.loc (thr d L) ↦[(sa6P).view.set]{fullShare} Cp2 d L fc0 fc1 fc2 fc3 fc4 fc5 fc6 fc7 fsh prev 6)
      ∗ ((q2_6 L).view.loc (thr d L) ↦[(q2_6 L).view.set]{fullShare} ISH6 d L fc6 fsh))
  | 7 => iprop(((sa7P).view.loc (thr d L) ↦[(sa7P).view.set]{fullShare} Cp2 d L fc0 fc1 fc2 fc3 fc4 fc5 fc6 fc7 fsh prev 7)
      ∗ ((q2_7 L).view.loc (thr d L) ↦[(q2_7 L).view.set]{fullShare} ISH7 d L fc7 fsh))

instance dlvS2_storable (fc0 fc1 fc2 fc3 fc4 fc5 fc6 fc7 fsh prev) (t : Fin 8) : BI.Storable (upEmb : UEmb _ 𝕄) (dlvS2 (F := F) d L fc0 fc1 fc2 fc3 fc4 fc5 fc6 fc7 fsh prev t) := by
  fin_cases t <;> (unfold dlvS2; infer_instance)

/-- Run j of the index buffer once stage 3's copy j has landed. -/
def Cp3 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → Buf (Elt F) ((sbW).view.loc (thr d L))
  | 0 => (sb0P).view.writes (Elt F) prev [⟨Rect.whole S64, ReadAs.same.apply ((q3_0 L).view.read (Elt F) (ISH0 d L fc0 fsh))⟩]
  | 1 => (sb1P).view.writes (Elt F) prev [⟨Rect.whole S64, ReadAs.same.apply ((q3_1 L).view.read (Elt F) (ISH1 d L fc1 fsh))⟩]
  | 2 => (sb2P).view.writes (Elt F) prev [⟨Rect.whole S64, ReadAs.same.apply ((q3_2 L).view.read (Elt F) (ISH2 d L fc2 fsh))⟩]
  | 3 => (sb3P).view.writes (Elt F) prev [⟨Rect.whole S64, ReadAs.same.apply ((q3_3 L).view.read (Elt F) (ISH3 d L fc3 fsh))⟩]
  | 4 => (sb4P).view.writes (Elt F) prev [⟨Rect.whole S64, ReadAs.same.apply ((q3_4 L).view.read (Elt F) (ISH4 d L fc4 fsh))⟩]
  | 5 => (sb5P).view.writes (Elt F) prev [⟨Rect.whole S64, ReadAs.same.apply ((q3_5 L).view.read (Elt F) (ISH5 d L fc5 fsh))⟩]
  | 6 => (sb6P).view.writes (Elt F) prev [⟨Rect.whole S64, ReadAs.same.apply ((q3_6 L).view.read (Elt F) (ISH6 d L fc6 fsh))⟩]
  | 7 => (sb7P).view.writes (Elt F) prev [⟨Rect.whole S64, ReadAs.same.apply ((q3_7 L).view.read (Elt F) (ISH7 d L fc7 fsh))⟩]

/-- What copy t of stage 3 delivers: run t of the index buffer holding the 64 words, and the words' run of the row back. -/
def dlvS3 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → sProp 𝕄
  | 0 => iprop(((sb0P).view.loc (thr d L) ↦[(sb0P).view.set]{fullShare} Cp3 d L fc0 fc1 fc2 fc3 fc4 fc5 fc6 fc7 fsh prev 0)
      ∗ ((q3_0 L).view.loc (thr d L) ↦[(q3_0 L).view.set]{fullShare} ISH0 d L fc0 fsh))
  | 1 => iprop(((sb1P).view.loc (thr d L) ↦[(sb1P).view.set]{fullShare} Cp3 d L fc0 fc1 fc2 fc3 fc4 fc5 fc6 fc7 fsh prev 1)
      ∗ ((q3_1 L).view.loc (thr d L) ↦[(q3_1 L).view.set]{fullShare} ISH1 d L fc1 fsh))
  | 2 => iprop(((sb2P).view.loc (thr d L) ↦[(sb2P).view.set]{fullShare} Cp3 d L fc0 fc1 fc2 fc3 fc4 fc5 fc6 fc7 fsh prev 2)
      ∗ ((q3_2 L).view.loc (thr d L) ↦[(q3_2 L).view.set]{fullShare} ISH2 d L fc2 fsh))
  | 3 => iprop(((sb3P).view.loc (thr d L) ↦[(sb3P).view.set]{fullShare} Cp3 d L fc0 fc1 fc2 fc3 fc4 fc5 fc6 fc7 fsh prev 3)
      ∗ ((q3_3 L).view.loc (thr d L) ↦[(q3_3 L).view.set]{fullShare} ISH3 d L fc3 fsh))
  | 4 => iprop(((sb4P).view.loc (thr d L) ↦[(sb4P).view.set]{fullShare} Cp3 d L fc0 fc1 fc2 fc3 fc4 fc5 fc6 fc7 fsh prev 4)
      ∗ ((q3_4 L).view.loc (thr d L) ↦[(q3_4 L).view.set]{fullShare} ISH4 d L fc4 fsh))
  | 5 => iprop(((sb5P).view.loc (thr d L) ↦[(sb5P).view.set]{fullShare} Cp3 d L fc0 fc1 fc2 fc3 fc4 fc5 fc6 fc7 fsh prev 5)
      ∗ ((q3_5 L).view.loc (thr d L) ↦[(q3_5 L).view.set]{fullShare} ISH5 d L fc5 fsh))
  | 6 => iprop(((sb6P).view.loc (thr d L) ↦[(sb6P).view.set]{fullShare} Cp3 d L fc0 fc1 fc2 fc3 fc4 fc5 fc6 fc7 fsh prev 6)
      ∗ ((q3_6 L).view.loc (thr d L) ↦[(q3_6 L).view.set]{fullShare} ISH6 d L fc6 fsh))
  | 7 => iprop(((sb7P).view.loc (thr d L) ↦[(sb7P).view.set]{fullShare} Cp3 d L fc0 fc1 fc2 fc3 fc4 fc5 fc6 fc7 fsh prev 7)
      ∗ ((q3_7 L).view.loc (thr d L) ↦[(q3_7 L).view.set]{fullShare} ISH7 d L fc7 fsh))

instance dlvS3_storable (fc0 fc1 fc2 fc3 fc4 fc5 fc6 fc7 fsh prev) (t : Fin 8) : BI.Storable (upEmb : UEmb _ 𝕄) (dlvS3 (F := F) d L fc0 fc1 fc2 fc3 fc4 fc5 fc6 fc7 fsh prev t) := by
  fin_cases t <;> (unfold dlvS3; infer_instance)

/-- Run j of the index buffer once stage 4's copy j has landed. -/
def Cp4 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → Buf (Elt F) ((saW).view.loc (thr d L))
  | 0 => (sa0P).view.writes (Elt F) prev [⟨Rect.whole S64, ReadAs.same.apply ((q4_0 L).view.read (Elt F) (ISH0 d L fc0 fsh))⟩]
  | 1 => (sa1P).view.writes (Elt F) prev [⟨Rect.whole S64, ReadAs.same.apply ((q4_1 L).view.read (Elt F) (ISH1 d L fc1 fsh))⟩]
  | 2 => (sa2P).view.writes (Elt F) prev [⟨Rect.whole S64, ReadAs.same.apply ((q4_2 L).view.read (Elt F) (ISH2 d L fc2 fsh))⟩]
  | 3 => (sa3P).view.writes (Elt F) prev [⟨Rect.whole S64, ReadAs.same.apply ((q4_3 L).view.read (Elt F) (ISH3 d L fc3 fsh))⟩]
  | 4 => (sa4P).view.writes (Elt F) prev [⟨Rect.whole S64, ReadAs.same.apply ((q4_4 L).view.read (Elt F) (ISH4 d L fc4 fsh))⟩]
  | 5 => (sa5P).view.writes (Elt F) prev [⟨Rect.whole S64, ReadAs.same.apply ((q4_5 L).view.read (Elt F) (ISH5 d L fc5 fsh))⟩]
  | 6 => (sa6P).view.writes (Elt F) prev [⟨Rect.whole S64, ReadAs.same.apply ((q4_6 L).view.read (Elt F) (ISH6 d L fc6 fsh))⟩]
  | 7 => (sa7P).view.writes (Elt F) prev [⟨Rect.whole S64, ReadAs.same.apply ((q4_7 L).view.read (Elt F) (ISH7 d L fc7 fsh))⟩]

/-- What copy t of stage 4 delivers: run t of the index buffer holding the 64 words, and the words' run of the row back. -/
def dlvS4 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → sProp 𝕄
  | 0 => iprop(((sa0P).view.loc (thr d L) ↦[(sa0P).view.set]{fullShare} Cp4 d L fc0 fc1 fc2 fc3 fc4 fc5 fc6 fc7 fsh prev 0)
      ∗ ((q4_0 L).view.loc (thr d L) ↦[(q4_0 L).view.set]{fullShare} ISH0 d L fc0 fsh))
  | 1 => iprop(((sa1P).view.loc (thr d L) ↦[(sa1P).view.set]{fullShare} Cp4 d L fc0 fc1 fc2 fc3 fc4 fc5 fc6 fc7 fsh prev 1)
      ∗ ((q4_1 L).view.loc (thr d L) ↦[(q4_1 L).view.set]{fullShare} ISH1 d L fc1 fsh))
  | 2 => iprop(((sa2P).view.loc (thr d L) ↦[(sa2P).view.set]{fullShare} Cp4 d L fc0 fc1 fc2 fc3 fc4 fc5 fc6 fc7 fsh prev 2)
      ∗ ((q4_2 L).view.loc (thr d L) ↦[(q4_2 L).view.set]{fullShare} ISH2 d L fc2 fsh))
  | 3 => iprop(((sa3P).view.loc (thr d L) ↦[(sa3P).view.set]{fullShare} Cp4 d L fc0 fc1 fc2 fc3 fc4 fc5 fc6 fc7 fsh prev 3)
      ∗ ((q4_3 L).view.loc (thr d L) ↦[(q4_3 L).view.set]{fullShare} ISH3 d L fc3 fsh))
  | 4 => iprop(((sa4P).view.loc (thr d L) ↦[(sa4P).view.set]{fullShare} Cp4 d L fc0 fc1 fc2 fc3 fc4 fc5 fc6 fc7 fsh prev 4)
      ∗ ((q4_4 L).view.loc (thr d L) ↦[(q4_4 L).view.set]{fullShare} ISH4 d L fc4 fsh))
  | 5 => iprop(((sa5P).view.loc (thr d L) ↦[(sa5P).view.set]{fullShare} Cp4 d L fc0 fc1 fc2 fc3 fc4 fc5 fc6 fc7 fsh prev 5)
      ∗ ((q4_5 L).view.loc (thr d L) ↦[(q4_5 L).view.set]{fullShare} ISH5 d L fc5 fsh))
  | 6 => iprop(((sa6P).view.loc (thr d L) ↦[(sa6P).view.set]{fullShare} Cp4 d L fc0 fc1 fc2 fc3 fc4 fc5 fc6 fc7 fsh prev 6)
      ∗ ((q4_6 L).view.loc (thr d L) ↦[(q4_6 L).view.set]{fullShare} ISH6 d L fc6 fsh))
  | 7 => iprop(((sa7P).view.loc (thr d L) ↦[(sa7P).view.set]{fullShare} Cp4 d L fc0 fc1 fc2 fc3 fc4 fc5 fc6 fc7 fsh prev 7)
      ∗ ((q4_7 L).view.loc (thr d L) ↦[(q4_7 L).view.set]{fullShare} ISH7 d L fc7 fsh))

instance dlvS4_storable (fc0 fc1 fc2 fc3 fc4 fc5 fc6 fc7 fsh prev) (t : Fin 8) : BI.Storable (upEmb : UEmb _ 𝕄) (dlvS4 (F := F) d L fc0 fc1 fc2 fc3 fc4 fc5 fc6 fc7 fsh prev t) := by
  fin_cases t <;> (unfold dlvS4; infer_instance)

/-- Run j of the index buffer once stage 5's copy j has landed. -/
def Cp5 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → Buf (Elt F) ((sbW).view.loc (thr d L))
  | 0 => (sb0P).view.writes (Elt F) prev [⟨Rect.whole S64, ReadAs.same.apply ((q5_0 L).view.read (Elt F) (ISH0 d L fc0 fsh))⟩]
  | 1 => (sb1P).view.writes (Elt F) prev [⟨Rect.whole S64, ReadAs.same.apply ((q5_1 L).view.read (Elt F) (ISH1 d L fc1 fsh))⟩]
  | 2 => (sb2P).view.writes (Elt F) prev [⟨Rect.whole S64, ReadAs.same.apply ((q5_2 L).view.read (Elt F) (ISH2 d L fc2 fsh))⟩]
  | 3 => (sb3P).view.writes (Elt F) prev [⟨Rect.whole S64, ReadAs.same.apply ((q5_3 L).view.read (Elt F) (ISH3 d L fc3 fsh))⟩]
  | 4 => (sb4P).view.writes (Elt F) prev [⟨Rect.whole S64, ReadAs.same.apply ((q5_4 L).view.read (Elt F) (ISH4 d L fc4 fsh))⟩]
  | 5 => (sb5P).view.writes (Elt F) prev [⟨Rect.whole S64, ReadAs.same.apply ((q5_5 L).view.read (Elt F) (ISH5 d L fc5 fsh))⟩]
  | 6 => (sb6P).view.writes (Elt F) prev [⟨Rect.whole S64, ReadAs.same.apply ((q5_6 L).view.read (Elt F) (ISH6 d L fc6 fsh))⟩]
  | 7 => (sb7P).view.writes (Elt F) prev [⟨Rect.whole S64, ReadAs.same.apply ((q5_7 L).view.read (Elt F) (ISH7 d L fc7 fsh))⟩]

/-- What copy t of stage 5 delivers: run t of the index buffer holding the 64 words, and the words' run of the row back. -/
def dlvS5 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → sProp 𝕄
  | 0 => iprop(((sb0P).view.loc (thr d L) ↦[(sb0P).view.set]{fullShare} Cp5 d L fc0 fc1 fc2 fc3 fc4 fc5 fc6 fc7 fsh prev 0)
      ∗ ((q5_0 L).view.loc (thr d L) ↦[(q5_0 L).view.set]{fullShare} ISH0 d L fc0 fsh))
  | 1 => iprop(((sb1P).view.loc (thr d L) ↦[(sb1P).view.set]{fullShare} Cp5 d L fc0 fc1 fc2 fc3 fc4 fc5 fc6 fc7 fsh prev 1)
      ∗ ((q5_1 L).view.loc (thr d L) ↦[(q5_1 L).view.set]{fullShare} ISH1 d L fc1 fsh))
  | 2 => iprop(((sb2P).view.loc (thr d L) ↦[(sb2P).view.set]{fullShare} Cp5 d L fc0 fc1 fc2 fc3 fc4 fc5 fc6 fc7 fsh prev 2)
      ∗ ((q5_2 L).view.loc (thr d L) ↦[(q5_2 L).view.set]{fullShare} ISH2 d L fc2 fsh))
  | 3 => iprop(((sb3P).view.loc (thr d L) ↦[(sb3P).view.set]{fullShare} Cp5 d L fc0 fc1 fc2 fc3 fc4 fc5 fc6 fc7 fsh prev 3)
      ∗ ((q5_3 L).view.loc (thr d L) ↦[(q5_3 L).view.set]{fullShare} ISH3 d L fc3 fsh))
  | 4 => iprop(((sb4P).view.loc (thr d L) ↦[(sb4P).view.set]{fullShare} Cp5 d L fc0 fc1 fc2 fc3 fc4 fc5 fc6 fc7 fsh prev 4)
      ∗ ((q5_4 L).view.loc (thr d L) ↦[(q5_4 L).view.set]{fullShare} ISH4 d L fc4 fsh))
  | 5 => iprop(((sb5P).view.loc (thr d L) ↦[(sb5P).view.set]{fullShare} Cp5 d L fc0 fc1 fc2 fc3 fc4 fc5 fc6 fc7 fsh prev 5)
      ∗ ((q5_5 L).view.loc (thr d L) ↦[(q5_5 L).view.set]{fullShare} ISH5 d L fc5 fsh))
  | 6 => iprop(((sb6P).view.loc (thr d L) ↦[(sb6P).view.set]{fullShare} Cp5 d L fc0 fc1 fc2 fc3 fc4 fc5 fc6 fc7 fsh prev 6)
      ∗ ((q5_6 L).view.loc (thr d L) ↦[(q5_6 L).view.set]{fullShare} ISH6 d L fc6 fsh))
  | 7 => iprop(((sb7P).view.loc (thr d L) ↦[(sb7P).view.set]{fullShare} Cp5 d L fc0 fc1 fc2 fc3 fc4 fc5 fc6 fc7 fsh prev 7)
      ∗ ((q5_7 L).view.loc (thr d L) ↦[(q5_7 L).view.set]{fullShare} ISH7 d L fc7 fsh))

instance dlvS5_storable (fc0 fc1 fc2 fc3 fc4 fc5 fc6 fc7 fsh prev) (t : Fin 8) : BI.Storable (upEmb : UEmb _ 𝕄) (dlvS5 (F := F) d L fc0 fc1 fc2 fc3 fc4 fc5 fc6 fc7 fsh prev t) := by
  fin_cases t <;> (unfold dlvS5; infer_instance)

/-- Run j of the index buffer once stage 6's copy j has landed. -/
def Cp6 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → Buf (Elt F) ((saW).view.loc (thr d L))
  | 0 => (sa0P).view.writes (Elt F) prev [⟨Rect.whole S64, ReadAs.same.apply ((q6_0 L).view.read (Elt F) (ISH0 d L fc0 fsh))⟩]
  | 1 => (sa1P).view.writes (Elt F) prev [⟨Rect.whole S64, ReadAs.same.apply ((q6_1 L).view.read (Elt F) (ISH1 d L fc1 fsh))⟩]
  | 2 => (sa2P).view.writes (Elt F) prev [⟨Rect.whole S64, ReadAs.same.apply ((q6_2 L).view.read (Elt F) (ISH2 d L fc2 fsh))⟩]
  | 3 => (sa3P).view.writes (Elt F) prev [⟨Rect.whole S64, ReadAs.same.apply ((q6_3 L).view.read (Elt F) (ISH3 d L fc3 fsh))⟩]
  | 4 => (sa4P).view.writes (Elt F) prev [⟨Rect.whole S64, ReadAs.same.apply ((q6_4 L).view.read (Elt F) (ISH4 d L fc4 fsh))⟩]
  | 5 => (sa5P).view.writes (Elt F) prev [⟨Rect.whole S64, ReadAs.same.apply ((q6_5 L).view.read (Elt F) (ISH5 d L fc5 fsh))⟩]
  | 6 => (sa6P).view.writes (Elt F) prev [⟨Rect.whole S64, ReadAs.same.apply ((q6_6 L).view.read (Elt F) (ISH6 d L fc6 fsh))⟩]
  | 7 => (sa7P).view.writes (Elt F) prev [⟨Rect.whole S64, ReadAs.same.apply ((q6_7 L).view.read (Elt F) (ISH7 d L fc7 fsh))⟩]

/-- What copy t of stage 6 delivers: run t of the index buffer holding the 64 words, and the words' run of the row back. -/
def dlvS6 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → sProp 𝕄
  | 0 => iprop(((sa0P).view.loc (thr d L) ↦[(sa0P).view.set]{fullShare} Cp6 d L fc0 fc1 fc2 fc3 fc4 fc5 fc6 fc7 fsh prev 0)
      ∗ ((q6_0 L).view.loc (thr d L) ↦[(q6_0 L).view.set]{fullShare} ISH0 d L fc0 fsh))
  | 1 => iprop(((sa1P).view.loc (thr d L) ↦[(sa1P).view.set]{fullShare} Cp6 d L fc0 fc1 fc2 fc3 fc4 fc5 fc6 fc7 fsh prev 1)
      ∗ ((q6_1 L).view.loc (thr d L) ↦[(q6_1 L).view.set]{fullShare} ISH1 d L fc1 fsh))
  | 2 => iprop(((sa2P).view.loc (thr d L) ↦[(sa2P).view.set]{fullShare} Cp6 d L fc0 fc1 fc2 fc3 fc4 fc5 fc6 fc7 fsh prev 2)
      ∗ ((q6_2 L).view.loc (thr d L) ↦[(q6_2 L).view.set]{fullShare} ISH2 d L fc2 fsh))
  | 3 => iprop(((sa3P).view.loc (thr d L) ↦[(sa3P).view.set]{fullShare} Cp6 d L fc0 fc1 fc2 fc3 fc4 fc5 fc6 fc7 fsh prev 3)
      ∗ ((q6_3 L).view.loc (thr d L) ↦[(q6_3 L).view.set]{fullShare} ISH3 d L fc3 fsh))
  | 4 => iprop(((sa4P).view.loc (thr d L) ↦[(sa4P).view.set]{fullShare} Cp6 d L fc0 fc1 fc2 fc3 fc4 fc5 fc6 fc7 fsh prev 4)
      ∗ ((q6_4 L).view.loc (thr d L) ↦[(q6_4 L).view.set]{fullShare} ISH4 d L fc4 fsh))
  | 5 => iprop(((sa5P).view.loc (thr d L) ↦[(sa5P).view.set]{fullShare} Cp6 d L fc0 fc1 fc2 fc3 fc4 fc5 fc6 fc7 fsh prev 5)
      ∗ ((q6_5 L).view.loc (thr d L) ↦[(q6_5 L).view.set]{fullShare} ISH5 d L fc5 fsh))
  | 6 => iprop(((sa6P).view.loc (thr d L) ↦[(sa6P).view.set]{fullShare} Cp6 d L fc0 fc1 fc2 fc3 fc4 fc5 fc6 fc7 fsh prev 6)
      ∗ ((q6_6 L).view.loc (thr d L) ↦[(q6_6 L).view.set]{fullShare} ISH6 d L fc6 fsh))
  | 7 => iprop(((sa7P).view.loc (thr d L) ↦[(sa7P).view.set]{fullShare} Cp6 d L fc0 fc1 fc2 fc3 fc4 fc5 fc6 fc7 fsh prev 7)
      ∗ ((q6_7 L).view.loc (thr d L) ↦[(q6_7 L).view.set]{fullShare} ISH7 d L fc7 fsh))

instance dlvS6_storable (fc0 fc1 fc2 fc3 fc4 fc5 fc6 fc7 fsh prev) (t : Fin 8) : BI.Storable (upEmb : UEmb _ 𝕄) (dlvS6 (F := F) d L fc0 fc1 fc2 fc3 fc4 fc5 fc6 fc7 fsh prev t) := by
  fin_cases t <;> (unfold dlvS6; infer_instance)

/-- Run j of the index buffer once stage 7's copy j has landed. -/
def Cp7 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → Buf (Elt F) ((sbW).view.loc (thr d L))
  | 0 => (sb0P).view.writes (Elt F) prev [⟨Rect.whole S64, ReadAs.same.apply ((q7_0 L).view.read (Elt F) (ISH0 d L fc0 fsh))⟩]
  | 1 => (sb1P).view.writes (Elt F) prev [⟨Rect.whole S64, ReadAs.same.apply ((q7_1 L).view.read (Elt F) (ISH1 d L fc1 fsh))⟩]
  | 2 => (sb2P).view.writes (Elt F) prev [⟨Rect.whole S64, ReadAs.same.apply ((q7_2 L).view.read (Elt F) (ISH2 d L fc2 fsh))⟩]
  | 3 => (sb3P).view.writes (Elt F) prev [⟨Rect.whole S64, ReadAs.same.apply ((q7_3 L).view.read (Elt F) (ISH3 d L fc3 fsh))⟩]
  | 4 => (sb4P).view.writes (Elt F) prev [⟨Rect.whole S64, ReadAs.same.apply ((q7_4 L).view.read (Elt F) (ISH4 d L fc4 fsh))⟩]
  | 5 => (sb5P).view.writes (Elt F) prev [⟨Rect.whole S64, ReadAs.same.apply ((q7_5 L).view.read (Elt F) (ISH5 d L fc5 fsh))⟩]
  | 6 => (sb6P).view.writes (Elt F) prev [⟨Rect.whole S64, ReadAs.same.apply ((q7_6 L).view.read (Elt F) (ISH6 d L fc6 fsh))⟩]
  | 7 => (sb7P).view.writes (Elt F) prev [⟨Rect.whole S64, ReadAs.same.apply ((q7_7 L).view.read (Elt F) (ISH7 d L fc7 fsh))⟩]

/-- What copy t of stage 7 delivers: run t of the index buffer holding the 64 words, and the words' run of the row back. -/
def dlvS7 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → sProp 𝕄
  | 0 => iprop(((sb0P).view.loc (thr d L) ↦[(sb0P).view.set]{fullShare} Cp7 d L fc0 fc1 fc2 fc3 fc4 fc5 fc6 fc7 fsh prev 0)
      ∗ ((q7_0 L).view.loc (thr d L) ↦[(q7_0 L).view.set]{fullShare} ISH0 d L fc0 fsh))
  | 1 => iprop(((sb1P).view.loc (thr d L) ↦[(sb1P).view.set]{fullShare} Cp7 d L fc0 fc1 fc2 fc3 fc4 fc5 fc6 fc7 fsh prev 1)
      ∗ ((q7_1 L).view.loc (thr d L) ↦[(q7_1 L).view.set]{fullShare} ISH1 d L fc1 fsh))
  | 2 => iprop(((sb2P).view.loc (thr d L) ↦[(sb2P).view.set]{fullShare} Cp7 d L fc0 fc1 fc2 fc3 fc4 fc5 fc6 fc7 fsh prev 2)
      ∗ ((q7_2 L).view.loc (thr d L) ↦[(q7_2 L).view.set]{fullShare} ISH2 d L fc2 fsh))
  | 3 => iprop(((sb3P).view.loc (thr d L) ↦[(sb3P).view.set]{fullShare} Cp7 d L fc0 fc1 fc2 fc3 fc4 fc5 fc6 fc7 fsh prev 3)
      ∗ ((q7_3 L).view.loc (thr d L) ↦[(q7_3 L).view.set]{fullShare} ISH3 d L fc3 fsh))
  | 4 => iprop(((sb4P).view.loc (thr d L) ↦[(sb4P).view.set]{fullShare} Cp7 d L fc0 fc1 fc2 fc3 fc4 fc5 fc6 fc7 fsh prev 4)
      ∗ ((q7_4 L).view.loc (thr d L) ↦[(q7_4 L).view.set]{fullShare} ISH4 d L fc4 fsh))
  | 5 => iprop(((sb5P).view.loc (thr d L) ↦[(sb5P).view.set]{fullShare} Cp7 d L fc0 fc1 fc2 fc3 fc4 fc5 fc6 fc7 fsh prev 5)
      ∗ ((q7_5 L).view.loc (thr d L) ↦[(q7_5 L).view.set]{fullShare} ISH5 d L fc5 fsh))
  | 6 => iprop(((sb6P).view.loc (thr d L) ↦[(sb6P).view.set]{fullShare} Cp7 d L fc0 fc1 fc2 fc3 fc4 fc5 fc6 fc7 fsh prev 6)
      ∗ ((q7_6 L).view.loc (thr d L) ↦[(q7_6 L).view.set]{fullShare} ISH6 d L fc6 fsh))
  | 7 => iprop(((sb7P).view.loc (thr d L) ↦[(sb7P).view.set]{fullShare} Cp7 d L fc0 fc1 fc2 fc3 fc4 fc5 fc6 fc7 fsh prev 7)
      ∗ ((q7_7 L).view.loc (thr d L) ↦[(q7_7 L).view.set]{fullShare} ISH7 d L fc7 fsh))

instance dlvS7_storable (fc0 fc1 fc2 fc3 fc4 fc5 fc6 fc7 fsh prev) (t : Fin 8) : BI.Storable (upEmb : UEmb _ 𝕄) (dlvS7 (F := F) d L fc0 fc1 fc2 fc3 fc4 fc5 fc6 fc7 fsh prev t) := by
  fin_cases t <;> (unfold dlvS7; infer_instance)

/-- One stage copy's credit. -/
abbrev NS : ℕ := (sa0P).view.amount (SemLoc.dma (sig := sig) cc0_scratch8.sem)

/-! ## What the index buffer holds in chunk k: word 64·j + r is word 512·w + 64·k + r of index column j -/

/-- The task's first row of the batch: 512·(2·subcore + core). -/
def b0 (L : grid0.Coords) : ℕ := 1024 * (L 1).val + 512 * (L 0).val

theorem b0_lt (L : grid0.Coords) (k : Fin 8) (r : ℕ) (hr : r < 64) : b0 L + 64 * k.val + r < 16384 := by
  have h1 : (L 1).val < 16 := (L 1).isLt
  have h0 : (L 0).val < 2 := (L 0).isLt
  have := k.isLt
  unfold b0; omega

/-- Chunk k's index words, as one function on the whole index buffer. -/
def SMsem (k : Fin 8) : S512.Idx → BitVec 32 :=
  fun x => cols m d ⟨(x 0).val / 64, by have h : (x 0).val < 512 := (x 0).isLt; omega⟩
    (ValueIdx.ix1 ⟨b0 L + 64 * k.val + (x 0).val % 64, b0_lt L k _ (Nat.mod_lt _ (by decide))⟩)

theorem SMsem_lt (hpre : PreOK m) (k : Fin 8) (x : S512.Idx) : (SMsem m d L k x).toNat < 32 := hpre d _ _

/-- Stage k's landed runs hold chunk k's index words (from the launch contents of the index columns). -/
def StageVal0 : Prop :=
  ∀ (fsh : Buf (Elt F) ((sh0P L).view.loc (thr d L))) (prev : Buf (Elt F) ((saW).view.loc (thr d L))) (j : Fin 8), ∀ i ∈ runS j,
    Cp0 d L (m (c0Loc d)) (m (c1Loc d)) (m (c2Loc d)) (m (c3Loc d)) (m (c4Loc d)) (m (c5Loc d)) (m (c6Loc d)) (m (c7Loc d)) fsh prev j i = SMsem m d L 0 i
def StageVal1 : Prop :=
  ∀ (fsh : Buf (Elt F) ((sh0P L).view.loc (thr d L))) (prev : Buf (Elt F) ((sbW).view.loc (thr d L))) (j : Fin 8), ∀ i ∈ runS j,
    Cp1 d L (m (c0Loc d)) (m (c1Loc d)) (m (c2Loc d)) (m (c3Loc d)) (m (c4Loc d)) (m (c5Loc d)) (m (c6Loc d)) (m (c7Loc d)) fsh prev j i = SMsem m d L 1 i
def StageVal2 : Prop :=
  ∀ (fsh : Buf (Elt F) ((sh0P L).view.loc (thr d L))) (prev : Buf (Elt F) ((saW).view.loc (thr d L))) (j : Fin 8), ∀ i ∈ runS j,
    Cp2 d L (m (c0Loc d)) (m (c1Loc d)) (m (c2Loc d)) (m (c3Loc d)) (m (c4Loc d)) (m (c5Loc d)) (m (c6Loc d)) (m (c7Loc d)) fsh prev j i = SMsem m d L 2 i
def StageVal3 : Prop :=
  ∀ (fsh : Buf (Elt F) ((sh0P L).view.loc (thr d L))) (prev : Buf (Elt F) ((sbW).view.loc (thr d L))) (j : Fin 8), ∀ i ∈ runS j,
    Cp3 d L (m (c0Loc d)) (m (c1Loc d)) (m (c2Loc d)) (m (c3Loc d)) (m (c4Loc d)) (m (c5Loc d)) (m (c6Loc d)) (m (c7Loc d)) fsh prev j i = SMsem m d L 3 i
def StageVal4 : Prop :=
  ∀ (fsh : Buf (Elt F) ((sh0P L).view.loc (thr d L))) (prev : Buf (Elt F) ((saW).view.loc (thr d L))) (j : Fin 8), ∀ i ∈ runS j,
    Cp4 d L (m (c0Loc d)) (m (c1Loc d)) (m (c2Loc d)) (m (c3Loc d)) (m (c4Loc d)) (m (c5Loc d)) (m (c6Loc d)) (m (c7Loc d)) fsh prev j i = SMsem m d L 4 i
def StageVal5 : Prop :=
  ∀ (fsh : Buf (Elt F) ((sh0P L).view.loc (thr d L))) (prev : Buf (Elt F) ((sbW).view.loc (thr d L))) (j : Fin 8), ∀ i ∈ runS j,
    Cp5 d L (m (c0Loc d)) (m (c1Loc d)) (m (c2Loc d)) (m (c3Loc d)) (m (c4Loc d)) (m (c5Loc d)) (m (c6Loc d)) (m (c7Loc d)) fsh prev j i = SMsem m d L 5 i
def StageVal6 : Prop :=
  ∀ (fsh : Buf (Elt F) ((sh0P L).view.loc (thr d L))) (prev : Buf (Elt F) ((saW).view.loc (thr d L))) (j : Fin 8), ∀ i ∈ runS j,
    Cp6 d L (m (c0Loc d)) (m (c1Loc d)) (m (c2Loc d)) (m (c3Loc d)) (m (c4Loc d)) (m (c5Loc d)) (m (c6Loc d)) (m (c7Loc d)) fsh prev j i = SMsem m d L 6 i
def StageVal7 : Prop :=
  ∀ (fsh : Buf (Elt F) ((sh0P L).view.loc (thr d L))) (prev : Buf (Elt F) ((sbW).view.loc (thr d L))) (j : Fin 8), ∀ i ∈ runS j,
    Cp7 d L (m (c0Loc d)) (m (c1Loc d)) (m (c2Loc d)) (m (c3Loc d)) (m (c4Loc d)) (m (c5Loc d)) (m (c6Loc d)) (m (c7Loc d)) fsh prev j i = SMsem m d L 7 i

end Stage

end Cert.Proof.KI

end
-- ==== Proof.KI.Fill.lean ====
import proofs.«204821_g30846455120635_fold_wed_m_1292_33_alg».proof.Proof.KI.Setup
import proofs.«204821_g30846455120635_fold_wed_m_1292_33_alg».proof.Proof.KI.Stage

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

/-- Entry 256·r + 32·j + e of a chunk's staging buffer, from the chunk's index words and the flat table: entry
    32·(word 64·j + r) + 1024·j + e of the table (reduced modulo 8192 so that it always exists). -/
def rowVal (SM : S512.Idx → BitVec 32) (TV : S8192.Idx → Elt F .f32) : S16384.Idx → Elt F .f32 :=
  fun x => TV (ValueIdx.ix1 ⟨(32 * (SM (ValueIdx.ix1 ⟨64 * ((x 0).val % 256 / 32) + (x 0).val / 256,
      by have h : (x 0).val < 16384 := (x 0).isLt; omega⟩)).toNat + 1024 * ((x 0).val % 256 / 32) + (x 0).val % 32) % 8192, Nat.mod_lt _ (by decide)⟩)

/-- The staging buffer's first `t` rows (256 entries each) are filled. -/
def Filled (SM : S512.Idx → BitVec 32) (TV : S8192.Idx → Elt F .f32) (t : ℕ) (g : S16384.Idx → Elt F .f32) : Prop :=
  ∀ x : S16384.Idx, (x 0).val < 256 * t → g x = rowVal SM TV x

theorem filled_zero (SM : S512.Idx → BitVec 32) (TV : S8192.Idx → Elt F .f32) (g : S16384.Idx → Elt F .f32) : Filled SM TV 0 g :=
  fun x h => absurd h (by omega)

section Inv
variable (d : Dev nD) (L : grid0.Coords)

/-- A fill loop's invariant: the chunk's index words, the table, and the staging buffer's first rows filled. -/
def inva (k : Fin 8) (TAB : Buf (Elt F) (tabLoc d)) (t : Nat) (_ : PUnit) : sProp 𝕄 :=
  iprop(((saW).view.loc (thr d L) ↦{fullShare} SMsem m d L k) ∗ ((tvW).view.loc (thr d L) ↦{fullShare} TAB)
    ∗ ∃ g, ((baW).view.loc (thr d L) ↦{fullShare} g) ∗ ⌜Filled (SMsem m d L k) TAB t g⌝)
def invb (k : Fin 8) (TAB : Buf (Elt F) (tabLoc d)) (t : Nat) (_ : PUnit) : sProp 𝕄 :=
  iprop(((sbW).view.loc (thr d L) ↦{fullShare} SMsem m d L k) ∗ ((tvW).view.loc (thr d L) ↦{fullShare} TAB)
    ∗ ∃ g, ((bbW).view.loc (thr d L) ↦{fullShare} g) ∗ ⌜Filled (SMsem m d L k) TAB t g⌝)

omit [FloatOps F] in
/-- A whole copy into the table scratch leaves the source's contents there. -/
theorem tv_landed (ftv : Buf (Elt F) ((tvW).view.loc (thr d L))) (TAB : Buf (Elt F) (tabLoc d)) :
    (tvW).view.write (Elt F) ftv (ReadAs.same.apply ((tbW).view.read (Elt F) TAB)) Finset.univ = TAB :=
  View.write_whole_univ _ _ _

end Inv

end Cert.Proof.KI

end
-- ==== Proof.KI.Own.lean ====
import proofs.«204821_g30846455120635_fold_wed_m_1292_33_alg».proof.Proof.KI.Setup
import proofs.«204821_g30846455120635_fold_wed_m_1292_33_alg».proof.Proof.KI.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable [FloatOps F]

section Own
variable (d : Dev nD) (L : grid0.Coords)

/-- The task's six transfer semaphores. -/
abbrev cell0 : GSem nD τ sig := (thr d L, .dma cc0_scratch6.sem)
abbrev cell1 : GSem nD τ sig := (thr d L, .dma cc0_scratch7.sem)
abbrev cell2 : GSem nD τ sig := (thr d L, .dma cc0_scratch8.sem)
abbrev cell3 : GSem nD τ sig := (thr d L, .dma cc0_scratch9.sem)
abbrev cell4 : GSem nD τ sig := (thr d L, .dma cc0_scratch10.sem)
abbrev cell5 : GSem nD τ sig := (thr d L, .dma cc0_scratch11.sem)

omit [FloatOps F] in
/-- The six semaphores are among the subcore's own: they are them, at zero, and the rest. -/
theorem ownSems0_V :
    (ownSems0 (thr d L) : sProp 𝕄)
      = iprop(semVal (cell0 d L) 0 ∗ semVal (cell1 d L) 0 ∗ semVal (cell2 d L) 0 ∗ semVal (cell3 d L) 0 ∗ semVal (cell4 d L) 0 ∗ semVal (cell5 d L) 0
          ∗ bigSep (((((((ownCells (thr d L)).erase (cell0 d L)).erase (cell1 d L)).erase (cell2 d L)).erase (cell3 d L)).erase (cell4 d L)).erase (cell5 d L)) fun g => semVal g 0) := by
  unfold SparseCore.Cfg.ownSems0
  rw [SparseCore.bigSep_erase' ((mem_ownCells (g := cell0 d L)).mpr ⟨rfl, by show (SemLoc.dma cc0_scratch6.sem : SemLoc sig).isScoped .scVector = true; decide⟩),
    SparseCore.bigSep_erase' (Finset.mem_erase.mpr ⟨fun e => absurd (congrArg Prod.snd e) (show (SemLoc.dma cc0_scratch7.sem : SemLoc sig) ≠ SemLoc.dma cc0_scratch6.sem by decide), (mem_ownCells (g := cell1 d L)).mpr ⟨rfl, by show (SemLoc.dma cc0_scratch7.sem : SemLoc sig).isScoped .scVector = true; decide⟩⟩),
    SparseCore.bigSep_erase' (Finset.mem_erase.mpr ⟨fun e => absurd (congrArg Prod.snd e) (show (SemLoc.dma cc0_scratch8.sem : SemLoc sig) ≠ SemLoc.dma cc0_scratch7.sem by decide), Finset.mem_erase.mpr ⟨fun e => absurd (congrArg Prod.snd e) (show (SemLoc.dma cc0_scratch8.sem : SemLoc sig) ≠ SemLoc.dma cc0_scratch6.sem by decide), (mem_ownCells (g := cell2 d L)).mpr ⟨rfl, by show (SemLoc.dma cc0_scratch8.sem : SemLoc sig).isScoped .scVector = true; decide⟩⟩⟩),
    SparseCore.bigSep_erase' (Finset.mem_erase.mpr ⟨fun e => absurd (congrArg Prod.snd e) (show (SemLoc.dma cc0_scratch9.sem : SemLoc sig) ≠ SemLoc.dma cc0_scratch8.sem by decide), Finset.mem_erase.mpr ⟨fun e => absurd (congrArg Prod.snd e) (show (SemLoc.dma cc0_scratch9.sem : SemLoc sig) ≠ SemLoc.dma cc0_scratch7.sem by decide), Finset.mem_erase.mpr ⟨fun e => absurd (congrArg Prod.snd e) (show (SemLoc.dma cc0_scratch9.sem : SemLoc sig) ≠ SemLoc.dma cc0_scratch6.sem by decide), (mem_ownCells (g := cell3 d L)).mpr ⟨rfl, by show (SemLoc.dma cc0_scratch9.sem : SemLoc sig).isScoped .scVector = true; decide⟩⟩⟩⟩),
    SparseCore.bigSep_erase' (Finset.mem_erase.mpr ⟨fun e => absurd (congrArg Prod.snd e) (show (SemLoc.dma cc0_scratch10.sem : SemLoc sig) ≠ SemLoc.dma cc0_scratch9.sem by decide), Finset.mem_erase.mpr ⟨fun e => absurd (congrArg Prod.snd e) (show (SemLoc.dma cc0_scratch10.sem : SemLoc sig) ≠ SemLoc.dma cc0_scratch8.sem by decide), Finset.mem_erase.mpr ⟨fun e => absurd (congrArg Prod.snd e) (show (SemLoc.dma cc0_scratch10.sem : SemLoc sig) ≠ SemLoc.dma cc0_scratch7.sem by decide), Finset.mem_erase.mpr ⟨fun e => absurd (congrArg Prod.snd e) (show (SemLoc.dma cc0_scratch10.sem : SemLoc sig) ≠ SemLoc.dma cc0_scratch6.sem by decide), (mem_ownCells (g := cell4 d L)).mpr ⟨rfl, by show (SemLoc.dma cc0_scratch10.sem : SemLoc sig).isScoped .scVector = true; decide⟩⟩⟩⟩⟩),
    SparseCore.bigSep_erase' (Finset.mem_erase.mpr ⟨fun e => absurd (congrArg Prod.snd e) (show (SemLoc.dma cc0_scratch11.sem : SemLoc sig) ≠ SemLoc.dma cc0_scratch10.sem by decide), Finset.mem_erase.mpr ⟨fun e => absurd (congrArg Prod.snd e) (show (SemLoc.dma cc0_scratch11.sem : SemLoc sig) ≠ SemLoc.dma cc0_scratch9.sem by decide), Finset.mem_erase.mpr ⟨fun e => absurd (congrArg Prod.snd e) (show (SemLoc.dma cc0_scratch11.sem : SemLoc sig) ≠ SemLoc.dma cc0_scratch8.sem by decide), Finset.mem_erase.mpr ⟨fun e => absurd (congrArg Prod.snd e) (show (SemLoc.dma cc0_scratch11.sem : SemLoc sig) ≠ SemLoc.dma cc0_scratch7.sem by decide), Finset.mem_erase.mpr ⟨fun e => absurd (congrArg Prod.snd e) (show (SemLoc.dma cc0_scratch11.sem : SemLoc sig) ≠ SemLoc.dma cc0_scratch6.sem by decide), (mem_ownCells (g := cell5 d L)).mpr ⟨rfl, by show (SemLoc.dma cc0_scratch11.sem : SemLoc sig).isScoped .scVector = true; decide⟩⟩⟩⟩⟩⟩)]

omit [FloatOps F] in
/-- The five scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
          ∗ bigSep ((((((ownRefs (τ := τ) (.scVector (cV L) (jV L))).erase ((Proc.scVector (cV L) (jV L)).devRef cc0_scratch0)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩)]

omit [FloatOps F] in
theorem pts_tvW (f : Buf (Elt F) ((thr d L).loc cc0_scratch0)) :
    ((tvW).view.loc (thr d L) ↦{fullShare} f : sProp 𝕄) = ((thr d L).loc cc0_scratch0 ↦{fullShare} f) := rfl
omit [FloatOps F] in
theorem pts_saW (f : Buf (Elt F) ((thr d L).loc cc0_scratch2)) :
    ((saW).view.loc (thr d L) ↦{fullShare} f : sProp 𝕄) = ((thr d L).loc cc0_scratch2 ↦{fullShare} f) := rfl
omit [FloatOps F] in
theorem pts_sbW (f : Buf (Elt F) ((thr d L).loc cc0_scratch3)) :
    ((sbW).view.loc (thr d L) ↦{fullShare} f : sProp 𝕄) = ((thr d L).loc cc0_scratch3 ↦{fullShare} f) := rfl
omit [FloatOps F] in
theorem pts_baW (f : Buf (Elt F) ((thr d L).loc cc0_scratch4)) :
    ((baW).view.loc (thr d L) ↦{fullShare} f : sProp 𝕄) = ((thr d L).loc cc0_scratch4 ↦{fullShare} f) := rfl
omit [FloatOps F] in
theorem pts_bbW (f : Buf (Elt F) ((thr d L).loc cc0_scratch5)) :
    ((bbW).view.loc (thr d L) ↦{fullShare} f : sProp 𝕄) = ((thr d L).loc cc0_scratch5 ↦{fullShare} f) := rfl

end Own

end Cert.Proof.KI

end
-- ==== Proof.KI.Chk.lean ====
/-
  The side conditions the loop bodies assume of a word they read from scalar memory hold of every word below 32:
  the word, times 32, plus the table's offset, is a multiple of 32 and leaves room for two runs of 16 entries.
-/
import proofs.«204821_g30846455120635_fold_wed_m_1292_33_alg».proof.Proof.Gen.KernelIdeal

namespace Cert.Proof.KI

open Cert.KernelIdeal Cert.KernelIdeal.Gen Idealize.ShloMosaic

/-- A word below 32 is one of the 32 literals. -/
theorem ofNat_of_lt (v : BitVec 32) (h : v.toNat < 32) : ∃ n : Fin 32, v = BitVec.ofNat 32 n.val :=
  ⟨⟨v.toNat, h⟩, BitVec.eq_of_toNat_eq (by rw [BitVec.toNat_ofNat]; exact (Nat.mod_eq_of_lt (by omega)).symm)⟩

theorem chk1_of_lt (v : BitVec 32) (h : v.toNat < 32) : k0_chk1 v := by
  obtain ⟨n, rfl⟩ := ofNat_of_lt v h
  revert n; decide
theorem chk2_of_lt (v : BitVec 32) (h : v.toNat < 32) : k0_chk2 v := by
  obtain ⟨n, rfl⟩ := ofNat_of_lt v h
  revert n; decide
theorem chk3_of_lt (v : BitVec 32) (h : v.toNat < 32) : k0_chk3 v := by
  obtain ⟨n, rfl⟩ := ofNat_of_lt v h
  revert n; decide
theorem chk4_of_lt (v : BitVec 32) (h : v.toNat < 32) : k0_chk4 v := by
  obtain ⟨n, rfl⟩ := ofNat_of_lt v h
  revert n; decide
theorem chk5_of_lt (v : BitVec 32) (h : v.toNat < 32) : k0_chk5 v := by
  obtain ⟨n, rfl⟩ := ofNat_of_lt v h
  revert n; decide
theorem chk6_of_lt (v : BitVec 32) (h : v.toNat < 32) : k0_chk6 v := by
  obtain ⟨n, rfl⟩ := ofNat_of_lt v h
  revert n; decide
theorem chk7_of_lt (v : BitVec 32) (h : v.toNat < 32) : k0_chk7 v := by
  obtain ⟨n, rfl⟩ := ofNat_of_lt v h
  revert n; decide
theorem chk8_of_lt (v : BitVec 32) (h : v.toNat < 32) : k0_chk8 v := by
  obtain ⟨n, rfl⟩ := ofNat_of_lt v h
  revert n; decide
theorem chk9_of_lt (v : BitVec 32) (h : v.toNat < 32) : k0_chk9 v := by
  obtain ⟨n, rfl⟩ := ofNat_of_lt v h
  revert n; decide
theorem chk10_of_lt (v : BitVec 32) (h : v.toNat < 32) : k0_chk10 v := by
  obtain ⟨n, rfl⟩ := ofNat_of_lt v h
  revert n; decide
theorem chk11_of_lt (v : BitVec 32) (h : v.toNat < 32) : k0_chk11 v := by
  obtain ⟨n, rfl⟩ := ofNat_of_lt v h
  revert n; decide
theorem chk12_of_lt (v : BitVec 32) (h : v.toNat < 32) : k0_chk12 v := by
  obtain ⟨n, rfl⟩ := ofNat_of_lt v h
  revert n; decide
theorem chk13_of_lt (v : BitVec 32) (h : v.toNat < 32) : k0_chk13 v := by
  obtain ⟨n, rfl⟩ := ofNat_of_lt v h
  revert n; decide
theorem chk14_of_lt (v : BitVec 32) (h : v.toNat < 32) : k0_chk14 v := by
  obtain ⟨n, rfl⟩ := ofNat_of_lt v h
  revert n; decide
theorem chk15_of_lt (v : BitVec 32) (h : v.toNat < 32) : k0_chk15 v := by
  obtain ⟨n, rfl⟩ := ofNat_of_lt v h
  revert n; decide
theorem chk16_of_lt (v : BitVec 32) (h : v.toNat < 32) : k0_chk16 v := by
  obtain ⟨n, rfl⟩ := ofNat_of_lt v h
  revert n; decide
theorem chk17_of_lt (v : BitVec 32) (h : v.toNat < 32) : k0_chk17 v := by
  obtain ⟨n, rfl⟩ := ofNat_of_lt v h
  revert n; decide
theorem chk18_of_lt (v : BitVec 32) (h : v.toNat < 32) : k0_chk18 v := by
  obtain ⟨n, rfl⟩ := ofNat_of_lt v h
  revert n; decide
theorem chk19_of_lt (v : BitVec 32) (h : v.toNat < 32) : k0_chk19 v := by
  obtain ⟨n, rfl⟩ := ofNat_of_lt v h
  revert n; decide
theorem chk20_of_lt (v : BitVec 32) (h : v.toNat < 32) : k0_chk20 v := by
  obtain ⟨n, rfl⟩ := ofNat_of_lt v h
  revert n; decide
theorem chk21_of_lt (v : BitVec 32) (h : v.toNat < 32) : k0_chk21 v := by
  obtain ⟨n, rfl⟩ := ofNat_of_lt v h
  revert n; decide
theorem chk22_of_lt (v : BitVec 32) (h : v.toNat < 32) : k0_chk22 v := by
  obtain ⟨n, rfl⟩ := ofNat_of_lt v h
  revert n; decide
theorem chk23_of_lt (v : BitVec 32) (h : v.toNat < 32) : k0_chk23 v := by
  obtain ⟨n, rfl⟩ := ofNat_of_lt v h
  revert n; decide
theorem chk24_of_lt (v : BitVec 32) (h : v.toNat < 32) : k0_chk24 v := by
  obtain ⟨n, rfl⟩ := ofNat_of_lt v h
  revert n; decide
theorem chk25_of_lt (v : BitVec 32) (h : v.toNat < 32) : k0_chk25 v := by
  obtain ⟨n, rfl⟩ := ofNat_of_lt v h
  revert n; decide
theorem chk26_of_lt (v : BitVec 32) (h : v.toNat < 32) : k0_chk26 v := by
  obtain ⟨n, rfl⟩ := ofNat_of_lt v h
  revert n; decide
theorem chk27_of_lt (v : BitVec 32) (h : v.toNat < 32) : k0_chk27 v := by
  obtain ⟨n, rfl⟩ := ofNat_of_lt v h
  revert n; decide
theorem chk28_of_lt (v : BitVec 32) (h : v.toNat < 32) : k0_chk28 v := by
  obtain ⟨n, rfl⟩ := ofNat_of_lt v h
  revert n; decide
theorem chk29_of_lt (v : BitVec 32) (h : v.toNat < 32) : k0_chk29 v := by
  obtain ⟨n, rfl⟩ := ofNat_of_lt v h
  revert n; decide
theorem chk30_of_lt (v : BitVec 32) (h : v.toNat < 32) : k0_chk30 v := by
  obtain ⟨n, rfl⟩ := ofNat_of_lt v h
  revert n; decide
theorem chk31_of_lt (v : BitVec 32) (h : v.toNat < 32) : k0_chk31 v := by
  obtain ⟨n, rfl⟩ := ofNat_of_lt v h
  revert n; decide
theorem chk32_of_lt (v : BitVec 32) (h : v.toNat < 32) : k0_chk32 v := by
  obtain ⟨n, rfl⟩ := ofNat_of_lt v h
  revert n; decide
theorem chk33_of_lt (v : BitVec 32) (h : v.toNat < 32) : k0_chk33 v := by
  obtain ⟨n, rfl⟩ := ofNat_of_lt v h
  revert n; decide
theorem chk34_of_lt (v : BitVec 32) (h : v.toNat < 32) : k0_chk34 v := by
  obtain ⟨n, rfl⟩ := ofNat_of_lt v h
  revert n; decide
theorem chk35_of_lt (v : BitVec 32) (h : v.toNat < 32) : k0_chk35 v := by
  obtain ⟨n, rfl⟩ := ofNat_of_lt v h
  revert n; decide
theorem chk36_of_lt (v : BitVec 32) (h : v.toNat < 32) : k0_chk36 v := by
  obtain ⟨n, rfl⟩ := ofNat_of_lt v h
  revert n; decide
theorem chk37_of_lt (v : BitVec 32) (h : v.toNat < 32) : k0_chk37 v := by
  obtain ⟨n, rfl⟩ := ofNat_of_lt v h
  revert n; decide
theorem chk38_of_lt (v : BitVec 32) (h : v.toNat < 32) : k0_chk38 v := by
  obtain ⟨n, rfl⟩ := ofNat_of_lt v h
  revert n; decide
theorem chk39_of_lt (v : BitVec 32) (h : v.toNat < 32) : k0_chk39 v := by
  obtain ⟨n, rfl⟩ := ofNat_of_lt v h
  revert n; decide
theorem chk40_of_lt (v : BitVec 32) (h : v.toNat < 32) : k0_chk40 v := by
  obtain ⟨n, rfl⟩ := ofNat_of_lt v h
  revert n; decide
theorem chk41_of_lt (v : BitVec 32) (h : v.toNat < 32) : k0_chk41 v := by
  obtain ⟨n, rfl⟩ := ofNat_of_lt v h
  revert n; decide
theorem chk42_of_lt (v : BitVec 32) (h : v.toNat < 32) : k0_chk42 v := by
  obtain ⟨n, rfl⟩ := ofNat_of_lt v h
  revert n; decide
theorem chk43_of_lt (v : BitVec 32) (h : v.toNat < 32) : k0_chk43 v := by
  obtain ⟨n, rfl⟩ := ofNat_of_lt v h
  revert n; decide
theorem chk44_of_lt (v : BitVec 32) (h : v.toNat < 32) : k0_chk44 v := by
  obtain ⟨n, rfl⟩ := ofNat_of_lt v h
  revert n; decide
theorem chk45_of_lt (v : BitVec 32) (h : v.toNat < 32) : k0_chk45 v := by
  obtain ⟨n, rfl⟩ := ofNat_of_lt v h
  revert n; decide
theorem chk46_of_lt (v : BitVec 32) (h : v.toNat < 32) : k0_chk46 v := by
  obtain ⟨n, rfl⟩ := ofNat_of_lt v h
  revert n; decide
theorem chk47_of_lt (v : BitVec 32) (h : v.toNat < 32) : k0_chk47 v := by
  obtain ⟨n, rfl⟩ := ofNat_of_lt v h
  revert n; decide
theorem chk48_of_lt (v : BitVec 32) (h : v.toNat < 32) : k0_chk48 v := by
  obtain ⟨n, rfl⟩ := ofNat_of_lt v h
  revert n; decide
theorem chk49_of_lt (v : BitVec 32) (h : v.toNat < 32) : k0_chk49 v := by
  obtain ⟨n, rfl⟩ := ofNat_of_lt v h
  revert n; decide
theorem chk50_of_lt (v : BitVec 32) (h : v.toNat < 32) : k0_chk50 v := by
  obtain ⟨n, rfl⟩ := ofNat_of_lt v h
  revert n; decide
theorem chk51_of_lt (v : BitVec 32) (h : v.toNat < 32) : k0_chk51 v := by
  obtain ⟨n, rfl⟩ := ofNat_of_lt v h
  revert n; decide
theorem chk52_of_lt (v : BitVec 32) (h : v.toNat < 32) : k0_chk52 v := by
  obtain ⟨n, rfl⟩ := ofNat_of_lt v h
  revert n; decide
theorem chk53_of_lt (v : BitVec 32) (h : v.toNat < 32) : k0_chk53 v := by
  obtain ⟨n, rfl⟩ := ofNat_of_lt v h
  revert n; decide
theorem chk54_of_lt (v : BitVec 32) (h : v.toNat < 32) : k0_chk54 v := by
  obtain ⟨n, rfl⟩ := ofNat_of_lt v h
  revert n; decide
theorem chk55_of_lt (v : BitVec 32) (h : v.toNat < 32) : k0_chk55 v := by
  obtain ⟨n, rfl⟩ := ofNat_of_lt v h
  revert n; decide
theorem chk56_of_lt (v : BitVec 32) (h : v.toNat < 32) : k0_chk56 v := by
  obtain ⟨n, rfl⟩ := ofNat_of_lt v h
  revert n; decide
theorem chk57_of_lt (v : BitVec 32) (h : v.toNat < 32) : k0_chk57 v := by
  obtain ⟨n, rfl⟩ := ofNat_of_lt v h
  revert n; decide
theorem chk58_of_lt (v : BitVec 32) (h : v.toNat < 32) : k0_chk58 v := by
  obtain ⟨n, rfl⟩ := ofNat_of_lt v h
  revert n; decide
theorem chk59_of_lt (v : BitVec 32) (h : v.toNat < 32) : k0_chk59 v := by
  obtain ⟨n, rfl⟩ := ofNat_of_lt v h
  revert n; decide
theorem chk60_of_lt (v : BitVec 32) (h : v.toNat < 32) : k0_chk60 v := by
  obtain ⟨n, rfl⟩ := ofNat_of_lt v h
  revert n; decide
theorem chk61_of_lt (v : BitVec 32) (h : v.toNat < 32) : k0_chk61 v := by
  obtain ⟨n, rfl⟩ := ofNat_of_lt v h
  revert n; decide
theorem chk62_of_lt (v : BitVec 32) (h : v.toNat < 32) : k0_chk62 v := by
  obtain ⟨n, rfl⟩ := ofNat_of_lt v h
  revert n; decide
theorem chk63_of_lt (v : BitVec 32) (h : v.toNat < 32) : k0_chk63 v := by
  obtain ⟨n, rfl⟩ := ofNat_of_lt v h
  revert n; decide
theorem chk64_of_lt (v : BitVec 32) (h : v.toNat < 32) : k0_chk64 v := by
  obtain ⟨n, rfl⟩ := ofNat_of_lt v h
  revert n; decide

end Cert.Proof.KI
-- ==== Proof.KI.FillStep.lean ====
/-
  One trip of a fill loop, as a statement about the staging buffer.

  A trip writes row t of the staging buffer (its 256 entries 256 t … 256 t + 255) in sixteen runs of 16 entries and
  touches nothing else. If each run's payload is the row's value there, then a buffer whose rows below t were filled
  has its rows below t + 1 filled afterwards: an entry below row t lies in no run and keeps its value; an entry of row
  t lies in the run its position names and reads that run's payload.
-/
import proofs.«204821_g30846455120635_fold_wed_m_1292_33_alg».proof.Proof.KI.Fill
import Idealize.ShloMosaic.Lib.Writes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section FillStep

/-- The step over any list of written pieces: pieces at or after row t, each holding the row's value, together
    covering row t. -/
theorem filled_step {κ : Kind} {sp : Space} (v : View sig κ sp S16384 .f32) (SM : S512.Idx → BitVec 32)
    (TV : S8192.Idx → Elt F .f32) (t : Nat) (g : v.ty.Contents (Elt F)) (Ls : List (View.Piece (Elt F) S16384 .f32))
    (hfill : Filled SM TV t (v.read (Elt F) g))
    (hrow : ∀ p ∈ Ls, ∀ y ∈ p.1.set, 256 * t ≤ (y 0).val)
    (hG : ∀ p ∈ Ls, ∀ x : p.1.shape.Idx, p.2 x = rowVal SM TV (p.1.emb x))
    (hcov : ∀ y : S16384.Idx, 256 * t ≤ (y 0).val → (y 0).val < 256 * (t + 1) → ∃ p ∈ Ls, y ∈ p.1.set) :
    Filled SM TV (t + 1) (v.read (Elt F) (v.writes (Elt F) g Ls)) := by
  intro x hx
  by_cases h : (x 0).val < 256 * t
  · rw [View.read_writes_apply_of_forall_not_mem v g x Ls (fun p hp hy => absurd (hrow p hp x hy) (by omega))]
    exact hfill x h
  · exact View.read_writes_apply_of_pieces v g (rowVal SM TV) Ls hG x (hcov x (by omega) hx)

/-- Run n of row t: the 16 entries from 256 t + 16 n. -/
theorem run_emb (t : Nat) (n : Fin 16) (off : Fin 1 → Nat) (inb : ∀ a, off a + S16.size a ≤ S16384.size a)
    (hoff : off = ![256 * t + 16 * n.val]) (x : S16.Idx) (hlt : 256 * t + 16 * n.val + (x 0).val < 16384) :
    (Rect.unit (s := S16384) off S16.size inb).emb x = (ix1 (⟨256 * t + 16 * n.val + (x 0).val, hlt⟩ : Fin 16384) : S16384.Idx) := by
  subst hoff
  funext a
  apply Fin.ext
  obtain rfl : a = 0 := Subsingleton.elim _ _
  show 256 * t + 16 * n.val + 1 * (x 0).val = 256 * t + 16 * n.val + (x 0).val
  omega

/-- The step over a trip's sixteen runs, newest first, given their offsets and payloads in closed form. -/
theorem filled_step16 {κ : Kind} {sp : Space} (v : View sig κ sp S16384 .f32) (SM : S512.Idx → BitVec 32)
    (TV : S8192.Idx → Elt F .f32) (t : Nat) (ht : t < 64) (g : v.ty.Contents (Elt F))
    (hfill : Filled SM TV t (v.read (Elt F) g))
    (off : Fin 16 → Fin 1 → Nat) (inb : ∀ n a, off n a + S16.size a ≤ S16384.size a) (pay : Fin 16 → S16.Idx → Elt F .f32)
    (hoff : ∀ n, off n = ![256 * t + 16 * n.val])
    (hpay : ∀ (n : Fin 16) (y : S16.Idx) (hlt : 256 * t + 16 * n.val + (y 0).val < 16384),
      pay n y = rowVal SM TV (ix1 (⟨256 * t + 16 * n.val + (y 0).val, hlt⟩ : Fin 16384))) :
    Filled SM TV (t + 1) (v.read (Elt F) (v.writes (Elt F) g
      [⟨Rect.unit (s := S16384) (off 15) S16.size (inb 15), pay 15⟩,
       ⟨Rect.unit (s := S16384) (off 14) S16.size (inb 14), pay 14⟩,
       ⟨Rect.unit (s := S16384) (off 13) S16.size (inb 13), pay 13⟩,
       ⟨Rect.unit (s := S16384) (off 12) S16.size (inb 12), pay 12⟩,
       ⟨Rect.unit (s := S16384) (off 11) S16.size (inb 11), pay 11⟩,
       ⟨Rect.unit (s := S16384) (off 10) S16.size (inb 10), pay 10⟩,
       ⟨Rect.unit (s := S16384) (off 9) S16.size (inb 9), pay 9⟩,
       ⟨Rect.unit (s := S16384) (off 8) S16.size (inb 8), pay 8⟩,
       ⟨Rect.unit (s := S16384) (off 7) S16.size (inb 7), pay 7⟩,
       ⟨Rect.unit (s := S16384) (off 6) S16.size (inb 6), pay 6⟩,
       ⟨Rect.unit (s := S16384) (off 5) S16.size (inb 5), pay 5⟩,
       ⟨Rect.unit (s := S16384) (off 4) S16.size (inb 4), pay 4⟩,
       ⟨Rect.unit (s := S16384) (off 3) S16.size (inb 3), pay 3⟩,
       ⟨Rect.unit (s := S16384) (off 2) S16.size (inb 2), pay 2⟩,
       ⟨Rect.unit (s := S16384) (off 1) S16.size (inb 1), pay 1⟩,
       ⟨Rect.unit (s := S16384) (off 0) S16.size (inb 0), pay 0⟩])) := by
  have hmem : ∀ p ∈ ([⟨Rect.unit (s := S16384) (off 15) S16.size (inb 15), pay 15⟩,
       ⟨Rect.unit (s := S16384) (off 14) S16.size (inb 14), pay 14⟩,
       ⟨Rect.unit (s := S16384) (off 13) S16.size (inb 13), pay 13⟩,
       ⟨Rect.unit (s := S16384) (off 12) S16.size (inb 12), pay 12⟩,
       ⟨Rect.unit (s := S16384) (off 11) S16.size (inb 11), pay 11⟩,
       ⟨Rect.unit (s := S16384) (off 10) S16.size (inb 10), pay 10⟩,
       ⟨Rect.unit (s := S16384) (off 9) S16.size (inb 9), pay 9⟩,
       ⟨Rect.unit (s := S16384) (off 8) S16.size (inb 8), pay 8⟩,
       ⟨Rect.unit (s := S16384) (off 7) S16.size (inb 7), pay 7⟩,
       ⟨Rect.unit (s := S16384) (off 6) S16.size (inb 6), pay 6⟩,
       ⟨Rect.unit (s := S16384) (off 5) S16.size (inb 5), pay 5⟩,
       ⟨Rect.unit (s := S16384) (off 4) S16.size (inb 4), pay 4⟩,
       ⟨Rect.unit (s := S16384) (off 3) S16.size (inb 3), pay 3⟩,
       ⟨Rect.unit (s := S16384) (off 2) S16.size (inb 2), pay 2⟩,
       ⟨Rect.unit (s := S16384) (off 1) S16.size (inb 1), pay 1⟩,
       ⟨Rect.unit (s := S16384) (off 0) S16.size (inb 0), pay 0⟩] : List (View.Piece (Elt F) S16384 .f32)),
      ∃ n : Fin 16, p = ⟨Rect.unit (s := S16384) (off n) S16.size (inb n), pay n⟩ := by
    intro p hp
    simp only [List.mem_cons, List.not_mem_nil, or_false] at hp
    rcases hp with rfl | rfl | rfl | rfl | rfl | rfl | rfl | rfl | rfl | rfl | rfl | rfl | rfl | rfl | rfl | rfl
    · exact ⟨15, rfl⟩
    · exact ⟨14, rfl⟩
    · exact ⟨13, rfl⟩
    · exact ⟨12, rfl⟩
    · exact ⟨11, rfl⟩
    · exact ⟨10, rfl⟩
    · exact ⟨9, rfl⟩
    · exact ⟨8, rfl⟩
    · exact ⟨7, rfl⟩
    · exact ⟨6, rfl⟩
    · exact ⟨5, rfl⟩
    · exact ⟨4, rfl⟩
    · exact ⟨3, rfl⟩
    · exact ⟨2, rfl⟩
    · exact ⟨1, rfl⟩
    · exact ⟨0, rfl⟩
  have hxlt : ∀ (n : Fin 16) (x : S16.Idx), 256 * t + 16 * n.val + (x 0).val < 16384 := by
    intro n x
    have h1 : (x 0).val < 16 := (x 0).isLt
    have h2 := n.isLt
    omega
  refine filled_step v SM TV t g _ hfill ?_ ?_ ?_
  · intro p hp y hy
    obtain ⟨n, rfl⟩ := hmem p hp
    have hy' : y ∈ (Rect.unit (s := S16384) (off n) S16.size (inb n)).set := hy
    rw [Rect.mem_set_unit] at hy'
    have h := hy' 0
    rw [hoff n] at h
    have h' : 256 * t + 16 * n.val ≤ (y 0).val := h.1
    omega
  · intro p hp x
    obtain ⟨n, rfl⟩ := hmem p hp
    show pay n x = rowVal SM TV ((Rect.unit (s := S16384) (off n) S16.size (inb n)).emb x)
    rw [run_emb t n (off n) (inb n) (hoff n) x (hxlt n x)]
    exact hpay n x (hxlt n x)
  · intro y h1 h2
    have hn : ((y 0).val - 256 * t) / 16 < 16 := by omega
    have hin : ∀ n : Fin 16, n.val = ((y 0).val - 256 * t) / 16 → y ∈ (Rect.unit (s := S16384) (off n) S16.size (inb n)).set := by
      intro n hnv
      rw [Rect.mem_set_unit]
      intro a
      obtain rfl : a = 0 := Subsingleton.elim _ _
      rw [hoff n]
      show 256 * t + 16 * n.val ≤ (y 0).val ∧ (y 0).val < 256 * t + 16 * n.val + 16
      omega
    have key : ∀ n : Fin 16, n.val = ((y 0).val - 256 * t) / 16 →
        ∃ p ∈ ([⟨Rect.unit (s := S16384) (off 15) S16.size (inb 15), pay 15⟩,
       ⟨Rect.unit (s := S16384) (off 14) S16.size (inb 14), pay 14⟩,
       ⟨Rect.unit (s := S16384) (off 13) S16.size (inb 13), pay 13⟩,
       ⟨Rect.unit (s := S16384) (off 12) S16.size (inb 12), pay 12⟩,
       ⟨Rect.unit (s := S16384) (off 11) S16.size (inb 11), pay 11⟩,
       ⟨Rect.unit (s := S16384) (off 10) S16.size (inb 10), pay 10⟩,
       ⟨Rect.unit (s := S16384) (off 9) S16.size (inb 9), pay 9⟩,
       ⟨Rect.unit (s := S16384) (off 8) S16.size (inb 8), pay 8⟩,
       ⟨Rect.unit (s := S16384) (off 7) S16.size (inb 7), pay 7⟩,
       ⟨Rect.unit (s := S16384) (off 6) S16.size (inb 6), pay 6⟩,
       ⟨Rect.unit (s := S16384) (off 5) S16.size (inb 5), pay 5⟩,
       ⟨Rect.unit (s := S16384) (off 4) S16.size (inb 4), pay 4⟩,
       ⟨Rect.unit (s := S16384) (off 3) S16.size (inb 3), pay 3⟩,
       ⟨Rect.unit (s := S16384) (off 2) S16.size (inb 2), pay 2⟩,
       ⟨Rect.unit (s := S16384) (off 1) S16.size (inb 1), pay 1⟩,
       ⟨Rect.unit (s := S16384) (off 0) S16.size (inb 0), pay 0⟩] : List (View.Piece (Elt F) S16384 .f32)), y ∈ p.1.set := by
      intro n hnv
      refine ⟨⟨Rect.unit (s := S16384) (off n) S16.size (inb n), pay n⟩, ?_, hin n hnv⟩
      match n with
      | ⟨0, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))
      | ⟨1, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))
      | ⟨2, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))
      | ⟨3, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))
      | ⟨4, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))
      | ⟨5, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
      | ⟨6, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
      | ⟨7, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))
      | ⟨8, _⟩ => exact (List.mem_cons_of_mem _ (List.mem_cons_of_mem _ (List.mem_cons_of_mem _ (List.mem_cons_of_mem _ (List.mem_cons_of_mem _ (List.mem_cons_of_mem _ (List.mem_cons_of_mem _ (List.mem_cons_self))))))))
      | ⟨9, _⟩ => exact (List.mem_cons_of_mem _ (List.mem_cons_of_mem _ (List.mem_cons_of_mem _ (List.mem_cons_of_mem _ (List.mem_cons_of_mem _ (List.mem_cons_of_mem _ (List.mem_cons_self)))))))
      | ⟨10, _⟩ => exact (List.mem_cons_of_mem _ (List.mem_cons_of_mem _ (List.mem_cons_of_mem _ (List.mem_cons_of_mem _ (List.mem_cons_of_mem _ (List.mem_cons_self))))))
      | ⟨11, _⟩ => exact (List.mem_cons_of_mem _ (List.mem_cons_of_mem _ (List.mem_cons_of_mem _ (List.mem_cons_of_mem _ (List.mem_cons_self)))))
      | ⟨12, _⟩ => exact (List.mem_cons_of_mem _ (List.mem_cons_of_mem _ (List.mem_cons_of_mem _ (List.mem_cons_self))))
      | ⟨13, _⟩ => exact (List.mem_cons_of_mem _ (List.mem_cons_of_mem _ (List.mem_cons_self)))
      | ⟨14, _⟩ => exact (List.mem_cons_of_mem _ (List.mem_cons_self))
      | ⟨15, _⟩ => exact (List.mem_cons_self)
      | ⟨k + 16, hk⟩ => exact absurd hk (by omega)
    exact key ⟨((y 0).val - 256 * t) / 16, hn⟩ rfl

end FillStep

end Cert.Proof.KI

end
-- ==== Proof.KI.TripGen.lean ====
/-
  A trip's sixteen runs in closed form.

  Trip t of a fill loop reads, for each column j, the word at 64 j + t of the chunk's index buffer; for h = 0, 1 it
  loads the 16 table entries from 32·word + 1024 j + 16 h and stores them at 256 t + 32 j + 16 h of the staging
  buffer. For a word below 32 the table offset computed in 32-bit arithmetic is that sum (no wrap), the sixteen loaded
  entries lie inside the table (so the row value's reduction modulo 8192 changes nothing), and the run's payload is
  the row's value on the run.
-/
import proofs.«204821_g30846455120635_fold_wed_m_1292_33_alg».proof.Proof.KI.FillStep
import proofs.«204821_g30846455120635_fold_wed_m_1292_33_alg».proof.Proof.KI.Chk

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section TripGen

/-! ## The row's value at an entry, by table, row and column -/

theorem tv_congr (SM : S512.Idx → BitVec 32) (TV : S8192.Idx → Elt F .f32) (a a' : Fin 512) (b b' c c' : Nat)
    (ha : a = a') (hb : b = b') (hc : c = c') :
    TV (ix1 (⟨(32 * (SM (ix1 a)).toNat + 1024 * b + c) % 8192, Nat.mod_lt _ (by decide)⟩ : Fin 8192))
      = TV (ix1 (⟨(32 * (SM (ix1 a')).toNat + 1024 * b' + c') % 8192, Nat.mod_lt _ (by decide)⟩ : Fin 8192)) := by
  subst ha hb hc; rfl

/-- Entry 256 t + 32 j + e of the staging buffer's value: the table at 32·(word 64 j + t) + 1024 j + e. -/
theorem rowVal_at (SM : S512.Idx → BitVec 32) (TV : S8192.Idx → Elt F .f32) (t j e : Nat) (ht : t < 64) (hj : j < 8)
    (he : e < 32) (hlt : 256 * t + 32 * j + e < 16384) :
    rowVal SM TV (ix1 (⟨256 * t + 32 * j + e, hlt⟩ : Fin 16384))
      = TV (ix1 (⟨(32 * (SM (ix1 (⟨64 * j + t, by omega⟩ : Fin 512))).toNat + 1024 * j + e) % 8192, Nat.mod_lt _ (by decide)⟩ : Fin 8192)) := by
  unfold rowVal
  exact tv_congr SM TV _ _ _ _ _ _
    (Fin.ext (by show 64 * ((256 * t + 32 * j + e) % 256 / 32) + (256 * t + 32 * j + e) / 256 = 64 * j + t; omega))
    (by show (256 * t + 32 * j + e) % 256 / 32 = j; omega)
    (by show (256 * t + 32 * j + e) % 32 = e; omega)

/-! ## A run's payload -/

/-- The 16 table entries loaded from 32·word + 1024 j + 16 h, for the word at 64 j + t below 32, are the row's value
    on run 2 j + h of row t. -/
theorem pay_eq (SM : S512.Idx → BitVec 32) (TAB : S8192.Idx → Elt F .f32) (t j h : Nat) (ht : t < 64) (hj : j < 8) (hh : h < 2)
    (w : BitVec 32) (hw : w = SM (ix1 (⟨64 * j + t, by omega⟩ : Fin 512))) (hSM : ∀ x, (SM x).toNat < 32)
    (offT : Fin 1 → Nat) (inbT : ∀ a, offT a + S16.size a ≤ S8192.size a) (hoffT : offT = ![32 * w.toNat + 1024 * j + 16 * h])
    (y : S16.Idx) (hlt : 256 * t + 16 * (2 * j + h) + (y 0).val < 16384) :
    View.readAt (Elt F) (tvW).view (Rect.unit (s := S8192) offT S16.size inbT).toLoadRect TAB y
      = rowVal SM TAB (ix1 (⟨256 * t + 16 * (2 * j + h) + (y 0).val, hlt⟩ : Fin 16384)) := by
  subst hoffT
  have hwlt : w.toNat < 32 := by rw [hw]; exact hSM _
  have hy : (y 0).val < 16 := (y 0).isLt
  have e1 : (⟨256 * t + 16 * (2 * j + h) + (y 0).val, hlt⟩ : Fin 16384) = ⟨256 * t + 32 * j + (16 * h + (y 0).val), by omega⟩ :=
    Fin.ext (by show 256 * t + 16 * (2 * j + h) + (y 0).val = 256 * t + 32 * j + (16 * h + (y 0).val); omega)
  rw [e1, rowVal_at SM TAB t j (16 * h + (y 0).val) ht hj (by omega) (by omega), ← hw, View.readAt_apply]
  show TAB ((Rect.unit (s := S8192) ![32 * w.toNat + 1024 * j + 16 * h] S16.size inbT).toLoadRect.idx y) = _
  refine congrArg TAB (funext fun a => Fin.ext ?_)
  obtain rfl : a = 0 := Subsingleton.elim _ _
  show 32 * w.toNat + 1024 * j + 16 * h + 1 * (y 0).val = (32 * w.toNat + 1024 * j + (16 * h + (y 0).val)) % 8192
  omega

/-! ## The word a trip reads -/

/-- The word read from the first index buffer at a one-word window is the buffer's word at the window's offset. -/
theorem word_a (SM : S512.Idx → BitVec 32) (off : Fin 1 → Nat) (inb : ∀ a, off a + S1.size a ≤ S512.size a)
    (n : Nat) (hn : n < 512) (hoff : off = ![n]) (h1 : 0 < (Rect.unit (s := S512) off S1.size inb).toLoadRect.shape.numel) :
    View.readAt (Elt F) (saW).view (Rect.unit (s := S512) off S1.size inb).toLoadRect SM (Shape.Idx.first h1)
      = SM (ix1 (⟨n, hn⟩ : Fin 512)) := by
  subst hoff
  rw [View.readAt_apply]
  show SM _ = SM _
  refine congrArg SM (funext fun (a : Fin 1) => Fin.ext ?_)
  match a with
  | ⟨0, _⟩ =>
    show n + 1 * 0 = n
    omega

/-- The same for the second index buffer. -/
theorem word_b (SM : S512.Idx → BitVec 32) (off : Fin 1 → Nat) (inb : ∀ a, off a + S1.size a ≤ S512.size a)
    (n : Nat) (hn : n < 512) (hoff : off = ![n]) (h1 : 0 < (Rect.unit (s := S512) off S1.size inb).toLoadRect.shape.numel) :
    View.readAt (Elt F) (sbW).view (Rect.unit (s := S512) off S1.size inb).toLoadRect SM (Shape.Idx.first h1)
      = SM (ix1 (⟨n, hn⟩ : Fin 512)) := by
  subst hoff
  rw [View.readAt_apply]
  show SM _ = SM _
  refine congrArg SM (funext fun (a : Fin 1) => Fin.ext ?_)
  match a with
  | ⟨0, _⟩ =>
    show n + 1 * 0 = n
    omega

/-! ## The step, with the sixteen runs given one by one -/

/-- `filled_step16` with the sixteen offsets, bounds and payloads as separate arguments (so that a goal's literal list
    fixes them). -/
theorem filled_step16' {κ : Kind} {sp : Space} (v : View sig κ sp S16384 .f32) (SM : S512.Idx → BitVec 32)
    (TV : S8192.Idx → Elt F .f32) (t : Nat) (ht : t < 64) (g : v.ty.Contents (Elt F))
    (hfill : Filled SM TV t (v.read (Elt F) g))
    (o0 : Fin 1 → Nat) (o1 : Fin 1 → Nat) (o2 : Fin 1 → Nat) (o3 : Fin 1 → Nat) (o4 : Fin 1 → Nat) (o5 : Fin 1 → Nat) (o6 : Fin 1 → Nat) (o7 : Fin 1 → Nat) (o8 : Fin 1 → Nat) (o9 : Fin 1 → Nat) (o10 : Fin 1 → Nat) (o11 : Fin 1 → Nat) (o12 : Fin 1 → Nat) (o13 : Fin 1 → Nat) (o14 : Fin 1 → Nat) (o15 : Fin 1 → Nat)
    (i0 : ∀ a, o0 a + S16.size a ≤ S16384.size a) (i1 : ∀ a, o1 a + S16.size a ≤ S16384.size a) (i2 : ∀ a, o2 a + S16.size a ≤ S16384.size a) (i3 : ∀ a, o3 a + S16.size a ≤ S16384.size a) (i4 : ∀ a, o4 a + S16.size a ≤ S16384.size a) (i5 : ∀ a, o5 a + S16.size a ≤ S16384.size a) (i6 : ∀ a, o6 a + S16.size a ≤ S16384.size a) (i7 : ∀ a, o7 a + S16.size a ≤ S16384.size a) (i8 : ∀ a, o8 a + S16.size a ≤ S16384.size a) (i9 : ∀ a, o9 a + S16.size a ≤ S16384.size a) (i10 : ∀ a, o10 a + S16.size a ≤ S16384.size a) (i11 : ∀ a, o11 a + S16.size a ≤ S16384.size a) (i12 : ∀ a, o12 a + S16.size a ≤ S16384.size a) (i13 : ∀ a, o13 a + S16.size a ≤ S16384.size a) (i14 : ∀ a, o14 a + S16.size a ≤ S16384.size a) (i15 : ∀ a, o15 a + S16.size a ≤ S16384.size a)
    (p0 : S16.Idx → Elt F .f32) (p1 : S16.Idx → Elt F .f32) (p2 : S16.Idx → Elt F .f32) (p3 : S16.Idx → Elt F .f32) (p4 : S16.Idx → Elt F .f32) (p5 : S16.Idx → Elt F .f32) (p6 : S16.Idx → Elt F .f32) (p7 : S16.Idx → Elt F .f32) (p8 : S16.Idx → Elt F .f32) (p9 : S16.Idx → Elt F .f32) (p10 : S16.Idx → Elt F .f32) (p11 : S16.Idx → Elt F .f32) (p12 : S16.Idx → Elt F .f32) (p13 : S16.Idx → Elt F .f32) (p14 : S16.Idx → Elt F .f32) (p15 : S16.Idx → Elt F .f32)
    (ho0 : o0 = ![256 * t + 16 * 0]) (ho1 : o1 = ![256 * t + 16 * 1]) (ho2 : o2 = ![256 * t + 16 * 2]) (ho3 : o3 = ![256 * t + 16 * 3]) (ho4 : o4 = ![256 * t + 16 * 4]) (ho5 : o5 = ![256 * t + 16 * 5]) (ho6 : o6 = ![256 * t + 16 * 6]) (ho7 : o7 = ![256 * t + 16 * 7]) (ho8 : o8 = ![256 * t + 16 * 8]) (ho9 : o9 = ![256 * t + 16 * 9]) (ho10 : o10 = ![256 * t + 16 * 10]) (ho11 : o11 = ![256 * t + 16 * 11]) (ho12 : o12 = ![256 * t + 16 * 12]) (ho13 : o13 = ![256 * t + 16 * 13]) (ho14 : o14 = ![256 * t + 16 * 14]) (ho15 : o15 = ![256 * t + 16 * 15])
    (hp0 : ∀ (y : S16.Idx) (hlt : 256 * t + 16 * 0 + (y 0).val < 16384), p0 y = rowVal SM TV (ix1 (⟨256 * t + 16 * 0 + (y 0).val, hlt⟩ : Fin 16384)))
    (hp1 : ∀ (y : S16.Idx) (hlt : 256 * t + 16 * 1 + (y 0).val < 16384), p1 y = rowVal SM TV (ix1 (⟨256 * t + 16 * 1 + (y 0).val, hlt⟩ : Fin 16384)))
    (hp2 : ∀ (y : S16.Idx) (hlt : 256 * t + 16 * 2 + (y 0).val < 16384), p2 y = rowVal SM TV (ix1 (⟨256 * t + 16 * 2 + (y 0).val, hlt⟩ : Fin 16384)))
    (hp3 : ∀ (y : S16.Idx) (hlt : 256 * t + 16 * 3 + (y 0).val < 16384), p3 y = rowVal SM TV (ix1 (⟨256 * t + 16 * 3 + (y 0).val, hlt⟩ : Fin 16384)))
    (hp4 : ∀ (y : S16.Idx) (hlt : 256 * t + 16 * 4 + (y 0).val < 16384), p4 y = rowVal SM TV (ix1 (⟨256 * t + 16 * 4 + (y 0).val, hlt⟩ : Fin 16384)))
    (hp5 : ∀ (y : S16.Idx) (hlt : 256 * t + 16 * 5 + (y 0).val < 16384), p5 y = rowVal SM TV (ix1 (⟨256 * t + 16 * 5 + (y 0).val, hlt⟩ : Fin 16384)))
    (hp6 : ∀ (y : S16.Idx) (hlt : 256 * t + 16 * 6 + (y 0).val < 16384), p6 y = rowVal SM TV (ix1 (⟨256 * t + 16 * 6 + (y 0).val, hlt⟩ : Fin 16384)))
    (hp7 : ∀ (y : S16.Idx) (hlt : 256 * t + 16 * 7 + (y 0).val < 16384), p7 y = rowVal SM TV (ix1 (⟨256 * t + 16 * 7 + (y 0).val, hlt⟩ : Fin 16384)))
    (hp8 : ∀ (y : S16.Idx) (hlt : 256 * t + 16 * 8 + (y 0).val < 16384), p8 y = rowVal SM TV (ix1 (⟨256 * t + 16 * 8 + (y 0).val, hlt⟩ : Fin 16384)))
    (hp9 : ∀ (y : S16.Idx) (hlt : 256 * t + 16 * 9 + (y 0).val < 16384), p9 y = rowVal SM TV (ix1 (⟨256 * t + 16 * 9 + (y 0).val, hlt⟩ : Fin 16384)))
    (hp10 : ∀ (y : S16.Idx) (hlt : 256 * t + 16 * 10 + (y 0).val < 16384), p10 y = rowVal SM TV (ix1 (⟨256 * t + 16 * 10 + (y 0).val, hlt⟩ : Fin 16384)))
    (hp11 : ∀ (y : S16.Idx) (hlt : 256 * t + 16 * 11 + (y 0).val < 16384), p11 y = rowVal SM TV (ix1 (⟨256 * t + 16 * 11 + (y 0).val, hlt⟩ : Fin 16384)))
    (hp12 : ∀ (y : S16.Idx) (hlt : 256 * t + 16 * 12 + (y 0).val < 16384), p12 y = rowVal SM TV (ix1 (⟨256 * t + 16 * 12 + (y 0).val, hlt⟩ : Fin 16384)))
    (hp13 : ∀ (y : S16.Idx) (hlt : 256 * t + 16 * 13 + (y 0).val < 16384), p13 y = rowVal SM TV (ix1 (⟨256 * t + 16 * 13 + (y 0).val, hlt⟩ : Fin 16384)))
    (hp14 : ∀ (y : S16.Idx) (hlt : 256 * t + 16 * 14 + (y 0).val < 16384), p14 y = rowVal SM TV (ix1 (⟨256 * t + 16 * 14 + (y 0).val, hlt⟩ : Fin 16384)))
    (hp15 : ∀ (y : S16.Idx) (hlt : 256 * t + 16 * 15 + (y 0).val < 16384), p15 y = rowVal SM TV (ix1 (⟨256 * t + 16 * 15 + (y 0).val, hlt⟩ : Fin 16384))) :
    Filled SM TV (t + 1) (v.read (Elt F) (v.writes (Elt F) g
      [⟨Rect.unit (s := S16384) o15 S16.size i15, p15⟩,
       ⟨Rect.unit (s := S16384) o14 S16.size i14, p14⟩,
       ⟨Rect.unit (s := S16384) o13 S16.size i13, p13⟩,
       ⟨Rect.unit (s := S16384) o12 S16.size i12, p12⟩,
       ⟨Rect.unit (s := S16384) o11 S16.size i11, p11⟩,
       ⟨Rect.unit (s := S16384) o10 S16.size i10, p10⟩,
       ⟨Rect.unit (s := S16384) o9 S16.size i9, p9⟩,
       ⟨Rect.unit (s := S16384) o8 S16.size i8, p8⟩,
       ⟨Rect.unit (s := S16384) o7 S16.size i7, p7⟩,
       ⟨Rect.unit (s := S16384) o6 S16.size i6, p6⟩,
       ⟨Rect.unit (s := S16384) o5 S16.size i5, p5⟩,
       ⟨Rect.unit (s := S16384) o4 S16.size i4, p4⟩,
       ⟨Rect.unit (s := S16384) o3 S16.size i3, p3⟩,
       ⟨Rect.unit (s := S16384) o2 S16.size i2, p2⟩,
       ⟨Rect.unit (s := S16384) o1 S16.size i1, p1⟩,
       ⟨Rect.unit (s := S16384) o0 S16.size i0, p0⟩])) := by
  refine filled_step16 v SM TV t ht g hfill ![o0, o1, o2, o3, o4, o5, o6, o7, o8, o9, o10, o11, o12, o13, o14, o15]
    (fun n => match n with
      | ⟨0, _⟩ => i0
      | ⟨1, _⟩ => i1
      | ⟨2, _⟩ => i2
      | ⟨3, _⟩ => i3
      | ⟨4, _⟩ => i4
      | ⟨5, _⟩ => i5
      | ⟨6, _⟩ => i6
      | ⟨7, _⟩ => i7
      | ⟨8, _⟩ => i8
      | ⟨9, _⟩ => i9
      | ⟨10, _⟩ => i10
      | ⟨11, _⟩ => i11
      | ⟨12, _⟩ => i12
      | ⟨13, _⟩ => i13
      | ⟨14, _⟩ => i14
      | ⟨15, _⟩ => i15
      | ⟨k + 16, hk⟩ => absurd hk (by omega))
    ![p0, p1, p2, p3, p4, p5, p6, p7, p8, p9, p10, p11, p12, p13, p14, p15]
    (fun n => match n with
      | ⟨0, _⟩ => ho0
      | ⟨1, _⟩ => ho1
      | ⟨2, _⟩ => ho2
      | ⟨3, _⟩ => ho3
      | ⟨4, _⟩ => ho4
      | ⟨5, _⟩ => ho5
      | ⟨6, _⟩ => ho6
      | ⟨7, _⟩ => ho7
      | ⟨8, _⟩ => ho8
      | ⟨9, _⟩ => ho9
      | ⟨10, _⟩ => ho10
      | ⟨11, _⟩ => ho11
      | ⟨12, _⟩ => ho12
      | ⟨13, _⟩ => ho13
      | ⟨14, _⟩ => ho14
      | ⟨15, _⟩ => ho15
      | ⟨k + 16, hk⟩ => absurd hk (by omega))
    (fun n => match n with
      | ⟨0, _⟩ => hp0
      | ⟨1, _⟩ => hp1
      | ⟨2, _⟩ => hp2
      | ⟨3, _⟩ => hp3
      | ⟨4, _⟩ => hp4
      | ⟨5, _⟩ => hp5
      | ⟨6, _⟩ => hp6
      | ⟨7, _⟩ => hp7
      | ⟨8, _⟩ => hp8
      | ⟨9, _⟩ => hp9
      | ⟨10, _⟩ => hp10
      | ⟨11, _⟩ => hp11
      | ⟨12, _⟩ => hp12
      | ⟨13, _⟩ => hp13
      | ⟨14, _⟩ => hp14
      | ⟨15, _⟩ => hp15
      | ⟨k + 16, hk⟩ => absurd hk (by omega))

end TripGen

end Cert.Proof.KI

end
-- ==== Proof.KI.TabOff.lean ====
/-
  The table offsets a trip computes from a word it read, in closed form: for a word below 32, "32·word, plus the
  column's table offset 1024 j, plus 16 h", computed in 32-bit arithmetic, is that sum as a natural number (nothing
  wraps: the sum is below 8192). Checked at each of the 32 words and both h.
-/
import proofs.«204821_g30846455120635_fold_wed_m_1292_33_alg».proof.Proof.KI.Chk

namespace Cert.Proof.KI

open Cert.KernelIdeal Cert.KernelIdeal.Gen Idealize.ShloMosaic

theorem tabOff27 (w : BitVec 32) (hw : w.toNat < 32) (r : Fin 2) :
    k0_off27 w (BitVec.ofNat 32 (16 * r.val)) = ![32 * w.toNat + 1024 * 0 + 16 * r.val] := by
  obtain ⟨n, rfl⟩ := ofNat_of_lt w hw
  revert n r; decide +kernel
theorem tabOff30 (w : BitVec 32) (hw : w.toNat < 32) (r : Fin 2) :
    k0_off30 w (BitVec.ofNat 32 (16 * r.val)) = ![32 * w.toNat + 1024 * 1 + 16 * r.val] := by
  obtain ⟨n, rfl⟩ := ofNat_of_lt w hw
  revert n r; decide +kernel
theorem tabOff33 (w : BitVec 32) (hw : w.toNat < 32) (r : Fin 2) :
    k0_off33 w (BitVec.ofNat 32 (16 * r.val)) = ![32 * w.toNat + 1024 * 2 + 16 * r.val] := by
  obtain ⟨n, rfl⟩ := ofNat_of_lt w hw
  revert n r; decide +kernel
theorem tabOff36 (w : BitVec 32) (hw : w.toNat < 32) (r : Fin 2) :
    k0_off36 w (BitVec.ofNat 32 (16 * r.val)) = ![32 * w.toNat + 1024 * 3 + 16 * r.val] := by
  obtain ⟨n, rfl⟩ := ofNat_of_lt w hw
  revert n r; decide +kernel
theorem tabOff39 (w : BitVec 32) (hw : w.toNat < 32) (r : Fin 2) :
    k0_off39 w (BitVec.ofNat 32 (16 * r.val)) = ![32 * w.toNat + 1024 * 4 + 16 * r.val] := by
  obtain ⟨n, rfl⟩ := ofNat_of_lt w hw
  revert n r; decide +kernel
theorem tabOff42 (w : BitVec 32) (hw : w.toNat < 32) (r : Fin 2) :
    k0_off42 w (BitVec.ofNat 32 (16 * r.val)) = ![32 * w.toNat + 1024 * 5 + 16 * r.val] := by
  obtain ⟨n, rfl⟩ := ofNat_of_lt w hw
  revert n r; decide +kernel
theorem tabOff45 (w : BitVec 32) (hw : w.toNat < 32) (r : Fin 2) :
    k0_off45 w (BitVec.ofNat 32 (16 * r.val)) = ![32 * w.toNat + 1024 * 6 + 16 * r.val] := by
  obtain ⟨n, rfl⟩ := ofNat_of_lt w hw
  revert n r; decide +kernel
theorem tabOff48 (w : BitVec 32) (hw : w.toNat < 32) (r : Fin 2) :
    k0_off48 w (BitVec.ofNat 32 (16 * r.val)) = ![32 * w.toNat + 1024 * 7 + 16 * r.val] := by
  obtain ⟨n, rfl⟩ := ofNat_of_lt w hw
  revert n r; decide +kernel
theorem tabOff60 (w : BitVec 32) (hw : w.toNat < 32) (r : Fin 2) :
    k0_off60 w (BitVec.ofNat 32 (16 * r.val)) = ![32 * w.toNat + 1024 * 0 + 16 * r.val] := by
  obtain ⟨n, rfl⟩ := ofNat_of_lt w hw
  revert n r; decide +kernel
theorem tabOff63 (w : BitVec 32) (hw : w.toNat < 32) (r : Fin 2) :
    k0_off63 w (BitVec.ofNat 32 (16 * r.val)) = ![32 * w.toNat + 1024 * 1 + 16 * r.val] := by
  obtain ⟨n, rfl⟩ := ofNat_of_lt w hw
  revert n r; decide +kernel
theorem tabOff66 (w : BitVec 32) (hw : w.toNat < 32) (r : Fin 2) :
    k0_off66 w (BitVec.ofNat 32 (16 * r.val)) = ![32 * w.toNat + 1024 * 2 + 16 * r.val] := by
  obtain ⟨n, rfl⟩ := ofNat_of_lt w hw
  revert n r; decide +kernel
theorem tabOff69 (w : BitVec 32) (hw : w.toNat < 32) (r : Fin 2) :
    k0_off69 w (BitVec.ofNat 32 (16 * r.val)) = ![32 * w.toNat + 1024 * 3 + 16 * r.val] := by
  obtain ⟨n, rfl⟩ := ofNat_of_lt w hw
  revert n r; decide +kernel
theorem tabOff72 (w : BitVec 32) (hw : w.toNat < 32) (r : Fin 2) :
    k0_off72 w (BitVec.ofNat 32 (16 * r.val)) = ![32 * w.toNat + 1024 * 4 + 16 * r.val] := by
  obtain ⟨n, rfl⟩ := ofNat_of_lt w hw
  revert n r; decide +kernel
theorem tabOff75 (w : BitVec 32) (hw : w.toNat < 32) (r : Fin 2) :
    k0_off75 w (BitVec.ofNat 32 (16 * r.val)) = ![32 * w.toNat + 1024 * 5 + 16 * r.val] := by
  obtain ⟨n, rfl⟩ := ofNat_of_lt w hw
  revert n r; decide +kernel
theorem tabOff78 (w : BitVec 32) (hw : w.toNat < 32) (r : Fin 2) :
    k0_off78 w (BitVec.ofNat 32 (16 * r.val)) = ![32 * w.toNat + 1024 * 6 + 16 * r.val] := by
  obtain ⟨n, rfl⟩ := ofNat_of_lt w hw
  revert n r; decide +kernel
theorem tabOff81 (w : BitVec 32) (hw : w.toNat < 32) (r : Fin 2) :
    k0_off81 w (BitVec.ofNat 32 (16 * r.val)) = ![32 * w.toNat + 1024 * 7 + 16 * r.val] := by
  obtain ⟨n, rfl⟩ := ofNat_of_lt w hw
  revert n r; decide +kernel
theorem tabOff92 (w : BitVec 32) (hw : w.toNat < 32) (r : Fin 2) :
    k0_off92 w (BitVec.ofNat 32 (16 * r.val)) = ![32 * w.toNat + 1024 * 0 + 16 * r.val] := by
  obtain ⟨n, rfl⟩ := ofNat_of_lt w hw
  revert n r; decide +kernel
theorem tabOff95 (w : BitVec 32) (hw : w.toNat < 32) (r : Fin 2) :
    k0_off95 w (BitVec.ofNat 32 (16 * r.val)) = ![32 * w.toNat + 1024 * 1 + 16 * r.val] := by
  obtain ⟨n, rfl⟩ := ofNat_of_lt w hw
  revert n r; decide +kernel
theorem tabOff98 (w : BitVec 32) (hw : w.toNat < 32) (r : Fin 2) :
    k0_off98 w (BitVec.ofNat 32 (16 * r.val)) = ![32 * w.toNat + 1024 * 2 + 16 * r.val] := by
  obtain ⟨n, rfl⟩ := ofNat_of_lt w hw
  revert n r; decide +kernel
theorem tabOff101 (w : BitVec 32) (hw : w.toNat < 32) (r : Fin 2) :
    k0_off101 w (BitVec.ofNat 32 (16 * r.val)) = ![32 * w.toNat + 1024 * 3 + 16 * r.val] := by
  obtain ⟨n, rfl⟩ := ofNat_of_lt w hw
  revert n r; decide +kernel
theorem tabOff104 (w : BitVec 32) (hw : w.toNat < 32) (r : Fin 2) :
    k0_off104 w (BitVec.ofNat 32 (16 * r.val)) = ![32 * w.toNat + 1024 * 4 + 16 * r.val] := by
  obtain ⟨n, rfl⟩ := ofNat_of_lt w hw
  revert n r; decide +kernel
theorem tabOff107 (w : BitVec 32) (hw : w.toNat < 32) (r : Fin 2) :
    k0_off107 w (BitVec.ofNat 32 (16 * r.val)) = ![32 * w.toNat + 1024 * 5 + 16 * r.val] := by
  obtain ⟨n, rfl⟩ := ofNat_of_lt w hw
  revert n r; decide +kernel
theorem tabOff110 (w : BitVec 32) (hw : w.toNat < 32) (r : Fin 2) :
    k0_off110 w (BitVec.ofNat 32 (16 * r.val)) = ![32 * w.toNat + 1024 * 6 + 16 * r.val] := by
  obtain ⟨n, rfl⟩ := ofNat_of_lt w hw
  revert n r; decide +kernel
theorem tabOff113 (w : BitVec 32) (hw : w.toNat < 32) (r : Fin 2) :
    k0_off113 w (BitVec.ofNat 32 (16 * r.val)) = ![32 * w.toNat + 1024 * 7 + 16 * r.val] := by
  obtain ⟨n, rfl⟩ := ofNat_of_lt w hw
  revert n r; decide +kernel
theorem tabOff124 (w : BitVec 32) (hw : w.toNat < 32) (r : Fin 2) :
    k0_off124 w (BitVec.ofNat 32 (16 * r.val)) = ![32 * w.toNat + 1024 * 0 + 16 * r.val] := by
  obtain ⟨n, rfl⟩ := ofNat_of_lt w hw
  revert n r; decide +kernel
theorem tabOff127 (w : BitVec 32) (hw : w.toNat < 32) (r : Fin 2) :
    k0_off127 w (BitVec.ofNat 32 (16 * r.val)) = ![32 * w.toNat + 1024 * 1 + 16 * r.val] := by
  obtain ⟨n, rfl⟩ := ofNat_of_lt w hw
  revert n r; decide +kernel
theorem tabOff130 (w : BitVec 32) (hw : w.toNat < 32) (r : Fin 2) :
    k0_off130 w (BitVec.ofNat 32 (16 * r.val)) = ![32 * w.toNat + 1024 * 2 + 16 * r.val] := by
  obtain ⟨n, rfl⟩ := ofNat_of_lt w hw
  revert n r; decide +kernel
theorem tabOff133 (w : BitVec 32) (hw : w.toNat < 32) (r : Fin 2) :
    k0_off133 w (BitVec.ofNat 32 (16 * r.val)) = ![32 * w.toNat + 1024 * 3 + 16 * r.val] := by
  obtain ⟨n, rfl⟩ := ofNat_of_lt w hw
  revert n r; decide +kernel
theorem tabOff136 (w : BitVec 32) (hw : w.toNat < 32) (r : Fin 2) :
    k0_off136 w (BitVec.ofNat 32 (16 * r.val)) = ![32 * w.toNat + 1024 * 4 + 16 * r.val] := by
  obtain ⟨n, rfl⟩ := ofNat_of_lt w hw
  revert n r; decide +kernel
theorem tabOff139 (w : BitVec 32) (hw : w.toNat < 32) (r : Fin 2) :
    k0_off139 w (BitVec.ofNat 32 (16 * r.val)) = ![32 * w.toNat + 1024 * 5 + 16 * r.val] := by
  obtain ⟨n, rfl⟩ := ofNat_of_lt w hw
  revert n r; decide +kernel
theorem tabOff142 (w : BitVec 32) (hw : w.toNat < 32) (r : Fin 2) :
    k0_off142 w (BitVec.ofNat 32 (16 * r.val)) = ![32 * w.toNat + 1024 * 6 + 16 * r.val] := by
  obtain ⟨n, rfl⟩ := ofNat_of_lt w hw
  revert n r; decide +kernel
theorem tabOff145 (w : BitVec 32) (hw : w.toNat < 32) (r : Fin 2) :
    k0_off145 w (BitVec.ofNat 32 (16 * r.val)) = ![32 * w.toNat + 1024 * 7 + 16 * r.val] := by
  obtain ⟨n, rfl⟩ := ofNat_of_lt w hw
  revert n r; decide +kernel
theorem tabOff156 (w : BitVec 32) (hw : w.toNat < 32) (r : Fin 2) :
    k0_off156 w (BitVec.ofNat 32 (16 * r.val)) = ![32 * w.toNat + 1024 * 0 + 16 * r.val] := by
  obtain ⟨n, rfl⟩ := ofNat_of_lt w hw
  revert n r; decide +kernel
theorem tabOff159 (w : BitVec 32) (hw : w.toNat < 32) (r : Fin 2) :
    k0_off159 w (BitVec.ofNat 32 (16 * r.val)) = ![32 * w.toNat + 1024 * 1 + 16 * r.val] := by
  obtain ⟨n, rfl⟩ := ofNat_of_lt w hw
  revert n r; decide +kernel
theorem tabOff162 (w : BitVec 32) (hw : w.toNat < 32) (r : Fin 2) :
    k0_off162 w (BitVec.ofNat 32 (16 * r.val)) = ![32 * w.toNat + 1024 * 2 + 16 * r.val] := by
  obtain ⟨n, rfl⟩ := ofNat_of_lt w hw
  revert n r; decide +kernel
theorem tabOff165 (w : BitVec 32) (hw : w.toNat < 32) (r : Fin 2) :
    k0_off165 w (BitVec.ofNat 32 (16 * r.val)) = ![32 * w.toNat + 1024 * 3 + 16 * r.val] := by
  obtain ⟨n, rfl⟩ := ofNat_of_lt w hw
  revert n r; decide +kernel
theorem tabOff168 (w : BitVec 32) (hw : w.toNat < 32) (r : Fin 2) :
    k0_off168 w (BitVec.ofNat 32 (16 * r.val)) = ![32 * w.toNat + 1024 * 4 + 16 * r.val] := by
  obtain ⟨n, rfl⟩ := ofNat_of_lt w hw
  revert n r; decide +kernel
theorem tabOff171 (w : BitVec 32) (hw : w.toNat < 32) (r : Fin 2) :
    k0_off171 w (BitVec.ofNat 32 (16 * r.val)) = ![32 * w.toNat + 1024 * 5 + 16 * r.val] := by
  obtain ⟨n, rfl⟩ := ofNat_of_lt w hw
  revert n r; decide +kernel
theorem tabOff174 (w : BitVec 32) (hw : w.toNat < 32) (r : Fin 2) :
    k0_off174 w (BitVec.ofNat 32 (16 * r.val)) = ![32 * w.toNat + 1024 * 6 + 16 * r.val] := by
  obtain ⟨n, rfl⟩ := ofNat_of_lt w hw
  revert n r; decide +kernel
theorem tabOff177 (w : BitVec 32) (hw : w.toNat < 32) (r : Fin 2) :
    k0_off177 w (BitVec.ofNat 32 (16 * r.val)) = ![32 * w.toNat + 1024 * 7 + 16 * r.val] := by
  obtain ⟨n, rfl⟩ := ofNat_of_lt w hw
  revert n r; decide +kernel
theorem tabOff188 (w : BitVec 32) (hw : w.toNat < 32) (r : Fin 2) :
    k0_off188 w (BitVec.ofNat 32 (16 * r.val)) = ![32 * w.toNat + 1024 * 0 + 16 * r.val] := by
  obtain ⟨n, rfl⟩ := ofNat_of_lt w hw
  revert n r; decide +kernel
theorem tabOff191 (w : BitVec 32) (hw : w.toNat < 32) (r : Fin 2) :
    k0_off191 w (BitVec.ofNat 32 (16 * r.val)) = ![32 * w.toNat + 1024 * 1 + 16 * r.val] := by
  obtain ⟨n, rfl⟩ := ofNat_of_lt w hw
  revert n r; decide +kernel
theorem tabOff194 (w : BitVec 32) (hw : w.toNat < 32) (r : Fin 2) :
    k0_off194 w (BitVec.ofNat 32 (16 * r.val)) = ![32 * w.toNat + 1024 * 2 + 16 * r.val] := by
  obtain ⟨n, rfl⟩ := ofNat_of_lt w hw
  revert n r; decide +kernel
theorem tabOff197 (w : BitVec 32) (hw : w.toNat < 32) (r : Fin 2) :
    k0_off197 w (BitVec.ofNat 32 (16 * r.val)) = ![32 * w.toNat + 1024 * 3 + 16 * r.val] := by
  obtain ⟨n, rfl⟩ := ofNat_of_lt w hw
  revert n r; decide +kernel
theorem tabOff200 (w : BitVec 32) (hw : w.toNat < 32) (r : Fin 2) :
    k0_off200 w (BitVec.ofNat 32 (16 * r.val)) = ![32 * w.toNat + 1024 * 4 + 16 * r.val] := by
  obtain ⟨n, rfl⟩ := ofNat_of_lt w hw
  revert n r; decide +kernel
theorem tabOff203 (w : BitVec 32) (hw : w.toNat < 32) (r : Fin 2) :
    k0_off203 w (BitVec.ofNat 32 (16 * r.val)) = ![32 * w.toNat + 1024 * 5 + 16 * r.val] := by
  obtain ⟨n, rfl⟩ := ofNat_of_lt w hw
  revert n r; decide +kernel
theorem tabOff206 (w : BitVec 32) (hw : w.toNat < 32) (r : Fin 2) :
    k0_off206 w (BitVec.ofNat 32 (16 * r.val)) = ![32 * w.toNat + 1024 * 6 + 16 * r.val] := by
  obtain ⟨n, rfl⟩ := ofNat_of_lt w hw
  revert n r; decide +kernel
theorem tabOff209 (w : BitVec 32) (hw : w.toNat < 32) (r : Fin 2) :
    k0_off209 w (BitVec.ofNat 32 (16 * r.val)) = ![32 * w.toNat + 1024 * 7 + 16 * r.val] := by
  obtain ⟨n, rfl⟩ := ofNat_of_lt w hw
  revert n r; decide +kernel
theorem tabOff220 (w : BitVec 32) (hw : w.toNat < 32) (r : Fin 2) :
    k0_off220 w (BitVec.ofNat 32 (16 * r.val)) = ![32 * w.toNat + 1024 * 0 + 16 * r.val] := by
  obtain ⟨n, rfl⟩ := ofNat_of_lt w hw
  revert n r; decide +kernel
theorem tabOff223 (w : BitVec 32) (hw : w.toNat < 32) (r : Fin 2) :
    k0_off223 w (BitVec.ofNat 32 (16 * r.val)) = ![32 * w.toNat + 1024 * 1 + 16 * r.val] := by
  obtain ⟨n, rfl⟩ := ofNat_of_lt w hw
  revert n r; decide +kernel
theorem tabOff226 (w : BitVec 32) (hw : w.toNat < 32) (r : Fin 2) :
    k0_off226 w (BitVec.ofNat 32 (16 * r.val)) = ![32 * w.toNat + 1024 * 2 + 16 * r.val] := by
  obtain ⟨n, rfl⟩ := ofNat_of_lt w hw
  revert n r; decide +kernel
theorem tabOff229 (w : BitVec 32) (hw : w.toNat < 32) (r : Fin 2) :
    k0_off229 w (BitVec.ofNat 32 (16 * r.val)) = ![32 * w.toNat + 1024 * 3 + 16 * r.val] := by
  obtain ⟨n, rfl⟩ := ofNat_of_lt w hw
  revert n r; decide +kernel
theorem tabOff232 (w : BitVec 32) (hw : w.toNat < 32) (r : Fin 2) :
    k0_off232 w (BitVec.ofNat 32 (16 * r.val)) = ![32 * w.toNat + 1024 * 4 + 16 * r.val] := by
  obtain ⟨n, rfl⟩ := ofNat_of_lt w hw
  revert n r; decide +kernel
theorem tabOff235 (w : BitVec 32) (hw : w.toNat < 32) (r : Fin 2) :
    k0_off235 w (BitVec.ofNat 32 (16 * r.val)) = ![32 * w.toNat + 1024 * 5 + 16 * r.val] := by
  obtain ⟨n, rfl⟩ := ofNat_of_lt w hw
  revert n r; decide +kernel
theorem tabOff238 (w : BitVec 32) (hw : w.toNat < 32) (r : Fin 2) :
    k0_off238 w (BitVec.ofNat 32 (16 * r.val)) = ![32 * w.toNat + 1024 * 6 + 16 * r.val] := by
  obtain ⟨n, rfl⟩ := ofNat_of_lt w hw
  revert n r; decide +kernel
theorem tabOff241 (w : BitVec 32) (hw : w.toNat < 32) (r : Fin 2) :
    k0_off241 w (BitVec.ofNat 32 (16 * r.val)) = ![32 * w.toNat + 1024 * 7 + 16 * r.val] := by
  obtain ⟨n, rfl⟩ := ofNat_of_lt w hw
  revert n r; decide +kernel
theorem tabOff244 (w : BitVec 32) (hw : w.toNat < 32) (r : Fin 2) :
    k0_off244 w (BitVec.ofNat 32 (16 * r.val)) = ![32 * w.toNat + 1024 * 0 + 16 * r.val] := by
  obtain ⟨n, rfl⟩ := ofNat_of_lt w hw
  revert n r; decide +kernel
theorem tabOff247 (w : BitVec 32) (hw : w.toNat < 32) (r : Fin 2) :
    k0_off247 w (BitVec.ofNat 32 (16 * r.val)) = ![32 * w.toNat + 1024 * 1 + 16 * r.val] := by
  obtain ⟨n, rfl⟩ := ofNat_of_lt w hw
  revert n r; decide +kernel
theorem tabOff250 (w : BitVec 32) (hw : w.toNat < 32) (r : Fin 2) :
    k0_off250 w (BitVec.ofNat 32 (16 * r.val)) = ![32 * w.toNat + 1024 * 2 + 16 * r.val] := by
  obtain ⟨n, rfl⟩ := ofNat_of_lt w hw
  revert n r; decide +kernel
theorem tabOff253 (w : BitVec 32) (hw : w.toNat < 32) (r : Fin 2) :
    k0_off253 w (BitVec.ofNat 32 (16 * r.val)) = ![32 * w.toNat + 1024 * 3 + 16 * r.val] := by
  obtain ⟨n, rfl⟩ := ofNat_of_lt w hw
  revert n r; decide +kernel
theorem tabOff256 (w : BitVec 32) (hw : w.toNat < 32) (r : Fin 2) :
    k0_off256 w (BitVec.ofNat 32 (16 * r.val)) = ![32 * w.toNat + 1024 * 4 + 16 * r.val] := by
  obtain ⟨n, rfl⟩ := ofNat_of_lt w hw
  revert n r; decide +kernel
theorem tabOff259 (w : BitVec 32) (hw : w.toNat < 32) (r : Fin 2) :
    k0_off259 w (BitVec.ofNat 32 (16 * r.val)) = ![32 * w.toNat + 1024 * 5 + 16 * r.val] := by
  obtain ⟨n, rfl⟩ := ofNat_of_lt w hw
  revert n r; decide +kernel
theorem tabOff262 (w : BitVec 32) (hw : w.toNat < 32) (r : Fin 2) :
    k0_off262 w (BitVec.ofNat 32 (16 * r.val)) = ![32 * w.toNat + 1024 * 6 + 16 * r.val] := by
  obtain ⟨n, rfl⟩ := ofNat_of_lt w hw
  revert n r; decide +kernel
theorem tabOff265 (w : BitVec 32) (hw : w.toNat < 32) (r : Fin 2) :
    k0_off265 w (BitVec.ofNat 32 (16 * r.val)) = ![32 * w.toNat + 1024 * 7 + 16 * r.val] := by
  obtain ⟨n, rfl⟩ := ofNat_of_lt w hw
  revert n r; decide +kernel

end Cert.Proof.KI
-- ==== Proof.KI.Trip0.lean ====
/-
  Trip t of fill loop 1 (chunk 0): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KI.TripGen
import proofs.«204821_g30846455120635_fold_wed_m_1292_33_alg».proof.Proof.KI.TabOff

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section Trip

theorem trip0 (hpre : PreOK m) (d : Dev nD) (L : grid0.Coords) (TAB : Buf (Elt F) (tabLoc d)) (t : Fin k0_t1_loop.trips) (acc : PUnit) :
    inva m d L 0 TAB t.val acc ⊢ wp frame (wpE (defs₀ (F := F)) 𝒱₀ (thr d L) none) Set.univ
      (k0_t1_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 t acc) (fun r => inva m d L 0 TAB (t.val + 1) r) := by
  unfold inva
  iintro ⟨Hs, Htv, %g, Hb, %hfill⟩
  have hSM := SMsem_lt m d L hpre 0
  sl_exec (disch := first | sl_exact chk1_of_lt _ (hSM _) | sl_exact chk2_of_lt _ (hSM _) | sl_exact chk3_of_lt _ (hSM _) | sl_exact chk4_of_lt _ (hSM _) | sl_exact chk5_of_lt _ (hSM _) | sl_exact chk6_of_lt _ (hSM _) | sl_exact chk7_of_lt _ (hSM _) | sl_exact chk8_of_lt _ (hSM _))
  sl_step
  isplitl [Hs]; · iexact Hs
  isplitl [Htv]; · iexact Htv
  iexists _; isplitl [Hb]; · iexact Hb
  ipureintro
  have ht : t.val < 64 := t.isLt
  refine filled_step16' (baW).view (SMsem m d L 0) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off28_eq t ⟨0, by decide⟩).trans
      (congrArg (fun x : Nat => (![x] : Fin 1 → Nat)) (show 256 * t.val + 16 * 0 = 256 * t.val + 16 * 0 by omega))
  · exact (k0_off28_eq t ⟨1, by decide⟩).trans
      (congrArg (fun x : Nat => (![x] : Fin 1 → Nat)) (show 256 * t.val + 16 * 1 = 256 * t.val + 16 * 1 by omega))
  · exact (k0_off31_eq t ⟨0, by decide⟩).trans
      (congrArg (fun x : Nat => (![x] : Fin 1 → Nat)) (show 256 * t.val + 16 * 0 + 32 = 256 * t.val + 16 * 2 by omega))
  · exact (k0_off31_eq t ⟨1, by decide⟩).trans
      (congrArg (fun x : Nat => (![x] : Fin 1 → Nat)) (show 256 * t.val + 16 * 1 + 32 = 256 * t.val + 16 * 3 by omega))
  · exact (k0_off34_eq t ⟨0, by decide⟩).trans
      (congrArg (fun x : Nat => (![x] : Fin 1 → Nat)) (show 256 * t.val + 16 * 0 + 64 = 256 * t.val + 16 * 4 by omega))
  · exact (k0_off34_eq t ⟨1, by decide⟩).trans
      (congrArg (fun x : Nat => (![x] : Fin 1 → Nat)) (show 256 * t.val + 16 * 1 + 64 = 256 * t.val + 16 * 5 by omega))
  · exact (k0_off37_eq t ⟨0, by decide⟩).trans
      (congrArg (fun x : Nat => (![x] : Fin 1 → Nat)) (show 256 * t.val + 16 * 0 + 96 = 256 * t.val + 16 * 6 by omega))
  · exact (k0_off37_eq t ⟨1, by decide⟩).trans
      (congrArg (fun x : Nat => (![x] : Fin 1 → Nat)) (show 256 * t.val + 16 * 1 + 96 = 256 * t.val + 16 * 7 by omega))
  · exact (k0_off40_eq t ⟨0, by decide⟩).trans
      (congrArg (fun x : Nat => (![x] : Fin 1 → Nat)) (show 256 * t.val + 16 * 0 + 128 = 256 * t.val + 16 * 8 by omega))
  · exact (k0_off40_eq t ⟨1, by decide⟩).trans
      (congrArg (fun x : Nat => (![x] : Fin 1 → Nat)) (show 256 * t.val + 16 * 1 + 128 = 256 * t.val + 16 * 9 by omega))
  · exact (k0_off43_eq t ⟨0, by decide⟩).trans
      (congrArg (fun x : Nat => (![x] : Fin 1 → Nat)) (show 256 * t.val + 16 * 0 + 160 = 256 * t.val + 16 * 10 by omega))
  · exact (k0_off43_eq t ⟨1, by decide⟩).trans
      (congrArg (fun x : Nat => (![x] : Fin 1 → Nat)) (show 256 * t.val + 16 * 1 + 160 = 256 * t.val + 16 * 11 by omega))
  · exact (k0_off46_eq t ⟨0, by decide⟩).trans
      (congrArg (fun x : Nat => (![x] : Fin 1 → Nat)) (show 256 * t.val + 16 * 0 + 192 = 256 * t.val + 16 * 12 by omega))
  · exact (k0_off46_eq t ⟨1, by decide⟩).trans
      (congrArg (fun x : Nat => (![x] : Fin 1 → Nat)) (show 256 * t.val + 16 * 1 + 192 = 256 * t.val + 16 * 13 by omega))
  · exact (k0_off49_eq t ⟨0, by decide⟩).trans
      (congrArg (fun x : Nat => (![x] : Fin 1 → Nat)) (show 256 * t.val + 16 * 0 + 224 = 256 * t.val + 16 * 14 by omega))
  · exact (k0_off49_eq t ⟨1, by decide⟩).trans
      (congrArg (fun x : Nat => (![x] : Fin 1 → Nat)) (show 256 * t.val + 16 * 1 + 224 = 256 * t.val + 16 * 15 by omega))
  · intro y hlt
    have hw := word_a (F := F) (SMsem m d L 0) (k0_off26 t) (k0_off26_inb t) (64 * 0 + t.val) (by omega)
      ((k0_off26_eq t).trans (congrArg (fun x : Nat => (![x] : Fin 1 → Nat)) (show t.val = 64 * 0 + t.val by omega))) Nat.one_pos
    exact pay_eq (SMsem m d L 0) TAB t.val 0 0 ht (by decide) (by decide) _ hw hSM _ _
      (tabOff27 _ (by rw [hw]; exact hSM _) ⟨0, by decide⟩) y hlt
  · intro y hlt
    have hw := word_a (F := F) (SMsem m d L 0) (k0_off26 t) (k0_off26_inb t) (64 * 0 + t.val) (by omega)
      ((k0_off26_eq t).trans (congrArg (fun x : Nat => (![x] : Fin 1 → Nat)) (show t.val = 64 * 0 + t.val by omega))) Nat.one_pos
    exact pay_eq (SMsem m d L 0) TAB t.val 0 1 ht (by decide) (by decide) _ hw hSM _ _
      (tabOff27 _ (by rw [hw]; exact hSM _) ⟨1, by decide⟩) y hlt
  · intro y hlt
    have hw := word_a (F := F) (SMsem m d L 0) (k0_off29 t) (k0_off29_inb t) (64 * 1 + t.val) (by omega)
      ((k0_off29_eq t).trans (congrArg (fun x : Nat => (![x] : Fin 1 → Nat)) (show t.val + 64 = 64 * 1 + t.val by omega))) Nat.one_pos
    exact pay_eq (SMsem m d L 0) TAB t.val 1 0 ht (by decide) (by decide) _ hw hSM _ _
      (tabOff30 _ (by rw [hw]; exact hSM _) ⟨0, by decide⟩) y hlt
  · intro y hlt
    have hw := word_a (F := F) (SMsem m d L 0) (k0_off29 t) (k0_off29_inb t) (64 * 1 + t.val) (by omega)
      ((k0_off29_eq t).trans (congrArg (fun x : Nat => (![x] : Fin 1 → Nat)) (show t.val + 64 = 64 * 1 + t.val by omega))) Nat.one_pos
    exact pay_eq (SMsem m d L 0) TAB t.val 1 1 ht (by decide) (by decide) _ hw hSM _ _
      (tabOff30 _ (by rw [hw]; exact hSM _) ⟨1, by decide⟩) y hlt
  · intro y hlt
    have hw := word_a (F := F) (SMsem m d L 0) (k0_off32 t) (k0_off32_inb t) (64 * 2 + t.val) (by omega)
      ((k0_off32_eq t).trans (congrArg (fun x : Nat => (![x] : Fin 1 → Nat)) (show t.val + 128 = 64 * 2 + t.val by omega))) Nat.one_pos
    exact pay_eq (SMsem m d L 0) TAB t.val 2 0 ht (by decide) (by decide) _ hw hSM _ _
      (tabOff33 _ (by rw [hw]; exact hSM _) ⟨0, by decide⟩) y hlt
  · intro y hlt
    have hw := word_a (F := F) (SMsem m d L 0) (k0_off32 t) (k0_off32_inb t) (64 * 2 + t.val) (by omega)
      ((k0_off32_eq t).trans (congrArg (fun x : Nat => (![x] : Fin 1 → Nat)) (show t.val + 128 = 64 * 2 + t.val by omega))) Nat.one_pos
    exact pay_eq (SMsem m d L 0) TAB t.val 2 1 ht (by decide) (by decide) _ hw hSM _ _
      (tabOff33 _ (by rw [hw]; exact hSM _) ⟨1, by decide⟩) y hlt
  · intro y hlt
    have hw := word_a (F := F) (SMsem m d L 0) (k0_off35 t) (k0_off35_inb t) (64 * 3 + t.val) (by omega)
      ((k0_off35_eq t).trans (congrArg (fun x : Nat => (![x] : Fin 1 → Nat)) (show t.val + 192 = 64 * 3 + t.val by omega))) Nat.one_pos
    exact pay_eq (SMsem m d L 0) TAB t.val 3 0 ht (by decide) (by decide) _ hw hSM _ _
      (tabOff36 _ (by rw [hw]; exact hSM _) ⟨0, by decide⟩) y hlt
  · intro y hlt
    have hw := word_a (F := F) (SMsem m d L 0) (k0_off35 t) (k0_off35_inb t) (64 * 3 + t.val) (by omega)
      ((k0_off35_eq t).trans (congrArg (fun x : Nat => (![x] : Fin 1 → Nat)) (show t.val + 192 = 64 * 3 + t.val by omega))) Nat.one_pos
    exact pay_eq (SMsem m d L 0) TAB t.val 3 1 ht (by decide) (by decide) _ hw hSM _ _
      (tabOff36 _ (by rw [hw]; exact hSM _) ⟨1, by decide⟩) y hlt
  · intro y hlt
    have hw := word_a (F := F) (SMsem m d L 0) (k0_off38 t) (k0_off38_inb t) (64 * 4 + t.val) (by omega)
      ((k0_off38_eq t).trans (congrArg (fun x : Nat => (![x] : Fin 1 → Nat)) (show t.val + 256 = 64 * 4 + t.val by omega))) Nat.one_pos
    exact pay_eq (SMsem m d L 0) TAB t.val 4 0 ht (by decide) (by decide) _ hw hSM _ _
      (tabOff39 _ (by rw [hw]; exact hSM _) ⟨0, by decide⟩) y hlt
  · intro y hlt
    have hw := word_a (F := F) (SMsem m d L 0) (k0_off38 t) (k0_off38_inb t) (64 * 4 + t.val) (by omega)
      ((k0_off38_eq t).trans (congrArg (fun x : Nat => (![x] : Fin 1 → Nat)) (show t.val + 256 = 64 * 4 + t.val by omega))) Nat.one_pos
    exact pay_eq (SMsem m d L 0) TAB t.val 4 1 ht (by decide) (by decide) _ hw hSM _ _
      (tabOff39 _ (by rw [hw]; exact hSM _) ⟨1, by decide⟩) y hlt
  · intro y hlt
    have hw := word_a (F := F) (SMsem m d L 0) (k0_off41 t) (k0_off41_inb t) (64 * 5 + t.val) (by omega)
      ((k0_off41_eq t).trans (congrArg (fun x : Nat => (![x] : Fin 1 → Nat)) (show t.val + 320 = 64 * 5 + t.val by omega))) Nat.one_pos
    exact pay_eq (SMsem m d L 0) TAB t.val 5 0 ht (by decide) (by decide) _ hw hSM _ _
      (tabOff42 _ (by rw [hw]; exact hSM _) ⟨0, by decide⟩) y hlt
  · intro y hlt
    have hw := word_a (F := F) (SMsem m d L 0) (k0_off41 t) (k0_off41_inb t) (64 * 5 + t.val) (by omega)
      ((k0_off41_eq t).trans (congrArg (fun x : Nat => (![x] : Fin 1 → Nat)) (show t.val + 320 = 64 * 5 + t.val by omega))) Nat.one_pos
    exact pay_eq (SMsem m d L 0) TAB t.val 5 1 ht (by decide) (by decide) _ hw hSM _ _
      (tabOff42 _ (by rw [hw]; exact hSM _) ⟨1, by decide⟩) y hlt
  · intro y hlt
    have hw := word_a (F := F) (SMsem m d L 0) (k0_off44 t) (k0_off44_inb t) (64 * 6 + t.val) (by omega)
      ((k0_off44_eq t).trans (congrArg (fun x : Nat => (![x] : Fin 1 → Nat)) (show t.val + 384 = 64 * 6 + t.val by omega))) Nat.one_pos
    exact pay_eq (SMsem m d L 0) TAB t.val 6 0 ht (by decide) (by decide) _ hw hSM _ _
      (tabOff45 _ (by rw [hw]; exact hSM _) ⟨0, by decide⟩) y hlt
  · intro y hlt
    have hw := word_a (F := F) (SMsem m d L 0) (k0_off44 t) (k0_off44_inb t) (64 * 6 + t.val) (by omega)
      ((k0_off44_eq t).trans (congrArg (fun x : Nat => (![x] : Fin 1 → Nat)) (show t.val + 384 = 64 * 6 + t.val by omega))) Nat.one_pos
    exact pay_eq (SMsem m d L 0) TAB t.val 6 1 ht (by decide) (by decide) _ hw hSM _ _
      (tabOff45 _ (by rw [hw]; exact hSM _) ⟨1, by decide⟩) y hlt
  · intro y hlt
    have hw := word_a (F := F) (SMsem m d L 0) (k0_off47 t) (k0_off47_inb t) (64 * 7 + t.val) (by omega)
      ((k0_off47_eq t).trans (congrArg (fun x : Nat => (![x] : Fin 1 → Nat)) (show t.val + 448 = 64 * 7 + t.val by omega))) Nat.one_pos
    exact pay_eq (SMsem m d L 0) TAB t.val 7 0 ht (by decide) (by decide) _ hw hSM _ _
      (tabOff48 _ (by rw [hw]; exact hSM _) ⟨0, by decide⟩) y hlt
  · intro y hlt
    have hw := word_a (F := F) (SMsem m d L 0) (k0_off47 t) (k0_off47_inb t) (64 * 7 + t.val) (by omega)
      ((k0_off47_eq t).trans (congrArg (fun x : Nat => (![x] : Fin 1 → Nat)) (show t.val + 448 = 64 * 7 + t.val by omega))) Nat.one_pos
    exact pay_eq (SMsem m d L 0) TAB t.val 7 1 ht (by decide) (by decide) _ hw hSM _ _
      (tabOff48 _ (by rw [hw]; exact hSM _) ⟨1, by decide⟩) y hlt

end Trip

end Cert.Proof.KI

end
-- ==== Proof.KI.Trip1.lean ====
/-
  Trip t of fill loop 2 (chunk 1): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KI.TripGen
import proofs.«204821_g30846455120635_fold_wed_m_1292_33_alg».proof.Proof.KI.TabOff

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section Trip

theorem trip1 (hpre : PreOK m) (d : Dev nD) (L : grid0.Coords) (TAB : Buf (Elt F) (tabLoc d)) (v2 : BitVec 32) (t : Fin k0_t2_loop.trips) (acc : PUnit) :
    invb m d L 1 TAB t.val acc ⊢ wp frame (wpE (defs₀ (F := F)) 𝒱₀ (thr d L) none) Set.univ
      (k0_t2_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => invb m d L 1 TAB (t.val + 1) r) := by
  unfold invb
  iintro ⟨Hs, Htv, %g, Hb, %hfill⟩
  have hSM := SMsem_lt m d L hpre 1
  sl_exec (disch := first | sl_exact chk9_of_lt _ (hSM _) | sl_exact chk10_of_lt _ (hSM _) | sl_exact chk11_of_lt _ (hSM _) | sl_exact chk12_of_lt _ (hSM _) | sl_exact chk13_of_lt _ (hSM _) | sl_exact chk14_of_lt _ (hSM _) | sl_exact chk15_of_lt _ (hSM _) | sl_exact chk16_of_lt _ (hSM _))
  sl_step
  isplitl [Hs]; · iexact Hs
  isplitl [Htv]; · iexact Htv
  iexists _; isplitl [Hb]; · iexact Hb
  ipureintro
  have ht : t.val < 64 := t.isLt
  refine filled_step16' (bbW).view (SMsem m d L 1) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off61_eq t ⟨0, by decide⟩).trans
      (congrArg (fun x : Nat => (![x] : Fin 1 → Nat)) (show 256 * t.val + 16 * 0 = 256 * t.val + 16 * 0 by omega))
  · exact (k0_off61_eq t ⟨1, by decide⟩).trans
      (congrArg (fun x : Nat => (![x] : Fin 1 → Nat)) (show 256 * t.val + 16 * 1 = 256 * t.val + 16 * 1 by omega))
  · exact (k0_off64_eq t ⟨0, by decide⟩).trans
      (congrArg (fun x : Nat => (![x] : Fin 1 → Nat)) (show 256 * t.val + 16 * 0 + 32 = 256 * t.val + 16 * 2 by omega))
  · exact (k0_off64_eq t ⟨1, by decide⟩).trans
      (congrArg (fun x : Nat => (![x] : Fin 1 → Nat)) (show 256 * t.val + 16 * 1 + 32 = 256 * t.val + 16 * 3 by omega))
  · exact (k0_off67_eq t ⟨0, by decide⟩).trans
      (congrArg (fun x : Nat => (![x] : Fin 1 → Nat)) (show 256 * t.val + 16 * 0 + 64 = 256 * t.val + 16 * 4 by omega))
  · exact (k0_off67_eq t ⟨1, by decide⟩).trans
      (congrArg (fun x : Nat => (![x] : Fin 1 → Nat)) (show 256 * t.val + 16 * 1 + 64 = 256 * t.val + 16 * 5 by omega))
  · exact (k0_off70_eq t ⟨0, by decide⟩).trans
      (congrArg (fun x : Nat => (![x] : Fin 1 → Nat)) (show 256 * t.val + 16 * 0 + 96 = 256 * t.val + 16 * 6 by omega))
  · exact (k0_off70_eq t ⟨1, by decide⟩).trans
      (congrArg (fun x : Nat => (![x] : Fin 1 → Nat)) (show 256 * t.val + 16 * 1 + 96 = 256 * t.val + 16 * 7 by omega))
  · exact (k0_off73_eq t ⟨0, by decide⟩).trans
      (congrArg (fun x : Nat => (![x] : Fin 1 → Nat)) (show 256 * t.val + 16 * 0 + 128 = 256 * t.val + 16 * 8 by omega))
  · exact (k0_off73_eq t ⟨1, by decide⟩).trans
      (congrArg (fun x : Nat => (![x] : Fin 1 → Nat)) (show 256 * t.val + 16 * 1 + 128 = 256 * t.val + 16 * 9 by omega))
  · exact (k0_off76_eq t ⟨0, by decide⟩).trans
      (congrArg (fun x : Nat => (![x] : Fin 1 → Nat)) (show 256 * t.val + 16 * 0 + 160 = 256 * t.val + 16 * 10 by omega))
  · exact (k0_off76_eq t ⟨1, by decide⟩).trans
      (congrArg (fun x : Nat => (![x] : Fin 1 → Nat)) (show 256 * t.val + 16 * 1 + 160 = 256 * t.val + 16 * 11 by omega))
  · exact (k0_off79_eq t ⟨0, by decide⟩).trans
      (congrArg (fun x : Nat => (![x] : Fin 1 → Nat)) (show 256 * t.val + 16 * 0 + 192 = 256 * t.val + 16 * 12 by omega))
  · exact (k0_off79_eq t ⟨1, by decide⟩).trans
      (congrArg (fun x : Nat => (![x] : Fin 1 → Nat)) (show 256 * t.val + 16 * 1 + 192 = 256 * t.val + 16 * 13 by omega))
  · exact (k0_off82_eq t ⟨0, by decide⟩).trans
      (congrArg (fun x : Nat => (![x] : Fin 1 → Nat)) (show 256 * t.val + 16 * 0 + 224 = 256 * t.val + 16 * 14 by omega))
  · exact (k0_off82_eq t ⟨1, by decide⟩).trans
      (congrArg (fun x : Nat => (![x] : Fin 1 → Nat)) (show 256 * t.val + 16 * 1 + 224 = 256 * t.val + 16 * 15 by omega))
  · intro y hlt
    have hw := word_b (F := F) (SMsem m d L 1) (k0_off59 t) (k0_off59_inb t) (64 * 0 + t.val) (by omega)
      ((k0_off59_eq t).trans (congrArg (fun x : Nat => (![x] : Fin 1 → Nat)) (show t.val = 64 * 0 + t.val by omega))) Nat.one_pos
    exact pay_eq (SMsem m d L 1) TAB t.val 0 0 ht (by decide) (by decide) _ hw hSM _ _
      (tabOff60 _ (by rw [hw]; exact hSM _) ⟨0, by decide⟩) y hlt
  · intro y hlt
    have hw := word_b (F := F) (SMsem m d L 1) (k0_off59 t) (k0_off59_inb t) (64 * 0 + t.val) (by omega)
      ((k0_off59_eq t).trans (congrArg (fun x : Nat => (![x] : Fin 1 → Nat)) (show t.val = 64 * 0 + t.val by omega))) Nat.one_pos
    exact pay_eq (SMsem m d L 1) TAB t.val 0 1 ht (by decide) (by decide) _ hw hSM _ _
      (tabOff60 _ (by rw [hw]; exact hSM _) ⟨1, by decide⟩) y hlt
  · intro y hlt
    have hw := word_b (F := F) (SMsem m d L 1) (k0_off62 t) (k0_off62_inb t) (64 * 1 + t.val) (by omega)
      ((k0_off62_eq t).trans (congrArg (fun x : Nat => (![x] : Fin 1 → Nat)) (show t.val + 64 = 64 * 1 + t.val by omega))) Nat.one_pos
    exact pay_eq (SMsem m d L 1) TAB t.val 1 0 ht (by decide) (by decide) _ hw hSM _ _
      (tabOff63 _ (by rw [hw]; exact hSM _) ⟨0, by decide⟩) y hlt
  · intro y hlt
    have hw := word_b (F := F) (SMsem m d L 1) (k0_off62 t) (k0_off62_inb t) (64 * 1 + t.val) (by omega)
      ((k0_off62_eq t).trans (congrArg (fun x : Nat => (![x] : Fin 1 → Nat)) (show t.val + 64 = 64 * 1 + t.val by omega))) Nat.one_pos
    exact pay_eq (SMsem m d L 1) TAB t.val 1 1 ht (by decide) (by decide) _ hw hSM _ _
      (tabOff63 _ (by rw [hw]; exact hSM _) ⟨1, by decide⟩) y hlt
  · intro y hlt
    have hw := word_b (F := F) (SMsem m d L 1) (k0_off65 t) (k0_off65_inb t) (64 * 2 + t.val) (by omega)
      ((k0_off65_eq t).trans (congrArg (fun x : Nat => (![x] : Fin 1 → Nat)) (show t.val + 128 = 64 * 2 + t.val by omega))) Nat.one_pos
    exact pay_eq (SMsem m d L 1) TAB t.val 2 0 ht (by decide) (by decide) _ hw hSM _ _
      (tabOff66 _ (by rw [hw]; exact hSM _) ⟨0, by decide⟩) y hlt
  · intro y hlt
    have hw := word_b (F := F) (SMsem m d L 1) (k0_off65 t) (k0_off65_inb t) (64 * 2 + t.val) (by omega)
      ((k0_off65_eq t).trans (congrArg (fun x : Nat => (![x] : Fin 1 → Nat)) (show t.val + 128 = 64 * 2 + t.val by omega))) Nat.one_pos
    exact pay_eq (SMsem m d L 1) TAB t.val 2 1 ht (by decide) (by decide) _ hw hSM _ _
      (tabOff66 _ (by rw [hw]; exact hSM _) ⟨1, by decide⟩) y hlt
  · intro y hlt
    have hw := word_b (F := F) (SMsem m d L 1) (k0_off68 t) (k0_off68_inb t) (64 * 3 + t.val) (by omega)
      ((k0_off68_eq t).trans (congrArg (fun x : Nat => (![x] : Fin 1 → Nat)) (show t.val + 192 = 64 * 3 + t.val by omega))) Nat.one_pos
    exact pay_eq (SMsem m d L 1) TAB t.val 3 0 ht (by decide) (by decide) _ hw hSM _ _
      (tabOff69 _ (by rw [hw]; exact hSM _) ⟨0, by decide⟩) y hlt
  · intro y hlt
    have hw := word_b (F := F) (SMsem m d L 1) (k0_off68 t) (k0_off68_inb t) (64 * 3 + t.val) (by omega)
      ((k0_off68_eq t).trans (congrArg (fun x : Nat => (![x] : Fin 1 → Nat)) (show t.val + 192 = 64 * 3 + t.val by omega))) Nat.one_pos
    exact pay_eq (SMsem m d L 1) TAB t.val 3 1 ht (by decide) (by decide) _ hw hSM _ _
      (tabOff69 _ (by rw [hw]; exact hSM _) ⟨1, by decide⟩) y hlt
  · intro y hlt
    have hw := word_b (F := F) (SMsem m d L 1) (k0_off71 t) (k0_off71_inb t) (64 * 4 + t.val) (by omega)
      ((k0_off71_eq t).trans (congrArg (fun x : Nat => (![x] : Fin 1 → Nat)) (show t.val + 256 = 64 * 4 + t.val by omega))) Nat.one_pos
    exact pay_eq (SMsem m d L 1) TAB t.val 4 0 ht (by decide) (by decide) _ hw hSM _ _
      (tabOff72 _ (by rw [hw]; exact hSM _) ⟨0, by decide⟩) y hlt
  · intro y hlt
    have hw := word_b (F := F) (SMsem m d L 1) (k0_off71 t) (k0_off71_inb t) (64 * 4 + t.val) (by omega)
      ((k0_off71_eq t).trans (congrArg (fun x : Nat => (![x] : Fin 1 → Nat)) (show t.val + 256 = 64 * 4 + t.val by omega))) Nat.one_pos
    exact pay_eq (SMsem m d L 1) TAB t.val 4 1 ht (by decide) (by decide) _ hw hSM _ _
      (tabOff72 _ (by rw [hw]; exact hSM _) ⟨1, by decide⟩) y hlt
  · intro y hlt
    have hw := word_b (F := F) (SMsem m d L 1) (k0_off74 t) (k0_off74_inb t) (64 * 5 + t.val) (by omega)
      ((k0_off74_eq t).trans (congrArg (fun x : Nat => (![x] : Fin 1 → Nat)) (show t.val + 320 = 64 * 5 + t.val by omega))) Nat.one_pos
    exact pay_eq (SMsem m d L 1) TAB t.val 5 0 ht (by decide) (by decide) _ hw hSM _ _
      (tabOff75 _ (by rw [hw]; exact hSM _) ⟨0, by decide⟩) y hlt
  · intro y hlt
    have hw := word_b (F := F) (SMsem m d L 1) (k0_off74 t) (k0_off74_inb t) (64 * 5 + t.val) (by omega)
      ((k0_off74_eq t).trans (congrArg (fun x : Nat => (![x] : Fin 1 → Nat)) (show t.val + 320 = 64 * 5 + t.val by omega))) Nat.one_pos
    exact pay_eq (SMsem m d L 1) TAB t.val 5 1 ht (by decide) (by decide) _ hw hSM _ _
      (tabOff75 _ (by rw [hw]; exact hSM _) ⟨1, by decide⟩) y hlt
  · intro y hlt
    have hw := word_b (F := F) (SMsem m d L 1) (k0_off77 t) (k0_off77_inb t) (64 * 6 + t.val) (by omega)
      ((k0_off77_eq t).trans (congrArg (fun x : Nat => (![x] : Fin 1 → Nat)) (show t.val + 384 = 64 * 6 + t.val by omega))) Nat.one_pos
    exact pay_eq (SMsem m d L 1) TAB t.val 6 0 ht (by decide) (by decide) _ hw hSM _ _
      (tabOff78 _ (by rw [hw]; exact hSM _) ⟨0, by decide⟩) y hlt
  · intro y hlt
    have hw := word_b (F := F) (SMsem m d L 1) (k0_off77 t) (k0_off77_inb t) (64 * 6 + t.val) (by omega)
      ((k0_off77_eq t).trans (congrArg (fun x : Nat => (![x] : Fin 1 → Nat)) (show t.val + 384 = 64 * 6 + t.val by omega))) Nat.one_pos
    exact pay_eq (SMsem m d L 1) TAB t.val 6 1 ht (by decide) (by decide) _ hw hSM _ _
      (tabOff78 _ (by rw [hw]; exact hSM _) ⟨1, by decide⟩) y hlt
  · intro y hlt
    have hw := word_b (F := F) (SMsem m d L 1) (k0_off80 t) (k0_off80_inb t) (64 * 7 + t.val) (by omega)
      ((k0_off80_eq t).trans (congrArg (fun x : Nat => (![x] : Fin 1 → Nat)) (show t.val + 448 = 64 * 7 + t.val by omega))) Nat.one_pos
    exact pay_eq (SMsem m d L 1) TAB t.val 7 0 ht (by decide) (by decide) _ hw hSM _ _
      (tabOff81 _ (by rw [hw]; exact hSM _) ⟨0, by decide⟩) y hlt
  · intro y hlt
    have hw := word_b (F := F) (SMsem m d L 1) (k0_off80 t) (k0_off80_inb t) (64 * 7 + t.val) (by omega)
      ((k0_off80_eq t).trans (congrArg (fun x : Nat => (![x] : Fin 1 → Nat)) (show t.val + 448 = 64 * 7 + t.val by omega))) Nat.one_pos
    exact pay_eq (SMsem m d L 1) TAB t.val 7 1 ht (by decide) (by decide) _ hw hSM _ _
      (tabOff81 _ (by rw [hw]; exact hSM _) ⟨1, by decide⟩) y hlt

end Trip

end Cert.Proof.KI

end
-- ==== Proof.KI.Trip2.lean ====
/-
  Trip t of fill loop 3 (chunk 2): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KI.TripGen
import proofs.«204821_g30846455120635_fold_wed_m_1292_33_alg».proof.Proof.KI.TabOff

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section Trip

theorem trip2 (hpre : PreOK m) (d : Dev nD) (L : grid0.Coords) (TAB : Buf (Elt F) (tabLoc d)) (v2 : BitVec 32) (t : Fin k0_t3_loop.trips) (acc : PUnit) :
    inva m d L 2 TAB t.val acc ⊢ wp frame (wpE (defs₀ (F := F)) 𝒱₀ (thr d L) none) Set.univ
      (k0_t3_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => inva m d L 2 TAB (t.val + 1) r) := by
  unfold inva
  iintro ⟨Hs, Htv, %g, Hb, %hfill⟩
  have hSM := SMsem_lt m d L hpre 2
  sl_exec (disch := first | sl_exact chk17_of_lt _ (hSM _) | sl_exact chk18_of_lt _ (hSM _) | sl_exact chk19_of_lt _ (hSM _) | sl_exact chk20_of_lt _ (hSM _) | sl_exact chk21_of_lt _ (hSM _) | sl_exact chk22_of_lt _ (hSM _) | sl_exact chk23_of_lt _ (hSM _) | sl_exact chk24_of_lt _ (hSM _))
  sl_step
  isplitl [Hs]; · iexact Hs
  isplitl [Htv]; · iexact Htv
  iexists _; isplitl [Hb]; · iexact Hb
  ipureintro
  have ht : t.val < 64 := t.isLt
  refine filled_step16' (baW).view (SMsem m d L 2) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off93_eq t ⟨0, by decide⟩).trans
      (congrArg (fun x : Nat => (![x] : Fin 1 → Nat)) (show 256 * t.val + 16 * 0 = 256 * t.val + 16 * 0 by omega))
  · exact (k0_off93_eq t ⟨1, by decide⟩).trans
      (congrArg (fun x : Nat => (![x] : Fin 1 → Nat)) (show 256 * t.val + 16 * 1 = 256 * t.val + 16 * 1 by omega))
  · exact (k0_off96_eq t ⟨0, by decide⟩).trans
      (congrArg (fun x : Nat => (![x] : Fin 1 → Nat)) (show 256 * t.val + 16 * 0 + 32 = 256 * t.val + 16 * 2 by omega))
  · exact (k0_off96_eq t ⟨1, by decide⟩).trans
      (congrArg (fun x : Nat => (![x] : Fin 1 → Nat)) (show 256 * t.val + 16 * 1 + 32 = 256 * t.val + 16 * 3 by omega))
  · exact (k0_off99_eq t ⟨0, by decide⟩).trans
      (congrArg (fun x : Nat => (![x] : Fin 1 → Nat)) (show 256 * t.val + 16 * 0 + 64 = 256 * t.val + 16 * 4 by omega))
  · exact (k0_off99_eq t ⟨1, by decide⟩).trans
      (congrArg (fun x : Nat => (![x] : Fin 1 → Nat)) (show 256 * t.val + 16 * 1 + 64 = 256 * t.val + 16 * 5 by omega))
  · exact (k0_off102_eq t ⟨0, by decide⟩).trans
      (congrArg (fun x : Nat => (![x] : Fin 1 → Nat)) (show 256 * t.val + 16 * 0 + 96 = 256 * t.val + 16 * 6 by omega))
  · exact (k0_off102_eq t ⟨1, by decide⟩).trans
      (congrArg (fun x : Nat => (![x] : Fin 1 → Nat)) (show 256 * t.val + 16 * 1 + 96 = 256 * t.val + 16 * 7 by omega))
  · exact (k0_off105_eq t ⟨0, by decide⟩).trans
      (congrArg (fun x : Nat => (![x] : Fin 1 → Nat)) (show 256 * t.val + 16 * 0 + 128 = 256 * t.val + 16 * 8 by omega))
  · exact (k0_off105_eq t ⟨1, by decide⟩).trans
      (congrArg (fun x : Nat => (![x] : Fin 1 → Nat)) (show 256 * t.val + 16 * 1 + 128 = 256 * t.val + 16 * 9 by omega))
  · exact (k0_off108_eq t ⟨0, by decide⟩).trans
      (congrArg (fun x : Nat => (![x] : Fin 1 → Nat)) (show 256 * t.val + 16 * 0 + 160 = 256 * t.val + 16 * 10 by omega))
  · exact (k0_off108_eq t ⟨1, by decide⟩).trans
      (congrArg (fun x : Nat => (![x] : Fin 1 → Nat)) (show 256 * t.val + 16 * 1 + 160 = 256 * t.val + 16 * 11 by omega))
  · exact (k0_off111_eq t ⟨0, by decide⟩).trans
      (congrArg (fun x : Nat => (![x] : Fin 1 → Nat)) (show 256 * t.val + 16 * 0 + 192 = 256 * t.val + 16 * 12 by omega))
  · exact (k0_off111_eq t ⟨1, by decide⟩).trans
      (congrArg (fun x : Nat => (![x] : Fin 1 → Nat)) (show 256 * t.val + 16 * 1 + 192 = 256 * t.val + 16 * 13 by omega))
  · exact (k0_off114_eq t ⟨0, by decide⟩).trans
      (congrArg (fun x : Nat => (![x] : Fin 1 → Nat)) (show 256 * t.val + 16 * 0 + 224 = 256 * t.val + 16 * 14 by omega))
  · exact (k0_off114_eq t ⟨1, by decide⟩).trans
      (congrArg (fun x : Nat => (![x] : Fin 1 → Nat)) (show 256 * t.val + 16 * 1 + 224 = 256 * t.val + 16 * 15 by omega))
  · intro y hlt
    have hw := word_a (F := F) (SMsem m d L 2) (k0_off91 t) (k0_off91_inb t) (64 * 0 + t.val) (by omega)
      ((k0_off91_eq t).trans (congrArg (fun x : Nat => (![x] : Fin 1 → Nat)) (show t.val = 64 * 0 + t.val by omega))) Nat.one_pos
    exact pay_eq (SMsem m d L 2) TAB t.val 0 0 ht (by decide) (by decide) _ hw hSM _ _
      (tabOff92 _ (by rw [hw]; exact hSM _) ⟨0, by decide⟩) y hlt
  · intro y hlt
    have hw := word_a (F := F) (SMsem m d L 2) (k0_off91 t) (k0_off91_inb t) (64 * 0 + t.val) (by omega)
      ((k0_off91_eq t).trans (congrArg (fun x : Nat => (![x] : Fin 1 → Nat)) (show t.val = 64 * 0 + t.val by omega))) Nat.one_pos
    exact pay_eq (SMsem m d L 2) TAB t.val 0 1 ht (by decide) (by decide) _ hw hSM _ _
      (tabOff92 _ (by rw [hw]; exact hSM _) ⟨1, by decide⟩) y hlt
  · intro y hlt
    have hw := word_a (F := F) (SMsem m d L 2) (k0_off94 t) (k0_off94_inb t) (64 * 1 + t.val) (by omega)
      ((k0_off94_eq t).trans (congrArg (fun x : Nat => (![x] : Fin 1 → Nat)) (show t.val + 64 = 64 * 1 + t.val by omega))) Nat.one_pos
    exact pay_eq (SMsem m d L 2) TAB t.val 1 0 ht (by decide) (by decide) _ hw hSM _ _
      (tabOff95 _ (by rw [hw]; exact hSM _) ⟨0, by decide⟩) y hlt
  · intro y hlt
    have hw := word_a (F := F) (SMsem m d L 2) (k0_off94 t) (k0_off94_inb t) (64 * 1 + t.val) (by omega)
      ((k0_off94_eq t).trans (congrArg (fun x : Nat => (![x] : Fin 1 → Nat)) (show t.val + 64 = 64 * 1 + t.val by omega))) Nat.one_pos
    exact pay_eq (SMsem m d L 2) TAB t.val 1 1 ht (by decide) (by decide) _ hw hSM _ _
      (tabOff95 _ (by rw [hw]; exact hSM _) ⟨1, by decide⟩) y hlt
  · intro y hlt
    have hw := word_a (F := F) (SMsem m d L 2) (k0_off97 t) (k0_off97_inb t) (64 * 2 + t.val) (by omega)
      ((k0_off97_eq t).trans (congrArg (fun x : Nat => (![x] : Fin 1 → Nat)) (show t.val + 128 = 64 * 2 + t.val by omega))) Nat.one_pos
    exact pay_eq (SMsem m d L 2) TAB t.val 2 0 ht (by decide) (by decide) _ hw hSM _ _
      (tabOff98 _ (by rw [hw]; exact hSM _) ⟨0, by decide⟩) y hlt
  · intro y hlt
    have hw := word_a (F := F) (SMsem m d L 2) (k0_off97 t) (k0_off97_inb t) (64 * 2 + t.val) (by omega)
      ((k0_off97_eq t).trans (congrArg (fun x : Nat => (![x] : Fin 1 → Nat)) (show t.val + 128 = 64 * 2 + t.val by omega))) Nat.one_pos
    exact pay_eq (SMsem m d L 2) TAB t.val 2 1 ht (by decide) (by decide) _ hw hSM _ _
      (tabOff98 _ (by rw [hw]; exact hSM _) ⟨1, by decide⟩) y hlt
  · intro y hlt
    have hw := word_a (F := F) (SMsem m d L 2) (k0_off100 t) (k0_off100_inb t) (64 * 3 + t.val) (by omega)
      ((k0_off100_eq t).trans (congrArg (fun x : Nat => (![x] : Fin 1 → Nat)) (show t.val + 192 = 64 * 3 + t.val by omega))) Nat.one_pos
    exact pay_eq (SMsem m d L 2) TAB t.val 3 0 ht (by decide) (by decide) _ hw hSM _ _
      (tabOff101 _ (by rw [hw]; exact hSM _) ⟨0, by decide⟩) y hlt
  · intro y hlt
    have hw := word_a (F := F) (SMsem m d L 2) (k0_off100 t) (k0_off100_inb t) (64 * 3 + t.val) (by omega)
      ((k0_off100_eq t).trans (congrArg (fun x : Nat => (![x] : Fin 1 → Nat)) (show t.val + 192 = 64 * 3 + t.val by omega))) Nat.one_pos
    exact pay_eq (SMsem m d L 2) TAB t.val 3 1 ht (by decide) (by decide) _ hw hSM _ _
      (tabOff101 _ (by rw [hw]; exact hSM _) ⟨1, by decide⟩) y hlt
  · intro y hlt
    have hw := word_a (F := F) (SMsem m d L 2) (k0_off103 t) (k0_off103_inb t) (64 * 4 + t.val) (by omega)
      ((k0_off103_eq t).trans (congrArg (fun x : Nat => (![x] : Fin 1 → Nat)) (show t.val + 256 = 64 * 4 + t.val by omega))) Nat.one_pos
    exact pay_eq (SMsem m d L 2) TAB t.val 4 0 ht (by decide) (by decide) _ hw hSM _ _
      (tabOff104 _ (by rw [hw]; exact hSM _) ⟨0, by decide⟩) y hlt
  · intro y hlt
    have hw := word_a (F := F) (SMsem m d L 2) (k0_off103 t) (k0_off103_inb t) (64 * 4 + t.val) (by omega)
      ((k0_off103_eq t).trans (congrArg (fun x : Nat => (![x] : Fin 1 → Nat)) (show t.val + 256 = 64 * 4 + t.val by omega))) Nat.one_pos
    exact pay_eq (SMsem m d L 2) TAB t.val 4 1 ht (by decide) (by decide) _ hw hSM _ _
      (tabOff104 _ (by rw [hw]; exact hSM _) ⟨1, by decide⟩) y hlt
  · intro y hlt
    have hw := word_a (F := F) (SMsem m d L 2) (k0_off106 t) (k0_off106_inb t) (64 * 5 + t.val) (by omega)
      ((k0_off106_eq t).trans (congrArg (fun x : Nat => (![x] : Fin 1 → Nat)) (show t.val + 320 = 64 * 5 + t.val by omega))) Nat.one_pos
    exact pay_eq (SMsem m d L 2) TAB t.val 5 0 ht (by decide) (by decide) _ hw hSM _ _
      (tabOff107 _ (by rw [hw]; exact hSM _) ⟨0, by decide⟩) y hlt
  · intro y hlt
    have hw := word_a (F := F) (SMsem m d L 2) (k0_off106 t) (k0_off106_inb t) (64 * 5 + t.val) (by omega)
      ((k0_off106_eq t).trans (congrArg (fun x : Nat => (![x] : Fin 1 → Nat)) (show t.val + 320 = 64 * 5 + t.val by omega))) Nat.one_pos
    exact pay_eq (SMsem m d L 2) TAB t.val 5 1 ht (by decide) (by decide) _ hw hSM _ _
      (tabOff107 _ (by rw [hw]; exact hSM _) ⟨1, by decide⟩) y hlt
  · intro y hlt
    have hw := word_a (F := F) (SMsem m d L 2) (k0_off109 t) (k0_off109_inb t) (64 * 6 + t.val) (by omega)
      ((k0_off109_eq t).trans (congrArg (fun x : Nat => (![x] : Fin 1 → Nat)) (show t.val + 384 = 64 * 6 + t.val by omega))) Nat.one_pos
    exact pay_eq (SMsem m d L 2) TAB t.val 6 0 ht (by decide) (by decide) _ hw hSM _ _
      (tabOff110 _ (by rw [hw]; exact hSM _) ⟨0, by decide⟩) y hlt
  · intro y hlt
    have hw := word_a (F := F) (SMsem m d L 2) (k0_off109 t) (k0_off109_inb t) (64 * 6 + t.val) (by omega)
      ((k0_off109_eq t).trans (congrArg (fun x : Nat => (![x] : Fin 1 → Nat)) (show t.val + 384 = 64 * 6 + t.val by omega))) Nat.one_pos
    exact pay_eq (SMsem m d L 2) TAB t.val 6 1 ht (by decide) (by decide) _ hw hSM _ _
      (tabOff110 _ (by rw [hw]; exact hSM _) ⟨1, by decide⟩) y hlt
  · intro y hlt
    have hw := word_a (F := F) (SMsem m d L 2) (k0_off112 t) (k0_off112_inb t) (64 * 7 + t.val) (by omega)
      ((k0_off112_eq t).trans (congrArg (fun x : Nat => (![x] : Fin 1 → Nat)) (show t.val + 448 = 64 * 7 + t.val by omega))) Nat.one_pos
    exact pay_eq (SMsem m d L 2) TAB t.val 7 0 ht (by decide) (by decide) _ hw hSM _ _
      (tabOff113 _ (by rw [hw]; exact hSM _) ⟨0, by decide⟩) y hlt
  · intro y hlt
    have hw := word_a (F := F) (SMsem m d L 2) (k0_off112 t) (k0_off112_inb t) (64 * 7 + t.val) (by omega)
      ((k0_off112_eq t).trans (congrArg (fun x : Nat => (![x] : Fin 1 → Nat)) (show t.val + 448 = 64 * 7 + t.val by omega))) Nat.one_pos
    exact pay_eq (SMsem m d L 2) TAB t.val 7 1 ht (by decide) (by decide) _ hw hSM _ _
      (tabOff113 _ (by rw [hw]; exact hSM _) ⟨1, by decide⟩) y hlt

end Trip

end Cert.Proof.KI

end
-- ==== Proof.KI.Trip3.lean ====
/-
  Trip t of fill loop 4 (chunk 3): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KI.TripGen
import proofs.«204821_g30846455120635_fold_wed_m_1292_33_alg».proof.Proof.KI.TabOff

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section Trip

theorem trip3 (hpre : PreOK m) (d : Dev nD) (L : grid0.Coords) (TAB : Buf (Elt F) (tabLoc d)) (v2 : BitVec 32) (t : Fin k0_t4_loop.trips) (acc : PUnit) :
    invb m d L 3 TAB t.val acc ⊢ wp frame (wpE (defs₀ (F := F)) 𝒱₀ (thr d L) none) Set.univ
      (k0_t4_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => invb m d L 3 TAB (t.val + 1) r) := by
  unfold invb
  iintro ⟨Hs, Htv, %g, Hb, %hfill⟩
  have hSM := SMsem_lt m d L hpre 3
  sl_exec (disch := first | sl_exact chk25_of_lt _ (hSM _) | sl_exact chk26_of_lt _ (hSM _) | sl_exact chk27_of_lt _ (hSM _) | sl_exact chk28_of_lt _ (hSM _) | sl_exact chk29_of_lt _ (hSM _) | sl_exact chk30_of_lt _ (hSM _) | sl_exact chk31_of_lt _ (hSM _) | sl_exact chk32_of_lt _ (hSM _))
  sl_step
  isplitl [Hs]; · iexact Hs
  isplitl [Htv]; · iexact Htv
  iexists _; isplitl [Hb]; · iexact Hb
  ipureintro
  have ht : t.val < 64 := t.isLt
  refine filled_step16' (bbW).view (SMsem m d L 3) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off125_eq t ⟨0, by decide⟩).trans
      (congrArg (fun x : Nat => (![x] : Fin 1 → Nat)) (show 256 * t.val + 16 * 0 = 256 * t.val + 16 * 0 by omega))
  · exact (k0_off125_eq t ⟨1, by decide⟩).trans
      (congrArg (fun x : Nat => (![x] : Fin 1 → Nat)) (show 256 * t.val + 16 * 1 = 256 * t.val + 16 * 1 by omega))
  · exact (k0_off128_eq t ⟨0, by decide⟩).trans
      (congrArg (fun x : Nat => (![x] : Fin 1 → Nat)) (show 256 * t.val + 16 * 0 + 32 = 256 * t.val + 16 * 2 by omega))
  · exact (k0_off128_eq t ⟨1, by decide⟩).trans
      (congrArg (fun x : Nat => (![x] : Fin 1 → Nat)) (show 256 * t.val + 16 * 1 + 32 = 256 * t.val + 16 * 3 by omega))
  · exact (k0_off131_eq t ⟨0, by decide⟩).trans
      (congrArg (fun x : Nat => (![x] : Fin 1 → Nat)) (show 256 * t.val + 16 * 0 + 64 = 256 * t.val + 16 * 4 by omega))
  · exact (k0_off131_eq t ⟨1, by decide⟩).trans
      (congrArg (fun x : Nat => (![x] : Fin 1 → Nat)) (show 256 * t.val + 16 * 1 + 64 = 256 * t.val + 16 * 5 by omega))
  · exact (k0_off134_eq t ⟨0, by decide⟩).trans
      (congrArg (fun x : Nat => (![x] : Fin 1 → Nat)) (show 256 * t.val + 16 * 0 + 96 = 256 * t.val + 16 * 6 by omega))
  · exact (k0_off134_eq t ⟨1, by decide⟩).trans
      (congrArg (fun x : Nat => (![x] : Fin 1 → Nat)) (show 256 * t.val + 16 * 1 + 96 = 256 * t.val + 16 * 7 by omega))
  · exact (k0_off137_eq t ⟨0, by decide⟩).trans
      (congrArg (fun x : Nat => (![x] : Fin 1 → Nat)) (show 256 * t.val + 16 * 0 + 128 = 256 * t.val + 16 * 8 by omega))
  · exact (k0_off137_eq t ⟨1, by decide⟩).trans
      (congrArg (fun x : Nat => (![x] : Fin 1 → Nat)) (show 256 * t.val + 16 * 1 + 128 = 256 * t.val + 16 * 9 by omega))
  · exact (k0_off140_eq t ⟨0, by decide⟩).trans
      (congrArg (fun x : Nat => (![x] : Fin 1 → Nat)) (show 256 * t.val + 16 * 0 + 160 = 256 * t.val + 16 * 10 by omega))
  · exact (k0_off140_eq t ⟨1, by decide⟩).trans
      (congrArg (fun x : Nat => (![x] : Fin 1 → Nat)) (show 256 * t.val + 16 * 1 + 160 = 256 * t.val + 16 * 11 by omega))
  · exact (k0_off143_eq t ⟨0, by decide⟩).trans
      (congrArg (fun x : Nat => (![x] : Fin 1 → Nat)) (show 256 * t.val + 16 * 0 + 192 = 256 * t.val + 16 * 12 by omega))
  · exact (k0_off143_eq t ⟨1, by decide⟩).trans
      (congrArg (fun x : Nat => (![x] : Fin 1 → Nat)) (show 256 * t.val + 16 * 1 + 192 = 256 * t.val + 16 * 13 by omega))
  · exact (k0_off146_eq t ⟨0, by decide⟩).trans
      (congrArg (fun x : Nat => (![x] : Fin 1 → Nat)) (show 256 * t.val + 16 * 0 + 224 = 256 * t.val + 16 * 14 by omega))
  · exact (k0_off146_eq t ⟨1, by decide⟩).trans
      (congrArg (fun x : Nat => (![x] : Fin 1 → Nat)) (show 256 * t.val + 16 * 1 + 224 = 256 * t.val + 16 * 15 by omega))
  · intro y hlt
    have hw := word_b (F := F) (SMsem m d L 3) (k0_off123 t) (k0_off123_inb t) (64 * 0 + t.val) (by omega)
      ((k0_off123_eq t).trans (congrArg (fun x : Nat => (![x] : Fin 1 → Nat)) (show t.val = 64 * 0 + t.val by omega))) Nat.one_pos
    exact pay_eq (SMsem m d L 3) TAB t.val 0 0 ht (by decide) (by decide) _ hw hSM _ _
      (tabOff124 _ (by rw [hw]; exact hSM _) ⟨0, by decide⟩) y hlt
  · intro y hlt
    have hw := word_b (F := F) (SMsem m d L 3) (k0_off123 t) (k0_off123_inb t) (64 * 0 + t.val) (by omega)
      ((k0_off123_eq t).trans (congrArg (fun x : Nat => (![x] : Fin 1 → Nat)) (show t.val = 64 * 0 + t.val by omega))) Nat.one_pos
    exact pay_eq (SMsem m d L 3) TAB t.val 0 1 ht (by decide) (by decide) _ hw hSM _ _
      (tabOff124 _ (by rw [hw]; exact hSM _) ⟨1, by decide⟩) y hlt
  · intro y hlt
    have hw := word_b (F := F) (SMsem m d L 3) (k0_off126 t) (k0_off126_inb t) (64 * 1 + t.val) (by omega)
      ((k0_off126_eq t).trans (congrArg (fun x : Nat => (![x] : Fin 1 → Nat)) (show t.val + 64 = 64 * 1 + t.val by omega))) Nat.one_pos
    exact pay_eq (SMsem m d L 3) TAB t.val 1 0 ht (by decide) (by decide) _ hw hSM _ _
      (tabOff127 _ (by rw [hw]; exact hSM _) ⟨0, by decide⟩) y hlt
  · intro y hlt
    have hw := word_b (F := F) (SMsem m d L 3) (k0_off126 t) (k0_off126_inb t) (64 * 1 + t.val) (by omega)
      ((k0_off126_eq t).trans (congrArg (fun x : Nat => (![x] : Fin 1 → Nat)) (show t.val + 64 = 64 * 1 + t.val by omega))) Nat.one_pos
    exact pay_eq (SMsem m d L 3) TAB t.val 1 1 ht (by decide) (by decide) _ hw hSM _ _
      (tabOff127 _ (by rw [hw]; exact hSM _) ⟨1, by decide⟩) y hlt
  · intro y hlt
    have hw := word_b (F := F) (SMsem m d L 3) (k0_off129 t) (k0_off129_inb t) (64 * 2 + t.val) (by omega)
      ((k0_off129_eq t).trans (congrArg (fun x : Nat => (![x] : Fin 1 → Nat)) (show t.val + 128 = 64 * 2 + t.val by omega))) Nat.one_pos
    exact pay_eq (SMsem m d L 3) TAB t.val 2 0 ht (by decide) (by decide) _ hw hSM _ _
      (tabOff130 _ (by rw [hw]; exact hSM _) ⟨0, by decide⟩) y hlt
  · intro y hlt
    have hw := word_b (F := F) (SMsem m d L 3) (k0_off129 t) (k0_off129_inb t) (64 * 2 + t.val) (by omega)
      ((k0_off129_eq t).trans (congrArg (fun x : Nat => (![x] : Fin 1 → Nat)) (show t.val + 128 = 64 * 2 + t.val by omega))) Nat.one_pos
    exact pay_eq (SMsem m d L 3) TAB t.val 2 1 ht (by decide) (by decide) _ hw hSM _ _
      (tabOff130 _ (by rw [hw]; exact hSM _) ⟨1, by decide⟩) y hlt
  · intro y hlt
    have hw := word_b (F := F) (SMsem m d L 3) (k0_off132 t) (k0_off132_inb t) (64 * 3 + t.val) (by omega)
      ((k0_off132_eq t).trans (congrArg (fun x : Nat => (![x] : Fin 1 → Nat)) (show t.val + 192 = 64 * 3 + t.val by omega))) Nat.one_pos
    exact pay_eq (SMsem m d L 3) TAB t.val 3 0 ht (by decide) (by decide) _ hw hSM _ _
      (tabOff133 _ (by rw [hw]; exact hSM _) ⟨0, by decide⟩) y hlt
  · intro y hlt
    have hw := word_b (F := F) (SMsem m d L 3) (k0_off132 t) (k0_off132_inb t) (64 * 3 + t.val) (by omega)
      ((k0_off132_eq t).trans (congrArg (fun x : Nat => (![x] : Fin 1 → Nat)) (show t.val + 192 = 64 * 3 + t.val by omega))) Nat.one_pos
    exact pay_eq (SMsem m d L 3) TAB t.val 3 1 ht (by decide) (by decide) _ hw hSM _ _
      (tabOff133 _ (by rw [hw]; exact hSM _) ⟨1, by decide⟩) y hlt
  · intro y hlt
    have hw := word_b (F := F) (SMsem m d L 3) (k0_off135 t) (k0_off135_inb t) (64 * 4 + t.val) (by omega)
      ((k0_off135_eq t).trans (congrArg (fun x : Nat => (![x] : Fin 1 → Nat)) (show t.val + 256 = 64 * 4 + t.val by omega))) Nat.one_pos
    exact pay_eq (SMsem m d L 3) TAB t.val 4 0 ht (by decide) (by decide) _ hw hSM _ _
      (tabOff136 _ (by rw [hw]; exact hSM _) ⟨0, by decide⟩) y hlt
  · intro y hlt
    have hw := word_b (F := F) (SMsem m d L 3) (k0_off135 t) (k0_off135_inb t) (64 * 4 + t.val) (by omega)
      ((k0_off135_eq t).trans (congrArg (fun x : Nat => (![x] : Fin 1 → Nat)) (show t.val + 256 = 64 * 4 + t.val by omega))) Nat.one_pos
    exact pay_eq (SMsem m d L 3) TAB t.val 4 1 ht (by decide) (by decide) _ hw hSM _ _
      (tabOff136 _ (by rw [hw]; exact hSM _) ⟨1, by decide⟩) y hlt
  · intro y hlt
    have hw := word_b (F := F) (SMsem m d L 3) (k0_off138 t) (k0_off138_inb t) (64 * 5 + t.val) (by omega)
      ((k0_off138_eq t).trans (congrArg (fun x : Nat => (![x] : Fin 1 → Nat)) (show t.val + 320 = 64 * 5 + t.val by omega))) Nat.one_pos
    exact pay_eq (SMsem m d L 3) TAB t.val 5 0 ht (by decide) (by decide) _ hw hSM _ _
      (tabOff139 _ (by rw [hw]; exact hSM _) ⟨0, by decide⟩) y hlt
  · intro y hlt
    have hw := word_b (F := F) (SMsem m d L 3) (k0_off138 t) (k0_off138_inb t) (64 * 5 + t.val) (by omega)
      ((k0_off138_eq t).trans (congrArg (fun x : Nat => (![x] : Fin 1 → Nat)) (show t.val + 320 = 64 * 5 + t.val by omega))) Nat.one_pos
    exact pay_eq (SMsem m d L 3) TAB t.val 5 1 ht (by decide) (by decide) _ hw hSM _ _
      (tabOff139 _ (by rw [hw]; exact hSM _) ⟨1, by decide⟩) y hlt
  · intro y hlt
    have hw := word_b (F := F) (SMsem m d L 3) (k0_off141 t) (k0_off141_inb t) (64 * 6 + t.val) (by omega)
      ((k0_off141_eq t).trans (congrArg (fun x : Nat => (![x] : Fin 1 → Nat)) (show t.val + 384 = 64 * 6 + t.val by omega))) Nat.one_pos
    exact pay_eq (SMsem m d L 3) TAB t.val 6 0 ht (by decide) (by decide) _ hw hSM _ _
      (tabOff142 _ (by rw [hw]; exact hSM _) ⟨0, by decide⟩) y hlt
  · intro y hlt
    have hw := word_b (F := F) (SMsem m d L 3) (k0_off141 t) (k0_off141_inb t) (64 * 6 + t.val) (by omega)
      ((k0_off141_eq t).trans (congrArg (fun x : Nat => (![x] : Fin 1 → Nat)) (show t.val + 384 = 64 * 6 + t.val by omega))) Nat.one_pos
    exact pay_eq (SMsem m d L 3) TAB t.val 6 1 ht (by decide) (by decide) _ hw hSM _ _
      (tabOff142 _ (by rw [hw]; exact hSM _) ⟨1, by decide⟩) y hlt
  · intro y hlt
    have hw := word_b (F := F) (SMsem m d L 3) (k0_off144 t) (k0_off144_inb t) (64 * 7 + t.val) (by omega)
      ((k0_off144_eq t).trans (congrArg (fun x : Nat => (![x] : Fin 1 → Nat)) (show t.val + 448 = 64 * 7 + t.val by omega))) Nat.one_pos
    exact pay_eq (SMsem m d L 3) TAB t.val 7 0 ht (by decide) (by decide) _ hw hSM _ _
      (tabOff145 _ (by rw [hw]; exact hSM _) ⟨0, by decide⟩) y hlt
  · intro y hlt
    have hw := word_b (F := F) (SMsem m d L 3) (k0_off144 t) (k0_off144_inb t) (64 * 7 + t.val) (by omega)
      ((k0_off144_eq t).trans (congrArg (fun x : Nat => (![x] : Fin 1 → Nat)) (show t.val + 448 = 64 * 7 + t.val by omega))) Nat.one_pos
    exact pay_eq (SMsem m d L 3) TAB t.val 7 1 ht (by decide) (by decide) _ hw hSM _ _
      (tabOff145 _ (by rw [hw]; exact hSM _) ⟨1, by decide⟩) y hlt

end Trip

end Cert.Proof.KI

end
-- ==== Proof.KI.Trip4.lean ====
/-
  Trip t of fill loop 5 (chunk 4): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KI.TripGen
import proofs.«204821_g30846455120635_fold_wed_m_1292_33_alg».proof.Proof.KI.TabOff

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section Trip

theorem trip4 (hpre : PreOK m) (d : Dev nD) (L : grid0.Coords) (TAB : Buf (Elt F) (tabLoc d)) (v2 : BitVec 32) (t : Fin k0_t5_loop.trips) (acc : PUnit) :
    inva m d L 4 TAB t.val acc ⊢ wp frame (wpE (defs₀ (F := F)) 𝒱₀ (thr d L) none) Set.univ
      (k0_t5_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => inva m d L 4 TAB (t.val + 1) r) := by
  unfold inva
  iintro ⟨Hs, Htv, %g, Hb, %hfill⟩
  have hSM := SMsem_lt m d L hpre 4
  sl_exec (disch := first | sl_exact chk33_of_lt _ (hSM _) | sl_exact chk34_of_lt _ (hSM _) | sl_exact chk35_of_lt _ (hSM _) | sl_exact chk36_of_lt _ (hSM _) | sl_exact chk37_of_lt _ (hSM _) | sl_exact chk38_of_lt _ (hSM _) | sl_exact chk39_of_lt _ (hSM _) | sl_exact chk40_of_lt _ (hSM _))
  sl_step
  isplitl [Hs]; · iexact Hs
  isplitl [Htv]; · iexact Htv
  iexists _; isplitl [Hb]; · iexact Hb
  ipureintro
  have ht : t.val < 64 := t.isLt
  refine filled_step16' (baW).view (SMsem m d L 4) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off157_eq t ⟨0, by decide⟩).trans
      (congrArg (fun x : Nat => (![x] : Fin 1 → Nat)) (show 256 * t.val + 16 * 0 = 256 * t.val + 16 * 0 by omega))
  · exact (k0_off157_eq t ⟨1, by decide⟩).trans
      (congrArg (fun x : Nat => (![x] : Fin 1 → Nat)) (show 256 * t.val + 16 * 1 = 256 * t.val + 16 * 1 by omega))
  · exact (k0_off160_eq t ⟨0, by decide⟩).trans
      (congrArg (fun x : Nat => (![x] : Fin 1 → Nat)) (show 256 * t.val + 16 * 0 + 32 = 256 * t.val + 16 * 2 by omega))
  · exact (k0_off160_eq t ⟨1, by decide⟩).trans
      (congrArg (fun x : Nat => (![x] : Fin 1 → Nat)) (show 256 * t.val + 16 * 1 + 32 = 256 * t.val + 16 * 3 by omega))
  · exact (k0_off163_eq t ⟨0, by decide⟩).trans
      (congrArg (fun x : Nat => (![x] : Fin 1 → Nat)) (show 256 * t.val + 16 * 0 + 64 = 256 * t.val + 16 * 4 by omega))
  · exact (k0_off163_eq t ⟨1, by decide⟩).trans
      (congrArg (fun x : Nat => (![x] : Fin 1 → Nat)) (show 256 * t.val + 16 * 1 + 64 = 256 * t.val + 16 * 5 by omega))
  · exact (k0_off166_eq t ⟨0, by decide⟩).trans
      (congrArg (fun x : Nat => (![x] : Fin 1 → Nat)) (show 256 * t.val + 16 * 0 + 96 = 256 * t.val + 16 * 6 by omega))
  · exact (k0_off166_eq t ⟨1, by decide⟩).trans
      (congrArg (fun x : Nat => (![x] : Fin 1 → Nat)) (show 256 * t.val + 16 * 1 + 96 = 256 * t.val + 16 * 7 by omega))
  · exact (k0_off169_eq t ⟨0, by decide⟩).trans
      (congrArg (fun x : Nat => (![x] : Fin 1 → Nat)) (show 256 * t.val + 16 * 0 + 128 = 256 * t.val + 16 * 8 by omega))
  · exact (k0_off169_eq t ⟨1, by decide⟩).trans
      (congrArg (fun x : Nat => (![x] : Fin 1 → Nat)) (show 256 * t.val + 16 * 1 + 128 = 256 * t.val + 16 * 9 by omega))
  · exact (k0_off172_eq t ⟨0, by decide⟩).trans
      (congrArg (fun x : Nat => (![x] : Fin 1 → Nat)) (show 256 * t.val + 16 * 0 + 160 = 256 * t.val + 16 * 10 by omega))
  · exact (k0_off172_eq t ⟨1, by decide⟩).trans
      (congrArg (fun x : Nat => (![x] : Fin 1 → Nat)) (show 256 * t.val + 16 * 1 + 160 = 256 * t.val + 16 * 11 by omega))
  · exact (k0_off175_eq t ⟨0, by decide⟩).trans
      (congrArg (fun x : Nat => (![x] : Fin 1 → Nat)) (show 256 * t.val + 16 * 0 + 192 = 256 * t.val + 16 * 12 by omega))
  · exact (k0_off175_eq t ⟨1, by decide⟩).trans
      (congrArg (fun x : Nat => (![x] : Fin 1 → Nat)) (show 256 * t.val + 16 * 1 + 192 = 256 * t.val + 16 * 13 by omega))
  · exact (k0_off178_eq t ⟨0, by decide⟩).trans
      (congrArg (fun x : Nat => (![x] : Fin 1 → Nat)) (show 256 * t.val + 16 * 0 + 224 = 256 * t.val + 16 * 14 by omega))
  · exact (k0_off178_eq t ⟨1, by decide⟩).trans
      (congrArg (fun x : Nat => (![x] : Fin 1 → Nat)) (show 256 * t.val + 16 * 1 + 224 = 256 * t.val + 16 * 15 by omega))
  · intro y hlt
    have hw := word_a (F := F) (SMsem m d L 4) (k0_off155 t) (k0_off155_inb t) (64 * 0 + t.val) (by omega)
      ((k0_off155_eq t).trans (congrArg (fun x : Nat => (![x] : Fin 1 → Nat)) (show t.val = 64 * 0 + t.val by omega))) Nat.one_pos
    exact pay_eq (SMsem m d L 4) TAB t.val 0 0 ht (by decide) (by decide) _ hw hSM _ _
      (tabOff156 _ (by rw [hw]; exact hSM _) ⟨0, by decide⟩) y hlt
  · intro y hlt
    have hw := word_a (F := F) (SMsem m d L 4) (k0_off155 t) (k0_off155_inb t) (64 * 0 + t.val) (by omega)
      ((k0_off155_eq t).trans (congrArg (fun x : Nat => (![x] : Fin 1 → Nat)) (show t.val = 64 * 0 + t.val by omega))) Nat.one_pos
    exact pay_eq (SMsem m d L 4) TAB t.val 0 1 ht (by decide) (by decide) _ hw hSM _ _
      (tabOff156 _ (by rw [hw]; exact hSM _) ⟨1, by decide⟩) y hlt
  · intro y hlt
    have hw := word_a (F := F) (SMsem m d L 4) (k0_off158 t) (k0_off158_inb t) (64 * 1 + t.val) (by omega)
      ((k0_off158_eq t).trans (congrArg (fun x : Nat => (![x] : Fin 1 → Nat)) (show t.val + 64 = 64 * 1 + t.val by omega))) Nat.one_pos
    exact pay_eq (SMsem m d L 4) TAB t.val 1 0 ht (by decide) (by decide) _ hw hSM _ _
      (tabOff159 _ (by rw [hw]; exact hSM _) ⟨0, by decide⟩) y hlt
  · intro y hlt
    have hw := word_a (F := F) (SMsem m d L 4) (k0_off158 t) (k0_off158_inb t) (64 * 1 + t.val) (by omega)
      ((k0_off158_eq t).trans (congrArg (fun x : Nat => (![x] : Fin 1 → Nat)) (show t.val + 64 = 64 * 1 + t.val by omega))) Nat.one_pos
    exact pay_eq (SMsem m d L 4) TAB t.val 1 1 ht (by decide) (by decide) _ hw hSM _ _
      (tabOff159 _ (by rw [hw]; exact hSM _) ⟨1, by decide⟩) y hlt
  · intro y hlt
    have hw := word_a (F := F) (SMsem m d L 4) (k0_off161 t) (k0_off161_inb t) (64 * 2 + t.val) (by omega)
      ((k0_off161_eq t).trans (congrArg (fun x : Nat => (![x] : Fin 1 → Nat)) (show t.val + 128 = 64 * 2 + t.val by omega))) Nat.one_pos
    exact pay_eq (SMsem m d L 4) TAB t.val 2 0 ht (by decide) (by decide) _ hw hSM _ _
      (tabOff162 _ (by rw [hw]; exact hSM _) ⟨0, by decide⟩) y hlt
  · intro y hlt
    have hw := word_a (F := F) (SMsem m d L 4) (k0_off161 t) (k0_off161_inb t) (64 * 2 + t.val) (by omega)
      ((k0_off161_eq t).trans (congrArg (fun x : Nat => (![x] : Fin 1 → Nat)) (show t.val + 128 = 64 * 2 + t.val by omega))) Nat.one_pos
    exact pay_eq (SMsem m d L 4) TAB t.val 2 1 ht (by decide) (by decide) _ hw hSM _ _
      (tabOff162 _ (by rw [hw]; exact hSM _) ⟨1, by decide⟩) y hlt
  · intro y hlt
    have hw := word_a (F := F) (SMsem m d L 4) (k0_off164 t) (k0_off164_inb t) (64 * 3 + t.val) (by omega)
      ((k0_off164_eq t).trans (congrArg (fun x : Nat => (![x] : Fin 1 → Nat)) (show t.val + 192 = 64 * 3 + t.val by omega))) Nat.one_pos
    exact pay_eq (SMsem m d L 4) TAB t.val 3 0 ht (by decide) (by decide) _ hw hSM _ _
      (tabOff165 _ (by rw [hw]; exact hSM _) ⟨0, by decide⟩) y hlt
  · intro y hlt
    have hw := word_a (F := F) (SMsem m d L 4) (k0_off164 t) (k0_off164_inb t) (64 * 3 + t.val) (by omega)
      ((k0_off164_eq t).trans (congrArg (fun x : Nat => (![x] : Fin 1 → Nat)) (show t.val + 192 = 64 * 3 + t.val by omega))) Nat.one_pos
    exact pay_eq (SMsem m d L 4) TAB t.val 3 1 ht (by decide) (by decide) _ hw hSM _ _
      (tabOff165 _ (by rw [hw]; exact hSM _) ⟨1, by decide⟩) y hlt
  · intro y hlt
    have hw := word_a (F := F) (SMsem m d L 4) (k0_off167 t) (k0_off167_inb t) (64 * 4 + t.val) (by omega)
      ((k0_off167_eq t).trans (congrArg (fun x : Nat => (![x] : Fin 1 → Nat)) (show t.val + 256 = 64 * 4 + t.val by omega))) Nat.one_pos
    exact pay_eq (SMsem m d L 4) TAB t.val 4 0 ht (by decide) (by decide) _ hw hSM _ _
      (tabOff168 _ (by rw [hw]; exact hSM _) ⟨0, by decide⟩) y hlt
  · intro y hlt
    have hw := word_a (F := F) (SMsem m d L 4) (k0_off167 t) (k0_off167_inb t) (64 * 4 + t.val) (by omega)
      ((k0_off167_eq t).trans (congrArg (fun x : Nat => (![x] : Fin 1 → Nat)) (show t.val + 256 = 64 * 4 + t.val by omega))) Nat.one_pos
    exact pay_eq (SMsem m d L 4) TAB t.val 4 1 ht (by decide) (by decide) _ hw hSM _ _
      (tabOff168 _ (by rw [hw]; exact hSM _) ⟨1, by decide⟩) y hlt
  · intro y hlt
    have hw := word_a (F := F) (SMsem m d L 4) (k0_off170 t) (k0_off170_inb t) (64 * 5 + t.val) (by omega)
      ((k0_off170_eq t).trans (congrArg (fun x : Nat => (![x] : Fin 1 → Nat)) (show t.val + 320 = 64 * 5 + t.val by omega))) Nat.one_pos
    exact pay_eq (SMsem m d L 4) TAB t.val 5 0 ht (by decide) (by decide) _ hw hSM _ _
      (tabOff171 _ (by rw [hw]; exact hSM _) ⟨0, by decide⟩) y hlt
  · intro y hlt
    have hw := word_a (F := F) (SMsem m d L 4) (k0_off170 t) (k0_off170_inb t) (64 * 5 + t.val) (by omega)
      ((k0_off170_eq t).trans (congrArg (fun x : Nat => (![x] : Fin 1 → Nat)) (show t.val + 320 = 64 * 5 + t.val by omega))) Nat.one_pos
    exact pay_eq (SMsem m d L 4) TAB t.val 5 1 ht (by decide) (by decide) _ hw hSM _ _
      (tabOff171 _ (by rw [hw]; exact hSM _) ⟨1, by decide⟩) y hlt
  · intro y hlt
    have hw := word_a (F := F) (SMsem m d L 4) (k0_off173 t) (k0_off173_inb t) (64 * 6 + t.val) (by omega)
      ((k0_off173_eq t).trans (congrArg (fun x : Nat => (![x] : Fin 1 → Nat)) (show t.val + 384 = 64 * 6 + t.val by omega))) Nat.one_pos
    exact pay_eq (SMsem m d L 4) TAB t.val 6 0 ht (by decide) (by decide) _ hw hSM _ _
      (tabOff174 _ (by rw [hw]; exact hSM _) ⟨0, by decide⟩) y hlt
  · intro y hlt
    have hw := word_a (F := F) (SMsem m d L 4) (k0_off173 t) (k0_off173_inb t) (64 * 6 + t.val) (by omega)
      ((k0_off173_eq t).trans (congrArg (fun x : Nat => (![x] : Fin 1 → Nat)) (show t.val + 384 = 64 * 6 + t.val by omega))) Nat.one_pos
    exact pay_eq (SMsem m d L 4) TAB t.val 6 1 ht (by decide) (by decide) _ hw hSM _ _
      (tabOff174 _ (by rw [hw]; exact hSM _) ⟨1, by decide⟩) y hlt
  · intro y hlt
    have hw := word_a (F := F) (SMsem m d L 4) (k0_off176 t) (k0_off176_inb t) (64 * 7 + t.val) (by omega)
      ((k0_off176_eq t).trans (congrArg (fun x : Nat => (![x] : Fin 1 → Nat)) (show t.val + 448 = 64 * 7 + t.val by omega))) Nat.one_pos
    exact pay_eq (SMsem m d L 4) TAB t.val 7 0 ht (by decide) (by decide) _ hw hSM _ _
      (tabOff177 _ (by rw [hw]; exact hSM _) ⟨0, by decide⟩) y hlt
  · intro y hlt
    have hw := word_a (F := F) (SMsem m d L 4) (k0_off176 t) (k0_off176_inb t) (64 * 7 + t.val) (by omega)
      ((k0_off176_eq t).trans (congrArg (fun x : Nat => (![x] : Fin 1 → Nat)) (show t.val + 448 = 64 * 7 + t.val by omega))) Nat.one_pos
    exact pay_eq (SMsem m d L 4) TAB t.val 7 1 ht (by decide) (by decide) _ hw hSM _ _
      (tabOff177 _ (by rw [hw]; exact hSM _) ⟨1, by decide⟩) y hlt

end Trip

end Cert.Proof.KI

end
-- ==== Proof.KI.Trip5.lean ====
/-
  Trip t of fill loop 6 (chunk 5): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KI.TripGen
import proofs.«204821_g30846455120635_fold_wed_m_1292_33_alg».proof.Proof.KI.TabOff

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section Trip

theorem trip5 (hpre : PreOK m) (d : Dev nD) (L : grid0.Coords) (TAB : Buf (Elt F) (tabLoc d)) (v2 : BitVec 32) (t : Fin k0_t6_loop.trips) (acc : PUnit) :
    invb m d L 5 TAB t.val acc ⊢ wp frame (wpE (defs₀ (F := F)) 𝒱₀ (thr d L) none) Set.univ
      (k0_t6_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => invb m d L 5 TAB (t.val + 1) r) := by
  unfold invb
  iintro ⟨Hs, Htv, %g, Hb, %hfill⟩
  have hSM := SMsem_lt m d L hpre 5
  sl_exec (disch := first | sl_exact chk41_of_lt _ (hSM _) | sl_exact chk42_of_lt _ (hSM _) | sl_exact chk43_of_lt _ (hSM _) | sl_exact chk44_of_lt _ (hSM _) | sl_exact chk45_of_lt _ (hSM _) | sl_exact chk46_of_lt _ (hSM _) | sl_exact chk47_of_lt _ (hSM _) | sl_exact chk48_of_lt _ (hSM _))
  sl_step
  isplitl [Hs]; · iexact Hs
  isplitl [Htv]; · iexact Htv
  iexists _; isplitl [Hb]; · iexact Hb
  ipureintro
  have ht : t.val < 64 := t.isLt
  refine filled_step16' (bbW).view (SMsem m d L 5) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off189_eq t ⟨0, by decide⟩).trans
      (congrArg (fun x : Nat => (![x] : Fin 1 → Nat)) (show 256 * t.val + 16 * 0 = 256 * t.val + 16 * 0 by omega))
  · exact (k0_off189_eq t ⟨1, by decide⟩).trans
      (congrArg (fun x : Nat => (![x] : Fin 1 → Nat)) (show 256 * t.val + 16 * 1 = 256 * t.val + 16 * 1 by omega))
  · exact (k0_off192_eq t ⟨0, by decide⟩).trans
      (congrArg (fun x : Nat => (![x] : Fin 1 → Nat)) (show 256 * t.val + 16 * 0 + 32 = 256 * t.val + 16 * 2 by omega))
  · exact (k0_off192_eq t ⟨1, by decide⟩).trans
      (congrArg (fun x : Nat => (![x] : Fin 1 → Nat)) (show 256 * t.val + 16 * 1 + 32 = 256 * t.val + 16 * 3 by omega))
  · exact (k0_off195_eq t ⟨0, by decide⟩).trans
      (congrArg (fun x : Nat => (![x] : Fin 1 → Nat)) (show 256 * t.val + 16 * 0 + 64 = 256 * t.val + 16 * 4 by omega))
  · exact (k0_off195_eq t ⟨1, by decide⟩).trans
      (congrArg (fun x : Nat => (![x] : Fin 1 → Nat)) (show 256 * t.val + 16 * 1 + 64 = 256 * t.val + 16 * 5 by omega))
  · exact (k0_off198_eq t ⟨0, by decide⟩).trans
      (congrArg (fun x : Nat => (![x] : Fin 1 → Nat)) (show 256 * t.val + 16 * 0 + 96 = 256 * t.val + 16 * 6 by omega))
  · exact (k0_off198_eq t ⟨1, by decide⟩).trans
      (congrArg (fun x : Nat => (![x] : Fin 1 → Nat)) (show 256 * t.val + 16 * 1 + 96 = 256 * t.val + 16 * 7 by omega))
  · exact (k0_off201_eq t ⟨0, by decide⟩).trans
      (congrArg (fun x : Nat => (![x] : Fin 1 → Nat)) (show 256 * t.val + 16 * 0 + 128 = 256 * t.val + 16 * 8 by omega))
  · exact (k0_off201_eq t ⟨1, by decide⟩).trans
      (congrArg (fun x : Nat => (![x] : Fin 1 → Nat)) (show 256 * t.val + 16 * 1 + 128 = 256 * t.val + 16 * 9 by omega))
  · exact (k0_off204_eq t ⟨0, by decide⟩).trans
      (congrArg (fun x : Nat => (![x] : Fin 1 → Nat)) (show 256 * t.val + 16 * 0 + 160 = 256 * t.val + 16 * 10 by omega))
  · exact (k0_off204_eq t ⟨1, by decide⟩).trans
      (congrArg (fun x : Nat => (![x] : Fin 1 → Nat)) (show 256 * t.val + 16 * 1 + 160 = 256 * t.val + 16 * 11 by omega))
  · exact (k0_off207_eq t ⟨0, by decide⟩).trans
      (congrArg (fun x : Nat => (![x] : Fin 1 → Nat)) (show 256 * t.val + 16 * 0 + 192 = 256 * t.val + 16 * 12 by omega))
  · exact (k0_off207_eq t ⟨1, by decide⟩).trans
      (congrArg (fun x : Nat => (![x] : Fin 1 → Nat)) (show 256 * t.val + 16 * 1 + 192 = 256 * t.val + 16 * 13 by omega))
  · exact (k0_off210_eq t ⟨0, by decide⟩).trans
      (congrArg (fun x : Nat => (![x] : Fin 1 → Nat)) (show 256 * t.val + 16 * 0 + 224 = 256 * t.val + 16 * 14 by omega))
  · exact (k0_off210_eq t ⟨1, by decide⟩).trans
      (congrArg (fun x : Nat => (![x] : Fin 1 → Nat)) (show 256 * t.val + 16 * 1 + 224 = 256 * t.val + 16 * 15 by omega))
  · intro y hlt
    have hw := word_b (F := F) (SMsem m d L 5) (k0_off187 t) (k0_off187_inb t) (64 * 0 + t.val) (by omega)
      ((k0_off187_eq t).trans (congrArg (fun x : Nat => (![x] : Fin 1 → Nat)) (show t.val = 64 * 0 + t.val by omega))) Nat.one_pos
    exact pay_eq (SMsem m d L 5) TAB t.val 0 0 ht (by decide) (by decide) _ hw hSM _ _
      (tabOff188 _ (by rw [hw]; exact hSM _) ⟨0, by decide⟩) y hlt
  · intro y hlt
    have hw := word_b (F := F) (SMsem m d L 5) (k0_off187 t) (k0_off187_inb t) (64 * 0 + t.val) (by omega)
      ((k0_off187_eq t).trans (congrArg (fun x : Nat => (![x] : Fin 1 → Nat)) (show t.val = 64 * 0 + t.val by omega))) Nat.one_pos
    exact pay_eq (SMsem m d L 5) TAB t.val 0 1 ht (by decide) (by decide) _ hw hSM _ _
      (tabOff188 _ (by rw [hw]; exact hSM _) ⟨1, by decide⟩) y hlt
  · intro y hlt
    have hw := word_b (F := F) (SMsem m d L 5) (k0_off190 t) (k0_off190_inb t) (64 * 1 + t.val) (by omega)
      ((k0_off190_eq t).trans (congrArg (fun x : Nat => (![x] : Fin 1 → Nat)) (show t.val + 64 = 64 * 1 + t.val by omega))) Nat.one_pos
    exact pay_eq (SMsem m d L 5) TAB t.val 1 0 ht (by decide) (by decide) _ hw hSM _ _
      (tabOff191 _ (by rw [hw]; exact hSM _) ⟨0, by decide⟩) y hlt
  · intro y hlt
    have hw := word_b (F := F) (SMsem m d L 5) (k0_off190 t) (k0_off190_inb t) (64 * 1 + t.val) (by omega)
      ((k0_off190_eq t).trans (congrArg (fun x : Nat => (![x] : Fin 1 → Nat)) (show t.val + 64 = 64 * 1 + t.val by omega))) Nat.one_pos
    exact pay_eq (SMsem m d L 5) TAB t.val 1 1 ht (by decide) (by decide) _ hw hSM _ _
      (tabOff191 _ (by rw [hw]; exact hSM _) ⟨1, by decide⟩) y hlt
  · intro y hlt
    have hw := word_b (F := F) (SMsem m d L 5) (k0_off193 t) (k0_off193_inb t) (64 * 2 + t.val) (by omega)
      ((k0_off193_eq t).trans (congrArg (fun x : Nat => (![x] : Fin 1 → Nat)) (show t.val + 128 = 64 * 2 + t.val by omega))) Nat.one_pos
    exact pay_eq (SMsem m d L 5) TAB t.val 2 0 ht (by decide) (by decide) _ hw hSM _ _
      (tabOff194 _ (by rw [hw]; exact hSM _) ⟨0, by decide⟩) y hlt
  · intro y hlt
    have hw := word_b (F := F) (SMsem m d L 5) (k0_off193 t) (k0_off193_inb t) (64 * 2 + t.val) (by omega)
      ((k0_off193_eq t).trans (congrArg (fun x : Nat => (![x] : Fin 1 → Nat)) (show t.val + 128 = 64 * 2 + t.val by omega))) Nat.one_pos
    exact pay_eq (SMsem m d L 5) TAB t.val 2 1 ht (by decide) (by decide) _ hw hSM _ _
      (tabOff194 _ (by rw [hw]; exact hSM _) ⟨1, by decide⟩) y hlt
  · intro y hlt
    have hw := word_b (F := F) (SMsem m d L 5) (k0_off196 t) (k0_off196_inb t) (64 * 3 + t.val) (by omega)
      ((k0_off196_eq t).trans (congrArg (fun x : Nat => (![x] : Fin 1 → Nat)) (show t.val + 192 = 64 * 3 + t.val by omega))) Nat.one_pos
    exact pay_eq (SMsem m d L 5) TAB t.val 3 0 ht (by decide) (by decide) _ hw hSM _ _
      (tabOff197 _ (by rw [hw]; exact hSM _) ⟨0, by decide⟩) y hlt
  · intro y hlt
    have hw := word_b (F := F) (SMsem m d L 5) (k0_off196 t) (k0_off196_inb t) (64 * 3 + t.val) (by omega)
      ((k0_off196_eq t).trans (congrArg (fun x : Nat => (![x] : Fin 1 → Nat)) (show t.val + 192 = 64 * 3 + t.val by omega))) Nat.one_pos
    exact pay_eq (SMsem m d L 5) TAB t.val 3 1 ht (by decide) (by decide) _ hw hSM _ _
      (tabOff197 _ (by rw [hw]; exact hSM _) ⟨1, by decide⟩) y hlt
  · intro y hlt
    have hw := word_b (F := F) (SMsem m d L 5) (k0_off199 t) (k0_off199_inb t) (64 * 4 + t.val) (by omega)
      ((k0_off199_eq t).trans (congrArg (fun x : Nat => (![x] : Fin 1 → Nat)) (show t.val + 256 = 64 * 4 + t.val by omega))) Nat.one_pos
    exact pay_eq (SMsem m d L 5) TAB t.val 4 0 ht (by decide) (by decide) _ hw hSM _ _
      (tabOff200 _ (by rw [hw]; exact hSM _) ⟨0, by decide⟩) y hlt
  · intro y hlt
    have hw := word_b (F := F) (SMsem m d L 5) (k0_off199 t) (k0_off199_inb t) (64 * 4 + t.val) (by omega)
      ((k0_off199_eq t).trans (congrArg (fun x : Nat => (![x] : Fin 1 → Nat)) (show t.val + 256 = 64 * 4 + t.val by omega))) Nat.one_pos
    exact pay_eq (SMsem m d L 5) TAB t.val 4 1 ht (by decide) (by decide) _ hw hSM _ _
      (tabOff200 _ (by rw [hw]; exact hSM _) ⟨1, by decide⟩) y hlt
  · intro y hlt
    have hw := word_b (F := F) (SMsem m d L 5) (k0_off202 t) (k0_off202_inb t) (64 * 5 + t.val) (by omega)
      ((k0_off202_eq t).trans (congrArg (fun x : Nat => (![x] : Fin 1 → Nat)) (show t.val + 320 = 64 * 5 + t.val by omega))) Nat.one_pos
    exact pay_eq (SMsem m d L 5) TAB t.val 5 0 ht (by decide) (by decide) _ hw hSM _ _
      (tabOff203 _ (by rw [hw]; exact hSM _) ⟨0, by decide⟩) y hlt
  · intro y hlt
    have hw := word_b (F := F) (SMsem m d L 5) (k0_off202 t) (k0_off202_inb t) (64 * 5 + t.val) (by omega)
      ((k0_off202_eq t).trans (congrArg (fun x : Nat => (![x] : Fin 1 → Nat)) (show t.val + 320 = 64 * 5 + t.val by omega))) Nat.one_pos
    exact pay_eq (SMsem m d L 5) TAB t.val 5 1 ht (by decide) (by decide) _ hw hSM _ _
      (tabOff203 _ (by rw [hw]; exact hSM _) ⟨1, by decide⟩) y hlt
  · intro y hlt
    have hw := word_b (F := F) (SMsem m d L 5) (k0_off205 t) (k0_off205_inb t) (64 * 6 + t.val) (by omega)
      ((k0_off205_eq t).trans (congrArg (fun x : Nat => (![x] : Fin 1 → Nat)) (show t.val + 384 = 64 * 6 + t.val by omega))) Nat.one_pos
    exact pay_eq (SMsem m d L 5) TAB t.val 6 0 ht (by decide) (by decide) _ hw hSM _ _
      (tabOff206 _ (by rw [hw]; exact hSM _) ⟨0, by decide⟩) y hlt
  · intro y hlt
    have hw := word_b (F := F) (SMsem m d L 5) (k0_off205 t) (k0_off205_inb t) (64 * 6 + t.val) (by omega)
      ((k0_off205_eq t).trans (congrArg (fun x : Nat => (![x] : Fin 1 → Nat)) (show t.val + 384 = 64 * 6 + t.val by omega))) Nat.one_pos
    exact pay_eq (SMsem m d L 5) TAB t.val 6 1 ht (by decide) (by decide) _ hw hSM _ _
      (tabOff206 _ (by rw [hw]; exact hSM _) ⟨1, by decide⟩) y hlt
  · intro y hlt
    have hw := word_b (F := F) (SMsem m d L 5) (k0_off208 t) (k0_off208_inb t) (64 * 7 + t.val) (by omega)
      ((k0_off208_eq t).trans (congrArg (fun x : Nat => (![x] : Fin 1 → Nat)) (show t.val + 448 = 64 * 7 + t.val by omega))) Nat.one_pos
    exact pay_eq (SMsem m d L 5) TAB t.val 7 0 ht (by decide) (by decide) _ hw hSM _ _
      (tabOff209 _ (by rw [hw]; exact hSM _) ⟨0, by decide⟩) y hlt
  · intro y hlt
    have hw := word_b (F := F) (SMsem m d L 5) (k0_off208 t) (k0_off208_inb t) (64 * 7 + t.val) (by omega)
      ((k0_off208_eq t).trans (congrArg (fun x : Nat => (![x] : Fin 1 → Nat)) (show t.val + 448 = 64 * 7 + t.val by omega))) Nat.one_pos
    exact pay_eq (SMsem m d L 5) TAB t.val 7 1 ht (by decide) (by decide) _ hw hSM _ _
      (tabOff209 _ (by rw [hw]; exact hSM _) ⟨1, by decide⟩) y hlt

end Trip

end Cert.Proof.KI

end
-- ==== Proof.KI.Trip6.lean ====
/-
  Trip t of fill loop 7 (chunk 6): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KI.TripGen
import proofs.«204821_g30846455120635_fold_wed_m_1292_33_alg».proof.Proof.KI.TabOff

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section Trip

theorem trip6 (hpre : PreOK m) (d : Dev nD) (L : grid0.Coords) (TAB : Buf (Elt F) (tabLoc d)) (v2 : BitVec 32) (t : Fin k0_t7_loop.trips) (acc : PUnit) :
    inva m d L 6 TAB t.val acc ⊢ wp frame (wpE (defs₀ (F := F)) 𝒱₀ (thr d L) none) Set.univ
      (k0_t7_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => inva m d L 6 TAB (t.val + 1) r) := by
  unfold inva
  iintro ⟨Hs, Htv, %g, Hb, %hfill⟩
  have hSM := SMsem_lt m d L hpre 6
  sl_exec (disch := first | sl_exact chk49_of_lt _ (hSM _) | sl_exact chk50_of_lt _ (hSM _) | sl_exact chk51_of_lt _ (hSM _) | sl_exact chk52_of_lt _ (hSM _) | sl_exact chk53_of_lt _ (hSM _) | sl_exact chk54_of_lt _ (hSM _) | sl_exact chk55_of_lt _ (hSM _) | sl_exact chk56_of_lt _ (hSM _))
  sl_step
  isplitl [Hs]; · iexact Hs
  isplitl [Htv]; · iexact Htv
  iexists _; isplitl [Hb]; · iexact Hb
  ipureintro
  have ht : t.val < 64 := t.isLt
  refine filled_step16' (baW).view (SMsem m d L 6) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off221_eq t ⟨0, by decide⟩).trans
      (congrArg (fun x : Nat => (![x] : Fin 1 → Nat)) (show 256 * t.val + 16 * 0 = 256 * t.val + 16 * 0 by omega))
  · exact (k0_off221_eq t ⟨1, by decide⟩).trans
      (congrArg (fun x : Nat => (![x] : Fin 1 → Nat)) (show 256 * t.val + 16 * 1 = 256 * t.val + 16 * 1 by omega))
  · exact (k0_off224_eq t ⟨0, by decide⟩).trans
      (congrArg (fun x : Nat => (![x] : Fin 1 → Nat)) (show 256 * t.val + 16 * 0 + 32 = 256 * t.val + 16 * 2 by omega))
  · exact (k0_off224_eq t ⟨1, by decide⟩).trans
      (congrArg (fun x : Nat => (![x] : Fin 1 → Nat)) (show 256 * t.val + 16 * 1 + 32 = 256 * t.val + 16 * 3 by omega))
  · exact (k0_off227_eq t ⟨0, by decide⟩).trans
      (congrArg (fun x : Nat => (![x] : Fin 1 → Nat)) (show 256 * t.val + 16 * 0 + 64 = 256 * t.val + 16 * 4 by omega))
  · exact (k0_off227_eq t ⟨1, by decide⟩).trans
      (congrArg (fun x : Nat => (![x] : Fin 1 → Nat)) (show 256 * t.val + 16 * 1 + 64 = 256 * t.val + 16 * 5 by omega))
  · exact (k0_off230_eq t ⟨0, by decide⟩).trans
      (congrArg (fun x : Nat => (![x] : Fin 1 → Nat)) (show 256 * t.val + 16 * 0 + 96 = 256 * t.val + 16 * 6 by omega))
  · exact (k0_off230_eq t ⟨1, by decide⟩).trans
      (congrArg (fun x : Nat => (![x] : Fin 1 → Nat)) (show 256 * t.val + 16 * 1 + 96 = 256 * t.val + 16 * 7 by omega))
  · exact (k0_off233_eq t ⟨0, by decide⟩).trans
      (congrArg (fun x : Nat => (![x] : Fin 1 → Nat)) (show 256 * t.val + 16 * 0 + 128 = 256 * t.val + 16 * 8 by omega))
  · exact (k0_off233_eq t ⟨1, by decide⟩).trans
      (congrArg (fun x : Nat => (![x] : Fin 1 → Nat)) (show 256 * t.val + 16 * 1 + 128 = 256 * t.val + 16 * 9 by omega))
  · exact (k0_off236_eq t ⟨0, by decide⟩).trans
      (congrArg (fun x : Nat => (![x] : Fin 1 → Nat)) (show 256 * t.val + 16 * 0 + 160 = 256 * t.val + 16 * 10 by omega))
  · exact (k0_off236_eq t ⟨1, by decide⟩).trans
      (congrArg (fun x : Nat => (![x] : Fin 1 → Nat)) (show 256 * t.val + 16 * 1 + 160 = 256 * t.val + 16 * 11 by omega))
  · exact (k0_off239_eq t ⟨0, by decide⟩).trans
      (congrArg (fun x : Nat => (![x] : Fin 1 → Nat)) (show 256 * t.val + 16 * 0 + 192 = 256 * t.val + 16 * 12 by omega))
  · exact (k0_off239_eq t ⟨1, by decide⟩).trans
      (congrArg (fun x : Nat => (![x] : Fin 1 → Nat)) (show 256 * t.val + 16 * 1 + 192 = 256 * t.val + 16 * 13 by omega))
  · exact (k0_off242_eq t ⟨0, by decide⟩).trans
      (congrArg (fun x : Nat => (![x] : Fin 1 → Nat)) (show 256 * t.val + 16 * 0 + 224 = 256 * t.val + 16 * 14 by omega))
  · exact (k0_off242_eq t ⟨1, by decide⟩).trans
      (congrArg (fun x : Nat => (![x] : Fin 1 → Nat)) (show 256 * t.val + 16 * 1 + 224 = 256 * t.val + 16 * 15 by omega))
  · intro y hlt
    have hw := word_a (F := F) (SMsem m d L 6) (k0_off219 t) (k0_off219_inb t) (64 * 0 + t.val) (by omega)
      ((k0_off219_eq t).trans (congrArg (fun x : Nat => (![x] : Fin 1 → Nat)) (show t.val = 64 * 0 + t.val by omega))) Nat.one_pos
    exact pay_eq (SMsem m d L 6) TAB t.val 0 0 ht (by decide) (by decide) _ hw hSM _ _
      (tabOff220 _ (by rw [hw]; exact hSM _) ⟨0, by decide⟩) y hlt
  · intro y hlt
    have hw := word_a (F := F) (SMsem m d L 6) (k0_off219 t) (k0_off219_inb t) (64 * 0 + t.val) (by omega)
      ((k0_off219_eq t).trans (congrArg (fun x : Nat => (![x] : Fin 1 → Nat)) (show t.val = 64 * 0 + t.val by omega))) Nat.one_pos
    exact pay_eq (SMsem m d L 6) TAB t.val 0 1 ht (by decide) (by decide) _ hw hSM _ _
      (tabOff220 _ (by rw [hw]; exact hSM _) ⟨1, by decide⟩) y hlt
  · intro y hlt
    have hw := word_a (F := F) (SMsem m d L 6) (k0_off222 t) (k0_off222_inb t) (64 * 1 + t.val) (by omega)
      ((k0_off222_eq t).trans (congrArg (fun x : Nat => (![x] : Fin 1 → Nat)) (show t.val + 64 = 64 * 1 + t.val by omega))) Nat.one_pos
    exact pay_eq (SMsem m d L 6) TAB t.val 1 0 ht (by decide) (by decide) _ hw hSM _ _
      (tabOff223 _ (by rw [hw]; exact hSM _) ⟨0, by decide⟩) y hlt
  · intro y hlt
    have hw := word_a (F := F) (SMsem m d L 6) (k0_off222 t) (k0_off222_inb t) (64 * 1 + t.val) (by omega)
      ((k0_off222_eq t).trans (congrArg (fun x : Nat => (![x] : Fin 1 → Nat)) (show t.val + 64 = 64 * 1 + t.val by omega))) Nat.one_pos
    exact pay_eq (SMsem m d L 6) TAB t.val 1 1 ht (by decide) (by decide) _ hw hSM _ _
      (tabOff223 _ (by rw [hw]; exact hSM _) ⟨1, by decide⟩) y hlt
  · intro y hlt
    have hw := word_a (F := F) (SMsem m d L 6) (k0_off225 t) (k0_off225_inb t) (64 * 2 + t.val) (by omega)
      ((k0_off225_eq t).trans (congrArg (fun x : Nat => (![x] : Fin 1 → Nat)) (show t.val + 128 = 64 * 2 + t.val by omega))) Nat.one_pos
    exact pay_eq (SMsem m d L 6) TAB t.val 2 0 ht (by decide) (by decide) _ hw hSM _ _
      (tabOff226 _ (by rw [hw]; exact hSM _) ⟨0, by decide⟩) y hlt
  · intro y hlt
    have hw := word_a (F := F) (SMsem m d L 6) (k0_off225 t) (k0_off225_inb t) (64 * 2 + t.val) (by omega)
      ((k0_off225_eq t).trans (congrArg (fun x : Nat => (![x] : Fin 1 → Nat)) (show t.val + 128 = 64 * 2 + t.val by omega))) Nat.one_pos
    exact pay_eq (SMsem m d L 6) TAB t.val 2 1 ht (by decide) (by decide) _ hw hSM _ _
      (tabOff226 _ (by rw [hw]; exact hSM _) ⟨1, by decide⟩) y hlt
  · intro y hlt
    have hw := word_a (F := F) (SMsem m d L 6) (k0_off228 t) (k0_off228_inb t) (64 * 3 + t.val) (by omega)
      ((k0_off228_eq t).trans (congrArg (fun x : Nat => (![x] : Fin 1 → Nat)) (show t.val + 192 = 64 * 3 + t.val by omega))) Nat.one_pos
    exact pay_eq (SMsem m d L 6) TAB t.val 3 0 ht (by decide) (by decide) _ hw hSM _ _
      (tabOff229 _ (by rw [hw]; exact hSM _) ⟨0, by decide⟩) y hlt
  · intro y hlt
    have hw := word_a (F := F) (SMsem m d L 6) (k0_off228 t) (k0_off228_inb t) (64 * 3 + t.val) (by omega)
      ((k0_off228_eq t).trans (congrArg (fun x : Nat => (![x] : Fin 1 → Nat)) (show t.val + 192 = 64 * 3 + t.val by omega))) Nat.one_pos
    exact pay_eq (SMsem m d L 6) TAB t.val 3 1 ht (by decide) (by decide) _ hw hSM _ _
      (tabOff229 _ (by rw [hw]; exact hSM _) ⟨1, by decide⟩) y hlt
  · intro y hlt
    have hw := word_a (F := F) (SMsem m d L 6) (k0_off231 t) (k0_off231_inb t) (64 * 4 + t.val) (by omega)
      ((k0_off231_eq t).trans (congrArg (fun x : Nat => (![x] : Fin 1 → Nat)) (show t.val + 256 = 64 * 4 + t.val by omega))) Nat.one_pos
    exact pay_eq (SMsem m d L 6) TAB t.val 4 0 ht (by decide) (by decide) _ hw hSM _ _
      (tabOff232 _ (by rw [hw]; exact hSM _) ⟨0, by decide⟩) y hlt
  · intro y hlt
    have hw := word_a (F := F) (SMsem m d L 6) (k0_off231 t) (k0_off231_inb t) (64 * 4 + t.val) (by omega)
      ((k0_off231_eq t).trans (congrArg (fun x : Nat => (![x] : Fin 1 → Nat)) (show t.val + 256 = 64 * 4 + t.val by omega))) Nat.one_pos
    exact pay_eq (SMsem m d L 6) TAB t.val 4 1 ht (by decide) (by decide) _ hw hSM _ _
      (tabOff232 _ (by rw [hw]; exact hSM _) ⟨1, by decide⟩) y hlt
  · intro y hlt
    have hw := word_a (F := F) (SMsem m d L 6) (k0_off234 t) (k0_off234_inb t) (64 * 5 + t.val) (by omega)
      ((k0_off234_eq t).trans (congrArg (fun x : Nat => (![x] : Fin 1 → Nat)) (show t.val + 320 = 64 * 5 + t.val by omega))) Nat.one_pos
    exact pay_eq (SMsem m d L 6) TAB t.val 5 0 ht (by decide) (by decide) _ hw hSM _ _
      (tabOff235 _ (by rw [hw]; exact hSM _) ⟨0, by decide⟩) y hlt
  · intro y hlt
    have hw := word_a (F := F) (SMsem m d L 6) (k0_off234 t) (k0_off234_inb t) (64 * 5 + t.val) (by omega)
      ((k0_off234_eq t).trans (congrArg (fun x : Nat => (![x] : Fin 1 → Nat)) (show t.val + 320 = 64 * 5 + t.val by omega))) Nat.one_pos
    exact pay_eq (SMsem m d L 6) TAB t.val 5 1 ht (by decide) (by decide) _ hw hSM _ _
      (tabOff235 _ (by rw [hw]; exact hSM _) ⟨1, by decide⟩) y hlt
  · intro y hlt
    have hw := word_a (F := F) (SMsem m d L 6) (k0_off237 t) (k0_off237_inb t) (64 * 6 + t.val) (by omega)
      ((k0_off237_eq t).trans (congrArg (fun x : Nat => (![x] : Fin 1 → Nat)) (show t.val + 384 = 64 * 6 + t.val by omega))) Nat.one_pos
    exact pay_eq (SMsem m d L 6) TAB t.val 6 0 ht (by decide) (by decide) _ hw hSM _ _
      (tabOff238 _ (by rw [hw]; exact hSM _) ⟨0, by decide⟩) y hlt
  · intro y hlt
    have hw := word_a (F := F) (SMsem m d L 6) (k0_off237 t) (k0_off237_inb t) (64 * 6 + t.val) (by omega)
      ((k0_off237_eq t).trans (congrArg (fun x : Nat => (![x] : Fin 1 → Nat)) (show t.val + 384 = 64 * 6 + t.val by omega))) Nat.one_pos
    exact pay_eq (SMsem m d L 6) TAB t.val 6 1 ht (by decide) (by decide) _ hw hSM _ _
      (tabOff238 _ (by rw [hw]; exact hSM _) ⟨1, by decide⟩) y hlt
  · intro y hlt
    have hw := word_a (F := F) (SMsem m d L 6) (k0_off240 t) (k0_off240_inb t) (64 * 7 + t.val) (by omega)
      ((k0_off240_eq t).trans (congrArg (fun x : Nat => (![x] : Fin 1 → Nat)) (show t.val + 448 = 64 * 7 + t.val by omega))) Nat.one_pos
    exact pay_eq (SMsem m d L 6) TAB t.val 7 0 ht (by decide) (by decide) _ hw hSM _ _
      (tabOff241 _ (by rw [hw]; exact hSM _) ⟨0, by decide⟩) y hlt
  · intro y hlt
    have hw := word_a (F := F) (SMsem m d L 6) (k0_off240 t) (k0_off240_inb t) (64 * 7 + t.val) (by omega)
      ((k0_off240_eq t).trans (congrArg (fun x : Nat => (![x] : Fin 1 → Nat)) (show t.val + 448 = 64 * 7 + t.val by omega))) Nat.one_pos
    exact pay_eq (SMsem m d L 6) TAB t.val 7 1 ht (by decide) (by decide) _ hw hSM _ _
      (tabOff241 _ (by rw [hw]; exact hSM _) ⟨1, by decide⟩) y hlt

end Trip

end Cert.Proof.KI

end
-- ==== Proof.KI.Trip7.lean ====
/-
  Trip t of fill loop 8 (chunk 7): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KI.TripGen
import proofs.«204821_g30846455120635_fold_wed_m_1292_33_alg».proof.Proof.KI.TabOff

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section Trip

theorem trip7 (hpre : PreOK m) (d : Dev nD) (L : grid0.Coords) (TAB : Buf (Elt F) (tabLoc d)) (t : Fin k0_t8_loop.trips) (acc : PUnit) :
    invb m d L 7 TAB t.val acc ⊢ wp frame (wpE (defs₀ (F := F)) 𝒱₀ (thr d L) none) Set.univ
      (k0_t8_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 t acc) (fun r => invb m d L 7 TAB (t.val + 1) r) := by
  unfold invb
  iintro ⟨Hs, Htv, %g, Hb, %hfill⟩
  have hSM := SMsem_lt m d L hpre 7
  sl_exec (disch := first | sl_exact chk57_of_lt _ (hSM _) | sl_exact chk58_of_lt _ (hSM _) | sl_exact chk59_of_lt _ (hSM _) | sl_exact chk60_of_lt _ (hSM _) | sl_exact chk61_of_lt _ (hSM _) | sl_exact chk62_of_lt _ (hSM _) | sl_exact chk63_of_lt _ (hSM _) | sl_exact chk64_of_lt _ (hSM _))
  sl_step
  isplitl [Hs]; · iexact Hs
  isplitl [Htv]; · iexact Htv
  iexists _; isplitl [Hb]; · iexact Hb
  ipureintro
  have ht : t.val < 64 := t.isLt
  refine filled_step16' (bbW).view (SMsem m d L 7) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off245_eq t ⟨0, by decide⟩).trans
      (congrArg (fun x : Nat => (![x] : Fin 1 → Nat)) (show 256 * t.val + 16 * 0 = 256 * t.val + 16 * 0 by omega))
  · exact (k0_off245_eq t ⟨1, by decide⟩).trans
      (congrArg (fun x : Nat => (![x] : Fin 1 → Nat)) (show 256 * t.val + 16 * 1 = 256 * t.val + 16 * 1 by omega))
  · exact (k0_off248_eq t ⟨0, by decide⟩).trans
      (congrArg (fun x : Nat => (![x] : Fin 1 → Nat)) (show 256 * t.val + 16 * 0 + 32 = 256 * t.val + 16 * 2 by omega))
  · exact (k0_off248_eq t ⟨1, by decide⟩).trans
      (congrArg (fun x : Nat => (![x] : Fin 1 → Nat)) (show 256 * t.val + 16 * 1 + 32 = 256 * t.val + 16 * 3 by omega))
  · exact (k0_off251_eq t ⟨0, by decide⟩).trans
      (congrArg (fun x : Nat => (![x] : Fin 1 → Nat)) (show 256 * t.val + 16 * 0 + 64 = 256 * t.val + 16 * 4 by omega))
  · exact (k0_off251_eq t ⟨1, by decide⟩).trans
      (congrArg (fun x : Nat => (![x] : Fin 1 → Nat)) (show 256 * t.val + 16 * 1 + 64 = 256 * t.val + 16 * 5 by omega))
  · exact (k0_off254_eq t ⟨0, by decide⟩).trans
      (congrArg (fun x : Nat => (![x] : Fin 1 → Nat)) (show 256 * t.val + 16 * 0 + 96 = 256 * t.val + 16 * 6 by omega))
  · exact (k0_off254_eq t ⟨1, by decide⟩).trans
      (congrArg (fun x : Nat => (![x] : Fin 1 → Nat)) (show 256 * t.val + 16 * 1 + 96 = 256 * t.val + 16 * 7 by omega))
  · exact (k0_off257_eq t ⟨0, by decide⟩).trans
      (congrArg (fun x : Nat => (![x] : Fin 1 → Nat)) (show 256 * t.val + 16 * 0 + 128 = 256 * t.val + 16 * 8 by omega))
  · exact (k0_off257_eq t ⟨1, by decide⟩).trans
      (congrArg (fun x : Nat => (![x] : Fin 1 → Nat)) (show 256 * t.val + 16 * 1 + 128 = 256 * t.val + 16 * 9 by omega))
  · exact (k0_off260_eq t ⟨0, by decide⟩).trans
      (congrArg (fun x : Nat => (![x] : Fin 1 → Nat)) (show 256 * t.val + 16 * 0 + 160 = 256 * t.val + 16 * 10 by omega))
  · exact (k0_off260_eq t ⟨1, by decide⟩).trans
      (congrArg (fun x : Nat => (![x] : Fin 1 → Nat)) (show 256 * t.val + 16 * 1 + 160 = 256 * t.val + 16 * 11 by omega))
  · exact (k0_off263_eq t ⟨0, by decide⟩).trans
      (congrArg (fun x : Nat => (![x] : Fin 1 → Nat)) (show 256 * t.val + 16 * 0 + 192 = 256 * t.val + 16 * 12 by omega))
  · exact (k0_off263_eq t ⟨1, by decide⟩).trans
      (congrArg (fun x : Nat => (![x] : Fin 1 → Nat)) (show 256 * t.val + 16 * 1 + 192 = 256 * t.val + 16 * 13 by omega))
  · exact (k0_off266_eq t ⟨0, by decide⟩).trans
      (congrArg (fun x : Nat => (![x] : Fin 1 → Nat)) (show 256 * t.val + 16 * 0 + 224 = 256 * t.val + 16 * 14 by omega))
  · exact (k0_off266_eq t ⟨1, by decide⟩).trans
      (congrArg (fun x : Nat => (![x] : Fin 1 → Nat)) (show 256 * t.val + 16 * 1 + 224 = 256 * t.val + 16 * 15 by omega))
  · intro y hlt
    have hw := word_b (F := F) (SMsem m d L 7) (k0_off243 t) (k0_off243_inb t) (64 * 0 + t.val) (by omega)
      ((k0_off243_eq t).trans (congrArg (fun x : Nat => (![x] : Fin 1 → Nat)) (show t.val = 64 * 0 + t.val by omega))) Nat.one_pos
    exact pay_eq (SMsem m d L 7) TAB t.val 0 0 ht (by decide) (by decide) _ hw hSM _ _
      (tabOff244 _ (by rw [hw]; exact hSM _) ⟨0, by decide⟩) y hlt
  · intro y hlt
    have hw := word_b (F := F) (SMsem m d L 7) (k0_off243 t) (k0_off243_inb t) (64 * 0 + t.val) (by omega)
      ((k0_off243_eq t).trans (congrArg (fun x : Nat => (![x] : Fin 1 → Nat)) (show t.val = 64 * 0 + t.val by omega))) Nat.one_pos
    exact pay_eq (SMsem m d L 7) TAB t.val 0 1 ht (by decide) (by decide) _ hw hSM _ _
      (tabOff244 _ (by rw [hw]; exact hSM _) ⟨1, by decide⟩) y hlt
  · intro y hlt
    have hw := word_b (F := F) (SMsem m d L 7) (k0_off246 t) (k0_off246_inb t) (64 * 1 + t.val) (by omega)
      ((k0_off246_eq t).trans (congrArg (fun x : Nat => (![x] : Fin 1 → Nat)) (show t.val + 64 = 64 * 1 + t.val by omega))) Nat.one_pos
    exact pay_eq (SMsem m d L 7) TAB t.val 1 0 ht (by decide) (by decide) _ hw hSM _ _
      (tabOff247 _ (by rw [hw]; exact hSM _) ⟨0, by decide⟩) y hlt
  · intro y hlt
    have hw := word_b (F := F) (SMsem m d L 7) (k0_off246 t) (k0_off246_inb t) (64 * 1 + t.val) (by omega)
      ((k0_off246_eq t).trans (congrArg (fun x : Nat => (![x] : Fin 1 → Nat)) (show t.val + 64 = 64 * 1 + t.val by omega))) Nat.one_pos
    exact pay_eq (SMsem m d L 7) TAB t.val 1 1 ht (by decide) (by decide) _ hw hSM _ _
      (tabOff247 _ (by rw [hw]; exact hSM _) ⟨1, by decide⟩) y hlt
  · intro y hlt
    have hw := word_b (F := F) (SMsem m d L 7) (k0_off249 t) (k0_off249_inb t) (64 * 2 + t.val) (by omega)
      ((k0_off249_eq t).trans (congrArg (fun x : Nat => (![x] : Fin 1 → Nat)) (show t.val + 128 = 64 * 2 + t.val by omega))) Nat.one_pos
    exact pay_eq (SMsem m d L 7) TAB t.val 2 0 ht (by decide) (by decide) _ hw hSM _ _
      (tabOff250 _ (by rw [hw]; exact hSM _) ⟨0, by decide⟩) y hlt
  · intro y hlt
    have hw := word_b (F := F) (SMsem m d L 7) (k0_off249 t) (k0_off249_inb t) (64 * 2 + t.val) (by omega)
      ((k0_off249_eq t).trans (congrArg (fun x : Nat => (![x] : Fin 1 → Nat)) (show t.val + 128 = 64 * 2 + t.val by omega))) Nat.one_pos
    exact pay_eq (SMsem m d L 7) TAB t.val 2 1 ht (by decide) (by decide) _ hw hSM _ _
      (tabOff250 _ (by rw [hw]; exact hSM _) ⟨1, by decide⟩) y hlt
  · intro y hlt
    have hw := word_b (F := F) (SMsem m d L 7) (k0_off252 t) (k0_off252_inb t) (64 * 3 + t.val) (by omega)
      ((k0_off252_eq t).trans (congrArg (fun x : Nat => (![x] : Fin 1 → Nat)) (show t.val + 192 = 64 * 3 + t.val by omega))) Nat.one_pos
    exact pay_eq (SMsem m d L 7) TAB t.val 3 0 ht (by decide) (by decide) _ hw hSM _ _
      (tabOff253 _ (by rw [hw]; exact hSM _) ⟨0, by decide⟩) y hlt
  · intro y hlt
    have hw := word_b (F := F) (SMsem m d L 7) (k0_off252 t) (k0_off252_inb t) (64 * 3 + t.val) (by omega)
      ((k0_off252_eq t).trans (congrArg (fun x : Nat => (![x] : Fin 1 → Nat)) (show t.val + 192 = 64 * 3 + t.val by omega))) Nat.one_pos
    exact pay_eq (SMsem m d L 7) TAB t.val 3 1 ht (by decide) (by decide) _ hw hSM _ _
      (tabOff253 _ (by rw [hw]; exact hSM _) ⟨1, by decide⟩) y hlt
  · intro y hlt
    have hw := word_b (F := F) (SMsem m d L 7) (k0_off255 t) (k0_off255_inb t) (64 * 4 + t.val) (by omega)
      ((k0_off255_eq t).trans (congrArg (fun x : Nat => (![x] : Fin 1 → Nat)) (show t.val + 256 = 64 * 4 + t.val by omega))) Nat.one_pos
    exact pay_eq (SMsem m d L 7) TAB t.val 4 0 ht (by decide) (by decide) _ hw hSM _ _
      (tabOff256 _ (by rw [hw]; exact hSM _) ⟨0, by decide⟩) y hlt
  · intro y hlt
    have hw := word_b (F := F) (SMsem m d L 7) (k0_off255 t) (k0_off255_inb t) (64 * 4 + t.val) (by omega)
      ((k0_off255_eq t).trans (congrArg (fun x : Nat => (![x] : Fin 1 → Nat)) (show t.val + 256 = 64 * 4 + t.val by omega))) Nat.one_pos
    exact pay_eq (SMsem m d L 7) TAB t.val 4 1 ht (by decide) (by decide) _ hw hSM _ _
      (tabOff256 _ (by rw [hw]; exact hSM _) ⟨1, by decide⟩) y hlt
  · intro y hlt
    have hw := word_b (F := F) (SMsem m d L 7) (k0_off258 t) (k0_off258_inb t) (64 * 5 + t.val) (by omega)
      ((k0_off258_eq t).trans (congrArg (fun x : Nat => (![x] : Fin 1 → Nat)) (show t.val + 320 = 64 * 5 + t.val by omega))) Nat.one_pos
    exact pay_eq (SMsem m d L 7) TAB t.val 5 0 ht (by decide) (by decide) _ hw hSM _ _
      (tabOff259 _ (by rw [hw]; exact hSM _) ⟨0, by decide⟩) y hlt
  · intro y hlt
    have hw := word_b (F := F) (SMsem m d L 7) (k0_off258 t) (k0_off258_inb t) (64 * 5 + t.val) (by omega)
      ((k0_off258_eq t).trans (congrArg (fun x : Nat => (![x] : Fin 1 → Nat)) (show t.val + 320 = 64 * 5 + t.val by omega))) Nat.one_pos
    exact pay_eq (SMsem m d L 7) TAB t.val 5 1 ht (by decide) (by decide) _ hw hSM _ _
      (tabOff259 _ (by rw [hw]; exact hSM _) ⟨1, by decide⟩) y hlt
  · intro y hlt
    have hw := word_b (F := F) (SMsem m d L 7) (k0_off261 t) (k0_off261_inb t) (64 * 6 + t.val) (by omega)
      ((k0_off261_eq t).trans (congrArg (fun x : Nat => (![x] : Fin 1 → Nat)) (show t.val + 384 = 64 * 6 + t.val by omega))) Nat.one_pos
    exact pay_eq (SMsem m d L 7) TAB t.val 6 0 ht (by decide) (by decide) _ hw hSM _ _
      (tabOff262 _ (by rw [hw]; exact hSM _) ⟨0, by decide⟩) y hlt
  · intro y hlt
    have hw := word_b (F := F) (SMsem m d L 7) (k0_off261 t) (k0_off261_inb t) (64 * 6 + t.val) (by omega)
      ((k0_off261_eq t).trans (congrArg (fun x : Nat => (![x] : Fin 1 → Nat)) (show t.val + 384 = 64 * 6 + t.val by omega))) Nat.one_pos
    exact pay_eq (SMsem m d L 7) TAB t.val 6 1 ht (by decide) (by decide) _ hw hSM _ _
      (tabOff262 _ (by rw [hw]; exact hSM _) ⟨1, by decide⟩) y hlt
  · intro y hlt
    have hw := word_b (F := F) (SMsem m d L 7) (k0_off264 t) (k0_off264_inb t) (64 * 7 + t.val) (by omega)
      ((k0_off264_eq t).trans (congrArg (fun x : Nat => (![x] : Fin 1 → Nat)) (show t.val + 448 = 64 * 7 + t.val by omega))) Nat.one_pos
    exact pay_eq (SMsem m d L 7) TAB t.val 7 0 ht (by decide) (by decide) _ hw hSM _ _
      (tabOff265 _ (by rw [hw]; exact hSM _) ⟨0, by decide⟩) y hlt
  · intro y hlt
    have hw := word_b (F := F) (SMsem m d L 7) (k0_off264 t) (k0_off264_inb t) (64 * 7 + t.val) (by omega)
      ((k0_off264_eq t).trans (congrArg (fun x : Nat => (![x] : Fin 1 → Nat)) (show t.val + 448 = 64 * 7 + t.val by omega))) Nat.one_pos
    exact pay_eq (SMsem m d L 7) TAB t.val 7 1 ht (by decide) (by decide) _ hw hSM _ _
      (tabOff265 _ (by rw [hw]; exact hSM _) ⟨1, by decide⟩) y hlt

end Trip

end Cert.Proof.KI

end
-- ==== Proof.KI.Trips.lean ====
/-
  The eight fill loops' trips, gathered: trip t of loop k + 1 takes the loop's invariant at t to the invariant at t + 1.
-/
import proofs.«204821_g30846455120635_fold_wed_m_1292_33_alg».proof.Proof.KI.Trip0
import proofs.«204821_g30846455120635_fold_wed_m_1292_33_alg».proof.Proof.KI.Trip1
import proofs.«204821_g30846455120635_fold_wed_m_1292_33_alg».proof.Proof.KI.Trip2
import proofs.«204821_g30846455120635_fold_wed_m_1292_33_alg».proof.Proof.KI.Trip3
import proofs.«204821_g30846455120635_fold_wed_m_1292_33_alg».proof.Proof.KI.Trip4
import proofs.«204821_g30846455120635_fold_wed_m_1292_33_alg».proof.Proof.KI.Trip5
import proofs.«204821_g30846455120635_fold_wed_m_1292_33_alg».proof.Proof.KI.Trip6
import proofs.«204821_g30846455120635_fold_wed_m_1292_33_alg».proof.Proof.KI.Trip7
-- ==== Proof.KI.StageGen.lean ====
/-
  What the staged index words are.

  The task stages its 512 words of each index column in a row of the shared scratch (column j's words in columns
  512 j … 512 j + 511 of the row), and from there copies, for chunk k, the 64 words 64 k … 64 k + 63 of each column into
  run j of a scalar-memory index buffer. A copy lands its source's words in order. So word 64 j + y of the index buffer
  after chunk k's copy j is the row's word 512 j + 64 k + y, which is word 64 k + y of the task's 512 words of column j,
  which is word (task's first word) + 64 k + y of the column itself.
-/
import proofs.«204821_g30846455120635_fold_wed_m_1292_33_alg».proof.Proof.KI.Stage
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section StageVal
variable (d : Dev nD) (L : grid0.Coords)

/-! ## A landed whole piece reads its payload -/

omit [FloatOps F] in
/-- Through any view: after one write of the whole shape, the view reads the payload. -/
theorem read_landed {κ : Kind} {sp : Space} {s : Shape} {e : EltTy} (v : View sig κ sp s e) (f : v.ty.Contents (Elt F))
    (w : s.Idx → Elt F e) (y : s.Idx) :
    v.read (Elt F) (v.writes (Elt F) f [⟨Rect.whole s, w⟩]) y = w y := by
  have h := View.read_writes_cons_emb v f (Rect.whole s) w [] y
  rwa [Rect.emb_whole_apply] at h

/-! ## Where the windows' words sit -/

omit [FloatOps F] in
/-- A row window of the shared scratch, its unit axis dropped: word y sits in the window's row at the window's first
    column plus y. -/
theorem row_window_emb (n : Nat) (off : Fin 2 → Nat) (inb : ∀ a, off a + (![1, n] : Fin 2 → Nat) a ≤ S16x4096.size a)
    (h : (⟨1, ![n]⟩ : Shape).numel = (Rect.unit (s := S16x4096) off ![1, n] inb).shape.numel)
    (y : (⟨1, ![n]⟩ : Shape).Idx) :
    (((shW).view.slice (Rect.unit (s := S16x4096) off ![1, n] inb)).reshape ⟨1, ![n]⟩ h).emb y
      = (Rect.unit (s := S16x4096) off ![1, n] inb).emb (ix2 (⟨0, Nat.one_pos⟩ : Fin 1) (y 0)) := by
  show (Rect.unit (s := S16x4096) off ![1, n] inb).emb (Shape.reshapeEquiv h y) = _
  congr 1
  refine Shape.reshapeEquiv_eq_of_rowMajor h ?_
  rw [Shape.rowMajor_val_two, Shape.rowMajor_val_one]
  show 0 * n + (y 0).val = (y 0).val
  omega

/-! ## The windows, by their offsets -/

/-- A 64-word run of the first index buffer, the second, a 64-word and a 512-word window of a row of the shared scratch. -/
abbrev saWin (o : Fin 1 → Nat) (inbo : ∀ a, o a + S64.size a ≤ S512.size a) : Memref sig .scVector .smem S64 .i32 :=
  (saW).slice (Rect.unit (s := S512) o S64.size inbo) (fun _ => rfl)
abbrev sbWin (o : Fin 1 → Nat) (inbo : ∀ a, o a + S64.size a ≤ S512.size a) : Memref sig .scVector .smem S64 .i32 :=
  (sbW).slice (Rect.unit (s := S512) o S64.size inbo) (fun _ => rfl)
abbrev shWin64 (oq : Fin 2 → Nat) (inbq : ∀ a, oq a + S1x64.size a ≤ S16x4096.size a) : Memref sig .scVector .shared S64 .i32 :=
  ((shW).slice (Rect.unit (s := S16x4096) oq S1x64.size inbq) (fun _ => rfl)).squeeze S64 squeezes_S1x64_S64
abbrev shWin512 (os : Fin 2 → Nat) (inbs : ∀ a, os a + S1x512.size a ≤ S16x4096.size a) : Memref sig .scVector .shared S512 .i32 :=
  ((shW).slice (Rect.unit (s := S16x4096) os S1x512.size inbs) (fun _ => rfl)).squeeze S512 squeezes_S1x512_S512

/-! ## The chain, over the windows' offsets -/

omit [FloatOps F] in
/-- Word y of a run of the first index buffer, after the run landed from a 64-word window of the row that itself landed
    inside a 512-word window of the row holding the payload `w`: the payload's word 64 k + y, when the small window
    starts 64 k words into the large one. -/
theorem word_sa (o : Fin 1 → Nat) (inbo : ∀ a, o a + S64.size a ≤ S512.size a)
    (oq os : Fin 2 → Nat) (inbq : ∀ a, oq a + S1x64.size a ≤ S16x4096.size a) (inbs : ∀ a, os a + S1x512.size a ≤ S16x4096.size a)
    (r cq cs k : Nat) (hq : oq = ![r, cq]) (hs : os = ![r, cs]) (hc : cq = cs + 64 * k) (hk : k < 8)
    (prev : Buf (Elt F) ((saW).view.loc (thr d L))) (fsh : Buf (Elt F) ((shW).view.loc (thr d L)))
    (w : S512.Idx → Elt F .i32) (y : S64.Idx) :
    ((saWin o inbo).view.writes (Elt F) prev
        [⟨Rect.whole S64, ReadAs.same.apply
          ((shWin64 oq inbq).view.read (Elt F) ((shWin512 os inbs).view.writes (Elt F) fsh [⟨Rect.whole S512, w⟩]))⟩])
      ((saWin o inbo).view.emb y)
    = w (ix1 (⟨64 * k + (y 0).val, by have h : (y 0).val < 64 := (y 0).isLt; omega⟩ : Fin 512)) := by
  subst hq hs hc
  have hy : (y 0).val < 64 := (y 0).isLt
  -- the run's word is what the run reads: the landed payload's word y
  refine (((View.read_apply (v := (saWin o inbo).view) _ y).trans (cast_eq _ _)).symm).trans ?_
  rw [read_landed]
  -- the payload's word y is the small window's word y of the row
  refine ((View.read_apply (v := (shWin64 ![r, cs + 64 * k] inbq).view) _ y).trans (cast_eq _ _)).trans ?_
  -- which is the large window's word 64 k + y
  have he : (shWin64 ![r, cs + 64 * k] inbq).view.emb y
      = (shWin512 ![r, cs] inbs).view.emb (ix1 (⟨64 * k + (y 0).val, by omega⟩ : Fin 512)) := by
    refine (row_window_emb 64 ![r, cs + 64 * k] inbq squeezes_S1x64_S64.numel_eq y).trans
      (Eq.trans ?_ (row_window_emb 512 ![r, cs] inbs squeezes_S1x512_S512.numel_eq (ix1 (⟨64 * k + (y 0).val, by omega⟩ : Fin 512))).symm)
    funext a
    apply Fin.ext
    match a with
    | ⟨0, _⟩ => rfl
    | ⟨1, _⟩ =>
      show cs + 64 * k + 1 * (y 0).val = cs + 1 * (64 * k + (y 0).val)
      omega
  rw [he]
  -- and the large window's landed payload's word there
  refine (((View.read_apply (v := (shWin512 ![r, cs] inbs).view) _ _).trans (cast_eq _ _)).symm).trans ?_
  exact read_landed _ _ _ _

omit [FloatOps F] in
/-- Word y of a run of the second index buffer, after the run landed from a 64-word window of the row that itself landed
    inside a 512-word window of the row holding the payload `w`: the payload's word 64 k + y, when the small window
    starts 64 k words into the large one. -/
theorem word_sb (o : Fin 1 → Nat) (inbo : ∀ a, o a + S64.size a ≤ S512.size a)
    (oq os : Fin 2 → Nat) (inbq : ∀ a, oq a + S1x64.size a ≤ S16x4096.size a) (inbs : ∀ a, os a + S1x512.size a ≤ S16x4096.size a)
    (r cq cs k : Nat) (hq : oq = ![r, cq]) (hs : os = ![r, cs]) (hc : cq = cs + 64 * k) (hk : k < 8)
    (prev : Buf (Elt F) ((sbW).view.loc (thr d L))) (fsh : Buf (Elt F) ((shW).view.loc (thr d L)))
    (w : S512.Idx → Elt F .i32) (y : S64.Idx) :
    ((sbWin o inbo).view.writes (Elt F) prev
        [⟨Rect.whole S64, ReadAs.same.apply
          ((shWin64 oq inbq).view.read (Elt F) ((shWin512 os inbs).view.writes (Elt F) fsh [⟨Rect.whole S512, w⟩]))⟩])
      ((sbWin o inbo).view.emb y)
    = w (ix1 (⟨64 * k + (y 0).val, by have h : (y 0).val < 64 := (y 0).isLt; omega⟩ : Fin 512)) := by
  subst hq hs hc
  have hy : (y 0).val < 64 := (y 0).isLt
  -- the run's word is what the run reads: the landed payload's word y
  refine (((View.read_apply (v := (sbWin o inbo).view) _ y).trans (cast_eq _ _)).symm).trans ?_
  rw [read_landed]
  -- the payload's word y is the small window's word y of the row
  refine ((View.read_apply (v := (shWin64 ![r, cs + 64 * k] inbq).view) _ y).trans (cast_eq _ _)).trans ?_
  -- which is the large window's word 64 k + y
  have he : (shWin64 ![r, cs + 64 * k] inbq).view.emb y
      = (shWin512 ![r, cs] inbs).view.emb (ix1 (⟨64 * k + (y 0).val, by omega⟩ : Fin 512)) := by
    refine (row_window_emb 64 ![r, cs + 64 * k] inbq squeezes_S1x64_S64.numel_eq y).trans
      (Eq.trans ?_ (row_window_emb 512 ![r, cs] inbs squeezes_S1x512_S512.numel_eq (ix1 (⟨64 * k + (y 0).val, by omega⟩ : Fin 512))).symm)
    funext a
    apply Fin.ext
    match a with
    | ⟨0, _⟩ => rfl
    | ⟨1, _⟩ =>
      show cs + 64 * k + 1 * (y 0).val = cs + 1 * (64 * k + (y 0).val)
      omega
  rw [he]
  -- and the large window's landed payload's word there
  refine (((View.read_apply (v := (shWin512 ![r, cs] inbs).view) _ _).trans (cast_eq _ _)).symm).trans ?_
  exact read_landed _ _ _ _

/-! ## The index columns -/

theorem b0_add_lt (L : grid0.Coords) (n : Nat) (hn : n < 512) : b0 L + n < 16384 := by
  have h1 : (L 1).val < 16 := (L 1).isLt
  have h0 : (L 0).val < 2 := (L 0).isLt
  unfold b0; omega

/-- The task's 512 words of an index column start at the task's first word. -/
theorem cRect_emb (L : grid0.Coords) (n : Nat) (hn : n < 512) :
    (cRect L).emb (ix1 (⟨n, hn⟩ : Fin 512)) = (ix1 (⟨b0 L + n, b0_add_lt L n hn⟩ : Fin 16384) : S16384.Idx) := by
  funext a
  apply Fin.ext
  obtain rfl : a = 0 := Subsingleton.elim _ _
  show k0_off2 L 0 + 1 * n = b0 L + n
  rw [k0_off2_eq L]
  show 1024 * (L 1).val + 512 * (L 0).val + 1 * n = b0 L + n
  unfold b0; omega

omit [FloatOps F] in
/-- Word n of the task's 512 words of index column 0 is the column's word (task's first word) + n. -/
theorem col0_word (n : Nat) (hn : n < 512) :
    (c0S L).view.read (Elt F) (m (c0Loc d)) (ix1 (⟨n, hn⟩ : Fin 512))
      = cols m d ⟨0, by decide⟩ (ix1 (⟨b0 L + n, b0_add_lt L n hn⟩ : Fin 16384)) := by
  refine ((View.read_apply (v := (c0S L).view) _ _).trans (cast_eq _ _)).trans ?_
  show m (c0Loc d) ((cRect L).emb (ix1 (⟨n, hn⟩ : Fin 512))) = m (c0Loc d) (ix1 (⟨b0 L + n, b0_add_lt L n hn⟩ : Fin 16384))
  exact congrArg (m (c0Loc d)) (cRect_emb L n hn)

omit [FloatOps F] in
/-- Word n of the task's 512 words of index column 1 is the column's word (task's first word) + n. -/
theorem col1_word (n : Nat) (hn : n < 512) :
    (c1S L).view.read (Elt F) (m (c1Loc d)) (ix1 (⟨n, hn⟩ : Fin 512))
      = cols m d ⟨1, by decide⟩ (ix1 (⟨b0 L + n, b0_add_lt L n hn⟩ : Fin 16384)) := by
  refine ((View.read_apply (v := (c1S L).view) _ _).trans (cast_eq _ _)).trans ?_
  show m (c1Loc d) ((cRect L).emb (ix1 (⟨n, hn⟩ : Fin 512))) = m (c1Loc d) (ix1 (⟨b0 L + n, b0_add_lt L n hn⟩ : Fin 16384))
  exact congrArg (m (c1Loc d)) (cRect_emb L n hn)

omit [FloatOps F] in
/-- Word n of the task's 512 words of index column 2 is the column's word (task's first word) + n. -/
theorem col2_word (n : Nat) (hn : n < 512) :
    (c2S L).view.read (Elt F) (m (c2Loc d)) (ix1 (⟨n, hn⟩ : Fin 512))
      = cols m d ⟨2, by decide⟩ (ix1 (⟨b0 L + n, b0_add_lt L n hn⟩ : Fin 16384)) := by
  refine ((View.read_apply (v := (c2S L).view) _ _).trans (cast_eq _ _)).trans ?_
  show m (c2Loc d) ((cRect L).emb (ix1 (⟨n, hn⟩ : Fin 512))) = m (c2Loc d) (ix1 (⟨b0 L + n, b0_add_lt L n hn⟩ : Fin 16384))
  exact congrArg (m (c2Loc d)) (cRect_emb L n hn)

omit [FloatOps F] in
/-- Word n of the task's 512 words of index column 3 is the column's word (task's first word) + n. -/
theorem col3_word (n : Nat) (hn : n < 512) :
    (c3S L).view.read (Elt F) (m (c3Loc d)) (ix1 (⟨n, hn⟩ : Fin 512))
      = cols m d ⟨3, by decide⟩ (ix1 (⟨b0 L + n, b0_add_lt L n hn⟩ : Fin 16384)) := by
  refine ((View.read_apply (v := (c3S L).view) _ _).trans (cast_eq _ _)).trans ?_
  show m (c3Loc d) ((cRect L).emb (ix1 (⟨n, hn⟩ : Fin 512))) = m (c3Loc d) (ix1 (⟨b0 L + n, b0_add_lt L n hn⟩ : Fin 16384))
  exact congrArg (m (c3Loc d)) (cRect_emb L n hn)

omit [FloatOps F] in
/-- Word n of the task's 512 words of index column 4 is the column's word (task's first word) + n. -/
theorem col4_word (n : Nat) (hn : n < 512) :
    (c4S L).view.read (Elt F) (m (c4Loc d)) (ix1 (⟨n, hn⟩ : Fin 512))
      = cols m d ⟨4, by decide⟩ (ix1 (⟨b0 L + n, b0_add_lt L n hn⟩ : Fin 16384)) := by
  refine ((View.read_apply (v := (c4S L).view) _ _).trans (cast_eq _ _)).trans ?_
  show m (c4Loc d) ((cRect L).emb (ix1 (⟨n, hn⟩ : Fin 512))) = m (c4Loc d) (ix1 (⟨b0 L + n, b0_add_lt L n hn⟩ : Fin 16384))
  exact congrArg (m (c4Loc d)) (cRect_emb L n hn)

omit [FloatOps F] in
/-- Word n of the task's 512 words of index column 5 is the column's word (task's first word) + n. -/
theorem col5_word (n : Nat) (hn : n < 512) :
    (c5S L).view.read (Elt F) (m (c5Loc d)) (ix1 (⟨n, hn⟩ : Fin 512))
      = cols m d ⟨5, by decide⟩ (ix1 (⟨b0 L + n, b0_add_lt L n hn⟩ : Fin 16384)) := by
  refine ((View.read_apply (v := (c5S L).view) _ _).trans (cast_eq _ _)).trans ?_
  show m (c5Loc d) ((cRect L).emb (ix1 (⟨n, hn⟩ : Fin 512))) = m (c5Loc d) (ix1 (⟨b0 L + n, b0_add_lt L n hn⟩ : Fin 16384))
  exact congrArg (m (c5Loc d)) (cRect_emb L n hn)

omit [FloatOps F] in
/-- Word n of the task's 512 words of index column 6 is the column's word (task's first word) + n. -/
theorem col6_word (n : Nat) (hn : n < 512) :
    (c6S L).view.read (Elt F) (m (c6Loc d)) (ix1 (⟨n, hn⟩ : Fin 512))
      = cols m d ⟨6, by decide⟩ (ix1 (⟨b0 L + n, b0_add_lt L n hn⟩ : Fin 16384)) := by
  refine ((View.read_apply (v := (c6S L).view) _ _).trans (cast_eq _ _)).trans ?_
  show m (c6Loc d) ((cRect L).emb (ix1 (⟨n, hn⟩ : Fin 512))) = m (c6Loc d) (ix1 (⟨b0 L + n, b0_add_lt L n hn⟩ : Fin 16384))
  exact congrArg (m (c6Loc d)) (cRect_emb L n hn)

omit [FloatOps F] in
/-- Word n of the task's 512 words of index column 7 is the column's word (task's first word) + n. -/
theorem col7_word (n : Nat) (hn : n < 512) :
    (c7S L).view.read (Elt F) (m (c7Loc d)) (ix1 (⟨n, hn⟩ : Fin 512))
      = cols m d ⟨7, by decide⟩ (ix1 (⟨b0 L + n, b0_add_lt L n hn⟩ : Fin 16384)) := by
  refine ((View.read_apply (v := (c7S L).view) _ _).trans (cast_eq _ _)).trans ?_
  show m (c7Loc d) ((cRect L).emb (ix1 (⟨n, hn⟩ : Fin 512))) = m (c7Loc d) (ix1 (⟨b0 L + n, b0_add_lt L n hn⟩ : Fin 16384))
  exact congrArg (m (c7Loc d)) (cRect_emb L n hn)

/-! ## The index buffer's words, from the columns -/

omit [FloatOps F] in
theorem cols_congr (a a' : Fin 8) (n n' : Fin 16384) (ha : a = a') (hn : n = n') :
    cols m d a (ix1 n) = cols m d a' (ix1 n') := by
  subst ha hn; rfl

omit [FloatOps F] in
/-- Chunk k's word at position 64 j + y of the index buffer is column j's word (task's first word) + 64 k + y. -/
theorem SMsem_at (kn : Nat) (hk : kn < 8) (jn : Nat) (hj : jn < 8) (i : S512.Idx) (y0 : Nat) (hy : y0 < 64)
    (hi : (i 0).val = 64 * jn + y0) :
    SMsem m d L ⟨kn, hk⟩ i = cols m d ⟨jn, hj⟩ (ix1 (⟨b0 L + (64 * kn + y0), b0_add_lt L _ (by omega)⟩ : Fin 16384)) := by
  unfold SMsem
  exact cols_congr m d _ _ _ _ (Fin.ext (by show (i 0).val / 64 = jn; omega))
    (Fin.ext (by show b0 L + 64 * kn + (i 0).val % 64 = b0 L + (64 * kn + y0); omega))

end StageVal

end Cert.Proof.KI

end
-- ==== Proof.KI.OutVal.lean ====
/-
  What a chunk's write-out puts in the flat result.

  Chunk k's staging buffer, once its 64 rows are filled, is copied whole onto the 16384 entries of the flat result
  starting at 256·(task's first row + 64 k). Row t, entry 32 j + e of the staging buffer is the table at
  32·word + 1024 j + e for the word of column j at row (task's first row + 64 k + t); that is the flat result's
  specified value at 256·(that row) + 32 j + e. (The word is below 32, so neither reduction changes it.)
-/
import proofs.«204821_g30846455120635_fold_wed_m_1292_33_alg».proof.Proof.KI.TripGen
import proofs.«204821_g30846455120635_fold_wed_m_1292_33_alg».proof.Proof.KI.StageGen
import proofs.«204821_g30846455120635_fold_wed_m_1292_33_alg».proof.Proof.KI.HostVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section OutVal
variable (d : Dev nD) (L : grid0.Coords)

theorem out_congr (TV : S8192.Idx → Elt F .f32) (w w' : BitVec 32) (hw : w' = w) (hlt : w.toNat < 32) (j e J E : Nat)
    (hJ : J = j) (hE : E = e) (hj : j < 8) (he : e < 32) (p : 1024 * J + 32 * (w'.toNat % 32) + E < 8192) :
    TV (ix1 (⟨(32 * w.toNat + 1024 * j + e) % 8192, Nat.mod_lt _ (by decide)⟩ : Fin 8192))
      = TV (ix1 (⟨1024 * J + 32 * (w'.toNat % 32) + E, p⟩ : Fin 8192)) := by
  subst hw hJ hE
  refine congrArg TV (congrArg (fun k : Fin 8192 => (ix1 k : S8192.Idx)) (Fin.ext ?_))
  show (32 * w'.toNat + 1024 * J + E) % 8192 = 1024 * J + 32 * (w'.toNat % 32) + E
  omega

/-- Row t, entry 32 j + e of chunk k's filled staging buffer is the flat result's value at the chunk's row t. -/
theorem out_entry (k : Nat) (hk : k < 8) (TAB : S8192.Idx → Elt F .f32) (hpre : PreOK m) (t j e : Nat) (ht : t < 64) (hj : j < 8)
    (he : e < 32) (h1 : 256 * t + 32 * j + e < 16384) (h2 : 256 * (b0 L + 64 * k + t) + (32 * j + e) < 4194304) :
    rowVal (SMsem m d L ⟨k, hk⟩) TAB (ix1 (⟨256 * t + 32 * j + e, h1⟩ : Fin 16384))
      = OUTof TAB (cols m d) (ix1 (⟨256 * (b0 L + 64 * k + t) + (32 * j + e), h2⟩ : Fin 4194304)) := by
  have hb : b0 L + 64 * k + t < 16384 := by have := b0_add_lt L (64 * k + t) (by omega); omega
  rw [rowVal_at _ TAB t j e ht hj he h1]
  refine Eq.trans ?_ (OUTof_apply TAB (cols m d) ⟨b0 L + 64 * k + t, hb⟩ ⟨32 * j + e, by omega⟩).symm
  have hwd := SMsem_at m d L k hk j hj (ix1 (⟨64 * j + t, by omega⟩ : Fin 512)) t ht rfl
  have hw2 : cols m d ⟨(32 * j + e) / 32, by omega⟩ (ix1 (⟨b0 L + 64 * k + t, hb⟩ : Fin 16384))
      = SMsem m d L ⟨k, hk⟩ (ix1 (⟨64 * j + t, by omega⟩ : Fin 512)) :=
    (cols_congr m d _ _ _ _ (Fin.ext (by show (32 * j + e) / 32 = j; omega))
      (Fin.ext (by show b0 L + 64 * k + t = b0 L + (64 * k + t); omega))).trans hwd.symm
  exact out_congr TAB _ _ hw2 (SMsem_lt m d L hpre ⟨k, hk⟩ _) j e _ _ (by show (32 * j + e) / 32 = j; omega)
    (by show (32 * j + e) % 32 = e; omega) hj he _

/-- Entry y of chunk k's filled staging buffer is the flat result's value at the chunk's entry y. -/
theorem out_chunk_generic (k : Nat) (hk : k < 8) (TAB : S8192.Idx → Elt F .f32) (g : S16384.Idx → Elt F .f32)
    (hfill : Filled (SMsem m d L ⟨k, hk⟩) TAB 64 g) (hpre : PreOK m) (y : S16384.Idx) (x : S4194304.Idx)
    (hx : (x 0).val = 256 * (b0 L + 64 * k) + (y 0).val) : g y = OUTof TAB (cols m d) x := by
  have hy : (y 0).val < 16384 := (y 0).isLt
  have hxl : (x 0).val < 4194304 := (x 0).isLt
  rw [hfill y (by omega)]
  have ey : y = ix1 (⟨256 * ((y 0).val / 256) + 32 * ((y 0).val % 256 / 32) + (y 0).val % 32, by omega⟩ : Fin 16384) :=
    (eq_ix1 y).trans (congrArg (fun k : Fin 16384 => (ix1 k : S16384.Idx)) (Fin.ext (by
      show (y 0).val = 256 * ((y 0).val / 256) + 32 * ((y 0).val % 256 / 32) + (y 0).val % 32; omega)))
  have ex : x = ix1 (⟨256 * (b0 L + 64 * k + (y 0).val / 256) + (32 * ((y 0).val % 256 / 32) + (y 0).val % 32), by omega⟩ : Fin 4194304) :=
    (eq_ix1 x).trans (congrArg (fun k : Fin 4194304 => (ix1 k : S4194304.Idx)) (Fin.ext (by
      show (x 0).val = 256 * (b0 L + 64 * k + (y 0).val / 256) + (32 * ((y 0).val % 256 / 32) + (y 0).val % 32); omega)))
  refine (congrArg (rowVal (SMsem m d L ⟨k, hk⟩) TAB) ey).trans (Eq.trans ?_ (congrArg (OUTof TAB (cols m d)) ex).symm)
  exact out_entry m d L k hk TAB hpre ((y 0).val / 256) ((y 0).val % 256 / 32) ((y 0).val % 32) (by omega) (by omega) (by omega) _ _

/-- Chunk 0's write-out: on its 16384 entries the flat result holds its specified values. -/
theorem out_chunk_val0 (TAB : Buf (Elt F) (tabLoc d)) (g : Buf (Elt F) ((baW).view.loc (thr d L)))
    (hfill : Filled (SMsem m d L 0) TAB 64 g) (hpre : PreOK m) (fou : Buf (Elt F) (outLoc d)) :
    ∀ i ∈ (ou0S L).view.set,
      ((ou0S L).view.writes (Elt F) fou [⟨Rect.whole S16384, ReadAs.same.apply ((baW).view.read (Elt F) g)⟩]) i
        = OUTof TAB (cols m d) i := by
  intro i hi
  obtain ⟨y, -, rfl⟩ := Finset.mem_map.mp hi
  refine (((View.read_apply (v := (ou0S L).view) _ y).trans (cast_eq _ _)).symm).trans ?_
  rw [read_landed]
  show g y = _
  refine out_chunk_generic m d L 0 (by decide) TAB g hfill hpre y _ ?_
  have e : k0_off50 L 0#32 0 = 262144 * (L 1).val + 131072 * (L 0).val + 16384 * 0 :=
    congrFun (k0_off50_eq L ⟨0, by decide⟩) 0
  show k0_off50 L 0#32 0 + 1 * (y 0).val = 256 * (b0 L + 64 * 0) + (y 0).val
  unfold b0
  omega

/-- Chunk 1's write-out: on its 16384 entries the flat result holds its specified values. -/
theorem out_chunk_val1 (TAB : Buf (Elt F) (tabLoc d)) (g : Buf (Elt F) ((bbW).view.loc (thr d L)))
    (hfill : Filled (SMsem m d L 1) TAB 64 g) (hpre : PreOK m) (fou : Buf (Elt F) (outLoc d)) :
    ∀ i ∈ (ou1S L).view.set,
      ((ou1S L).view.writes (Elt F) fou [⟨Rect.whole S16384, ReadAs.same.apply ((bbW).view.read (Elt F) g)⟩]) i
        = OUTof TAB (cols m d) i := by
  intro i hi
  obtain ⟨y, -, rfl⟩ := Finset.mem_map.mp hi
  refine (((View.read_apply (v := (ou1S L).view) _ y).trans (cast_eq _ _)).symm).trans ?_
  rw [read_landed]
  show g y = _
  refine out_chunk_generic m d L 1 (by decide) TAB g hfill hpre y _ ?_
  have e : k0_off50 L 64#32 0 = 262144 * (L 1).val + 131072 * (L 0).val + 16384 * 1 :=
    congrFun (k0_off50_eq L ⟨1, by decide⟩) 0
  show k0_off50 L 64#32 0 + 1 * (y 0).val = 256 * (b0 L + 64 * 1) + (y 0).val
  unfold b0
  omega

/-- Chunk 2's write-out: on its 16384 entries the flat result holds its specified values. -/
theorem out_chunk_val2 (TAB : Buf (Elt F) (tabLoc d)) (g : Buf (Elt F) ((baW).view.loc (thr d L)))
    (hfill : Filled (SMsem m d L 2) TAB 64 g) (hpre : PreOK m) (fou : Buf (Elt F) (outLoc d)) :
    ∀ i ∈ (ou2S L).view.set,
      ((ou2S L).view.writes (Elt F) fou [⟨Rect.whole S16384, ReadAs.same.apply ((baW).view.read (Elt F) g)⟩]) i
        = OUTof TAB (cols m d) i := by
  intro i hi
  obtain ⟨y, -, rfl⟩ := Finset.mem_map.mp hi
  refine (((View.read_apply (v := (ou2S L).view) _ y).trans (cast_eq _ _)).symm).trans ?_
  rw [read_landed]
  show g y = _
  refine out_chunk_generic m d L 2 (by decide) TAB g hfill hpre y _ ?_
  have e : k0_off50 L 128#32 0 = 262144 * (L 1).val + 131072 * (L 0).val + 16384 * 2 :=
    congrFun (k0_off50_eq L ⟨2, by decide⟩) 0
  show k0_off50 L 128#32 0 + 1 * (y 0).val = 256 * (b0 L + 64 * 2) + (y 0).val
  unfold b0
  omega

/-- Chunk 3's write-out: on its 16384 entries the flat result holds its specified values. -/
theorem out_chunk_val3 (TAB : Buf (Elt F) (tabLoc d)) (g : Buf (Elt F) ((bbW).view.loc (thr d L)))
    (hfill : Filled (SMsem m d L 3) TAB 64 g) (hpre : PreOK m) (fou : Buf (Elt F) (outLoc d)) :
    ∀ i ∈ (ou3S L).view.set,
      ((ou3S L).view.writes (Elt F) fou [⟨Rect.whole S16384, ReadAs.same.apply ((bbW).view.read (Elt F) g)⟩]) i
        = OUTof TAB (cols m d) i := by
  intro i hi
  obtain ⟨y, -, rfl⟩ := Finset.mem_map.mp hi
  refine (((View.read_apply (v := (ou3S L).view) _ y).trans (cast_eq _ _)).symm).trans ?_
  rw [read_landed]
  show g y = _
  refine out_chunk_generic m d L 3 (by decide) TAB g hfill hpre y _ ?_
  have e : k0_off50 L 192#32 0 = 262144 * (L 1).val + 131072 * (L 0).val + 16384 * 3 :=
    congrFun (k0_off50_eq L ⟨3, by decide⟩) 0
  show k0_off50 L 192#32 0 + 1 * (y 0).val = 256 * (b0 L + 64 * 3) + (y 0).val
  unfold b0
  omega

/-- Chunk 4's write-out: on its 16384 entries the flat result holds its specified values. -/
theorem out_chunk_val4 (TAB : Buf (Elt F) (tabLoc d)) (g : Buf (Elt F) ((baW).view.loc (thr d L)))
    (hfill : Filled (SMsem m d L 4) TAB 64 g) (hpre : PreOK m) (fou : Buf (Elt F) (outLoc d)) :
    ∀ i ∈ (ou4S L).view.set,
      ((ou4S L).view.writes (Elt F) fou [⟨Rect.whole S16384, ReadAs.same.apply ((baW).view.read (Elt F) g)⟩]) i
        = OUTof TAB (cols m d) i := by
  intro i hi
  obtain ⟨y, -, rfl⟩ := Finset.mem_map.mp hi
  refine (((View.read_apply (v := (ou4S L).view) _ y).trans (cast_eq _ _)).symm).trans ?_
  rw [read_landed]
  show g y = _
  refine out_chunk_generic m d L 4 (by decide) TAB g hfill hpre y _ ?_
  have e : k0_off50 L 256#32 0 = 262144 * (L 1).val + 131072 * (L 0).val + 16384 * 4 :=
    congrFun (k0_off50_eq L ⟨4, by decide⟩) 0
  show k0_off50 L 256#32 0 + 1 * (y 0).val = 256 * (b0 L + 64 * 4) + (y 0).val
  unfold b0
  omega

/-- Chunk 5's write-out: on its 16384 entries the flat result holds its specified values. -/
theorem out_chunk_val5 (TAB : Buf (Elt F) (tabLoc d)) (g : Buf (Elt F) ((bbW).view.loc (thr d L)))
    (hfill : Filled (SMsem m d L 5) TAB 64 g) (hpre : PreOK m) (fou : Buf (Elt F) (outLoc d)) :
    ∀ i ∈ (ou5S L).view.set,
      ((ou5S L).view.writes (Elt F) fou [⟨Rect.whole S16384, ReadAs.same.apply ((bbW).view.read (Elt F) g)⟩]) i
        = OUTof TAB (cols m d) i := by
  intro i hi
  obtain ⟨y, -, rfl⟩ := Finset.mem_map.mp hi
  refine (((View.read_apply (v := (ou5S L).view) _ y).trans (cast_eq _ _)).symm).trans ?_
  rw [read_landed]
  show g y = _
  refine out_chunk_generic m d L 5 (by decide) TAB g hfill hpre y _ ?_
  have e : k0_off50 L 320#32 0 = 262144 * (L 1).val + 131072 * (L 0).val + 16384 * 5 :=
    congrFun (k0_off50_eq L ⟨5, by decide⟩) 0
  show k0_off50 L 320#32 0 + 1 * (y 0).val = 256 * (b0 L + 64 * 5) + (y 0).val
  unfold b0
  omega

/-- Chunk 6's write-out: on its 16384 entries the flat result holds its specified values. -/
theorem out_chunk_val6 (TAB : Buf (Elt F) (tabLoc d)) (g : Buf (Elt F) ((baW).view.loc (thr d L)))
    (hfill : Filled (SMsem m d L 6) TAB 64 g) (hpre : PreOK m) (fou : Buf (Elt F) (outLoc d)) :
    ∀ i ∈ (ou6S L).view.set,
      ((ou6S L).view.writes (Elt F) fou [⟨Rect.whole S16384, ReadAs.same.apply ((baW).view.read (Elt F) g)⟩]) i
        = OUTof TAB (cols m d) i := by
  intro i hi
  obtain ⟨y, -, rfl⟩ := Finset.mem_map.mp hi
  refine (((View.read_apply (v := (ou6S L).view) _ y).trans (cast_eq _ _)).symm).trans ?_
  rw [read_landed]
  show g y = _
  refine out_chunk_generic m d L 6 (by decide) TAB g hfill hpre y _ ?_
  have e : k0_off50 L 384#32 0 = 262144 * (L 1).val + 131072 * (L 0).val + 16384 * 6 :=
    congrFun (k0_off50_eq L ⟨6, by decide⟩) 0
  show k0_off50 L 384#32 0 + 1 * (y 0).val = 256 * (b0 L + 64 * 6) + (y 0).val
  unfold b0
  omega

/-- Chunk 7's write-out: on its 16384 entries the flat result holds its specified values. -/
theorem out_chunk_val7 (TAB : Buf (Elt F) (tabLoc d)) (g : Buf (Elt F) ((bbW).view.loc (thr d L)))
    (hfill : Filled (SMsem m d L 7) TAB 64 g) (hpre : PreOK m) (fou : Buf (Elt F) (outLoc d)) :
    ∀ i ∈ (ou7S L).view.set,
      ((ou7S L).view.writes (Elt F) fou [⟨Rect.whole S16384, ReadAs.same.apply ((bbW).view.read (Elt F) g)⟩]) i
        = OUTof TAB (cols m d) i := by
  intro i hi
  obtain ⟨y, -, rfl⟩ := Finset.mem_map.mp hi
  refine (((View.read_apply (v := (ou7S L).view) _ y).trans (cast_eq _ _)).symm).trans ?_
  rw [read_landed]
  show g y = _
  refine out_chunk_generic m d L 7 (by decide) TAB g hfill hpre y _ ?_
  have e : k0_off50 L 448#32 0 = 262144 * (L 1).val + 131072 * (L 0).val + 16384 * 7 :=
    congrFun (k0_off50_eq L ⟨7, by decide⟩) 0
  show k0_off50 L 448#32 0 + 1 * (y 0).val = 256 * (b0 L + 64 * 7) + (y 0).val
  unfold b0
  omega

end OutVal

end Cert.Proof.KI

end
-- ==== Proof.KI.Body.lean ====
/-
  The task of one vector subcore: the three transfer batches that start before any wait (the eight index columns'
  512 words into the row of the shared scratch; the first two chunks' index words into the two scalar-memory buffers),
  the table's copy, and for each of the eight chunks: the next-but-one chunk's index words started, this chunk's waited
  for, the staging buffer filled row by row (the loop, by its invariant), the chunk written out. Every buffer's contents
  are carried through: the index buffer of chunk k holds words 512·w + 64·k … of the eight columns, the staging buffer
  after the loop holds the looked-up rows, the chunk of the result holds the lookup's value.
-/
import proofs.«204821_g30846455120635_fold_wed_m_1292_33_alg».proof.Proof.KI.Setup
import proofs.«204821_g30846455120635_fold_wed_m_1292_33_alg».proof.Proof.KI.Fill
import proofs.«204821_g30846455120635_fold_wed_m_1292_33_alg».proof.Proof.KI.TileSets
import proofs.«204821_g30846455120635_fold_wed_m_1292_33_alg».proof.Proof.KI.Own
import proofs.«204821_g30846455120635_fold_wed_m_1292_33_alg».proof.Proof.KI.Chk
import proofs.«204821_g30846455120635_fold_wed_m_1292_33_alg».proof.Proof.KI.Trips
import proofs.«204821_g30846455120635_fold_wed_m_1292_33_alg».proof.Proof.KI.OutVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

section Body
variable (d : Dev nD) (L : grid0.Coords)

end Body

set_option maxHeartbeats 4000000 in
theorem tile_body (hv0 : ∀ d L, StageVal0 (F := F) m d L) (hv1 : ∀ d L, StageVal1 (F := F) m d L) (hv2 : ∀ d L, StageVal2 (F := F) m d L) (hv3 : ∀ d L, StageVal3 (F := F) m d L) (hv4 : ∀ d L, StageVal4 (F := F) m d L) (hv5 : ∀ d L, StageVal5 (F := F) m d L) (hv6 : ∀ d L, StageVal6 (F := F) m d L) (hv7 : ∀ d L, StageVal7 (F := F) m d L) : TileBodyStmt m := by
  intro hpre d L O W hO qt TAB
  have hd2 : 2 < (sig : RefSig).nDmaSem := by decide
  have hd3 : 3 < (sig : RefSig).nDmaSem := by decide
  unfold tileGo tileTd
  rw [cc0__body_eq_skeleton]; unfold cc0__body_skel
  rw [(K (F := F)).scopedBufs_V facts d (cV L) (jV L), SparseCore.Cfg.scopedSems0_V (Val := Elt F) d (cV L) (jV L), ownSems0_V, ownBufs_V]
  iintro ⟨#Hlv, -, ⟨Hc0, Hc1, Hc2, Hc3, Hc4, Hc5, Hc6, Hc7, Htb, Ho0, Ho1, Ho2, Ho3, Ho4, Ho5, Ho6, Ho7, %fsh, Hp0, Hp1, Hp2, Hp3, Hp4, Hp5, Hp6, Hp7⟩,
    ⟨⟨%ftv, Htv⟩, ⟨%fsa, Hsa⟩, ⟨%fsb, Hsb⟩, ⟨%fba, Hba⟩, ⟨%fbb, Hbb⟩, Hbufs⟩, ⟨Hs6, Hs7, Hs8, Hs9, Hs10, Hs11, Hsems⟩, HO⟩
  ihave Hmw := ((K (F := F)).mayWaits_none (thr := thr d L) hO) $$ Hlv
  ihave Htv := (Entails.of_eq (pts_tvW (F := F) d L _).symm) $$ Htv
  ihave Hsa := (Entails.of_eq (pts_saW (F := F) d L _).symm) $$ Hsa
  ihave Hsb := (Entails.of_eq (pts_sbW (F := F) d L _).symm) $$ Hsb
  ihave Hba := (Entails.of_eq (pts_baW (F := F) d L _).symm) $$ Hba
  ihave Hbb := (Entails.of_eq (pts_bbW (F := F) d L _).symm) $$ Hbb
  -- the two index buffers as their eight runs, the three batches that start before any wait
  ihave Hsa' := (Entails.of_eq (split_sa (F := F) d L _)) $$ Hsa
  icases Hsa' with ⟨Hsa0, Hsa1, Hsa2, Hsa3, Hsa4, Hsa5, Hsa6, Hsa7⟩
  ihave Hsb' := (Entails.of_eq (split_sb (F := F) d L _)) $$ Hsb
  icases Hsb' with ⟨Hsb0, Hsb1, Hsb2, Hsb3, Hsb4, Hsb5, Hsb6, Hsb7⟩
  imod (Transfers.batch_alloc' (Lvl := ℕ) (countersEmb (U := UU)) (thr d L) (none : HIx 1) (NI L) (dlvI d L (m (c0Loc d)) (m (c1Loc d)) (m (c2Loc d)) (m (c3Loc d)) (m (c4Loc d)) (m (c5Loc d)) (m (c6Loc d)) (m (c7Loc d)) fsh) (sm := .dma cc0_scratch7.sem) (E := Set.univ)) $$ Hs7 with HI
  imod (Transfers.batch_alloc' (Lvl := ℕ) (countersEmb (U := UU)) (thr d L) (none : HIx 1) NS (dlvS0 d L (m (c0Loc d)) (m (c1Loc d)) (m (c2Loc d)) (m (c3Loc d)) (m (c4Loc d)) (m (c5Loc d)) (m (c6Loc d)) (m (c7Loc d)) fsh fsa) (sm := .dma cc0_scratch8.sem) (E := Set.univ)) $$ Hs8 with HA
  imod (Transfers.batch_alloc' (Lvl := ℕ) (countersEmb (U := UU)) (thr d L) (none : HIx 1) NS (dlvS1 d L (m (c0Loc d)) (m (c1Loc d)) (m (c2Loc d)) (m (c3Loc d)) (m (c4Loc d)) (m (c5Loc d)) (m (c6Loc d)) (m (c7Loc d)) fsh fsb) (sm := .dma cc0_scratch9.sem) (E := Set.univ)) $$ Hs9 with HC
  sl_exec
  -- the eight pieces of the row, each as its eight runs of 64 words
  ihave Hq_0 := (Entails.of_eq (split_sh0 (F := F) d L _)) $$ HI_dst0
  icases Hq_0 with ⟨Hq0_0, Hq1_0, Hq2_0, Hq3_0, Hq4_0, Hq5_0, Hq6_0, Hq7_0⟩
  ihave Hq_1 := (Entails.of_eq (split_sh1 (F := F) d L _)) $$ HI_dst1
  icases Hq_1 with ⟨Hq0_1, Hq1_1, Hq2_1, Hq3_1, Hq4_1, Hq5_1, Hq6_1, Hq7_1⟩
  ihave Hq_2 := (Entails.of_eq (split_sh2 (F := F) d L _)) $$ HI_dst2
  icases Hq_2 with ⟨Hq0_2, Hq1_2, Hq2_2, Hq3_2, Hq4_2, Hq5_2, Hq6_2, Hq7_2⟩
  ihave Hq_3 := (Entails.of_eq (split_sh3 (F := F) d L _)) $$ HI_dst3
  icases Hq_3 with ⟨Hq0_3, Hq1_3, Hq2_3, Hq3_3, Hq4_3, Hq5_3, Hq6_3, Hq7_3⟩
  ihave Hq_4 := (Entails.of_eq (split_sh4 (F := F) d L _)) $$ HI_dst4
  icases Hq_4 with ⟨Hq0_4, Hq1_4, Hq2_4, Hq3_4, Hq4_4, Hq5_4, Hq6_4, Hq7_4⟩
  ihave Hq_5 := (Entails.of_eq (split_sh5 (F := F) d L _)) $$ HI_dst5
  icases Hq_5 with ⟨Hq0_5, Hq1_5, Hq2_5, Hq3_5, Hq4_5, Hq5_5, Hq6_5, Hq7_5⟩
  ihave Hq_6 := (Entails.of_eq (split_sh6 (F := F) d L _)) $$ HI_dst6
  icases Hq_6 with ⟨Hq0_6, Hq1_6, Hq2_6, Hq3_6, Hq4_6, Hq5_6, Hq6_6, Hq7_6⟩
  ihave Hq_7 := (Entails.of_eq (split_sh7 (F := F) d L _)) $$ HI_dst7
  icases Hq_7 with ⟨Hq0_7, Hq1_7, Hq2_7, Hq3_7, Hq4_7, Hq5_7, Hq6_7, Hq7_7⟩
  sl_exec
  -- the table has landed in its scratch
  ihave Htv := (Entails.of_eq (pointsTo_congr (fun i _ => congrFun (tv_landed (F := F) d L ftv TAB) i))) $$ Htv

  -- chunk 0's index words have landed: the index buffer whole, at the chunk's words
  ihave Hsa0 := (Entails.of_eq (pointsTo_congr (fun i hi => hv0 d L fsh fsa 0 i (set_sa0P ▸ hi)))) $$ HA_dst0
  ihave Hsa1 := (Entails.of_eq (pointsTo_congr (fun i hi => hv0 d L fsh fsa 1 i (set_sa1P ▸ hi)))) $$ HA_dst1
  ihave Hsa2 := (Entails.of_eq (pointsTo_congr (fun i hi => hv0 d L fsh fsa 2 i (set_sa2P ▸ hi)))) $$ HA_dst2
  ihave Hsa3 := (Entails.of_eq (pointsTo_congr (fun i hi => hv0 d L fsh fsa 3 i (set_sa3P ▸ hi)))) $$ HA_dst3
  ihave Hsa4 := (Entails.of_eq (pointsTo_congr (fun i hi => hv0 d L fsh fsa 4 i (set_sa4P ▸ hi)))) $$ HA_dst4
  ihave Hsa5 := (Entails.of_eq (pointsTo_congr (fun i hi => hv0 d L fsh fsa 5 i (set_sa5P ▸ hi)))) $$ HA_dst5
  ihave Hsa6 := (Entails.of_eq (pointsTo_congr (fun i hi => hv0 d L fsh fsa 6 i (set_sa6P ▸ hi)))) $$ HA_dst6
  ihave Hsa7 := (Entails.of_eq (pointsTo_congr (fun i hi => hv0 d L fsh fsa 7 i (set_sa7P ▸ hi)))) $$ HA_dst7
  ihave Hsa := (Entails.of_eq (split_sa (F := F) d L (SMsem m d L 0)).symm) $$ [Hsa0 Hsa1 Hsa2 Hsa3 Hsa4 Hsa5 Hsa6 Hsa7]
  · isplitl [Hsa0]; · iexact Hsa0
    isplitl [Hsa1]; · iexact Hsa1
    isplitl [Hsa2]; · iexact Hsa2
    isplitl [Hsa3]; · iexact Hsa3
    isplitl [Hsa4]; · iexact Hsa4
    isplitl [Hsa5]; · iexact Hsa5
    isplitl [Hsa6]; · iexact Hsa6
    iexact Hsa7
  sl_for (inva m d L 0 TAB) $$ [Hsa Htv Hba]
  case region =>
    intro t acc
    exact trip0 m hpre d L TAB t acc
  · unfold inva
    isplitl [Hsa]; · iexact Hsa
    isplitl [Htv]; · iexact Htv
    iexists _
    isplitl [Hba]; · iexact Hba
    ipureintro; exact filled_zero _ _ _
  iintro %_ HI'
  unfold inva
  icases HI' with ⟨Hsa, Htv, %g0, Hba, %hfill0⟩
  -- the index buffer as its eight runs again, for stage 2
  ihave Hsa' := (Entails.of_eq (split_sa (F := F) d L _)) $$ Hsa
  icases Hsa' with ⟨Hsa0, Hsa1, Hsa2, Hsa3, Hsa4, Hsa5, Hsa6, Hsa7⟩
  imod (Transfers.batch_alloc' (Lvl := ℕ) (countersEmb (U := UU)) (thr d L) (none : HIx 1) NS (dlvS2 d L (m (c0Loc d)) (m (c1Loc d)) (m (c2Loc d)) (m (c3Loc d)) (m (c4Loc d)) (m (c5Loc d)) (m (c6Loc d)) (m (c7Loc d)) fsh (SMsem m d L 0)) (sm := .dma (⟨2, hd2⟩ : DmaSem sig)) (E := Set.univ)) $$ HA with HA
  sl_exec

  -- chunk 1's index words have landed: the index buffer whole, at the chunk's words
  ihave Hsb0 := (Entails.of_eq (pointsTo_congr (fun i hi => hv1 d L fsh fsb 0 i (set_sb0P ▸ hi)))) $$ HC_dst0
  ihave Hsb1 := (Entails.of_eq (pointsTo_congr (fun i hi => hv1 d L fsh fsb 1 i (set_sb1P ▸ hi)))) $$ HC_dst1
  ihave Hsb2 := (Entails.of_eq (pointsTo_congr (fun i hi => hv1 d L fsh fsb 2 i (set_sb2P ▸ hi)))) $$ HC_dst2
  ihave Hsb3 := (Entails.of_eq (pointsTo_congr (fun i hi => hv1 d L fsh fsb 3 i (set_sb3P ▸ hi)))) $$ HC_dst3
  ihave Hsb4 := (Entails.of_eq (pointsTo_congr (fun i hi => hv1 d L fsh fsb 4 i (set_sb4P ▸ hi)))) $$ HC_dst4
  ihave Hsb5 := (Entails.of_eq (pointsTo_congr (fun i hi => hv1 d L fsh fsb 5 i (set_sb5P ▸ hi)))) $$ HC_dst5
  ihave Hsb6 := (Entails.of_eq (pointsTo_congr (fun i hi => hv1 d L fsh fsb 6 i (set_sb6P ▸ hi)))) $$ HC_dst6
  ihave Hsb7 := (Entails.of_eq (pointsTo_congr (fun i hi => hv1 d L fsh fsb 7 i (set_sb7P ▸ hi)))) $$ HC_dst7
  ihave Hsb := (Entails.of_eq (split_sb (F := F) d L (SMsem m d L 1)).symm) $$ [Hsb0 Hsb1 Hsb2 Hsb3 Hsb4 Hsb5 Hsb6 Hsb7]
  · isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    iexact Hsb7
  sl_for (invb m d L 1 TAB) $$ [Hsb Htv Hbb]
  case region =>
    intro t acc
    first
      | exact trip1 m hpre d L TAB _ t acc
      | exact trip1 m hpre d L TAB 0#32 t acc
  · unfold invb
    isplitl [Hsb]; · iexact Hsb
    isplitl [Htv]; · iexact Htv
    iexists _
    isplitl [Hbb]; · iexact Hbb
    ipureintro; exact filled_zero _ _ _
  iintro %_ HI'
  unfold invb
  icases HI' with ⟨Hsb, Htv, %g1, Hbb, %hfill1⟩
  -- the index buffer as its eight runs again, for stage 3
  ihave Hsb' := (Entails.of_eq (split_sb (F := F) d L _)) $$ Hsb
  icases Hsb' with ⟨Hsb0, Hsb1, Hsb2, Hsb3, Hsb4, Hsb5, Hsb6, Hsb7⟩
  imod (Transfers.batch_alloc' (Lvl := ℕ) (countersEmb (U := UU)) (thr d L) (none : HIx 1) NS (dlvS3 d L (m (c0Loc d)) (m (c1Loc d)) (m (c2Loc d)) (m (c3Loc d)) (m (c4Loc d)) (m (c5Loc d)) (m (c6Loc d)) (m (c7Loc d)) fsh (SMsem m d L 1)) (sm := .dma (⟨3, hd3⟩ : DmaSem sig)) (E := Set.univ)) $$ HC with HC
  sl_exec

  -- chunk 2's index words have landed: the index buffer whole, at the chunk's words
  ihave Hsa0 := (Entails.of_eq (pointsTo_congr (fun i hi => hv2 d L fsh (SMsem m d L 0) 0 i (set_sa0P ▸ hi)))) $$ HA_dst0
  ihave Hsa1 := (Entails.of_eq (pointsTo_congr (fun i hi => hv2 d L fsh (SMsem m d L 0) 1 i (set_sa1P ▸ hi)))) $$ HA_dst1
  ihave Hsa2 := (Entails.of_eq (pointsTo_congr (fun i hi => hv2 d L fsh (SMsem m d L 0) 2 i (set_sa2P ▸ hi)))) $$ HA_dst2
  ihave Hsa3 := (Entails.of_eq (pointsTo_congr (fun i hi => hv2 d L fsh (SMsem m d L 0) 3 i (set_sa3P ▸ hi)))) $$ HA_dst3
  ihave Hsa4 := (Entails.of_eq (pointsTo_congr (fun i hi => hv2 d L fsh (SMsem m d L 0) 4 i (set_sa4P ▸ hi)))) $$ HA_dst4
  ihave Hsa5 := (Entails.of_eq (pointsTo_congr (fun i hi => hv2 d L fsh (SMsem m d L 0) 5 i (set_sa5P ▸ hi)))) $$ HA_dst5
  ihave Hsa6 := (Entails.of_eq (pointsTo_congr (fun i hi => hv2 d L fsh (SMsem m d L 0) 6 i (set_sa6P ▸ hi)))) $$ HA_dst6
  ihave Hsa7 := (Entails.of_eq (pointsTo_congr (fun i hi => hv2 d L fsh (SMsem m d L 0) 7 i (set_sa7P ▸ hi)))) $$ HA_dst7
  ihave Hsa := (Entails.of_eq (split_sa (F := F) d L (SMsem m d L 2)).symm) $$ [Hsa0 Hsa1 Hsa2 Hsa3 Hsa4 Hsa5 Hsa6 Hsa7]
  · isplitl [Hsa0]; · iexact Hsa0
    isplitl [Hsa1]; · iexact Hsa1
    isplitl [Hsa2]; · iexact Hsa2
    isplitl [Hsa3]; · iexact Hsa3
    isplitl [Hsa4]; · iexact Hsa4
    isplitl [Hsa5]; · iexact Hsa5
    isplitl [Hsa6]; · iexact Hsa6
    iexact Hsa7
  sl_for (inva m d L 2 TAB) $$ [Hsa Htv Hba]
  case region =>
    intro t acc
    first
      | exact trip2 m hpre d L TAB _ t acc
      | exact trip2 m hpre d L TAB 0#32 t acc
  · unfold inva
    isplitl [Hsa]; · iexact Hsa
    isplitl [Htv]; · iexact Htv
    iexists _
    isplitl [Hba]; · iexact Hba
    ipureintro; exact filled_zero _ _ _
  iintro %_ HI'
  unfold inva
  icases HI' with ⟨Hsa, Htv, %g2, Hba, %hfill2⟩
  -- the index buffer as its eight runs again, for stage 4
  ihave Hsa' := (Entails.of_eq (split_sa (F := F) d L _)) $$ Hsa
  icases Hsa' with ⟨Hsa0, Hsa1, Hsa2, Hsa3, Hsa4, Hsa5, Hsa6, Hsa7⟩
  imod (Transfers.batch_alloc' (Lvl := ℕ) (countersEmb (U := UU)) (thr d L) (none : HIx 1) NS (dlvS4 d L (m (c0Loc d)) (m (c1Loc d)) (m (c2Loc d)) (m (c3Loc d)) (m (c4Loc d)) (m (c5Loc d)) (m (c6Loc d)) (m (c7Loc d)) fsh (SMsem m d L 2)) (sm := .dma (⟨2, hd2⟩ : DmaSem sig)) (E := Set.univ)) $$ HA with HA
  sl_exec

  -- chunk 3's index words have landed: the index buffer whole, at the chunk's words
  ihave Hsb0 := (Entails.of_eq (pointsTo_congr (fun i hi => hv3 d L fsh (SMsem m d L 1) 0 i (set_sb0P ▸ hi)))) $$ HC_dst0
  ihave Hsb1 := (Entails.of_eq (pointsTo_congr (fun i hi => hv3 d L fsh (SMsem m d L 1) 1 i (set_sb1P ▸ hi)))) $$ HC_dst1
  ihave Hsb2 := (Entails.of_eq (pointsTo_congr (fun i hi => hv3 d L fsh (SMsem m d L 1) 2 i (set_sb2P ▸ hi)))) $$ HC_dst2
  ihave Hsb3 := (Entails.of_eq (pointsTo_congr (fun i hi => hv3 d L fsh (SMsem m d L 1) 3 i (set_sb3P ▸ hi)))) $$ HC_dst3
  ihave Hsb4 := (Entails.of_eq (pointsTo_congr (fun i hi => hv3 d L fsh (SMsem m d L 1) 4 i (set_sb4P ▸ hi)))) $$ HC_dst4
  ihave Hsb5 := (Entails.of_eq (pointsTo_congr (fun i hi => hv3 d L fsh (SMsem m d L 1) 5 i (set_sb5P ▸ hi)))) $$ HC_dst5
  ihave Hsb6 := (Entails.of_eq (pointsTo_congr (fun i hi => hv3 d L fsh (SMsem m d L 1) 6 i (set_sb6P ▸ hi)))) $$ HC_dst6
  ihave Hsb7 := (Entails.of_eq (pointsTo_congr (fun i hi => hv3 d L fsh (SMsem m d L 1) 7 i (set_sb7P ▸ hi)))) $$ HC_dst7
  ihave Hsb := (Entails.of_eq (split_sb (F := F) d L (SMsem m d L 3)).symm) $$ [Hsb0 Hsb1 Hsb2 Hsb3 Hsb4 Hsb5 Hsb6 Hsb7]
  · isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    iexact Hsb7
  sl_for (invb m d L 3 TAB) $$ [Hsb Htv Hbb]
  case region =>
    intro t acc
    first
      | exact trip3 m hpre d L TAB _ t acc
      | exact trip3 m hpre d L TAB 0#32 t acc
  · unfold invb
    isplitl [Hsb]; · iexact Hsb
    isplitl [Htv]; · iexact Htv
    iexists _
    isplitl [Hbb]; · iexact Hbb
    ipureintro; exact filled_zero _ _ _
  iintro %_ HI'
  unfold invb
  icases HI' with ⟨Hsb, Htv, %g3, Hbb, %hfill3⟩
  -- the index buffer as its eight runs again, for stage 5
  ihave Hsb' := (Entails.of_eq (split_sb (F := F) d L _)) $$ Hsb
  icases Hsb' with ⟨Hsb0, Hsb1, Hsb2, Hsb3, Hsb4, Hsb5, Hsb6, Hsb7⟩
  imod (Transfers.batch_alloc' (Lvl := ℕ) (countersEmb (U := UU)) (thr d L) (none : HIx 1) NS (dlvS5 d L (m (c0Loc d)) (m (c1Loc d)) (m (c2Loc d)) (m (c3Loc d)) (m (c4Loc d)) (m (c5Loc d)) (m (c6Loc d)) (m (c7Loc d)) fsh (SMsem m d L 3)) (sm := .dma (⟨3, hd3⟩ : DmaSem sig)) (E := Set.univ)) $$ HC with HC
  sl_exec

  -- chunk 4's index words have landed: the index buffer whole, at the chunk's words
  ihave Hsa0 := (Entails.of_eq (pointsTo_congr (fun i hi => hv4 d L fsh (SMsem m d L 2) 0 i (set_sa0P ▸ hi)))) $$ HA_dst0
  ihave Hsa1 := (Entails.of_eq (pointsTo_congr (fun i hi => hv4 d L fsh (SMsem m d L 2) 1 i (set_sa1P ▸ hi)))) $$ HA_dst1
  ihave Hsa2 := (Entails.of_eq (pointsTo_congr (fun i hi => hv4 d L fsh (SMsem m d L 2) 2 i (set_sa2P ▸ hi)))) $$ HA_dst2
  ihave Hsa3 := (Entails.of_eq (pointsTo_congr (fun i hi => hv4 d L fsh (SMsem m d L 2) 3 i (set_sa3P ▸ hi)))) $$ HA_dst3
  ihave Hsa4 := (Entails.of_eq (pointsTo_congr (fun i hi => hv4 d L fsh (SMsem m d L 2) 4 i (set_sa4P ▸ hi)))) $$ HA_dst4
  ihave Hsa5 := (Entails.of_eq (pointsTo_congr (fun i hi => hv4 d L fsh (SMsem m d L 2) 5 i (set_sa5P ▸ hi)))) $$ HA_dst5
  ihave Hsa6 := (Entails.of_eq (pointsTo_congr (fun i hi => hv4 d L fsh (SMsem m d L 2) 6 i (set_sa6P ▸ hi)))) $$ HA_dst6
  ihave Hsa7 := (Entails.of_eq (pointsTo_congr (fun i hi => hv4 d L fsh (SMsem m d L 2) 7 i (set_sa7P ▸ hi)))) $$ HA_dst7
  ihave Hsa := (Entails.of_eq (split_sa (F := F) d L (SMsem m d L 4)).symm) $$ [Hsa0 Hsa1 Hsa2 Hsa3 Hsa4 Hsa5 Hsa6 Hsa7]
  · isplitl [Hsa0]; · iexact Hsa0
    isplitl [Hsa1]; · iexact Hsa1
    isplitl [Hsa2]; · iexact Hsa2
    isplitl [Hsa3]; · iexact Hsa3
    isplitl [Hsa4]; · iexact Hsa4
    isplitl [Hsa5]; · iexact Hsa5
    isplitl [Hsa6]; · iexact Hsa6
    iexact Hsa7
  sl_for (inva m d L 4 TAB) $$ [Hsa Htv Hba]
  case region =>
    intro t acc
    first
      | exact trip4 m hpre d L TAB _ t acc
      | exact trip4 m hpre d L TAB 0#32 t acc
  · unfold inva
    isplitl [Hsa]; · iexact Hsa
    isplitl [Htv]; · iexact Htv
    iexists _
    isplitl [Hba]; · iexact Hba
    ipureintro; exact filled_zero _ _ _
  iintro %_ HI'
  unfold inva
  icases HI' with ⟨Hsa, Htv, %g4, Hba, %hfill4⟩
  -- the index buffer as its eight runs again, for stage 6
  ihave Hsa' := (Entails.of_eq (split_sa (F := F) d L _)) $$ Hsa
  icases Hsa' with ⟨Hsa0, Hsa1, Hsa2, Hsa3, Hsa4, Hsa5, Hsa6, Hsa7⟩
  imod (Transfers.batch_alloc' (Lvl := ℕ) (countersEmb (U := UU)) (thr d L) (none : HIx 1) NS (dlvS6 d L (m (c0Loc d)) (m (c1Loc d)) (m (c2Loc d)) (m (c3Loc d)) (m (c4Loc d)) (m (c5Loc d)) (m (c6Loc d)) (m (c7Loc d)) fsh (SMsem m d L 4)) (sm := .dma (⟨2, hd2⟩ : DmaSem sig)) (E := Set.univ)) $$ HA with HA
  sl_exec

  -- chunk 5's index words have landed: the index buffer whole, at the chunk's words
  ihave Hsb0 := (Entails.of_eq (pointsTo_congr (fun i hi => hv5 d L fsh (SMsem m d L 3) 0 i (set_sb0P ▸ hi)))) $$ HC_dst0
  ihave Hsb1 := (Entails.of_eq (pointsTo_congr (fun i hi => hv5 d L fsh (SMsem m d L 3) 1 i (set_sb1P ▸ hi)))) $$ HC_dst1
  ihave Hsb2 := (Entails.of_eq (pointsTo_congr (fun i hi => hv5 d L fsh (SMsem m d L 3) 2 i (set_sb2P ▸ hi)))) $$ HC_dst2
  ihave Hsb3 := (Entails.of_eq (pointsTo_congr (fun i hi => hv5 d L fsh (SMsem m d L 3) 3 i (set_sb3P ▸ hi)))) $$ HC_dst3
  ihave Hsb4 := (Entails.of_eq (pointsTo_congr (fun i hi => hv5 d L fsh (SMsem m d L 3) 4 i (set_sb4P ▸ hi)))) $$ HC_dst4
  ihave Hsb5 := (Entails.of_eq (pointsTo_congr (fun i hi => hv5 d L fsh (SMsem m d L 3) 5 i (set_sb5P ▸ hi)))) $$ HC_dst5
  ihave Hsb6 := (Entails.of_eq (pointsTo_congr (fun i hi => hv5 d L fsh (SMsem m d L 3) 6 i (set_sb6P ▸ hi)))) $$ HC_dst6
  ihave Hsb7 := (Entails.of_eq (pointsTo_congr (fun i hi => hv5 d L fsh (SMsem m d L 3) 7 i (set_sb7P ▸ hi)))) $$ HC_dst7
  ihave Hsb := (Entails.of_eq (split_sb (F := F) d L (SMsem m d L 5)).symm) $$ [Hsb0 Hsb1 Hsb2 Hsb3 Hsb4 Hsb5 Hsb6 Hsb7]
  · isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    iexact Hsb7
  sl_for (invb m d L 5 TAB) $$ [Hsb Htv Hbb]
  case region =>
    intro t acc
    first
      | exact trip5 m hpre d L TAB _ t acc
      | exact trip5 m hpre d L TAB 0#32 t acc
  · unfold invb
    isplitl [Hsb]; · iexact Hsb
    isplitl [Htv]; · iexact Htv
    iexists _
    isplitl [Hbb]; · iexact Hbb
    ipureintro; exact filled_zero _ _ _
  iintro %_ HI'
  unfold invb
  icases HI' with ⟨Hsb, Htv, %g5, Hbb, %hfill5⟩
  -- the index buffer as its eight runs again, for stage 7
  ihave Hsb' := (Entails.of_eq (split_sb (F := F) d L _)) $$ Hsb
  icases Hsb' with ⟨Hsb0, Hsb1, Hsb2, Hsb3, Hsb4, Hsb5, Hsb6, Hsb7⟩
  imod (Transfers.batch_alloc' (Lvl := ℕ) (countersEmb (U := UU)) (thr d L) (none : HIx 1) NS (dlvS7 d L (m (c0Loc d)) (m (c1Loc d)) (m (c2Loc d)) (m (c3Loc d)) (m (c4Loc d)) (m (c5Loc d)) (m (c6Loc d)) (m (c7Loc d)) fsh (SMsem m d L 5)) (sm := .dma (⟨3, hd3⟩ : DmaSem sig)) (E := Set.univ)) $$ HC with HC
  sl_exec

  -- chunk 6's index words have landed: the index buffer whole, at the chunk's words
  ihave Hsa0 := (Entails.of_eq (pointsTo_congr (fun i hi => hv6 d L fsh (SMsem m d L 4) 0 i (set_sa0P ▸ hi)))) $$ HA_dst0
  ihave Hsa1 := (Entails.of_eq (pointsTo_congr (fun i hi => hv6 d L fsh (SMsem m d L 4) 1 i (set_sa1P ▸ hi)))) $$ HA_dst1
  ihave Hsa2 := (Entails.of_eq (pointsTo_congr (fun i hi => hv6 d L fsh (SMsem m d L 4) 2 i (set_sa2P ▸ hi)))) $$ HA_dst2
  ihave Hsa3 := (Entails.of_eq (pointsTo_congr (fun i hi => hv6 d L fsh (SMsem m d L 4) 3 i (set_sa3P ▸ hi)))) $$ HA_dst3
  ihave Hsa4 := (Entails.of_eq (pointsTo_congr (fun i hi => hv6 d L fsh (SMsem m d L 4) 4 i (set_sa4P ▸ hi)))) $$ HA_dst4
  ihave Hsa5 := (Entails.of_eq (pointsTo_congr (fun i hi => hv6 d L fsh (SMsem m d L 4) 5 i (set_sa5P ▸ hi)))) $$ HA_dst5
  ihave Hsa6 := (Entails.of_eq (pointsTo_congr (fun i hi => hv6 d L fsh (SMsem m d L 4) 6 i (set_sa6P ▸ hi)))) $$ HA_dst6
  ihave Hsa7 := (Entails.of_eq (pointsTo_congr (fun i hi => hv6 d L fsh (SMsem m d L 4) 7 i (set_sa7P ▸ hi)))) $$ HA_dst7
  ihave Hsa := (Entails.of_eq (split_sa (F := F) d L (SMsem m d L 6)).symm) $$ [Hsa0 Hsa1 Hsa2 Hsa3 Hsa4 Hsa5 Hsa6 Hsa7]
  · isplitl [Hsa0]; · iexact Hsa0
    isplitl [Hsa1]; · iexact Hsa1
    isplitl [Hsa2]; · iexact Hsa2
    isplitl [Hsa3]; · iexact Hsa3
    isplitl [Hsa4]; · iexact Hsa4
    isplitl [Hsa5]; · iexact Hsa5
    isplitl [Hsa6]; · iexact Hsa6
    iexact Hsa7
  sl_for (inva m d L 6 TAB) $$ [Hsa Htv Hba]
  case region =>
    intro t acc
    first
      | exact trip6 m hpre d L TAB _ t acc
      | exact trip6 m hpre d L TAB 0#32 t acc
  · unfold inva
    isplitl [Hsa]; · iexact Hsa
    isplitl [Htv]; · iexact Htv
    iexists _
    isplitl [Hba]; · iexact Hba
    ipureintro; exact filled_zero _ _ _
  iintro %_ HI'
  unfold inva
  icases HI' with ⟨Hsa, Htv, %g6, Hba, %hfill6⟩
  sl_exec

  -- chunk 7's index words have landed: the index buffer whole, at the chunk's words
  ihave Hsb0 := (Entails.of_eq (pointsTo_congr (fun i hi => hv7 d L fsh (SMsem m d L 5) 0 i (set_sb0P ▸ hi)))) $$ HC_dst0
  ihave Hsb1 := (Entails.of_eq (pointsTo_congr (fun i hi => hv7 d L fsh (SMsem m d L 5) 1 i (set_sb1P ▸ hi)))) $$ HC_dst1
  ihave Hsb2 := (Entails.of_eq (pointsTo_congr (fun i hi => hv7 d L fsh (SMsem m d L 5) 2 i (set_sb2P ▸ hi)))) $$ HC_dst2
  ihave Hsb3 := (Entails.of_eq (pointsTo_congr (fun i hi => hv7 d L fsh (SMsem m d L 5) 3 i (set_sb3P ▸ hi)))) $$ HC_dst3
  ihave Hsb4 := (Entails.of_eq (pointsTo_congr (fun i hi => hv7 d L fsh (SMsem m d L 5) 4 i (set_sb4P ▸ hi)))) $$ HC_dst4
  ihave Hsb5 := (Entails.of_eq (pointsTo_congr (fun i hi => hv7 d L fsh (SMsem m d L 5) 5 i (set_sb5P ▸ hi)))) $$ HC_dst5
  ihave Hsb6 := (Entails.of_eq (pointsTo_congr (fun i hi => hv7 d L fsh (SMsem m d L 5) 6 i (set_sb6P ▸ hi)))) $$ HC_dst6
  ihave Hsb7 := (Entails.of_eq (pointsTo_congr (fun i hi => hv7 d L fsh (SMsem m d L 5) 7 i (set_sb7P ▸ hi)))) $$ HC_dst7
  ihave Hsb := (Entails.of_eq (split_sb (F := F) d L (SMsem m d L 7)).symm) $$ [Hsb0 Hsb1 Hsb2 Hsb3 Hsb4 Hsb5 Hsb6 Hsb7]
  · isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    iexact Hsb7
  sl_for (invb m d L 7 TAB) $$ [Hsb Htv Hbb]
  case region =>
    intro t acc
    exact trip7 m hpre d L TAB t acc
  · unfold invb
    isplitl [Hsb]; · iexact Hsb
    isplitl [Htv]; · iexact Htv
    iexists _
    isplitl [Hbb]; · iexact Hbb
    ipureintro; exact filled_zero _ _ _
  iintro %_ HI'
  unfold invb
  icases HI' with ⟨Hsb, Htv, %g7, Hbb, %hfill7⟩
  sl_exec
  sl_step
  -- the row's pieces again, each from its eight runs
  ihave Hp0 := (Entails.of_eq (split_sh0 (F := F) d L (ISH0 d L (m (c0Loc d)) fsh)).symm) $$ [HA_src0 HC_src0 HA_src0_2 HC_src0_2 HA_src0_3 HC_src0_3 HA_src0_4 HC_src0_4]
  · isplitl [HA_src0]; · iexact HA_src0
    isplitl [HC_src0]; · iexact HC_src0
    isplitl [HA_src0_2]; · iexact HA_src0_2
    isplitl [HC_src0_2]; · iexact HC_src0_2
    isplitl [HA_src0_3]; · iexact HA_src0_3
    isplitl [HC_src0_3]; · iexact HC_src0_3
    isplitl [HA_src0_4]; · iexact HA_src0_4
    iexact HC_src0_4
  ihave Hp1 := (Entails.of_eq (split_sh1 (F := F) d L (ISH1 d L (m (c1Loc d)) fsh)).symm) $$ [HA_src1 HC_src1 HA_src1_2 HC_src1_2 HA_src1_3 HC_src1_3 HA_src1_4 HC_src1_4]
  · isplitl [HA_src1]; · iexact HA_src1
    isplitl [HC_src1]; · iexact HC_src1
    isplitl [HA_src1_2]; · iexact HA_src1_2
    isplitl [HC_src1_2]; · iexact HC_src1_2
    isplitl [HA_src1_3]; · iexact HA_src1_3
    isplitl [HC_src1_3]; · iexact HC_src1_3
    isplitl [HA_src1_4]; · iexact HA_src1_4
    iexact HC_src1_4
  ihave Hp2 := (Entails.of_eq (split_sh2 (F := F) d L (ISH2 d L (m (c2Loc d)) fsh)).symm) $$ [HA_src2 HC_src2 HA_src2_2 HC_src2_2 HA_src2_3 HC_src2_3 HA_src2_4 HC_src2_4]
  · isplitl [HA_src2]; · iexact HA_src2
    isplitl [HC_src2]; · iexact HC_src2
    isplitl [HA_src2_2]; · iexact HA_src2_2
    isplitl [HC_src2_2]; · iexact HC_src2_2
    isplitl [HA_src2_3]; · iexact HA_src2_3
    isplitl [HC_src2_3]; · iexact HC_src2_3
    isplitl [HA_src2_4]; · iexact HA_src2_4
    iexact HC_src2_4
  ihave Hp3 := (Entails.of_eq (split_sh3 (F := F) d L (ISH3 d L (m (c3Loc d)) fsh)).symm) $$ [HA_src3 HC_src3 HA_src3_2 HC_src3_2 HA_src3_3 HC_src3_3 HA_src3_4 HC_src3_4]
  · isplitl [HA_src3]; · iexact HA_src3
    isplitl [HC_src3]; · iexact HC_src3
    isplitl [HA_src3_2]; · iexact HA_src3_2
    isplitl [HC_src3_2]; · iexact HC_src3_2
    isplitl [HA_src3_3]; · iexact HA_src3_3
    isplitl [HC_src3_3]; · iexact HC_src3_3
    isplitl [HA_src3_4]; · iexact HA_src3_4
    iexact HC_src3_4
  ihave Hp4 := (Entails.of_eq (split_sh4 (F := F) d L (ISH4 d L (m (c4Loc d)) fsh)).symm) $$ [HA_src4 HC_src4 HA_src4_2 HC_src4_2 HA_src4_3 HC_src4_3 HA_src4_4 HC_src4_4]
  · isplitl [HA_src4]; · iexact HA_src4
    isplitl [HC_src4]; · iexact HC_src4
    isplitl [HA_src4_2]; · iexact HA_src4_2
    isplitl [HC_src4_2]; · iexact HC_src4_2
    isplitl [HA_src4_3]; · iexact HA_src4_3
    isplitl [HC_src4_3]; · iexact HC_src4_3
    isplitl [HA_src4_4]; · iexact HA_src4_4
    iexact HC_src4_4
  ihave Hp5 := (Entails.of_eq (split_sh5 (F := F) d L (ISH5 d L (m (c5Loc d)) fsh)).symm) $$ [HA_src5 HC_src5 HA_src5_2 HC_src5_2 HA_src5_3 HC_src5_3 HA_src5_4 HC_src5_4]
  · isplitl [HA_src5]; · iexact HA_src5
    isplitl [HC_src5]; · iexact HC_src5
    isplitl [HA_src5_2]; · iexact HA_src5_2
    isplitl [HC_src5_2]; · iexact HC_src5_2
    isplitl [HA_src5_3]; · iexact HA_src5_3
    isplitl [HC_src5_3]; · iexact HC_src5_3
    isplitl [HA_src5_4]; · iexact HA_src5_4
    iexact HC_src5_4
  ihave Hp6 := (Entails.of_eq (split_sh6 (F := F) d L (ISH6 d L (m (c6Loc d)) fsh)).symm) $$ [HA_src6 HC_src6 HA_src6_2 HC_src6_2 HA_src6_3 HC_src6_3 HA_src6_4 HC_src6_4]
  · isplitl [HA_src6]; · iexact HA_src6
    isplitl [HC_src6]; · iexact HC_src6
    isplitl [HA_src6_2]; · iexact HA_src6_2
    isplitl [HC_src6_2]; · iexact HC_src6_2
    isplitl [HA_src6_3]; · iexact HA_src6_3
    isplitl [HC_src6_3]; · iexact HC_src6_3
    isplitl [HA_src6_4]; · iexact HA_src6_4
    iexact HC_src6_4
  ihave Hp7 := (Entails.of_eq (split_sh7 (F := F) d L (ISH7 d L (m (c7Loc d)) fsh)).symm) $$ [HA_src7 HC_src7 HA_src7_2 HC_src7_2 HA_src7_3 HC_src7_3 HA_src7_4 HC_src7_4]
  · isplitl [HA_src7]; · iexact HA_src7
    isplitl [HC_src7]; · iexact HC_src7
    isplitl [HA_src7_2]; · iexact HA_src7_2
    isplitl [HC_src7_2]; · iexact HC_src7_2
    isplitl [HA_src7_3]; · iexact HA_src7_3
    isplitl [HC_src7_3]; · iexact HC_src7_3
    isplitl [HA_src7_4]; · iexact HA_src7_4
    iexact HC_src7_4
  -- the chunks of the result, at the lookup's value
  have ht0 : Scf.trips k0_t1_loop.lb k0_t1_loop.ub k0_t1_loop.st = 64 := by decide
  have hf0 : Filled (SMsem m d L 0) TAB 64 g0 := ht0 ▸ hfill0
  ihave Ho0 := (Entails.of_eq (pointsTo_congr (out_chunk_val0 m d L TAB g0 hf0 hpre _))) $$ Ho0
  have ht1 : Scf.trips k0_t2_loop.lb k0_t2_loop.ub k0_t2_loop.st = 64 := by decide
  have hf1 : Filled (SMsem m d L 1) TAB 64 g1 := ht1 ▸ hfill1
  ihave Ho1 := (Entails.of_eq (pointsTo_congr (out_chunk_val1 m d L TAB g1 hf1 hpre _))) $$ Ho1
  have ht2 : Scf.trips k0_t3_loop.lb k0_t3_loop.ub k0_t3_loop.st = 64 := by decide
  have hf2 : Filled (SMsem m d L 2) TAB 64 g2 := ht2 ▸ hfill2
  ihave Ho2 := (Entails.of_eq (pointsTo_congr (out_chunk_val2 m d L TAB g2 hf2 hpre _))) $$ Ho2
  have ht3 : Scf.trips k0_t4_loop.lb k0_t4_loop.ub k0_t4_loop.st = 64 := by decide
  have hf3 : Filled (SMsem m d L 3) TAB 64 g3 := ht3 ▸ hfill3
  ihave Ho3 := (Entails.of_eq (pointsTo_congr (out_chunk_val3 m d L TAB g3 hf3 hpre _))) $$ Ho3
  have ht4 : Scf.trips k0_t5_loop.lb k0_t5_loop.ub k0_t5_loop.st = 64 := by decide
  have hf4 : Filled (SMsem m d L 4) TAB 64 g4 := ht4 ▸ hfill4
  ihave Ho4 := (Entails.of_eq (pointsTo_congr (out_chunk_val4 m d L TAB g4 hf4 hpre _))) $$ Ho4
  have ht5 : Scf.trips k0_t6_loop.lb k0_t6_loop.ub k0_t6_loop.st = 64 := by decide
  have hf5 : Filled (SMsem m d L 5) TAB 64 g5 := ht5 ▸ hfill5
  ihave Ho5 := (Entails.of_eq (pointsTo_congr (out_chunk_val5 m d L TAB g5 hf5 hpre _))) $$ Ho5
  have ht6 : Scf.trips k0_t7_loop.lb k0_t7_loop.ub k0_t7_loop.st = 64 := by decide
  have hf6 : Filled (SMsem m d L 6) TAB 64 g6 := ht6 ▸ hfill6
  ihave Ho6 := (Entails.of_eq (pointsTo_congr (out_chunk_val6 m d L TAB g6 hf6 hpre _))) $$ Ho6
  have ht7 : Scf.trips k0_t8_loop.lb k0_t8_loop.ub k0_t8_loop.st = 64 := by decide
  have hf7 : Filled (SMsem m d L 7) TAB 64 g7 := ht7 ▸ hfill7
  ihave Ho7 := (Entails.of_eq (pointsTo_congr (out_chunk_val7 m d L TAB g7 hf7 hpre _))) $$ Ho7
  isplitl [HI_src0 HI_src1 HI_src2 HI_src3 HI_src4 HI_src5 HI_src6 HI_src7 Htb Ho0 Ho1 Ho2 Ho3 Ho4 Ho5 Ho6 Ho7 Hp0 Hp1 Hp2 Hp3 Hp4 Hp5 Hp6 Hp7]
  · isplitl [HI_src0]; · iexact HI_src0
    isplitl [HI_src1]; · iexact HI_src1
    isplitl [HI_src2]; · iexact HI_src2
    isplitl [HI_src3]; · iexact HI_src3
    isplitl [HI_src4]; · iexact HI_src4
    isplitl [HI_src5]; · iexact HI_src5
    isplitl [HI_src6]; · iexact HI_src6
    isplitl [HI_src7]; · iexact HI_src7
    isplitl [Htb]; · iexact Htb
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Hp0]; · iexists _; iexact Hp0
    isplitl [Hp1]; · iexists _; iexact Hp1
    isplitl [Hp2]; · iexists _; iexact Hp2
    isplitl [Hp3]; · iexists _; iexact Hp3
    isplitl [Hp4]; · iexists _; iexact Hp4
    isplitl [Hp5]; · iexists _; iexact Hp5
    isplitl [Hp6]; · iexists _; iexact Hp6
    iexists _; iexact Hp7
  isplitl [Htv Hsa Hsb Hba Hbb Hbufs]
  · isplitl [Htv]; · iexists _; iapply (Entails.of_eq (pts_tvW (F := F) d L _)); iexact Htv
    isplitl [Hsa]; · iexists _; iapply (Entails.of_eq (pts_saW (F := F) d L _)); iexact Hsa
    isplitl [Hsb]; · iexists _; iapply (Entails.of_eq (pts_sbW (F := F) d L _)); iexact Hsb
    isplitl [Hba]; · iexists _; iapply (Entails.of_eq (pts_baW (F := F) d L _)); iexact Hba
    isplitl [Hbb]; · iexists _; iapply (Entails.of_eq (pts_bbW (F := F) d L _)); iexact Hbb
    iexact Hbufs
  isplitl [Hs6 HI HA HC Hs10 Hs11 Hsems]
  · isplitl [Hs6]; · iexact Hs6
    isplitl [HI]; · iexact HI
    isplitl [HA]; · iexact HA
    isplitl [HC]; · iexact HC
    isplitl [Hs10]; · iexact Hs10
    isplitl [Hs11]; · iexact Hs11
    iexact Hsems
  iexists _
  isplitr
  rotate_left
  · iexact HO
  · ipureintro
    intro p hp
    repeat (rcases Finset.mem_insert.mp hp with rfl | hp; · exact Or.inr rfl)
    exact Or.inl hp

end Cert.Proof.KI

end
-- ==== Proof.KI.StageW0.lean ====
/-
  Chunk 0 of the staged index words: each of its eight copies lands, in its run of the index buffer, the chunk's 64
  words of its column (the chain of the windows' offsets, instantiated at the copy's three windows).
-/
import proofs.«204821_g30846455120635_fold_wed_m_1292_33_alg».proof.Proof.KI.StageGen

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_0_0 (fsh : Buf (Elt F) ((sh0P L).view.loc (thr d L))) (prev : Buf (Elt F) ((saW).view.loc (thr d L)))
    (i : S512.Idx) (hi : i ∈ runS 0) :
    Cp0 d L (m (c0Loc d)) (m (c1Loc d)) (m (c2Loc d)) (m (c3Loc d)) (m (c4Loc d)) (m (c5Loc d)) (m (c6Loc d)) (m (c7Loc d)) fsh prev 0 i = SMsem m d L 0 i := by
  rw [← set_sa0P] at hi
  obtain ⟨y, -, rfl⟩ := Finset.mem_map.mp hi
  have hy : (y 0).val < 64 := (y 0).isLt
  refine (word_sa (F := F) d L ![0] inb_S512_S64_0 (k0_off10 L) (k0_off1 L) (k0_off10_inb L) (k0_off1_inb L)
    (L 1).val 0 0 0 (k0_off10_eq L) (k0_off1_eq L) rfl (by decide) prev fsh
    ((c0S L).view.read (Elt F) (m (c0Loc d))) y).trans ?_
  refine (col0_word m d L (64 * 0 + (y 0).val) (by omega)).trans ?_
  exact (SMsem_at m d L 0 (by decide) 0 (by decide) _ (y 0).val hy (by
    show 0 + 1 * (y 0).val = 64 * 0 + (y 0).val
    omega)).symm

omit [FloatOps F] in
theorem sv_0_1 (fsh : Buf (Elt F) ((sh0P L).view.loc (thr d L))) (prev : Buf (Elt F) ((saW).view.loc (thr d L)))
    (i : S512.Idx) (hi : i ∈ runS 1) :
    Cp0 d L (m (c0Loc d)) (m (c1Loc d)) (m (c2Loc d)) (m (c3Loc d)) (m (c4Loc d)) (m (c5Loc d)) (m (c6Loc d)) (m (c7Loc d)) fsh prev 1 i = SMsem m d L 0 i := by
  rw [← set_sa1P] at hi
  obtain ⟨y, -, rfl⟩ := Finset.mem_map.mp hi
  have hy : (y 0).val < 64 := (y 0).isLt
  refine (word_sa (F := F) d L ![64] inb_S512_S64_64 (k0_off11 L) (k0_off3 L) (k0_off11_inb L) (k0_off3_inb L)
    (L 1).val 512 512 0 (k0_off11_eq L) (k0_off3_eq L) rfl (by decide) prev fsh
    ((c1S L).view.read (Elt F) (m (c1Loc d))) y).trans ?_
  refine (col1_word m d L (64 * 0 + (y 0).val) (by omega)).trans ?_
  exact (SMsem_at m d L 0 (by decide) 1 (by decide) _ (y 0).val hy (by
    show 64 + 1 * (y 0).val = 64 * 1 + (y 0).val
    omega)).symm

omit [FloatOps F] in
theorem sv_0_2 (fsh : Buf (Elt F) ((sh0P L).view.loc (thr d L))) (prev : Buf (Elt F) ((saW).view.loc (thr d L)))
    (i : S512.Idx) (hi : i ∈ runS 2) :
    Cp0 d L (m (c0Loc d)) (m (c1Loc d)) (m (c2Loc d)) (m (c3Loc d)) (m (c4Loc d)) (m (c5Loc d)) (m (c6Loc d)) (m (c7Loc d)) fsh prev 2 i = SMsem m d L 0 i := by
  rw [← set_sa2P] at hi
  obtain ⟨y, -, rfl⟩ := Finset.mem_map.mp hi
  have hy : (y 0).val < 64 := (y 0).isLt
  refine (word_sa (F := F) d L ![128] inb_S512_S64_128 (k0_off12 L) (k0_off4 L) (k0_off12_inb L) (k0_off4_inb L)
    (L 1).val 1024 1024 0 (k0_off12_eq L) (k0_off4_eq L) rfl (by decide) prev fsh
    ((c2S L).view.read (Elt F) (m (c2Loc d))) y).trans ?_
  refine (col2_word m d L (64 * 0 + (y 0).val) (by omega)).trans ?_
  exact (SMsem_at m d L 0 (by decide) 2 (by decide) _ (y 0).val hy (by
    show 128 + 1 * (y 0).val = 64 * 2 + (y 0).val
    omega)).symm

omit [FloatOps F] in
theorem sv_0_3 (fsh : Buf (Elt F) ((sh0P L).view.loc (thr d L))) (prev : Buf (Elt F) ((saW).view.loc (thr d L)))
    (i : S512.Idx) (hi : i ∈ runS 3) :
    Cp0 d L (m (c0Loc d)) (m (c1Loc d)) (m (c2Loc d)) (m (c3Loc d)) (m (c4Loc d)) (m (c5Loc d)) (m (c6Loc d)) (m (c7Loc d)) fsh prev 3 i = SMsem m d L 0 i := by
  rw [← set_sa3P] at hi
  obtain ⟨y, -, rfl⟩ := Finset.mem_map.mp hi
  have hy : (y 0).val < 64 := (y 0).isLt
  refine (word_sa (F := F) d L ![192] inb_S512_S64_192 (k0_off13 L) (k0_off5 L) (k0_off13_inb L) (k0_off5_inb L)
    (L 1).val 1536 1536 0 (k0_off13_eq L) (k0_off5_eq L) rfl (by decide) prev fsh
    ((c3S L).view.read (Elt F) (m (c3Loc d))) y).trans ?_
  refine (col3_word m d L (64 * 0 + (y 0).val) (by omega)).trans ?_
  exact (SMsem_at m d L 0 (by decide) 3 (by decide) _ (y 0).val hy (by
    show 192 + 1 * (y 0).val = 64 * 3 + (y 0).val
    omega)).symm

omit [FloatOps F] in
theorem sv_0_4 (fsh : Buf (Elt F) ((sh0P L).view.loc (thr d L))) (prev : Buf (Elt F) ((saW).view.loc (thr d L)))
    (i : S512.Idx) (hi : i ∈ runS 4) :
    Cp0 d L (m (c0Loc d)) (m (c1Loc d)) (m (c2Loc d)) (m (c3Loc d)) (m (c4Loc d)) (m (c5Loc d)) (m (c6Loc d)) (m (c7Loc d)) fsh prev 4 i = SMsem m d L 0 i := by
  rw [← set_sa4P] at hi
  obtain ⟨y, -, rfl⟩ := Finset.mem_map.mp hi
  have hy : (y 0).val < 64 := (y 0).isLt
  refine (word_sa (F := F) d L ![256] inb_S512_S64_256 (k0_off14 L) (k0_off6 L) (k0_off14_inb L) (k0_off6_inb L)
    (L 1).val 2048 2048 0 (k0_off14_eq L) (k0_off6_eq L) rfl (by decide) prev fsh
    ((c4S L).view.read (Elt F) (m (c4Loc d))) y).trans ?_
  refine (col4_word m d L (64 * 0 + (y 0).val) (by omega)).trans ?_
  exact (SMsem_at m d L 0 (by decide) 4 (by decide) _ (y 0).val hy (by
    show 256 + 1 * (y 0).val = 64 * 4 + (y 0).val
    omega)).symm

omit [FloatOps F] in
theorem sv_0_5 (fsh : Buf (Elt F) ((sh0P L).view.loc (thr d L))) (prev : Buf (Elt F) ((saW).view.loc (thr d L)))
    (i : S512.Idx) (hi : i ∈ runS 5) :
    Cp0 d L (m (c0Loc d)) (m (c1Loc d)) (m (c2Loc d)) (m (c3Loc d)) (m (c4Loc d)) (m (c5Loc d)) (m (c6Loc d)) (m (c7Loc d)) fsh prev 5 i = SMsem m d L 0 i := by
  rw [← set_sa5P] at hi
  obtain ⟨y, -, rfl⟩ := Finset.mem_map.mp hi
  have hy : (y 0).val < 64 := (y 0).isLt
  refine (word_sa (F := F) d L ![320] inb_S512_S64_320 (k0_off15 L) (k0_off7 L) (k0_off15_inb L) (k0_off7_inb L)
    (L 1).val 2560 2560 0 (k0_off15_eq L) (k0_off7_eq L) rfl (by decide) prev fsh
    ((c5S L).view.read (Elt F) (m (c5Loc d))) y).trans ?_
  refine (col5_word m d L (64 * 0 + (y 0).val) (by omega)).trans ?_
  exact (SMsem_at m d L 0 (by decide) 5 (by decide) _ (y 0).val hy (by
    show 320 + 1 * (y 0).val = 64 * 5 + (y 0).val
    omega)).symm

omit [FloatOps F] in
theorem sv_0_6 (fsh : Buf (Elt F) ((sh0P L).view.loc (thr d L))) (prev : Buf (Elt F) ((saW).view.loc (thr d L)))
    (i : S512.Idx) (hi : i ∈ runS 6) :
    Cp0 d L (m (c0Loc d)) (m (c1Loc d)) (m (c2Loc d)) (m (c3Loc d)) (m (c4Loc d)) (m (c5Loc d)) (m (c6Loc d)) (m (c7Loc d)) fsh prev 6 i = SMsem m d L 0 i := by
  rw [← set_sa6P] at hi
  obtain ⟨y, -, rfl⟩ := Finset.mem_map.mp hi
  have hy : (y 0).val < 64 := (y 0).isLt
  refine (word_sa (F := F) d L ![384] inb_S512_S64_384 (k0_off16 L) (k0_off8 L) (k0_off16_inb L) (k0_off8_inb L)
    (L 1).val 3072 3072 0 (k0_off16_eq L) (k0_off8_eq L) rfl (by decide) prev fsh
    ((c6S L).view.read (Elt F) (m (c6Loc d))) y).trans ?_
  refine (col6_word m d L (64 * 0 + (y 0).val) (by omega)).trans ?_
  exact (SMsem_at m d L 0 (by decide) 6 (by decide) _ (y 0).val hy (by
    show 384 + 1 * (y 0).val = 64 * 6 + (y 0).val
    omega)).symm

omit [FloatOps F] in
theorem sv_0_7 (fsh : Buf (Elt F) ((sh0P L).view.loc (thr d L))) (prev : Buf (Elt F) ((saW).view.loc (thr d L)))
    (i : S512.Idx) (hi : i ∈ runS 7) :
    Cp0 d L (m (c0Loc d)) (m (c1Loc d)) (m (c2Loc d)) (m (c3Loc d)) (m (c4Loc d)) (m (c5Loc d)) (m (c6Loc d)) (m (c7Loc d)) fsh prev 7 i = SMsem m d L 0 i := by
  rw [← set_sa7P] at hi
  obtain ⟨y, -, rfl⟩ := Finset.mem_map.mp hi
  have hy : (y 0).val < 64 := (y 0).isLt
  refine (word_sa (F := F) d L ![448] inb_S512_S64_448 (k0_off17 L) (k0_off9 L) (k0_off17_inb L) (k0_off9_inb L)
    (L 1).val 3584 3584 0 (k0_off17_eq L) (k0_off9_eq L) rfl (by decide) prev fsh
    ((c7S L).view.read (Elt F) (m (c7Loc d))) y).trans ?_
  refine (col7_word m d L (64 * 0 + (y 0).val) (by omega)).trans ?_
  exact (SMsem_at m d L 0 (by decide) 7 (by decide) _ (y 0).val hy (by
    show 448 + 1 * (y 0).val = 64 * 7 + (y 0).val
    omega)).symm

end StageW

end Cert.Proof.KI

end
-- ==== Proof.KI.StageW1.lean ====
/-
  Chunk 1 of the staged index words: each of its eight copies lands, in its run of the index buffer, the chunk's 64
  words of its column (the chain of the windows' offsets, instantiated at the copy's three windows).
-/
import proofs.«204821_g30846455120635_fold_wed_m_1292_33_alg».proof.Proof.KI.StageGen

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_1_0 (fsh : Buf (Elt F) ((sh0P L).view.loc (thr d L))) (prev : Buf (Elt F) ((sbW).view.loc (thr d L)))
    (i : S512.Idx) (hi : i ∈ runS 0) :
    Cp1 d L (m (c0Loc d)) (m (c1Loc d)) (m (c2Loc d)) (m (c3Loc d)) (m (c4Loc d)) (m (c5Loc d)) (m (c6Loc d)) (m (c7Loc d)) fsh prev 0 i = SMsem m d L 1 i := by
  rw [← set_sb0P] at hi
  obtain ⟨y, -, rfl⟩ := Finset.mem_map.mp hi
  have hy : (y 0).val < 64 := (y 0).isLt
  refine (word_sb (F := F) d L ![0] inb_S512_S64_0 (k0_off18 L) (k0_off1 L) (k0_off18_inb L) (k0_off1_inb L)
    (L 1).val 64 0 1 (k0_off18_eq L) (k0_off1_eq L) rfl (by decide) prev fsh
    ((c0S L).view.read (Elt F) (m (c0Loc d))) y).trans ?_
  refine (col0_word m d L (64 * 1 + (y 0).val) (by omega)).trans ?_
  exact (SMsem_at m d L 1 (by decide) 0 (by decide) _ (y 0).val hy (by
    show 0 + 1 * (y 0).val = 64 * 0 + (y 0).val
    omega)).symm

omit [FloatOps F] in
theorem sv_1_1 (fsh : Buf (Elt F) ((sh0P L).view.loc (thr d L))) (prev : Buf (Elt F) ((sbW).view.loc (thr d L)))
    (i : S512.Idx) (hi : i ∈ runS 1) :
    Cp1 d L (m (c0Loc d)) (m (c1Loc d)) (m (c2Loc d)) (m (c3Loc d)) (m (c4Loc d)) (m (c5Loc d)) (m (c6Loc d)) (m (c7Loc d)) fsh prev 1 i = SMsem m d L 1 i := by
  rw [← set_sb1P] at hi
  obtain ⟨y, -, rfl⟩ := Finset.mem_map.mp hi
  have hy : (y 0).val < 64 := (y 0).isLt
  refine (word_sb (F := F) d L ![64] inb_S512_S64_64 (k0_off19 L) (k0_off3 L) (k0_off19_inb L) (k0_off3_inb L)
    (L 1).val 576 512 1 (k0_off19_eq L) (k0_off3_eq L) rfl (by decide) prev fsh
    ((c1S L).view.read (Elt F) (m (c1Loc d))) y).trans ?_
  refine (col1_word m d L (64 * 1 + (y 0).val) (by omega)).trans ?_
  exact (SMsem_at m d L 1 (by decide) 1 (by decide) _ (y 0).val hy (by
    show 64 + 1 * (y 0).val = 64 * 1 + (y 0).val
    omega)).symm

omit [FloatOps F] in
theorem sv_1_2 (fsh : Buf (Elt F) ((sh0P L).view.loc (thr d L))) (prev : Buf (Elt F) ((sbW).view.loc (thr d L)))
    (i : S512.Idx) (hi : i ∈ runS 2) :
    Cp1 d L (m (c0Loc d)) (m (c1Loc d)) (m (c2Loc d)) (m (c3Loc d)) (m (c4Loc d)) (m (c5Loc d)) (m (c6Loc d)) (m (c7Loc d)) fsh prev 2 i = SMsem m d L 1 i := by
  rw [← set_sb2P] at hi
  obtain ⟨y, -, rfl⟩ := Finset.mem_map.mp hi
  have hy : (y 0).val < 64 := (y 0).isLt
  refine (word_sb (F := F) d L ![128] inb_S512_S64_128 (k0_off20 L) (k0_off4 L) (k0_off20_inb L) (k0_off4_inb L)
    (L 1).val 1088 1024 1 (k0_off20_eq L) (k0_off4_eq L) rfl (by decide) prev fsh
    ((c2S L).view.read (Elt F) (m (c2Loc d))) y).trans ?_
  refine (col2_word m d L (64 * 1 + (y 0).val) (by omega)).trans ?_
  exact (SMsem_at m d L 1 (by decide) 2 (by decide) _ (y 0).val hy (by
    show 128 + 1 * (y 0).val = 64 * 2 + (y 0).val
    omega)).symm

omit [FloatOps F] in
theorem sv_1_3 (fsh : Buf (Elt F) ((sh0P L).view.loc (thr d L))) (prev : Buf (Elt F) ((sbW).view.loc (thr d L)))
    (i : S512.Idx) (hi : i ∈ runS 3) :
    Cp1 d L (m (c0Loc d)) (m (c1Loc d)) (m (c2Loc d)) (m (c3Loc d)) (m (c4Loc d)) (m (c5Loc d)) (m (c6Loc d)) (m (c7Loc d)) fsh prev 3 i = SMsem m d L 1 i := by
  rw [← set_sb3P] at hi
  obtain ⟨y, -, rfl⟩ := Finset.mem_map.mp hi
  have hy : (y 0).val < 64 := (y 0).isLt
  refine (word_sb (F := F) d L ![192] inb_S512_S64_192 (k0_off21 L) (k0_off5 L) (k0_off21_inb L) (k0_off5_inb L)
    (L 1).val 1600 1536 1 (k0_off21_eq L) (k0_off5_eq L) rfl (by decide) prev fsh
    ((c3S L).view.read (Elt F) (m (c3Loc d))) y).trans ?_
  refine (col3_word m d L (64 * 1 + (y 0).val) (by omega)).trans ?_
  exact (SMsem_at m d L 1 (by decide) 3 (by decide) _ (y 0).val hy (by
    show 192 + 1 * (y 0).val = 64 * 3 + (y 0).val
    omega)).symm

omit [FloatOps F] in
theorem sv_1_4 (fsh : Buf (Elt F) ((sh0P L).view.loc (thr d L))) (prev : Buf (Elt F) ((sbW).view.loc (thr d L)))
    (i : S512.Idx) (hi : i ∈ runS 4) :
    Cp1 d L (m (c0Loc d)) (m (c1Loc d)) (m (c2Loc d)) (m (c3Loc d)) (m (c4Loc d)) (m (c5Loc d)) (m (c6Loc d)) (m (c7Loc d)) fsh prev 4 i = SMsem m d L 1 i := by
  rw [← set_sb4P] at hi
  obtain ⟨y, -, rfl⟩ := Finset.mem_map.mp hi
  have hy : (y 0).val < 64 := (y 0).isLt
  refine (word_sb (F := F) d L ![256] inb_S512_S64_256 (k0_off22 L) (k0_off6 L) (k0_off22_inb L) (k0_off6_inb L)
    (L 1).val 2112 2048 1 (k0_off22_eq L) (k0_off6_eq L) rfl (by decide) prev fsh
    ((c4S L).view.read (Elt F) (m (c4Loc d))) y).trans ?_
  refine (col4_word m d L (64 * 1 + (y 0).val) (by omega)).trans ?_
  exact (SMsem_at m d L 1 (by decide) 4 (by decide) _ (y 0).val hy (by
    show 256 + 1 * (y 0).val = 64 * 4 + (y 0).val
    omega)).symm

omit [FloatOps F] in
theorem sv_1_5 (fsh : Buf (Elt F) ((sh0P L).view.loc (thr d L))) (prev : Buf (Elt F) ((sbW).view.loc (thr d L)))
    (i : S512.Idx) (hi : i ∈ runS 5) :
    Cp1 d L (m (c0Loc d)) (m (c1Loc d)) (m (c2Loc d)) (m (c3Loc d)) (m (c4Loc d)) (m (c5Loc d)) (m (c6Loc d)) (m (c7Loc d)) fsh prev 5 i = SMsem m d L 1 i := by
  rw [← set_sb5P] at hi
  obtain ⟨y, -, rfl⟩ := Finset.mem_map.mp hi
  have hy : (y 0).val < 64 := (y 0).isLt
  refine (word_sb (F := F) d L ![320] inb_S512_S64_320 (k0_off23 L) (k0_off7 L) (k0_off23_inb L) (k0_off7_inb L)
    (L 1).val 2624 2560 1 (k0_off23_eq L) (k0_off7_eq L) rfl (by decide) prev fsh
    ((c5S L).view.read (Elt F) (m (c5Loc d))) y).trans ?_
  refine (col5_word m d L (64 * 1 + (y 0).val) (by omega)).trans ?_
  exact (SMsem_at m d L 1 (by decide) 5 (by decide) _ (y 0).val hy (by
    show 320 + 1 * (y 0).val = 64 * 5 + (y 0).val
    omega)).symm

omit [FloatOps F] in
theorem sv_1_6 (fsh : Buf (Elt F) ((sh0P L).view.loc (thr d L))) (prev : Buf (Elt F) ((sbW).view.loc (thr d L)))
    (i : S512.Idx) (hi : i ∈ runS 6) :
    Cp1 d L (m (c0Loc d)) (m (c1Loc d)) (m (c2Loc d)) (m (c3Loc d)) (m (c4Loc d)) (m (c5Loc d)) (m (c6Loc d)) (m (c7Loc d)) fsh prev 6 i = SMsem m d L 1 i := by
  rw [← set_sb6P] at hi
  obtain ⟨y, -, rfl⟩ := Finset.mem_map.mp hi
  have hy : (y 0).val < 64 := (y 0).isLt
  refine (word_sb (F := F) d L ![384] inb_S512_S64_384 (k0_off24 L) (k0_off8 L) (k0_off24_inb L) (k0_off8_inb L)
    (L 1).val 3136 3072 1 (k0_off24_eq L) (k0_off8_eq L) rfl (by decide) prev fsh
    ((c6S L).view.read (Elt F) (m (c6Loc d))) y).trans ?_
  refine (col6_word m d L (64 * 1 + (y 0).val) (by omega)).trans ?_
  exact (SMsem_at m d L 1 (by decide) 6 (by decide) _ (y 0).val hy (by
    show 384 + 1 * (y 0).val = 64 * 6 + (y 0).val
    omega)).symm

omit [FloatOps F] in
theorem sv_1_7 (fsh : Buf (Elt F) ((sh0P L).view.loc (thr d L))) (prev : Buf (Elt F) ((sbW).view.loc (thr d L)))
    (i : S512.Idx) (hi : i ∈ runS 7) :
    Cp1 d L (m (c0Loc d)) (m (c1Loc d)) (m (c2Loc d)) (m (c3Loc d)) (m (c4Loc d)) (m (c5Loc d)) (m (c6Loc d)) (m (c7Loc d)) fsh prev 7 i = SMsem m d L 1 i := by
  rw [← set_sb7P] at hi
  obtain ⟨y, -, rfl⟩ := Finset.mem_map.mp hi
  have hy : (y 0).val < 64 := (y 0).isLt
  refine (word_sb (F := F) d L ![448] inb_S512_S64_448 (k0_off25 L) (k0_off9 L) (k0_off25_inb L) (k0_off9_inb L)
    (L 1).val 3648 3584 1 (k0_off25_eq L) (k0_off9_eq L) rfl (by decide) prev fsh
    ((c7S L).view.read (Elt F) (m (c7Loc d))) y).trans ?_
  refine (col7_word m d L (64 * 1 + (y 0).val) (by omega)).trans ?_
  exact (SMsem_at m d L 1 (by decide) 7 (by decide) _ (y 0).val hy (by
    show 448 + 1 * (y 0).val = 64 * 7 + (y 0).val
    omega)).symm

end StageW

end Cert.Proof.KI

end
-- ==== Proof.KI.StageW2.lean ====
/-
  Chunk 2 of the staged index words: each of its eight copies lands, in its run of the index buffer, the chunk's 64
  words of its column (the chain of the windows' offsets, instantiated at the copy's three windows).
-/
import proofs.«204821_g30846455120635_fold_wed_m_1292_33_alg».proof.Proof.KI.StageGen

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_2_0 (fsh : Buf (Elt F) ((sh0P L).view.loc (thr d L))) (prev : Buf (Elt F) ((saW).view.loc (thr d L)))
    (i : S512.Idx) (hi : i ∈ runS 0) :
    Cp2 d L (m (c0Loc d)) (m (c1Loc d)) (m (c2Loc d)) (m (c3Loc d)) (m (c4Loc d)) (m (c5Loc d)) (m (c6Loc d)) (m (c7Loc d)) fsh prev 0 i = SMsem m d L 2 i := by
  rw [← set_sa0P] at hi
  obtain ⟨y, -, rfl⟩ := Finset.mem_map.mp hi
  have hy : (y 0).val < 64 := (y 0).isLt
  refine (word_sa (F := F) d L ![0] inb_S512_S64_0 (k0_off51 L) (k0_off1 L) (k0_off51_inb L) (k0_off1_inb L)
    (L 1).val 128 0 2 (k0_off51_eq L) (k0_off1_eq L) rfl (by decide) prev fsh
    ((c0S L).view.read (Elt F) (m (c0Loc d))) y).trans ?_
  refine (col0_word m d L (64 * 2 + (y 0).val) (by omega)).trans ?_
  exact (SMsem_at m d L 2 (by decide) 0 (by decide) _ (y 0).val hy (by
    show 0 + 1 * (y 0).val = 64 * 0 + (y 0).val
    omega)).symm

omit [FloatOps F] in
theorem sv_2_1 (fsh : Buf (Elt F) ((sh0P L).view.loc (thr d L))) (prev : Buf (Elt F) ((saW).view.loc (thr d L)))
    (i : S512.Idx) (hi : i ∈ runS 1) :
    Cp2 d L (m (c0Loc d)) (m (c1Loc d)) (m (c2Loc d)) (m (c3Loc d)) (m (c4Loc d)) (m (c5Loc d)) (m (c6Loc d)) (m (c7Loc d)) fsh prev 1 i = SMsem m d L 2 i := by
  rw [← set_sa1P] at hi
  obtain ⟨y, -, rfl⟩ := Finset.mem_map.mp hi
  have hy : (y 0).val < 64 := (y 0).isLt
  refine (word_sa (F := F) d L ![64] inb_S512_S64_64 (k0_off52 L) (k0_off3 L) (k0_off52_inb L) (k0_off3_inb L)
    (L 1).val 640 512 2 (k0_off52_eq L) (k0_off3_eq L) rfl (by decide) prev fsh
    ((c1S L).view.read (Elt F) (m (c1Loc d))) y).trans ?_
  refine (col1_word m d L (64 * 2 + (y 0).val) (by omega)).trans ?_
  exact (SMsem_at m d L 2 (by decide) 1 (by decide) _ (y 0).val hy (by
    show 64 + 1 * (y 0).val = 64 * 1 + (y 0).val
    omega)).symm

omit [FloatOps F] in
theorem sv_2_2 (fsh : Buf (Elt F) ((sh0P L).view.loc (thr d L))) (prev : Buf (Elt F) ((saW).view.loc (thr d L)))
    (i : S512.Idx) (hi : i ∈ runS 2) :
    Cp2 d L (m (c0Loc d)) (m (c1Loc d)) (m (c2Loc d)) (m (c3Loc d)) (m (c4Loc d)) (m (c5Loc d)) (m (c6Loc d)) (m (c7Loc d)) fsh prev 2 i = SMsem m d L 2 i := by
  rw [← set_sa2P] at hi
  obtain ⟨y, -, rfl⟩ := Finset.mem_map.mp hi
  have hy : (y 0).val < 64 := (y 0).isLt
  refine (word_sa (F := F) d L ![128] inb_S512_S64_128 (k0_off53 L) (k0_off4 L) (k0_off53_inb L) (k0_off4_inb L)
    (L 1).val 1152 1024 2 (k0_off53_eq L) (k0_off4_eq L) rfl (by decide) prev fsh
    ((c2S L).view.read (Elt F) (m (c2Loc d))) y).trans ?_
  refine (col2_word m d L (64 * 2 + (y 0).val) (by omega)).trans ?_
  exact (SMsem_at m d L 2 (by decide) 2 (by decide) _ (y 0).val hy (by
    show 128 + 1 * (y 0).val = 64 * 2 + (y 0).val
    omega)).symm

omit [FloatOps F] in
theorem sv_2_3 (fsh : Buf (Elt F) ((sh0P L).view.loc (thr d L))) (prev : Buf (Elt F) ((saW).view.loc (thr d L)))
    (i : S512.Idx) (hi : i ∈ runS 3) :
    Cp2 d L (m (c0Loc d)) (m (c1Loc d)) (m (c2Loc d)) (m (c3Loc d)) (m (c4Loc d)) (m (c5Loc d)) (m (c6Loc d)) (m (c7Loc d)) fsh prev 3 i = SMsem m d L 2 i := by
  rw [← set_sa3P] at hi
  obtain ⟨y, -, rfl⟩ := Finset.mem_map.mp hi
  have hy : (y 0).val < 64 := (y 0).isLt
  refine (word_sa (F := F) d L ![192] inb_S512_S64_192 (k0_off54 L) (k0_off5 L) (k0_off54_inb L) (k0_off5_inb L)
    (L 1).val 1664 1536 2 (k0_off54_eq L) (k0_off5_eq L) rfl (by decide) prev fsh
    ((c3S L).view.read (Elt F) (m (c3Loc d))) y).trans ?_
  refine (col3_word m d L (64 * 2 + (y 0).val) (by omega)).trans ?_
  exact (SMsem_at m d L 2 (by decide) 3 (by decide) _ (y 0).val hy (by
    show 192 + 1 * (y 0).val = 64 * 3 + (y 0).val
    omega)).symm

omit [FloatOps F] in
theorem sv_2_4 (fsh : Buf (Elt F) ((sh0P L).view.loc (thr d L))) (prev : Buf (Elt F) ((saW).view.loc (thr d L)))
    (i : S512.Idx) (hi : i ∈ runS 4) :
    Cp2 d L (m (c0Loc d)) (m (c1Loc d)) (m (c2Loc d)) (m (c3Loc d)) (m (c4Loc d)) (m (c5Loc d)) (m (c6Loc d)) (m (c7Loc d)) fsh prev 4 i = SMsem m d L 2 i := by
  rw [← set_sa4P] at hi
  obtain ⟨y, -, rfl⟩ := Finset.mem_map.mp hi
  have hy : (y 0).val < 64 := (y 0).isLt
  refine (word_sa (F := F) d L ![256] inb_S512_S64_256 (k0_off55 L) (k0_off6 L) (k0_off55_inb L) (k0_off6_inb L)
    (L 1).val 2176 2048 2 (k0_off55_eq L) (k0_off6_eq L) rfl (by decide) prev fsh
    ((c4S L).view.read (Elt F) (m (c4Loc d))) y).trans ?_
  refine (col4_word m d L (64 * 2 + (y 0).val) (by omega)).trans ?_
  exact (SMsem_at m d L 2 (by decide) 4 (by decide) _ (y 0).val hy (by
    show 256 + 1 * (y 0).val = 64 * 4 + (y 0).val
    omega)).symm

omit [FloatOps F] in
theorem sv_2_5 (fsh : Buf (Elt F) ((sh0P L).view.loc (thr d L))) (prev : Buf (Elt F) ((saW).view.loc (thr d L)))
    (i : S512.Idx) (hi : i ∈ runS 5) :
    Cp2 d L (m (c0Loc d)) (m (c1Loc d)) (m (c2Loc d)) (m (c3Loc d)) (m (c4Loc d)) (m (c5Loc d)) (m (c6Loc d)) (m (c7Loc d)) fsh prev 5 i = SMsem m d L 2 i := by
  rw [← set_sa5P] at hi
  obtain ⟨y, -, rfl⟩ := Finset.mem_map.mp hi
  have hy : (y 0).val < 64 := (y 0).isLt
  refine (word_sa (F := F) d L ![320] inb_S512_S64_320 (k0_off56 L) (k0_off7 L) (k0_off56_inb L) (k0_off7_inb L)
    (L 1).val 2688 2560 2 (k0_off56_eq L) (k0_off7_eq L) rfl (by decide) prev fsh
    ((c5S L).view.read (Elt F) (m (c5Loc d))) y).trans ?_
  refine (col5_word m d L (64 * 2 + (y 0).val) (by omega)).trans ?_
  exact (SMsem_at m d L 2 (by decide) 5 (by decide) _ (y 0).val hy (by
    show 320 + 1 * (y 0).val = 64 * 5 + (y 0).val
    omega)).symm

omit [FloatOps F] in
theorem sv_2_6 (fsh : Buf (Elt F) ((sh0P L).view.loc (thr d L))) (prev : Buf (Elt F) ((saW).view.loc (thr d L)))
    (i : S512.Idx) (hi : i ∈ runS 6) :
    Cp2 d L (m (c0Loc d)) (m (c1Loc d)) (m (c2Loc d)) (m (c3Loc d)) (m (c4Loc d)) (m (c5Loc d)) (m (c6Loc d)) (m (c7Loc d)) fsh prev 6 i = SMsem m d L 2 i := by
  rw [← set_sa6P] at hi
  obtain ⟨y, -, rfl⟩ := Finset.mem_map.mp hi
  have hy : (y 0).val < 64 := (y 0).isLt
  refine (word_sa (F := F) d L ![384] inb_S512_S64_384 (k0_off57 L) (k0_off8 L) (k0_off57_inb L) (k0_off8_inb L)
    (L 1).val 3200 3072 2 (k0_off57_eq L) (k0_off8_eq L) rfl (by decide) prev fsh
    ((c6S L).view.read (Elt F) (m (c6Loc d))) y).trans ?_
  refine (col6_word m d L (64 * 2 + (y 0).val) (by omega)).trans ?_
  exact (SMsem_at m d L 2 (by decide) 6 (by decide) _ (y 0).val hy (by
    show 384 + 1 * (y 0).val = 64 * 6 + (y 0).val
    omega)).symm

omit [FloatOps F] in
theorem sv_2_7 (fsh : Buf (Elt F) ((sh0P L).view.loc (thr d L))) (prev : Buf (Elt F) ((saW).view.loc (thr d L)))
    (i : S512.Idx) (hi : i ∈ runS 7) :
    Cp2 d L (m (c0Loc d)) (m (c1Loc d)) (m (c2Loc d)) (m (c3Loc d)) (m (c4Loc d)) (m (c5Loc d)) (m (c6Loc d)) (m (c7Loc d)) fsh prev 7 i = SMsem m d L 2 i := by
  rw [← set_sa7P] at hi
  obtain ⟨y, -, rfl⟩ := Finset.mem_map.mp hi
  have hy : (y 0).val < 64 := (y 0).isLt
  refine (word_sa (F := F) d L ![448] inb_S512_S64_448 (k0_off58 L) (k0_off9 L) (k0_off58_inb L) (k0_off9_inb L)
    (L 1).val 3712 3584 2 (k0_off58_eq L) (k0_off9_eq L) rfl (by decide) prev fsh
    ((c7S L).view.read (Elt F) (m (c7Loc d))) y).trans ?_
  refine (col7_word m d L (64 * 2 + (y 0).val) (by omega)).trans ?_
  exact (SMsem_at m d L 2 (by decide) 7 (by decide) _ (y 0).val hy (by
    show 448 + 1 * (y 0).val = 64 * 7 + (y 0).val
    omega)).symm

end StageW

end Cert.Proof.KI

end
-- ==== Proof.KI.StageW3.lean ====
/-
  Chunk 3 of the staged index words: each of its eight copies lands, in its run of the index buffer, the chunk's 64
  words of its column (the chain of the windows' offsets, instantiated at the copy's three windows).
-/
import proofs.«204821_g30846455120635_fold_wed_m_1292_33_alg».proof.Proof.KI.StageGen

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_3_0 (fsh : Buf (Elt F) ((sh0P L).view.loc (thr d L))) (prev : Buf (Elt F) ((sbW).view.loc (thr d L)))
    (i : S512.Idx) (hi : i ∈ runS 0) :
    Cp3 d L (m (c0Loc d)) (m (c1Loc d)) (m (c2Loc d)) (m (c3Loc d)) (m (c4Loc d)) (m (c5Loc d)) (m (c6Loc d)) (m (c7Loc d)) fsh prev 0 i = SMsem m d L 3 i := by
  rw [← set_sb0P] at hi
  obtain ⟨y, -, rfl⟩ := Finset.mem_map.mp hi
  have hy : (y 0).val < 64 := (y 0).isLt
  refine (word_sb (F := F) d L ![0] inb_S512_S64_0 (k0_off83 L) (k0_off1 L) (k0_off83_inb L) (k0_off1_inb L)
    (L 1).val 192 0 3 (k0_off83_eq L) (k0_off1_eq L) rfl (by decide) prev fsh
    ((c0S L).view.read (Elt F) (m (c0Loc d))) y).trans ?_
  refine (col0_word m d L (64 * 3 + (y 0).val) (by omega)).trans ?_
  exact (SMsem_at m d L 3 (by decide) 0 (by decide) _ (y 0).val hy (by
    show 0 + 1 * (y 0).val = 64 * 0 + (y 0).val
    omega)).symm

omit [FloatOps F] in
theorem sv_3_1 (fsh : Buf (Elt F) ((sh0P L).view.loc (thr d L))) (prev : Buf (Elt F) ((sbW).view.loc (thr d L)))
    (i : S512.Idx) (hi : i ∈ runS 1) :
    Cp3 d L (m (c0Loc d)) (m (c1Loc d)) (m (c2Loc d)) (m (c3Loc d)) (m (c4Loc d)) (m (c5Loc d)) (m (c6Loc d)) (m (c7Loc d)) fsh prev 1 i = SMsem m d L 3 i := by
  rw [← set_sb1P] at hi
  obtain ⟨y, -, rfl⟩ := Finset.mem_map.mp hi
  have hy : (y 0).val < 64 := (y 0).isLt
  refine (word_sb (F := F) d L ![64] inb_S512_S64_64 (k0_off84 L) (k0_off3 L) (k0_off84_inb L) (k0_off3_inb L)
    (L 1).val 704 512 3 (k0_off84_eq L) (k0_off3_eq L) rfl (by decide) prev fsh
    ((c1S L).view.read (Elt F) (m (c1Loc d))) y).trans ?_
  refine (col1_word m d L (64 * 3 + (y 0).val) (by omega)).trans ?_
  exact (SMsem_at m d L 3 (by decide) 1 (by decide) _ (y 0).val hy (by
    show 64 + 1 * (y 0).val = 64 * 1 + (y 0).val
    omega)).symm

omit [FloatOps F] in
theorem sv_3_2 (fsh : Buf (Elt F) ((sh0P L).view.loc (thr d L))) (prev : Buf (Elt F) ((sbW).view.loc (thr d L)))
    (i : S512.Idx) (hi : i ∈ runS 2) :
    Cp3 d L (m (c0Loc d)) (m (c1Loc d)) (m (c2Loc d)) (m (c3Loc d)) (m (c4Loc d)) (m (c5Loc d)) (m (c6Loc d)) (m (c7Loc d)) fsh prev 2 i = SMsem m d L 3 i := by
  rw [← set_sb2P] at hi
  obtain ⟨y, -, rfl⟩ := Finset.mem_map.mp hi
  have hy : (y 0).val < 64 := (y 0).isLt
  refine (word_sb (F := F) d L ![128] inb_S512_S64_128 (k0_off85 L) (k0_off4 L) (k0_off85_inb L) (k0_off4_inb L)
    (L 1).val 1216 1024 3 (k0_off85_eq L) (k0_off4_eq L) rfl (by decide) prev fsh
    ((c2S L).view.read (Elt F) (m (c2Loc d))) y).trans ?_
  refine (col2_word m d L (64 * 3 + (y 0).val) (by omega)).trans ?_
  exact (SMsem_at m d L 3 (by decide) 2 (by decide) _ (y 0).val hy (by
    show 128 + 1 * (y 0).val = 64 * 2 + (y 0).val
    omega)).symm

omit [FloatOps F] in
theorem sv_3_3 (fsh : Buf (Elt F) ((sh0P L).view.loc (thr d L))) (prev : Buf (Elt F) ((sbW).view.loc (thr d L)))
    (i : S512.Idx) (hi : i ∈ runS 3) :
    Cp3 d L (m (c0Loc d)) (m (c1Loc d)) (m (c2Loc d)) (m (c3Loc d)) (m (c4Loc d)) (m (c5Loc d)) (m (c6Loc d)) (m (c7Loc d)) fsh prev 3 i = SMsem m d L 3 i := by
  rw [← set_sb3P] at hi
  obtain ⟨y, -, rfl⟩ := Finset.mem_map.mp hi
  have hy : (y 0).val < 64 := (y 0).isLt
  refine (word_sb (F := F) d L ![192] inb_S512_S64_192 (k0_off86 L) (k0_off5 L) (k0_off86_inb L) (k0_off5_inb L)
    (L 1).val 1728 1536 3 (k0_off86_eq L) (k0_off5_eq L) rfl (by decide) prev fsh
    ((c3S L).view.read (Elt F) (m (c3Loc d))) y).trans ?_
  refine (col3_word m d L (64 * 3 + (y 0).val) (by omega)).trans ?_
  exact (SMsem_at m d L 3 (by decide) 3 (by decide) _ (y 0).val hy (by
    show 192 + 1 * (y 0).val = 64 * 3 + (y 0).val
    omega)).symm

omit [FloatOps F] in
theorem sv_3_4 (fsh : Buf (Elt F) ((sh0P L).view.loc (thr d L))) (prev : Buf (Elt F) ((sbW).view.loc (thr d L)))
    (i : S512.Idx) (hi : i ∈ runS 4) :
    Cp3 d L (m (c0Loc d)) (m (c1Loc d)) (m (c2Loc d)) (m (c3Loc d)) (m (c4Loc d)) (m (c5Loc d)) (m (c6Loc d)) (m (c7Loc d)) fsh prev 4 i = SMsem m d L 3 i := by
  rw [← set_sb4P] at hi
  obtain ⟨y, -, rfl⟩ := Finset.mem_map.mp hi
  have hy : (y 0).val < 64 := (y 0).isLt
  refine (word_sb (F := F) d L ![256] inb_S512_S64_256 (k0_off87 L) (k0_off6 L) (k0_off87_inb L) (k0_off6_inb L)
    (L 1).val 2240 2048 3 (k0_off87_eq L) (k0_off6_eq L) rfl (by decide) prev fsh
    ((c4S L).view.read (Elt F) (m (c4Loc d))) y).trans ?_
  refine (col4_word m d L (64 * 3 + (y 0).val) (by omega)).trans ?_
  exact (SMsem_at m d L 3 (by decide) 4 (by decide) _ (y 0).val hy (by
    show 256 + 1 * (y 0).val = 64 * 4 + (y 0).val
    omega)).symm

omit [FloatOps F] in
theorem sv_3_5 (fsh : Buf (Elt F) ((sh0P L).view.loc (thr d L))) (prev : Buf (Elt F) ((sbW).view.loc (thr d L)))
    (i : S512.Idx) (hi : i ∈ runS 5) :
    Cp3 d L (m (c0Loc d)) (m (c1Loc d)) (m (c2Loc d)) (m (c3Loc d)) (m (c4Loc d)) (m (c5Loc d)) (m (c6Loc d)) (m (c7Loc d)) fsh prev 5 i = SMsem m d L 3 i := by
  rw [← set_sb5P] at hi
  obtain ⟨y, -, rfl⟩ := Finset.mem_map.mp hi
  have hy : (y 0).val < 64 := (y 0).isLt
  refine (word_sb (F := F) d L ![320] inb_S512_S64_320 (k0_off88 L) (k0_off7 L) (k0_off88_inb L) (k0_off7_inb L)
    (L 1).val 2752 2560 3 (k0_off88_eq L) (k0_off7_eq L) rfl (by decide) prev fsh
    ((c5S L).view.read (Elt F) (m (c5Loc d))) y).trans ?_
  refine (col5_word m d L (64 * 3 + (y 0).val) (by omega)).trans ?_
  exact (SMsem_at m d L 3 (by decide) 5 (by decide) _ (y 0).val hy (by
    show 320 + 1 * (y 0).val = 64 * 5 + (y 0).val
    omega)).symm

omit [FloatOps F] in
theorem sv_3_6 (fsh : Buf (Elt F) ((sh0P L).view.loc (thr d L))) (prev : Buf (Elt F) ((sbW).view.loc (thr d L)))
    (i : S512.Idx) (hi : i ∈ runS 6) :
    Cp3 d L (m (c0Loc d)) (m (c1Loc d)) (m (c2Loc d)) (m (c3Loc d)) (m (c4Loc d)) (m (c5Loc d)) (m (c6Loc d)) (m (c7Loc d)) fsh prev 6 i = SMsem m d L 3 i := by
  rw [← set_sb6P] at hi
  obtain ⟨y, -, rfl⟩ := Finset.mem_map.mp hi
  have hy : (y 0).val < 64 := (y 0).isLt
  refine (word_sb (F := F) d L ![384] inb_S512_S64_384 (k0_off89 L) (k0_off8 L) (k0_off89_inb L) (k0_off8_inb L)
    (L 1).val 3264 3072 3 (k0_off89_eq L) (k0_off8_eq L) rfl (by decide) prev fsh
    ((c6S L).view.read (Elt F) (m (c6Loc d))) y).trans ?_
  refine (col6_word m d L (64 * 3 + (y 0).val) (by omega)).trans ?_
  exact (SMsem_at m d L 3 (by decide) 6 (by decide) _ (y 0).val hy (by
    show 384 + 1 * (y 0).val = 64 * 6 + (y 0).val
    omega)).symm

omit [FloatOps F] in
theorem sv_3_7 (fsh : Buf (Elt F) ((sh0P L).view.loc (thr d L))) (prev : Buf (Elt F) ((sbW).view.loc (thr d L)))
    (i : S512.Idx) (hi : i ∈ runS 7) :
    Cp3 d L (m (c0Loc d)) (m (c1Loc d)) (m (c2Loc d)) (m (c3Loc d)) (m (c4Loc d)) (m (c5Loc d)) (m (c6Loc d)) (m (c7Loc d)) fsh prev 7 i = SMsem m d L 3 i := by
  rw [← set_sb7P] at hi
  obtain ⟨y, -, rfl⟩ := Finset.mem_map.mp hi
  have hy : (y 0).val < 64 := (y 0).isLt
  refine (word_sb (F := F) d L ![448] inb_S512_S64_448 (k0_off90 L) (k0_off9 L) (k0_off90_inb L) (k0_off9_inb L)
    (L 1).val 3776 3584 3 (k0_off90_eq L) (k0_off9_eq L) rfl (by decide) prev fsh
    ((c7S L).view.read (Elt F) (m (c7Loc d))) y).trans ?_
  refine (col7_word m d L (64 * 3 + (y 0).val) (by omega)).trans ?_
  exact (SMsem_at m d L 3 (by decide) 7 (by decide) _ (y 0).val hy (by
    show 448 + 1 * (y 0).val = 64 * 7 + (y 0).val
    omega)).symm

end StageW

end Cert.Proof.KI

end
-- ==== Proof.KI.StageW4.lean ====
/-
  Chunk 4 of the staged index words: each of its eight copies lands, in its run of the index buffer, the chunk's 64
  words of its column (the chain of the windows' offsets, instantiated at the copy's three windows).
-/
import proofs.«204821_g30846455120635_fold_wed_m_1292_33_alg».proof.Proof.KI.StageGen

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_4_0 (fsh : Buf (Elt F) ((sh0P L).view.loc (thr d L))) (prev : Buf (Elt F) ((saW).view.loc (thr d L)))
    (i : S512.Idx) (hi : i ∈ runS 0) :
    Cp4 d L (m (c0Loc d)) (m (c1Loc d)) (m (c2Loc d)) (m (c3Loc d)) (m (c4Loc d)) (m (c5Loc d)) (m (c6Loc d)) (m (c7Loc d)) fsh prev 0 i = SMsem m d L 4 i := by
  rw [← set_sa0P] at hi
  obtain ⟨y, -, rfl⟩ := Finset.mem_map.mp hi
  have hy : (y 0).val < 64 := (y 0).isLt
  refine (word_sa (F := F) d L ![0] inb_S512_S64_0 (k0_off115 L) (k0_off1 L) (k0_off115_inb L) (k0_off1_inb L)
    (L 1).val 256 0 4 (k0_off115_eq L) (k0_off1_eq L) rfl (by decide) prev fsh
    ((c0S L).view.read (Elt F) (m (c0Loc d))) y).trans ?_
  refine (col0_word m d L (64 * 4 + (y 0).val) (by omega)).trans ?_
  exact (SMsem_at m d L 4 (by decide) 0 (by decide) _ (y 0).val hy (by
    show 0 + 1 * (y 0).val = 64 * 0 + (y 0).val
    omega)).symm

omit [FloatOps F] in
theorem sv_4_1 (fsh : Buf (Elt F) ((sh0P L).view.loc (thr d L))) (prev : Buf (Elt F) ((saW).view.loc (thr d L)))
    (i : S512.Idx) (hi : i ∈ runS 1) :
    Cp4 d L (m (c0Loc d)) (m (c1Loc d)) (m (c2Loc d)) (m (c3Loc d)) (m (c4Loc d)) (m (c5Loc d)) (m (c6Loc d)) (m (c7Loc d)) fsh prev 1 i = SMsem m d L 4 i := by
  rw [← set_sa1P] at hi
  obtain ⟨y, -, rfl⟩ := Finset.mem_map.mp hi
  have hy : (y 0).val < 64 := (y 0).isLt
  refine (word_sa (F := F) d L ![64] inb_S512_S64_64 (k0_off116 L) (k0_off3 L) (k0_off116_inb L) (k0_off3_inb L)
    (L 1).val 768 512 4 (k0_off116_eq L) (k0_off3_eq L) rfl (by decide) prev fsh
    ((c1S L).view.read (Elt F) (m (c1Loc d))) y).trans ?_
  refine (col1_word m d L (64 * 4 + (y 0).val) (by omega)).trans ?_
  exact (SMsem_at m d L 4 (by decide) 1 (by decide) _ (y 0).val hy (by
    show 64 + 1 * (y 0).val = 64 * 1 + (y 0).val
    omega)).symm

omit [FloatOps F] in
theorem sv_4_2 (fsh : Buf (Elt F) ((sh0P L).view.loc (thr d L))) (prev : Buf (Elt F) ((saW).view.loc (thr d L)))
    (i : S512.Idx) (hi : i ∈ runS 2) :
    Cp4 d L (m (c0Loc d)) (m (c1Loc d)) (m (c2Loc d)) (m (c3Loc d)) (m (c4Loc d)) (m (c5Loc d)) (m (c6Loc d)) (m (c7Loc d)) fsh prev 2 i = SMsem m d L 4 i := by
  rw [← set_sa2P] at hi
  obtain ⟨y, -, rfl⟩ := Finset.mem_map.mp hi
  have hy : (y 0).val < 64 := (y 0).isLt
  refine (word_sa (F := F) d L ![128] inb_S512_S64_128 (k0_off117 L) (k0_off4 L) (k0_off117_inb L) (k0_off4_inb L)
    (L 1).val 1280 1024 4 (k0_off117_eq L) (k0_off4_eq L) rfl (by decide) prev fsh
    ((c2S L).view.read (Elt F) (m (c2Loc d))) y).trans ?_
  refine (col2_word m d L (64 * 4 + (y 0).val) (by omega)).trans ?_
  exact (SMsem_at m d L 4 (by decide) 2 (by decide) _ (y 0).val hy (by
    show 128 + 1 * (y 0).val = 64 * 2 + (y 0).val
    omega)).symm

omit [FloatOps F] in
theorem sv_4_3 (fsh : Buf (Elt F) ((sh0P L).view.loc (thr d L))) (prev : Buf (Elt F) ((saW).view.loc (thr d L)))
    (i : S512.Idx) (hi : i ∈ runS 3) :
    Cp4 d L (m (c0Loc d)) (m (c1Loc d)) (m (c2Loc d)) (m (c3Loc d)) (m (c4Loc d)) (m (c5Loc d)) (m (c6Loc d)) (m (c7Loc d)) fsh prev 3 i = SMsem m d L 4 i := by
  rw [← set_sa3P] at hi
  obtain ⟨y, -, rfl⟩ := Finset.mem_map.mp hi
  have hy : (y 0).val < 64 := (y 0).isLt
  refine (word_sa (F := F) d L ![192] inb_S512_S64_192 (k0_off118 L) (k0_off5 L) (k0_off118_inb L) (k0_off5_inb L)
    (L 1).val 1792 1536 4 (k0_off118_eq L) (k0_off5_eq L) rfl (by decide) prev fsh
    ((c3S L).view.read (Elt F) (m (c3Loc d))) y).trans ?_
  refine (col3_word m d L (64 * 4 + (y 0).val) (by omega)).trans ?_
  exact (SMsem_at m d L 4 (by decide) 3 (by decide) _ (y 0).val hy (by
    show 192 + 1 * (y 0).val = 64 * 3 + (y 0).val
    omega)).symm

omit [FloatOps F] in
theorem sv_4_4 (fsh : Buf (Elt F) ((sh0P L).view.loc (thr d L))) (prev : Buf (Elt F) ((saW).view.loc (thr d L)))
    (i : S512.Idx) (hi : i ∈ runS 4) :
    Cp4 d L (m (c0Loc d)) (m (c1Loc d)) (m (c2Loc d)) (m (c3Loc d)) (m (c4Loc d)) (m (c5Loc d)) (m (c6Loc d)) (m (c7Loc d)) fsh prev 4 i = SMsem m d L 4 i := by
  rw [← set_sa4P] at hi
  obtain ⟨y, -, rfl⟩ := Finset.mem_map.mp hi
  have hy : (y 0).val < 64 := (y 0).isLt
  refine (word_sa (F := F) d L ![256] inb_S512_S64_256 (k0_off119 L) (k0_off6 L) (k0_off119_inb L) (k0_off6_inb L)
    (L 1).val 2304 2048 4 (k0_off119_eq L) (k0_off6_eq L) rfl (by decide) prev fsh
    ((c4S L).view.read (Elt F) (m (c4Loc d))) y).trans ?_
  refine (col4_word m d L (64 * 4 + (y 0).val) (by omega)).trans ?_
  exact (SMsem_at m d L 4 (by decide) 4 (by decide) _ (y 0).val hy (by
    show 256 + 1 * (y 0).val = 64 * 4 + (y 0).val
    omega)).symm

omit [FloatOps F] in
theorem sv_4_5 (fsh : Buf (Elt F) ((sh0P L).view.loc (thr d L))) (prev : Buf (Elt F) ((saW).view.loc (thr d L)))
    (i : S512.Idx) (hi : i ∈ runS 5) :
    Cp4 d L (m (c0Loc d)) (m (c1Loc d)) (m (c2Loc d)) (m (c3Loc d)) (m (c4Loc d)) (m (c5Loc d)) (m (c6Loc d)) (m (c7Loc d)) fsh prev 5 i = SMsem m d L 4 i := by
  rw [← set_sa5P] at hi
  obtain ⟨y, -, rfl⟩ := Finset.mem_map.mp hi
  have hy : (y 0).val < 64 := (y 0).isLt
  refine (word_sa (F := F) d L ![320] inb_S512_S64_320 (k0_off120 L) (k0_off7 L) (k0_off120_inb L) (k0_off7_inb L)
    (L 1).val 2816 2560 4 (k0_off120_eq L) (k0_off7_eq L) rfl (by decide) prev fsh
    ((c5S L).view.read (Elt F) (m (c5Loc d))) y).trans ?_
  refine (col5_word m d L (64 * 4 + (y 0).val) (by omega)).trans ?_
  exact (SMsem_at m d L 4 (by decide) 5 (by decide) _ (y 0).val hy (by
    show 320 + 1 * (y 0).val = 64 * 5 + (y 0).val
    omega)).symm

omit [FloatOps F] in
theorem sv_4_6 (fsh : Buf (Elt F) ((sh0P L).view.loc (thr d L))) (prev : Buf (Elt F) ((saW).view.loc (thr d L)))
    (i : S512.Idx) (hi : i ∈ runS 6) :
    Cp4 d L (m (c0Loc d)) (m (c1Loc d)) (m (c2Loc d)) (m (c3Loc d)) (m (c4Loc d)) (m (c5Loc d)) (m (c6Loc d)) (m (c7Loc d)) fsh prev 6 i = SMsem m d L 4 i := by
  rw [← set_sa6P] at hi
  obtain ⟨y, -, rfl⟩ := Finset.mem_map.mp hi
  have hy : (y 0).val < 64 := (y 0).isLt
  refine (word_sa (F := F) d L ![384] inb_S512_S64_384 (k0_off121 L) (k0_off8 L) (k0_off121_inb L) (k0_off8_inb L)
    (L 1).val 3328 3072 4 (k0_off121_eq L) (k0_off8_eq L) rfl (by decide) prev fsh
    ((c6S L).view.read (Elt F) (m (c6Loc d))) y).trans ?_
  refine (col6_word m d L (64 * 4 + (y 0).val) (by omega)).trans ?_
  exact (SMsem_at m d L 4 (by decide) 6 (by decide) _ (y 0).val hy (by
    show 384 + 1 * (y 0).val = 64 * 6 + (y 0).val
    omega)).symm

omit [FloatOps F] in
theorem sv_4_7 (fsh : Buf (Elt F) ((sh0P L).view.loc (thr d L))) (prev : Buf (Elt F) ((saW).view.loc (thr d L)))
    (i : S512.Idx) (hi : i ∈ runS 7) :
    Cp4 d L (m (c0Loc d)) (m (c1Loc d)) (m (c2Loc d)) (m (c3Loc d)) (m (c4Loc d)) (m (c5Loc d)) (m (c6Loc d)) (m (c7Loc d)) fsh prev 7 i = SMsem m d L 4 i := by
  rw [← set_sa7P] at hi
  obtain ⟨y, -, rfl⟩ := Finset.mem_map.mp hi
  have hy : (y 0).val < 64 := (y 0).isLt
  refine (word_sa (F := F) d L ![448] inb_S512_S64_448 (k0_off122 L) (k0_off9 L) (k0_off122_inb L) (k0_off9_inb L)
    (L 1).val 3840 3584 4 (k0_off122_eq L) (k0_off9_eq L) rfl (by decide) prev fsh
    ((c7S L).view.read (Elt F) (m (c7Loc d))) y).trans ?_
  refine (col7_word m d L (64 * 4 + (y 0).val) (by omega)).trans ?_
  exact (SMsem_at m d L 4 (by decide) 7 (by decide) _ (y 0).val hy (by
    show 448 + 1 * (y 0).val = 64 * 7 + (y 0).val
    omega)).symm

end StageW

end Cert.Proof.KI

end
-- ==== Proof.KI.StageW5.lean ====
/-
  Chunk 5 of the staged index words: each of its eight copies lands, in its run of the index buffer, the chunk's 64
  words of its column (the chain of the windows' offsets, instantiated at the copy's three windows).
-/
import proofs.«204821_g30846455120635_fold_wed_m_1292_33_alg».proof.Proof.KI.StageGen

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_5_0 (fsh : Buf (Elt F) ((sh0P L).view.loc (thr d L))) (prev : Buf (Elt F) ((sbW).view.loc (thr d L)))
    (i : S512.Idx) (hi : i ∈ runS 0) :
    Cp5 d L (m (c0Loc d)) (m (c1Loc d)) (m (c2Loc d)) (m (c3Loc d)) (m (c4Loc d)) (m (c5Loc d)) (m (c6Loc d)) (m (c7Loc d)) fsh prev 0 i = SMsem m d L 5 i := by
  rw [← set_sb0P] at hi
  obtain ⟨y, -, rfl⟩ := Finset.mem_map.mp hi
  have hy : (y 0).val < 64 := (y 0).isLt
  refine (word_sb (F := F) d L ![0] inb_S512_S64_0 (k0_off147 L) (k0_off1 L) (k0_off147_inb L) (k0_off1_inb L)
    (L 1).val 320 0 5 (k0_off147_eq L) (k0_off1_eq L) rfl (by decide) prev fsh
    ((c0S L).view.read (Elt F) (m (c0Loc d))) y).trans ?_
  refine (col0_word m d L (64 * 5 + (y 0).val) (by omega)).trans ?_
  exact (SMsem_at m d L 5 (by decide) 0 (by decide) _ (y 0).val hy (by
    show 0 + 1 * (y 0).val = 64 * 0 + (y 0).val
    omega)).symm

omit [FloatOps F] in
theorem sv_5_1 (fsh : Buf (Elt F) ((sh0P L).view.loc (thr d L))) (prev : Buf (Elt F) ((sbW).view.loc (thr d L)))
    (i : S512.Idx) (hi : i ∈ runS 1) :
    Cp5 d L (m (c0Loc d)) (m (c1Loc d)) (m (c2Loc d)) (m (c3Loc d)) (m (c4Loc d)) (m (c5Loc d)) (m (c6Loc d)) (m (c7Loc d)) fsh prev 1 i = SMsem m d L 5 i := by
  rw [← set_sb1P] at hi
  obtain ⟨y, -, rfl⟩ := Finset.mem_map.mp hi
  have hy : (y 0).val < 64 := (y 0).isLt
  refine (word_sb (F := F) d L ![64] inb_S512_S64_64 (k0_off148 L) (k0_off3 L) (k0_off148_inb L) (k0_off3_inb L)
    (L 1).val 832 512 5 (k0_off148_eq L) (k0_off3_eq L) rfl (by decide) prev fsh
    ((c1S L).view.read (Elt F) (m (c1Loc d))) y).trans ?_
  refine (col1_word m d L (64 * 5 + (y 0).val) (by omega)).trans ?_
  exact (SMsem_at m d L 5 (by decide) 1 (by decide) _ (y 0).val hy (by
    show 64 + 1 * (y 0).val = 64 * 1 + (y 0).val
    omega)).symm

omit [FloatOps F] in
theorem sv_5_2 (fsh : Buf (Elt F) ((sh0P L).view.loc (thr d L))) (prev : Buf (Elt F) ((sbW).view.loc (thr d L)))
    (i : S512.Idx) (hi : i ∈ runS 2) :
    Cp5 d L (m (c0Loc d)) (m (c1Loc d)) (m (c2Loc d)) (m (c3Loc d)) (m (c4Loc d)) (m (c5Loc d)) (m (c6Loc d)) (m (c7Loc d)) fsh prev 2 i = SMsem m d L 5 i := by
  rw [← set_sb2P] at hi
  obtain ⟨y, -, rfl⟩ := Finset.mem_map.mp hi
  have hy : (y 0).val < 64 := (y 0).isLt
  refine (word_sb (F := F) d L ![128] inb_S512_S64_128 (k0_off149 L) (k0_off4 L) (k0_off149_inb L) (k0_off4_inb L)
    (L 1).val 1344 1024 5 (k0_off149_eq L) (k0_off4_eq L) rfl (by decide) prev fsh
    ((c2S L).view.read (Elt F) (m (c2Loc d))) y).trans ?_
  refine (col2_word m d L (64 * 5 + (y 0).val) (by omega)).trans ?_
  exact (SMsem_at m d L 5 (by decide) 2 (by decide) _ (y 0).val hy (by
    show 128 + 1 * (y 0).val = 64 * 2 + (y 0).val
    omega)).symm

omit [FloatOps F] in
theorem sv_5_3 (fsh : Buf (Elt F) ((sh0P L).view.loc (thr d L))) (prev : Buf (Elt F) ((sbW).view.loc (thr d L)))
    (i : S512.Idx) (hi : i ∈ runS 3) :
    Cp5 d L (m (c0Loc d)) (m (c1Loc d)) (m (c2Loc d)) (m (c3Loc d)) (m (c4Loc d)) (m (c5Loc d)) (m (c6Loc d)) (m (c7Loc d)) fsh prev 3 i = SMsem m d L 5 i := by
  rw [← set_sb3P] at hi
  obtain ⟨y, -, rfl⟩ := Finset.mem_map.mp hi
  have hy : (y 0).val < 64 := (y 0).isLt
  refine (word_sb (F := F) d L ![192] inb_S512_S64_192 (k0_off150 L) (k0_off5 L) (k0_off150_inb L) (k0_off5_inb L)
    (L 1).val 1856 1536 5 (k0_off150_eq L) (k0_off5_eq L) rfl (by decide) prev fsh
    ((c3S L).view.read (Elt F) (m (c3Loc d))) y).trans ?_
  refine (col3_word m d L (64 * 5 + (y 0).val) (by omega)).trans ?_
  exact (SMsem_at m d L 5 (by decide) 3 (by decide) _ (y 0).val hy (by
    show 192 + 1 * (y 0).val = 64 * 3 + (y 0).val
    omega)).symm

omit [FloatOps F] in
theorem sv_5_4 (fsh : Buf (Elt F) ((sh0P L).view.loc (thr d L))) (prev : Buf (Elt F) ((sbW).view.loc (thr d L)))
    (i : S512.Idx) (hi : i ∈ runS 4) :
    Cp5 d L (m (c0Loc d)) (m (c1Loc d)) (m (c2Loc d)) (m (c3Loc d)) (m (c4Loc d)) (m (c5Loc d)) (m (c6Loc d)) (m (c7Loc d)) fsh prev 4 i = SMsem m d L 5 i := by
  rw [← set_sb4P] at hi
  obtain ⟨y, -, rfl⟩ := Finset.mem_map.mp hi
  have hy : (y 0).val < 64 := (y 0).isLt
  refine (word_sb (F := F) d L ![256] inb_S512_S64_256 (k0_off151 L) (k0_off6 L) (k0_off151_inb L) (k0_off6_inb L)
    (L 1).val 2368 2048 5 (k0_off151_eq L) (k0_off6_eq L) rfl (by decide) prev fsh
    ((c4S L).view.read (Elt F) (m (c4Loc d))) y).trans ?_
  refine (col4_word m d L (64 * 5 + (y 0).val) (by omega)).trans ?_
  exact (SMsem_at m d L 5 (by decide) 4 (by decide) _ (y 0).val hy (by
    show 256 + 1 * (y 0).val = 64 * 4 + (y 0).val
    omega)).symm

omit [FloatOps F] in
theorem sv_5_5 (fsh : Buf (Elt F) ((sh0P L).view.loc (thr d L))) (prev : Buf (Elt F) ((sbW).view.loc (thr d L)))
    (i : S512.Idx) (hi : i ∈ runS 5) :
    Cp5 d L (m (c0Loc d)) (m (c1Loc d)) (m (c2Loc d)) (m (c3Loc d)) (m (c4Loc d)) (m (c5Loc d)) (m (c6Loc d)) (m (c7Loc d)) fsh prev 5 i = SMsem m d L 5 i := by
  rw [← set_sb5P] at hi
  obtain ⟨y, -, rfl⟩ := Finset.mem_map.mp hi
  have hy : (y 0).val < 64 := (y 0).isLt
  refine (word_sb (F := F) d L ![320] inb_S512_S64_320 (k0_off152 L) (k0_off7 L) (k0_off152_inb L) (k0_off7_inb L)
    (L 1).val 2880 2560 5 (k0_off152_eq L) (k0_off7_eq L) rfl (by decide) prev fsh
    ((c5S L).view.read (Elt F) (m (c5Loc d))) y).trans ?_
  refine (col5_word m d L (64 * 5 + (y 0).val) (by omega)).trans ?_
  exact (SMsem_at m d L 5 (by decide) 5 (by decide) _ (y 0).val hy (by
    show 320 + 1 * (y 0).val = 64 * 5 + (y 0).val
    omega)).symm

omit [FloatOps F] in
theorem sv_5_6 (fsh : Buf (Elt F) ((sh0P L).view.loc (thr d L))) (prev : Buf (Elt F) ((sbW).view.loc (thr d L)))
    (i : S512.Idx) (hi : i ∈ runS 6) :
    Cp5 d L (m (c0Loc d)) (m (c1Loc d)) (m (c2Loc d)) (m (c3Loc d)) (m (c4Loc d)) (m (c5Loc d)) (m (c6Loc d)) (m (c7Loc d)) fsh prev 6 i = SMsem m d L 5 i := by
  rw [← set_sb6P] at hi
  obtain ⟨y, -, rfl⟩ := Finset.mem_map.mp hi
  have hy : (y 0).val < 64 := (y 0).isLt
  refine (word_sb (F := F) d L ![384] inb_S512_S64_384 (k0_off153 L) (k0_off8 L) (k0_off153_inb L) (k0_off8_inb L)
    (L 1).val 3392 3072 5 (k0_off153_eq L) (k0_off8_eq L) rfl (by decide) prev fsh
    ((c6S L).view.read (Elt F) (m (c6Loc d))) y).trans ?_
  refine (col6_word m d L (64 * 5 + (y 0).val) (by omega)).trans ?_
  exact (SMsem_at m d L 5 (by decide) 6 (by decide) _ (y 0).val hy (by
    show 384 + 1 * (y 0).val = 64 * 6 + (y 0).val
    omega)).symm

omit [FloatOps F] in
theorem sv_5_7 (fsh : Buf (Elt F) ((sh0P L).view.loc (thr d L))) (prev : Buf (Elt F) ((sbW).view.loc (thr d L)))
    (i : S512.Idx) (hi : i ∈ runS 7) :
    Cp5 d L (m (c0Loc d)) (m (c1Loc d)) (m (c2Loc d)) (m (c3Loc d)) (m (c4Loc d)) (m (c5Loc d)) (m (c6Loc d)) (m (c7Loc d)) fsh prev 7 i = SMsem m d L 5 i := by
  rw [← set_sb7P] at hi
  obtain ⟨y, -, rfl⟩ := Finset.mem_map.mp hi
  have hy : (y 0).val < 64 := (y 0).isLt
  refine (word_sb (F := F) d L ![448] inb_S512_S64_448 (k0_off154 L) (k0_off9 L) (k0_off154_inb L) (k0_off9_inb L)
    (L 1).val 3904 3584 5 (k0_off154_eq L) (k0_off9_eq L) rfl (by decide) prev fsh
    ((c7S L).view.read (Elt F) (m (c7Loc d))) y).trans ?_
  refine (col7_word m d L (64 * 5 + (y 0).val) (by omega)).trans ?_
  exact (SMsem_at m d L 5 (by decide) 7 (by decide) _ (y 0).val hy (by
    show 448 + 1 * (y 0).val = 64 * 7 + (y 0).val
    omega)).symm

end StageW

end Cert.Proof.KI

end
-- ==== Proof.KI.StageW6.lean ====
/-
  Chunk 6 of the staged index words: each of its eight copies lands, in its run of the index buffer, the chunk's 64
  words of its column (the chain of the windows' offsets, instantiated at the copy's three windows).
-/
import proofs.«204821_g30846455120635_fold_wed_m_1292_33_alg».proof.Proof.KI.StageGen

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_6_0 (fsh : Buf (Elt F) ((sh0P L).view.loc (thr d L))) (prev : Buf (Elt F) ((saW).view.loc (thr d L)))
    (i : S512.Idx) (hi : i ∈ runS 0) :
    Cp6 d L (m (c0Loc d)) (m (c1Loc d)) (m (c2Loc d)) (m (c3Loc d)) (m (c4Loc d)) (m (c5Loc d)) (m (c6Loc d)) (m (c7Loc d)) fsh prev 0 i = SMsem m d L 6 i := by
  rw [← set_sa0P] at hi
  obtain ⟨y, -, rfl⟩ := Finset.mem_map.mp hi
  have hy : (y 0).val < 64 := (y 0).isLt
  refine (word_sa (F := F) d L ![0] inb_S512_S64_0 (k0_off179 L) (k0_off1 L) (k0_off179_inb L) (k0_off1_inb L)
    (L 1).val 384 0 6 (k0_off179_eq L) (k0_off1_eq L) rfl (by decide) prev fsh
    ((c0S L).view.read (Elt F) (m (c0Loc d))) y).trans ?_
  refine (col0_word m d L (64 * 6 + (y 0).val) (by omega)).trans ?_
  exact (SMsem_at m d L 6 (by decide) 0 (by decide) _ (y 0).val hy (by
    show 0 + 1 * (y 0).val = 64 * 0 + (y 0).val
    omega)).symm

omit [FloatOps F] in
theorem sv_6_1 (fsh : Buf (Elt F) ((sh0P L).view.loc (thr d L))) (prev : Buf (Elt F) ((saW).view.loc (thr d L)))
    (i : S512.Idx) (hi : i ∈ runS 1) :
    Cp6 d L (m (c0Loc d)) (m (c1Loc d)) (m (c2Loc d)) (m (c3Loc d)) (m (c4Loc d)) (m (c5Loc d)) (m (c6Loc d)) (m (c7Loc d)) fsh prev 1 i = SMsem m d L 6 i := by
  rw [← set_sa1P] at hi
  obtain ⟨y, -, rfl⟩ := Finset.mem_map.mp hi
  have hy : (y 0).val < 64 := (y 0).isLt
  refine (word_sa (F := F) d L ![64] inb_S512_S64_64 (k0_off180 L) (k0_off3 L) (k0_off180_inb L) (k0_off3_inb L)
    (L 1).val 896 512 6 (k0_off180_eq L) (k0_off3_eq L) rfl (by decide) prev fsh
    ((c1S L).view.read (Elt F) (m (c1Loc d))) y).trans ?_
  refine (col1_word m d L (64 * 6 + (y 0).val) (by omega)).trans ?_
  exact (SMsem_at m d L 6 (by decide) 1 (by decide) _ (y 0).val hy (by
    show 64 + 1 * (y 0).val = 64 * 1 + (y 0).val
    omega)).symm

omit [FloatOps F] in
theorem sv_6_2 (fsh : Buf (Elt F) ((sh0P L).view.loc (thr d L))) (prev : Buf (Elt F) ((saW).view.loc (thr d L)))
    (i : S512.Idx) (hi : i ∈ runS 2) :
    Cp6 d L (m (c0Loc d)) (m (c1Loc d)) (m (c2Loc d)) (m (c3Loc d)) (m (c4Loc d)) (m (c5Loc d)) (m (c6Loc d)) (m (c7Loc d)) fsh prev 2 i = SMsem m d L 6 i := by
  rw [← set_sa2P] at hi
  obtain ⟨y, -, rfl⟩ := Finset.mem_map.mp hi
  have hy : (y 0).val < 64 := (y 0).isLt
  refine (word_sa (F := F) d L ![128] inb_S512_S64_128 (k0_off181 L) (k0_off4 L) (k0_off181_inb L) (k0_off4_inb L)
    (L 1).val 1408 1024 6 (k0_off181_eq L) (k0_off4_eq L) rfl (by decide) prev fsh
    ((c2S L).view.read (Elt F) (m (c2Loc d))) y).trans ?_
  refine (col2_word m d L (64 * 6 + (y 0).val) (by omega)).trans ?_
  exact (SMsem_at m d L 6 (by decide) 2 (by decide) _ (y 0).val hy (by
    show 128 + 1 * (y 0).val = 64 * 2 + (y 0).val
    omega)).symm

omit [FloatOps F] in
theorem sv_6_3 (fsh : Buf (Elt F) ((sh0P L).view.loc (thr d L))) (prev : Buf (Elt F) ((saW).view.loc (thr d L)))
    (i : S512.Idx) (hi : i ∈ runS 3) :
    Cp6 d L (m (c0Loc d)) (m (c1Loc d)) (m (c2Loc d)) (m (c3Loc d)) (m (c4Loc d)) (m (c5Loc d)) (m (c6Loc d)) (m (c7Loc d)) fsh prev 3 i = SMsem m d L 6 i := by
  rw [← set_sa3P] at hi
  obtain ⟨y, -, rfl⟩ := Finset.mem_map.mp hi
  have hy : (y 0).val < 64 := (y 0).isLt
  refine (word_sa (F := F) d L ![192] inb_S512_S64_192 (k0_off182 L) (k0_off5 L) (k0_off182_inb L) (k0_off5_inb L)
    (L 1).val 1920 1536 6 (k0_off182_eq L) (k0_off5_eq L) rfl (by decide) prev fsh
    ((c3S L).view.read (Elt F) (m (c3Loc d))) y).trans ?_
  refine (col3_word m d L (64 * 6 + (y 0).val) (by omega)).trans ?_
  exact (SMsem_at m d L 6 (by decide) 3 (by decide) _ (y 0).val hy (by
    show 192 + 1 * (y 0).val = 64 * 3 + (y 0).val
    omega)).symm

omit [FloatOps F] in
theorem sv_6_4 (fsh : Buf (Elt F) ((sh0P L).view.loc (thr d L))) (prev : Buf (Elt F) ((saW).view.loc (thr d L)))
    (i : S512.Idx) (hi : i ∈ runS 4) :
    Cp6 d L (m (c0Loc d)) (m (c1Loc d)) (m (c2Loc d)) (m (c3Loc d)) (m (c4Loc d)) (m (c5Loc d)) (m (c6Loc d)) (m (c7Loc d)) fsh prev 4 i = SMsem m d L 6 i := by
  rw [← set_sa4P] at hi
  obtain ⟨y, -, rfl⟩ := Finset.mem_map.mp hi
  have hy : (y 0).val < 64 := (y 0).isLt
  refine (word_sa (F := F) d L ![256] inb_S512_S64_256 (k0_off183 L) (k0_off6 L) (k0_off183_inb L) (k0_off6_inb L)
    (L 1).val 2432 2048 6 (k0_off183_eq L) (k0_off6_eq L) rfl (by decide) prev fsh
    ((c4S L).view.read (Elt F) (m (c4Loc d))) y).trans ?_
  refine (col4_word m d L (64 * 6 + (y 0).val) (by omega)).trans ?_
  exact (SMsem_at m d L 6 (by decide) 4 (by decide) _ (y 0).val hy (by
    show 256 + 1 * (y 0).val = 64 * 4 + (y 0).val
    omega)).symm

omit [FloatOps F] in
theorem sv_6_5 (fsh : Buf (Elt F) ((sh0P L).view.loc (thr d L))) (prev : Buf (Elt F) ((saW).view.loc (thr d L)))
    (i : S512.Idx) (hi : i ∈ runS 5) :
    Cp6 d L (m (c0Loc d)) (m (c1Loc d)) (m (c2Loc d)) (m (c3Loc d)) (m (c4Loc d)) (m (c5Loc d)) (m (c6Loc d)) (m (c7Loc d)) fsh prev 5 i = SMsem m d L 6 i := by
  rw [← set_sa5P] at hi
  obtain ⟨y, -, rfl⟩ := Finset.mem_map.mp hi
  have hy : (y 0).val < 64 := (y 0).isLt
  refine (word_sa (F := F) d L ![320] inb_S512_S64_320 (k0_off184 L) (k0_off7 L) (k0_off184_inb L) (k0_off7_inb L)
    (L 1).val 2944 2560 6 (k0_off184_eq L) (k0_off7_eq L) rfl (by decide) prev fsh
    ((c5S L).view.read (Elt F) (m (c5Loc d))) y).trans ?_
  refine (col5_word m d L (64 * 6 + (y 0).val) (by omega)).trans ?_
  exact (SMsem_at m d L 6 (by decide) 5 (by decide) _ (y 0).val hy (by
    show 320 + 1 * (y 0).val = 64 * 5 + (y 0).val
    omega)).symm

omit [FloatOps F] in
theorem sv_6_6 (fsh : Buf (Elt F) ((sh0P L).view.loc (thr d L))) (prev : Buf (Elt F) ((saW).view.loc (thr d L)))
    (i : S512.Idx) (hi : i ∈ runS 6) :
    Cp6 d L (m (c0Loc d)) (m (c1Loc d)) (m (c2Loc d)) (m (c3Loc d)) (m (c4Loc d)) (m (c5Loc d)) (m (c6Loc d)) (m (c7Loc d)) fsh prev 6 i = SMsem m d L 6 i := by
  rw [← set_sa6P] at hi
  obtain ⟨y, -, rfl⟩ := Finset.mem_map.mp hi
  have hy : (y 0).val < 64 := (y 0).isLt
  refine (word_sa (F := F) d L ![384] inb_S512_S64_384 (k0_off185 L) (k0_off8 L) (k0_off185_inb L) (k0_off8_inb L)
    (L 1).val 3456 3072 6 (k0_off185_eq L) (k0_off8_eq L) rfl (by decide) prev fsh
    ((c6S L).view.read (Elt F) (m (c6Loc d))) y).trans ?_
  refine (col6_word m d L (64 * 6 + (y 0).val) (by omega)).trans ?_
  exact (SMsem_at m d L 6 (by decide) 6 (by decide) _ (y 0).val hy (by
    show 384 + 1 * (y 0).val = 64 * 6 + (y 0).val
    omega)).symm

omit [FloatOps F] in
theorem sv_6_7 (fsh : Buf (Elt F) ((sh0P L).view.loc (thr d L))) (prev : Buf (Elt F) ((saW).view.loc (thr d L)))
    (i : S512.Idx) (hi : i ∈ runS 7) :
    Cp6 d L (m (c0Loc d)) (m (c1Loc d)) (m (c2Loc d)) (m (c3Loc d)) (m (c4Loc d)) (m (c5Loc d)) (m (c6Loc d)) (m (c7Loc d)) fsh prev 7 i = SMsem m d L 6 i := by
  rw [← set_sa7P] at hi
  obtain ⟨y, -, rfl⟩ := Finset.mem_map.mp hi
  have hy : (y 0).val < 64 := (y 0).isLt
  refine (word_sa (F := F) d L ![448] inb_S512_S64_448 (k0_off186 L) (k0_off9 L) (k0_off186_inb L) (k0_off9_inb L)
    (L 1).val 3968 3584 6 (k0_off186_eq L) (k0_off9_eq L) rfl (by decide) prev fsh
    ((c7S L).view.read (Elt F) (m (c7Loc d))) y).trans ?_
  refine (col7_word m d L (64 * 6 + (y 0).val) (by omega)).trans ?_
  exact (SMsem_at m d L 6 (by decide) 7 (by decide) _ (y 0).val hy (by
    show 448 + 1 * (y 0).val = 64 * 7 + (y 0).val
    omega)).symm

end StageW

end Cert.Proof.KI

end
-- ==== Proof.KI.StageW7.lean ====
/-
  Chunk 7 of the staged index words: each of its eight copies lands, in its run of the index buffer, the chunk's 64
  words of its column (the chain of the windows' offsets, instantiated at the copy's three windows).
-/
import proofs.«204821_g30846455120635_fold_wed_m_1292_33_alg».proof.Proof.KI.StageGen

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_7_0 (fsh : Buf (Elt F) ((sh0P L).view.loc (thr d L))) (prev : Buf (Elt F) ((sbW).view.loc (thr d L)))
    (i : S512.Idx) (hi : i ∈ runS 0) :
    Cp7 d L (m (c0Loc d)) (m (c1Loc d)) (m (c2Loc d)) (m (c3Loc d)) (m (c4Loc d)) (m (c5Loc d)) (m (c6Loc d)) (m (c7Loc d)) fsh prev 0 i = SMsem m d L 7 i := by
  rw [← set_sb0P] at hi
  obtain ⟨y, -, rfl⟩ := Finset.mem_map.mp hi
  have hy : (y 0).val < 64 := (y 0).isLt
  refine (word_sb (F := F) d L ![0] inb_S512_S64_0 (k0_off211 L) (k0_off1 L) (k0_off211_inb L) (k0_off1_inb L)
    (L 1).val 448 0 7 (k0_off211_eq L) (k0_off1_eq L) rfl (by decide) prev fsh
    ((c0S L).view.read (Elt F) (m (c0Loc d))) y).trans ?_
  refine (col0_word m d L (64 * 7 + (y 0).val) (by omega)).trans ?_
  exact (SMsem_at m d L 7 (by decide) 0 (by decide) _ (y 0).val hy (by
    show 0 + 1 * (y 0).val = 64 * 0 + (y 0).val
    omega)).symm

omit [FloatOps F] in
theorem sv_7_1 (fsh : Buf (Elt F) ((sh0P L).view.loc (thr d L))) (prev : Buf (Elt F) ((sbW).view.loc (thr d L)))
    (i : S512.Idx) (hi : i ∈ runS 1) :
    Cp7 d L (m (c0Loc d)) (m (c1Loc d)) (m (c2Loc d)) (m (c3Loc d)) (m (c4Loc d)) (m (c5Loc d)) (m (c6Loc d)) (m (c7Loc d)) fsh prev 1 i = SMsem m d L 7 i := by
  rw [← set_sb1P] at hi
  obtain ⟨y, -, rfl⟩ := Finset.mem_map.mp hi
  have hy : (y 0).val < 64 := (y 0).isLt
  refine (word_sb (F := F) d L ![64] inb_S512_S64_64 (k0_off212 L) (k0_off3 L) (k0_off212_inb L) (k0_off3_inb L)
    (L 1).val 960 512 7 (k0_off212_eq L) (k0_off3_eq L) rfl (by decide) prev fsh
    ((c1S L).view.read (Elt F) (m (c1Loc d))) y).trans ?_
  refine (col1_word m d L (64 * 7 + (y 0).val) (by omega)).trans ?_
  exact (SMsem_at m d L 7 (by decide) 1 (by decide) _ (y 0).val hy (by
    show 64 + 1 * (y 0).val = 64 * 1 + (y 0).val
    omega)).symm

omit [FloatOps F] in
theorem sv_7_2 (fsh : Buf (Elt F) ((sh0P L).view.loc (thr d L))) (prev : Buf (Elt F) ((sbW).view.loc (thr d L)))
    (i : S512.Idx) (hi : i ∈ runS 2) :
    Cp7 d L (m (c0Loc d)) (m (c1Loc d)) (m (c2Loc d)) (m (c3Loc d)) (m (c4Loc d)) (m (c5Loc d)) (m (c6Loc d)) (m (c7Loc d)) fsh prev 2 i = SMsem m d L 7 i := by
  rw [← set_sb2P] at hi
  obtain ⟨y, -, rfl⟩ := Finset.mem_map.mp hi
  have hy : (y 0).val < 64 := (y 0).isLt
  refine (word_sb (F := F) d L ![128] inb_S512_S64_128 (k0_off213 L) (k0_off4 L) (k0_off213_inb L) (k0_off4_inb L)
    (L 1).val 1472 1024 7 (k0_off213_eq L) (k0_off4_eq L) rfl (by decide) prev fsh
    ((c2S L).view.read (Elt F) (m (c2Loc d))) y).trans ?_
  refine (col2_word m d L (64 * 7 + (y 0).val) (by omega)).trans ?_
  exact (SMsem_at m d L 7 (by decide) 2 (by decide) _ (y 0).val hy (by
    show 128 + 1 * (y 0).val = 64 * 2 + (y 0).val
    omega)).symm

omit [FloatOps F] in
theorem sv_7_3 (fsh : Buf (Elt F) ((sh0P L).view.loc (thr d L))) (prev : Buf (Elt F) ((sbW).view.loc (thr d L)))
    (i : S512.Idx) (hi : i ∈ runS 3) :
    Cp7 d L (m (c0Loc d)) (m (c1Loc d)) (m (c2Loc d)) (m (c3Loc d)) (m (c4Loc d)) (m (c5Loc d)) (m (c6Loc d)) (m (c7Loc d)) fsh prev 3 i = SMsem m d L 7 i := by
  rw [← set_sb3P] at hi
  obtain ⟨y, -, rfl⟩ := Finset.mem_map.mp hi
  have hy : (y 0).val < 64 := (y 0).isLt
  refine (word_sb (F := F) d L ![192] inb_S512_S64_192 (k0_off214 L) (k0_off5 L) (k0_off214_inb L) (k0_off5_inb L)
    (L 1).val 1984 1536 7 (k0_off214_eq L) (k0_off5_eq L) rfl (by decide) prev fsh
    ((c3S L).view.read (Elt F) (m (c3Loc d))) y).trans ?_
  refine (col3_word m d L (64 * 7 + (y 0).val) (by omega)).trans ?_
  exact (SMsem_at m d L 7 (by decide) 3 (by decide) _ (y 0).val hy (by
    show 192 + 1 * (y 0).val = 64 * 3 + (y 0).val
    omega)).symm

omit [FloatOps F] in
theorem sv_7_4 (fsh : Buf (Elt F) ((sh0P L).view.loc (thr d L))) (prev : Buf (Elt F) ((sbW).view.loc (thr d L)))
    (i : S512.Idx) (hi : i ∈ runS 4) :
    Cp7 d L (m (c0Loc d)) (m (c1Loc d)) (m (c2Loc d)) (m (c3Loc d)) (m (c4Loc d)) (m (c5Loc d)) (m (c6Loc d)) (m (c7Loc d)) fsh prev 4 i = SMsem m d L 7 i := by
  rw [← set_sb4P] at hi
  obtain ⟨y, -, rfl⟩ := Finset.mem_map.mp hi
  have hy : (y 0).val < 64 := (y 0).isLt
  refine (word_sb (F := F) d L ![256] inb_S512_S64_256 (k0_off215 L) (k0_off6 L) (k0_off215_inb L) (k0_off6_inb L)
    (L 1).val 2496 2048 7 (k0_off215_eq L) (k0_off6_eq L) rfl (by decide) prev fsh
    ((c4S L).view.read (Elt F) (m (c4Loc d))) y).trans ?_
  refine (col4_word m d L (64 * 7 + (y 0).val) (by omega)).trans ?_
  exact (SMsem_at m d L 7 (by decide) 4 (by decide) _ (y 0).val hy (by
    show 256 + 1 * (y 0).val = 64 * 4 + (y 0).val
    omega)).symm

omit [FloatOps F] in
theorem sv_7_5 (fsh : Buf (Elt F) ((sh0P L).view.loc (thr d L))) (prev : Buf (Elt F) ((sbW).view.loc (thr d L)))
    (i : S512.Idx) (hi : i ∈ runS 5) :
    Cp7 d L (m (c0Loc d)) (m (c1Loc d)) (m (c2Loc d)) (m (c3Loc d)) (m (c4Loc d)) (m (c5Loc d)) (m (c6Loc d)) (m (c7Loc d)) fsh prev 5 i = SMsem m d L 7 i := by
  rw [← set_sb5P] at hi
  obtain ⟨y, -, rfl⟩ := Finset.mem_map.mp hi
  have hy : (y 0).val < 64 := (y 0).isLt
  refine (word_sb (F := F) d L ![320] inb_S512_S64_320 (k0_off216 L) (k0_off7 L) (k0_off216_inb L) (k0_off7_inb L)
    (L 1).val 3008 2560 7 (k0_off216_eq L) (k0_off7_eq L) rfl (by decide) prev fsh
    ((c5S L).view.read (Elt F) (m (c5Loc d))) y).trans ?_
  refine (col5_word m d L (64 * 7 + (y 0).val) (by omega)).trans ?_
  exact (SMsem_at m d L 7 (by decide) 5 (by decide) _ (y 0).val hy (by
    show 320 + 1 * (y 0).val = 64 * 5 + (y 0).val
    omega)).symm

omit [FloatOps F] in
theorem sv_7_6 (fsh : Buf (Elt F) ((sh0P L).view.loc (thr d L))) (prev : Buf (Elt F) ((sbW).view.loc (thr d L)))
    (i : S512.Idx) (hi : i ∈ runS 6) :
    Cp7 d L (m (c0Loc d)) (m (c1Loc d)) (m (c2Loc d)) (m (c3Loc d)) (m (c4Loc d)) (m (c5Loc d)) (m (c6Loc d)) (m (c7Loc d)) fsh prev 6 i = SMsem m d L 7 i := by
  rw [← set_sb6P] at hi
  obtain ⟨y, -, rfl⟩ := Finset.mem_map.mp hi
  have hy : (y 0).val < 64 := (y 0).isLt
  refine (word_sb (F := F) d L ![384] inb_S512_S64_384 (k0_off217 L) (k0_off8 L) (k0_off217_inb L) (k0_off8_inb L)
    (L 1).val 3520 3072 7 (k0_off217_eq L) (k0_off8_eq L) rfl (by decide) prev fsh
    ((c6S L).view.read (Elt F) (m (c6Loc d))) y).trans ?_
  refine (col6_word m d L (64 * 7 + (y 0).val) (by omega)).trans ?_
  exact (SMsem_at m d L 7 (by decide) 6 (by decide) _ (y 0).val hy (by
    show 384 + 1 * (y 0).val = 64 * 6 + (y 0).val
    omega)).symm

omit [FloatOps F] in
theorem sv_7_7 (fsh : Buf (Elt F) ((sh0P L).view.loc (thr d L))) (prev : Buf (Elt F) ((sbW).view.loc (thr d L)))
    (i : S512.Idx) (hi : i ∈ runS 7) :
    Cp7 d L (m (c0Loc d)) (m (c1Loc d)) (m (c2Loc d)) (m (c3Loc d)) (m (c4Loc d)) (m (c5Loc d)) (m (c6Loc d)) (m (c7Loc d)) fsh prev 7 i = SMsem m d L 7 i := by
  rw [← set_sb7P] at hi
  obtain ⟨y, -, rfl⟩ := Finset.mem_map.mp hi
  have hy : (y 0).val < 64 := (y 0).isLt
  refine (word_sb (F := F) d L ![448] inb_S512_S64_448 (k0_off218 L) (k0_off9 L) (k0_off218_inb L) (k0_off9_inb L)
    (L 1).val 4032 3584 7 (k0_off218_eq L) (k0_off9_eq L) rfl (by decide) prev fsh
    ((c7S L).view.read (Elt F) (m (c7Loc d))) y).trans ?_
  refine (col7_word m d L (64 * 7 + (y 0).val) (by omega)).trans ?_
  exact (SMsem_at m d L 7 (by decide) 7 (by decide) _ (y 0).val hy (by
    show 448 + 1 * (y 0).val = 64 * 7 + (y 0).val
    omega)).symm

end StageW

end Cert.Proof.KI

end
-- ==== Proof.KI.StageVal.lean ====
/-
  The staged index words, chunk by chunk: whichever of the eight copies of a chunk has landed, its run of the index
  buffer holds the chunk's 64 words of its column, read from the launch contents of the index columns.
-/
import proofs.«204821_g30846455120635_fold_wed_m_1292_33_alg».proof.Proof.KI.StageW0
import proofs.«204821_g30846455120635_fold_wed_m_1292_33_alg».proof.Proof.KI.StageW1
import proofs.«204821_g30846455120635_fold_wed_m_1292_33_alg».proof.Proof.KI.StageW2
import proofs.«204821_g30846455120635_fold_wed_m_1292_33_alg».proof.Proof.KI.StageW3
import proofs.«204821_g30846455120635_fold_wed_m_1292_33_alg».proof.Proof.KI.StageW4
import proofs.«204821_g30846455120635_fold_wed_m_1292_33_alg».proof.Proof.KI.StageW5
import proofs.«204821_g30846455120635_fold_wed_m_1292_33_alg».proof.Proof.KI.StageW6
import proofs.«204821_g30846455120635_fold_wed_m_1292_33_alg».proof.Proof.KI.StageW7

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.KernelIdeal.main_arg0_scv : Memref Cert.KernelIdeal.sig Kind.scVector Space.hbm Cert.KernelIdeal.S16384 EltTy.i32)
local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S16384 EltTy.i32)
local notation "a4W" => (Memref.whole Cert.KernelIdeal.main_arg4_scv : Memref Cert.KernelIdeal.sig Kind.scVector Space.hbm Cert.KernelIdeal.S16384 EltTy.i32)
local notation "a5W" => (Memref.whole Cert.KernelIdeal.main_arg5_scv : Memref Cert.KernelIdeal.sig Kind.scVector Space.hbm Cert.KernelIdeal.S16384 EltTy.i32)
local notation "a6W" => (Memref.whole Cert.KernelIdeal.main_arg6_scv : Memref Cert.KernelIdeal.sig Kind.scVector Space.hbm Cert.KernelIdeal.S16384 EltTy.i32)
local notation "a7W" => (Memref.whole Cert.KernelIdeal.main_arg7_scv : Memref Cert.KernelIdeal.sig Kind.scVector Space.hbm Cert.KernelIdeal.S16384 EltTy.i32)
local notation "tbW" => (Memref.whole Cert.KernelIdeal.main_v1_scv : Memref Cert.KernelIdeal.sig Kind.scVector Space.hbm Cert.KernelIdeal.S8192 EltTy.f32)
local notation "ouW" => (Memref.whole Cert.KernelIdeal.main_v2_scv : Memref Cert.KernelIdeal.sig Kind.scVector Space.hbm Cert.KernelIdeal.S4194304 EltTy.f32)
local notation "tvW" => (Memref.whole Cert.KernelIdeal.cc0_scratch0 : Memref Cert.KernelIdeal.sig Kind.scVector Space.vmem Cert.KernelIdeal.S8192 EltTy.f32)
local notation "shW" => (Memref.whole Cert.KernelIdeal.cc0_scratch1 : Memref Cert.KernelIdeal.sig Kind.scVector Space.shared Cert.KernelIdeal.S16x4096 EltTy.i32)
local notation "saW" => (Memref.whole Cert.KernelIdeal.cc0_scratch2 : Memref Cert.KernelIdeal.sig Kind.scVector Space.smem Cert.KernelIdeal.S512 EltTy.i32)
local notation "sbW" => (Memref.whole Cert.KernelIdeal.cc0_scratch3 : Memref Cert.KernelIdeal.sig Kind.scVector Space.smem Cert.KernelIdeal.S512 EltTy.i32)
local notation "baW" => (Memref.whole Cert.KernelIdeal.cc0_scratch4 : Memref Cert.KernelIdeal.sig Kind.scVector Space.vmem Cert.KernelIdeal.S16384 EltTy.f32)
local notation "bbW" => (Memref.whole Cert.KernelIdeal.cc0_scratch5 : Memref Cert.KernelIdeal.sig Kind.scVector Space.vmem Cert.KernelIdeal.S16384 EltTy.f32)

variable (m : (ℓ : Loc nD τ sig) → Buf (Elt F) ℓ)
variable [FloatOps F]

section StageValAll

/-- Chunk 0: each landed run of the index buffer holds the chunk's 64 words of its column. -/
theorem stageVal0 (d : Dev nD) (L : grid0.Coords) : StageVal0 (F := F) m d L := by
  intro fsh prev j i
  have key : ∀ (jn : Nat) (hj : jn < 8), i ∈ runS ⟨jn, hj⟩ →
      Cp0 d L (m (c0Loc d)) (m (c1Loc d)) (m (c2Loc d)) (m (c3Loc d)) (m (c4Loc d)) (m (c5Loc d)) (m (c6Loc d)) (m (c7Loc d)) fsh prev ⟨jn, hj⟩ i = SMsem m d L 0 i := by
    intro jn hj
    interval_cases jn
    · exact sv_0_0 m d L fsh prev i
    · exact sv_0_1 m d L fsh prev i
    · exact sv_0_2 m d L fsh prev i
    · exact sv_0_3 m d L fsh prev i
    · exact sv_0_4 m d L fsh prev i
    · exact sv_0_5 m d L fsh prev i
    · exact sv_0_6 m d L fsh prev i
    · exact sv_0_7 m d L fsh prev i
  exact key j.val j.isLt

/-- Chunk 1: each landed run of the index buffer holds the chunk's 64 words of its column. -/
theorem stageVal1 (d : Dev nD) (L : grid0.Coords) : StageVal1 (F := F) m d L := by
  intro fsh prev j i
  have key : ∀ (jn : Nat) (hj : jn < 8), i ∈ runS ⟨jn, hj⟩ →
      Cp1 d L (m (c0Loc d)) (m (c1Loc d)) (m (c2Loc d)) (m (c3Loc d)) (m (c4Loc d)) (m (c5Loc d)) (m (c6Loc d)) (m (c7Loc d)) fsh prev ⟨jn, hj⟩ i = SMsem m d L 1 i := by
    intro jn hj
    interval_cases jn
    · exact sv_1_0 m d L fsh prev i
    · exact sv_1_1 m d L fsh prev i
    · exact sv_1_2 m d L fsh prev i
    · exact sv_1_3 m d L fsh prev i
    · exact sv_1_4 m d L fsh prev i
    · exact sv_1_5 m d L fsh prev i
    · exact sv_1_6 m d L fsh prev i
    · exact sv_1_7 m d L fsh prev i
  exact key j.val j.isLt

/-- Chunk 2: each landed run of the index buffer holds the chunk's 64 words of its column. -/
theorem stageVal2 (d : Dev nD) (L : grid0.Coords) : StageVal2 (F := F) m d L := by
  intro fsh prev j i
  have key : ∀ (jn : Nat) (hj : jn < 8), i ∈ runS ⟨jn, hj⟩ →
      Cp2 d L (m (c0Loc d)) (m (c1Loc d)) (m (c2Loc d)) (m (c3Loc d)) (m (c4Loc d)) (m (c5Loc d)) (m (c6Loc d)) (m (c7Loc d)) fsh prev ⟨jn, hj⟩ i = SMsem m d L 2 i := by
    intro jn hj
    interval_cases jn
    · exact sv_2_0 m d L fsh prev i
    · exact sv_2_1 m d L fsh prev i
    · exact sv_2_2 m d L fsh prev i
    · exact sv_2_3 m d L fsh prev i
    · exact sv_2_4 m d L fsh prev i
    · exact sv_2_5 m d L fsh prev i
    · exact sv_2_6 m d L fsh prev i
    · exact sv_2_7 m d L fsh prev i
  exact key j.val j.isLt

/-- Chunk 3: each landed run of the index buffer holds the chunk's 64 words of its column. -/
theorem stageVal3 (d : Dev nD) (L : grid0.Coords) : StageVal3 (F := F) m d L := by
  intro fsh prev j i
  have key : ∀ (jn : Nat) (hj : jn < 8), i ∈ runS ⟨jn, hj⟩ →
      Cp3 d L (m (c0Loc d)) (m (c1Loc d)) (m (c2Loc d)) (m (c3Loc d)) (m (c4Loc d)) (m (c5Loc d)) (m (c6Loc d)) (m (c7Loc d)) fsh prev ⟨jn, hj⟩ i = SMsem m d L 3 i := by
    intro jn hj
    interval_cases jn
    · exact sv_3_0 m d L fsh prev i
    · exact sv_3_1 m d L fsh prev i
    · exact sv_3_2 m d L fsh prev i
    · exact sv_3_3 m d L fsh prev i
    · exact sv_3_4 m d L fsh prev i
    · exact sv_3_5 m d L fsh prev i
    · exact sv_3_6 m d L fsh prev i
    · exact sv_3_7 m d L fsh prev i
  exact key j.val j.isLt

/-- Chunk 4: each landed run of the index buffer holds the chunk's 64 words of its column. -/
theorem stageVal4 (d : Dev nD) (L : grid0.Coords) : StageVal4 (F := F) m d L := by
  intro fsh prev j i
  have key : ∀ (jn : Nat) (hj : jn < 8), i ∈ runS ⟨jn, hj⟩ →
      Cp4 d L (m (c0Loc d)) (m (c1Loc d)) (m (c2Loc d)) (m (c3Loc d)) (m (c4Loc d)) (m (c5Loc d)) (m (c6Loc d)) (m (c7Loc d)) fsh prev ⟨jn, hj⟩ i = SMsem m d L 4 i := by
    intro jn hj
    interval_cases jn
    · exact sv_4_0 m d L fsh prev i
    · exact sv_4_1 m d L fsh prev i
    · exact sv_4_2 m d L fsh prev i
    · exact sv_4_3 m d L fsh prev i
    · exact sv_4_4 m d L fsh prev i
    · exact sv_4_5 m d L fsh prev i
    · exact sv_4_6 m d L fsh prev i
    · exact sv_4_7 m d L fsh prev i
  exact key j.val j.isLt

/-- Chunk 5: each landed run of the index buffer holds the chunk's 64 words of its column. -/
theorem stageVal5 (d : Dev nD) (L : grid0.Coords) : StageVal5 (F := F) m d L := by
  intro fsh prev j i
  have key : ∀ (jn : Nat) (hj : jn < 8), i ∈ runS ⟨jn, hj⟩ →
      Cp5 d L (m (c0Loc d)) (m (c1Loc d)) (m (c2Loc d)) (m (c3Loc d)) (m (c4Loc d)) (m (c5Loc d)) (m (c6Loc d)) (m (c7Loc d)) fsh prev ⟨jn, hj⟩ i = SMsem m d L 5 i := by
    intro jn hj
    interval_cases jn
    · exact sv_5_0 m d L fsh prev i
    · exact sv_5_1 m d L fsh prev i
    · exact sv_5_2 m d L fsh prev i
    · exact sv_5_3 m d L fsh prev i
    · exact sv_5_4 m d L fsh prev i
    · exact sv_5_5 m d L fsh prev i
    · exact sv_5_6 m d L fsh prev i
    · exact sv_5_7 m d L fsh prev i
  exact key j.val j.isLt

/-- Chunk 6: each landed run of the index buffer holds the chunk's 64 words of its column. -/
theorem stageVal6 (d : Dev nD) (L : grid0.Coords) : StageVal6 (F := F) m d L := by
  intro fsh prev j i
  have key : ∀ (jn : Nat) (hj : jn < 8), i ∈ runS ⟨jn, hj⟩ →
      Cp6 d L (m (c0Loc d)) (m (c1Loc d)) (m (c2Loc d)) (m (c3Loc d)) (m (c4Loc d)) (m (c5Loc d)) (m (c6Loc d)) (m (c7Loc d)) fsh prev ⟨jn, hj⟩ i = SMsem m d L 6 i := by
    intro jn hj
    interval_cases jn
    · exact sv_6_0 m d L fsh prev i
    · exact sv_6_1 m d L fsh prev i
    · exact sv_6_2 m d L fsh prev i
    · exact sv_6_3 m d L fsh prev i
    · exact sv_6_4 m d L fsh prev i
    · exact sv_6_5 m d L fsh prev i
    · exact sv_6_6 m d L fsh prev i
    · exact sv_6_7 m d L fsh prev i
  exact key j.val j.isLt

/-- Chunk 7: each landed run of the index buffer holds the chunk's 64 words of its column. -/
theorem stageVal7 (d : Dev nD) (L : grid0.Coords) : StageVal7 (F := F) m d L := by
  intro fsh prev j i
  have key : ∀ (jn : Nat) (hj : jn < 8), i ∈ runS ⟨jn, hj⟩ →
      Cp7 d L (m (c0Loc d)) (m (c1Loc d)) (m (c2Loc d)) (m (c3Loc d)) (m (c4Loc d)) (m (c5Loc d)) (m (c6Loc d)) (m (c7Loc d)) fsh prev ⟨jn, hj⟩ i = SMsem m d L 7 i := by
    intro jn hj
    interval_cases jn
    · exact sv_7_0 m d L fsh prev i
    · exact sv_7_1 m d L fsh prev i
    · exact sv_7_2 m d L fsh prev i
    · exact sv_7_3 m d L fsh prev i
    · exact sv_7_4 m d L fsh prev i
    · exact sv_7_5 m d L fsh prev i
    · exact sv_7_6 m d L fsh prev i
    · exact sv_7_7 m d L fsh prev i
  exact key j.val j.isLt

end StageValAll

end Cert.Proof.KI

end
-- ==== Proof.KI.PreOK.lean ====
/-
  The precondition gives what the kernel's proof asks of the launch memory: every index word is below 32. The
  precondition's integer part says so of the sixteen argument arrays; the eight index columns are the first eight.
-/
import proofs.«204821_g30846455120635_fold_wed_m_1292_33_alg».proof.Defs
import proofs.«204821_g30846455120635_fold_wed_m_1292_33_alg».proof.Proof.Gen.Pre_input_domain
import proofs.«204821_g30846455120635_fold_wed_m_1292_33_alg».proof.Proof.RefPre
import proofs.«204821_g30846455120635_fold_wed_m_1292_33_alg».proof.Proof.KI.Pay

noncomputable section

namespace Cert.Proof.KI

open Cert.KernelIdeal Cert.KernelIdeal.Gen

open Idealize.ShloMosaic

variable (m : (ℓ : Loc nD τ sig) → Buf (Elt Ideal) ℓ)

/-- Under the precondition every index word of every device is below 32. -/
theorem preOK_of_pre_KI [Cert.Pre_input_domain.Facts] (h : Cert.Pre_KernelIdeal m) : PreOK m := by
  intro d j b
  exact Cert.RefSide.idx_lt_of_pre (F := Ideal) _ _ _ _ _ _ _ _ _ _ _ _ _ _ _ _ (h d) j b

end Cert.Proof.KI

end
-- ==== Proof.KB.Setup.lean ====
/-
  The lookup kernel as the SparseCore launch theorem sees it: the configuration, the ghost state (the handshakes'
  rounds beside the transfers' counters), the arrays' locations and the memrefs a vector subcore's task names.
-/
import proofs.«204821_g30846455120635_fold_wed_m_1292_33_alg».proof.Proof.Gen.Kernel
import proofs.«204821_g30846455120635_fold_wed_m_1292_33_alg».proof.Proof.Gen.Kernel.Skeleton
import proofs.«204821_g30846455120635_fold_wed_m_1292_33_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

end Cert.Proof.KB

end
-- ==== Proof.KB.Tile.lean ====
import proofs.«204821_g30846455120635_fold_wed_m_1292_33_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable [FloatOps F]

section Tile
variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The 512 words of an index column this task reads: words 512·(2·subcore + core) onwards. -/
abbrev cRect (L : grid0.Coords) : Rect S16384 := Rect.unit (s := S16384) (k0_off2 L) S512.size (k0_off2_inb L)
abbrev c0S (L : grid0.Coords) : Memref sig .scVector .hbm S512 .i32 := (a0W).slice (cRect L) (fun _ => rfl)
abbrev c1S (L : grid0.Coords) : Memref sig .scVector .hbm S512 .i32 := (a1W).slice (cRect L) (fun _ => rfl)
abbrev c2S (L : grid0.Coords) : Memref sig .scVector .hbm S512 .i32 := (a2W).slice (cRect L) (fun _ => rfl)
abbrev c3S (L : grid0.Coords) : Memref sig .scVector .hbm S512 .i32 := (a3W).slice (cRect L) (fun _ => rfl)
abbrev c4S (L : grid0.Coords) : Memref sig .scVector .hbm S512 .i32 := (a4W).slice (cRect L) (fun _ => rfl)
abbrev c5S (L : grid0.Coords) : Memref sig .scVector .hbm S512 .i32 := (a5W).slice (cRect L) (fun _ => rfl)
abbrev c6S (L : grid0.Coords) : Memref sig .scVector .hbm S512 .i32 := (a6W).slice (cRect L) (fun _ => rfl)
abbrev c7S (L : grid0.Coords) : Memref sig .scVector .hbm S512 .i32 := (a7W).slice (cRect L) (fun _ => rfl)

/-- Piece j of the task's row of the shared scratch: columns 512·j onwards, where index column j is staged. -/
abbrev sh0P (L : grid0.Coords) : Memref sig .scVector .shared S512 .i32 :=
  ((shW).slice (Rect.unit (s := S16x4096) (k0_off1 L) S1x512.size (k0_off1_inb L)) (fun _ => rfl)).squeeze S512 squeezes_S1x512_S512
abbrev sh1P (L : grid0.Coords) : Memref sig .scVector .shared S512 .i32 :=
  ((shW).slice (Rect.unit (s := S16x4096) (k0_off3 L) S1x512.size (k0_off3_inb L)) (fun _ => rfl)).squeeze S512 squeezes_S1x512_S512
abbrev sh2P (L : grid0.Coords) : Memref sig .scVector .shared S512 .i32 :=
  ((shW).slice (Rect.unit (s := S16x4096) (k0_off4 L) S1x512.size (k0_off4_inb L)) (fun _ => rfl)).squeeze S512 squeezes_S1x512_S512
abbrev sh3P (L : grid0.Coords) : Memref sig .scVector .shared S512 .i32 :=
  ((shW).slice (Rect.unit (s := S16x4096) (k0_off5 L) S1x512.size (k0_off5_inb L)) (fun _ => rfl)).squeeze S512 squeezes_S1x512_S512
abbrev sh4P (L : grid0.Coords) : Memref sig .scVector .shared S512 .i32 :=
  ((shW).slice (Rect.unit (s := S16x4096) (k0_off6 L) S1x512.size (k0_off6_inb L)) (fun _ => rfl)).squeeze S512 squeezes_S1x512_S512
abbrev sh5P (L : grid0.Coords) : Memref sig .scVector .shared S512 .i32 :=
  ((shW).slice (Rect.unit (s := S16x4096) (k0_off7 L) S1x512.size (k0_off7_inb L)) (fun _ => rfl)).squeeze S512 squeezes_S1x512_S512
abbrev sh6P (L : grid0.Coords) : Memref sig .scVector .shared S512 .i32 :=
  ((shW).slice (Rect.unit (s := S16x4096) (k0_off8 L) S1x512.size (k0_off8_inb L)) (fun _ => rfl)).squeeze S512 squeezes_S1x512_S512
abbrev sh7P (L : grid0.Coords) : Memref sig .scVector .shared S512 .i32 :=
  ((shW).slice (Rect.unit (s := S16x4096) (k0_off9 L) S1x512.size (k0_off9_inb L)) (fun _ => rfl)).squeeze S512 squeezes_S1x512_S512

/-- Chunk k of the task's slab of the result: 64 rows of 256 entries. -/
abbrev ou0S (L : grid0.Coords) : Memref sig .scVector .hbm S16384 .f32 :=
  (ouW).slice (Rect.unit (s := S4194304) (k0_off50 L 0#32) S16384.size (k0_off50_inb L 0)) (fun _ => rfl)
abbrev ou1S (L : grid0.Coords) : Memref sig .scVector .hbm S16384 .f32 :=
  (ouW).slice (Rect.unit (s := S4194304) (k0_off50 L 64#32) S16384.size (k0_off50_inb L 1)) (fun _ => rfl)
abbrev ou2S (L : grid0.Coords) : Memref sig .scVector .hbm S16384 .f32 :=
  (ouW).slice (Rect.unit (s := S4194304) (k0_off50 L 128#32) S16384.size (k0_off50_inb L 2)) (fun _ => rfl)
abbrev ou3S (L : grid0.Coords) : Memref sig .scVector .hbm S16384 .f32 :=
  (ouW).slice (Rect.unit (s := S4194304) (k0_off50 L 192#32) S16384.size (k0_off50_inb L 3)) (fun _ => rfl)
abbrev ou4S (L : grid0.Coords) : Memref sig .scVector .hbm S16384 .f32 :=
  (ouW).slice (Rect.unit (s := S4194304) (k0_off50 L 256#32) S16384.size (k0_off50_inb L 4)) (fun _ => rfl)
abbrev ou5S (L : grid0.Coords) : Memref sig .scVector .hbm S16384 .f32 :=
  (ouW).slice (Rect.unit (s := S4194304) (k0_off50 L 320#32) S16384.size (k0_off50_inb L 5)) (fun _ => rfl)
abbrev ou6S (L : grid0.Coords) : Memref sig .scVector .hbm S16384 .f32 :=
  (ouW).slice (Rect.unit (s := S4194304) (k0_off50 L 384#32) S16384.size (k0_off50_inb L 6)) (fun _ => rfl)
abbrev ou7S (L : grid0.Coords) : Memref sig .scVector .hbm S16384 .f32 :=
  (ouW).slice (Rect.unit (s := S4194304) (k0_off50 L 448#32) S16384.size (k0_off50_inb L 7)) (fun _ => rfl)
/-- Run k of piece j of the row: the 64 words of index column j that chunk k looks up. -/
abbrev q0_0 (L : grid0.Coords) : Memref sig .scVector .shared S64 .i32 :=
  ((shW).slice (Rect.unit (s := S16x4096) (k0_off10 L) S1x64.size (k0_off10_inb L)) (fun _ => rfl)).squeeze S64 squeezes_S1x64_S64
abbrev q0_1 (L : grid0.Coords) : Memref sig .scVector .shared S64 .i32 :=
  ((shW).slice (Rect.unit (s := S16x4096) (k0_off11 L) S1x64.size (k0_off11_inb L)) (fun _ => rfl)).squeeze S64 squeezes_S1x64_S64
abbrev q0_2 (L : grid0.Coords) : Memref sig .scVector .shared S64 .i32 :=
  ((shW).slice (Rect.unit (s := S16x4096) (k0_off12 L) S1x64.size (k0_off12_inb L)) (fun _ => rfl)).squeeze S64 squeezes_S1x64_S64
abbrev q0_3 (L : grid0.Coords) : Memref sig .scVector .shared S64 .i32 :=
  ((shW).slice (Rect.unit (s := S16x4096) (k0_off13 L) S1x64.size (k0_off13_inb L)) (fun _ => rfl)).squeeze S64 squeezes_S1x64_S64
abbrev q0_4 (L : grid0.Coords) : Memref sig .scVector .shared S64 .i32 :=
  ((shW).slice (Rect.unit (s := S16x4096) (k0_off14 L) S1x64.size (k0_off14_inb L)) (fun _ => rfl)).squeeze S64 squeezes_S1x64_S64
abbrev q0_5 (L : grid0.Coords) : Memref sig .scVector .shared S64 .i32 :=
  ((shW).slice (Rect.unit (s := S16x4096) (k0_off15 L) S1x64.size (k0_off15_inb L)) (fun _ => rfl)).squeeze S64 squeezes_S1x64_S64
abbrev q0_6 (L : grid0.Coords) : Memref sig .scVector .shared S64 .i32 :=
  ((shW).slice (Rect.unit (s := S16x4096) (k0_off16 L) S1x64.size (k0_off16_inb L)) (fun _ => rfl)).squeeze S64 squeezes_S1x64_S64
abbrev q0_7 (L : grid0.Coords) : Memref sig .scVector .shared S64 .i32 :=
  ((shW).slice (Rect.unit (s := S16x4096) (k0_off17 L) S1x64.size (k0_off17_inb L)) (fun _ => rfl)).squeeze S64 squeezes_S1x64_S64
abbrev q1_0 (L : grid0.Coords) : Memref sig .scVector .shared S64 .i32 :=
  ((shW).slice (Rect.unit (s := S16x4096) (k0_off18 L) S1x64.size (k0_off18_inb L)) (fun _ => rfl)).squeeze S64 squeezes_S1x64_S64
abbrev q1_1 (L : grid0.Coords) : Memref sig .scVector .shared S64 .i32 :=
  ((shW).slice (Rect.unit (s := S16x4096) (k0_off19 L) S1x64.size (k0_off19_inb L)) (fun _ => rfl)).squeeze S64 squeezes_S1x64_S64
abbrev q1_2 (L : grid0.Coords) : Memref sig .scVector .shared S64 .i32 :=
  ((shW).slice (Rect.unit (s := S16x4096) (k0_off20 L) S1x64.size (k0_off20_inb L)) (fun _ => rfl)).squeeze S64 squeezes_S1x64_S64
abbrev q1_3 (L : grid0.Coords) : Memref sig .scVector .shared S64 .i32 :=
  ((shW).slice (Rect.unit (s := S16x4096) (k0_off21 L) S1x64.size (k0_off21_inb L)) (fun _ => rfl)).squeeze S64 squeezes_S1x64_S64
abbrev q1_4 (L : grid0.Coords) : Memref sig .scVector .shared S64 .i32 :=
  ((shW).slice (Rect.unit (s := S16x4096) (k0_off22 L) S1x64.size (k0_off22_inb L)) (fun _ => rfl)).squeeze S64 squeezes_S1x64_S64
abbrev q1_5 (L : grid0.Coords) : Memref sig .scVector .shared S64 .i32 :=
  ((shW).slice (Rect.unit (s := S16x4096) (k0_off23 L) S1x64.size (k0_off23_inb L)) (fun _ => rfl)).squeeze S64 squeezes_S1x64_S64
abbrev q1_6 (L : grid0.Coords) : Memref sig .scVector .shared S64 .i32 :=
  ((shW).slice (Rect.unit (s := S16x4096) (k0_off24 L) S1x64.size (k0_off24_inb L)) (fun _ => rfl)).squeeze S64 squeezes_S1x64_S64
abbrev q1_7 (L : grid0.Coords) : Memref sig .scVector .shared S64 .i32 :=
  ((shW).slice (Rect.unit (s := S16x4096) (k0_off25 L) S1x64.size (k0_off25_inb L)) (fun _ => rfl)).squeeze S64 squeezes_S1x64_S64
abbrev q2_0 (L : grid0.Coords) : Memref sig .scVector .shared S64 .i32 :=
  ((shW).slice (Rect.unit (s := S16x4096) (k0_off51 L) S1x64.size (k0_off51_inb L)) (fun _ => rfl)).squeeze S64 squeezes_S1x64_S64
abbrev q2_1 (L : grid0.Coords) : Memref sig .scVector .shared S64 .i32 :=
  ((shW).slice (Rect.unit (s := S16x4096) (k0_off52 L) S1x64.size (k0_off52_inb L)) (fun _ => rfl)).squeeze S64 squeezes_S1x64_S64
abbrev q2_2 (L : grid0.Coords) : Memref sig .scVector .shared S64 .i32 :=
  ((shW).slice (Rect.unit (s := S16x4096) (k0_off53 L) S1x64.size (k0_off53_inb L)) (fun _ => rfl)).squeeze S64 squeezes_S1x64_S64
abbrev q2_3 (L : grid0.Coords) : Memref sig .scVector .shared S64 .i32 :=
  ((shW).slice (Rect.unit (s := S16x4096) (k0_off54 L) S1x64.size (k0_off54_inb L)) (fun _ => rfl)).squeeze S64 squeezes_S1x64_S64
abbrev q2_4 (L : grid0.Coords) : Memref sig .scVector .shared S64 .i32 :=
  ((shW).slice (Rect.unit (s := S16x4096) (k0_off55 L) S1x64.size (k0_off55_inb L)) (fun _ => rfl)).squeeze S64 squeezes_S1x64_S64
abbrev q2_5 (L : grid0.Coords) : Memref sig .scVector .shared S64 .i32 :=
  ((shW).slice (Rect.unit (s := S16x4096) (k0_off56 L) S1x64.size (k0_off56_inb L)) (fun _ => rfl)).squeeze S64 squeezes_S1x64_S64
abbrev q2_6 (L : grid0.Coords) : Memref sig .scVector .shared S64 .i32 :=
  ((shW).slice (Rect.unit (s := S16x4096) (k0_off57 L) S1x64.size (k0_off57_inb L)) (fun _ => rfl)).squeeze S64 squeezes_S1x64_S64
abbrev q2_7 (L : grid0.Coords) : Memref sig .scVector .shared S64 .i32 :=
  ((shW).slice (Rect.unit (s := S16x4096) (k0_off58 L) S1x64.size (k0_off58_inb L)) (fun _ => rfl)).squeeze S64 squeezes_S1x64_S64
abbrev q3_0 (L : grid0.Coords) : Memref sig .scVector .shared S64 .i32 :=
  ((shW).slice (Rect.unit (s := S16x4096) (k0_off83 L) S1x64.size (k0_off83_inb L)) (fun _ => rfl)).squeeze S64 squeezes_S1x64_S64
abbrev q3_1 (L : grid0.Coords) : Memref sig .scVector .shared S64 .i32 :=
  ((shW).slice (Rect.unit (s := S16x4096) (k0_off84 L) S1x64.size (k0_off84_inb L)) (fun _ => rfl)).squeeze S64 squeezes_S1x64_S64
abbrev q3_2 (L : grid0.Coords) : Memref sig .scVector .shared S64 .i32 :=
  ((shW).slice (Rect.unit (s := S16x4096) (k0_off85 L) S1x64.size (k0_off85_inb L)) (fun _ => rfl)).squeeze S64 squeezes_S1x64_S64
abbrev q3_3 (L : grid0.Coords) : Memref sig .scVector .shared S64 .i32 :=
  ((shW).slice (Rect.unit (s := S16x4096) (k0_off86 L) S1x64.size (k0_off86_inb L)) (fun _ => rfl)).squeeze S64 squeezes_S1x64_S64
abbrev q3_4 (L : grid0.Coords) : Memref sig .scVector .shared S64 .i32 :=
  ((shW).slice (Rect.unit (s := S16x4096) (k0_off87 L) S1x64.size (k0_off87_inb L)) (fun _ => rfl)).squeeze S64 squeezes_S1x64_S64
abbrev q3_5 (L : grid0.Coords) : Memref sig .scVector .shared S64 .i32 :=
  ((shW).slice (Rect.unit (s := S16x4096) (k0_off88 L) S1x64.size (k0_off88_inb L)) (fun _ => rfl)).squeeze S64 squeezes_S1x64_S64
abbrev q3_6 (L : grid0.Coords) : Memref sig .scVector .shared S64 .i32 :=
  ((shW).slice (Rect.unit (s := S16x4096) (k0_off89 L) S1x64.size (k0_off89_inb L)) (fun _ => rfl)).squeeze S64 squeezes_S1x64_S64
abbrev q3_7 (L : grid0.Coords) : Memref sig .scVector .shared S64 .i32 :=
  ((shW).slice (Rect.unit (s := S16x4096) (k0_off90 L) S1x64.size (k0_off90_inb L)) (fun _ => rfl)).squeeze S64 squeezes_S1x64_S64
abbrev q4_0 (L : grid0.Coords) : Memref sig .scVector .shared S64 .i32 :=
  ((shW).slice (Rect.unit (s := S16x4096) (k0_off115 L) S1x64.size (k0_off115_inb L)) (fun _ => rfl)).squeeze S64 squeezes_S1x64_S64
abbrev q4_1 (L : grid0.Coords) : Memref sig .scVector .shared S64 .i32 :=
  ((shW).slice (Rect.unit (s := S16x4096) (k0_off116 L) S1x64.size (k0_off116_inb L)) (fun _ => rfl)).squeeze S64 squeezes_S1x64_S64
abbrev q4_2 (L : grid0.Coords) : Memref sig .scVector .shared S64 .i32 :=
  ((shW).slice (Rect.unit (s := S16x4096) (k0_off117 L) S1x64.size (k0_off117_inb L)) (fun _ => rfl)).squeeze S64 squeezes_S1x64_S64
abbrev q4_3 (L : grid0.Coords) : Memref sig .scVector .shared S64 .i32 :=
  ((shW).slice (Rect.unit (s := S16x4096) (k0_off118 L) S1x64.size (k0_off118_inb L)) (fun _ => rfl)).squeeze S64 squeezes_S1x64_S64
abbrev q4_4 (L : grid0.Coords) : Memref sig .scVector .shared S64 .i32 :=
  ((shW).slice (Rect.unit (s := S16x4096) (k0_off119 L) S1x64.size (k0_off119_inb L)) (fun _ => rfl)).squeeze S64 squeezes_S1x64_S64
abbrev q4_5 (L : grid0.Coords) : Memref sig .scVector .shared S64 .i32 :=
  ((shW).slice (Rect.unit (s := S16x4096) (k0_off120 L) S1x64.size (k0_off120_inb L)) (fun _ => rfl)).squeeze S64 squeezes_S1x64_S64
abbrev q4_6 (L : grid0.Coords) : Memref sig .scVector .shared S64 .i32 :=
  ((shW).slice (Rect.unit (s := S16x4096) (k0_off121 L) S1x64.size (k0_off121_inb L)) (fun _ => rfl)).squeeze S64 squeezes_S1x64_S64
abbrev q4_7 (L : grid0.Coords) : Memref sig .scVector .shared S64 .i32 :=
  ((shW).slice (Rect.unit (s := S16x4096) (k0_off122 L) S1x64.size (k0_off122_inb L)) (fun _ => rfl)).squeeze S64 squeezes_S1x64_S64
abbrev q5_0 (L : grid0.Coords) : Memref sig .scVector .shared S64 .i32 :=
  ((shW).slice (Rect.unit (s := S16x4096) (k0_off147 L) S1x64.size (k0_off147_inb L)) (fun _ => rfl)).squeeze S64 squeezes_S1x64_S64
abbrev q5_1 (L : grid0.Coords) : Memref sig .scVector .shared S64 .i32 :=
  ((shW).slice (Rect.unit (s := S16x4096) (k0_off148 L) S1x64.size (k0_off148_inb L)) (fun _ => rfl)).squeeze S64 squeezes_S1x64_S64
abbrev q5_2 (L : grid0.Coords) : Memref sig .scVector .shared S64 .i32 :=
  ((shW).slice (Rect.unit (s := S16x4096) (k0_off149 L) S1x64.size (k0_off149_inb L)) (fun _ => rfl)).squeeze S64 squeezes_S1x64_S64
abbrev q5_3 (L : grid0.Coords) : Memref sig .scVector .shared S64 .i32 :=
  ((shW).slice (Rect.unit (s := S16x4096) (k0_off150 L) S1x64.size (k0_off150_inb L)) (fun _ => rfl)).squeeze S64 squeezes_S1x64_S64
abbrev q5_4 (L : grid0.Coords) : Memref sig .scVector .shared S64 .i32 :=
  ((shW).slice (Rect.unit (s := S16x4096) (k0_off151 L) S1x64.size (k0_off151_inb L)) (fun _ => rfl)).squeeze S64 squeezes_S1x64_S64
abbrev q5_5 (L : grid0.Coords) : Memref sig .scVector .shared S64 .i32 :=
  ((shW).slice (Rect.unit (s := S16x4096) (k0_off152 L) S1x64.size (k0_off152_inb L)) (fun _ => rfl)).squeeze S64 squeezes_S1x64_S64
abbrev q5_6 (L : grid0.Coords) : Memref sig .scVector .shared S64 .i32 :=
  ((shW).slice (Rect.unit (s := S16x4096) (k0_off153 L) S1x64.size (k0_off153_inb L)) (fun _ => rfl)).squeeze S64 squeezes_S1x64_S64
abbrev q5_7 (L : grid0.Coords) : Memref sig .scVector .shared S64 .i32 :=
  ((shW).slice (Rect.unit (s := S16x4096) (k0_off154 L) S1x64.size (k0_off154_inb L)) (fun _ => rfl)).squeeze S64 squeezes_S1x64_S64
abbrev q6_0 (L : grid0.Coords) : Memref sig .scVector .shared S64 .i32 :=
  ((shW).slice (Rect.unit (s := S16x4096) (k0_off179 L) S1x64.size (k0_off179_inb L)) (fun _ => rfl)).squeeze S64 squeezes_S1x64_S64
abbrev q6_1 (L : grid0.Coords) : Memref sig .scVector .shared S64 .i32 :=
  ((shW).slice (Rect.unit (s := S16x4096) (k0_off180 L) S1x64.size (k0_off180_inb L)) (fun _ => rfl)).squeeze S64 squeezes_S1x64_S64
abbrev q6_2 (L : grid0.Coords) : Memref sig .scVector .shared S64 .i32 :=
  ((shW).slice (Rect.unit (s := S16x4096) (k0_off181 L) S1x64.size (k0_off181_inb L)) (fun _ => rfl)).squeeze S64 squeezes_S1x64_S64
abbrev q6_3 (L : grid0.Coords) : Memref sig .scVector .shared S64 .i32 :=
  ((shW).slice (Rect.unit (s := S16x4096) (k0_off182 L) S1x64.size (k0_off182_inb L)) (fun _ => rfl)).squeeze S64 squeezes_S1x64_S64
abbrev q6_4 (L : grid0.Coords) : Memref sig .scVector .shared S64 .i32 :=
  ((shW).slice (Rect.unit (s := S16x4096) (k0_off183 L) S1x64.size (k0_off183_inb L)) (fun _ => rfl)).squeeze S64 squeezes_S1x64_S64
abbrev q6_5 (L : grid0.Coords) : Memref sig .scVector .shared S64 .i32 :=
  ((shW).slice (Rect.unit (s := S16x4096) (k0_off184 L) S1x64.size (k0_off184_inb L)) (fun _ => rfl)).squeeze S64 squeezes_S1x64_S64
abbrev q6_6 (L : grid0.Coords) : Memref sig .scVector .shared S64 .i32 :=
  ((shW).slice (Rect.unit (s := S16x4096) (k0_off185 L) S1x64.size (k0_off185_inb L)) (fun _ => rfl)).squeeze S64 squeezes_S1x64_S64
abbrev q6_7 (L : grid0.Coords) : Memref sig .scVector .shared S64 .i32 :=
  ((shW).slice (Rect.unit (s := S16x4096) (k0_off186 L) S1x64.size (k0_off186_inb L)) (fun _ => rfl)).squeeze S64 squeezes_S1x64_S64
abbrev q7_0 (L : grid0.Coords) : Memref sig .scVector .shared S64 .i32 :=
  ((shW).slice (Rect.unit (s := S16x4096) (k0_off211 L) S1x64.size (k0_off211_inb L)) (fun _ => rfl)).squeeze S64 squeezes_S1x64_S64
abbrev q7_1 (L : grid0.Coords) : Memref sig .scVector .shared S64 .i32 :=
  ((shW).slice (Rect.unit (s := S16x4096) (k0_off212 L) S1x64.size (k0_off212_inb L)) (fun _ => rfl)).squeeze S64 squeezes_S1x64_S64
abbrev q7_2 (L : grid0.Coords) : Memref sig .scVector .shared S64 .i32 :=
  ((shW).slice (Rect.unit (s := S16x4096) (k0_off213 L) S1x64.size (k0_off213_inb L)) (fun _ => rfl)).squeeze S64 squeezes_S1x64_S64
abbrev q7_3 (L : grid0.Coords) : Memref sig .scVector .shared S64 .i32 :=
  ((shW).slice (Rect.unit (s := S16x4096) (k0_off214 L) S1x64.size (k0_off214_inb L)) (fun _ => rfl)).squeeze S64 squeezes_S1x64_S64
abbrev q7_4 (L : grid0.Coords) : Memref sig .scVector .shared S64 .i32 :=
  ((shW).slice (Rect.unit (s := S16x4096) (k0_off215 L) S1x64.size (k0_off215_inb L)) (fun _ => rfl)).squeeze S64 squeezes_S1x64_S64
abbrev q7_5 (L : grid0.Coords) : Memref sig .scVector .shared S64 .i32 :=
  ((shW).slice (Rect.unit (s := S16x4096) (k0_off216 L) S1x64.size (k0_off216_inb L)) (fun _ => rfl)).squeeze S64 squeezes_S1x64_S64
abbrev q7_6 (L : grid0.Coords) : Memref sig .scVector .shared S64 .i32 :=
  ((shW).slice (Rect.unit (s := S16x4096) (k0_off217 L) S1x64.size (k0_off217_inb L)) (fun _ => rfl)).squeeze S64 squeezes_S1x64_S64
abbrev q7_7 (L : grid0.Coords) : Memref sig .scVector .shared S64 .i32 :=
  ((shW).slice (Rect.unit (s := S16x4096) (k0_off218 L) S1x64.size (k0_off218_inb L)) (fun _ => rfl)).squeeze S64 squeezes_S1x64_S64
end Tile

end Cert.Proof.KB

end
-- ==== Proof.KB.Pay.lean ====
import proofs.«204821_g30846455120635_fold_wed_m_1292_33_alg».proof.Proof.KB.Setup
import proofs.«204821_g30846455120635_fold_wed_m_1292_33_alg».proof.Proof.KB.Tile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

/-! ## The arrays' locations -/

abbrev c0Loc (d : Dev nD) : Loc nD τ sig := (SparseCore.T d).loc main_arg0
abbrev c1Loc (d : Dev nD) : Loc nD τ sig := (SparseCore.T d).loc main_arg1
abbrev c2Loc (d : Dev nD) : Loc nD τ sig := (SparseCore.T d).loc main_arg2
abbrev c3Loc (d : Dev nD) : Loc nD τ sig := (SparseCore.T d).loc main_arg3
abbrev c4Loc (d : Dev nD) : Loc nD τ sig := (SparseCore.T d).loc main_arg4
abbrev c5Loc (d : Dev nD) : Loc nD τ sig := (SparseCore.T d).loc main_arg5
abbrev c6Loc (d : Dev nD) : Loc nD τ sig := (SparseCore.T d).loc main_arg6
abbrev c7Loc (d : Dev nD) : Loc nD τ sig := (SparseCore.T d).loc main_arg7
abbrev w0Loc (d : Dev nD) : Loc nD τ sig := (SparseCore.T d).loc main_arg8
abbrev w1Loc (d : Dev nD) : Loc nD τ sig := (SparseCore.T d).loc main_arg9
abbrev w2Loc (d : Dev nD) : Loc nD τ sig := (SparseCore.T d).loc main_arg10
abbrev w3Loc (d : Dev nD) : Loc nD τ sig := (SparseCore.T d).loc main_arg11
abbrev w4Loc (d : Dev nD) : Loc nD τ sig := (SparseCore.T d).loc main_arg12
abbrev w5Loc (d : Dev nD) : Loc nD τ sig := (SparseCore.T d).loc main_arg13
abbrev w6Loc (d : Dev nD) : Loc nD τ sig := (SparseCore.T d).loc main_arg14
abbrev w7Loc (d : Dev nD) : Loc nD τ sig := (SparseCore.T d).loc main_arg15
/-- The eight tables stacked ([256, 32]), the same flattened ([8192]), the kernel's flat result ([4194304]), the result ([16384, 256]). -/
abbrev catLoc (d : Dev nD) : Loc nD τ sig := (SparseCore.T d).loc main_v0
abbrev tabLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

/-- The eight index columns of device `d`. -/
def cols (d : Dev nD) : Fin 8 → S16384.Idx → BitVec 32 :=
  ![m (c0Loc d), m (c1Loc d), m (c2Loc d), m (c3Loc d), m (c4Loc d), m (c5Loc d), m (c6Loc d), m (c7Loc d)]

/-- What the proof asks of the launch memory: every index word is below 32 (it names a row of its table). -/
def PreOK : Prop := ∀ (d : Dev nD) (j : Fin 8) (b : Fin 16384), (cols m d j (ValueIdx.ix1 b)).toNat < 32

/-- What the kernel leaves in the flat result, from the flat table and the index columns: entry 256·b + 32·j + e is
    entry 32·(c_j[b] mod 32) + 1024·j + e of the table. -/
def OUTof (TAB : S8192.Idx → Elt F .f32) (c : Fin 8 → S16384.Idx → BitVec 32) : S4194304.Idx → Elt F .f32 :=
  fun x => TAB (ValueIdx.ix1 ⟨32 * ((c ⟨(x 0).val % 256 / 32, by omega⟩ (ValueIdx.ix1 ⟨(x 0).val / 256, by have h : (x 0).val < 4194304 := (x 0).isLt; omega⟩)).toNat % 32)
      + 1024 * ((x 0).val % 256 / 32) + (x 0).val % 32, by omega⟩)

section Tile
variable (d : Dev nD) (L : grid0.Coords)

/-- What a task is handed: its 512 words of each index column, a read share of the flat table, its eight chunks of the
    flat result, and the eight pieces of its row of the shared scratch. -/
def tileGo (qt : PosShare TreeShare) (TAB : Buf (Elt F) (tabLoc d)) : sProp 𝕄 :=
  iprop(((c0S L).view.loc (thr d L) ↦[(c0S L).view.set]{fullShare} m (c0Loc d))
      ∗ ((c1S L).view.loc (thr d L) ↦[(c1S L).view.set]{fullShare} m (c1Loc d))
      ∗ ((c2S L).view.loc (thr d L) ↦[(c2S L).view.set]{fullShare} m (c2Loc d))
      ∗ ((c3S L).view.loc (thr d L) ↦[(c3S L).view.set]{fullShare} m (c3Loc d))
      ∗ ((c4S L).view.loc (thr d L) ↦[(c4S L).view.set]{fullShare} m (c4Loc d))
      ∗ ((c5S L).view.loc (thr d L) ↦[(c5S L).view.set]{fullShare} m (c5Loc d))
      ∗ ((c6S L).view.loc (thr d L) ↦[(c6S L).view.set]{fullShare} m (c6Loc d))
      ∗ ((c7S L).view.loc (thr d L) ↦[(c7S L).view.set]{fullShare} m (c7Loc d))
      ∗ ((tbW).view.loc (thr d L) ↦{qt} TAB)
      ∗ ((ou0S L).view.loc (thr d L) ↦[(ou0S L).view.set]{fullShare} m (outLoc d))
      ∗ ((ou1S L).view.loc (thr d L) ↦[(ou1S L).view.set]{fullShare} m (outLoc d))
      ∗ ((ou2S L).view.loc (thr d L) ↦[(ou2S L).view.set]{fullShare} m (outLoc d))
      ∗ ((ou3S L).view.loc (thr d L) ↦[(ou3S L).view.set]{fullShare} m (outLoc d))
      ∗ ((ou4S L).view.loc (thr d L) ↦[(ou4S L).view.set]{fullShare} m (outLoc d))
      ∗ ((ou5S L).view.loc (thr d L) ↦[(ou5S L).view.set]{fullShare} m (outLoc d))
      ∗ ((ou6S L).view.loc (thr d L) ↦[(ou6S L).view.set]{fullShare} m (outLoc d))
      ∗ ((ou7S L).view.loc (thr d L) ↦[(ou7S L).view.set]{fullShare} m (outLoc d))
      ∗ ∃ fsh, ((sh0P L).view.loc (thr d L) ↦[(sh0P L).view.set]{fullShare} fsh)
        ∗ ((sh1P L).view.loc (thr d L) ↦[(sh1P L).view.set]{fullShare} fsh)
        ∗ ((sh2P L).view.loc (thr d L) ↦[(sh2P L).view.set]{fullShare} fsh)
        ∗ ((sh3P L).view.loc (thr d L) ↦[(sh3P L).view.set]{fullShare} fsh)
        ∗ ((sh4P L).view.loc (thr d L) ↦[(sh4P L).view.set]{fullShare} fsh)
        ∗ ((sh5P L).view.loc (thr d L) ↦[(sh5P L).view.set]{fullShare} fsh)
        ∗ ((sh6P L).view.loc (thr d L) ↦[(sh6P L).view.set]{fullShare} fsh)
        ∗ ((sh7P L).view.loc (thr d L) ↦[(sh7P L).view.set]{fullShare} fsh))

/-- What it hands back: the same, its chunks of the flat result at what the lookup gives. -/
def tileTd (qt : PosShare TreeShare) (TAB : Buf (Elt F) (tabLoc d)) : sProp 𝕄 :=
  iprop(((c0S L).view.loc (thr d L) ↦[(c0S L).view.set]{fullShare} m (c0Loc d))
      ∗ ((c1S L).view.loc (thr d L) ↦[(c1S L).view.set]{fullShare} m (c1Loc d))
      ∗ ((c2S L).view.loc (thr d L) ↦[(c2S L).view.set]{fullShare} m (c2Loc d))
      ∗ ((c3S L).view.loc (thr d L) ↦[(c3S L).view.set]{fullShare} m (c3Loc d))
      ∗ ((c4S L).view.loc (thr d L) ↦[(c4S L).view.set]{fullShare} m (c4Loc d))
      ∗ ((c5S L).view.loc (thr d L) ↦[(c5S L).view.set]{fullShare} m (c5Loc d))
      ∗ ((c6S L).view.loc (thr d L) ↦[(c6S L).view.set]{fullShare} m (c6Loc d))
      ∗ ((c7S L).view.loc (thr d L) ↦[(c7S L).view.set]{fullShare} m (c7Loc d))
      ∗ ((tbW).view.loc (thr d L) ↦{qt} TAB)
      ∗ ((ou0S L).view.loc (thr d L) ↦[(ou0S L).view.set]{fullShare} OUTof TAB (cols m d))
      ∗ ((ou1S L).view.loc (thr d L) ↦[(ou1S L).view.set]{fullShare} OUTof TAB (cols m d))
      ∗ ((ou2S L).view.loc (thr d L) ↦[(ou2S L).view.set]{fullShare} OUTof TAB (cols m d))
      ∗ ((ou3S L).view.loc (thr d L) ↦[(ou3S L).view.set]{fullShare} OUTof TAB (cols m d))
      ∗ ((ou4S L).view.loc (thr d L) ↦[(ou4S L).view.set]{fullShare} OUTof TAB (cols m d))
      ∗ ((ou5S L).view.loc (thr d L) ↦[(ou5S L).view.set]{fullShare} OUTof TAB (cols m d))
      ∗ ((ou6S L).view.loc (thr d L) ↦[(ou6S L).view.set]{fullShare} OUTof TAB (cols m d))
      ∗ ((ou7S L).view.loc (thr d L) ↦[(ou7S L).view.set]{fullShare} OUTof TAB (cols m d))
      ∗ (∃ f, (sh0P L).view.loc (thr d L) ↦[(sh0P L).view.set]{fullShare} f)
      ∗ (∃ f, (sh1P L).view.loc (thr d L) ↦[(sh1P L).view.set]{fullShare} f)
      ∗ (∃ f, (sh2P L).view.loc (thr d L) ↦[(sh2P L).view.set]{fullShare} f)
      ∗ (∃ f, (sh3P L).view.loc (thr d L) ↦[(sh3P L).view.set]{fullShare} f)
      ∗ (∃ f, (sh4P L).view.loc (thr d L) ↦[(sh4P L).view.set]{fullShare} f)
      ∗ (∃ f, (sh5P L).view.loc (thr d L) ↦[(sh5P L).view.set]{fullShare} f)
      ∗ (∃ f, (sh6P L).view.loc (thr d L) ↦[(sh6P L).view.set]{fullShare} f)
      ∗ (∃ f, (sh7P L).view.loc (thr d L) ↦[(sh7P L).view.set]{fullShare} f))

end Tile

/-- The task's proof, as the launch uses it: from what it is handed and its own scratch and semaphores to what it hands back. -/
def TileBodyStmt : Prop :=
  PreOK m → ∀ (d : Dev nD) (L : grid0.Coords) (O : CellTallies nD τ sig (HIx 1)) (W : Waits sig (HIx 1)), (∀ g, O g none = 0) →
    ∀ (qt : PosShare TreeShare) (TAB : Buf (Elt F) (tabLoc d)),
    iprop(levAts (K (F := F)).L (K (F := F)).lev ∗ emp ∗ tileGo m d L qt TAB
        ∗ scopedBufs (thr d L) ∗ scopedSems0 (thr d L) ∗ owes (thr d L) O W)
      ⊢ wp frame (wpE (defs₀ (F := F)) 𝒱₀ (thr d L) none) Set.univ
          (cc0__body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11)
          fun _ => iprop(tileTd m d L qt TAB ∗ scopedBufs (thr d L) ∗ scopedSems0 (thr d L)
            ∗ ∃ W', ⌜∀ p ∈ W', p ∈ W ∨ p.2 = none⌝ ∗ owes (thr d L) O W')

end Cert.Proof.KB

end
-- ==== Proof.KB.HostVal.lean ====
/-
  The host side of the lookup kernel's program, as values.

  Before the kernel runs the host stacks the eight tables on top of one another (a [256, 32] array: table j is rows
  32 j … 32 j + 31) and flattens the stack row by row (8192 entries: entry 1024 j + 32 r + e is table j's entry (r, e)).
  After it, the host folds the kernel's flat result back into rows of 256. Folded, entry (b, col) is the flat result's
  entry 256 b + col, which the kernel took from the flat table at 1024 (col / 32) + 32 (word mod 32) + col mod 32 with
  the word that of column col / 32 at position b: the specified array's entry (b, col).
-/
import proofs.«204821_g30846455120635_fold_wed_m_1292_33_alg».proof.Proof.KB.Pay
import Idealize.ShloMosaic.Lib.Pipeline.Value
import Idealize.ShloMosaic.Lib.ValueIdx

noncomputable section

namespace Cert.Proof.KB

open Cert.Kernel Cert.Kernel.Gen

open Idealize.ShloMosaic Idealize.ShloMosaic.ValueIdx

variable {F : FTy → Type}
variable (m : (ℓ : Loc nD τ sig) → Buf (Elt F) ℓ)
variable [FloatOps F]

/-- The eight tables of device `d`. -/
def tabs (d : Dev nD) : Fin 8 → S32x32.Idx → Elt F .f32 :=
  ![m (w0Loc d), m (w1Loc d), m (w2Loc d), m (w3Loc d), m (w4Loc d), m (w5Loc d), m (w6Loc d), m (w7Loc d)]

/-- The flat table the kernel reads: the eight tables stacked along the rows, then flattened row by row. -/
def TABof (d : Dev nD) : Buf (Elt F) (tabLoc d) :=
  shapeCast S8192
    (concatenate S256x32 0
      [⟨S32x32, m (w0Loc d)⟩, ⟨S32x32, m (w1Loc d)⟩, ⟨S32x32, m (w2Loc d)⟩, ⟨S32x32, m (w3Loc d)⟩, ⟨S32x32, m (w4Loc d)⟩, ⟨S32x32, m (w5Loc d)⟩, ⟨S32x32, m (w6Loc d)⟩, ⟨S32x32, m (w7Loc d)⟩]
      concatenates_S32x32_S32x32_S32x32_S32x32_S32x32_S32x32_S32x32_S32x32_S256x32_d0)
    shapeCasts_S256x32_S8192

/-- Entry 1024 j + 32 r + e of the flat table is entry (r, e) of table j. -/
theorem TABof_apply (d : Dev nD) (j : Fin 8) (r e : Fin 32) :
    TABof m d (ix1 (⟨1024 * j.val + 32 * r.val + e.val, by omega⟩ : Fin 8192))
      = ((![m (w0Loc d), m (w1Loc d), m (w2Loc d), m (w3Loc d), m (w4Loc d), m (w5Loc d), m (w6Loc d), m (w7Loc d)] : Fin 8 → S32x32.Idx → Elt F .f32) j) (ix2 r e) := by
  unfold TABof
  rw [shapeCast_apply _ _ _ (ix2 (⟨32 * j.val + r.val, by omega⟩ : Fin 256) e) (by
    rw [Shape.rowMajor_val_two, Shape.rowMajor_val_one]
    show (32 * j.val + r.val) * 32 + e.val = 1024 * j.val + 32 * r.val + e.val
    omega)]
  show concatenate S256x32 0 (List.ofFn fun n : Fin 8 =>
      (⟨S32x32, (![m (w0Loc d), m (w1Loc d), m (w2Loc d), m (w3Loc d), m (w4Loc d), m (w5Loc d), m (w6Loc d), m (w7Loc d)] : Fin 8 → S32x32.Idx → Elt F .f32) n⟩ : (s : Shape) × (s.Idx → Elt F .f32)))
    concatenates_S32x32_S32x32_S32x32_S32x32_S32x32_S32x32_S32x32_S32x32_S256x32_d0 _ = _
  exact concatenate_ofFn_apply (t := S256x32) (s₁ := S32x32) (0 : Fin 2)
    (![m (w0Loc d), m (w1Loc d), m (w2Loc d), m (w3Loc d), m (w4Loc d), m (w5Loc d), m (w6Loc d), m (w7Loc d)] : Fin 8 → S32x32.Idx → Elt F .f32)
    concatenates_S32x32_S32x32_S32x32_S32x32_S32x32_S32x32_S32x32_S32x32_S256x32_d0 rfl 32 rfl
    (ix2 (⟨32 * j.val + r.val, by omega⟩ : Fin 256) e) j
    (by show (32 * j.val + r.val) / 32 = j.val; omega) (ix2 r e)
    (by show r.val = (32 * j.val + r.val) % 32; omega)
    (fun a ha => by
      match a with
      | ⟨0, _⟩ => exact absurd rfl ha
      | ⟨1, _⟩ => rfl)

/-- The result: the kernel's flat result, from the flat table and the index columns, folded into rows of 256. -/
def RESof (d : Dev nD) : Buf (Elt F) (resLoc d) :=
  shapeCast S16384x256 (OUTof (TABof m d) (cols m d)) shapeCasts_S4194304_S16384x256

/-- The kernel's flat result at 256 b + col: the flat table at table col / 32, row the word of that column at b
    (mod 32), entry col mod 32. -/
theorem OUTof_apply (TAB : S8192.Idx → Elt F .f32) (c : Fin 8 → S16384.Idx → BitVec 32) (b : Fin 16384) (col : Fin 256) :
    OUTof TAB c (ix1 (⟨256 * b.val + col.val, by omega⟩ : Fin 4194304))
      = TAB (ix1 (⟨1024 * (col.val / 32) + 32 * ((c ⟨col.val / 32, by omega⟩ (ix1 b)).toNat % 32) + col.val % 32, by omega⟩ : Fin 8192)) := by
  unfold OUTof
  have h1 : (256 * b.val + col.val) % 256 / 32 = col.val / 32 := by omega
  have h2 : (256 * b.val + col.val) / 256 = b.val := by omega
  have h3 : (256 * b.val + col.val) % 32 = col.val % 32 := by omega
  have hj : (⟨(256 * b.val + col.val) % 256 / 32, by omega⟩ : Fin 8) = ⟨col.val / 32, by omega⟩ := Fin.ext h1
  have hb : (⟨(256 * b.val + col.val) / 256, by omega⟩ : Fin 16384) = b := Fin.ext h2
  refine congrArg TAB (congrArg (fun k : Fin 8192 => (ix1 k : S8192.Idx)) (Fin.ext ?_))
  show 32 * ((c ⟨(256 * b.val + col.val) % 256 / 32, _⟩ (ix1 ⟨(256 * b.val + col.val) / 256, _⟩)).toNat % 32)
      + 1024 * ((256 * b.val + col.val) % 256 / 32) + (256 * b.val + col.val) % 32 = _
  rw [hj, hb, h1, h3]
  show 32 * ((c ⟨col.val / 32, _⟩ (ix1 b)).toNat % 32) + 1024 * (col.val / 32) + col.val % 32
    = 1024 * (col.val / 32) + 32 * ((c ⟨col.val / 32, _⟩ (ix1 b)).toNat % 32) + col.val % 32
  omega

/-- Folded, the result is the specified array of the index columns and the tables. -/
theorem RESof_eq (hpre : PreOK m) (d : Dev nD) :
    RESof m d = Cert.Spec.outArr
      (![m (c0Loc d), m (c1Loc d), m (c2Loc d), m (c3Loc d), m (c4Loc d), m (c5Loc d), m (c6Loc d), m (c7Loc d)] : Fin 8 → (⟨1, ![16384]⟩ : Shape).Idx → BitVec 32)
      (![m (w0Loc d), m (w1Loc d), m (w2Loc d), m (w3Loc d), m (w4Loc d), m (w5Loc d), m (w6Loc d), m (w7Loc d)] : Fin 8 → (⟨2, ![32, 32]⟩ : Shape).Idx → Elt F .f32) := by
  funext i
  obtain ⟨b, col, rfl⟩ : ∃ (b : Fin 16384) (col : Fin 256), i = ix2 b col := ⟨i 0, i 1, eq_ix2 i⟩
  rw [Cert.Spec.outArr_apply]
  unfold RESof
  rw [shapeCast_apply _ _ _ (ix1 (⟨256 * b.val + col.val, by omega⟩ : Fin 4194304)) (by
    rw [Shape.rowMajor_val_two, Shape.rowMajor_val_one]
    show 256 * b.val + col.val = b.val * 256 + col.val
    omega)]
  rw [OUTof_apply]
  have hlt : col.val / 32 < 8 := by omega
  have e := TABof_apply m d ⟨col.val / 32, hlt⟩
    ⟨(cols m d ⟨col.val / 32, hlt⟩ (ix1 b)).toNat % 32, Nat.mod_lt _ (by decide)⟩ ⟨col.val % 32, Nat.mod_lt _ (by decide)⟩
  exact e

end Cert.Proof.KB

end
-- ==== Proof.KB.TileSets.lean ====
import proofs.«204821_g30846455120635_fold_wed_m_1292_33_alg».proof.Proof.KB.Setup
import proofs.«204821_g30846455120635_fold_wed_m_1292_33_alg».proof.Proof.KB.Tile
import proofs.«204821_g30846455120635_fold_wed_m_1292_33_alg».proof.Proof.LibRowChunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable [FloatOps F]

section Sets
variable (d : Dev nD) (L : grid0.Coords)

open Cert.LibRowChunks

/-- A run of `w` columns from column `c` of the task's row lies inside the shared scratch. -/
theorem inb_row (L : grid0.Coords) (c w : Nat) (hc : c + w ≤ 4096) :
    ∀ a, (![(L 1).val, c] : Fin 2 → Nat) a + (![1, w] : Fin 2 → Nat) a ≤ S16x4096.size a :=
  Rect.inb₂ (d := ![16, 4096]) (show (L 1).val + 1 ≤ 16 from (L 1).isLt) (show c + w ≤ 4096 from hc)

/-- The run of `w` columns from column `c` of the task's row, as a set of elements of the shared scratch. -/
abbrev runSet (L : grid0.Coords) (c w : Nat) (hc : c + w ≤ 4096) : Finset S16x4096.Idx :=
  (Rect.unit (s := S16x4096) ![(L 1).val, c] ![1, w] (inb_row L c w hc)).set

omit [FloatOps F] in
theorem set_sh0P : (sh0P L).view.set = runSet L 0 512 (by omega) := by
  show (((shW).view.slice (Rect.unit (s := S16x4096) (k0_off1 L) S1x512.size (k0_off1_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off1_eq L) _ _)
omit [FloatOps F] in
theorem set_sh1P : (sh1P L).view.set = runSet L 512 512 (by omega) := by
  show (((shW).view.slice (Rect.unit (s := S16x4096) (k0_off3 L) S1x512.size (k0_off3_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off3_eq L) _ _)
omit [FloatOps F] in
theorem set_sh2P : (sh2P L).view.set = runSet L 1024 512 (by omega) := by
  show (((shW).view.slice (Rect.unit (s := S16x4096) (k0_off4 L) S1x512.size (k0_off4_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off4_eq L) _ _)
omit [FloatOps F] in
theorem set_sh3P : (sh3P L).view.set = runSet L 1536 512 (by omega) := by
  show (((shW).view.slice (Rect.unit (s := S16x4096) (k0_off5 L) S1x512.size (k0_off5_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off5_eq L) _ _)
omit [FloatOps F] in
theorem set_sh4P : (sh4P L).view.set = runSet L 2048 512 (by omega) := by
  show (((shW).view.slice (Rect.unit (s := S16x4096) (k0_off6 L) S1x512.size (k0_off6_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off6_eq L) _ _)
omit [FloatOps F] in
theorem set_sh5P : (sh5P L).view.set = runSet L 2560 512 (by omega) := by
  show (((shW).view.slice (Rect.unit (s := S16x4096) (k0_off7 L) S1x512.size (k0_off7_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off7_eq L) _ _)
omit [FloatOps F] in
theorem set_sh6P : (sh6P L).view.set = runSet L 3072 512 (by omega) := by
  show (((shW).view.slice (Rect.unit (s := S16x4096) (k0_off8 L) S1x512.size (k0_off8_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off8_eq L) _ _)
omit [FloatOps F] in
theorem set_sh7P : (sh7P L).view.set = runSet L 3584 512 (by omega) := by
  show (((shW).view.slice (Rect.unit (s := S16x4096) (k0_off9 L) S1x512.size (k0_off9_inb L))).reshape S512 squeezes_S1x512_S512.numel_eq).set = _
  rw [View.set_reshape]
  show ((View.whole (cc0_scratch1 : Ref sig .scVector)).slice _).set = _
  rw [View.set_slice]
  exact Finset.map_refl.trans (set_unit_congr (k0_off9_eq L) _ _)

omit [FloatOps F] in
theorem set_q0_0 : (q0_0 L).view.set = runSet L 0 64 (by omega) := by
  show (((shW).view.slice (Rect.unit (s := S16x4096) (k0_off10 L) S1x64.size (k0_off10_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off10_eq L) _ _)
omit [FloatOps F] in
theorem set_q0_1 : (q0_1 L).view.set = runSet L 512 64 (by omega) := by
  show (((shW).view.slice (Rect.unit (s := S16x4096) (k0_off11 L) S1x64.size (k0_off11_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off11_eq L) _ _)
omit [FloatOps F] in
theorem set_q0_2 : (q0_2 L).view.set = runSet L 1024 64 (by omega) := by
  show (((shW).view.slice (Rect.unit (s := S16x4096) (k0_off12 L) S1x64.size (k0_off12_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off12_eq L) _ _)
omit [FloatOps F] in
theorem set_q0_3 : (q0_3 L).view.set = runSet L 1536 64 (by omega) := by
  show (((shW).view.slice (Rect.unit (s := S16x4096) (k0_off13 L) S1x64.size (k0_off13_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off13_eq L) _ _)
omit [FloatOps F] in
theorem set_q0_4 : (q0_4 L).view.set = runSet L 2048 64 (by omega) := by
  show (((shW).view.slice (Rect.unit (s := S16x4096) (k0_off14 L) S1x64.size (k0_off14_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off14_eq L) _ _)
omit [FloatOps F] in
theorem set_q0_5 : (q0_5 L).view.set = runSet L 2560 64 (by omega) := by
  show (((shW).view.slice (Rect.unit (s := S16x4096) (k0_off15 L) S1x64.size (k0_off15_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off15_eq L) _ _)
omit [FloatOps F] in
theorem set_q0_6 : (q0_6 L).view.set = runSet L 3072 64 (by omega) := by
  show (((shW).view.slice (Rect.unit (s := S16x4096) (k0_off16 L) S1x64.size (k0_off16_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off16_eq L) _ _)
omit [FloatOps F] in
theorem set_q0_7 : (q0_7 L).view.set = runSet L 3584 64 (by omega) := by
  show (((shW).view.slice (Rect.unit (s := S16x4096) (k0_off17 L) S1x64.size (k0_off17_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off17_eq L) _ _)
omit [FloatOps F] in
theorem set_q1_0 : (q1_0 L).view.set = runSet L 64 64 (by omega) := by
  show (((shW).view.slice (Rect.unit (s := S16x4096) (k0_off18 L) S1x64.size (k0_off18_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off18_eq L) _ _)
omit [FloatOps F] in
theorem set_q1_1 : (q1_1 L).view.set = runSet L 576 64 (by omega) := by
  show (((shW).view.slice (Rect.unit (s := S16x4096) (k0_off19 L) S1x64.size (k0_off19_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off19_eq L) _ _)
omit [FloatOps F] in
theorem set_q1_2 : (q1_2 L).view.set = runSet L 1088 64 (by omega) := by
  show (((shW).view.slice (Rect.unit (s := S16x4096) (k0_off20 L) S1x64.size (k0_off20_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off20_eq L) _ _)
omit [FloatOps F] in
theorem set_q1_3 : (q1_3 L).view.set = runSet L 1600 64 (by omega) := by
  show (((shW).view.slice (Rect.unit (s := S16x4096) (k0_off21 L) S1x64.size (k0_off21_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off21_eq L) _ _)
omit [FloatOps F] in
theorem set_q1_4 : (q1_4 L).view.set = runSet L 2112 64 (by omega) := by
  show (((shW).view.slice (Rect.unit (s := S16x4096) (k0_off22 L) S1x64.size (k0_off22_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off22_eq L) _ _)
omit [FloatOps F] in
theorem set_q1_5 : (q1_5 L).view.set = runSet L 2624 64 (by omega) := by
  show (((shW).view.slice (Rect.unit (s := S16x4096) (k0_off23 L) S1x64.size (k0_off23_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off23_eq L) _ _)
omit [FloatOps F] in
theorem set_q1_6 : (q1_6 L).view.set = runSet L 3136 64 (by omega) := by
  show (((shW).view.slice (Rect.unit (s := S16x4096) (k0_off24 L) S1x64.size (k0_off24_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off24_eq L) _ _)
omit [FloatOps F] in
theorem set_q1_7 : (q1_7 L).view.set = runSet L 3648 64 (by omega) := by
  show (((shW).view.slice (Rect.unit (s := S16x4096) (k0_off25 L) S1x64.size (k0_off25_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off25_eq L) _ _)
omit [FloatOps F] in
theorem set_q2_0 : (q2_0 L).view.set = runSet L 128 64 (by omega) := by
  show (((shW).view.slice (Rect.unit (s := S16x4096) (k0_off51 L) S1x64.size (k0_off51_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off51_eq L) _ _)
omit [FloatOps F] in
theorem set_q2_1 : (q2_1 L).view.set = runSet L 640 64 (by omega) := by
  show (((shW).view.slice (Rect.unit (s := S16x4096) (k0_off52 L) S1x64.size (k0_off52_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off52_eq L) _ _)
omit [FloatOps F] in
theorem set_q2_2 : (q2_2 L).view.set = runSet L 1152 64 (by omega) := by
  show (((shW).view.slice (Rect.unit (s := S16x4096) (k0_off53 L) S1x64.size (k0_off53_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off53_eq L) _ _)
omit [FloatOps F] in
theorem set_q2_3 : (q2_3 L).view.set = runSet L 1664 64 (by omega) := by
  show (((shW).view.slice (Rect.unit (s := S16x4096) (k0_off54 L) S1x64.size (k0_off54_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off54_eq L) _ _)
omit [FloatOps F] in
theorem set_q2_4 : (q2_4 L).view.set = runSet L 2176 64 (by omega) := by
  show (((shW).view.slice (Rect.unit (s := S16x4096) (k0_off55 L) S1x64.size (k0_off55_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off55_eq L) _ _)
omit [FloatOps F] in
theorem set_q2_5 : (q2_5 L).view.set = runSet L 2688 64 (by omega) := by
  show (((shW).view.slice (Rect.unit (s := S16x4096) (k0_off56 L) S1x64.size (k0_off56_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off56_eq L) _ _)
omit [FloatOps F] in
theorem set_q2_6 : (q2_6 L).view.set = runSet L 3200 64 (by omega) := by
  show (((shW).view.slice (Rect.unit (s := S16x4096) (k0_off57 L) S1x64.size (k0_off57_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off57_eq L) _ _)
omit [FloatOps F] in
theorem set_q2_7 : (q2_7 L).view.set = runSet L 3712 64 (by omega) := by
  show (((shW).view.slice (Rect.unit (s := S16x4096) (k0_off58 L) S1x64.size (k0_off58_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off58_eq L) _ _)
omit [FloatOps F] in
theorem set_q3_0 : (q3_0 L).view.set = runSet L 192 64 (by omega) := by
  show (((shW).view.slice (Rect.unit (s := S16x4096) (k0_off83 L) S1x64.size (k0_off83_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off83_eq L) _ _)
omit [FloatOps F] in
theorem set_q3_1 : (q3_1 L).view.set = runSet L 704 64 (by omega) := by
  show (((shW).view.slice (Rect.unit (s := S16x4096) (k0_off84 L) S1x64.size (k0_off84_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off84_eq L) _ _)
omit [FloatOps F] in
theorem set_q3_2 : (q3_2 L).view.set = runSet L 1216 64 (by omega) := by
  show (((shW).view.slice (Rect.unit (s := S16x4096) (k0_off85 L) S1x64.size (k0_off85_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off85_eq L) _ _)
omit [FloatOps F] in
theorem set_q3_3 : (q3_3 L).view.set = runSet L 1728 64 (by omega) := by
  show (((shW).view.slice (Rect.unit (s := S16x4096) (k0_off86 L) S1x64.size (k0_off86_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off86_eq L) _ _)
omit [FloatOps F] in
theorem set_q3_4 : (q3_4 L).view.set = runSet L 2240 64 (by omega) := by
  show (((shW).view.slice (Rect.unit (s := S16x4096) (k0_off87 L) S1x64.size (k0_off87_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off87_eq L) _ _)
omit [FloatOps F] in
theorem set_q3_5 : (q3_5 L).view.set = runSet L 2752 64 (by omega) := by
  show (((shW).view.slice (Rect.unit (s := S16x4096) (k0_off88 L) S1x64.size (k0_off88_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off88_eq L) _ _)
omit [FloatOps F] in
theorem set_q3_6 : (q3_6 L).view.set = runSet L 3264 64 (by omega) := by
  show (((shW).view.slice (Rect.unit (s := S16x4096) (k0_off89 L) S1x64.size (k0_off89_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off89_eq L) _ _)
omit [FloatOps F] in
theorem set_q3_7 : (q3_7 L).view.set = runSet L 3776 64 (by omega) := by
  show (((shW).view.slice (Rect.unit (s := S16x4096) (k0_off90 L) S1x64.size (k0_off90_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off90_eq L) _ _)
omit [FloatOps F] in
theorem set_q4_0 : (q4_0 L).view.set = runSet L 256 64 (by omega) := by
  show (((shW).view.slice (Rect.unit (s := S16x4096) (k0_off115 L) S1x64.size (k0_off115_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off115_eq L) _ _)
omit [FloatOps F] in
theorem set_q4_1 : (q4_1 L).view.set = runSet L 768 64 (by omega) := by
  show (((shW).view.slice (Rect.unit (s := S16x4096) (k0_off116 L) S1x64.size (k0_off116_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off116_eq L) _ _)
omit [FloatOps F] in
theorem set_q4_2 : (q4_2 L).view.set = runSet L 1280 64 (by omega) := by
  show (((shW).view.slice (Rect.unit (s := S16x4096) (k0_off117 L) S1x64.size (k0_off117_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off117_eq L) _ _)
omit [FloatOps F] in
theorem set_q4_3 : (q4_3 L).view.set = runSet L 1792 64 (by omega) := by
  show (((shW).view.slice (Rect.unit (s := S16x4096) (k0_off118 L) S1x64.size (k0_off118_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off118_eq L) _ _)
omit [FloatOps F] in
theorem set_q4_4 : (q4_4 L).view.set = runSet L 2304 64 (by omega) := by
  show (((shW).view.slice (Rect.unit (s := S16x4096) (k0_off119 L) S1x64.size (k0_off119_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off119_eq L) _ _)
omit [FloatOps F] in
theorem set_q4_5 : (q4_5 L).view.set = runSet L 2816 64 (by omega) := by
  show (((shW).view.slice (Rect.unit (s := S16x4096) (k0_off120 L) S1x64.size (k0_off120_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off120_eq L) _ _)
omit [FloatOps F] in
theorem set_q4_6 : (q4_6 L).view.set = runSet L 3328 64 (by omega) := by
  show (((shW).view.slice (Rect.unit (s := S16x4096) (k0_off121 L) S1x64.size (k0_off121_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off121_eq L) _ _)
omit [FloatOps F] in
theorem set_q4_7 : (q4_7 L).view.set = runSet L 3840 64 (by omega) := by
  show (((shW).view.slice (Rect.unit (s := S16x4096) (k0_off122 L) S1x64.size (k0_off122_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off122_eq L) _ _)
omit [FloatOps F] in
theorem set_q5_0 : (q5_0 L).view.set = runSet L 320 64 (by omega) := by
  show (((shW).view.slice (Rect.unit (s := S16x4096) (k0_off147 L) S1x64.size (k0_off147_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off147_eq L) _ _)
omit [FloatOps F] in
theorem set_q5_1 : (q5_1 L).view.set = runSet L 832 64 (by omega) := by
  show (((shW).view.slice (Rect.unit (s := S16x4096) (k0_off148 L) S1x64.size (k0_off148_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off148_eq L) _ _)
omit [FloatOps F] in
theorem set_q5_2 : (q5_2 L).view.set = runSet L 1344 64 (by omega) := by
  show (((shW).view.slice (Rect.unit (s := S16x4096) (k0_off149 L) S1x64.size (k0_off149_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off149_eq L) _ _)
omit [FloatOps F] in
theorem set_q5_3 : (q5_3 L).view.set = runSet L 1856 64 (by omega) := by
  show (((shW).view.slice (Rect.unit (s := S16x4096) (k0_off150 L) S1x64.size (k0_off150_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off150_eq L) _ _)
omit [FloatOps F] in
theorem set_q5_4 : (q5_4 L).view.set = runSet L 2368 64 (by omega) := by
  show (((shW).view.slice (Rect.unit (s := S16x4096) (k0_off151 L) S1x64.size (k0_off151_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off151_eq L) _ _)
omit [FloatOps F] in
theorem set_q5_5 : (q5_5 L).view.set = runSet L 2880 64 (by omega) := by
  show (((shW).view.slice (Rect.unit (s := S16x4096) (k0_off152 L) S1x64.size (k0_off152_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off152_eq L) _ _)
omit [FloatOps F] in
theorem set_q5_6 : (q5_6 L).view.set = runSet L 3392 64 (by omega) := by
  show (((shW).view.slice (Rect.unit (s := S16x4096) (k0_off153 L) S1x64.size (k0_off153_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off153_eq L) _ _)
omit [FloatOps F] in
theorem set_q5_7 : (q5_7 L).view.set = runSet L 3904 64 (by omega) := by
  show (((shW).view.slice (Rect.unit (s := S16x4096) (k0_off154 L) S1x64.size (k0_off154_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off154_eq L) _ _)
omit [FloatOps F] in
theorem set_q6_0 : (q6_0 L).view.set = runSet L 384 64 (by omega) := by
  show (((shW).view.slice (Rect.unit (s := S16x4096) (k0_off179 L) S1x64.size (k0_off179_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off179_eq L) _ _)
omit [FloatOps F] in
theorem set_q6_1 : (q6_1 L).view.set = runSet L 896 64 (by omega) := by
  show (((shW).view.slice (Rect.unit (s := S16x4096) (k0_off180 L) S1x64.size (k0_off180_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off180_eq L) _ _)
omit [FloatOps F] in
theorem set_q6_2 : (q6_2 L).view.set = runSet L 1408 64 (by omega) := by
  show (((shW).view.slice (Rect.unit (s := S16x4096) (k0_off181 L) S1x64.size (k0_off181_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off181_eq L) _ _)
omit [FloatOps F] in
theorem set_q6_3 : (q6_3 L).view.set = runSet L 1920 64 (by omega) := by
  show (((shW).view.slice (Rect.unit (s := S16x4096) (k0_off182 L) S1x64.size (k0_off182_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off182_eq L) _ _)
omit [FloatOps F] in
theorem set_q6_4 : (q6_4 L).view.set = runSet L 2432 64 (by omega) := by
  show (((shW).view.slice (Rect.unit (s := S16x4096) (k0_off183 L) S1x64.size (k0_off183_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off183_eq L) _ _)
omit [FloatOps F] in
theorem set_q6_5 : (q6_5 L).view.set = runSet L 2944 64 (by omega) := by
  show (((shW).view.slice (Rect.unit (s := S16x4096) (k0_off184 L) S1x64.size (k0_off184_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off184_eq L) _ _)
omit [FloatOps F] in
theorem set_q6_6 : (q6_6 L).view.set = runSet L 3456 64 (by omega) := by
  show (((shW).view.slice (Rect.unit (s := S16x4096) (k0_off185 L) S1x64.size (k0_off185_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off185_eq L) _ _)
omit [FloatOps F] in
theorem set_q6_7 : (q6_7 L).view.set = runSet L 3968 64 (by omega) := by
  show (((shW).view.slice (Rect.unit (s := S16x4096) (k0_off186 L) S1x64.size (k0_off186_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off186_eq L) _ _)
omit [FloatOps F] in
theorem set_q7_0 : (q7_0 L).view.set = runSet L 448 64 (by omega) := by
  show (((shW).view.slice (Rect.unit (s := S16x4096) (k0_off211 L) S1x64.size (k0_off211_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off211_eq L) _ _)
omit [FloatOps F] in
theorem set_q7_1 : (q7_1 L).view.set = runSet L 960 64 (by omega) := by
  show (((shW).view.slice (Rect.unit (s := S16x4096) (k0_off212 L) S1x64.size (k0_off212_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off212_eq L) _ _)
omit [FloatOps F] in
theorem set_q7_2 : (q7_2 L).view.set = runSet L 1472 64 (by omega) := by
  show (((shW).view.slice (Rect.unit (s := S16x4096) (k0_off213 L) S1x64.size (k0_off213_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off213_eq L) _ _)
omit [FloatOps F] in
theorem set_q7_3 : (q7_3 L).view.set = runSet L 1984 64 (by omega) := by
  show (((shW).view.slice (Rect.unit (s := S16x4096) (k0_off214 L) S1x64.size (k0_off214_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off214_eq L) _ _)
omit [FloatOps F] in
theorem set_q7_4 : (q7_4 L).view.set = runSet L 2496 64 (by omega) := by
  show (((shW).view.slice (Rect.unit (s := S16x4096) (k0_off215 L) S1x64.size (k0_off215_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off215_eq L) _ _)
omit [FloatOps F] in
theorem set_q7_5 : (q7_5 L).view.set = runSet L 3008 64 (by omega) := by
  show (((shW).view.slice (Rect.unit (s := S16x4096) (k0_off216 L) S1x64.size (k0_off216_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off216_eq L) _ _)
omit [FloatOps F] in
theorem set_q7_6 : (q7_6 L).view.set = runSet L 3520 64 (by omega) := by
  show (((shW).view.slice (Rect.unit (s := S16x4096) (k0_off217 L) S1x64.size (k0_off217_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off217_eq L) _ _)
omit [FloatOps F] in
theorem set_q7_7 : (q7_7 L).view.set = runSet L 4032 64 (by omega) := by
  show (((shW).view.slice (Rect.unit (s := S16x4096) (k0_off218 L) S1x64.size (k0_off218_inb L))).reshape S64 squeezes_S1x64_S64.numel_eq).set = _
  rw [View.set_reshape]
  show ((View.whole (cc0_scratch1 : Ref sig .scVector)).slice _).set = _
  rw [View.set_slice]
  exact Finset.map_refl.trans (set_unit_congr (k0_off218_eq L) _ _)

omit [FloatOps F] in
theorem univ8 : (Finset.univ : Finset (Fin 8)) = {0, 1, 2, 3, 4, 5, 6, 7} := by decide

omit [FloatOps F] in
/-- Piece 0 of the row is its eight runs of 64 words, at the same contents. -/
theorem split_sh0 (f : Buf (Elt F) ((sh0P L).view.loc (thr d L))) :
    ((sh0P L).view.loc (thr d L) ↦[(sh0P L).view.set]{fullShare} f : sProp 𝕄)
      = iprop(((q0_0 L).view.loc (thr d L) ↦[(q0_0 L).view.set]{fullShare} f)
          ∗ ((q1_0 L).view.loc (thr d L) ↦[(q1_0 L).view.set]{fullShare} f)
          ∗ ((q2_0 L).view.loc (thr d L) ↦[(q2_0 L).view.set]{fullShare} f)
          ∗ ((q3_0 L).view.loc (thr d L) ↦[(q3_0 L).view.set]{fullShare} f)
          ∗ ((q4_0 L).view.loc (thr d L) ↦[(q4_0 L).view.set]{fullShare} f)
          ∗ ((q5_0 L).view.loc (thr d L) ↦[(q5_0 L).view.set]{fullShare} f)
          ∗ ((q6_0 L).view.loc (thr d L) ↦[(q6_0 L).view.set]{fullShare} f)
          ∗ ((q7_0 L).view.loc (thr d L) ↦[(q7_0 L).view.set]{fullShare} f)) := by
  rw [set_sh0P, set_q0_0, set_q1_0, set_q2_0, set_q3_0, set_q4_0, set_q5_0, set_q6_0, set_q7_0]
  unfold runSet
  rw [row_chunks (inb_row L 0 512 (by omega)) (fun k => inb_row L (0 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 1 of the row is its eight runs of 64 words, at the same contents. -/
theorem split_sh1 (f : Buf (Elt F) ((sh1P L).view.loc (thr d L))) :
    ((sh1P L).view.loc (thr d L) ↦[(sh1P L).view.set]{fullShare} f : sProp 𝕄)
      = iprop(((q0_1 L).view.loc (thr d L) ↦[(q0_1 L).view.set]{fullShare} f)
          ∗ ((q1_1 L).view.loc (thr d L) ↦[(q1_1 L).view.set]{fullShare} f)
          ∗ ((q2_1 L).view.loc (thr d L) ↦[(q2_1 L).view.set]{fullShare} f)
          ∗ ((q3_1 L).view.loc (thr d L) ↦[(q3_1 L).view.set]{fullShare} f)
          ∗ ((q4_1 L).view.loc (thr d L) ↦[(q4_1 L).view.set]{fullShare} f)
          ∗ ((q5_1 L).view.loc (thr d L) ↦[(q5_1 L).view.set]{fullShare} f)
          ∗ ((q6_1 L).view.loc (thr d L) ↦[(q6_1 L).view.set]{fullShare} f)
          ∗ ((q7_1 L).view.loc (thr d L) ↦[(q7_1 L).view.set]{fullShare} f)) := by
  rw [set_sh1P, set_q0_1, set_q1_1, set_q2_1, set_q3_1, set_q4_1, set_q5_1, set_q6_1, set_q7_1]
  unfold runSet
  rw [row_chunks (inb_row L 512 512 (by omega)) (fun k => inb_row L (512 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 2 of the row is its eight runs of 64 words, at the same contents. -/
theorem split_sh2 (f : Buf (Elt F) ((sh2P L).view.loc (thr d L))) :
    ((sh2P L).view.loc (thr d L) ↦[(sh2P L).view.set]{fullShare} f : sProp 𝕄)
      = iprop(((q0_2 L).view.loc (thr d L) ↦[(q0_2 L).view.set]{fullShare} f)
          ∗ ((q1_2 L).view.loc (thr d L) ↦[(q1_2 L).view.set]{fullShare} f)
          ∗ ((q2_2 L).view.loc (thr d L) ↦[(q2_2 L).view.set]{fullShare} f)
          ∗ ((q3_2 L).view.loc (thr d L) ↦[(q3_2 L).view.set]{fullShare} f)
          ∗ ((q4_2 L).view.loc (thr d L) ↦[(q4_2 L).view.set]{fullShare} f)
          ∗ ((q5_2 L).view.loc (thr d L) ↦[(q5_2 L).view.set]{fullShare} f)
          ∗ ((q6_2 L).view.loc (thr d L) ↦[(q6_2 L).view.set]{fullShare} f)
          ∗ ((q7_2 L).view.loc (thr d L) ↦[(q7_2 L).view.set]{fullShare} f)) := by
  rw [set_sh2P, set_q0_2, set_q1_2, set_q2_2, set_q3_2, set_q4_2, set_q5_2, set_q6_2, set_q7_2]
  unfold runSet
  rw [row_chunks (inb_row L 1024 512 (by omega)) (fun k => inb_row L (1024 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 3 of the row is its eight runs of 64 words, at the same contents. -/
theorem split_sh3 (f : Buf (Elt F) ((sh3P L).view.loc (thr d L))) :
    ((sh3P L).view.loc (thr d L) ↦[(sh3P L).view.set]{fullShare} f : sProp 𝕄)
      = iprop(((q0_3 L).view.loc (thr d L) ↦[(q0_3 L).view.set]{fullShare} f)
          ∗ ((q1_3 L).view.loc (thr d L) ↦[(q1_3 L).view.set]{fullShare} f)
          ∗ ((q2_3 L).view.loc (thr d L) ↦[(q2_3 L).view.set]{fullShare} f)
          ∗ ((q3_3 L).view.loc (thr d L) ↦[(q3_3 L).view.set]{fullShare} f)
          ∗ ((q4_3 L).view.loc (thr d L) ↦[(q4_3 L).view.set]{fullShare} f)
          ∗ ((q5_3 L).view.loc (thr d L) ↦[(q5_3 L).view.set]{fullShare} f)
          ∗ ((q6_3 L).view.loc (thr d L) ↦[(q6_3 L).view.set]{fullShare} f)
          ∗ ((q7_3 L).view.loc (thr d L) ↦[(q7_3 L).view.set]{fullShare} f)) := by
  rw [set_sh3P, set_q0_3, set_q1_3, set_q2_3, set_q3_3, set_q4_3, set_q5_3, set_q6_3, set_q7_3]
  unfold runSet
  rw [row_chunks (inb_row L 1536 512 (by omega)) (fun k => inb_row L (1536 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 4 of the row is its eight runs of 64 words, at the same contents. -/
theorem split_sh4 (f : Buf (Elt F) ((sh4P L).view.loc (thr d L))) :
    ((sh4P L).view.loc (thr d L) ↦[(sh4P L).view.set]{fullShare} f : sProp 𝕄)
      = iprop(((q0_4 L).view.loc (thr d L) ↦[(q0_4 L).view.set]{fullShare} f)
          ∗ ((q1_4 L).view.loc (thr d L) ↦[(q1_4 L).view.set]{fullShare} f)
          ∗ ((q2_4 L).view.loc (thr d L) ↦[(q2_4 L).view.set]{fullShare} f)
          ∗ ((q3_4 L).view.loc (thr d L) ↦[(q3_4 L).view.set]{fullShare} f)
          ∗ ((q4_4 L).view.loc (thr d L) ↦[(q4_4 L).view.set]{fullShare} f)
          ∗ ((q5_4 L).view.loc (thr d L) ↦[(q5_4 L).view.set]{fullShare} f)
          ∗ ((q6_4 L).view.loc (thr d L) ↦[(q6_4 L).view.set]{fullShare} f)
          ∗ ((q7_4 L).view.loc (thr d L) ↦[(q7_4 L).view.set]{fullShare} f)) := by
  rw [set_sh4P, set_q0_4, set_q1_4, set_q2_4, set_q3_4, set_q4_4, set_q5_4, set_q6_4, set_q7_4]
  unfold runSet
  rw [row_chunks (inb_row L 2048 512 (by omega)) (fun k => inb_row L (2048 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 5 of the row is its eight runs of 64 words, at the same contents. -/
theorem split_sh5 (f : Buf (Elt F) ((sh5P L).view.loc (thr d L))) :
    ((sh5P L).view.loc (thr d L) ↦[(sh5P L).view.set]{fullShare} f : sProp 𝕄)
      = iprop(((q0_5 L).view.loc (thr d L) ↦[(q0_5 L).view.set]{fullShare} f)
          ∗ ((q1_5 L).view.loc (thr d L) ↦[(q1_5 L).view.set]{fullShare} f)
          ∗ ((q2_5 L).view.loc (thr d L) ↦[(q2_5 L).view.set]{fullShare} f)
          ∗ ((q3_5 L).view.loc (thr d L) ↦[(q3_5 L).view.set]{fullShare} f)
          ∗ ((q4_5 L).view.loc (thr d L) ↦[(q4_5 L).view.set]{fullShare} f)
          ∗ ((q5_5 L).view.loc (thr d L) ↦[(q5_5 L).view.set]{fullShare} f)
          ∗ ((q6_5 L).view.loc (thr d L) ↦[(q6_5 L).view.set]{fullShare} f)
          ∗ ((q7_5 L).view.loc (thr d L) ↦[(q7_5 L).view.set]{fullShare} f)) := by
  rw [set_sh5P, set_q0_5, set_q1_5, set_q2_5, set_q3_5, set_q4_5, set_q5_5, set_q6_5, set_q7_5]
  unfold runSet
  rw [row_chunks (inb_row L 2560 512 (by omega)) (fun k => inb_row L (2560 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 6 of the row is its eight runs of 64 words, at the same contents. -/
theorem split_sh6 (f : Buf (Elt F) ((sh6P L).view.loc (thr d L))) :
    ((sh6P L).view.loc (thr d L) ↦[(sh6P L).view.set]{fullShare} f : sProp 𝕄)
      = iprop(((q0_6 L).view.loc (thr d L) ↦[(q0_6 L).view.set]{fullShare} f)
          ∗ ((q1_6 L).view.loc (thr d L) ↦[(q1_6 L).view.set]{fullShare} f)
          ∗ ((q2_6 L).view.loc (thr d L) ↦[(q2_6 L).view.set]{fullShare} f)
          ∗ ((q3_6 L).view.loc (thr d L) ↦[(q3_6 L).view.set]{fullShare} f)
          ∗ ((q4_6 L).view.loc (thr d L) ↦[(q4_6 L).view.set]{fullShare} f)
          ∗ ((q5_6 L).view.loc (thr d L) ↦[(q5_6 L).view.set]{fullShare} f)
          ∗ ((q6_6 L).view.loc (thr d L) ↦[(q6_6 L).view.set]{fullShare} f)
          ∗ ((q7_6 L).view.loc (thr d L) ↦[(q7_6 L).view.set]{fullShare} f)) := by
  rw [set_sh6P, set_q0_6, set_q1_6, set_q2_6, set_q3_6, set_q4_6, set_q5_6, set_q6_6, set_q7_6]
  unfold runSet
  rw [row_chunks (inb_row L 3072 512 (by omega)) (fun k => inb_row L (3072 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
omit [FloatOps F] in
/-- Piece 7 of the row is its eight runs of 64 words, at the same contents. -/
theorem split_sh7 (f : Buf (Elt F) ((sh7P L).view.loc (thr d L))) :
    ((sh7P L).view.loc (thr d L) ↦[(sh7P L).view.set]{fullShare} f : sProp 𝕄)
      = iprop(((q0_7 L).view.loc (thr d L) ↦[(q0_7 L).view.set]{fullShare} f)
          ∗ ((q1_7 L).view.loc (thr d L) ↦[(q1_7 L).view.set]{fullShare} f)
          ∗ ((q2_7 L).view.loc (thr d L) ↦[(q2_7 L).view.set]{fullShare} f)
          ∗ ((q3_7 L).view.loc (thr d L) ↦[(q3_7 L).view.set]{fullShare} f)
          ∗ ((q4_7 L).view.loc (thr d L) ↦[(q4_7 L).view.set]{fullShare} f)
          ∗ ((q5_7 L).view.loc (thr d L) ↦[(q5_7 L).view.set]{fullShare} f)
          ∗ ((q6_7 L).view.loc (thr d L) ↦[(q6_7 L).view.set]{fullShare} f)
          ∗ ((q7_7 L).view.loc (thr d L) ↦[(q7_7 L).view.set]{fullShare} f)) := by
  rw [set_sh7P, set_q0_7, set_q1_7, set_q2_7, set_q3_7, set_q4_7, set_q5_7, set_q6_7, set_q7_7]
  unfold runSet
  rw [row_chunks (inb_row L 3584 512 (by omega)) (fun k => inb_row L (3584 + 64 * k.val) 64 (by have := k.isLt; omega)),
    pointsTo_biUnion Finset.univ _ (row_chunks_disjoint _), univ8,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

end Sets

end Cert.Proof.KB

end
-- ==== Proof.KB.LaunchSets.lean ====
/-
  The element sets of the lookup kernel's operands, in closed form, and how the tasks' sets tile each array.

  Task (core c, subcore i) has number w = 2 i + c. Of an index column (16384 words) it reads the 512 words from
  512 w = 1024 i + 512 c; of the flat result (4194304 entries) it writes the 131072 entries from
  131072 w = 262144 i + 131072 c, as eight chunks of 16384; of its SparseCore's shared scratch (16 rows of 4096
  words) it is handed row i, as eight pieces of 512 words. The thirty-two runs of a column, the thirty-two slabs of
  the result and the 16 x 8 pieces of a shared scratch are pairwise disjoint and cover their arrays.
-/
import proofs.«204821_g30846455120635_fold_wed_m_1292_33_alg».proof.Proof.KB.Setup
import proofs.«204821_g30846455120635_fold_wed_m_1292_33_alg».proof.Proof.KB.Tile
import proofs.«204821_g30846455120635_fold_wed_m_1292_33_alg».proof.Proof.KB.TileSets
import proofs.«204821_g30846455120635_fold_wed_m_1292_33_alg».proof.Proof.LibRowChunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

open Cert.LibRowChunks

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_zero (c : Fin (grid0.bound 0)) (s : Fin (grid0.bound 1)) : (coordsV c s 0).val = c.val := rfl
theorem coordsV_one (c : Fin (grid0.bound 0)) (s : Fin (grid0.bound 1)) : (coordsV c s 1).val = s.val := rfl

theorem L0_lt (L : grid0.Coords) : (L 0).val < 2 := (L 0).isLt
theorem L1_lt (L : grid0.Coords) : (L 1).val < 16 := (L 1).isLt

/-! ## The closed forms -/

theorem inb_col (L : grid0.Coords) :
    ∀ a, (![1024 * (L 1).val + 512 * (L 0).val] : Fin 1 → Nat) a + (![512] : Fin 1 → Nat) a ≤ S16384.size a :=
  Rect.inb₁ (d := ![16384]) (show 1024 * (L 1).val + 512 * (L 0).val + 512 ≤ 16384 by have := L0_lt L; have := L1_lt L; omega)

/-- The task's 512 words of an index column. -/
abbrev colSet (L : grid0.Coords) : Finset S16384.Idx :=
  (Rect.unit (s := S16384) ![1024 * (L 1).val + 512 * (L 0).val] ![512] (inb_col L)).set

theorem inb_slab (L : grid0.Coords) :
    ∀ a, (![262144 * (L 1).val + 131072 * (L 0).val] : Fin 1 → Nat) a + (![131072] : Fin 1 → Nat) a ≤ S4194304.size a :=
  Rect.inb₁ (d := ![4194304]) (show 262144 * (L 1).val + 131072 * (L 0).val + 131072 ≤ 4194304 by have := L0_lt L; have := L1_lt L; omega)

/-- The task's slab of the flat result: 512 rows of 256 entries. -/
abbrev slabSet (L : grid0.Coords) : Finset S4194304.Idx :=
  (Rect.unit (s := S4194304) ![262144 * (L 1).val + 131072 * (L 0).val] ![131072] (inb_slab L)).set

theorem inb_chunk (L : grid0.Coords) (k : Fin 8) :
    ∀ a, (![262144 * (L 1).val + 131072 * (L 0).val + 16384 * k.val] : Fin 1 → Nat) a + (![16384] : Fin 1 → Nat) a ≤ S4194304.size a :=
  Rect.inb₁ (d := ![4194304]) (show 262144 * (L 1).val + 131072 * (L 0).val + 16384 * k.val + 16384 ≤ 4194304 by
    have := L0_lt L; have := L1_lt L; have := k.isLt; omega)

/-- Chunk `k` of the slab: 64 rows of 256 entries. -/
abbrev chunkSet (L : grid0.Coords) (k : Fin 8) : Finset S4194304.Idx :=
  (Rect.unit (s := S4194304) ![262144 * (L 1).val + 131072 * (L 0).val + 16384 * k.val] ![16384] (inb_chunk L k)).set

section Closed
variable (L : grid0.Coords)

theorem set_c0S : (c0S L).view.set = colSet L := by
  show ((View.whole (main_arg0_scv : Ref sig .scVector)).slice _).set = _
  rw [View.set_slice]
  exact Finset.map_refl.trans (set_unit_congr (k0_off2_eq L) _ _)
theorem set_c1S : (c1S L).view.set = colSet L := by
  show ((View.whole (main_arg1_scv : Ref sig .scVector)).slice _).set = _
  rw [View.set_slice]
  exact Finset.map_refl.trans (set_unit_congr (k0_off2_eq L) _ _)
theorem set_c2S : (c2S L).view.set = colSet L := by
  show ((View.whole (main_arg2_scv : Ref sig .scVector)).slice _).set = _
  rw [View.set_slice]
  exact Finset.map_refl.trans (set_unit_congr (k0_off2_eq L) _ _)
theorem set_c3S : (c3S L).view.set = colSet L := by
  show ((View.whole (main_arg3_scv : Ref sig .scVector)).slice _).set = _
  rw [View.set_slice]
  exact Finset.map_refl.trans (set_unit_congr (k0_off2_eq L) _ _)
theorem set_c4S : (c4S L).view.set = colSet L := by
  show ((View.whole (main_arg4_scv : Ref sig .scVector)).slice _).set = _
  rw [View.set_slice]
  exact Finset.map_refl.trans (set_unit_congr (k0_off2_eq L) _ _)
theorem set_c5S : (c5S L).view.set = colSet L := by
  show ((View.whole (main_arg5_scv : Ref sig .scVector)).slice _).set = _
  rw [View.set_slice]
  exact Finset.map_refl.trans (set_unit_congr (k0_off2_eq L) _ _)
theorem set_c6S : (c6S L).view.set = colSet L := by
  show ((View.whole (main_arg6_scv : Ref sig .scVector)).slice _).set = _
  rw [View.set_slice]
  exact Finset.map_refl.trans (set_unit_congr (k0_off2_eq L) _ _)
theorem set_c7S : (c7S L).view.set = colSet L := by
  show ((View.whole (main_arg7_scv : Ref sig .scVector)).slice _).set = _
  rw [View.set_slice]
  exact Finset.map_refl.trans (set_unit_congr (k0_off2_eq L) _ _)

theorem set_ou0S : (ou0S L).view.set = chunkSet L 0 := by
  show ((View.whole (main_v2_scv : Ref sig .scVector)).slice _).set = _
  rw [View.set_slice]
  exact Finset.map_refl.trans (set_unit_congr (k0_off50_eq L 0) _ _)
theorem set_ou1S : (ou1S L).view.set = chunkSet L 1 := by
  show ((View.whole (main_v2_scv : Ref sig .scVector)).slice _).set = _
  rw [View.set_slice]
  exact Finset.map_refl.trans (set_unit_congr (k0_off50_eq L 1) _ _)
theorem set_ou2S : (ou2S L).view.set = chunkSet L 2 := by
  show ((View.whole (main_v2_scv : Ref sig .scVector)).slice _).set = _
  rw [View.set_slice]
  exact Finset.map_refl.trans (set_unit_congr (k0_off50_eq L 2) _ _)
theorem set_ou3S : (ou3S L).view.set = chunkSet L 3 := by
  show ((View.whole (main_v2_scv : Ref sig .scVector)).slice _).set = _
  rw [View.set_slice]
  exact Finset.map_refl.trans (set_unit_congr (k0_off50_eq L 3) _ _)
theorem set_ou4S : (ou4S L).view.set = chunkSet L 4 := by
  show ((View.whole (main_v2_scv : Ref sig .scVector)).slice _).set = _
  rw [View.set_slice]
  exact Finset.map_refl.trans (set_unit_congr (k0_off50_eq L 4) _ _)
theorem set_ou5S : (ou5S L).view.set = chunkSet L 5 := by
  show ((View.whole (main_v2_scv : Ref sig .scVector)).slice _).set = _
  rw [View.set_slice]
  exact Finset.map_refl.trans (set_unit_congr (k0_off50_eq L 5) _ _)
theorem set_ou6S : (ou6S L).view.set = chunkSet L 6 := by
  show ((View.whole (main_v2_scv : Ref sig .scVector)).slice _).set = _
  rw [View.set_slice]
  exact Finset.map_refl.trans (set_unit_congr (k0_off50_eq L 6) _ _)
theorem set_ou7S : (ou7S L).view.set = chunkSet L 7 := by
  show ((View.whole (main_v2_scv : Ref sig .scVector)).slice _).set = _
  rw [View.set_slice]
  exact Finset.map_refl.trans (set_unit_congr (k0_off50_eq L 7) _ _)

/-- The slab is its eight chunks, -/
theorem slab_chunks : slabSet L = (Finset.univ : Finset (Fin 8)).biUnion fun k => chunkSet L k := by
  ext x
  simp only [Finset.mem_biUnion, Finset.mem_univ, true_and, mem_run1]
  constructor
  · rintro ⟨h1, h2⟩
    exact ⟨⟨((x 0).val - (262144 * (L 1).val + 131072 * (L 0).val)) / 16384, by omega⟩,
      by show 262144 * (L 1).val + 131072 * (L 0).val + 16384 * (((x 0).val - (262144 * (L 1).val + 131072 * (L 0).val)) / 16384) ≤ _; omega,
      by show _ < 262144 * (L 1).val + 131072 * (L 0).val + 16384 * (((x 0).val - (262144 * (L 1).val + 131072 * (L 0).val)) / 16384) + 16384; omega⟩
  · rintro ⟨k, h1, h2⟩
    have := k.isLt
    exact ⟨by omega, by omega⟩

/-- which are pairwise disjoint. -/
theorem slab_chunks_disjoint : ∀ k ∈ (Finset.univ : Finset (Fin 8)), ∀ k' ∈ (Finset.univ : Finset (Fin 8)), k ≠ k' →
    Disjoint (chunkSet L k) (chunkSet L k') := by
  intro k _ k' _ hne
  refine Rect.unit_disjoint (0 : Fin 1) ?_
  have : k.val ≠ k'.val := fun e => hne (Fin.ext e)
  show 262144 * (L 1).val + 131072 * (L 0).val + 16384 * k.val + 16384 ≤ 262144 * (L 1).val + 131072 * (L 0).val + 16384 * k'.val
    ∨ 262144 * (L 1).val + 131072 * (L 0).val + 16384 * k'.val + 16384 ≤ 262144 * (L 1).val + 131072 * (L 0).val + 16384 * k.val
  omega

end Closed

/-! ## The tasks' sets tile the arrays -/

/-- The thirty-two tasks, as (core, subcore). -/
abbrev Tsk : Type := Fin 2 × Fin 16
/-- A task's grid point. -/
abbrev LT (p : Tsk) : grid0.Coords := coordsV p.1 p.2

theorem LT_zero (p : Tsk) : ((LT p) 0).val = p.1.val := rfl
theorem LT_one (p : Tsk) : ((LT p) 1).val = p.2.val := rfl

theorem tsk_ne {p p' : Tsk} (h : p ≠ p') : p.1.val ≠ p'.1.val ∨ p.2.val ≠ p'.2.val := by
  by_contra hc
  have h1 : p.1.val = p'.1.val := by by_contra h1; exact hc (Or.inl h1)
  have h2 : p.2.val = p'.2.val := by by_contra h2; exact hc (Or.inr h2)
  exact h (Prod.ext (Fin.ext h1) (Fin.ext h2))

theorem cols_disjoint : ∀ p ∈ (Finset.univ : Finset Tsk), ∀ p' ∈ (Finset.univ : Finset Tsk), p ≠ p' →
    Disjoint (colSet (LT p)) (colSet (LT p')) := by
  intro p _ p' _ hne
  refine Rect.unit_disjoint (0 : Fin 1) ?_
  have h := tsk_ne hne
  have := p.1.isLt; have := p'.1.isLt; have := p.2.isLt; have := p'.2.isLt
  show 1024 * p.2.val + 512 * p.1.val + 512 ≤ 1024 * p'.2.val + 512 * p'.1.val
    ∨ 1024 * p'.2.val + 512 * p'.1.val + 512 ≤ 1024 * p.2.val + 512 * p.1.val
  omega

theorem cols_cover : (Finset.univ : Finset Tsk).biUnion (fun p => colSet (LT p)) = Finset.univ := by
  ext x
  simp only [Finset.mem_biUnion, Finset.mem_univ, true_and, mem_run1, iff_true]
  have hx : (x 0).val < 16384 := (x 0).isLt
  exact ⟨(⟨(x 0).val / 512 % 2, by omega⟩, ⟨(x 0).val / 1024, by omega⟩),
    by show 1024 * ((x 0).val / 1024) + 512 * ((x 0).val / 512 % 2) ≤ _; omega,
    by show _ < 1024 * ((x 0).val / 1024) + 512 * ((x 0).val / 512 % 2) + 512; omega⟩

theorem slabs_disjoint : ∀ p ∈ (Finset.univ : Finset Tsk), ∀ p' ∈ (Finset.univ : Finset Tsk), p ≠ p' →
    Disjoint (slabSet (LT p)) (slabSet (LT p')) := by
  intro p _ p' _ hne
  refine Rect.unit_disjoint (0 : Fin 1) ?_
  have h := tsk_ne hne
  have := p.1.isLt; have := p'.1.isLt; have := p.2.isLt; have := p'.2.isLt
  show 262144 * p.2.val + 131072 * p.1.val + 131072 ≤ 262144 * p'.2.val + 131072 * p'.1.val
    ∨ 262144 * p'.2.val + 131072 * p'.1.val + 131072 ≤ 262144 * p.2.val + 131072 * p.1.val
  omega

theorem slabs_cover : (Finset.univ : Finset Tsk).biUnion (fun p => slabSet (LT p)) = Finset.univ := by
  ext x
  simp only [Finset.mem_biUnion, Finset.mem_univ, true_and, mem_run1, iff_true]
  have hx : (x 0).val < 4194304 := (x 0).isLt
  exact ⟨(⟨(x 0).val / 131072 % 2, by omega⟩, ⟨(x 0).val / 262144, by omega⟩),
    by show 262144 * ((x 0).val / 262144) + 131072 * ((x 0).val / 131072 % 2) ≤ _; omega,
    by show _ < 262144 * ((x 0).val / 262144) + 131072 * ((x 0).val / 131072 % 2) + 131072; omega⟩

/-! ## The shared scratch: sixteen rows of eight pieces -/

/-- The pieces of a shared scratch, as (row, piece). -/
abbrev Pc : Type := Fin 16 × Fin 8

theorem inb_piece (p : Pc) :
    ∀ a, (![p.1.val, 512 * p.2.val] : Fin 2 → Nat) a + (![1, 512] : Fin 2 → Nat) a ≤ S16x4096.size a :=
  Rect.inb₂ (d := ![16, 4096]) (show p.1.val + 1 ≤ 16 from p.1.isLt) (show 512 * p.2.val + 512 ≤ 4096 by have := p.2.isLt; omega)

/-- Piece `j` of row `i`: 512 words from column 512 j. -/
abbrev pieceSet (p : Pc) : Finset S16x4096.Idx :=
  (Rect.unit (s := S16x4096) ![p.1.val, 512 * p.2.val] ![1, 512] (inb_piece p)).set

theorem pc_ne {p p' : Pc} (h : p ≠ p') : p.1.val ≠ p'.1.val ∨ p.2.val ≠ p'.2.val := by
  by_contra hc
  have h1 : p.1.val = p'.1.val := by by_contra h1; exact hc (Or.inl h1)
  have h2 : p.2.val = p'.2.val := by by_contra h2; exact hc (Or.inr h2)
  exact h (Prod.ext (Fin.ext h1) (Fin.ext h2))

theorem pieces_disjoint : ∀ p ∈ (Finset.univ : Finset Pc), ∀ p' ∈ (Finset.univ : Finset Pc), p ≠ p' →
    Disjoint (pieceSet p) (pieceSet p') := by
  intro p _ p' _ hne
  rw [Finset.disjoint_left]
  intro x hx hx'
  rw [mem_run2] at hx hx'
  rcases pc_ne hne with h | h
  · omega
  · omega

theorem pieces_cover : (Finset.univ : Finset Pc).biUnion pieceSet = Finset.univ := by
  ext x
  simp only [Finset.mem_biUnion, Finset.mem_univ, true_and, mem_run2, iff_true]
  have h0 : (x 0).val < 16 := (x 0).isLt
  have h1 : (x 1).val < 4096 := (x 1).isLt
  exact ⟨(⟨(x 0).val, h0⟩, ⟨(x 1).val / 512, by omega⟩), rfl,
    by show 512 * ((x 1).val / 512) ≤ _; omega, by show _ < 512 * ((x 1).val / 512) + 512; omega⟩

/-- A task's piece `j` of its row is piece `j` of row `L 1`. -/
theorem runSet_piece (L : grid0.Coords) (j : Fin 8) (hc : 512 * j.val + 512 ≤ 4096) :
    runSet L (512 * j.val) 512 hc = pieceSet (⟨(L 1).val, L1_lt L⟩, j) := rfl

end Cert.Proof.KB

end
-- ==== Proof.KB.LaunchPay.lean ====
/-
  What the lookup kernel's one SparseCore call carries, and the task's proof as the launch theorem takes it.

  The call hands each SparseCore, for each of its sixteen tasks, the task's 512 words of each index column, a read
  share of the flat table and the task's slab of the flat result; the sequencer adds row i of its shared scratch
  for task i. A task hands the same back with its slab at what the lookup gives.
-/
import proofs.«204821_g30846455120635_fold_wed_m_1292_33_alg».proof.Proof.KB.Pay
import proofs.«204821_g30846455120635_fold_wed_m_1292_33_alg».proof.Proof.KB.HostVal
import proofs.«204821_g30846455120635_fold_wed_m_1292_33_alg».proof.Proof.KB.LaunchSets

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)

variable [FloatOps F]

open Idealize.ShloMosaic.Transfers (shareTokN shareDrop shareTok)

/-- Task (core c, subcore i)'s read share of the flat table: a token of SparseCore c's token of the whole. -/
def qtOf (c i : ℕ) : PosShare TreeShare := shareTokN (shareTokN fullShare c) i

/-- The grid point of task (c, i) of the call. -/
abbrev coordsQ (c : Fin ((K (F := F)).nCore 0)) (i : Fin ((K (F := F)).nSub 0)) : grid0.Coords :=
  coordsV ⟨c.val, c.isLt⟩ ⟨i.val, i.isLt⟩

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [univ8, SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

section Parts
variable (d : Dev nD) (L : grid0.Coords)

/-- A task's operands from the call: its words of the columns, its share of the table, its slab of the result. -/
def goB (qt : PosShare TreeShare) (TAB : Buf (Elt F) (tabLoc d)) : sProp 𝕄 :=
  iprop((c0Loc d ↦[colSet L]{fullShare} m (c0Loc d))
      ∗ (c1Loc d ↦[colSet L]{fullShare} m (c1Loc d))
      ∗ (c2Loc d ↦[colSet L]{fullShare} m (c2Loc d))
      ∗ (c3Loc d ↦[colSet L]{fullShare} m (c3Loc d))
      ∗ (c4Loc d ↦[colSet L]{fullShare} m (c4Loc d))
      ∗ (c5Loc d ↦[colSet L]{fullShare} m (c5Loc d))
      ∗ (c6Loc d ↦[colSet L]{fullShare} m (c6Loc d))
      ∗ (c7Loc d ↦[colSet L]{fullShare} m (c7Loc d))
      ∗ (tabLoc d ↦{qt} TAB)
      ∗ (outLoc d ↦[slabSet L]{fullShare} m (outLoc d)))

/-- What it hands back: the same, the slab at what the lookup gives. -/
def tdB (qt : PosShare TreeShare) (TAB : Buf (Elt F) (tabLoc d)) : sProp 𝕄 :=
  iprop((c0Loc d ↦[colSet L]{fullShare} m (c0Loc d))
      ∗ (c1Loc d ↦[colSet L]{fullShare} m (c1Loc d))
      ∗ (c2Loc d ↦[colSet L]{fullShare} m (c2Loc d))
      ∗ (c3Loc d ↦[colSet L]{fullShare} m (c3Loc d))
      ∗ (c4Loc d ↦[colSet L]{fullShare} m (c4Loc d))
      ∗ (c5Loc d ↦[colSet L]{fullShare} m (c5Loc d))
      ∗ (c6Loc d ↦[colSet L]{fullShare} m (c6Loc d))
      ∗ (c7Loc d ↦[colSet L]{fullShare} m (c7Loc d))
      ∗ (tabLoc d ↦{qt} TAB)
      ∗ (outLoc d ↦[slabSet L]{fullShare} OUTof TAB (cols m d)))

/-- The task's row of the shared scratch, as its sequencer hands it over: eight pieces at the same contents. -/
def shGo : sProp 𝕄 :=
  iprop(∃ fsh, ((sh0P L).view.loc (thr d L) ↦[(sh0P L).view.set]{fullShare} fsh)
        ∗ ((sh1P L).view.loc (thr d L) ↦[(sh1P L).view.set]{fullShare} fsh)
        ∗ ((sh2P L).view.loc (thr d L) ↦[(sh2P L).view.set]{fullShare} fsh)
        ∗ ((sh3P L).view.loc (thr d L) ↦[(sh3P L).view.set]{fullShare} fsh)
        ∗ ((sh4P L).view.loc (thr d L) ↦[(sh4P L).view.set]{fullShare} fsh)
        ∗ ((sh5P L).view.loc (thr d L) ↦[(sh5P L).view.set]{fullShare} fsh)
        ∗ ((sh6P L).view.loc (thr d L) ↦[(sh6P L).view.set]{fullShare} fsh)
        ∗ ((sh7P L).view.loc (thr d L) ↦[(sh7P L).view.set]{fullShare} fsh))

/-- The row as the task hands it back: each piece at some contents. -/
def shTd : sProp 𝕄 :=
  iprop((∃ f, (sh0P L).view.loc (thr d L) ↦[(sh0P L).view.set]{fullShare} f)
      ∗ (∃ f, (sh1P L).view.loc (thr d L) ↦[(sh1P L).view.set]{fullShare} f)
      ∗ (∃ f, (sh2P L).view.loc (thr d L) ↦[(sh2P L).view.set]{fullShare} f)
      ∗ (∃ f, (sh3P L).view.loc (thr d L) ↦[(sh3P L).view.set]{fullShare} f)
      ∗ (∃ f, (sh4P L).view.loc (thr d L) ↦[(sh4P L).view.set]{fullShare} f)
      ∗ (∃ f, (sh5P L).view.loc (thr d L) ↦[(sh5P L).view.set]{fullShare} f)
      ∗ (∃ f, (sh6P L).view.loc (thr d L) ↦[(sh6P L).view.set]{fullShare} f)
      ∗ (∃ f, (sh7P L).view.loc (thr d L) ↦[(sh7P L).view.set]{fullShare} f))

omit [FloatOps F] in
theorem pts_c0 (f : Buf (Elt F) (c0Loc d)) :
    ((c0S L).view.loc (thr d L) ↦[(c0S L).view.set]{fullShare} f : sProp 𝕄) = c0Loc d ↦[colSet L]{fullShare} f := by
  rw [set_c0S]
omit [FloatOps F] in
theorem pts_c1 (f : Buf (Elt F) (c1Loc d)) :
    ((c1S L).view.loc (thr d L) ↦[(c1S L).view.set]{fullShare} f : sProp 𝕄) = c1Loc d ↦[colSet L]{fullShare} f := by
  rw [set_c1S]
omit [FloatOps F] in
theorem pts_c2 (f : Buf (Elt F) (c2Loc d)) :
    ((c2S L).view.loc (thr d L) ↦[(c2S L).view.set]{fullShare} f : sProp 𝕄) = c2Loc d ↦[colSet L]{fullShare} f := by
  rw [set_c2S]
omit [FloatOps F] in
theorem pts_c3 (f : Buf (Elt F) (c3Loc d)) :
    ((c3S L).view.loc (thr d L) ↦[(c3S L).view.set]{fullShare} f : sProp 𝕄) = c3Loc d ↦[colSet L]{fullShare} f := by
  rw [set_c3S]
omit [FloatOps F] in
theorem pts_c4 (f : Buf (Elt F) (c4Loc d)) :
    ((c4S L).view.loc (thr d L) ↦[(c4S L).view.set]{fullShare} f : sProp 𝕄) = c4Loc d ↦[colSet L]{fullShare} f := by
  rw [set_c4S]
omit [FloatOps F] in
theorem pts_c5 (f : Buf (Elt F) (c5Loc d)) :
    ((c5S L).view.loc (thr d L) ↦[(c5S L).view.set]{fullShare} f : sProp 𝕄) = c5Loc d ↦[colSet L]{fullShare} f := by
  rw [set_c5S]
omit [FloatOps F] in
theorem pts_c6 (f : Buf (Elt F) (c6Loc d)) :
    ((c6S L).view.loc (thr d L) ↦[(c6S L).view.set]{fullShare} f : sProp 𝕄) = c6Loc d ↦[colSet L]{fullShare} f := by
  rw [set_c6S]
omit [FloatOps F] in
theorem pts_c7 (f : Buf (Elt F) (c7Loc d)) :
    ((c7S L).view.loc (thr d L) ↦[(c7S L).view.set]{fullShare} f : sProp 𝕄) = c7Loc d ↦[colSet L]{fullShare} f := by
  rw [set_c7S]
omit [FloatOps F] in
theorem pts_ou0 (f : Buf (Elt F) (outLoc d)) :
    ((ou0S L).view.loc (thr d L) ↦[(ou0S L).view.set]{fullShare} f : sProp 𝕄) = outLoc d ↦[chunkSet L 0]{fullShare} f := by
  rw [set_ou0S]
omit [FloatOps F] in
theorem pts_ou1 (f : Buf (Elt F) (outLoc d)) :
    ((ou1S L).view.loc (thr d L) ↦[(ou1S L).view.set]{fullShare} f : sProp 𝕄) = outLoc d ↦[chunkSet L 1]{fullShare} f := by
  rw [set_ou1S]
omit [FloatOps F] in
theorem pts_ou2 (f : Buf (Elt F) (outLoc d)) :
    ((ou2S L).view.loc (thr d L) ↦[(ou2S L).view.set]{fullShare} f : sProp 𝕄) = outLoc d ↦[chunkSet L 2]{fullShare} f := by
  rw [set_ou2S]
omit [FloatOps F] in
theorem pts_ou3 (f : Buf (Elt F) (outLoc d)) :
    ((ou3S L).view.loc (thr d L) ↦[(ou3S L).view.set]{fullShare} f : sProp 𝕄) = outLoc d ↦[chunkSet L 3]{fullShare} f := by
  rw [set_ou3S]
omit [FloatOps F] in
theorem pts_ou4 (f : Buf (Elt F) (outLoc d)) :
    ((ou4S L).view.loc (thr d L) ↦[(ou4S L).view.set]{fullShare} f : sProp 𝕄) = outLoc d ↦[chunkSet L 4]{fullShare} f := by
  rw [set_ou4S]
omit [FloatOps F] in
theorem pts_ou5 (f : Buf (Elt F) (outLoc d)) :
    ((ou5S L).view.loc (thr d L) ↦[(ou5S L).view.set]{fullShare} f : sProp 𝕄) = outLoc d ↦[chunkSet L 5]{fullShare} f := by
  rw [set_ou5S]
omit [FloatOps F] in
theorem pts_ou6 (f : Buf (Elt F) (outLoc d)) :
    ((ou6S L).view.loc (thr d L) ↦[(ou6S L).view.set]{fullShare} f : sProp 𝕄) = outLoc d ↦[chunkSet L 6]{fullShare} f := by
  rw [set_ou6S]
omit [FloatOps F] in
theorem pts_ou7 (f : Buf (Elt F) (outLoc d)) :
    ((ou7S L).view.loc (thr d L) ↦[(ou7S L).view.set]{fullShare} f : sProp 𝕄) = outLoc d ↦[chunkSet L 7]{fullShare} f := by
  rw [set_ou7S]

omit [FloatOps F] in
/-- The slab at contents `f` is its eight chunks at `f`. -/
theorem slab_split (f : Buf (Elt F) (outLoc d)) :
    (outLoc d ↦[slabSet L]{fullShare} f : sProp 𝕄)
      = iprop((outLoc d ↦[chunkSet L 0]{fullShare} f)
          ∗ (outLoc d ↦[chunkSet L 1]{fullShare} f)
          ∗ (outLoc d ↦[chunkSet L 2]{fullShare} f)
          ∗ (outLoc d ↦[chunkSet L 3]{fullShare} f)
          ∗ (outLoc d ↦[chunkSet L 4]{fullShare} f)
          ∗ (outLoc d ↦[chunkSet L 5]{fullShare} f)
          ∗ (outLoc d ↦[chunkSet L 6]{fullShare} f)
          ∗ (outLoc d ↦[chunkSet L 7]{fullShare} f)) := by
  rw [slab_chunks L, pointsTo_biUnion Finset.univ _ (slab_chunks_disjoint L), bigSep_fin8]

/-- What the call carries for a task and its row of the shared scratch are what the task is handed. -/
theorem tileGo_intro (qt : PosShare TreeShare) (TAB : Buf (Elt F) (tabLoc d)) :
    iprop(goB m d L qt TAB ∗ shGo (F := F) d L) ⊢ tileGo m d L qt TAB := by
  unfold tileGo goB shGo
  iintro ⟨⟨H0, H1, H2, H3, H4, H5, H6, H7, Ht, Ho⟩, Hsh⟩
  ihave Ho' := (Entails.of_eq (slab_split d L (m (outLoc d)))) $$ Ho
  icases Ho' with ⟨Ho0, Ho1, Ho2, Ho3, Ho4, Ho5, Ho6, Ho7⟩
  isplitl [H0]; · iapply (Entails.of_eq (pts_c0 d L _).symm); iexact H0
  isplitl [H1]; · iapply (Entails.of_eq (pts_c1 d L _).symm); iexact H1
  isplitl [H2]; · iapply (Entails.of_eq (pts_c2 d L _).symm); iexact H2
  isplitl [H3]; · iapply (Entails.of_eq (pts_c3 d L _).symm); iexact H3
  isplitl [H4]; · iapply (Entails.of_eq (pts_c4 d L _).symm); iexact H4
  isplitl [H5]; · iapply (Entails.of_eq (pts_c5 d L _).symm); iexact H5
  isplitl [H6]; · iapply (Entails.of_eq (pts_c6 d L _).symm); iexact H6
  isplitl [H7]; · iapply (Entails.of_eq (pts_c7 d L _).symm); iexact H7
  isplitl [Ht]; · iexact Ht
  isplitl [Ho0]; · iapply (Entails.of_eq (pts_ou0 d L _).symm); iexact Ho0
  isplitl [Ho1]; · iapply (Entails.of_eq (pts_ou1 d L _).symm); iexact Ho1
  isplitl [Ho2]; · iapply (Entails.of_eq (pts_ou2 d L _).symm); iexact Ho2
  isplitl [Ho3]; · iapply (Entails.of_eq (pts_ou3 d L _).symm); iexact Ho3
  isplitl [Ho4]; · iapply (Entails.of_eq (pts_ou4 d L _).symm); iexact Ho4
  isplitl [Ho5]; · iapply (Entails.of_eq (pts_ou5 d L _).symm); iexact Ho5
  isplitl [Ho6]; · iapply (Entails.of_eq (pts_ou6 d L _).symm); iexact Ho6
  isplitl [Ho7]; · iapply (Entails.of_eq (pts_ou7 d L _).symm); iexact Ho7
  iexact Hsh

/-- What a task hands back is what the call brings back for it and its row of the shared scratch. -/
theorem tileTd_elim (qt : PosShare TreeShare) (TAB : Buf (Elt F) (tabLoc d)) :
    tileTd m d L qt TAB ⊢ iprop(tdB m d L qt TAB ∗ shTd (F := F) d L) := by
  unfold tileTd tdB shTd
  iintro ⟨H0, H1, H2, H3, H4, H5, H6, H7, Ht, Ho0, Ho1, Ho2, Ho3, Ho4, Ho5, Ho6, Ho7, Hs0, Hs1, Hs2, Hs3, Hs4, Hs5, Hs6, Hs7⟩
  isplitl [H0 H1 H2 H3 H4 H5 H6 H7 Ht Ho0 Ho1 Ho2 Ho3 Ho4 Ho5 Ho6 Ho7]
  · isplitl [H0]; · iapply (Entails.of_eq (pts_c0 d L _)); iexact H0
    isplitl [H1]; · iapply (Entails.of_eq (pts_c1 d L _)); iexact H1
    isplitl [H2]; · iapply (Entails.of_eq (pts_c2 d L _)); iexact H2
    isplitl [H3]; · iapply (Entails.of_eq (pts_c3 d L _)); iexact H3
    isplitl [H4]; · iapply (Entails.of_eq (pts_c4 d L _)); iexact H4
    isplitl [H5]; · iapply (Entails.of_eq (pts_c5 d L _)); iexact H5
    isplitl [H6]; · iapply (Entails.of_eq (pts_c6 d L _)); iexact H6
    isplitl [H7]; · iapply (Entails.of_eq (pts_c7 d L _)); iexact H7
    isplitl [Ht]; · iexact Ht
    iapply (Entails.of_eq (slab_split d L (OUTof TAB (cols m d))).symm)
    isplitl [Ho0]; · iapply (Entails.of_eq (pts_ou0 d L _)); iexact Ho0
    isplitl [Ho1]; · iapply (Entails.of_eq (pts_ou1 d L _)); iexact Ho1
    isplitl [Ho2]; · iapply (Entails.of_eq (pts_ou2 d L _)); iexact Ho2
    isplitl [Ho3]; · iapply (Entails.of_eq (pts_ou3 d L _)); iexact Ho3
    isplitl [Ho4]; · iapply (Entails.of_eq (pts_ou4 d L _)); iexact Ho4
    isplitl [Ho5]; · iapply (Entails.of_eq (pts_ou5 d L _)); iexact Ho5
    isplitl [Ho6]; · iapply (Entails.of_eq (pts_ou6 d L _)); iexact Ho6
    iapply (Entails.of_eq (pts_ou7 d L _)); iexact Ho7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  iexact Hs7

end Parts

/-! ## What the handshakes carry -/

/-- The one call: per SparseCore the sixteen tasks' operands; per task those and its row of the shared scratch. -/
def P : (K (F := F)).Pay (nD := nD) (Val := Elt F) (Name := ℕ) (U := UU) where
  st := fun q d c => match q with
    | 0 => bigSep Finset.univ fun i : Fin ((K (F := F)).nSub 0) => goB m d (coordsQ c i) (qtOf c.val i.val) (TABof m d)
  dn := fun q d c => match q with
    | 0 => bigSep Finset.univ fun i : Fin ((K (F := F)).nSub 0) => tdB m d (coordsQ c i) (qtOf c.val i.val) (TABof m d)
  go := fun q d c i => match q with
    | 0 => tileGo m d (coordsQ c i) (qtOf c.val i.val) (TABof m d)
  td := fun q d c i => match q with
    | 0 => tileTd m d (coordsQ c i) (qtOf c.val i.val) (TABof m d)
  x := fun _ _ => iprop(emp)

theorem P_st (d : Dev nD) (c : Fin ((K (F := F)).nCore 0)) :
    (P m).st 0 d c = bigSep Finset.univ fun i : Fin ((K (F := F)).nSub 0) => goB m d (coordsQ c i) (qtOf c.val i.val) (TABof m d) := rfl
theorem P_dn (d : Dev nD) (c : Fin ((K (F := F)).nCore 0)) :
    (P m).dn 0 d c = bigSep Finset.univ fun i : Fin ((K (F := F)).nSub 0) => tdB m d (coordsQ c i) (qtOf c.val i.val) (TABof m d) := rfl
theorem P_go (d : Dev nD) (c : Fin ((K (F := F)).nCore 0)) (i : Fin ((K (F := F)).nSub 0)) :
    (P m).go 0 d c i = tileGo m d (coordsQ c i) (qtOf c.val i.val) (TABof m d) := rfl
theorem P_td (d : Dev nD) (c : Fin ((K (F := F)).nCore 0)) (i : Fin ((K (F := F)).nSub 0)) :
    (P m).td 0 d c i = tileTd m d (coordsQ c i) (qtOf c.val i.val) (TABof m d) := rfl
theorem P_x (q : Fin 1) (thr : Thread nD τ) : (P (F := F) m).x q thr = iprop(emp) := rfl
theorem P_ox : (P (F := F) m).ox = fun _ _ => 0 := rfl

set_option synthInstance.maxHeartbeats 4000000 in
set_option synthInstance.maxSize 8192 in
set_option maxHeartbeats 8000000 in
instance P_storable : (P (F := F) m).IsStorable where
  st q d c := match q with
    | 0 => (show BI.Storable (upEmb : UEmb _ 𝕄)
        (bigSep Finset.univ fun i : Fin ((K (F := F)).nSub 0) => goB m d (coordsQ c i) (qtOf c.val i.val) (TABof m d)) from by
          unfold goB; infer_instance)
  dn q d c := match q with
    | 0 => (show BI.Storable (upEmb : UEmb _ 𝕄)
        (bigSep Finset.univ fun i : Fin ((K (F := F)).nSub 0) => tdB m d (coordsQ c i) (qtOf c.val i.val) (TABof m d)) from by
          unfold tdB; infer_instance)
  go q d c i := match q with
    | 0 => (show BI.Storable (upEmb : UEmb _ 𝕄) (tileGo m d (coordsQ c i) (qtOf c.val i.val) (TABof m d)) from by
          unfold tileGo; infer_instance)
  td q d c i := match q with
    | 0 => (show BI.Storable (upEmb : UEmb _ 𝕄) (tileTd m d (coordsQ c i) (qtOf c.val i.val) (TABof m d)) from by
          unfold tileTd; infer_instance)

/-! ## The task's proof, as the launch theorem takes it -/

theorem defs₀_vector (c : Fin τ.nSC) (s : Fin τ.nSub) :
    defs₀ (F := F) (.scVector c s) 0 ()
      = SparseCore.onTile hcore0 hsub0 (fun c s => cc0__body (coordsV c s)
          a0W (Memref.isWhole_whole _) a1W (Memref.isWhole_whole _) a2W (Memref.isWhole_whole _) a3W (Memref.isWhole_whole _)
          a4W (Memref.isWhole_whole _) a5W (Memref.isWhole_whole _) a6W (Memref.isWhole_whole _) a7W (Memref.isWhole_whole _)
          tbW (Memref.isWhole_whole _) ouW (Memref.isWhole_whole _) tvW (Memref.isWhole_whole _) shW (Memref.isWhole_whole _)
          saW (Memref.isWhole_whole _) sbW (Memref.isWhole_whole _) baW (Memref.isWhole_whole _) bbW (Memref.isWhole_whole _)
          cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBodyStmt m) (hpre : PreOK m) : (K (F := F)).TileObl (D (F := F)) 𝒱 (P m) v₀ 0 := by
  intro d c i O W hO _ _
  -- this kernel owes nothing for a protocol of its own
  simp only [P_ox, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody hpre d (coordsV ⟨_, hc.1⟩ ⟨_, hc.2⟩) O W hO (qtOf c.val i.val) (TABof m d)).trans (wp_mono frame _ _ fun _ => obl_post)

end Cert.Proof.KB

end
-- ==== Proof.KB.LaunchSplit.lean ====
/-
  How a SparseCore's operands split among its sixteen tasks: the call's part is already per task; the sequencer adds,
  from its own shared scratch (16 rows of 4096 words), row i for task i as eight pieces of 512 words, and gets the
  scratch back whole from the pieces the tasks return.
-/
import proofs.«204821_g30846455120635_fold_wed_m_1292_33_alg».proof.Proof.KB.LaunchPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)

variable [FloatOps F]

/-- SparseCore `c`'s shared scratch, as every task of it addresses it. -/
abbrev shRef (c : Fin τ.nSC) : DevRef τ sig := ⟨.shared, ⟨0, by decide⟩, c⟩
abbrev shLoc (d : Dev nD) (c : Fin τ.nSC) : Loc nD τ sig := (d, shRef c)

/-- One piece of it, at contents `f`. -/
abbrev pcPts (d : Dev nD) (c : Fin τ.nSC) (p : Pc) (f : Buf (Elt F) (shLoc d c)) : sProp 𝕄 := shLoc d c ↦[pieceSet p]{fullShare} f

omit [FloatOps F] in
/-- The shared scratch is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The scratch whole is its 16 x 8 pieces. -/
theorem shPts_pieces (d : Dev nD) (c : Fin τ.nSC) (f : Buf (Elt F) (shLoc d c)) :
    (shLoc d c ↦{fullShare} f : sProp 𝕄) = bigSep Finset.univ fun p : Pc => pcPts d c p f := by
  unfold pcPts
  rw [← pointsTo_biUnion Finset.univ (ℓ := shLoc d c) pieceSet pieces_disjoint, pieces_cover]

section Rows
variable (d : Dev nD) (L : grid0.Coords)

/-- The row of the shared scratch a task is handed: its subcore's number. -/
abbrev rowOf (L : grid0.Coords) : Fin 16 := ⟨(L 1).val, L1_lt L⟩

omit [FloatOps F] in
/-- The eight pieces of a task's row at one contents are what the sequencer hands it. -/
theorem row_split (f : Buf (Elt F) (shLoc d (cV L))) :
    (bigSep Finset.univ fun j : Fin 8 => pcPts (F := F) d (cV L) (rowOf L, j) f) ⊢ shGo (F := F) d L := by
  rw [bigSep_fin8]
  unfold shGo
  rw [set_sh0P, set_sh1P, set_sh2P, set_sh3P, set_sh4P, set_sh5P, set_sh6P, set_sh7P]
  iintro ⟨H0, H1, H2, H3, H4, H5, H6, H7⟩
  iexists f
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit [FloatOps F] in
/-- What a task hands back of its row is the eight pieces, each at some contents. -/
theorem row_join :
    shTd (F := F) d L ⊢ bigSep Finset.univ fun j : Fin 8 => iprop(∃ f, pcPts (F := F) d (cV L) (rowOf L, j) f) := by
  rw [bigSep_fin8]
  unfold shTd
  rw [set_sh0P, set_sh1P, set_sh2P, set_sh3P, set_sh4P, set_sh5P, set_sh6P, set_sh7P]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  isplitl [H6]; · iexists f6; iexact H6
  iexists f7; iexact H7

end Rows

omit [FloatOps F] in
/-- The scratch whole at `f` gives each task its row. -/
theorem sh_rows_split (d : Dev nD) (c : Fin ((K (F := F)).nCore 0)) (f : Buf (Elt F) (shLoc d ((K (F := F)).core 0 c))) :
    (shLoc d ((K (F := F)).core 0 c) ↦{fullShare} f : sProp 𝕄)
      ⊢ bigSep Finset.univ fun i : Fin ((K (F := F)).nSub 0) => shGo (F := F) d (coordsQ c i) := by
  rw [shPts_pieces, bigSep_univ_prod]
  exact bigSep_mono fun i _ => row_split d (coordsQ c i) f

/-- The rows the tasks hand back are the scratch whole, at some contents. -/
theorem sh_rows_join (d : Dev nD) (c : Fin ((K (F := F)).nCore 0)) :
    (bigSep Finset.univ fun i : Fin ((K (F := F)).nSub 0) => shTd (F := F) d (coordsQ c i))
      ⊢ (iprop(∃ f, shLoc d ((K (F := F)).core 0 c) ↦{fullShare} f) : sProp 𝕄) := by
  refine (bigSep_mono (Ψ := fun i : Fin 16 => bigSep Finset.univ fun j : Fin 8 => iprop(∃ f, pcPts (F := F) d ((K (F := F)).core 0 c) (i, j) f))
    fun i _ => row_join d (coordsQ c i)).trans ?_
  refine (Entails.of_eq (bigSep_univ_prod (fun p : Pc => iprop(∃ f, pcPts (F := F) d ((K (F := F)).core 0 c) p f))).symm).trans ?_
  refine (bigSep_exists_pi Finset.univ (fun (p : Pc) (f : Buf (Elt F) (shLoc d ((K (F := F)).core 0 c))) => pcPts d ((K (F := F)).core 0 c) p f)).trans ?_
  iintro ⟨%fs, H⟩
  ihave H' := (pointsTo_biUnion_join (ℓ := shLoc d ((K (F := F)).core 0 c)) Finset.univ pieceSet fs (fs (0, 0)) pieces_disjoint) $$ H
  icases H' with ⟨%g, -, Hg⟩
  rw [pieces_cover]
  iexists g; iexact Hg

/-- The call's part and the rows are what the tasks are handed; -/
theorem gos_intro (d : Dev nD) (c : Fin ((K (F := F)).nCore 0)) :
    iprop((bigSep Finset.univ fun i : Fin ((K (F := F)).nSub 0) => goB m d (coordsQ c i) (qtOf c.val i.val) (TABof m d))
        ∗ (bigSep Finset.univ fun i : Fin ((K (F := F)).nSub 0) => shGo (F := F) d (coordsQ c i)))
      ⊢ bigSep Finset.univ fun i : Fin ((K (F := F)).nSub 0) => (P m).go 0 d c i := by
  rw [← bigSep_sep']
  exact bigSep_mono fun i _ => tileGo_intro m d (coordsQ c i) _ _

/-- what they hand back is the call's part and the rows. -/
theorem tds_elim (d : Dev nD) (c : Fin ((K (F := F)).nCore 0)) :
    (bigSep Finset.univ fun i : Fin ((K (F := F)).nSub 0) => (P m).td 0 d c i)
      ⊢ iprop((bigSep Finset.univ fun i : Fin ((K (F := F)).nSub 0) => tdB m d (coordsQ c i) (qtOf c.val i.val) (TABof m d))
        ∗ (bigSep Finset.univ fun i : Fin ((K (F := F)).nSub 0) => shTd (F := F) d (coordsQ c i))) := by
  rw [← bigSep_sep']
  exact bigSep_mono fun i _ => tileTd_elim m d (coordsQ c i) _ _

/-- The split of the call's operands for a SparseCore among its tasks, over the sequencer's own buffers. -/
theorem vecSplit : (K (F := F)).VecSplit (P m) 0 := by
  intro d c
  rw [P_st, P_dn, ownBufs_S]
  iintro ⟨Hst, ⟨%fsh, Hsh⟩, Hrest⟩; imodintro
  isplitl [Hst Hsh]
  · iapply (gos_intro m d c)
    isplitl [Hst]; · iexact Hst
    iapply (sh_rows_split d c fsh); iexact Hsh
  iintro Htd
  ihave Htd' := (tds_elim m d c) $$ Htd
  icases Htd' with ⟨Hdn, Hsh⟩
  isplitl [Hdn]; · iexact Hdn
  isplitl [Hsh]; · iapply (sh_rows_join d c); iexact Hsh
  iexact Hrest

end Cert.Proof.KB

end
-- ==== Proof.KB.LaunchHost.lean ====
/-
  The host side of the lookup kernel's program, as operations on the TensorCore's buffers: the three operations as
  @main spells them, what each leaves in the buffers the proof follows, and the buffers as separate points-to.
-/
import proofs.«204821_g30846455120635_fold_wed_m_1292_33_alg».proof.Proof.KB.Pay
import proofs.«204821_g30846455120635_fold_wed_m_1292_33_alg».proof.Proof.KB.HostVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ) (ρ : Dev nD → PrngReg)

variable [FloatOps F]

open Idealize.ShloMosaic.StableHlo (held wp_hlo_within)

/-! ## The host operations -/

abbrev c0R : DevRef τ sig := Proc.devRef .tc (main_arg0 : Ref sig .tc)
abbrev c1R : DevRef τ sig := Proc.devRef .tc (main_arg1 : Ref sig .tc)
abbrev c2R : DevRef τ sig := Proc.devRef .tc (main_arg2 : Ref sig .tc)
abbrev c3R : DevRef τ sig := Proc.devRef .tc (main_arg3 : Ref sig .tc)
abbrev c4R : DevRef τ sig := Proc.devRef .tc (main_arg4 : Ref sig .tc)
abbrev c5R : DevRef τ sig := Proc.devRef .tc (main_arg5 : Ref sig .tc)
abbrev c6R : DevRef τ sig := Proc.devRef .tc (main_arg6 : Ref sig .tc)
abbrev c7R : DevRef τ sig := Proc.devRef .tc (main_arg7 : Ref sig .tc)
abbrev w0R : DevRef τ sig := Proc.devRef .tc (main_arg8 : Ref sig .tc)
abbrev w1R : DevRef τ sig := Proc.devRef .tc (main_arg9 : Ref sig .tc)
abbrev w2R : DevRef τ sig := Proc.devRef .tc (main_arg10 : Ref sig .tc)
abbrev w3R : DevRef τ sig := Proc.devRef .tc (main_arg11 : Ref sig .tc)
abbrev w4R : DevRef τ sig := Proc.devRef .tc (main_arg12 : Ref sig .tc)
abbrev w5R : DevRef τ sig := Proc.devRef .tc (main_arg13 : Ref sig .tc)
abbrev w6R : DevRef τ sig := Proc.devRef .tc (main_arg14 : Ref sig .tc)
abbrev w7R : DevRef τ sig := Proc.devRef .tc (main_arg15 : Ref sig .tc)
abbrev v0R : DevRef τ sig := Proc.devRef .tc (main_v0 : Ref sig .tc)
abbrev v1R : DevRef τ sig := Proc.devRef .tc (main_v1 : Ref sig .tc)
abbrev v2R : DevRef τ sig := Proc.devRef .tc (main_v2 : Ref sig .tc)
abbrev v3R : DevRef τ sig := Proc.devRef .tc (main_v3 : Ref sig .tc)

/-- The three host operations, as @main spells them. -/
abbrev op1 : HloOp τ sig (Elt F) :=
  StableHlo.nary ![main_arg8, main_arg9, main_arg10, main_arg11, main_arg12, main_arg13, main_arg14, main_arg15] main_v0
    (fun u => concatenate S256x32 0 [⟨S32x32, u 0⟩, ⟨S32x32, u 1⟩, ⟨S32x32, u 2⟩, ⟨S32x32, u 3⟩, ⟨S32x32, u 4⟩, ⟨S32x32, u 5⟩, ⟨S32x32, u 6⟩, ⟨S32x32, u 7⟩]
      concatenates_S32x32_S32x32_S32x32_S32x32_S32x32_S32x32_S32x32_S32x32_S256x32_d0)
abbrev op2 : HloOp τ sig (Elt F) := StableHlo.reshape main_v0 main_v1 rfl shapeCasts_S256x32_S8192
abbrev op3 : HloOp τ sig (Elt F) := StableHlo.reshape main_v2 main_v3 rfl shapeCasts_S4194304_S16384x256

/-- The launch valuation; after the two operations before the call; after the call; the claim's. -/
abbrev V0 (d : Dev nD) : Valuation τ sig (Elt F) := fun b => m (d, b)
abbrev V2 (d : Dev nD) : Valuation τ sig (Elt F) := (op2 (F := F)).result ((op1 (F := F)).result (V0 m d))
abbrev V3 (d : Dev nD) : Valuation τ sig (Elt F) := Function.update (V0 m d) v2R (OUTof (TABof m d) (cols m d))
def VF (d : Dev nD) : Valuation τ sig (Elt F) := Function.update (V0 m d) v3R (RESof m d)

/-- The stacked tables, the flat table and the eight tables; the flat result and the result; what the claim reads. -/
abbrev SA : Finset (DevRef τ sig) := {v0R, v1R, w0R, w1R, w2R, w3R, w4R, w5R, w6R, w7R}
abbrev SB : Finset (DevRef τ sig) := {v2R, v3R}
abbrev SF : Finset (DevRef τ sig) := {c0R, c1R, c2R, c3R, c4R, c5R, c6R, c7R, w0R, w1R, w2R, w3R, w4R, w5R, w6R, w7R, v3R}

omit [FloatOps F] in
theorem heldA (d : Dev nD) (W : Valuation τ sig (Elt F)) :
    (held (T d) SA W : sProp 𝕄) = iprop((catLoc d ↦{fullShare} W v0R)
      ∗ (tabLoc d ↦{fullShare} W v1R)
      ∗ (w0Loc d ↦{fullShare} W w0R)
      ∗ (w1Loc d ↦{fullShare} W w1R)
      ∗ (w2Loc d ↦{fullShare} W w2R)
      ∗ (w3Loc d ↦{fullShare} W w3R)
      ∗ (w4Loc d ↦{fullShare} W w4R)
      ∗ (w5Loc d ↦{fullShare} W w5R)
      ∗ (w6Loc d ↦{fullShare} W w6R)
      ∗ (w7Loc d ↦{fullShare} W w7R)) := by
  unfold held SA
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem heldB (d : Dev nD) (W : Valuation τ sig (Elt F)) :
    (held (T d) SB W : sProp 𝕄) = iprop((outLoc d ↦{fullShare} W v2R) ∗ (resLoc d ↦{fullShare} W v3R)) := by
  unfold held SB
  rw [SparseCore.bigSep_insert' (by decide), bigSep_singleton]
omit [FloatOps F] in
theorem heldF (d : Dev nD) (W : Valuation τ sig (Elt F)) :
    (held (T d) SF W : sProp 𝕄) = iprop((c0Loc d ↦{fullShare} W c0R)
      ∗ (c1Loc d ↦{fullShare} W c1R)
      ∗ (c2Loc d ↦{fullShare} W c2R)
      ∗ (c3Loc d ↦{fullShare} W c3R)
      ∗ (c4Loc d ↦{fullShare} W c4R)
      ∗ (c5Loc d ↦{fullShare} W c5R)
      ∗ (c6Loc d ↦{fullShare} W c6R)
      ∗ (c7Loc d ↦{fullShare} W c7R)
      ∗ (w0Loc d ↦{fullShare} W w0R)
      ∗ (w1Loc d ↦{fullShare} W w1R)
      ∗ (w2Loc d ↦{fullShare} W w2R)
      ∗ (w3Loc d ↦{fullShare} W w3R)
      ∗ (w4Loc d ↦{fullShare} W w4R)
      ∗ (w5Loc d ↦{fullShare} W w5R)
      ∗ (w6Loc d ↦{fullShare} W w6R)
      ∗ (w7Loc d ↦{fullShare} W w7R)
      ∗ (resLoc d ↦{fullShare} W v3R)) := by
  unfold held SF
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

set_option maxRecDepth 16384 in
omit [FloatOps F] in
theorem unscopedBufs_eq (d : Dev nD) (W : (b : Ref sig .tc) → Buf (Elt F) ((d.tc : Thread nD τ).loc b)) :
    (unscopedBufs d W : sProp 𝕄) = iprop((c0Loc d ↦{fullShare} W main_arg0)
      ∗ (c1Loc d ↦{fullShare} W main_arg1)
      ∗ (c2Loc d ↦{fullShare} W main_arg2)
      ∗ (c3Loc d ↦{fullShare} W main_arg3)
      ∗ (c4Loc d ↦{fullShare} W main_arg4)
      ∗ (c5Loc d ↦{fullShare} W main_arg5)
      ∗ (c6Loc d ↦{fullShare} W main_arg6)
      ∗ (c7Loc d ↦{fullShare} W main_arg7)
      ∗ (w0Loc d ↦{fullShare} W main_arg8)
      ∗ (w1Loc d ↦{fullShare} W main_arg9)
      ∗ (w2Loc d ↦{fullShare} W main_arg10)
      ∗ (w3Loc d ↦{fullShare} W main_arg11)
      ∗ (w4Loc d ↦{fullShare} W main_arg12)
      ∗ (w5Loc d ↦{fullShare} W main_arg13)
      ∗ (w6Loc d ↦{fullShare} W main_arg14)
      ∗ (w7Loc d ↦{fullShare} W main_arg15)
      ∗ (catLoc d ↦{fullShare} W main_v0)
      ∗ (tabLoc d ↦{fullShare} W main_v1)
      ∗ (outLoc d ↦{fullShare} W main_v2)
      ∗ (resLoc d ↦{fullShare} W main_v3)) := by
  unfold unscopedBufs
  rw [show (Finset.univ.filter fun b : Ref sig .tc => ¬ b.isScoped) = {main_arg0, main_arg1, main_arg2, main_arg3, main_arg4, main_arg5, main_arg6, main_arg7, main_arg8, main_arg9, main_arg10, main_arg11, main_arg12, main_arg13, main_arg14, main_arg15, main_v0, main_v1, main_v2, main_v3} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem hop1 : (op1 (F := F)).bufs ⊆ SA :=
  show (insert v0R (Finset.univ.image fun k : Fin 8 => (Proc.devRef .tc ((![main_arg8, main_arg9, main_arg10, main_arg11, main_arg12, main_arg13, main_arg14, main_arg15] : Fin 8 → Ref sig .tc) k) : DevRef τ sig))
    : Finset (DevRef τ sig)) ⊆ SA by decide
theorem hop2 : (op2 (F := F)).bufs ⊆ SA := show ({v0R, v1R} : Finset (DevRef τ sig)) ⊆ SA by decide
theorem hop3 : (op3 (F := F)).bufs ⊆ SB := show ({v2R, v3R} : Finset (DevRef τ sig)) ⊆ SB by decide

/-- A buffer the two operations do not write holds what it held at launch. -/
theorem V2_ne (d : Dev nD) (b : DevRef τ sig) (h0 : b ≠ v0R) (h1 : b ≠ v1R) : V2 m d b = V0 m d b := by
  show (op2 (F := F)).result ((op1 (F := F)).result (V0 m d)) b = V0 m d b
  rw [HloOp.result_of_not_mem _ _ (show b ∉ (op2 (F := F)).writes from fun h => h1 (Finset.mem_singleton.mp h)),
    HloOp.result_of_not_mem _ _ (show b ∉ (op1 (F := F)).writes from fun h => h0 (Finset.mem_singleton.mp h))]

/-- The flat table after them is the eight tables stacked and flattened. -/
theorem V2_v1 (d : Dev nD) : V2 m d v1R = TABof m d := by
  show (op2 (F := F)).result ((op1 (F := F)).result (V0 m d)) v1R = TABof m d
  rw [StableHlo.reshape_result, StableHlo.nary_result]
  rfl

theorem heldA_V2 (d : Dev nD) :
    (held (T d) SA (V2 m d) : sProp 𝕄) = iprop((catLoc d ↦{fullShare} V2 m d v0R) ∗ (tabLoc d ↦{fullShare} TABof m d)
      ∗ (w0Loc d ↦{fullShare} m (w0Loc d))
      ∗ (w1Loc d ↦{fullShare} m (w1Loc d))
      ∗ (w2Loc d ↦{fullShare} m (w2Loc d))
      ∗ (w3Loc d ↦{fullShare} m (w3Loc d))
      ∗ (w4Loc d ↦{fullShare} m (w4Loc d))
      ∗ (w5Loc d ↦{fullShare} m (w5Loc d))
      ∗ (w6Loc d ↦{fullShare} m (w6Loc d))
      ∗ (w7Loc d ↦{fullShare} m (w7Loc d))) := by
  rw [heldA, V2_v1, V2_ne m d w0R (by decide) (by decide), V2_ne m d w1R (by decide) (by decide), V2_ne m d w2R (by decide) (by decide), V2_ne m d w3R (by decide) (by decide), V2_ne m d w4R (by decide) (by decide), V2_ne m d w5R (by decide) (by decide), V2_ne m d w6R (by decide) (by decide), V2_ne m d w7R (by decide) (by decide)]

theorem heldB_V3 (d : Dev nD) :
    (held (T d) SB (V3 m d) : sProp 𝕄) = iprop((outLoc d ↦{fullShare} OUTof (TABof m d) (cols m d)) ∗ (resLoc d ↦{fullShare} m (resLoc d))) := by
  rw [heldB, show V3 m d v2R = OUTof (TABof m d) (cols m d) from Function.update_self _ _ _,
    show V3 m d v3R = m (resLoc d) from Function.update_of_ne (show v3R ≠ v2R by decide) _ _]

/-- The result after the last operation is the flat result folded. -/
theorem V4_v3 (d : Dev nD) : (op3 (F := F)).result (V3 m d) v3R = RESof m d := by
  rw [StableHlo.reshape_result, show V3 m d v2R = OUTof (TABof m d) (cols m d) from Function.update_self _ _ _]
  rfl

theorem heldB_V4 (d : Dev nD) :
    (held (T d) SB ((op3 (F := F)).result (V3 m d)) : sProp 𝕄)
      = iprop((outLoc d ↦{fullShare} (op3 (F := F)).result (V3 m d) v2R) ∗ (resLoc d ↦{fullShare} RESof m d)) := by
  rw [heldB, V4_v3]

theorem VF_v3 (d : Dev nD) : VF m d v3R = RESof m d := Function.update_self _ _ _
theorem VF_c0 (d : Dev nD) : VF m d c0R = m (c0Loc d) := Function.update_of_ne (show c0R ≠ v3R by decide) _ _
theorem VF_c1 (d : Dev nD) : VF m d c1R = m (c1Loc d) := Function.update_of_ne (show c1R ≠ v3R by decide) _ _
theorem VF_c2 (d : Dev nD) : VF m d c2R = m (c2Loc d) := Function.update_of_ne (show c2R ≠ v3R by decide) _ _
theorem VF_c3 (d : Dev nD) : VF m d c3R = m (c3Loc d) := Function.update_of_ne (show c3R ≠ v3R by decide) _ _
theorem VF_c4 (d : Dev nD) : VF m d c4R = m (c4Loc d) := Function.update_of_ne (show c4R ≠ v3R by decide) _ _
theorem VF_c5 (d : Dev nD) : VF m d c5R = m (c5Loc d) := Function.update_of_ne (show c5R ≠ v3R by decide) _ _
theorem VF_c6 (d : Dev nD) : VF m d c6R = m (c6Loc d) := Function.update_of_ne (show c6R ≠ v3R by decide) _ _
theorem VF_c7 (d : Dev nD) : VF m d c7R = m (c7Loc d) := Function.update_of_ne (show c7R ≠ v3R by decide) _ _
theorem VF_w0 (d : Dev nD) : VF m d w0R = m (w0Loc d) := Function.update_of_ne (show w0R ≠ v3R by decide) _ _
theorem VF_w1 (d : Dev nD) : VF m d w1R = m (w1Loc d) := Function.update_of_ne (show w1R ≠ v3R by decide) _ _
theorem VF_w2 (d : Dev nD) : VF m d w2R = m (w2Loc d) := Function.update_of_ne (show w2R ≠ v3R by decide) _ _
theorem VF_w3 (d : Dev nD) : VF m d w3R = m (w3Loc d) := Function.update_of_ne (show w3R ≠ v3R by decide) _ _
theorem VF_w4 (d : Dev nD) : VF m d w4R = m (w4Loc d) := Function.update_of_ne (show w4R ≠ v3R by decide) _ _
theorem VF_w5 (d : Dev nD) : VF m d w5R = m (w5Loc d) := Function.update_of_ne (show w5R ≠ v3R by decide) _ _
theorem VF_w6 (d : Dev nD) : VF m d w6R = m (w6Loc d) := Function.update_of_ne (show w6R ≠ v3R by decide) _ _
theorem VF_w7 (d : Dev nD) : VF m d w7R = m (w7Loc d) := Function.update_of_ne (show w7R ≠ v3R by decide) _ _

theorem heldF_VF (d : Dev nD) :
    (held (T d) SF (VF m d) : sProp 𝕄) = iprop((c0Loc d ↦{fullShare} m (c0Loc d))
      ∗ (c1Loc d ↦{fullShare} m (c1Loc d))
      ∗ (c2Loc d ↦{fullShare} m (c2Loc d))
      ∗ (c3Loc d ↦{fullShare} m (c3Loc d))
      ∗ (c4Loc d ↦{fullShare} m (c4Loc d))
      ∗ (c5Loc d ↦{fullShare} m (c5Loc d))
      ∗ (c6Loc d ↦{fullShare} m (c6Loc d))
      ∗ (c7Loc d ↦{fullShare} m (c7Loc d))
      ∗ (w0Loc d ↦{fullShare} m (w0Loc d))
      ∗ (w1Loc d ↦{fullShare} m (w1Loc d))
      ∗ (w2Loc d ↦{fullShare} m (w2Loc d))
      ∗ (w3Loc d ↦{fullShare} m (w3Loc d))
      ∗ (w4Loc d ↦{fullShare} m (w4Loc d))
      ∗ (w5Loc d ↦{fullShare} m (w5Loc d))
      ∗ (w6Loc d ↦{fullShare} m (w6Loc d))
      ∗ (w7Loc d ↦{fullShare} m (w7Loc d))
      ∗ (resLoc d ↦{fullShare} RESof m d)) := by
  rw [heldF, VF_c0, VF_c1, VF_c2, VF_c3, VF_c4, VF_c5, VF_c6, VF_c7, VF_w0, VF_w1, VF_w2, VF_w3, VF_w4, VF_w5, VF_w6, VF_w7, VF_v3]

end Cert.Proof.KB

end
-- ==== Proof.KB.LaunchMain.lean ====
/-
  The lookup kernel's program on the TensorCore: the host stacks and flattens the eight tables, calls the kernel on
  the two SparseCores, and folds the flat result into rows of 256.

  The call takes the eight index columns, the flat table and the flat result whole and deals them to the thirty-two
  tasks: a column as its thirty-two runs of 512 words, the result as its thirty-two slabs, the table as read shares.
  The columns come back as they were and the result at what the lookup gives.
-/
import proofs.«204821_g30846455120635_fold_wed_m_1292_33_alg».proof.Proof.KB.LaunchPay
import proofs.«204821_g30846455120635_fold_wed_m_1292_33_alg».proof.Proof.KB.LaunchHost

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ) (ρ : Dev nD → PrngReg)

variable [FloatOps F]

open Idealize.ShloMosaic.Transfers (shareTokN shareDrop shareTok)
open Idealize.ShloMosaic.StableHlo (held wp_hlo_within)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The call's operands, whole and dealt -/

/-- What the call takes of device `d`: the index columns, the flat table, the flat result, whole. -/
def callGo (d : Dev nD) : sProp 𝕄 :=
  iprop((c0Loc d ↦{fullShare} m (c0Loc d))
      ∗ (c1Loc d ↦{fullShare} m (c1Loc d))
      ∗ (c2Loc d ↦{fullShare} m (c2Loc d))
      ∗ (c3Loc d ↦{fullShare} m (c3Loc d))
      ∗ (c4Loc d ↦{fullShare} m (c4Loc d))
      ∗ (c5Loc d ↦{fullShare} m (c5Loc d))
      ∗ (c6Loc d ↦{fullShare} m (c6Loc d))
      ∗ (c7Loc d ↦{fullShare} m (c7Loc d))
      ∗ (tabLoc d ↦{fullShare} TABof m d)
      ∗ (outLoc d ↦{fullShare} m (outLoc d)))

/-- What it brings back: the columns, and the flat result at what the lookup gives. -/
def callTd (d : Dev nD) : sProp 𝕄 :=
  iprop((c0Loc d ↦{fullShare} m (c0Loc d))
      ∗ (c1Loc d ↦{fullShare} m (c1Loc d))
      ∗ (c2Loc d ↦{fullShare} m (c2Loc d))
      ∗ (c3Loc d ↦{fullShare} m (c3Loc d))
      ∗ (c4Loc d ↦{fullShare} m (c4Loc d))
      ∗ (c5Loc d ↦{fullShare} m (c5Loc d))
      ∗ (c6Loc d ↦{fullShare} m (c6Loc d))
      ∗ (c7Loc d ↦{fullShare} m (c7Loc d))
      ∗ (outLoc d ↦{fullShare} OUTof (TABof m d) (cols m d)))

omit [FloatOps F] in
/-- The table whole gives every task its read share. -/
theorem tab_split (d : Dev nD) (TAB : Buf (Elt F) (tabLoc d)) :
    (tabLoc d ↦{fullShare} TAB : sProp 𝕄) ⊢ bigSep Finset.univ fun p : Tsk => tabLoc d ↦{qtOf p.1.val p.2.val} TAB := by
  rw [bigSep_univ_prod]
  refine (Transfers.pointsTo_toks_split fullShare 2).trans (sep_elim_right.trans (bigSep_mono fun c _ => ?_))
  exact (Transfers.pointsTo_toks_split (shareTokN fullShare c.val) 16).trans sep_elim_right

theorem st_plain (d : Dev nD) :
    callGo m d ⊢ bigSep Finset.univ fun p : Tsk => goB m d (LT p) (qtOf p.1.val p.2.val) (TABof m d) := by
  unfold callGo goB
  simp only [bigSep_sep']
  rw [← pointsTo_biUnion Finset.univ (ℓ := c0Loc d) (fun p : Tsk => colSet (LT p)) cols_disjoint,
    ← pointsTo_biUnion Finset.univ (ℓ := c1Loc d) (fun p : Tsk => colSet (LT p)) cols_disjoint,
    ← pointsTo_biUnion Finset.univ (ℓ := c2Loc d) (fun p : Tsk => colSet (LT p)) cols_disjoint,
    ← pointsTo_biUnion Finset.univ (ℓ := c3Loc d) (fun p : Tsk => colSet (LT p)) cols_disjoint,
    ← pointsTo_biUnion Finset.univ (ℓ := c4Loc d) (fun p : Tsk => colSet (LT p)) cols_disjoint,
    ← pointsTo_biUnion Finset.univ (ℓ := c5Loc d) (fun p : Tsk => colSet (LT p)) cols_disjoint,
    ← pointsTo_biUnion Finset.univ (ℓ := c6Loc d) (fun p : Tsk => colSet (LT p)) cols_disjoint,
    ← pointsTo_biUnion Finset.univ (ℓ := c7Loc d) (fun p : Tsk => colSet (LT p)) cols_disjoint,
    ← pointsTo_biUnion Finset.univ (ℓ := outLoc d) (fun p : Tsk => slabSet (LT p)) slabs_disjoint, cols_cover, slabs_cover]
  iintro ⟨H0, H1, H2, H3, H4, H5, H6, H7, Ht, Ho⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ht]; · iapply (tab_split d (TABof m d)); iexact Ht
  iexact Ho

theorem dn_plain (d : Dev nD) :
    (bigSep Finset.univ fun p : Tsk => tdB m d (LT p) (qtOf p.1.val p.2.val) (TABof m d)) ⊢ callTd m d := by
  unfold callTd tdB
  simp only [bigSep_sep']
  rw [← pointsTo_biUnion Finset.univ (ℓ := c0Loc d) (fun p : Tsk => colSet (LT p)) cols_disjoint,
    ← pointsTo_biUnion Finset.univ (ℓ := c1Loc d) (fun p : Tsk => colSet (LT p)) cols_disjoint,
    ← pointsTo_biUnion Finset.univ (ℓ := c2Loc d) (fun p : Tsk => colSet (LT p)) cols_disjoint,
    ← pointsTo_biUnion Finset.univ (ℓ := c3Loc d) (fun p : Tsk => colSet (LT p)) cols_disjoint,
    ← pointsTo_biUnion Finset.univ (ℓ := c4Loc d) (fun p : Tsk => colSet (LT p)) cols_disjoint,
    ← pointsTo_biUnion Finset.univ (ℓ := c5Loc d) (fun p : Tsk => colSet (LT p)) cols_disjoint,
    ← pointsTo_biUnion Finset.univ (ℓ := c6Loc d) (fun p : Tsk => colSet (LT p)) cols_disjoint,
    ← pointsTo_biUnion Finset.univ (ℓ := c7Loc d) (fun p : Tsk => colSet (LT p)) cols_disjoint,
    ← pointsTo_biUnion Finset.univ (ℓ := outLoc d) (fun p : Tsk => slabSet (LT p)) slabs_disjoint, cols_cover, slabs_cover]
  iintro ⟨H0, H1, H2, H3, H4, H5, H6, H7, -, Ho⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Ho

theorem st_eq (d : Dev nD) :
    (bigSep Finset.univ fun c : Fin ((K (F := F)).nCore 0) => (P m).st 0 d c)
      = bigSep Finset.univ fun p : Tsk => goB m d (LT p) (qtOf p.1.val p.2.val) (TABof m d) :=
  (bigSep_univ_prod (fun p : Tsk => goB m d (LT p) (qtOf p.1.val p.2.val) (TABof m d))).symm
theorem dn_eq (d : Dev nD) :
    (bigSep Finset.univ fun c : Fin ((K (F := F)).nCore 0) => (P m).dn 0 d c)
      = bigSep Finset.univ fun p : Tsk => tdB m d (LT p) (qtOf p.1.val p.2.val) (TABof m d) :=
  (bigSep_univ_prod (fun p : Tsk => tdB m d (LT p) (qtOf p.1.val p.2.val) (TABof m d))).symm

theorem st_intro (d : Dev nD) : callGo m d ⊢ bigSep Finset.univ fun c : Fin ((K (F := F)).nCore 0) => (P m).st 0 d c :=
  (st_plain m d).trans (Entails.of_eq (st_eq m d).symm)
theorem dn_elim (d : Dev nD) : (bigSep Finset.univ fun c : Fin ((K (F := F)).nCore 0) => (P m).dn 0 d c) ⊢ callTd m d :=
  (Entails.of_eq (dn_eq m d)).trans (dn_plain m d)

/-! ## @main on the TensorCore -/

/-- What @main leaves the claim: the arguments at their launch contents, the result at the lookup's. -/
abbrev FIN (d : Dev nD) : sProp 𝕄 := held (T d) SF (VF m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hc0, Hc1, Hc2, Hc3, Hc4, Hc5, Hc6, Hc7, Hw0, Hw1, Hw2, Hw3, Hw4, Hw5, Hw6, Hw7, Hv0, Hv1, Hv2, Hv3⟩, -, -⟩, -⟩
  -- the eight tables stacked
  iapply (wp_hlo_within 𝒱 (SparseCore.T d) none Set.univ (op := op1) (S := SA) hop1 (V := V0 m d)) $$ [Hb Hv0 Hv1 Hw0 Hw1 Hw2 Hw3 Hw4 Hw5 Hw6 Hw7]
  · isplitl [Hb]; · iexact Hb
    rw [heldA]
    isplitl [Hv0]; · iexact Hv0
    isplitl [Hv1]; · iexact Hv1
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  iintro ⟨Hb, Hheld⟩
  rw [wp_ret]; imodintro
  -- and flattened
  iapply (wp_hlo_within 𝒱 (SparseCore.T d) none Set.univ (op := op2) (S := SA) hop2 (V := (op1 (F := F)).result (V0 m d))) $$ [Hb Hheld]
  · isplitl [Hb]; · iexact Hb
    iexact Hheld
  iintro ⟨Hb, Hheld⟩
  rw [wp_ret]; imodintro
  ihave Hh := (Entails.of_eq (heldA_V2 m d)) $$ Hheld
  icases Hh with ⟨-, Ht, Hw0, Hw1, Hw2, Hw3, Hw4, Hw5, Hw6, Hw7⟩
  -- the call: the columns, the flat table and the flat result to the two SparseCores and back
  iapply ((K (F := F)).wp_run (D (F := F)) 𝒱 (EH := EH) (P := P m) κ d 0) $$ [Hst Hb Ht Hv2 Hv3 Hc0 Hc1 Hc2 Hc3 Hc4 Hc5 Hc6 Hc7 Hw0 Hw1 Hw2 Hw3 Hw4 Hw5 Hw6 Hw7]
  isplitr; · iexact Hctx
  isplitl [Hst]; · iexact Hst
  isplitl [Ht Hv2 Hc0 Hc1 Hc2 Hc3 Hc4 Hc5 Hc6 Hc7]
  · iapply (st_intro m d)
    unfold callGo
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Ht]; · iexact Ht
    iexact Hv2
  iintro ⟨Hst, Hdn⟩
  ihave Hdn' := (dn_elim m d) $$ Hdn
  unfold callTd
  icases Hdn' with ⟨Hc0, Hc1, Hc2, Hc3, Hc4, Hc5, Hc6, Hc7, Hv2⟩
  -- the flat result folded
  iapply (wp_hlo_within 𝒱 (SparseCore.T d) none Set.univ (op := op3) (S := SB) hop3 (V := V3 m d)) $$ [Hb Hv2 Hv3]
  · isplitl [Hb]; · iexact Hb
    rw [heldB_V3]
    isplitl [Hv2]; · iexact Hv2
    iexact Hv3
  iintro ⟨Hb, Hheld⟩
  ihave Hh := (Entails.of_eq (heldB_V4 m d)) $$ Hheld
  icases Hh with ⟨-, Hres⟩
  rw [wp_ret]; imodintro; imodintro
  isplitl [Hst]; · iexact Hst
  iapply (Entails.of_eq (heldF_VF m d).symm)
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  iexact Hres

/-! ## The final memory reads the claim -/

def fq (d : Dev nD) (s' : Phys nD τ sig (Elt F)) : Prop := ∀ b ∈ SF, s'.mem.mem (d, b) = VF m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) SF) $$ [HSI H]
  · isplitl [HSI]; · iexact HSI
    iexact H
  ipureintro
  exact h

end Cert.Proof.KB

end
-- ==== Proof.KB.LaunchRun.lean ====
/-
  The lookup kernel's program, run: from the task's proof, every weakly fair execution of the device's threads
  terminates with the result at the flat lookup folded into rows of 256 and every argument as it was.
-/
import proofs.«204821_g30846455120635_fold_wed_m_1292_33_alg».proof.Proof.KB.LaunchSplit
import proofs.«204821_g30846455120635_fold_wed_m_1292_33_alg».proof.Proof.KB.LaunchMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ) (ρ : Dev nD → PrngReg)

variable [FloatOps F]

/-- The program's run: the result is `RESof`, the sixteen arguments keep their launch contents. -/
theorem run_main [∀ e, Nonempty (Elt F e)] (hbody : TileBodyStmt m) (hpre : PreOK m) :
    θ_run (Cert.Kernel.defs (F := F)) (Cert.Kernel.threads (F := F)) ⟨m, fun _ => 0, ρ⟩
      (fun r => ∀ c : Dev nD, r.2.mem (resLoc c) = RESof m c ∧ r.2.mem (c0Loc c) = m (c0Loc c) ∧ r.2.mem (c1Loc c) = m (c1Loc c) ∧ r.2.mem (c2Loc c) = m (c2Loc c) ∧ r.2.mem (c3Loc c) = m (c3Loc c) ∧ r.2.mem (c4Loc c) = m (c4Loc c) ∧ r.2.mem (c5Loc c) = m (c5Loc c) ∧ r.2.mem (c6Loc c) = m (c6Loc c) ∧ r.2.mem (c7Loc c) = m (c7Loc c) ∧ r.2.mem (w0Loc c) = m (w0Loc c) ∧ r.2.mem (w1Loc c) = m (w1Loc c) ∧ r.2.mem (w2Loc c) = m (w2Loc c) ∧ r.2.mem (w3Loc c) = m (w3Loc c) ∧ r.2.mem (w4Loc c) = m (w4Loc c) ∧ r.2.mem (w5Loc c) = m (w5Loc c) ∧ r.2.mem (w6Loc c) = m (w6Loc c) ∧ r.2.mem (w7Loc c) = m (w7Loc c)) :=
  SparseCore.Cfg.θ_run_sc (K := K (F := F)) (D := D (F := F)) (𝒱 := 𝒱) (EH := EH) (P := P m) facts v₀
    (fun q hq => match q with | 0 => nomatch hq)
    (fun q _ => match q with | 0 => tileObl m hbody hpre)
    (fun q _ => match q with | 0 => vecSplit m)
    m ρ main (fun _ => iprop(emp)) (FIN m) (u₀ (F := F)) (sep_elim_left.trans (hu₀ m)) (hmain m ρ) (fq m) (hfin m) _
    (fun s' h c => ⟨(h c v3R (by decide)).trans (VF_v3 m c),
      (h c c0R (by decide)).trans (VF_c0 m c),
      (h c c1R (by decide)).trans (VF_c1 m c),
      (h c c2R (by decide)).trans (VF_c2 m c),
      (h c c3R (by decide)).trans (VF_c3 m c),
      (h c c4R (by decide)).trans (VF_c4 m c),
      (h c c5R (by decide)).trans (VF_c5 m c),
      (h c c6R (by decide)).trans (VF_c6 m c),
      (h c c7R (by decide)).trans (VF_c7 m c),
      (h c w0R (by decide)).trans (VF_w0 m c),
      (h c w1R (by decide)).trans (VF_w1 m c),
      (h c w2R (by decide)).trans (VF_w2 m c),
      (h c w3R (by decide)).trans (VF_w3 m c),
      (h c w4R (by decide)).trans (VF_w4 m c),
      (h c w5R (by decide)).trans (VF_w5 m c),
      (h c w6R (by decide)).trans (VF_w6 m c),
      (h c w7R (by decide)).trans (VF_w7 m c)⟩)

end Cert.Proof.KB

end
-- ==== Proof.KB.SmSets.lean ====
import proofs.«204821_g30846455120635_fold_wed_m_1292_33_alg».proof.Proof.KB.Setup
import proofs.«204821_g30846455120635_fold_wed_m_1292_33_alg».proof.Proof.KB.Tile
import proofs.«204821_g30846455120635_fold_wed_m_1292_33_alg».proof.Proof.LibRowChunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable [FloatOps F]

section Sm
variable (d : Dev nD) (L : grid0.Coords)

open Cert.LibRowChunks

/-- Run j of a scalar-memory index buffer: its words 64·j onwards, where the words of index column j land. -/
abbrev sa0P : Memref sig .scVector .smem S64 .i32 := (saW).slice (Rect.unit (s := S512) ![0] S64.size inb_S512_S64_0) (fun _ => rfl)
abbrev sb0P : Memref sig .scVector .smem S64 .i32 := (sbW).slice (Rect.unit (s := S512) ![0] S64.size inb_S512_S64_0) (fun _ => rfl)
abbrev sa1P : Memref sig .scVector .smem S64 .i32 := (saW).slice (Rect.unit (s := S512) ![64] S64.size inb_S512_S64_64) (fun _ => rfl)
abbrev sb1P : Memref sig .scVector .smem S64 .i32 := (sbW).slice (Rect.unit (s := S512) ![64] S64.size inb_S512_S64_64) (fun _ => rfl)
abbrev sa2P : Memref sig .scVector .smem S64 .i32 := (saW).slice (Rect.unit (s := S512) ![128] S64.size inb_S512_S64_128) (fun _ => rfl)
abbrev sb2P : Memref sig .scVector .smem S64 .i32 := (sbW).slice (Rect.unit (s := S512) ![128] S64.size inb_S512_S64_128) (fun _ => rfl)
abbrev sa3P : Memref sig .scVector .smem S64 .i32 := (saW).slice (Rect.unit (s := S512) ![192] S64.size inb_S512_S64_192) (fun _ => rfl)
abbrev sb3P : Memref sig .scVector .smem S64 .i32 := (sbW).slice (Rect.unit (s := S512) ![192] S64.size inb_S512_S64_192) (fun _ => rfl)
abbrev sa4P : Memref sig .scVector .smem S64 .i32 := (saW).slice (Rect.unit (s := S512) ![256] S64.size inb_S512_S64_256) (fun _ => rfl)
abbrev sb4P : Memref sig .scVector .smem S64 .i32 := (sbW).slice (Rect.unit (s := S512) ![256] S64.size inb_S512_S64_256) (fun _ => rfl)
abbrev sa5P : Memref sig .scVector .smem S64 .i32 := (saW).slice (Rect.unit (s := S512) ![320] S64.size inb_S512_S64_320) (fun _ => rfl)
abbrev sb5P : Memref sig .scVector .smem S64 .i32 := (sbW).slice (Rect.unit (s := S512) ![320] S64.size inb_S512_S64_320) (fun _ => rfl)
abbrev sa6P : Memref sig .scVector .smem S64 .i32 := (saW).slice (Rect.unit (s := S512) ![384] S64.size inb_S512_S64_384) (fun _ => rfl)
abbrev sb6P : Memref sig .scVector .smem S64 .i32 := (sbW).slice (Rect.unit (s := S512) ![384] S64.size inb_S512_S64_384) (fun _ => rfl)
abbrev sa7P : Memref sig .scVector .smem S64 .i32 := (saW).slice (Rect.unit (s := S512) ![448] S64.size inb_S512_S64_448) (fun _ => rfl)
abbrev sb7P : Memref sig .scVector .smem S64 .i32 := (sbW).slice (Rect.unit (s := S512) ![448] S64.size inb_S512_S64_448) (fun _ => rfl)

theorem inb_run (k : Fin 8) : ∀ a, (![64 * k.val] : Fin 1 → Nat) a + (![64] : Fin 1 → Nat) a ≤ S512.size a :=
  Rect.inb₁ (d := ![512]) (show 64 * k.val + 64 ≤ 512 by have := k.isLt; omega)

abbrev runS (k : Fin 8) : Finset S512.Idx := (Rect.unit (s := S512) ![64 * k.val] ![64] (inb_run k)).set

omit [FloatOps F] in
theorem set_sa0P : (sa0P).view.set = runS 0 := by
  show ((View.whole (cc0_scratch2 : Ref sig .scVector)).slice _).set = _
  rw [View.set_slice]
  exact Finset.map_refl.trans (set_unit_congr rfl _ _)
omit [FloatOps F] in
theorem set_sb0P : (sb0P).view.set = runS 0 := by
  show ((View.whole (cc0_scratch3 : Ref sig .scVector)).slice _).set = _
  rw [View.set_slice]
  exact Finset.map_refl.trans (set_unit_congr rfl _ _)
omit [FloatOps F] in
theorem set_sa1P : (sa1P).view.set = runS 1 := by
  show ((View.whole (cc0_scratch2 : Ref sig .scVector)).slice _).set = _
  rw [View.set_slice]
  exact Finset.map_refl.trans (set_unit_congr rfl _ _)
omit [FloatOps F] in
theorem set_sb1P : (sb1P).view.set = runS 1 := by
  show ((View.whole (cc0_scratch3 : Ref sig .scVector)).slice _).set = _
  rw [View.set_slice]
  exact Finset.map_refl.trans (set_unit_congr rfl _ _)
omit [FloatOps F] in
theorem set_sa2P : (sa2P).view.set = runS 2 := by
  show ((View.whole (cc0_scratch2 : Ref sig .scVector)).slice _).set = _
  rw [View.set_slice]
  exact Finset.map_refl.trans (set_unit_congr rfl _ _)
omit [FloatOps F] in
theorem set_sb2P : (sb2P).view.set = runS 2 := by
  show ((View.whole (cc0_scratch3 : Ref sig .scVector)).slice _).set = _
  rw [View.set_slice]
  exact Finset.map_refl.trans (set_unit_congr rfl _ _)
omit [FloatOps F] in
theorem set_sa3P : (sa3P).view.set = runS 3 := by
  show ((View.whole (cc0_scratch2 : Ref sig .scVector)).slice _).set = _
  rw [View.set_slice]
  exact Finset.map_refl.trans (set_unit_congr rfl _ _)
omit [FloatOps F] in
theorem set_sb3P : (sb3P).view.set = runS 3 := by
  show ((View.whole (cc0_scratch3 : Ref sig .scVector)).slice _).set = _
  rw [View.set_slice]
  exact Finset.map_refl.trans (set_unit_congr rfl _ _)
omit [FloatOps F] in
theorem set_sa4P : (sa4P).view.set = runS 4 := by
  show ((View.whole (cc0_scratch2 : Ref sig .scVector)).slice _).set = _
  rw [View.set_slice]
  exact Finset.map_refl.trans (set_unit_congr rfl _ _)
omit [FloatOps F] in
theorem set_sb4P : (sb4P).view.set = runS 4 := by
  show ((View.whole (cc0_scratch3 : Ref sig .scVector)).slice _).set = _
  rw [View.set_slice]
  exact Finset.map_refl.trans (set_unit_congr rfl _ _)
omit [FloatOps F] in
theorem set_sa5P : (sa5P).view.set = runS 5 := by
  show ((View.whole (cc0_scratch2 : Ref sig .scVector)).slice _).set = _
  rw [View.set_slice]
  exact Finset.map_refl.trans (set_unit_congr rfl _ _)
omit [FloatOps F] in
theorem set_sb5P : (sb5P).view.set = runS 5 := by
  show ((View.whole (cc0_scratch3 : Ref sig .scVector)).slice _).set = _
  rw [View.set_slice]
  exact Finset.map_refl.trans (set_unit_congr rfl _ _)
omit [FloatOps F] in
theorem set_sa6P : (sa6P).view.set = runS 6 := by
  show ((View.whole (cc0_scratch2 : Ref sig .scVector)).slice _).set = _
  rw [View.set_slice]
  exact Finset.map_refl.trans (set_unit_congr rfl _ _)
omit [FloatOps F] in
theorem set_sb6P : (sb6P).view.set = runS 6 := by
  show ((View.whole (cc0_scratch3 : Ref sig .scVector)).slice _).set = _
  rw [View.set_slice]
  exact Finset.map_refl.trans (set_unit_congr rfl _ _)
omit [FloatOps F] in
theorem set_sa7P : (sa7P).view.set = runS 7 := by
  show ((View.whole (cc0_scratch2 : Ref sig .scVector)).slice _).set = _
  rw [View.set_slice]
  exact Finset.map_refl.trans (set_unit_congr rfl _ _)
omit [FloatOps F] in
theorem set_sb7P : (sb7P).view.set = runS 7 := by
  show ((View.whole (cc0_scratch3 : Ref sig .scVector)).slice _).set = _
  rw [View.set_slice]
  exact Finset.map_refl.trans (set_unit_congr rfl _ _)

omit [FloatOps F] in
theorem univ8' : (Finset.univ : Finset (Fin 8)) = {0, 1, 2, 3, 4, 5, 6, 7} := by decide

set_option maxHeartbeats 2000000 in
omit [FloatOps F] in
/-- The index buffer is its eight runs, at the same contents. -/
theorem split_sa (f : Buf (Elt F) ((saW).view.loc (thr d L))) :
    ((saW).view.loc (thr d L) ↦{fullShare} f : sProp 𝕄)
      = iprop(((sa0P).view.loc (thr d L) ↦[(sa0P).view.set]{fullShare} f)
          ∗ ((sa1P).view.loc (thr d L) ↦[(sa1P).view.set]{fullShare} f)
          ∗ ((sa2P).view.loc (thr d L) ↦[(sa2P).view.set]{fullShare} f)
          ∗ ((sa3P).view.loc (thr d L) ↦[(sa3P).view.set]{fullShare} f)
          ∗ ((sa4P).view.loc (thr d L) ↦[(sa4P).view.set]{fullShare} f)
          ∗ ((sa5P).view.loc (thr d L) ↦[(sa5P).view.set]{fullShare} f)
          ∗ ((sa6P).view.loc (thr d L) ↦[(sa6P).view.set]{fullShare} f)
          ∗ ((sa7P).view.loc (thr d L) ↦[(sa7P).view.set]{fullShare} f)) := by
  rw [set_sa0P, set_sa1P, set_sa2P, set_sa3P, set_sa4P, set_sa5P, set_sa6P, set_sa7P]
  have h : ((saW).view.loc (thr d L) ↦{fullShare} f : sProp 𝕄)
      = bigSep Finset.univ fun k : Fin 8 => (saW).view.loc (thr d L) ↦[runS k]{fullShare} f := by
    rw [← pointsTo_biUnion Finset.univ (ℓ := (saW).view.loc (thr d L)) runS (vec_chunks_disjoint (fun k => inb_run k)),
      ← vec_chunks (fun k => inb_run k)]; try rfl
  refine h.trans ((congrArg (fun s => bigSep s _) univ8').trans ?_)
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
set_option maxHeartbeats 2000000 in
omit [FloatOps F] in
/-- The index buffer is its eight runs, at the same contents. -/
theorem split_sb (f : Buf (Elt F) ((sbW).view.loc (thr d L))) :
    ((sbW).view.loc (thr d L) ↦{fullShare} f : sProp 𝕄)
      = iprop(((sb0P).view.loc (thr d L) ↦[(sb0P).view.set]{fullShare} f)
          ∗ ((sb1P).view.loc (thr d L) ↦[(sb1P).view.set]{fullShare} f)
          ∗ ((sb2P).view.loc (thr d L) ↦[(sb2P).view.set]{fullShare} f)
          ∗ ((sb3P).view.loc (thr d L) ↦[(sb3P).view.set]{fullShare} f)
          ∗ ((sb4P).view.loc (thr d L) ↦[(sb4P).view.set]{fullShare} f)
          ∗ ((sb5P).view.loc (thr d L) ↦[(sb5P).view.set]{fullShare} f)
          ∗ ((sb6P).view.loc (thr d L) ↦[(sb6P).view.set]{fullShare} f)
          ∗ ((sb7P).view.loc (thr d L) ↦[(sb7P).view.set]{fullShare} f)) := by
  rw [set_sb0P, set_sb1P, set_sb2P, set_sb3P, set_sb4P, set_sb5P, set_sb6P, set_sb7P]
  have h : ((sbW).view.loc (thr d L) ↦{fullShare} f : sProp 𝕄)
      = bigSep Finset.univ fun k : Fin 8 => (sbW).view.loc (thr d L) ↦[runS k]{fullShare} f := by
    rw [← pointsTo_biUnion Finset.univ (ℓ := (sbW).view.loc (thr d L)) runS (vec_chunks_disjoint (fun k => inb_run k)),
      ← vec_chunks (fun k => inb_run k)]; try rfl
  refine h.trans ((congrArg (fun s => bigSep s _) univ8').trans ?_)
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end Sm

end Cert.Proof.KB

end
-- ==== Proof.KB.Stage.lean ====
import proofs.«204821_g30846455120635_fold_wed_m_1292_33_alg».proof.Proof.KB.Setup
import proofs.«204821_g30846455120635_fold_wed_m_1292_33_alg».proof.Proof.KB.SmSets
import proofs.«204821_g30846455120635_fold_wed_m_1292_33_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

section Stage
variable (d : Dev nD) (L : grid0.Coords)

/-! ## The index batch: eight copies of 512 words into the row of the shared scratch -/

/-- The row of the shared scratch once index column j has landed in its piece. -/
def ISH0 (fc : Buf (Elt F) ((c0S L).view.loc (thr d L))) (fsh : Buf (Elt F) ((sh0P L).view.loc (thr d L))) : Buf (Elt F) ((sh0P L).view.loc (thr d L)) :=
  (sh0P L).view.writes (Elt F) fsh [⟨Rect.whole S512, ReadAs.same.apply ((c0S L).view.read (Elt F) fc)⟩]
def ISH1 (fc : Buf (Elt F) ((c1S L).view.loc (thr d L))) (fsh : Buf (Elt F) ((sh0P L).view.loc (thr d L))) : Buf (Elt F) ((sh0P L).view.loc (thr d L)) :=
  (sh1P L).view.writes (Elt F) fsh [⟨Rect.whole S512, ReadAs.same.apply ((c1S L).view.read (Elt F) fc)⟩]
def ISH2 (fc : Buf (Elt F) ((c2S L).view.loc (thr d L))) (fsh : Buf (Elt F) ((sh0P L).view.loc (thr d L))) : Buf (Elt F) ((sh0P L).view.loc (thr d L)) :=
  (sh2P L).view.writes (Elt F) fsh [⟨Rect.whole S512, ReadAs.same.apply ((c2S L).view.read (Elt F) fc)⟩]
def ISH3 (fc : Buf (Elt F) ((c3S L).view.loc (thr d L))) (fsh : Buf (Elt F) ((sh0P L).view.loc (thr d L))) : Buf (Elt F) ((sh0P L).view.loc (thr d L)) :=
  (sh3P L).view.writes (Elt F) fsh [⟨Rect.whole S512, ReadAs.same.apply ((c3S L).view.read (Elt F) fc)⟩]
def ISH4 (fc : Buf (Elt F) ((c4S L).view.loc (thr d L))) (fsh : Buf (Elt F) ((sh0P L).view.loc (thr d L))) : Buf (Elt F) ((sh0P L).view.loc (thr d L)) :=
  (sh4P L).view.writes (Elt F) fsh [⟨Rect.whole S512, ReadAs.same.apply ((c4S L).view.read (Elt F) fc)⟩]
def ISH5 (fc : Buf (Elt F) ((c5S L).view.loc (thr d L))) (fsh : Buf (Elt F) ((sh0P L).view.loc (thr d L))) : Buf (Elt F) ((sh0P L).view.loc (thr d L)) :=
  (sh5P L).view.writes (Elt F) fsh [⟨Rect.whole S512, ReadAs.same.apply ((c5S L).view.read (Elt F) fc)⟩]
def ISH6 (fc : Buf (Elt F) ((c6S L).view.loc (thr d L))) (fsh : Buf (Elt F) ((sh0P L).view.loc (thr d L))) : Buf (Elt F) ((sh0P L).view.loc (thr d L)) :=
  (sh6P L).view.writes (Elt F) fsh [⟨Rect.whole S512, ReadAs.same.apply ((c6S L).view.read (Elt F) fc)⟩]
def ISH7 (fc : Buf (Elt F) ((c7S L).view.loc (thr d L))) (fsh : Buf (Elt F) ((sh0P L).view.loc (thr d L))) : Buf (Elt F) ((sh0P L).view.loc (thr d L)) :=
  (sh7P L).view.writes (Elt F) fsh [⟨Rect.whole S512, ReadAs.same.apply ((c7S L).view.read (Elt F) fc)⟩]

/-- What copy t of the index batch delivers: piece t of the row holding the column's 512 words, and the words back. -/
def dlvI (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) : Fin 8 → sProp 𝕄
  | 0 => iprop(((sh0P L).view.loc (thr d L) ↦[(sh0P L).view.set]{fullShare} ISH0 d L fc0 fsh)
      ∗ ((c0S L).view.loc (thr d L) ↦[(c0S L).view.set]{fullShare} fc0))
  | 1 => iprop(((sh1P L).view.loc (thr d L) ↦[(sh1P L).view.set]{fullShare} ISH1 d L fc1 fsh)
      ∗ ((c1S L).view.loc (thr d L) ↦[(c1S L).view.set]{fullShare} fc1))
  | 2 => iprop(((sh2P L).view.loc (thr d L) ↦[(sh2P L).view.set]{fullShare} ISH2 d L fc2 fsh)
      ∗ ((c2S L).view.loc (thr d L) ↦[(c2S L).view.set]{fullShare} fc2))
  | 3 => iprop(((sh3P L).view.loc (thr d L) ↦[(sh3P L).view.set]{fullShare} ISH3 d L fc3 fsh)
      ∗ ((c3S L).view.loc (thr d L) ↦[(c3S L).view.set]{fullShare} fc3))
  | 4 => iprop(((sh4P L).view.loc (thr d L) ↦[(sh4P L).view.set]{fullShare} ISH4 d L fc4 fsh)
      ∗ ((c4S L).view.loc (thr d L) ↦[(c4S L).view.set]{fullShare} fc4))
  | 5 => iprop(((sh5P L).view.loc (thr d L) ↦[(sh5P L).view.set]{fullShare} ISH5 d L fc5 fsh)
      ∗ ((c5S L).view.loc (thr d L) ↦[(c5S L).view.set]{fullShare} fc5))
  | 6 => iprop(((sh6P L).view.loc (thr d L) ↦[(sh6P L).view.set]{fullShare} ISH6 d L fc6 fsh)
      ∗ ((c6S L).view.loc (thr d L) ↦[(c6S L).view.set]{fullShare} fc6))
  | 7 => iprop(((sh7P L).view.loc (thr d L) ↦[(sh7P L).view.set]{fullShare} ISH7 d L fc7 fsh)
      ∗ ((c7S L).view.loc (thr d L) ↦[(c7S L).view.set]{fullShare} fc7))

instance dlvI_storable (fc0 fc1 fc2 fc3 fc4 fc5 fc6 fc7 fsh) (t : Fin 8) : BI.Storable (upEmb : UEmb _ 𝕄) (dlvI (F := F) d L fc0 fc1 fc2 fc3 fc4 fc5 fc6 fc7 fsh t) := by
  fin_cases t <;> (unfold dlvI; infer_instance)

/-- One index copy's credit. -/
abbrev NI : ℕ := (sh0P L).view.amount (SemLoc.dma (sig := sig) cc0_scratch7.sem)

/-! ## The stage batches: eight copies of 64 words from the row into an index buffer -/

/-- Run j of the index buffer once stage 0's copy j has landed. -/
def Cp0 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → Buf (Elt F) ((saW).view.loc (thr d L))
  | 0 => (sa0P).view.writes (Elt F) prev [⟨Rect.whole S64, ReadAs.same.apply ((q0_0 L).view.read (Elt F) (ISH0 d L fc0 fsh))⟩]
  | 1 => (sa1P).view.writes (Elt F) prev [⟨Rect.whole S64, ReadAs.same.apply ((q0_1 L).view.read (Elt F) (ISH1 d L fc1 fsh))⟩]
  | 2 => (sa2P).view.writes (Elt F) prev [⟨Rect.whole S64, ReadAs.same.apply ((q0_2 L).view.read (Elt F) (ISH2 d L fc2 fsh))⟩]
  | 3 => (sa3P).view.writes (Elt F) prev [⟨Rect.whole S64, ReadAs.same.apply ((q0_3 L).view.read (Elt F) (ISH3 d L fc3 fsh))⟩]
  | 4 => (sa4P).view.writes (Elt F) prev [⟨Rect.whole S64, ReadAs.same.apply ((q0_4 L).view.read (Elt F) (ISH4 d L fc4 fsh))⟩]
  | 5 => (sa5P).view.writes (Elt F) prev [⟨Rect.whole S64, ReadAs.same.apply ((q0_5 L).view.read (Elt F) (ISH5 d L fc5 fsh))⟩]
  | 6 => (sa6P).view.writes (Elt F) prev [⟨Rect.whole S64, ReadAs.same.apply ((q0_6 L).view.read (Elt F) (ISH6 d L fc6 fsh))⟩]
  | 7 => (sa7P).view.writes (Elt F) prev [⟨Rect.whole S64, ReadAs.same.apply ((q0_7 L).view.read (Elt F) (ISH7 d L fc7 fsh))⟩]

/-- What copy t of stage 0 delivers: run t of the index buffer holding the 64 words, and the words' run of the row back. -/
def dlvS0 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → sProp 𝕄
  | 0 => iprop(((sa0P).view.loc (thr d L) ↦[(sa0P).view.set]{fullShare} Cp0 d L fc0 fc1 fc2 fc3 fc4 fc5 fc6 fc7 fsh prev 0)
      ∗ ((q0_0 L).view.loc (thr d L) ↦[(q0_0 L).view.set]{fullShare} ISH0 d L fc0 fsh))
  | 1 => iprop(((sa1P).view.loc (thr d L) ↦[(sa1P).view.set]{fullShare} Cp0 d L fc0 fc1 fc2 fc3 fc4 fc5 fc6 fc7 fsh prev 1)
      ∗ ((q0_1 L).view.loc (thr d L) ↦[(q0_1 L).view.set]{fullShare} ISH1 d L fc1 fsh))
  | 2 => iprop(((sa2P).view.loc (thr d L) ↦[(sa2P).view.set]{fullShare} Cp0 d L fc0 fc1 fc2 fc3 fc4 fc5 fc6 fc7 fsh prev 2)
      ∗ ((q0_2 L).view.loc (thr d L) ↦[(q0_2 L).view.set]{fullShare} ISH2 d L fc2 fsh))
  | 3 => iprop(((sa3P).view.loc (thr d L) ↦[(sa3P).view.set]{fullShare} Cp0 d L fc0 fc1 fc2 fc3 fc4 fc5 fc6 fc7 fsh prev 3)
      ∗ ((q0_3 L).view.loc (thr d L) ↦[(q0_3 L).view.set]{fullShare} ISH3 d L fc3 fsh))
  | 4 => iprop(((sa4P).view.loc (thr d L) ↦[(sa4P).view.set]{fullShare} Cp0 d L fc0 fc1 fc2 fc3 fc4 fc5 fc6 fc7 fsh prev 4)
      ∗ ((q0_4 L).view.loc (thr d L) ↦[(q0_4 L).view.set]{fullShare} ISH4 d L fc4 fsh))
  | 5 => iprop(((sa5P).view.loc (thr d L) ↦[(sa5P).view.set]{fullShare} Cp0 d L fc0 fc1 fc2 fc3 fc4 fc5 fc6 fc7 fsh prev 5)
      ∗ ((q0_5 L).view.loc (thr d L) ↦[(q0_5 L).view.set]{fullShare} ISH5 d L fc5 fsh))
  | 6 => iprop(((sa6P).view.loc (thr d L) ↦[(sa6P).view.set]{fullShare} Cp0 d L fc0 fc1 fc2 fc3 fc4 fc5 fc6 fc7 fsh prev 6)
      ∗ ((q0_6 L).view.loc (thr d L) ↦[(q0_6 L).view.set]{fullShare} ISH6 d L fc6 fsh))
  | 7 => iprop(((sa7P).view.loc (thr d L) ↦[(sa7P).view.set]{fullShare} Cp0 d L fc0 fc1 fc2 fc3 fc4 fc5 fc6 fc7 fsh prev 7)
      ∗ ((q0_7 L).view.loc (thr d L) ↦[(q0_7 L).view.set]{fullShare} ISH7 d L fc7 fsh))

instance dlvS0_storable (fc0 fc1 fc2 fc3 fc4 fc5 fc6 fc7 fsh prev) (t : Fin 8) : BI.Storable (upEmb : UEmb _ 𝕄) (dlvS0 (F := F) d L fc0 fc1 fc2 fc3 fc4 fc5 fc6 fc7 fsh prev t) := by
  fin_cases t <;> (unfold dlvS0; infer_instance)

/-- Run j of the index buffer once stage 1's copy j has landed. -/
def Cp1 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → Buf (Elt F) ((sbW).view.loc (thr d L))
  | 0 => (sb0P).view.writes (Elt F) prev [⟨Rect.whole S64, ReadAs.same.apply ((q1_0 L).view.read (Elt F) (ISH0 d L fc0 fsh))⟩]
  | 1 => (sb1P).view.writes (Elt F) prev [⟨Rect.whole S64, ReadAs.same.apply ((q1_1 L).view.read (Elt F) (ISH1 d L fc1 fsh))⟩]
  | 2 => (sb2P).view.writes (Elt F) prev [⟨Rect.whole S64, ReadAs.same.apply ((q1_2 L).view.read (Elt F) (ISH2 d L fc2 fsh))⟩]
  | 3 => (sb3P).view.writes (Elt F) prev [⟨Rect.whole S64, ReadAs.same.apply ((q1_3 L).view.read (Elt F) (ISH3 d L fc3 fsh))⟩]
  | 4 => (sb4P).view.writes (Elt F) prev [⟨Rect.whole S64, ReadAs.same.apply ((q1_4 L).view.read (Elt F) (ISH4 d L fc4 fsh))⟩]
  | 5 => (sb5P).view.writes (Elt F) prev [⟨Rect.whole S64, ReadAs.same.apply ((q1_5 L).view.read (Elt F) (ISH5 d L fc5 fsh))⟩]
  | 6 => (sb6P).view.writes (Elt F) prev [⟨Rect.whole S64, ReadAs.same.apply ((q1_6 L).view.read (Elt F) (ISH6 d L fc6 fsh))⟩]
  | 7 => (sb7P).view.writes (Elt F) prev [⟨Rect.whole S64, ReadAs.same.apply ((q1_7 L).view.read (Elt F) (ISH7 d L fc7 fsh))⟩]

/-- What copy t of stage 1 delivers: run t of the index buffer holding the 64 words, and the words' run of the row back. -/
def dlvS1 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → sProp 𝕄
  | 0 => iprop(((sb0P).view.loc (thr d L) ↦[(sb0P).view.set]{fullShare} Cp1 d L fc0 fc1 fc2 fc3 fc4 fc5 fc6 fc7 fsh prev 0)
      ∗ ((q1_0 L).view.loc (thr d L) ↦[(q1_0 L).view.set]{fullShare} ISH0 d L fc0 fsh))
  | 1 => iprop(((sb1P).view.loc (thr d L) ↦[(sb1P).view.set]{fullShare} Cp1 d L fc0 fc1 fc2 fc3 fc4 fc5 fc6 fc7 fsh prev 1)
      ∗ ((q1_1 L).view.loc (thr d L) ↦[(q1_1 L).view.set]{fullShare} ISH1 d L fc1 fsh))
  | 2 => iprop(((sb2P).view.loc (thr d L) ↦[(sb2P).view.set]{fullShare} Cp1 d L fc0 fc1 fc2 fc3 fc4 fc5 fc6 fc7 fsh prev 2)
      ∗ ((q1_2 L).view.loc (thr d L) ↦[(q1_2 L).view.set]{fullShare} ISH2 d L fc2 fsh))
  | 3 => iprop(((sb3P).view.loc (thr d L) ↦[(sb3P).view.set]{fullShare} Cp1 d L fc0 fc1 fc2 fc3 fc4 fc5 fc6 fc7 fsh prev 3)
      ∗ ((q1_3 L).view.loc (thr d L) ↦[(q1_3 L).view.set]{fullShare} ISH3 d L fc3 fsh))
  | 4 => iprop(((sb4P).view.loc (thr d L) ↦[(sb4P).view.set]{fullShare} Cp1 d L fc0 fc1 fc2 fc3 fc4 fc5 fc6 fc7 fsh prev 4)
      ∗ ((q1_4 L).view.loc (thr d L) ↦[(q1_4 L).view.set]{fullShare} ISH4 d L fc4 fsh))
  | 5 => iprop(((sb5P).view.loc (thr d L) ↦[(sb5P).view.set]{fullShare} Cp1 d L fc0 fc1 fc2 fc3 fc4 fc5 fc6 fc7 fsh prev 5)
      ∗ ((q1_5 L).view.loc (thr d L) ↦[(q1_5 L).view.set]{fullShare} ISH5 d L fc5 fsh))
  | 6 => iprop(((sb6P).view.loc (thr d L) ↦[(sb6P).view.set]{fullShare} Cp1 d L fc0 fc1 fc2 fc3 fc4 fc5 fc6 fc7 fsh prev 6)
      ∗ ((q1_6 L).view.loc (thr d L) ↦[(q1_6 L).view.set]{fullShare} ISH6 d L fc6 fsh))
  | 7 => iprop(((sb7P).view.loc (thr d L) ↦[(sb7P).view.set]{fullShare} Cp1 d L fc0 fc1 fc2 fc3 fc4 fc5 fc6 fc7 fsh prev 7)
      ∗ ((q1_7 L).view.loc (thr d L) ↦[(q1_7 L).view.set]{fullShare} ISH7 d L fc7 fsh))

instance dlvS1_storable (fc0 fc1 fc2 fc3 fc4 fc5 fc6 fc7 fsh prev) (t : Fin 8) : BI.Storable (upEmb : UEmb _ 𝕄) (dlvS1 (F := F) d L fc0 fc1 fc2 fc3 fc4 fc5 fc6 fc7 fsh prev t) := by
  fin_cases t <;> (unfold dlvS1; infer_instance)

/-- Run j of the index buffer once stage 2's copy j has landed. -/
def Cp2 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → Buf (Elt F) ((saW).view.loc (thr d L))
  | 0 => (sa0P).view.writes (Elt F) prev [⟨Rect.whole S64, ReadAs.same.apply ((q2_0 L).view.read (Elt F) (ISH0 d L fc0 fsh))⟩]
  | 1 => (sa1P).view.writes (Elt F) prev [⟨Rect.whole S64, ReadAs.same.apply ((q2_1 L).view.read (Elt F) (ISH1 d L fc1 fsh))⟩]
  | 2 => (sa2P).view.writes (Elt F) prev [⟨Rect.whole S64, ReadAs.same.apply ((q2_2 L).view.read (Elt F) (ISH2 d L fc2 fsh))⟩]
  | 3 => (sa3P).view.writes (Elt F) prev [⟨Rect.whole S64, ReadAs.same.apply ((q2_3 L).view.read (Elt F) (ISH3 d L fc3 fsh))⟩]
  | 4 => (sa4P).view.writes (Elt F) prev [⟨Rect.whole S64, ReadAs.same.apply ((q2_4 L).view.read (Elt F) (ISH4 d L fc4 fsh))⟩]
  | 5 => (sa5P).view.writes (Elt F) prev [⟨Rect.whole S64, ReadAs.same.apply ((q2_5 L).view.read (Elt F) (ISH5 d L fc5 fsh))⟩]
  | 6 => (sa6P).view.writes (Elt F) prev [⟨Rect.whole S64, ReadAs.same.apply ((q2_6 L).view.read (Elt F) (ISH6 d L fc6 fsh))⟩]
  | 7 => (sa7P).view.writes (Elt F) prev [⟨Rect.whole S64, ReadAs.same.apply ((q2_7 L).view.read (Elt F) (ISH7 d L fc7 fsh))⟩]

/-- What copy t of stage 2 delivers: run t of the index buffer holding the 64 words, and the words' run of the row back. -/
def dlvS2 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → sProp 𝕄
  | 0 => iprop(((sa0P).view.loc (thr d L) ↦[(sa0P).view.set]{fullShare} Cp2 d L fc0 fc1 fc2 fc3 fc4 fc5 fc6 fc7 fsh prev 0)
      ∗ ((q2_0 L).view.loc (thr d L) ↦[(q2_0 L).view.set]{fullShare} ISH0 d L fc0 fsh))
  | 1 => iprop(((sa1P).view.loc (thr d L) ↦[(sa1P).view.set]{fullShare} Cp2 d L fc0 fc1 fc2 fc3 fc4 fc5 fc6 fc7 fsh prev 1)
      ∗ ((q2_1 L).view.loc (thr d L) ↦[(q2_1 L).view.set]{fullShare} ISH1 d L fc1 fsh))
  | 2 => iprop(((sa2P).view.loc (thr d L) ↦[(sa2P).view.set]{fullShare} Cp2 d L fc0 fc1 fc2 fc3 fc4 fc5 fc6 fc7 fsh prev 2)
      ∗ ((q2_2 L).view.loc (thr d L) ↦[(q2_2 L).view.set]{fullShare} ISH2 d L fc2 fsh))
  | 3 => iprop(((sa3P).view.loc (thr d L) ↦[(sa3P).view.set]{fullShare} Cp2 d L fc0 fc1 fc2 fc3 fc4 fc5 fc6 fc7 fsh prev 3)
      ∗ ((q2_3 L).view.loc (thr d L) ↦[(q2_3 L).view.set]{fullShare} ISH3 d L fc3 fsh))
  | 4 => iprop(((sa4P).view.loc (thr d L) ↦[(sa4P).view.set]{fullShare} Cp2 d L fc0 fc1 fc2 fc3 fc4 fc5 fc6 fc7 fsh prev 4)
      ∗ ((q2_4 L).view.loc (thr d L) ↦[(q2_4 L).view.set]{fullShare} ISH4 d L fc4 fsh))
  | 5 => iprop(((sa5P).view.loc (thr d L) ↦[(sa5P).view.set]{fullShare} Cp2 d L fc0 fc1 fc2 fc3 fc4 fc5 fc6 fc7 fsh prev 5)
      ∗ ((q2_5 L).view.loc (thr d L) ↦[(q2_5 L).view.set]{fullShare} ISH5 d L fc5 fsh))
  | 6 => iprop(((sa6P).view.loc (thr d L) ↦[(sa6P).view.set]{fullShare} Cp2 d L fc0 fc1 fc2 fc3 fc4 fc5 fc6 fc7 fsh prev 6)
      ∗ ((q2_6 L).view.loc (thr d L) ↦[(q2_6 L).view.set]{fullShare} ISH6 d L fc6 fsh))
  | 7 => iprop(((sa7P).view.loc (thr d L) ↦[(sa7P).view.set]{fullShare} Cp2 d L fc0 fc1 fc2 fc3 fc4 fc5 fc6 fc7 fsh prev 7)
      ∗ ((q2_7 L).view.loc (thr d L) ↦[(q2_7 L).view.set]{fullShare} ISH7 d L fc7 fsh))

instance dlvS2_storable (fc0 fc1 fc2 fc3 fc4 fc5 fc6 fc7 fsh prev) (t : Fin 8) : BI.Storable (upEmb : UEmb _ 𝕄) (dlvS2 (F := F) d L fc0 fc1 fc2 fc3 fc4 fc5 fc6 fc7 fsh prev t) := by
  fin_cases t <;> (unfold dlvS2; infer_instance)

/-- Run j of the index buffer once stage 3's copy j has landed. -/
def Cp3 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → Buf (Elt F) ((sbW).view.loc (thr d L))
  | 0 => (sb0P).view.writes (Elt F) prev [⟨Rect.whole S64, ReadAs.same.apply ((q3_0 L).view.read (Elt F) (ISH0 d L fc0 fsh))⟩]
  | 1 => (sb1P).view.writes (Elt F) prev [⟨Rect.whole S64, ReadAs.same.apply ((q3_1 L).view.read (Elt F) (ISH1 d L fc1 fsh))⟩]
  | 2 => (sb2P).view.writes (Elt F) prev [⟨Rect.whole S64, ReadAs.same.apply ((q3_2 L).view.read (Elt F) (ISH2 d L fc2 fsh))⟩]
  | 3 => (sb3P).view.writes (Elt F) prev [⟨Rect.whole S64, ReadAs.same.apply ((q3_3 L).view.read (Elt F) (ISH3 d L fc3 fsh))⟩]
  | 4 => (sb4P).view.writes (Elt F) prev [⟨Rect.whole S64, ReadAs.same.apply ((q3_4 L).view.read (Elt F) (ISH4 d L fc4 fsh))⟩]
  | 5 => (sb5P).view.writes (Elt F) prev [⟨Rect.whole S64, ReadAs.same.apply ((q3_5 L).view.read (Elt F) (ISH5 d L fc5 fsh))⟩]
  | 6 => (sb6P).view.writes (Elt F) prev [⟨Rect.whole S64, ReadAs.same.apply ((q3_6 L).view.read (Elt F) (ISH6 d L fc6 fsh))⟩]
  | 7 => (sb7P).view.writes (Elt F) prev [⟨Rect.whole S64, ReadAs.same.apply ((q3_7 L).view.read (Elt F) (ISH7 d L fc7 fsh))⟩]

/-- What copy t of stage 3 delivers: run t of the index buffer holding the 64 words, and the words' run of the row back. -/
def dlvS3 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → sProp 𝕄
  | 0 => iprop(((sb0P).view.loc (thr d L) ↦[(sb0P).view.set]{fullShare} Cp3 d L fc0 fc1 fc2 fc3 fc4 fc5 fc6 fc7 fsh prev 0)
      ∗ ((q3_0 L).view.loc (thr d L) ↦[(q3_0 L).view.set]{fullShare} ISH0 d L fc0 fsh))
  | 1 => iprop(((sb1P).view.loc (thr d L) ↦[(sb1P).view.set]{fullShare} Cp3 d L fc0 fc1 fc2 fc3 fc4 fc5 fc6 fc7 fsh prev 1)
      ∗ ((q3_1 L).view.loc (thr d L) ↦[(q3_1 L).view.set]{fullShare} ISH1 d L fc1 fsh))
  | 2 => iprop(((sb2P).view.loc (thr d L) ↦[(sb2P).view.set]{fullShare} Cp3 d L fc0 fc1 fc2 fc3 fc4 fc5 fc6 fc7 fsh prev 2)
      ∗ ((q3_2 L).view.loc (thr d L) ↦[(q3_2 L).view.set]{fullShare} ISH2 d L fc2 fsh))
  | 3 => iprop(((sb3P).view.loc (thr d L) ↦[(sb3P).view.set]{fullShare} Cp3 d L fc0 fc1 fc2 fc3 fc4 fc5 fc6 fc7 fsh prev 3)
      ∗ ((q3_3 L).view.loc (thr d L) ↦[(q3_3 L).view.set]{fullShare} ISH3 d L fc3 fsh))
  | 4 => iprop(((sb4P).view.loc (thr d L) ↦[(sb4P).view.set]{fullShare} Cp3 d L fc0 fc1 fc2 fc3 fc4 fc5 fc6 fc7 fsh prev 4)
      ∗ ((q3_4 L).view.loc (thr d L) ↦[(q3_4 L).view.set]{fullShare} ISH4 d L fc4 fsh))
  | 5 => iprop(((sb5P).view.loc (thr d L) ↦[(sb5P).view.set]{fullShare} Cp3 d L fc0 fc1 fc2 fc3 fc4 fc5 fc6 fc7 fsh prev 5)
      ∗ ((q3_5 L).view.loc (thr d L) ↦[(q3_5 L).view.set]{fullShare} ISH5 d L fc5 fsh))
  | 6 => iprop(((sb6P).view.loc (thr d L) ↦[(sb6P).view.set]{fullShare} Cp3 d L fc0 fc1 fc2 fc3 fc4 fc5 fc6 fc7 fsh prev 6)
      ∗ ((q3_6 L).view.loc (thr d L) ↦[(q3_6 L).view.set]{fullShare} ISH6 d L fc6 fsh))
  | 7 => iprop(((sb7P).view.loc (thr d L) ↦[(sb7P).view.set]{fullShare} Cp3 d L fc0 fc1 fc2 fc3 fc4 fc5 fc6 fc7 fsh prev 7)
      ∗ ((q3_7 L).view.loc (thr d L) ↦[(q3_7 L).view.set]{fullShare} ISH7 d L fc7 fsh))

instance dlvS3_storable (fc0 fc1 fc2 fc3 fc4 fc5 fc6 fc7 fsh prev) (t : Fin 8) : BI.Storable (upEmb : UEmb _ 𝕄) (dlvS3 (F := F) d L fc0 fc1 fc2 fc3 fc4 fc5 fc6 fc7 fsh prev t) := by
  fin_cases t <;> (unfold dlvS3; infer_instance)

/-- Run j of the index buffer once stage 4's copy j has landed. -/
def Cp4 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → Buf (Elt F) ((saW).view.loc (thr d L))
  | 0 => (sa0P).view.writes (Elt F) prev [⟨Rect.whole S64, ReadAs.same.apply ((q4_0 L).view.read (Elt F) (ISH0 d L fc0 fsh))⟩]
  | 1 => (sa1P).view.writes (Elt F) prev [⟨Rect.whole S64, ReadAs.same.apply ((q4_1 L).view.read (Elt F) (ISH1 d L fc1 fsh))⟩]
  | 2 => (sa2P).view.writes (Elt F) prev [⟨Rect.whole S64, ReadAs.same.apply ((q4_2 L).view.read (Elt F) (ISH2 d L fc2 fsh))⟩]
  | 3 => (sa3P).view.writes (Elt F) prev [⟨Rect.whole S64, ReadAs.same.apply ((q4_3 L).view.read (Elt F) (ISH3 d L fc3 fsh))⟩]
  | 4 => (sa4P).view.writes (Elt F) prev [⟨Rect.whole S64, ReadAs.same.apply ((q4_4 L).view.read (Elt F) (ISH4 d L fc4 fsh))⟩]
  | 5 => (sa5P).view.writes (Elt F) prev [⟨Rect.whole S64, ReadAs.same.apply ((q4_5 L).view.read (Elt F) (ISH5 d L fc5 fsh))⟩]
  | 6 => (sa6P).view.writes (Elt F) prev [⟨Rect.whole S64, ReadAs.same.apply ((q4_6 L).view.read (Elt F) (ISH6 d L fc6 fsh))⟩]
  | 7 => (sa7P).view.writes (Elt F) prev [⟨Rect.whole S64, ReadAs.same.apply ((q4_7 L).view.read (Elt F) (ISH7 d L fc7 fsh))⟩]

/-- What copy t of stage 4 delivers: run t of the index buffer holding the 64 words, and the words' run of the row back. -/
def dlvS4 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → sProp 𝕄
  | 0 => iprop(((sa0P).view.loc (thr d L) ↦[(sa0P).view.set]{fullShare} Cp4 d L fc0 fc1 fc2 fc3 fc4 fc5 fc6 fc7 fsh prev 0)
      ∗ ((q4_0 L).view.loc (thr d L) ↦[(q4_0 L).view.set]{fullShare} ISH0 d L fc0 fsh))
  | 1 => iprop(((sa1P).view.loc (thr d L) ↦[(sa1P).view.set]{fullShare} Cp4 d L fc0 fc1 fc2 fc3 fc4 fc5 fc6 fc7 fsh prev 1)
      ∗ ((q4_1 L).view.loc (thr d L) ↦[(q4_1 L).view.set]{fullShare} ISH1 d L fc1 fsh))
  | 2 => iprop(((sa2P).view.loc (thr d L) ↦[(sa2P).view.set]{fullShare} Cp4 d L fc0 fc1 fc2 fc3 fc4 fc5 fc6 fc7 fsh prev 2)
      ∗ ((q4_2 L).view.loc (thr d L) ↦[(q4_2 L).view.set]{fullShare} ISH2 d L fc2 fsh))
  | 3 => iprop(((sa3P).view.loc (thr d L) ↦[(sa3P).view.set]{fullShare} Cp4 d L fc0 fc1 fc2 fc3 fc4 fc5 fc6 fc7 fsh prev 3)
      ∗ ((q4_3 L).view.loc (thr d L) ↦[(q4_3 L).view.set]{fullShare} ISH3 d L fc3 fsh))
  | 4 => iprop(((sa4P).view.loc (thr d L) ↦[(sa4P).view.set]{fullShare} Cp4 d L fc0 fc1 fc2 fc3 fc4 fc5 fc6 fc7 fsh prev 4)
      ∗ ((q4_4 L).view.loc (thr d L) ↦[(q4_4 L).view.set]{fullShare} ISH4 d L fc4 fsh))
  | 5 => iprop(((sa5P).view.loc (thr d L) ↦[(sa5P).view.set]{fullShare} Cp4 d L fc0 fc1 fc2 fc3 fc4 fc5 fc6 fc7 fsh prev 5)
      ∗ ((q4_5 L).view.loc (thr d L) ↦[(q4_5 L).view.set]{fullShare} ISH5 d L fc5 fsh))
  | 6 => iprop(((sa6P).view.loc (thr d L) ↦[(sa6P).view.set]{fullShare} Cp4 d L fc0 fc1 fc2 fc3 fc4 fc5 fc6 fc7 fsh prev 6)
      ∗ ((q4_6 L).view.loc (thr d L) ↦[(q4_6 L).view.set]{fullShare} ISH6 d L fc6 fsh))
  | 7 => iprop(((sa7P).view.loc (thr d L) ↦[(sa7P).view.set]{fullShare} Cp4 d L fc0 fc1 fc2 fc3 fc4 fc5 fc6 fc7 fsh prev 7)
      ∗ ((q4_7 L).view.loc (thr d L) ↦[(q4_7 L).view.set]{fullShare} ISH7 d L fc7 fsh))

instance dlvS4_storable (fc0 fc1 fc2 fc3 fc4 fc5 fc6 fc7 fsh prev) (t : Fin 8) : BI.Storable (upEmb : UEmb _ 𝕄) (dlvS4 (F := F) d L fc0 fc1 fc2 fc3 fc4 fc5 fc6 fc7 fsh prev t) := by
  fin_cases t <;> (unfold dlvS4; infer_instance)

/-- Run j of the index buffer once stage 5's copy j has landed. -/
def Cp5 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → Buf (Elt F) ((sbW).view.loc (thr d L))
  | 0 => (sb0P).view.writes (Elt F) prev [⟨Rect.whole S64, ReadAs.same.apply ((q5_0 L).view.read (Elt F) (ISH0 d L fc0 fsh))⟩]
  | 1 => (sb1P).view.writes (Elt F) prev [⟨Rect.whole S64, ReadAs.same.apply ((q5_1 L).view.read (Elt F) (ISH1 d L fc1 fsh))⟩]
  | 2 => (sb2P).view.writes (Elt F) prev [⟨Rect.whole S64, ReadAs.same.apply ((q5_2 L).view.read (Elt F) (ISH2 d L fc2 fsh))⟩]
  | 3 => (sb3P).view.writes (Elt F) prev [⟨Rect.whole S64, ReadAs.same.apply ((q5_3 L).view.read (Elt F) (ISH3 d L fc3 fsh))⟩]
  | 4 => (sb4P).view.writes (Elt F) prev [⟨Rect.whole S64, ReadAs.same.apply ((q5_4 L).view.read (Elt F) (ISH4 d L fc4 fsh))⟩]
  | 5 => (sb5P).view.writes (Elt F) prev [⟨Rect.whole S64, ReadAs.same.apply ((q5_5 L).view.read (Elt F) (ISH5 d L fc5 fsh))⟩]
  | 6 => (sb6P).view.writes (Elt F) prev [⟨Rect.whole S64, ReadAs.same.apply ((q5_6 L).view.read (Elt F) (ISH6 d L fc6 fsh))⟩]
  | 7 => (sb7P).view.writes (Elt F) prev [⟨Rect.whole S64, ReadAs.same.apply ((q5_7 L).view.read (Elt F) (ISH7 d L fc7 fsh))⟩]

/-- What copy t of stage 5 delivers: run t of the index buffer holding the 64 words, and the words' run of the row back. -/
def dlvS5 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → sProp 𝕄
  | 0 => iprop(((sb0P).view.loc (thr d L) ↦[(sb0P).view.set]{fullShare} Cp5 d L fc0 fc1 fc2 fc3 fc4 fc5 fc6 fc7 fsh prev 0)
      ∗ ((q5_0 L).view.loc (thr d L) ↦[(q5_0 L).view.set]{fullShare} ISH0 d L fc0 fsh))
  | 1 => iprop(((sb1P).view.loc (thr d L) ↦[(sb1P).view.set]{fullShare} Cp5 d L fc0 fc1 fc2 fc3 fc4 fc5 fc6 fc7 fsh prev 1)
      ∗ ((q5_1 L).view.loc (thr d L) ↦[(q5_1 L).view.set]{fullShare} ISH1 d L fc1 fsh))
  | 2 => iprop(((sb2P).view.loc (thr d L) ↦[(sb2P).view.set]{fullShare} Cp5 d L fc0 fc1 fc2 fc3 fc4 fc5 fc6 fc7 fsh prev 2)
      ∗ ((q5_2 L).view.loc (thr d L) ↦[(q5_2 L).view.set]{fullShare} ISH2 d L fc2 fsh))
  | 3 => iprop(((sb3P).view.loc (thr d L) ↦[(sb3P).view.set]{fullShare} Cp5 d L fc0 fc1 fc2 fc3 fc4 fc5 fc6 fc7 fsh prev 3)
      ∗ ((q5_3 L).view.loc (thr d L) ↦[(q5_3 L).view.set]{fullShare} ISH3 d L fc3 fsh))
  | 4 => iprop(((sb4P).view.loc (thr d L) ↦[(sb4P).view.set]{fullShare} Cp5 d L fc0 fc1 fc2 fc3 fc4 fc5 fc6 fc7 fsh prev 4)
      ∗ ((q5_4 L).view.loc (thr d L) ↦[(q5_4 L).view.set]{fullShare} ISH4 d L fc4 fsh))
  | 5 => iprop(((sb5P).view.loc (thr d L) ↦[(sb5P).view.set]{fullShare} Cp5 d L fc0 fc1 fc2 fc3 fc4 fc5 fc6 fc7 fsh prev 5)
      ∗ ((q5_5 L).view.loc (thr d L) ↦[(q5_5 L).view.set]{fullShare} ISH5 d L fc5 fsh))
  | 6 => iprop(((sb6P).view.loc (thr d L) ↦[(sb6P).view.set]{fullShare} Cp5 d L fc0 fc1 fc2 fc3 fc4 fc5 fc6 fc7 fsh prev 6)
      ∗ ((q5_6 L).view.loc (thr d L) ↦[(q5_6 L).view.set]{fullShare} ISH6 d L fc6 fsh))
  | 7 => iprop(((sb7P).view.loc (thr d L) ↦[(sb7P).view.set]{fullShare} Cp5 d L fc0 fc1 fc2 fc3 fc4 fc5 fc6 fc7 fsh prev 7)
      ∗ ((q5_7 L).view.loc (thr d L) ↦[(q5_7 L).view.set]{fullShare} ISH7 d L fc7 fsh))

instance dlvS5_storable (fc0 fc1 fc2 fc3 fc4 fc5 fc6 fc7 fsh prev) (t : Fin 8) : BI.Storable (upEmb : UEmb _ 𝕄) (dlvS5 (F := F) d L fc0 fc1 fc2 fc3 fc4 fc5 fc6 fc7 fsh prev t) := by
  fin_cases t <;> (unfold dlvS5; infer_instance)

/-- Run j of the index buffer once stage 6's copy j has landed. -/
def Cp6 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → Buf (Elt F) ((saW).view.loc (thr d L))
  | 0 => (sa0P).view.writes (Elt F) prev [⟨Rect.whole S64, ReadAs.same.apply ((q6_0 L).view.read (Elt F) (ISH0 d L fc0 fsh))⟩]
  | 1 => (sa1P).view.writes (Elt F) prev [⟨Rect.whole S64, ReadAs.same.apply ((q6_1 L).view.read (Elt F) (ISH1 d L fc1 fsh))⟩]
  | 2 => (sa2P).view.writes (Elt F) prev [⟨Rect.whole S64, ReadAs.same.apply ((q6_2 L).view.read (Elt F) (ISH2 d L fc2 fsh))⟩]
  | 3 => (sa3P).view.writes (Elt F) prev [⟨Rect.whole S64, ReadAs.same.apply ((q6_3 L).view.read (Elt F) (ISH3 d L fc3 fsh))⟩]
  | 4 => (sa4P).view.writes (Elt F) prev [⟨Rect.whole S64, ReadAs.same.apply ((q6_4 L).view.read (Elt F) (ISH4 d L fc4 fsh))⟩]
  | 5 => (sa5P).view.writes (Elt F) prev [⟨Rect.whole S64, ReadAs.same.apply ((q6_5 L).view.read (Elt F) (ISH5 d L fc5 fsh))⟩]
  | 6 => (sa6P).view.writes (Elt F) prev [⟨Rect.whole S64, ReadAs.same.apply ((q6_6 L).view.read (Elt F) (ISH6 d L fc6 fsh))⟩]
  | 7 => (sa7P).view.writes (Elt F) prev [⟨Rect.whole S64, ReadAs.same.apply ((q6_7 L).view.read (Elt F) (ISH7 d L fc7 fsh))⟩]

/-- What copy t of stage 6 delivers: run t of the index buffer holding the 64 words, and the words' run of the row back. -/
def dlvS6 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((saW).view.loc (thr d L))) : Fin 8 → sProp 𝕄
  | 0 => iprop(((sa0P).view.loc (thr d L) ↦[(sa0P).view.set]{fullShare} Cp6 d L fc0 fc1 fc2 fc3 fc4 fc5 fc6 fc7 fsh prev 0)
      ∗ ((q6_0 L).view.loc (thr d L) ↦[(q6_0 L).view.set]{fullShare} ISH0 d L fc0 fsh))
  | 1 => iprop(((sa1P).view.loc (thr d L) ↦[(sa1P).view.set]{fullShare} Cp6 d L fc0 fc1 fc2 fc3 fc4 fc5 fc6 fc7 fsh prev 1)
      ∗ ((q6_1 L).view.loc (thr d L) ↦[(q6_1 L).view.set]{fullShare} ISH1 d L fc1 fsh))
  | 2 => iprop(((sa2P).view.loc (thr d L) ↦[(sa2P).view.set]{fullShare} Cp6 d L fc0 fc1 fc2 fc3 fc4 fc5 fc6 fc7 fsh prev 2)
      ∗ ((q6_2 L).view.loc (thr d L) ↦[(q6_2 L).view.set]{fullShare} ISH2 d L fc2 fsh))
  | 3 => iprop(((sa3P).view.loc (thr d L) ↦[(sa3P).view.set]{fullShare} Cp6 d L fc0 fc1 fc2 fc3 fc4 fc5 fc6 fc7 fsh prev 3)
      ∗ ((q6_3 L).view.loc (thr d L) ↦[(q6_3 L).view.set]{fullShare} ISH3 d L fc3 fsh))
  | 4 => iprop(((sa4P).view.loc (thr d L) ↦[(sa4P).view.set]{fullShare} Cp6 d L fc0 fc1 fc2 fc3 fc4 fc5 fc6 fc7 fsh prev 4)
      ∗ ((q6_4 L).view.loc (thr d L) ↦[(q6_4 L).view.set]{fullShare} ISH4 d L fc4 fsh))
  | 5 => iprop(((sa5P).view.loc (thr d L) ↦[(sa5P).view.set]{fullShare} Cp6 d L fc0 fc1 fc2 fc3 fc4 fc5 fc6 fc7 fsh prev 5)
      ∗ ((q6_5 L).view.loc (thr d L) ↦[(q6_5 L).view.set]{fullShare} ISH5 d L fc5 fsh))
  | 6 => iprop(((sa6P).view.loc (thr d L) ↦[(sa6P).view.set]{fullShare} Cp6 d L fc0 fc1 fc2 fc3 fc4 fc5 fc6 fc7 fsh prev 6)
      ∗ ((q6_6 L).view.loc (thr d L) ↦[(q6_6 L).view.set]{fullShare} ISH6 d L fc6 fsh))
  | 7 => iprop(((sa7P).view.loc (thr d L) ↦[(sa7P).view.set]{fullShare} Cp6 d L fc0 fc1 fc2 fc3 fc4 fc5 fc6 fc7 fsh prev 7)
      ∗ ((q6_7 L).view.loc (thr d L) ↦[(q6_7 L).view.set]{fullShare} ISH7 d L fc7 fsh))

instance dlvS6_storable (fc0 fc1 fc2 fc3 fc4 fc5 fc6 fc7 fsh prev) (t : Fin 8) : BI.Storable (upEmb : UEmb _ 𝕄) (dlvS6 (F := F) d L fc0 fc1 fc2 fc3 fc4 fc5 fc6 fc7 fsh prev t) := by
  fin_cases t <;> (unfold dlvS6; infer_instance)

/-- Run j of the index buffer once stage 7's copy j has landed. -/
def Cp7 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → Buf (Elt F) ((sbW).view.loc (thr d L))
  | 0 => (sb0P).view.writes (Elt F) prev [⟨Rect.whole S64, ReadAs.same.apply ((q7_0 L).view.read (Elt F) (ISH0 d L fc0 fsh))⟩]
  | 1 => (sb1P).view.writes (Elt F) prev [⟨Rect.whole S64, ReadAs.same.apply ((q7_1 L).view.read (Elt F) (ISH1 d L fc1 fsh))⟩]
  | 2 => (sb2P).view.writes (Elt F) prev [⟨Rect.whole S64, ReadAs.same.apply ((q7_2 L).view.read (Elt F) (ISH2 d L fc2 fsh))⟩]
  | 3 => (sb3P).view.writes (Elt F) prev [⟨Rect.whole S64, ReadAs.same.apply ((q7_3 L).view.read (Elt F) (ISH3 d L fc3 fsh))⟩]
  | 4 => (sb4P).view.writes (Elt F) prev [⟨Rect.whole S64, ReadAs.same.apply ((q7_4 L).view.read (Elt F) (ISH4 d L fc4 fsh))⟩]
  | 5 => (sb5P).view.writes (Elt F) prev [⟨Rect.whole S64, ReadAs.same.apply ((q7_5 L).view.read (Elt F) (ISH5 d L fc5 fsh))⟩]
  | 6 => (sb6P).view.writes (Elt F) prev [⟨Rect.whole S64, ReadAs.same.apply ((q7_6 L).view.read (Elt F) (ISH6 d L fc6 fsh))⟩]
  | 7 => (sb7P).view.writes (Elt F) prev [⟨Rect.whole S64, ReadAs.same.apply ((q7_7 L).view.read (Elt F) (ISH7 d L fc7 fsh))⟩]

/-- What copy t of stage 7 delivers: run t of the index buffer holding the 64 words, and the words' run of the row back. -/
def dlvS7 (fc0 : Buf (Elt F) ((c0S L).view.loc (thr d L))) (fc1 : Buf (Elt F) ((c1S L).view.loc (thr d L))) (fc2 : Buf (Elt F) ((c2S L).view.loc (thr d L)))
    (fc3 : Buf (Elt F) ((c3S L).view.loc (thr d L))) (fc4 : Buf (Elt F) ((c4S L).view.loc (thr d L))) (fc5 : Buf (Elt F) ((c5S L).view.loc (thr d L)))
    (fc6 : Buf (Elt F) ((c6S L).view.loc (thr d L))) (fc7 : Buf (Elt F) ((c7S L).view.loc (thr d L)))
    (fsh : Buf (Elt F) ((sh0P L).view.loc (thr d L))) (prev : Buf (Elt F) ((sbW).view.loc (thr d L))) : Fin 8 → sProp 𝕄
  | 0 => iprop(((sb0P).view.loc (thr d L) ↦[(sb0P).view.set]{fullShare} Cp7 d L fc0 fc1 fc2 fc3 fc4 fc5 fc6 fc7 fsh prev 0)
      ∗ ((q7_0 L).view.loc (thr d L) ↦[(q7_0 L).view.set]{fullShare} ISH0 d L fc0 fsh))
  | 1 => iprop(((sb1P).view.loc (thr d L) ↦[(sb1P).view.set]{fullShare} Cp7 d L fc0 fc1 fc2 fc3 fc4 fc5 fc6 fc7 fsh prev 1)
      ∗ ((q7_1 L).view.loc (thr d L) ↦[(q7_1 L).view.set]{fullShare} ISH1 d L fc1 fsh))
  | 2 => iprop(((sb2P).view.loc (thr d L) ↦[(sb2P).view.set]{fullShare} Cp7 d L fc0 fc1 fc2 fc3 fc4 fc5 fc6 fc7 fsh prev 2)
      ∗ ((q7_2 L).view.loc (thr d L) ↦[(q7_2 L).view.set]{fullShare} ISH2 d L fc2 fsh))
  | 3 => iprop(((sb3P).view.loc (thr d L) ↦[(sb3P).view.set]{fullShare} Cp7 d L fc0 fc1 fc2 fc3 fc4 fc5 fc6 fc7 fsh prev 3)
      ∗ ((q7_3 L).view.loc (thr d L) ↦[(q7_3 L).view.set]{fullShare} ISH3 d L fc3 fsh))
  | 4 => iprop(((sb4P).view.loc (thr d L) ↦[(sb4P).view.set]{fullShare} Cp7 d L fc0 fc1 fc2 fc3 fc4 fc5 fc6 fc7 fsh prev 4)
      ∗ ((q7_4 L).view.loc (thr d L) ↦[(q7_4 L).view.set]{fullShare} ISH4 d L fc4 fsh))
  | 5 => iprop(((sb5P).view.loc (thr d L) ↦[(sb5P).view.set]{fullShare} Cp7 d L fc0 fc1 fc2 fc3 fc4 fc5 fc6 fc7 fsh prev 5)
      ∗ ((q7_5 L).view.loc (thr d L) ↦[(q7_5 L).view.set]{fullShare} ISH5 d L fc5 fsh))
  | 6 => iprop(((sb6P).view.loc (thr d L) ↦[(sb6P).view.set]{fullShare} Cp7 d L fc0 fc1 fc2 fc3 fc4 fc5 fc6 fc7 fsh prev 6)
      ∗ ((q7_6 L).view.loc (thr d L) ↦[(q7_6 L).view.set]{fullShare} ISH6 d L fc6 fsh))
  | 7 => iprop(((sb7P).view.loc (thr d L) ↦[(sb7P).view.set]{fullShare} Cp7 d L fc0 fc1 fc2 fc3 fc4 fc5 fc6 fc7 fsh prev 7)
      ∗ ((q7_7 L).view.loc (thr d L) ↦[(q7_7 L).view.set]{fullShare} ISH7 d L fc7 fsh))

instance dlvS7_storable (fc0 fc1 fc2 fc3 fc4 fc5 fc6 fc7 fsh prev) (t : Fin 8) : BI.Storable (upEmb : UEmb _ 𝕄) (dlvS7 (F := F) d L fc0 fc1 fc2 fc3 fc4 fc5 fc6 fc7 fsh prev t) := by
  fin_cases t <;> (unfold dlvS7; infer_instance)

/-- One stage copy's credit. -/
abbrev NS : ℕ := (sa0P).view.amount (SemLoc.dma (sig := sig) cc0_scratch8.sem)

/-! ## What the index buffer holds in chunk k: word 64·j + r is word 512·w + 64·k + r of index column j -/

/-- The task's first row of the batch: 512·(2·subcore + core). -/
def b0 (L : grid0.Coords) : ℕ := 1024 * (L 1).val + 512 * (L 0).val

theorem b0_lt (L : grid0.Coords) (k : Fin 8) (r : ℕ) (hr : r < 64) : b0 L + 64 * k.val + r < 16384 := by
  have h1 : (L 1).val < 16 := (L 1).isLt
  have h0 : (L 0).val < 2 := (L 0).isLt
  have := k.isLt
  unfold b0; omega

/-- Chunk k's index words, as one function on the whole index buffer. -/
def SMsem (k : Fin 8) : S512.Idx → BitVec 32 :=
  fun x => cols m d ⟨(x 0).val / 64, by have h : (x 0).val < 512 := (x 0).isLt; omega⟩
    (ValueIdx.ix1 ⟨b0 L + 64 * k.val + (x 0).val % 64, b0_lt L k _ (Nat.mod_lt _ (by decide))⟩)

theorem SMsem_lt (hpre : PreOK m) (k : Fin 8) (x : S512.Idx) : (SMsem m d L k x).toNat < 32 := hpre d _ _

/-- Stage k's landed runs hold chunk k's index words (from the launch contents of the index columns). -/
def StageVal0 : Prop :=
  ∀ (fsh : Buf (Elt F) ((sh0P L).view.loc (thr d L))) (prev : Buf (Elt F) ((saW).view.loc (thr d L))) (j : Fin 8), ∀ i ∈ runS j,
    Cp0 d L (m (c0Loc d)) (m (c1Loc d)) (m (c2Loc d)) (m (c3Loc d)) (m (c4Loc d)) (m (c5Loc d)) (m (c6Loc d)) (m (c7Loc d)) fsh prev j i = SMsem m d L 0 i
def StageVal1 : Prop :=
  ∀ (fsh : Buf (Elt F) ((sh0P L).view.loc (thr d L))) (prev : Buf (Elt F) ((sbW).view.loc (thr d L))) (j : Fin 8), ∀ i ∈ runS j,
    Cp1 d L (m (c0Loc d)) (m (c1Loc d)) (m (c2Loc d)) (m (c3Loc d)) (m (c4Loc d)) (m (c5Loc d)) (m (c6Loc d)) (m (c7Loc d)) fsh prev j i = SMsem m d L 1 i
def StageVal2 : Prop :=
  ∀ (fsh : Buf (Elt F) ((sh0P L).view.loc (thr d L))) (prev : Buf (Elt F) ((saW).view.loc (thr d L))) (j : Fin 8), ∀ i ∈ runS j,
    Cp2 d L (m (c0Loc d)) (m (c1Loc d)) (m (c2Loc d)) (m (c3Loc d)) (m (c4Loc d)) (m (c5Loc d)) (m (c6Loc d)) (m (c7Loc d)) fsh prev j i = SMsem m d L 2 i
def StageVal3 : Prop :=
  ∀ (fsh : Buf (Elt F) ((sh0P L).view.loc (thr d L))) (prev : Buf (Elt F) ((sbW).view.loc (thr d L))) (j : Fin 8), ∀ i ∈ runS j,
    Cp3 d L (m (c0Loc d)) (m (c1Loc d)) (m (c2Loc d)) (m (c3Loc d)) (m (c4Loc d)) (m (c5Loc d)) (m (c6Loc d)) (m (c7Loc d)) fsh prev j i = SMsem m d L 3 i
def StageVal4 : Prop :=
  ∀ (fsh : Buf (Elt F) ((sh0P L).view.loc (thr d L))) (prev : Buf (Elt F) ((saW).view.loc (thr d L))) (j : Fin 8), ∀ i ∈ runS j,
    Cp4 d L (m (c0Loc d)) (m (c1Loc d)) (m (c2Loc d)) (m (c3Loc d)) (m (c4Loc d)) (m (c5Loc d)) (m (c6Loc d)) (m (c7Loc d)) fsh prev j i = SMsem m d L 4 i
def StageVal5 : Prop :=
  ∀ (fsh : Buf (Elt F) ((sh0P L).view.loc (thr d L))) (prev : Buf (Elt F) ((sbW).view.loc (thr d L))) (j : Fin 8), ∀ i ∈ runS j,
    Cp5 d L (m (c0Loc d)) (m (c1Loc d)) (m (c2Loc d)) (m (c3Loc d)) (m (c4Loc d)) (m (c5Loc d)) (m (c6Loc d)) (m (c7Loc d)) fsh prev j i = SMsem m d L 5 i
def StageVal6 : Prop :=
  ∀ (fsh : Buf (Elt F) ((sh0P L).view.loc (thr d L))) (prev : Buf (Elt F) ((saW).view.loc (thr d L))) (j : Fin 8), ∀ i ∈ runS j,
    Cp6 d L (m (c0Loc d)) (m (c1Loc d)) (m (c2Loc d)) (m (c3Loc d)) (m (c4Loc d)) (m (c5Loc d)) (m (c6Loc d)) (m (c7Loc d)) fsh prev j i = SMsem m d L 6 i
def StageVal7 : Prop :=
  ∀ (fsh : Buf (Elt F) ((sh0P L).view.loc (thr d L))) (prev : Buf (Elt F) ((sbW).view.loc (thr d L))) (j : Fin 8), ∀ i ∈ runS j,
    Cp7 d L (m (c0Loc d)) (m (c1Loc d)) (m (c2Loc d)) (m (c3Loc d)) (m (c4Loc d)) (m (c5Loc d)) (m (c6Loc d)) (m (c7Loc d)) fsh prev j i = SMsem m d L 7 i

end Stage

end Cert.Proof.KB

end
-- ==== Proof.KB.Fill.lean ====
import proofs.«204821_g30846455120635_fold_wed_m_1292_33_alg».proof.Proof.KB.Setup
import proofs.«204821_g30846455120635_fold_wed_m_1292_33_alg».proof.Proof.KB.Stage

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

/-- Entry 256·r + 32·j + e of a chunk's staging buffer, from the chunk's index words and the flat table: entry
    32·(word 64·j + r) + 1024·j + e of the table (reduced modulo 8192 so that it always exists). -/
def rowVal (SM : S512.Idx → BitVec 32) (TV : S8192.Idx → Elt F .f32) : S16384.Idx → Elt F .f32 :=
  fun x => TV (ValueIdx.ix1 ⟨(32 * (SM (ValueIdx.ix1 ⟨64 * ((x 0).val % 256 / 32) + (x 0).val / 256,
      by have h : (x 0).val < 16384 := (x 0).isLt; omega⟩)).toNat + 1024 * ((x 0).val % 256 / 32) + (x 0).val % 32) % 8192, Nat.mod_lt _ (by decide)⟩)

/-- The staging buffer's first `t` rows (256 entries each) are filled. -/
def Filled (SM : S512.Idx → BitVec 32) (TV : S8192.Idx → Elt F .f32) (t : ℕ) (g : S16384.Idx → Elt F .f32) : Prop :=
  ∀ x : S16384.Idx, (x 0).val < 256 * t → g x = rowVal SM TV x

theorem filled_zero (SM : S512.Idx → BitVec 32) (TV : S8192.Idx → Elt F .f32) (g : S16384.Idx → Elt F .f32) : Filled SM TV 0 g :=
  fun x h => absurd h (by omega)

section Inv
variable (d : Dev nD) (L : grid0.Coords)

/-- A fill loop's invariant: the chunk's index words, the table, and the staging buffer's first rows filled. -/
def inva (k : Fin 8) (TAB : Buf (Elt F) (tabLoc d)) (t : Nat) (_ : PUnit) : sProp 𝕄 :=
  iprop(((saW).view.loc (thr d L) ↦{fullShare} SMsem m d L k) ∗ ((tvW).view.loc (thr d L) ↦{fullShare} TAB)
    ∗ ∃ g, ((baW).view.loc (thr d L) ↦{fullShare} g) ∗ ⌜Filled (SMsem m d L k) TAB t g⌝)
def invb (k : Fin 8) (TAB : Buf (Elt F) (tabLoc d)) (t : Nat) (_ : PUnit) : sProp 𝕄 :=
  iprop(((sbW).view.loc (thr d L) ↦{fullShare} SMsem m d L k) ∗ ((tvW).view.loc (thr d L) ↦{fullShare} TAB)
    ∗ ∃ g, ((bbW).view.loc (thr d L) ↦{fullShare} g) ∗ ⌜Filled (SMsem m d L k) TAB t g⌝)

omit [FloatOps F] in
/-- A whole copy into the table scratch leaves the source's contents there. -/
theorem tv_landed (ftv : Buf (Elt F) ((tvW).view.loc (thr d L))) (TAB : Buf (Elt F) (tabLoc d)) :
    (tvW).view.write (Elt F) ftv (ReadAs.same.apply ((tbW).view.read (Elt F) TAB)) Finset.univ = TAB :=
  View.write_whole_univ _ _ _

end Inv

end Cert.Proof.KB

end
-- ==== Proof.KB.Own.lean ====
import proofs.«204821_g30846455120635_fold_wed_m_1292_33_alg».proof.Proof.KB.Setup
import proofs.«204821_g30846455120635_fold_wed_m_1292_33_alg».proof.Proof.KB.Tile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable [FloatOps F]

section Own
variable (d : Dev nD) (L : grid0.Coords)

/-- The task's six transfer semaphores. -/
abbrev cell0 : GSem nD τ sig := (thr d L, .dma cc0_scratch6.sem)
abbrev cell1 : GSem nD τ sig := (thr d L, .dma cc0_scratch7.sem)
abbrev cell2 : GSem nD τ sig := (thr d L, .dma cc0_scratch8.sem)
abbrev cell3 : GSem nD τ sig := (thr d L, .dma cc0_scratch9.sem)
abbrev cell4 : GSem nD τ sig := (thr d L, .dma cc0_scratch10.sem)
abbrev cell5 : GSem nD τ sig := (thr d L, .dma cc0_scratch11.sem)

omit [FloatOps F] in
/-- The six semaphores are among the subcore's own: they are them, at zero, and the rest. -/
theorem ownSems0_V :
    (ownSems0 (thr d L) : sProp 𝕄)
      = iprop(semVal (cell0 d L) 0 ∗ semVal (cell1 d L) 0 ∗ semVal (cell2 d L) 0 ∗ semVal (cell3 d L) 0 ∗ semVal (cell4 d L) 0 ∗ semVal (cell5 d L) 0
          ∗ bigSep (((((((ownCells (thr d L)).erase (cell0 d L)).erase (cell1 d L)).erase (cell2 d L)).erase (cell3 d L)).erase (cell4 d L)).erase (cell5 d L)) fun g => semVal g 0) := by
  unfold SparseCore.Cfg.ownSems0
  rw [SparseCore.bigSep_erase' ((mem_ownCells (g := cell0 d L)).mpr ⟨rfl, by show (SemLoc.dma cc0_scratch6.sem : SemLoc sig).isScoped .scVector = true; decide⟩),
    SparseCore.bigSep_erase' (Finset.mem_erase.mpr ⟨fun e => absurd (congrArg Prod.snd e) (show (SemLoc.dma cc0_scratch7.sem : SemLoc sig) ≠ SemLoc.dma cc0_scratch6.sem by decide), (mem_ownCells (g := cell1 d L)).mpr ⟨rfl, by show (SemLoc.dma cc0_scratch7.sem : SemLoc sig).isScoped .scVector = true; decide⟩⟩),
    SparseCore.bigSep_erase' (Finset.mem_erase.mpr ⟨fun e => absurd (congrArg Prod.snd e) (show (SemLoc.dma cc0_scratch8.sem : SemLoc sig) ≠ SemLoc.dma cc0_scratch7.sem by decide), Finset.mem_erase.mpr ⟨fun e => absurd (congrArg Prod.snd e) (show (SemLoc.dma cc0_scratch8.sem : SemLoc sig) ≠ SemLoc.dma cc0_scratch6.sem by decide), (mem_ownCells (g := cell2 d L)).mpr ⟨rfl, by show (SemLoc.dma cc0_scratch8.sem : SemLoc sig).isScoped .scVector = true; decide⟩⟩⟩),
    SparseCore.bigSep_erase' (Finset.mem_erase.mpr ⟨fun e => absurd (congrArg Prod.snd e) (show (SemLoc.dma cc0_scratch9.sem : SemLoc sig) ≠ SemLoc.dma cc0_scratch8.sem by decide), Finset.mem_erase.mpr ⟨fun e => absurd (congrArg Prod.snd e) (show (SemLoc.dma cc0_scratch9.sem : SemLoc sig) ≠ SemLoc.dma cc0_scratch7.sem by decide), Finset.mem_erase.mpr ⟨fun e => absurd (congrArg Prod.snd e) (show (SemLoc.dma cc0_scratch9.sem : SemLoc sig) ≠ SemLoc.dma cc0_scratch6.sem by decide), (mem_ownCells (g := cell3 d L)).mpr ⟨rfl, by show (SemLoc.dma cc0_scratch9.sem : SemLoc sig).isScoped .scVector = true; decide⟩⟩⟩⟩),
    SparseCore.bigSep_erase' (Finset.mem_erase.mpr ⟨fun e => absurd (congrArg Prod.snd e) (show (SemLoc.dma cc0_scratch10.sem : SemLoc sig) ≠ SemLoc.dma cc0_scratch9.sem by decide), Finset.mem_erase.mpr ⟨fun e => absurd (congrArg Prod.snd e) (show (SemLoc.dma cc0_scratch10.sem : SemLoc sig) ≠ SemLoc.dma cc0_scratch8.sem by decide), Finset.mem_erase.mpr ⟨fun e => absurd (congrArg Prod.snd e) (show (SemLoc.dma cc0_scratch10.sem : SemLoc sig) ≠ SemLoc.dma cc0_scratch7.sem by decide), Finset.mem_erase.mpr ⟨fun e => absurd (congrArg Prod.snd e) (show (SemLoc.dma cc0_scratch10.sem : SemLoc sig) ≠ SemLoc.dma cc0_scratch6.sem by decide), (mem_ownCells (g := cell4 d L)).mpr ⟨rfl, by show (SemLoc.dma cc0_scratch10.sem : SemLoc sig).isScoped .scVector = true; decide⟩⟩⟩⟩⟩),
    SparseCore.bigSep_erase' (Finset.mem_erase.mpr ⟨fun e => absurd (congrArg Prod.snd e) (show (SemLoc.dma cc0_scratch11.sem : SemLoc sig) ≠ SemLoc.dma cc0_scratch10.sem by decide), Finset.mem_erase.mpr ⟨fun e => absurd (congrArg Prod.snd e) (show (SemLoc.dma cc0_scratch11.sem : SemLoc sig) ≠ SemLoc.dma cc0_scratch9.sem by decide), Finset.mem_erase.mpr ⟨fun e => absurd (congrArg Prod.snd e) (show (SemLoc.dma cc0_scratch11.sem : SemLoc sig) ≠ SemLoc.dma cc0_scratch8.sem by decide), Finset.mem_erase.mpr ⟨fun e => absurd (congrArg Prod.snd e) (show (SemLoc.dma cc0_scratch11.sem : SemLoc sig) ≠ SemLoc.dma cc0_scratch7.sem by decide), Finset.mem_erase.mpr ⟨fun e => absurd (congrArg Prod.snd e) (show (SemLoc.dma cc0_scratch11.sem : SemLoc sig) ≠ SemLoc.dma cc0_scratch6.sem by decide), (mem_ownCells (g := cell5 d L)).mpr ⟨rfl, by show (SemLoc.dma cc0_scratch11.sem : SemLoc sig).isScoped .scVector = true; decide⟩⟩⟩⟩⟩⟩)]

omit [FloatOps F] in
/-- The five scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
          ∗ bigSep ((((((ownRefs (τ := τ) (.scVector (cV L) (jV L))).erase ((Proc.scVector (cV L) (jV L)).devRef cc0_scratch0)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩)]

omit [FloatOps F] in
theorem pts_tvW (f : Buf (Elt F) ((thr d L).loc cc0_scratch0)) :
    ((tvW).view.loc (thr d L) ↦{fullShare} f : sProp 𝕄) = ((thr d L).loc cc0_scratch0 ↦{fullShare} f) := rfl
omit [FloatOps F] in
theorem pts_saW (f : Buf (Elt F) ((thr d L).loc cc0_scratch2)) :
    ((saW).view.loc (thr d L) ↦{fullShare} f : sProp 𝕄) = ((thr d L).loc cc0_scratch2 ↦{fullShare} f) := rfl
omit [FloatOps F] in
theorem pts_sbW (f : Buf (Elt F) ((thr d L).loc cc0_scratch3)) :
    ((sbW).view.loc (thr d L) ↦{fullShare} f : sProp 𝕄) = ((thr d L).loc cc0_scratch3 ↦{fullShare} f) := rfl
omit [FloatOps F] in
theorem pts_baW (f : Buf (Elt F) ((thr d L).loc cc0_scratch4)) :
    ((baW).view.loc (thr d L) ↦{fullShare} f : sProp 𝕄) = ((thr d L).loc cc0_scratch4 ↦{fullShare} f) := rfl
omit [FloatOps F] in
theorem pts_bbW (f : Buf (Elt F) ((thr d L).loc cc0_scratch5)) :
    ((bbW).view.loc (thr d L) ↦{fullShare} f : sProp 𝕄) = ((thr d L).loc cc0_scratch5 ↦{fullShare} f) := rfl

end Own

end Cert.Proof.KB

end
-- ==== Proof.KB.Chk.lean ====
/-
  The side conditions the loop bodies assume of a word they read from scalar memory hold of every word below 32:
  the word, times 32, plus the table's offset, is a multiple of 32 and leaves room for two runs of 16 entries.
-/
import proofs.«204821_g30846455120635_fold_wed_m_1292_33_alg».proof.Proof.Gen.Kernel

namespace Cert.Proof.KB

open Cert.Kernel Cert.Kernel.Gen Idealize.ShloMosaic

/-- A word below 32 is one of the 32 literals. -/
theorem ofNat_of_lt (v : BitVec 32) (h : v.toNat < 32) : ∃ n : Fin 32, v = BitVec.ofNat 32 n.val :=
  ⟨⟨v.toNat, h⟩, BitVec.eq_of_toNat_eq (by rw [BitVec.toNat_ofNat]; exact (Nat.mod_eq_of_lt (by omega)).symm)⟩

theorem chk1_of_lt (v : BitVec 32) (h : v.toNat < 32) : k0_chk1 v := by
  obtain ⟨n, rfl⟩ := ofNat_of_lt v h
  revert n; decide
theorem chk2_of_lt (v : BitVec 32) (h : v.toNat < 32) : k0_chk2 v := by
  obtain ⟨n, rfl⟩ := ofNat_of_lt v h
  revert n; decide
theorem chk3_of_lt (v : BitVec 32) (h : v.toNat < 32) : k0_chk3 v := by
  obtain ⟨n, rfl⟩ := ofNat_of_lt v h
  revert n; decide
theorem chk4_of_lt (v : BitVec 32) (h : v.toNat < 32) : k0_chk4 v := by
  obtain ⟨n, rfl⟩ := ofNat_of_lt v h
  revert n; decide
theorem chk5_of_lt (v : BitVec 32) (h : v.toNat < 32) : k0_chk5 v := by
  obtain ⟨n, rfl⟩ := ofNat_of_lt v h
  revert n; decide
theorem chk6_of_lt (v : BitVec 32) (h : v.toNat < 32) : k0_chk6 v := by
  obtain ⟨n, rfl⟩ := ofNat_of_lt v h
  revert n; decide
theorem chk7_of_lt (v : BitVec 32) (h : v.toNat < 32) : k0_chk7 v := by
  obtain ⟨n, rfl⟩ := ofNat_of_lt v h
  revert n; decide
theorem chk8_of_lt (v : BitVec 32) (h : v.toNat < 32) : k0_chk8 v := by
  obtain ⟨n, rfl⟩ := ofNat_of_lt v h
  revert n; decide
theorem chk9_of_lt (v : BitVec 32) (h : v.toNat < 32) : k0_chk9 v := by
  obtain ⟨n, rfl⟩ := ofNat_of_lt v h
  revert n; decide
theorem chk10_of_lt (v : BitVec 32) (h : v.toNat < 32) : k0_chk10 v := by
  obtain ⟨n, rfl⟩ := ofNat_of_lt v h
  revert n; decide
theorem chk11_of_lt (v : BitVec 32) (h : v.toNat < 32) : k0_chk11 v := by
  obtain ⟨n, rfl⟩ := ofNat_of_lt v h
  revert n; decide
theorem chk12_of_lt (v : BitVec 32) (h : v.toNat < 32) : k0_chk12 v := by
  obtain ⟨n, rfl⟩ := ofNat_of_lt v h
  revert n; decide
theorem chk13_of_lt (v : BitVec 32) (h : v.toNat < 32) : k0_chk13 v := by
  obtain ⟨n, rfl⟩ := ofNat_of_lt v h
  revert n; decide
theorem chk14_of_lt (v : BitVec 32) (h : v.toNat < 32) : k0_chk14 v := by
  obtain ⟨n, rfl⟩ := ofNat_of_lt v h
  revert n; decide
theorem chk15_of_lt (v : BitVec 32) (h : v.toNat < 32) : k0_chk15 v := by
  obtain ⟨n, rfl⟩ := ofNat_of_lt v h
  revert n; decide
theorem chk16_of_lt (v : BitVec 32) (h : v.toNat < 32) : k0_chk16 v := by
  obtain ⟨n, rfl⟩ := ofNat_of_lt v h
  revert n; decide
theorem chk17_of_lt (v : BitVec 32) (h : v.toNat < 32) : k0_chk17 v := by
  obtain ⟨n, rfl⟩ := ofNat_of_lt v h
  revert n; decide
theorem chk18_of_lt (v : BitVec 32) (h : v.toNat < 32) : k0_chk18 v := by
  obtain ⟨n, rfl⟩ := ofNat_of_lt v h
  revert n; decide
theorem chk19_of_lt (v : BitVec 32) (h : v.toNat < 32) : k0_chk19 v := by
  obtain ⟨n, rfl⟩ := ofNat_of_lt v h
  revert n; decide
theorem chk20_of_lt (v : BitVec 32) (h : v.toNat < 32) : k0_chk20 v := by
  obtain ⟨n, rfl⟩ := ofNat_of_lt v h
  revert n; decide
theorem chk21_of_lt (v : BitVec 32) (h : v.toNat < 32) : k0_chk21 v := by
  obtain ⟨n, rfl⟩ := ofNat_of_lt v h
  revert n; decide
theorem chk22_of_lt (v : BitVec 32) (h : v.toNat < 32) : k0_chk22 v := by
  obtain ⟨n, rfl⟩ := ofNat_of_lt v h
  revert n; decide
theorem chk23_of_lt (v : BitVec 32) (h : v.toNat < 32) : k0_chk23 v := by
  obtain ⟨n, rfl⟩ := ofNat_of_lt v h
  revert n; decide
theorem chk24_of_lt (v : BitVec 32) (h : v.toNat < 32) : k0_chk24 v := by
  obtain ⟨n, rfl⟩ := ofNat_of_lt v h
  revert n; decide
theorem chk25_of_lt (v : BitVec 32) (h : v.toNat < 32) : k0_chk25 v := by
  obtain ⟨n, rfl⟩ := ofNat_of_lt v h
  revert n; decide
theorem chk26_of_lt (v : BitVec 32) (h : v.toNat < 32) : k0_chk26 v := by
  obtain ⟨n, rfl⟩ := ofNat_of_lt v h
  revert n; decide
theorem chk27_of_lt (v : BitVec 32) (h : v.toNat < 32) : k0_chk27 v := by
  obtain ⟨n, rfl⟩ := ofNat_of_lt v h
  revert n; decide
theorem chk28_of_lt (v : BitVec 32) (h : v.toNat < 32) : k0_chk28 v := by
  obtain ⟨n, rfl⟩ := ofNat_of_lt v h
  revert n; decide
theorem chk29_of_lt (v : BitVec 32) (h : v.toNat < 32) : k0_chk29 v := by
  obtain ⟨n, rfl⟩ := ofNat_of_lt v h
  revert n; decide
theorem chk30_of_lt (v : BitVec 32) (h : v.toNat < 32) : k0_chk30 v := by
  obtain ⟨n, rfl⟩ := ofNat_of_lt v h
  revert n; decide
theorem chk31_of_lt (v : BitVec 32) (h : v.toNat < 32) : k0_chk31 v := by
  obtain ⟨n, rfl⟩ := ofNat_of_lt v h
  revert n; decide
theorem chk32_of_lt (v : BitVec 32) (h : v.toNat < 32) : k0_chk32 v := by
  obtain ⟨n, rfl⟩ := ofNat_of_lt v h
  revert n; decide
theorem chk33_of_lt (v : BitVec 32) (h : v.toNat < 32) : k0_chk33 v := by
  obtain ⟨n, rfl⟩ := ofNat_of_lt v h
  revert n; decide
theorem chk34_of_lt (v : BitVec 32) (h : v.toNat < 32) : k0_chk34 v := by
  obtain ⟨n, rfl⟩ := ofNat_of_lt v h
  revert n; decide
theorem chk35_of_lt (v : BitVec 32) (h : v.toNat < 32) : k0_chk35 v := by
  obtain ⟨n, rfl⟩ := ofNat_of_lt v h
  revert n; decide
theorem chk36_of_lt (v : BitVec 32) (h : v.toNat < 32) : k0_chk36 v := by
  obtain ⟨n, rfl⟩ := ofNat_of_lt v h
  revert n; decide
theorem chk37_of_lt (v : BitVec 32) (h : v.toNat < 32) : k0_chk37 v := by
  obtain ⟨n, rfl⟩ := ofNat_of_lt v h
  revert n; decide
theorem chk38_of_lt (v : BitVec 32) (h : v.toNat < 32) : k0_chk38 v := by
  obtain ⟨n, rfl⟩ := ofNat_of_lt v h
  revert n; decide
theorem chk39_of_lt (v : BitVec 32) (h : v.toNat < 32) : k0_chk39 v := by
  obtain ⟨n, rfl⟩ := ofNat_of_lt v h
  revert n; decide
theorem chk40_of_lt (v : BitVec 32) (h : v.toNat < 32) : k0_chk40 v := by
  obtain ⟨n, rfl⟩ := ofNat_of_lt v h
  revert n; decide
theorem chk41_of_lt (v : BitVec 32) (h : v.toNat < 32) : k0_chk41 v := by
  obtain ⟨n, rfl⟩ := ofNat_of_lt v h
  revert n; decide
theorem chk42_of_lt (v : BitVec 32) (h : v.toNat < 32) : k0_chk42 v := by
  obtain ⟨n, rfl⟩ := ofNat_of_lt v h
  revert n; decide
theorem chk43_of_lt (v : BitVec 32) (h : v.toNat < 32) : k0_chk43 v := by
  obtain ⟨n, rfl⟩ := ofNat_of_lt v h
  revert n; decide
theorem chk44_of_lt (v : BitVec 32) (h : v.toNat < 32) : k0_chk44 v := by
  obtain ⟨n, rfl⟩ := ofNat_of_lt v h
  revert n; decide
theorem chk45_of_lt (v : BitVec 32) (h : v.toNat < 32) : k0_chk45 v := by
  obtain ⟨n, rfl⟩ := ofNat_of_lt v h
  revert n; decide
theorem chk46_of_lt (v : BitVec 32) (h : v.toNat < 32) : k0_chk46 v := by
  obtain ⟨n, rfl⟩ := ofNat_of_lt v h
  revert n; decide
theorem chk47_of_lt (v : BitVec 32) (h : v.toNat < 32) : k0_chk47 v := by
  obtain ⟨n, rfl⟩ := ofNat_of_lt v h
  revert n; decide
theorem chk48_of_lt (v : BitVec 32) (h : v.toNat < 32) : k0_chk48 v := by
  obtain ⟨n, rfl⟩ := ofNat_of_lt v h
  revert n; decide
theorem chk49_of_lt (v : BitVec 32) (h : v.toNat < 32) : k0_chk49 v := by
  obtain ⟨n, rfl⟩ := ofNat_of_lt v h
  revert n; decide
theorem chk50_of_lt (v : BitVec 32) (h : v.toNat < 32) : k0_chk50 v := by
  obtain ⟨n, rfl⟩ := ofNat_of_lt v h
  revert n; decide
theorem chk51_of_lt (v : BitVec 32) (h : v.toNat < 32) : k0_chk51 v := by
  obtain ⟨n, rfl⟩ := ofNat_of_lt v h
  revert n; decide
theorem chk52_of_lt (v : BitVec 32) (h : v.toNat < 32) : k0_chk52 v := by
  obtain ⟨n, rfl⟩ := ofNat_of_lt v h
  revert n; decide
theorem chk53_of_lt (v : BitVec 32) (h : v.toNat < 32) : k0_chk53 v := by
  obtain ⟨n, rfl⟩ := ofNat_of_lt v h
  revert n; decide
theorem chk54_of_lt (v : BitVec 32) (h : v.toNat < 32) : k0_chk54 v := by
  obtain ⟨n, rfl⟩ := ofNat_of_lt v h
  revert n; decide
theorem chk55_of_lt (v : BitVec 32) (h : v.toNat < 32) : k0_chk55 v := by
  obtain ⟨n, rfl⟩ := ofNat_of_lt v h
  revert n; decide
theorem chk56_of_lt (v : BitVec 32) (h : v.toNat < 32) : k0_chk56 v := by
  obtain ⟨n, rfl⟩ := ofNat_of_lt v h
  revert n; decide
theorem chk57_of_lt (v : BitVec 32) (h : v.toNat < 32) : k0_chk57 v := by
  obtain ⟨n, rfl⟩ := ofNat_of_lt v h
  revert n; decide
theorem chk58_of_lt (v : BitVec 32) (h : v.toNat < 32) : k0_chk58 v := by
  obtain ⟨n, rfl⟩ := ofNat_of_lt v h
  revert n; decide
theorem chk59_of_lt (v : BitVec 32) (h : v.toNat < 32) : k0_chk59 v := by
  obtain ⟨n, rfl⟩ := ofNat_of_lt v h
  revert n; decide
theorem chk60_of_lt (v : BitVec 32) (h : v.toNat < 32) : k0_chk60 v := by
  obtain ⟨n, rfl⟩ := ofNat_of_lt v h
  revert n; decide
theorem chk61_of_lt (v : BitVec 32) (h : v.toNat < 32) : k0_chk61 v := by
  obtain ⟨n, rfl⟩ := ofNat_of_lt v h
  revert n; decide
theorem chk62_of_lt (v : BitVec 32) (h : v.toNat < 32) : k0_chk62 v := by
  obtain ⟨n, rfl⟩ := ofNat_of_lt v h
  revert n; decide
theorem chk63_of_lt (v : BitVec 32) (h : v.toNat < 32) : k0_chk63 v := by
  obtain ⟨n, rfl⟩ := ofNat_of_lt v h
  revert n; decide
theorem chk64_of_lt (v : BitVec 32) (h : v.toNat < 32) : k0_chk64 v := by
  obtain ⟨n, rfl⟩ := ofNat_of_lt v h
  revert n; decide

end Cert.Proof.KB
-- ==== Proof.KB.FillStep.lean ====
/-
  One trip of a fill loop, as a statement about the staging buffer.

  A trip writes row t of the staging buffer (its 256 entries 256 t … 256 t + 255) in sixteen runs of 16 entries and
  touches nothing else. If each run's payload is the row's value there, then a buffer whose rows below t were filled
  has its rows below t + 1 filled afterwards: an entry below row t lies in no run and keeps its value; an entry of row
  t lies in the run its position names and reads that run's payload.
-/
import proofs.«204821_g30846455120635_fold_wed_m_1292_33_alg».proof.Proof.KB.Fill
import Idealize.ShloMosaic.Lib.Writes
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section FillStep

/-- The step over any list of written pieces: pieces at or after row t, each holding the row's value, together
    covering row t. -/
theorem filled_step {κ : Kind} {sp : Space} (v : View sig κ sp S16384 .f32) (SM : S512.Idx → BitVec 32)
    (TV : S8192.Idx → Elt F .f32) (t : Nat) (g : v.ty.Contents (Elt F)) (Ls : List (View.Piece (Elt F) S16384 .f32))
    (hfill : Filled SM TV t (v.read (Elt F) g))
    (hrow : ∀ p ∈ Ls, ∀ y ∈ p.1.set, 256 * t ≤ (y 0).val)
    (hG : ∀ p ∈ Ls, ∀ x : p.1.shape.Idx, p.2 x = rowVal SM TV (p.1.emb x))
    (hcov : ∀ y : S16384.Idx, 256 * t ≤ (y 0).val → (y 0).val < 256 * (t + 1) → ∃ p ∈ Ls, y ∈ p.1.set) :
    Filled SM TV (t + 1) (v.read (Elt F) (v.writes (Elt F) g Ls)) := by
  intro x hx
  by_cases h : (x 0).val < 256 * t
  · rw [View.read_writes_apply_of_forall_not_mem v g x Ls (fun p hp hy => absurd (hrow p hp x hy) (by omega))]
    exact hfill x h
  · exact View.read_writes_apply_of_pieces v g (rowVal SM TV) Ls hG x (hcov x (by omega) hx)

/-- Run n of row t: the 16 entries from 256 t + 16 n. -/
theorem run_emb (t : Nat) (n : Fin 16) (off : Fin 1 → Nat) (inb : ∀ a, off a + S16.size a ≤ S16384.size a)
    (hoff : off = ![256 * t + 16 * n.val]) (x : S16.Idx) (hlt : 256 * t + 16 * n.val + (x 0).val < 16384) :
    (Rect.unit (s := S16384) off S16.size inb).emb x = (ix1 (⟨256 * t + 16 * n.val + (x 0).val, hlt⟩ : Fin 16384) : S16384.Idx) := by
  subst hoff
  funext a
  apply Fin.ext
  obtain rfl : a = 0 := Subsingleton.elim _ _
  show 256 * t + 16 * n.val + 1 * (x 0).val = 256 * t + 16 * n.val + (x 0).val
  omega

/-- The step over a trip's sixteen runs, newest first, given their offsets and payloads in closed form. -/
theorem filled_step16 {κ : Kind} {sp : Space} (v : View sig κ sp S16384 .f32) (SM : S512.Idx → BitVec 32)
    (TV : S8192.Idx → Elt F .f32) (t : Nat) (ht : t < 64) (g : v.ty.Contents (Elt F))
    (hfill : Filled SM TV t (v.read (Elt F) g))
    (off : Fin 16 → Fin 1 → Nat) (inb : ∀ n a, off n a + S16.size a ≤ S16384.size a) (pay : Fin 16 → S16.Idx → Elt F .f32)
    (hoff : ∀ n, off n = ![256 * t + 16 * n.val])
    (hpay : ∀ (n : Fin 16) (y : S16.Idx) (hlt : 256 * t + 16 * n.val + (y 0).val < 16384),
      pay n y = rowVal SM TV (ix1 (⟨256 * t + 16 * n.val + (y 0).val, hlt⟩ : Fin 16384))) :
    Filled SM TV (t + 1) (v.read (Elt F) (v.writes (Elt F) g
      [⟨Rect.unit (s := S16384) (off 15) S16.size (inb 15), pay 15⟩,
       ⟨Rect.unit (s := S16384) (off 14) S16.size (inb 14), pay 14⟩,
       ⟨Rect.unit (s := S16384) (off 13) S16.size (inb 13), pay 13⟩,
       ⟨Rect.unit (s := S16384) (off 12) S16.size (inb 12), pay 12⟩,
       ⟨Rect.unit (s := S16384) (off 11) S16.size (inb 11), pay 11⟩,
       ⟨Rect.unit (s := S16384) (off 10) S16.size (inb 10), pay 10⟩,
       ⟨Rect.unit (s := S16384) (off 9) S16.size (inb 9), pay 9⟩,
       ⟨Rect.unit (s := S16384) (off 8) S16.size (inb 8), pay 8⟩,
       ⟨Rect.unit (s := S16384) (off 7) S16.size (inb 7), pay 7⟩,
       ⟨Rect.unit (s := S16384) (off 6) S16.size (inb 6), pay 6⟩,
       ⟨Rect.unit (s := S16384) (off 5) S16.size (inb 5), pay 5⟩,
       ⟨Rect.unit (s := S16384) (off 4) S16.size (inb 4), pay 4⟩,
       ⟨Rect.unit (s := S16384) (off 3) S16.size (inb 3), pay 3⟩,
       ⟨Rect.unit (s := S16384) (off 2) S16.size (inb 2), pay 2⟩,
       ⟨Rect.unit (s := S16384) (off 1) S16.size (inb 1), pay 1⟩,
       ⟨Rect.unit (s := S16384) (off 0) S16.size (inb 0), pay 0⟩])) := by
  have hmem : ∀ p ∈ ([⟨Rect.unit (s := S16384) (off 15) S16.size (inb 15), pay 15⟩,
       ⟨Rect.unit (s := S16384) (off 14) S16.size (inb 14), pay 14⟩,
       ⟨Rect.unit (s := S16384) (off 13) S16.size (inb 13), pay 13⟩,
       ⟨Rect.unit (s := S16384) (off 12) S16.size (inb 12), pay 12⟩,
       ⟨Rect.unit (s := S16384) (off 11) S16.size (inb 11), pay 11⟩,
       ⟨Rect.unit (s := S16384) (off 10) S16.size (inb 10), pay 10⟩,
       ⟨Rect.unit (s := S16384) (off 9) S16.size (inb 9), pay 9⟩,
       ⟨Rect.unit (s := S16384) (off 8) S16.size (inb 8), pay 8⟩,
       ⟨Rect.unit (s := S16384) (off 7) S16.size (inb 7), pay 7⟩,
       ⟨Rect.unit (s := S16384) (off 6) S16.size (inb 6), pay 6⟩,
       ⟨Rect.unit (s := S16384) (off 5) S16.size (inb 5), pay 5⟩,
       ⟨Rect.unit (s := S16384) (off 4) S16.size (inb 4), pay 4⟩,
       ⟨Rect.unit (s := S16384) (off 3) S16.size (inb 3), pay 3⟩,
       ⟨Rect.unit (s := S16384) (off 2) S16.size (inb 2), pay 2⟩,
       ⟨Rect.unit (s := S16384) (off 1) S16.size (inb 1), pay 1⟩,
       ⟨Rect.unit (s := S16384) (off 0) S16.size (inb 0), pay 0⟩] : List (View.Piece (Elt F) S16384 .f32)),
      ∃ n : Fin 16, p = ⟨Rect.unit (s := S16384) (off n) S16.size (inb n), pay n⟩ := by
    intro p hp
    simp only [List.mem_cons, List.not_mem_nil, or_false] at hp
    rcases hp with rfl | rfl | rfl | rfl | rfl | rfl | rfl | rfl | rfl | rfl | rfl | rfl | rfl | rfl | rfl | rfl
    · exact ⟨15, rfl⟩
    · exact ⟨14, rfl⟩
    · exact ⟨13, rfl⟩
    · exact ⟨12, rfl⟩
    · exact ⟨11, rfl⟩
    · exact ⟨10, rfl⟩
    · exact ⟨9, rfl⟩
    · exact ⟨8, rfl⟩
    · exact ⟨7, rfl⟩
    · exact ⟨6, rfl⟩
    · exact ⟨5, rfl⟩
    · exact ⟨4, rfl⟩
    · exact ⟨3, rfl⟩
    · exact ⟨2, rfl⟩
    · exact ⟨1, rfl⟩
    · exact ⟨0, rfl⟩
  have hxlt : ∀ (n : Fin 16) (x : S16.Idx), 256 * t + 16 * n.val + (x 0).val < 16384 := by
    intro n x
    have h1 : (x 0).val < 16 := (x 0).isLt
    have h2 := n.isLt
    omega
  refine filled_step v SM TV t g _ hfill ?_ ?_ ?_
  · intro p hp y hy
    obtain ⟨n, rfl⟩ := hmem p hp
    have hy' : y ∈ (Rect.unit (s := S16384) (off n) S16.size (inb n)).set := hy
    rw [Rect.mem_set_unit] at hy'
    have h := hy' 0
    rw [hoff n] at h
    have h' : 256 * t + 16 * n.val ≤ (y 0).val := h.1
    omega
  · intro p hp x
    obtain ⟨n, rfl⟩ := hmem p hp
    show pay n x = rowVal SM TV ((Rect.unit (s := S16384) (off n) S16.size (inb n)).emb x)
    rw [run_emb t n (off n) (inb n) (hoff n) x (hxlt n x)]
    exact hpay n x (hxlt n x)
  · intro y h1 h2
    have hn : ((y 0).val - 256 * t) / 16 < 16 := by omega
    have hin : ∀ n : Fin 16, n.val = ((y 0).val - 256 * t) / 16 → y ∈ (Rect.unit (s := S16384) (off n) S16.size (inb n)).set := by
      intro n hnv
      rw [Rect.mem_set_unit]
      intro a
      obtain rfl : a = 0 := Subsingleton.elim _ _
      rw [hoff n]
      show 256 * t + 16 * n.val ≤ (y 0).val ∧ (y 0).val < 256 * t + 16 * n.val + 16
      omega
    have key : ∀ n : Fin 16, n.val = ((y 0).val - 256 * t) / 16 →
        ∃ p ∈ ([⟨Rect.unit (s := S16384) (off 15) S16.size (inb 15), pay 15⟩,
       ⟨Rect.unit (s := S16384) (off 14) S16.size (inb 14), pay 14⟩,
       ⟨Rect.unit (s := S16384) (off 13) S16.size (inb 13), pay 13⟩,
       ⟨Rect.unit (s := S16384) (off 12) S16.size (inb 12), pay 12⟩,
       ⟨Rect.unit (s := S16384) (off 11) S16.size (inb 11), pay 11⟩,
       ⟨Rect.unit (s := S16384) (off 10) S16.size (inb 10), pay 10⟩,
       ⟨Rect.unit (s := S16384) (off 9) S16.size (inb 9), pay 9⟩,
       ⟨Rect.unit (s := S16384) (off 8) S16.size (inb 8), pay 8⟩,
       ⟨Rect.unit (s := S16384) (off 7) S16.size (inb 7), pay 7⟩,
       ⟨Rect.unit (s := S16384) (off 6) S16.size (inb 6), pay 6⟩,
       ⟨Rect.unit (s := S16384) (off 5) S16.size (inb 5), pay 5⟩,
       ⟨Rect.unit (s := S16384) (off 4) S16.size (inb 4), pay 4⟩,
       ⟨Rect.unit (s := S16384) (off 3) S16.size (inb 3), pay 3⟩,
       ⟨Rect.unit (s := S16384) (off 2) S16.size (inb 2), pay 2⟩,
       ⟨Rect.unit (s := S16384) (off 1) S16.size (inb 1), pay 1⟩,
       ⟨Rect.unit (s := S16384) (off 0) S16.size (inb 0), pay 0⟩] : List (View.Piece (Elt F) S16384 .f32)), y ∈ p.1.set := by
      intro n hnv
      refine ⟨⟨Rect.unit (s := S16384) (off n) S16.size (inb n), pay n⟩, ?_, hin n hnv⟩
      match n with
      | ⟨0, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))
      | ⟨1, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))
      | ⟨2, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))
      | ⟨3, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))
      | ⟨4, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))
      | ⟨5, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
      | ⟨6, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
      | ⟨7, _⟩ => exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))
      | ⟨8, _⟩ => exact (List.mem_cons_of_mem _ (List.mem_cons_of_mem _ (List.mem_cons_of_mem _ (List.mem_cons_of_mem _ (List.mem_cons_of_mem _ (List.mem_cons_of_mem _ (List.mem_cons_of_mem _ (List.mem_cons_self))))))))
      | ⟨9, _⟩ => exact (List.mem_cons_of_mem _ (List.mem_cons_of_mem _ (List.mem_cons_of_mem _ (List.mem_cons_of_mem _ (List.mem_cons_of_mem _ (List.mem_cons_of_mem _ (List.mem_cons_self)))))))
      | ⟨10, _⟩ => exact (List.mem_cons_of_mem _ (List.mem_cons_of_mem _ (List.mem_cons_of_mem _ (List.mem_cons_of_mem _ (List.mem_cons_of_mem _ (List.mem_cons_self))))))
      | ⟨11, _⟩ => exact (List.mem_cons_of_mem _ (List.mem_cons_of_mem _ (List.mem_cons_of_mem _ (List.mem_cons_of_mem _ (List.mem_cons_self)))))
      | ⟨12, _⟩ => exact (List.mem_cons_of_mem _ (List.mem_cons_of_mem _ (List.mem_cons_of_mem _ (List.mem_cons_self))))
      | ⟨13, _⟩ => exact (List.mem_cons_of_mem _ (List.mem_cons_of_mem _ (List.mem_cons_self)))
      | ⟨14, _⟩ => exact (List.mem_cons_of_mem _ (List.mem_cons_self))
      | ⟨15, _⟩ => exact (List.mem_cons_self)
      | ⟨k + 16, hk⟩ => exact absurd hk (by omega)
    exact key ⟨((y 0).val - 256 * t) / 16, hn⟩ rfl

end FillStep

end Cert.Proof.KB

end
-- ==== Proof.KB.TripGen.lean ====
/-
  A trip's sixteen runs in closed form.

  Trip t of a fill loop reads, for each column j, the word at 64 j + t of the chunk's index buffer; for h = 0, 1 it
  loads the 16 table entries from 32·word + 1024 j + 16 h and stores them at 256 t + 32 j + 16 h of the staging
  buffer. For a word below 32 the table offset computed in 32-bit arithmetic is that sum (no wrap), the sixteen loaded
  entries lie inside the table (so the row value's reduction modulo 8192 changes nothing), and the run's payload is
  the row's value on the run.
-/
import proofs.«204821_g30846455120635_fold_wed_m_1292_33_alg».proof.Proof.KB.FillStep
import proofs.«204821_g30846455120635_fold_wed_m_1292_33_alg».proof.Proof.KB.Chk

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section TripGen

/-! ## The row's value at an entry, by table, row and column -/

theorem tv_congr (SM : S512.Idx → BitVec 32) (TV : S8192.Idx → Elt F .f32) (a a' : Fin 512) (b b' c c' : Nat)
    (ha : a = a') (hb : b = b') (hc : c = c') :
    TV (ix1 (⟨(32 * (SM (ix1 a)).toNat + 1024 * b + c) % 8192, Nat.mod_lt _ (by decide)⟩ : Fin 8192))
      = TV (ix1 (⟨(32 * (SM (ix1 a')).toNat + 1024 * b' + c') % 8192, Nat.mod_lt _ (by decide)⟩ : Fin 8192)) := by
  subst ha hb hc; rfl

/-- Entry 256 t + 32 j + e of the staging buffer's value: the table at 32·(word 64 j + t) + 1024 j + e. -/
theorem rowVal_at (SM : S512.Idx → BitVec 32) (TV : S8192.Idx → Elt F .f32) (t j e : Nat) (ht : t < 64) (hj : j < 8)
    (he : e < 32) (hlt : 256 * t + 32 * j + e < 16384) :
    rowVal SM TV (ix1 (⟨256 * t + 32 * j + e, hlt⟩ : Fin 16384))
      = TV (ix1 (⟨(32 * (SM (ix1 (⟨64 * j + t, by omega⟩ : Fin 512))).toNat + 1024 * j + e) % 8192, Nat.mod_lt _ (by decide)⟩ : Fin 8192)) := by
  unfold rowVal
  exact tv_congr SM TV _ _ _ _ _ _
    (Fin.ext (by show 64 * ((256 * t + 32 * j + e) % 256 / 32) + (256 * t + 32 * j + e) / 256 = 64 * j + t; omega))
    (by show (256 * t + 32 * j + e) % 256 / 32 = j; omega)
    (by show (256 * t + 32 * j + e) % 32 = e; omega)

/-! ## A run's payload -/

/-- The 16 table entries loaded from 32·word + 1024 j + 16 h, for the word at 64 j + t below 32, are the row's value
    on run 2 j + h of row t. -/
theorem pay_eq (SM : S512.Idx → BitVec 32) (TAB : S8192.Idx → Elt F .f32) (t j h : Nat) (ht : t < 64) (hj : j < 8) (hh : h < 2)
    (w : BitVec 32) (hw : w = SM (ix1 (⟨64 * j + t, by omega⟩ : Fin 512))) (hSM : ∀ x, (SM x).toNat < 32)
    (offT : Fin 1 → Nat) (inbT : ∀ a, offT a + S16.size a ≤ S8192.size a) (hoffT : offT = ![32 * w.toNat + 1024 * j + 16 * h])
    (y : S16.Idx) (hlt : 256 * t + 16 * (2 * j + h) + (y 0).val < 16384) :
    View.readAt (Elt F) (tvW).view (Rect.unit (s := S8192) offT S16.size inbT).toLoadRect TAB y
      = rowVal SM TAB (ix1 (⟨256 * t + 16 * (2 * j + h) + (y 0).val, hlt⟩ : Fin 16384)) := by
  subst hoffT
  have hwlt : w.toNat < 32 := by rw [hw]; exact hSM _
  have hy : (y 0).val < 16 := (y 0).isLt
  have e1 : (⟨256 * t + 16 * (2 * j + h) + (y 0).val, hlt⟩ : Fin 16384) = ⟨256 * t + 32 * j + (16 * h + (y 0).val), by omega⟩ :=
    Fin.ext (by show 256 * t + 16 * (2 * j + h) + (y 0).val = 256 * t + 32 * j + (16 * h + (y 0).val); omega)
  rw [e1, rowVal_at SM TAB t j (16 * h + (y 0).val) ht hj (by omega) (by omega), ← hw, View.readAt_apply]
  show TAB ((Rect.unit (s := S8192) ![32 * w.toNat + 1024 * j + 16 * h] S16.size inbT).toLoadRect.idx y) = _
  refine congrArg TAB (funext fun a => Fin.ext ?_)
  obtain rfl : a = 0 := Subsingleton.elim _ _
  show 32 * w.toNat + 1024 * j + 16 * h + 1 * (y 0).val = (32 * w.toNat + 1024 * j + (16 * h + (y 0).val)) % 8192
  omega

/-! ## The word a trip reads -/

/-- The word read from the first index buffer at a one-word window is the buffer's word at the window's offset. -/
theorem word_a (SM : S512.Idx → BitVec 32) (off : Fin 1 → Nat) (inb : ∀ a, off a + S1.size a ≤ S512.size a)
    (n : Nat) (hn : n < 512) (hoff : off = ![n]) (h1 : 0 < (Rect.unit (s := S512) off S1.size inb).toLoadRect.shape.numel) :
    View.readAt (Elt F) (saW).view (Rect.unit (s := S512) off S1.size inb).toLoadRect SM (Shape.Idx.first h1)
      = SM (ix1 (⟨n, hn⟩ : Fin 512)) := by
  subst hoff
  rw [View.readAt_apply]
  show SM _ = SM _
  refine congrArg SM (funext fun (a : Fin 1) => Fin.ext ?_)
  match a with
  | ⟨0, _⟩ =>
    show n + 1 * 0 = n
    omega

/-- The same for the second index buffer. -/
theorem word_b (SM : S512.Idx → BitVec 32) (off : Fin 1 → Nat) (inb : ∀ a, off a + S1.size a ≤ S512.size a)
    (n : Nat) (hn : n < 512) (hoff : off = ![n]) (h1 : 0 < (Rect.unit (s := S512) off S1.size inb).toLoadRect.shape.numel) :
    View.readAt (Elt F) (sbW).view (Rect.unit (s := S512) off S1.size inb).toLoadRect SM (Shape.Idx.first h1)
      = SM (ix1 (⟨n, hn⟩ : Fin 512)) := by
  subst hoff
  rw [View.readAt_apply]
  show SM _ = SM _
  refine congrArg SM (funext fun (a : Fin 1) => Fin.ext ?_)
  match a with
  | ⟨0, _⟩ =>
    show n + 1 * 0 = n
    omega

/-! ## The step, with the sixteen runs given one by one -/

/-- `filled_step16` with the sixteen offsets, bounds and payloads as separate arguments (so that a goal's literal list
    fixes them). -/
theorem filled_step16' {κ : Kind} {sp : Space} (v : View sig κ sp S16384 .f32) (SM : S512.Idx → BitVec 32)
    (TV : S8192.Idx → Elt F .f32) (t : Nat) (ht : t < 64) (g : v.ty.Contents (Elt F))
    (hfill : Filled SM TV t (v.read (Elt F) g))
    (o0 : Fin 1 → Nat) (o1 : Fin 1 → Nat) (o2 : Fin 1 → Nat) (o3 : Fin 1 → Nat) (o4 : Fin 1 → Nat) (o5 : Fin 1 → Nat) (o6 : Fin 1 → Nat) (o7 : Fin 1 → Nat) (o8 : Fin 1 → Nat) (o9 : Fin 1 → Nat) (o10 : Fin 1 → Nat) (o11 : Fin 1 → Nat) (o12 : Fin 1 → Nat) (o13 : Fin 1 → Nat) (o14 : Fin 1 → Nat) (o15 : Fin 1 → Nat)
    (i0 : ∀ a, o0 a + S16.size a ≤ S16384.size a) (i1 : ∀ a, o1 a + S16.size a ≤ S16384.size a) (i2 : ∀ a, o2 a + S16.size a ≤ S16384.size a) (i3 : ∀ a, o3 a + S16.size a ≤ S16384.size a) (i4 : ∀ a, o4 a + S16.size a ≤ S16384.size a) (i5 : ∀ a, o5 a + S16.size a ≤ S16384.size a) (i6 : ∀ a, o6 a + S16.size a ≤ S16384.size a) (i7 : ∀ a, o7 a + S16.size a ≤ S16384.size a) (i8 : ∀ a, o8 a + S16.size a ≤ S16384.size a) (i9 : ∀ a, o9 a + S16.size a ≤ S16384.size a) (i10 : ∀ a, o10 a + S16.size a ≤ S16384.size a) (i11 : ∀ a, o11 a + S16.size a ≤ S16384.size a) (i12 : ∀ a, o12 a + S16.size a ≤ S16384.size a) (i13 : ∀ a, o13 a + S16.size a ≤ S16384.size a) (i14 : ∀ a, o14 a + S16.size a ≤ S16384.size a) (i15 : ∀ a, o15 a + S16.size a ≤ S16384.size a)
    (p0 : S16.Idx → Elt F .f32) (p1 : S16.Idx → Elt F .f32) (p2 : S16.Idx → Elt F .f32) (p3 : S16.Idx → Elt F .f32) (p4 : S16.Idx → Elt F .f32) (p5 : S16.Idx → Elt F .f32) (p6 : S16.Idx → Elt F .f32) (p7 : S16.Idx → Elt F .f32) (p8 : S16.Idx → Elt F .f32) (p9 : S16.Idx → Elt F .f32) (p10 : S16.Idx → Elt F .f32) (p11 : S16.Idx → Elt F .f32) (p12 : S16.Idx → Elt F .f32) (p13 : S16.Idx → Elt F .f32) (p14 : S16.Idx → Elt F .f32) (p15 : S16.Idx → Elt F .f32)
    (ho0 : o0 = ![256 * t + 16 * 0]) (ho1 : o1 = ![256 * t + 16 * 1]) (ho2 : o2 = ![256 * t + 16 * 2]) (ho3 : o3 = ![256 * t + 16 * 3]) (ho4 : o4 = ![256 * t + 16 * 4]) (ho5 : o5 = ![256 * t + 16 * 5]) (ho6 : o6 = ![256 * t + 16 * 6]) (ho7 : o7 = ![256 * t + 16 * 7]) (ho8 : o8 = ![256 * t + 16 * 8]) (ho9 : o9 = ![256 * t + 16 * 9]) (ho10 : o10 = ![256 * t + 16 * 10]) (ho11 : o11 = ![256 * t + 16 * 11]) (ho12 : o12 = ![256 * t + 16 * 12]) (ho13 : o13 = ![256 * t + 16 * 13]) (ho14 : o14 = ![256 * t + 16 * 14]) (ho15 : o15 = ![256 * t + 16 * 15])
    (hp0 : ∀ (y : S16.Idx) (hlt : 256 * t + 16 * 0 + (y 0).val < 16384), p0 y = rowVal SM TV (ix1 (⟨256 * t + 16 * 0 + (y 0).val, hlt⟩ : Fin 16384)))
    (hp1 : ∀ (y : S16.Idx) (hlt : 256 * t + 16 * 1 + (y 0).val < 16384), p1 y = rowVal SM TV (ix1 (⟨256 * t + 16 * 1 + (y 0).val, hlt⟩ : Fin 16384)))
    (hp2 : ∀ (y : S16.Idx) (hlt : 256 * t + 16 * 2 + (y 0).val < 16384), p2 y = rowVal SM TV (ix1 (⟨256 * t + 16 * 2 + (y 0).val, hlt⟩ : Fin 16384)))
    (hp3 : ∀ (y : S16.Idx) (hlt : 256 * t + 16 * 3 + (y 0).val < 16384), p3 y = rowVal SM TV (ix1 (⟨256 * t + 16 * 3 + (y 0).val, hlt⟩ : Fin 16384)))
    (hp4 : ∀ (y : S16.Idx) (hlt : 256 * t + 16 * 4 + (y 0).val < 16384), p4 y = rowVal SM TV (ix1 (⟨256 * t + 16 * 4 + (y 0).val, hlt⟩ : Fin 16384)))
    (hp5 : ∀ (y : S16.Idx) (hlt : 256 * t + 16 * 5 + (y 0).val < 16384), p5 y = rowVal SM TV (ix1 (⟨256 * t + 16 * 5 + (y 0).val, hlt⟩ : Fin 16384)))
    (hp6 : ∀ (y : S16.Idx) (hlt : 256 * t + 16 * 6 + (y 0).val < 16384), p6 y = rowVal SM TV (ix1 (⟨256 * t + 16 * 6 + (y 0).val, hlt⟩ : Fin 16384)))
    (hp7 : ∀ (y : S16.Idx) (hlt : 256 * t + 16 * 7 + (y 0).val < 16384), p7 y = rowVal SM TV (ix1 (⟨256 * t + 16 * 7 + (y 0).val, hlt⟩ : Fin 16384)))
    (hp8 : ∀ (y : S16.Idx) (hlt : 256 * t + 16 * 8 + (y 0).val < 16384), p8 y = rowVal SM TV (ix1 (⟨256 * t + 16 * 8 + (y 0).val, hlt⟩ : Fin 16384)))
    (hp9 : ∀ (y : S16.Idx) (hlt : 256 * t + 16 * 9 + (y 0).val < 16384), p9 y = rowVal SM TV (ix1 (⟨256 * t + 16 * 9 + (y 0).val, hlt⟩ : Fin 16384)))
    (hp10 : ∀ (y : S16.Idx) (hlt : 256 * t + 16 * 10 + (y 0).val < 16384), p10 y = rowVal SM TV (ix1 (⟨256 * t + 16 * 10 + (y 0).val, hlt⟩ : Fin 16384)))
    (hp11 : ∀ (y : S16.Idx) (hlt : 256 * t + 16 * 11 + (y 0).val < 16384), p11 y = rowVal SM TV (ix1 (⟨256 * t + 16 * 11 + (y 0).val, hlt⟩ : Fin 16384)))
    (hp12 : ∀ (y : S16.Idx) (hlt : 256 * t + 16 * 12 + (y 0).val < 16384), p12 y = rowVal SM TV (ix1 (⟨256 * t + 16 * 12 + (y 0).val, hlt⟩ : Fin 16384)))
    (hp13 : ∀ (y : S16.Idx) (hlt : 256 * t + 16 * 13 + (y 0).val < 16384), p13 y = rowVal SM TV (ix1 (⟨256 * t + 16 * 13 + (y 0).val, hlt⟩ : Fin 16384)))
    (hp14 : ∀ (y : S16.Idx) (hlt : 256 * t + 16 * 14 + (y 0).val < 16384), p14 y = rowVal SM TV (ix1 (⟨256 * t + 16 * 14 + (y 0).val, hlt⟩ : Fin 16384)))
    (hp15 : ∀ (y : S16.Idx) (hlt : 256 * t + 16 * 15 + (y 0).val < 16384), p15 y = rowVal SM TV (ix1 (⟨256 * t + 16 * 15 + (y 0).val, hlt⟩ : Fin 16384))) :
    Filled SM TV (t + 1) (v.read (Elt F) (v.writes (Elt F) g
      [⟨Rect.unit (s := S16384) o15 S16.size i15, p15⟩,
       ⟨Rect.unit (s := S16384) o14 S16.size i14, p14⟩,
       ⟨Rect.unit (s := S16384) o13 S16.size i13, p13⟩,
       ⟨Rect.unit (s := S16384) o12 S16.size i12, p12⟩,
       ⟨Rect.unit (s := S16384) o11 S16.size i11, p11⟩,
       ⟨Rect.unit (s := S16384) o10 S16.size i10, p10⟩,
       ⟨Rect.unit (s := S16384) o9 S16.size i9, p9⟩,
       ⟨Rect.unit (s := S16384) o8 S16.size i8, p8⟩,
       ⟨Rect.unit (s := S16384) o7 S16.size i7, p7⟩,
       ⟨Rect.unit (s := S16384) o6 S16.size i6, p6⟩,
       ⟨Rect.unit (s := S16384) o5 S16.size i5, p5⟩,
       ⟨Rect.unit (s := S16384) o4 S16.size i4, p4⟩,
       ⟨Rect.unit (s := S16384) o3 S16.size i3, p3⟩,
       ⟨Rect.unit (s := S16384) o2 S16.size i2, p2⟩,
       ⟨Rect.unit (s := S16384) o1 S16.size i1, p1⟩,
       ⟨Rect.unit (s := S16384) o0 S16.size i0, p0⟩])) := by
  refine filled_step16 v SM TV t ht g hfill ![o0, o1, o2, o3, o4, o5, o6, o7, o8, o9, o10, o11, o12, o13, o14, o15]
    (fun n => match n with
      | ⟨0, _⟩ => i0
      | ⟨1, _⟩ => i1
      | ⟨2, _⟩ => i2
      | ⟨3, _⟩ => i3
      | ⟨4, _⟩ => i4
      | ⟨5, _⟩ => i5
      | ⟨6, _⟩ => i6
      | ⟨7, _⟩ => i7
      | ⟨8, _⟩ => i8
      | ⟨9, _⟩ => i9
      | ⟨10, _⟩ => i10
      | ⟨11, _⟩ => i11
      | ⟨12, _⟩ => i12
      | ⟨13, _⟩ => i13
      | ⟨14, _⟩ => i14
      | ⟨15, _⟩ => i15
      | ⟨k + 16, hk⟩ => absurd hk (by omega))
    ![p0, p1, p2, p3, p4, p5, p6, p7, p8, p9, p10, p11, p12, p13, p14, p15]
    (fun n => match n with
      | ⟨0, _⟩ => ho0
      | ⟨1, _⟩ => ho1
      | ⟨2, _⟩ => ho2
      | ⟨3, _⟩ => ho3
      | ⟨4, _⟩ => ho4
      | ⟨5, _⟩ => ho5
      | ⟨6, _⟩ => ho6
      | ⟨7, _⟩ => ho7
      | ⟨8, _⟩ => ho8
      | ⟨9, _⟩ => ho9
      | ⟨10, _⟩ => ho10
      | ⟨11, _⟩ => ho11
      | ⟨12, _⟩ => ho12
      | ⟨13, _⟩ => ho13
      | ⟨14, _⟩ => ho14
      | ⟨15, _⟩ => ho15
      | ⟨k + 16, hk⟩ => absurd hk (by omega))
    (fun n => match n with
      | ⟨0, _⟩ => hp0
      | ⟨1, _⟩ => hp1
      | ⟨2, _⟩ => hp2
      | ⟨3, _⟩ => hp3
      | ⟨4, _⟩ => hp4
      | ⟨5, _⟩ => hp5
      | ⟨6, _⟩ => hp6
      | ⟨7, _⟩ => hp7
      | ⟨8, _⟩ => hp8
      | ⟨9, _⟩ => hp9
      | ⟨10, _⟩ => hp10
      | ⟨11, _⟩ => hp11
      | ⟨12, _⟩ => hp12
      | ⟨13, _⟩ => hp13
      | ⟨14, _⟩ => hp14
      | ⟨15, _⟩ => hp15
      | ⟨k + 16, hk⟩ => absurd hk (by omega))

end TripGen

end Cert.Proof.KB

end
-- ==== Proof.KB.TabOff.lean ====
/-
  The table offsets a trip computes from a word it read, in closed form: for a word below 32, "32·word, plus the
  column's table offset 1024 j, plus 16 h", computed in 32-bit arithmetic, is that sum as a natural number (nothing
  wraps: the sum is below 8192). Checked at each of the 32 words and both h.
-/
import proofs.«204821_g30846455120635_fold_wed_m_1292_33_alg».proof.Proof.KB.Chk

namespace Cert.Proof.KB

open Cert.Kernel Cert.Kernel.Gen Idealize.ShloMosaic

theorem tabOff27 (w : BitVec 32) (hw : w.toNat < 32) (r : Fin 2) :
    k0_off27 w (BitVec.ofNat 32 (16 * r.val)) = ![32 * w.toNat + 1024 * 0 + 16 * r.val] := by
  obtain ⟨n, rfl⟩ := ofNat_of_lt w hw
  revert n r; decide +kernel
theorem tabOff30 (w : BitVec 32) (hw : w.toNat < 32) (r : Fin 2) :
    k0_off30 w (BitVec.ofNat 32 (16 * r.val)) = ![32 * w.toNat + 1024 * 1 + 16 * r.val] := by
  obtain ⟨n, rfl⟩ := ofNat_of_lt w hw
  revert n r; decide +kernel
theorem tabOff33 (w : BitVec 32) (hw : w.toNat < 32) (r : Fin 2) :
    k0_off33 w (BitVec.ofNat 32 (16 * r.val)) = ![32 * w.toNat + 1024 * 2 + 16 * r.val] := by
  obtain ⟨n, rfl⟩ := ofNat_of_lt w hw
  revert n r; decide +kernel
theorem tabOff36 (w : BitVec 32) (hw : w.toNat < 32) (r : Fin 2) :
    k0_off36 w (BitVec.ofNat 32 (16 * r.val)) = ![32 * w.toNat + 1024 * 3 + 16 * r.val] := by
  obtain ⟨n, rfl⟩ := ofNat_of_lt w hw
  revert n r; decide +kernel
theorem tabOff39 (w : BitVec 32) (hw : w.toNat < 32) (r : Fin 2) :
    k0_off39 w (BitVec.ofNat 32 (16 * r.val)) = ![32 * w.toNat + 1024 * 4 + 16 * r.val] := by
  obtain ⟨n, rfl⟩ := ofNat_of_lt w hw
  revert n r; decide +kernel
theorem tabOff42 (w : BitVec 32) (hw : w.toNat < 32) (r : Fin 2) :
    k0_off42 w (BitVec.ofNat 32 (16 * r.val)) = ![32 * w.toNat + 1024 * 5 + 16 * r.val] := by
  obtain ⟨n, rfl⟩ := ofNat_of_lt w hw
  revert n r; decide +kernel
theorem tabOff45 (w : BitVec 32) (hw : w.toNat < 32) (r : Fin 2) :
    k0_off45 w (BitVec.ofNat 32 (16 * r.val)) = ![32 * w.toNat + 1024 * 6 + 16 * r.val] := by
  obtain ⟨n, rfl⟩ := ofNat_of_lt w hw
  revert n r; decide +kernel
theorem tabOff48 (w : BitVec 32) (hw : w.toNat < 32) (r : Fin 2) :
    k0_off48 w (BitVec.ofNat 32 (16 * r.val)) = ![32 * w.toNat + 1024 * 7 + 16 * r.val] := by
  obtain ⟨n, rfl⟩ := ofNat_of_lt w hw
  revert n r; decide +kernel
theorem tabOff60 (w : BitVec 32) (hw : w.toNat < 32) (r : Fin 2) :
    k0_off60 w (BitVec.ofNat 32 (16 * r.val)) = ![32 * w.toNat + 1024 * 0 + 16 * r.val] := by
  obtain ⟨n, rfl⟩ := ofNat_of_lt w hw
  revert n r; decide +kernel
theorem tabOff63 (w : BitVec 32) (hw : w.toNat < 32) (r : Fin 2) :
    k0_off63 w (BitVec.ofNat 32 (16 * r.val)) = ![32 * w.toNat + 1024 * 1 + 16 * r.val] := by
  obtain ⟨n, rfl⟩ := ofNat_of_lt w hw
  revert n r; decide +kernel
theorem tabOff66 (w : BitVec 32) (hw : w.toNat < 32) (r : Fin 2) :
    k0_off66 w (BitVec.ofNat 32 (16 * r.val)) = ![32 * w.toNat + 1024 * 2 + 16 * r.val] := by
  obtain ⟨n, rfl⟩ := ofNat_of_lt w hw
  revert n r; decide +kernel
theorem tabOff69 (w : BitVec 32) (hw : w.toNat < 32) (r : Fin 2) :
    k0_off69 w (BitVec.ofNat 32 (16 * r.val)) = ![32 * w.toNat + 1024 * 3 + 16 * r.val] := by
  obtain ⟨n, rfl⟩ := ofNat_of_lt w hw
  revert n r; decide +kernel
theorem tabOff72 (w : BitVec 32) (hw : w.toNat < 32) (r : Fin 2) :
    k0_off72 w (BitVec.ofNat 32 (16 * r.val)) = ![32 * w.toNat + 1024 * 4 + 16 * r.val] := by
  obtain ⟨n, rfl⟩ := ofNat_of_lt w hw
  revert n r; decide +kernel
theorem tabOff75 (w : BitVec 32) (hw : w.toNat < 32) (r : Fin 2) :
    k0_off75 w (BitVec.ofNat 32 (16 * r.val)) = ![32 * w.toNat + 1024 * 5 + 16 * r.val] := by
  obtain ⟨n, rfl⟩ := ofNat_of_lt w hw
  revert n r; decide +kernel
theorem tabOff78 (w : BitVec 32) (hw : w.toNat < 32) (r : Fin 2) :
    k0_off78 w (BitVec.ofNat 32 (16 * r.val)) = ![32 * w.toNat + 1024 * 6 + 16 * r.val] := by
  obtain ⟨n, rfl⟩ := ofNat_of_lt w hw
  revert n r; decide +kernel
theorem tabOff81 (w : BitVec 32) (hw : w.toNat < 32) (r : Fin 2) :
    k0_off81 w (BitVec.ofNat 32 (16 * r.val)) = ![32 * w.toNat + 1024 * 7 + 16 * r.val] := by
  obtain ⟨n, rfl⟩ := ofNat_of_lt w hw
  revert n r; decide +kernel
theorem tabOff92 (w : BitVec 32) (hw : w.toNat < 32) (r : Fin 2) :
    k0_off92 w (BitVec.ofNat 32 (16 * r.val)) = ![32 * w.toNat + 1024 * 0 + 16 * r.val] := by
  obtain ⟨n, rfl⟩ := ofNat_of_lt w hw
  revert n r; decide +kernel
theorem tabOff95 (w : BitVec 32) (hw : w.toNat < 32) (r : Fin 2) :
    k0_off95 w (BitVec.ofNat 32 (16 * r.val)) = ![32 * w.toNat + 1024 * 1 + 16 * r.val] := by
  obtain ⟨n, rfl⟩ := ofNat_of_lt w hw
  revert n r; decide +kernel
theorem tabOff98 (w : BitVec 32) (hw : w.toNat < 32) (r : Fin 2) :
    k0_off98 w (BitVec.ofNat 32 (16 * r.val)) = ![32 * w.toNat + 1024 * 2 + 16 * r.val] := by
  obtain ⟨n, rfl⟩ := ofNat_of_lt w hw
  revert n r; decide +kernel
theorem tabOff101 (w : BitVec 32) (hw : w.toNat < 32) (r : Fin 2) :
    k0_off101 w (BitVec.ofNat 32 (16 * r.val)) = ![32 * w.toNat + 1024 * 3 + 16 * r.val] := by
  obtain ⟨n, rfl⟩ := ofNat_of_lt w hw
  revert n r; decide +kernel
theorem tabOff104 (w : BitVec 32) (hw : w.toNat < 32) (r : Fin 2) :
    k0_off104 w (BitVec.ofNat 32 (16 * r.val)) = ![32 * w.toNat + 1024 * 4 + 16 * r.val] := by
  obtain ⟨n, rfl⟩ := ofNat_of_lt w hw
  revert n r; decide +kernel
theorem tabOff107 (w : BitVec 32) (hw : w.toNat < 32) (r : Fin 2) :
    k0_off107 w (BitVec.ofNat 32 (16 * r.val)) = ![32 * w.toNat + 1024 * 5 + 16 * r.val] := by
  obtain ⟨n, rfl⟩ := ofNat_of_lt w hw
  revert n r; decide +kernel
theorem tabOff110 (w : BitVec 32) (hw : w.toNat < 32) (r : Fin 2) :
    k0_off110 w (BitVec.ofNat 32 (16 * r.val)) = ![32 * w.toNat + 1024 * 6 + 16 * r.val] := by
  obtain ⟨n, rfl⟩ := ofNat_of_lt w hw
  revert n r; decide +kernel
theorem tabOff113 (w : BitVec 32) (hw : w.toNat < 32) (r : Fin 2) :
    k0_off113 w (BitVec.ofNat 32 (16 * r.val)) = ![32 * w.toNat + 1024 * 7 + 16 * r.val] := by
  obtain ⟨n, rfl⟩ := ofNat_of_lt w hw
  revert n r; decide +kernel
theorem tabOff124 (w : BitVec 32) (hw : w.toNat < 32) (r : Fin 2) :
    k0_off124 w (BitVec.ofNat 32 (16 * r.val)) = ![32 * w.toNat + 1024 * 0 + 16 * r.val] := by
  obtain ⟨n, rfl⟩ := ofNat_of_lt w hw
  revert n r; decide +kernel
theorem tabOff127 (w : BitVec 32) (hw : w.toNat < 32) (r : Fin 2) :
    k0_off127 w (BitVec.ofNat 32 (16 * r.val)) = ![32 * w.toNat + 1024 * 1 + 16 * r.val] := by
  obtain ⟨n, rfl⟩ := ofNat_of_lt w hw
  revert n r; decide +kernel
theorem tabOff130 (w : BitVec 32) (hw : w.toNat < 32) (r : Fin 2) :
    k0_off130 w (BitVec.ofNat 32 (16 * r.val)) = ![32 * w.toNat + 1024 * 2 + 16 * r.val] := by
  obtain ⟨n, rfl⟩ := ofNat_of_lt w hw
  revert n r; decide +kernel
theorem tabOff133 (w : BitVec 32) (hw : w.toNat < 32) (r : Fin 2) :
    k0_off133 w (BitVec.ofNat 32 (16 * r.val)) = ![32 * w.toNat + 1024 * 3 + 16 * r.val] := by
  obtain ⟨n, rfl⟩ := ofNat_of_lt w hw
  revert n r; decide +kernel
theorem tabOff136 (w : BitVec 32) (hw : w.toNat < 32) (r : Fin 2) :
    k0_off136 w (BitVec.ofNat 32 (16 * r.val)) = ![32 * w.toNat + 1024 * 4 + 16 * r.val] := by
  obtain ⟨n, rfl⟩ := ofNat_of_lt w hw
  revert n r; decide +kernel
theorem tabOff139 (w : BitVec 32) (hw : w.toNat < 32) (r : Fin 2) :
    k0_off139 w (BitVec.ofNat 32 (16 * r.val)) = ![32 * w.toNat + 1024 * 5 + 16 * r.val] := by
  obtain ⟨n, rfl⟩ := ofNat_of_lt w hw
  revert n r; decide +kernel
theorem tabOff142 (w : BitVec 32) (hw : w.toNat < 32) (r : Fin 2) :
    k0_off142 w (BitVec.ofNat 32 (16 * r.val)) = ![32 * w.toNat + 1024 * 6 + 16 * r.val] := by
  obtain ⟨n, rfl⟩ := ofNat_of_lt w hw
  revert n r; decide +kernel
theorem tabOff145 (w : BitVec 32) (hw : w.toNat < 32) (r : Fin 2) :
    k0_off145 w (BitVec.ofNat 32 (16 * r.val)) = ![32 * w.toNat + 1024 * 7 + 16 * r.val] := by
  obtain ⟨n, rfl⟩ := ofNat_of_lt w hw
  revert n r; decide +kernel
theorem tabOff156 (w : BitVec 32) (hw : w.toNat < 32) (r : Fin 2) :
    k0_off156 w (BitVec.ofNat 32 (16 * r.val)) = ![32 * w.toNat + 1024 * 0 + 16 * r.val] := by
  obtain ⟨n, rfl⟩ := ofNat_of_lt w hw
  revert n r; decide +kernel
theorem tabOff159 (w : BitVec 32) (hw : w.toNat < 32) (r : Fin 2) :
    k0_off159 w (BitVec.ofNat 32 (16 * r.val)) = ![32 * w.toNat + 1024 * 1 + 16 * r.val] := by
  obtain ⟨n, rfl⟩ := ofNat_of_lt w hw
  revert n r; decide +kernel
theorem tabOff162 (w : BitVec 32) (hw : w.toNat < 32) (r : Fin 2) :
    k0_off162 w (BitVec.ofNat 32 (16 * r.val)) = ![32 * w.toNat + 1024 * 2 + 16 * r.val] := by
  obtain ⟨n, rfl⟩ := ofNat_of_lt w hw
  revert n r; decide +kernel
theorem tabOff165 (w : BitVec 32) (hw : w.toNat < 32) (r : Fin 2) :
    k0_off165 w (BitVec.ofNat 32 (16 * r.val)) = ![32 * w.toNat + 1024 * 3 + 16 * r.val] := by
  obtain ⟨n, rfl⟩ := ofNat_of_lt w hw
  revert n r; decide +kernel
theorem tabOff168 (w : BitVec 32) (hw : w.toNat < 32) (r : Fin 2) :
    k0_off168 w (BitVec.ofNat 32 (16 * r.val)) = ![32 * w.toNat + 1024 * 4 + 16 * r.val] := by
  obtain ⟨n, rfl⟩ := ofNat_of_lt w hw
  revert n r; decide +kernel
theorem tabOff171 (w : BitVec 32) (hw : w.toNat < 32) (r : Fin 2) :
    k0_off171 w (BitVec.ofNat 32 (16 * r.val)) = ![32 * w.toNat + 1024 * 5 + 16 * r.val] := by
  obtain ⟨n, rfl⟩ := ofNat_of_lt w hw
  revert n r; decide +kernel
theorem tabOff174 (w : BitVec 32) (hw : w.toNat < 32) (r : Fin 2) :
    k0_off174 w (BitVec.ofNat 32 (16 * r.val)) = ![32 * w.toNat + 1024 * 6 + 16 * r.val] := by
  obtain ⟨n, rfl⟩ := ofNat_of_lt w hw
  revert n r; decide +kernel
theorem tabOff177 (w : BitVec 32) (hw : w.toNat < 32) (r : Fin 2) :
    k0_off177 w (BitVec.ofNat 32 (16 * r.val)) = ![32 * w.toNat + 1024 * 7 + 16 * r.val] := by
  obtain ⟨n, rfl⟩ := ofNat_of_lt w hw
  revert n r; decide +kernel
theorem tabOff188 (w : BitVec 32) (hw : w.toNat < 32) (r : Fin 2) :
    k0_off188 w (BitVec.ofNat 32 (16 * r.val)) = ![32 * w.toNat + 1024 * 0 + 16 * r.val] := by
  obtain ⟨n, rfl⟩ := ofNat_of_lt w hw
  revert n r; decide +kernel
theorem tabOff191 (w : BitVec 32) (hw : w.toNat < 32) (r : Fin 2) :
    k0_off191 w (BitVec.ofNat 32 (16 * r.val)) = ![32 * w.toNat + 1024 * 1 + 16 * r.val] := by
  obtain ⟨n, rfl⟩ := ofNat_of_lt w hw
  revert n r; decide +kernel
theorem tabOff194 (w : BitVec 32) (hw : w.toNat < 32) (r : Fin 2) :
    k0_off194 w (BitVec.ofNat 32 (16 * r.val)) = ![32 * w.toNat + 1024 * 2 + 16 * r.val] := by
  obtain ⟨n, rfl⟩ := ofNat_of_lt w hw
  revert n r; decide +kernel
theorem tabOff197 (w : BitVec 32) (hw : w.toNat < 32) (r : Fin 2) :
    k0_off197 w (BitVec.ofNat 32 (16 * r.val)) = ![32 * w.toNat + 1024 * 3 + 16 * r.val] := by
  obtain ⟨n, rfl⟩ := ofNat_of_lt w hw
  revert n r; decide +kernel
theorem tabOff200 (w : BitVec 32) (hw : w.toNat < 32) (r : Fin 2) :
    k0_off200 w (BitVec.ofNat 32 (16 * r.val)) = ![32 * w.toNat + 1024 * 4 + 16 * r.val] := by
  obtain ⟨n, rfl⟩ := ofNat_of_lt w hw
  revert n r; decide +kernel
theorem tabOff203 (w : BitVec 32) (hw : w.toNat < 32) (r : Fin 2) :
    k0_off203 w (BitVec.ofNat 32 (16 * r.val)) = ![32 * w.toNat + 1024 * 5 + 16 * r.val] := by
  obtain ⟨n, rfl⟩ := ofNat_of_lt w hw
  revert n r; decide +kernel
theorem tabOff206 (w : BitVec 32) (hw : w.toNat < 32) (r : Fin 2) :
    k0_off206 w (BitVec.ofNat 32 (16 * r.val)) = ![32 * w.toNat + 1024 * 6 + 16 * r.val] := by
  obtain ⟨n, rfl⟩ := ofNat_of_lt w hw
  revert n r; decide +kernel
theorem tabOff209 (w : BitVec 32) (hw : w.toNat < 32) (r : Fin 2) :
    k0_off209 w (BitVec.ofNat 32 (16 * r.val)) = ![32 * w.toNat + 1024 * 7 + 16 * r.val] := by
  obtain ⟨n, rfl⟩ := ofNat_of_lt w hw
  revert n r; decide +kernel
theorem tabOff220 (w : BitVec 32) (hw : w.toNat < 32) (r : Fin 2) :
    k0_off220 w (BitVec.ofNat 32 (16 * r.val)) = ![32 * w.toNat + 1024 * 0 + 16 * r.val] := by
  obtain ⟨n, rfl⟩ := ofNat_of_lt w hw
  revert n r; decide +kernel
theorem tabOff223 (w : BitVec 32) (hw : w.toNat < 32) (r : Fin 2) :
    k0_off223 w (BitVec.ofNat 32 (16 * r.val)) = ![32 * w.toNat + 1024 * 1 + 16 * r.val] := by
  obtain ⟨n, rfl⟩ := ofNat_of_lt w hw
  revert n r; decide +kernel
theorem tabOff226 (w : BitVec 32) (hw : w.toNat < 32) (r : Fin 2) :
    k0_off226 w (BitVec.ofNat 32 (16 * r.val)) = ![32 * w.toNat + 1024 * 2 + 16 * r.val] := by
  obtain ⟨n, rfl⟩ := ofNat_of_lt w hw
  revert n r; decide +kernel
theorem tabOff229 (w : BitVec 32) (hw : w.toNat < 32) (r : Fin 2) :
    k0_off229 w (BitVec.ofNat 32 (16 * r.val)) = ![32 * w.toNat + 1024 * 3 + 16 * r.val] := by
  obtain ⟨n, rfl⟩ := ofNat_of_lt w hw
  revert n r; decide +kernel
theorem tabOff232 (w : BitVec 32) (hw : w.toNat < 32) (r : Fin 2) :
    k0_off232 w (BitVec.ofNat 32 (16 * r.val)) = ![32 * w.toNat + 1024 * 4 + 16 * r.val] := by
  obtain ⟨n, rfl⟩ := ofNat_of_lt w hw
  revert n r; decide +kernel
theorem tabOff235 (w : BitVec 32) (hw : w.toNat < 32) (r : Fin 2) :
    k0_off235 w (BitVec.ofNat 32 (16 * r.val)) = ![32 * w.toNat + 1024 * 5 + 16 * r.val] := by
  obtain ⟨n, rfl⟩ := ofNat_of_lt w hw
  revert n r; decide +kernel
theorem tabOff238 (w : BitVec 32) (hw : w.toNat < 32) (r : Fin 2) :
    k0_off238 w (BitVec.ofNat 32 (16 * r.val)) = ![32 * w.toNat + 1024 * 6 + 16 * r.val] := by
  obtain ⟨n, rfl⟩ := ofNat_of_lt w hw
  revert n r; decide +kernel
theorem tabOff241 (w : BitVec 32) (hw : w.toNat < 32) (r : Fin 2) :
    k0_off241 w (BitVec.ofNat 32 (16 * r.val)) = ![32 * w.toNat + 1024 * 7 + 16 * r.val] := by
  obtain ⟨n, rfl⟩ := ofNat_of_lt w hw
  revert n r; decide +kernel
theorem tabOff244 (w : BitVec 32) (hw : w.toNat < 32) (r : Fin 2) :
    k0_off244 w (BitVec.ofNat 32 (16 * r.val)) = ![32 * w.toNat + 1024 * 0 + 16 * r.val] := by
  obtain ⟨n, rfl⟩ := ofNat_of_lt w hw
  revert n r; decide +kernel
theorem tabOff247 (w : BitVec 32) (hw : w.toNat < 32) (r : Fin 2) :
    k0_off247 w (BitVec.ofNat 32 (16 * r.val)) = ![32 * w.toNat + 1024 * 1 + 16 * r.val] := by
  obtain ⟨n, rfl⟩ := ofNat_of_lt w hw
  revert n r; decide +kernel
theorem tabOff250 (w : BitVec 32) (hw : w.toNat < 32) (r : Fin 2) :
    k0_off250 w (BitVec.ofNat 32 (16 * r.val)) = ![32 * w.toNat + 1024 * 2 + 16 * r.val] := by
  obtain ⟨n, rfl⟩ := ofNat_of_lt w hw
  revert n r; decide +kernel
theorem tabOff253 (w : BitVec 32) (hw : w.toNat < 32) (r : Fin 2) :
    k0_off253 w (BitVec.ofNat 32 (16 * r.val)) = ![32 * w.toNat + 1024 * 3 + 16 * r.val] := by
  obtain ⟨n, rfl⟩ := ofNat_of_lt w hw
  revert n r; decide +kernel
theorem tabOff256 (w : BitVec 32) (hw : w.toNat < 32) (r : Fin 2) :
    k0_off256 w (BitVec.ofNat 32 (16 * r.val)) = ![32 * w.toNat + 1024 * 4 + 16 * r.val] := by
  obtain ⟨n, rfl⟩ := ofNat_of_lt w hw
  revert n r; decide +kernel
theorem tabOff259 (w : BitVec 32) (hw : w.toNat < 32) (r : Fin 2) :
    k0_off259 w (BitVec.ofNat 32 (16 * r.val)) = ![32 * w.toNat + 1024 * 5 + 16 * r.val] := by
  obtain ⟨n, rfl⟩ := ofNat_of_lt w hw
  revert n r; decide +kernel
theorem tabOff262 (w : BitVec 32) (hw : w.toNat < 32) (r : Fin 2) :
    k0_off262 w (BitVec.ofNat 32 (16 * r.val)) = ![32 * w.toNat + 1024 * 6 + 16 * r.val] := by
  obtain ⟨n, rfl⟩ := ofNat_of_lt w hw
  revert n r; decide +kernel
theorem tabOff265 (w : BitVec 32) (hw : w.toNat < 32) (r : Fin 2) :
    k0_off265 w (BitVec.ofNat 32 (16 * r.val)) = ![32 * w.toNat + 1024 * 7 + 16 * r.val] := by
  obtain ⟨n, rfl⟩ := ofNat_of_lt w hw
  revert n r; decide +kernel

end Cert.Proof.KB
-- ==== Proof.KB.Trip0.lean ====
/-
  Trip t of fill loop 1 (chunk 0): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KB.TripGen
import proofs.«204821_g30846455120635_fold_wed_m_1292_33_alg».proof.Proof.KB.TabOff

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section Trip

theorem trip0 (hpre : PreOK m) (d : Dev nD) (L : grid0.Coords) (TAB : Buf (Elt F) (tabLoc d)) (t : Fin k0_t1_loop.trips) (acc : PUnit) :
    inva m d L 0 TAB t.val acc ⊢ wp frame (wpE (defs₀ (F := F)) 𝒱₀ (thr d L) none) Set.univ
      (k0_t1_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 t acc) (fun r => inva m d L 0 TAB (t.val + 1) r) := by
  unfold inva
  iintro ⟨Hs, Htv, %g, Hb, %hfill⟩
  have hSM := SMsem_lt m d L hpre 0
  sl_exec (disch := first | sl_exact chk1_of_lt _ (hSM _) | sl_exact chk2_of_lt _ (hSM _) | sl_exact chk3_of_lt _ (hSM _) | sl_exact chk4_of_lt _ (hSM _) | sl_exact chk5_of_lt _ (hSM _) | sl_exact chk6_of_lt _ (hSM _) | sl_exact chk7_of_lt _ (hSM _) | sl_exact chk8_of_lt _ (hSM _))
  sl_step
  isplitl [Hs]; · iexact Hs
  isplitl [Htv]; · iexact Htv
  iexists _; isplitl [Hb]; · iexact Hb
  ipureintro
  have ht : t.val < 64 := t.isLt
  refine filled_step16' (baW).view (SMsem m d L 0) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off28_eq t ⟨0, by decide⟩).trans
      (congrArg (fun x : Nat => (![x] : Fin 1 → Nat)) (show 256 * t.val + 16 * 0 = 256 * t.val + 16 * 0 by omega))
  · exact (k0_off28_eq t ⟨1, by decide⟩).trans
      (congrArg (fun x : Nat => (![x] : Fin 1 → Nat)) (show 256 * t.val + 16 * 1 = 256 * t.val + 16 * 1 by omega))
  · exact (k0_off31_eq t ⟨0, by decide⟩).trans
      (congrArg (fun x : Nat => (![x] : Fin 1 → Nat)) (show 256 * t.val + 16 * 0 + 32 = 256 * t.val + 16 * 2 by omega))
  · exact (k0_off31_eq t ⟨1, by decide⟩).trans
      (congrArg (fun x : Nat => (![x] : Fin 1 → Nat)) (show 256 * t.val + 16 * 1 + 32 = 256 * t.val + 16 * 3 by omega))
  · exact (k0_off34_eq t ⟨0, by decide⟩).trans
      (congrArg (fun x : Nat => (![x] : Fin 1 → Nat)) (show 256 * t.val + 16 * 0 + 64 = 256 * t.val + 16 * 4 by omega))
  · exact (k0_off34_eq t ⟨1, by decide⟩).trans
      (congrArg (fun x : Nat => (![x] : Fin 1 → Nat)) (show 256 * t.val + 16 * 1 + 64 = 256 * t.val + 16 * 5 by omega))
  · exact (k0_off37_eq t ⟨0, by decide⟩).trans
      (congrArg (fun x : Nat => (![x] : Fin 1 → Nat)) (show 256 * t.val + 16 * 0 + 96 = 256 * t.val + 16 * 6 by omega))
  · exact (k0_off37_eq t ⟨1, by decide⟩).trans
      (congrArg (fun x : Nat => (![x] : Fin 1 → Nat)) (show 256 * t.val + 16 * 1 + 96 = 256 * t.val + 16 * 7 by omega))
  · exact (k0_off40_eq t ⟨0, by decide⟩).trans
      (congrArg (fun x : Nat => (![x] : Fin 1 → Nat)) (show 256 * t.val + 16 * 0 + 128 = 256 * t.val + 16 * 8 by omega))
  · exact (k0_off40_eq t ⟨1, by decide⟩).trans
      (congrArg (fun x : Nat => (![x] : Fin 1 → Nat)) (show 256 * t.val + 16 * 1 + 128 = 256 * t.val + 16 * 9 by omega))
  · exact (k0_off43_eq t ⟨0, by decide⟩).trans
      (congrArg (fun x : Nat => (![x] : Fin 1 → Nat)) (show 256 * t.val + 16 * 0 + 160 = 256 * t.val + 16 * 10 by omega))
  · exact (k0_off43_eq t ⟨1, by decide⟩).trans
      (congrArg (fun x : Nat => (![x] : Fin 1 → Nat)) (show 256 * t.val + 16 * 1 + 160 = 256 * t.val + 16 * 11 by omega))
  · exact (k0_off46_eq t ⟨0, by decide⟩).trans
      (congrArg (fun x : Nat => (![x] : Fin 1 → Nat)) (show 256 * t.val + 16 * 0 + 192 = 256 * t.val + 16 * 12 by omega))
  · exact (k0_off46_eq t ⟨1, by decide⟩).trans
      (congrArg (fun x : Nat => (![x] : Fin 1 → Nat)) (show 256 * t.val + 16 * 1 + 192 = 256 * t.val + 16 * 13 by omega))
  · exact (k0_off49_eq t ⟨0, by decide⟩).trans
      (congrArg (fun x : Nat => (![x] : Fin 1 → Nat)) (show 256 * t.val + 16 * 0 + 224 = 256 * t.val + 16 * 14 by omega))
  · exact (k0_off49_eq t ⟨1, by decide⟩).trans
      (congrArg (fun x : Nat => (![x] : Fin 1 → Nat)) (show 256 * t.val + 16 * 1 + 224 = 256 * t.val + 16 * 15 by omega))
  · intro y hlt
    have hw := word_a (F := F) (SMsem m d L 0) (k0_off26 t) (k0_off26_inb t) (64 * 0 + t.val) (by omega)
      ((k0_off26_eq t).trans (congrArg (fun x : Nat => (![x] : Fin 1 → Nat)) (show t.val = 64 * 0 + t.val by omega))) Nat.one_pos
    exact pay_eq (SMsem m d L 0) TAB t.val 0 0 ht (by decide) (by decide) _ hw hSM _ _
      (tabOff27 _ (by rw [hw]; exact hSM _) ⟨0, by decide⟩) y hlt
  · intro y hlt
    have hw := word_a (F := F) (SMsem m d L 0) (k0_off26 t) (k0_off26_inb t) (64 * 0 + t.val) (by omega)
      ((k0_off26_eq t).trans (congrArg (fun x : Nat => (![x] : Fin 1 → Nat)) (show t.val = 64 * 0 + t.val by omega))) Nat.one_pos
    exact pay_eq (SMsem m d L 0) TAB t.val 0 1 ht (by decide) (by decide) _ hw hSM _ _
      (tabOff27 _ (by rw [hw]; exact hSM _) ⟨1, by decide⟩) y hlt
  · intro y hlt
    have hw := word_a (F := F) (SMsem m d L 0) (k0_off29 t) (k0_off29_inb t) (64 * 1 + t.val) (by omega)
      ((k0_off29_eq t).trans (congrArg (fun x : Nat => (![x] : Fin 1 → Nat)) (show t.val + 64 = 64 * 1 + t.val by omega))) Nat.one_pos
    exact pay_eq (SMsem m d L 0) TAB t.val 1 0 ht (by decide) (by decide) _ hw hSM _ _
      (tabOff30 _ (by rw [hw]; exact hSM _) ⟨0, by decide⟩) y hlt
  · intro y hlt
    have hw := word_a (F := F) (SMsem m d L 0) (k0_off29 t) (k0_off29_inb t) (64 * 1 + t.val) (by omega)
      ((k0_off29_eq t).trans (congrArg (fun x : Nat => (![x] : Fin 1 → Nat)) (show t.val + 64 = 64 * 1 + t.val by omega))) Nat.one_pos
    exact pay_eq (SMsem m d L 0) TAB t.val 1 1 ht (by decide) (by decide) _ hw hSM _ _
      (tabOff30 _ (by rw [hw]; exact hSM _) ⟨1, by decide⟩) y hlt
  · intro y hlt
    have hw := word_a (F := F) (SMsem m d L 0) (k0_off32 t) (k0_off32_inb t) (64 * 2 + t.val) (by omega)
      ((k0_off32_eq t).trans (congrArg (fun x : Nat => (![x] : Fin 1 → Nat)) (show t.val + 128 = 64 * 2 + t.val by omega))) Nat.one_pos
    exact pay_eq (SMsem m d L 0) TAB t.val 2 0 ht (by decide) (by decide) _ hw hSM _ _
      (tabOff33 _ (by rw [hw]; exact hSM _) ⟨0, by decide⟩) y hlt
  · intro y hlt
    have hw := word_a (F := F) (SMsem m d L 0) (k0_off32 t) (k0_off32_inb t) (64 * 2 + t.val) (by omega)
      ((k0_off32_eq t).trans (congrArg (fun x : Nat => (![x] : Fin 1 → Nat)) (show t.val + 128 = 64 * 2 + t.val by omega))) Nat.one_pos
    exact pay_eq (SMsem m d L 0) TAB t.val 2 1 ht (by decide) (by decide) _ hw hSM _ _
      (tabOff33 _ (by rw [hw]; exact hSM _) ⟨1, by decide⟩) y hlt
  · intro y hlt
    have hw := word_a (F := F) (SMsem m d L 0) (k0_off35 t) (k0_off35_inb t) (64 * 3 + t.val) (by omega)
      ((k0_off35_eq t).trans (congrArg (fun x : Nat => (![x] : Fin 1 → Nat)) (show t.val + 192 = 64 * 3 + t.val by omega))) Nat.one_pos
    exact pay_eq (SMsem m d L 0) TAB t.val 3 0 ht (by decide) (by decide) _ hw hSM _ _
      (tabOff36 _ (by rw [hw]; exact hSM _) ⟨0, by decide⟩) y hlt
  · intro y hlt
    have hw := word_a (F := F) (SMsem m d L 0) (k0_off35 t) (k0_off35_inb t) (64 * 3 + t.val) (by omega)
      ((k0_off35_eq t).trans (congrArg (fun x : Nat => (![x] : Fin 1 → Nat)) (show t.val + 192 = 64 * 3 + t.val by omega))) Nat.one_pos
    exact pay_eq (SMsem m d L 0) TAB t.val 3 1 ht (by decide) (by decide) _ hw hSM _ _
      (tabOff36 _ (by rw [hw]; exact hSM _) ⟨1, by decide⟩) y hlt
  · intro y hlt
    have hw := word_a (F := F) (SMsem m d L 0) (k0_off38 t) (k0_off38_inb t) (64 * 4 + t.val) (by omega)
      ((k0_off38_eq t).trans (congrArg (fun x : Nat => (![x] : Fin 1 → Nat)) (show t.val + 256 = 64 * 4 + t.val by omega))) Nat.one_pos
    exact pay_eq (SMsem m d L 0) TAB t.val 4 0 ht (by decide) (by decide) _ hw hSM _ _
      (tabOff39 _ (by rw [hw]; exact hSM _) ⟨0, by decide⟩) y hlt
  · intro y hlt
    have hw := word_a (F := F) (SMsem m d L 0) (k0_off38 t) (k0_off38_inb t) (64 * 4 + t.val) (by omega)
      ((k0_off38_eq t).trans (congrArg (fun x : Nat => (![x] : Fin 1 → Nat)) (show t.val + 256 = 64 * 4 + t.val by omega))) Nat.one_pos
    exact pay_eq (SMsem m d L 0) TAB t.val 4 1 ht (by decide) (by decide) _ hw hSM _ _
      (tabOff39 _ (by rw [hw]; exact hSM _) ⟨1, by decide⟩) y hlt
  · intro y hlt
    have hw := word_a (F := F) (SMsem m d L 0) (k0_off41 t) (k0_off41_inb t) (64 * 5 + t.val) (by omega)
      ((k0_off41_eq t).trans (congrArg (fun x : Nat => (![x] : Fin 1 → Nat)) (show t.val + 320 = 64 * 5 + t.val by omega))) Nat.one_pos
    exact pay_eq (SMsem m d L 0) TAB t.val 5 0 ht (by decide) (by decide) _ hw hSM _ _
      (tabOff42 _ (by rw [hw]; exact hSM _) ⟨0, by decide⟩) y hlt
  · intro y hlt
    have hw := word_a (F := F) (SMsem m d L 0) (k0_off41 t) (k0_off41_inb t) (64 * 5 + t.val) (by omega)
      ((k0_off41_eq t).trans (congrArg (fun x : Nat => (![x] : Fin 1 → Nat)) (show t.val + 320 = 64 * 5 + t.val by omega))) Nat.one_pos
    exact pay_eq (SMsem m d L 0) TAB t.val 5 1 ht (by decide) (by decide) _ hw hSM _ _
      (tabOff42 _ (by rw [hw]; exact hSM _) ⟨1, by decide⟩) y hlt
  · intro y hlt
    have hw := word_a (F := F) (SMsem m d L 0) (k0_off44 t) (k0_off44_inb t) (64 * 6 + t.val) (by omega)
      ((k0_off44_eq t).trans (congrArg (fun x : Nat => (![x] : Fin 1 → Nat)) (show t.val + 384 = 64 * 6 + t.val by omega))) Nat.one_pos
    exact pay_eq (SMsem m d L 0) TAB t.val 6 0 ht (by decide) (by decide) _ hw hSM _ _
      (tabOff45 _ (by rw [hw]; exact hSM _) ⟨0, by decide⟩) y hlt
  · intro y hlt
    have hw := word_a (F := F) (SMsem m d L 0) (k0_off44 t) (k0_off44_inb t) (64 * 6 + t.val) (by omega)
      ((k0_off44_eq t).trans (congrArg (fun x : Nat => (![x] : Fin 1 → Nat)) (show t.val + 384 = 64 * 6 + t.val by omega))) Nat.one_pos
    exact pay_eq (SMsem m d L 0) TAB t.val 6 1 ht (by decide) (by decide) _ hw hSM _ _
      (tabOff45 _ (by rw [hw]; exact hSM _) ⟨1, by decide⟩) y hlt
  · intro y hlt
    have hw := word_a (F := F) (SMsem m d L 0) (k0_off47 t) (k0_off47_inb t) (64 * 7 + t.val) (by omega)
      ((k0_off47_eq t).trans (congrArg (fun x : Nat => (![x] : Fin 1 → Nat)) (show t.val + 448 = 64 * 7 + t.val by omega))) Nat.one_pos
    exact pay_eq (SMsem m d L 0) TAB t.val 7 0 ht (by decide) (by decide) _ hw hSM _ _
      (tabOff48 _ (by rw [hw]; exact hSM _) ⟨0, by decide⟩) y hlt
  · intro y hlt
    have hw := word_a (F := F) (SMsem m d L 0) (k0_off47 t) (k0_off47_inb t) (64 * 7 + t.val) (by omega)
      ((k0_off47_eq t).trans (congrArg (fun x : Nat => (![x] : Fin 1 → Nat)) (show t.val + 448 = 64 * 7 + t.val by omega))) Nat.one_pos
    exact pay_eq (SMsem m d L 0) TAB t.val 7 1 ht (by decide) (by decide) _ hw hSM _ _
      (tabOff48 _ (by rw [hw]; exact hSM _) ⟨1, by decide⟩) y hlt

end Trip

end Cert.Proof.KB

end
-- ==== Proof.KB.Trip1.lean ====
/-
  Trip t of fill loop 2 (chunk 1): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KB.TripGen
import proofs.«204821_g30846455120635_fold_wed_m_1292_33_alg».proof.Proof.KB.TabOff

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section Trip

theorem trip1 (hpre : PreOK m) (d : Dev nD) (L : grid0.Coords) (TAB : Buf (Elt F) (tabLoc d)) (v2 : BitVec 32) (t : Fin k0_t2_loop.trips) (acc : PUnit) :
    invb m d L 1 TAB t.val acc ⊢ wp frame (wpE (defs₀ (F := F)) 𝒱₀ (thr d L) none) Set.univ
      (k0_t2_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => invb m d L 1 TAB (t.val + 1) r) := by
  unfold invb
  iintro ⟨Hs, Htv, %g, Hb, %hfill⟩
  have hSM := SMsem_lt m d L hpre 1
  sl_exec (disch := first | sl_exact chk9_of_lt _ (hSM _) | sl_exact chk10_of_lt _ (hSM _) | sl_exact chk11_of_lt _ (hSM _) | sl_exact chk12_of_lt _ (hSM _) | sl_exact chk13_of_lt _ (hSM _) | sl_exact chk14_of_lt _ (hSM _) | sl_exact chk15_of_lt _ (hSM _) | sl_exact chk16_of_lt _ (hSM _))
  sl_step
  isplitl [Hs]; · iexact Hs
  isplitl [Htv]; · iexact Htv
  iexists _; isplitl [Hb]; · iexact Hb
  ipureintro
  have ht : t.val < 64 := t.isLt
  refine filled_step16' (bbW).view (SMsem m d L 1) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off61_eq t ⟨0, by decide⟩).trans
      (congrArg (fun x : Nat => (![x] : Fin 1 → Nat)) (show 256 * t.val + 16 * 0 = 256 * t.val + 16 * 0 by omega))
  · exact (k0_off61_eq t ⟨1, by decide⟩).trans
      (congrArg (fun x : Nat => (![x] : Fin 1 → Nat)) (show 256 * t.val + 16 * 1 = 256 * t.val + 16 * 1 by omega))
  · exact (k0_off64_eq t ⟨0, by decide⟩).trans
      (congrArg (fun x : Nat => (![x] : Fin 1 → Nat)) (show 256 * t.val + 16 * 0 + 32 = 256 * t.val + 16 * 2 by omega))
  · exact (k0_off64_eq t ⟨1, by decide⟩).trans
      (congrArg (fun x : Nat => (![x] : Fin 1 → Nat)) (show 256 * t.val + 16 * 1 + 32 = 256 * t.val + 16 * 3 by omega))
  · exact (k0_off67_eq t ⟨0, by decide⟩).trans
      (congrArg (fun x : Nat => (![x] : Fin 1 → Nat)) (show 256 * t.val + 16 * 0 + 64 = 256 * t.val + 16 * 4 by omega))
  · exact (k0_off67_eq t ⟨1, by decide⟩).trans
      (congrArg (fun x : Nat => (![x] : Fin 1 → Nat)) (show 256 * t.val + 16 * 1 + 64 = 256 * t.val + 16 * 5 by omega))
  · exact (k0_off70_eq t ⟨0, by decide⟩).trans
      (congrArg (fun x : Nat => (![x] : Fin 1 → Nat)) (show 256 * t.val + 16 * 0 + 96 = 256 * t.val + 16 * 6 by omega))
  · exact (k0_off70_eq t ⟨1, by decide⟩).trans
      (congrArg (fun x : Nat => (![x] : Fin 1 → Nat)) (show 256 * t.val + 16 * 1 + 96 = 256 * t.val + 16 * 7 by omega))
  · exact (k0_off73_eq t ⟨0, by decide⟩).trans
      (congrArg (fun x : Nat => (![x] : Fin 1 → Nat)) (show 256 * t.val + 16 * 0 + 128 = 256 * t.val + 16 * 8 by omega))
  · exact (k0_off73_eq t ⟨1, by decide⟩).trans
      (congrArg (fun x : Nat => (![x] : Fin 1 → Nat)) (show 256 * t.val + 16 * 1 + 128 = 256 * t.val + 16 * 9 by omega))
  · exact (k0_off76_eq t ⟨0, by decide⟩).trans
      (congrArg (fun x : Nat => (![x] : Fin 1 → Nat)) (show 256 * t.val + 16 * 0 + 160 = 256 * t.val + 16 * 10 by omega))
  · exact (k0_off76_eq t ⟨1, by decide⟩).trans
      (congrArg (fun x : Nat => (![x] : Fin 1 → Nat)) (show 256 * t.val + 16 * 1 + 160 = 256 * t.val + 16 * 11 by omega))
  · exact (k0_off79_eq t ⟨0, by decide⟩).trans
      (congrArg (fun x : Nat => (![x] : Fin 1 → Nat)) (show 256 * t.val + 16 * 0 + 192 = 256 * t.val + 16 * 12 by omega))
  · exact (k0_off79_eq t ⟨1, by decide⟩).trans
      (congrArg (fun x : Nat => (![x] : Fin 1 → Nat)) (show 256 * t.val + 16 * 1 + 192 = 256 * t.val + 16 * 13 by omega))
  · exact (k0_off82_eq t ⟨0, by decide⟩).trans
      (congrArg (fun x : Nat => (![x] : Fin 1 → Nat)) (show 256 * t.val + 16 * 0 + 224 = 256 * t.val + 16 * 14 by omega))
  · exact (k0_off82_eq t ⟨1, by decide⟩).trans
      (congrArg (fun x : Nat => (![x] : Fin 1 → Nat)) (show 256 * t.val + 16 * 1 + 224 = 256 * t.val + 16 * 15 by omega))
  · intro y hlt
    have hw := word_b (F := F) (SMsem m d L 1) (k0_off59 t) (k0_off59_inb t) (64 * 0 + t.val) (by omega)
      ((k0_off59_eq t).trans (congrArg (fun x : Nat => (![x] : Fin 1 → Nat)) (show t.val = 64 * 0 + t.val by omega))) Nat.one_pos
    exact pay_eq (SMsem m d L 1) TAB t.val 0 0 ht (by decide) (by decide) _ hw hSM _ _
      (tabOff60 _ (by rw [hw]; exact hSM _) ⟨0, by decide⟩) y hlt
  · intro y hlt
    have hw := word_b (F := F) (SMsem m d L 1) (k0_off59 t) (k0_off59_inb t) (64 * 0 + t.val) (by omega)
      ((k0_off59_eq t).trans (congrArg (fun x : Nat => (![x] : Fin 1 → Nat)) (show t.val = 64 * 0 + t.val by omega))) Nat.one_pos
    exact pay_eq (SMsem m d L 1) TAB t.val 0 1 ht (by decide) (by decide) _ hw hSM _ _
      (tabOff60 _ (by rw [hw]; exact hSM _) ⟨1, by decide⟩) y hlt
  · intro y hlt
    have hw := word_b (F := F) (SMsem m d L 1) (k0_off62 t) (k0_off62_inb t) (64 * 1 + t.val) (by omega)
      ((k0_off62_eq t).trans (congrArg (fun x : Nat => (![x] : Fin 1 → Nat)) (show t.val + 64 = 64 * 1 + t.val by omega))) Nat.one_pos
    exact pay_eq (SMsem m d L 1) TAB t.val 1 0 ht (by decide) (by decide) _ hw hSM _ _
      (tabOff63 _ (by rw [hw]; exact hSM _) ⟨0, by decide⟩) y hlt
  · intro y hlt
    have hw := word_b (F := F) (SMsem m d L 1) (k0_off62 t) (k0_off62_inb t) (64 * 1 + t.val) (by omega)
      ((k0_off62_eq t).trans (congrArg (fun x : Nat => (![x] : Fin 1 → Nat)) (show t.val + 64 = 64 * 1 + t.val by omega))) Nat.one_pos
    exact pay_eq (SMsem m d L 1) TAB t.val 1 1 ht (by decide) (by decide) _ hw hSM _ _
      (tabOff63 _ (by rw [hw]; exact hSM _) ⟨1, by decide⟩) y hlt
  · intro y hlt
    have hw := word_b (F := F) (SMsem m d L 1) (k0_off65 t) (k0_off65_inb t) (64 * 2 + t.val) (by omega)
      ((k0_off65_eq t).trans (congrArg (fun x : Nat => (![x] : Fin 1 → Nat)) (show t.val + 128 = 64 * 2 + t.val by omega))) Nat.one_pos
    exact pay_eq (SMsem m d L 1) TAB t.val 2 0 ht (by decide) (by decide) _ hw hSM _ _
      (tabOff66 _ (by rw [hw]; exact hSM _) ⟨0, by decide⟩) y hlt
  · intro y hlt
    have hw := word_b (F := F) (SMsem m d L 1) (k0_off65 t) (k0_off65_inb t) (64 * 2 + t.val) (by omega)
      ((k0_off65_eq t).trans (congrArg (fun x : Nat => (![x] : Fin 1 → Nat)) (show t.val + 128 = 64 * 2 + t.val by omega))) Nat.one_pos
    exact pay_eq (SMsem m d L 1) TAB t.val 2 1 ht (by decide) (by decide) _ hw hSM _ _
      (tabOff66 _ (by rw [hw]; exact hSM _) ⟨1, by decide⟩) y hlt
  · intro y hlt
    have hw := word_b (F := F) (SMsem m d L 1) (k0_off68 t) (k0_off68_inb t) (64 * 3 + t.val) (by omega)
      ((k0_off68_eq t).trans (congrArg (fun x : Nat => (![x] : Fin 1 → Nat)) (show t.val + 192 = 64 * 3 + t.val by omega))) Nat.one_pos
    exact pay_eq (SMsem m d L 1) TAB t.val 3 0 ht (by decide) (by decide) _ hw hSM _ _
      (tabOff69 _ (by rw [hw]; exact hSM _) ⟨0, by decide⟩) y hlt
  · intro y hlt
    have hw := word_b (F := F) (SMsem m d L 1) (k0_off68 t) (k0_off68_inb t) (64 * 3 + t.val) (by omega)
      ((k0_off68_eq t).trans (congrArg (fun x : Nat => (![x] : Fin 1 → Nat)) (show t.val + 192 = 64 * 3 + t.val by omega))) Nat.one_pos
    exact pay_eq (SMsem m d L 1) TAB t.val 3 1 ht (by decide) (by decide) _ hw hSM _ _
      (tabOff69 _ (by rw [hw]; exact hSM _) ⟨1, by decide⟩) y hlt
  · intro y hlt
    have hw := word_b (F := F) (SMsem m d L 1) (k0_off71 t) (k0_off71_inb t) (64 * 4 + t.val) (by omega)
      ((k0_off71_eq t).trans (congrArg (fun x : Nat => (![x] : Fin 1 → Nat)) (show t.val + 256 = 64 * 4 + t.val by omega))) Nat.one_pos
    exact pay_eq (SMsem m d L 1) TAB t.val 4 0 ht (by decide) (by decide) _ hw hSM _ _
      (tabOff72 _ (by rw [hw]; exact hSM _) ⟨0, by decide⟩) y hlt
  · intro y hlt
    have hw := word_b (F := F) (SMsem m d L 1) (k0_off71 t) (k0_off71_inb t) (64 * 4 + t.val) (by omega)
      ((k0_off71_eq t).trans (congrArg (fun x : Nat => (![x] : Fin 1 → Nat)) (show t.val + 256 = 64 * 4 + t.val by omega))) Nat.one_pos
    exact pay_eq (SMsem m d L 1) TAB t.val 4 1 ht (by decide) (by decide) _ hw hSM _ _
      (tabOff72 _ (by rw [hw]; exact hSM _) ⟨1, by decide⟩) y hlt
  · intro y hlt
    have hw := word_b (F := F) (SMsem m d L 1) (k0_off74 t) (k0_off74_inb t) (64 * 5 + t.val) (by omega)
      ((k0_off74_eq t).trans (congrArg (fun x : Nat => (![x] : Fin 1 → Nat)) (show t.val + 320 = 64 * 5 + t.val by omega))) Nat.one_pos
    exact pay_eq (SMsem m d L 1) TAB t.val 5 0 ht (by decide) (by decide) _ hw hSM _ _
      (tabOff75 _ (by rw [hw]; exact hSM _) ⟨0, by decide⟩) y hlt
  · intro y hlt
    have hw := word_b (F := F) (SMsem m d L 1) (k0_off74 t) (k0_off74_inb t) (64 * 5 + t.val) (by omega)
      ((k0_off74_eq t).trans (congrArg (fun x : Nat => (![x] : Fin 1 → Nat)) (show t.val + 320 = 64 * 5 + t.val by omega))) Nat.one_pos
    exact pay_eq (SMsem m d L 1) TAB t.val 5 1 ht (by decide) (by decide) _ hw hSM _ _
      (tabOff75 _ (by rw [hw]; exact hSM _) ⟨1, by decide⟩) y hlt
  · intro y hlt
    have hw := word_b (F := F) (SMsem m d L 1) (k0_off77 t) (k0_off77_inb t) (64 * 6 + t.val) (by omega)
      ((k0_off77_eq t).trans (congrArg (fun x : Nat => (![x] : Fin 1 → Nat)) (show t.val + 384 = 64 * 6 + t.val by omega))) Nat.one_pos
    exact pay_eq (SMsem m d L 1) TAB t.val 6 0 ht (by decide) (by decide) _ hw hSM _ _
      (tabOff78 _ (by rw [hw]; exact hSM _) ⟨0, by decide⟩) y hlt
  · intro y hlt
    have hw := word_b (F := F) (SMsem m d L 1) (k0_off77 t) (k0_off77_inb t) (64 * 6 + t.val) (by omega)
      ((k0_off77_eq t).trans (congrArg (fun x : Nat => (![x] : Fin 1 → Nat)) (show t.val + 384 = 64 * 6 + t.val by omega))) Nat.one_pos
    exact pay_eq (SMsem m d L 1) TAB t.val 6 1 ht (by decide) (by decide) _ hw hSM _ _
      (tabOff78 _ (by rw [hw]; exact hSM _) ⟨1, by decide⟩) y hlt
  · intro y hlt
    have hw := word_b (F := F) (SMsem m d L 1) (k0_off80 t) (k0_off80_inb t) (64 * 7 + t.val) (by omega)
      ((k0_off80_eq t).trans (congrArg (fun x : Nat => (![x] : Fin 1 → Nat)) (show t.val + 448 = 64 * 7 + t.val by omega))) Nat.one_pos
    exact pay_eq (SMsem m d L 1) TAB t.val 7 0 ht (by decide) (by decide) _ hw hSM _ _
      (tabOff81 _ (by rw [hw]; exact hSM _) ⟨0, by decide⟩) y hlt
  · intro y hlt
    have hw := word_b (F := F) (SMsem m d L 1) (k0_off80 t) (k0_off80_inb t) (64 * 7 + t.val) (by omega)
      ((k0_off80_eq t).trans (congrArg (fun x : Nat => (![x] : Fin 1 → Nat)) (show t.val + 448 = 64 * 7 + t.val by omega))) Nat.one_pos
    exact pay_eq (SMsem m d L 1) TAB t.val 7 1 ht (by decide) (by decide) _ hw hSM _ _
      (tabOff81 _ (by rw [hw]; exact hSM _) ⟨1, by decide⟩) y hlt

end Trip

end Cert.Proof.KB

end
-- ==== Proof.KB.Trip2.lean ====
/-
  Trip t of fill loop 3 (chunk 2): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KB.TripGen
import proofs.«204821_g30846455120635_fold_wed_m_1292_33_alg».proof.Proof.KB.TabOff

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section Trip

theorem trip2 (hpre : PreOK m) (d : Dev nD) (L : grid0.Coords) (TAB : Buf (Elt F) (tabLoc d)) (v2 : BitVec 32) (t : Fin k0_t3_loop.trips) (acc : PUnit) :
    inva m d L 2 TAB t.val acc ⊢ wp frame (wpE (defs₀ (F := F)) 𝒱₀ (thr d L) none) Set.univ
      (k0_t3_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => inva m d L 2 TAB (t.val + 1) r) := by
  unfold inva
  iintro ⟨Hs, Htv, %g, Hb, %hfill⟩
  have hSM := SMsem_lt m d L hpre 2
  sl_exec (disch := first | sl_exact chk17_of_lt _ (hSM _) | sl_exact chk18_of_lt _ (hSM _) | sl_exact chk19_of_lt _ (hSM _) | sl_exact chk20_of_lt _ (hSM _) | sl_exact chk21_of_lt _ (hSM _) | sl_exact chk22_of_lt _ (hSM _) | sl_exact chk23_of_lt _ (hSM _) | sl_exact chk24_of_lt _ (hSM _))
  sl_step
  isplitl [Hs]; · iexact Hs
  isplitl [Htv]; · iexact Htv
  iexists _; isplitl [Hb]; · iexact Hb
  ipureintro
  have ht : t.val < 64 := t.isLt
  refine filled_step16' (baW).view (SMsem m d L 2) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off93_eq t ⟨0, by decide⟩).trans
      (congrArg (fun x : Nat => (![x] : Fin 1 → Nat)) (show 256 * t.val + 16 * 0 = 256 * t.val + 16 * 0 by omega))
  · exact (k0_off93_eq t ⟨1, by decide⟩).trans
      (congrArg (fun x : Nat => (![x] : Fin 1 → Nat)) (show 256 * t.val + 16 * 1 = 256 * t.val + 16 * 1 by omega))
  · exact (k0_off96_eq t ⟨0, by decide⟩).trans
      (congrArg (fun x : Nat => (![x] : Fin 1 → Nat)) (show 256 * t.val + 16 * 0 + 32 = 256 * t.val + 16 * 2 by omega))
  · exact (k0_off96_eq t ⟨1, by decide⟩).trans
      (congrArg (fun x : Nat => (![x] : Fin 1 → Nat)) (show 256 * t.val + 16 * 1 + 32 = 256 * t.val + 16 * 3 by omega))
  · exact (k0_off99_eq t ⟨0, by decide⟩).trans
      (congrArg (fun x : Nat => (![x] : Fin 1 → Nat)) (show 256 * t.val + 16 * 0 + 64 = 256 * t.val + 16 * 4 by omega))
  · exact (k0_off99_eq t ⟨1, by decide⟩).trans
      (congrArg (fun x : Nat => (![x] : Fin 1 → Nat)) (show 256 * t.val + 16 * 1 + 64 = 256 * t.val + 16 * 5 by omega))
  · exact (k0_off102_eq t ⟨0, by decide⟩).trans
      (congrArg (fun x : Nat => (![x] : Fin 1 → Nat)) (show 256 * t.val + 16 * 0 + 96 = 256 * t.val + 16 * 6 by omega))
  · exact (k0_off102_eq t ⟨1, by decide⟩).trans
      (congrArg (fun x : Nat => (![x] : Fin 1 → Nat)) (show 256 * t.val + 16 * 1 + 96 = 256 * t.val + 16 * 7 by omega))
  · exact (k0_off105_eq t ⟨0, by decide⟩).trans
      (congrArg (fun x : Nat => (![x] : Fin 1 → Nat)) (show 256 * t.val + 16 * 0 + 128 = 256 * t.val + 16 * 8 by omega))
  · exact (k0_off105_eq t ⟨1, by decide⟩).trans
      (congrArg (fun x : Nat => (![x] : Fin 1 → Nat)) (show 256 * t.val + 16 * 1 + 128 = 256 * t.val + 16 * 9 by omega))
  · exact (k0_off108_eq t ⟨0, by decide⟩).trans
      (congrArg (fun x : Nat => (![x] : Fin 1 → Nat)) (show 256 * t.val + 16 * 0 + 160 = 256 * t.val + 16 * 10 by omega))
  · exact (k0_off108_eq t ⟨1, by decide⟩).trans
      (congrArg (fun x : Nat => (![x] : Fin 1 → Nat)) (show 256 * t.val + 16 * 1 + 160 = 256 * t.val + 16 * 11 by omega))
  · exact (k0_off111_eq t ⟨0, by decide⟩).trans
      (congrArg (fun x : Nat => (![x] : Fin 1 → Nat)) (show 256 * t.val + 16 * 0 + 192 = 256 * t.val + 16 * 12 by omega))
  · exact (k0_off111_eq t ⟨1, by decide⟩).trans
      (congrArg (fun x : Nat => (![x] : Fin 1 → Nat)) (show 256 * t.val + 16 * 1 + 192 = 256 * t.val + 16 * 13 by omega))
  · exact (k0_off114_eq t ⟨0, by decide⟩).trans
      (congrArg (fun x : Nat => (![x] : Fin 1 → Nat)) (show 256 * t.val + 16 * 0 + 224 = 256 * t.val + 16 * 14 by omega))
  · exact (k0_off114_eq t ⟨1, by decide⟩).trans
      (congrArg (fun x : Nat => (![x] : Fin 1 → Nat)) (show 256 * t.val + 16 * 1 + 224 = 256 * t.val + 16 * 15 by omega))
  · intro y hlt
    have hw := word_a (F := F) (SMsem m d L 2) (k0_off91 t) (k0_off91_inb t) (64 * 0 + t.val) (by omega)
      ((k0_off91_eq t).trans (congrArg (fun x : Nat => (![x] : Fin 1 → Nat)) (show t.val = 64 * 0 + t.val by omega))) Nat.one_pos
    exact pay_eq (SMsem m d L 2) TAB t.val 0 0 ht (by decide) (by decide) _ hw hSM _ _
      (tabOff92 _ (by rw [hw]; exact hSM _) ⟨0, by decide⟩) y hlt
  · intro y hlt
    have hw := word_a (F := F) (SMsem m d L 2) (k0_off91 t) (k0_off91_inb t) (64 * 0 + t.val) (by omega)
      ((k0_off91_eq t).trans (congrArg (fun x : Nat => (![x] : Fin 1 → Nat)) (show t.val = 64 * 0 + t.val by omega))) Nat.one_pos
    exact pay_eq (SMsem m d L 2) TAB t.val 0 1 ht (by decide) (by decide) _ hw hSM _ _
      (tabOff92 _ (by rw [hw]; exact hSM _) ⟨1, by decide⟩) y hlt
  · intro y hlt
    have hw := word_a (F := F) (SMsem m d L 2) (k0_off94 t) (k0_off94_inb t) (64 * 1 + t.val) (by omega)
      ((k0_off94_eq t).trans (congrArg (fun x : Nat => (![x] : Fin 1 → Nat)) (show t.val + 64 = 64 * 1 + t.val by omega))) Nat.one_pos
    exact pay_eq (SMsem m d L 2) TAB t.val 1 0 ht (by decide) (by decide) _ hw hSM _ _
      (tabOff95 _ (by rw [hw]; exact hSM _) ⟨0, by decide⟩) y hlt
  · intro y hlt
    have hw := word_a (F := F) (SMsem m d L 2) (k0_off94 t) (k0_off94_inb t) (64 * 1 + t.val) (by omega)
      ((k0_off94_eq t).trans (congrArg (fun x : Nat => (![x] : Fin 1 → Nat)) (show t.val + 64 = 64 * 1 + t.val by omega))) Nat.one_pos
    exact pay_eq (SMsem m d L 2) TAB t.val 1 1 ht (by decide) (by decide) _ hw hSM _ _
      (tabOff95 _ (by rw [hw]; exact hSM _) ⟨1, by decide⟩) y hlt
  · intro y hlt
    have hw := word_a (F := F) (SMsem m d L 2) (k0_off97 t) (k0_off97_inb t) (64 * 2 + t.val) (by omega)
      ((k0_off97_eq t).trans (congrArg (fun x : Nat => (![x] : Fin 1 → Nat)) (show t.val + 128 = 64 * 2 + t.val by omega))) Nat.one_pos
    exact pay_eq (SMsem m d L 2) TAB t.val 2 0 ht (by decide) (by decide) _ hw hSM _ _
      (tabOff98 _ (by rw [hw]; exact hSM _) ⟨0, by decide⟩) y hlt
  · intro y hlt
    have hw := word_a (F := F) (SMsem m d L 2) (k0_off97 t) (k0_off97_inb t) (64 * 2 + t.val) (by omega)
      ((k0_off97_eq t).trans (congrArg (fun x : Nat => (![x] : Fin 1 → Nat)) (show t.val + 128 = 64 * 2 + t.val by omega))) Nat.one_pos
    exact pay_eq (SMsem m d L 2) TAB t.val 2 1 ht (by decide) (by decide) _ hw hSM _ _
      (tabOff98 _ (by rw [hw]; exact hSM _) ⟨1, by decide⟩) y hlt
  · intro y hlt
    have hw := word_a (F := F) (SMsem m d L 2) (k0_off100 t) (k0_off100_inb t) (64 * 3 + t.val) (by omega)
      ((k0_off100_eq t).trans (congrArg (fun x : Nat => (![x] : Fin 1 → Nat)) (show t.val + 192 = 64 * 3 + t.val by omega))) Nat.one_pos
    exact pay_eq (SMsem m d L 2) TAB t.val 3 0 ht (by decide) (by decide) _ hw hSM _ _
      (tabOff101 _ (by rw [hw]; exact hSM _) ⟨0, by decide⟩) y hlt
  · intro y hlt
    have hw := word_a (F := F) (SMsem m d L 2) (k0_off100 t) (k0_off100_inb t) (64 * 3 + t.val) (by omega)
      ((k0_off100_eq t).trans (congrArg (fun x : Nat => (![x] : Fin 1 → Nat)) (show t.val + 192 = 64 * 3 + t.val by omega))) Nat.one_pos
    exact pay_eq (SMsem m d L 2) TAB t.val 3 1 ht (by decide) (by decide) _ hw hSM _ _
      (tabOff101 _ (by rw [hw]; exact hSM _) ⟨1, by decide⟩) y hlt
  · intro y hlt
    have hw := word_a (F := F) (SMsem m d L 2) (k0_off103 t) (k0_off103_inb t) (64 * 4 + t.val) (by omega)
      ((k0_off103_eq t).trans (congrArg (fun x : Nat => (![x] : Fin 1 → Nat)) (show t.val + 256 = 64 * 4 + t.val by omega))) Nat.one_pos
    exact pay_eq (SMsem m d L 2) TAB t.val 4 0 ht (by decide) (by decide) _ hw hSM _ _
      (tabOff104 _ (by rw [hw]; exact hSM _) ⟨0, by decide⟩) y hlt
  · intro y hlt
    have hw := word_a (F := F) (SMsem m d L 2) (k0_off103 t) (k0_off103_inb t) (64 * 4 + t.val) (by omega)
      ((k0_off103_eq t).trans (congrArg (fun x : Nat => (![x] : Fin 1 → Nat)) (show t.val + 256 = 64 * 4 + t.val by omega))) Nat.one_pos
    exact pay_eq (SMsem m d L 2) TAB t.val 4 1 ht (by decide) (by decide) _ hw hSM _ _
      (tabOff104 _ (by rw [hw]; exact hSM _) ⟨1, by decide⟩) y hlt
  · intro y hlt
    have hw := word_a (F := F) (SMsem m d L 2) (k0_off106 t) (k0_off106_inb t) (64 * 5 + t.val) (by omega)
      ((k0_off106_eq t).trans (congrArg (fun x : Nat => (![x] : Fin 1 → Nat)) (show t.val + 320 = 64 * 5 + t.val by omega))) Nat.one_pos
    exact pay_eq (SMsem m d L 2) TAB t.val 5 0 ht (by decide) (by decide) _ hw hSM _ _
      (tabOff107 _ (by rw [hw]; exact hSM _) ⟨0, by decide⟩) y hlt
  · intro y hlt
    have hw := word_a (F := F) (SMsem m d L 2) (k0_off106 t) (k0_off106_inb t) (64 * 5 + t.val) (by omega)
      ((k0_off106_eq t).trans (congrArg (fun x : Nat => (![x] : Fin 1 → Nat)) (show t.val + 320 = 64 * 5 + t.val by omega))) Nat.one_pos
    exact pay_eq (SMsem m d L 2) TAB t.val 5 1 ht (by decide) (by decide) _ hw hSM _ _
      (tabOff107 _ (by rw [hw]; exact hSM _) ⟨1, by decide⟩) y hlt
  · intro y hlt
    have hw := word_a (F := F) (SMsem m d L 2) (k0_off109 t) (k0_off109_inb t) (64 * 6 + t.val) (by omega)
      ((k0_off109_eq t).trans (congrArg (fun x : Nat => (![x] : Fin 1 → Nat)) (show t.val + 384 = 64 * 6 + t.val by omega))) Nat.one_pos
    exact pay_eq (SMsem m d L 2) TAB t.val 6 0 ht (by decide) (by decide) _ hw hSM _ _
      (tabOff110 _ (by rw [hw]; exact hSM _) ⟨0, by decide⟩) y hlt
  · intro y hlt
    have hw := word_a (F := F) (SMsem m d L 2) (k0_off109 t) (k0_off109_inb t) (64 * 6 + t.val) (by omega)
      ((k0_off109_eq t).trans (congrArg (fun x : Nat => (![x] : Fin 1 → Nat)) (show t.val + 384 = 64 * 6 + t.val by omega))) Nat.one_pos
    exact pay_eq (SMsem m d L 2) TAB t.val 6 1 ht (by decide) (by decide) _ hw hSM _ _
      (tabOff110 _ (by rw [hw]; exact hSM _) ⟨1, by decide⟩) y hlt
  · intro y hlt
    have hw := word_a (F := F) (SMsem m d L 2) (k0_off112 t) (k0_off112_inb t) (64 * 7 + t.val) (by omega)
      ((k0_off112_eq t).trans (congrArg (fun x : Nat => (![x] : Fin 1 → Nat)) (show t.val + 448 = 64 * 7 + t.val by omega))) Nat.one_pos
    exact pay_eq (SMsem m d L 2) TAB t.val 7 0 ht (by decide) (by decide) _ hw hSM _ _
      (tabOff113 _ (by rw [hw]; exact hSM _) ⟨0, by decide⟩) y hlt
  · intro y hlt
    have hw := word_a (F := F) (SMsem m d L 2) (k0_off112 t) (k0_off112_inb t) (64 * 7 + t.val) (by omega)
      ((k0_off112_eq t).trans (congrArg (fun x : Nat => (![x] : Fin 1 → Nat)) (show t.val + 448 = 64 * 7 + t.val by omega))) Nat.one_pos
    exact pay_eq (SMsem m d L 2) TAB t.val 7 1 ht (by decide) (by decide) _ hw hSM _ _
      (tabOff113 _ (by rw [hw]; exact hSM _) ⟨1, by decide⟩) y hlt

end Trip

end Cert.Proof.KB

end
-- ==== Proof.KB.Trip3.lean ====
/-
  Trip t of fill loop 4 (chunk 3): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KB.TripGen
import proofs.«204821_g30846455120635_fold_wed_m_1292_33_alg».proof.Proof.KB.TabOff

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section Trip

theorem trip3 (hpre : PreOK m) (d : Dev nD) (L : grid0.Coords) (TAB : Buf (Elt F) (tabLoc d)) (v2 : BitVec 32) (t : Fin k0_t4_loop.trips) (acc : PUnit) :
    invb m d L 3 TAB t.val acc ⊢ wp frame (wpE (defs₀ (F := F)) 𝒱₀ (thr d L) none) Set.univ
      (k0_t4_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => invb m d L 3 TAB (t.val + 1) r) := by
  unfold invb
  iintro ⟨Hs, Htv, %g, Hb, %hfill⟩
  have hSM := SMsem_lt m d L hpre 3
  sl_exec (disch := first | sl_exact chk25_of_lt _ (hSM _) | sl_exact chk26_of_lt _ (hSM _) | sl_exact chk27_of_lt _ (hSM _) | sl_exact chk28_of_lt _ (hSM _) | sl_exact chk29_of_lt _ (hSM _) | sl_exact chk30_of_lt _ (hSM _) | sl_exact chk31_of_lt _ (hSM _) | sl_exact chk32_of_lt _ (hSM _))
  sl_step
  isplitl [Hs]; · iexact Hs
  isplitl [Htv]; · iexact Htv
  iexists _; isplitl [Hb]; · iexact Hb
  ipureintro
  have ht : t.val < 64 := t.isLt
  refine filled_step16' (bbW).view (SMsem m d L 3) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off125_eq t ⟨0, by decide⟩).trans
      (congrArg (fun x : Nat => (![x] : Fin 1 → Nat)) (show 256 * t.val + 16 * 0 = 256 * t.val + 16 * 0 by omega))
  · exact (k0_off125_eq t ⟨1, by decide⟩).trans
      (congrArg (fun x : Nat => (![x] : Fin 1 → Nat)) (show 256 * t.val + 16 * 1 = 256 * t.val + 16 * 1 by omega))
  · exact (k0_off128_eq t ⟨0, by decide⟩).trans
      (congrArg (fun x : Nat => (![x] : Fin 1 → Nat)) (show 256 * t.val + 16 * 0 + 32 = 256 * t.val + 16 * 2 by omega))
  · exact (k0_off128_eq t ⟨1, by decide⟩).trans
      (congrArg (fun x : Nat => (![x] : Fin 1 → Nat)) (show 256 * t.val + 16 * 1 + 32 = 256 * t.val + 16 * 3 by omega))
  · exact (k0_off131_eq t ⟨0, by decide⟩).trans
      (congrArg (fun x : Nat => (![x] : Fin 1 → Nat)) (show 256 * t.val + 16 * 0 + 64 = 256 * t.val + 16 * 4 by omega))
  · exact (k0_off131_eq t ⟨1, by decide⟩).trans
      (congrArg (fun x : Nat => (![x] : Fin 1 → Nat)) (show 256 * t.val + 16 * 1 + 64 = 256 * t.val + 16 * 5 by omega))
  · exact (k0_off134_eq t ⟨0, by decide⟩).trans
      (congrArg (fun x : Nat => (![x] : Fin 1 → Nat)) (show 256 * t.val + 16 * 0 + 96 = 256 * t.val + 16 * 6 by omega))
  · exact (k0_off134_eq t ⟨1, by decide⟩).trans
      (congrArg (fun x : Nat => (![x] : Fin 1 → Nat)) (show 256 * t.val + 16 * 1 + 96 = 256 * t.val + 16 * 7 by omega))
  · exact (k0_off137_eq t ⟨0, by decide⟩).trans
      (congrArg (fun x : Nat => (![x] : Fin 1 → Nat)) (show 256 * t.val + 16 * 0 + 128 = 256 * t.val + 16 * 8 by omega))
  · exact (k0_off137_eq t ⟨1, by decide⟩).trans
      (congrArg (fun x : Nat => (![x] : Fin 1 → Nat)) (show 256 * t.val + 16 * 1 + 128 = 256 * t.val + 16 * 9 by omega))
  · exact (k0_off140_eq t ⟨0, by decide⟩).trans
      (congrArg (fun x : Nat => (![x] : Fin 1 → Nat)) (show 256 * t.val + 16 * 0 + 160 = 256 * t.val + 16 * 10 by omega))
  · exact (k0_off140_eq t ⟨1, by decide⟩).trans
      (congrArg (fun x : Nat => (![x] : Fin 1 → Nat)) (show 256 * t.val + 16 * 1 + 160 = 256 * t.val + 16 * 11 by omega))
  · exact (k0_off143_eq t ⟨0, by decide⟩).trans
      (congrArg (fun x : Nat => (![x] : Fin 1 → Nat)) (show 256 * t.val + 16 * 0 + 192 = 256 * t.val + 16 * 12 by omega))
  · exact (k0_off143_eq t ⟨1, by decide⟩).trans
      (congrArg (fun x : Nat => (![x] : Fin 1 → Nat)) (show 256 * t.val + 16 * 1 + 192 = 256 * t.val + 16 * 13 by omega))
  · exact (k0_off146_eq t ⟨0, by decide⟩).trans
      (congrArg (fun x : Nat => (![x] : Fin 1 → Nat)) (show 256 * t.val + 16 * 0 + 224 = 256 * t.val + 16 * 14 by omega))
  · exact (k0_off146_eq t ⟨1, by decide⟩).trans
      (congrArg (fun x : Nat => (![x] : Fin 1 → Nat)) (show 256 * t.val + 16 * 1 + 224 = 256 * t.val + 16 * 15 by omega))
  · intro y hlt
    have hw := word_b (F := F) (SMsem m d L 3) (k0_off123 t) (k0_off123_inb t) (64 * 0 + t.val) (by omega)
      ((k0_off123_eq t).trans (congrArg (fun x : Nat => (![x] : Fin 1 → Nat)) (show t.val = 64 * 0 + t.val by omega))) Nat.one_pos
    exact pay_eq (SMsem m d L 3) TAB t.val 0 0 ht (by decide) (by decide) _ hw hSM _ _
      (tabOff124 _ (by rw [hw]; exact hSM _) ⟨0, by decide⟩) y hlt
  · intro y hlt
    have hw := word_b (F := F) (SMsem m d L 3) (k0_off123 t) (k0_off123_inb t) (64 * 0 + t.val) (by omega)
      ((k0_off123_eq t).trans (congrArg (fun x : Nat => (![x] : Fin 1 → Nat)) (show t.val = 64 * 0 + t.val by omega))) Nat.one_pos
    exact pay_eq (SMsem m d L 3) TAB t.val 0 1 ht (by decide) (by decide) _ hw hSM _ _
      (tabOff124 _ (by rw [hw]; exact hSM _) ⟨1, by decide⟩) y hlt
  · intro y hlt
    have hw := word_b (F := F) (SMsem m d L 3) (k0_off126 t) (k0_off126_inb t) (64 * 1 + t.val) (by omega)
      ((k0_off126_eq t).trans (congrArg (fun x : Nat => (![x] : Fin 1 → Nat)) (show t.val + 64 = 64 * 1 + t.val by omega))) Nat.one_pos
    exact pay_eq (SMsem m d L 3) TAB t.val 1 0 ht (by decide) (by decide) _ hw hSM _ _
      (tabOff127 _ (by rw [hw]; exact hSM _) ⟨0, by decide⟩) y hlt
  · intro y hlt
    have hw := word_b (F := F) (SMsem m d L 3) (k0_off126 t) (k0_off126_inb t) (64 * 1 + t.val) (by omega)
      ((k0_off126_eq t).trans (congrArg (fun x : Nat => (![x] : Fin 1 → Nat)) (show t.val + 64 = 64 * 1 + t.val by omega))) Nat.one_pos
    exact pay_eq (SMsem m d L 3) TAB t.val 1 1 ht (by decide) (by decide) _ hw hSM _ _
      (tabOff127 _ (by rw [hw]; exact hSM _) ⟨1, by decide⟩) y hlt
  · intro y hlt
    have hw := word_b (F := F) (SMsem m d L 3) (k0_off129 t) (k0_off129_inb t) (64 * 2 + t.val) (by omega)
      ((k0_off129_eq t).trans (congrArg (fun x : Nat => (![x] : Fin 1 → Nat)) (show t.val + 128 = 64 * 2 + t.val by omega))) Nat.one_pos
    exact pay_eq (SMsem m d L 3) TAB t.val 2 0 ht (by decide) (by decide) _ hw hSM _ _
      (tabOff130 _ (by rw [hw]; exact hSM _) ⟨0, by decide⟩) y hlt
  · intro y hlt
    have hw := word_b (F := F) (SMsem m d L 3) (k0_off129 t) (k0_off129_inb t) (64 * 2 + t.val) (by omega)
      ((k0_off129_eq t).trans (congrArg (fun x : Nat => (![x] : Fin 1 → Nat)) (show t.val + 128 = 64 * 2 + t.val by omega))) Nat.one_pos
    exact pay_eq (SMsem m d L 3) TAB t.val 2 1 ht (by decide) (by decide) _ hw hSM _ _
      (tabOff130 _ (by rw [hw]; exact hSM _) ⟨1, by decide⟩) y hlt
  · intro y hlt
    have hw := word_b (F := F) (SMsem m d L 3) (k0_off132 t) (k0_off132_inb t) (64 * 3 + t.val) (by omega)
      ((k0_off132_eq t).trans (congrArg (fun x : Nat => (![x] : Fin 1 → Nat)) (show t.val + 192 = 64 * 3 + t.val by omega))) Nat.one_pos
    exact pay_eq (SMsem m d L 3) TAB t.val 3 0 ht (by decide) (by decide) _ hw hSM _ _
      (tabOff133 _ (by rw [hw]; exact hSM _) ⟨0, by decide⟩) y hlt
  · intro y hlt
    have hw := word_b (F := F) (SMsem m d L 3) (k0_off132 t) (k0_off132_inb t) (64 * 3 + t.val) (by omega)
      ((k0_off132_eq t).trans (congrArg (fun x : Nat => (![x] : Fin 1 → Nat)) (show t.val + 192 = 64 * 3 + t.val by omega))) Nat.one_pos
    exact pay_eq (SMsem m d L 3) TAB t.val 3 1 ht (by decide) (by decide) _ hw hSM _ _
      (tabOff133 _ (by rw [hw]; exact hSM _) ⟨1, by decide⟩) y hlt
  · intro y hlt
    have hw := word_b (F := F) (SMsem m d L 3) (k0_off135 t) (k0_off135_inb t) (64 * 4 + t.val) (by omega)
      ((k0_off135_eq t).trans (congrArg (fun x : Nat => (![x] : Fin 1 → Nat)) (show t.val + 256 = 64 * 4 + t.val by omega))) Nat.one_pos
    exact pay_eq (SMsem m d L 3) TAB t.val 4 0 ht (by decide) (by decide) _ hw hSM _ _
      (tabOff136 _ (by rw [hw]; exact hSM _) ⟨0, by decide⟩) y hlt
  · intro y hlt
    have hw := word_b (F := F) (SMsem m d L 3) (k0_off135 t) (k0_off135_inb t) (64 * 4 + t.val) (by omega)
      ((k0_off135_eq t).trans (congrArg (fun x : Nat => (![x] : Fin 1 → Nat)) (show t.val + 256 = 64 * 4 + t.val by omega))) Nat.one_pos
    exact pay_eq (SMsem m d L 3) TAB t.val 4 1 ht (by decide) (by decide) _ hw hSM _ _
      (tabOff136 _ (by rw [hw]; exact hSM _) ⟨1, by decide⟩) y hlt
  · intro y hlt
    have hw := word_b (F := F) (SMsem m d L 3) (k0_off138 t) (k0_off138_inb t) (64 * 5 + t.val) (by omega)
      ((k0_off138_eq t).trans (congrArg (fun x : Nat => (![x] : Fin 1 → Nat)) (show t.val + 320 = 64 * 5 + t.val by omega))) Nat.one_pos
    exact pay_eq (SMsem m d L 3) TAB t.val 5 0 ht (by decide) (by decide) _ hw hSM _ _
      (tabOff139 _ (by rw [hw]; exact hSM _) ⟨0, by decide⟩) y hlt
  · intro y hlt
    have hw := word_b (F := F) (SMsem m d L 3) (k0_off138 t) (k0_off138_inb t) (64 * 5 + t.val) (by omega)
      ((k0_off138_eq t).trans (congrArg (fun x : Nat => (![x] : Fin 1 → Nat)) (show t.val + 320 = 64 * 5 + t.val by omega))) Nat.one_pos
    exact pay_eq (SMsem m d L 3) TAB t.val 5 1 ht (by decide) (by decide) _ hw hSM _ _
      (tabOff139 _ (by rw [hw]; exact hSM _) ⟨1, by decide⟩) y hlt
  · intro y hlt
    have hw := word_b (F := F) (SMsem m d L 3) (k0_off141 t) (k0_off141_inb t) (64 * 6 + t.val) (by omega)
      ((k0_off141_eq t).trans (congrArg (fun x : Nat => (![x] : Fin 1 → Nat)) (show t.val + 384 = 64 * 6 + t.val by omega))) Nat.one_pos
    exact pay_eq (SMsem m d L 3) TAB t.val 6 0 ht (by decide) (by decide) _ hw hSM _ _
      (tabOff142 _ (by rw [hw]; exact hSM _) ⟨0, by decide⟩) y hlt
  · intro y hlt
    have hw := word_b (F := F) (SMsem m d L 3) (k0_off141 t) (k0_off141_inb t) (64 * 6 + t.val) (by omega)
      ((k0_off141_eq t).trans (congrArg (fun x : Nat => (![x] : Fin 1 → Nat)) (show t.val + 384 = 64 * 6 + t.val by omega))) Nat.one_pos
    exact pay_eq (SMsem m d L 3) TAB t.val 6 1 ht (by decide) (by decide) _ hw hSM _ _
      (tabOff142 _ (by rw [hw]; exact hSM _) ⟨1, by decide⟩) y hlt
  · intro y hlt
    have hw := word_b (F := F) (SMsem m d L 3) (k0_off144 t) (k0_off144_inb t) (64 * 7 + t.val) (by omega)
      ((k0_off144_eq t).trans (congrArg (fun x : Nat => (![x] : Fin 1 → Nat)) (show t.val + 448 = 64 * 7 + t.val by omega))) Nat.one_pos
    exact pay_eq (SMsem m d L 3) TAB t.val 7 0 ht (by decide) (by decide) _ hw hSM _ _
      (tabOff145 _ (by rw [hw]; exact hSM _) ⟨0, by decide⟩) y hlt
  · intro y hlt
    have hw := word_b (F := F) (SMsem m d L 3) (k0_off144 t) (k0_off144_inb t) (64 * 7 + t.val) (by omega)
      ((k0_off144_eq t).trans (congrArg (fun x : Nat => (![x] : Fin 1 → Nat)) (show t.val + 448 = 64 * 7 + t.val by omega))) Nat.one_pos
    exact pay_eq (SMsem m d L 3) TAB t.val 7 1 ht (by decide) (by decide) _ hw hSM _ _
      (tabOff145 _ (by rw [hw]; exact hSM _) ⟨1, by decide⟩) y hlt

end Trip

end Cert.Proof.KB

end
-- ==== Proof.KB.Trip4.lean ====
/-
  Trip t of fill loop 5 (chunk 4): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KB.TripGen
import proofs.«204821_g30846455120635_fold_wed_m_1292_33_alg».proof.Proof.KB.TabOff

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section Trip

theorem trip4 (hpre : PreOK m) (d : Dev nD) (L : grid0.Coords) (TAB : Buf (Elt F) (tabLoc d)) (v2 : BitVec 32) (t : Fin k0_t5_loop.trips) (acc : PUnit) :
    inva m d L 4 TAB t.val acc ⊢ wp frame (wpE (defs₀ (F := F)) 𝒱₀ (thr d L) none) Set.univ
      (k0_t5_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => inva m d L 4 TAB (t.val + 1) r) := by
  unfold inva
  iintro ⟨Hs, Htv, %g, Hb, %hfill⟩
  have hSM := SMsem_lt m d L hpre 4
  sl_exec (disch := first | sl_exact chk33_of_lt _ (hSM _) | sl_exact chk34_of_lt _ (hSM _) | sl_exact chk35_of_lt _ (hSM _) | sl_exact chk36_of_lt _ (hSM _) | sl_exact chk37_of_lt _ (hSM _) | sl_exact chk38_of_lt _ (hSM _) | sl_exact chk39_of_lt _ (hSM _) | sl_exact chk40_of_lt _ (hSM _))
  sl_step
  isplitl [Hs]; · iexact Hs
  isplitl [Htv]; · iexact Htv
  iexists _; isplitl [Hb]; · iexact Hb
  ipureintro
  have ht : t.val < 64 := t.isLt
  refine filled_step16' (baW).view (SMsem m d L 4) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off157_eq t ⟨0, by decide⟩).trans
      (congrArg (fun x : Nat => (![x] : Fin 1 → Nat)) (show 256 * t.val + 16 * 0 = 256 * t.val + 16 * 0 by omega))
  · exact (k0_off157_eq t ⟨1, by decide⟩).trans
      (congrArg (fun x : Nat => (![x] : Fin 1 → Nat)) (show 256 * t.val + 16 * 1 = 256 * t.val + 16 * 1 by omega))
  · exact (k0_off160_eq t ⟨0, by decide⟩).trans
      (congrArg (fun x : Nat => (![x] : Fin 1 → Nat)) (show 256 * t.val + 16 * 0 + 32 = 256 * t.val + 16 * 2 by omega))
  · exact (k0_off160_eq t ⟨1, by decide⟩).trans
      (congrArg (fun x : Nat => (![x] : Fin 1 → Nat)) (show 256 * t.val + 16 * 1 + 32 = 256 * t.val + 16 * 3 by omega))
  · exact (k0_off163_eq t ⟨0, by decide⟩).trans
      (congrArg (fun x : Nat => (![x] : Fin 1 → Nat)) (show 256 * t.val + 16 * 0 + 64 = 256 * t.val + 16 * 4 by omega))
  · exact (k0_off163_eq t ⟨1, by decide⟩).trans
      (congrArg (fun x : Nat => (![x] : Fin 1 → Nat)) (show 256 * t.val + 16 * 1 + 64 = 256 * t.val + 16 * 5 by omega))
  · exact (k0_off166_eq t ⟨0, by decide⟩).trans
      (congrArg (fun x : Nat => (![x] : Fin 1 → Nat)) (show 256 * t.val + 16 * 0 + 96 = 256 * t.val + 16 * 6 by omega))
  · exact (k0_off166_eq t ⟨1, by decide⟩).trans
      (congrArg (fun x : Nat => (![x] : Fin 1 → Nat)) (show 256 * t.val + 16 * 1 + 96 = 256 * t.val + 16 * 7 by omega))
  · exact (k0_off169_eq t ⟨0, by decide⟩).trans
      (congrArg (fun x : Nat => (![x] : Fin 1 → Nat)) (show 256 * t.val + 16 * 0 + 128 = 256 * t.val + 16 * 8 by omega))
  · exact (k0_off169_eq t ⟨1, by decide⟩).trans
      (congrArg (fun x : Nat => (![x] : Fin 1 → Nat)) (show 256 * t.val + 16 * 1 + 128 = 256 * t.val + 16 * 9 by omega))
  · exact (k0_off172_eq t ⟨0, by decide⟩).trans
      (congrArg (fun x : Nat => (![x] : Fin 1 → Nat)) (show 256 * t.val + 16 * 0 + 160 = 256 * t.val + 16 * 10 by omega))
  · exact (k0_off172_eq t ⟨1, by decide⟩).trans
      (congrArg (fun x : Nat => (![x] : Fin 1 → Nat)) (show 256 * t.val + 16 * 1 + 160 = 256 * t.val + 16 * 11 by omega))
  · exact (k0_off175_eq t ⟨0, by decide⟩).trans
      (congrArg (fun x : Nat => (![x] : Fin 1 → Nat)) (show 256 * t.val + 16 * 0 + 192 = 256 * t.val + 16 * 12 by omega))
  · exact (k0_off175_eq t ⟨1, by decide⟩).trans
      (congrArg (fun x : Nat => (![x] : Fin 1 → Nat)) (show 256 * t.val + 16 * 1 + 192 = 256 * t.val + 16 * 13 by omega))
  · exact (k0_off178_eq t ⟨0, by decide⟩).trans
      (congrArg (fun x : Nat => (![x] : Fin 1 → Nat)) (show 256 * t.val + 16 * 0 + 224 = 256 * t.val + 16 * 14 by omega))
  · exact (k0_off178_eq t ⟨1, by decide⟩).trans
      (congrArg (fun x : Nat => (![x] : Fin 1 → Nat)) (show 256 * t.val + 16 * 1 + 224 = 256 * t.val + 16 * 15 by omega))
  · intro y hlt
    have hw := word_a (F := F) (SMsem m d L 4) (k0_off155 t) (k0_off155_inb t) (64 * 0 + t.val) (by omega)
      ((k0_off155_eq t).trans (congrArg (fun x : Nat => (![x] : Fin 1 → Nat)) (show t.val = 64 * 0 + t.val by omega))) Nat.one_pos
    exact pay_eq (SMsem m d L 4) TAB t.val 0 0 ht (by decide) (by decide) _ hw hSM _ _
      (tabOff156 _ (by rw [hw]; exact hSM _) ⟨0, by decide⟩) y hlt
  · intro y hlt
    have hw := word_a (F := F) (SMsem m d L 4) (k0_off155 t) (k0_off155_inb t) (64 * 0 + t.val) (by omega)
      ((k0_off155_eq t).trans (congrArg (fun x : Nat => (![x] : Fin 1 → Nat)) (show t.val = 64 * 0 + t.val by omega))) Nat.one_pos
    exact pay_eq (SMsem m d L 4) TAB t.val 0 1 ht (by decide) (by decide) _ hw hSM _ _
      (tabOff156 _ (by rw [hw]; exact hSM _) ⟨1, by decide⟩) y hlt
  · intro y hlt
    have hw := word_a (F := F) (SMsem m d L 4) (k0_off158 t) (k0_off158_inb t) (64 * 1 + t.val) (by omega)
      ((k0_off158_eq t).trans (congrArg (fun x : Nat => (![x] : Fin 1 → Nat)) (show t.val + 64 = 64 * 1 + t.val by omega))) Nat.one_pos
    exact pay_eq (SMsem m d L 4) TAB t.val 1 0 ht (by decide) (by decide) _ hw hSM _ _
      (tabOff159 _ (by rw [hw]; exact hSM _) ⟨0, by decide⟩) y hlt
  · intro y hlt
    have hw := word_a (F := F) (SMsem m d L 4) (k0_off158 t) (k0_off158_inb t) (64 * 1 + t.val) (by omega)
      ((k0_off158_eq t).trans (congrArg (fun x : Nat => (![x] : Fin 1 → Nat)) (show t.val + 64 = 64 * 1 + t.val by omega))) Nat.one_pos
    exact pay_eq (SMsem m d L 4) TAB t.val 1 1 ht (by decide) (by decide) _ hw hSM _ _
      (tabOff159 _ (by rw [hw]; exact hSM _) ⟨1, by decide⟩) y hlt
  · intro y hlt
    have hw := word_a (F := F) (SMsem m d L 4) (k0_off161 t) (k0_off161_inb t) (64 * 2 + t.val) (by omega)
      ((k0_off161_eq t).trans (congrArg (fun x : Nat => (![x] : Fin 1 → Nat)) (show t.val + 128 = 64 * 2 + t.val by omega))) Nat.one_pos
    exact pay_eq (SMsem m d L 4) TAB t.val 2 0 ht (by decide) (by decide) _ hw hSM _ _
      (tabOff162 _ (by rw [hw]; exact hSM _) ⟨0, by decide⟩) y hlt
  · intro y hlt
    have hw := word_a (F := F) (SMsem m d L 4) (k0_off161 t) (k0_off161_inb t) (64 * 2 + t.val) (by omega)
      ((k0_off161_eq t).trans (congrArg (fun x : Nat => (![x] : Fin 1 → Nat)) (show t.val + 128 = 64 * 2 + t.val by omega))) Nat.one_pos
    exact pay_eq (SMsem m d L 4) TAB t.val 2 1 ht (by decide) (by decide) _ hw hSM _ _
      (tabOff162 _ (by rw [hw]; exact hSM _) ⟨1, by decide⟩) y hlt
  · intro y hlt
    have hw := word_a (F := F) (SMsem m d L 4) (k0_off164 t) (k0_off164_inb t) (64 * 3 + t.val) (by omega)
      ((k0_off164_eq t).trans (congrArg (fun x : Nat => (![x] : Fin 1 → Nat)) (show t.val + 192 = 64 * 3 + t.val by omega))) Nat.one_pos
    exact pay_eq (SMsem m d L 4) TAB t.val 3 0 ht (by decide) (by decide) _ hw hSM _ _
      (tabOff165 _ (by rw [hw]; exact hSM _) ⟨0, by decide⟩) y hlt
  · intro y hlt
    have hw := word_a (F := F) (SMsem m d L 4) (k0_off164 t) (k0_off164_inb t) (64 * 3 + t.val) (by omega)
      ((k0_off164_eq t).trans (congrArg (fun x : Nat => (![x] : Fin 1 → Nat)) (show t.val + 192 = 64 * 3 + t.val by omega))) Nat.one_pos
    exact pay_eq (SMsem m d L 4) TAB t.val 3 1 ht (by decide) (by decide) _ hw hSM _ _
      (tabOff165 _ (by rw [hw]; exact hSM _) ⟨1, by decide⟩) y hlt
  · intro y hlt
    have hw := word_a (F := F) (SMsem m d L 4) (k0_off167 t) (k0_off167_inb t) (64 * 4 + t.val) (by omega)
      ((k0_off167_eq t).trans (congrArg (fun x : Nat => (![x] : Fin 1 → Nat)) (show t.val + 256 = 64 * 4 + t.val by omega))) Nat.one_pos
    exact pay_eq (SMsem m d L 4) TAB t.val 4 0 ht (by decide) (by decide) _ hw hSM _ _
      (tabOff168 _ (by rw [hw]; exact hSM _) ⟨0, by decide⟩) y hlt
  · intro y hlt
    have hw := word_a (F := F) (SMsem m d L 4) (k0_off167 t) (k0_off167_inb t) (64 * 4 + t.val) (by omega)
      ((k0_off167_eq t).trans (congrArg (fun x : Nat => (![x] : Fin 1 → Nat)) (show t.val + 256 = 64 * 4 + t.val by omega))) Nat.one_pos
    exact pay_eq (SMsem m d L 4) TAB t.val 4 1 ht (by decide) (by decide) _ hw hSM _ _
      (tabOff168 _ (by rw [hw]; exact hSM _) ⟨1, by decide⟩) y hlt
  · intro y hlt
    have hw := word_a (F := F) (SMsem m d L 4) (k0_off170 t) (k0_off170_inb t) (64 * 5 + t.val) (by omega)
      ((k0_off170_eq t).trans (congrArg (fun x : Nat => (![x] : Fin 1 → Nat)) (show t.val + 320 = 64 * 5 + t.val by omega))) Nat.one_pos
    exact pay_eq (SMsem m d L 4) TAB t.val 5 0 ht (by decide) (by decide) _ hw hSM _ _
      (tabOff171 _ (by rw [hw]; exact hSM _) ⟨0, by decide⟩) y hlt
  · intro y hlt
    have hw := word_a (F := F) (SMsem m d L 4) (k0_off170 t) (k0_off170_inb t) (64 * 5 + t.val) (by omega)
      ((k0_off170_eq t).trans (congrArg (fun x : Nat => (![x] : Fin 1 → Nat)) (show t.val + 320 = 64 * 5 + t.val by omega))) Nat.one_pos
    exact pay_eq (SMsem m d L 4) TAB t.val 5 1 ht (by decide) (by decide) _ hw hSM _ _
      (tabOff171 _ (by rw [hw]; exact hSM _) ⟨1, by decide⟩) y hlt
  · intro y hlt
    have hw := word_a (F := F) (SMsem m d L 4) (k0_off173 t) (k0_off173_inb t) (64 * 6 + t.val) (by omega)
      ((k0_off173_eq t).trans (congrArg (fun x : Nat => (![x] : Fin 1 → Nat)) (show t.val + 384 = 64 * 6 + t.val by omega))) Nat.one_pos
    exact pay_eq (SMsem m d L 4) TAB t.val 6 0 ht (by decide) (by decide) _ hw hSM _ _
      (tabOff174 _ (by rw [hw]; exact hSM _) ⟨0, by decide⟩) y hlt
  · intro y hlt
    have hw := word_a (F := F) (SMsem m d L 4) (k0_off173 t) (k0_off173_inb t) (64 * 6 + t.val) (by omega)
      ((k0_off173_eq t).trans (congrArg (fun x : Nat => (![x] : Fin 1 → Nat)) (show t.val + 384 = 64 * 6 + t.val by omega))) Nat.one_pos
    exact pay_eq (SMsem m d L 4) TAB t.val 6 1 ht (by decide) (by decide) _ hw hSM _ _
      (tabOff174 _ (by rw [hw]; exact hSM _) ⟨1, by decide⟩) y hlt
  · intro y hlt
    have hw := word_a (F := F) (SMsem m d L 4) (k0_off176 t) (k0_off176_inb t) (64 * 7 + t.val) (by omega)
      ((k0_off176_eq t).trans (congrArg (fun x : Nat => (![x] : Fin 1 → Nat)) (show t.val + 448 = 64 * 7 + t.val by omega))) Nat.one_pos
    exact pay_eq (SMsem m d L 4) TAB t.val 7 0 ht (by decide) (by decide) _ hw hSM _ _
      (tabOff177 _ (by rw [hw]; exact hSM _) ⟨0, by decide⟩) y hlt
  · intro y hlt
    have hw := word_a (F := F) (SMsem m d L 4) (k0_off176 t) (k0_off176_inb t) (64 * 7 + t.val) (by omega)
      ((k0_off176_eq t).trans (congrArg (fun x : Nat => (![x] : Fin 1 → Nat)) (show t.val + 448 = 64 * 7 + t.val by omega))) Nat.one_pos
    exact pay_eq (SMsem m d L 4) TAB t.val 7 1 ht (by decide) (by decide) _ hw hSM _ _
      (tabOff177 _ (by rw [hw]; exact hSM _) ⟨1, by decide⟩) y hlt

end Trip

end Cert.Proof.KB

end
-- ==== Proof.KB.Trip5.lean ====
/-
  Trip t of fill loop 6 (chunk 5): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KB.TripGen
import proofs.«204821_g30846455120635_fold_wed_m_1292_33_alg».proof.Proof.KB.TabOff

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section Trip

theorem trip5 (hpre : PreOK m) (d : Dev nD) (L : grid0.Coords) (TAB : Buf (Elt F) (tabLoc d)) (v2 : BitVec 32) (t : Fin k0_t6_loop.trips) (acc : PUnit) :
    invb m d L 5 TAB t.val acc ⊢ wp frame (wpE (defs₀ (F := F)) 𝒱₀ (thr d L) none) Set.univ
      (k0_t6_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => invb m d L 5 TAB (t.val + 1) r) := by
  unfold invb
  iintro ⟨Hs, Htv, %g, Hb, %hfill⟩
  have hSM := SMsem_lt m d L hpre 5
  sl_exec (disch := first | sl_exact chk41_of_lt _ (hSM _) | sl_exact chk42_of_lt _ (hSM _) | sl_exact chk43_of_lt _ (hSM _) | sl_exact chk44_of_lt _ (hSM _) | sl_exact chk45_of_lt _ (hSM _) | sl_exact chk46_of_lt _ (hSM _) | sl_exact chk47_of_lt _ (hSM _) | sl_exact chk48_of_lt _ (hSM _))
  sl_step
  isplitl [Hs]; · iexact Hs
  isplitl [Htv]; · iexact Htv
  iexists _; isplitl [Hb]; · iexact Hb
  ipureintro
  have ht : t.val < 64 := t.isLt
  refine filled_step16' (bbW).view (SMsem m d L 5) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off189_eq t ⟨0, by decide⟩).trans
      (congrArg (fun x : Nat => (![x] : Fin 1 → Nat)) (show 256 * t.val + 16 * 0 = 256 * t.val + 16 * 0 by omega))
  · exact (k0_off189_eq t ⟨1, by decide⟩).trans
      (congrArg (fun x : Nat => (![x] : Fin 1 → Nat)) (show 256 * t.val + 16 * 1 = 256 * t.val + 16 * 1 by omega))
  · exact (k0_off192_eq t ⟨0, by decide⟩).trans
      (congrArg (fun x : Nat => (![x] : Fin 1 → Nat)) (show 256 * t.val + 16 * 0 + 32 = 256 * t.val + 16 * 2 by omega))
  · exact (k0_off192_eq t ⟨1, by decide⟩).trans
      (congrArg (fun x : Nat => (![x] : Fin 1 → Nat)) (show 256 * t.val + 16 * 1 + 32 = 256 * t.val + 16 * 3 by omega))
  · exact (k0_off195_eq t ⟨0, by decide⟩).trans
      (congrArg (fun x : Nat => (![x] : Fin 1 → Nat)) (show 256 * t.val + 16 * 0 + 64 = 256 * t.val + 16 * 4 by omega))
  · exact (k0_off195_eq t ⟨1, by decide⟩).trans
      (congrArg (fun x : Nat => (![x] : Fin 1 → Nat)) (show 256 * t.val + 16 * 1 + 64 = 256 * t.val + 16 * 5 by omega))
  · exact (k0_off198_eq t ⟨0, by decide⟩).trans
      (congrArg (fun x : Nat => (![x] : Fin 1 → Nat)) (show 256 * t.val + 16 * 0 + 96 = 256 * t.val + 16 * 6 by omega))
  · exact (k0_off198_eq t ⟨1, by decide⟩).trans
      (congrArg (fun x : Nat => (![x] : Fin 1 → Nat)) (show 256 * t.val + 16 * 1 + 96 = 256 * t.val + 16 * 7 by omega))
  · exact (k0_off201_eq t ⟨0, by decide⟩).trans
      (congrArg (fun x : Nat => (![x] : Fin 1 → Nat)) (show 256 * t.val + 16 * 0 + 128 = 256 * t.val + 16 * 8 by omega))
  · exact (k0_off201_eq t ⟨1, by decide⟩).trans
      (congrArg (fun x : Nat => (![x] : Fin 1 → Nat)) (show 256 * t.val + 16 * 1 + 128 = 256 * t.val + 16 * 9 by omega))
  · exact (k0_off204_eq t ⟨0, by decide⟩).trans
      (congrArg (fun x : Nat => (![x] : Fin 1 → Nat)) (show 256 * t.val + 16 * 0 + 160 = 256 * t.val + 16 * 10 by omega))
  · exact (k0_off204_eq t ⟨1, by decide⟩).trans
      (congrArg (fun x : Nat => (![x] : Fin 1 → Nat)) (show 256 * t.val + 16 * 1 + 160 = 256 * t.val + 16 * 11 by omega))
  · exact (k0_off207_eq t ⟨0, by decide⟩).trans
      (congrArg (fun x : Nat => (![x] : Fin 1 → Nat)) (show 256 * t.val + 16 * 0 + 192 = 256 * t.val + 16 * 12 by omega))
  · exact (k0_off207_eq t ⟨1, by decide⟩).trans
      (congrArg (fun x : Nat => (![x] : Fin 1 → Nat)) (show 256 * t.val + 16 * 1 + 192 = 256 * t.val + 16 * 13 by omega))
  · exact (k0_off210_eq t ⟨0, by decide⟩).trans
      (congrArg (fun x : Nat => (![x] : Fin 1 → Nat)) (show 256 * t.val + 16 * 0 + 224 = 256 * t.val + 16 * 14 by omega))
  · exact (k0_off210_eq t ⟨1, by decide⟩).trans
      (congrArg (fun x : Nat => (![x] : Fin 1 → Nat)) (show 256 * t.val + 16 * 1 + 224 = 256 * t.val + 16 * 15 by omega))
  · intro y hlt
    have hw := word_b (F := F) (SMsem m d L 5) (k0_off187 t) (k0_off187_inb t) (64 * 0 + t.val) (by omega)
      ((k0_off187_eq t).trans (congrArg (fun x : Nat => (![x] : Fin 1 → Nat)) (show t.val = 64 * 0 + t.val by omega))) Nat.one_pos
    exact pay_eq (SMsem m d L 5) TAB t.val 0 0 ht (by decide) (by decide) _ hw hSM _ _
      (tabOff188 _ (by rw [hw]; exact hSM _) ⟨0, by decide⟩) y hlt
  · intro y hlt
    have hw := word_b (F := F) (SMsem m d L 5) (k0_off187 t) (k0_off187_inb t) (64 * 0 + t.val) (by omega)
      ((k0_off187_eq t).trans (congrArg (fun x : Nat => (![x] : Fin 1 → Nat)) (show t.val = 64 * 0 + t.val by omega))) Nat.one_pos
    exact pay_eq (SMsem m d L 5) TAB t.val 0 1 ht (by decide) (by decide) _ hw hSM _ _
      (tabOff188 _ (by rw [hw]; exact hSM _) ⟨1, by decide⟩) y hlt
  · intro y hlt
    have hw := word_b (F := F) (SMsem m d L 5) (k0_off190 t) (k0_off190_inb t) (64 * 1 + t.val) (by omega)
      ((k0_off190_eq t).trans (congrArg (fun x : Nat => (![x] : Fin 1 → Nat)) (show t.val + 64 = 64 * 1 + t.val by omega))) Nat.one_pos
    exact pay_eq (SMsem m d L 5) TAB t.val 1 0 ht (by decide) (by decide) _ hw hSM _ _
      (tabOff191 _ (by rw [hw]; exact hSM _) ⟨0, by decide⟩) y hlt
  · intro y hlt
    have hw := word_b (F := F) (SMsem m d L 5) (k0_off190 t) (k0_off190_inb t) (64 * 1 + t.val) (by omega)
      ((k0_off190_eq t).trans (congrArg (fun x : Nat => (![x] : Fin 1 → Nat)) (show t.val + 64 = 64 * 1 + t.val by omega))) Nat.one_pos
    exact pay_eq (SMsem m d L 5) TAB t.val 1 1 ht (by decide) (by decide) _ hw hSM _ _
      (tabOff191 _ (by rw [hw]; exact hSM _) ⟨1, by decide⟩) y hlt
  · intro y hlt
    have hw := word_b (F := F) (SMsem m d L 5) (k0_off193 t) (k0_off193_inb t) (64 * 2 + t.val) (by omega)
      ((k0_off193_eq t).trans (congrArg (fun x : Nat => (![x] : Fin 1 → Nat)) (show t.val + 128 = 64 * 2 + t.val by omega))) Nat.one_pos
    exact pay_eq (SMsem m d L 5) TAB t.val 2 0 ht (by decide) (by decide) _ hw hSM _ _
      (tabOff194 _ (by rw [hw]; exact hSM _) ⟨0, by decide⟩) y hlt
  · intro y hlt
    have hw := word_b (F := F) (SMsem m d L 5) (k0_off193 t) (k0_off193_inb t) (64 * 2 + t.val) (by omega)
      ((k0_off193_eq t).trans (congrArg (fun x : Nat => (![x] : Fin 1 → Nat)) (show t.val + 128 = 64 * 2 + t.val by omega))) Nat.one_pos
    exact pay_eq (SMsem m d L 5) TAB t.val 2 1 ht (by decide) (by decide) _ hw hSM _ _
      (tabOff194 _ (by rw [hw]; exact hSM _) ⟨1, by decide⟩) y hlt
  · intro y hlt
    have hw := word_b (F := F) (SMsem m d L 5) (k0_off196 t) (k0_off196_inb t) (64 * 3 + t.val) (by omega)
      ((k0_off196_eq t).trans (congrArg (fun x : Nat => (![x] : Fin 1 → Nat)) (show t.val + 192 = 64 * 3 + t.val by omega))) Nat.one_pos
    exact pay_eq (SMsem m d L 5) TAB t.val 3 0 ht (by decide) (by decide) _ hw hSM _ _
      (tabOff197 _ (by rw [hw]; exact hSM _) ⟨0, by decide⟩) y hlt
  · intro y hlt
    have hw := word_b (F := F) (SMsem m d L 5) (k0_off196 t) (k0_off196_inb t) (64 * 3 + t.val) (by omega)
      ((k0_off196_eq t).trans (congrArg (fun x : Nat => (![x] : Fin 1 → Nat)) (show t.val + 192 = 64 * 3 + t.val by omega))) Nat.one_pos
    exact pay_eq (SMsem m d L 5) TAB t.val 3 1 ht (by decide) (by decide) _ hw hSM _ _
      (tabOff197 _ (by rw [hw]; exact hSM _) ⟨1, by decide⟩) y hlt
  · intro y hlt
    have hw := word_b (F := F) (SMsem m d L 5) (k0_off199 t) (k0_off199_inb t) (64 * 4 + t.val) (by omega)
      ((k0_off199_eq t).trans (congrArg (fun x : Nat => (![x] : Fin 1 → Nat)) (show t.val + 256 = 64 * 4 + t.val by omega))) Nat.one_pos
    exact pay_eq (SMsem m d L 5) TAB t.val 4 0 ht (by decide) (by decide) _ hw hSM _ _
      (tabOff200 _ (by rw [hw]; exact hSM _) ⟨0, by decide⟩) y hlt
  · intro y hlt
    have hw := word_b (F := F) (SMsem m d L 5) (k0_off199 t) (k0_off199_inb t) (64 * 4 + t.val) (by omega)
      ((k0_off199_eq t).trans (congrArg (fun x : Nat => (![x] : Fin 1 → Nat)) (show t.val + 256 = 64 * 4 + t.val by omega))) Nat.one_pos
    exact pay_eq (SMsem m d L 5) TAB t.val 4 1 ht (by decide) (by decide) _ hw hSM _ _
      (tabOff200 _ (by rw [hw]; exact hSM _) ⟨1, by decide⟩) y hlt
  · intro y hlt
    have hw := word_b (F := F) (SMsem m d L 5) (k0_off202 t) (k0_off202_inb t) (64 * 5 + t.val) (by omega)
      ((k0_off202_eq t).trans (congrArg (fun x : Nat => (![x] : Fin 1 → Nat)) (show t.val + 320 = 64 * 5 + t.val by omega))) Nat.one_pos
    exact pay_eq (SMsem m d L 5) TAB t.val 5 0 ht (by decide) (by decide) _ hw hSM _ _
      (tabOff203 _ (by rw [hw]; exact hSM _) ⟨0, by decide⟩) y hlt
  · intro y hlt
    have hw := word_b (F := F) (SMsem m d L 5) (k0_off202 t) (k0_off202_inb t) (64 * 5 + t.val) (by omega)
      ((k0_off202_eq t).trans (congrArg (fun x : Nat => (![x] : Fin 1 → Nat)) (show t.val + 320 = 64 * 5 + t.val by omega))) Nat.one_pos
    exact pay_eq (SMsem m d L 5) TAB t.val 5 1 ht (by decide) (by decide) _ hw hSM _ _
      (tabOff203 _ (by rw [hw]; exact hSM _) ⟨1, by decide⟩) y hlt
  · intro y hlt
    have hw := word_b (F := F) (SMsem m d L 5) (k0_off205 t) (k0_off205_inb t) (64 * 6 + t.val) (by omega)
      ((k0_off205_eq t).trans (congrArg (fun x : Nat => (![x] : Fin 1 → Nat)) (show t.val + 384 = 64 * 6 + t.val by omega))) Nat.one_pos
    exact pay_eq (SMsem m d L 5) TAB t.val 6 0 ht (by decide) (by decide) _ hw hSM _ _
      (tabOff206 _ (by rw [hw]; exact hSM _) ⟨0, by decide⟩) y hlt
  · intro y hlt
    have hw := word_b (F := F) (SMsem m d L 5) (k0_off205 t) (k0_off205_inb t) (64 * 6 + t.val) (by omega)
      ((k0_off205_eq t).trans (congrArg (fun x : Nat => (![x] : Fin 1 → Nat)) (show t.val + 384 = 64 * 6 + t.val by omega))) Nat.one_pos
    exact pay_eq (SMsem m d L 5) TAB t.val 6 1 ht (by decide) (by decide) _ hw hSM _ _
      (tabOff206 _ (by rw [hw]; exact hSM _) ⟨1, by decide⟩) y hlt
  · intro y hlt
    have hw := word_b (F := F) (SMsem m d L 5) (k0_off208 t) (k0_off208_inb t) (64 * 7 + t.val) (by omega)
      ((k0_off208_eq t).trans (congrArg (fun x : Nat => (![x] : Fin 1 → Nat)) (show t.val + 448 = 64 * 7 + t.val by omega))) Nat.one_pos
    exact pay_eq (SMsem m d L 5) TAB t.val 7 0 ht (by decide) (by decide) _ hw hSM _ _
      (tabOff209 _ (by rw [hw]; exact hSM _) ⟨0, by decide⟩) y hlt
  · intro y hlt
    have hw := word_b (F := F) (SMsem m d L 5) (k0_off208 t) (k0_off208_inb t) (64 * 7 + t.val) (by omega)
      ((k0_off208_eq t).trans (congrArg (fun x : Nat => (![x] : Fin 1 → Nat)) (show t.val + 448 = 64 * 7 + t.val by omega))) Nat.one_pos
    exact pay_eq (SMsem m d L 5) TAB t.val 7 1 ht (by decide) (by decide) _ hw hSM _ _
      (tabOff209 _ (by rw [hw]; exact hSM _) ⟨1, by decide⟩) y hlt

end Trip

end Cert.Proof.KB

end
-- ==== Proof.KB.Trip6.lean ====
/-
  Trip t of fill loop 7 (chunk 6): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KB.TripGen
import proofs.«204821_g30846455120635_fold_wed_m_1292_33_alg».proof.Proof.KB.TabOff

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section Trip

theorem trip6 (hpre : PreOK m) (d : Dev nD) (L : grid0.Coords) (TAB : Buf (Elt F) (tabLoc d)) (v2 : BitVec 32) (t : Fin k0_t7_loop.trips) (acc : PUnit) :
    inva m d L 6 TAB t.val acc ⊢ wp frame (wpE (defs₀ (F := F)) 𝒱₀ (thr d L) none) Set.univ
      (k0_t7_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 v2 t acc) (fun r => inva m d L 6 TAB (t.val + 1) r) := by
  unfold inva
  iintro ⟨Hs, Htv, %g, Hb, %hfill⟩
  have hSM := SMsem_lt m d L hpre 6
  sl_exec (disch := first | sl_exact chk49_of_lt _ (hSM _) | sl_exact chk50_of_lt _ (hSM _) | sl_exact chk51_of_lt _ (hSM _) | sl_exact chk52_of_lt _ (hSM _) | sl_exact chk53_of_lt _ (hSM _) | sl_exact chk54_of_lt _ (hSM _) | sl_exact chk55_of_lt _ (hSM _) | sl_exact chk56_of_lt _ (hSM _))
  sl_step
  isplitl [Hs]; · iexact Hs
  isplitl [Htv]; · iexact Htv
  iexists _; isplitl [Hb]; · iexact Hb
  ipureintro
  have ht : t.val < 64 := t.isLt
  refine filled_step16' (baW).view (SMsem m d L 6) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off221_eq t ⟨0, by decide⟩).trans
      (congrArg (fun x : Nat => (![x] : Fin 1 → Nat)) (show 256 * t.val + 16 * 0 = 256 * t.val + 16 * 0 by omega))
  · exact (k0_off221_eq t ⟨1, by decide⟩).trans
      (congrArg (fun x : Nat => (![x] : Fin 1 → Nat)) (show 256 * t.val + 16 * 1 = 256 * t.val + 16 * 1 by omega))
  · exact (k0_off224_eq t ⟨0, by decide⟩).trans
      (congrArg (fun x : Nat => (![x] : Fin 1 → Nat)) (show 256 * t.val + 16 * 0 + 32 = 256 * t.val + 16 * 2 by omega))
  · exact (k0_off224_eq t ⟨1, by decide⟩).trans
      (congrArg (fun x : Nat => (![x] : Fin 1 → Nat)) (show 256 * t.val + 16 * 1 + 32 = 256 * t.val + 16 * 3 by omega))
  · exact (k0_off227_eq t ⟨0, by decide⟩).trans
      (congrArg (fun x : Nat => (![x] : Fin 1 → Nat)) (show 256 * t.val + 16 * 0 + 64 = 256 * t.val + 16 * 4 by omega))
  · exact (k0_off227_eq t ⟨1, by decide⟩).trans
      (congrArg (fun x : Nat => (![x] : Fin 1 → Nat)) (show 256 * t.val + 16 * 1 + 64 = 256 * t.val + 16 * 5 by omega))
  · exact (k0_off230_eq t ⟨0, by decide⟩).trans
      (congrArg (fun x : Nat => (![x] : Fin 1 → Nat)) (show 256 * t.val + 16 * 0 + 96 = 256 * t.val + 16 * 6 by omega))
  · exact (k0_off230_eq t ⟨1, by decide⟩).trans
      (congrArg (fun x : Nat => (![x] : Fin 1 → Nat)) (show 256 * t.val + 16 * 1 + 96 = 256 * t.val + 16 * 7 by omega))
  · exact (k0_off233_eq t ⟨0, by decide⟩).trans
      (congrArg (fun x : Nat => (![x] : Fin 1 → Nat)) (show 256 * t.val + 16 * 0 + 128 = 256 * t.val + 16 * 8 by omega))
  · exact (k0_off233_eq t ⟨1, by decide⟩).trans
      (congrArg (fun x : Nat => (![x] : Fin 1 → Nat)) (show 256 * t.val + 16 * 1 + 128 = 256 * t.val + 16 * 9 by omega))
  · exact (k0_off236_eq t ⟨0, by decide⟩).trans
      (congrArg (fun x : Nat => (![x] : Fin 1 → Nat)) (show 256 * t.val + 16 * 0 + 160 = 256 * t.val + 16 * 10 by omega))
  · exact (k0_off236_eq t ⟨1, by decide⟩).trans
      (congrArg (fun x : Nat => (![x] : Fin 1 → Nat)) (show 256 * t.val + 16 * 1 + 160 = 256 * t.val + 16 * 11 by omega))
  · exact (k0_off239_eq t ⟨0, by decide⟩).trans
      (congrArg (fun x : Nat => (![x] : Fin 1 → Nat)) (show 256 * t.val + 16 * 0 + 192 = 256 * t.val + 16 * 12 by omega))
  · exact (k0_off239_eq t ⟨1, by decide⟩).trans
      (congrArg (fun x : Nat => (![x] : Fin 1 → Nat)) (show 256 * t.val + 16 * 1 + 192 = 256 * t.val + 16 * 13 by omega))
  · exact (k0_off242_eq t ⟨0, by decide⟩).trans
      (congrArg (fun x : Nat => (![x] : Fin 1 → Nat)) (show 256 * t.val + 16 * 0 + 224 = 256 * t.val + 16 * 14 by omega))
  · exact (k0_off242_eq t ⟨1, by decide⟩).trans
      (congrArg (fun x : Nat => (![x] : Fin 1 → Nat)) (show 256 * t.val + 16 * 1 + 224 = 256 * t.val + 16 * 15 by omega))
  · intro y hlt
    have hw := word_a (F := F) (SMsem m d L 6) (k0_off219 t) (k0_off219_inb t) (64 * 0 + t.val) (by omega)
      ((k0_off219_eq t).trans (congrArg (fun x : Nat => (![x] : Fin 1 → Nat)) (show t.val = 64 * 0 + t.val by omega))) Nat.one_pos
    exact pay_eq (SMsem m d L 6) TAB t.val 0 0 ht (by decide) (by decide) _ hw hSM _ _
      (tabOff220 _ (by rw [hw]; exact hSM _) ⟨0, by decide⟩) y hlt
  · intro y hlt
    have hw := word_a (F := F) (SMsem m d L 6) (k0_off219 t) (k0_off219_inb t) (64 * 0 + t.val) (by omega)
      ((k0_off219_eq t).trans (congrArg (fun x : Nat => (![x] : Fin 1 → Nat)) (show t.val = 64 * 0 + t.val by omega))) Nat.one_pos
    exact pay_eq (SMsem m d L 6) TAB t.val 0 1 ht (by decide) (by decide) _ hw hSM _ _
      (tabOff220 _ (by rw [hw]; exact hSM _) ⟨1, by decide⟩) y hlt
  · intro y hlt
    have hw := word_a (F := F) (SMsem m d L 6) (k0_off222 t) (k0_off222_inb t) (64 * 1 + t.val) (by omega)
      ((k0_off222_eq t).trans (congrArg (fun x : Nat => (![x] : Fin 1 → Nat)) (show t.val + 64 = 64 * 1 + t.val by omega))) Nat.one_pos
    exact pay_eq (SMsem m d L 6) TAB t.val 1 0 ht (by decide) (by decide) _ hw hSM _ _
      (tabOff223 _ (by rw [hw]; exact hSM _) ⟨0, by decide⟩) y hlt
  · intro y hlt
    have hw := word_a (F := F) (SMsem m d L 6) (k0_off222 t) (k0_off222_inb t) (64 * 1 + t.val) (by omega)
      ((k0_off222_eq t).trans (congrArg (fun x : Nat => (![x] : Fin 1 → Nat)) (show t.val + 64 = 64 * 1 + t.val by omega))) Nat.one_pos
    exact pay_eq (SMsem m d L 6) TAB t.val 1 1 ht (by decide) (by decide) _ hw hSM _ _
      (tabOff223 _ (by rw [hw]; exact hSM _) ⟨1, by decide⟩) y hlt
  · intro y hlt
    have hw := word_a (F := F) (SMsem m d L 6) (k0_off225 t) (k0_off225_inb t) (64 * 2 + t.val) (by omega)
      ((k0_off225_eq t).trans (congrArg (fun x : Nat => (![x] : Fin 1 → Nat)) (show t.val + 128 = 64 * 2 + t.val by omega))) Nat.one_pos
    exact pay_eq (SMsem m d L 6) TAB t.val 2 0 ht (by decide) (by decide) _ hw hSM _ _
      (tabOff226 _ (by rw [hw]; exact hSM _) ⟨0, by decide⟩) y hlt
  · intro y hlt
    have hw := word_a (F := F) (SMsem m d L 6) (k0_off225 t) (k0_off225_inb t) (64 * 2 + t.val) (by omega)
      ((k0_off225_eq t).trans (congrArg (fun x : Nat => (![x] : Fin 1 → Nat)) (show t.val + 128 = 64 * 2 + t.val by omega))) Nat.one_pos
    exact pay_eq (SMsem m d L 6) TAB t.val 2 1 ht (by decide) (by decide) _ hw hSM _ _
      (tabOff226 _ (by rw [hw]; exact hSM _) ⟨1, by decide⟩) y hlt
  · intro y hlt
    have hw := word_a (F := F) (SMsem m d L 6) (k0_off228 t) (k0_off228_inb t) (64 * 3 + t.val) (by omega)
      ((k0_off228_eq t).trans (congrArg (fun x : Nat => (![x] : Fin 1 → Nat)) (show t.val + 192 = 64 * 3 + t.val by omega))) Nat.one_pos
    exact pay_eq (SMsem m d L 6) TAB t.val 3 0 ht (by decide) (by decide) _ hw hSM _ _
      (tabOff229 _ (by rw [hw]; exact hSM _) ⟨0, by decide⟩) y hlt
  · intro y hlt
    have hw := word_a (F := F) (SMsem m d L 6) (k0_off228 t) (k0_off228_inb t) (64 * 3 + t.val) (by omega)
      ((k0_off228_eq t).trans (congrArg (fun x : Nat => (![x] : Fin 1 → Nat)) (show t.val + 192 = 64 * 3 + t.val by omega))) Nat.one_pos
    exact pay_eq (SMsem m d L 6) TAB t.val 3 1 ht (by decide) (by decide) _ hw hSM _ _
      (tabOff229 _ (by rw [hw]; exact hSM _) ⟨1, by decide⟩) y hlt
  · intro y hlt
    have hw := word_a (F := F) (SMsem m d L 6) (k0_off231 t) (k0_off231_inb t) (64 * 4 + t.val) (by omega)
      ((k0_off231_eq t).trans (congrArg (fun x : Nat => (![x] : Fin 1 → Nat)) (show t.val + 256 = 64 * 4 + t.val by omega))) Nat.one_pos
    exact pay_eq (SMsem m d L 6) TAB t.val 4 0 ht (by decide) (by decide) _ hw hSM _ _
      (tabOff232 _ (by rw [hw]; exact hSM _) ⟨0, by decide⟩) y hlt
  · intro y hlt
    have hw := word_a (F := F) (SMsem m d L 6) (k0_off231 t) (k0_off231_inb t) (64 * 4 + t.val) (by omega)
      ((k0_off231_eq t).trans (congrArg (fun x : Nat => (![x] : Fin 1 → Nat)) (show t.val + 256 = 64 * 4 + t.val by omega))) Nat.one_pos
    exact pay_eq (SMsem m d L 6) TAB t.val 4 1 ht (by decide) (by decide) _ hw hSM _ _
      (tabOff232 _ (by rw [hw]; exact hSM _) ⟨1, by decide⟩) y hlt
  · intro y hlt
    have hw := word_a (F := F) (SMsem m d L 6) (k0_off234 t) (k0_off234_inb t) (64 * 5 + t.val) (by omega)
      ((k0_off234_eq t).trans (congrArg (fun x : Nat => (![x] : Fin 1 → Nat)) (show t.val + 320 = 64 * 5 + t.val by omega))) Nat.one_pos
    exact pay_eq (SMsem m d L 6) TAB t.val 5 0 ht (by decide) (by decide) _ hw hSM _ _
      (tabOff235 _ (by rw [hw]; exact hSM _) ⟨0, by decide⟩) y hlt
  · intro y hlt
    have hw := word_a (F := F) (SMsem m d L 6) (k0_off234 t) (k0_off234_inb t) (64 * 5 + t.val) (by omega)
      ((k0_off234_eq t).trans (congrArg (fun x : Nat => (![x] : Fin 1 → Nat)) (show t.val + 320 = 64 * 5 + t.val by omega))) Nat.one_pos
    exact pay_eq (SMsem m d L 6) TAB t.val 5 1 ht (by decide) (by decide) _ hw hSM _ _
      (tabOff235 _ (by rw [hw]; exact hSM _) ⟨1, by decide⟩) y hlt
  · intro y hlt
    have hw := word_a (F := F) (SMsem m d L 6) (k0_off237 t) (k0_off237_inb t) (64 * 6 + t.val) (by omega)
      ((k0_off237_eq t).trans (congrArg (fun x : Nat => (![x] : Fin 1 → Nat)) (show t.val + 384 = 64 * 6 + t.val by omega))) Nat.one_pos
    exact pay_eq (SMsem m d L 6) TAB t.val 6 0 ht (by decide) (by decide) _ hw hSM _ _
      (tabOff238 _ (by rw [hw]; exact hSM _) ⟨0, by decide⟩) y hlt
  · intro y hlt
    have hw := word_a (F := F) (SMsem m d L 6) (k0_off237 t) (k0_off237_inb t) (64 * 6 + t.val) (by omega)
      ((k0_off237_eq t).trans (congrArg (fun x : Nat => (![x] : Fin 1 → Nat)) (show t.val + 384 = 64 * 6 + t.val by omega))) Nat.one_pos
    exact pay_eq (SMsem m d L 6) TAB t.val 6 1 ht (by decide) (by decide) _ hw hSM _ _
      (tabOff238 _ (by rw [hw]; exact hSM _) ⟨1, by decide⟩) y hlt
  · intro y hlt
    have hw := word_a (F := F) (SMsem m d L 6) (k0_off240 t) (k0_off240_inb t) (64 * 7 + t.val) (by omega)
      ((k0_off240_eq t).trans (congrArg (fun x : Nat => (![x] : Fin 1 → Nat)) (show t.val + 448 = 64 * 7 + t.val by omega))) Nat.one_pos
    exact pay_eq (SMsem m d L 6) TAB t.val 7 0 ht (by decide) (by decide) _ hw hSM _ _
      (tabOff241 _ (by rw [hw]; exact hSM _) ⟨0, by decide⟩) y hlt
  · intro y hlt
    have hw := word_a (F := F) (SMsem m d L 6) (k0_off240 t) (k0_off240_inb t) (64 * 7 + t.val) (by omega)
      ((k0_off240_eq t).trans (congrArg (fun x : Nat => (![x] : Fin 1 → Nat)) (show t.val + 448 = 64 * 7 + t.val by omega))) Nat.one_pos
    exact pay_eq (SMsem m d L 6) TAB t.val 7 1 ht (by decide) (by decide) _ hw hSM _ _
      (tabOff241 _ (by rw [hw]; exact hSM _) ⟨1, by decide⟩) y hlt

end Trip

end Cert.Proof.KB

end
-- ==== Proof.KB.Trip7.lean ====
/-
  Trip t of fill loop 8 (chunk 7): from the chunk's index words, the table, and a staging buffer whose rows below t
  are filled, the trip leaves the same with the rows below t + 1 filled. The trip's sixteen stores are the sixteen
  runs of row t; each run's payload — 16 table entries loaded at 32·word + 1024 j + 16 h for the word at 64 j + t — is
  the row's value on the run.
-/
import proofs.«204821_g30846455120635_fold_wed_m_1292_33_alg».proof.Proof.KB.TripGen
import proofs.«204821_g30846455120635_fold_wed_m_1292_33_alg».proof.Proof.KB.TabOff

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section Trip

theorem trip7 (hpre : PreOK m) (d : Dev nD) (L : grid0.Coords) (TAB : Buf (Elt F) (tabLoc d)) (t : Fin k0_t8_loop.trips) (acc : PUnit) :
    invb m d L 7 TAB t.val acc ⊢ wp frame (wpE (defs₀ (F := F)) 𝒱₀ (thr d L) none) Set.univ
      (k0_t8_body L a0W (Memref.isWhole_whole _) a1W (Memref.isWhole_whole _) a2W (Memref.isWhole_whole _) a3W (Memref.isWhole_whole _)
            a4W (Memref.isWhole_whole _) a5W (Memref.isWhole_whole _) a6W (Memref.isWhole_whole _) a7W (Memref.isWhole_whole _)
            tbW (Memref.isWhole_whole _) ouW (Memref.isWhole_whole _) tvW (Memref.isWhole_whole _) shW (Memref.isWhole_whole _)
            saW (Memref.isWhole_whole _) sbW (Memref.isWhole_whole _) baW (Memref.isWhole_whole _) bbW (Memref.isWhole_whole _)
            cc0_scratch6 cc0_scratch7 cc0_scratch8 cc0_scratch9 cc0_scratch10 cc0_scratch11 t acc) (fun r => invb m d L 7 TAB (t.val + 1) r) := by
  unfold invb
  iintro ⟨Hs, Htv, %g, Hb, %hfill⟩
  have hSM := SMsem_lt m d L hpre 7
  sl_exec (disch := first | sl_exact chk57_of_lt _ (hSM _) | sl_exact chk58_of_lt _ (hSM _) | sl_exact chk59_of_lt _ (hSM _) | sl_exact chk60_of_lt _ (hSM _) | sl_exact chk61_of_lt _ (hSM _) | sl_exact chk62_of_lt _ (hSM _) | sl_exact chk63_of_lt _ (hSM _) | sl_exact chk64_of_lt _ (hSM _))
  sl_step
  isplitl [Hs]; · iexact Hs
  isplitl [Htv]; · iexact Htv
  iexists _; isplitl [Hb]; · iexact Hb
  ipureintro
  have ht : t.val < 64 := t.isLt
  refine filled_step16' (bbW).view (SMsem m d L 7) TAB t.val ht g hfill
    _ _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact (k0_off245_eq t ⟨0, by decide⟩).trans
      (congrArg (fun x : Nat => (![x] : Fin 1 → Nat)) (show 256 * t.val + 16 * 0 = 256 * t.val + 16 * 0 by omega))
  · exact (k0_off245_eq t ⟨1, by decide⟩).trans
      (congrArg (fun x : Nat => (![x] : Fin 1 → Nat)) (show 256 * t.val + 16 * 1 = 256 * t.val + 16 * 1 by omega))
  · exact (k0_off248_eq t ⟨0, by decide⟩).trans
      (congrArg (fun x : Nat => (![x] : Fin 1 → Nat)) (show 256 * t.val + 16 * 0 + 32 = 256 * t.val + 16 * 2 by omega))
  · exact (k0_off248_eq t ⟨1, by decide⟩).trans
      (congrArg (fun x : Nat => (![x] : Fin 1 → Nat)) (show 256 * t.val + 16 * 1 + 32 = 256 * t.val + 16 * 3 by omega))
  · exact (k0_off251_eq t ⟨0, by decide⟩).trans
      (congrArg (fun x : Nat => (![x] : Fin 1 → Nat)) (show 256 * t.val + 16 * 0 + 64 = 256 * t.val + 16 * 4 by omega))
  · exact (k0_off251_eq t ⟨1, by decide⟩).trans
      (congrArg (fun x : Nat => (![x] : Fin 1 → Nat)) (show 256 * t.val + 16 * 1 + 64 = 256 * t.val + 16 * 5 by omega))
  · exact (k0_off254_eq t ⟨0, by decide⟩).trans
      (congrArg (fun x : Nat => (![x] : Fin 1 → Nat)) (show 256 * t.val + 16 * 0 + 96 = 256 * t.val + 16 * 6 by omega))
  · exact (k0_off254_eq t ⟨1, by decide⟩).trans
      (congrArg (fun x : Nat => (![x] : Fin 1 → Nat)) (show 256 * t.val + 16 * 1 + 96 = 256 * t.val + 16 * 7 by omega))
  · exact (k0_off257_eq t ⟨0, by decide⟩).trans
      (congrArg (fun x : Nat => (![x] : Fin 1 → Nat)) (show 256 * t.val + 16 * 0 + 128 = 256 * t.val + 16 * 8 by omega))
  · exact (k0_off257_eq t ⟨1, by decide⟩).trans
      (congrArg (fun x : Nat => (![x] : Fin 1 → Nat)) (show 256 * t.val + 16 * 1 + 128 = 256 * t.val + 16 * 9 by omega))
  · exact (k0_off260_eq t ⟨0, by decide⟩).trans
      (congrArg (fun x : Nat => (![x] : Fin 1 → Nat)) (show 256 * t.val + 16 * 0 + 160 = 256 * t.val + 16 * 10 by omega))
  · exact (k0_off260_eq t ⟨1, by decide⟩).trans
      (congrArg (fun x : Nat => (![x] : Fin 1 → Nat)) (show 256 * t.val + 16 * 1 + 160 = 256 * t.val + 16 * 11 by omega))
  · exact (k0_off263_eq t ⟨0, by decide⟩).trans
      (congrArg (fun x : Nat => (![x] : Fin 1 → Nat)) (show 256 * t.val + 16 * 0 + 192 = 256 * t.val + 16 * 12 by omega))
  · exact (k0_off263_eq t ⟨1, by decide⟩).trans
      (congrArg (fun x : Nat => (![x] : Fin 1 → Nat)) (show 256 * t.val + 16 * 1 + 192 = 256 * t.val + 16 * 13 by omega))
  · exact (k0_off266_eq t ⟨0, by decide⟩).trans
      (congrArg (fun x : Nat => (![x] : Fin 1 → Nat)) (show 256 * t.val + 16 * 0 + 224 = 256 * t.val + 16 * 14 by omega))
  · exact (k0_off266_eq t ⟨1, by decide⟩).trans
      (congrArg (fun x : Nat => (![x] : Fin 1 → Nat)) (show 256 * t.val + 16 * 1 + 224 = 256 * t.val + 16 * 15 by omega))
  · intro y hlt
    have hw := word_b (F := F) (SMsem m d L 7) (k0_off243 t) (k0_off243_inb t) (64 * 0 + t.val) (by omega)
      ((k0_off243_eq t).trans (congrArg (fun x : Nat => (![x] : Fin 1 → Nat)) (show t.val = 64 * 0 + t.val by omega))) Nat.one_pos
    exact pay_eq (SMsem m d L 7) TAB t.val 0 0 ht (by decide) (by decide) _ hw hSM _ _
      (tabOff244 _ (by rw [hw]; exact hSM _) ⟨0, by decide⟩) y hlt
  · intro y hlt
    have hw := word_b (F := F) (SMsem m d L 7) (k0_off243 t) (k0_off243_inb t) (64 * 0 + t.val) (by omega)
      ((k0_off243_eq t).trans (congrArg (fun x : Nat => (![x] : Fin 1 → Nat)) (show t.val = 64 * 0 + t.val by omega))) Nat.one_pos
    exact pay_eq (SMsem m d L 7) TAB t.val 0 1 ht (by decide) (by decide) _ hw hSM _ _
      (tabOff244 _ (by rw [hw]; exact hSM _) ⟨1, by decide⟩) y hlt
  · intro y hlt
    have hw := word_b (F := F) (SMsem m d L 7) (k0_off246 t) (k0_off246_inb t) (64 * 1 + t.val) (by omega)
      ((k0_off246_eq t).trans (congrArg (fun x : Nat => (![x] : Fin 1 → Nat)) (show t.val + 64 = 64 * 1 + t.val by omega))) Nat.one_pos
    exact pay_eq (SMsem m d L 7) TAB t.val 1 0 ht (by decide) (by decide) _ hw hSM _ _
      (tabOff247 _ (by rw [hw]; exact hSM _) ⟨0, by decide⟩) y hlt
  · intro y hlt
    have hw := word_b (F := F) (SMsem m d L 7) (k0_off246 t) (k0_off246_inb t) (64 * 1 + t.val) (by omega)
      ((k0_off246_eq t).trans (congrArg (fun x : Nat => (![x] : Fin 1 → Nat)) (show t.val + 64 = 64 * 1 + t.val by omega))) Nat.one_pos
    exact pay_eq (SMsem m d L 7) TAB t.val 1 1 ht (by decide) (by decide) _ hw hSM _ _
      (tabOff247 _ (by rw [hw]; exact hSM _) ⟨1, by decide⟩) y hlt
  · intro y hlt
    have hw := word_b (F := F) (SMsem m d L 7) (k0_off249 t) (k0_off249_inb t) (64 * 2 + t.val) (by omega)
      ((k0_off249_eq t).trans (congrArg (fun x : Nat => (![x] : Fin 1 → Nat)) (show t.val + 128 = 64 * 2 + t.val by omega))) Nat.one_pos
    exact pay_eq (SMsem m d L 7) TAB t.val 2 0 ht (by decide) (by decide) _ hw hSM _ _
      (tabOff250 _ (by rw [hw]; exact hSM _) ⟨0, by decide⟩) y hlt
  · intro y hlt
    have hw := word_b (F := F) (SMsem m d L 7) (k0_off249 t) (k0_off249_inb t) (64 * 2 + t.val) (by omega)
      ((k0_off249_eq t).trans (congrArg (fun x : Nat => (![x] : Fin 1 → Nat)) (show t.val + 128 = 64 * 2 + t.val by omega))) Nat.one_pos
    exact pay_eq (SMsem m d L 7) TAB t.val 2 1 ht (by decide) (by decide) _ hw hSM _ _
      (tabOff250 _ (by rw [hw]; exact hSM _) ⟨1, by decide⟩) y hlt
  · intro y hlt
    have hw := word_b (F := F) (SMsem m d L 7) (k0_off252 t) (k0_off252_inb t) (64 * 3 + t.val) (by omega)
      ((k0_off252_eq t).trans (congrArg (fun x : Nat => (![x] : Fin 1 → Nat)) (show t.val + 192 = 64 * 3 + t.val by omega))) Nat.one_pos
    exact pay_eq (SMsem m d L 7) TAB t.val 3 0 ht (by decide) (by decide) _ hw hSM _ _
      (tabOff253 _ (by rw [hw]; exact hSM _) ⟨0, by decide⟩) y hlt
  · intro y hlt
    have hw := word_b (F := F) (SMsem m d L 7) (k0_off252 t) (k0_off252_inb t) (64 * 3 + t.val) (by omega)
      ((k0_off252_eq t).trans (congrArg (fun x : Nat => (![x] : Fin 1 → Nat)) (show t.val + 192 = 64 * 3 + t.val by omega))) Nat.one_pos
    exact pay_eq (SMsem m d L 7) TAB t.val 3 1 ht (by decide) (by decide) _ hw hSM _ _
      (tabOff253 _ (by rw [hw]; exact hSM _) ⟨1, by decide⟩) y hlt
  · intro y hlt
    have hw := word_b (F := F) (SMsem m d L 7) (k0_off255 t) (k0_off255_inb t) (64 * 4 + t.val) (by omega)
      ((k0_off255_eq t).trans (congrArg (fun x : Nat => (![x] : Fin 1 → Nat)) (show t.val + 256 = 64 * 4 + t.val by omega))) Nat.one_pos
    exact pay_eq (SMsem m d L 7) TAB t.val 4 0 ht (by decide) (by decide) _ hw hSM _ _
      (tabOff256 _ (by rw [hw]; exact hSM _) ⟨0, by decide⟩) y hlt
  · intro y hlt
    have hw := word_b (F := F) (SMsem m d L 7) (k0_off255 t) (k0_off255_inb t) (64 * 4 + t.val) (by omega)
      ((k0_off255_eq t).trans (congrArg (fun x : Nat => (![x] : Fin 1 → Nat)) (show t.val + 256 = 64 * 4 + t.val by omega))) Nat.one_pos
    exact pay_eq (SMsem m d L 7) TAB t.val 4 1 ht (by decide) (by decide) _ hw hSM _ _
      (tabOff256 _ (by rw [hw]; exact hSM _) ⟨1, by decide⟩) y hlt
  · intro y hlt
    have hw := word_b (F := F) (SMsem m d L 7) (k0_off258 t) (k0_off258_inb t) (64 * 5 + t.val) (by omega)
      ((k0_off258_eq t).trans (congrArg (fun x : Nat => (![x] : Fin 1 → Nat)) (show t.val + 320 = 64 * 5 + t.val by omega))) Nat.one_pos
    exact pay_eq (SMsem m d L 7) TAB t.val 5 0 ht (by decide) (by decide) _ hw hSM _ _
      (tabOff259 _ (by rw [hw]; exact hSM _) ⟨0, by decide⟩) y hlt
  · intro y hlt
    have hw := word_b (F := F) (SMsem m d L 7) (k0_off258 t) (k0_off258_inb t) (64 * 5 + t.val) (by omega)
      ((k0_off258_eq t).trans (congrArg (fun x : Nat => (![x] : Fin 1 → Nat)) (show t.val + 320 = 64 * 5 + t.val by omega))) Nat.one_pos
    exact pay_eq (SMsem m d L 7) TAB t.val 5 1 ht (by decide) (by decide) _ hw hSM _ _
      (tabOff259 _ (by rw [hw]; exact hSM _) ⟨1, by decide⟩) y hlt
  · intro y hlt
    have hw := word_b (F := F) (SMsem m d L 7) (k0_off261 t) (k0_off261_inb t) (64 * 6 + t.val) (by omega)
      ((k0_off261_eq t).trans (congrArg (fun x : Nat => (![x] : Fin 1 → Nat)) (show t.val + 384 = 64 * 6 + t.val by omega))) Nat.one_pos
    exact pay_eq (SMsem m d L 7) TAB t.val 6 0 ht (by decide) (by decide) _ hw hSM _ _
      (tabOff262 _ (by rw [hw]; exact hSM _) ⟨0, by decide⟩) y hlt
  · intro y hlt
    have hw := word_b (F := F) (SMsem m d L 7) (k0_off261 t) (k0_off261_inb t) (64 * 6 + t.val) (by omega)
      ((k0_off261_eq t).trans (congrArg (fun x : Nat => (![x] : Fin 1 → Nat)) (show t.val + 384 = 64 * 6 + t.val by omega))) Nat.one_pos
    exact pay_eq (SMsem m d L 7) TAB t.val 6 1 ht (by decide) (by decide) _ hw hSM _ _
      (tabOff262 _ (by rw [hw]; exact hSM _) ⟨1, by decide⟩) y hlt
  · intro y hlt
    have hw := word_b (F := F) (SMsem m d L 7) (k0_off264 t) (k0_off264_inb t) (64 * 7 + t.val) (by omega)
      ((k0_off264_eq t).trans (congrArg (fun x : Nat => (![x] : Fin 1 → Nat)) (show t.val + 448 = 64 * 7 + t.val by omega))) Nat.one_pos
    exact pay_eq (SMsem m d L 7) TAB t.val 7 0 ht (by decide) (by decide) _ hw hSM _ _
      (tabOff265 _ (by rw [hw]; exact hSM _) ⟨0, by decide⟩) y hlt
  · intro y hlt
    have hw := word_b (F := F) (SMsem m d L 7) (k0_off264 t) (k0_off264_inb t) (64 * 7 + t.val) (by omega)
      ((k0_off264_eq t).trans (congrArg (fun x : Nat => (![x] : Fin 1 → Nat)) (show t.val + 448 = 64 * 7 + t.val by omega))) Nat.one_pos
    exact pay_eq (SMsem m d L 7) TAB t.val 7 1 ht (by decide) (by decide) _ hw hSM _ _
      (tabOff265 _ (by rw [hw]; exact hSM _) ⟨1, by decide⟩) y hlt

end Trip

end Cert.Proof.KB

end
-- ==== Proof.KB.Trips.lean ====
/-
  The eight fill loops' trips, gathered: trip t of loop k + 1 takes the loop's invariant at t to the invariant at t + 1.
-/
import proofs.«204821_g30846455120635_fold_wed_m_1292_33_alg».proof.Proof.KB.Trip0
import proofs.«204821_g30846455120635_fold_wed_m_1292_33_alg».proof.Proof.KB.Trip1
import proofs.«204821_g30846455120635_fold_wed_m_1292_33_alg».proof.Proof.KB.Trip2
import proofs.«204821_g30846455120635_fold_wed_m_1292_33_alg».proof.Proof.KB.Trip3
import proofs.«204821_g30846455120635_fold_wed_m_1292_33_alg».proof.Proof.KB.Trip4
import proofs.«204821_g30846455120635_fold_wed_m_1292_33_alg».proof.Proof.KB.Trip5
import proofs.«204821_g30846455120635_fold_wed_m_1292_33_alg».proof.Proof.KB.Trip6
import proofs.«204821_g30846455120635_fold_wed_m_1292_33_alg».proof.Proof.KB.Trip7
-- ==== Proof.KB.StageGen.lean ====
/-
  What the staged index words are.

  The task stages its 512 words of each index column in a row of the shared scratch (column j's words in columns
  512 j … 512 j + 511 of the row), and from there copies, for chunk k, the 64 words 64 k … 64 k + 63 of each column into
  run j of a scalar-memory index buffer. A copy lands its source's words in order. So word 64 j + y of the index buffer
  after chunk k's copy j is the row's word 512 j + 64 k + y, which is word 64 k + y of the task's 512 words of column j,
  which is word (task's first word) + 64 k + y of the column itself.
-/
import proofs.«204821_g30846455120635_fold_wed_m_1292_33_alg».proof.Proof.KB.Stage
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section StageVal
variable (d : Dev nD) (L : grid0.Coords)

/-! ## A landed whole piece reads its payload -/

omit [FloatOps F] in
/-- Through any view: after one write of the whole shape, the view reads the payload. -/
theorem read_landed {κ : Kind} {sp : Space} {s : Shape} {e : EltTy} (v : View sig κ sp s e) (f : v.ty.Contents (Elt F))
    (w : s.Idx → Elt F e) (y : s.Idx) :
    v.read (Elt F) (v.writes (Elt F) f [⟨Rect.whole s, w⟩]) y = w y := by
  have h := View.read_writes_cons_emb v f (Rect.whole s) w [] y
  rwa [Rect.emb_whole_apply] at h

/-! ## Where the windows' words sit -/

omit [FloatOps F] in
/-- A row window of the shared scratch, its unit axis dropped: word y sits in the window's row at the window's first
    column plus y. -/
theorem row_window_emb (n : Nat) (off : Fin 2 → Nat) (inb : ∀ a, off a + (![1, n] : Fin 2 → Nat) a ≤ S16x4096.size a)
    (h : (⟨1, ![n]⟩ : Shape).numel = (Rect.unit (s := S16x4096) off ![1, n] inb).shape.numel)
    (y : (⟨1, ![n]⟩ : Shape).Idx) :
    (((shW).view.slice (Rect.unit (s := S16x4096) off ![1, n] inb)).reshape ⟨1, ![n]⟩ h).emb y
      = (Rect.unit (s := S16x4096) off ![1, n] inb).emb (ix2 (⟨0, Nat.one_pos⟩ : Fin 1) (y 0)) := by
  show (Rect.unit (s := S16x4096) off ![1, n] inb).emb (Shape.reshapeEquiv h y) = _
  congr 1
  refine Shape.reshapeEquiv_eq_of_rowMajor h ?_
  rw [Shape.rowMajor_val_two, Shape.rowMajor_val_one]
  show 0 * n + (y 0).val = (y 0).val
  omega

/-! ## The windows, by their offsets -/

/-- A 64-word run of the first index buffer, the second, a 64-word and a 512-word window of a row of the shared scratch. -/
abbrev saWin (o : Fin 1 → Nat) (inbo : ∀ a, o a + S64.size a ≤ S512.size a) : Memref sig .scVector .smem S64 .i32 :=
  (saW).slice (Rect.unit (s := S512) o S64.size inbo) (fun _ => rfl)
abbrev sbWin (o : Fin 1 → Nat) (inbo : ∀ a, o a + S64.size a ≤ S512.size a) : Memref sig .scVector .smem S64 .i32 :=
  (sbW).slice (Rect.unit (s := S512) o S64.size inbo) (fun _ => rfl)
abbrev shWin64 (oq : Fin 2 → Nat) (inbq : ∀ a, oq a + S1x64.size a ≤ S16x4096.size a) : Memref sig .scVector .shared S64 .i32 :=
  ((shW).slice (Rect.unit (s := S16x4096) oq S1x64.size inbq) (fun _ => rfl)).squeeze S64 squeezes_S1x64_S64
abbrev shWin512 (os : Fin 2 → Nat) (inbs : ∀ a, os a + S1x512.size a ≤ S16x4096.size a) : Memref sig .scVector .shared S512 .i32 :=
  ((shW).slice (Rect.unit (s := S16x4096) os S1x512.size inbs) (fun _ => rfl)).squeeze S512 squeezes_S1x512_S512

/-! ## The chain, over the windows' offsets -/

omit [FloatOps F] in
/-- Word y of a run of the first index buffer, after the run landed from a 64-word window of the row that itself landed
    inside a 512-word window of the row holding the payload `w`: the payload's word 64 k + y, when the small window
    starts 64 k words into the large one. -/
theorem word_sa (o : Fin 1 → Nat) (inbo : ∀ a, o a + S64.size a ≤ S512.size a)
    (oq os : Fin 2 → Nat) (inbq : ∀ a, oq a + S1x64.size a ≤ S16x4096.size a) (inbs : ∀ a, os a + S1x512.size a ≤ S16x4096.size a)
    (r cq cs k : Nat) (hq : oq = ![r, cq]) (hs : os = ![r, cs]) (hc : cq = cs + 64 * k) (hk : k < 8)
    (prev : Buf (Elt F) ((saW).view.loc (thr d L))) (fsh : Buf (Elt F) ((shW).view.loc (thr d L)))
    (w : S512.Idx → Elt F .i32) (y : S64.Idx) :
    ((saWin o inbo).view.writes (Elt F) prev
        [⟨Rect.whole S64, ReadAs.same.apply
          ((shWin64 oq inbq).view.read (Elt F) ((shWin512 os inbs).view.writes (Elt F) fsh [⟨Rect.whole S512, w⟩]))⟩])
      ((saWin o inbo).view.emb y)
    = w (ix1 (⟨64 * k + (y 0).val, by have h : (y 0).val < 64 := (y 0).isLt; omega⟩ : Fin 512)) := by
  subst hq hs hc
  have hy : (y 0).val < 64 := (y 0).isLt
  -- the run's word is what the run reads: the landed payload's word y
  refine (((View.read_apply (v := (saWin o inbo).view) _ y).trans (cast_eq _ _)).symm).trans ?_
  rw [read_landed]
  -- the payload's word y is the small window's word y of the row
  refine ((View.read_apply (v := (shWin64 ![r, cs + 64 * k] inbq).view) _ y).trans (cast_eq _ _)).trans ?_
  -- which is the large window's word 64 k + y
  have he : (shWin64 ![r, cs + 64 * k] inbq).view.emb y
      = (shWin512 ![r, cs] inbs).view.emb (ix1 (⟨64 * k + (y 0).val, by omega⟩ : Fin 512)) := by
    refine (row_window_emb 64 ![r, cs + 64 * k] inbq squeezes_S1x64_S64.numel_eq y).trans
      (Eq.trans ?_ (row_window_emb 512 ![r, cs] inbs squeezes_S1x512_S512.numel_eq (ix1 (⟨64 * k + (y 0).val, by omega⟩ : Fin 512))).symm)
    funext a
    apply Fin.ext
    match a with
    | ⟨0, _⟩ => rfl
    | ⟨1, _⟩ =>
      show cs + 64 * k + 1 * (y 0).val = cs + 1 * (64 * k + (y 0).val)
      omega
  rw [he]
  -- and the large window's landed payload's word there
  refine (((View.read_apply (v := (shWin512 ![r, cs] inbs).view) _ _).trans (cast_eq _ _)).symm).trans ?_
  exact read_landed _ _ _ _

omit [FloatOps F] in
/-- Word y of a run of the second index buffer, after the run landed from a 64-word window of the row that itself landed
    inside a 512-word window of the row holding the payload `w`: the payload's word 64 k + y, when the small window
    starts 64 k words into the large one. -/
theorem word_sb (o : Fin 1 → Nat) (inbo : ∀ a, o a + S64.size a ≤ S512.size a)
    (oq os : Fin 2 → Nat) (inbq : ∀ a, oq a + S1x64.size a ≤ S16x4096.size a) (inbs : ∀ a, os a + S1x512.size a ≤ S16x4096.size a)
    (r cq cs k : Nat) (hq : oq = ![r, cq]) (hs : os = ![r, cs]) (hc : cq = cs + 64 * k) (hk : k < 8)
    (prev : Buf (Elt F) ((sbW).view.loc (thr d L))) (fsh : Buf (Elt F) ((shW).view.loc (thr d L)))
    (w : S512.Idx → Elt F .i32) (y : S64.Idx) :
    ((sbWin o inbo).view.writes (Elt F) prev
        [⟨Rect.whole S64, ReadAs.same.apply
          ((shWin64 oq inbq).view.read (Elt F) ((shWin512 os inbs).view.writes (Elt F) fsh [⟨Rect.whole S512, w⟩]))⟩])
      ((sbWin o inbo).view.emb y)
    = w (ix1 (⟨64 * k + (y 0).val, by have h : (y 0).val < 64 := (y 0).isLt; omega⟩ : Fin 512)) := by
  subst hq hs hc
  have hy : (y 0).val < 64 := (y 0).isLt
  -- the run's word is what the run reads: the landed payload's word y
  refine (((View.read_apply (v := (sbWin o inbo).view) _ y).trans (cast_eq _ _)).symm).trans ?_
  rw [read_landed]
  -- the payload's word y is the small window's word y of the row
  refine ((View.read_apply (v := (shWin64 ![r, cs + 64 * k] inbq).view) _ y).trans (cast_eq _ _)).trans ?_
  -- which is the large window's word 64 k + y
  have he : (shWin64 ![r, cs + 64 * k] inbq).view.emb y
      = (shWin512 ![r, cs] inbs).view.emb (ix1 (⟨64 * k + (y 0).val, by omega⟩ : Fin 512)) := by
    refine (row_window_emb 64 ![r, cs + 64 * k] inbq squeezes_S1x64_S64.numel_eq y).trans
      (Eq.trans ?_ (row_window_emb 512 ![r, cs] inbs squeezes_S1x512_S512.numel_eq (ix1 (⟨64 * k + (y 0).val, by omega⟩ : Fin 512))).symm)
    funext a
    apply Fin.ext
    match a with
    | ⟨0, _⟩ => rfl
    | ⟨1, _⟩ =>
      show cs + 64 * k + 1 * (y 0).val = cs + 1 * (64 * k + (y 0).val)
      omega
  rw [he]
  -- and the large window's landed payload's word there
  refine (((View.read_apply (v := (shWin512 ![r, cs] inbs).view) _ _).trans (cast_eq _ _)).symm).trans ?_
  exact read_landed _ _ _ _

/-! ## The index columns -/

theorem b0_add_lt (L : grid0.Coords) (n : Nat) (hn : n < 512) : b0 L + n < 16384 := by
  have h1 : (L 1).val < 16 := (L 1).isLt
  have h0 : (L 0).val < 2 := (L 0).isLt
  unfold b0; omega

/-- The task's 512 words of an index column start at the task's first word. -/
theorem cRect_emb (L : grid0.Coords) (n : Nat) (hn : n < 512) :
    (cRect L).emb (ix1 (⟨n, hn⟩ : Fin 512)) = (ix1 (⟨b0 L + n, b0_add_lt L n hn⟩ : Fin 16384) : S16384.Idx) := by
  funext a
  apply Fin.ext
  obtain rfl : a = 0 := Subsingleton.elim _ _
  show k0_off2 L 0 + 1 * n = b0 L + n
  rw [k0_off2_eq L]
  show 1024 * (L 1).val + 512 * (L 0).val + 1 * n = b0 L + n
  unfold b0; omega

omit [FloatOps F] in
/-- Word n of the task's 512 words of index column 0 is the column's word (task's first word) + n. -/
theorem col0_word (n : Nat) (hn : n < 512) :
    (c0S L).view.read (Elt F) (m (c0Loc d)) (ix1 (⟨n, hn⟩ : Fin 512))
      = cols m d ⟨0, by decide⟩ (ix1 (⟨b0 L + n, b0_add_lt L n hn⟩ : Fin 16384)) := by
  refine ((View.read_apply (v := (c0S L).view) _ _).trans (cast_eq _ _)).trans ?_
  show m (c0Loc d) ((cRect L).emb (ix1 (⟨n, hn⟩ : Fin 512))) = m (c0Loc d) (ix1 (⟨b0 L + n, b0_add_lt L n hn⟩ : Fin 16384))
  exact congrArg (m (c0Loc d)) (cRect_emb L n hn)

omit [FloatOps F] in
/-- Word n of the task's 512 words of index column 1 is the column's word (task's first word) + n. -/
theorem col1_word (n : Nat) (hn : n < 512) :
    (c1S L).view.read (Elt F) (m (c1Loc d)) (ix1 (⟨n, hn⟩ : Fin 512))
      = cols m d ⟨1, by decide⟩ (ix1 (⟨b0 L + n, b0_add_lt L n hn⟩ : Fin 16384)) := by
  refine ((View.read_apply (v := (c1S L).view) _ _).trans (cast_eq _ _)).trans ?_
  show m (c1Loc d) ((cRect L).emb (ix1 (⟨n, hn⟩ : Fin 512))) = m (c1Loc d) (ix1 (⟨b0 L + n, b0_add_lt L n hn⟩ : Fin 16384))
  exact congrArg (m (c1Loc d)) (cRect_emb L n hn)

omit [FloatOps F] in
/-- Word n of the task's 512 words of index column 2 is the column's word (task's first word) + n. -/
theorem col2_word (n : Nat) (hn : n < 512) :
    (c2S L).view.read (Elt F) (m (c2Loc d)) (ix1 (⟨n, hn⟩ : Fin 512))
      = cols m d ⟨2, by decide⟩ (ix1 (⟨b0 L + n, b0_add_lt L n hn⟩ : Fin 16384)) := by
  refine ((View.read_apply (v := (c2S L).view) _ _).trans (cast_eq _ _)).trans ?_
  show m (c2Loc d) ((cRect L).emb (ix1 (⟨n, hn⟩ : Fin 512))) = m (c2Loc d) (ix1 (⟨b0 L + n, b0_add_lt L n hn⟩ : Fin 16384))
  exact congrArg (m (c2Loc d)) (cRect_emb L n hn)

omit [FloatOps F] in
/-- Word n of the task's 512 words of index column 3 is the column's word (task's first word) + n. -/
theorem col3_word (n : Nat) (hn : n < 512) :
    (c3S L).view.read (Elt F) (m (c3Loc d)) (ix1 (⟨n, hn⟩ : Fin 512))
      = cols m d ⟨3, by decide⟩ (ix1 (⟨b0 L + n, b0_add_lt L n hn⟩ : Fin 16384)) := by
  refine ((View.read_apply (v := (c3S L).view) _ _).trans (cast_eq _ _)).trans ?_
  show m (c3Loc d) ((cRect L).emb (ix1 (⟨n, hn⟩ : Fin 512))) = m (c3Loc d) (ix1 (⟨b0 L + n, b0_add_lt L n hn⟩ : Fin 16384))
  exact congrArg (m (c3Loc d)) (cRect_emb L n hn)

omit [FloatOps F] in
/-- Word n of the task's 512 words of index column 4 is the column's word (task's first word) + n. -/
theorem col4_word (n : Nat) (hn : n < 512) :
    (c4S L).view.read (Elt F) (m (c4Loc d)) (ix1 (⟨n, hn⟩ : Fin 512))
      = cols m d ⟨4, by decide⟩ (ix1 (⟨b0 L + n, b0_add_lt L n hn⟩ : Fin 16384)) := by
  refine ((View.read_apply (v := (c4S L).view) _ _).trans (cast_eq _ _)).trans ?_
  show m (c4Loc d) ((cRect L).emb (ix1 (⟨n, hn⟩ : Fin 512))) = m (c4Loc d) (ix1 (⟨b0 L + n, b0_add_lt L n hn⟩ : Fin 16384))
  exact congrArg (m (c4Loc d)) (cRect_emb L n hn)

omit [FloatOps F] in
/-- Word n of the task's 512 words of index column 5 is the column's word (task's first word) + n. -/
theorem col5_word (n : Nat) (hn : n < 512) :
    (c5S L).view.read (Elt F) (m (c5Loc d)) (ix1 (⟨n, hn⟩ : Fin 512))
      = cols m d ⟨5, by decide⟩ (ix1 (⟨b0 L + n, b0_add_lt L n hn⟩ : Fin 16384)) := by
  refine ((View.read_apply (v := (c5S L).view) _ _).trans (cast_eq _ _)).trans ?_
  show m (c5Loc d) ((cRect L).emb (ix1 (⟨n, hn⟩ : Fin 512))) = m (c5Loc d) (ix1 (⟨b0 L + n, b0_add_lt L n hn⟩ : Fin 16384))
  exact congrArg (m (c5Loc d)) (cRect_emb L n hn)

omit [FloatOps F] in
/-- Word n of the task's 512 words of index column 6 is the column's word (task's first word) + n. -/
theorem col6_word (n : Nat) (hn : n < 512) :
    (c6S L).view.read (Elt F) (m (c6Loc d)) (ix1 (⟨n, hn⟩ : Fin 512))
      = cols m d ⟨6, by decide⟩ (ix1 (⟨b0 L + n, b0_add_lt L n hn⟩ : Fin 16384)) := by
  refine ((View.read_apply (v := (c6S L).view) _ _).trans (cast_eq _ _)).trans ?_
  show m (c6Loc d) ((cRect L).emb (ix1 (⟨n, hn⟩ : Fin 512))) = m (c6Loc d) (ix1 (⟨b0 L + n, b0_add_lt L n hn⟩ : Fin 16384))
  exact congrArg (m (c6Loc d)) (cRect_emb L n hn)

omit [FloatOps F] in
/-- Word n of the task's 512 words of index column 7 is the column's word (task's first word) + n. -/
theorem col7_word (n : Nat) (hn : n < 512) :
    (c7S L).view.read (Elt F) (m (c7Loc d)) (ix1 (⟨n, hn⟩ : Fin 512))
      = cols m d ⟨7, by decide⟩ (ix1 (⟨b0 L + n, b0_add_lt L n hn⟩ : Fin 16384)) := by
  refine ((View.read_apply (v := (c7S L).view) _ _).trans (cast_eq _ _)).trans ?_
  show m (c7Loc d) ((cRect L).emb (ix1 (⟨n, hn⟩ : Fin 512))) = m (c7Loc d) (ix1 (⟨b0 L + n, b0_add_lt L n hn⟩ : Fin 16384))
  exact congrArg (m (c7Loc d)) (cRect_emb L n hn)

/-! ## The index buffer's words, from the columns -/

omit [FloatOps F] in
theorem cols_congr (a a' : Fin 8) (n n' : Fin 16384) (ha : a = a') (hn : n = n') :
    cols m d a (ix1 n) = cols m d a' (ix1 n') := by
  subst ha hn; rfl

omit [FloatOps F] in
/-- Chunk k's word at position 64 j + y of the index buffer is column j's word (task's first word) + 64 k + y. -/
theorem SMsem_at (kn : Nat) (hk : kn < 8) (jn : Nat) (hj : jn < 8) (i : S512.Idx) (y0 : Nat) (hy : y0 < 64)
    (hi : (i 0).val = 64 * jn + y0) :
    SMsem m d L ⟨kn, hk⟩ i = cols m d ⟨jn, hj⟩ (ix1 (⟨b0 L + (64 * kn + y0), b0_add_lt L _ (by omega)⟩ : Fin 16384)) := by
  unfold SMsem
  exact cols_congr m d _ _ _ _ (Fin.ext (by show (i 0).val / 64 = jn; omega))
    (Fin.ext (by show b0 L + 64 * kn + (i 0).val % 64 = b0 L + (64 * kn + y0); omega))

end StageVal

end Cert.Proof.KB

end
-- ==== Proof.KB.OutVal.lean ====
/-
  What a chunk's write-out puts in the flat result.

  Chunk k's staging buffer, once its 64 rows are filled, is copied whole onto the 16384 entries of the flat result
  starting at 256·(task's first row + 64 k). Row t, entry 32 j + e of the staging buffer is the table at
  32·word + 1024 j + e for the word of column j at row (task's first row + 64 k + t); that is the flat result's
  specified value at 256·(that row) + 32 j + e. (The word is below 32, so neither reduction changes it.)
-/
import proofs.«204821_g30846455120635_fold_wed_m_1292_33_alg».proof.Proof.KB.TripGen
import proofs.«204821_g30846455120635_fold_wed_m_1292_33_alg».proof.Proof.KB.StageGen
import proofs.«204821_g30846455120635_fold_wed_m_1292_33_alg».proof.Proof.KB.HostVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section OutVal
variable (d : Dev nD) (L : grid0.Coords)

theorem out_congr (TV : S8192.Idx → Elt F .f32) (w w' : BitVec 32) (hw : w' = w) (hlt : w.toNat < 32) (j e J E : Nat)
    (hJ : J = j) (hE : E = e) (hj : j < 8) (he : e < 32) (p : 1024 * J + 32 * (w'.toNat % 32) + E < 8192) :
    TV (ix1 (⟨(32 * w.toNat + 1024 * j + e) % 8192, Nat.mod_lt _ (by decide)⟩ : Fin 8192))
      = TV (ix1 (⟨1024 * J + 32 * (w'.toNat % 32) + E, p⟩ : Fin 8192)) := by
  subst hw hJ hE
  refine congrArg TV (congrArg (fun k : Fin 8192 => (ix1 k : S8192.Idx)) (Fin.ext ?_))
  show (32 * w'.toNat + 1024 * J + E) % 8192 = 1024 * J + 32 * (w'.toNat % 32) + E
  omega

/-- Row t, entry 32 j + e of chunk k's filled staging buffer is the flat result's value at the chunk's row t. -/
theorem out_entry (k : Nat) (hk : k < 8) (TAB : S8192.Idx → Elt F .f32) (hpre : PreOK m) (t j e : Nat) (ht : t < 64) (hj : j < 8)
    (he : e < 32) (h1 : 256 * t + 32 * j + e < 16384) (h2 : 256 * (b0 L + 64 * k + t) + (32 * j + e) < 4194304) :
    rowVal (SMsem m d L ⟨k, hk⟩) TAB (ix1 (⟨256 * t + 32 * j + e, h1⟩ : Fin 16384))
      = OUTof TAB (cols m d) (ix1 (⟨256 * (b0 L + 64 * k + t) + (32 * j + e), h2⟩ : Fin 4194304)) := by
  have hb : b0 L + 64 * k + t < 16384 := by have := b0_add_lt L (64 * k + t) (by omega); omega
  rw [rowVal_at _ TAB t j e ht hj he h1]
  refine Eq.trans ?_ (OUTof_apply TAB (cols m d) ⟨b0 L + 64 * k + t, hb⟩ ⟨32 * j + e, by omega⟩).symm
  have hwd := SMsem_at m d L k hk j hj (ix1 (⟨64 * j + t, by omega⟩ : Fin 512)) t ht rfl
  have hw2 : cols m d ⟨(32 * j + e) / 32, by omega⟩ (ix1 (⟨b0 L + 64 * k + t, hb⟩ : Fin 16384))
      = SMsem m d L ⟨k, hk⟩ (ix1 (⟨64 * j + t, by omega⟩ : Fin 512)) :=
    (cols_congr m d _ _ _ _ (Fin.ext (by show (32 * j + e) / 32 = j; omega))
      (Fin.ext (by show b0 L + 64 * k + t = b0 L + (64 * k + t); omega))).trans hwd.symm
  exact out_congr TAB _ _ hw2 (SMsem_lt m d L hpre ⟨k, hk⟩ _) j e _ _ (by show (32 * j + e) / 32 = j; omega)
    (by show (32 * j + e) % 32 = e; omega) hj he _

/-- Entry y of chunk k's filled staging buffer is the flat result's value at the chunk's entry y. -/
theorem out_chunk_generic (k : Nat) (hk : k < 8) (TAB : S8192.Idx → Elt F .f32) (g : S16384.Idx → Elt F .f32)
    (hfill : Filled (SMsem m d L ⟨k, hk⟩) TAB 64 g) (hpre : PreOK m) (y : S16384.Idx) (x : S4194304.Idx)
    (hx : (x 0).val = 256 * (b0 L + 64 * k) + (y 0).val) : g y = OUTof TAB (cols m d) x := by
  have hy : (y 0).val < 16384 := (y 0).isLt
  have hxl : (x 0).val < 4194304 := (x 0).isLt
  rw [hfill y (by omega)]
  have ey : y = ix1 (⟨256 * ((y 0).val / 256) + 32 * ((y 0).val % 256 / 32) + (y 0).val % 32, by omega⟩ : Fin 16384) :=
    (eq_ix1 y).trans (congrArg (fun k : Fin 16384 => (ix1 k : S16384.Idx)) (Fin.ext (by
      show (y 0).val = 256 * ((y 0).val / 256) + 32 * ((y 0).val % 256 / 32) + (y 0).val % 32; omega)))
  have ex : x = ix1 (⟨256 * (b0 L + 64 * k + (y 0).val / 256) + (32 * ((y 0).val % 256 / 32) + (y 0).val % 32), by omega⟩ : Fin 4194304) :=
    (eq_ix1 x).trans (congrArg (fun k : Fin 4194304 => (ix1 k : S4194304.Idx)) (Fin.ext (by
      show (x 0).val = 256 * (b0 L + 64 * k + (y 0).val / 256) + (32 * ((y 0).val % 256 / 32) + (y 0).val % 32); omega)))
  refine (congrArg (rowVal (SMsem m d L ⟨k, hk⟩) TAB) ey).trans (Eq.trans ?_ (congrArg (OUTof TAB (cols m d)) ex).symm)
  exact out_entry m d L k hk TAB hpre ((y 0).val / 256) ((y 0).val % 256 / 32) ((y 0).val % 32) (by omega) (by omega) (by omega) _ _

/-- Chunk 0's write-out: on its 16384 entries the flat result holds its specified values. -/
theorem out_chunk_val0 (TAB : Buf (Elt F) (tabLoc d)) (g : Buf (Elt F) ((baW).view.loc (thr d L)))
    (hfill : Filled (SMsem m d L 0) TAB 64 g) (hpre : PreOK m) (fou : Buf (Elt F) (outLoc d)) :
    ∀ i ∈ (ou0S L).view.set,
      ((ou0S L).view.writes (Elt F) fou [⟨Rect.whole S16384, ReadAs.same.apply ((baW).view.read (Elt F) g)⟩]) i
        = OUTof TAB (cols m d) i := by
  intro i hi
  obtain ⟨y, -, rfl⟩ := Finset.mem_map.mp hi
  refine (((View.read_apply (v := (ou0S L).view) _ y).trans (cast_eq _ _)).symm).trans ?_
  rw [read_landed]
  show g y = _
  refine out_chunk_generic m d L 0 (by decide) TAB g hfill hpre y _ ?_
  have e : k0_off50 L 0#32 0 = 262144 * (L 1).val + 131072 * (L 0).val + 16384 * 0 :=
    congrFun (k0_off50_eq L ⟨0, by decide⟩) 0
  show k0_off50 L 0#32 0 + 1 * (y 0).val = 256 * (b0 L + 64 * 0) + (y 0).val
  unfold b0
  omega

/-- Chunk 1's write-out: on its 16384 entries the flat result holds its specified values. -/
theorem out_chunk_val1 (TAB : Buf (Elt F) (tabLoc d)) (g : Buf (Elt F) ((bbW).view.loc (thr d L)))
    (hfill : Filled (SMsem m d L 1) TAB 64 g) (hpre : PreOK m) (fou : Buf (Elt F) (outLoc d)) :
    ∀ i ∈ (ou1S L).view.set,
      ((ou1S L).view.writes (Elt F) fou [⟨Rect.whole S16384, ReadAs.same.apply ((bbW).view.read (Elt F) g)⟩]) i
        = OUTof TAB (cols m d) i := by
  intro i hi
  obtain ⟨y, -, rfl⟩ := Finset.mem_map.mp hi
  refine (((View.read_apply (v := (ou1S L).view) _ y).trans (cast_eq _ _)).symm).trans ?_
  rw [read_landed]
  show g y = _
  refine out_chunk_generic m d L 1 (by decide) TAB g hfill hpre y _ ?_
  have e : k0_off50 L 64#32 0 = 262144 * (L 1).val + 131072 * (L 0).val + 16384 * 1 :=
    congrFun (k0_off50_eq L ⟨1, by decide⟩) 0
  show k0_off50 L 64#32 0 + 1 * (y 0).val = 256 * (b0 L + 64 * 1) + (y 0).val
  unfold b0
  omega

/-- Chunk 2's write-out: on its 16384 entries the flat result holds its specified values. -/
theorem out_chunk_val2 (TAB : Buf (Elt F) (tabLoc d)) (g : Buf (Elt F) ((baW).view.loc (thr d L)))
    (hfill : Filled (SMsem m d L 2) TAB 64 g) (hpre : PreOK m) (fou : Buf (Elt F) (outLoc d)) :
    ∀ i ∈ (ou2S L).view.set,
      ((ou2S L).view.writes (Elt F) fou [⟨Rect.whole S16384, ReadAs.same.apply ((baW).view.read (Elt F) g)⟩]) i
        = OUTof TAB (cols m d) i := by
  intro i hi
  obtain ⟨y, -, rfl⟩ := Finset.mem_map.mp hi
  refine (((View.read_apply (v := (ou2S L).view) _ y).trans (cast_eq _ _)).symm).trans ?_
  rw [read_landed]
  show g y = _
  refine out_chunk_generic m d L 2 (by decide) TAB g hfill hpre y _ ?_
  have e : k0_off50 L 128#32 0 = 262144 * (L 1).val + 131072 * (L 0).val + 16384 * 2 :=
    congrFun (k0_off50_eq L ⟨2, by decide⟩) 0
  show k0_off50 L 128#32 0 + 1 * (y 0).val = 256 * (b0 L + 64 * 2) + (y 0).val
  unfold b0
  omega

/-- Chunk 3's write-out: on its 16384 entries the flat result holds its specified values. -/
theorem out_chunk_val3 (TAB : Buf (Elt F) (tabLoc d)) (g : Buf (Elt F) ((bbW).view.loc (thr d L)))
    (hfill : Filled (SMsem m d L 3) TAB 64 g) (hpre : PreOK m) (fou : Buf (Elt F) (outLoc d)) :
    ∀ i ∈ (ou3S L).view.set,
      ((ou3S L).view.writes (Elt F) fou [⟨Rect.whole S16384, ReadAs.same.apply ((bbW).view.read (Elt F) g)⟩]) i
        = OUTof TAB (cols m d) i := by
  intro i hi
  obtain ⟨y, -, rfl⟩ := Finset.mem_map.mp hi
  refine (((View.read_apply (v := (ou3S L).view) _ y).trans (cast_eq _ _)).symm).trans ?_
  rw [read_landed]
  show g y = _
  refine out_chunk_generic m d L 3 (by decide) TAB g hfill hpre y _ ?_
  have e : k0_off50 L 192#32 0 = 262144 * (L 1).val + 131072 * (L 0).val + 16384 * 3 :=
    congrFun (k0_off50_eq L ⟨3, by decide⟩) 0
  show k0_off50 L 192#32 0 + 1 * (y 0).val = 256 * (b0 L + 64 * 3) + (y 0).val
  unfold b0
  omega

/-- Chunk 4's write-out: on its 16384 entries the flat result holds its specified values. -/
theorem out_chunk_val4 (TAB : Buf (Elt F) (tabLoc d)) (g : Buf (Elt F) ((baW).view.loc (thr d L)))
    (hfill : Filled (SMsem m d L 4) TAB 64 g) (hpre : PreOK m) (fou : Buf (Elt F) (outLoc d)) :
    ∀ i ∈ (ou4S L).view.set,
      ((ou4S L).view.writes (Elt F) fou [⟨Rect.whole S16384, ReadAs.same.apply ((baW).view.read (Elt F) g)⟩]) i
        = OUTof TAB (cols m d) i := by
  intro i hi
  obtain ⟨y, -, rfl⟩ := Finset.mem_map.mp hi
  refine (((View.read_apply (v := (ou4S L).view) _ y).trans (cast_eq _ _)).symm).trans ?_
  rw [read_landed]
  show g y = _
  refine out_chunk_generic m d L 4 (by decide) TAB g hfill hpre y _ ?_
  have e : k0_off50 L 256#32 0 = 262144 * (L 1).val + 131072 * (L 0).val + 16384 * 4 :=
    congrFun (k0_off50_eq L ⟨4, by decide⟩) 0
  show k0_off50 L 256#32 0 + 1 * (y 0).val = 256 * (b0 L + 64 * 4) + (y 0).val
  unfold b0
  omega

/-- Chunk 5's write-out: on its 16384 entries the flat result holds its specified values. -/
theorem out_chunk_val5 (TAB : Buf (Elt F) (tabLoc d)) (g : Buf (Elt F) ((bbW).view.loc (thr d L)))
    (hfill : Filled (SMsem m d L 5) TAB 64 g) (hpre : PreOK m) (fou : Buf (Elt F) (outLoc d)) :
    ∀ i ∈ (ou5S L).view.set,
      ((ou5S L).view.writes (Elt F) fou [⟨Rect.whole S16384, ReadAs.same.apply ((bbW).view.read (Elt F) g)⟩]) i
        = OUTof TAB (cols m d) i := by
  intro i hi
  obtain ⟨y, -, rfl⟩ := Finset.mem_map.mp hi
  refine (((View.read_apply (v := (ou5S L).view) _ y).trans (cast_eq _ _)).symm).trans ?_
  rw [read_landed]
  show g y = _
  refine out_chunk_generic m d L 5 (by decide) TAB g hfill hpre y _ ?_
  have e : k0_off50 L 320#32 0 = 262144 * (L 1).val + 131072 * (L 0).val + 16384 * 5 :=
    congrFun (k0_off50_eq L ⟨5, by decide⟩) 0
  show k0_off50 L 320#32 0 + 1 * (y 0).val = 256 * (b0 L + 64 * 5) + (y 0).val
  unfold b0
  omega

/-- Chunk 6's write-out: on its 16384 entries the flat result holds its specified values. -/
theorem out_chunk_val6 (TAB : Buf (Elt F) (tabLoc d)) (g : Buf (Elt F) ((baW).view.loc (thr d L)))
    (hfill : Filled (SMsem m d L 6) TAB 64 g) (hpre : PreOK m) (fou : Buf (Elt F) (outLoc d)) :
    ∀ i ∈ (ou6S L).view.set,
      ((ou6S L).view.writes (Elt F) fou [⟨Rect.whole S16384, ReadAs.same.apply ((baW).view.read (Elt F) g)⟩]) i
        = OUTof TAB (cols m d) i := by
  intro i hi
  obtain ⟨y, -, rfl⟩ := Finset.mem_map.mp hi
  refine (((View.read_apply (v := (ou6S L).view) _ y).trans (cast_eq _ _)).symm).trans ?_
  rw [read_landed]
  show g y = _
  refine out_chunk_generic m d L 6 (by decide) TAB g hfill hpre y _ ?_
  have e : k0_off50 L 384#32 0 = 262144 * (L 1).val + 131072 * (L 0).val + 16384 * 6 :=
    congrFun (k0_off50_eq L ⟨6, by decide⟩) 0
  show k0_off50 L 384#32 0 + 1 * (y 0).val = 256 * (b0 L + 64 * 6) + (y 0).val
  unfold b0
  omega

/-- Chunk 7's write-out: on its 16384 entries the flat result holds its specified values. -/
theorem out_chunk_val7 (TAB : Buf (Elt F) (tabLoc d)) (g : Buf (Elt F) ((bbW).view.loc (thr d L)))
    (hfill : Filled (SMsem m d L 7) TAB 64 g) (hpre : PreOK m) (fou : Buf (Elt F) (outLoc d)) :
    ∀ i ∈ (ou7S L).view.set,
      ((ou7S L).view.writes (Elt F) fou [⟨Rect.whole S16384, ReadAs.same.apply ((bbW).view.read (Elt F) g)⟩]) i
        = OUTof TAB (cols m d) i := by
  intro i hi
  obtain ⟨y, -, rfl⟩ := Finset.mem_map.mp hi
  refine (((View.read_apply (v := (ou7S L).view) _ y).trans (cast_eq _ _)).symm).trans ?_
  rw [read_landed]
  show g y = _
  refine out_chunk_generic m d L 7 (by decide) TAB g hfill hpre y _ ?_
  have e : k0_off50 L 448#32 0 = 262144 * (L 1).val + 131072 * (L 0).val + 16384 * 7 :=
    congrFun (k0_off50_eq L ⟨7, by decide⟩) 0
  show k0_off50 L 448#32 0 + 1 * (y 0).val = 256 * (b0 L + 64 * 7) + (y 0).val
  unfold b0
  omega

end OutVal

end Cert.Proof.KB

end
-- ==== Proof.KB.Body.lean ====
/-
  The task of one vector subcore: the three transfer batches that start before any wait (the eight index columns'
  512 words into the row of the shared scratch; the first two chunks' index words into the two scalar-memory buffers),
  the table's copy, and for each of the eight chunks: the next-but-one chunk's index words started, this chunk's waited
  for, the staging buffer filled row by row (the loop, by its invariant), the chunk written out. Every buffer's contents
  are carried through: the index buffer of chunk k holds words 512·w + 64·k … of the eight columns, the staging buffer
  after the loop holds the looked-up rows, the chunk of the result holds the lookup's value.
-/
import proofs.«204821_g30846455120635_fold_wed_m_1292_33_alg».proof.Proof.KB.Setup
import proofs.«204821_g30846455120635_fold_wed_m_1292_33_alg».proof.Proof.KB.Fill
import proofs.«204821_g30846455120635_fold_wed_m_1292_33_alg».proof.Proof.KB.TileSets
import proofs.«204821_g30846455120635_fold_wed_m_1292_33_alg».proof.Proof.KB.Own
import proofs.«204821_g30846455120635_fold_wed_m_1292_33_alg».proof.Proof.KB.Chk
import proofs.«204821_g30846455120635_fold_wed_m_1292_33_alg».proof.Proof.KB.Trips
import proofs.«204821_g30846455120635_fold_wed_m_1292_33_alg».proof.Proof.KB.OutVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

section Body
variable (d : Dev nD) (L : grid0.Coords)

end Body

set_option maxHeartbeats 4000000 in
theorem tile_body (hv0 : ∀ d L, StageVal0 (F := F) m d L) (hv1 : ∀ d L, StageVal1 (F := F) m d L) (hv2 : ∀ d L, StageVal2 (F := F) m d L) (hv3 : ∀ d L, StageVal3 (F := F) m d L) (hv4 : ∀ d L, StageVal4 (F := F) m d L) (hv5 : ∀ d L, StageVal5 (F := F) m d L) (hv6 : ∀ d L, StageVal6 (F := F) m d L) (hv7 : ∀ d L, StageVal7 (F := F) m d L) : TileBodyStmt m := by
  intro hpre d L O W hO qt TAB
  have hd2 : 2 < (sig : RefSig).nDmaSem := by decide
  have hd3 : 3 < (sig : RefSig).nDmaSem := by decide
  unfold tileGo tileTd
  rw [cc0__body_eq_skeleton]; unfold cc0__body_skel
  rw [(K (F := F)).scopedBufs_V facts d (cV L) (jV L), SparseCore.Cfg.scopedSems0_V (Val := Elt F) d (cV L) (jV L), ownSems0_V, ownBufs_V]
  iintro ⟨#Hlv, -, ⟨Hc0, Hc1, Hc2, Hc3, Hc4, Hc5, Hc6, Hc7, Htb, Ho0, Ho1, Ho2, Ho3, Ho4, Ho5, Ho6, Ho7, %fsh, Hp0, Hp1, Hp2, Hp3, Hp4, Hp5, Hp6, Hp7⟩,
    ⟨⟨%ftv, Htv⟩, ⟨%fsa, Hsa⟩, ⟨%fsb, Hsb⟩, ⟨%fba, Hba⟩, ⟨%fbb, Hbb⟩, Hbufs⟩, ⟨Hs6, Hs7, Hs8, Hs9, Hs10, Hs11, Hsems⟩, HO⟩
  ihave Hmw := ((K (F := F)).mayWaits_none (thr := thr d L) hO) $$ Hlv
  ihave Htv := (Entails.of_eq (pts_tvW (F := F) d L _).symm) $$ Htv
  ihave Hsa := (Entails.of_eq (pts_saW (F := F) d L _).symm) $$ Hsa
  ihave Hsb := (Entails.of_eq (pts_sbW (F := F) d L _).symm) $$ Hsb
  ihave Hba := (Entails.of_eq (pts_baW (F := F) d L _).symm) $$ Hba
  ihave Hbb := (Entails.of_eq (pts_bbW (F := F) d L _).symm) $$ Hbb
  -- the two index buffers as their eight runs, the three batches that start before any wait
  ihave Hsa' := (Entails.of_eq (split_sa (F := F) d L _)) $$ Hsa
  icases Hsa' with ⟨Hsa0, Hsa1, Hsa2, Hsa3, Hsa4, Hsa5, Hsa6, Hsa7⟩
  ihave Hsb' := (Entails.of_eq (split_sb (F := F) d L _)) $$ Hsb
  icases Hsb' with ⟨Hsb0, Hsb1, Hsb2, Hsb3, Hsb4, Hsb5, Hsb6, Hsb7⟩
  imod (Transfers.batch_alloc' (Lvl := ℕ) (countersEmb (U := UU)) (thr d L) (none : HIx 1) (NI L) (dlvI d L (m (c0Loc d)) (m (c1Loc d)) (m (c2Loc d)) (m (c3Loc d)) (m (c4Loc d)) (m (c5Loc d)) (m (c6Loc d)) (m (c7Loc d)) fsh) (sm := .dma cc0_scratch7.sem) (E := Set.univ)) $$ Hs7 with HI
  imod (Transfers.batch_alloc' (Lvl := ℕ) (countersEmb (U := UU)) (thr d L) (none : HIx 1) NS (dlvS0 d L (m (c0Loc d)) (m (c1Loc d)) (m (c2Loc d)) (m (c3Loc d)) (m (c4Loc d)) (m (c5Loc d)) (m (c6Loc d)) (m (c7Loc d)) fsh fsa) (sm := .dma cc0_scratch8.sem) (E := Set.univ)) $$ Hs8 with HA
  imod (Transfers.batch_alloc' (Lvl := ℕ) (countersEmb (U := UU)) (thr d L) (none : HIx 1) NS (dlvS1 d L (m (c0Loc d)) (m (c1Loc d)) (m (c2Loc d)) (m (c3Loc d)) (m (c4Loc d)) (m (c5Loc d)) (m (c6Loc d)) (m (c7Loc d)) fsh fsb) (sm := .dma cc0_scratch9.sem) (E := Set.univ)) $$ Hs9 with HC
  sl_exec
  -- the eight pieces of the row, each as its eight runs of 64 words
  ihave Hq_0 := (Entails.of_eq (split_sh0 (F := F) d L _)) $$ HI_dst0
  icases Hq_0 with ⟨Hq0_0, Hq1_0, Hq2_0, Hq3_0, Hq4_0, Hq5_0, Hq6_0, Hq7_0⟩
  ihave Hq_1 := (Entails.of_eq (split_sh1 (F := F) d L _)) $$ HI_dst1
  icases Hq_1 with ⟨Hq0_1, Hq1_1, Hq2_1, Hq3_1, Hq4_1, Hq5_1, Hq6_1, Hq7_1⟩
  ihave Hq_2 := (Entails.of_eq (split_sh2 (F := F) d L _)) $$ HI_dst2
  icases Hq_2 with ⟨Hq0_2, Hq1_2, Hq2_2, Hq3_2, Hq4_2, Hq5_2, Hq6_2, Hq7_2⟩
  ihave Hq_3 := (Entails.of_eq (split_sh3 (F := F) d L _)) $$ HI_dst3
  icases Hq_3 with ⟨Hq0_3, Hq1_3, Hq2_3, Hq3_3, Hq4_3, Hq5_3, Hq6_3, Hq7_3⟩
  ihave Hq_4 := (Entails.of_eq (split_sh4 (F := F) d L _)) $$ HI_dst4
  icases Hq_4 with ⟨Hq0_4, Hq1_4, Hq2_4, Hq3_4, Hq4_4, Hq5_4, Hq6_4, Hq7_4⟩
  ihave Hq_5 := (Entails.of_eq (split_sh5 (F := F) d L _)) $$ HI_dst5
  icases Hq_5 with ⟨Hq0_5, Hq1_5, Hq2_5, Hq3_5, Hq4_5, Hq5_5, Hq6_5, Hq7_5⟩
  ihave Hq_6 := (Entails.of_eq (split_sh6 (F := F) d L _)) $$ HI_dst6
  icases Hq_6 with ⟨Hq0_6, Hq1_6, Hq2_6, Hq3_6, Hq4_6, Hq5_6, Hq6_6, Hq7_6⟩
  ihave Hq_7 := (Entails.of_eq (split_sh7 (F := F) d L _)) $$ HI_dst7
  icases Hq_7 with ⟨Hq0_7, Hq1_7, Hq2_7, Hq3_7, Hq4_7, Hq5_7, Hq6_7, Hq7_7⟩
  sl_exec
  -- the table has landed in its scratch
  ihave Htv := (Entails.of_eq (pointsTo_congr (fun i _ => congrFun (tv_landed (F := F) d L ftv TAB) i))) $$ Htv

  -- chunk 0's index words have landed: the index buffer whole, at the chunk's words
  ihave Hsa0 := (Entails.of_eq (pointsTo_congr (fun i hi => hv0 d L fsh fsa 0 i (set_sa0P ▸ hi)))) $$ HA_dst0
  ihave Hsa1 := (Entails.of_eq (pointsTo_congr (fun i hi => hv0 d L fsh fsa 1 i (set_sa1P ▸ hi)))) $$ HA_dst1
  ihave Hsa2 := (Entails.of_eq (pointsTo_congr (fun i hi => hv0 d L fsh fsa 2 i (set_sa2P ▸ hi)))) $$ HA_dst2
  ihave Hsa3 := (Entails.of_eq (pointsTo_congr (fun i hi => hv0 d L fsh fsa 3 i (set_sa3P ▸ hi)))) $$ HA_dst3
  ihave Hsa4 := (Entails.of_eq (pointsTo_congr (fun i hi => hv0 d L fsh fsa 4 i (set_sa4P ▸ hi)))) $$ HA_dst4
  ihave Hsa5 := (Entails.of_eq (pointsTo_congr (fun i hi => hv0 d L fsh fsa 5 i (set_sa5P ▸ hi)))) $$ HA_dst5
  ihave Hsa6 := (Entails.of_eq (pointsTo_congr (fun i hi => hv0 d L fsh fsa 6 i (set_sa6P ▸ hi)))) $$ HA_dst6
  ihave Hsa7 := (Entails.of_eq (pointsTo_congr (fun i hi => hv0 d L fsh fsa 7 i (set_sa7P ▸ hi)))) $$ HA_dst7
  ihave Hsa := (Entails.of_eq (split_sa (F := F) d L (SMsem m d L 0)).symm) $$ [Hsa0 Hsa1 Hsa2 Hsa3 Hsa4 Hsa5 Hsa6 Hsa7]
  · isplitl [Hsa0]; · iexact Hsa0
    isplitl [Hsa1]; · iexact Hsa1
    isplitl [Hsa2]; · iexact Hsa2
    isplitl [Hsa3]; · iexact Hsa3
    isplitl [Hsa4]; · iexact Hsa4
    isplitl [Hsa5]; · iexact Hsa5
    isplitl [Hsa6]; · iexact Hsa6
    iexact Hsa7
  sl_for (inva m d L 0 TAB) $$ [Hsa Htv Hba]
  case region =>
    intro t acc
    exact trip0 m hpre d L TAB t acc
  · unfold inva
    isplitl [Hsa]; · iexact Hsa
    isplitl [Htv]; · iexact Htv
    iexists _
    isplitl [Hba]; · iexact Hba
    ipureintro; exact filled_zero _ _ _
  iintro %_ HI'
  unfold inva
  icases HI' with ⟨Hsa, Htv, %g0, Hba, %hfill0⟩
  -- the index buffer as its eight runs again, for stage 2
  ihave Hsa' := (Entails.of_eq (split_sa (F := F) d L _)) $$ Hsa
  icases Hsa' with ⟨Hsa0, Hsa1, Hsa2, Hsa3, Hsa4, Hsa5, Hsa6, Hsa7⟩
  imod (Transfers.batch_alloc' (Lvl := ℕ) (countersEmb (U := UU)) (thr d L) (none : HIx 1) NS (dlvS2 d L (m (c0Loc d)) (m (c1Loc d)) (m (c2Loc d)) (m (c3Loc d)) (m (c4Loc d)) (m (c5Loc d)) (m (c6Loc d)) (m (c7Loc d)) fsh (SMsem m d L 0)) (sm := .dma (⟨2, hd2⟩ : DmaSem sig)) (E := Set.univ)) $$ HA with HA
  sl_exec

  -- chunk 1's index words have landed: the index buffer whole, at the chunk's words
  ihave Hsb0 := (Entails.of_eq (pointsTo_congr (fun i hi => hv1 d L fsh fsb 0 i (set_sb0P ▸ hi)))) $$ HC_dst0
  ihave Hsb1 := (Entails.of_eq (pointsTo_congr (fun i hi => hv1 d L fsh fsb 1 i (set_sb1P ▸ hi)))) $$ HC_dst1
  ihave Hsb2 := (Entails.of_eq (pointsTo_congr (fun i hi => hv1 d L fsh fsb 2 i (set_sb2P ▸ hi)))) $$ HC_dst2
  ihave Hsb3 := (Entails.of_eq (pointsTo_congr (fun i hi => hv1 d L fsh fsb 3 i (set_sb3P ▸ hi)))) $$ HC_dst3
  ihave Hsb4 := (Entails.of_eq (pointsTo_congr (fun i hi => hv1 d L fsh fsb 4 i (set_sb4P ▸ hi)))) $$ HC_dst4
  ihave Hsb5 := (Entails.of_eq (pointsTo_congr (fun i hi => hv1 d L fsh fsb 5 i (set_sb5P ▸ hi)))) $$ HC_dst5
  ihave Hsb6 := (Entails.of_eq (pointsTo_congr (fun i hi => hv1 d L fsh fsb 6 i (set_sb6P ▸ hi)))) $$ HC_dst6
  ihave Hsb7 := (Entails.of_eq (pointsTo_congr (fun i hi => hv1 d L fsh fsb 7 i (set_sb7P ▸ hi)))) $$ HC_dst7
  ihave Hsb := (Entails.of_eq (split_sb (F := F) d L (SMsem m d L 1)).symm) $$ [Hsb0 Hsb1 Hsb2 Hsb3 Hsb4 Hsb5 Hsb6 Hsb7]
  · isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    iexact Hsb7
  sl_for (invb m d L 1 TAB) $$ [Hsb Htv Hbb]
  case region =>
    intro t acc
    first
      | exact trip1 m hpre d L TAB _ t acc
      | exact trip1 m hpre d L TAB 0#32 t acc
  · unfold invb
    isplitl [Hsb]; · iexact Hsb
    isplitl [Htv]; · iexact Htv
    iexists _
    isplitl [Hbb]; · iexact Hbb
    ipureintro; exact filled_zero _ _ _
  iintro %_ HI'
  unfold invb
  icases HI' with ⟨Hsb, Htv, %g1, Hbb, %hfill1⟩
  -- the index buffer as its eight runs again, for stage 3
  ihave Hsb' := (Entails.of_eq (split_sb (F := F) d L _)) $$ Hsb
  icases Hsb' with ⟨Hsb0, Hsb1, Hsb2, Hsb3, Hsb4, Hsb5, Hsb6, Hsb7⟩
  imod (Transfers.batch_alloc' (Lvl := ℕ) (countersEmb (U := UU)) (thr d L) (none : HIx 1) NS (dlvS3 d L (m (c0Loc d)) (m (c1Loc d)) (m (c2Loc d)) (m (c3Loc d)) (m (c4Loc d)) (m (c5Loc d)) (m (c6Loc d)) (m (c7Loc d)) fsh (SMsem m d L 1)) (sm := .dma (⟨3, hd3⟩ : DmaSem sig)) (E := Set.univ)) $$ HC with HC
  sl_exec

  -- chunk 2's index words have landed: the index buffer whole, at the chunk's words
  ihave Hsa0 := (Entails.of_eq (pointsTo_congr (fun i hi => hv2 d L fsh (SMsem m d L 0) 0 i (set_sa0P ▸ hi)))) $$ HA_dst0
  ihave Hsa1 := (Entails.of_eq (pointsTo_congr (fun i hi => hv2 d L fsh (SMsem m d L 0) 1 i (set_sa1P ▸ hi)))) $$ HA_dst1
  ihave Hsa2 := (Entails.of_eq (pointsTo_congr (fun i hi => hv2 d L fsh (SMsem m d L 0) 2 i (set_sa2P ▸ hi)))) $$ HA_dst2
  ihave Hsa3 := (Entails.of_eq (pointsTo_congr (fun i hi => hv2 d L fsh (SMsem m d L 0) 3 i (set_sa3P ▸ hi)))) $$ HA_dst3
  ihave Hsa4 := (Entails.of_eq (pointsTo_congr (fun i hi => hv2 d L fsh (SMsem m d L 0) 4 i (set_sa4P ▸ hi)))) $$ HA_dst4
  ihave Hsa5 := (Entails.of_eq (pointsTo_congr (fun i hi => hv2 d L fsh (SMsem m d L 0) 5 i (set_sa5P ▸ hi)))) $$ HA_dst5
  ihave Hsa6 := (Entails.of_eq (pointsTo_congr (fun i hi => hv2 d L fsh (SMsem m d L 0) 6 i (set_sa6P ▸ hi)))) $$ HA_dst6
  ihave Hsa7 := (Entails.of_eq (pointsTo_congr (fun i hi => hv2 d L fsh (SMsem m d L 0) 7 i (set_sa7P ▸ hi)))) $$ HA_dst7
  ihave Hsa := (Entails.of_eq (split_sa (F := F) d L (SMsem m d L 2)).symm) $$ [Hsa0 Hsa1 Hsa2 Hsa3 Hsa4 Hsa5 Hsa6 Hsa7]
  · isplitl [Hsa0]; · iexact Hsa0
    isplitl [Hsa1]; · iexact Hsa1
    isplitl [Hsa2]; · iexact Hsa2
    isplitl [Hsa3]; · iexact Hsa3
    isplitl [Hsa4]; · iexact Hsa4
    isplitl [Hsa5]; · iexact Hsa5
    isplitl [Hsa6]; · iexact Hsa6
    iexact Hsa7
  sl_for (inva m d L 2 TAB) $$ [Hsa Htv Hba]
  case region =>
    intro t acc
    first
      | exact trip2 m hpre d L TAB _ t acc
      | exact trip2 m hpre d L TAB 0#32 t acc
  · unfold inva
    isplitl [Hsa]; · iexact Hsa
    isplitl [Htv]; · iexact Htv
    iexists _
    isplitl [Hba]; · iexact Hba
    ipureintro; exact filled_zero _ _ _
  iintro %_ HI'
  unfold inva
  icases HI' with ⟨Hsa, Htv, %g2, Hba, %hfill2⟩
  -- the index buffer as its eight runs again, for stage 4
  ihave Hsa' := (Entails.of_eq (split_sa (F := F) d L _)) $$ Hsa
  icases Hsa' with ⟨Hsa0, Hsa1, Hsa2, Hsa3, Hsa4, Hsa5, Hsa6, Hsa7⟩
  imod (Transfers.batch_alloc' (Lvl := ℕ) (countersEmb (U := UU)) (thr d L) (none : HIx 1) NS (dlvS4 d L (m (c0Loc d)) (m (c1Loc d)) (m (c2Loc d)) (m (c3Loc d)) (m (c4Loc d)) (m (c5Loc d)) (m (c6Loc d)) (m (c7Loc d)) fsh (SMsem m d L 2)) (sm := .dma (⟨2, hd2⟩ : DmaSem sig)) (E := Set.univ)) $$ HA with HA
  sl_exec

  -- chunk 3's index words have landed: the index buffer whole, at the chunk's words
  ihave Hsb0 := (Entails.of_eq (pointsTo_congr (fun i hi => hv3 d L fsh (SMsem m d L 1) 0 i (set_sb0P ▸ hi)))) $$ HC_dst0
  ihave Hsb1 := (Entails.of_eq (pointsTo_congr (fun i hi => hv3 d L fsh (SMsem m d L 1) 1 i (set_sb1P ▸ hi)))) $$ HC_dst1
  ihave Hsb2 := (Entails.of_eq (pointsTo_congr (fun i hi => hv3 d L fsh (SMsem m d L 1) 2 i (set_sb2P ▸ hi)))) $$ HC_dst2
  ihave Hsb3 := (Entails.of_eq (pointsTo_congr (fun i hi => hv3 d L fsh (SMsem m d L 1) 3 i (set_sb3P ▸ hi)))) $$ HC_dst3
  ihave Hsb4 := (Entails.of_eq (pointsTo_congr (fun i hi => hv3 d L fsh (SMsem m d L 1) 4 i (set_sb4P ▸ hi)))) $$ HC_dst4
  ihave Hsb5 := (Entails.of_eq (pointsTo_congr (fun i hi => hv3 d L fsh (SMsem m d L 1) 5 i (set_sb5P ▸ hi)))) $$ HC_dst5
  ihave Hsb6 := (Entails.of_eq (pointsTo_congr (fun i hi => hv3 d L fsh (SMsem m d L 1) 6 i (set_sb6P ▸ hi)))) $$ HC_dst6
  ihave Hsb7 := (Entails.of_eq (pointsTo_congr (fun i hi => hv3 d L fsh (SMsem m d L 1) 7 i (set_sb7P ▸ hi)))) $$ HC_dst7
  ihave Hsb := (Entails.of_eq (split_sb (F := F) d L (SMsem m d L 3)).symm) $$ [Hsb0 Hsb1 Hsb2 Hsb3 Hsb4 Hsb5 Hsb6 Hsb7]
  · isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    iexact Hsb7
  sl_for (invb m d L 3 TAB) $$ [Hsb Htv Hbb]
  case region =>
    intro t acc
    first
      | exact trip3 m hpre d L TAB _ t acc
      | exact trip3 m hpre d L TAB 0#32 t acc
  · unfold invb
    isplitl [Hsb]; · iexact Hsb
    isplitl [Htv]; · iexact Htv
    iexists _
    isplitl [Hbb]; · iexact Hbb
    ipureintro; exact filled_zero _ _ _
  iintro %_ HI'
  unfold invb
  icases HI' with ⟨Hsb, Htv, %g3, Hbb, %hfill3⟩
  -- the index buffer as its eight runs again, for stage 5
  ihave Hsb' := (Entails.of_eq (split_sb (F := F) d L _)) $$ Hsb
  icases Hsb' with ⟨Hsb0, Hsb1, Hsb2, Hsb3, Hsb4, Hsb5, Hsb6, Hsb7⟩
  imod (Transfers.batch_alloc' (Lvl := ℕ) (countersEmb (U := UU)) (thr d L) (none : HIx 1) NS (dlvS5 d L (m (c0Loc d)) (m (c1Loc d)) (m (c2Loc d)) (m (c3Loc d)) (m (c4Loc d)) (m (c5Loc d)) (m (c6Loc d)) (m (c7Loc d)) fsh (SMsem m d L 3)) (sm := .dma (⟨3, hd3⟩ : DmaSem sig)) (E := Set.univ)) $$ HC with HC
  sl_exec

  -- chunk 4's index words have landed: the index buffer whole, at the chunk's words
  ihave Hsa0 := (Entails.of_eq (pointsTo_congr (fun i hi => hv4 d L fsh (SMsem m d L 2) 0 i (set_sa0P ▸ hi)))) $$ HA_dst0
  ihave Hsa1 := (Entails.of_eq (pointsTo_congr (fun i hi => hv4 d L fsh (SMsem m d L 2) 1 i (set_sa1P ▸ hi)))) $$ HA_dst1
  ihave Hsa2 := (Entails.of_eq (pointsTo_congr (fun i hi => hv4 d L fsh (SMsem m d L 2) 2 i (set_sa2P ▸ hi)))) $$ HA_dst2
  ihave Hsa3 := (Entails.of_eq (pointsTo_congr (fun i hi => hv4 d L fsh (SMsem m d L 2) 3 i (set_sa3P ▸ hi)))) $$ HA_dst3
  ihave Hsa4 := (Entails.of_eq (pointsTo_congr (fun i hi => hv4 d L fsh (SMsem m d L 2) 4 i (set_sa4P ▸ hi)))) $$ HA_dst4
  ihave Hsa5 := (Entails.of_eq (pointsTo_congr (fun i hi => hv4 d L fsh (SMsem m d L 2) 5 i (set_sa5P ▸ hi)))) $$ HA_dst5
  ihave Hsa6 := (Entails.of_eq (pointsTo_congr (fun i hi => hv4 d L fsh (SMsem m d L 2) 6 i (set_sa6P ▸ hi)))) $$ HA_dst6
  ihave Hsa7 := (Entails.of_eq (pointsTo_congr (fun i hi => hv4 d L fsh (SMsem m d L 2) 7 i (set_sa7P ▸ hi)))) $$ HA_dst7
  ihave Hsa := (Entails.of_eq (split_sa (F := F) d L (SMsem m d L 4)).symm) $$ [Hsa0 Hsa1 Hsa2 Hsa3 Hsa4 Hsa5 Hsa6 Hsa7]
  · isplitl [Hsa0]; · iexact Hsa0
    isplitl [Hsa1]; · iexact Hsa1
    isplitl [Hsa2]; · iexact Hsa2
    isplitl [Hsa3]; · iexact Hsa3
    isplitl [Hsa4]; · iexact Hsa4
    isplitl [Hsa5]; · iexact Hsa5
    isplitl [Hsa6]; · iexact Hsa6
    iexact Hsa7
  sl_for (inva m d L 4 TAB) $$ [Hsa Htv Hba]
  case region =>
    intro t acc
    first
      | exact trip4 m hpre d L TAB _ t acc
      | exact trip4 m hpre d L TAB 0#32 t acc
  · unfold inva
    isplitl [Hsa]; · iexact Hsa
    isplitl [Htv]; · iexact Htv
    iexists _
    isplitl [Hba]; · iexact Hba
    ipureintro; exact filled_zero _ _ _
  iintro %_ HI'
  unfold inva
  icases HI' with ⟨Hsa, Htv, %g4, Hba, %hfill4⟩
  -- the index buffer as its eight runs again, for stage 6
  ihave Hsa' := (Entails.of_eq (split_sa (F := F) d L _)) $$ Hsa
  icases Hsa' with ⟨Hsa0, Hsa1, Hsa2, Hsa3, Hsa4, Hsa5, Hsa6, Hsa7⟩
  imod (Transfers.batch_alloc' (Lvl := ℕ) (countersEmb (U := UU)) (thr d L) (none : HIx 1) NS (dlvS6 d L (m (c0Loc d)) (m (c1Loc d)) (m (c2Loc d)) (m (c3Loc d)) (m (c4Loc d)) (m (c5Loc d)) (m (c6Loc d)) (m (c7Loc d)) fsh (SMsem m d L 4)) (sm := .dma (⟨2, hd2⟩ : DmaSem sig)) (E := Set.univ)) $$ HA with HA
  sl_exec

  -- chunk 5's index words have landed: the index buffer whole, at the chunk's words
  ihave Hsb0 := (Entails.of_eq (pointsTo_congr (fun i hi => hv5 d L fsh (SMsem m d L 3) 0 i (set_sb0P ▸ hi)))) $$ HC_dst0
  ihave Hsb1 := (Entails.of_eq (pointsTo_congr (fun i hi => hv5 d L fsh (SMsem m d L 3) 1 i (set_sb1P ▸ hi)))) $$ HC_dst1
  ihave Hsb2 := (Entails.of_eq (pointsTo_congr (fun i hi => hv5 d L fsh (SMsem m d L 3) 2 i (set_sb2P ▸ hi)))) $$ HC_dst2
  ihave Hsb3 := (Entails.of_eq (pointsTo_congr (fun i hi => hv5 d L fsh (SMsem m d L 3) 3 i (set_sb3P ▸ hi)))) $$ HC_dst3
  ihave Hsb4 := (Entails.of_eq (pointsTo_congr (fun i hi => hv5 d L fsh (SMsem m d L 3) 4 i (set_sb4P ▸ hi)))) $$ HC_dst4
  ihave Hsb5 := (Entails.of_eq (pointsTo_congr (fun i hi => hv5 d L fsh (SMsem m d L 3) 5 i (set_sb5P ▸ hi)))) $$ HC_dst5
  ihave Hsb6 := (Entails.of_eq (pointsTo_congr (fun i hi => hv5 d L fsh (SMsem m d L 3) 6 i (set_sb6P ▸ hi)))) $$ HC_dst6
  ihave Hsb7 := (Entails.of_eq (pointsTo_congr (fun i hi => hv5 d L fsh (SMsem m d L 3) 7 i (set_sb7P ▸ hi)))) $$ HC_dst7
  ihave Hsb := (Entails.of_eq (split_sb (F := F) d L (SMsem m d L 5)).symm) $$ [Hsb0 Hsb1 Hsb2 Hsb3 Hsb4 Hsb5 Hsb6 Hsb7]
  · isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    iexact Hsb7
  sl_for (invb m d L 5 TAB) $$ [Hsb Htv Hbb]
  case region =>
    intro t acc
    first
      | exact trip5 m hpre d L TAB _ t acc
      | exact trip5 m hpre d L TAB 0#32 t acc
  · unfold invb
    isplitl [Hsb]; · iexact Hsb
    isplitl [Htv]; · iexact Htv
    iexists _
    isplitl [Hbb]; · iexact Hbb
    ipureintro; exact filled_zero _ _ _
  iintro %_ HI'
  unfold invb
  icases HI' with ⟨Hsb, Htv, %g5, Hbb, %hfill5⟩
  -- the index buffer as its eight runs again, for stage 7
  ihave Hsb' := (Entails.of_eq (split_sb (F := F) d L _)) $$ Hsb
  icases Hsb' with ⟨Hsb0, Hsb1, Hsb2, Hsb3, Hsb4, Hsb5, Hsb6, Hsb7⟩
  imod (Transfers.batch_alloc' (Lvl := ℕ) (countersEmb (U := UU)) (thr d L) (none : HIx 1) NS (dlvS7 d L (m (c0Loc d)) (m (c1Loc d)) (m (c2Loc d)) (m (c3Loc d)) (m (c4Loc d)) (m (c5Loc d)) (m (c6Loc d)) (m (c7Loc d)) fsh (SMsem m d L 5)) (sm := .dma (⟨3, hd3⟩ : DmaSem sig)) (E := Set.univ)) $$ HC with HC
  sl_exec

  -- chunk 6's index words have landed: the index buffer whole, at the chunk's words
  ihave Hsa0 := (Entails.of_eq (pointsTo_congr (fun i hi => hv6 d L fsh (SMsem m d L 4) 0 i (set_sa0P ▸ hi)))) $$ HA_dst0
  ihave Hsa1 := (Entails.of_eq (pointsTo_congr (fun i hi => hv6 d L fsh (SMsem m d L 4) 1 i (set_sa1P ▸ hi)))) $$ HA_dst1
  ihave Hsa2 := (Entails.of_eq (pointsTo_congr (fun i hi => hv6 d L fsh (SMsem m d L 4) 2 i (set_sa2P ▸ hi)))) $$ HA_dst2
  ihave Hsa3 := (Entails.of_eq (pointsTo_congr (fun i hi => hv6 d L fsh (SMsem m d L 4) 3 i (set_sa3P ▸ hi)))) $$ HA_dst3
  ihave Hsa4 := (Entails.of_eq (pointsTo_congr (fun i hi => hv6 d L fsh (SMsem m d L 4) 4 i (set_sa4P ▸ hi)))) $$ HA_dst4
  ihave Hsa5 := (Entails.of_eq (pointsTo_congr (fun i hi => hv6 d L fsh (SMsem m d L 4) 5 i (set_sa5P ▸ hi)))) $$ HA_dst5
  ihave Hsa6 := (Entails.of_eq (pointsTo_congr (fun i hi => hv6 d L fsh (SMsem m d L 4) 6 i (set_sa6P ▸ hi)))) $$ HA_dst6
  ihave Hsa7 := (Entails.of_eq (pointsTo_congr (fun i hi => hv6 d L fsh (SMsem m d L 4) 7 i (set_sa7P ▸ hi)))) $$ HA_dst7
  ihave Hsa := (Entails.of_eq (split_sa (F := F) d L (SMsem m d L 6)).symm) $$ [Hsa0 Hsa1 Hsa2 Hsa3 Hsa4 Hsa5 Hsa6 Hsa7]
  · isplitl [Hsa0]; · iexact Hsa0
    isplitl [Hsa1]; · iexact Hsa1
    isplitl [Hsa2]; · iexact Hsa2
    isplitl [Hsa3]; · iexact Hsa3
    isplitl [Hsa4]; · iexact Hsa4
    isplitl [Hsa5]; · iexact Hsa5
    isplitl [Hsa6]; · iexact Hsa6
    iexact Hsa7
  sl_for (inva m d L 6 TAB) $$ [Hsa Htv Hba]
  case region =>
    intro t acc
    first
      | exact trip6 m hpre d L TAB _ t acc
      | exact trip6 m hpre d L TAB 0#32 t acc
  · unfold inva
    isplitl [Hsa]; · iexact Hsa
    isplitl [Htv]; · iexact Htv
    iexists _
    isplitl [Hba]; · iexact Hba
    ipureintro; exact filled_zero _ _ _
  iintro %_ HI'
  unfold inva
  icases HI' with ⟨Hsa, Htv, %g6, Hba, %hfill6⟩
  sl_exec

  -- chunk 7's index words have landed: the index buffer whole, at the chunk's words
  ihave Hsb0 := (Entails.of_eq (pointsTo_congr (fun i hi => hv7 d L fsh (SMsem m d L 5) 0 i (set_sb0P ▸ hi)))) $$ HC_dst0
  ihave Hsb1 := (Entails.of_eq (pointsTo_congr (fun i hi => hv7 d L fsh (SMsem m d L 5) 1 i (set_sb1P ▸ hi)))) $$ HC_dst1
  ihave Hsb2 := (Entails.of_eq (pointsTo_congr (fun i hi => hv7 d L fsh (SMsem m d L 5) 2 i (set_sb2P ▸ hi)))) $$ HC_dst2
  ihave Hsb3 := (Entails.of_eq (pointsTo_congr (fun i hi => hv7 d L fsh (SMsem m d L 5) 3 i (set_sb3P ▸ hi)))) $$ HC_dst3
  ihave Hsb4 := (Entails.of_eq (pointsTo_congr (fun i hi => hv7 d L fsh (SMsem m d L 5) 4 i (set_sb4P ▸ hi)))) $$ HC_dst4
  ihave Hsb5 := (Entails.of_eq (pointsTo_congr (fun i hi => hv7 d L fsh (SMsem m d L 5) 5 i (set_sb5P ▸ hi)))) $$ HC_dst5
  ihave Hsb6 := (Entails.of_eq (pointsTo_congr (fun i hi => hv7 d L fsh (SMsem m d L 5) 6 i (set_sb6P ▸ hi)))) $$ HC_dst6
  ihave Hsb7 := (Entails.of_eq (pointsTo_congr (fun i hi => hv7 d L fsh (SMsem m d L 5) 7 i (set_sb7P ▸ hi)))) $$ HC_dst7
  ihave Hsb := (Entails.of_eq (split_sb (F := F) d L (SMsem m d L 7)).symm) $$ [Hsb0 Hsb1 Hsb2 Hsb3 Hsb4 Hsb5 Hsb6 Hsb7]
  · isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    isplitl [Hsb6]; · iexact Hsb6
    iexact Hsb7
  sl_for (invb m d L 7 TAB) $$ [Hsb Htv Hbb]
  case region =>
    intro t acc
    exact trip7 m hpre d L TAB t acc
  · unfold invb
    isplitl [Hsb]; · iexact Hsb
    isplitl [Htv]; · iexact Htv
    iexists _
    isplitl [Hbb]; · iexact Hbb
    ipureintro; exact filled_zero _ _ _
  iintro %_ HI'
  unfold invb
  icases HI' with ⟨Hsb, Htv, %g7, Hbb, %hfill7⟩
  sl_exec
  sl_step
  -- the row's pieces again, each from its eight runs
  ihave Hp0 := (Entails.of_eq (split_sh0 (F := F) d L (ISH0 d L (m (c0Loc d)) fsh)).symm) $$ [HA_src0 HC_src0 HA_src0_2 HC_src0_2 HA_src0_3 HC_src0_3 HA_src0_4 HC_src0_4]
  · isplitl [HA_src0]; · iexact HA_src0
    isplitl [HC_src0]; · iexact HC_src0
    isplitl [HA_src0_2]; · iexact HA_src0_2
    isplitl [HC_src0_2]; · iexact HC_src0_2
    isplitl [HA_src0_3]; · iexact HA_src0_3
    isplitl [HC_src0_3]; · iexact HC_src0_3
    isplitl [HA_src0_4]; · iexact HA_src0_4
    iexact HC_src0_4
  ihave Hp1 := (Entails.of_eq (split_sh1 (F := F) d L (ISH1 d L (m (c1Loc d)) fsh)).symm) $$ [HA_src1 HC_src1 HA_src1_2 HC_src1_2 HA_src1_3 HC_src1_3 HA_src1_4 HC_src1_4]
  · isplitl [HA_src1]; · iexact HA_src1
    isplitl [HC_src1]; · iexact HC_src1
    isplitl [HA_src1_2]; · iexact HA_src1_2
    isplitl [HC_src1_2]; · iexact HC_src1_2
    isplitl [HA_src1_3]; · iexact HA_src1_3
    isplitl [HC_src1_3]; · iexact HC_src1_3
    isplitl [HA_src1_4]; · iexact HA_src1_4
    iexact HC_src1_4
  ihave Hp2 := (Entails.of_eq (split_sh2 (F := F) d L (ISH2 d L (m (c2Loc d)) fsh)).symm) $$ [HA_src2 HC_src2 HA_src2_2 HC_src2_2 HA_src2_3 HC_src2_3 HA_src2_4 HC_src2_4]
  · isplitl [HA_src2]; · iexact HA_src2
    isplitl [HC_src2]; · iexact HC_src2
    isplitl [HA_src2_2]; · iexact HA_src2_2
    isplitl [HC_src2_2]; · iexact HC_src2_2
    isplitl [HA_src2_3]; · iexact HA_src2_3
    isplitl [HC_src2_3]; · iexact HC_src2_3
    isplitl [HA_src2_4]; · iexact HA_src2_4
    iexact HC_src2_4
  ihave Hp3 := (Entails.of_eq (split_sh3 (F := F) d L (ISH3 d L (m (c3Loc d)) fsh)).symm) $$ [HA_src3 HC_src3 HA_src3_2 HC_src3_2 HA_src3_3 HC_src3_3 HA_src3_4 HC_src3_4]
  · isplitl [HA_src3]; · iexact HA_src3
    isplitl [HC_src3]; · iexact HC_src3
    isplitl [HA_src3_2]; · iexact HA_src3_2
    isplitl [HC_src3_2]; · iexact HC_src3_2
    isplitl [HA_src3_3]; · iexact HA_src3_3
    isplitl [HC_src3_3]; · iexact HC_src3_3
    isplitl [HA_src3_4]; · iexact HA_src3_4
    iexact HC_src3_4
  ihave Hp4 := (Entails.of_eq (split_sh4 (F := F) d L (ISH4 d L (m (c4Loc d)) fsh)).symm) $$ [HA_src4 HC_src4 HA_src4_2 HC_src4_2 HA_src4_3 HC_src4_3 HA_src4_4 HC_src4_4]
  · isplitl [HA_src4]; · iexact HA_src4
    isplitl [HC_src4]; · iexact HC_src4
    isplitl [HA_src4_2]; · iexact HA_src4_2
    isplitl [HC_src4_2]; · iexact HC_src4_2
    isplitl [HA_src4_3]; · iexact HA_src4_3
    isplitl [HC_src4_3]; · iexact HC_src4_3
    isplitl [HA_src4_4]; · iexact HA_src4_4
    iexact HC_src4_4
  ihave Hp5 := (Entails.of_eq (split_sh5 (F := F) d L (ISH5 d L (m (c5Loc d)) fsh)).symm) $$ [HA_src5 HC_src5 HA_src5_2 HC_src5_2 HA_src5_3 HC_src5_3 HA_src5_4 HC_src5_4]
  · isplitl [HA_src5]; · iexact HA_src5
    isplitl [HC_src5]; · iexact HC_src5
    isplitl [HA_src5_2]; · iexact HA_src5_2
    isplitl [HC_src5_2]; · iexact HC_src5_2
    isplitl [HA_src5_3]; · iexact HA_src5_3
    isplitl [HC_src5_3]; · iexact HC_src5_3
    isplitl [HA_src5_4]; · iexact HA_src5_4
    iexact HC_src5_4
  ihave Hp6 := (Entails.of_eq (split_sh6 (F := F) d L (ISH6 d L (m (c6Loc d)) fsh)).symm) $$ [HA_src6 HC_src6 HA_src6_2 HC_src6_2 HA_src6_3 HC_src6_3 HA_src6_4 HC_src6_4]
  · isplitl [HA_src6]; · iexact HA_src6
    isplitl [HC_src6]; · iexact HC_src6
    isplitl [HA_src6_2]; · iexact HA_src6_2
    isplitl [HC_src6_2]; · iexact HC_src6_2
    isplitl [HA_src6_3]; · iexact HA_src6_3
    isplitl [HC_src6_3]; · iexact HC_src6_3
    isplitl [HA_src6_4]; · iexact HA_src6_4
    iexact HC_src6_4
  ihave Hp7 := (Entails.of_eq (split_sh7 (F := F) d L (ISH7 d L (m (c7Loc d)) fsh)).symm) $$ [HA_src7 HC_src7 HA_src7_2 HC_src7_2 HA_src7_3 HC_src7_3 HA_src7_4 HC_src7_4]
  · isplitl [HA_src7]; · iexact HA_src7
    isplitl [HC_src7]; · iexact HC_src7
    isplitl [HA_src7_2]; · iexact HA_src7_2
    isplitl [HC_src7_2]; · iexact HC_src7_2
    isplitl [HA_src7_3]; · iexact HA_src7_3
    isplitl [HC_src7_3]; · iexact HC_src7_3
    isplitl [HA_src7_4]; · iexact HA_src7_4
    iexact HC_src7_4
  -- the chunks of the result, at the lookup's value
  have ht0 : Scf.trips k0_t1_loop.lb k0_t1_loop.ub k0_t1_loop.st = 64 := by decide
  have hf0 : Filled (SMsem m d L 0) TAB 64 g0 := ht0 ▸ hfill0
  ihave Ho0 := (Entails.of_eq (pointsTo_congr (out_chunk_val0 m d L TAB g0 hf0 hpre _))) $$ Ho0
  have ht1 : Scf.trips k0_t2_loop.lb k0_t2_loop.ub k0_t2_loop.st = 64 := by decide
  have hf1 : Filled (SMsem m d L 1) TAB 64 g1 := ht1 ▸ hfill1
  ihave Ho1 := (Entails.of_eq (pointsTo_congr (out_chunk_val1 m d L TAB g1 hf1 hpre _))) $$ Ho1
  have ht2 : Scf.trips k0_t3_loop.lb k0_t3_loop.ub k0_t3_loop.st = 64 := by decide
  have hf2 : Filled (SMsem m d L 2) TAB 64 g2 := ht2 ▸ hfill2
  ihave Ho2 := (Entails.of_eq (pointsTo_congr (out_chunk_val2 m d L TAB g2 hf2 hpre _))) $$ Ho2
  have ht3 : Scf.trips k0_t4_loop.lb k0_t4_loop.ub k0_t4_loop.st = 64 := by decide
  have hf3 : Filled (SMsem m d L 3) TAB 64 g3 := ht3 ▸ hfill3
  ihave Ho3 := (Entails.of_eq (pointsTo_congr (out_chunk_val3 m d L TAB g3 hf3 hpre _))) $$ Ho3
  have ht4 : Scf.trips k0_t5_loop.lb k0_t5_loop.ub k0_t5_loop.st = 64 := by decide
  have hf4 : Filled (SMsem m d L 4) TAB 64 g4 := ht4 ▸ hfill4
  ihave Ho4 := (Entails.of_eq (pointsTo_congr (out_chunk_val4 m d L TAB g4 hf4 hpre _))) $$ Ho4
  have ht5 : Scf.trips k0_t6_loop.lb k0_t6_loop.ub k0_t6_loop.st = 64 := by decide
  have hf5 : Filled (SMsem m d L 5) TAB 64 g5 := ht5 ▸ hfill5
  ihave Ho5 := (Entails.of_eq (pointsTo_congr (out_chunk_val5 m d L TAB g5 hf5 hpre _))) $$ Ho5
  have ht6 : Scf.trips k0_t7_loop.lb k0_t7_loop.ub k0_t7_loop.st = 64 := by decide
  have hf6 : Filled (SMsem m d L 6) TAB 64 g6 := ht6 ▸ hfill6
  ihave Ho6 := (Entails.of_eq (pointsTo_congr (out_chunk_val6 m d L TAB g6 hf6 hpre _))) $$ Ho6
  have ht7 : Scf.trips k0_t8_loop.lb k0_t8_loop.ub k0_t8_loop.st = 64 := by decide
  have hf7 : Filled (SMsem m d L 7) TAB 64 g7 := ht7 ▸ hfill7
  ihave Ho7 := (Entails.of_eq (pointsTo_congr (out_chunk_val7 m d L TAB g7 hf7 hpre _))) $$ Ho7
  isplitl [HI_src0 HI_src1 HI_src2 HI_src3 HI_src4 HI_src5 HI_src6 HI_src7 Htb Ho0 Ho1 Ho2 Ho3 Ho4 Ho5 Ho6 Ho7 Hp0 Hp1 Hp2 Hp3 Hp4 Hp5 Hp6 Hp7]
  · isplitl [HI_src0]; · iexact HI_src0
    isplitl [HI_src1]; · iexact HI_src1
    isplitl [HI_src2]; · iexact HI_src2
    isplitl [HI_src3]; · iexact HI_src3
    isplitl [HI_src4]; · iexact HI_src4
    isplitl [HI_src5]; · iexact HI_src5
    isplitl [HI_src6]; · iexact HI_src6
    isplitl [HI_src7]; · iexact HI_src7
    isplitl [Htb]; · iexact Htb
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Hp0]; · iexists _; iexact Hp0
    isplitl [Hp1]; · iexists _; iexact Hp1
    isplitl [Hp2]; · iexists _; iexact Hp2
    isplitl [Hp3]; · iexists _; iexact Hp3
    isplitl [Hp4]; · iexists _; iexact Hp4
    isplitl [Hp5]; · iexists _; iexact Hp5
    isplitl [Hp6]; · iexists _; iexact Hp6
    iexists _; iexact Hp7
  isplitl [Htv Hsa Hsb Hba Hbb Hbufs]
  · isplitl [Htv]; · iexists _; iapply (Entails.of_eq (pts_tvW (F := F) d L _)); iexact Htv
    isplitl [Hsa]; · iexists _; iapply (Entails.of_eq (pts_saW (F := F) d L _)); iexact Hsa
    isplitl [Hsb]; · iexists _; iapply (Entails.of_eq (pts_sbW (F := F) d L _)); iexact Hsb
    isplitl [Hba]; · iexists _; iapply (Entails.of_eq (pts_baW (F := F) d L _)); iexact Hba
    isplitl [Hbb]; · iexists _; iapply (Entails.of_eq (pts_bbW (F := F) d L _)); iexact Hbb
    iexact Hbufs
  isplitl [Hs6 HI HA HC Hs10 Hs11 Hsems]
  · isplitl [Hs6]; · iexact Hs6
    isplitl [HI]; · iexact HI
    isplitl [HA]; · iexact HA
    isplitl [HC]; · iexact HC
    isplitl [Hs10]; · iexact Hs10
    isplitl [Hs11]; · iexact Hs11
    iexact Hsems
  iexists _
  isplitr
  rotate_left
  · iexact HO
  · ipureintro
    intro p hp
    repeat (rcases Finset.mem_insert.mp hp with rfl | hp; · exact Or.inr rfl)
    exact Or.inl hp

end Cert.Proof.KB

end
-- ==== Proof.KB.StageW0.lean ====
/-
  Chunk 0 of the staged index words: each of its eight copies lands, in its run of the index buffer, the chunk's 64
  words of its column (the chain of the windows' offsets, instantiated at the copy's three windows).
-/
import proofs.«204821_g30846455120635_fold_wed_m_1292_33_alg».proof.Proof.KB.StageGen

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_0_0 (fsh : Buf (Elt F) ((sh0P L).view.loc (thr d L))) (prev : Buf (Elt F) ((saW).view.loc (thr d L)))
    (i : S512.Idx) (hi : i ∈ runS 0) :
    Cp0 d L (m (c0Loc d)) (m (c1Loc d)) (m (c2Loc d)) (m (c3Loc d)) (m (c4Loc d)) (m (c5Loc d)) (m (c6Loc d)) (m (c7Loc d)) fsh prev 0 i = SMsem m d L 0 i := by
  rw [← set_sa0P] at hi
  obtain ⟨y, -, rfl⟩ := Finset.mem_map.mp hi
  have hy : (y 0).val < 64 := (y 0).isLt
  refine (word_sa (F := F) d L ![0] inb_S512_S64_0 (k0_off10 L) (k0_off1 L) (k0_off10_inb L) (k0_off1_inb L)
    (L 1).val 0 0 0 (k0_off10_eq L) (k0_off1_eq L) rfl (by decide) prev fsh
    ((c0S L).view.read (Elt F) (m (c0Loc d))) y).trans ?_
  refine (col0_word m d L (64 * 0 + (y 0).val) (by omega)).trans ?_
  exact (SMsem_at m d L 0 (by decide) 0 (by decide) _ (y 0).val hy (by
    show 0 + 1 * (y 0).val = 64 * 0 + (y 0).val
    omega)).symm

omit [FloatOps F] in
theorem sv_0_1 (fsh : Buf (Elt F) ((sh0P L).view.loc (thr d L))) (prev : Buf (Elt F) ((saW).view.loc (thr d L)))
    (i : S512.Idx) (hi : i ∈ runS 1) :
    Cp0 d L (m (c0Loc d)) (m (c1Loc d)) (m (c2Loc d)) (m (c3Loc d)) (m (c4Loc d)) (m (c5Loc d)) (m (c6Loc d)) (m (c7Loc d)) fsh prev 1 i = SMsem m d L 0 i := by
  rw [← set_sa1P] at hi
  obtain ⟨y, -, rfl⟩ := Finset.mem_map.mp hi
  have hy : (y 0).val < 64 := (y 0).isLt
  refine (word_sa (F := F) d L ![64] inb_S512_S64_64 (k0_off11 L) (k0_off3 L) (k0_off11_inb L) (k0_off3_inb L)
    (L 1).val 512 512 0 (k0_off11_eq L) (k0_off3_eq L) rfl (by decide) prev fsh
    ((c1S L).view.read (Elt F) (m (c1Loc d))) y).trans ?_
  refine (col1_word m d L (64 * 0 + (y 0).val) (by omega)).trans ?_
  exact (SMsem_at m d L 0 (by decide) 1 (by decide) _ (y 0).val hy (by
    show 64 + 1 * (y 0).val = 64 * 1 + (y 0).val
    omega)).symm

omit [FloatOps F] in
theorem sv_0_2 (fsh : Buf (Elt F) ((sh0P L).view.loc (thr d L))) (prev : Buf (Elt F) ((saW).view.loc (thr d L)))
    (i : S512.Idx) (hi : i ∈ runS 2) :
    Cp0 d L (m (c0Loc d)) (m (c1Loc d)) (m (c2Loc d)) (m (c3Loc d)) (m (c4Loc d)) (m (c5Loc d)) (m (c6Loc d)) (m (c7Loc d)) fsh prev 2 i = SMsem m d L 0 i := by
  rw [← set_sa2P] at hi
  obtain ⟨y, -, rfl⟩ := Finset.mem_map.mp hi
  have hy : (y 0).val < 64 := (y 0).isLt
  refine (word_sa (F := F) d L ![128] inb_S512_S64_128 (k0_off12 L) (k0_off4 L) (k0_off12_inb L) (k0_off4_inb L)
    (L 1).val 1024 1024 0 (k0_off12_eq L) (k0_off4_eq L) rfl (by decide) prev fsh
    ((c2S L).view.read (Elt F) (m (c2Loc d))) y).trans ?_
  refine (col2_word m d L (64 * 0 + (y 0).val) (by omega)).trans ?_
  exact (SMsem_at m d L 0 (by decide) 2 (by decide) _ (y 0).val hy (by
    show 128 + 1 * (y 0).val = 64 * 2 + (y 0).val
    omega)).symm

omit [FloatOps F] in
theorem sv_0_3 (fsh : Buf (Elt F) ((sh0P L).view.loc (thr d L))) (prev : Buf (Elt F) ((saW).view.loc (thr d L)))
    (i : S512.Idx) (hi : i ∈ runS 3) :
    Cp0 d L (m (c0Loc d)) (m (c1Loc d)) (m (c2Loc d)) (m (c3Loc d)) (m (c4Loc d)) (m (c5Loc d)) (m (c6Loc d)) (m (c7Loc d)) fsh prev 3 i = SMsem m d L 0 i := by
  rw [← set_sa3P] at hi
  obtain ⟨y, -, rfl⟩ := Finset.mem_map.mp hi
  have hy : (y 0).val < 64 := (y 0).isLt
  refine (word_sa (F := F) d L ![192] inb_S512_S64_192 (k0_off13 L) (k0_off5 L) (k0_off13_inb L) (k0_off5_inb L)
    (L 1).val 1536 1536 0 (k0_off13_eq L) (k0_off5_eq L) rfl (by decide) prev fsh
    ((c3S L).view.read (Elt F) (m (c3Loc d))) y).trans ?_
  refine (col3_word m d L (64 * 0 + (y 0).val) (by omega)).trans ?_
  exact (SMsem_at m d L 0 (by decide) 3 (by decide) _ (y 0).val hy (by
    show 192 + 1 * (y 0).val = 64 * 3 + (y 0).val
    omega)).symm

omit [FloatOps F] in
theorem sv_0_4 (fsh : Buf (Elt F) ((sh0P L).view.loc (thr d L))) (prev : Buf (Elt F) ((saW).view.loc (thr d L)))
    (i : S512.Idx) (hi : i ∈ runS 4) :
    Cp0 d L (m (c0Loc d)) (m (c1Loc d)) (m (c2Loc d)) (m (c3Loc d)) (m (c4Loc d)) (m (c5Loc d)) (m (c6Loc d)) (m (c7Loc d)) fsh prev 4 i = SMsem m d L 0 i := by
  rw [← set_sa4P] at hi
  obtain ⟨y, -, rfl⟩ := Finset.mem_map.mp hi
  have hy : (y 0).val < 64 := (y 0).isLt
  refine (word_sa (F := F) d L ![256] inb_S512_S64_256 (k0_off14 L) (k0_off6 L) (k0_off14_inb L) (k0_off6_inb L)
    (L 1).val 2048 2048 0 (k0_off14_eq L) (k0_off6_eq L) rfl (by decide) prev fsh
    ((c4S L).view.read (Elt F) (m (c4Loc d))) y).trans ?_
  refine (col4_word m d L (64 * 0 + (y 0).val) (by omega)).trans ?_
  exact (SMsem_at m d L 0 (by decide) 4 (by decide) _ (y 0).val hy (by
    show 256 + 1 * (y 0).val = 64 * 4 + (y 0).val
    omega)).symm

omit [FloatOps F] in
theorem sv_0_5 (fsh : Buf (Elt F) ((sh0P L).view.loc (thr d L))) (prev : Buf (Elt F) ((saW).view.loc (thr d L)))
    (i : S512.Idx) (hi : i ∈ runS 5) :
    Cp0 d L (m (c0Loc d)) (m (c1Loc d)) (m (c2Loc d)) (m (c3Loc d)) (m (c4Loc d)) (m (c5Loc d)) (m (c6Loc d)) (m (c7Loc d)) fsh prev 5 i = SMsem m d L 0 i := by
  rw [← set_sa5P] at hi
  obtain ⟨y, -, rfl⟩ := Finset.mem_map.mp hi
  have hy : (y 0).val < 64 := (y 0).isLt
  refine (word_sa (F := F) d L ![320] inb_S512_S64_320 (k0_off15 L) (k0_off7 L) (k0_off15_inb L) (k0_off7_inb L)
    (L 1).val 2560 2560 0 (k0_off15_eq L) (k0_off7_eq L) rfl (by decide) prev fsh
    ((c5S L).view.read (Elt F) (m (c5Loc d))) y).trans ?_
  refine (col5_word m d L (64 * 0 + (y 0).val) (by omega)).trans ?_
  exact (SMsem_at m d L 0 (by decide) 5 (by decide) _ (y 0).val hy (by
    show 320 + 1 * (y 0).val = 64 * 5 + (y 0).val
    omega)).symm

omit [FloatOps F] in
theorem sv_0_6 (fsh : Buf (Elt F) ((sh0P L).view.loc (thr d L))) (prev : Buf (Elt F) ((saW).view.loc (thr d L)))
    (i : S512.Idx) (hi : i ∈ runS 6) :
    Cp0 d L (m (c0Loc d)) (m (c1Loc d)) (m (c2Loc d)) (m (c3Loc d)) (m (c4Loc d)) (m (c5Loc d)) (m (c6Loc d)) (m (c7Loc d)) fsh prev 6 i = SMsem m d L 0 i := by
  rw [← set_sa6P] at hi
  obtain ⟨y, -, rfl⟩ := Finset.mem_map.mp hi
  have hy : (y 0).val < 64 := (y 0).isLt
  refine (word_sa (F := F) d L ![384] inb_S512_S64_384 (k0_off16 L) (k0_off8 L) (k0_off16_inb L) (k0_off8_inb L)
    (L 1).val 3072 3072 0 (k0_off16_eq L) (k0_off8_eq L) rfl (by decide) prev fsh
    ((c6S L).view.read (Elt F) (m (c6Loc d))) y).trans ?_
  refine (col6_word m d L (64 * 0 + (y 0).val) (by omega)).trans ?_
  exact (SMsem_at m d L 0 (by decide) 6 (by decide) _ (y 0).val hy (by
    show 384 + 1 * (y 0).val = 64 * 6 + (y 0).val
    omega)).symm

omit [FloatOps F] in
theorem sv_0_7 (fsh : Buf (Elt F) ((sh0P L).view.loc (thr d L))) (prev : Buf (Elt F) ((saW).view.loc (thr d L)))
    (i : S512.Idx) (hi : i ∈ runS 7) :
    Cp0 d L (m (c0Loc d)) (m (c1Loc d)) (m (c2Loc d)) (m (c3Loc d)) (m (c4Loc d)) (m (c5Loc d)) (m (c6Loc d)) (m (c7Loc d)) fsh prev 7 i = SMsem m d L 0 i := by
  rw [← set_sa7P] at hi
  obtain ⟨y, -, rfl⟩ := Finset.mem_map.mp hi
  have hy : (y 0).val < 64 := (y 0).isLt
  refine (word_sa (F := F) d L ![448] inb_S512_S64_448 (k0_off17 L) (k0_off9 L) (k0_off17_inb L) (k0_off9_inb L)
    (L 1).val 3584 3584 0 (k0_off17_eq L) (k0_off9_eq L) rfl (by decide) prev fsh
    ((c7S L).view.read (Elt F) (m (c7Loc d))) y).trans ?_
  refine (col7_word m d L (64 * 0 + (y 0).val) (by omega)).trans ?_
  exact (SMsem_at m d L 0 (by decide) 7 (by decide) _ (y 0).val hy (by
    show 448 + 1 * (y 0).val = 64 * 7 + (y 0).val
    omega)).symm

end StageW

end Cert.Proof.KB

end
-- ==== Proof.KB.StageW1.lean ====
/-
  Chunk 1 of the staged index words: each of its eight copies lands, in its run of the index buffer, the chunk's 64
  words of its column (the chain of the windows' offsets, instantiated at the copy's three windows).
-/
import proofs.«204821_g30846455120635_fold_wed_m_1292_33_alg».proof.Proof.KB.StageGen

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_1_0 (fsh : Buf (Elt F) ((sh0P L).view.loc (thr d L))) (prev : Buf (Elt F) ((sbW).view.loc (thr d L)))
    (i : S512.Idx) (hi : i ∈ runS 0) :
    Cp1 d L (m (c0Loc d)) (m (c1Loc d)) (m (c2Loc d)) (m (c3Loc d)) (m (c4Loc d)) (m (c5Loc d)) (m (c6Loc d)) (m (c7Loc d)) fsh prev 0 i = SMsem m d L 1 i := by
  rw [← set_sb0P] at hi
  obtain ⟨y, -, rfl⟩ := Finset.mem_map.mp hi
  have hy : (y 0).val < 64 := (y 0).isLt
  refine (word_sb (F := F) d L ![0] inb_S512_S64_0 (k0_off18 L) (k0_off1 L) (k0_off18_inb L) (k0_off1_inb L)
    (L 1).val 64 0 1 (k0_off18_eq L) (k0_off1_eq L) rfl (by decide) prev fsh
    ((c0S L).view.read (Elt F) (m (c0Loc d))) y).trans ?_
  refine (col0_word m d L (64 * 1 + (y 0).val) (by omega)).trans ?_
  exact (SMsem_at m d L 1 (by decide) 0 (by decide) _ (y 0).val hy (by
    show 0 + 1 * (y 0).val = 64 * 0 + (y 0).val
    omega)).symm

omit [FloatOps F] in
theorem sv_1_1 (fsh : Buf (Elt F) ((sh0P L).view.loc (thr d L))) (prev : Buf (Elt F) ((sbW).view.loc (thr d L)))
    (i : S512.Idx) (hi : i ∈ runS 1) :
    Cp1 d L (m (c0Loc d)) (m (c1Loc d)) (m (c2Loc d)) (m (c3Loc d)) (m (c4Loc d)) (m (c5Loc d)) (m (c6Loc d)) (m (c7Loc d)) fsh prev 1 i = SMsem m d L 1 i := by
  rw [← set_sb1P] at hi
  obtain ⟨y, -, rfl⟩ := Finset.mem_map.mp hi
  have hy : (y 0).val < 64 := (y 0).isLt
  refine (word_sb (F := F) d L ![64] inb_S512_S64_64 (k0_off19 L) (k0_off3 L) (k0_off19_inb L) (k0_off3_inb L)
    (L 1).val 576 512 1 (k0_off19_eq L) (k0_off3_eq L) rfl (by decide) prev fsh
    ((c1S L).view.read (Elt F) (m (c1Loc d))) y).trans ?_
  refine (col1_word m d L (64 * 1 + (y 0).val) (by omega)).trans ?_
  exact (SMsem_at m d L 1 (by decide) 1 (by decide) _ (y 0).val hy (by
    show 64 + 1 * (y 0).val = 64 * 1 + (y 0).val
    omega)).symm

omit [FloatOps F] in
theorem sv_1_2 (fsh : Buf (Elt F) ((sh0P L).view.loc (thr d L))) (prev : Buf (Elt F) ((sbW).view.loc (thr d L)))
    (i : S512.Idx) (hi : i ∈ runS 2) :
    Cp1 d L (m (c0Loc d)) (m (c1Loc d)) (m (c2Loc d)) (m (c3Loc d)) (m (c4Loc d)) (m (c5Loc d)) (m (c6Loc d)) (m (c7Loc d)) fsh prev 2 i = SMsem m d L 1 i := by
  rw [← set_sb2P] at hi
  obtain ⟨y, -, rfl⟩ := Finset.mem_map.mp hi
  have hy : (y 0).val < 64 := (y 0).isLt
  refine (word_sb (F := F) d L ![128] inb_S512_S64_128 (k0_off20 L) (k0_off4 L) (k0_off20_inb L) (k0_off4_inb L)
    (L 1).val 1088 1024 1 (k0_off20_eq L) (k0_off4_eq L) rfl (by decide) prev fsh
    ((c2S L).view.read (Elt F) (m (c2Loc d))) y).trans ?_
  refine (col2_word m d L (64 * 1 + (y 0).val) (by omega)).trans ?_
  exact (SMsem_at m d L 1 (by decide) 2 (by decide) _ (y 0).val hy (by
    show 128 + 1 * (y 0).val = 64 * 2 + (y 0).val
    omega)).symm

omit [FloatOps F] in
theorem sv_1_3 (fsh : Buf (Elt F) ((sh0P L).view.loc (thr d L))) (prev : Buf (Elt F) ((sbW).view.loc (thr d L)))
    (i : S512.Idx) (hi : i ∈ runS 3) :
    Cp1 d L (m (c0Loc d)) (m (c1Loc d)) (m (c2Loc d)) (m (c3Loc d)) (m (c4Loc d)) (m (c5Loc d)) (m (c6Loc d)) (m (c7Loc d)) fsh prev 3 i = SMsem m d L 1 i := by
  rw [← set_sb3P] at hi
  obtain ⟨y, -, rfl⟩ := Finset.mem_map.mp hi
  have hy : (y 0).val < 64 := (y 0).isLt
  refine (word_sb (F := F) d L ![192] inb_S512_S64_192 (k0_off21 L) (k0_off5 L) (k0_off21_inb L) (k0_off5_inb L)
    (L 1).val 1600 1536 1 (k0_off21_eq L) (k0_off5_eq L) rfl (by decide) prev fsh
    ((c3S L).view.read (Elt F) (m (c3Loc d))) y).trans ?_
  refine (col3_word m d L (64 * 1 + (y 0).val) (by omega)).trans ?_
  exact (SMsem_at m d L 1 (by decide) 3 (by decide) _ (y 0).val hy (by
    show 192 + 1 * (y 0).val = 64 * 3 + (y 0).val
    omega)).symm

omit [FloatOps F] in
theorem sv_1_4 (fsh : Buf (Elt F) ((sh0P L).view.loc (thr d L))) (prev : Buf (Elt F) ((sbW).view.loc (thr d L)))
    (i : S512.Idx) (hi : i ∈ runS 4) :
    Cp1 d L (m (c0Loc d)) (m (c1Loc d)) (m (c2Loc d)) (m (c3Loc d)) (m (c4Loc d)) (m (c5Loc d)) (m (c6Loc d)) (m (c7Loc d)) fsh prev 4 i = SMsem m d L 1 i := by
  rw [← set_sb4P] at hi
  obtain ⟨y, -, rfl⟩ := Finset.mem_map.mp hi
  have hy : (y 0).val < 64 := (y 0).isLt
  refine (word_sb (F := F) d L ![256] inb_S512_S64_256 (k0_off22 L) (k0_off6 L) (k0_off22_inb L) (k0_off6_inb L)
    (L 1).val 2112 2048 1 (k0_off22_eq L) (k0_off6_eq L) rfl (by decide) prev fsh
    ((c4S L).view.read (Elt F) (m (c4Loc d))) y).trans ?_
  refine (col4_word m d L (64 * 1 + (y 0).val) (by omega)).trans ?_
  exact (SMsem_at m d L 1 (by decide) 4 (by decide) _ (y 0).val hy (by
    show 256 + 1 * (y 0).val = 64 * 4 + (y 0).val
    omega)).symm

omit [FloatOps F] in
theorem sv_1_5 (fsh : Buf (Elt F) ((sh0P L).view.loc (thr d L))) (prev : Buf (Elt F) ((sbW).view.loc (thr d L)))
    (i : S512.Idx) (hi : i ∈ runS 5) :
    Cp1 d L (m (c0Loc d)) (m (c1Loc d)) (m (c2Loc d)) (m (c3Loc d)) (m (c4Loc d)) (m (c5Loc d)) (m (c6Loc d)) (m (c7Loc d)) fsh prev 5 i = SMsem m d L 1 i := by
  rw [← set_sb5P] at hi
  obtain ⟨y, -, rfl⟩ := Finset.mem_map.mp hi
  have hy : (y 0).val < 64 := (y 0).isLt
  refine (word_sb (F := F) d L ![320] inb_S512_S64_320 (k0_off23 L) (k0_off7 L) (k0_off23_inb L) (k0_off7_inb L)
    (L 1).val 2624 2560 1 (k0_off23_eq L) (k0_off7_eq L) rfl (by decide) prev fsh
    ((c5S L).view.read (Elt F) (m (c5Loc d))) y).trans ?_
  refine (col5_word m d L (64 * 1 + (y 0).val) (by omega)).trans ?_
  exact (SMsem_at m d L 1 (by decide) 5 (by decide) _ (y 0).val hy (by
    show 320 + 1 * (y 0).val = 64 * 5 + (y 0).val
    omega)).symm

omit [FloatOps F] in
theorem sv_1_6 (fsh : Buf (Elt F) ((sh0P L).view.loc (thr d L))) (prev : Buf (Elt F) ((sbW).view.loc (thr d L)))
    (i : S512.Idx) (hi : i ∈ runS 6) :
    Cp1 d L (m (c0Loc d)) (m (c1Loc d)) (m (c2Loc d)) (m (c3Loc d)) (m (c4Loc d)) (m (c5Loc d)) (m (c6Loc d)) (m (c7Loc d)) fsh prev 6 i = SMsem m d L 1 i := by
  rw [← set_sb6P] at hi
  obtain ⟨y, -, rfl⟩ := Finset.mem_map.mp hi
  have hy : (y 0).val < 64 := (y 0).isLt
  refine (word_sb (F := F) d L ![384] inb_S512_S64_384 (k0_off24 L) (k0_off8 L) (k0_off24_inb L) (k0_off8_inb L)
    (L 1).val 3136 3072 1 (k0_off24_eq L) (k0_off8_eq L) rfl (by decide) prev fsh
    ((c6S L).view.read (Elt F) (m (c6Loc d))) y).trans ?_
  refine (col6_word m d L (64 * 1 + (y 0).val) (by omega)).trans ?_
  exact (SMsem_at m d L 1 (by decide) 6 (by decide) _ (y 0).val hy (by
    show 384 + 1 * (y 0).val = 64 * 6 + (y 0).val
    omega)).symm

omit [FloatOps F] in
theorem sv_1_7 (fsh : Buf (Elt F) ((sh0P L).view.loc (thr d L))) (prev : Buf (Elt F) ((sbW).view.loc (thr d L)))
    (i : S512.Idx) (hi : i ∈ runS 7) :
    Cp1 d L (m (c0Loc d)) (m (c1Loc d)) (m (c2Loc d)) (m (c3Loc d)) (m (c4Loc d)) (m (c5Loc d)) (m (c6Loc d)) (m (c7Loc d)) fsh prev 7 i = SMsem m d L 1 i := by
  rw [← set_sb7P] at hi
  obtain ⟨y, -, rfl⟩ := Finset.mem_map.mp hi
  have hy : (y 0).val < 64 := (y 0).isLt
  refine (word_sb (F := F) d L ![448] inb_S512_S64_448 (k0_off25 L) (k0_off9 L) (k0_off25_inb L) (k0_off9_inb L)
    (L 1).val 3648 3584 1 (k0_off25_eq L) (k0_off9_eq L) rfl (by decide) prev fsh
    ((c7S L).view.read (Elt F) (m (c7Loc d))) y).trans ?_
  refine (col7_word m d L (64 * 1 + (y 0).val) (by omega)).trans ?_
  exact (SMsem_at m d L 1 (by decide) 7 (by decide) _ (y 0).val hy (by
    show 448 + 1 * (y 0).val = 64 * 7 + (y 0).val
    omega)).symm

end StageW

end Cert.Proof.KB

end
-- ==== Proof.KB.StageW2.lean ====
/-
  Chunk 2 of the staged index words: each of its eight copies lands, in its run of the index buffer, the chunk's 64
  words of its column (the chain of the windows' offsets, instantiated at the copy's three windows).
-/
import proofs.«204821_g30846455120635_fold_wed_m_1292_33_alg».proof.Proof.KB.StageGen

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_2_0 (fsh : Buf (Elt F) ((sh0P L).view.loc (thr d L))) (prev : Buf (Elt F) ((saW).view.loc (thr d L)))
    (i : S512.Idx) (hi : i ∈ runS 0) :
    Cp2 d L (m (c0Loc d)) (m (c1Loc d)) (m (c2Loc d)) (m (c3Loc d)) (m (c4Loc d)) (m (c5Loc d)) (m (c6Loc d)) (m (c7Loc d)) fsh prev 0 i = SMsem m d L 2 i := by
  rw [← set_sa0P] at hi
  obtain ⟨y, -, rfl⟩ := Finset.mem_map.mp hi
  have hy : (y 0).val < 64 := (y 0).isLt
  refine (word_sa (F := F) d L ![0] inb_S512_S64_0 (k0_off51 L) (k0_off1 L) (k0_off51_inb L) (k0_off1_inb L)
    (L 1).val 128 0 2 (k0_off51_eq L) (k0_off1_eq L) rfl (by decide) prev fsh
    ((c0S L).view.read (Elt F) (m (c0Loc d))) y).trans ?_
  refine (col0_word m d L (64 * 2 + (y 0).val) (by omega)).trans ?_
  exact (SMsem_at m d L 2 (by decide) 0 (by decide) _ (y 0).val hy (by
    show 0 + 1 * (y 0).val = 64 * 0 + (y 0).val
    omega)).symm

omit [FloatOps F] in
theorem sv_2_1 (fsh : Buf (Elt F) ((sh0P L).view.loc (thr d L))) (prev : Buf (Elt F) ((saW).view.loc (thr d L)))
    (i : S512.Idx) (hi : i ∈ runS 1) :
    Cp2 d L (m (c0Loc d)) (m (c1Loc d)) (m (c2Loc d)) (m (c3Loc d)) (m (c4Loc d)) (m (c5Loc d)) (m (c6Loc d)) (m (c7Loc d)) fsh prev 1 i = SMsem m d L 2 i := by
  rw [← set_sa1P] at hi
  obtain ⟨y, -, rfl⟩ := Finset.mem_map.mp hi
  have hy : (y 0).val < 64 := (y 0).isLt
  refine (word_sa (F := F) d L ![64] inb_S512_S64_64 (k0_off52 L) (k0_off3 L) (k0_off52_inb L) (k0_off3_inb L)
    (L 1).val 640 512 2 (k0_off52_eq L) (k0_off3_eq L) rfl (by decide) prev fsh
    ((c1S L).view.read (Elt F) (m (c1Loc d))) y).trans ?_
  refine (col1_word m d L (64 * 2 + (y 0).val) (by omega)).trans ?_
  exact (SMsem_at m d L 2 (by decide) 1 (by decide) _ (y 0).val hy (by
    show 64 + 1 * (y 0).val = 64 * 1 + (y 0).val
    omega)).symm

omit [FloatOps F] in
theorem sv_2_2 (fsh : Buf (Elt F) ((sh0P L).view.loc (thr d L))) (prev : Buf (Elt F) ((saW).view.loc (thr d L)))
    (i : S512.Idx) (hi : i ∈ runS 2) :
    Cp2 d L (m (c0Loc d)) (m (c1Loc d)) (m (c2Loc d)) (m (c3Loc d)) (m (c4Loc d)) (m (c5Loc d)) (m (c6Loc d)) (m (c7Loc d)) fsh prev 2 i = SMsem m d L 2 i := by
  rw [← set_sa2P] at hi
  obtain ⟨y, -, rfl⟩ := Finset.mem_map.mp hi
  have hy : (y 0).val < 64 := (y 0).isLt
  refine (word_sa (F := F) d L ![128] inb_S512_S64_128 (k0_off53 L) (k0_off4 L) (k0_off53_inb L) (k0_off4_inb L)
    (L 1).val 1152 1024 2 (k0_off53_eq L) (k0_off4_eq L) rfl (by decide) prev fsh
    ((c2S L).view.read (Elt F) (m (c2Loc d))) y).trans ?_
  refine (col2_word m d L (64 * 2 + (y 0).val) (by omega)).trans ?_
  exact (SMsem_at m d L 2 (by decide) 2 (by decide) _ (y 0).val hy (by
    show 128 + 1 * (y 0).val = 64 * 2 + (y 0).val
    omega)).symm

omit [FloatOps F] in
theorem sv_2_3 (fsh : Buf (Elt F) ((sh0P L).view.loc (thr d L))) (prev : Buf (Elt F) ((saW).view.loc (thr d L)))
    (i : S512.Idx) (hi : i ∈ runS 3) :
    Cp2 d L (m (c0Loc d)) (m (c1Loc d)) (m (c2Loc d)) (m (c3Loc d)) (m (c4Loc d)) (m (c5Loc d)) (m (c6Loc d)) (m (c7Loc d)) fsh prev 3 i = SMsem m d L 2 i := by
  rw [← set_sa3P] at hi
  obtain ⟨y, -, rfl⟩ := Finset.mem_map.mp hi
  have hy : (y 0).val < 64 := (y 0).isLt
  refine (word_sa (F := F) d L ![192] inb_S512_S64_192 (k0_off54 L) (k0_off5 L) (k0_off54_inb L) (k0_off5_inb L)
    (L 1).val 1664 1536 2 (k0_off54_eq L) (k0_off5_eq L) rfl (by decide) prev fsh
    ((c3S L).view.read (Elt F) (m (c3Loc d))) y).trans ?_
  refine (col3_word m d L (64 * 2 + (y 0).val) (by omega)).trans ?_
  exact (SMsem_at m d L 2 (by decide) 3 (by decide) _ (y 0).val hy (by
    show 192 + 1 * (y 0).val = 64 * 3 + (y 0).val
    omega)).symm

omit [FloatOps F] in
theorem sv_2_4 (fsh : Buf (Elt F) ((sh0P L).view.loc (thr d L))) (prev : Buf (Elt F) ((saW).view.loc (thr d L)))
    (i : S512.Idx) (hi : i ∈ runS 4) :
    Cp2 d L (m (c0Loc d)) (m (c1Loc d)) (m (c2Loc d)) (m (c3Loc d)) (m (c4Loc d)) (m (c5Loc d)) (m (c6Loc d)) (m (c7Loc d)) fsh prev 4 i = SMsem m d L 2 i := by
  rw [← set_sa4P] at hi
  obtain ⟨y, -, rfl⟩ := Finset.mem_map.mp hi
  have hy : (y 0).val < 64 := (y 0).isLt
  refine (word_sa (F := F) d L ![256] inb_S512_S64_256 (k0_off55 L) (k0_off6 L) (k0_off55_inb L) (k0_off6_inb L)
    (L 1).val 2176 2048 2 (k0_off55_eq L) (k0_off6_eq L) rfl (by decide) prev fsh
    ((c4S L).view.read (Elt F) (m (c4Loc d))) y).trans ?_
  refine (col4_word m d L (64 * 2 + (y 0).val) (by omega)).trans ?_
  exact (SMsem_at m d L 2 (by decide) 4 (by decide) _ (y 0).val hy (by
    show 256 + 1 * (y 0).val = 64 * 4 + (y 0).val
    omega)).symm

omit [FloatOps F] in
theorem sv_2_5 (fsh : Buf (Elt F) ((sh0P L).view.loc (thr d L))) (prev : Buf (Elt F) ((saW).view.loc (thr d L)))
    (i : S512.Idx) (hi : i ∈ runS 5) :
    Cp2 d L (m (c0Loc d)) (m (c1Loc d)) (m (c2Loc d)) (m (c3Loc d)) (m (c4Loc d)) (m (c5Loc d)) (m (c6Loc d)) (m (c7Loc d)) fsh prev 5 i = SMsem m d L 2 i := by
  rw [← set_sa5P] at hi
  obtain ⟨y, -, rfl⟩ := Finset.mem_map.mp hi
  have hy : (y 0).val < 64 := (y 0).isLt
  refine (word_sa (F := F) d L ![320] inb_S512_S64_320 (k0_off56 L) (k0_off7 L) (k0_off56_inb L) (k0_off7_inb L)
    (L 1).val 2688 2560 2 (k0_off56_eq L) (k0_off7_eq L) rfl (by decide) prev fsh
    ((c5S L).view.read (Elt F) (m (c5Loc d))) y).trans ?_
  refine (col5_word m d L (64 * 2 + (y 0).val) (by omega)).trans ?_
  exact (SMsem_at m d L 2 (by decide) 5 (by decide) _ (y 0).val hy (by
    show 320 + 1 * (y 0).val = 64 * 5 + (y 0).val
    omega)).symm

omit [FloatOps F] in
theorem sv_2_6 (fsh : Buf (Elt F) ((sh0P L).view.loc (thr d L))) (prev : Buf (Elt F) ((saW).view.loc (thr d L)))
    (i : S512.Idx) (hi : i ∈ runS 6) :
    Cp2 d L (m (c0Loc d)) (m (c1Loc d)) (m (c2Loc d)) (m (c3Loc d)) (m (c4Loc d)) (m (c5Loc d)) (m (c6Loc d)) (m (c7Loc d)) fsh prev 6 i = SMsem m d L 2 i := by
  rw [← set_sa6P] at hi
  obtain ⟨y, -, rfl⟩ := Finset.mem_map.mp hi
  have hy : (y 0).val < 64 := (y 0).isLt
  refine (word_sa (F := F) d L ![384] inb_S512_S64_384 (k0_off57 L) (k0_off8 L) (k0_off57_inb L) (k0_off8_inb L)
    (L 1).val 3200 3072 2 (k0_off57_eq L) (k0_off8_eq L) rfl (by decide) prev fsh
    ((c6S L).view.read (Elt F) (m (c6Loc d))) y).trans ?_
  refine (col6_word m d L (64 * 2 + (y 0).val) (by omega)).trans ?_
  exact (SMsem_at m d L 2 (by decide) 6 (by decide) _ (y 0).val hy (by
    show 384 + 1 * (y 0).val = 64 * 6 + (y 0).val
    omega)).symm

omit [FloatOps F] in
theorem sv_2_7 (fsh : Buf (Elt F) ((sh0P L).view.loc (thr d L))) (prev : Buf (Elt F) ((saW).view.loc (thr d L)))
    (i : S512.Idx) (hi : i ∈ runS 7) :
    Cp2 d L (m (c0Loc d)) (m (c1Loc d)) (m (c2Loc d)) (m (c3Loc d)) (m (c4Loc d)) (m (c5Loc d)) (m (c6Loc d)) (m (c7Loc d)) fsh prev 7 i = SMsem m d L 2 i := by
  rw [← set_sa7P] at hi
  obtain ⟨y, -, rfl⟩ := Finset.mem_map.mp hi
  have hy : (y 0).val < 64 := (y 0).isLt
  refine (word_sa (F := F) d L ![448] inb_S512_S64_448 (k0_off58 L) (k0_off9 L) (k0_off58_inb L) (k0_off9_inb L)
    (L 1).val 3712 3584 2 (k0_off58_eq L) (k0_off9_eq L) rfl (by decide) prev fsh
    ((c7S L).view.read (Elt F) (m (c7Loc d))) y).trans ?_
  refine (col7_word m d L (64 * 2 + (y 0).val) (by omega)).trans ?_
  exact (SMsem_at m d L 2 (by decide) 7 (by decide) _ (y 0).val hy (by
    show 448 + 1 * (y 0).val = 64 * 7 + (y 0).val
    omega)).symm

end StageW

end Cert.Proof.KB

end
-- ==== Proof.KB.StageW3.lean ====
/-
  Chunk 3 of the staged index words: each of its eight copies lands, in its run of the index buffer, the chunk's 64
  words of its column (the chain of the windows' offsets, instantiated at the copy's three windows).
-/
import proofs.«204821_g30846455120635_fold_wed_m_1292_33_alg».proof.Proof.KB.StageGen

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_3_0 (fsh : Buf (Elt F) ((sh0P L).view.loc (thr d L))) (prev : Buf (Elt F) ((sbW).view.loc (thr d L)))
    (i : S512.Idx) (hi : i ∈ runS 0) :
    Cp3 d L (m (c0Loc d)) (m (c1Loc d)) (m (c2Loc d)) (m (c3Loc d)) (m (c4Loc d)) (m (c5Loc d)) (m (c6Loc d)) (m (c7Loc d)) fsh prev 0 i = SMsem m d L 3 i := by
  rw [← set_sb0P] at hi
  obtain ⟨y, -, rfl⟩ := Finset.mem_map.mp hi
  have hy : (y 0).val < 64 := (y 0).isLt
  refine (word_sb (F := F) d L ![0] inb_S512_S64_0 (k0_off83 L) (k0_off1 L) (k0_off83_inb L) (k0_off1_inb L)
    (L 1).val 192 0 3 (k0_off83_eq L) (k0_off1_eq L) rfl (by decide) prev fsh
    ((c0S L).view.read (Elt F) (m (c0Loc d))) y).trans ?_
  refine (col0_word m d L (64 * 3 + (y 0).val) (by omega)).trans ?_
  exact (SMsem_at m d L 3 (by decide) 0 (by decide) _ (y 0).val hy (by
    show 0 + 1 * (y 0).val = 64 * 0 + (y 0).val
    omega)).symm

omit [FloatOps F] in
theorem sv_3_1 (fsh : Buf (Elt F) ((sh0P L).view.loc (thr d L))) (prev : Buf (Elt F) ((sbW).view.loc (thr d L)))
    (i : S512.Idx) (hi : i ∈ runS 1) :
    Cp3 d L (m (c0Loc d)) (m (c1Loc d)) (m (c2Loc d)) (m (c3Loc d)) (m (c4Loc d)) (m (c5Loc d)) (m (c6Loc d)) (m (c7Loc d)) fsh prev 1 i = SMsem m d L 3 i := by
  rw [← set_sb1P] at hi
  obtain ⟨y, -, rfl⟩ := Finset.mem_map.mp hi
  have hy : (y 0).val < 64 := (y 0).isLt
  refine (word_sb (F := F) d L ![64] inb_S512_S64_64 (k0_off84 L) (k0_off3 L) (k0_off84_inb L) (k0_off3_inb L)
    (L 1).val 704 512 3 (k0_off84_eq L) (k0_off3_eq L) rfl (by decide) prev fsh
    ((c1S L).view.read (Elt F) (m (c1Loc d))) y).trans ?_
  refine (col1_word m d L (64 * 3 + (y 0).val) (by omega)).trans ?_
  exact (SMsem_at m d L 3 (by decide) 1 (by decide) _ (y 0).val hy (by
    show 64 + 1 * (y 0).val = 64 * 1 + (y 0).val
    omega)).symm

omit [FloatOps F] in
theorem sv_3_2 (fsh : Buf (Elt F) ((sh0P L).view.loc (thr d L))) (prev : Buf (Elt F) ((sbW).view.loc (thr d L)))
    (i : S512.Idx) (hi : i ∈ runS 2) :
    Cp3 d L (m (c0Loc d)) (m (c1Loc d)) (m (c2Loc d)) (m (c3Loc d)) (m (c4Loc d)) (m (c5Loc d)) (m (c6Loc d)) (m (c7Loc d)) fsh prev 2 i = SMsem m d L 3 i := by
  rw [← set_sb2P] at hi
  obtain ⟨y, -, rfl⟩ := Finset.mem_map.mp hi
  have hy : (y 0).val < 64 := (y 0).isLt
  refine (word_sb (F := F) d L ![128] inb_S512_S64_128 (k0_off85 L) (k0_off4 L) (k0_off85_inb L) (k0_off4_inb L)
    (L 1).val 1216 1024 3 (k0_off85_eq L) (k0_off4_eq L) rfl (by decide) prev fsh
    ((c2S L).view.read (Elt F) (m (c2Loc d))) y).trans ?_
  refine (col2_word m d L (64 * 3 + (y 0).val) (by omega)).trans ?_
  exact (SMsem_at m d L 3 (by decide) 2 (by decide) _ (y 0).val hy (by
    show 128 + 1 * (y 0).val = 64 * 2 + (y 0).val
    omega)).symm

omit [FloatOps F] in
theorem sv_3_3 (fsh : Buf (Elt F) ((sh0P L).view.loc (thr d L))) (prev : Buf (Elt F) ((sbW).view.loc (thr d L)))
    (i : S512.Idx) (hi : i ∈ runS 3) :
    Cp3 d L (m (c0Loc d)) (m (c1Loc d)) (m (c2Loc d)) (m (c3Loc d)) (m (c4Loc d)) (m (c5Loc d)) (m (c6Loc d)) (m (c7Loc d)) fsh prev 3 i = SMsem m d L 3 i := by
  rw [← set_sb3P] at hi
  obtain ⟨y, -, rfl⟩ := Finset.mem_map.mp hi
  have hy : (y 0).val < 64 := (y 0).isLt
  refine (word_sb (F := F) d L ![192] inb_S512_S64_192 (k0_off86 L) (k0_off5 L) (k0_off86_inb L) (k0_off5_inb L)
    (L 1).val 1728 1536 3 (k0_off86_eq L) (k0_off5_eq L) rfl (by decide) prev fsh
    ((c3S L).view.read (Elt F) (m (c3Loc d))) y).trans ?_
  refine (col3_word m d L (64 * 3 + (y 0).val) (by omega)).trans ?_
  exact (SMsem_at m d L 3 (by decide) 3 (by decide) _ (y 0).val hy (by
    show 192 + 1 * (y 0).val = 64 * 3 + (y 0).val
    omega)).symm

omit [FloatOps F] in
theorem sv_3_4 (fsh : Buf (Elt F) ((sh0P L).view.loc (thr d L))) (prev : Buf (Elt F) ((sbW).view.loc (thr d L)))
    (i : S512.Idx) (hi : i ∈ runS 4) :
    Cp3 d L (m (c0Loc d)) (m (c1Loc d)) (m (c2Loc d)) (m (c3Loc d)) (m (c4Loc d)) (m (c5Loc d)) (m (c6Loc d)) (m (c7Loc d)) fsh prev 4 i = SMsem m d L 3 i := by
  rw [← set_sb4P] at hi
  obtain ⟨y, -, rfl⟩ := Finset.mem_map.mp hi
  have hy : (y 0).val < 64 := (y 0).isLt
  refine (word_sb (F := F) d L ![256] inb_S512_S64_256 (k0_off87 L) (k0_off6 L) (k0_off87_inb L) (k0_off6_inb L)
    (L 1).val 2240 2048 3 (k0_off87_eq L) (k0_off6_eq L) rfl (by decide) prev fsh
    ((c4S L).view.read (Elt F) (m (c4Loc d))) y).trans ?_
  refine (col4_word m d L (64 * 3 + (y 0).val) (by omega)).trans ?_
  exact (SMsem_at m d L 3 (by decide) 4 (by decide) _ (y 0).val hy (by
    show 256 + 1 * (y 0).val = 64 * 4 + (y 0).val
    omega)).symm

omit [FloatOps F] in
theorem sv_3_5 (fsh : Buf (Elt F) ((sh0P L).view.loc (thr d L))) (prev : Buf (Elt F) ((sbW).view.loc (thr d L)))
    (i : S512.Idx) (hi : i ∈ runS 5) :
    Cp3 d L (m (c0Loc d)) (m (c1Loc d)) (m (c2Loc d)) (m (c3Loc d)) (m (c4Loc d)) (m (c5Loc d)) (m (c6Loc d)) (m (c7Loc d)) fsh prev 5 i = SMsem m d L 3 i := by
  rw [← set_sb5P] at hi
  obtain ⟨y, -, rfl⟩ := Finset.mem_map.mp hi
  have hy : (y 0).val < 64 := (y 0).isLt
  refine (word_sb (F := F) d L ![320] inb_S512_S64_320 (k0_off88 L) (k0_off7 L) (k0_off88_inb L) (k0_off7_inb L)
    (L 1).val 2752 2560 3 (k0_off88_eq L) (k0_off7_eq L) rfl (by decide) prev fsh
    ((c5S L).view.read (Elt F) (m (c5Loc d))) y).trans ?_
  refine (col5_word m d L (64 * 3 + (y 0).val) (by omega)).trans ?_
  exact (SMsem_at m d L 3 (by decide) 5 (by decide) _ (y 0).val hy (by
    show 320 + 1 * (y 0).val = 64 * 5 + (y 0).val
    omega)).symm

omit [FloatOps F] in
theorem sv_3_6 (fsh : Buf (Elt F) ((sh0P L).view.loc (thr d L))) (prev : Buf (Elt F) ((sbW).view.loc (thr d L)))
    (i : S512.Idx) (hi : i ∈ runS 6) :
    Cp3 d L (m (c0Loc d)) (m (c1Loc d)) (m (c2Loc d)) (m (c3Loc d)) (m (c4Loc d)) (m (c5Loc d)) (m (c6Loc d)) (m (c7Loc d)) fsh prev 6 i = SMsem m d L 3 i := by
  rw [← set_sb6P] at hi
  obtain ⟨y, -, rfl⟩ := Finset.mem_map.mp hi
  have hy : (y 0).val < 64 := (y 0).isLt
  refine (word_sb (F := F) d L ![384] inb_S512_S64_384 (k0_off89 L) (k0_off8 L) (k0_off89_inb L) (k0_off8_inb L)
    (L 1).val 3264 3072 3 (k0_off89_eq L) (k0_off8_eq L) rfl (by decide) prev fsh
    ((c6S L).view.read (Elt F) (m (c6Loc d))) y).trans ?_
  refine (col6_word m d L (64 * 3 + (y 0).val) (by omega)).trans ?_
  exact (SMsem_at m d L 3 (by decide) 6 (by decide) _ (y 0).val hy (by
    show 384 + 1 * (y 0).val = 64 * 6 + (y 0).val
    omega)).symm

omit [FloatOps F] in
theorem sv_3_7 (fsh : Buf (Elt F) ((sh0P L).view.loc (thr d L))) (prev : Buf (Elt F) ((sbW).view.loc (thr d L)))
    (i : S512.Idx) (hi : i ∈ runS 7) :
    Cp3 d L (m (c0Loc d)) (m (c1Loc d)) (m (c2Loc d)) (m (c3Loc d)) (m (c4Loc d)) (m (c5Loc d)) (m (c6Loc d)) (m (c7Loc d)) fsh prev 7 i = SMsem m d L 3 i := by
  rw [← set_sb7P] at hi
  obtain ⟨y, -, rfl⟩ := Finset.mem_map.mp hi
  have hy : (y 0).val < 64 := (y 0).isLt
  refine (word_sb (F := F) d L ![448] inb_S512_S64_448 (k0_off90 L) (k0_off9 L) (k0_off90_inb L) (k0_off9_inb L)
    (L 1).val 3776 3584 3 (k0_off90_eq L) (k0_off9_eq L) rfl (by decide) prev fsh
    ((c7S L).view.read (Elt F) (m (c7Loc d))) y).trans ?_
  refine (col7_word m d L (64 * 3 + (y 0).val) (by omega)).trans ?_
  exact (SMsem_at m d L 3 (by decide) 7 (by decide) _ (y 0).val hy (by
    show 448 + 1 * (y 0).val = 64 * 7 + (y 0).val
    omega)).symm

end StageW

end Cert.Proof.KB

end
-- ==== Proof.KB.StageW4.lean ====
/-
  Chunk 4 of the staged index words: each of its eight copies lands, in its run of the index buffer, the chunk's 64
  words of its column (the chain of the windows' offsets, instantiated at the copy's three windows).
-/
import proofs.«204821_g30846455120635_fold_wed_m_1292_33_alg».proof.Proof.KB.StageGen

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_4_0 (fsh : Buf (Elt F) ((sh0P L).view.loc (thr d L))) (prev : Buf (Elt F) ((saW).view.loc (thr d L)))
    (i : S512.Idx) (hi : i ∈ runS 0) :
    Cp4 d L (m (c0Loc d)) (m (c1Loc d)) (m (c2Loc d)) (m (c3Loc d)) (m (c4Loc d)) (m (c5Loc d)) (m (c6Loc d)) (m (c7Loc d)) fsh prev 0 i = SMsem m d L 4 i := by
  rw [← set_sa0P] at hi
  obtain ⟨y, -, rfl⟩ := Finset.mem_map.mp hi
  have hy : (y 0).val < 64 := (y 0).isLt
  refine (word_sa (F := F) d L ![0] inb_S512_S64_0 (k0_off115 L) (k0_off1 L) (k0_off115_inb L) (k0_off1_inb L)
    (L 1).val 256 0 4 (k0_off115_eq L) (k0_off1_eq L) rfl (by decide) prev fsh
    ((c0S L).view.read (Elt F) (m (c0Loc d))) y).trans ?_
  refine (col0_word m d L (64 * 4 + (y 0).val) (by omega)).trans ?_
  exact (SMsem_at m d L 4 (by decide) 0 (by decide) _ (y 0).val hy (by
    show 0 + 1 * (y 0).val = 64 * 0 + (y 0).val
    omega)).symm

omit [FloatOps F] in
theorem sv_4_1 (fsh : Buf (Elt F) ((sh0P L).view.loc (thr d L))) (prev : Buf (Elt F) ((saW).view.loc (thr d L)))
    (i : S512.Idx) (hi : i ∈ runS 1) :
    Cp4 d L (m (c0Loc d)) (m (c1Loc d)) (m (c2Loc d)) (m (c3Loc d)) (m (c4Loc d)) (m (c5Loc d)) (m (c6Loc d)) (m (c7Loc d)) fsh prev 1 i = SMsem m d L 4 i := by
  rw [← set_sa1P] at hi
  obtain ⟨y, -, rfl⟩ := Finset.mem_map.mp hi
  have hy : (y 0).val < 64 := (y 0).isLt
  refine (word_sa (F := F) d L ![64] inb_S512_S64_64 (k0_off116 L) (k0_off3 L) (k0_off116_inb L) (k0_off3_inb L)
    (L 1).val 768 512 4 (k0_off116_eq L) (k0_off3_eq L) rfl (by decide) prev fsh
    ((c1S L).view.read (Elt F) (m (c1Loc d))) y).trans ?_
  refine (col1_word m d L (64 * 4 + (y 0).val) (by omega)).trans ?_
  exact (SMsem_at m d L 4 (by decide) 1 (by decide) _ (y 0).val hy (by
    show 64 + 1 * (y 0).val = 64 * 1 + (y 0).val
    omega)).symm

omit [FloatOps F] in
theorem sv_4_2 (fsh : Buf (Elt F) ((sh0P L).view.loc (thr d L))) (prev : Buf (Elt F) ((saW).view.loc (thr d L)))
    (i : S512.Idx) (hi : i ∈ runS 2) :
    Cp4 d L (m (c0Loc d)) (m (c1Loc d)) (m (c2Loc d)) (m (c3Loc d)) (m (c4Loc d)) (m (c5Loc d)) (m (c6Loc d)) (m (c7Loc d)) fsh prev 2 i = SMsem m d L 4 i := by
  rw [← set_sa2P] at hi
  obtain ⟨y, -, rfl⟩ := Finset.mem_map.mp hi
  have hy : (y 0).val < 64 := (y 0).isLt
  refine (word_sa (F := F) d L ![128] inb_S512_S64_128 (k0_off117 L) (k0_off4 L) (k0_off117_inb L) (k0_off4_inb L)
    (L 1).val 1280 1024 4 (k0_off117_eq L) (k0_off4_eq L) rfl (by decide) prev fsh
    ((c2S L).view.read (Elt F) (m (c2Loc d))) y).trans ?_
  refine (col2_word m d L (64 * 4 + (y 0).val) (by omega)).trans ?_
  exact (SMsem_at m d L 4 (by decide) 2 (by decide) _ (y 0).val hy (by
    show 128 + 1 * (y 0).val = 64 * 2 + (y 0).val
    omega)).symm

omit [FloatOps F] in
theorem sv_4_3 (fsh : Buf (Elt F) ((sh0P L).view.loc (thr d L))) (prev : Buf (Elt F) ((saW).view.loc (thr d L)))
    (i : S512.Idx) (hi : i ∈ runS 3) :
    Cp4 d L (m (c0Loc d)) (m (c1Loc d)) (m (c2Loc d)) (m (c3Loc d)) (m (c4Loc d)) (m (c5Loc d)) (m (c6Loc d)) (m (c7Loc d)) fsh prev 3 i = SMsem m d L 4 i := by
  rw [← set_sa3P] at hi
  obtain ⟨y, -, rfl⟩ := Finset.mem_map.mp hi
  have hy : (y 0).val < 64 := (y 0).isLt
  refine (word_sa (F := F) d L ![192] inb_S512_S64_192 (k0_off118 L) (k0_off5 L) (k0_off118_inb L) (k0_off5_inb L)
    (L 1).val 1792 1536 4 (k0_off118_eq L) (k0_off5_eq L) rfl (by decide) prev fsh
    ((c3S L).view.read (Elt F) (m (c3Loc d))) y).trans ?_
  refine (col3_word m d L (64 * 4 + (y 0).val) (by omega)).trans ?_
  exact (SMsem_at m d L 4 (by decide) 3 (by decide) _ (y 0).val hy (by
    show 192 + 1 * (y 0).val = 64 * 3 + (y 0).val
    omega)).symm

omit [FloatOps F] in
theorem sv_4_4 (fsh : Buf (Elt F) ((sh0P L).view.loc (thr d L))) (prev : Buf (Elt F) ((saW).view.loc (thr d L)))
    (i : S512.Idx) (hi : i ∈ runS 4) :
    Cp4 d L (m (c0Loc d)) (m (c1Loc d)) (m (c2Loc d)) (m (c3Loc d)) (m (c4Loc d)) (m (c5Loc d)) (m (c6Loc d)) (m (c7Loc d)) fsh prev 4 i = SMsem m d L 4 i := by
  rw [← set_sa4P] at hi
  obtain ⟨y, -, rfl⟩ := Finset.mem_map.mp hi
  have hy : (y 0).val < 64 := (y 0).isLt
  refine (word_sa (F := F) d L ![256] inb_S512_S64_256 (k0_off119 L) (k0_off6 L) (k0_off119_inb L) (k0_off6_inb L)
    (L 1).val 2304 2048 4 (k0_off119_eq L) (k0_off6_eq L) rfl (by decide) prev fsh
    ((c4S L).view.read (Elt F) (m (c4Loc d))) y).trans ?_
  refine (col4_word m d L (64 * 4 + (y 0).val) (by omega)).trans ?_
  exact (SMsem_at m d L 4 (by decide) 4 (by decide) _ (y 0).val hy (by
    show 256 + 1 * (y 0).val = 64 * 4 + (y 0).val
    omega)).symm

omit [FloatOps F] in
theorem sv_4_5 (fsh : Buf (Elt F) ((sh0P L).view.loc (thr d L))) (prev : Buf (Elt F) ((saW).view.loc (thr d L)))
    (i : S512.Idx) (hi : i ∈ runS 5) :
    Cp4 d L (m (c0Loc d)) (m (c1Loc d)) (m (c2Loc d)) (m (c3Loc d)) (m (c4Loc d)) (m (c5Loc d)) (m (c6Loc d)) (m (c7Loc d)) fsh prev 5 i = SMsem m d L 4 i := by
  rw [← set_sa5P] at hi
  obtain ⟨y, -, rfl⟩ := Finset.mem_map.mp hi
  have hy : (y 0).val < 64 := (y 0).isLt
  refine (word_sa (F := F) d L ![320] inb_S512_S64_320 (k0_off120 L) (k0_off7 L) (k0_off120_inb L) (k0_off7_inb L)
    (L 1).val 2816 2560 4 (k0_off120_eq L) (k0_off7_eq L) rfl (by decide) prev fsh
    ((c5S L).view.read (Elt F) (m (c5Loc d))) y).trans ?_
  refine (col5_word m d L (64 * 4 + (y 0).val) (by omega)).trans ?_
  exact (SMsem_at m d L 4 (by decide) 5 (by decide) _ (y 0).val hy (by
    show 320 + 1 * (y 0).val = 64 * 5 + (y 0).val
    omega)).symm

omit [FloatOps F] in
theorem sv_4_6 (fsh : Buf (Elt F) ((sh0P L).view.loc (thr d L))) (prev : Buf (Elt F) ((saW).view.loc (thr d L)))
    (i : S512.Idx) (hi : i ∈ runS 6) :
    Cp4 d L (m (c0Loc d)) (m (c1Loc d)) (m (c2Loc d)) (m (c3Loc d)) (m (c4Loc d)) (m (c5Loc d)) (m (c6Loc d)) (m (c7Loc d)) fsh prev 6 i = SMsem m d L 4 i := by
  rw [← set_sa6P] at hi
  obtain ⟨y, -, rfl⟩ := Finset.mem_map.mp hi
  have hy : (y 0).val < 64 := (y 0).isLt
  refine (word_sa (F := F) d L ![384] inb_S512_S64_384 (k0_off121 L) (k0_off8 L) (k0_off121_inb L) (k0_off8_inb L)
    (L 1).val 3328 3072 4 (k0_off121_eq L) (k0_off8_eq L) rfl (by decide) prev fsh
    ((c6S L).view.read (Elt F) (m (c6Loc d))) y).trans ?_
  refine (col6_word m d L (64 * 4 + (y 0).val) (by omega)).trans ?_
  exact (SMsem_at m d L 4 (by decide) 6 (by decide) _ (y 0).val hy (by
    show 384 + 1 * (y 0).val = 64 * 6 + (y 0).val
    omega)).symm

omit [FloatOps F] in
theorem sv_4_7 (fsh : Buf (Elt F) ((sh0P L).view.loc (thr d L))) (prev : Buf (Elt F) ((saW).view.loc (thr d L)))
    (i : S512.Idx) (hi : i ∈ runS 7) :
    Cp4 d L (m (c0Loc d)) (m (c1Loc d)) (m (c2Loc d)) (m (c3Loc d)) (m (c4Loc d)) (m (c5Loc d)) (m (c6Loc d)) (m (c7Loc d)) fsh prev 7 i = SMsem m d L 4 i := by
  rw [← set_sa7P] at hi
  obtain ⟨y, -, rfl⟩ := Finset.mem_map.mp hi
  have hy : (y 0).val < 64 := (y 0).isLt
  refine (word_sa (F := F) d L ![448] inb_S512_S64_448 (k0_off122 L) (k0_off9 L) (k0_off122_inb L) (k0_off9_inb L)
    (L 1).val 3840 3584 4 (k0_off122_eq L) (k0_off9_eq L) rfl (by decide) prev fsh
    ((c7S L).view.read (Elt F) (m (c7Loc d))) y).trans ?_
  refine (col7_word m d L (64 * 4 + (y 0).val) (by omega)).trans ?_
  exact (SMsem_at m d L 4 (by decide) 7 (by decide) _ (y 0).val hy (by
    show 448 + 1 * (y 0).val = 64 * 7 + (y 0).val
    omega)).symm

end StageW

end Cert.Proof.KB

end
-- ==== Proof.KB.StageW5.lean ====
/-
  Chunk 5 of the staged index words: each of its eight copies lands, in its run of the index buffer, the chunk's 64
  words of its column (the chain of the windows' offsets, instantiated at the copy's three windows).
-/
import proofs.«204821_g30846455120635_fold_wed_m_1292_33_alg».proof.Proof.KB.StageGen

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_5_0 (fsh : Buf (Elt F) ((sh0P L).view.loc (thr d L))) (prev : Buf (Elt F) ((sbW).view.loc (thr d L)))
    (i : S512.Idx) (hi : i ∈ runS 0) :
    Cp5 d L (m (c0Loc d)) (m (c1Loc d)) (m (c2Loc d)) (m (c3Loc d)) (m (c4Loc d)) (m (c5Loc d)) (m (c6Loc d)) (m (c7Loc d)) fsh prev 0 i = SMsem m d L 5 i := by
  rw [← set_sb0P] at hi
  obtain ⟨y, -, rfl⟩ := Finset.mem_map.mp hi
  have hy : (y 0).val < 64 := (y 0).isLt
  refine (word_sb (F := F) d L ![0] inb_S512_S64_0 (k0_off147 L) (k0_off1 L) (k0_off147_inb L) (k0_off1_inb L)
    (L 1).val 320 0 5 (k0_off147_eq L) (k0_off1_eq L) rfl (by decide) prev fsh
    ((c0S L).view.read (Elt F) (m (c0Loc d))) y).trans ?_
  refine (col0_word m d L (64 * 5 + (y 0).val) (by omega)).trans ?_
  exact (SMsem_at m d L 5 (by decide) 0 (by decide) _ (y 0).val hy (by
    show 0 + 1 * (y 0).val = 64 * 0 + (y 0).val
    omega)).symm

omit [FloatOps F] in
theorem sv_5_1 (fsh : Buf (Elt F) ((sh0P L).view.loc (thr d L))) (prev : Buf (Elt F) ((sbW).view.loc (thr d L)))
    (i : S512.Idx) (hi : i ∈ runS 1) :
    Cp5 d L (m (c0Loc d)) (m (c1Loc d)) (m (c2Loc d)) (m (c3Loc d)) (m (c4Loc d)) (m (c5Loc d)) (m (c6Loc d)) (m (c7Loc d)) fsh prev 1 i = SMsem m d L 5 i := by
  rw [← set_sb1P] at hi
  obtain ⟨y, -, rfl⟩ := Finset.mem_map.mp hi
  have hy : (y 0).val < 64 := (y 0).isLt
  refine (word_sb (F := F) d L ![64] inb_S512_S64_64 (k0_off148 L) (k0_off3 L) (k0_off148_inb L) (k0_off3_inb L)
    (L 1).val 832 512 5 (k0_off148_eq L) (k0_off3_eq L) rfl (by decide) prev fsh
    ((c1S L).view.read (Elt F) (m (c1Loc d))) y).trans ?_
  refine (col1_word m d L (64 * 5 + (y 0).val) (by omega)).trans ?_
  exact (SMsem_at m d L 5 (by decide) 1 (by decide) _ (y 0).val hy (by
    show 64 + 1 * (y 0).val = 64 * 1 + (y 0).val
    omega)).symm

omit [FloatOps F] in
theorem sv_5_2 (fsh : Buf (Elt F) ((sh0P L).view.loc (thr d L))) (prev : Buf (Elt F) ((sbW).view.loc (thr d L)))
    (i : S512.Idx) (hi : i ∈ runS 2) :
    Cp5 d L (m (c0Loc d)) (m (c1Loc d)) (m (c2Loc d)) (m (c3Loc d)) (m (c4Loc d)) (m (c5Loc d)) (m (c6Loc d)) (m (c7Loc d)) fsh prev 2 i = SMsem m d L 5 i := by
  rw [← set_sb2P] at hi
  obtain ⟨y, -, rfl⟩ := Finset.mem_map.mp hi
  have hy : (y 0).val < 64 := (y 0).isLt
  refine (word_sb (F := F) d L ![128] inb_S512_S64_128 (k0_off149 L) (k0_off4 L) (k0_off149_inb L) (k0_off4_inb L)
    (L 1).val 1344 1024 5 (k0_off149_eq L) (k0_off4_eq L) rfl (by decide) prev fsh
    ((c2S L).view.read (Elt F) (m (c2Loc d))) y).trans ?_
  refine (col2_word m d L (64 * 5 + (y 0).val) (by omega)).trans ?_
  exact (SMsem_at m d L 5 (by decide) 2 (by decide) _ (y 0).val hy (by
    show 128 + 1 * (y 0).val = 64 * 2 + (y 0).val
    omega)).symm

omit [FloatOps F] in
theorem sv_5_3 (fsh : Buf (Elt F) ((sh0P L).view.loc (thr d L))) (prev : Buf (Elt F) ((sbW).view.loc (thr d L)))
    (i : S512.Idx) (hi : i ∈ runS 3) :
    Cp5 d L (m (c0Loc d)) (m (c1Loc d)) (m (c2Loc d)) (m (c3Loc d)) (m (c4Loc d)) (m (c5Loc d)) (m (c6Loc d)) (m (c7Loc d)) fsh prev 3 i = SMsem m d L 5 i := by
  rw [← set_sb3P] at hi
  obtain ⟨y, -, rfl⟩ := Finset.mem_map.mp hi
  have hy : (y 0).val < 64 := (y 0).isLt
  refine (word_sb (F := F) d L ![192] inb_S512_S64_192 (k0_off150 L) (k0_off5 L) (k0_off150_inb L) (k0_off5_inb L)
    (L 1).val 1856 1536 5 (k0_off150_eq L) (k0_off5_eq L) rfl (by decide) prev fsh
    ((c3S L).view.read (Elt F) (m (c3Loc d))) y).trans ?_
  refine (col3_word m d L (64 * 5 + (y 0).val) (by omega)).trans ?_
  exact (SMsem_at m d L 5 (by decide) 3 (by decide) _ (y 0).val hy (by
    show 192 + 1 * (y 0).val = 64 * 3 + (y 0).val
    omega)).symm

omit [FloatOps F] in
theorem sv_5_4 (fsh : Buf (Elt F) ((sh0P L).view.loc (thr d L))) (prev : Buf (Elt F) ((sbW).view.loc (thr d L)))
    (i : S512.Idx) (hi : i ∈ runS 4) :
    Cp5 d L (m (c0Loc d)) (m (c1Loc d)) (m (c2Loc d)) (m (c3Loc d)) (m (c4Loc d)) (m (c5Loc d)) (m (c6Loc d)) (m (c7Loc d)) fsh prev 4 i = SMsem m d L 5 i := by
  rw [← set_sb4P] at hi
  obtain ⟨y, -, rfl⟩ := Finset.mem_map.mp hi
  have hy : (y 0).val < 64 := (y 0).isLt
  refine (word_sb (F := F) d L ![256] inb_S512_S64_256 (k0_off151 L) (k0_off6 L) (k0_off151_inb L) (k0_off6_inb L)
    (L 1).val 2368 2048 5 (k0_off151_eq L) (k0_off6_eq L) rfl (by decide) prev fsh
    ((c4S L).view.read (Elt F) (m (c4Loc d))) y).trans ?_
  refine (col4_word m d L (64 * 5 + (y 0).val) (by omega)).trans ?_
  exact (SMsem_at m d L 5 (by decide) 4 (by decide) _ (y 0).val hy (by
    show 256 + 1 * (y 0).val = 64 * 4 + (y 0).val
    omega)).symm

omit [FloatOps F] in
theorem sv_5_5 (fsh : Buf (Elt F) ((sh0P L).view.loc (thr d L))) (prev : Buf (Elt F) ((sbW).view.loc (thr d L)))
    (i : S512.Idx) (hi : i ∈ runS 5) :
    Cp5 d L (m (c0Loc d)) (m (c1Loc d)) (m (c2Loc d)) (m (c3Loc d)) (m (c4Loc d)) (m (c5Loc d)) (m (c6Loc d)) (m (c7Loc d)) fsh prev 5 i = SMsem m d L 5 i := by
  rw [← set_sb5P] at hi
  obtain ⟨y, -, rfl⟩ := Finset.mem_map.mp hi
  have hy : (y 0).val < 64 := (y 0).isLt
  refine (word_sb (F := F) d L ![320] inb_S512_S64_320 (k0_off152 L) (k0_off7 L) (k0_off152_inb L) (k0_off7_inb L)
    (L 1).val 2880 2560 5 (k0_off152_eq L) (k0_off7_eq L) rfl (by decide) prev fsh
    ((c5S L).view.read (Elt F) (m (c5Loc d))) y).trans ?_
  refine (col5_word m d L (64 * 5 + (y 0).val) (by omega)).trans ?_
  exact (SMsem_at m d L 5 (by decide) 5 (by decide) _ (y 0).val hy (by
    show 320 + 1 * (y 0).val = 64 * 5 + (y 0).val
    omega)).symm

omit [FloatOps F] in
theorem sv_5_6 (fsh : Buf (Elt F) ((sh0P L).view.loc (thr d L))) (prev : Buf (Elt F) ((sbW).view.loc (thr d L)))
    (i : S512.Idx) (hi : i ∈ runS 6) :
    Cp5 d L (m (c0Loc d)) (m (c1Loc d)) (m (c2Loc d)) (m (c3Loc d)) (m (c4Loc d)) (m (c5Loc d)) (m (c6Loc d)) (m (c7Loc d)) fsh prev 6 i = SMsem m d L 5 i := by
  rw [← set_sb6P] at hi
  obtain ⟨y, -, rfl⟩ := Finset.mem_map.mp hi
  have hy : (y 0).val < 64 := (y 0).isLt
  refine (word_sb (F := F) d L ![384] inb_S512_S64_384 (k0_off153 L) (k0_off8 L) (k0_off153_inb L) (k0_off8_inb L)
    (L 1).val 3392 3072 5 (k0_off153_eq L) (k0_off8_eq L) rfl (by decide) prev fsh
    ((c6S L).view.read (Elt F) (m (c6Loc d))) y).trans ?_
  refine (col6_word m d L (64 * 5 + (y 0).val) (by omega)).trans ?_
  exact (SMsem_at m d L 5 (by decide) 6 (by decide) _ (y 0).val hy (by
    show 384 + 1 * (y 0).val = 64 * 6 + (y 0).val
    omega)).symm

omit [FloatOps F] in
theorem sv_5_7 (fsh : Buf (Elt F) ((sh0P L).view.loc (thr d L))) (prev : Buf (Elt F) ((sbW).view.loc (thr d L)))
    (i : S512.Idx) (hi : i ∈ runS 7) :
    Cp5 d L (m (c0Loc d)) (m (c1Loc d)) (m (c2Loc d)) (m (c3Loc d)) (m (c4Loc d)) (m (c5Loc d)) (m (c6Loc d)) (m (c7Loc d)) fsh prev 7 i = SMsem m d L 5 i := by
  rw [← set_sb7P] at hi
  obtain ⟨y, -, rfl⟩ := Finset.mem_map.mp hi
  have hy : (y 0).val < 64 := (y 0).isLt
  refine (word_sb (F := F) d L ![448] inb_S512_S64_448 (k0_off154 L) (k0_off9 L) (k0_off154_inb L) (k0_off9_inb L)
    (L 1).val 3904 3584 5 (k0_off154_eq L) (k0_off9_eq L) rfl (by decide) prev fsh
    ((c7S L).view.read (Elt F) (m (c7Loc d))) y).trans ?_
  refine (col7_word m d L (64 * 5 + (y 0).val) (by omega)).trans ?_
  exact (SMsem_at m d L 5 (by decide) 7 (by decide) _ (y 0).val hy (by
    show 448 + 1 * (y 0).val = 64 * 7 + (y 0).val
    omega)).symm

end StageW

end Cert.Proof.KB

end
-- ==== Proof.KB.StageW6.lean ====
/-
  Chunk 6 of the staged index words: each of its eight copies lands, in its run of the index buffer, the chunk's 64
  words of its column (the chain of the windows' offsets, instantiated at the copy's three windows).
-/
import proofs.«204821_g30846455120635_fold_wed_m_1292_33_alg».proof.Proof.KB.StageGen

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_6_0 (fsh : Buf (Elt F) ((sh0P L).view.loc (thr d L))) (prev : Buf (Elt F) ((saW).view.loc (thr d L)))
    (i : S512.Idx) (hi : i ∈ runS 0) :
    Cp6 d L (m (c0Loc d)) (m (c1Loc d)) (m (c2Loc d)) (m (c3Loc d)) (m (c4Loc d)) (m (c5Loc d)) (m (c6Loc d)) (m (c7Loc d)) fsh prev 0 i = SMsem m d L 6 i := by
  rw [← set_sa0P] at hi
  obtain ⟨y, -, rfl⟩ := Finset.mem_map.mp hi
  have hy : (y 0).val < 64 := (y 0).isLt
  refine (word_sa (F := F) d L ![0] inb_S512_S64_0 (k0_off179 L) (k0_off1 L) (k0_off179_inb L) (k0_off1_inb L)
    (L 1).val 384 0 6 (k0_off179_eq L) (k0_off1_eq L) rfl (by decide) prev fsh
    ((c0S L).view.read (Elt F) (m (c0Loc d))) y).trans ?_
  refine (col0_word m d L (64 * 6 + (y 0).val) (by omega)).trans ?_
  exact (SMsem_at m d L 6 (by decide) 0 (by decide) _ (y 0).val hy (by
    show 0 + 1 * (y 0).val = 64 * 0 + (y 0).val
    omega)).symm

omit [FloatOps F] in
theorem sv_6_1 (fsh : Buf (Elt F) ((sh0P L).view.loc (thr d L))) (prev : Buf (Elt F) ((saW).view.loc (thr d L)))
    (i : S512.Idx) (hi : i ∈ runS 1) :
    Cp6 d L (m (c0Loc d)) (m (c1Loc d)) (m (c2Loc d)) (m (c3Loc d)) (m (c4Loc d)) (m (c5Loc d)) (m (c6Loc d)) (m (c7Loc d)) fsh prev 1 i = SMsem m d L 6 i := by
  rw [← set_sa1P] at hi
  obtain ⟨y, -, rfl⟩ := Finset.mem_map.mp hi
  have hy : (y 0).val < 64 := (y 0).isLt
  refine (word_sa (F := F) d L ![64] inb_S512_S64_64 (k0_off180 L) (k0_off3 L) (k0_off180_inb L) (k0_off3_inb L)
    (L 1).val 896 512 6 (k0_off180_eq L) (k0_off3_eq L) rfl (by decide) prev fsh
    ((c1S L).view.read (Elt F) (m (c1Loc d))) y).trans ?_
  refine (col1_word m d L (64 * 6 + (y 0).val) (by omega)).trans ?_
  exact (SMsem_at m d L 6 (by decide) 1 (by decide) _ (y 0).val hy (by
    show 64 + 1 * (y 0).val = 64 * 1 + (y 0).val
    omega)).symm

omit [FloatOps F] in
theorem sv_6_2 (fsh : Buf (Elt F) ((sh0P L).view.loc (thr d L))) (prev : Buf (Elt F) ((saW).view.loc (thr d L)))
    (i : S512.Idx) (hi : i ∈ runS 2) :
    Cp6 d L (m (c0Loc d)) (m (c1Loc d)) (m (c2Loc d)) (m (c3Loc d)) (m (c4Loc d)) (m (c5Loc d)) (m (c6Loc d)) (m (c7Loc d)) fsh prev 2 i = SMsem m d L 6 i := by
  rw [← set_sa2P] at hi
  obtain ⟨y, -, rfl⟩ := Finset.mem_map.mp hi
  have hy : (y 0).val < 64 := (y 0).isLt
  refine (word_sa (F := F) d L ![128] inb_S512_S64_128 (k0_off181 L) (k0_off4 L) (k0_off181_inb L) (k0_off4_inb L)
    (L 1).val 1408 1024 6 (k0_off181_eq L) (k0_off4_eq L) rfl (by decide) prev fsh
    ((c2S L).view.read (Elt F) (m (c2Loc d))) y).trans ?_
  refine (col2_word m d L (64 * 6 + (y 0).val) (by omega)).trans ?_
  exact (SMsem_at m d L 6 (by decide) 2 (by decide) _ (y 0).val hy (by
    show 128 + 1 * (y 0).val = 64 * 2 + (y 0).val
    omega)).symm

omit [FloatOps F] in
theorem sv_6_3 (fsh : Buf (Elt F) ((sh0P L).view.loc (thr d L))) (prev : Buf (Elt F) ((saW).view.loc (thr d L)))
    (i : S512.Idx) (hi : i ∈ runS 3) :
    Cp6 d L (m (c0Loc d)) (m (c1Loc d)) (m (c2Loc d)) (m (c3Loc d)) (m (c4Loc d)) (m (c5Loc d)) (m (c6Loc d)) (m (c7Loc d)) fsh prev 3 i = SMsem m d L 6 i := by
  rw [← set_sa3P] at hi
  obtain ⟨y, -, rfl⟩ := Finset.mem_map.mp hi
  have hy : (y 0).val < 64 := (y 0).isLt
  refine (word_sa (F := F) d L ![192] inb_S512_S64_192 (k0_off182 L) (k0_off5 L) (k0_off182_inb L) (k0_off5_inb L)
    (L 1).val 1920 1536 6 (k0_off182_eq L) (k0_off5_eq L) rfl (by decide) prev fsh
    ((c3S L).view.read (Elt F) (m (c3Loc d))) y).trans ?_
  refine (col3_word m d L (64 * 6 + (y 0).val) (by omega)).trans ?_
  exact (SMsem_at m d L 6 (by decide) 3 (by decide) _ (y 0).val hy (by
    show 192 + 1 * (y 0).val = 64 * 3 + (y 0).val
    omega)).symm

omit [FloatOps F] in
theorem sv_6_4 (fsh : Buf (Elt F) ((sh0P L).view.loc (thr d L))) (prev : Buf (Elt F) ((saW).view.loc (thr d L)))
    (i : S512.Idx) (hi : i ∈ runS 4) :
    Cp6 d L (m (c0Loc d)) (m (c1Loc d)) (m (c2Loc d)) (m (c3Loc d)) (m (c4Loc d)) (m (c5Loc d)) (m (c6Loc d)) (m (c7Loc d)) fsh prev 4 i = SMsem m d L 6 i := by
  rw [← set_sa4P] at hi
  obtain ⟨y, -, rfl⟩ := Finset.mem_map.mp hi
  have hy : (y 0).val < 64 := (y 0).isLt
  refine (word_sa (F := F) d L ![256] inb_S512_S64_256 (k0_off183 L) (k0_off6 L) (k0_off183_inb L) (k0_off6_inb L)
    (L 1).val 2432 2048 6 (k0_off183_eq L) (k0_off6_eq L) rfl (by decide) prev fsh
    ((c4S L).view.read (Elt F) (m (c4Loc d))) y).trans ?_
  refine (col4_word m d L (64 * 6 + (y 0).val) (by omega)).trans ?_
  exact (SMsem_at m d L 6 (by decide) 4 (by decide) _ (y 0).val hy (by
    show 256 + 1 * (y 0).val = 64 * 4 + (y 0).val
    omega)).symm

omit [FloatOps F] in
theorem sv_6_5 (fsh : Buf (Elt F) ((sh0P L).view.loc (thr d L))) (prev : Buf (Elt F) ((saW).view.loc (thr d L)))
    (i : S512.Idx) (hi : i ∈ runS 5) :
    Cp6 d L (m (c0Loc d)) (m (c1Loc d)) (m (c2Loc d)) (m (c3Loc d)) (m (c4Loc d)) (m (c5Loc d)) (m (c6Loc d)) (m (c7Loc d)) fsh prev 5 i = SMsem m d L 6 i := by
  rw [← set_sa5P] at hi
  obtain ⟨y, -, rfl⟩ := Finset.mem_map.mp hi
  have hy : (y 0).val < 64 := (y 0).isLt
  refine (word_sa (F := F) d L ![320] inb_S512_S64_320 (k0_off184 L) (k0_off7 L) (k0_off184_inb L) (k0_off7_inb L)
    (L 1).val 2944 2560 6 (k0_off184_eq L) (k0_off7_eq L) rfl (by decide) prev fsh
    ((c5S L).view.read (Elt F) (m (c5Loc d))) y).trans ?_
  refine (col5_word m d L (64 * 6 + (y 0).val) (by omega)).trans ?_
  exact (SMsem_at m d L 6 (by decide) 5 (by decide) _ (y 0).val hy (by
    show 320 + 1 * (y 0).val = 64 * 5 + (y 0).val
    omega)).symm

omit [FloatOps F] in
theorem sv_6_6 (fsh : Buf (Elt F) ((sh0P L).view.loc (thr d L))) (prev : Buf (Elt F) ((saW).view.loc (thr d L)))
    (i : S512.Idx) (hi : i ∈ runS 6) :
    Cp6 d L (m (c0Loc d)) (m (c1Loc d)) (m (c2Loc d)) (m (c3Loc d)) (m (c4Loc d)) (m (c5Loc d)) (m (c6Loc d)) (m (c7Loc d)) fsh prev 6 i = SMsem m d L 6 i := by
  rw [← set_sa6P] at hi
  obtain ⟨y, -, rfl⟩ := Finset.mem_map.mp hi
  have hy : (y 0).val < 64 := (y 0).isLt
  refine (word_sa (F := F) d L ![384] inb_S512_S64_384 (k0_off185 L) (k0_off8 L) (k0_off185_inb L) (k0_off8_inb L)
    (L 1).val 3456 3072 6 (k0_off185_eq L) (k0_off8_eq L) rfl (by decide) prev fsh
    ((c6S L).view.read (Elt F) (m (c6Loc d))) y).trans ?_
  refine (col6_word m d L (64 * 6 + (y 0).val) (by omega)).trans ?_
  exact (SMsem_at m d L 6 (by decide) 6 (by decide) _ (y 0).val hy (by
    show 384 + 1 * (y 0).val = 64 * 6 + (y 0).val
    omega)).symm

omit [FloatOps F] in
theorem sv_6_7 (fsh : Buf (Elt F) ((sh0P L).view.loc (thr d L))) (prev : Buf (Elt F) ((saW).view.loc (thr d L)))
    (i : S512.Idx) (hi : i ∈ runS 7) :
    Cp6 d L (m (c0Loc d)) (m (c1Loc d)) (m (c2Loc d)) (m (c3Loc d)) (m (c4Loc d)) (m (c5Loc d)) (m (c6Loc d)) (m (c7Loc d)) fsh prev 7 i = SMsem m d L 6 i := by
  rw [← set_sa7P] at hi
  obtain ⟨y, -, rfl⟩ := Finset.mem_map.mp hi
  have hy : (y 0).val < 64 := (y 0).isLt
  refine (word_sa (F := F) d L ![448] inb_S512_S64_448 (k0_off186 L) (k0_off9 L) (k0_off186_inb L) (k0_off9_inb L)
    (L 1).val 3968 3584 6 (k0_off186_eq L) (k0_off9_eq L) rfl (by decide) prev fsh
    ((c7S L).view.read (Elt F) (m (c7Loc d))) y).trans ?_
  refine (col7_word m d L (64 * 6 + (y 0).val) (by omega)).trans ?_
  exact (SMsem_at m d L 6 (by decide) 7 (by decide) _ (y 0).val hy (by
    show 448 + 1 * (y 0).val = 64 * 7 + (y 0).val
    omega)).symm

end StageW

end Cert.Proof.KB

end
-- ==== Proof.KB.StageW7.lean ====
/-
  Chunk 7 of the staged index words: each of its eight copies lands, in its run of the index buffer, the chunk's 64
  words of its column (the chain of the windows' offsets, instantiated at the copy's three windows).
-/
import proofs.«204821_g30846455120635_fold_wed_m_1292_33_alg».proof.Proof.KB.StageGen

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

open Idealize.ShloMosaic.ValueIdx

section StageW
variable (d : Dev nD) (L : grid0.Coords)

omit [FloatOps F] in
theorem sv_7_0 (fsh : Buf (Elt F) ((sh0P L).view.loc (thr d L))) (prev : Buf (Elt F) ((sbW).view.loc (thr d L)))
    (i : S512.Idx) (hi : i ∈ runS 0) :
    Cp7 d L (m (c0Loc d)) (m (c1Loc d)) (m (c2Loc d)) (m (c3Loc d)) (m (c4Loc d)) (m (c5Loc d)) (m (c6Loc d)) (m (c7Loc d)) fsh prev 0 i = SMsem m d L 7 i := by
  rw [← set_sb0P] at hi
  obtain ⟨y, -, rfl⟩ := Finset.mem_map.mp hi
  have hy : (y 0).val < 64 := (y 0).isLt
  refine (word_sb (F := F) d L ![0] inb_S512_S64_0 (k0_off211 L) (k0_off1 L) (k0_off211_inb L) (k0_off1_inb L)
    (L 1).val 448 0 7 (k0_off211_eq L) (k0_off1_eq L) rfl (by decide) prev fsh
    ((c0S L).view.read (Elt F) (m (c0Loc d))) y).trans ?_
  refine (col0_word m d L (64 * 7 + (y 0).val) (by omega)).trans ?_
  exact (SMsem_at m d L 7 (by decide) 0 (by decide) _ (y 0).val hy (by
    show 0 + 1 * (y 0).val = 64 * 0 + (y 0).val
    omega)).symm

omit [FloatOps F] in
theorem sv_7_1 (fsh : Buf (Elt F) ((sh0P L).view.loc (thr d L))) (prev : Buf (Elt F) ((sbW).view.loc (thr d L)))
    (i : S512.Idx) (hi : i ∈ runS 1) :
    Cp7 d L (m (c0Loc d)) (m (c1Loc d)) (m (c2Loc d)) (m (c3Loc d)) (m (c4Loc d)) (m (c5Loc d)) (m (c6Loc d)) (m (c7Loc d)) fsh prev 1 i = SMsem m d L 7 i := by
  rw [← set_sb1P] at hi
  obtain ⟨y, -, rfl⟩ := Finset.mem_map.mp hi
  have hy : (y 0).val < 64 := (y 0).isLt
  refine (word_sb (F := F) d L ![64] inb_S512_S64_64 (k0_off212 L) (k0_off3 L) (k0_off212_inb L) (k0_off3_inb L)
    (L 1).val 960 512 7 (k0_off212_eq L) (k0_off3_eq L) rfl (by decide) prev fsh
    ((c1S L).view.read (Elt F) (m (c1Loc d))) y).trans ?_
  refine (col1_word m d L (64 * 7 + (y 0).val) (by omega)).trans ?_
  exact (SMsem_at m d L 7 (by decide) 1 (by decide) _ (y 0).val hy (by
    show 64 + 1 * (y 0).val = 64 * 1 + (y 0).val
    omega)).symm

omit [FloatOps F] in
theorem sv_7_2 (fsh : Buf (Elt F) ((sh0P L).view.loc (thr d L))) (prev : Buf (Elt F) ((sbW).view.loc (thr d L)))
    (i : S512.Idx) (hi : i ∈ runS 2) :
    Cp7 d L (m (c0Loc d)) (m (c1Loc d)) (m (c2Loc d)) (m (c3Loc d)) (m (c4Loc d)) (m (c5Loc d)) (m (c6Loc d)) (m (c7Loc d)) fsh prev 2 i = SMsem m d L 7 i := by
  rw [← set_sb2P] at hi
  obtain ⟨y, -, rfl⟩ := Finset.mem_map.mp hi
  have hy : (y 0).val < 64 := (y 0).isLt
  refine (word_sb (F := F) d L ![128] inb_S512_S64_128 (k0_off213 L) (k0_off4 L) (k0_off213_inb L) (k0_off4_inb L)
    (L 1).val 1472 1024 7 (k0_off213_eq L) (k0_off4_eq L) rfl (by decide) prev fsh
    ((c2S L).view.read (Elt F) (m (c2Loc d))) y).trans ?_
  refine (col2_word m d L (64 * 7 + (y 0).val) (by omega)).trans ?_
  exact (SMsem_at m d L 7 (by decide) 2 (by decide) _ (y 0).val hy (by
    show 128 + 1 * (y 0).val = 64 * 2 + (y 0).val
    omega)).symm

omit [FloatOps F] in
theorem sv_7_3 (fsh : Buf (Elt F) ((sh0P L).view.loc (thr d L))) (prev : Buf (Elt F) ((sbW).view.loc (thr d L)))
    (i : S512.Idx) (hi : i ∈ runS 3) :
    Cp7 d L (m (c0Loc d)) (m (c1Loc d)) (m (c2Loc d)) (m (c3Loc d)) (m (c4Loc d)) (m (c5Loc d)) (m (c6Loc d)) (m (c7Loc d)) fsh prev 3 i = SMsem m d L 7 i := by
  rw [← set_sb3P] at hi
  obtain ⟨y, -, rfl⟩ := Finset.mem_map.mp hi
  have hy : (y 0).val < 64 := (y 0).isLt
  refine (word_sb (F := F) d L ![192] inb_S512_S64_192 (k0_off214 L) (k0_off5 L) (k0_off214_inb L) (k0_off5_inb L)
    (L 1).val 1984 1536 7 (k0_off214_eq L) (k0_off5_eq L) rfl (by decide) prev fsh
    ((c3S L).view.read (Elt F) (m (c3Loc d))) y).trans ?_
  refine (col3_word m d L (64 * 7 + (y 0).val) (by omega)).trans ?_
  exact (SMsem_at m d L 7 (by decide) 3 (by decide) _ (y 0).val hy (by
    show 192 + 1 * (y 0).val = 64 * 3 + (y 0).val
    omega)).symm

omit [FloatOps F] in
theorem sv_7_4 (fsh : Buf (Elt F) ((sh0P L).view.loc (thr d L))) (prev : Buf (Elt F) ((sbW).view.loc (thr d L)))
    (i : S512.Idx) (hi : i ∈ runS 4) :
    Cp7 d L (m (c0Loc d)) (m (c1Loc d)) (m (c2Loc d)) (m (c3Loc d)) (m (c4Loc d)) (m (c5Loc d)) (m (c6Loc d)) (m (c7Loc d)) fsh prev 4 i = SMsem m d L 7 i := by
  rw [← set_sb4P] at hi
  obtain ⟨y, -, rfl⟩ := Finset.mem_map.mp hi
  have hy : (y 0).val < 64 := (y 0).isLt
  refine (word_sb (F := F) d L ![256] inb_S512_S64_256 (k0_off215 L) (k0_off6 L) (k0_off215_inb L) (k0_off6_inb L)
    (L 1).val 2496 2048 7 (k0_off215_eq L) (k0_off6_eq L) rfl (by decide) prev fsh
    ((c4S L).view.read (Elt F) (m (c4Loc d))) y).trans ?_
  refine (col4_word m d L (64 * 7 + (y 0).val) (by omega)).trans ?_
  exact (SMsem_at m d L 7 (by decide) 4 (by decide) _ (y 0).val hy (by
    show 256 + 1 * (y 0).val = 64 * 4 + (y 0).val
    omega)).symm

omit [FloatOps F] in
theorem sv_7_5 (fsh : Buf (Elt F) ((sh0P L).view.loc (thr d L))) (prev : Buf (Elt F) ((sbW).view.loc (thr d L)))
    (i : S512.Idx) (hi : i ∈ runS 5) :
    Cp7 d L (m (c0Loc d)) (m (c1Loc d)) (m (c2Loc d)) (m (c3Loc d)) (m (c4Loc d)) (m (c5Loc d)) (m (c6Loc d)) (m (c7Loc d)) fsh prev 5 i = SMsem m d L 7 i := by
  rw [← set_sb5P] at hi
  obtain ⟨y, -, rfl⟩ := Finset.mem_map.mp hi
  have hy : (y 0).val < 64 := (y 0).isLt
  refine (word_sb (F := F) d L ![320] inb_S512_S64_320 (k0_off216 L) (k0_off7 L) (k0_off216_inb L) (k0_off7_inb L)
    (L 1).val 3008 2560 7 (k0_off216_eq L) (k0_off7_eq L) rfl (by decide) prev fsh
    ((c5S L).view.read (Elt F) (m (c5Loc d))) y).trans ?_
  refine (col5_word m d L (64 * 7 + (y 0).val) (by omega)).trans ?_
  exact (SMsem_at m d L 7 (by decide) 5 (by decide) _ (y 0).val hy (by
    show 320 + 1 * (y 0).val = 64 * 5 + (y 0).val
    omega)).symm

omit [FloatOps F] in
theorem sv_7_6 (fsh : Buf (Elt F) ((sh0P L).view.loc (thr d L))) (prev : Buf (Elt F) ((sbW).view.loc (thr d L)))
    (i : S512.Idx) (hi : i ∈ runS 6) :
    Cp7 d L (m (c0Loc d)) (m (c1Loc d)) (m (c2Loc d)) (m (c3Loc d)) (m (c4Loc d)) (m (c5Loc d)) (m (c6Loc d)) (m (c7Loc d)) fsh prev 6 i = SMsem m d L 7 i := by
  rw [← set_sb6P] at hi
  obtain ⟨y, -, rfl⟩ := Finset.mem_map.mp hi
  have hy : (y 0).val < 64 := (y 0).isLt
  refine (word_sb (F := F) d L ![384] inb_S512_S64_384 (k0_off217 L) (k0_off8 L) (k0_off217_inb L) (k0_off8_inb L)
    (L 1).val 3520 3072 7 (k0_off217_eq L) (k0_off8_eq L) rfl (by decide) prev fsh
    ((c6S L).view.read (Elt F) (m (c6Loc d))) y).trans ?_
  refine (col6_word m d L (64 * 7 + (y 0).val) (by omega)).trans ?_
  exact (SMsem_at m d L 7 (by decide) 6 (by decide) _ (y 0).val hy (by
    show 384 + 1 * (y 0).val = 64 * 6 + (y 0).val
    omega)).symm

omit [FloatOps F] in
theorem sv_7_7 (fsh : Buf (Elt F) ((sh0P L).view.loc (thr d L))) (prev : Buf (Elt F) ((sbW).view.loc (thr d L)))
    (i : S512.Idx) (hi : i ∈ runS 7) :
    Cp7 d L (m (c0Loc d)) (m (c1Loc d)) (m (c2Loc d)) (m (c3Loc d)) (m (c4Loc d)) (m (c5Loc d)) (m (c6Loc d)) (m (c7Loc d)) fsh prev 7 i = SMsem m d L 7 i := by
  rw [← set_sb7P] at hi
  obtain ⟨y, -, rfl⟩ := Finset.mem_map.mp hi
  have hy : (y 0).val < 64 := (y 0).isLt
  refine (word_sb (F := F) d L ![448] inb_S512_S64_448 (k0_off218 L) (k0_off9 L) (k0_off218_inb L) (k0_off9_inb L)
    (L 1).val 4032 3584 7 (k0_off218_eq L) (k0_off9_eq L) rfl (by decide) prev fsh
    ((c7S L).view.read (Elt F) (m (c7Loc d))) y).trans ?_
  refine (col7_word m d L (64 * 7 + (y 0).val) (by omega)).trans ?_
  exact (SMsem_at m d L 7 (by decide) 7 (by decide) _ (y 0).val hy (by
    show 448 + 1 * (y 0).val = 64 * 7 + (y 0).val
    omega)).symm

end StageW

end Cert.Proof.KB

end
-- ==== Proof.KB.StageVal.lean ====
/-
  The staged index words, chunk by chunk: whichever of the eight copies of a chunk has landed, its run of the index
  buffer holds the chunk's 64 words of its column, read from the launch contents of the index columns.
-/
import proofs.«204821_g30846455120635_fold_wed_m_1292_33_alg».proof.Proof.KB.StageW0
import proofs.«204821_g30846455120635_fold_wed_m_1292_33_alg».proof.Proof.KB.StageW1
import proofs.«204821_g30846455120635_fold_wed_m_1292_33_alg».proof.Proof.KB.StageW2
import proofs.«204821_g30846455120635_fold_wed_m_1292_33_alg».proof.Proof.KB.StageW3
import proofs.«204821_g30846455120635_fold_wed_m_1292_33_alg».proof.Proof.KB.StageW4
import proofs.«204821_g30846455120635_fold_wed_m_1292_33_alg».proof.Proof.KB.StageW5
import proofs.«204821_g30846455120635_fold_wed_m_1292_33_alg».proof.Proof.KB.StageW6
import proofs.«204821_g30846455120635_fold_wed_m_1292_33_alg».proof.Proof.KB.StageW7

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a0W" => (Memref.whole Cert.Kernel.main_arg0_scv : Memref Cert.Kernel.sig Kind.scVector Space.hbm Cert.Kernel.S16384 EltTy.i32)
local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S16384 EltTy.i32)
local notation "a3W" => (Memref.whole Cert.Kernel.main_arg3_scv : Memref Cert.Kernel.sig Kind.scVector Space.hbm Cert.Kernel.S16384 EltTy.i32)
local notation "a4W" => (Memref.whole Cert.Kernel.main_arg4_scv : Memref Cert.Kernel.sig Kind.scVector Space.hbm Cert.Kernel.S16384 EltTy.i32)
local notation "a5W" => (Memref.whole Cert.Kernel.main_arg5_scv : Memref Cert.Kernel.sig Kind.scVector Space.hbm Cert.Kernel.S16384 EltTy.i32)
local notation "a6W" => (Memref.whole Cert.Kernel.main_arg6_scv : Memref Cert.Kernel.sig Kind.scVector Space.hbm Cert.Kernel.S16384 EltTy.i32)
local notation "a7W" => (Memref.whole Cert.Kernel.main_arg7_scv : Memref Cert.Kernel.sig Kind.scVector Space.hbm Cert.Kernel.S16384 EltTy.i32)
local notation "tbW" => (Memref.whole Cert.Kernel.main_v1_scv : Memref Cert.Kernel.sig Kind.scVector Space.hbm Cert.Kernel.S8192 EltTy.f32)
local notation "ouW" => (Memref.whole Cert.Kernel.main_v2_scv : Memref Cert.Kernel.sig Kind.scVector Space.hbm Cert.Kernel.S4194304 EltTy.f32)
local notation "tvW" => (Memref.whole Cert.Kernel.cc0_scratch0 : Memref Cert.Kernel.sig Kind.scVector Space.vmem Cert.Kernel.S8192 EltTy.f32)
local notation "shW" => (Memref.whole Cert.Kernel.cc0_scratch1 : Memref Cert.Kernel.sig Kind.scVector Space.shared Cert.Kernel.S16x4096 EltTy.i32)
local notation "saW" => (Memref.whole Cert.Kernel.cc0_scratch2 : Memref Cert.Kernel.sig Kind.scVector Space.smem Cert.Kernel.S512 EltTy.i32)
local notation "sbW" => (Memref.whole Cert.Kernel.cc0_scratch3 : Memref Cert.Kernel.sig Kind.scVector Space.smem Cert.Kernel.S512 EltTy.i32)
local notation "baW" => (Memref.whole Cert.Kernel.cc0_scratch4 : Memref Cert.Kernel.sig Kind.scVector Space.vmem Cert.Kernel.S16384 EltTy.f32)
local notation "bbW" => (Memref.whole Cert.Kernel.cc0_scratch5 : Memref Cert.Kernel.sig Kind.scVector Space.vmem Cert.Kernel.S16384 EltTy.f32)

variable (m : (ℓ : Loc nD τ sig) → Buf (Elt F) ℓ)
variable [FloatOps F]

section StageValAll

/-- Chunk 0: each landed run of the index buffer holds the chunk's 64 words of its column. -/
theorem stageVal0 (d : Dev nD) (L : grid0.Coords) : StageVal0 (F := F) m d L := by
  intro fsh prev j i
  have key : ∀ (jn : Nat) (hj : jn < 8), i ∈ runS ⟨jn, hj⟩ →
      Cp0 d L (m (c0Loc d)) (m (c1Loc d)) (m (c2Loc d)) (m (c3Loc d)) (m (c4Loc d)) (m (c5Loc d)) (m (c6Loc d)) (m (c7Loc d)) fsh prev ⟨jn, hj⟩ i = SMsem m d L 0 i := by
    intro jn hj
    interval_cases jn
    · exact sv_0_0 m d L fsh prev i
    · exact sv_0_1 m d L fsh prev i
    · exact sv_0_2 m d L fsh prev i
    · exact sv_0_3 m d L fsh prev i
    · exact sv_0_4 m d L fsh prev i
    · exact sv_0_5 m d L fsh prev i
    · exact sv_0_6 m d L fsh prev i
    · exact sv_0_7 m d L fsh prev i
  exact key j.val j.isLt

/-- Chunk 1: each landed run of the index buffer holds the chunk's 64 words of its column. -/
theorem stageVal1 (d : Dev nD) (L : grid0.Coords) : StageVal1 (F := F) m d L := by
  intro fsh prev j i
  have key : ∀ (jn : Nat) (hj : jn < 8), i ∈ runS ⟨jn, hj⟩ →
      Cp1 d L (m (c0Loc d)) (m (c1Loc d)) (m (c2Loc d)) (m (c3Loc d)) (m (c4Loc d)) (m (c5Loc d)) (m (c6Loc d)) (m (c7Loc d)) fsh prev ⟨jn, hj⟩ i = SMsem m d L 1 i := by
    intro jn hj
    interval_cases jn
    · exact sv_1_0 m d L fsh prev i
    · exact sv_1_1 m d L fsh prev i
    · exact sv_1_2 m d L fsh prev i
    · exact sv_1_3 m d L fsh prev i
    · exact sv_1_4 m d L fsh prev i
    · exact sv_1_5 m d L fsh prev i
    · exact sv_1_6 m d L fsh prev i
    · exact sv_1_7 m d L fsh prev i
  exact key j.val j.isLt

/-- Chunk 2: each landed run of the index buffer holds the chunk's 64 words of its column. -/
theorem stageVal2 (d : Dev nD) (L : grid0.Coords) : StageVal2 (F := F) m d L := by
  intro fsh prev j i
  have key : ∀ (jn : Nat) (hj : jn < 8), i ∈ runS ⟨jn, hj⟩ →
      Cp2 d L (m (c0Loc d)) (m (c1Loc d)) (m (c2Loc d)) (m (c3Loc d)) (m (c4Loc d)) (m (c5Loc d)) (m (c6Loc d)) (m (c7Loc d)) fsh prev ⟨jn, hj⟩ i = SMsem m d L 2 i := by
    intro jn hj
    interval_cases jn
    · exact sv_2_0 m d L fsh prev i
    · exact sv_2_1 m d L fsh prev i
    · exact sv_2_2 m d L fsh prev i
    · exact sv_2_3 m d L fsh prev i
    · exact sv_2_4 m d L fsh prev i
    · exact sv_2_5 m d L fsh prev i
    · exact sv_2_6 m d L fsh prev i
    · exact sv_2_7 m d L fsh prev i
  exact key j.val j.isLt

/-- Chunk 3: each landed run of the index buffer holds the chunk's 64 words of its column. -/
theorem stageVal3 (d : Dev nD) (L : grid0.Coords) : StageVal3 (F := F) m d L := by
  intro fsh prev j i
  have key : ∀ (jn : Nat) (hj : jn < 8), i ∈ runS ⟨jn, hj⟩ →
      Cp3 d L (m (c0Loc d)) (m (c1Loc d)) (m (c2Loc d)) (m (c3Loc d)) (m (c4Loc d)) (m (c5Loc d)) (m (c6Loc d)) (m (c7Loc d)) fsh prev ⟨jn, hj⟩ i = SMsem m d L 3 i := by
    intro jn hj
    interval_cases jn
    · exact sv_3_0 m d L fsh prev i
    · exact sv_3_1 m d L fsh prev i
    · exact sv_3_2 m d L fsh prev i
    · exact sv_3_3 m d L fsh prev i
    · exact sv_3_4 m d L fsh prev i
    · exact sv_3_5 m d L fsh prev i
    · exact sv_3_6 m d L fsh prev i
    · exact sv_3_7 m d L fsh prev i
  exact key j.val j.isLt

/-- Chunk 4: each landed run of the index buffer holds the chunk's 64 words of its column. -/
theorem stageVal4 (d : Dev nD) (L : grid0.Coords) : StageVal4 (F := F) m d L := by
  intro fsh prev j i
  have key : ∀ (jn : Nat) (hj : jn < 8), i ∈ runS ⟨jn, hj⟩ →
      Cp4 d L (m (c0Loc d)) (m (c1Loc d)) (m (c2Loc d)) (m (c3Loc d)) (m (c4Loc d)) (m (c5Loc d)) (m (c6Loc d)) (m (c7Loc d)) fsh prev ⟨jn, hj⟩ i = SMsem m d L 4 i := by
    intro jn hj
    interval_cases jn
    · exact sv_4_0 m d L fsh prev i
    · exact sv_4_1 m d L fsh prev i
    · exact sv_4_2 m d L fsh prev i
    · exact sv_4_3 m d L fsh prev i
    · exact sv_4_4 m d L fsh prev i
    · exact sv_4_5 m d L fsh prev i
    · exact sv_4_6 m d L fsh prev i
    · exact sv_4_7 m d L fsh prev i
  exact key j.val j.isLt

/-- Chunk 5: each landed run of the index buffer holds the chunk's 64 words of its column. -/
theorem stageVal5 (d : Dev nD) (L : grid0.Coords) : StageVal5 (F := F) m d L := by
  intro fsh prev j i
  have key : ∀ (jn : Nat) (hj : jn < 8), i ∈ runS ⟨jn, hj⟩ →
      Cp5 d L (m (c0Loc d)) (m (c1Loc d)) (m (c2Loc d)) (m (c3Loc d)) (m (c4Loc d)) (m (c5Loc d)) (m (c6Loc d)) (m (c7Loc d)) fsh prev ⟨jn, hj⟩ i = SMsem m d L 5 i := by
    intro jn hj
    interval_cases jn
    · exact sv_5_0 m d L fsh prev i
    · exact sv_5_1 m d L fsh prev i
    · exact sv_5_2 m d L fsh prev i
    · exact sv_5_3 m d L fsh prev i
    · exact sv_5_4 m d L fsh prev i
    · exact sv_5_5 m d L fsh prev i
    · exact sv_5_6 m d L fsh prev i
    · exact sv_5_7 m d L fsh prev i
  exact key j.val j.isLt

/-- Chunk 6: each landed run of the index buffer holds the chunk's 64 words of its column. -/
theorem stageVal6 (d : Dev nD) (L : grid0.Coords) : StageVal6 (F := F) m d L := by
  intro fsh prev j i
  have key : ∀ (jn : Nat) (hj : jn < 8), i ∈ runS ⟨jn, hj⟩ →
      Cp6 d L (m (c0Loc d)) (m (c1Loc d)) (m (c2Loc d)) (m (c3Loc d)) (m (c4Loc d)) (m (c5Loc d)) (m (c6Loc d)) (m (c7Loc d)) fsh prev ⟨jn, hj⟩ i = SMsem m d L 6 i := by
    intro jn hj
    interval_cases jn
    · exact sv_6_0 m d L fsh prev i
    · exact sv_6_1 m d L fsh prev i
    · exact sv_6_2 m d L fsh prev i
    · exact sv_6_3 m d L fsh prev i
    · exact sv_6_4 m d L fsh prev i
    · exact sv_6_5 m d L fsh prev i
    · exact sv_6_6 m d L fsh prev i
    · exact sv_6_7 m d L fsh prev i
  exact key j.val j.isLt

/-- Chunk 7: each landed run of the index buffer holds the chunk's 64 words of its column. -/
theorem stageVal7 (d : Dev nD) (L : grid0.Coords) : StageVal7 (F := F) m d L := by
  intro fsh prev j i
  have key : ∀ (jn : Nat) (hj : jn < 8), i ∈ runS ⟨jn, hj⟩ →
      Cp7 d L (m (c0Loc d)) (m (c1Loc d)) (m (c2Loc d)) (m (c3Loc d)) (m (c4Loc d)) (m (c5Loc d)) (m (c6Loc d)) (m (c7Loc d)) fsh prev ⟨jn, hj⟩ i = SMsem m d L 7 i := by
    intro jn hj
    interval_cases jn
    · exact sv_7_0 m d L fsh prev i
    · exact sv_7_1 m d L fsh prev i
    · exact sv_7_2 m d L fsh prev i
    · exact sv_7_3 m d L fsh prev i
    · exact sv_7_4 m d L fsh prev i
    · exact sv_7_5 m d L fsh prev i
    · exact sv_7_6 m d L fsh prev i
    · exact sv_7_7 m d L fsh prev i
  exact key j.val j.isLt

end StageValAll

end Cert.Proof.KB

end
-- ==== Proof.KB.PreOK.lean ====
/-
  The precondition gives what the kernel's proof asks of the launch memory: every index word is below 32. The
  precondition's integer part says so of the sixteen argument arrays; the eight index columns are the first eight.
-/
import proofs.«204821_g30846455120635_fold_wed_m_1292_33_alg».proof.Defs
import proofs.«204821_g30846455120635_fold_wed_m_1292_33_alg».proof.Proof.Gen.Pre_input_domain
import proofs.«204821_g30846455120635_fold_wed_m_1292_33_alg».proof.Proof.RefPre
import proofs.«204821_g30846455120635_fold_wed_m_1292_33_alg».proof.Proof.KB.Pay

noncomputable section

namespace Cert.Proof.KB

open Cert.Kernel Cert.Kernel.Gen

open Idealize.ShloMosaic

variable (m : (ℓ : Loc nD τ sig) → Buf (Elt Bits) ℓ)

/-- Under the precondition every index word of every device is below 32. -/
theorem preOK_of_pre_KB [Cert.Pre_input_domain.Facts] (h : Cert.Pre_Kernel m) : PreOK m := by
  intro d j b
  exact Cert.RefSide.idx_lt_of_pre (F := Bits) _ _ _ _ _ _ _ _ _ _ _ _ _ _ _ _ (h d) j b

end Cert.Proof.KB

end
-- ==== Proof.lean ====
/-
  The claim: the lookup kernel on the SparseCores' vector subcores and the reference's eight row gatherings laid side
  by side compute the same [16384, 256] array, entry (b, 32 j + e) = W_j[c_j[b]][e].

  The kernel's run (both at the word level and over the extended reals) is the SparseCore launch theorem applied to
  the task's proof: each of the 32 tasks stages its 512 words of every index column in its row of the shared scratch,
  copies the flat table into its own memory, and for each of its eight chunks of 64 rows stages the chunk's index
  words in scalar memory, fills a staging buffer row by row with the looked-up runs of 16 entries and writes the
  chunk out; the words are below 32 by the precondition, which is what the body's side conditions ask. The
  reference's run is read off its printed operations; under the precondition its in-range mask is all ones and its
  gather reads row c_j[b]. Both results are the one array of Spec.lean.
-/
import proofs.«204821_g30846455120635_fold_wed_m_1292_33_alg».proof.Defs
import proofs.«204821_g30846455120635_fold_wed_m_1292_33_alg».proof.Proof.Gen.Kernel
import proofs.«204821_g30846455120635_fold_wed_m_1292_33_alg».proof.Proof.Gen.KernelIdeal
import proofs.«204821_g30846455120635_fold_wed_m_1292_33_alg».proof.Proof.Gen.ReferenceIdeal
import proofs.«204821_g30846455120635_fold_wed_m_1292_33_alg».proof.Proof.Gen.Pre_input_domain
import proofs.«204821_g30846455120635_fold_wed_m_1292_33_alg».proof.Proof.RefSide
import proofs.«204821_g30846455120635_fold_wed_m_1292_33_alg».proof.Proof.KI.LaunchRun
import proofs.«204821_g30846455120635_fold_wed_m_1292_33_alg».proof.Proof.KI.Body
import proofs.«204821_g30846455120635_fold_wed_m_1292_33_alg».proof.Proof.KI.StageVal
import proofs.«204821_g30846455120635_fold_wed_m_1292_33_alg».proof.Proof.KI.PreOK
import proofs.«204821_g30846455120635_fold_wed_m_1292_33_alg».proof.Proof.KI.HostVal
import proofs.«204821_g30846455120635_fold_wed_m_1292_33_alg».proof.Proof.KB.LaunchRun
import proofs.«204821_g30846455120635_fold_wed_m_1292_33_alg».proof.Proof.KB.Body
import proofs.«204821_g30846455120635_fold_wed_m_1292_33_alg».proof.Proof.KB.StageVal
import proofs.«204821_g30846455120635_fold_wed_m_1292_33_alg».proof.Proof.KB.PreOK
import Idealize.ShloMosaic.Adequacy
import Idealize.ShloMosaic.Init

noncomputable section

namespace Cert.Proof

open Idealize.ShloMosaic Idealize.SL.Sem

/-- The task's proof at the word level and over the extended reals. -/
theorem body_bits (m : (ℓ : Loc Cert.Kernel.nD Cert.Kernel.τ Cert.Kernel.sig) → Buf (Elt Bits) ℓ) : Cert.Proof.KB.TileBodyStmt m :=
  Cert.Proof.KB.tile_body m (fun d L => Cert.Proof.KB.stageVal0 m d L) (fun d L => Cert.Proof.KB.stageVal1 m d L) (fun d L => Cert.Proof.KB.stageVal2 m d L) (fun d L => Cert.Proof.KB.stageVal3 m d L) (fun d L => Cert.Proof.KB.stageVal4 m d L) (fun d L => Cert.Proof.KB.stageVal5 m d L) (fun d L => Cert.Proof.KB.stageVal6 m d L) (fun d L => Cert.Proof.KB.stageVal7 m d L)
theorem body_ideal (m : (ℓ : Loc Cert.KernelIdeal.nD Cert.KernelIdeal.τ Cert.KernelIdeal.sig) → Buf (Elt Ideal) ℓ) : Cert.Proof.KI.TileBodyStmt m :=
  Cert.Proof.KI.tile_body m (fun d L => Cert.Proof.KI.stageVal0 m d L) (fun d L => Cert.Proof.KI.stageVal1 m d L) (fun d L => Cert.Proof.KI.stageVal2 m d L) (fun d L => Cert.Proof.KI.stageVal3 m d L) (fun d L => Cert.Proof.KI.stageVal4 m d L) (fun d L => Cert.Proof.KI.stageVal5 m d L) (fun d L => Cert.Proof.KI.stageVal6 m d L) (fun d L => Cert.Proof.KI.stageVal7 m d L)

theorem frame_k : Cert.frame_Kernel (hKernel := Cert.Kernel.Gen.facts) (hPre_input_domain := Cert.Pre_input_domain.Gen.facts) := fun m g hpre =>
  (θ_run (Cert.Kernel.defs (F := Bits)) _ _).mono (fun _ h c => (h c).2)
    (Cert.Proof.KB.run_main (F := Bits) m g (body_bits m) (Cert.Proof.KB.preOK_of_pre_KB m hpre))

theorem frame_ki : Cert.frame_KernelIdeal (hKernelIdeal := Cert.KernelIdeal.Gen.facts) (hPre_input_domain := Cert.Pre_input_domain.Gen.facts) := fun m g hpre =>
  (θ_run (Cert.KernelIdeal.defs (F := Ideal)) _ _).mono (fun _ h c => (h c).2)
    (Cert.Proof.KI.run_main (F := Ideal) m g (body_ideal m) (Cert.Proof.KI.preOK_of_pre_KI m hpre))

theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  have hpre' : Cert.Pre_ReferenceIdeal (hPre_input_domain := Cert.Pre_input_domain.Gen.facts) m' := by
    intro c
    obtain ⟨h0, h1, h2, h3, h4, h5, h6, h7, h8, h9, h10, h11, h12, h13, h14, h15⟩ := hagree c
    have := hpre c
    rw [h0, h1, h2, h3, h4, h5, h6, h7, h8, h9, h10, h11, h12, h13, h14, h15]
    exact this
  have hok := Cert.Proof.KI.preOK_of_pre_KI m hpre
  refine ⟨fun c => Cert.Proof.KI.RESof m c, Cert.Proof.KI.run_main (F := Ideal) m g (body_ideal m) hok, ?_⟩
  refine (θ_run (Cert.ReferenceIdeal.defs (F := Ideal)) _ _).mono (fun r h c => ⟨(h c).1.trans ?_, (h c).2⟩)
    (Cert.RefSide.ref_run m' g' hpre')
  obtain ⟨h0, h1, h2, h3, h4, h5, h6, h7, h8, h9, h10, h11, h12, h13, h14, h15⟩ := hagree c
  show _ = Cert.Proof.KI.RESof m c
  first
    | (rw [Cert.Proof.KI.RESof_eq m hok c, h0, h1, h2, h3, h4, h5, h6, h7, h8, h9, h10, h11, h12, h13, h14, h15]; done)
    | (rw [Cert.Proof.KI.RESof_eq m hok c, h0, h1, h2, h3, h4, h5, h6, h7, h8, h9, h10, h11, h12, h13, h14, h15]; rfl)

theorem claim : Cert.Claim :=
  ⟨Cert.Kernel.Gen.facts, Cert.KernelIdeal.Gen.facts, Cert.ReferenceIdeal.Gen.facts, Cert.Pre_input_domain.Gen.facts,
    frame_k, frame_ki, Cert.RefSide.frame_ri, trivial, algebraic⟩

end Cert.Proof

end
